-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v317)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v317) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v440) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x64 : Shape := ⟨2, ![256, 64]⟩
abbrev S9x64x64 : Shape := ⟨3, ![9, 64, 64]⟩
abbrev S64x256 : Shape := ⟨2, ![64, 256]⟩
abbrev S64 : Shape := ⟨1, ![64]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S9x64x64 : S_.BroadcastsInDim S9x64x64 (![] : Fin 0 → Fin S9x64x64.rank)
  reducesTo_S9x64x64_S_d0_1_2 : S9x64x64.ReducesTo [0, 1, 2] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S64 .f32) (main_arg9 : FVec F S256 .f32) (main_arg10 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S64 .f32) (main_arg6 : FVec F S64 .f32) (main_arg7 : FVec F S64 .f32) (main_arg8 : FVec F S64 .f32) (main_arg9 : FVec F S256 .f32) (main_arg10 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S200000x256 .f32) (main_arg1 : IVec S200000 32) (main_arg2 : FVec F S256x64 .f32) (main_arg3 : FVec F S9x64x64 .f32) (main_arg4 : FVec F S64x256 .f32) (main_arg5 : FVec F S64 .f32) (main_arg6 : FVec F S64 .f32) (main_arg7 : FVec F S64 .f32) (main_arg8 : FVec F S64 .f32) (main_arg9 : FVec F S256 .f32) (main_arg10 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S9x64x64 .f32 := Host.absf main_arg3
  let main_cst_2 : FVec F S_ .f32 := constant S_ .f32 0x7F800000#32
  let main_v10 : FVec F S9x64x64 .f32 := broadcastInDim S9x64x64 ![] bcast_S_S9x64x64 main_cst_2
  let main_v11 : IVec S9x64x64 1 := cmpf .olt main_v9 main_v10
  let main_c_3 : IVec S_ 1 := constantI S_ 1 1#1
  let main_v12 : IVec S_ 1 := (fun x v => Host.reduce IntOp.andi x v reducesTo_S9x64x64_S_d0_1_2 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_arg10 main_v13 main_v16
-- ==== Kernel.lean ====
abbrev S200000x256 : Shape := ⟨2, ![200000, 256]⟩
abbrev S200000 : Shape := ⟨1, ![200000]⟩
abbrev S256x64 : Shape := ⟨2, ![256, 64]⟩
abbrev S9x64x64 : Shape := ⟨3, ![9, 64, 64]⟩
abbrev S64x256 : Shape := ⟨2, ![64, 256]⟩
abbrev S64 : Shape := ⟨1, ![64]⟩
abbrev S256 : Shape := ⟨1, ![256]⟩
abbrev S1x64 : Shape := ⟨2, ![1, 64]⟩
abbrev S1x256 : Shape := ⟨2, ![1, 256]⟩
abbrev S200000x64 : Shape := ⟨2, ![200000, 64]⟩
abbrev S10000x256 : Shape := ⟨2, ![10000, 256]⟩
abbrev S10000x64 : Shape := ⟨2, ![10000, 64]⟩
abbrev S_ : Shape := ⟨0, ![]⟩
abbrev S589824 : Shape := ⟨1, ![589824]⟩
abbrev S200000x1 : Shape := ⟨2, ![200000, 1]⟩
abbrev S200001x64 : Shape := ⟨2, ![200001, 64]⟩
abbrev S200000x9 : Shape := ⟨2, ![200000, 9]⟩
abbrev S200000x9x1 : Shape := ⟨3, ![200000, 9, 1]⟩
abbrev S200000x9x64 : Shape := ⟨3, ![200000, 9, 64]⟩
abbrev S200000x576 : Shape := ⟨2, ![200000, 576]⟩
abbrev S5000x576 : Shape := ⟨2, ![5000, 576]⟩
abbrev S5000x256 : Shape := ⟨2, ![5000, 256]⟩
abbrev S5000x64 : Shape := ⟨2, ![5000, 64]⟩
abbrev S1x64x64 : Shape := ⟨3, ![1, 64, 64]⟩
abbrev S64x64 : Shape := ⟨2, ![64, 64]⟩

abbrev nBuf : Space → Nat
  | .hbm => 616
  | .vmem => 19
  | .smem => 0
  | _ => 0

abbrev hbmTy0_0 (i : Nat) : BufTy := match i % 128 with
  | 0 => ⟨S200000x256, .f32⟩
  | 1 => ⟨S200000, .i32⟩
  | 2 => ⟨S256x64, .f32⟩
  | 3 => ⟨S9x64x64, .f32⟩
  | 4 => ⟨S64x256, .f32⟩
  | 5 => ⟨S64, .f32⟩
  | 6 => ⟨S64, .f32⟩
  | 7 => ⟨S64, .f32⟩
  | 8 => ⟨S64, .f32⟩
  | 9 => ⟨S256, .f32⟩
  | 10 => ⟨S256, .f32⟩
  | 11 => ⟨S1x64, .f32⟩
  | 12 => ⟨S1x64, .f32⟩
  | 13 => ⟨S1x64, .f32⟩
  | 14 => ⟨S1x64, .f32⟩
  | 15 => ⟨S1x256, .f32⟩
  | 16 => ⟨S1x256, .f32⟩
  | 17 => ⟨S200000x64, .bf16⟩
  | 18 => ⟨S_, .i32⟩
  | 19 => ⟨S589824, .i32⟩
  | 20 => ⟨S200000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S589824, .i32⟩
  | 30 => ⟨S_, .i32⟩
  | 31 => ⟨S_, .i32⟩
  | 32 => ⟨S200000, .i32⟩
  | 33 => ⟨S200000, .i32⟩
  | 34 => ⟨S200000, .i32⟩
  | 35 => ⟨S_, .i32⟩
  | 36 => ⟨S200000, .i32⟩
  | 37 => ⟨S200000, .i1⟩
  | 38 => ⟨S200000, .i32⟩
  | 39 => ⟨S200000, .i32⟩
  | 40 => ⟨S_, .i32⟩
  | 41 => ⟨S200000, .i32⟩
  | 42 => ⟨S200000, .i1⟩
  | 43 => ⟨S200000, .i1⟩
  | 44 => ⟨S_, .i32⟩
  | 45 => ⟨S200000, .i32⟩
  | 46 => ⟨S200000, .i32⟩
  | 47 => ⟨S200000, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S200000, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i1⟩
  | 62 => ⟨S_, .i32⟩
  | 63 => ⟨S_, .i1⟩
  | 64 => ⟨S200000, .i1⟩
  | 65 => ⟨S200000, .i1⟩
  | 66 => ⟨S200000, .i1⟩
  | 67 => ⟨S200000, .i32⟩
  | 68 => ⟨S200000, .i32⟩
  | 69 => ⟨S200000, .i32⟩
  | 70 => ⟨S_, .bf16⟩
  | 71 => ⟨S1x64, .bf16⟩
  | 72 => ⟨S200001x64, .bf16⟩
  | 73 => ⟨S_, .i32⟩
  | 74 => ⟨S200000, .i32⟩
  | 75 => ⟨S200000, .i32⟩
  | 76 => ⟨S_, .i32⟩
  | 77 => ⟨S200000, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i1⟩
  | 85 => ⟨S200000, .i1⟩
  | 86 => ⟨S_, .i32⟩
  | 87 => ⟨S200000, .i32⟩
  | 88 => ⟨S200000, .i1⟩
  | 89 => ⟨S200000, .i1⟩
  | 90 => ⟨S_, .i32⟩
  | 91 => ⟨S200000, .i32⟩
  | 92 => ⟨S200000, .i1⟩
  | 93 => ⟨S200000, .i1⟩
  | 94 => ⟨S_, .i32⟩
  | 95 => ⟨S_, .i32⟩
  | 96 => ⟨S_, .i32⟩
  | 97 => ⟨S200000, .i32⟩
  | 98 => ⟨S200000, .i32⟩
  | 99 => ⟨S_, .i32⟩
  | 100 => ⟨S200000, .i32⟩
  | 101 => ⟨S200000, .i32⟩
  | 102 => ⟨S_, .i32⟩
  | 103 => ⟨S200000, .i32⟩
  | 104 => ⟨S200000, .i32⟩
  | 105 => ⟨S_, .i32⟩
  | 106 => ⟨S_, .i32⟩
  | 107 => ⟨S_, .i32⟩
  | 108 => ⟨S200000, .i32⟩
  | 109 => ⟨S200000, .i32⟩
  | 110 => ⟨S_, .i32⟩
  | 111 => ⟨S200000, .i32⟩
  | 112 => ⟨S200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000, .i32⟩
  | 123 => ⟨S_, .i32⟩
  | 124 => ⟨S200000, .i32⟩
  | 125 => ⟨S200000, .i1⟩
  | 126 => ⟨S200000, .i1⟩
  | 127 => ⟨S_, .i32⟩
  | _ => ⟨S200000x256, .f32⟩

abbrev hbmTy0_1 (i : Nat) : BufTy := match i % 128 with
  | 0 => ⟨S_, .i32⟩
  | 1 => ⟨S200000, .i32⟩
  | 2 => ⟨S200000, .i32⟩
  | 3 => ⟨S_, .i32⟩
  | 4 => ⟨S200000, .i32⟩
  | 5 => ⟨S200000, .i32⟩
  | 6 => ⟨S_, .i32⟩
  | 7 => ⟨S200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i1⟩
  | 15 => ⟨S200000, .i1⟩
  | 16 => ⟨S_, .i32⟩
  | 17 => ⟨S200000, .i32⟩
  | 18 => ⟨S200000, .i1⟩
  | 19 => ⟨S200000, .i1⟩
  | 20 => ⟨S_, .i32⟩
  | 21 => ⟨S200000, .i32⟩
  | 22 => ⟨S200000, .i1⟩
  | 23 => ⟨S200000, .i1⟩
  | 24 => ⟨S_, .i32⟩
  | 25 => ⟨S_, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i32⟩
  | 32 => ⟨S_, .i32⟩
  | 33 => ⟨S200000, .i32⟩
  | 34 => ⟨S200000, .i32⟩
  | 35 => ⟨S_, .i32⟩
  | 36 => ⟨S_, .i32⟩
  | 37 => ⟨S_, .i32⟩
  | 38 => ⟨S200000, .i32⟩
  | 39 => ⟨S200000, .i32⟩
  | 40 => ⟨S_, .i32⟩
  | 41 => ⟨S200000, .i32⟩
  | 42 => ⟨S200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000, .i32⟩
  | 53 => ⟨S_, .i32⟩
  | 54 => ⟨S200000, .i32⟩
  | 55 => ⟨S200000, .i1⟩
  | 56 => ⟨S200000, .i1⟩
  | 57 => ⟨S_, .i32⟩
  | 58 => ⟨S_, .i32⟩
  | 59 => ⟨S200000, .i32⟩
  | 60 => ⟨S200000, .i32⟩
  | 61 => ⟨S_, .i32⟩
  | 62 => ⟨S200000, .i32⟩
  | 63 => ⟨S200000, .i32⟩
  | 64 => ⟨S_, .i32⟩
  | 65 => ⟨S200000, .i32⟩
  | 66 => ⟨S200000, .i32⟩
  | 67 => ⟨S_, .i32⟩
  | 68 => ⟨S200000, .i32⟩
  | 69 => ⟨S200000, .i1⟩
  | 70 => ⟨S_, .i32⟩
  | 71 => ⟨S200000, .i32⟩
  | 72 => ⟨S200000, .i1⟩
  | 73 => ⟨S200000, .i1⟩
  | 74 => ⟨S_, .i32⟩
  | 75 => ⟨S200000, .i32⟩
  | 76 => ⟨S200000, .i1⟩
  | 77 => ⟨S200000, .i1⟩
  | 78 => ⟨S_, .i32⟩
  | 79 => ⟨S200000, .i32⟩
  | 80 => ⟨S200000, .i1⟩
  | 81 => ⟨S200000, .i1⟩
  | 82 => ⟨S_, .i32⟩
  | 83 => ⟨S_, .i32⟩
  | 84 => ⟨S_, .i32⟩
  | 85 => ⟨S200000, .i32⟩
  | 86 => ⟨S200000, .i32⟩
  | 87 => ⟨S_, .i32⟩
  | 88 => ⟨S200000, .i32⟩
  | 89 => ⟨S200000, .i32⟩
  | 90 => ⟨S_, .i32⟩
  | 91 => ⟨S200000, .i32⟩
  | 92 => ⟨S200000, .i32⟩
  | 93 => ⟨S_, .i32⟩
  | 94 => ⟨S_, .i32⟩
  | 95 => ⟨S_, .i32⟩
  | 96 => ⟨S200000, .i32⟩
  | 97 => ⟨S200000, .i32⟩
  | 98 => ⟨S_, .i32⟩
  | 99 => ⟨S200000, .i32⟩
  | 100 => ⟨S200000, .i32⟩
  | 101 => ⟨S200000, .i32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S200000, .i32⟩
  | 111 => ⟨S_, .i32⟩
  | 112 => ⟨S200000, .i32⟩
  | 113 => ⟨S200000, .i1⟩
  | 114 => ⟨S200000, .i1⟩
  | 115 => ⟨S_, .i32⟩
  | 116 => ⟨S_, .i32⟩
  | 117 => ⟨S200000, .i32⟩
  | 118 => ⟨S200000, .i32⟩
  | 119 => ⟨S_, .i32⟩
  | 120 => ⟨S200000, .i32⟩
  | 121 => ⟨S200000, .i32⟩
  | 122 => ⟨S_, .i32⟩
  | 123 => ⟨S200000, .i32⟩
  | 124 => ⟨S200000, .i32⟩
  | 125 => ⟨S_, .i32⟩
  | 126 => ⟨S200000, .i32⟩
  | 127 => ⟨S200000, .i1⟩
  | _ => ⟨S200000x256, .f32⟩

abbrev hbmTy0_2 (i : Nat) : BufTy := match i % 128 with
  | 0 => ⟨S_, .i32⟩
  | 1 => ⟨S200000, .i32⟩
  | 2 => ⟨S200000, .i1⟩
  | 3 => ⟨S200000, .i1⟩
  | 4 => ⟨S_, .i32⟩
  | 5 => ⟨S200000, .i32⟩
  | 6 => ⟨S200000, .i1⟩
  | 7 => ⟨S200000, .i1⟩
  | 8 => ⟨S_, .i32⟩
  | 9 => ⟨S200000, .i32⟩
  | 10 => ⟨S200000, .i1⟩
  | 11 => ⟨S200000, .i1⟩
  | 12 => ⟨S_, .i32⟩
  | 13 => ⟨S_, .i32⟩
  | 14 => ⟨S_, .i32⟩
  | 15 => ⟨S200000, .i32⟩
  | 16 => ⟨S200000, .i32⟩
  | 17 => ⟨S_, .i32⟩
  | 18 => ⟨S200000, .i32⟩
  | 19 => ⟨S200000, .i32⟩
  | 20 => ⟨S_, .i32⟩
  | 21 => ⟨S200000, .i32⟩
  | 22 => ⟨S200000, .i32⟩
  | 23 => ⟨S_, .i32⟩
  | 24 => ⟨S_, .i32⟩
  | 25 => ⟨S_, .i32⟩
  | 26 => ⟨S200000, .i32⟩
  | 27 => ⟨S200000, .i32⟩
  | 28 => ⟨S_, .i32⟩
  | 29 => ⟨S200000, .i32⟩
  | 30 => ⟨S200000, .i32⟩
  | 31 => ⟨S200000, .i32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000, .i32⟩
  | 41 => ⟨S_, .i32⟩
  | 42 => ⟨S200000, .i32⟩
  | 43 => ⟨S200000, .i1⟩
  | 44 => ⟨S200000, .i1⟩
  | 45 => ⟨S_, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i32⟩
  | 52 => ⟨S_, .i32⟩
  | 53 => ⟨S200000, .i32⟩
  | 54 => ⟨S200000, .i32⟩
  | 55 => ⟨S_, .i32⟩
  | 56 => ⟨S200000, .i32⟩
  | 57 => ⟨S200000, .i1⟩
  | 58 => ⟨S_, .i32⟩
  | 59 => ⟨S200000, .i32⟩
  | 60 => ⟨S200000, .i1⟩
  | 61 => ⟨S200000, .i1⟩
  | 62 => ⟨S_, .i32⟩
  | 63 => ⟨S200000, .i32⟩
  | 64 => ⟨S200000, .i1⟩
  | 65 => ⟨S200000, .i1⟩
  | 66 => ⟨S_, .i32⟩
  | 67 => ⟨S200000, .i32⟩
  | 68 => ⟨S200000, .i1⟩
  | 69 => ⟨S200000, .i1⟩
  | 70 => ⟨S_, .i32⟩
  | 71 => ⟨S_, .i32⟩
  | 72 => ⟨S_, .i32⟩
  | 73 => ⟨S200000, .i32⟩
  | 74 => ⟨S200000, .i32⟩
  | 75 => ⟨S_, .i32⟩
  | 76 => ⟨S200000, .i32⟩
  | 77 => ⟨S200000, .i32⟩
  | 78 => ⟨S_, .i32⟩
  | 79 => ⟨S200000, .i32⟩
  | 80 => ⟨S200000, .i32⟩
  | 81 => ⟨S_, .i32⟩
  | 82 => ⟨S_, .i32⟩
  | 83 => ⟨S_, .i32⟩
  | 84 => ⟨S200000, .i32⟩
  | 85 => ⟨S200000, .i32⟩
  | 86 => ⟨S_, .i32⟩
  | 87 => ⟨S200000, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000, .i32⟩
  | 99 => ⟨S_, .i32⟩
  | 100 => ⟨S200000, .i32⟩
  | 101 => ⟨S200000, .i1⟩
  | 102 => ⟨S200000, .i1⟩
  | 103 => ⟨S_, .i32⟩
  | 104 => ⟨S_, .i32⟩
  | 105 => ⟨S200000, .i32⟩
  | 106 => ⟨S200000, .i32⟩
  | 107 => ⟨S_, .i32⟩
  | 108 => ⟨S200000, .i32⟩
  | 109 => ⟨S200000, .i32⟩
  | 110 => ⟨S_, .i32⟩
  | 111 => ⟨S200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i1⟩
  | 119 => ⟨S200000, .i1⟩
  | 120 => ⟨S_, .i32⟩
  | 121 => ⟨S200000, .i32⟩
  | 122 => ⟨S200000, .i1⟩
  | 123 => ⟨S200000, .i1⟩
  | 124 => ⟨S_, .i32⟩
  | 125 => ⟨S200000, .i32⟩
  | 126 => ⟨S200000, .i1⟩
  | 127 => ⟨S200000, .i1⟩
  | _ => ⟨S200000x256, .f32⟩

abbrev hbmTy0_3 (i : Nat) : BufTy := match i % 128 with
  | 0 => ⟨S_, .i32⟩
  | 1 => ⟨S_, .i32⟩
  | 2 => ⟨S_, .i32⟩
  | 3 => ⟨S200000, .i32⟩
  | 4 => ⟨S200000, .i32⟩
  | 5 => ⟨S_, .i32⟩
  | 6 => ⟨S200000, .i32⟩
  | 7 => ⟨S200000, .i32⟩
  | 8 => ⟨S_, .i32⟩
  | 9 => ⟨S200000, .i32⟩
  | 10 => ⟨S200000, .i32⟩
  | 11 => ⟨S_, .i32⟩
  | 12 => ⟨S_, .i32⟩
  | 13 => ⟨S_, .i32⟩
  | 14 => ⟨S200000, .i32⟩
  | 15 => ⟨S200000, .i32⟩
  | 16 => ⟨S_, .i32⟩
  | 17 => ⟨S200000, .i32⟩
  | 18 => ⟨S200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000, .i32⟩
  | 29 => ⟨S_, .i32⟩
  | 30 => ⟨S200000, .i32⟩
  | 31 => ⟨S200000, .i1⟩
  | 32 => ⟨S200000, .i1⟩
  | 33 => ⟨S_, .i32⟩
  | 34 => ⟨S_, .i32⟩
  | 35 => ⟨S200000, .i32⟩
  | 36 => ⟨S200000, .i32⟩
  | 37 => ⟨S_, .i32⟩
  | 38 => ⟨S200000, .i32⟩
  | 39 => ⟨S200000, .i32⟩
  | 40 => ⟨S_, .i32⟩
  | 41 => ⟨S200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i1⟩
  | 49 => ⟨S200000, .i1⟩
  | 50 => ⟨S_, .i32⟩
  | 51 => ⟨S200000, .i32⟩
  | 52 => ⟨S200000, .i1⟩
  | 53 => ⟨S200000, .i1⟩
  | 54 => ⟨S_, .i32⟩
  | 55 => ⟨S200000, .i32⟩
  | 56 => ⟨S200000, .i1⟩
  | 57 => ⟨S200000, .i1⟩
  | 58 => ⟨S_, .i32⟩
  | 59 => ⟨S_, .i32⟩
  | 60 => ⟨S_, .i32⟩
  | 61 => ⟨S200000, .i32⟩
  | 62 => ⟨S200000, .i32⟩
  | 63 => ⟨S_, .i32⟩
  | 64 => ⟨S200000, .i32⟩
  | 65 => ⟨S200000, .i32⟩
  | 66 => ⟨S_, .i32⟩
  | 67 => ⟨S200000, .i32⟩
  | 68 => ⟨S200000, .i32⟩
  | 69 => ⟨S_, .i32⟩
  | 70 => ⟨S_, .i32⟩
  | 71 => ⟨S_, .i32⟩
  | 72 => ⟨S200000, .i32⟩
  | 73 => ⟨S200000, .i32⟩
  | 74 => ⟨S_, .i32⟩
  | 75 => ⟨S200000, .i32⟩
  | 76 => ⟨S200000, .i32⟩
  | 77 => ⟨S200000, .i32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000, .i32⟩
  | 87 => ⟨S_, .i32⟩
  | 88 => ⟨S200000, .i32⟩
  | 89 => ⟨S200000, .i1⟩
  | 90 => ⟨S200000, .i1⟩
  | 91 => ⟨S_, .i32⟩
  | 92 => ⟨S_, .i32⟩
  | 93 => ⟨S200000, .i32⟩
  | 94 => ⟨S200000, .i32⟩
  | 95 => ⟨S_, .i32⟩
  | 96 => ⟨S200000, .i32⟩
  | 97 => ⟨S200000, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i1⟩
  | 107 => ⟨S200000, .i1⟩
  | 108 => ⟨S_, .i32⟩
  | 109 => ⟨S200000, .i32⟩
  | 110 => ⟨S200000, .i1⟩
  | 111 => ⟨S200000, .i1⟩
  | 112 => ⟨S_, .i32⟩
  | 113 => ⟨S200000, .i32⟩
  | 114 => ⟨S200000, .i1⟩
  | 115 => ⟨S200000, .i1⟩
  | 116 => ⟨S_, .i32⟩
  | 117 => ⟨S_, .i32⟩
  | 118 => ⟨S_, .i32⟩
  | 119 => ⟨S200000, .i32⟩
  | 120 => ⟨S200000, .i32⟩
  | 121 => ⟨S_, .i32⟩
  | 122 => ⟨S200000, .i32⟩
  | 123 => ⟨S200000, .i32⟩
  | 124 => ⟨S_, .i32⟩
  | 125 => ⟨S200000, .i32⟩
  | 126 => ⟨S200000, .i32⟩
  | 127 => ⟨S_, .i32⟩
  | _ => ⟨S200000x256, .f32⟩

abbrev hbmTy0_4 (i : Nat) : BufTy := match i % 128 with
  | 0 => ⟨S_, .i32⟩
  | 1 => ⟨S_, .i32⟩
  | 2 => ⟨S200000, .i32⟩
  | 3 => ⟨S200000, .i32⟩
  | 4 => ⟨S_, .i32⟩
  | 5 => ⟨S200000, .i32⟩
  | 6 => ⟨S200000, .i32⟩
  | 7 => ⟨S200000, .i32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000, .i32⟩
  | 17 => ⟨S_, .i32⟩
  | 18 => ⟨S200000, .i32⟩
  | 19 => ⟨S200000, .i1⟩
  | 20 => ⟨S200000, .i1⟩
  | 21 => ⟨S_, .i32⟩
  | 22 => ⟨S_, .i32⟩
  | 23 => ⟨S200000, .i32⟩
  | 24 => ⟨S200000, .i32⟩
  | 25 => ⟨S_, .i32⟩
  | 26 => ⟨S200000, .i32⟩
  | 27 => ⟨S200000, .i32⟩
  | 28 => ⟨S_, .i32⟩
  | 29 => ⟨S200000, .i32⟩
  | 30 => ⟨S200000, .i32⟩
  | 31 => ⟨S_, .i32⟩
  | 32 => ⟨S200000, .i32⟩
  | 33 => ⟨S200000, .i1⟩
  | 34 => ⟨S_, .i32⟩
  | 35 => ⟨S200000, .i32⟩
  | 36 => ⟨S200000, .i1⟩
  | 37 => ⟨S200000, .i1⟩
  | 38 => ⟨S_, .i32⟩
  | 39 => ⟨S200000, .i32⟩
  | 40 => ⟨S200000, .i1⟩
  | 41 => ⟨S200000, .i1⟩
  | 42 => ⟨S_, .i32⟩
  | 43 => ⟨S200000, .i32⟩
  | 44 => ⟨S200000, .i1⟩
  | 45 => ⟨S200000, .i1⟩
  | 46 => ⟨S_, .i32⟩
  | 47 => ⟨S_, .i32⟩
  | 48 => ⟨S_, .i32⟩
  | 49 => ⟨S200000, .i32⟩
  | 50 => ⟨S200000, .i32⟩
  | 51 => ⟨S_, .i32⟩
  | 52 => ⟨S200000, .i32⟩
  | 53 => ⟨S200000, .i32⟩
  | 54 => ⟨S_, .i32⟩
  | 55 => ⟨S200000, .i32⟩
  | 56 => ⟨S200000, .i32⟩
  | 57 => ⟨S_, .i32⟩
  | 58 => ⟨S_, .i32⟩
  | 59 => ⟨S_, .i32⟩
  | 60 => ⟨S200000, .i32⟩
  | 61 => ⟨S200000, .i32⟩
  | 62 => ⟨S_, .i32⟩
  | 63 => ⟨S200000, .i32⟩
  | 64 => ⟨S200000, .i32⟩
  | 65 => ⟨S200000, .i32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S200000, .i32⟩
  | 75 => ⟨S_, .i32⟩
  | 76 => ⟨S200000, .i32⟩
  | 77 => ⟨S200000, .i1⟩
  | 78 => ⟨S200000, .i1⟩
  | 79 => ⟨S_, .i32⟩
  | 80 => ⟨S_, .i32⟩
  | 81 => ⟨S200000, .i32⟩
  | 82 => ⟨S200000, .i32⟩
  | 83 => ⟨S200000x1, .i32⟩
  | 84 => ⟨S200000x1, .i32⟩
  | 85 => ⟨S200000x1, .i32⟩
  | 86 => ⟨S200000x1, .i32⟩
  | 87 => ⟨S200000x1, .i32⟩
  | 88 => ⟨S200000x1, .i32⟩
  | 89 => ⟨S200000x1, .i32⟩
  | 90 => ⟨S200000x1, .i32⟩
  | 91 => ⟨S200000x1, .i32⟩
  | 92 => ⟨S200000x9, .i32⟩
  | 93 => ⟨S_, .i32⟩
  | 94 => ⟨S200000x9, .i32⟩
  | 95 => ⟨S200000x9, .i1⟩
  | 96 => ⟨S_, .i32⟩
  | 97 => ⟨S200000x9, .i32⟩
  | 98 => ⟨S200000x9, .i32⟩
  | 99 => ⟨S200000x9, .i32⟩
  | 100 => ⟨S200000x9x1, .i32⟩
  | 101 => ⟨S200000x9x64, .bf16⟩
  | 102 => ⟨S200000x576, .bf16⟩
  | 103 => ⟨S200000x256, .f32⟩
  | _ => ⟨S200000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S200000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S1x64, .f32⟩
  | .local _ .vmem, ⟨4, _⟩ => ⟨S1x64, .f32⟩
  | .local _ .vmem, ⟨5, _⟩ => ⟨S10000x64, .bf16⟩
  | .local _ .vmem, ⟨6, _⟩ => ⟨S10000x64, .bf16⟩
  | .local _ .vmem, ⟨7, _⟩ => ⟨S5000x576, .bf16⟩
  | .local _ .vmem, ⟨8, _⟩ => ⟨S5000x576, .bf16⟩
  | .local _ .vmem, ⟨9, _⟩ => ⟨S9x64x64, .f32⟩
  | .local _ .vmem, ⟨10, _⟩ => ⟨S1x64, .f32⟩
  | .local _ .vmem, ⟨11, _⟩ => ⟨S1x64, .f32⟩
  | .local _ .vmem, ⟨12, _⟩ => ⟨S64x256, .f32⟩
  | .local _ .vmem, ⟨13, _⟩ => ⟨S1x256, .f32⟩
  | .local _ .vmem, ⟨14, _⟩ => ⟨S1x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v16 : Ref sig .tc := ⟨.hbm, 47, rfl⟩
abbrev main_c_3 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v17 : Ref sig .tc := ⟨.hbm, 69, rfl⟩
abbrev main_cst : Ref sig .tc := ⟨.hbm, 70, rfl⟩
abbrev main_v18 : Ref sig .tc := ⟨.hbm, 71, rfl⟩
abbrev main_v19 : Ref sig .tc := ⟨.hbm, 72, rfl⟩
abbrev main_c_4 : Ref sig .tc := ⟨.hbm, 73, rfl⟩
abbrev main_v20 : Ref sig .tc := ⟨.hbm, 74, rfl⟩
abbrev main_v21 : Ref sig .tc := ⟨.hbm, 75, rfl⟩
abbrev main_c_5 : Ref sig .tc := ⟨.hbm, 76, rfl⟩
abbrev main_v22 : Ref sig .tc := ⟨.hbm, 77, rfl⟩
abbrev main_v23 : Ref sig .tc := ⟨.hbm, 78, rfl⟩
abbrev main_c_6 : Ref sig .tc := ⟨.hbm, 79, rfl⟩
abbrev main_v24 : Ref sig .tc := ⟨.hbm, 80, rfl⟩
abbrev main_v25 : Ref sig .tc := ⟨.hbm, 81, rfl⟩
abbrev main_c_7 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_8 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_9 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_c_10 : Ref sig .tc := ⟨.hbm, 94, rfl⟩
abbrev main_c_11 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v35 : Ref sig .tc := ⟨.hbm, 101, rfl⟩
abbrev main_c_12 : Ref sig .tc := ⟨.hbm, 102, rfl⟩
abbrev main_v36 : Ref sig .tc := ⟨.hbm, 103, rfl⟩
abbrev main_v37 : Ref sig .tc := ⟨.hbm, 104, rfl⟩
abbrev main_c_13 : Ref sig .tc := ⟨.hbm, 105, rfl⟩
abbrev main_c_14 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v38 : Ref sig .tc := ⟨.hbm, 112, rfl⟩
abbrev main_v39 : Ref sig .tc := ⟨.hbm, 113, rfl⟩
abbrev main_c_15 : Ref sig .tc := ⟨.hbm, 114, rfl⟩
abbrev main_v40 : Ref sig .tc := ⟨.hbm, 115, rfl⟩
abbrev main_v41 : Ref sig .tc := ⟨.hbm, 116, rfl⟩
abbrev main_c_16 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_c_17 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_c_18 : Ref sig .tc := ⟨.hbm, 127, rfl⟩
abbrev main_call4_v0 : Ref sig .tc := ⟨.hbm, 128, rfl⟩
abbrev main_call4_v1 : Ref sig .tc := ⟨.hbm, 129, rfl⟩
abbrev main_v50 : Ref sig .tc := ⟨.hbm, 130, rfl⟩
abbrev main_c_19 : Ref sig .tc := ⟨.hbm, 131, rfl⟩
abbrev main_v51 : Ref sig .tc := ⟨.hbm, 132, rfl⟩
abbrev main_v52 : Ref sig .tc := ⟨.hbm, 133, rfl⟩
abbrev main_c_20 : Ref sig .tc := ⟨.hbm, 134, rfl⟩
abbrev main_v53 : Ref sig .tc := ⟨.hbm, 135, rfl⟩
abbrev main_v54 : Ref sig .tc := ⟨.hbm, 136, rfl⟩
abbrev main_c_21 : Ref sig .tc := ⟨.hbm, 137, rfl⟩
abbrev main_v55 : Ref sig .tc := ⟨.hbm, 138, rfl⟩
abbrev main_v56 : Ref sig .tc := ⟨.hbm, 139, rfl⟩
abbrev main_c_22 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_c_23 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_c_24 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_c_25 : Ref sig .tc := ⟨.hbm, 152, rfl⟩
abbrev main_c_26 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v66 : Ref sig .tc := ⟨.hbm, 159, rfl⟩
abbrev main_c_27 : Ref sig .tc := ⟨.hbm, 160, rfl⟩
abbrev main_v67 : Ref sig .tc := ⟨.hbm, 161, rfl⟩
abbrev main_v68 : Ref sig .tc := ⟨.hbm, 162, rfl⟩
abbrev main_c_28 : Ref sig .tc := ⟨.hbm, 163, rfl⟩
abbrev main_c_29 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_v69 : Ref sig .tc := ⟨.hbm, 170, rfl⟩
abbrev main_v70 : Ref sig .tc := ⟨.hbm, 171, rfl⟩
abbrev main_c_30 : Ref sig .tc := ⟨.hbm, 172, rfl⟩
abbrev main_v71 : Ref sig .tc := ⟨.hbm, 173, rfl⟩
abbrev main_v72 : Ref sig .tc := ⟨.hbm, 174, rfl⟩
abbrev main_c_31 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_c_32 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_33 : Ref sig .tc := ⟨.hbm, 185, rfl⟩
abbrev main_call7_v0 : Ref sig .tc := ⟨.hbm, 186, rfl⟩
abbrev main_call7_v1 : Ref sig .tc := ⟨.hbm, 187, rfl⟩
abbrev main_v81 : Ref sig .tc := ⟨.hbm, 188, rfl⟩
abbrev main_c_34 : Ref sig .tc := ⟨.hbm, 189, rfl⟩
abbrev main_v82 : Ref sig .tc := ⟨.hbm, 190, rfl⟩
abbrev main_v83 : Ref sig .tc := ⟨.hbm, 191, rfl⟩
abbrev main_c_35 : Ref sig .tc := ⟨.hbm, 192, rfl⟩
abbrev main_v84 : Ref sig .tc := ⟨.hbm, 193, rfl⟩
abbrev main_v85 : Ref sig .tc := ⟨.hbm, 194, rfl⟩
abbrev main_c_36 : Ref sig .tc := ⟨.hbm, 195, rfl⟩
abbrev main_v86 : Ref sig .tc := ⟨.hbm, 196, rfl⟩
abbrev main_v87 : Ref sig .tc := ⟨.hbm, 197, rfl⟩
abbrev main_c_37 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_c_38 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_c_39 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_c_40 : Ref sig .tc := ⟨.hbm, 210, rfl⟩
abbrev main_c_41 : Ref sig .tc := ⟨.hbm, 211, rfl⟩
abbrev main_call8_v0 : Ref sig .tc := ⟨.hbm, 212, rfl⟩
abbrev main_call8_v1 : Ref sig .tc := ⟨.hbm, 213, rfl⟩
abbrev main_call8_v2 : Ref sig .tc := ⟨.hbm, 214, rfl⟩
abbrev main_call8_v3 : Ref sig .tc := ⟨.hbm, 215, rfl⟩
abbrev main_call8_v4 : Ref sig .tc := ⟨.hbm, 216, rfl⟩
abbrev main_v97 : Ref sig .tc := ⟨.hbm, 217, rfl⟩
abbrev main_c_42 : Ref sig .tc := ⟨.hbm, 218, rfl⟩
abbrev main_v98 : Ref sig .tc := ⟨.hbm, 219, rfl⟩
abbrev main_v99 : Ref sig .tc := ⟨.hbm, 220, rfl⟩
abbrev main_c_43 : Ref sig .tc := ⟨.hbm, 221, rfl⟩
abbrev main_c_44 : Ref sig .tc := ⟨.hbm, 222, rfl⟩
abbrev main_call9_v0 : Ref sig .tc := ⟨.hbm, 223, rfl⟩
abbrev main_call9_v1 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_v100 : Ref sig .tc := ⟨.hbm, 228, rfl⟩
abbrev main_v101 : Ref sig .tc := ⟨.hbm, 229, rfl⟩
abbrev main_c_45 : Ref sig .tc := ⟨.hbm, 230, rfl⟩
abbrev main_v102 : Ref sig .tc := ⟨.hbm, 231, rfl⟩
abbrev main_v103 : Ref sig .tc := ⟨.hbm, 232, rfl⟩
abbrev main_c_46 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_c_47 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_c_48 : Ref sig .tc := ⟨.hbm, 243, rfl⟩
abbrev main_call10_v0 : Ref sig .tc := ⟨.hbm, 244, rfl⟩
abbrev main_call10_v1 : Ref sig .tc := ⟨.hbm, 245, rfl⟩
abbrev main_v112 : Ref sig .tc := ⟨.hbm, 246, rfl⟩
abbrev main_c_49 : Ref sig .tc := ⟨.hbm, 247, rfl⟩
abbrev main_v113 : Ref sig .tc := ⟨.hbm, 248, rfl⟩
abbrev main_v114 : Ref sig .tc := ⟨.hbm, 249, rfl⟩
abbrev main_c_50 : Ref sig .tc := ⟨.hbm, 250, rfl⟩
abbrev main_v115 : Ref sig .tc := ⟨.hbm, 251, rfl⟩
abbrev main_v116 : Ref sig .tc := ⟨.hbm, 252, rfl⟩
abbrev main_c_51 : Ref sig .tc := ⟨.hbm, 253, rfl⟩
abbrev main_v117 : Ref sig .tc := ⟨.hbm, 254, rfl⟩
abbrev main_v118 : Ref sig .tc := ⟨.hbm, 255, rfl⟩
abbrev main_c_52 : Ref sig .tc := ⟨.hbm, 256, rfl⟩
abbrev main_v119 : Ref sig .tc := ⟨.hbm, 257, rfl⟩
abbrev main_v120 : Ref sig .tc := ⟨.hbm, 258, rfl⟩
abbrev main_v121 : Ref sig .tc := ⟨.hbm, 259, rfl⟩
abbrev main_c_53 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_c_54 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_c_55 : Ref sig .tc := ⟨.hbm, 268, rfl⟩
abbrev main_c_56 : Ref sig .tc := ⟨.hbm, 269, rfl⟩
abbrev main_call11_v0 : Ref sig .tc := ⟨.hbm, 270, rfl⟩
abbrev main_call11_v1 : Ref sig .tc := ⟨.hbm, 271, rfl⟩
abbrev main_call11_v2 : Ref sig .tc := ⟨.hbm, 272, rfl⟩
abbrev main_call11_v3 : Ref sig .tc := ⟨.hbm, 273, rfl⟩
abbrev main_call11_v4 : Ref sig .tc := ⟨.hbm, 274, rfl⟩
abbrev main_v128 : Ref sig .tc := ⟨.hbm, 275, rfl⟩
abbrev main_c_57 : Ref sig .tc := ⟨.hbm, 276, rfl⟩
abbrev main_v129 : Ref sig .tc := ⟨.hbm, 277, rfl⟩
abbrev main_v130 : Ref sig .tc := ⟨.hbm, 278, rfl⟩
abbrev main_c_58 : Ref sig .tc := ⟨.hbm, 279, rfl⟩
abbrev main_c_59 : Ref sig .tc := ⟨.hbm, 280, rfl⟩
abbrev main_call12_v0 : Ref sig .tc := ⟨.hbm, 281, rfl⟩
abbrev main_call12_v1 : Ref sig .tc := ⟨.hbm, 282, rfl⟩
abbrev main_call12_v2 : Ref sig .tc := ⟨.hbm, 283, rfl⟩
abbrev main_call12_v3 : Ref sig .tc := ⟨.hbm, 284, rfl⟩
abbrev main_call12_v4 : Ref sig .tc := ⟨.hbm, 285, rfl⟩
abbrev main_v131 : Ref sig .tc := ⟨.hbm, 286, rfl⟩
abbrev main_v132 : Ref sig .tc := ⟨.hbm, 287, rfl⟩
abbrev main_c_60 : Ref sig .tc := ⟨.hbm, 288, rfl⟩
abbrev main_v133 : Ref sig .tc := ⟨.hbm, 289, rfl⟩
abbrev main_v134 : Ref sig .tc := ⟨.hbm, 290, rfl⟩
abbrev main_c_61 : Ref sig .tc := ⟨.hbm, 291, rfl⟩
abbrev main_v135 : Ref sig .tc := ⟨.hbm, 292, rfl⟩
abbrev main_v136 : Ref sig .tc := ⟨.hbm, 293, rfl⟩
abbrev main_v137 : Ref sig .tc := ⟨.hbm, 294, rfl⟩
abbrev main_v138 : Ref sig .tc := ⟨.hbm, 295, rfl⟩
abbrev main_v139 : Ref sig .tc := ⟨.hbm, 296, rfl⟩
abbrev main_c_62 : Ref sig .tc := ⟨.hbm, 297, rfl⟩
abbrev main_v140 : Ref sig .tc := ⟨.hbm, 298, rfl⟩
abbrev main_v141 : Ref sig .tc := ⟨.hbm, 299, rfl⟩
abbrev main_v142 : Ref sig .tc := ⟨.hbm, 300, rfl⟩
abbrev main_c_63 : Ref sig .tc := ⟨.hbm, 301, rfl⟩
abbrev main_call13_v0 : Ref sig .tc := ⟨.hbm, 302, rfl⟩
abbrev main_call13_v1 : Ref sig .tc := ⟨.hbm, 303, rfl⟩
abbrev main_v143 : Ref sig .tc := ⟨.hbm, 304, rfl⟩
abbrev main_c_64 : Ref sig .tc := ⟨.hbm, 305, rfl⟩
abbrev main_v144 : Ref sig .tc := ⟨.hbm, 306, rfl⟩
abbrev main_v145 : Ref sig .tc := ⟨.hbm, 307, rfl⟩
abbrev main_c_65 : Ref sig .tc := ⟨.hbm, 308, rfl⟩
abbrev main_v146 : Ref sig .tc := ⟨.hbm, 309, rfl⟩
abbrev main_v147 : Ref sig .tc := ⟨.hbm, 310, rfl⟩
abbrev main_c_66 : Ref sig .tc := ⟨.hbm, 311, rfl⟩
abbrev main_v148 : Ref sig .tc := ⟨.hbm, 312, rfl⟩
abbrev main_v149 : Ref sig .tc := ⟨.hbm, 313, rfl⟩
abbrev main_c_67 : Ref sig .tc := ⟨.hbm, 314, rfl⟩
abbrev main_v150 : Ref sig .tc := ⟨.hbm, 315, rfl⟩
abbrev main_v151 : Ref sig .tc := ⟨.hbm, 316, rfl⟩
abbrev main_v152 : Ref sig .tc := ⟨.hbm, 317, rfl⟩
abbrev main_c_68 : Ref sig .tc := ⟨.hbm, 318, rfl⟩
abbrev main_v153 : Ref sig .tc := ⟨.hbm, 319, rfl⟩
abbrev main_v154 : Ref sig .tc := ⟨.hbm, 320, rfl⟩
abbrev main_v155 : Ref sig .tc := ⟨.hbm, 321, rfl⟩
abbrev main_c_69 : Ref sig .tc := ⟨.hbm, 322, rfl⟩
abbrev main_v156 : Ref sig .tc := ⟨.hbm, 323, rfl⟩
abbrev main_v157 : Ref sig .tc := ⟨.hbm, 324, rfl⟩
abbrev main_v158 : Ref sig .tc := ⟨.hbm, 325, rfl⟩
abbrev main_c_70 : Ref sig .tc := ⟨.hbm, 326, rfl⟩
abbrev main_c_71 : Ref sig .tc := ⟨.hbm, 327, rfl⟩
abbrev main_call14_v0 : Ref sig .tc := ⟨.hbm, 328, rfl⟩
abbrev main_call14_v1 : Ref sig .tc := ⟨.hbm, 329, rfl⟩
abbrev main_call14_v2 : Ref sig .tc := ⟨.hbm, 330, rfl⟩
abbrev main_call14_v3 : Ref sig .tc := ⟨.hbm, 331, rfl⟩
abbrev main_call14_v4 : Ref sig .tc := ⟨.hbm, 332, rfl⟩
abbrev main_v159 : Ref sig .tc := ⟨.hbm, 333, rfl⟩
abbrev main_c_72 : Ref sig .tc := ⟨.hbm, 334, rfl⟩
abbrev main_v160 : Ref sig .tc := ⟨.hbm, 335, rfl⟩
abbrev main_v161 : Ref sig .tc := ⟨.hbm, 336, rfl⟩
abbrev main_c_73 : Ref sig .tc := ⟨.hbm, 337, rfl⟩
abbrev main_c_74 : Ref sig .tc := ⟨.hbm, 338, rfl⟩
abbrev main_call15_v0 : Ref sig .tc := ⟨.hbm, 339, rfl⟩
abbrev main_call15_v1 : Ref sig .tc := ⟨.hbm, 340, rfl⟩
abbrev main_call15_v2 : Ref sig .tc := ⟨.hbm, 341, rfl⟩
abbrev main_call15_v3 : Ref sig .tc := ⟨.hbm, 342, rfl⟩
abbrev main_call15_v4 : Ref sig .tc := ⟨.hbm, 343, rfl⟩
abbrev main_v162 : Ref sig .tc := ⟨.hbm, 344, rfl⟩
abbrev main_v163 : Ref sig .tc := ⟨.hbm, 345, rfl⟩
abbrev main_c_75 : Ref sig .tc := ⟨.hbm, 346, rfl⟩
abbrev main_v164 : Ref sig .tc := ⟨.hbm, 347, rfl⟩
abbrev main_v165 : Ref sig .tc := ⟨.hbm, 348, rfl⟩
abbrev main_c_76 : Ref sig .tc := ⟨.hbm, 349, rfl⟩
abbrev main_v166 : Ref sig .tc := ⟨.hbm, 350, rfl⟩
abbrev main_v167 : Ref sig .tc := ⟨.hbm, 351, rfl⟩
abbrev main_v168 : Ref sig .tc := ⟨.hbm, 352, rfl⟩
abbrev main_v169 : Ref sig .tc := ⟨.hbm, 353, rfl⟩
abbrev main_v170 : Ref sig .tc := ⟨.hbm, 354, rfl⟩
abbrev main_c_77 : Ref sig .tc := ⟨.hbm, 355, rfl⟩
abbrev main_v171 : Ref sig .tc := ⟨.hbm, 356, rfl⟩
abbrev main_v172 : Ref sig .tc := ⟨.hbm, 357, rfl⟩
abbrev main_v173 : Ref sig .tc := ⟨.hbm, 358, rfl⟩
abbrev main_c_78 : Ref sig .tc := ⟨.hbm, 359, rfl⟩
abbrev main_call16_v0 : Ref sig .tc := ⟨.hbm, 360, rfl⟩
abbrev main_call16_v1 : Ref sig .tc := ⟨.hbm, 361, rfl⟩
abbrev main_v174 : Ref sig .tc := ⟨.hbm, 362, rfl⟩
abbrev main_c_79 : Ref sig .tc := ⟨.hbm, 363, rfl⟩
abbrev main_v175 : Ref sig .tc := ⟨.hbm, 364, rfl⟩
abbrev main_v176 : Ref sig .tc := ⟨.hbm, 365, rfl⟩
abbrev main_c_80 : Ref sig .tc := ⟨.hbm, 366, rfl⟩
abbrev main_v177 : Ref sig .tc := ⟨.hbm, 367, rfl⟩
abbrev main_v178 : Ref sig .tc := ⟨.hbm, 368, rfl⟩
abbrev main_c_81 : Ref sig .tc := ⟨.hbm, 369, rfl⟩
abbrev main_v179 : Ref sig .tc := ⟨.hbm, 370, rfl⟩
abbrev main_v180 : Ref sig .tc := ⟨.hbm, 371, rfl⟩
abbrev main_c_82 : Ref sig .tc := ⟨.hbm, 372, rfl⟩
abbrev main_v181 : Ref sig .tc := ⟨.hbm, 373, rfl⟩
abbrev main_v182 : Ref sig .tc := ⟨.hbm, 374, rfl⟩
abbrev main_v183 : Ref sig .tc := ⟨.hbm, 375, rfl⟩
abbrev main_c_83 : Ref sig .tc := ⟨.hbm, 376, rfl⟩
abbrev main_v184 : Ref sig .tc := ⟨.hbm, 377, rfl⟩
abbrev main_v185 : Ref sig .tc := ⟨.hbm, 378, rfl⟩
abbrev main_v186 : Ref sig .tc := ⟨.hbm, 379, rfl⟩
abbrev main_c_84 : Ref sig .tc := ⟨.hbm, 380, rfl⟩
abbrev main_v187 : Ref sig .tc := ⟨.hbm, 381, rfl⟩
abbrev main_v188 : Ref sig .tc := ⟨.hbm, 382, rfl⟩
abbrev main_v189 : Ref sig .tc := ⟨.hbm, 383, rfl⟩
abbrev main_c_85 : Ref sig .tc := ⟨.hbm, 384, rfl⟩
abbrev main_c_86 : Ref sig .tc := ⟨.hbm, 385, rfl⟩
abbrev main_call17_v0 : Ref sig .tc := ⟨.hbm, 386, rfl⟩
abbrev main_call17_v1 : Ref sig .tc := ⟨.hbm, 387, rfl⟩
abbrev main_call17_v2 : Ref sig .tc := ⟨.hbm, 388, rfl⟩
abbrev main_call17_v3 : Ref sig .tc := ⟨.hbm, 389, rfl⟩
abbrev main_call17_v4 : Ref sig .tc := ⟨.hbm, 390, rfl⟩
abbrev main_v190 : Ref sig .tc := ⟨.hbm, 391, rfl⟩
abbrev main_c_87 : Ref sig .tc := ⟨.hbm, 392, rfl⟩
abbrev main_v191 : Ref sig .tc := ⟨.hbm, 393, rfl⟩
abbrev main_v192 : Ref sig .tc := ⟨.hbm, 394, rfl⟩
abbrev main_c_88 : Ref sig .tc := ⟨.hbm, 395, rfl⟩
abbrev main_c_89 : Ref sig .tc := ⟨.hbm, 396, rfl⟩
abbrev main_call18_v0 : Ref sig .tc := ⟨.hbm, 397, rfl⟩
abbrev main_call18_v1 : Ref sig .tc := ⟨.hbm, 398, rfl⟩
abbrev main_call18_v2 : Ref sig .tc := ⟨.hbm, 399, rfl⟩
abbrev main_call18_v3 : Ref sig .tc := ⟨.hbm, 400, rfl⟩
abbrev main_call18_v4 : Ref sig .tc := ⟨.hbm, 401, rfl⟩
abbrev main_v193 : Ref sig .tc := ⟨.hbm, 402, rfl⟩
abbrev main_v194 : Ref sig .tc := ⟨.hbm, 403, rfl⟩
abbrev main_c_90 : Ref sig .tc := ⟨.hbm, 404, rfl⟩
abbrev main_v195 : Ref sig .tc := ⟨.hbm, 405, rfl⟩
abbrev main_v196 : Ref sig .tc := ⟨.hbm, 406, rfl⟩
abbrev main_c_91 : Ref sig .tc := ⟨.hbm, 407, rfl⟩
abbrev main_v197 : Ref sig .tc := ⟨.hbm, 408, rfl⟩
abbrev main_v198 : Ref sig .tc := ⟨.hbm, 409, rfl⟩
abbrev main_v199 : Ref sig .tc := ⟨.hbm, 410, rfl⟩
abbrev main_v200 : Ref sig .tc := ⟨.hbm, 411, rfl⟩
abbrev main_v201 : Ref sig .tc := ⟨.hbm, 412, rfl⟩
abbrev main_c_92 : Ref sig .tc := ⟨.hbm, 413, rfl⟩
abbrev main_v202 : Ref sig .tc := ⟨.hbm, 414, rfl⟩
abbrev main_v203 : Ref sig .tc := ⟨.hbm, 415, rfl⟩
abbrev main_v204 : Ref sig .tc := ⟨.hbm, 416, rfl⟩
abbrev main_c_93 : Ref sig .tc := ⟨.hbm, 417, rfl⟩
abbrev main_call19_v0 : Ref sig .tc := ⟨.hbm, 418, rfl⟩
abbrev main_call19_v1 : Ref sig .tc := ⟨.hbm, 419, rfl⟩
abbrev main_v205 : Ref sig .tc := ⟨.hbm, 420, rfl⟩
abbrev main_c_94 : Ref sig .tc := ⟨.hbm, 421, rfl⟩
abbrev main_v206 : Ref sig .tc := ⟨.hbm, 422, rfl⟩
abbrev main_v207 : Ref sig .tc := ⟨.hbm, 423, rfl⟩
abbrev main_c_95 : Ref sig .tc := ⟨.hbm, 424, rfl⟩
abbrev main_v208 : Ref sig .tc := ⟨.hbm, 425, rfl⟩
abbrev main_v209 : Ref sig .tc := ⟨.hbm, 426, rfl⟩
abbrev main_c_96 : Ref sig .tc := ⟨.hbm, 427, rfl⟩
abbrev main_v210 : Ref sig .tc := ⟨.hbm, 428, rfl⟩
abbrev main_v211 : Ref sig .tc := ⟨.hbm, 429, rfl⟩
abbrev main_c_97 : Ref sig .tc := ⟨.hbm, 430, rfl⟩
abbrev main_v212 : Ref sig .tc := ⟨.hbm, 431, rfl⟩
abbrev main_v213 : Ref sig .tc := ⟨.hbm, 432, rfl⟩
abbrev main_v214 : Ref sig .tc := ⟨.hbm, 433, rfl⟩
abbrev main_c_98 : Ref sig .tc := ⟨.hbm, 434, rfl⟩
abbrev main_v215 : Ref sig .tc := ⟨.hbm, 435, rfl⟩
abbrev main_v216 : Ref sig .tc := ⟨.hbm, 436, rfl⟩
abbrev main_v217 : Ref sig .tc := ⟨.hbm, 437, rfl⟩
abbrev main_c_99 : Ref sig .tc := ⟨.hbm, 438, rfl⟩
abbrev main_v218 : Ref sig .tc := ⟨.hbm, 439, rfl⟩
abbrev main_v219 : Ref sig .tc := ⟨.hbm, 440, rfl⟩
abbrev main_v220 : Ref sig .tc := ⟨.hbm, 441, rfl⟩
abbrev main_c_100 : Ref sig .tc := ⟨.hbm, 442, rfl⟩
abbrev main_c_101 : Ref sig .tc := ⟨.hbm, 443, rfl⟩
abbrev main_call20_v0 : Ref sig .tc := ⟨.hbm, 444, rfl⟩
abbrev main_call20_v1 : Ref sig .tc := ⟨.hbm, 445, rfl⟩
abbrev main_call20_v2 : Ref sig .tc := ⟨.hbm, 446, rfl⟩
abbrev main_call20_v3 : Ref sig .tc := ⟨.hbm, 447, rfl⟩
abbrev main_call20_v4 : Ref sig .tc := ⟨.hbm, 448, rfl⟩
abbrev main_v221 : Ref sig .tc := ⟨.hbm, 449, rfl⟩
abbrev main_c_102 : Ref sig .tc := ⟨.hbm, 450, rfl⟩
abbrev main_v222 : Ref sig .tc := ⟨.hbm, 451, rfl⟩
abbrev main_v223 : Ref sig .tc := ⟨.hbm, 452, rfl⟩
abbrev main_c_103 : Ref sig .tc := ⟨.hbm, 453, rfl⟩
abbrev main_c_104 : Ref sig .tc := ⟨.hbm, 454, rfl⟩
abbrev main_call21_v0 : Ref sig .tc := ⟨.hbm, 455, rfl⟩
abbrev main_call21_v1 : Ref sig .tc := ⟨.hbm, 456, rfl⟩
abbrev main_call21_v2 : Ref sig .tc := ⟨.hbm, 457, rfl⟩
abbrev main_call21_v3 : Ref sig .tc := ⟨.hbm, 458, rfl⟩
abbrev main_call21_v4 : Ref sig .tc := ⟨.hbm, 459, rfl⟩
abbrev main_v224 : Ref sig .tc := ⟨.hbm, 460, rfl⟩
abbrev main_v225 : Ref sig .tc := ⟨.hbm, 461, rfl⟩
abbrev main_c_105 : Ref sig .tc := ⟨.hbm, 462, rfl⟩
abbrev main_v226 : Ref sig .tc := ⟨.hbm, 463, rfl⟩
abbrev main_v227 : Ref sig .tc := ⟨.hbm, 464, rfl⟩
abbrev main_c_106 : Ref sig .tc := ⟨.hbm, 465, rfl⟩
abbrev main_v228 : Ref sig .tc := ⟨.hbm, 466, rfl⟩
abbrev main_v229 : Ref sig .tc := ⟨.hbm, 467, rfl⟩
abbrev main_v230 : Ref sig .tc := ⟨.hbm, 468, rfl⟩
abbrev main_v231 : Ref sig .tc := ⟨.hbm, 469, rfl⟩
abbrev main_v232 : Ref sig .tc := ⟨.hbm, 470, rfl⟩
abbrev main_c_107 : Ref sig .tc := ⟨.hbm, 471, rfl⟩
abbrev main_v233 : Ref sig .tc := ⟨.hbm, 472, rfl⟩
abbrev main_v234 : Ref sig .tc := ⟨.hbm, 473, rfl⟩
abbrev main_v235 : Ref sig .tc := ⟨.hbm, 474, rfl⟩
abbrev main_c_108 : Ref sig .tc := ⟨.hbm, 475, rfl⟩
abbrev main_call22_v0 : Ref sig .tc := ⟨.hbm, 476, rfl⟩
abbrev main_call22_v1 : Ref sig .tc := ⟨.hbm, 477, rfl⟩
abbrev main_v236 : Ref sig .tc := ⟨.hbm, 478, rfl⟩
abbrev main_c_109 : Ref sig .tc := ⟨.hbm, 479, rfl⟩
abbrev main_v237 : Ref sig .tc := ⟨.hbm, 480, rfl⟩
abbrev main_v238 : Ref sig .tc := ⟨.hbm, 481, rfl⟩
abbrev main_c_110 : Ref sig .tc := ⟨.hbm, 482, rfl⟩
abbrev main_v239 : Ref sig .tc := ⟨.hbm, 483, rfl⟩
abbrev main_v240 : Ref sig .tc := ⟨.hbm, 484, rfl⟩
abbrev main_c_111 : Ref sig .tc := ⟨.hbm, 485, rfl⟩
abbrev main_v241 : Ref sig .tc := ⟨.hbm, 486, rfl⟩
abbrev main_v242 : Ref sig .tc := ⟨.hbm, 487, rfl⟩
abbrev main_c_112 : Ref sig .tc := ⟨.hbm, 488, rfl⟩
abbrev main_v243 : Ref sig .tc := ⟨.hbm, 489, rfl⟩
abbrev main_v244 : Ref sig .tc := ⟨.hbm, 490, rfl⟩
abbrev main_v245 : Ref sig .tc := ⟨.hbm, 491, rfl⟩
abbrev main_c_113 : Ref sig .tc := ⟨.hbm, 492, rfl⟩
abbrev main_v246 : Ref sig .tc := ⟨.hbm, 493, rfl⟩
abbrev main_v247 : Ref sig .tc := ⟨.hbm, 494, rfl⟩
abbrev main_v248 : Ref sig .tc := ⟨.hbm, 495, rfl⟩
abbrev main_c_114 : Ref sig .tc := ⟨.hbm, 496, rfl⟩
abbrev main_v249 : Ref sig .tc := ⟨.hbm, 497, rfl⟩
abbrev main_v250 : Ref sig .tc := ⟨.hbm, 498, rfl⟩
abbrev main_v251 : Ref sig .tc := ⟨.hbm, 499, rfl⟩
abbrev main_c_115 : Ref sig .tc := ⟨.hbm, 500, rfl⟩
abbrev main_c_116 : Ref sig .tc := ⟨.hbm, 501, rfl⟩
abbrev main_call23_v0 : Ref sig .tc := ⟨.hbm, 502, rfl⟩
abbrev main_call23_v1 : Ref sig .tc := ⟨.hbm, 503, rfl⟩
abbrev main_call23_v2 : Ref sig .tc := ⟨.hbm, 504, rfl⟩
abbrev main_call23_v3 : Ref sig .tc := ⟨.hbm, 505, rfl⟩
abbrev main_call23_v4 : Ref sig .tc := ⟨.hbm, 506, rfl⟩
abbrev main_v252 : Ref sig .tc := ⟨.hbm, 507, rfl⟩
abbrev main_c_117 : Ref sig .tc := ⟨.hbm, 508, rfl⟩
abbrev main_v253 : Ref sig .tc := ⟨.hbm, 509, rfl⟩
abbrev main_v254 : Ref sig .tc := ⟨.hbm, 510, rfl⟩
abbrev main_c_118 : Ref sig .tc := ⟨.hbm, 511, rfl⟩
abbrev main_c_119 : Ref sig .tc := ⟨.hbm, 512, rfl⟩
abbrev main_call24_v0 : Ref sig .tc := ⟨.hbm, 513, rfl⟩
abbrev main_call24_v1 : Ref sig .tc := ⟨.hbm, 514, rfl⟩
abbrev main_call24_v2 : Ref sig .tc := ⟨.hbm, 515, rfl⟩
abbrev main_call24_v3 : Ref sig .tc := ⟨.hbm, 516, rfl⟩
abbrev main_call24_v4 : Ref sig .tc := ⟨.hbm, 517, rfl⟩
abbrev main_v255 : Ref sig .tc := ⟨.hbm, 518, rfl⟩
abbrev main_v256 : Ref sig .tc := ⟨.hbm, 519, rfl⟩
abbrev main_c_120 : Ref sig .tc := ⟨.hbm, 520, rfl⟩
abbrev main_v257 : Ref sig .tc := ⟨.hbm, 521, rfl⟩
abbrev main_v258 : Ref sig .tc := ⟨.hbm, 522, rfl⟩
abbrev main_c_121 : Ref sig .tc := ⟨.hbm, 523, rfl⟩
abbrev main_v259 : Ref sig .tc := ⟨.hbm, 524, rfl⟩
abbrev main_v260 : Ref sig .tc := ⟨.hbm, 525, rfl⟩
abbrev main_v261 : Ref sig .tc := ⟨.hbm, 526, rfl⟩
abbrev main_v262 : Ref sig .tc := ⟨.hbm, 527, rfl⟩
abbrev main_v263 : Ref sig .tc := ⟨.hbm, 528, rfl⟩
abbrev main_c_122 : Ref sig .tc := ⟨.hbm, 529, rfl⟩
abbrev main_v264 : Ref sig .tc := ⟨.hbm, 530, rfl⟩
abbrev main_v265 : Ref sig .tc := ⟨.hbm, 531, rfl⟩
abbrev main_v266 : Ref sig .tc := ⟨.hbm, 532, rfl⟩
abbrev main_c_123 : Ref sig .tc := ⟨.hbm, 533, rfl⟩
abbrev main_call25_v0 : Ref sig .tc := ⟨.hbm, 534, rfl⟩
abbrev main_call25_v1 : Ref sig .tc := ⟨.hbm, 535, rfl⟩
abbrev main_v267 : Ref sig .tc := ⟨.hbm, 536, rfl⟩
abbrev main_c_124 : Ref sig .tc := ⟨.hbm, 537, rfl⟩
abbrev main_v268 : Ref sig .tc := ⟨.hbm, 538, rfl⟩
abbrev main_v269 : Ref sig .tc := ⟨.hbm, 539, rfl⟩
abbrev main_c_125 : Ref sig .tc := ⟨.hbm, 540, rfl⟩
abbrev main_v270 : Ref sig .tc := ⟨.hbm, 541, rfl⟩
abbrev main_v271 : Ref sig .tc := ⟨.hbm, 542, rfl⟩
abbrev main_c_126 : Ref sig .tc := ⟨.hbm, 543, rfl⟩
abbrev main_v272 : Ref sig .tc := ⟨.hbm, 544, rfl⟩
abbrev main_v273 : Ref sig .tc := ⟨.hbm, 545, rfl⟩
abbrev main_c_127 : Ref sig .tc := ⟨.hbm, 546, rfl⟩
abbrev main_v274 : Ref sig .tc := ⟨.hbm, 547, rfl⟩
abbrev main_v275 : Ref sig .tc := ⟨.hbm, 548, rfl⟩
abbrev main_v276 : Ref sig .tc := ⟨.hbm, 549, rfl⟩
abbrev main_c_128 : Ref sig .tc := ⟨.hbm, 550, rfl⟩
abbrev main_v277 : Ref sig .tc := ⟨.hbm, 551, rfl⟩
abbrev main_v278 : Ref sig .tc := ⟨.hbm, 552, rfl⟩
abbrev main_v279 : Ref sig .tc := ⟨.hbm, 553, rfl⟩
abbrev main_c_129 : Ref sig .tc := ⟨.hbm, 554, rfl⟩
abbrev main_v280 : Ref sig .tc := ⟨.hbm, 555, rfl⟩
abbrev main_v281 : Ref sig .tc := ⟨.hbm, 556, rfl⟩
abbrev main_v282 : Ref sig .tc := ⟨.hbm, 557, rfl⟩
abbrev main_c_130 : Ref sig .tc := ⟨.hbm, 558, rfl⟩
abbrev main_c_131 : Ref sig .tc := ⟨.hbm, 559, rfl⟩
abbrev main_call26_v0 : Ref sig .tc := ⟨.hbm, 560, rfl⟩
abbrev main_call26_v1 : Ref sig .tc := ⟨.hbm, 561, rfl⟩
abbrev main_call26_v2 : Ref sig .tc := ⟨.hbm, 562, rfl⟩
abbrev main_call26_v3 : Ref sig .tc := ⟨.hbm, 563, rfl⟩
abbrev main_call26_v4 : Ref sig .tc := ⟨.hbm, 564, rfl⟩
abbrev main_v283 : Ref sig .tc := ⟨.hbm, 565, rfl⟩
abbrev main_c_132 : Ref sig .tc := ⟨.hbm, 566, rfl⟩
abbrev main_v284 : Ref sig .tc := ⟨.hbm, 567, rfl⟩
abbrev main_v285 : Ref sig .tc := ⟨.hbm, 568, rfl⟩
abbrev main_c_133 : Ref sig .tc := ⟨.hbm, 569, rfl⟩
abbrev main_c_134 : Ref sig .tc := ⟨.hbm, 570, rfl⟩
abbrev main_call27_v0 : Ref sig .tc := ⟨.hbm, 571, rfl⟩
abbrev main_call27_v1 : Ref sig .tc := ⟨.hbm, 572, rfl⟩
abbrev main_call27_v2 : Ref sig .tc := ⟨.hbm, 573, rfl⟩
abbrev main_call27_v3 : Ref sig .tc := ⟨.hbm, 574, rfl⟩
abbrev main_call27_v4 : Ref sig .tc := ⟨.hbm, 575, rfl⟩
abbrev main_v286 : Ref sig .tc := ⟨.hbm, 576, rfl⟩
abbrev main_v287 : Ref sig .tc := ⟨.hbm, 577, rfl⟩
abbrev main_c_135 : Ref sig .tc := ⟨.hbm, 578, rfl⟩
abbrev main_v288 : Ref sig .tc := ⟨.hbm, 579, rfl⟩
abbrev main_v289 : Ref sig .tc := ⟨.hbm, 580, rfl⟩
abbrev main_c_136 : Ref sig .tc := ⟨.hbm, 581, rfl⟩
abbrev main_v290 : Ref sig .tc := ⟨.hbm, 582, rfl⟩
abbrev main_v291 : Ref sig .tc := ⟨.hbm, 583, rfl⟩
abbrev main_v292 : Ref sig .tc := ⟨.hbm, 584, rfl⟩
abbrev main_v293 : Ref sig .tc := ⟨.hbm, 585, rfl⟩
abbrev main_v294 : Ref sig .tc := ⟨.hbm, 586, rfl⟩
abbrev main_c_137 : Ref sig .tc := ⟨.hbm, 587, rfl⟩
abbrev main_v295 : Ref sig .tc := ⟨.hbm, 588, rfl⟩
abbrev main_v296 : Ref sig .tc := ⟨.hbm, 589, rfl⟩
abbrev main_v297 : Ref sig .tc := ⟨.hbm, 590, rfl⟩
abbrev main_c_138 : Ref sig .tc := ⟨.hbm, 591, rfl⟩
abbrev main_call28_v0 : Ref sig .tc := ⟨.hbm, 592, rfl⟩
abbrev main_call28_v1 : Ref sig .tc := ⟨.hbm, 593, rfl⟩
abbrev main_v298 : Ref sig .tc := ⟨.hbm, 594, rfl⟩
abbrev main_v299 : Ref sig .tc := ⟨.hbm, 595, rfl⟩
abbrev main_v300 : Ref sig .tc := ⟨.hbm, 596, rfl⟩
abbrev main_v301 : Ref sig .tc := ⟨.hbm, 597, rfl⟩
abbrev main_v302 : Ref sig .tc := ⟨.hbm, 598, rfl⟩
abbrev main_v303 : Ref sig .tc := ⟨.hbm, 599, rfl⟩
abbrev main_v304 : Ref sig .tc := ⟨.hbm, 600, rfl⟩
abbrev main_v305 : Ref sig .tc := ⟨.hbm, 601, rfl⟩
abbrev main_v306 : Ref sig .tc := ⟨.hbm, 602, rfl⟩
abbrev main_v307 : Ref sig .tc := ⟨.hbm, 603, rfl⟩
abbrev main_v308 : Ref sig .tc := ⟨.hbm, 604, rfl⟩
abbrev main_c_139 : Ref sig .tc := ⟨.hbm, 605, rfl⟩
abbrev main_v309 : Ref sig .tc := ⟨.hbm, 606, rfl⟩
abbrev main_v310 : Ref sig .tc := ⟨.hbm, 607, rfl⟩
abbrev main_c_140 : Ref sig .tc := ⟨.hbm, 608, rfl⟩
abbrev main_v311 : Ref sig .tc := ⟨.hbm, 609, rfl⟩
abbrev main_v312 : Ref sig .tc := ⟨.hbm, 610, rfl⟩
abbrev main_v313 : Ref sig .tc := ⟨.hbm, 611, rfl⟩
abbrev main_v314 : Ref sig .tc := ⟨.hbm, 612, rfl⟩
abbrev main_v315 : Ref sig .tc := ⟨.hbm, 613, rfl⟩
abbrev main_v316 : Ref sig .tc := ⟨.hbm, 614, rfl⟩
abbrev main_v317 : Ref sig .tc := ⟨.hbm, 615, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x576 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S64_S1x64 : S64.ShapeCasts S1x64
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S589824 : S_.BroadcastsInDim S589824 (![] : Fin 0 → Fin S589824.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S1x64 : S_.BroadcastsInDim S1x64 (![] : Fin 0 → Fin S1x64.rank)
  concatenates_S200000x64_S1x64_S200001x64_d0 : Shape.Concatenates [S200000x64, S1x64] S200001x64 0
  concatenates_S200000x1_S200000x1_S200000x1_S200000x1_S200000x1_S200000x1_S200000x1_S200000x1_S200000x1_S200000x9_d1 : Shape.Concatenates [S200000x1, S200000x1, S200000x1, S200000x1, S200000x1, S200000x1, S200000x1, S200000x1, S200000x1] S200000x9 1
  bcast_S_S200000x9 : S_.BroadcastsInDim S200000x9 (![] : Fin 0 → Fin S200000x9.rank)
  bcast_S200000x9_S200000x9x1_0_1 : S200000x9.BroadcastsInDim S200000x9x1 (![0, 1] : Fin 2 → Fin S200000x9x1.rank)
  shapeCasts_S200000x9x64_S200000x576 : S200000x9x64.ShapeCasts S200000x576
  inb_S5000x576_S5000x576_0_0 : ∀ a, (![0, 0] : Fin 2 → Nat) a + S5000x576.size a ≤ S5000x576.size a
  h_S5000x576 : 0 < S5000x576.numel
  shapeCasts_S5000x576_S5000x576 : S5000x576.ShapeCasts S5000x576
  inb_S9x64x64_S9x64x64_0_0_0 : ∀ a, (![0, 0, 0] : Fin 3 → Nat) a + S9x64x64.size a ≤ S9x64x64.size a
  h_S9x64x64 : 0 < S9x64x64.numel
  slices_S5000x576_o0_0_S5000x64 : S5000x576.Slices ![0, 0] S5000x64
  slices_S9x64x64_o0_0_0_S1x64x64 : S9x64x64.Slices ![0, 0, 0] S1x64x64
  shapeCasts_S1x64x64_S64x64 : S1x64x64.ShapeCasts S64x64
  slices_S5000x576_o0_64_S5000x64 : S5000x576.Slices ![0, 64] S5000x64
  slices_S9x64x64_o1_0_0_S1x64x64 : S9x64x64.Slices ![1, 0, 0] S1x64x64
  slices_S5000x576_o0_128_S5000x64 : S5000x576.Slices ![0, 128] S5000x64
  slices_S9x64x64_o2_0_0_S1x64x64 : S9x64x64.Slices ![2, 0, 0] S1x64x64
  slices_S5000x576_o0_192_S5000x64 : S5000x576.Slices ![0, 192] S5000x64
  slices_S9x64x64_o3_0_0_S1x64x64 : S9x64x64.Slices ![3, 0, 0] S1x64x64
  slices_S5000x576_o0_256_S5000x64 : S5000x576.Slices ![0, 256] S5000x64
  slices_S9x64x64_o4_0_0_S1x64x64 : S9x64x64.Slices ![4, 0, 0] S1x64x64
  slices_S5000x576_o0_320_S5000x64 : S5000x576.Slices ![0, 320] S5000x64
  slices_S9x64x64_o5_0_0_S1x64x64 : S9x64x64.Slices ![5, 0, 0] S1x64x64
  slices_S5000x576_o0_384_S5000x64 : S5000x576.Slices ![0, 384] S5000x64
  slices_S9x64x64_o6_0_0_S1x64x64 : S9x64x64.Slices ![6, 0, 0] S1x64x64
  slices_S5000x576_o0_448_S5000x64 : S5000x576.Slices ![0, 448] S5000x64
  slices_S9x64x64_o7_0_0_S1x64x64 : S9x64x64.Slices ![7, 0, 0] S1x64x64
  slices_S5000x576_o0_512_S5000x64 : S5000x576.Slices ![0, 512] S5000x64
  slices_S9x64x64_o8_0_0_S1x64x64 : S9x64x64.Slices ![8, 0, 0] S1x64x64
  broadcasts_S1x64_S5000x64 : S1x64.Broadcasts S5000x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  dot_S10000x256_S256x64_S10000x64_1_0_0_1_n_n_wf : DotDims.WF S10000x256 S256x64 S10000x64 [1] [0] [0] [1] [] []
  scatter_S589824_S200000x1_S200000_n_0_0_1_wf : ScatterDims.WF S589824 S200000x1 S200000 [] [0] [0] 1
  gather_S589824_S200000x1_S200000_n_0_n_n_0_1_1_wf : GatherDims.WF S589824 S200000x1 S200000 [] [0] [] [0] [] 1 ![1]
  gather_S200001x64_S200000x9x1_S200000x9x64_2_0_n_n_0_2_164_wf : GatherDims.WF S200001x64 S200000x9x1 S200000x9x64 [2] [0] [] [0] [] 2 ![1, 64]
  dot_S5000x64_S64x64_S5000x64_1_0_0_1_n_n_wf : DotDims.WF S5000x64 S64x64 S5000x64 [1] [0] [0] [1] [] []
  dot_S5000x64_S64x256_S5000x256_1_0_0_1_n_n_wf : DotDims.WF S5000x64 S64x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S200000x64.size a
  hwx0_4 : ∀ i : grid0.Coords, EltTy.bits .bf16 = 32 ∨ (Rect.block (s := S200000x64) S10000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x576.size a ≤ S200000x576.size a
  hwx1_0 : ∀ i : grid1.Coords, EltTy.bits .bf16 = 32 ∨ (Rect.block (s := S200000x576) S5000x576.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x64x64.size a ≤ S9x64x64.size a
  hwx1_1 : ∀ i : grid1.Coords, EltTy.bits .f32 = 32 ∨ (Rect.block (s := S9x64x64) S9x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S200000x256.size a
  hwx1_7 : ∀ i : grid1.Coords, EltTy.bits .f32 = 32 ∨ (Rect.block (s := S200000x256) S5000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x256.size a ≤ S200000x256.size a
  hwx1_8 : ∀ i : grid1.Coords, EltTy.bits .f32 = 32 ∨ (Rect.block (s := S200000x256) S5000x256.size (cc1_transform_8 i) (hinb1_8 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S589824_S200000x1_S200000_n_0_0_1 : ScatterDims S589824 S200000x1 S200000 where
  updateWindowDims := []
  insertedWindowDims := [0]
  scatterDimsToOperandDims := [0]
  indexVectorDim := 1
  wf := scatter_S589824_S200000x1_S200000_n_0_0_1_wf
def gather_S589824_S200000x1_S200000_n_0_n_n_0_1_1 : GatherDims S589824 S200000x1 S200000 where
  offsetDims := []
  collapsedSliceDims := [0]
  operandBatchingDims := []
  startIndicesBatchingDims := []
  startIndexMap := [0]
  indexVectorDim := 1
  sliceSizes := ![1]
  wf := gather_S589824_S200000x1_S200000_n_0_n_n_0_1_1_wf
def gather_S200001x64_S200000x9x1_S200000x9x64_2_0_n_n_0_2_164 : GatherDims S200001x64 S200000x9x1 S200000x9x64 where
  offsetDims := [2]
  collapsedSliceDims := [0]
  operandBatchingDims := []
  startIndicesBatchingDims := []
  startIndexMap := [0]
  indexVectorDim := 2
  sliceSizes := ![1, 64]
  wf := gather_S200001x64_S200000x9x1_S200000x9x64_2_0_n_n_0_2_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v316) S5000x576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S9x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg0) S5000x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v317) S5000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x256 : Shape := ⟨2, ![200000, 256]⟩
abbrev S200000 : Shape := ⟨1, ![200000]⟩
abbrev S256x64 : Shape := ⟨2, ![256, 64]⟩
abbrev S9x64x64 : Shape := ⟨3, ![9, 64, 64]⟩
abbrev S64x256 : Shape := ⟨2, ![64, 256]⟩
abbrev S64 : Shape := ⟨1, ![64]⟩
abbrev S256 : Shape := ⟨1, ![256]⟩
abbrev S200000x64 : Shape := ⟨2, ![200000, 64]⟩
abbrev S1x64 : Shape := ⟨2, ![1, 64]⟩
abbrev S_ : Shape := ⟨0, ![]⟩
abbrev S589824 : Shape := ⟨1, ![589824]⟩
abbrev S200000x1 : Shape := ⟨2, ![200000, 1]⟩
abbrev S1x64x64 : Shape := ⟨3, ![1, 64, 64]⟩
abbrev S64x64 : Shape := ⟨2, ![64, 64]⟩
abbrev S1x256 : Shape := ⟨2, ![1, 256]⟩

abbrev nBuf : Space → Nat
  | .hbm => 779
  | .vmem => 0
  | .smem => 0
  | _ => 0

abbrev hbmTy0_0 (i : Nat) : BufTy := match i % 128 with
  | 0 => ⟨S200000x256, .f32⟩
  | 1 => ⟨S200000, .i32⟩
  | 2 => ⟨S256x64, .f32⟩
  | 3 => ⟨S9x64x64, .f32⟩
  | 4 => ⟨S64x256, .f32⟩
  | 5 => ⟨S64, .f32⟩
  | 6 => ⟨S64, .f32⟩
  | 7 => ⟨S64, .f32⟩
  | 8 => ⟨S64, .f32⟩
  | 9 => ⟨S256, .f32⟩
  | 10 => ⟨S256, .f32⟩
  | 11 => ⟨S200000x64, .f32⟩
  | 12 => ⟨S1x64, .f32⟩
  | 13 => ⟨S200000x64, .f32⟩
  | 14 => ⟨S200000x64, .f32⟩
  | 15 => ⟨S1x64, .f32⟩
  | 16 => ⟨S200000x64, .f32⟩
  | 17 => ⟨S200000x64, .f32⟩
  | 18 => ⟨S_, .f32⟩
  | 19 => ⟨S200000x64, .f32⟩
  | 20 => ⟨S200000x64, .f32⟩
  | 21 => ⟨S_, .i32⟩
  | 22 => ⟨S589824, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S589824, .i32⟩
  | 33 => ⟨S_, .i32⟩
  | 34 => ⟨S_, .i32⟩
  | 35 => ⟨S200000, .i32⟩
  | 36 => ⟨S200000, .i32⟩
  | 37 => ⟨S200000, .i32⟩
  | 38 => ⟨S_, .i32⟩
  | 39 => ⟨S200000, .i32⟩
  | 40 => ⟨S200000, .i1⟩
  | 41 => ⟨S200000, .i32⟩
  | 42 => ⟨S200000, .i32⟩
  | 43 => ⟨S_, .i32⟩
  | 44 => ⟨S200000, .i32⟩
  | 45 => ⟨S200000, .i1⟩
  | 46 => ⟨S200000, .i1⟩
  | 47 => ⟨S_, .i32⟩
  | 48 => ⟨S200000, .i32⟩
  | 49 => ⟨S200000, .i32⟩
  | 50 => ⟨S200000, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S200000, .i32⟩
  | 58 => ⟨S200000, .i32⟩
  | 59 => ⟨S_, .i32⟩
  | 60 => ⟨S200000, .i32⟩
  | 61 => ⟨S200000, .i1⟩
  | 62 => ⟨S_, .i32⟩
  | 63 => ⟨S200000, .i32⟩
  | 64 => ⟨S200000, .i1⟩
  | 65 => ⟨S_, .i32⟩
  | 66 => ⟨S_, .i1⟩
  | 67 => ⟨S200000, .i1⟩
  | 68 => ⟨S200000, .i1⟩
  | 69 => ⟨S200000, .i1⟩
  | 70 => ⟨S200000, .i32⟩
  | 71 => ⟨S200000, .i32⟩
  | 72 => ⟨S200000, .i32⟩
  | 73 => ⟨S_, .f32⟩
  | 74 => ⟨S200000x64, .f32⟩
  | 75 => ⟨S_, .i32⟩
  | 76 => ⟨S200000, .i32⟩
  | 77 => ⟨S200000, .i32⟩
  | 78 => ⟨S_, .i32⟩
  | 79 => ⟨S200000, .i32⟩
  | 80 => ⟨S200000, .i32⟩
  | 81 => ⟨S_, .i32⟩
  | 82 => ⟨S200000, .i32⟩
  | 83 => ⟨S200000, .i1⟩
  | 84 => ⟨S_, .i32⟩
  | 85 => ⟨S200000, .i32⟩
  | 86 => ⟨S200000, .i1⟩
  | 87 => ⟨S200000, .i1⟩
  | 88 => ⟨S_, .i32⟩
  | 89 => ⟨S200000, .i32⟩
  | 90 => ⟨S200000, .i1⟩
  | 91 => ⟨S200000, .i1⟩
  | 92 => ⟨S_, .i32⟩
  | 93 => ⟨S200000, .i32⟩
  | 94 => ⟨S200000, .i1⟩
  | 95 => ⟨S200000, .i1⟩
  | 96 => ⟨S_, .i32⟩
  | 97 => ⟨S_, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i32⟩
  | 104 => ⟨S_, .i32⟩
  | 105 => ⟨S200000, .i32⟩
  | 106 => ⟨S200000, .i32⟩
  | 107 => ⟨S_, .i32⟩
  | 108 => ⟨S_, .i32⟩
  | 109 => ⟨S_, .i32⟩
  | 110 => ⟨S200000, .i32⟩
  | 111 => ⟨S200000, .i32⟩
  | 112 => ⟨S_, .i32⟩
  | 113 => ⟨S200000, .i32⟩
  | 114 => ⟨S200000, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S200000, .i32⟩
  | 125 => ⟨S_, .i32⟩
  | 126 => ⟨S200000, .i32⟩
  | 127 => ⟨S200000, .i1⟩
  | _ => ⟨S200000x256, .f32⟩

abbrev hbmTy0_1 (i : Nat) : BufTy := match i % 128 with
  | 0 => ⟨S200000, .i1⟩
  | 1 => ⟨S200000x1, .i1⟩
  | 2 => ⟨S_, .i32⟩
  | 3 => ⟨S200000, .i32⟩
  | 4 => ⟨S200000, .i32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x64, .f32⟩
  | 14 => ⟨S_, .f32⟩
  | 15 => ⟨S_, .f32⟩
  | 16 => ⟨S200000x64, .i1⟩
  | 17 => ⟨S200000x64, .f32⟩
  | 18 => ⟨S200000x64, .f32⟩
  | 19 => ⟨S1x64x64, .f32⟩
  | 20 => ⟨S64x64, .f32⟩
  | 21 => ⟨S200000x64, .f32⟩
  | 22 => ⟨S200000x64, .f32⟩
  | 23 => ⟨S_, .i32⟩
  | 24 => ⟨S200000, .i32⟩
  | 25 => ⟨S200000, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i1⟩
  | 35 => ⟨S200000, .i1⟩
  | 36 => ⟨S_, .i32⟩
  | 37 => ⟨S200000, .i32⟩
  | 38 => ⟨S200000, .i1⟩
  | 39 => ⟨S200000, .i1⟩
  | 40 => ⟨S_, .i32⟩
  | 41 => ⟨S200000, .i32⟩
  | 42 => ⟨S200000, .i1⟩
  | 43 => ⟨S200000, .i1⟩
  | 44 => ⟨S_, .i32⟩
  | 45 => ⟨S_, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i32⟩
  | 52 => ⟨S_, .i32⟩
  | 53 => ⟨S200000, .i32⟩
  | 54 => ⟨S200000, .i32⟩
  | 55 => ⟨S_, .i32⟩
  | 56 => ⟨S_, .i32⟩
  | 57 => ⟨S_, .i32⟩
  | 58 => ⟨S200000, .i32⟩
  | 59 => ⟨S200000, .i32⟩
  | 60 => ⟨S_, .i32⟩
  | 61 => ⟨S200000, .i32⟩
  | 62 => ⟨S200000, .i32⟩
  | 63 => ⟨S200000, .i32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000, .i32⟩
  | 73 => ⟨S_, .i32⟩
  | 74 => ⟨S200000, .i32⟩
  | 75 => ⟨S200000, .i1⟩
  | 76 => ⟨S200000, .i1⟩
  | 77 => ⟨S200000x1, .i1⟩
  | 78 => ⟨S_, .i32⟩
  | 79 => ⟨S200000, .i32⟩
  | 80 => ⟨S200000, .i32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x64, .f32⟩
  | 90 => ⟨S_, .f32⟩
  | 91 => ⟨S_, .f32⟩
  | 92 => ⟨S200000x64, .i1⟩
  | 93 => ⟨S200000x64, .f32⟩
  | 94 => ⟨S200000x64, .f32⟩
  | 95 => ⟨S1x64x64, .f32⟩
  | 96 => ⟨S64x64, .f32⟩
  | 97 => ⟨S200000x64, .f32⟩
  | 98 => ⟨S200000x64, .f32⟩
  | 99 => ⟨S_, .i32⟩
  | 100 => ⟨S200000, .i32⟩
  | 101 => ⟨S200000, .i32⟩
  | 102 => ⟨S_, .i32⟩
  | 103 => ⟨S200000, .i32⟩
  | 104 => ⟨S200000, .i32⟩
  | 105 => ⟨S_, .i32⟩
  | 106 => ⟨S200000, .i32⟩
  | 107 => ⟨S200000, .i1⟩
  | 108 => ⟨S_, .i32⟩
  | 109 => ⟨S200000, .i32⟩
  | 110 => ⟨S200000, .i1⟩
  | 111 => ⟨S200000, .i1⟩
  | 112 => ⟨S_, .i32⟩
  | 113 => ⟨S200000, .i32⟩
  | 114 => ⟨S200000, .i1⟩
  | 115 => ⟨S200000, .i1⟩
  | 116 => ⟨S_, .i32⟩
  | 117 => ⟨S200000, .i32⟩
  | 118 => ⟨S200000, .i1⟩
  | 119 => ⟨S200000, .i1⟩
  | 120 => ⟨S_, .i32⟩
  | 121 => ⟨S_, .i32⟩
  | 122 => ⟨S_, .i32⟩
  | 123 => ⟨S200000, .i32⟩
  | 124 => ⟨S200000, .i32⟩
  | 125 => ⟨S_, .i32⟩
  | 126 => ⟨S200000, .i32⟩
  | 127 => ⟨S200000, .i32⟩
  | _ => ⟨S200000x256, .f32⟩

abbrev hbmTy0_2 (i : Nat) : BufTy := match i % 128 with
  | 0 => ⟨S_, .i32⟩
  | 1 => ⟨S200000, .i32⟩
  | 2 => ⟨S200000, .i32⟩
  | 3 => ⟨S_, .i32⟩
  | 4 => ⟨S_, .i32⟩
  | 5 => ⟨S_, .i32⟩
  | 6 => ⟨S200000, .i32⟩
  | 7 => ⟨S200000, .i32⟩
  | 8 => ⟨S_, .i32⟩
  | 9 => ⟨S200000, .i32⟩
  | 10 => ⟨S200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i1⟩
  | 24 => ⟨S200000, .i1⟩
  | 25 => ⟨S200000x1, .i1⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x64, .f32⟩
  | 38 => ⟨S_, .f32⟩
  | 39 => ⟨S_, .f32⟩
  | 40 => ⟨S200000x64, .i1⟩
  | 41 => ⟨S200000x64, .f32⟩
  | 42 => ⟨S200000x64, .f32⟩
  | 43 => ⟨S1x64x64, .f32⟩
  | 44 => ⟨S64x64, .f32⟩
  | 45 => ⟨S200000x64, .f32⟩
  | 46 => ⟨S200000x64, .f32⟩
  | 47 => ⟨S_, .i32⟩
  | 48 => ⟨S200000, .i32⟩
  | 49 => ⟨S200000, .i32⟩
  | 50 => ⟨S_, .i32⟩
  | 51 => ⟨S200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i1⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S200000, .i32⟩
  | 66 => ⟨S200000, .i1⟩
  | 67 => ⟨S200000, .i1⟩
  | 68 => ⟨S_, .i32⟩
  | 69 => ⟨S_, .i32⟩
  | 70 => ⟨S_, .i32⟩
  | 71 => ⟨S200000, .i32⟩
  | 72 => ⟨S200000, .i32⟩
  | 73 => ⟨S_, .i32⟩
  | 74 => ⟨S200000, .i32⟩
  | 75 => ⟨S200000, .i32⟩
  | 76 => ⟨S_, .i32⟩
  | 77 => ⟨S200000, .i32⟩
  | 78 => ⟨S200000, .i32⟩
  | 79 => ⟨S_, .i32⟩
  | 80 => ⟨S_, .i32⟩
  | 81 => ⟨S_, .i32⟩
  | 82 => ⟨S200000, .i32⟩
  | 83 => ⟨S200000, .i32⟩
  | 84 => ⟨S_, .i32⟩
  | 85 => ⟨S200000, .i32⟩
  | 86 => ⟨S200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000, .i32⟩
  | 97 => ⟨S_, .i32⟩
  | 98 => ⟨S200000, .i32⟩
  | 99 => ⟨S200000, .i1⟩
  | 100 => ⟨S200000, .i1⟩
  | 101 => ⟨S200000x1, .i1⟩
  | 102 => ⟨S_, .i32⟩
  | 103 => ⟨S200000, .i32⟩
  | 104 => ⟨S200000, .i32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x64, .f32⟩
  | 114 => ⟨S_, .f32⟩
  | 115 => ⟨S_, .f32⟩
  | 116 => ⟨S200000x64, .i1⟩
  | 117 => ⟨S200000x64, .f32⟩
  | 118 => ⟨S200000x64, .f32⟩
  | 119 => ⟨S1x64x64, .f32⟩
  | 120 => ⟨S64x64, .f32⟩
  | 121 => ⟨S200000x64, .f32⟩
  | 122 => ⟨S200000x64, .f32⟩
  | 123 => ⟨S_, .i32⟩
  | 124 => ⟨S200000, .i32⟩
  | 125 => ⟨S200000, .i32⟩
  | 126 => ⟨S_, .i32⟩
  | 127 => ⟨S200000, .i32⟩
  | _ => ⟨S200000x256, .f32⟩

abbrev hbmTy0_3 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i1⟩
  | 7 => ⟨S200000, .i1⟩
  | 8 => ⟨S_, .i32⟩
  | 9 => ⟨S200000, .i32⟩
  | 10 => ⟨S200000, .i1⟩
  | 11 => ⟨S200000, .i1⟩
  | 12 => ⟨S_, .i32⟩
  | 13 => ⟨S200000, .i32⟩
  | 14 => ⟨S200000, .i1⟩
  | 15 => ⟨S200000, .i1⟩
  | 16 => ⟨S_, .i32⟩
  | 17 => ⟨S_, .i32⟩
  | 18 => ⟨S_, .i32⟩
  | 19 => ⟨S200000, .i32⟩
  | 20 => ⟨S200000, .i32⟩
  | 21 => ⟨S_, .i32⟩
  | 22 => ⟨S200000, .i32⟩
  | 23 => ⟨S200000, .i32⟩
  | 24 => ⟨S_, .i32⟩
  | 25 => ⟨S200000, .i32⟩
  | 26 => ⟨S200000, .i32⟩
  | 27 => ⟨S_, .i32⟩
  | 28 => ⟨S_, .i32⟩
  | 29 => ⟨S_, .i32⟩
  | 30 => ⟨S200000, .i32⟩
  | 31 => ⟨S200000, .i32⟩
  | 32 => ⟨S_, .i32⟩
  | 33 => ⟨S200000, .i32⟩
  | 34 => ⟨S200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000, .i32⟩
  | 45 => ⟨S_, .i32⟩
  | 46 => ⟨S200000, .i32⟩
  | 47 => ⟨S200000, .i1⟩
  | 48 => ⟨S200000, .i1⟩
  | 49 => ⟨S200000x1, .i1⟩
  | 50 => ⟨S_, .i32⟩
  | 51 => ⟨S200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x64, .f32⟩
  | 62 => ⟨S_, .f32⟩
  | 63 => ⟨S_, .f32⟩
  | 64 => ⟨S200000x64, .i1⟩
  | 65 => ⟨S200000x64, .f32⟩
  | 66 => ⟨S200000x64, .f32⟩
  | 67 => ⟨S1x64x64, .f32⟩
  | 68 => ⟨S64x64, .f32⟩
  | 69 => ⟨S200000x64, .f32⟩
  | 70 => ⟨S200000x64, .f32⟩
  | 71 => ⟨S_, .i32⟩
  | 72 => ⟨S200000, .i32⟩
  | 73 => ⟨S200000, .i32⟩
  | 74 => ⟨S_, .i32⟩
  | 75 => ⟨S200000, .i32⟩
  | 76 => ⟨S200000, .i32⟩
  | 77 => ⟨S_, .i32⟩
  | 78 => ⟨S200000, .i32⟩
  | 79 => ⟨S200000, .i1⟩
  | 80 => ⟨S_, .i32⟩
  | 81 => ⟨S200000, .i32⟩
  | 82 => ⟨S200000, .i1⟩
  | 83 => ⟨S200000, .i1⟩
  | 84 => ⟨S_, .i32⟩
  | 85 => ⟨S200000, .i32⟩
  | 86 => ⟨S200000, .i1⟩
  | 87 => ⟨S200000, .i1⟩
  | 88 => ⟨S_, .i32⟩
  | 89 => ⟨S200000, .i32⟩
  | 90 => ⟨S200000, .i1⟩
  | 91 => ⟨S200000, .i1⟩
  | 92 => ⟨S_, .i32⟩
  | 93 => ⟨S_, .i32⟩
  | 94 => ⟨S_, .i32⟩
  | 95 => ⟨S200000, .i32⟩
  | 96 => ⟨S200000, .i32⟩
  | 97 => ⟨S_, .i32⟩
  | 98 => ⟨S200000, .i32⟩
  | 99 => ⟨S200000, .i32⟩
  | 100 => ⟨S_, .i32⟩
  | 101 => ⟨S200000, .i32⟩
  | 102 => ⟨S200000, .i32⟩
  | 103 => ⟨S_, .i32⟩
  | 104 => ⟨S_, .i32⟩
  | 105 => ⟨S_, .i32⟩
  | 106 => ⟨S200000, .i32⟩
  | 107 => ⟨S200000, .i32⟩
  | 108 => ⟨S_, .i32⟩
  | 109 => ⟨S200000, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i1⟩
  | 124 => ⟨S200000, .i1⟩
  | 125 => ⟨S200000x1, .i1⟩
  | 126 => ⟨S_, .i32⟩
  | 127 => ⟨S200000, .i32⟩
  | _ => ⟨S200000x256, .f32⟩

abbrev hbmTy0_4 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x64, .f32⟩
  | 10 => ⟨S_, .f32⟩
  | 11 => ⟨S_, .f32⟩
  | 12 => ⟨S200000x64, .i1⟩
  | 13 => ⟨S200000x64, .f32⟩
  | 14 => ⟨S200000x64, .f32⟩
  | 15 => ⟨S1x64x64, .f32⟩
  | 16 => ⟨S64x64, .f32⟩
  | 17 => ⟨S200000x64, .f32⟩
  | 18 => ⟨S200000x64, .f32⟩
  | 19 => ⟨S_, .i32⟩
  | 20 => ⟨S200000, .i32⟩
  | 21 => ⟨S200000, .i32⟩
  | 22 => ⟨S_, .i32⟩
  | 23 => ⟨S200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i1⟩
  | 31 => ⟨S200000, .i1⟩
  | 32 => ⟨S_, .i32⟩
  | 33 => ⟨S200000, .i32⟩
  | 34 => ⟨S200000, .i1⟩
  | 35 => ⟨S200000, .i1⟩
  | 36 => ⟨S_, .i32⟩
  | 37 => ⟨S200000, .i32⟩
  | 38 => ⟨S200000, .i1⟩
  | 39 => ⟨S200000, .i1⟩
  | 40 => ⟨S_, .i32⟩
  | 41 => ⟨S_, .i32⟩
  | 42 => ⟨S_, .i32⟩
  | 43 => ⟨S200000, .i32⟩
  | 44 => ⟨S200000, .i32⟩
  | 45 => ⟨S_, .i32⟩
  | 46 => ⟨S200000, .i32⟩
  | 47 => ⟨S200000, .i32⟩
  | 48 => ⟨S_, .i32⟩
  | 49 => ⟨S200000, .i32⟩
  | 50 => ⟨S200000, .i32⟩
  | 51 => ⟨S_, .i32⟩
  | 52 => ⟨S_, .i32⟩
  | 53 => ⟨S_, .i32⟩
  | 54 => ⟨S200000, .i32⟩
  | 55 => ⟨S200000, .i32⟩
  | 56 => ⟨S_, .i32⟩
  | 57 => ⟨S200000, .i32⟩
  | 58 => ⟨S200000, .i32⟩
  | 59 => ⟨S200000, .i32⟩
  | 60 => ⟨S_, .i32⟩
  | 61 => ⟨S200000, .i32⟩
  | 62 => ⟨S200000, .i1⟩
  | 63 => ⟨S_, .i32⟩
  | 64 => ⟨S200000, .i32⟩
  | 65 => ⟨S200000, .i32⟩
  | 66 => ⟨S200000, .i32⟩
  | 67 => ⟨S200000x1, .i32⟩
  | 68 => ⟨S200000, .i32⟩
  | 69 => ⟨S_, .i32⟩
  | 70 => ⟨S200000, .i32⟩
  | 71 => ⟨S200000, .i1⟩
  | 72 => ⟨S200000, .i1⟩
  | 73 => ⟨S200000x1, .i1⟩
  | 74 => ⟨S_, .i32⟩
  | 75 => ⟨S200000, .i32⟩
  | 76 => ⟨S200000, .i32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x64, .f32⟩
  | 86 => ⟨S_, .f32⟩
  | 87 => ⟨S_, .f32⟩
  | 88 => ⟨S200000x64, .i1⟩
  | 89 => ⟨S200000x64, .f32⟩
  | 90 => ⟨S200000x64, .f32⟩
  | 91 => ⟨S1x64x64, .f32⟩
  | 92 => ⟨S64x64, .f32⟩
  | 93 => ⟨S200000x64, .f32⟩
  | 94 => ⟨S200000x64, .f32⟩
  | 95 => ⟨S_, .i32⟩
  | 96 => ⟨S200000, .i32⟩
  | 97 => ⟨S200000, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i1⟩
  | 107 => ⟨S200000, .i1⟩
  | 108 => ⟨S_, .i32⟩
  | 109 => ⟨S200000, .i32⟩
  | 110 => ⟨S200000, .i1⟩
  | 111 => ⟨S200000, .i1⟩
  | 112 => ⟨S_, .i32⟩
  | 113 => ⟨S200000, .i32⟩
  | 114 => ⟨S200000, .i1⟩
  | 115 => ⟨S200000, .i1⟩
  | 116 => ⟨S_, .i32⟩
  | 117 => ⟨S_, .i32⟩
  | 118 => ⟨S_, .i32⟩
  | 119 => ⟨S200000, .i32⟩
  | 120 => ⟨S200000, .i32⟩
  | 121 => ⟨S_, .i32⟩
  | 122 => ⟨S200000, .i32⟩
  | 123 => ⟨S200000, .i32⟩
  | 124 => ⟨S_, .i32⟩
  | 125 => ⟨S200000, .i32⟩
  | 126 => ⟨S200000, .i32⟩
  | 127 => ⟨S_, .i32⟩
  | _ => ⟨S200000x256, .f32⟩

abbrev hbmTy0_5 (i : Nat) : BufTy := match i % 128 with
  | 0 => ⟨S_, .i32⟩
  | 1 => ⟨S_, .i32⟩
  | 2 => ⟨S200000, .i32⟩
  | 3 => ⟨S200000, .i32⟩
  | 4 => ⟨S_, .i32⟩
  | 5 => ⟨S200000, .i32⟩
  | 6 => ⟨S200000, .i32⟩
  | 7 => ⟨S200000, .i32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000, .i32⟩
  | 17 => ⟨S_, .i32⟩
  | 18 => ⟨S200000, .i32⟩
  | 19 => ⟨S200000, .i1⟩
  | 20 => ⟨S200000, .i1⟩
  | 21 => ⟨S200000x1, .i1⟩
  | 22 => ⟨S_, .i32⟩
  | 23 => ⟨S200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x64, .f32⟩
  | 34 => ⟨S_, .f32⟩
  | 35 => ⟨S_, .f32⟩
  | 36 => ⟨S200000x64, .i1⟩
  | 37 => ⟨S200000x64, .f32⟩
  | 38 => ⟨S200000x64, .f32⟩
  | 39 => ⟨S1x64x64, .f32⟩
  | 40 => ⟨S64x64, .f32⟩
  | 41 => ⟨S200000x64, .f32⟩
  | 42 => ⟨S200000x64, .f32⟩
  | 43 => ⟨S_, .i32⟩
  | 44 => ⟨S200000, .i32⟩
  | 45 => ⟨S200000, .i32⟩
  | 46 => ⟨S_, .i32⟩
  | 47 => ⟨S200000, .i32⟩
  | 48 => ⟨S200000, .i32⟩
  | 49 => ⟨S_, .i32⟩
  | 50 => ⟨S200000, .i32⟩
  | 51 => ⟨S200000, .i1⟩
  | 52 => ⟨S_, .i32⟩
  | 53 => ⟨S200000, .i32⟩
  | 54 => ⟨S200000, .i1⟩
  | 55 => ⟨S200000, .i1⟩
  | 56 => ⟨S_, .i32⟩
  | 57 => ⟨S200000, .i32⟩
  | 58 => ⟨S200000, .i1⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S_, .i32⟩
  | 66 => ⟨S_, .i32⟩
  | 67 => ⟨S200000, .i32⟩
  | 68 => ⟨S200000, .i32⟩
  | 69 => ⟨S_, .i32⟩
  | 70 => ⟨S200000, .i32⟩
  | 71 => ⟨S200000, .i32⟩
  | 72 => ⟨S_, .i32⟩
  | 73 => ⟨S200000, .i32⟩
  | 74 => ⟨S200000, .i32⟩
  | 75 => ⟨S_, .i32⟩
  | 76 => ⟨S_, .i32⟩
  | 77 => ⟨S_, .i32⟩
  | 78 => ⟨S200000, .i32⟩
  | 79 => ⟨S200000, .i32⟩
  | 80 => ⟨S_, .i32⟩
  | 81 => ⟨S200000, .i32⟩
  | 82 => ⟨S200000, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i1⟩
  | 96 => ⟨S200000, .i1⟩
  | 97 => ⟨S200000x1, .i1⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x64, .f32⟩
  | 110 => ⟨S_, .f32⟩
  | 111 => ⟨S_, .f32⟩
  | 112 => ⟨S200000x64, .i1⟩
  | 113 => ⟨S200000x64, .f32⟩
  | 114 => ⟨S200000x64, .f32⟩
  | 115 => ⟨S1x64x64, .f32⟩
  | 116 => ⟨S64x64, .f32⟩
  | 117 => ⟨S200000x64, .f32⟩
  | 118 => ⟨S200000x64, .f32⟩
  | 119 => ⟨S1x64, .f32⟩
  | 120 => ⟨S200000x64, .f32⟩
  | 121 => ⟨S200000x64, .f32⟩
  | 122 => ⟨S1x64, .f32⟩
  | 123 => ⟨S200000x64, .f32⟩
  | 124 => ⟨S200000x64, .f32⟩
  | 125 => ⟨S_, .f32⟩
  | 126 => ⟨S200000x64, .f32⟩
  | 127 => ⟨S200000x64, .f32⟩
  | _ => ⟨S200000x256, .f32⟩

abbrev hbmTy0_6 (i : Nat) : BufTy := match i % 128 with
  | 0 => ⟨S200000x256, .f32⟩
  | 1 => ⟨S1x256, .f32⟩
  | 2 => ⟨S200000x256, .f32⟩
  | 3 => ⟨S200000x256, .f32⟩
  | 4 => ⟨S1x256, .f32⟩
  | 5 => ⟨S200000x256, .f32⟩
  | 6 => ⟨S200000x256, .f32⟩
  | 7 => ⟨S200000x256, .f32⟩
  | 8 => ⟨S_, .f32⟩
  | 9 => ⟨S200000x256, .f32⟩
  | 10 => ⟨S200000x256, .f32⟩
  | _ => ⟨S200000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v17 : Ref sig .tc := ⟨.hbm, 50, rfl⟩
abbrev main_c_3 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v18 : Ref sig .tc := ⟨.hbm, 72, rfl⟩
abbrev main_cst : Ref sig .tc := ⟨.hbm, 73, rfl⟩
abbrev main_v19 : Ref sig .tc := ⟨.hbm, 74, rfl⟩
abbrev main_c_4 : Ref sig .tc := ⟨.hbm, 75, rfl⟩
abbrev main_v20 : Ref sig .tc := ⟨.hbm, 76, rfl⟩
abbrev main_v21 : Ref sig .tc := ⟨.hbm, 77, rfl⟩
abbrev main_c_5 : Ref sig .tc := ⟨.hbm, 78, rfl⟩
abbrev main_v22 : Ref sig .tc := ⟨.hbm, 79, rfl⟩
abbrev main_v23 : Ref sig .tc := ⟨.hbm, 80, rfl⟩
abbrev main_c_6 : Ref sig .tc := ⟨.hbm, 81, rfl⟩
abbrev main_v24 : Ref sig .tc := ⟨.hbm, 82, rfl⟩
abbrev main_v25 : Ref sig .tc := ⟨.hbm, 83, rfl⟩
abbrev main_c_7 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_c_9 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_c_10 : Ref sig .tc := ⟨.hbm, 96, rfl⟩
abbrev main_c_11 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v35 : Ref sig .tc := ⟨.hbm, 103, rfl⟩
abbrev main_c_12 : Ref sig .tc := ⟨.hbm, 104, rfl⟩
abbrev main_v36 : Ref sig .tc := ⟨.hbm, 105, rfl⟩
abbrev main_v37 : Ref sig .tc := ⟨.hbm, 106, rfl⟩
abbrev main_c_13 : Ref sig .tc := ⟨.hbm, 107, rfl⟩
abbrev main_c_14 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v38 : Ref sig .tc := ⟨.hbm, 114, rfl⟩
abbrev main_v39 : Ref sig .tc := ⟨.hbm, 115, rfl⟩
abbrev main_c_15 : Ref sig .tc := ⟨.hbm, 116, rfl⟩
abbrev main_v40 : Ref sig .tc := ⟨.hbm, 117, rfl⟩
abbrev main_v41 : Ref sig .tc := ⟨.hbm, 118, rfl⟩
abbrev main_c_16 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_c_17 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_c_18 : Ref sig .tc := ⟨.hbm, 130, rfl⟩
abbrev main_v51 : Ref sig .tc := ⟨.hbm, 131, rfl⟩
abbrev main_v52 : Ref sig .tc := ⟨.hbm, 132, rfl⟩
abbrev main_c_19 : Ref sig .tc := ⟨.hbm, 133, rfl⟩
abbrev main_v53 : Ref sig .tc := ⟨.hbm, 134, rfl⟩
abbrev main_v54 : Ref sig .tc := ⟨.hbm, 135, rfl⟩
abbrev main_c_20 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_cst_21 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_c_22 : Ref sig .tc := ⟨.hbm, 151, rfl⟩
abbrev main_v65 : Ref sig .tc := ⟨.hbm, 152, rfl⟩
abbrev main_v66 : Ref sig .tc := ⟨.hbm, 153, rfl⟩
abbrev main_c_23 : Ref sig .tc := ⟨.hbm, 154, rfl⟩
abbrev main_v67 : Ref sig .tc := ⟨.hbm, 155, rfl⟩
abbrev main_v68 : Ref sig .tc := ⟨.hbm, 156, rfl⟩
abbrev main_c_24 : Ref sig .tc := ⟨.hbm, 157, rfl⟩
abbrev main_v69 : Ref sig .tc := ⟨.hbm, 158, rfl⟩
abbrev main_v70 : Ref sig .tc := ⟨.hbm, 159, rfl⟩
abbrev main_c_25 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_c_26 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_c_27 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_c_28 : Ref sig .tc := ⟨.hbm, 172, rfl⟩
abbrev main_c_29 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_v80 : Ref sig .tc := ⟨.hbm, 179, rfl⟩
abbrev main_c_30 : Ref sig .tc := ⟨.hbm, 180, rfl⟩
abbrev main_v81 : Ref sig .tc := ⟨.hbm, 181, rfl⟩
abbrev main_v82 : Ref sig .tc := ⟨.hbm, 182, rfl⟩
abbrev main_c_31 : Ref sig .tc := ⟨.hbm, 183, rfl⟩
abbrev main_c_32 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_v83 : Ref sig .tc := ⟨.hbm, 190, rfl⟩
abbrev main_v84 : Ref sig .tc := ⟨.hbm, 191, rfl⟩
abbrev main_c_33 : Ref sig .tc := ⟨.hbm, 192, rfl⟩
abbrev main_v85 : Ref sig .tc := ⟨.hbm, 193, rfl⟩
abbrev main_v86 : Ref sig .tc := ⟨.hbm, 194, rfl⟩
abbrev main_c_34 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_v91 : Ref sig .tc := ⟨.hbm, 200, rfl⟩
abbrev main_c_35 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_c_36 : Ref sig .tc := ⟨.hbm, 206, rfl⟩
abbrev main_v96 : Ref sig .tc := ⟨.hbm, 207, rfl⟩
abbrev main_v97 : Ref sig .tc := ⟨.hbm, 208, rfl⟩
abbrev main_c_37 : Ref sig .tc := ⟨.hbm, 209, rfl⟩
abbrev main_v98 : Ref sig .tc := ⟨.hbm, 210, rfl⟩
abbrev main_v99 : Ref sig .tc := ⟨.hbm, 211, rfl⟩
abbrev main_c_38 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_cst_39 : Ref sig .tc := ⟨.hbm, 218, rfl⟩
abbrev main_call8_v0 : Ref sig .tc := ⟨.hbm, 219, rfl⟩
abbrev main_call8_v1 : Ref sig .tc := ⟨.hbm, 220, rfl⟩
abbrev main_call8_v2 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_c_40 : Ref sig .tc := ⟨.hbm, 227, rfl⟩
abbrev main_v110 : Ref sig .tc := ⟨.hbm, 228, rfl⟩
abbrev main_v111 : Ref sig .tc := ⟨.hbm, 229, rfl⟩
abbrev main_c_41 : Ref sig .tc := ⟨.hbm, 230, rfl⟩
abbrev main_v112 : Ref sig .tc := ⟨.hbm, 231, rfl⟩
abbrev main_v113 : Ref sig .tc := ⟨.hbm, 232, rfl⟩
abbrev main_c_42 : Ref sig .tc := ⟨.hbm, 233, rfl⟩
abbrev main_v114 : Ref sig .tc := ⟨.hbm, 234, rfl⟩
abbrev main_v115 : Ref sig .tc := ⟨.hbm, 235, rfl⟩
abbrev main_c_43 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_c_44 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_c_45 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_c_46 : Ref sig .tc := ⟨.hbm, 248, rfl⟩
abbrev main_c_47 : Ref sig .tc := ⟨.hbm, 249, rfl⟩
abbrev main_call9_v0 : Ref sig .tc := ⟨.hbm, 250, rfl⟩
abbrev main_call9_v1 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_v125 : Ref sig .tc := ⟨.hbm, 255, rfl⟩
abbrev main_c_48 : Ref sig .tc := ⟨.hbm, 256, rfl⟩
abbrev main_v126 : Ref sig .tc := ⟨.hbm, 257, rfl⟩
abbrev main_v127 : Ref sig .tc := ⟨.hbm, 258, rfl⟩
abbrev main_c_49 : Ref sig .tc := ⟨.hbm, 259, rfl⟩
abbrev main_c_50 : Ref sig .tc := ⟨.hbm, 260, rfl⟩
abbrev main_call10_v0 : Ref sig .tc := ⟨.hbm, 261, rfl⟩
abbrev main_call10_v1 : Ref sig .tc := ⟨.hbm, 262, rfl⟩
abbrev main_call10_v2 : Ref sig .tc := ⟨.hbm, 263, rfl⟩
abbrev main_call10_v3 : Ref sig .tc := ⟨.hbm, 264, rfl⟩
abbrev main_call10_v4 : Ref sig .tc := ⟨.hbm, 265, rfl⟩
abbrev main_v128 : Ref sig .tc := ⟨.hbm, 266, rfl⟩
abbrev main_v129 : Ref sig .tc := ⟨.hbm, 267, rfl⟩
abbrev main_c_51 : Ref sig .tc := ⟨.hbm, 268, rfl⟩
abbrev main_v130 : Ref sig .tc := ⟨.hbm, 269, rfl⟩
abbrev main_v131 : Ref sig .tc := ⟨.hbm, 270, rfl⟩
abbrev main_c_52 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_c_53 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_c_54 : Ref sig .tc := ⟨.hbm, 282, rfl⟩
abbrev main_v141 : Ref sig .tc := ⟨.hbm, 283, rfl⟩
abbrev main_v142 : Ref sig .tc := ⟨.hbm, 284, rfl⟩
abbrev main_c_55 : Ref sig .tc := ⟨.hbm, 285, rfl⟩
abbrev main_v143 : Ref sig .tc := ⟨.hbm, 286, rfl⟩
abbrev main_v144 : Ref sig .tc := ⟨.hbm, 287, rfl⟩
abbrev main_c_56 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_cst_57 : Ref sig .tc := ⟨.hbm, 294, rfl⟩
abbrev main_call11_v0 : Ref sig .tc := ⟨.hbm, 295, rfl⟩
abbrev main_call11_v1 : Ref sig .tc := ⟨.hbm, 296, rfl⟩
abbrev main_call11_v2 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_c_58 : Ref sig .tc := ⟨.hbm, 303, rfl⟩
abbrev main_v155 : Ref sig .tc := ⟨.hbm, 304, rfl⟩
abbrev main_v156 : Ref sig .tc := ⟨.hbm, 305, rfl⟩
abbrev main_c_59 : Ref sig .tc := ⟨.hbm, 306, rfl⟩
abbrev main_v157 : Ref sig .tc := ⟨.hbm, 307, rfl⟩
abbrev main_v158 : Ref sig .tc := ⟨.hbm, 308, rfl⟩
abbrev main_c_60 : Ref sig .tc := ⟨.hbm, 309, rfl⟩
abbrev main_v159 : Ref sig .tc := ⟨.hbm, 310, rfl⟩
abbrev main_v160 : Ref sig .tc := ⟨.hbm, 311, rfl⟩
abbrev main_c_61 : Ref sig .tc := ⟨.hbm, 312, rfl⟩
abbrev main_v161 : Ref sig .tc := ⟨.hbm, 313, rfl⟩
abbrev main_v162 : Ref sig .tc := ⟨.hbm, 314, rfl⟩
abbrev main_v163 : Ref sig .tc := ⟨.hbm, 315, rfl⟩
abbrev main_c_62 : Ref sig .tc := ⟨.hbm, 316, rfl⟩
abbrev main_v164 : Ref sig .tc := ⟨.hbm, 317, rfl⟩
abbrev main_v165 : Ref sig .tc := ⟨.hbm, 318, rfl⟩
abbrev main_v166 : Ref sig .tc := ⟨.hbm, 319, rfl⟩
abbrev main_c_63 : Ref sig .tc := ⟨.hbm, 320, rfl⟩
abbrev main_v167 : Ref sig .tc := ⟨.hbm, 321, rfl⟩
abbrev main_v168 : Ref sig .tc := ⟨.hbm, 322, rfl⟩
abbrev main_v169 : Ref sig .tc := ⟨.hbm, 323, rfl⟩
abbrev main_c_64 : Ref sig .tc := ⟨.hbm, 324, rfl⟩
abbrev main_c_65 : Ref sig .tc := ⟨.hbm, 325, rfl⟩
abbrev main_call12_v0 : Ref sig .tc := ⟨.hbm, 326, rfl⟩
abbrev main_call12_v1 : Ref sig .tc := ⟨.hbm, 327, rfl⟩
abbrev main_call12_v2 : Ref sig .tc := ⟨.hbm, 328, rfl⟩
abbrev main_call12_v3 : Ref sig .tc := ⟨.hbm, 329, rfl⟩
abbrev main_call12_v4 : Ref sig .tc := ⟨.hbm, 330, rfl⟩
abbrev main_v170 : Ref sig .tc := ⟨.hbm, 331, rfl⟩
abbrev main_c_66 : Ref sig .tc := ⟨.hbm, 332, rfl⟩
abbrev main_v171 : Ref sig .tc := ⟨.hbm, 333, rfl⟩
abbrev main_v172 : Ref sig .tc := ⟨.hbm, 334, rfl⟩
abbrev main_c_67 : Ref sig .tc := ⟨.hbm, 335, rfl⟩
abbrev main_c_68 : Ref sig .tc := ⟨.hbm, 336, rfl⟩
abbrev main_call13_v0 : Ref sig .tc := ⟨.hbm, 337, rfl⟩
abbrev main_call13_v1 : Ref sig .tc := ⟨.hbm, 338, rfl⟩
abbrev main_call13_v2 : Ref sig .tc := ⟨.hbm, 339, rfl⟩
abbrev main_call13_v3 : Ref sig .tc := ⟨.hbm, 340, rfl⟩
abbrev main_call13_v4 : Ref sig .tc := ⟨.hbm, 341, rfl⟩
abbrev main_v173 : Ref sig .tc := ⟨.hbm, 342, rfl⟩
abbrev main_v174 : Ref sig .tc := ⟨.hbm, 343, rfl⟩
abbrev main_c_69 : Ref sig .tc := ⟨.hbm, 344, rfl⟩
abbrev main_v175 : Ref sig .tc := ⟨.hbm, 345, rfl⟩
abbrev main_v176 : Ref sig .tc := ⟨.hbm, 346, rfl⟩
abbrev main_c_70 : Ref sig .tc := ⟨.hbm, 347, rfl⟩
abbrev main_v177 : Ref sig .tc := ⟨.hbm, 348, rfl⟩
abbrev main_v178 : Ref sig .tc := ⟨.hbm, 349, rfl⟩
abbrev main_v179 : Ref sig .tc := ⟨.hbm, 350, rfl⟩
abbrev main_v180 : Ref sig .tc := ⟨.hbm, 351, rfl⟩
abbrev main_v181 : Ref sig .tc := ⟨.hbm, 352, rfl⟩
abbrev main_c_71 : Ref sig .tc := ⟨.hbm, 353, rfl⟩
abbrev main_v182 : Ref sig .tc := ⟨.hbm, 354, rfl⟩
abbrev main_v183 : Ref sig .tc := ⟨.hbm, 355, rfl⟩
abbrev main_v184 : Ref sig .tc := ⟨.hbm, 356, rfl⟩
abbrev main_v185 : Ref sig .tc := ⟨.hbm, 357, rfl⟩
abbrev main_c_72 : Ref sig .tc := ⟨.hbm, 358, rfl⟩
abbrev main_v186 : Ref sig .tc := ⟨.hbm, 359, rfl⟩
abbrev main_v187 : Ref sig .tc := ⟨.hbm, 360, rfl⟩
abbrev main_c_73 : Ref sig .tc := ⟨.hbm, 361, rfl⟩
abbrev main_v188 : Ref sig .tc := ⟨.hbm, 362, rfl⟩
abbrev main_v189 : Ref sig .tc := ⟨.hbm, 363, rfl⟩
abbrev main_c_74 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_cst_75 : Ref sig .tc := ⟨.hbm, 370, rfl⟩
abbrev main_call14_v0 : Ref sig .tc := ⟨.hbm, 371, rfl⟩
abbrev main_call14_v1 : Ref sig .tc := ⟨.hbm, 372, rfl⟩
abbrev main_call14_v2 : Ref sig .tc := ⟨.hbm, 373, rfl⟩
abbrev main_v195 : Ref sig .tc := ⟨.hbm, 374, rfl⟩
abbrev main_v196 : Ref sig .tc := ⟨.hbm, 375, rfl⟩
abbrev main_v197 : Ref sig .tc := ⟨.hbm, 376, rfl⟩
abbrev main_v198 : Ref sig .tc := ⟨.hbm, 377, rfl⟩
abbrev main_v199 : Ref sig .tc := ⟨.hbm, 378, rfl⟩
abbrev main_c_76 : Ref sig .tc := ⟨.hbm, 379, rfl⟩
abbrev main_v200 : Ref sig .tc := ⟨.hbm, 380, rfl⟩
abbrev main_v201 : Ref sig .tc := ⟨.hbm, 381, rfl⟩
abbrev main_c_77 : Ref sig .tc := ⟨.hbm, 382, rfl⟩
abbrev main_v202 : Ref sig .tc := ⟨.hbm, 383, rfl⟩
abbrev main_v203 : Ref sig .tc := ⟨.hbm, 384, rfl⟩
abbrev main_c_78 : Ref sig .tc := ⟨.hbm, 385, rfl⟩
abbrev main_v204 : Ref sig .tc := ⟨.hbm, 386, rfl⟩
abbrev main_v205 : Ref sig .tc := ⟨.hbm, 387, rfl⟩
abbrev main_c_79 : Ref sig .tc := ⟨.hbm, 388, rfl⟩
abbrev main_v206 : Ref sig .tc := ⟨.hbm, 389, rfl⟩
abbrev main_v207 : Ref sig .tc := ⟨.hbm, 390, rfl⟩
abbrev main_v208 : Ref sig .tc := ⟨.hbm, 391, rfl⟩
abbrev main_c_80 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_c_81 : Ref sig .tc := ⟨.hbm, 396, rfl⟩
abbrev main_v212 : Ref sig .tc := ⟨.hbm, 397, rfl⟩
abbrev main_v213 : Ref sig .tc := ⟨.hbm, 398, rfl⟩
abbrev main_v214 : Ref sig .tc := ⟨.hbm, 399, rfl⟩
abbrev main_c_82 : Ref sig .tc := ⟨.hbm, 400, rfl⟩
abbrev main_c_83 : Ref sig .tc := ⟨.hbm, 401, rfl⟩
abbrev main_call15_v0 : Ref sig .tc := ⟨.hbm, 402, rfl⟩
abbrev main_call15_v1 : Ref sig .tc := ⟨.hbm, 403, rfl⟩
abbrev main_call15_v2 : Ref sig .tc := ⟨.hbm, 404, rfl⟩
abbrev main_call15_v3 : Ref sig .tc := ⟨.hbm, 405, rfl⟩
abbrev main_call15_v4 : Ref sig .tc := ⟨.hbm, 406, rfl⟩
abbrev main_v215 : Ref sig .tc := ⟨.hbm, 407, rfl⟩
abbrev main_c_84 : Ref sig .tc := ⟨.hbm, 408, rfl⟩
abbrev main_v216 : Ref sig .tc := ⟨.hbm, 409, rfl⟩
abbrev main_v217 : Ref sig .tc := ⟨.hbm, 410, rfl⟩
abbrev main_c_85 : Ref sig .tc := ⟨.hbm, 411, rfl⟩
abbrev main_c_86 : Ref sig .tc := ⟨.hbm, 412, rfl⟩
abbrev main_call16_v0 : Ref sig .tc := ⟨.hbm, 413, rfl⟩
abbrev main_call16_v1 : Ref sig .tc := ⟨.hbm, 414, rfl⟩
abbrev main_call16_v2 : Ref sig .tc := ⟨.hbm, 415, rfl⟩
abbrev main_call16_v3 : Ref sig .tc := ⟨.hbm, 416, rfl⟩
abbrev main_call16_v4 : Ref sig .tc := ⟨.hbm, 417, rfl⟩
abbrev main_v218 : Ref sig .tc := ⟨.hbm, 418, rfl⟩
abbrev main_v219 : Ref sig .tc := ⟨.hbm, 419, rfl⟩
abbrev main_c_87 : Ref sig .tc := ⟨.hbm, 420, rfl⟩
abbrev main_v220 : Ref sig .tc := ⟨.hbm, 421, rfl⟩
abbrev main_v221 : Ref sig .tc := ⟨.hbm, 422, rfl⟩
abbrev main_c_88 : Ref sig .tc := ⟨.hbm, 423, rfl⟩
abbrev main_v222 : Ref sig .tc := ⟨.hbm, 424, rfl⟩
abbrev main_v223 : Ref sig .tc := ⟨.hbm, 425, rfl⟩
abbrev main_v224 : Ref sig .tc := ⟨.hbm, 426, rfl⟩
abbrev main_v225 : Ref sig .tc := ⟨.hbm, 427, rfl⟩
abbrev main_v226 : Ref sig .tc := ⟨.hbm, 428, rfl⟩
abbrev main_c_89 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩
abbrev main_v230 : Ref sig .tc := ⟨.hbm, 433, rfl⟩
abbrev main_c_90 : Ref sig .tc := ⟨.hbm, 434, rfl⟩
abbrev main_v231 : Ref sig .tc := ⟨.hbm, 435, rfl⟩
abbrev main_v232 : Ref sig .tc := ⟨.hbm, 436, rfl⟩
abbrev main_c_91 : Ref sig .tc := ⟨.hbm, 437, rfl⟩
abbrev main_v233 : Ref sig .tc := ⟨.hbm, 438, rfl⟩
abbrev main_v234 : Ref sig .tc := ⟨.hbm, 439, rfl⟩
abbrev main_c_92 : Ref sig .tc := ⟨.hbm, 440, rfl⟩
abbrev main_v235 : Ref sig .tc := ⟨.hbm, 441, rfl⟩
abbrev main_v236 : Ref sig .tc := ⟨.hbm, 442, rfl⟩
abbrev main_v237 : Ref sig .tc := ⟨.hbm, 443, rfl⟩
abbrev main_v238 : Ref sig .tc := ⟨.hbm, 444, rfl⟩
abbrev main_v239 : Ref sig .tc := ⟨.hbm, 445, rfl⟩
abbrev main_cst_93 : Ref sig .tc := ⟨.hbm, 446, rfl⟩
abbrev main_call17_v0 : Ref sig .tc := ⟨.hbm, 447, rfl⟩
abbrev main_call17_v1 : Ref sig .tc := ⟨.hbm, 448, rfl⟩
abbrev main_call17_v2 : Ref sig .tc := ⟨.hbm, 449, rfl⟩
abbrev main_v240 : Ref sig .tc := ⟨.hbm, 450, rfl⟩
abbrev main_v241 : Ref sig .tc := ⟨.hbm, 451, rfl⟩
abbrev main_v242 : Ref sig .tc := ⟨.hbm, 452, rfl⟩
abbrev main_v243 : Ref sig .tc := ⟨.hbm, 453, rfl⟩
abbrev main_v244 : Ref sig .tc := ⟨.hbm, 454, rfl⟩
abbrev main_c_94 : Ref sig .tc := ⟨.hbm, 455, rfl⟩
abbrev main_v245 : Ref sig .tc := ⟨.hbm, 456, rfl⟩
abbrev main_v246 : Ref sig .tc := ⟨.hbm, 457, rfl⟩
abbrev main_c_95 : Ref sig .tc := ⟨.hbm, 458, rfl⟩
abbrev main_v247 : Ref sig .tc := ⟨.hbm, 459, rfl⟩
abbrev main_v248 : Ref sig .tc := ⟨.hbm, 460, rfl⟩
abbrev main_c_96 : Ref sig .tc := ⟨.hbm, 461, rfl⟩
abbrev main_v249 : Ref sig .tc := ⟨.hbm, 462, rfl⟩
abbrev main_v250 : Ref sig .tc := ⟨.hbm, 463, rfl⟩
abbrev main_c_97 : Ref sig .tc := ⟨.hbm, 464, rfl⟩
abbrev main_v251 : Ref sig .tc := ⟨.hbm, 465, rfl⟩
abbrev main_v252 : Ref sig .tc := ⟨.hbm, 466, rfl⟩
abbrev main_v253 : Ref sig .tc := ⟨.hbm, 467, rfl⟩
abbrev main_c_98 : Ref sig .tc := ⟨.hbm, 468, rfl⟩
abbrev main_v254 : Ref sig .tc := ⟨.hbm, 469, rfl⟩
abbrev main_v255 : Ref sig .tc := ⟨.hbm, 470, rfl⟩
abbrev main_v256 : Ref sig .tc := ⟨.hbm, 471, rfl⟩
abbrev main_c_99 : Ref sig .tc := ⟨.hbm, 472, rfl⟩
abbrev main_v257 : Ref sig .tc := ⟨.hbm, 473, rfl⟩
abbrev main_v258 : Ref sig .tc := ⟨.hbm, 474, rfl⟩
abbrev main_v259 : Ref sig .tc := ⟨.hbm, 475, rfl⟩
abbrev main_c_100 : Ref sig .tc := ⟨.hbm, 476, rfl⟩
abbrev main_c_101 : Ref sig .tc := ⟨.hbm, 477, rfl⟩
abbrev main_call18_v0 : Ref sig .tc := ⟨.hbm, 478, rfl⟩
abbrev main_call18_v1 : Ref sig .tc := ⟨.hbm, 479, rfl⟩
abbrev main_call18_v2 : Ref sig .tc := ⟨.hbm, 480, rfl⟩
abbrev main_call18_v3 : Ref sig .tc := ⟨.hbm, 481, rfl⟩
abbrev main_call18_v4 : Ref sig .tc := ⟨.hbm, 482, rfl⟩
abbrev main_v260 : Ref sig .tc := ⟨.hbm, 483, rfl⟩
abbrev main_c_102 : Ref sig .tc := ⟨.hbm, 484, rfl⟩
abbrev main_v261 : Ref sig .tc := ⟨.hbm, 485, rfl⟩
abbrev main_v262 : Ref sig .tc := ⟨.hbm, 486, rfl⟩
abbrev main_c_103 : Ref sig .tc := ⟨.hbm, 487, rfl⟩
abbrev main_c_104 : Ref sig .tc := ⟨.hbm, 488, rfl⟩
abbrev main_call19_v0 : Ref sig .tc := ⟨.hbm, 489, rfl⟩
abbrev main_call19_v1 : Ref sig .tc := ⟨.hbm, 490, rfl⟩
abbrev main_call19_v2 : Ref sig .tc := ⟨.hbm, 491, rfl⟩
abbrev main_call19_v3 : Ref sig .tc := ⟨.hbm, 492, rfl⟩
abbrev main_call19_v4 : Ref sig .tc := ⟨.hbm, 493, rfl⟩
abbrev main_v263 : Ref sig .tc := ⟨.hbm, 494, rfl⟩
abbrev main_v264 : Ref sig .tc := ⟨.hbm, 495, rfl⟩
abbrev main_c_105 : Ref sig .tc := ⟨.hbm, 496, rfl⟩
abbrev main_v265 : Ref sig .tc := ⟨.hbm, 497, rfl⟩
abbrev main_v266 : Ref sig .tc := ⟨.hbm, 498, rfl⟩
abbrev main_c_106 : Ref sig .tc := ⟨.hbm, 499, rfl⟩
abbrev main_v267 : Ref sig .tc := ⟨.hbm, 500, rfl⟩
abbrev main_v268 : Ref sig .tc := ⟨.hbm, 501, rfl⟩
abbrev main_v269 : Ref sig .tc := ⟨.hbm, 502, rfl⟩
abbrev main_v270 : Ref sig .tc := ⟨.hbm, 503, rfl⟩
abbrev main_v271 : Ref sig .tc := ⟨.hbm, 504, rfl⟩
abbrev main_c_107 : Ref sig .tc := ⟨.hbm, 505, rfl⟩
abbrev main_v272 : Ref sig .tc := ⟨.hbm, 506, rfl⟩
abbrev main_v273 : Ref sig .tc := ⟨.hbm, 507, rfl⟩
abbrev main_v274 : Ref sig .tc := ⟨.hbm, 508, rfl⟩
abbrev main_v275 : Ref sig .tc := ⟨.hbm, 509, rfl⟩
abbrev main_c_108 : Ref sig .tc := ⟨.hbm, 510, rfl⟩
abbrev main_v276 : Ref sig .tc := ⟨.hbm, 511, rfl⟩
abbrev main_v277 : Ref sig .tc := ⟨.hbm, 512, rfl⟩
abbrev main_c_109 : Ref sig .tc := ⟨.hbm, 513, rfl⟩
abbrev main_v278 : Ref sig .tc := ⟨.hbm, 514, rfl⟩
abbrev main_v279 : Ref sig .tc := ⟨.hbm, 515, rfl⟩
abbrev main_c_110 : Ref sig .tc := ⟨.hbm, 516, rfl⟩
abbrev main_v280 : Ref sig .tc := ⟨.hbm, 517, rfl⟩
abbrev main_v281 : Ref sig .tc := ⟨.hbm, 518, rfl⟩
abbrev main_v282 : Ref sig .tc := ⟨.hbm, 519, rfl⟩
abbrev main_v283 : Ref sig .tc := ⟨.hbm, 520, rfl⟩
abbrev main_v284 : Ref sig .tc := ⟨.hbm, 521, rfl⟩
abbrev main_cst_111 : Ref sig .tc := ⟨.hbm, 522, rfl⟩
abbrev main_call20_v0 : Ref sig .tc := ⟨.hbm, 523, rfl⟩
abbrev main_call20_v1 : Ref sig .tc := ⟨.hbm, 524, rfl⟩
abbrev main_call20_v2 : Ref sig .tc := ⟨.hbm, 525, rfl⟩
abbrev main_v285 : Ref sig .tc := ⟨.hbm, 526, rfl⟩
abbrev main_v286 : Ref sig .tc := ⟨.hbm, 527, rfl⟩
abbrev main_v287 : Ref sig .tc := ⟨.hbm, 528, rfl⟩
abbrev main_v288 : Ref sig .tc := ⟨.hbm, 529, rfl⟩
abbrev main_v289 : Ref sig .tc := ⟨.hbm, 530, rfl⟩
abbrev main_c_112 : Ref sig .tc := ⟨.hbm, 531, rfl⟩
abbrev main_v290 : Ref sig .tc := ⟨.hbm, 532, rfl⟩
abbrev main_v291 : Ref sig .tc := ⟨.hbm, 533, rfl⟩
abbrev main_c_113 : Ref sig .tc := ⟨.hbm, 534, rfl⟩
abbrev main_v292 : Ref sig .tc := ⟨.hbm, 535, rfl⟩
abbrev main_v293 : Ref sig .tc := ⟨.hbm, 536, rfl⟩
abbrev main_c_114 : Ref sig .tc := ⟨.hbm, 537, rfl⟩
abbrev main_v294 : Ref sig .tc := ⟨.hbm, 538, rfl⟩
abbrev main_v295 : Ref sig .tc := ⟨.hbm, 539, rfl⟩
abbrev main_c_115 : Ref sig .tc := ⟨.hbm, 540, rfl⟩
abbrev main_v296 : Ref sig .tc := ⟨.hbm, 541, rfl⟩
abbrev main_v297 : Ref sig .tc := ⟨.hbm, 542, rfl⟩
abbrev main_v298 : Ref sig .tc := ⟨.hbm, 543, rfl⟩
abbrev main_c_116 : Ref sig .tc := ⟨.hbm, 544, rfl⟩
abbrev main_v299 : Ref sig .tc := ⟨.hbm, 545, rfl⟩
abbrev main_v300 : Ref sig .tc := ⟨.hbm, 546, rfl⟩
abbrev main_v301 : Ref sig .tc := ⟨.hbm, 547, rfl⟩
abbrev main_c_117 : Ref sig .tc := ⟨.hbm, 548, rfl⟩
abbrev main_v302 : Ref sig .tc := ⟨.hbm, 549, rfl⟩
abbrev main_v303 : Ref sig .tc := ⟨.hbm, 550, rfl⟩
abbrev main_v304 : Ref sig .tc := ⟨.hbm, 551, rfl⟩
abbrev main_c_118 : Ref sig .tc := ⟨.hbm, 552, rfl⟩
abbrev main_c_119 : Ref sig .tc := ⟨.hbm, 553, rfl⟩
abbrev main_call21_v0 : Ref sig .tc := ⟨.hbm, 554, rfl⟩
abbrev main_call21_v1 : Ref sig .tc := ⟨.hbm, 555, rfl⟩
abbrev main_call21_v2 : Ref sig .tc := ⟨.hbm, 556, rfl⟩
abbrev main_call21_v3 : Ref sig .tc := ⟨.hbm, 557, rfl⟩
abbrev main_call21_v4 : Ref sig .tc := ⟨.hbm, 558, rfl⟩
abbrev main_v305 : Ref sig .tc := ⟨.hbm, 559, rfl⟩
abbrev main_c_120 : Ref sig .tc := ⟨.hbm, 560, rfl⟩
abbrev main_v306 : Ref sig .tc := ⟨.hbm, 561, rfl⟩
abbrev main_v307 : Ref sig .tc := ⟨.hbm, 562, rfl⟩
abbrev main_c_121 : Ref sig .tc := ⟨.hbm, 563, rfl⟩
abbrev main_c_122 : Ref sig .tc := ⟨.hbm, 564, rfl⟩
abbrev main_call22_v0 : Ref sig .tc := ⟨.hbm, 565, rfl⟩
abbrev main_call22_v1 : Ref sig .tc := ⟨.hbm, 566, rfl⟩
abbrev main_call22_v2 : Ref sig .tc := ⟨.hbm, 567, rfl⟩
abbrev main_call22_v3 : Ref sig .tc := ⟨.hbm, 568, rfl⟩
abbrev main_call22_v4 : Ref sig .tc := ⟨.hbm, 569, rfl⟩
abbrev main_v308 : Ref sig .tc := ⟨.hbm, 570, rfl⟩
abbrev main_v309 : Ref sig .tc := ⟨.hbm, 571, rfl⟩
abbrev main_c_123 : Ref sig .tc := ⟨.hbm, 572, rfl⟩
abbrev main_v310 : Ref sig .tc := ⟨.hbm, 573, rfl⟩
abbrev main_v311 : Ref sig .tc := ⟨.hbm, 574, rfl⟩
abbrev main_c_124 : Ref sig .tc := ⟨.hbm, 575, rfl⟩
abbrev main_v312 : Ref sig .tc := ⟨.hbm, 576, rfl⟩
abbrev main_v313 : Ref sig .tc := ⟨.hbm, 577, rfl⟩
abbrev main_v314 : Ref sig .tc := ⟨.hbm, 578, rfl⟩
abbrev main_v315 : Ref sig .tc := ⟨.hbm, 579, rfl⟩
abbrev main_v316 : Ref sig .tc := ⟨.hbm, 580, rfl⟩
abbrev main_c_125 : Ref sig .tc := ⟨.hbm, 581, rfl⟩
abbrev main_v317 : Ref sig .tc := ⟨.hbm, 582, rfl⟩
abbrev main_v318 : Ref sig .tc := ⟨.hbm, 583, rfl⟩
abbrev main_v319 : Ref sig .tc := ⟨.hbm, 584, rfl⟩
abbrev main_v320 : Ref sig .tc := ⟨.hbm, 585, rfl⟩
abbrev main_c_126 : Ref sig .tc := ⟨.hbm, 586, rfl⟩
abbrev main_v321 : Ref sig .tc := ⟨.hbm, 587, rfl⟩
abbrev main_v322 : Ref sig .tc := ⟨.hbm, 588, rfl⟩
abbrev main_c_127 : Ref sig .tc := ⟨.hbm, 589, rfl⟩
abbrev main_v323 : Ref sig .tc := ⟨.hbm, 590, rfl⟩
abbrev main_v324 : Ref sig .tc := ⟨.hbm, 591, rfl⟩
abbrev main_c_128 : Ref sig .tc := ⟨.hbm, 592, rfl⟩
abbrev main_v325 : Ref sig .tc := ⟨.hbm, 593, rfl⟩
abbrev main_v326 : Ref sig .tc := ⟨.hbm, 594, rfl⟩
abbrev main_v327 : Ref sig .tc := ⟨.hbm, 595, rfl⟩
abbrev main_v328 : Ref sig .tc := ⟨.hbm, 596, rfl⟩
abbrev main_v329 : Ref sig .tc := ⟨.hbm, 597, rfl⟩
abbrev main_cst_129 : Ref sig .tc := ⟨.hbm, 598, rfl⟩
abbrev main_call23_v0 : Ref sig .tc := ⟨.hbm, 599, rfl⟩
abbrev main_call23_v1 : Ref sig .tc := ⟨.hbm, 600, rfl⟩
abbrev main_call23_v2 : Ref sig .tc := ⟨.hbm, 601, rfl⟩
abbrev main_v330 : Ref sig .tc := ⟨.hbm, 602, rfl⟩
abbrev main_v331 : Ref sig .tc := ⟨.hbm, 603, rfl⟩
abbrev main_v332 : Ref sig .tc := ⟨.hbm, 604, rfl⟩
abbrev main_v333 : Ref sig .tc := ⟨.hbm, 605, rfl⟩
abbrev main_v334 : Ref sig .tc := ⟨.hbm, 606, rfl⟩
abbrev main_c_130 : Ref sig .tc := ⟨.hbm, 607, rfl⟩
abbrev main_v335 : Ref sig .tc := ⟨.hbm, 608, rfl⟩
abbrev main_v336 : Ref sig .tc := ⟨.hbm, 609, rfl⟩
abbrev main_c_131 : Ref sig .tc := ⟨.hbm, 610, rfl⟩
abbrev main_v337 : Ref sig .tc := ⟨.hbm, 611, rfl⟩
abbrev main_v338 : Ref sig .tc := ⟨.hbm, 612, rfl⟩
abbrev main_c_132 : Ref sig .tc := ⟨.hbm, 613, rfl⟩
abbrev main_v339 : Ref sig .tc := ⟨.hbm, 614, rfl⟩
abbrev main_v340 : Ref sig .tc := ⟨.hbm, 615, rfl⟩
abbrev main_c_133 : Ref sig .tc := ⟨.hbm, 616, rfl⟩
abbrev main_v341 : Ref sig .tc := ⟨.hbm, 617, rfl⟩
abbrev main_v342 : Ref sig .tc := ⟨.hbm, 618, rfl⟩
abbrev main_v343 : Ref sig .tc := ⟨.hbm, 619, rfl⟩
abbrev main_c_134 : Ref sig .tc := ⟨.hbm, 620, rfl⟩
abbrev main_v344 : Ref sig .tc := ⟨.hbm, 621, rfl⟩
abbrev main_v345 : Ref sig .tc := ⟨.hbm, 622, rfl⟩
abbrev main_v346 : Ref sig .tc := ⟨.hbm, 623, rfl⟩
abbrev main_c_135 : Ref sig .tc := ⟨.hbm, 624, rfl⟩
abbrev main_v347 : Ref sig .tc := ⟨.hbm, 625, rfl⟩
abbrev main_v348 : Ref sig .tc := ⟨.hbm, 626, rfl⟩
abbrev main_v349 : Ref sig .tc := ⟨.hbm, 627, rfl⟩
abbrev main_c_136 : Ref sig .tc := ⟨.hbm, 628, rfl⟩
abbrev main_c_137 : Ref sig .tc := ⟨.hbm, 629, rfl⟩
abbrev main_call24_v0 : Ref sig .tc := ⟨.hbm, 630, rfl⟩
abbrev main_call24_v1 : Ref sig .tc := ⟨.hbm, 631, rfl⟩
abbrev main_call24_v2 : Ref sig .tc := ⟨.hbm, 632, rfl⟩
abbrev main_call24_v3 : Ref sig .tc := ⟨.hbm, 633, rfl⟩
abbrev main_call24_v4 : Ref sig .tc := ⟨.hbm, 634, rfl⟩
abbrev main_v350 : Ref sig .tc := ⟨.hbm, 635, rfl⟩
abbrev main_c_138 : Ref sig .tc := ⟨.hbm, 636, rfl⟩
abbrev main_v351 : Ref sig .tc := ⟨.hbm, 637, rfl⟩
abbrev main_v352 : Ref sig .tc := ⟨.hbm, 638, rfl⟩
abbrev main_c_139 : Ref sig .tc := ⟨.hbm, 639, rfl⟩
abbrev main_c_140 : Ref sig .tc := ⟨.hbm, 640, rfl⟩
abbrev main_call25_v0 : Ref sig .tc := ⟨.hbm, 641, rfl⟩
abbrev main_call25_v1 : Ref sig .tc := ⟨.hbm, 642, rfl⟩
abbrev main_call25_v2 : Ref sig .tc := ⟨.hbm, 643, rfl⟩
abbrev main_call25_v3 : Ref sig .tc := ⟨.hbm, 644, rfl⟩
abbrev main_call25_v4 : Ref sig .tc := ⟨.hbm, 645, rfl⟩
abbrev main_v353 : Ref sig .tc := ⟨.hbm, 646, rfl⟩
abbrev main_v354 : Ref sig .tc := ⟨.hbm, 647, rfl⟩
abbrev main_c_141 : Ref sig .tc := ⟨.hbm, 648, rfl⟩
abbrev main_v355 : Ref sig .tc := ⟨.hbm, 649, rfl⟩
abbrev main_v356 : Ref sig .tc := ⟨.hbm, 650, rfl⟩
abbrev main_c_142 : Ref sig .tc := ⟨.hbm, 651, rfl⟩
abbrev main_v357 : Ref sig .tc := ⟨.hbm, 652, rfl⟩
abbrev main_v358 : Ref sig .tc := ⟨.hbm, 653, rfl⟩
abbrev main_v359 : Ref sig .tc := ⟨.hbm, 654, rfl⟩
abbrev main_v360 : Ref sig .tc := ⟨.hbm, 655, rfl⟩
abbrev main_v361 : Ref sig .tc := ⟨.hbm, 656, rfl⟩
abbrev main_c_143 : Ref sig .tc := ⟨.hbm, 657, rfl⟩
abbrev main_v362 : Ref sig .tc := ⟨.hbm, 658, rfl⟩
abbrev main_v363 : Ref sig .tc := ⟨.hbm, 659, rfl⟩
abbrev main_v364 : Ref sig .tc := ⟨.hbm, 660, rfl⟩
abbrev main_v365 : Ref sig .tc := ⟨.hbm, 661, rfl⟩
abbrev main_c_144 : Ref sig .tc := ⟨.hbm, 662, rfl⟩
abbrev main_v366 : Ref sig .tc := ⟨.hbm, 663, rfl⟩
abbrev main_v367 : Ref sig .tc := ⟨.hbm, 664, rfl⟩
abbrev main_c_145 : Ref sig .tc := ⟨.hbm, 665, rfl⟩
abbrev main_v368 : Ref sig .tc := ⟨.hbm, 666, rfl⟩
abbrev main_v369 : Ref sig .tc := ⟨.hbm, 667, rfl⟩
abbrev main_c_146 : Ref sig .tc := ⟨.hbm, 668, rfl⟩
abbrev main_v370 : Ref sig .tc := ⟨.hbm, 669, rfl⟩
abbrev main_v371 : Ref sig .tc := ⟨.hbm, 670, rfl⟩
abbrev main_v372 : Ref sig .tc := ⟨.hbm, 671, rfl⟩
abbrev main_v373 : Ref sig .tc := ⟨.hbm, 672, rfl⟩
abbrev main_v374 : Ref sig .tc := ⟨.hbm, 673, rfl⟩
abbrev main_cst_147 : Ref sig .tc := ⟨.hbm, 674, rfl⟩
abbrev main_call26_v0 : Ref sig .tc := ⟨.hbm, 675, rfl⟩
abbrev main_call26_v1 : Ref sig .tc := ⟨.hbm, 676, rfl⟩
abbrev main_call26_v2 : Ref sig .tc := ⟨.hbm, 677, rfl⟩
abbrev main_v375 : Ref sig .tc := ⟨.hbm, 678, rfl⟩
abbrev main_v376 : Ref sig .tc := ⟨.hbm, 679, rfl⟩
abbrev main_v377 : Ref sig .tc := ⟨.hbm, 680, rfl⟩
abbrev main_v378 : Ref sig .tc := ⟨.hbm, 681, rfl⟩
abbrev main_v379 : Ref sig .tc := ⟨.hbm, 682, rfl⟩
abbrev main_c_148 : Ref sig .tc := ⟨.hbm, 683, rfl⟩
abbrev main_v380 : Ref sig .tc := ⟨.hbm, 684, rfl⟩
abbrev main_v381 : Ref sig .tc := ⟨.hbm, 685, rfl⟩
abbrev main_c_149 : Ref sig .tc := ⟨.hbm, 686, rfl⟩
abbrev main_v382 : Ref sig .tc := ⟨.hbm, 687, rfl⟩
abbrev main_v383 : Ref sig .tc := ⟨.hbm, 688, rfl⟩
abbrev main_c_150 : Ref sig .tc := ⟨.hbm, 689, rfl⟩
abbrev main_v384 : Ref sig .tc := ⟨.hbm, 690, rfl⟩
abbrev main_v385 : Ref sig .tc := ⟨.hbm, 691, rfl⟩
abbrev main_c_151 : Ref sig .tc := ⟨.hbm, 692, rfl⟩
abbrev main_v386 : Ref sig .tc := ⟨.hbm, 693, rfl⟩
abbrev main_v387 : Ref sig .tc := ⟨.hbm, 694, rfl⟩
abbrev main_v388 : Ref sig .tc := ⟨.hbm, 695, rfl⟩
abbrev main_c_152 : Ref sig .tc := ⟨.hbm, 696, rfl⟩
abbrev main_v389 : Ref sig .tc := ⟨.hbm, 697, rfl⟩
abbrev main_v390 : Ref sig .tc := ⟨.hbm, 698, rfl⟩
abbrev main_v391 : Ref sig .tc := ⟨.hbm, 699, rfl⟩
abbrev main_c_153 : Ref sig .tc := ⟨.hbm, 700, rfl⟩
abbrev main_v392 : Ref sig .tc := ⟨.hbm, 701, rfl⟩
abbrev main_v393 : Ref sig .tc := ⟨.hbm, 702, rfl⟩
abbrev main_v394 : Ref sig .tc := ⟨.hbm, 703, rfl⟩
abbrev main_c_154 : Ref sig .tc := ⟨.hbm, 704, rfl⟩
abbrev main_c_155 : Ref sig .tc := ⟨.hbm, 705, rfl⟩
abbrev main_call27_v0 : Ref sig .tc := ⟨.hbm, 706, rfl⟩
abbrev main_call27_v1 : Ref sig .tc := ⟨.hbm, 707, rfl⟩
abbrev main_call27_v2 : Ref sig .tc := ⟨.hbm, 708, rfl⟩
abbrev main_call27_v3 : Ref sig .tc := ⟨.hbm, 709, rfl⟩
abbrev main_call27_v4 : Ref sig .tc := ⟨.hbm, 710, rfl⟩
abbrev main_v395 : Ref sig .tc := ⟨.hbm, 711, rfl⟩
abbrev main_c_156 : Ref sig .tc := ⟨.hbm, 712, rfl⟩
abbrev main_v396 : Ref sig .tc := ⟨.hbm, 713, rfl⟩
abbrev main_v397 : Ref sig .tc := ⟨.hbm, 714, rfl⟩
abbrev main_c_157 : Ref sig .tc := ⟨.hbm, 715, rfl⟩
abbrev main_c_158 : Ref sig .tc := ⟨.hbm, 716, rfl⟩
abbrev main_call28_v0 : Ref sig .tc := ⟨.hbm, 717, rfl⟩
abbrev main_call28_v1 : Ref sig .tc := ⟨.hbm, 718, rfl⟩
abbrev main_call28_v2 : Ref sig .tc := ⟨.hbm, 719, rfl⟩
abbrev main_call28_v3 : Ref sig .tc := ⟨.hbm, 720, rfl⟩
abbrev main_call28_v4 : Ref sig .tc := ⟨.hbm, 721, rfl⟩
abbrev main_v398 : Ref sig .tc := ⟨.hbm, 722, rfl⟩
abbrev main_v399 : Ref sig .tc := ⟨.hbm, 723, rfl⟩
abbrev main_c_159 : Ref sig .tc := ⟨.hbm, 724, rfl⟩
abbrev main_v400 : Ref sig .tc := ⟨.hbm, 725, rfl⟩
abbrev main_v401 : Ref sig .tc := ⟨.hbm, 726, rfl⟩
abbrev main_c_160 : Ref sig .tc := ⟨.hbm, 727, rfl⟩
abbrev main_v402 : Ref sig .tc := ⟨.hbm, 728, rfl⟩
abbrev main_v403 : Ref sig .tc := ⟨.hbm, 729, rfl⟩
abbrev main_v404 : Ref sig .tc := ⟨.hbm, 730, rfl⟩
abbrev main_v405 : Ref sig .tc := ⟨.hbm, 731, rfl⟩
abbrev main_v406 : Ref sig .tc := ⟨.hbm, 732, rfl⟩
abbrev main_c_161 : Ref sig .tc := ⟨.hbm, 733, rfl⟩
abbrev main_v407 : Ref sig .tc := ⟨.hbm, 734, rfl⟩
abbrev main_v408 : Ref sig .tc := ⟨.hbm, 735, rfl⟩
abbrev main_v409 : Ref sig .tc := ⟨.hbm, 736, rfl⟩
abbrev main_v410 : Ref sig .tc := ⟨.hbm, 737, rfl⟩
abbrev main_c_162 : Ref sig .tc := ⟨.hbm, 738, rfl⟩
abbrev main_v411 : Ref sig .tc := ⟨.hbm, 739, rfl⟩
abbrev main_v412 : Ref sig .tc := ⟨.hbm, 740, rfl⟩
abbrev main_c_163 : Ref sig .tc := ⟨.hbm, 741, rfl⟩
abbrev main_v413 : Ref sig .tc := ⟨.hbm, 742, rfl⟩
abbrev main_v414 : Ref sig .tc := ⟨.hbm, 743, rfl⟩
abbrev main_c_164 : Ref sig .tc := ⟨.hbm, 744, rfl⟩
abbrev main_v415 : Ref sig .tc := ⟨.hbm, 745, rfl⟩
abbrev main_v416 : Ref sig .tc := ⟨.hbm, 746, rfl⟩
abbrev main_v417 : Ref sig .tc := ⟨.hbm, 747, rfl⟩
abbrev main_v418 : Ref sig .tc := ⟨.hbm, 748, rfl⟩
abbrev main_v419 : Ref sig .tc := ⟨.hbm, 749, rfl⟩
abbrev main_cst_165 : Ref sig .tc := ⟨.hbm, 750, rfl⟩
abbrev main_call29_v0 : Ref sig .tc := ⟨.hbm, 751, rfl⟩
abbrev main_call29_v1 : Ref sig .tc := ⟨.hbm, 752, rfl⟩
abbrev main_call29_v2 : Ref sig .tc := ⟨.hbm, 753, rfl⟩
abbrev main_v420 : Ref sig .tc := ⟨.hbm, 754, rfl⟩
abbrev main_v421 : Ref sig .tc := ⟨.hbm, 755, rfl⟩
abbrev main_v422 : Ref sig .tc := ⟨.hbm, 756, rfl⟩
abbrev main_v423 : Ref sig .tc := ⟨.hbm, 757, rfl⟩
abbrev main_v424 : Ref sig .tc := ⟨.hbm, 758, rfl⟩
abbrev main_v425 : Ref sig .tc := ⟨.hbm, 759, rfl⟩
abbrev main_v426 : Ref sig .tc := ⟨.hbm, 760, rfl⟩
abbrev main_v427 : Ref sig .tc := ⟨.hbm, 761, rfl⟩
abbrev main_v428 : Ref sig .tc := ⟨.hbm, 762, rfl⟩
abbrev main_v429 : Ref sig .tc := ⟨.hbm, 763, rfl⟩
abbrev main_v430 : Ref sig .tc := ⟨.hbm, 764, rfl⟩
abbrev main_call30_cst : Ref sig .tc := ⟨.hbm, 765, rfl⟩
abbrev main_call30_v0 : Ref sig .tc := ⟨.hbm, 766, rfl⟩
abbrev main_v431 : Ref sig .tc := ⟨.hbm, 767, rfl⟩
abbrev main_v432 : Ref sig .tc := ⟨.hbm, 768, rfl⟩
abbrev main_v433 : Ref sig .tc := ⟨.hbm, 769, rfl⟩
abbrev main_v434 : Ref sig .tc := ⟨.hbm, 770, rfl⟩
abbrev main_v435 : Ref sig .tc := ⟨.hbm, 771, rfl⟩
abbrev main_v436 : Ref sig .tc := ⟨.hbm, 772, rfl⟩
abbrev main_v437 : Ref sig .tc := ⟨.hbm, 773, rfl⟩
abbrev main_v438 : Ref sig .tc := ⟨.hbm, 774, rfl⟩
abbrev main_v439 : Ref sig .tc := ⟨.hbm, 775, rfl⟩
abbrev main_call31_cst : Ref sig .tc := ⟨.hbm, 776, rfl⟩
abbrev main_call31_v0 : Ref sig .tc := ⟨.hbm, 777, rfl⟩
abbrev main_v440 : Ref sig .tc := ⟨.hbm, 778, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S589824 : S_.BroadcastsInDim S589824 (![] : Fin 0 → Fin S589824.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S9x64x64_S1x64x64_0_0_0 : S9x64x64.Slices ![0, 0, 0] S1x64x64
  shapeCasts_S1x64x64_S64x64 : S1x64x64.ShapeCasts S64x64
  slices_S9x64x64_S1x64x64_1_0_0 : S9x64x64.Slices ![1, 0, 0] S1x64x64
  slices_S9x64x64_S1x64x64_2_0_0 : S9x64x64.Slices ![2, 0, 0] S1x64x64
  slices_S9x64x64_S1x64x64_3_0_0 : S9x64x64.Slices ![3, 0, 0] S1x64x64
  slices_S9x64x64_S1x64x64_4_0_0 : S9x64x64.Slices ![4, 0, 0] S1x64x64
  slices_S9x64x64_S1x64x64_5_0_0 : S9x64x64.Slices ![5, 0, 0] S1x64x64
  slices_S9x64x64_S1x64x64_6_0_0 : S9x64x64.Slices ![6, 0, 0] S1x64x64
  slices_S9x64x64_S1x64x64_7_0_0 : S9x64x64.Slices ![7, 0, 0] S1x64x64
  slices_S9x64x64_S1x64x64_8_0_0 : S9x64x64.Slices ![8, 0, 0] S1x64x64
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  dot_S200000x256_S256x64_S200000x64_1_0_0_1_n_n_wf : DotDims.WF S200000x256 S256x64 S200000x64 [1] [0] [0] [1] [] []
  scatter_S589824_S200000x1_S200000_n_0_0_1_wf : ScatterDims.WF S589824 S200000x1 S200000 [] [0] [0] 1
  gather_S589824_S200000x1_S200000_n_0_n_n_0_1_1_wf : GatherDims.WF S589824 S200000x1 S200000 [] [0] [] [0] [] 1 ![1]
  gather_S200000x64_S200000x1_S200000x64_1_0_n_n_0_1_164_wf : GatherDims.WF S200000x64 S200000x1 S200000x64 [1] [0] [] [0] [] 1 ![1, 64]
  dot_S200000x64_S64x64_S200000x64_1_0_0_1_n_n_wf : DotDims.WF S200000x64 S64x64 S200000x64 [1] [0] [0] [1] [] []
  dot_S200000x64_S64x256_S200000x256_1_0_0_1_n_n_wf : DotDims.WF S200000x64 S64x256 S200000x256 [1] [0] [0] [1] [] []

variable [Facts₀]

def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def scatter_S589824_S200000x1_S200000_n_0_0_1 : ScatterDims S589824 S200000x1 S200000 where
  updateWindowDims := []
  insertedWindowDims := [0]
  scatterDimsToOperandDims := [0]
  indexVectorDim := 1
  wf := scatter_S589824_S200000x1_S200000_n_0_0_1_wf
def gather_S589824_S200000x1_S200000_n_0_n_n_0_1_1 : GatherDims S589824 S200000x1 S200000 where
  offsetDims := []
  collapsedSliceDims := [0]
  operandBatchingDims := []
  startIndicesBatchingDims := []
  startIndexMap := [0]
  indexVectorDim := 1
  sliceSizes := ![1]
  wf := gather_S589824_S200000x1_S200000_n_0_n_n_0_1_1_wf
def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x256_S200000x256_1_0_0_1_n_n : DotDims S200000x64 S64x256 S200000x256 where
  lhsContracting := [1]
  rhsContracting := [0]
  lhsNonContracting := [0]
  rhsNonContracting := [1]
  lhsBatch := []
  rhsBatch := []
  wf := dot_S200000x64_S64x256_S200000x256_1_0_0_1_n_n_wf

class Facts : Prop extends Facts₀ where

variable [Facts]
-- ==== Proof.KRun.lean ====
/-
  The kernel program's run, given each pallas_call's kernel half.

  @main is: six reshapes, the first pallas_call (a 1×1 convolution with its scale, shift and clamp at zero), the host
  operations that build the table of neighbour rows and gather through it, and the second pallas_call (the nine taps'
  products summed, scale, shift, clamp, a second 1×1 convolution, scale, shift, the residual and a last clamp).

  What a pallas_call needs from its kernel is its proof data at the contents the region is entered with: the windows'
  arrays, what the body leaves in each staging buffer at each grid point, and the body's obligation. Everything here is
  stated over such data as hypotheses, for either float instance. A region leaves its input arrays as they were and its
  output array at what the write-backs of all grid points fold to; every other buffer is untouched. So the buffers
  between two items of @main are: the launch contents, then each host stretch applied, then a region's output array
  replaced — and at the end every unscoped buffer holds the last of these valuations, which is what the run's
  post-condition says.
-/
import proofs.«125710_j13511967113615_2_alg».proof.Proof.RegionsI
import proofs.«125710_j13511967113615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The TensorCore's buffer contents on every core, read at the TensorCore's references. -/
abbrev VT (F : FTy → Type) : Type := (c : Dev nD) → (b : Ref sig .tc) → Buf (Elt F) ((c : Thread nD τ).loc b)

/-- A pallas_call's kernel half: proof data at any entry contents, with the arrays read off those contents, full
    shares, nothing owed, no bound on the recorded waits, the plain invariant, and the body's obligation. -/
structure Half (F : FTy → Type) [FloatOps F] (cfg : Cfg sig Λ₀) where
  dat : VT F → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hΦ : ∀ V c k, (dat V c).Φ k = Pipeline.ΦA cfg.spec c
  hrec : ∀ V c k, (dat V c).recorded k = Set.univ
  hbody : ∀ V c, BodyObligation (dat V c) (defs₀ (F := F)) Variants.none () Set.univ

variable (h0 : Half F cfg0) (h1 : Half F cfg1)
variable (m : (ℓ : Loc nD τ sig) → Buf (Elt F) ℓ)

/-! ## The buffers the regions leave -/

/-- The contents the first pallas_call is entered with. -/
abbrev VV1 : VT F := fun c b => GenP.V1 m c b
/-- After the first pallas_call: its arrays at what its pipeline leaves, every other buffer as entered. -/
def W2 (c : Dev nD) : Valuation τ sig (Elt F) :=
  Pipeline.withArrays spec0 c (GenP.V1 m c) fun w => (h0.dat (VV1 m) c).arrAt w cfg0.N
/-- What the first pallas_call leaves, as the unknowns of the valuations between items. -/
def outsA : GenP.Outs (F := F) := fun _ r c => W2 h0 m c (Proc.devRef .tc r)
/-- The contents the second pallas_call is entered with. -/
abbrev VV61 : VT F := fun c b => GenP.V61 m (outsA h0 m) c b
/-- After the second pallas_call. -/
def W62 (c : Dev nD) : Valuation τ sig (Elt F) :=
  Pipeline.withArrays spec1 c (GenP.V61 m (outsA h0 m) c) fun w => (h1.dat (VV61 h0 m) c).arrAt w cfg1.N
/-- What both regions leave: item 2 is the first region's exit, item 62 the second's. -/
def outs : GenP.Outs (F := F) := fun j r c =>
  match j with
  | 2 => W2 h0 m c (Proc.devRef .tc r)
  | _ => W62 h0 h1 m c (Proc.devRef .tc r)

theorem V61_outs (c : Dev nD) : GenP.V61 m (outs h0 h1 m) c = GenP.V61 m (outsA h0 m) c := rfl

theorem W2_arr (c : Dev nD) (w : Fin cfg0.W) :
    W2 h0 m c (Proc.devRef .tc (Pipeline.arrRef spec0 w)) = (h0.dat (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 h0 m c (Proc.devRef .tc b) = GenP.V1 m c (Proc.devRef .tc b) := by
  unfold W2; exact Pipeline.withArrays_of_ne spec0 c _ _ b hb
theorem W62_arr (c : Dev nD) (w : Fin cfg1.W) :
    W62 h0 h1 m c (Proc.devRef .tc (Pipeline.arrRef spec1 w)) = (h1.dat (VV61 h0 m) c).arrAt w cfg1.N := by
  unfold W62; exact Pipeline.withArrays_arr spec1 launch1.win.arr_inj c _ _ w
theorem W62_of_ne (c : Dev nD) (b : Ref sig .tc) (hb : ∀ w, Pipeline.arrRef spec1 w ≠ b) :
    W62 h0 h1 m c (Proc.devRef .tc b) = GenP.V61 m (outsA h0 m) c (Proc.devRef .tc b) := by
  unfold W62; exact Pipeline.withArrays_of_ne spec1 c _ _ b hb

/-- An input window's array is left as entered. -/
theorem W2_in (c : Dev nD) (w : Fin cfg0.W) (hin : (cfg0.win w).isOut = false) :
    W2 h0 m c (Proc.devRef .tc (Pipeline.arrRef spec0 w)) = GenP.V1 m c (Proc.devRef .tc (Pipeline.arrRef spec0 w)) :=
  (W2_arr h0 m c w).trans (((h0.dat (VV1 m) c).arrAt_in w hin _).trans (h0.hA (VV1 m) c w))
theorem W62_in (c : Dev nD) (w : Fin cfg1.W) (hin : (cfg1.win w).isOut = false) :
    W62 h0 h1 m c (Proc.devRef .tc (Pipeline.arrRef spec1 w)) = GenP.V61 m (outsA h0 m) c (Proc.devRef .tc (Pipeline.arrRef spec1 w)) :=
  (W62_arr h0 h1 m c w).trans (((h1.dat (VV61 h0 m) c).arrAt_in w hin _).trans (h1.hA (VV61 h0 m) c w))

/-- The valuation after the first region is W2 at every reference: the output array replaced, the input arrays and
    every other buffer as entered. -/
theorem V2_eq (c : Dev nD) (b : Ref sig .tc) : GenP.V2 m (outs h0 h1 m) c b = W2 h0 m c (Proc.devRef .tc b) := by
  by_cases hb : b = main_v6
  · subst hb
    simp only [GenP.V2, Function.update_self]
    rfl
  · rw [GenP.V2_of m (outs h0 h1 m) c b (by simpa using hb)]
    by_cases hw : ∃ w, Pipeline.arrRef spec0 w = b
    · obtain ⟨w, rfl⟩ := hw
      have hin : (cfg0.win w).isOut = false := by
        match w with
        | ⟨0, _⟩ => rfl
        | ⟨1, _⟩ => rfl
        | ⟨2, _⟩ => rfl
        | ⟨3, _⟩ => rfl
        | ⟨4, _⟩ => exact absurd rfl hb
      exact (W2_in h0 m c w hin).symm
    · exact (W2_of_ne h0 m c b fun w e => hw ⟨w, e⟩).symm

theorem V62_eq (c : Dev nD) (b : Ref sig .tc) : GenP.V62 m (outs h0 h1 m) c b = W62 h0 h1 m c (Proc.devRef .tc b) := by
  by_cases hb : b = main_v317
  · subst hb
    simp only [GenP.V62, Function.update_self]
    rfl
  · rw [GenP.V62_of m (outs h0 h1 m) c b (by simpa using hb), V61_outs]
    by_cases hw : ∃ w, Pipeline.arrRef spec1 w = b
    · obtain ⟨w, rfl⟩ := hw
      have hin : (cfg1.win w).isOut = false := by
        match w with
        | ⟨0, _⟩ => rfl
        | ⟨1, _⟩ => rfl
        | ⟨2, _⟩ => rfl
        | ⟨3, _⟩ => rfl
        | ⟨4, _⟩ => rfl
        | ⟨5, _⟩ => rfl
        | ⟨6, _⟩ => rfl
        | ⟨7, _⟩ => rfl
        | ⟨8, _⟩ => exact absurd rfl hb
      exact (W62_in h0 h1 m c w hin).symm
    · exact (W62_of_ne h0 h1 m c b fun w e => hw ⟨w, e⟩).symm

/-- The same read at the TensorCore's references. -/
abbrev VV2 : VT F := fun c b => GenP.V2 m (outs h0 h1 m) c b
abbrev VV62 : VT F := fun c b => GenP.V62 m (outs h0 h1 m) c b

theorem hF0 (c : Dev nD) (w : Fin cfg0.W) : (h0.dat (VV1 m) c).arrAt w cfg0.N = VV2 h0 h1 m c (Pipeline.arrRef spec0 w) :=
  ((V2_eq h0 h1 m c _).trans (W2_arr h0 m c w)).symm
theorem hrest0 (c : Dev nD) : ∀ b, b ∉ Finset.univ.image (Pipeline.arrRef spec0) → VV2 h0 h1 m c b = VV1 m c b :=
  fun b hb => (V2_eq h0 h1 m c b).trans (W2_of_ne h0 m c b fun w e => hb (Finset.mem_image.mpr ⟨w, Finset.mem_univ _, e⟩))
theorem hF1 (c : Dev nD) (w : Fin cfg1.W) : (h1.dat (VV61 h0 m) c).arrAt w cfg1.N = VV62 h0 h1 m c (Pipeline.arrRef spec1 w) :=
  ((V62_eq h0 h1 m c _).trans (W62_arr h0 h1 m c w)).symm
theorem hrest1 (c : Dev nD) : ∀ b, b ∉ Finset.univ.image (Pipeline.arrRef spec1) → VV62 h0 h1 m c b = VV61 h0 m c b :=
  fun b hb => (V62_eq h0 h1 m c b).trans (W62_of_ne h0 h1 m c b fun w e => hb (Finset.mem_image.mpr ⟨w, Finset.mem_univ _, e⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => h0.dat (VV1 m) c
  | ⟨1, _⟩ => fun c => h1.dat (VV61 h0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- The last thread state without the dues. -/
abbrev Tₙ (c : Dev nD) : sProp 𝕄 :=
  iprop(StableHlo.held (c : Thread nD τ) (Pipeline.ucRefs τ sig) (GenP.V62 m (outs h0 h1 m) c) ∗ ∃ r, prngReg c r)

/-! ## The regions as segments -/

-- iapply of a library lemma stated over the pinned configuration unifies with the printed one only when unification
-- may unfold plain definitions in a metavariable's type
set_option backward.isDefEq.respectTransparency.types false in
/-- The first pallas_call over the thread state: entered from every unscoped buffer at the contents before it, left at
    the contents after it. Its arrays are split out of the unscoped buffers and put back at the exit contents; the
    generator register goes into the plain invariant and comes out; nothing is owed; the kernel has no semaphore of its own. -/
def reg0 : RegionSeg (pcfgs (F := F)) GenP.adm (pdats h0 h1 m) () defs₀ 𝒱₀ L lv 0 where
  win := launch0.win.to₀
  block_pos := launch0.block_pos
  stage_whole := launch0.stage_whole
  K := PEmpty
  osem k := k.elim
  ho := Pipeline.OwnSemFacts.none _
  hbody c := (h0.hbody (VV1 m) c).loose
  hwaits := Pipeline.hwaits_of_owed_zero _ _ _ _ L lv 0 fun c t => h0.howed (VV1 m) c t
  pre c := iprop(StableHlo.held (c : Thread nD τ) (Pipeline.ucRefs τ sig) (GenP.V1 m c) ∗ R c)
  post c := iprop(StableHlo.held (c : Thread nD τ) (Pipeline.ucRefs τ sig) (GenP.V2 m (outs h0 h1 m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) GenP.adm (pdats h0 h1 m) launch0.win launch0.arr_whole c
      ((pdats h0 h1 m 0 c).share_full fun w => h0.hq (VV1 m) c w) (VV1 m c) fun w => h0.hA (VV1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x hx; left
        rw [show (pdats h0 h1 m 0 c).recorded 0 = Set.univ from h0.hrec (VV1 m) c 0]; exact Set.mem_univ _
      rw [show (pdats h0 h1 m 0 c).owed 0 = 0 from h0.howed (VV1 m) c 0]
      iexact HO
    isplitl [Hp]; · iexact Hp
    iexact Hrest
  hin c := by
    rw [show (pdats h0 h1 m 0 c).Φ 0 = Pipeline.ΦA spec0 c from h0.hΦ (VV1 m) c 0]; unfold Pipeline.ΦA
    iintro ⟨Hp, -, Hr⟩
    isplitl [Hr]; · iexact Hr
    iexact Hp
  hout c := by
    rw [Pipeline.ownSems0_none, show (pdats h0 h1 m 0 c).Φ (Fin.last _) = Pipeline.ΦA spec0 c from h0.hΦ (VV1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats h0 h1 m) ((pdats h0 h1 m 0 c).share_full fun w => h0.hq (VV1 m) c w)
      (VV1 m c) (VV2 h0 h1 m c) ((pdats h0 h1 m 0 c).arrAt · cfg0.N) (hF0 h0 h1 m c) (hrest0 h0 h1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats h0 h1 m 0 c).owed (Fin.last _) = 0 from h0.howed (VV1 m) c _]
    iexact HO

-- iapply of a library lemma stated over the pinned configuration unifies with the printed one only when unification
-- may unfold plain definitions in a metavariable's type
set_option backward.isDefEq.respectTransparency.types false in
/-- The second pallas_call over the thread state: entered from every unscoped buffer at the contents before it, left at
    the contents after it. Its arrays are split out of the unscoped buffers and put back at the exit contents; the
    generator register goes into the plain invariant and comes out; nothing is owed; the kernel has no semaphore of its own. -/
def reg1 : RegionSeg (pcfgs (F := F)) GenP.adm (pdats h0 h1 m) () defs₀ 𝒱₀ L lv 1 where
  win := launch1.win.to₀
  block_pos := launch1.block_pos
  stage_whole := launch1.stage_whole
  K := PEmpty
  osem k := k.elim
  ho := Pipeline.OwnSemFacts.none _
  hbody c := (h1.hbody (VV61 h0 m) c).loose
  hwaits := Pipeline.hwaits_of_owed_zero _ _ _ _ L lv 1 fun c t => h1.howed (VV61 h0 m) c t
  pre c := iprop(StableHlo.held (c : Thread nD τ) (Pipeline.ucRefs τ sig) (GenP.V61 m (outs h0 h1 m) c) ∗ R c)
  post c := iprop(Tₙ h0 h1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV61 h0 m c)
  hentry c := by
    rw [Pipeline.ownSems0_none, V61_outs h0 h1 m c]
    have hsplit := Pipeline.arrays_of_unscopedBufs (p := 1) (pcfgs (F := F)) GenP.adm (pdats h0 h1 m) launch1.win launch1.arr_whole c
      ((pdats h0 h1 m 1 c).share_full fun w => h1.hq (VV61 h0 m) c w) (VV61 h0 m c) fun w => h1.hA (VV61 h0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x hx; left
        rw [show (pdats h0 h1 m 1 c).recorded 0 = Set.univ from h1.hrec (VV61 h0 m) c 0]; exact Set.mem_univ _
      rw [show (pdats h0 h1 m 1 c).owed 0 = 0 from h1.howed (VV61 h0 m) c 0]
      iexact HO
    isplitl [Hp]; · iexact Hp
    iexact Hrest
  hin c := by
    rw [show (pdats h0 h1 m 1 c).Φ 0 = Pipeline.ΦA spec1 c from h1.hΦ (VV61 h0 m) c 0]; unfold Pipeline.ΦA
    iintro ⟨Hp, -, Hr⟩
    isplitl [Hr]; · iexact Hr
    iexact Hp
  hout c := by
    rw [Pipeline.ownSems0_none, show (pdats h0 h1 m 1 c).Φ (Fin.last _) = Pipeline.ΦA spec1 c from h1.hΦ (VV61 h0 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats h0 h1 m) ((pdats h0 h1 m 1 c).share_full fun w => h1.hq (VV61 h0 m) c w)
      (VV61 h0 m c) (VV62 h0 h1 m c) ((pdats h0 h1 m 1 c).arrAt · cfg1.N) (hF1 h0 h1 m c) (hrest1 h0 h1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats h0 h1 m 1 c).owed (Fin.last _) = 0 from h1.howed (VV61 h0 m) c _]
    iexact HO

/-! ## The launch -/

/-- @main IS the run of its items as segments: the printed program is the chain of its items, and the segments' run is
    that chain, by definitional unfolding (left to the kernel's check). -/
theorem main_run (c : Dev nD) : main (F := F) c
    = Seg.run (GenP.segs m (outs h0 h1 m) 𝒱₀ L lv E () (pdats h0 h1 m) (reg0 h0 h1 m) (reg1 h0 h1 m) c) :=
  (main_chain c).trans (by chain_rfl)

variable (ρ : Dev nD → PrngReg)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and in every final state each unscoped buffer of each core holds the last valuation: the launch
    contents carried through the host stretches, with each region's output array at what its pipeline leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = GenP.V62 m (outs h0 h1 m) c b) := by
  refine Pipeline.θ_run_regions_kit_dev (pcfgs (F := F)) GenP.adm (pdats h0 h1 m) () cellOf_inj emb₁ defs₀ 𝒱₀ L lv m ρ main
    (GenP.segs m (outs h0 h1 m) 𝒱₀ L lv E () (pdats h0 h1 m) (reg0 h0 h1 m) (reg1 h0 h1 m))
    (fun c Q => by rw [main_run h0 h1 m c])
    (fun c => (show ([(0 : Fin 2), 1] : List (Fin 2)).Nodup from by decide))
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c)) (Tₙ := Tₙ h0 h1 m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (GenP.V0 m c)
        from Pipeline.unscopedBufs_held c (GenP.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = GenP.V62 m (outs h0 h1 m) c b)
    (hfin := fun c s' => by
      iintro ⟨⟨Hh, -⟩, HSI⟩
      unfold StableHlo.held
      imodintro
      iapply (pointsTo_read_all (Pipeline.ucRefs τ sig) (fun b => (((c : Thread nD τ)).1, b)) (GenP.V62 m (outs h0 h1 m) c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the claims read off the run -/

include h0 h1 in
/-- The frame: every argument array ends as launched (no host stretch writes one and no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (GenP.V62_main_arg0 m (outs h0 h1 m) c),
    (h c _ (mem_uc main_arg1 (by decide))).trans (GenP.V62_main_arg1 m (outs h0 h1 m) c),
    (h c _ (mem_uc main_arg2 (by decide))).trans (GenP.V62_main_arg2 m (outs h0 h1 m) c),
    (h c _ (mem_uc main_arg3 (by decide))).trans (GenP.V62_main_arg3 m (outs h0 h1 m) c),
    (h c _ (mem_uc main_arg4 (by decide))).trans (GenP.V62_main_arg4 m (outs h0 h1 m) c),
    (h c _ (mem_uc main_arg5 (by decide))).trans (GenP.V62_main_arg5 m (outs h0 h1 m) c),
    (h c _ (mem_uc main_arg6 (by decide))).trans (GenP.V62_main_arg6 m (outs h0 h1 m) c),
    (h c _ (mem_uc main_arg7 (by decide))).trans (GenP.V62_main_arg7 m (outs h0 h1 m) c),
    (h c _ (mem_uc main_arg8 (by decide))).trans (GenP.V62_main_arg8 m (outs h0 h1 m) c),
    (h c _ (mem_uc main_arg9 (by decide))).trans (GenP.V62_main_arg9 m (outs h0 h1 m) c),
    (h c _ (mem_uc main_arg10 (by decide))).trans (GenP.V62_main_arg10 m (outs h0 h1 m) c)⟩)
    (run_all h0 h1 m ρ)

/-- The result: the output array ends at what the second pipeline's write-backs fold to, entered with the contents the
    host stretches leave after the first pipeline; and the frame beside it. -/
theorem run_value : θ_run defs (onTc (τ := τ) (main (F := F))) ⟨m, fun _ => 0, ρ⟩ (fun r => ∀ c : Dev nD,
      r.2.mem ((c.tc : Thread nD τ).loc main_v317) = (h1.dat (VV61 h0 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_v317 (by decide))).trans ((V62_eq h0 h1 m c main_v317).trans (W62_arr h0 h1 m c 8)),
    (h c _ (mem_uc main_arg0 (by decide))).trans (GenP.V62_main_arg0 m (outs h0 h1 m) c),
    (h c _ (mem_uc main_arg1 (by decide))).trans (GenP.V62_main_arg1 m (outs h0 h1 m) c),
    (h c _ (mem_uc main_arg2 (by decide))).trans (GenP.V62_main_arg2 m (outs h0 h1 m) c),
    (h c _ (mem_uc main_arg3 (by decide))).trans (GenP.V62_main_arg3 m (outs h0 h1 m) c),
    (h c _ (mem_uc main_arg4 (by decide))).trans (GenP.V62_main_arg4 m (outs h0 h1 m) c),
    (h c _ (mem_uc main_arg5 (by decide))).trans (GenP.V62_main_arg5 m (outs h0 h1 m) c),
    (h c _ (mem_uc main_arg6 (by decide))).trans (GenP.V62_main_arg6 m (outs h0 h1 m) c),
    (h c _ (mem_uc main_arg7 (by decide))).trans (GenP.V62_main_arg7 m (outs h0 h1 m) c),
    (h c _ (mem_uc main_arg8 (by decide))).trans (GenP.V62_main_arg8 m (outs h0 h1 m) c),
    (h c _ (mem_uc main_arg9 (by decide))).trans (GenP.V62_main_arg9 m (outs h0 h1 m) c),
    (h c _ (mem_uc main_arg10 (by decide))).trans (GenP.V62_main_arg10 m (outs h0 h1 m) c)⟩)
    (run_all h0 h1 m ρ)

/-- What the second region is entered with, at the first region's output array: what the first pipeline's write-backs
    fold to. -/
theorem V61_main_v6 (c : Dev nD) :
    GenP.V2 m (outsA h0 m) c main_v6 = (h0.dat (VV1 m) c).arrAt 4 cfg0.N := by
  simp only [GenP.V2, Function.update_self]
  exact W2_arr h0 m c 4

end Cert.KernelIdeal.KRun
end
-- ==== Proof.KRunB.lean ====
/-
  The kernel program's run, given each pallas_call's kernel half.

  @main is: six reshapes, the first pallas_call (a 1×1 convolution with its scale, shift and clamp at zero), the host
  operations that build the table of neighbour rows and gather through it, and the second pallas_call (the nine taps'
  products summed, scale, shift, clamp, a second 1×1 convolution, scale, shift, the residual and a last clamp).

  What a pallas_call needs from its kernel is its proof data at the contents the region is entered with: the windows'
  arrays, what the body leaves in each staging buffer at each grid point, and the body's obligation. Everything here is
  stated over such data as hypotheses, for either float instance. A region leaves its input arrays as they were and its
  output array at what the write-backs of all grid points fold to; every other buffer is untouched. So the buffers
  between two items of @main are: the launch contents, then each host stretch applied, then a region's output array
  replaced — and at the end every unscoped buffer holds the last of these valuations, which is what the run's
  post-condition says.
-/
import proofs.«125710_j13511967113615_2_alg».proof.Proof.RegionsB
import proofs.«125710_j13511967113615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The TensorCore's buffer contents on every core, read at the TensorCore's references. -/
abbrev VT (F : FTy → Type) : Type := (c : Dev nD) → (b : Ref sig .tc) → Buf (Elt F) ((c : Thread nD τ).loc b)

/-- A pallas_call's kernel half: proof data at any entry contents, with the arrays read off those contents, full
    shares, nothing owed, no bound on the recorded waits, the plain invariant, and the body's obligation. -/
structure Half (F : FTy → Type) [FloatOps F] (cfg : Cfg sig Λ₀) where
  dat : VT F → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hΦ : ∀ V c k, (dat V c).Φ k = Pipeline.ΦA cfg.spec c
  hrec : ∀ V c k, (dat V c).recorded k = Set.univ
  hbody : ∀ V c, BodyObligation (dat V c) (defs₀ (F := F)) Variants.none () Set.univ

variable (h0 : Half F cfg0) (h1 : Half F cfg1)
variable (m : (ℓ : Loc nD τ sig) → Buf (Elt F) ℓ)

/-! ## The buffers the regions leave -/

/-- The contents the first pallas_call is entered with. -/
abbrev VV1 : VT F := fun c b => GenP.V1 m c b
/-- After the first pallas_call: its arrays at what its pipeline leaves, every other buffer as entered. -/
def W2 (c : Dev nD) : Valuation τ sig (Elt F) :=
  Pipeline.withArrays spec0 c (GenP.V1 m c) fun w => (h0.dat (VV1 m) c).arrAt w cfg0.N
/-- What the first pallas_call leaves, as the unknowns of the valuations between items. -/
def outsA : GenP.Outs (F := F) := fun _ r c => W2 h0 m c (Proc.devRef .tc r)
/-- The contents the second pallas_call is entered with. -/
abbrev VV61 : VT F := fun c b => GenP.V61 m (outsA h0 m) c b
/-- After the second pallas_call. -/
def W62 (c : Dev nD) : Valuation τ sig (Elt F) :=
  Pipeline.withArrays spec1 c (GenP.V61 m (outsA h0 m) c) fun w => (h1.dat (VV61 h0 m) c).arrAt w cfg1.N
/-- What both regions leave: item 2 is the first region's exit, item 62 the second's. -/
def outs : GenP.Outs (F := F) := fun j r c =>
  match j with
  | 2 => W2 h0 m c (Proc.devRef .tc r)
  | _ => W62 h0 h1 m c (Proc.devRef .tc r)

theorem V61_outs (c : Dev nD) : GenP.V61 m (outs h0 h1 m) c = GenP.V61 m (outsA h0 m) c := rfl

theorem W2_arr (c : Dev nD) (w : Fin cfg0.W) :
    W2 h0 m c (Proc.devRef .tc (Pipeline.arrRef spec0 w)) = (h0.dat (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 h0 m c (Proc.devRef .tc b) = GenP.V1 m c (Proc.devRef .tc b) := by
  unfold W2; exact Pipeline.withArrays_of_ne spec0 c _ _ b hb
theorem W62_arr (c : Dev nD) (w : Fin cfg1.W) :
    W62 h0 h1 m c (Proc.devRef .tc (Pipeline.arrRef spec1 w)) = (h1.dat (VV61 h0 m) c).arrAt w cfg1.N := by
  unfold W62; exact Pipeline.withArrays_arr spec1 launch1.win.arr_inj c _ _ w
theorem W62_of_ne (c : Dev nD) (b : Ref sig .tc) (hb : ∀ w, Pipeline.arrRef spec1 w ≠ b) :
    W62 h0 h1 m c (Proc.devRef .tc b) = GenP.V61 m (outsA h0 m) c (Proc.devRef .tc b) := by
  unfold W62; exact Pipeline.withArrays_of_ne spec1 c _ _ b hb

/-- An input window's array is left as entered. -/
theorem W2_in (c : Dev nD) (w : Fin cfg0.W) (hin : (cfg0.win w).isOut = false) :
    W2 h0 m c (Proc.devRef .tc (Pipeline.arrRef spec0 w)) = GenP.V1 m c (Proc.devRef .tc (Pipeline.arrRef spec0 w)) :=
  (W2_arr h0 m c w).trans (((h0.dat (VV1 m) c).arrAt_in w hin _).trans (h0.hA (VV1 m) c w))
theorem W62_in (c : Dev nD) (w : Fin cfg1.W) (hin : (cfg1.win w).isOut = false) :
    W62 h0 h1 m c (Proc.devRef .tc (Pipeline.arrRef spec1 w)) = GenP.V61 m (outsA h0 m) c (Proc.devRef .tc (Pipeline.arrRef spec1 w)) :=
  (W62_arr h0 h1 m c w).trans (((h1.dat (VV61 h0 m) c).arrAt_in w hin _).trans (h1.hA (VV61 h0 m) c w))

/-- The valuation after the first region is W2 at every reference: the output array replaced, the input arrays and
    every other buffer as entered. -/
theorem V2_eq (c : Dev nD) (b : Ref sig .tc) : GenP.V2 m (outs h0 h1 m) c b = W2 h0 m c (Proc.devRef .tc b) := by
  by_cases hb : b = main_v6
  · subst hb
    simp only [GenP.V2, Function.update_self]
    rfl
  · rw [GenP.V2_of m (outs h0 h1 m) c b (by simpa using hb)]
    by_cases hw : ∃ w, Pipeline.arrRef spec0 w = b
    · obtain ⟨w, rfl⟩ := hw
      have hin : (cfg0.win w).isOut = false := by
        match w with
        | ⟨0, _⟩ => rfl
        | ⟨1, _⟩ => rfl
        | ⟨2, _⟩ => rfl
        | ⟨3, _⟩ => rfl
        | ⟨4, _⟩ => exact absurd rfl hb
      exact (W2_in h0 m c w hin).symm
    · exact (W2_of_ne h0 m c b fun w e => hw ⟨w, e⟩).symm

theorem V62_eq (c : Dev nD) (b : Ref sig .tc) : GenP.V62 m (outs h0 h1 m) c b = W62 h0 h1 m c (Proc.devRef .tc b) := by
  by_cases hb : b = main_v317
  · subst hb
    simp only [GenP.V62, Function.update_self]
    rfl
  · rw [GenP.V62_of m (outs h0 h1 m) c b (by simpa using hb), V61_outs]
    by_cases hw : ∃ w, Pipeline.arrRef spec1 w = b
    · obtain ⟨w, rfl⟩ := hw
      have hin : (cfg1.win w).isOut = false := by
        match w with
        | ⟨0, _⟩ => rfl
        | ⟨1, _⟩ => rfl
        | ⟨2, _⟩ => rfl
        | ⟨3, _⟩ => rfl
        | ⟨4, _⟩ => rfl
        | ⟨5, _⟩ => rfl
        | ⟨6, _⟩ => rfl
        | ⟨7, _⟩ => rfl
        | ⟨8, _⟩ => exact absurd rfl hb
      exact (W62_in h0 h1 m c w hin).symm
    · exact (W62_of_ne h0 h1 m c b fun w e => hw ⟨w, e⟩).symm

/-- The same read at the TensorCore's references. -/
abbrev VV2 : VT F := fun c b => GenP.V2 m (outs h0 h1 m) c b
abbrev VV62 : VT F := fun c b => GenP.V62 m (outs h0 h1 m) c b

theorem hF0 (c : Dev nD) (w : Fin cfg0.W) : (h0.dat (VV1 m) c).arrAt w cfg0.N = VV2 h0 h1 m c (Pipeline.arrRef spec0 w) :=
  ((V2_eq h0 h1 m c _).trans (W2_arr h0 m c w)).symm
theorem hrest0 (c : Dev nD) : ∀ b, b ∉ Finset.univ.image (Pipeline.arrRef spec0) → VV2 h0 h1 m c b = VV1 m c b :=
  fun b hb => (V2_eq h0 h1 m c b).trans (W2_of_ne h0 m c b fun w e => hb (Finset.mem_image.mpr ⟨w, Finset.mem_univ _, e⟩))
theorem hF1 (c : Dev nD) (w : Fin cfg1.W) : (h1.dat (VV61 h0 m) c).arrAt w cfg1.N = VV62 h0 h1 m c (Pipeline.arrRef spec1 w) :=
  ((V62_eq h0 h1 m c _).trans (W62_arr h0 h1 m c w)).symm
theorem hrest1 (c : Dev nD) : ∀ b, b ∉ Finset.univ.image (Pipeline.arrRef spec1) → VV62 h0 h1 m c b = VV61 h0 m c b :=
  fun b hb => (V62_eq h0 h1 m c b).trans (W62_of_ne h0 h1 m c b fun w e => hb (Finset.mem_image.mpr ⟨w, Finset.mem_univ _, e⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => h0.dat (VV1 m) c
  | ⟨1, _⟩ => fun c => h1.dat (VV61 h0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- The last thread state without the dues. -/
abbrev Tₙ (c : Dev nD) : sProp 𝕄 :=
  iprop(StableHlo.held (c : Thread nD τ) (Pipeline.ucRefs τ sig) (GenP.V62 m (outs h0 h1 m) c) ∗ ∃ r, prngReg c r)

/-! ## The regions as segments -/

-- iapply of a library lemma stated over the pinned configuration unifies with the printed one only when unification
-- may unfold plain definitions in a metavariable's type
set_option backward.isDefEq.respectTransparency.types false in
/-- The first pallas_call over the thread state: entered from every unscoped buffer at the contents before it, left at
    the contents after it. Its arrays are split out of the unscoped buffers and put back at the exit contents; the
    generator register goes into the plain invariant and comes out; nothing is owed; the kernel has no semaphore of its own. -/
def reg0 : RegionSeg (pcfgs (F := F)) GenP.adm (pdats h0 h1 m) () defs₀ 𝒱₀ L lv 0 where
  win := launch0.win.to₀
  block_pos := launch0.block_pos
  stage_whole := launch0.stage_whole
  K := PEmpty
  osem k := k.elim
  ho := Pipeline.OwnSemFacts.none _
  hbody c := (h0.hbody (VV1 m) c).loose
  hwaits := Pipeline.hwaits_of_owed_zero _ _ _ _ L lv 0 fun c t => h0.howed (VV1 m) c t
  pre c := iprop(StableHlo.held (c : Thread nD τ) (Pipeline.ucRefs τ sig) (GenP.V1 m c) ∗ R c)
  post c := iprop(StableHlo.held (c : Thread nD τ) (Pipeline.ucRefs τ sig) (GenP.V2 m (outs h0 h1 m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) GenP.adm (pdats h0 h1 m) launch0.win launch0.arr_whole c
      ((pdats h0 h1 m 0 c).share_full fun w => h0.hq (VV1 m) c w) (VV1 m c) fun w => h0.hA (VV1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x hx; left
        rw [show (pdats h0 h1 m 0 c).recorded 0 = Set.univ from h0.hrec (VV1 m) c 0]; exact Set.mem_univ _
      rw [show (pdats h0 h1 m 0 c).owed 0 = 0 from h0.howed (VV1 m) c 0]
      iexact HO
    isplitl [Hp]; · iexact Hp
    iexact Hrest
  hin c := by
    rw [show (pdats h0 h1 m 0 c).Φ 0 = Pipeline.ΦA spec0 c from h0.hΦ (VV1 m) c 0]; unfold Pipeline.ΦA
    iintro ⟨Hp, -, Hr⟩
    isplitl [Hr]; · iexact Hr
    iexact Hp
  hout c := by
    rw [Pipeline.ownSems0_none, show (pdats h0 h1 m 0 c).Φ (Fin.last _) = Pipeline.ΦA spec0 c from h0.hΦ (VV1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats h0 h1 m) ((pdats h0 h1 m 0 c).share_full fun w => h0.hq (VV1 m) c w)
      (VV1 m c) (VV2 h0 h1 m c) ((pdats h0 h1 m 0 c).arrAt · cfg0.N) (hF0 h0 h1 m c) (hrest0 h0 h1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats h0 h1 m 0 c).owed (Fin.last _) = 0 from h0.howed (VV1 m) c _]
    iexact HO

-- iapply of a library lemma stated over the pinned configuration unifies with the printed one only when unification
-- may unfold plain definitions in a metavariable's type
set_option backward.isDefEq.respectTransparency.types false in
/-- The second pallas_call over the thread state: entered from every unscoped buffer at the contents before it, left at
    the contents after it. Its arrays are split out of the unscoped buffers and put back at the exit contents; the
    generator register goes into the plain invariant and comes out; nothing is owed; the kernel has no semaphore of its own. -/
def reg1 : RegionSeg (pcfgs (F := F)) GenP.adm (pdats h0 h1 m) () defs₀ 𝒱₀ L lv 1 where
  win := launch1.win.to₀
  block_pos := launch1.block_pos
  stage_whole := launch1.stage_whole
  K := PEmpty
  osem k := k.elim
  ho := Pipeline.OwnSemFacts.none _
  hbody c := (h1.hbody (VV61 h0 m) c).loose
  hwaits := Pipeline.hwaits_of_owed_zero _ _ _ _ L lv 1 fun c t => h1.howed (VV61 h0 m) c t
  pre c := iprop(StableHlo.held (c : Thread nD τ) (Pipeline.ucRefs τ sig) (GenP.V61 m (outs h0 h1 m) c) ∗ R c)
  post c := iprop(Tₙ h0 h1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV61 h0 m c)
  hentry c := by
    rw [Pipeline.ownSems0_none, V61_outs h0 h1 m c]
    have hsplit := Pipeline.arrays_of_unscopedBufs (p := 1) (pcfgs (F := F)) GenP.adm (pdats h0 h1 m) launch1.win launch1.arr_whole c
      ((pdats h0 h1 m 1 c).share_full fun w => h1.hq (VV61 h0 m) c w) (VV61 h0 m c) fun w => h1.hA (VV61 h0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x hx; left
        rw [show (pdats h0 h1 m 1 c).recorded 0 = Set.univ from h1.hrec (VV61 h0 m) c 0]; exact Set.mem_univ _
      rw [show (pdats h0 h1 m 1 c).owed 0 = 0 from h1.howed (VV61 h0 m) c 0]
      iexact HO
    isplitl [Hp]; · iexact Hp
    iexact Hrest
  hin c := by
    rw [show (pdats h0 h1 m 1 c).Φ 0 = Pipeline.ΦA spec1 c from h1.hΦ (VV61 h0 m) c 0]; unfold Pipeline.ΦA
    iintro ⟨Hp, -, Hr⟩
    isplitl [Hr]; · iexact Hr
    iexact Hp
  hout c := by
    rw [Pipeline.ownSems0_none, show (pdats h0 h1 m 1 c).Φ (Fin.last _) = Pipeline.ΦA spec1 c from h1.hΦ (VV61 h0 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats h0 h1 m) ((pdats h0 h1 m 1 c).share_full fun w => h1.hq (VV61 h0 m) c w)
      (VV61 h0 m c) (VV62 h0 h1 m c) ((pdats h0 h1 m 1 c).arrAt · cfg1.N) (hF1 h0 h1 m c) (hrest1 h0 h1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats h0 h1 m 1 c).owed (Fin.last _) = 0 from h1.howed (VV61 h0 m) c _]
    iexact HO

/-! ## The launch -/

/-- @main IS the run of its items as segments: the printed program is the chain of its items, and the segments' run is
    that chain, by definitional unfolding (left to the kernel's check). -/
theorem main_run (c : Dev nD) : main (F := F) c
    = Seg.run (GenP.segs m (outs h0 h1 m) 𝒱₀ L lv E () (pdats h0 h1 m) (reg0 h0 h1 m) (reg1 h0 h1 m) c) :=
  (main_chain c).trans (by chain_rfl)

variable (ρ : Dev nD → PrngReg)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and in every final state each unscoped buffer of each core holds the last valuation: the launch
    contents carried through the host stretches, with each region's output array at what its pipeline leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = GenP.V62 m (outs h0 h1 m) c b) := by
  refine Pipeline.θ_run_regions_kit_dev (pcfgs (F := F)) GenP.adm (pdats h0 h1 m) () cellOf_inj emb₁ defs₀ 𝒱₀ L lv m ρ main
    (GenP.segs m (outs h0 h1 m) 𝒱₀ L lv E () (pdats h0 h1 m) (reg0 h0 h1 m) (reg1 h0 h1 m))
    (fun c Q => by rw [main_run h0 h1 m c])
    (fun c => (show ([(0 : Fin 2), 1] : List (Fin 2)).Nodup from by decide))
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c)) (Tₙ := Tₙ h0 h1 m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (GenP.V0 m c)
        from Pipeline.unscopedBufs_held c (GenP.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = GenP.V62 m (outs h0 h1 m) c b)
    (hfin := fun c s' => by
      iintro ⟨⟨Hh, -⟩, HSI⟩
      unfold StableHlo.held
      imodintro
      iapply (pointsTo_read_all (Pipeline.ucRefs τ sig) (fun b => (((c : Thread nD τ)).1, b)) (GenP.V62 m (outs h0 h1 m) c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the claims read off the run -/

include h0 h1 in
/-- The frame: every argument array ends as launched (no host stretch writes one and no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (GenP.V62_main_arg0 m (outs h0 h1 m) c),
    (h c _ (mem_uc main_arg1 (by decide))).trans (GenP.V62_main_arg1 m (outs h0 h1 m) c),
    (h c _ (mem_uc main_arg2 (by decide))).trans (GenP.V62_main_arg2 m (outs h0 h1 m) c),
    (h c _ (mem_uc main_arg3 (by decide))).trans (GenP.V62_main_arg3 m (outs h0 h1 m) c),
    (h c _ (mem_uc main_arg4 (by decide))).trans (GenP.V62_main_arg4 m (outs h0 h1 m) c),
    (h c _ (mem_uc main_arg5 (by decide))).trans (GenP.V62_main_arg5 m (outs h0 h1 m) c),
    (h c _ (mem_uc main_arg6 (by decide))).trans (GenP.V62_main_arg6 m (outs h0 h1 m) c),
    (h c _ (mem_uc main_arg7 (by decide))).trans (GenP.V62_main_arg7 m (outs h0 h1 m) c),
    (h c _ (mem_uc main_arg8 (by decide))).trans (GenP.V62_main_arg8 m (outs h0 h1 m) c),
    (h c _ (mem_uc main_arg9 (by decide))).trans (GenP.V62_main_arg9 m (outs h0 h1 m) c),
    (h c _ (mem_uc main_arg10 (by decide))).trans (GenP.V62_main_arg10 m (outs h0 h1 m) c)⟩)
    (run_all h0 h1 m ρ)

/-- The result: the output array ends at what the second pipeline's write-backs fold to, entered with the contents the
    host stretches leave after the first pipeline; and the frame beside it. -/
theorem run_value : θ_run defs (onTc (τ := τ) (main (F := F))) ⟨m, fun _ => 0, ρ⟩ (fun r => ∀ c : Dev nD,
      r.2.mem ((c.tc : Thread nD τ).loc main_v317) = (h1.dat (VV61 h0 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_v317 (by decide))).trans ((V62_eq h0 h1 m c main_v317).trans (W62_arr h0 h1 m c 8)),
    (h c _ (mem_uc main_arg0 (by decide))).trans (GenP.V62_main_arg0 m (outs h0 h1 m) c),
    (h c _ (mem_uc main_arg1 (by decide))).trans (GenP.V62_main_arg1 m (outs h0 h1 m) c),
    (h c _ (mem_uc main_arg2 (by decide))).trans (GenP.V62_main_arg2 m (outs h0 h1 m) c),
    (h c _ (mem_uc main_arg3 (by decide))).trans (GenP.V62_main_arg3 m (outs h0 h1 m) c),
    (h c _ (mem_uc main_arg4 (by decide))).trans (GenP.V62_main_arg4 m (outs h0 h1 m) c),
    (h c _ (mem_uc main_arg5 (by decide))).trans (GenP.V62_main_arg5 m (outs h0 h1 m) c),
    (h c _ (mem_uc main_arg6 (by decide))).trans (GenP.V62_main_arg6 m (outs h0 h1 m) c),
    (h c _ (mem_uc main_arg7 (by decide))).trans (GenP.V62_main_arg7 m (outs h0 h1 m) c),
    (h c _ (mem_uc main_arg8 (by decide))).trans (GenP.V62_main_arg8 m (outs h0 h1 m) c),
    (h c _ (mem_uc main_arg9 (by decide))).trans (GenP.V62_main_arg9 m (outs h0 h1 m) c),
    (h c _ (mem_uc main_arg10 (by decide))).trans (GenP.V62_main_arg10 m (outs h0 h1 m) c)⟩)
    (run_all h0 h1 m ρ)

/-- What the second region is entered with, at the first region's output array: what the first pipeline's write-backs
    fold to. -/
theorem V61_main_v6 (c : Dev nD) :
    GenP.V2 m (outsA h0 m) c main_v6 = (h0.dat (VV1 m) c).arrAt 4 cfg0.N := by
  simp only [GenP.V2, Function.update_self]
  exact W2_arr h0 m c 4

end Cert.Kernel.KRun
end
-- ==== Proof.KBody0.lean ====
/- The body of the first pipelined region as pipeline proof data, at any float instance: each
   window's block at a grid point, the output block as a function of the input blocks, the body's
   triple, and the body obligation of the pipeline library. -/
import proofs.«125710_j13511967113615_2_alg».proof.Proof.Gen.KernelIdeal.Launch
import proofs.«125710_j13511967113615_2_alg».proof.Proof.Gen.KernelIdeal.Skeleton
import proofs.«125710_j13511967113615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it
    is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S10000x256 := Rect.unit (s := S10000x256) ![0, 0] S10000x256.size inb_S10000x256_S10000x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- The output window's staging buffer after the body, from the input windows' blocks: its one store. -/
def out0_4 (x0 : Vec F S10000x256 .f32) (x1 : Vec F S256x64 .f32) (x2 x3 : Vec F S1x64 .f32) : Vec F S10000x64 .bf16 :=
  View.canon [⟨r0_3, k0_pay1 (View.ld x0 r0_0) (View.ld x1 r0_1) (View.ld x2 r0_2) (View.ld x3 r0_2)⟩]

/-- The one store is the whole buffer, so it covers it. -/
theorem cover0_4 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at contents `xW` and the output's at anything, runs to
    the continuation holding the inputs' as they were and the output's at `out0_4` of the inputs'. -/
theorem sound_kernel0 (c : Dev nD) (E : Set ℕ) (i : grid0.Coords)
    (arg0 : Memref sig .tc .vmem S10000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S10000x64 .bf16) (harg4 : arg4.IsWhole)
    (x0 : Vec F S10000x256 .f32) (x1 : Vec F S256x64 .f32) (x2 x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__k1 i arg0 harg0 arg1 harg1 arg2 harg2 arg3 harg3 arg4 harg4) K := by
  simp only [cc0__k1_eq_skeleton]; unfold cc0__k1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KBody1.lean ====
/- The body of the second pipelined region as pipeline proof data, at any float instance: each
   window's block at a grid point, the output block as a function of the input blocks, the body's
   triple, and the body obligation of the pipeline library. -/
import proofs.«125710_j13511967113615_2_alg».proof.Proof.Gen.KernelIdeal.Launch
import proofs.«125710_j13511967113615_2_alg».proof.Proof.Gen.KernelIdeal.Skeleton
import proofs.«125710_j13511967113615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: when it
    is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole block -/

abbrev r1_0 : Rect S5000x576 := Rect.unit (s := S5000x576) ![0, 0] S5000x576.size inb_S5000x576_S5000x576_0_0
abbrev r1_1 : Rect S9x64x64 := Rect.unit (s := S9x64x64) ![0, 0, 0] S9x64x64.size inb_S9x64x64_S9x64x64_0_0_0
abbrev r1_2 : Rect S1x64 := Rect.unit (s := S1x64) ![0, 0] S1x64.size inb_S1x64_S1x64_0_0
abbrev r1_3 : Rect S64x256 := Rect.unit (s := S64x256) ![0, 0] S64x256.size inb_S64x256_S64x256_0_0
abbrev r1_4 : Rect S1x256 := Rect.unit (s := S1x256) ![0, 0] S1x256.size inb_S1x256_S1x256_0_0
abbrev r1_5 : Rect S5000x256 := Rect.unit (s := S5000x256) ![0, 0] S5000x256.size inb_S5000x256_S5000x256_0_0

/-! ## What the body leaves in the output window's buffer -/

/-- The output window's staging buffer after the body, from the input windows' blocks: its one store, whose
    value takes the first part's three results (the recast activations, the rounded weights, the sum of the
    first eight taps) and the remaining loads. -/
def out1_8 (x0 : Vec F S5000x576 .bf16) (x1 : Vec F S9x64x64 .f32) (x2 : Vec F S1x64 .f32) (x3 : Vec F S1x64 .f32) (x4 : Vec F S64x256 .f32) (x5 : Vec F S1x256 .f32) (x6 : Vec F S1x256 .f32) (x7 : Vec F S5000x256 .f32) : Vec F S5000x256 .f32 :=
  View.canon [⟨r1_5, k1_pay1 (k1_pay2 (View.ld x0 r1_0)) (k1_pay3 (View.ld x1 r1_1)) (k1_pay4 (View.ld x0 r1_0) (View.ld x1 r1_1)) (View.ld x2 r1_2) (View.ld x3 r1_2) (View.ld x4 r1_3) (View.ld x5 r1_4) (View.ld x6 r1_4) (View.ld x7 r1_5)⟩]

/-- The one store is the whole buffer, so it covers it. -/
theorem cover1_8 (p0 : Vec F S5000x256 .f32) (y : S5000x256.Idx) :
    ∃ pc ∈ ([⟨r1_5, p0⟩] : List (View.Piece (Elt F) S5000x256 .f32)), y ∈ pc.1.set :=
  View.cover_of_tiled [⟨r1_5, p0⟩] S5000x256.size (by rfl) y

/-! ## The body's triple -/

set_option maxHeartbeats 1000000 in
/-- The kernel body on whole staging memrefs, the inputs' at contents `xW` and the output's at anything, runs to
    the continuation holding the inputs' as they were and the output's at `out1_8` of the inputs', through its part. -/
theorem sound_kernel1 (c : Dev nD) (E : Set ℕ) (i : grid1.Coords)
    (arg0 : Memref sig .tc .vmem S5000x576 .bf16) (harg0 : arg0.IsWhole)
    (arg1 : Memref sig .tc .vmem S9x64x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S64x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S5000x256 .f32) (harg7 : arg7.IsWhole)
    (arg8 : Memref sig .tc .vmem S5000x256 .f32) (harg8 : arg8.IsWhole)
    (x0 : Vec F S5000x576 .bf16) (x1 : Vec F S9x64x64 .f32) (x2 : Vec F S1x64 .f32) (x3 : Vec F S1x64 .f32) (x4 : Vec F S64x256 .f32) (x5 : Vec F S1x256 .f32) (x6 : Vec F S1x256 .f32) (x7 : Vec F S5000x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7)) -∗ K ⟨⟩))
      ⊢ wp frame (wpE (defs₀ (F := F)) Variants.none c none) E (cc1__k23 i arg0 harg0 arg1 harg1 arg2 harg2 arg3 harg3 arg4 harg4 arg5 harg5 arg6 harg6 arg7 harg7 arg8 harg8) K := by
  simp only [cc1__k23_eq_skeleton]; unfold cc1__k23_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of the pipeline on core `c`: the arrays as the region finds them; after the body at point `t`
    each input's buffer at its block and the output's at `out1_8` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.BBody0.lean ====
/- The body of the first pipelined region as pipeline proof data, at any float instance: each
   window's block at a grid point, the output block as a function of the input blocks, the body's
   triple, and the body obligation of the pipeline library. -/
import proofs.«125710_j13511967113615_2_alg».proof.Proof.Gen.Kernel.Launch
import proofs.«125710_j13511967113615_2_alg».proof.Proof.Gen.Kernel.Skeleton
import proofs.«125710_j13511967113615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it
    is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole block -/

abbrev r0_0 : Rect S10000x256 := Rect.unit (s := S10000x256) ![0, 0] S10000x256.size inb_S10000x256_S10000x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output window's buffer -/

/-- The output window's staging buffer after the body, from the input windows' blocks: its one store. -/
def out0_4 (x0 : Vec F S10000x256 .f32) (x1 : Vec F S256x64 .f32) (x2 x3 : Vec F S1x64 .f32) : Vec F S10000x64 .bf16 :=
  View.canon [⟨r0_3, k0_pay1 (View.ld x0 r0_0) (View.ld x1 r0_1) (View.ld x2 r0_2) (View.ld x3 r0_2)⟩]

/-- The one store is the whole buffer, so it covers it. -/
theorem cover0_4 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at contents `xW` and the output's at anything, runs to
    the continuation holding the inputs' as they were and the output's at `out0_4` of the inputs'. -/
theorem sound_kernel0 (c : Dev nD) (E : Set ℕ) (i : grid0.Coords)
    (arg0 : Memref sig .tc .vmem S10000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S10000x64 .bf16) (harg4 : arg4.IsWhole)
    (x0 : Vec F S10000x256 .f32) (x1 : Vec F S256x64 .f32) (x2 x3 : Vec F S1x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__k1 i arg0 harg0 arg1 harg1 arg2 harg2 arg3 harg3 arg4 harg4) K := by
  simp only [cc0__k1_eq_skeleton]; unfold cc0__k1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.BBody1.lean ====
/- The body of the second pipelined region as pipeline proof data, at any float instance: each
   window's block at a grid point, the output block as a function of the input blocks, the body's
   triple, and the body obligation of the pipeline library. -/
import proofs.«125710_j13511967113615_2_alg».proof.Proof.Gen.Kernel.Launch
import proofs.«125710_j13511967113615_2_alg».proof.Proof.Gen.Kernel.Skeleton
import proofs.«125710_j13511967113615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: when it
    is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole block -/

abbrev r1_0 : Rect S5000x576 := Rect.unit (s := S5000x576) ![0, 0] S5000x576.size inb_S5000x576_S5000x576_0_0
abbrev r1_1 : Rect S9x64x64 := Rect.unit (s := S9x64x64) ![0, 0, 0] S9x64x64.size inb_S9x64x64_S9x64x64_0_0_0
abbrev r1_2 : Rect S1x64 := Rect.unit (s := S1x64) ![0, 0] S1x64.size inb_S1x64_S1x64_0_0
abbrev r1_3 : Rect S64x256 := Rect.unit (s := S64x256) ![0, 0] S64x256.size inb_S64x256_S64x256_0_0
abbrev r1_4 : Rect S1x256 := Rect.unit (s := S1x256) ![0, 0] S1x256.size inb_S1x256_S1x256_0_0
abbrev r1_5 : Rect S5000x256 := Rect.unit (s := S5000x256) ![0, 0] S5000x256.size inb_S5000x256_S5000x256_0_0

/-! ## What the body leaves in the output window's buffer -/

/-- The output window's staging buffer after the body, from the input windows' blocks: its one store, whose
    value takes the first part's three results (the recast activations, the rounded weights, the sum of the
    first eight taps) and the remaining loads. -/
def out1_8 (x0 : Vec F S5000x576 .bf16) (x1 : Vec F S9x64x64 .f32) (x2 : Vec F S1x64 .f32) (x3 : Vec F S1x64 .f32) (x4 : Vec F S64x256 .f32) (x5 : Vec F S1x256 .f32) (x6 : Vec F S1x256 .f32) (x7 : Vec F S5000x256 .f32) : Vec F S5000x256 .f32 :=
  View.canon [⟨r1_5, k1_pay1 (k1_pay2 (View.ld x0 r1_0)) (k1_pay3 (View.ld x1 r1_1)) (k1_pay4 (View.ld x0 r1_0) (View.ld x1 r1_1)) (View.ld x2 r1_2) (View.ld x3 r1_2) (View.ld x4 r1_3) (View.ld x5 r1_4) (View.ld x6 r1_4) (View.ld x7 r1_5)⟩]

/-- The one store is the whole buffer, so it covers it. -/
theorem cover1_8 (p0 : Vec F S5000x256 .f32) (y : S5000x256.Idx) :
    ∃ pc ∈ ([⟨r1_5, p0⟩] : List (View.Piece (Elt F) S5000x256 .f32)), y ∈ pc.1.set :=
  View.cover_of_tiled [⟨r1_5, p0⟩] S5000x256.size (by rfl) y

/-! ## The body's triple -/

set_option maxHeartbeats 1000000 in
/-- The kernel body on whole staging memrefs, the inputs' at contents `xW` and the output's at anything, runs to
    the continuation holding the inputs' as they were and the output's at `out1_8` of the inputs', through its part. -/
theorem sound_kernel1 (c : Dev nD) (E : Set ℕ) (i : grid1.Coords)
    (arg0 : Memref sig .tc .vmem S5000x576 .bf16) (harg0 : arg0.IsWhole)
    (arg1 : Memref sig .tc .vmem S9x64x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S64x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S5000x256 .f32) (harg7 : arg7.IsWhole)
    (arg8 : Memref sig .tc .vmem S5000x256 .f32) (harg8 : arg8.IsWhole)
    (x0 : Vec F S5000x576 .bf16) (x1 : Vec F S9x64x64 .f32) (x2 : Vec F S1x64 .f32) (x3 : Vec F S1x64 .f32) (x4 : Vec F S64x256 .f32) (x5 : Vec F S1x256 .f32) (x6 : Vec F S1x256 .f32) (x7 : Vec F S5000x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7)) -∗ K ⟨⟩))
      ⊢ wp frame (wpE (defs₀ (F := F)) Variants.none c none) E (cc1__k23 i arg0 harg0 arg1 harg1 arg2 harg2 arg3 harg3 arg4 harg4 arg5 harg5 arg6 harg6 arg7 harg7 arg8 harg8) K := by
  simp only [cc1__k23_eq_skeleton]; unfold cc1__k23_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of the pipeline on core `c`: the arrays as the region finds them; after the body at point `t`
    each input's buffer at its block and the output's at `out1_8` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.Halves.lean ====
/-
  Each pallas_call's kernel half, for the word-level program and for the idealized one: the body's proof data (its arrays
  read off the contents the region is entered with, full shares, nothing owed) and the body's obligation.
-/
import proofs.«125710_j13511967113615_2_alg».proof.Proof.KRun
import proofs.«125710_j13511967113615_2_alg».proof.Proof.KRunB
import proofs.«125710_j13511967113615_2_alg».proof.Proof.KBody0
import proofs.«125710_j13511967113615_2_alg».proof.Proof.KBody1
import proofs.«125710_j13511967113615_2_alg».proof.Proof.BBody0
import proofs.«125710_j13511967113615_2_alg».proof.Proof.BBody1

noncomputable section

namespace Cert.Proof.Halves

open Idealize.ShloMosaic Idealize.SL.Sem

/-- The first pallas_call's kernel half: the body's proof data, with its arrays read off the entry contents, full
    shares, nothing owed, and the body's obligation. -/
def halfI0 {F : FTy → Type} [FloatOps F] : Cert.KernelIdeal.KRun.Half F Cert.KernelIdeal.cfg0 where
  dat := fun V c => Cert.KernelIdeal.Body.dat0 V c
  hA := fun V c w => Cert.KernelIdeal.Body.A_eq0 V c w
  hq := fun _ _ _ => rfl
  howed := fun _ _ _ => rfl
  hΦ := fun _ _ _ => rfl
  hrec := fun _ _ _ => rfl
  hbody := fun V c => Cert.KernelIdeal.Body.body_obligation0 V c
/-- The second pallas_call's kernel half: the body's proof data, with its arrays read off the entry contents, full
    shares, nothing owed, and the body's obligation. -/
def halfI1 {F : FTy → Type} [FloatOps F] : Cert.KernelIdeal.KRun.Half F Cert.KernelIdeal.cfg1 where
  dat := fun V c => Cert.KernelIdeal.Body.dat1 V c
  hA := fun V c w => Cert.KernelIdeal.Body.A_eq1 V c w
  hq := fun _ _ _ => rfl
  howed := fun _ _ _ => rfl
  hΦ := fun _ _ _ => rfl
  hrec := fun _ _ _ => rfl
  hbody := fun V c => Cert.KernelIdeal.Body.body_obligation1 V c
/-- The first pallas_call's kernel half, on words: the body's proof data, with its arrays read off the entry contents, full
    shares, nothing owed, and the body's obligation. -/
def halfB0 {F : FTy → Type} [FloatOps F] : Cert.Kernel.KRun.Half F Cert.Kernel.cfg0 where
  dat := fun V c => Cert.Kernel.Body.dat0 V c
  hA := fun V c w => Cert.Kernel.Body.A_eq0 V c w
  hq := fun _ _ _ => rfl
  howed := fun _ _ _ => rfl
  hΦ := fun _ _ _ => rfl
  hrec := fun _ _ _ => rfl
  hbody := fun V c => Cert.Kernel.Body.body_obligation0 V c
/-- The second pallas_call's kernel half, on words: the body's proof data, with its arrays read off the entry contents, full
    shares, nothing owed, and the body's obligation. -/
def halfB1 {F : FTy → Type} [FloatOps F] : Cert.Kernel.KRun.Half F Cert.Kernel.cfg1 where
  dat := fun V c => Cert.Kernel.Body.dat1 V c
  hA := fun V c w => Cert.Kernel.Body.A_eq1 V c w
  hq := fun _ _ _ => rfl
  howed := fun _ _ _ => rfl
  hΦ := fun _ _ _ => rfl
  hrec := fun _ _ _ => rfl
  hbody := fun V c => Cert.Kernel.Body.body_obligation1 V c

end Cert.Proof.Halves
end
-- ==== Proof.LibReadBack.lean ====
/-
  A single-assignment line of host operations read back one operation at a time.

  A line of host operations in which every operation writes one buffer of its own, listed at its position (`WritesAt`),
  leaves in each buffer what the operation writing it computed from what ITS operands held at that point — and an operand
  not written from that point on still holds the same at the end. So at the end of the line (and after any further
  computation `G` that leaves the buffers in question alone) the contents satisfy one equation per operation,
  `result = f (operand₁) (operand₂) …`, every buffer read at the END: `read0` … `read3`, `readReshape`, and
  `read_result` / `read_operand` for an operation of any other form. Such equations compose by rewriting, with no fold
  in sight.

  General in the topology, the reference signature and the element values.
-/
import Idealize.ShloMosaic.Lib.StableHlo.Run
import Idealize.ShloMosaic.Lib.Pipeline.Frame
import Mathlib.Data.List.Forall2

namespace Cert.ReadBack

open Idealize.ShloMosaic Idealize.ShloMosaic.StableHlo

variable {τ : Topo} {sig : RefSig} {Val : EltTy → Type}

/-- Each operation of `l` writes exactly the buffer `W` lists at its position. -/
abbrev WritesAt (l : List (HloOp τ sig Val)) (W : List (Ref sig .tc)) : Prop :=
  List.Forall₂ (fun op w => op.writes = {Proc.devRef (τ := τ) .tc w}) l W

/-- A buffer not listed is written by no operation. -/
theorem WritesAt.not_mem {l : List (HloOp τ sig Val)} {W : List (Ref sig .tc)} (h : WritesAt l W) {r : Ref sig .tc}
    (hr : r ∉ W) : ∀ op ∈ l, Proc.devRef (τ := τ) .tc r ∉ op.writes := by
  induction h with
  | nil => intro op hop; cases hop
  | cons hw _ ih =>
    intro op hop
    rcases List.mem_cons.mp hop with rfl | hop
    · rw [hw, Finset.mem_singleton]
      exact devRef_ne_of_ne fun e => hr (e ▸ List.mem_cons_self)
    · exact ih (fun hm => hr (List.mem_cons_of_mem _ hm)) op hop

/-- A buffer not listed keeps its contents through the line. -/
theorem WritesAt.keep {l : List (HloOp τ sig Val)} {W : List (Ref sig .tc)} (h : WritesAt l W) {r : Ref sig .tc}
    (hr : r ∉ W) (V : Valuation τ sig Val) : after l V (Proc.devRef .tc r) = V (Proc.devRef .tc r) :=
  after_of_forall_not_mem l V (WritesAt.not_mem h hr)

/-- A buffer not written from position `j` on holds at the end what it held after the first `j` operations. -/
theorem WritesAt.after_take {l : List (HloOp τ sig Val)} {W : List (Ref sig .tc)} (h : WritesAt l W) (j : Nat)
    (V : Valuation τ sig Val) {r : Ref sig .tc} (hr : r ∉ W.drop j) :
    after l V (Proc.devRef .tc r) = after (l.take j) V (Proc.devRef .tc r) := by
  conv_lhs => rw [← List.take_append_drop j l, StableHlo.after_append]
  exact WritesAt.keep (List.forall₂_drop j h) hr _

/-- A buffer not written after position `j` holds at the end what the operation at `j` left in it. -/
theorem WritesAt.after_at {l : List (HloOp τ sig Val)} {W : List (Ref sig .tc)} (h : WritesAt l W) (j : Nat)
    (op : HloOp τ sig Val) (hop : l[j]? = some op) (V : Valuation τ sig Val) {r : Ref sig .tc} (hr : r ∉ W.drop (j + 1)) :
    after l V (Proc.devRef .tc r) = op.result (after (l.take j) V) (Proc.devRef .tc r) := by
  rw [WritesAt.after_take h (j + 1) V hr, List.take_succ, hop, Option.toList_some, StableHlo.after_append]
  rfl

section Read

variable {l : List (HloOp τ sig Val)} {W : List (Ref sig .tc)} (h : WritesAt l W)
  (G : Valuation τ sig Val → Valuation τ sig Val) (W' : List (Ref sig .tc))
  (hG : ∀ (X : Valuation τ sig Val) (r : Ref sig .tc), r ∉ W' → G X (Proc.devRef .tc r) = X (Proc.devRef .tc r))
  (j : Nat) (V : Valuation τ sig Val)

include h hG

/-- After the line and `G`: the result buffer of the operation at `j` holds what that operation left in it. -/
theorem read_result (op : HloOp τ sig Val) (hop : l[j]? = some op) {y : Ref sig .tc} (ny : y ∉ W.drop (j + 1) ++ W') :
    G (after l V) (Proc.devRef .tc y) = op.result (after (l.take j) V) (Proc.devRef .tc y) :=
  (hG _ y fun hm => ny (List.mem_append.mpr (Or.inr hm))).trans
    (WritesAt.after_at h j op hop V fun hm => ny (List.mem_append.mpr (Or.inl hm)))

/-- After the line and `G`: a buffer not written from `j` on holds what the operation at `j` read in it. -/
theorem read_operand {a : Ref sig .tc} (na : a ∉ W.drop j ++ W') :
    G (after l V) (Proc.devRef .tc a) = after (l.take j) V (Proc.devRef .tc a) :=
  (hG _ a fun hm => na (List.mem_append.mpr (Or.inr hm))).trans
    (WritesAt.after_take h j V fun hm => na (List.mem_append.mpr (Or.inl hm)))

theorem read0 (y : Ref sig .tc) (v : y.ty.Contents Val) (hy) (hop : l[j]? = some (nullary y v hy))
    (ny : y ∉ W.drop (j + 1) ++ W') : G (after l V) (Proc.devRef .tc y) = v :=
  (read_result h G W' hG j V _ hop ny).trans (nullary_result y v hy _)

theorem read1 (x y : Ref sig .tc) (f : x.ty.Contents Val → y.ty.Contents Val) (hx hy) (hop : l[j]? = some (unary x y f hx hy))
    (ny : y ∉ W.drop (j + 1) ++ W') (nx : x ∉ W.drop j ++ W') :
    G (after l V) (Proc.devRef .tc y) = f (G (after l V) (Proc.devRef .tc x)) := by
  rw [read_operand h G W' hG j V nx]
  exact (read_result h G W' hG j V _ hop ny).trans (unary_result x y f hx hy _)

theorem read2 (a b y : Ref sig .tc) (f : a.ty.Contents Val → b.ty.Contents Val → y.ty.Contents Val) (ha hb hy)
    (hop : l[j]? = some (binary a b y f ha hb hy))
    (ny : y ∉ W.drop (j + 1) ++ W') (na : a ∉ W.drop j ++ W') (nb : b ∉ W.drop j ++ W') :
    G (after l V) (Proc.devRef .tc y) = f (G (after l V) (Proc.devRef .tc a)) (G (after l V) (Proc.devRef .tc b)) := by
  rw [read_operand h G W' hG j V na, read_operand h G W' hG j V nb]
  exact (read_result h G W' hG j V _ hop ny).trans (binary_result a b y f ha hb hy _)

theorem read3 (c a b y : Ref sig .tc) (f : c.ty.Contents Val → a.ty.Contents Val → b.ty.Contents Val → y.ty.Contents Val)
    (hc ha hb hy) (hop : l[j]? = some (ternary c a b y f hc ha hb hy))
    (ny : y ∉ W.drop (j + 1) ++ W') (nc : c ∉ W.drop j ++ W') (na : a ∉ W.drop j ++ W') (nb : b ∉ W.drop j ++ W') :
    G (after l V) (Proc.devRef .tc y)
      = f (G (after l V) (Proc.devRef .tc c)) (G (after l V) (Proc.devRef .tc a)) (G (after l V) (Proc.devRef .tc b)) := by
  rw [read_operand h G W' hG j V nc, read_operand h G W' hG j V na, read_operand h G W' hG j V nb]
  exact (read_result h G W' hG j V _ hop ny).trans (ternary_result c a b y f hc ha hb hy _)

theorem readReshape (x y : Ref sig .tc) (he hn hx hy) (hop : l[j]? = some (reshape (Val := Val) x y he hn hx hy))
    (ny : y ∉ W.drop (j + 1) ++ W') (nx : x ∉ W.drop j ++ W') :
    G (after l V) (Proc.devRef .tc y) = fun i => he ▸ shapeCast y.ty.shape (G (after l V) (Proc.devRef .tc x)) hn i := by
  rw [read_operand h G W' hG j V nx]
  exact (read_result h G W' hG j V _ hop ny).trans (reshape_result x y he hn hx hy _)

end Read

end Cert.ReadBack
-- ==== Proof.RefOps0.lean ====
/- Window 0 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 108 operations, in order. -/
abbrev ops0 : List (HloOp τ sig (Elt F)) :=
  [
    StableHlo.binary main_arg0 main_arg2 main_v0 ((fun l r => Host.dotGeneral dot_S200000x256_S256x64_S200000x64_1_0_0_1_n_n none l r) : (⟨S200000x256, .f32⟩ : BufTy).Contents (Elt F) → (⟨S256x64, .f32⟩ : BufTy).Contents (Elt F) → (⟨S200000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S200000x64 ![0, 1] bcast_S1x64_S200000x64_0_1 : (⟨S1x64, .f32⟩ : BufTy).Contents (Elt F) → (⟨S200000x64, .f32⟩ : BufTy).Contents (Elt F)),
    StableHlo.binary main_v0 main_v2 main_v3 (mulf : (⟨S200000x64, .f32⟩ : BufTy).Contents (Elt F) → (⟨S200000x64, .f32⟩ : BufTy).Contents (Elt F) → (⟨S200000x64, .f32⟩ : BufTy).Contents (Elt F)),
    StableHlo.unary main_arg6 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S200000x64 ![0, 1] bcast_S1x64_S200000x64_0_1 : (⟨S1x64, .f32⟩ : BufTy).Contents (Elt F) → (⟨S200000x64, .f32⟩ : BufTy).Contents (Elt F)),
    StableHlo.binary main_v3 main_v5 main_v6 (addf : (⟨S200000x64, .f32⟩ : BufTy).Contents (Elt F) → (⟨S200000x64, .f32⟩ : BufTy).Contents (Elt F) → (⟨S200000x64, .f32⟩ : BufTy).Contents (Elt F)),
    TRef.nullary main_call0.cst (constant S_ .f32 0x00000000#32),
    TRef.unary main_call0.cst main_call0.v0 (broadcastInDim S200000x64 ![] bcast_S_S200000x64),
    TRef.binary (.of main_v6 : TRef sig ⟨S200000x64, .f32⟩) main_call0.v0 main_call0.v1 maximumf,
    StableHlo.nullary main_c (constantI S_ 32 4294967295#32),
    StableHlo.unary main_c main_v8 (broadcastInDim S589824 ![] bcast_S_S589824 : (⟨S_, .i32⟩ : BufTy).Contents (Elt F) → (⟨S589824, .i32⟩ : BufTy).Contents (Elt F)),
    StableHlo.nullary main_v9 (iotaInDim S200000 32 0),
    StableHlo.nullary main_c_0 (constantI S_ 32 0#32),
    StableHlo.unary main_c_0 main_v10 (broadcastInDim S200000 ![] bcast_S_S200000 : (⟨S_, .i32⟩ : BufTy).Contents (Elt F) → (⟨S200000, .i32⟩ : BufTy).Contents (Elt F)),
    StableHlo.binary main_arg1 main_v10 main_v11 (cmpi .slt : (⟨S200000, .i32⟩ : BufTy).Contents (Elt F) → (⟨S200000, .i32⟩ : BufTy).Contents (Elt F) → (⟨S200000, .i1⟩ : BufTy).Contents (Elt F)),
    StableHlo.nullary main_c_1 (constantI S_ 32 589824#32),
    StableHlo.unary main_c_1 main_v12 (broadcastInDim S200000 ![] bcast_S_S200000 : (⟨S_, .i32⟩ : BufTy).Contents (Elt F) → (⟨S200000, .i32⟩ : BufTy).Contents (Elt F)),
    StableHlo.binary main_arg1 main_v12 main_v13 (addi : (⟨S200000, .i32⟩ : BufTy).Contents (Elt F) → (⟨S200000, .i32⟩ : BufTy).Contents (Elt F) → (⟨S200000, .i32⟩ : BufTy).Contents (Elt F)),
    StableHlo.ternary main_v11 main_v13 main_arg1 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v14 main_v15 (broadcastInDim S200000x1 ![0] bcast_S200000_S200000x1_0 : (⟨S200000, .i32⟩ : BufTy).Contents (Elt F) → (⟨S200000x1, .i32⟩ : BufTy).Contents (Elt F)),
    StableHlo.ternary main_v8 main_v15 main_v9 main_v16 ((fun x i u => Host.scatter scatter_S589824_S200000x1_S200000_n_0_0_1 (fun _ b => b) x i u) : (⟨S589824, .i32⟩ : BufTy).Contents (Elt F) → (⟨S200000x1, .i32⟩ : BufTy).Contents (Elt F) → (⟨S200000, .i32⟩ : BufTy).Contents (Elt F) → (⟨S589824, .i32⟩ : BufTy).Contents (Elt F)),
    StableHlo.nullary main_c_2 (constantI S_ 32 768#32),
    TRef.unary (.of main_c_2 : TRef sig ⟨S_, .i32⟩) main_call1.v0 id,
    TRef.unary main_call1.v0 main_call1.v1 (broadcastInDim S200000 ![] bcast_S_S200000),
    TRef.binary (.of main_arg1 : TRef sig ⟨S200000, .i32⟩) main_call1.v1 main_call1.v2 Host.divsi,
    TRef.unary (.of main_arg1 : TRef sig ⟨S200000, .i32⟩) main_call1.v3 signi,
    TRef.unary main_call1.v0 main_call1.v4 signi,
    TRef.unary main_call1.v4 main_call1.v5 (broadcastInDim S200000 ![] bcast_S_S200000),
    TRef.binary main_call1.v3 main_call1.v5 main_call1.v6 (cmpi .ne),
    TRef.unary main_call1.v0 main_call1.v7 (broadcastInDim S200000 ![] bcast_S_S200000),
    TRef.binary (.of main_arg1 : TRef sig ⟨S200000, .i32⟩) main_call1.v7 main_call1.v8 Host.remsi,
    TRef.nullary main_call1.c (constantI S_ 32 0#32),
    TRef.unary main_call1.c main_call1.v9 (broadcastInDim S200000 ![] bcast_S_S200000),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S200000 ![] bcast_S_S200000),
    TRef.binary main_call1.v2 main_call1.v12 main_call1.v13 subi,
    TRef.ternary main_call1.v11 main_call1.v13 main_call1.v2 main_call1.call0.v0 select,
    StableHlo.nullary main_c_3 (constantI S_ 32 768#32),
    TRef.unary (.of main_c_3 : TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S200000 ![] bcast_S_S200000),
    TRef.binary (.of main_arg1 : TRef sig ⟨S200000, .i32⟩) main_call2.v3 main_call2.v4 Host.remsi,
    TRef.nullary main_call2.c_1 (constantI S_ 32 0#32),
    TRef.unary main_call2.c_1 main_call2.v5 (broadcastInDim S200000 ![] bcast_S_S200000),
    TRef.binary main_call2.v4 main_call2.v5 main_call2.v6 (cmpi .ne),
    TRef.nullary main_call2.c_2 (constantI S_ 32 0#32),
    TRef.unary main_call2.c_2 main_call2.v7 (broadcastInDim S200000 ![] bcast_S_S200000),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S200000 ![] bcast_S_S200000),
    TRef.binary main_call2.v8 main_call2.v10 main_call2.v11 (cmpi .ne),
    TRef.binary main_call2.v11 main_call2.v6 main_call2.v12 andi,
    TRef.unary main_call2.call0.v0 main_call2.v13 (broadcastInDim S200000 ![] bcast_S_S200000),
    TRef.binary main_call2.v4 main_call2.v13 main_call2.v14 addi,
    TRef.ternary main_call2.v12 main_call2.v14 main_call2.v4 main_call2.v15 select,
    StableHlo.nullary main_cst (constant S_ .f32 0x00000000#32),
    StableHlo.unary main_cst main_v19 (broadcastInDim S200000x64 ![] bcast_S_S200000x64 : (⟨S_, .f32⟩ : BufTy).Contents (Elt F) → (⟨S200000x64, .f32⟩ : BufTy).Contents (Elt F)),
    StableHlo.nullary main_c_4 (constantI S_ 32 4294967295#32),
    StableHlo.unary main_c_4 main_v20 (broadcastInDim S200000 ![] bcast_S_S200000 : (⟨S_, .i32⟩ : BufTy).Contents (Elt F) → (⟨S200000, .i32⟩ : BufTy).Contents (Elt F)),
    StableHlo.binary main_v17 main_v20 main_v21 (addi : (⟨S200000, .i32⟩ : BufTy).Contents (Elt F) → (⟨S200000, .i32⟩ : BufTy).Contents (Elt F) → (⟨S200000, .i32⟩ : BufTy).Contents (Elt F)),
    StableHlo.nullary main_c_5 (constantI S_ 32 4294967295#32),
    StableHlo.unary main_c_5 main_v22 (broadcastInDim S200000 ![] bcast_S_S200000 : (⟨S_, .i32⟩ : BufTy).Contents (Elt F) → (⟨S200000, .i32⟩ : BufTy).Contents (Elt F)),
    StableHlo.binary main_v18 main_v22 main_v23 (addi : (⟨S200000, .i32⟩ : BufTy).Contents (Elt F) → (⟨S200000, .i32⟩ : BufTy).Contents (Elt F) → (⟨S200000, .i32⟩ : BufTy).Contents (Elt F)),
    StableHlo.nullary main_c_6 (constantI S_ 32 0#32),
    StableHlo.unary main_c_6 main_v24 (broadcastInDim S200000 ![] bcast_S_S200000 : (⟨S_, .i32⟩ : BufTy).Contents (Elt F) → (⟨S200000, .i32⟩ : BufTy).Contents (Elt F)),
    StableHlo.binary main_v21 main_v24 main_v25 (cmpi .sge : (⟨S200000, .i32⟩ : BufTy).Contents (Elt F) → (⟨S200000, .i32⟩ : BufTy).Contents (Elt F) → (⟨S200000, .i1⟩ : BufTy).Contents (Elt F)),
    StableHlo.nullary main_c_7 (constantI S_ 32 768#32),
    StableHlo.unary main_c_7 main_v26 (broadcastInDim S200000 ![] bcast_S_S200000 : (⟨S_, .i32⟩ : BufTy).Contents (Elt F) → (⟨S200000, .i32⟩ : BufTy).Contents (Elt F)),
    StableHlo.binary main_v21 main_v26 main_v27 (cmpi .slt : (⟨S200000, .i32⟩ : BufTy).Contents (Elt F) → (⟨S200000, .i32⟩ : BufTy).Contents (Elt F) → (⟨S200000, .i1⟩ : BufTy).Contents (Elt F)),
    StableHlo.binary main_v25 main_v27 main_v28 (andi : (⟨S200000, .i1⟩ : BufTy).Contents (Elt F) → (⟨S200000, .i1⟩ : BufTy).Contents (Elt F) → (⟨S200000, .i1⟩ : BufTy).Contents (Elt F)),
    StableHlo.nullary main_c_8 (constantI S_ 32 0#32),
    StableHlo.unary main_c_8 main_v29 (broadcastInDim S200000 ![] bcast_S_S200000 : (⟨S_, .i32⟩ : BufTy).Contents (Elt F) → (⟨S200000, .i32⟩ : BufTy).Contents (Elt F)),
    StableHlo.binary main_v23 main_v29 main_v30 (cmpi .sge : (⟨S200000, .i32⟩ : BufTy).Contents (Elt F) → (⟨S200000, .i32⟩ : BufTy).Contents (Elt F) → (⟨S200000, .i1⟩ : BufTy).Contents (Elt F)),
    StableHlo.binary main_v28 main_v30 main_v31 (andi : (⟨S200000, .i1⟩ : BufTy).Contents (Elt F) → (⟨S200000, .i1⟩ : BufTy).Contents (Elt F) → (⟨S200000, .i1⟩ : BufTy).Contents (Elt F)),
    StableHlo.nullary main_c_9 (constantI S_ 32 768#32),
    StableHlo.unary main_c_9 main_v32 (broadcastInDim S200000 ![] bcast_S_S200000 : (⟨S_, .i32⟩ : BufTy).Contents (Elt F) → (⟨S200000, .i32⟩ : BufTy).Contents (Elt F)),
    StableHlo.binary main_v23 main_v32 main_v33 (cmpi .slt : (⟨S200000, .i32⟩ : BufTy).Contents (Elt F) → (⟨S200000, .i32⟩ : BufTy).Contents (Elt F) → (⟨S200000, .i1⟩ : BufTy).Contents (Elt F)),
    StableHlo.binary main_v31 main_v33 main_v34 (andi : (⟨S200000, .i1⟩ : BufTy).Contents (Elt F) → (⟨S200000, .i1⟩ : BufTy).Contents (Elt F) → (⟨S200000, .i1⟩ : BufTy).Contents (Elt F)),
    StableHlo.nullary main_c_10 (constantI S_ 32 0#32),
    StableHlo.nullary main_c_11 (constantI S_ 32 767#32),
    TRef.unary (.of main_c_10 : TRef sig ⟨S_, .i32⟩) main_call3.v0 id,
    TRef.unary main_call3.v0 main_call3.v1 (broadcastInDim S200000 ![] bcast_S_S200000),
    TRef.binary main_call3.v1 (.of main_v21 : TRef sig ⟨S200000, .i32⟩) main_call3.v2 maxsi,
    TRef.unary (.of main_c_11 : TRef sig ⟨S_, .i32⟩) main_call3.v3 id,
    TRef.unary main_call3.v3 main_call3.v4 (broadcastInDim S200000 ![] bcast_S_S200000),
    TRef.binary main_call3.v4 main_call3.v2 main_call3.v5 minsi,
    StableHlo.nullary main_c_12 (constantI S_ 32 768#32),
    StableHlo.unary main_c_12 main_v36 (broadcastInDim S200000 ![] bcast_S_S200000 : (⟨S_, .i32⟩ : BufTy).Contents (Elt F) → (⟨S200000, .i32⟩ : BufTy).Contents (Elt F)),
    StableHlo.binary main_v35 main_v36 main_v37 (muli : (⟨S200000, .i32⟩ : BufTy).Contents (Elt F) → (⟨S200000, .i32⟩ : BufTy).Contents (Elt F) → (⟨S200000, .i32⟩ : BufTy).Contents (Elt F)),
    StableHlo.nullary main_c_13 (constantI S_ 32 0#32),
    StableHlo.nullary main_c_14 (constantI S_ 32 767#32),
    TRef.unary (.of main_c_13 : TRef sig ⟨S_, .i32⟩) main_call4.v0 id,
    TRef.unary main_call4.v0 main_call4.v1 (broadcastInDim S200000 ![] bcast_S_S200000),
    TRef.binary main_call4.v1 (.of main_v23 : TRef sig ⟨S200000, .i32⟩) main_call4.v2 maxsi,
    TRef.unary (.of main_c_14 : TRef sig ⟨S_, .i32⟩) main_call4.v3 id,
    TRef.unary main_call4.v3 main_call4.v4 (broadcastInDim S200000 ![] bcast_S_S200000),
    TRef.binary main_call4.v4 main_call4.v2 main_call4.v5 minsi,
    StableHlo.binary main_v37 main_v38 main_v39 (addi : (⟨S200000, .i32⟩ : BufTy).Contents (Elt F) → (⟨S200000, .i32⟩ : BufTy).Contents (Elt F) → (⟨S200000, .i32⟩ : BufTy).Contents (Elt F)),
    StableHlo.nullary main_c_15 (constantI S_ 32 0#32),
    StableHlo.unary main_c_15 main_v40 (broadcastInDim S200000 ![] bcast_S_S200000 : (⟨S_, .i32⟩ : BufTy).Contents (Elt F) → (⟨S200000, .i32⟩ : BufTy).Contents (Elt F)),
    StableHlo.binary main_v39 main_v40 main_v41 (cmpi .slt : (⟨S200000, .i32⟩ : BufTy).Contents (Elt F) → (⟨S200000, .i32⟩ : BufTy).Contents (Elt F) → (⟨S200000, .i1⟩ : BufTy).Contents (Elt F)) ]

set_option maxRecDepth 8192 in
theorem part0_eq (c : Dev nD) : main_part0 (F := F) c = seq ops0 := by
  simp only [main_part0, fn_clip.body, fn_floor_divide.body, fn_relu.body, fn_remainder.body, fn_where.body, fn_where_0.body, seq, bind_assoc, pure_bind]
  all_goals rfl

theorem ops0_sub : (ops0 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W0 : List (Ref sig .tc) :=
  [main_v0, main_v1, main_v2, main_v3, main_v4, main_v5, main_v6, main_call0_cst, main_call0_v0, main_v7, main_c, main_v8, main_v9, main_c_0, main_v10, main_v11, main_c_1, main_v12, main_v13, main_v14, main_v15, main_v16, main_c_2, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v17, main_c_3, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18, main_cst, main_v19, main_c_4, main_v20, main_v21, main_c_5, main_v22, main_v23, main_c_6, main_v24, main_v25, main_c_7, main_v26, main_v27, main_v28, main_c_8, main_v29, main_v30, main_v31, main_c_9, main_v32, main_v33, main_v34, main_c_10, main_c_11, main_call3_v0, main_call3_v1, main_call3_v2, main_call3_v3, main_call3_v4, main_v35, main_c_12, main_v36, main_v37, main_c_13, main_c_14, main_call4_v0, main_call4_v1, main_call4_v2, main_call4_v3, main_call4_v4, main_v38, main_v39, main_c_15, main_v40, main_v41]

theorem hW0 : Cert.ReadBack.WritesAt (ops0 : List (HloOp τ sig (Elt F))) W0 := by
  repeat (first | exact List.Forall₂.nil | refine List.Forall₂.cons rfl ?_)

end Cert.ReferenceIdeal.RefRun

end
-- ==== Proof.RefOps1.lean ====
/- Window 1 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops1 : List (HloOp τ sig (Elt F)) :=
  [
    StableHlo.nullary main_c_16 (constantI S_ 32 589824#32),
    StableHlo.unary main_c_16 main_v42 (broadcastInDim S200000 ![] bcast_S_S200000 : (⟨S_, .i32⟩ : BufTy).Contents (Elt F) → (⟨S200000, .i32⟩ : BufTy).Contents (Elt F)),
    StableHlo.binary main_v39 main_v42 main_v43 (addi : (⟨S200000, .i32⟩ : BufTy).Contents (Elt F) → (⟨S200000, .i32⟩ : BufTy).Contents (Elt F) → (⟨S200000, .i32⟩ : BufTy).Contents (Elt F)),
    StableHlo.ternary main_v41 main_v43 main_v39 main_v44 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v44 main_v45 (broadcastInDim S200000x1 ![0] bcast_S200000_S200000x1_0 : (⟨S200000, .i32⟩ : BufTy).Contents (Elt F) → (⟨S200000x1, .i32⟩ : BufTy).Contents (Elt F)),
    StableHlo.binary main_v16 main_v45 main_v46 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_17 (constantI S_ 32 0#32),
    StableHlo.unary main_c_17 main_v47 (broadcastInDim S200000 ![] bcast_S_S200000 : (⟨S_, .i32⟩ : BufTy).Contents (Elt F) → (⟨S200000, .i32⟩ : BufTy).Contents (Elt F)),
    StableHlo.binary main_v46 main_v47 main_v48 (cmpi .sge : (⟨S200000, .i32⟩ : BufTy).Contents (Elt F) → (⟨S200000, .i32⟩ : BufTy).Contents (Elt F) → (⟨S200000, .i1⟩ : BufTy).Contents (Elt F)),
    StableHlo.binary main_v34 main_v48 main_v49 (andi : (⟨S200000, .i1⟩ : BufTy).Contents (Elt F) → (⟨S200000, .i1⟩ : BufTy).Contents (Elt F) → (⟨S200000, .i1⟩ : BufTy).Contents (Elt F)),
    StableHlo.unary main_v49 main_v50 (broadcastInDim S200000x1 ![0] bcast_S200000_S200000x1_0 : (⟨S200000, .i1⟩ : BufTy).Contents (Elt F) → (⟨S200000x1, .i1⟩ : BufTy).Contents (Elt F)),
    StableHlo.nullary main_c_18 (constantI S_ 32 0#32),
    StableHlo.unary main_c_18 main_v51 (broadcastInDim S200000 ![] bcast_S_S200000 : (⟨S_, .i32⟩ : BufTy).Contents (Elt F) → (⟨S200000, .i32⟩ : BufTy).Contents (Elt F)),
    StableHlo.binary main_v46 main_v51 main_v52 (maxsi : (⟨S200000, .i32⟩ : BufTy).Contents (Elt F) → (⟨S200000, .i32⟩ : BufTy).Contents (Elt F) → (⟨S200000, .i32⟩ : BufTy).Contents (Elt F)),
    StableHlo.nullary main_c_19 (constantI S_ 32 0#32),
    StableHlo.unary main_c_19 main_v53 (broadcastInDim S200000 ![] bcast_S_S200000 : (⟨S_, .i32⟩ : BufTy).Contents (Elt F) → (⟨S200000, .i32⟩ : BufTy).Contents (Elt F)),
    StableHlo.binary main_v52 main_v53 main_v54 (cmpi .slt : (⟨S200000, .i32⟩ : BufTy).Contents (Elt F) → (⟨S200000, .i32⟩ : BufTy).Contents (Elt F) → (⟨S200000, .i1⟩ : BufTy).Contents (Elt F)),
    StableHlo.nullary main_c_20 (constantI S_ 32 200000#32),
    StableHlo.unary main_c_20 main_v55 (broadcastInDim S200000 ![] bcast_S_S200000 : (⟨S_, .i32⟩ : BufTy).Contents (Elt F) → (⟨S200000, .i32⟩ : BufTy).Contents (Elt F)),
    StableHlo.binary main_v52 main_v55 main_v56 (addi : (⟨S200000, .i32⟩ : BufTy).Contents (Elt F) → (⟨S200000, .i32⟩ : BufTy).Contents (Elt F) → (⟨S200000, .i32⟩ : BufTy).Contents (Elt F)),
    StableHlo.ternary main_v54 main_v56 main_v52 main_v57 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v57 main_v58 (broadcastInDim S200000x1 ![0] bcast_S200000_S200000x1_0 : (⟨S200000, .i32⟩ : BufTy).Contents (Elt F) → (⟨S200000x1, .i32⟩ : BufTy).Contents (Elt F)),
    StableHlo.binary main_v7 main_v58 main_v59 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_21 (constant S_ .f32 0x00000000#32),
    TRef.unary (.of main_cst_21 : TRef sig ⟨S_, .f32⟩) main_call5.v0 id,
    TRef.unary (.of main_v50 : TRef sig ⟨S200000x1, .i1⟩) main_call5.v1 (broadcastInDim S200000x64 ![0, 1] bcast_S200000x1_S200000x64_0_1),
    TRef.unary main_call5.v0 main_call5.v2 (broadcastInDim S200000x64 ![] bcast_S_S200000x64),
    TRef.ternary main_call5.v1 (.of main_v59 : TRef sig ⟨S200000x64, .f32⟩) main_call5.v2 main_call5.v3 select,
    StableHlo.unary main_arg3 main_v61 ((extractStridedSlice S1x64x64 ![0, 0, 0] · slices_S9x64x64_S1x64x64_0_0_0) : (⟨S9x64x64, .f32⟩ : BufTy).Contents (Elt F) → (⟨S1x64x64, .f32⟩ : BufTy).Contents (Elt F)),
    StableHlo.reshape main_v61 main_v62 rfl shapeCasts_S1x64x64_S64x64,
    StableHlo.binary main_v60 main_v62 main_v63 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v19 main_v63 main_v64 (addf : (⟨S200000x64, .f32⟩ : BufTy).Contents (Elt F) → (⟨S200000x64, .f32⟩ : BufTy).Contents (Elt F) → (⟨S200000x64, .f32⟩ : BufTy).Contents (Elt F)),
    StableHlo.nullary main_c_22 (constantI S_ 32 4294967295#32),
    StableHlo.unary main_c_22 main_v65 (broadcastInDim S200000 ![] bcast_S_S200000 : (⟨S_, .i32⟩ : BufTy).Contents (Elt F) → (⟨S200000, .i32⟩ : BufTy).Contents (Elt F)),
    StableHlo.binary main_v17 main_v65 main_v66 (addi : (⟨S200000, .i32⟩ : BufTy).Contents (Elt F) → (⟨S200000, .i32⟩ : BufTy).Contents (Elt F) → (⟨S200000, .i32⟩ : BufTy).Contents (Elt F)),
    StableHlo.nullary main_c_23 (constantI S_ 32 0#32),
    StableHlo.unary main_c_23 main_v67 (broadcastInDim S200000 ![] bcast_S_S200000 : (⟨S_, .i32⟩ : BufTy).Contents (Elt F) → (⟨S200000, .i32⟩ : BufTy).Contents (Elt F)),
    StableHlo.binary main_v18 main_v67 main_v68 (addi : (⟨S200000, .i32⟩ : BufTy).Contents (Elt F) → (⟨S200000, .i32⟩ : BufTy).Contents (Elt F) → (⟨S200000, .i32⟩ : BufTy).Contents (Elt F)),
    StableHlo.nullary main_c_24 (constantI S_ 32 0#32),
    StableHlo.unary main_c_24 main_v69 (broadcastInDim S200000 ![] bcast_S_S200000 : (⟨S_, .i32⟩ : BufTy).Contents (Elt F) → (⟨S200000, .i32⟩ : BufTy).Contents (Elt F)),
    StableHlo.binary main_v66 main_v69 main_v70 (cmpi .sge : (⟨S200000, .i32⟩ : BufTy).Contents (Elt F) → (⟨S200000, .i32⟩ : BufTy).Contents (Elt F) → (⟨S200000, .i1⟩ : BufTy).Contents (Elt F)),
    StableHlo.nullary main_c_25 (constantI S_ 32 768#32),
    StableHlo.unary main_c_25 main_v71 (broadcastInDim S200000 ![] bcast_S_S200000 : (⟨S_, .i32⟩ : BufTy).Contents (Elt F) → (⟨S200000, .i32⟩ : BufTy).Contents (Elt F)),
    StableHlo.binary main_v66 main_v71 main_v72 (cmpi .slt : (⟨S200000, .i32⟩ : BufTy).Contents (Elt F) → (⟨S200000, .i32⟩ : BufTy).Contents (Elt F) → (⟨S200000, .i1⟩ : BufTy).Contents (Elt F)),
    StableHlo.binary main_v70 main_v72 main_v73 (andi : (⟨S200000, .i1⟩ : BufTy).Contents (Elt F) → (⟨S200000, .i1⟩ : BufTy).Contents (Elt F) → (⟨S200000, .i1⟩ : BufTy).Contents (Elt F)),
    StableHlo.nullary main_c_26 (constantI S_ 32 0#32),
    StableHlo.unary main_c_26 main_v74 (broadcastInDim S200000 ![] bcast_S_S200000 : (⟨S_, .i32⟩ : BufTy).Contents (Elt F) → (⟨S200000, .i32⟩ : BufTy).Contents (Elt F)),
    StableHlo.binary main_v68 main_v74 main_v75 (cmpi .sge : (⟨S200000, .i32⟩ : BufTy).Contents (Elt F) → (⟨S200000, .i32⟩ : BufTy).Contents (Elt F) → (⟨S200000, .i1⟩ : BufTy).Contents (Elt F)),
    StableHlo.binary main_v73 main_v75 main_v76 (andi : (⟨S200000, .i1⟩ : BufTy).Contents (Elt F) → (⟨S200000, .i1⟩ : BufTy).Contents (Elt F) → (⟨S200000, .i1⟩ : BufTy).Contents (Elt F)),
    StableHlo.nullary main_c_27 (constantI S_ 32 768#32),
    StableHlo.unary main_c_27 main_v77 (broadcastInDim S200000 ![] bcast_S_S200000 : (⟨S_, .i32⟩ : BufTy).Contents (Elt F) → (⟨S200000, .i32⟩ : BufTy).Contents (Elt F)),
    StableHlo.binary main_v68 main_v77 main_v78 (cmpi .slt : (⟨S200000, .i32⟩ : BufTy).Contents (Elt F) → (⟨S200000, .i32⟩ : BufTy).Contents (Elt F) → (⟨S200000, .i1⟩ : BufTy).Contents (Elt F)),
    StableHlo.binary main_v76 main_v78 main_v79 (andi : (⟨S200000, .i1⟩ : BufTy).Contents (Elt F) → (⟨S200000, .i1⟩ : BufTy).Contents (Elt F) → (⟨S200000, .i1⟩ : BufTy).Contents (Elt F)),
    StableHlo.nullary main_c_28 (constantI S_ 32 0#32),
    StableHlo.nullary main_c_29 (constantI S_ 32 767#32),
    TRef.unary (.of main_c_28 : TRef sig ⟨S_, .i32⟩) main_call6.v0 id,
    TRef.unary main_call6.v0 main_call6.v1 (broadcastInDim S200000 ![] bcast_S_S200000),
    TRef.binary main_call6.v1 (.of main_v66 : TRef sig ⟨S200000, .i32⟩) main_call6.v2 maxsi,
    TRef.unary (.of main_c_29 : TRef sig ⟨S_, .i32⟩) main_call6.v3 id,
    TRef.unary main_call6.v3 main_call6.v4 (broadcastInDim S200000 ![] bcast_S_S200000),
    TRef.binary main_call6.v4 main_call6.v2 main_call6.v5 minsi,
    StableHlo.nullary main_c_30 (constantI S_ 32 768#32),
    StableHlo.unary main_c_30 main_v81 (broadcastInDim S200000 ![] bcast_S_S200000 : (⟨S_, .i32⟩ : BufTy).Contents (Elt F) → (⟨S200000, .i32⟩ : BufTy).Contents (Elt F)),
    StableHlo.binary main_v80 main_v81 main_v82 (muli : (⟨S200000, .i32⟩ : BufTy).Contents (Elt F) → (⟨S200000, .i32⟩ : BufTy).Contents (Elt F) → (⟨S200000, .i32⟩ : BufTy).Contents (Elt F)),
    StableHlo.nullary main_c_31 (constantI S_ 32 0#32),
    StableHlo.nullary main_c_32 (constantI S_ 32 767#32),
    TRef.unary (.of main_c_31 : TRef sig ⟨S_, .i32⟩) main_call7.v0 id,
    TRef.unary main_call7.v0 main_call7.v1 (broadcastInDim S200000 ![] bcast_S_S200000),
    TRef.binary main_call7.v1 (.of main_v68 : TRef sig ⟨S200000, .i32⟩) main_call7.v2 maxsi,
    TRef.unary (.of main_c_32 : TRef sig ⟨S_, .i32⟩) main_call7.v3 id,
    TRef.unary main_call7.v3 main_call7.v4 (broadcastInDim S200000 ![] bcast_S_S200000),
    TRef.binary main_call7.v4 main_call7.v2 main_call7.v5 minsi,
    StableHlo.binary main_v82 main_v83 main_v84 (addi : (⟨S200000, .i32⟩ : BufTy).Contents (Elt F) → (⟨S200000, .i32⟩ : BufTy).Contents (Elt F) → (⟨S200000, .i32⟩ : BufTy).Contents (Elt F)) ]

set_option maxRecDepth 8192 in
theorem part1_eq (c : Dev nD) : main_part1 (F := F) c = seq ops1 := by
  simp only [main_part1, fn_clip.body, fn_where_1.body, seq, bind_assoc, pure_bind]
  all_goals rfl

theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W1 : List (Ref sig .tc) :=
  [main_c_16, main_v42, main_v43, main_v44, main_v45, main_v46, main_c_17, main_v47, main_v48, main_v49, main_v50, main_c_18, main_v51, main_v52, main_c_19, main_v53, main_v54, main_c_20, main_v55, main_v56, main_v57, main_v58, main_v59, main_cst_21, main_call5_v0, main_call5_v1, main_call5_v2, main_v60, main_v61, main_v62, main_v63, main_v64, main_c_22, main_v65, main_v66, main_c_23, main_v67, main_v68, main_c_24, main_v69, main_v70, main_c_25, main_v71, main_v72, main_v73, main_c_26, main_v74, main_v75, main_v76, main_c_27, main_v77, main_v78, main_v79, main_c_28, main_c_29, main_call6_v0, main_call6_v1, main_call6_v2, main_call6_v3, main_call6_v4, main_v80, main_c_30, main_v81, main_v82, main_c_31, main_c_32, main_call7_v0, main_call7_v1, main_call7_v2, main_call7_v3, main_call7_v4, main_v83, main_v84]

theorem hW1 : Cert.ReadBack.WritesAt (ops1 : List (HloOp τ sig (Elt F))) W1 := by
  repeat (first | exact List.Forall₂.nil | refine List.Forall₂.cons rfl ?_)

end Cert.ReferenceIdeal.RefRun

end
-- ==== Proof.RefOps2.lean ====
/- Window 2 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 68 operations, in order. -/
abbrev ops2 : List (HloOp τ sig (Elt F)) :=
  [
    StableHlo.nullary main_c_33 (constantI S_ 32 0#32),
    StableHlo.unary main_c_33 main_v85 (broadcastInDim S200000 ![] bcast_S_S200000 : (⟨S_, .i32⟩ : BufTy).Contents (Elt F) → (⟨S200000, .i32⟩ : BufTy).Contents (Elt F)),
    StableHlo.binary main_v84 main_v85 main_v86 (cmpi .slt : (⟨S200000, .i32⟩ : BufTy).Contents (Elt F) → (⟨S200000, .i32⟩ : BufTy).Contents (Elt F) → (⟨S200000, .i1⟩ : BufTy).Contents (Elt F)),
    StableHlo.nullary main_c_34 (constantI S_ 32 589824#32),
    StableHlo.unary main_c_34 main_v87 (broadcastInDim S200000 ![] bcast_S_S200000 : (⟨S_, .i32⟩ : BufTy).Contents (Elt F) → (⟨S200000, .i32⟩ : BufTy).Contents (Elt F)),
    StableHlo.binary main_v84 main_v87 main_v88 (addi : (⟨S200000, .i32⟩ : BufTy).Contents (Elt F) → (⟨S200000, .i32⟩ : BufTy).Contents (Elt F) → (⟨S200000, .i32⟩ : BufTy).Contents (Elt F)),
    StableHlo.ternary main_v86 main_v88 main_v84 main_v89 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v89 main_v90 (broadcastInDim S200000x1 ![0] bcast_S200000_S200000x1_0 : (⟨S200000, .i32⟩ : BufTy).Contents (Elt F) → (⟨S200000x1, .i32⟩ : BufTy).Contents (Elt F)),
    StableHlo.binary main_v16 main_v90 main_v91 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_35 (constantI S_ 32 0#32),
    StableHlo.unary main_c_35 main_v92 (broadcastInDim S200000 ![] bcast_S_S200000 : (⟨S_, .i32⟩ : BufTy).Contents (Elt F) → (⟨S200000, .i32⟩ : BufTy).Contents (Elt F)),
    StableHlo.binary main_v91 main_v92 main_v93 (cmpi .sge : (⟨S200000, .i32⟩ : BufTy).Contents (Elt F) → (⟨S200000, .i32⟩ : BufTy).Contents (Elt F) → (⟨S200000, .i1⟩ : BufTy).Contents (Elt F)),
    StableHlo.binary main_v79 main_v93 main_v94 (andi : (⟨S200000, .i1⟩ : BufTy).Contents (Elt F) → (⟨S200000, .i1⟩ : BufTy).Contents (Elt F) → (⟨S200000, .i1⟩ : BufTy).Contents (Elt F)),
    StableHlo.unary main_v94 main_v95 (broadcastInDim S200000x1 ![0] bcast_S200000_S200000x1_0 : (⟨S200000, .i1⟩ : BufTy).Contents (Elt F) → (⟨S200000x1, .i1⟩ : BufTy).Contents (Elt F)),
    StableHlo.nullary main_c_36 (constantI S_ 32 0#32),
    StableHlo.unary main_c_36 main_v96 (broadcastInDim S200000 ![] bcast_S_S200000 : (⟨S_, .i32⟩ : BufTy).Contents (Elt F) → (⟨S200000, .i32⟩ : BufTy).Contents (Elt F)),
    StableHlo.binary main_v91 main_v96 main_v97 (maxsi : (⟨S200000, .i32⟩ : BufTy).Contents (Elt F) → (⟨S200000, .i32⟩ : BufTy).Contents (Elt F) → (⟨S200000, .i32⟩ : BufTy).Contents (Elt F)),
    StableHlo.nullary main_c_37 (constantI S_ 32 0#32),
    StableHlo.unary main_c_37 main_v98 (broadcastInDim S200000 ![] bcast_S_S200000 : (⟨S_, .i32⟩ : BufTy).Contents (Elt F) → (⟨S200000, .i32⟩ : BufTy).Contents (Elt F)),
    StableHlo.binary main_v97 main_v98 main_v99 (cmpi .slt : (⟨S200000, .i32⟩ : BufTy).Contents (Elt F) → (⟨S200000, .i32⟩ : BufTy).Contents (Elt F) → (⟨S200000, .i1⟩ : BufTy).Contents (Elt F)),
    StableHlo.nullary main_c_38 (constantI S_ 32 200000#32),
    StableHlo.unary main_c_38 main_v100 (broadcastInDim S200000 ![] bcast_S_S200000 : (⟨S_, .i32⟩ : BufTy).Contents (Elt F) → (⟨S200000, .i32⟩ : BufTy).Contents (Elt F)),
    StableHlo.binary main_v97 main_v100 main_v101 (addi : (⟨S200000, .i32⟩ : BufTy).Contents (Elt F) → (⟨S200000, .i32⟩ : BufTy).Contents (Elt F) → (⟨S200000, .i32⟩ : BufTy).Contents (Elt F)),
    StableHlo.ternary main_v99 main_v101 main_v97 main_v102 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v102 main_v103 (broadcastInDim S200000x1 ![0] bcast_S200000_S200000x1_0 : (⟨S200000, .i32⟩ : BufTy).Contents (Elt F) → (⟨S200000x1, .i32⟩ : BufTy).Contents (Elt F)),
    StableHlo.binary main_v7 main_v103 main_v104 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_39 (constant S_ .f32 0x00000000#32),
    TRef.unary (.of main_cst_39 : TRef sig ⟨S_, .f32⟩) main_call8.v0 id,
    TRef.unary (.of main_v95 : TRef sig ⟨S200000x1, .i1⟩) main_call8.v1 (broadcastInDim S200000x64 ![0, 1] bcast_S200000x1_S200000x64_0_1),
    TRef.unary main_call8.v0 main_call8.v2 (broadcastInDim S200000x64 ![] bcast_S_S200000x64),
    TRef.ternary main_call8.v1 (.of main_v104 : TRef sig ⟨S200000x64, .f32⟩) main_call8.v2 main_call8.v3 select,
    StableHlo.unary main_arg3 main_v106 ((extractStridedSlice S1x64x64 ![1, 0, 0] · slices_S9x64x64_S1x64x64_1_0_0) : (⟨S9x64x64, .f32⟩ : BufTy).Contents (Elt F) → (⟨S1x64x64, .f32⟩ : BufTy).Contents (Elt F)),
    StableHlo.reshape main_v106 main_v107 rfl shapeCasts_S1x64x64_S64x64,
    StableHlo.binary main_v105 main_v107 main_v108 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v64 main_v108 main_v109 (addf : (⟨S200000x64, .f32⟩ : BufTy).Contents (Elt F) → (⟨S200000x64, .f32⟩ : BufTy).Contents (Elt F) → (⟨S200000x64, .f32⟩ : BufTy).Contents (Elt F)),
    StableHlo.nullary main_c_40 (constantI S_ 32 4294967295#32),
    StableHlo.unary main_c_40 main_v110 (broadcastInDim S200000 ![] bcast_S_S200000 : (⟨S_, .i32⟩ : BufTy).Contents (Elt F) → (⟨S200000, .i32⟩ : BufTy).Contents (Elt F)),
    StableHlo.binary main_v17 main_v110 main_v111 (addi : (⟨S200000, .i32⟩ : BufTy).Contents (Elt F) → (⟨S200000, .i32⟩ : BufTy).Contents (Elt F) → (⟨S200000, .i32⟩ : BufTy).Contents (Elt F)),
    StableHlo.nullary main_c_41 (constantI S_ 32 1#32),
    StableHlo.unary main_c_41 main_v112 (broadcastInDim S200000 ![] bcast_S_S200000 : (⟨S_, .i32⟩ : BufTy).Contents (Elt F) → (⟨S200000, .i32⟩ : BufTy).Contents (Elt F)),
    StableHlo.binary main_v18 main_v112 main_v113 (addi : (⟨S200000, .i32⟩ : BufTy).Contents (Elt F) → (⟨S200000, .i32⟩ : BufTy).Contents (Elt F) → (⟨S200000, .i32⟩ : BufTy).Contents (Elt F)),
    StableHlo.nullary main_c_42 (constantI S_ 32 0#32),
    StableHlo.unary main_c_42 main_v114 (broadcastInDim S200000 ![] bcast_S_S200000 : (⟨S_, .i32⟩ : BufTy).Contents (Elt F) → (⟨S200000, .i32⟩ : BufTy).Contents (Elt F)),
    StableHlo.binary main_v111 main_v114 main_v115 (cmpi .sge : (⟨S200000, .i32⟩ : BufTy).Contents (Elt F) → (⟨S200000, .i32⟩ : BufTy).Contents (Elt F) → (⟨S200000, .i1⟩ : BufTy).Contents (Elt F)),
    StableHlo.nullary main_c_43 (constantI S_ 32 768#32),
    StableHlo.unary main_c_43 main_v116 (broadcastInDim S200000 ![] bcast_S_S200000 : (⟨S_, .i32⟩ : BufTy).Contents (Elt F) → (⟨S200000, .i32⟩ : BufTy).Contents (Elt F)),
    StableHlo.binary main_v111 main_v116 main_v117 (cmpi .slt : (⟨S200000, .i32⟩ : BufTy).Contents (Elt F) → (⟨S200000, .i32⟩ : BufTy).Contents (Elt F) → (⟨S200000, .i1⟩ : BufTy).Contents (Elt F)),
    StableHlo.binary main_v115 main_v117 main_v118 (andi : (⟨S200000, .i1⟩ : BufTy).Contents (Elt F) → (⟨S200000, .i1⟩ : BufTy).Contents (Elt F) → (⟨S200000, .i1⟩ : BufTy).Contents (Elt F)),
    StableHlo.nullary main_c_44 (constantI S_ 32 0#32),
    StableHlo.unary main_c_44 main_v119 (broadcastInDim S200000 ![] bcast_S_S200000 : (⟨S_, .i32⟩ : BufTy).Contents (Elt F) → (⟨S200000, .i32⟩ : BufTy).Contents (Elt F)),
    StableHlo.binary main_v113 main_v119 main_v120 (cmpi .sge : (⟨S200000, .i32⟩ : BufTy).Contents (Elt F) → (⟨S200000, .i32⟩ : BufTy).Contents (Elt F) → (⟨S200000, .i1⟩ : BufTy).Contents (Elt F)),
    StableHlo.binary main_v118 main_v120 main_v121 (andi : (⟨S200000, .i1⟩ : BufTy).Contents (Elt F) → (⟨S200000, .i1⟩ : BufTy).Contents (Elt F) → (⟨S200000, .i1⟩ : BufTy).Contents (Elt F)),
    StableHlo.nullary main_c_45 (constantI S_ 32 768#32),
    StableHlo.unary main_c_45 main_v122 (broadcastInDim S200000 ![] bcast_S_S200000 : (⟨S_, .i32⟩ : BufTy).Contents (Elt F) → (⟨S200000, .i32⟩ : BufTy).Contents (Elt F)),
    StableHlo.binary main_v113 main_v122 main_v123 (cmpi .slt : (⟨S200000, .i32⟩ : BufTy).Contents (Elt F) → (⟨S200000, .i32⟩ : BufTy).Contents (Elt F) → (⟨S200000, .i1⟩ : BufTy).Contents (Elt F)),
    StableHlo.binary main_v121 main_v123 main_v124 (andi : (⟨S200000, .i1⟩ : BufTy).Contents (Elt F) → (⟨S200000, .i1⟩ : BufTy).Contents (Elt F) → (⟨S200000, .i1⟩ : BufTy).Contents (Elt F)),
    StableHlo.nullary main_c_46 (constantI S_ 32 0#32),
    StableHlo.nullary main_c_47 (constantI S_ 32 767#32),
    TRef.unary (.of main_c_46 : TRef sig ⟨S_, .i32⟩) main_call9.v0 id,
    TRef.unary main_call9.v0 main_call9.v1 (broadcastInDim S200000 ![] bcast_S_S200000),
    TRef.binary main_call9.v1 (.of main_v111 : TRef sig ⟨S200000, .i32⟩) main_call9.v2 maxsi,
    TRef.unary (.of main_c_47 : TRef sig ⟨S_, .i32⟩) main_call9.v3 id,
    TRef.unary main_call9.v3 main_call9.v4 (broadcastInDim S200000 ![] bcast_S_S200000),
    TRef.binary main_call9.v4 main_call9.v2 main_call9.v5 minsi,
    StableHlo.nullary main_c_48 (constantI S_ 32 768#32),
    StableHlo.unary main_c_48 main_v126 (broadcastInDim S200000 ![] bcast_S_S200000 : (⟨S_, .i32⟩ : BufTy).Contents (Elt F) → (⟨S200000, .i32⟩ : BufTy).Contents (Elt F)),
    StableHlo.binary main_v125 main_v126 main_v127 (muli : (⟨S200000, .i32⟩ : BufTy).Contents (Elt F) → (⟨S200000, .i32⟩ : BufTy).Contents (Elt F) → (⟨S200000, .i32⟩ : BufTy).Contents (Elt F)),
    StableHlo.nullary main_c_49 (constantI S_ 32 0#32) ]

set_option maxRecDepth 8192 in
theorem part2_eq (c : Dev nD) : main_part2 (F := F) c = seq ops2 := by
  simp only [main_part2, fn_clip.body, fn_where_1.body, seq, bind_assoc, pure_bind]
  all_goals rfl

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W2 : List (Ref sig .tc) :=
  [main_c_33, main_v85, main_v86, main_c_34, main_v87, main_v88, main_v89, main_v90, main_v91, main_c_35, main_v92, main_v93, main_v94, main_v95, main_c_36, main_v96, main_v97, main_c_37, main_v98, main_v99, main_c_38, main_v100, main_v101, main_v102, main_v103, main_v104, main_cst_39, main_call8_v0, main_call8_v1, main_call8_v2, main_v105, main_v106, main_v107, main_v108, main_v109, main_c_40, main_v110, main_v111, main_c_41, main_v112, main_v113, main_c_42, main_v114, main_v115, main_c_43, main_v116, main_v117, main_v118, main_c_44, main_v119, main_v120, main_v121, main_c_45, main_v122, main_v123, main_v124, main_c_46, main_c_47, main_call9_v0, main_call9_v1, main_call9_v2, main_call9_v3, main_call9_v4, main_v125, main_c_48, main_v126, main_v127, main_c_49]

theorem hW2 : Cert.ReadBack.WritesAt (ops2 : List (HloOp τ sig (Elt F))) W2 := by
  repeat (first | exact List.Forall₂.nil | refine List.Forall₂.cons rfl ?_)

end Cert.ReferenceIdeal.RefRun

end
-- ==== Proof.RefOps3.lean ====
/- Window 3 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops3 : List (HloOp τ sig (Elt F)) :=
  [
    StableHlo.nullary main_c_50 (constantI S_ 32 767#32),
    TRef.unary (.of main_c_49 : TRef sig ⟨S_, .i32⟩) main_call10.v0 id,
    TRef.unary main_call10.v0 main_call10.v1 (broadcastInDim S200000 ![] bcast_S_S200000),
    TRef.binary main_call10.v1 (.of main_v113 : TRef sig ⟨S200000, .i32⟩) main_call10.v2 maxsi,
    TRef.unary (.of main_c_50 : TRef sig ⟨S_, .i32⟩) main_call10.v3 id,
    TRef.unary main_call10.v3 main_call10.v4 (broadcastInDim S200000 ![] bcast_S_S200000),
    TRef.binary main_call10.v4 main_call10.v2 main_call10.v5 minsi,
    StableHlo.binary main_v127 main_v128 main_v129 (addi : (⟨S200000, .i32⟩ : BufTy).Contents (Elt F) → (⟨S200000, .i32⟩ : BufTy).Contents (Elt F) → (⟨S200000, .i32⟩ : BufTy).Contents (Elt F)),
    StableHlo.nullary main_c_51 (constantI S_ 32 0#32),
    StableHlo.unary main_c_51 main_v130 (broadcastInDim S200000 ![] bcast_S_S200000 : (⟨S_, .i32⟩ : BufTy).Contents (Elt F) → (⟨S200000, .i32⟩ : BufTy).Contents (Elt F)),
    StableHlo.binary main_v129 main_v130 main_v131 (cmpi .slt : (⟨S200000, .i32⟩ : BufTy).Contents (Elt F) → (⟨S200000, .i32⟩ : BufTy).Contents (Elt F) → (⟨S200000, .i1⟩ : BufTy).Contents (Elt F)),
    StableHlo.nullary main_c_52 (constantI S_ 32 589824#32),
    StableHlo.unary main_c_52 main_v132 (broadcastInDim S200000 ![] bcast_S_S200000 : (⟨S_, .i32⟩ : BufTy).Contents (Elt F) → (⟨S200000, .i32⟩ : BufTy).Contents (Elt F)),
    StableHlo.binary main_v129 main_v132 main_v133 (addi : (⟨S200000, .i32⟩ : BufTy).Contents (Elt F) → (⟨S200000, .i32⟩ : BufTy).Contents (Elt F) → (⟨S200000, .i32⟩ : BufTy).Contents (Elt F)),
    StableHlo.ternary main_v131 main_v133 main_v129 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v134 main_v135 (broadcastInDim S200000x1 ![0] bcast_S200000_S200000x1_0 : (⟨S200000, .i32⟩ : BufTy).Contents (Elt F) → (⟨S200000x1, .i32⟩ : BufTy).Contents (Elt F)),
    StableHlo.binary main_v16 main_v135 main_v136 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_53 (constantI S_ 32 0#32),
    StableHlo.unary main_c_53 main_v137 (broadcastInDim S200000 ![] bcast_S_S200000 : (⟨S_, .i32⟩ : BufTy).Contents (Elt F) → (⟨S200000, .i32⟩ : BufTy).Contents (Elt F)),
    StableHlo.binary main_v136 main_v137 main_v138 (cmpi .sge : (⟨S200000, .i32⟩ : BufTy).Contents (Elt F) → (⟨S200000, .i32⟩ : BufTy).Contents (Elt F) → (⟨S200000, .i1⟩ : BufTy).Contents (Elt F)),
    StableHlo.binary main_v124 main_v138 main_v139 (andi : (⟨S200000, .i1⟩ : BufTy).Contents (Elt F) → (⟨S200000, .i1⟩ : BufTy).Contents (Elt F) → (⟨S200000, .i1⟩ : BufTy).Contents (Elt F)),
    StableHlo.unary main_v139 main_v140 (broadcastInDim S200000x1 ![0] bcast_S200000_S200000x1_0 : (⟨S200000, .i1⟩ : BufTy).Contents (Elt F) → (⟨S200000x1, .i1⟩ : BufTy).Contents (Elt F)),
    StableHlo.nullary main_c_54 (constantI S_ 32 0#32),
    StableHlo.unary main_c_54 main_v141 (broadcastInDim S200000 ![] bcast_S_S200000 : (⟨S_, .i32⟩ : BufTy).Contents (Elt F) → (⟨S200000, .i32⟩ : BufTy).Contents (Elt F)),
    StableHlo.binary main_v136 main_v141 main_v142 (maxsi : (⟨S200000, .i32⟩ : BufTy).Contents (Elt F) → (⟨S200000, .i32⟩ : BufTy).Contents (Elt F) → (⟨S200000, .i32⟩ : BufTy).Contents (Elt F)),
    StableHlo.nullary main_c_55 (constantI S_ 32 0#32),
    StableHlo.unary main_c_55 main_v143 (broadcastInDim S200000 ![] bcast_S_S200000 : (⟨S_, .i32⟩ : BufTy).Contents (Elt F) → (⟨S200000, .i32⟩ : BufTy).Contents (Elt F)),
    StableHlo.binary main_v142 main_v143 main_v144 (cmpi .slt : (⟨S200000, .i32⟩ : BufTy).Contents (Elt F) → (⟨S200000, .i32⟩ : BufTy).Contents (Elt F) → (⟨S200000, .i1⟩ : BufTy).Contents (Elt F)),
    StableHlo.nullary main_c_56 (constantI S_ 32 200000#32),
    StableHlo.unary main_c_56 main_v145 (broadcastInDim S200000 ![] bcast_S_S200000 : (⟨S_, .i32⟩ : BufTy).Contents (Elt F) → (⟨S200000, .i32⟩ : BufTy).Contents (Elt F)),
    StableHlo.binary main_v142 main_v145 main_v146 (addi : (⟨S200000, .i32⟩ : BufTy).Contents (Elt F) → (⟨S200000, .i32⟩ : BufTy).Contents (Elt F) → (⟨S200000, .i32⟩ : BufTy).Contents (Elt F)),
    StableHlo.ternary main_v144 main_v146 main_v142 main_v147 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v147 main_v148 (broadcastInDim S200000x1 ![0] bcast_S200000_S200000x1_0 : (⟨S200000, .i32⟩ : BufTy).Contents (Elt F) → (⟨S200000x1, .i32⟩ : BufTy).Contents (Elt F)),
    StableHlo.binary main_v7 main_v148 main_v149 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_57 (constant S_ .f32 0x00000000#32),
    TRef.unary (.of main_cst_57 : TRef sig ⟨S_, .f32⟩) main_call11.v0 id,
    TRef.unary (.of main_v140 : TRef sig ⟨S200000x1, .i1⟩) main_call11.v1 (broadcastInDim S200000x64 ![0, 1] bcast_S200000x1_S200000x64_0_1),
    TRef.unary main_call11.v0 main_call11.v2 (broadcastInDim S200000x64 ![] bcast_S_S200000x64),
    TRef.ternary main_call11.v1 (.of main_v149 : TRef sig ⟨S200000x64, .f32⟩) main_call11.v2 main_call11.v3 select,
    StableHlo.unary main_arg3 main_v151 ((extractStridedSlice S1x64x64 ![2, 0, 0] · slices_S9x64x64_S1x64x64_2_0_0) : (⟨S9x64x64, .f32⟩ : BufTy).Contents (Elt F) → (⟨S1x64x64, .f32⟩ : BufTy).Contents (Elt F)),
    StableHlo.reshape main_v151 main_v152 rfl shapeCasts_S1x64x64_S64x64,
    StableHlo.binary main_v150 main_v152 main_v153 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v109 main_v153 main_v154 (addf : (⟨S200000x64, .f32⟩ : BufTy).Contents (Elt F) → (⟨S200000x64, .f32⟩ : BufTy).Contents (Elt F) → (⟨S200000x64, .f32⟩ : BufTy).Contents (Elt F)),
    StableHlo.nullary main_c_58 (constantI S_ 32 0#32),
    StableHlo.unary main_c_58 main_v155 (broadcastInDim S200000 ![] bcast_S_S200000 : (⟨S_, .i32⟩ : BufTy).Contents (Elt F) → (⟨S200000, .i32⟩ : BufTy).Contents (Elt F)),
    StableHlo.binary main_v17 main_v155 main_v156 (addi : (⟨S200000, .i32⟩ : BufTy).Contents (Elt F) → (⟨S200000, .i32⟩ : BufTy).Contents (Elt F) → (⟨S200000, .i32⟩ : BufTy).Contents (Elt F)),
    StableHlo.nullary main_c_59 (constantI S_ 32 4294967295#32),
    StableHlo.unary main_c_59 main_v157 (broadcastInDim S200000 ![] bcast_S_S200000 : (⟨S_, .i32⟩ : BufTy).Contents (Elt F) → (⟨S200000, .i32⟩ : BufTy).Contents (Elt F)),
    StableHlo.binary main_v18 main_v157 main_v158 (addi : (⟨S200000, .i32⟩ : BufTy).Contents (Elt F) → (⟨S200000, .i32⟩ : BufTy).Contents (Elt F) → (⟨S200000, .i32⟩ : BufTy).Contents (Elt F)),
    StableHlo.nullary main_c_60 (constantI S_ 32 0#32),
    StableHlo.unary main_c_60 main_v159 (broadcastInDim S200000 ![] bcast_S_S200000 : (⟨S_, .i32⟩ : BufTy).Contents (Elt F) → (⟨S200000, .i32⟩ : BufTy).Contents (Elt F)),
    StableHlo.binary main_v156 main_v159 main_v160 (cmpi .sge : (⟨S200000, .i32⟩ : BufTy).Contents (Elt F) → (⟨S200000, .i32⟩ : BufTy).Contents (Elt F) → (⟨S200000, .i1⟩ : BufTy).Contents (Elt F)),
    StableHlo.nullary main_c_61 (constantI S_ 32 768#32),
    StableHlo.unary main_c_61 main_v161 (broadcastInDim S200000 ![] bcast_S_S200000 : (⟨S_, .i32⟩ : BufTy).Contents (Elt F) → (⟨S200000, .i32⟩ : BufTy).Contents (Elt F)),
    StableHlo.binary main_v156 main_v161 main_v162 (cmpi .slt : (⟨S200000, .i32⟩ : BufTy).Contents (Elt F) → (⟨S200000, .i32⟩ : BufTy).Contents (Elt F) → (⟨S200000, .i1⟩ : BufTy).Contents (Elt F)),
    StableHlo.binary main_v160 main_v162 main_v163 (andi : (⟨S200000, .i1⟩ : BufTy).Contents (Elt F) → (⟨S200000, .i1⟩ : BufTy).Contents (Elt F) → (⟨S200000, .i1⟩ : BufTy).Contents (Elt F)),
    StableHlo.nullary main_c_62 (constantI S_ 32 0#32),
    StableHlo.unary main_c_62 main_v164 (broadcastInDim S200000 ![] bcast_S_S200000 : (⟨S_, .i32⟩ : BufTy).Contents (Elt F) → (⟨S200000, .i32⟩ : BufTy).Contents (Elt F)),
    StableHlo.binary main_v158 main_v164 main_v165 (cmpi .sge : (⟨S200000, .i32⟩ : BufTy).Contents (Elt F) → (⟨S200000, .i32⟩ : BufTy).Contents (Elt F) → (⟨S200000, .i1⟩ : BufTy).Contents (Elt F)),
    StableHlo.binary main_v163 main_v165 main_v166 (andi : (⟨S200000, .i1⟩ : BufTy).Contents (Elt F) → (⟨S200000, .i1⟩ : BufTy).Contents (Elt F) → (⟨S200000, .i1⟩ : BufTy).Contents (Elt F)),
    StableHlo.nullary main_c_63 (constantI S_ 32 768#32),
    StableHlo.unary main_c_63 main_v167 (broadcastInDim S200000 ![] bcast_S_S200000 : (⟨S_, .i32⟩ : BufTy).Contents (Elt F) → (⟨S200000, .i32⟩ : BufTy).Contents (Elt F)),
    StableHlo.binary main_v158 main_v167 main_v168 (cmpi .slt : (⟨S200000, .i32⟩ : BufTy).Contents (Elt F) → (⟨S200000, .i32⟩ : BufTy).Contents (Elt F) → (⟨S200000, .i1⟩ : BufTy).Contents (Elt F)),
    StableHlo.binary main_v166 main_v168 main_v169 (andi : (⟨S200000, .i1⟩ : BufTy).Contents (Elt F) → (⟨S200000, .i1⟩ : BufTy).Contents (Elt F) → (⟨S200000, .i1⟩ : BufTy).Contents (Elt F)),
    StableHlo.nullary main_c_64 (constantI S_ 32 0#32),
    StableHlo.nullary main_c_65 (constantI S_ 32 767#32),
    TRef.unary (.of main_c_64 : TRef sig ⟨S_, .i32⟩) main_call12.v0 id,
    TRef.unary main_call12.v0 main_call12.v1 (broadcastInDim S200000 ![] bcast_S_S200000),
    TRef.binary main_call12.v1 (.of main_v156 : TRef sig ⟨S200000, .i32⟩) main_call12.v2 maxsi,
    TRef.unary (.of main_c_65 : TRef sig ⟨S_, .i32⟩) main_call12.v3 id,
    TRef.unary main_call12.v3 main_call12.v4 (broadcastInDim S200000 ![] bcast_S_S200000),
    TRef.binary main_call12.v4 main_call12.v2 main_call12.v5 minsi,
    StableHlo.nullary main_c_66 (constantI S_ 32 768#32) ]

set_option maxRecDepth 8192 in
theorem part3_eq (c : Dev nD) : main_part3 (F := F) c = seq ops3 := by
  simp only [main_part3, fn_clip.body, fn_where_1.body, seq, bind_assoc, pure_bind]
  all_goals rfl

theorem ops3_sub : (ops3 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W3 : List (Ref sig .tc) :=
  [main_c_50, main_call10_v0, main_call10_v1, main_call10_v2, main_call10_v3, main_call10_v4, main_v128, main_v129, main_c_51, main_v130, main_v131, main_c_52, main_v132, main_v133, main_v134, main_v135, main_v136, main_c_53, main_v137, main_v138, main_v139, main_v140, main_c_54, main_v141, main_v142, main_c_55, main_v143, main_v144, main_c_56, main_v145, main_v146, main_v147, main_v148, main_v149, main_cst_57, main_call11_v0, main_call11_v1, main_call11_v2, main_v150, main_v151, main_v152, main_v153, main_v154, main_c_58, main_v155, main_v156, main_c_59, main_v157, main_v158, main_c_60, main_v159, main_v160, main_c_61, main_v161, main_v162, main_v163, main_c_62, main_v164, main_v165, main_v166, main_c_63, main_v167, main_v168, main_v169, main_c_64, main_c_65, main_call12_v0, main_call12_v1, main_call12_v2, main_call12_v3, main_call12_v4, main_v170, main_c_66]

theorem hW3 : Cert.ReadBack.WritesAt (ops3 : List (HloOp τ sig (Elt F))) W3 := by
  repeat (first | exact List.Forall₂.nil | refine List.Forall₂.cons rfl ?_)

end Cert.ReferenceIdeal.RefRun

end
-- ==== Proof.RefOps4.lean ====
/- Window 4 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 68 operations, in order. -/
abbrev ops4 : List (HloOp τ sig (Elt F)) :=
  [
    StableHlo.unary main_c_66 main_v171 (broadcastInDim S200000 ![] bcast_S_S200000 : (⟨S_, .i32⟩ : BufTy).Contents (Elt F) → (⟨S200000, .i32⟩ : BufTy).Contents (Elt F)),
    StableHlo.binary main_v170 main_v171 main_v172 (muli : (⟨S200000, .i32⟩ : BufTy).Contents (Elt F) → (⟨S200000, .i32⟩ : BufTy).Contents (Elt F) → (⟨S200000, .i32⟩ : BufTy).Contents (Elt F)),
    StableHlo.nullary main_c_67 (constantI S_ 32 0#32),
    StableHlo.nullary main_c_68 (constantI S_ 32 767#32),
    TRef.unary (.of main_c_67 : TRef sig ⟨S_, .i32⟩) main_call13.v0 id,
    TRef.unary main_call13.v0 main_call13.v1 (broadcastInDim S200000 ![] bcast_S_S200000),
    TRef.binary main_call13.v1 (.of main_v158 : TRef sig ⟨S200000, .i32⟩) main_call13.v2 maxsi,
    TRef.unary (.of main_c_68 : TRef sig ⟨S_, .i32⟩) main_call13.v3 id,
    TRef.unary main_call13.v3 main_call13.v4 (broadcastInDim S200000 ![] bcast_S_S200000),
    TRef.binary main_call13.v4 main_call13.v2 main_call13.v5 minsi,
    StableHlo.binary main_v172 main_v173 main_v174 (addi : (⟨S200000, .i32⟩ : BufTy).Contents (Elt F) → (⟨S200000, .i32⟩ : BufTy).Contents (Elt F) → (⟨S200000, .i32⟩ : BufTy).Contents (Elt F)),
    StableHlo.nullary main_c_69 (constantI S_ 32 0#32),
    StableHlo.unary main_c_69 main_v175 (broadcastInDim S200000 ![] bcast_S_S200000 : (⟨S_, .i32⟩ : BufTy).Contents (Elt F) → (⟨S200000, .i32⟩ : BufTy).Contents (Elt F)),
    StableHlo.binary main_v174 main_v175 main_v176 (cmpi .slt : (⟨S200000, .i32⟩ : BufTy).Contents (Elt F) → (⟨S200000, .i32⟩ : BufTy).Contents (Elt F) → (⟨S200000, .i1⟩ : BufTy).Contents (Elt F)),
    StableHlo.nullary main_c_70 (constantI S_ 32 589824#32),
    StableHlo.unary main_c_70 main_v177 (broadcastInDim S200000 ![] bcast_S_S200000 : (⟨S_, .i32⟩ : BufTy).Contents (Elt F) → (⟨S200000, .i32⟩ : BufTy).Contents (Elt F)),
    StableHlo.binary main_v174 main_v177 main_v178 (addi : (⟨S200000, .i32⟩ : BufTy).Contents (Elt F) → (⟨S200000, .i32⟩ : BufTy).Contents (Elt F) → (⟨S200000, .i32⟩ : BufTy).Contents (Elt F)),
    StableHlo.ternary main_v176 main_v178 main_v174 main_v179 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v179 main_v180 (broadcastInDim S200000x1 ![0] bcast_S200000_S200000x1_0 : (⟨S200000, .i32⟩ : BufTy).Contents (Elt F) → (⟨S200000x1, .i32⟩ : BufTy).Contents (Elt F)),
    StableHlo.binary main_v16 main_v180 main_v181 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_71 (constantI S_ 32 0#32),
    StableHlo.unary main_c_71 main_v182 (broadcastInDim S200000 ![] bcast_S_S200000 : (⟨S_, .i32⟩ : BufTy).Contents (Elt F) → (⟨S200000, .i32⟩ : BufTy).Contents (Elt F)),
    StableHlo.binary main_v181 main_v182 main_v183 (cmpi .sge : (⟨S200000, .i32⟩ : BufTy).Contents (Elt F) → (⟨S200000, .i32⟩ : BufTy).Contents (Elt F) → (⟨S200000, .i1⟩ : BufTy).Contents (Elt F)),
    StableHlo.binary main_v169 main_v183 main_v184 (andi : (⟨S200000, .i1⟩ : BufTy).Contents (Elt F) → (⟨S200000, .i1⟩ : BufTy).Contents (Elt F) → (⟨S200000, .i1⟩ : BufTy).Contents (Elt F)),
    StableHlo.unary main_v184 main_v185 (broadcastInDim S200000x1 ![0] bcast_S200000_S200000x1_0 : (⟨S200000, .i1⟩ : BufTy).Contents (Elt F) → (⟨S200000x1, .i1⟩ : BufTy).Contents (Elt F)),
    StableHlo.nullary main_c_72 (constantI S_ 32 0#32),
    StableHlo.unary main_c_72 main_v186 (broadcastInDim S200000 ![] bcast_S_S200000 : (⟨S_, .i32⟩ : BufTy).Contents (Elt F) → (⟨S200000, .i32⟩ : BufTy).Contents (Elt F)),
    StableHlo.binary main_v181 main_v186 main_v187 (maxsi : (⟨S200000, .i32⟩ : BufTy).Contents (Elt F) → (⟨S200000, .i32⟩ : BufTy).Contents (Elt F) → (⟨S200000, .i32⟩ : BufTy).Contents (Elt F)),
    StableHlo.nullary main_c_73 (constantI S_ 32 0#32),
    StableHlo.unary main_c_73 main_v188 (broadcastInDim S200000 ![] bcast_S_S200000 : (⟨S_, .i32⟩ : BufTy).Contents (Elt F) → (⟨S200000, .i32⟩ : BufTy).Contents (Elt F)),
    StableHlo.binary main_v187 main_v188 main_v189 (cmpi .slt : (⟨S200000, .i32⟩ : BufTy).Contents (Elt F) → (⟨S200000, .i32⟩ : BufTy).Contents (Elt F) → (⟨S200000, .i1⟩ : BufTy).Contents (Elt F)),
    StableHlo.nullary main_c_74 (constantI S_ 32 200000#32),
    StableHlo.unary main_c_74 main_v190 (broadcastInDim S200000 ![] bcast_S_S200000 : (⟨S_, .i32⟩ : BufTy).Contents (Elt F) → (⟨S200000, .i32⟩ : BufTy).Contents (Elt F)),
    StableHlo.binary main_v187 main_v190 main_v191 (addi : (⟨S200000, .i32⟩ : BufTy).Contents (Elt F) → (⟨S200000, .i32⟩ : BufTy).Contents (Elt F) → (⟨S200000, .i32⟩ : BufTy).Contents (Elt F)),
    StableHlo.ternary main_v189 main_v191 main_v187 main_v192 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v192 main_v193 (broadcastInDim S200000x1 ![0] bcast_S200000_S200000x1_0 : (⟨S200000, .i32⟩ : BufTy).Contents (Elt F) → (⟨S200000x1, .i32⟩ : BufTy).Contents (Elt F)),
    StableHlo.binary main_v7 main_v193 main_v194 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_75 (constant S_ .f32 0x00000000#32),
    TRef.unary (.of main_cst_75 : TRef sig ⟨S_, .f32⟩) main_call14.v0 id,
    TRef.unary (.of main_v185 : TRef sig ⟨S200000x1, .i1⟩) main_call14.v1 (broadcastInDim S200000x64 ![0, 1] bcast_S200000x1_S200000x64_0_1),
    TRef.unary main_call14.v0 main_call14.v2 (broadcastInDim S200000x64 ![] bcast_S_S200000x64),
    TRef.ternary main_call14.v1 (.of main_v194 : TRef sig ⟨S200000x64, .f32⟩) main_call14.v2 main_call14.v3 select,
    StableHlo.unary main_arg3 main_v196 ((extractStridedSlice S1x64x64 ![3, 0, 0] · slices_S9x64x64_S1x64x64_3_0_0) : (⟨S9x64x64, .f32⟩ : BufTy).Contents (Elt F) → (⟨S1x64x64, .f32⟩ : BufTy).Contents (Elt F)),
    StableHlo.reshape main_v196 main_v197 rfl shapeCasts_S1x64x64_S64x64,
    StableHlo.binary main_v195 main_v197 main_v198 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v154 main_v198 main_v199 (addf : (⟨S200000x64, .f32⟩ : BufTy).Contents (Elt F) → (⟨S200000x64, .f32⟩ : BufTy).Contents (Elt F) → (⟨S200000x64, .f32⟩ : BufTy).Contents (Elt F)),
    StableHlo.nullary main_c_76 (constantI S_ 32 0#32),
    StableHlo.unary main_c_76 main_v200 (broadcastInDim S200000 ![] bcast_S_S200000 : (⟨S_, .i32⟩ : BufTy).Contents (Elt F) → (⟨S200000, .i32⟩ : BufTy).Contents (Elt F)),
    StableHlo.binary main_v17 main_v200 main_v201 (addi : (⟨S200000, .i32⟩ : BufTy).Contents (Elt F) → (⟨S200000, .i32⟩ : BufTy).Contents (Elt F) → (⟨S200000, .i32⟩ : BufTy).Contents (Elt F)),
    StableHlo.nullary main_c_77 (constantI S_ 32 0#32),
    StableHlo.unary main_c_77 main_v202 (broadcastInDim S200000 ![] bcast_S_S200000 : (⟨S_, .i32⟩ : BufTy).Contents (Elt F) → (⟨S200000, .i32⟩ : BufTy).Contents (Elt F)),
    StableHlo.binary main_v18 main_v202 main_v203 (addi : (⟨S200000, .i32⟩ : BufTy).Contents (Elt F) → (⟨S200000, .i32⟩ : BufTy).Contents (Elt F) → (⟨S200000, .i32⟩ : BufTy).Contents (Elt F)),
    StableHlo.nullary main_c_78 (constantI S_ 32 0#32),
    StableHlo.unary main_c_78 main_v204 (broadcastInDim S200000 ![] bcast_S_S200000 : (⟨S_, .i32⟩ : BufTy).Contents (Elt F) → (⟨S200000, .i32⟩ : BufTy).Contents (Elt F)),
    StableHlo.binary main_v201 main_v204 main_v205 (cmpi .sge : (⟨S200000, .i32⟩ : BufTy).Contents (Elt F) → (⟨S200000, .i32⟩ : BufTy).Contents (Elt F) → (⟨S200000, .i1⟩ : BufTy).Contents (Elt F)),
    StableHlo.nullary main_c_79 (constantI S_ 32 768#32),
    StableHlo.unary main_c_79 main_v206 (broadcastInDim S200000 ![] bcast_S_S200000 : (⟨S_, .i32⟩ : BufTy).Contents (Elt F) → (⟨S200000, .i32⟩ : BufTy).Contents (Elt F)),
    StableHlo.binary main_v201 main_v206 main_v207 (cmpi .slt : (⟨S200000, .i32⟩ : BufTy).Contents (Elt F) → (⟨S200000, .i32⟩ : BufTy).Contents (Elt F) → (⟨S200000, .i1⟩ : BufTy).Contents (Elt F)),
    StableHlo.binary main_v205 main_v207 main_v208 (andi : (⟨S200000, .i1⟩ : BufTy).Contents (Elt F) → (⟨S200000, .i1⟩ : BufTy).Contents (Elt F) → (⟨S200000, .i1⟩ : BufTy).Contents (Elt F)),
    StableHlo.nullary main_c_80 (constantI S_ 32 0#32),
    StableHlo.unary main_c_80 main_v209 (broadcastInDim S200000 ![] bcast_S_S200000 : (⟨S_, .i32⟩ : BufTy).Contents (Elt F) → (⟨S200000, .i32⟩ : BufTy).Contents (Elt F)),
    StableHlo.binary main_v203 main_v209 main_v210 (cmpi .sge : (⟨S200000, .i32⟩ : BufTy).Contents (Elt F) → (⟨S200000, .i32⟩ : BufTy).Contents (Elt F) → (⟨S200000, .i1⟩ : BufTy).Contents (Elt F)),
    StableHlo.binary main_v208 main_v210 main_v211 (andi : (⟨S200000, .i1⟩ : BufTy).Contents (Elt F) → (⟨S200000, .i1⟩ : BufTy).Contents (Elt F) → (⟨S200000, .i1⟩ : BufTy).Contents (Elt F)),
    StableHlo.nullary main_c_81 (constantI S_ 32 768#32),
    StableHlo.unary main_c_81 main_v212 (broadcastInDim S200000 ![] bcast_S_S200000 : (⟨S_, .i32⟩ : BufTy).Contents (Elt F) → (⟨S200000, .i32⟩ : BufTy).Contents (Elt F)),
    StableHlo.binary main_v203 main_v212 main_v213 (cmpi .slt : (⟨S200000, .i32⟩ : BufTy).Contents (Elt F) → (⟨S200000, .i32⟩ : BufTy).Contents (Elt F) → (⟨S200000, .i1⟩ : BufTy).Contents (Elt F)),
    StableHlo.binary main_v211 main_v213 main_v214 (andi : (⟨S200000, .i1⟩ : BufTy).Contents (Elt F) → (⟨S200000, .i1⟩ : BufTy).Contents (Elt F) → (⟨S200000, .i1⟩ : BufTy).Contents (Elt F)),
    StableHlo.nullary main_c_82 (constantI S_ 32 0#32) ]

set_option maxRecDepth 8192 in
theorem part4_eq (c : Dev nD) : main_part4 (F := F) c = seq ops4 := by
  simp only [main_part4, fn_clip.body, fn_where_1.body, seq, bind_assoc, pure_bind]
  all_goals rfl

theorem ops4_sub : (ops4 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W4 : List (Ref sig .tc) :=
  [main_v171, main_v172, main_c_67, main_c_68, main_call13_v0, main_call13_v1, main_call13_v2, main_call13_v3, main_call13_v4, main_v173, main_v174, main_c_69, main_v175, main_v176, main_c_70, main_v177, main_v178, main_v179, main_v180, main_v181, main_c_71, main_v182, main_v183, main_v184, main_v185, main_c_72, main_v186, main_v187, main_c_73, main_v188, main_v189, main_c_74, main_v190, main_v191, main_v192, main_v193, main_v194, main_cst_75, main_call14_v0, main_call14_v1, main_call14_v2, main_v195, main_v196, main_v197, main_v198, main_v199, main_c_76, main_v200, main_v201, main_c_77, main_v202, main_v203, main_c_78, main_v204, main_v205, main_c_79, main_v206, main_v207, main_v208, main_c_80, main_v209, main_v210, main_v211, main_c_81, main_v212, main_v213, main_v214, main_c_82]

theorem hW4 : Cert.ReadBack.WritesAt (ops4 : List (HloOp τ sig (Elt F))) W4 := by
  repeat (first | exact List.Forall₂.nil | refine List.Forall₂.cons rfl ?_)

end Cert.ReferenceIdeal.RefRun

end
-- ==== Proof.RefOps5.lean ====
/- Window 5 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops5 : List (HloOp τ sig (Elt F)) :=
  [
    StableHlo.nullary main_c_83 (constantI S_ 32 767#32),
    TRef.unary (.of main_c_82 : TRef sig ⟨S_, .i32⟩) main_call15.v0 id,
    TRef.unary main_call15.v0 main_call15.v1 (broadcastInDim S200000 ![] bcast_S_S200000),
    TRef.binary main_call15.v1 (.of main_v201 : TRef sig ⟨S200000, .i32⟩) main_call15.v2 maxsi,
    TRef.unary (.of main_c_83 : TRef sig ⟨S_, .i32⟩) main_call15.v3 id,
    TRef.unary main_call15.v3 main_call15.v4 (broadcastInDim S200000 ![] bcast_S_S200000),
    TRef.binary main_call15.v4 main_call15.v2 main_call15.v5 minsi,
    StableHlo.nullary main_c_84 (constantI S_ 32 768#32),
    StableHlo.unary main_c_84 main_v216 (broadcastInDim S200000 ![] bcast_S_S200000 : (⟨S_, .i32⟩ : BufTy).Contents (Elt F) → (⟨S200000, .i32⟩ : BufTy).Contents (Elt F)),
    StableHlo.binary main_v215 main_v216 main_v217 (muli : (⟨S200000, .i32⟩ : BufTy).Contents (Elt F) → (⟨S200000, .i32⟩ : BufTy).Contents (Elt F) → (⟨S200000, .i32⟩ : BufTy).Contents (Elt F)),
    StableHlo.nullary main_c_85 (constantI S_ 32 0#32),
    StableHlo.nullary main_c_86 (constantI S_ 32 767#32),
    TRef.unary (.of main_c_85 : TRef sig ⟨S_, .i32⟩) main_call16.v0 id,
    TRef.unary main_call16.v0 main_call16.v1 (broadcastInDim S200000 ![] bcast_S_S200000),
    TRef.binary main_call16.v1 (.of main_v203 : TRef sig ⟨S200000, .i32⟩) main_call16.v2 maxsi,
    TRef.unary (.of main_c_86 : TRef sig ⟨S_, .i32⟩) main_call16.v3 id,
    TRef.unary main_call16.v3 main_call16.v4 (broadcastInDim S200000 ![] bcast_S_S200000),
    TRef.binary main_call16.v4 main_call16.v2 main_call16.v5 minsi,
    StableHlo.binary main_v217 main_v218 main_v219 (addi : (⟨S200000, .i32⟩ : BufTy).Contents (Elt F) → (⟨S200000, .i32⟩ : BufTy).Contents (Elt F) → (⟨S200000, .i32⟩ : BufTy).Contents (Elt F)),
    StableHlo.nullary main_c_87 (constantI S_ 32 0#32),
    StableHlo.unary main_c_87 main_v220 (broadcastInDim S200000 ![] bcast_S_S200000 : (⟨S_, .i32⟩ : BufTy).Contents (Elt F) → (⟨S200000, .i32⟩ : BufTy).Contents (Elt F)),
    StableHlo.binary main_v219 main_v220 main_v221 (cmpi .slt : (⟨S200000, .i32⟩ : BufTy).Contents (Elt F) → (⟨S200000, .i32⟩ : BufTy).Contents (Elt F) → (⟨S200000, .i1⟩ : BufTy).Contents (Elt F)),
    StableHlo.nullary main_c_88 (constantI S_ 32 589824#32),
    StableHlo.unary main_c_88 main_v222 (broadcastInDim S200000 ![] bcast_S_S200000 : (⟨S_, .i32⟩ : BufTy).Contents (Elt F) → (⟨S200000, .i32⟩ : BufTy).Contents (Elt F)),
    StableHlo.binary main_v219 main_v222 main_v223 (addi : (⟨S200000, .i32⟩ : BufTy).Contents (Elt F) → (⟨S200000, .i32⟩ : BufTy).Contents (Elt F) → (⟨S200000, .i32⟩ : BufTy).Contents (Elt F)),
    StableHlo.ternary main_v221 main_v223 main_v219 main_v224 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v224 main_v225 (broadcastInDim S200000x1 ![0] bcast_S200000_S200000x1_0 : (⟨S200000, .i32⟩ : BufTy).Contents (Elt F) → (⟨S200000x1, .i32⟩ : BufTy).Contents (Elt F)),
    StableHlo.binary main_v16 main_v225 main_v226 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_89 (constantI S_ 32 0#32),
    StableHlo.unary main_c_89 main_v227 (broadcastInDim S200000 ![] bcast_S_S200000 : (⟨S_, .i32⟩ : BufTy).Contents (Elt F) → (⟨S200000, .i32⟩ : BufTy).Contents (Elt F)),
    StableHlo.binary main_v226 main_v227 main_v228 (cmpi .sge : (⟨S200000, .i32⟩ : BufTy).Contents (Elt F) → (⟨S200000, .i32⟩ : BufTy).Contents (Elt F) → (⟨S200000, .i1⟩ : BufTy).Contents (Elt F)),
    StableHlo.binary main_v214 main_v228 main_v229 (andi : (⟨S200000, .i1⟩ : BufTy).Contents (Elt F) → (⟨S200000, .i1⟩ : BufTy).Contents (Elt F) → (⟨S200000, .i1⟩ : BufTy).Contents (Elt F)),
    StableHlo.unary main_v229 main_v230 (broadcastInDim S200000x1 ![0] bcast_S200000_S200000x1_0 : (⟨S200000, .i1⟩ : BufTy).Contents (Elt F) → (⟨S200000x1, .i1⟩ : BufTy).Contents (Elt F)),
    StableHlo.nullary main_c_90 (constantI S_ 32 0#32),
    StableHlo.unary main_c_90 main_v231 (broadcastInDim S200000 ![] bcast_S_S200000 : (⟨S_, .i32⟩ : BufTy).Contents (Elt F) → (⟨S200000, .i32⟩ : BufTy).Contents (Elt F)),
    StableHlo.binary main_v226 main_v231 main_v232 (maxsi : (⟨S200000, .i32⟩ : BufTy).Contents (Elt F) → (⟨S200000, .i32⟩ : BufTy).Contents (Elt F) → (⟨S200000, .i32⟩ : BufTy).Contents (Elt F)),
    StableHlo.nullary main_c_91 (constantI S_ 32 0#32),
    StableHlo.unary main_c_91 main_v233 (broadcastInDim S200000 ![] bcast_S_S200000 : (⟨S_, .i32⟩ : BufTy).Contents (Elt F) → (⟨S200000, .i32⟩ : BufTy).Contents (Elt F)),
    StableHlo.binary main_v232 main_v233 main_v234 (cmpi .slt : (⟨S200000, .i32⟩ : BufTy).Contents (Elt F) → (⟨S200000, .i32⟩ : BufTy).Contents (Elt F) → (⟨S200000, .i1⟩ : BufTy).Contents (Elt F)),
    StableHlo.nullary main_c_92 (constantI S_ 32 200000#32),
    StableHlo.unary main_c_92 main_v235 (broadcastInDim S200000 ![] bcast_S_S200000 : (⟨S_, .i32⟩ : BufTy).Contents (Elt F) → (⟨S200000, .i32⟩ : BufTy).Contents (Elt F)),
    StableHlo.binary main_v232 main_v235 main_v236 (addi : (⟨S200000, .i32⟩ : BufTy).Contents (Elt F) → (⟨S200000, .i32⟩ : BufTy).Contents (Elt F) → (⟨S200000, .i32⟩ : BufTy).Contents (Elt F)),
    StableHlo.ternary main_v234 main_v236 main_v232 main_v237 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v237 main_v238 (broadcastInDim S200000x1 ![0] bcast_S200000_S200000x1_0 : (⟨S200000, .i32⟩ : BufTy).Contents (Elt F) → (⟨S200000x1, .i32⟩ : BufTy).Contents (Elt F)),
    StableHlo.binary main_v7 main_v238 main_v239 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_93 (constant S_ .f32 0x00000000#32),
    TRef.unary (.of main_cst_93 : TRef sig ⟨S_, .f32⟩) main_call17.v0 id,
    TRef.unary (.of main_v230 : TRef sig ⟨S200000x1, .i1⟩) main_call17.v1 (broadcastInDim S200000x64 ![0, 1] bcast_S200000x1_S200000x64_0_1),
    TRef.unary main_call17.v0 main_call17.v2 (broadcastInDim S200000x64 ![] bcast_S_S200000x64),
    TRef.ternary main_call17.v1 (.of main_v239 : TRef sig ⟨S200000x64, .f32⟩) main_call17.v2 main_call17.v3 select,
    StableHlo.unary main_arg3 main_v241 ((extractStridedSlice S1x64x64 ![4, 0, 0] · slices_S9x64x64_S1x64x64_4_0_0) : (⟨S9x64x64, .f32⟩ : BufTy).Contents (Elt F) → (⟨S1x64x64, .f32⟩ : BufTy).Contents (Elt F)),
    StableHlo.reshape main_v241 main_v242 rfl shapeCasts_S1x64x64_S64x64,
    StableHlo.binary main_v240 main_v242 main_v243 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v199 main_v243 main_v244 (addf : (⟨S200000x64, .f32⟩ : BufTy).Contents (Elt F) → (⟨S200000x64, .f32⟩ : BufTy).Contents (Elt F) → (⟨S200000x64, .f32⟩ : BufTy).Contents (Elt F)),
    StableHlo.nullary main_c_94 (constantI S_ 32 0#32),
    StableHlo.unary main_c_94 main_v245 (broadcastInDim S200000 ![] bcast_S_S200000 : (⟨S_, .i32⟩ : BufTy).Contents (Elt F) → (⟨S200000, .i32⟩ : BufTy).Contents (Elt F)),
    StableHlo.binary main_v17 main_v245 main_v246 (addi : (⟨S200000, .i32⟩ : BufTy).Contents (Elt F) → (⟨S200000, .i32⟩ : BufTy).Contents (Elt F) → (⟨S200000, .i32⟩ : BufTy).Contents (Elt F)),
    StableHlo.nullary main_c_95 (constantI S_ 32 1#32),
    StableHlo.unary main_c_95 main_v247 (broadcastInDim S200000 ![] bcast_S_S200000 : (⟨S_, .i32⟩ : BufTy).Contents (Elt F) → (⟨S200000, .i32⟩ : BufTy).Contents (Elt F)),
    StableHlo.binary main_v18 main_v247 main_v248 (addi : (⟨S200000, .i32⟩ : BufTy).Contents (Elt F) → (⟨S200000, .i32⟩ : BufTy).Contents (Elt F) → (⟨S200000, .i32⟩ : BufTy).Contents (Elt F)),
    StableHlo.nullary main_c_96 (constantI S_ 32 0#32),
    StableHlo.unary main_c_96 main_v249 (broadcastInDim S200000 ![] bcast_S_S200000 : (⟨S_, .i32⟩ : BufTy).Contents (Elt F) → (⟨S200000, .i32⟩ : BufTy).Contents (Elt F)),
    StableHlo.binary main_v246 main_v249 main_v250 (cmpi .sge : (⟨S200000, .i32⟩ : BufTy).Contents (Elt F) → (⟨S200000, .i32⟩ : BufTy).Contents (Elt F) → (⟨S200000, .i1⟩ : BufTy).Contents (Elt F)),
    StableHlo.nullary main_c_97 (constantI S_ 32 768#32),
    StableHlo.unary main_c_97 main_v251 (broadcastInDim S200000 ![] bcast_S_S200000 : (⟨S_, .i32⟩ : BufTy).Contents (Elt F) → (⟨S200000, .i32⟩ : BufTy).Contents (Elt F)),
    StableHlo.binary main_v246 main_v251 main_v252 (cmpi .slt : (⟨S200000, .i32⟩ : BufTy).Contents (Elt F) → (⟨S200000, .i32⟩ : BufTy).Contents (Elt F) → (⟨S200000, .i1⟩ : BufTy).Contents (Elt F)),
    StableHlo.binary main_v250 main_v252 main_v253 (andi : (⟨S200000, .i1⟩ : BufTy).Contents (Elt F) → (⟨S200000, .i1⟩ : BufTy).Contents (Elt F) → (⟨S200000, .i1⟩ : BufTy).Contents (Elt F)),
    StableHlo.nullary main_c_98 (constantI S_ 32 0#32),
    StableHlo.unary main_c_98 main_v254 (broadcastInDim S200000 ![] bcast_S_S200000 : (⟨S_, .i32⟩ : BufTy).Contents (Elt F) → (⟨S200000, .i32⟩ : BufTy).Contents (Elt F)),
    StableHlo.binary main_v248 main_v254 main_v255 (cmpi .sge : (⟨S200000, .i32⟩ : BufTy).Contents (Elt F) → (⟨S200000, .i32⟩ : BufTy).Contents (Elt F) → (⟨S200000, .i1⟩ : BufTy).Contents (Elt F)),
    StableHlo.binary main_v253 main_v255 main_v256 (andi : (⟨S200000, .i1⟩ : BufTy).Contents (Elt F) → (⟨S200000, .i1⟩ : BufTy).Contents (Elt F) → (⟨S200000, .i1⟩ : BufTy).Contents (Elt F)),
    StableHlo.nullary main_c_99 (constantI S_ 32 768#32),
    StableHlo.unary main_c_99 main_v257 (broadcastInDim S200000 ![] bcast_S_S200000 : (⟨S_, .i32⟩ : BufTy).Contents (Elt F) → (⟨S200000, .i32⟩ : BufTy).Contents (Elt F)) ]

set_option maxRecDepth 8192 in
theorem part5_eq (c : Dev nD) : main_part5 (F := F) c = seq ops5 := by
  simp only [main_part5, fn_clip.body, fn_where_1.body, seq, bind_assoc, pure_bind]
  all_goals rfl

theorem ops5_sub : (ops5 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W5 : List (Ref sig .tc) :=
  [main_c_83, main_call15_v0, main_call15_v1, main_call15_v2, main_call15_v3, main_call15_v4, main_v215, main_c_84, main_v216, main_v217, main_c_85, main_c_86, main_call16_v0, main_call16_v1, main_call16_v2, main_call16_v3, main_call16_v4, main_v218, main_v219, main_c_87, main_v220, main_v221, main_c_88, main_v222, main_v223, main_v224, main_v225, main_v226, main_c_89, main_v227, main_v228, main_v229, main_v230, main_c_90, main_v231, main_v232, main_c_91, main_v233, main_v234, main_c_92, main_v235, main_v236, main_v237, main_v238, main_v239, main_cst_93, main_call17_v0, main_call17_v1, main_call17_v2, main_v240, main_v241, main_v242, main_v243, main_v244, main_c_94, main_v245, main_v246, main_c_95, main_v247, main_v248, main_c_96, main_v249, main_v250, main_c_97, main_v251, main_v252, main_v253, main_c_98, main_v254, main_v255, main_v256, main_c_99, main_v257]

theorem hW5 : Cert.ReadBack.WritesAt (ops5 : List (HloOp τ sig (Elt F))) W5 := by
  repeat (first | exact List.Forall₂.nil | refine List.Forall₂.cons rfl ?_)

end Cert.ReferenceIdeal.RefRun

end
-- ==== Proof.RefOps6.lean ====
/- Window 6 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops6 : List (HloOp τ sig (Elt F)) :=
  [
    StableHlo.binary main_v248 main_v257 main_v258 (cmpi .slt : (⟨S200000, .i32⟩ : BufTy).Contents (Elt F) → (⟨S200000, .i32⟩ : BufTy).Contents (Elt F) → (⟨S200000, .i1⟩ : BufTy).Contents (Elt F)),
    StableHlo.binary main_v256 main_v258 main_v259 (andi : (⟨S200000, .i1⟩ : BufTy).Contents (Elt F) → (⟨S200000, .i1⟩ : BufTy).Contents (Elt F) → (⟨S200000, .i1⟩ : BufTy).Contents (Elt F)),
    StableHlo.nullary main_c_100 (constantI S_ 32 0#32),
    StableHlo.nullary main_c_101 (constantI S_ 32 767#32),
    TRef.unary (.of main_c_100 : TRef sig ⟨S_, .i32⟩) main_call18.v0 id,
    TRef.unary main_call18.v0 main_call18.v1 (broadcastInDim S200000 ![] bcast_S_S200000),
    TRef.binary main_call18.v1 (.of main_v246 : TRef sig ⟨S200000, .i32⟩) main_call18.v2 maxsi,
    TRef.unary (.of main_c_101 : TRef sig ⟨S_, .i32⟩) main_call18.v3 id,
    TRef.unary main_call18.v3 main_call18.v4 (broadcastInDim S200000 ![] bcast_S_S200000),
    TRef.binary main_call18.v4 main_call18.v2 main_call18.v5 minsi,
    StableHlo.nullary main_c_102 (constantI S_ 32 768#32),
    StableHlo.unary main_c_102 main_v261 (broadcastInDim S200000 ![] bcast_S_S200000 : (⟨S_, .i32⟩ : BufTy).Contents (Elt F) → (⟨S200000, .i32⟩ : BufTy).Contents (Elt F)),
    StableHlo.binary main_v260 main_v261 main_v262 (muli : (⟨S200000, .i32⟩ : BufTy).Contents (Elt F) → (⟨S200000, .i32⟩ : BufTy).Contents (Elt F) → (⟨S200000, .i32⟩ : BufTy).Contents (Elt F)),
    StableHlo.nullary main_c_103 (constantI S_ 32 0#32),
    StableHlo.nullary main_c_104 (constantI S_ 32 767#32),
    TRef.unary (.of main_c_103 : TRef sig ⟨S_, .i32⟩) main_call19.v0 id,
    TRef.unary main_call19.v0 main_call19.v1 (broadcastInDim S200000 ![] bcast_S_S200000),
    TRef.binary main_call19.v1 (.of main_v248 : TRef sig ⟨S200000, .i32⟩) main_call19.v2 maxsi,
    TRef.unary (.of main_c_104 : TRef sig ⟨S_, .i32⟩) main_call19.v3 id,
    TRef.unary main_call19.v3 main_call19.v4 (broadcastInDim S200000 ![] bcast_S_S200000),
    TRef.binary main_call19.v4 main_call19.v2 main_call19.v5 minsi,
    StableHlo.binary main_v262 main_v263 main_v264 (addi : (⟨S200000, .i32⟩ : BufTy).Contents (Elt F) → (⟨S200000, .i32⟩ : BufTy).Contents (Elt F) → (⟨S200000, .i32⟩ : BufTy).Contents (Elt F)),
    StableHlo.nullary main_c_105 (constantI S_ 32 0#32),
    StableHlo.unary main_c_105 main_v265 (broadcastInDim S200000 ![] bcast_S_S200000 : (⟨S_, .i32⟩ : BufTy).Contents (Elt F) → (⟨S200000, .i32⟩ : BufTy).Contents (Elt F)),
    StableHlo.binary main_v264 main_v265 main_v266 (cmpi .slt : (⟨S200000, .i32⟩ : BufTy).Contents (Elt F) → (⟨S200000, .i32⟩ : BufTy).Contents (Elt F) → (⟨S200000, .i1⟩ : BufTy).Contents (Elt F)),
    StableHlo.nullary main_c_106 (constantI S_ 32 589824#32),
    StableHlo.unary main_c_106 main_v267 (broadcastInDim S200000 ![] bcast_S_S200000 : (⟨S_, .i32⟩ : BufTy).Contents (Elt F) → (⟨S200000, .i32⟩ : BufTy).Contents (Elt F)),
    StableHlo.binary main_v264 main_v267 main_v268 (addi : (⟨S200000, .i32⟩ : BufTy).Contents (Elt F) → (⟨S200000, .i32⟩ : BufTy).Contents (Elt F) → (⟨S200000, .i32⟩ : BufTy).Contents (Elt F)),
    StableHlo.ternary main_v266 main_v268 main_v264 main_v269 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v269 main_v270 (broadcastInDim S200000x1 ![0] bcast_S200000_S200000x1_0 : (⟨S200000, .i32⟩ : BufTy).Contents (Elt F) → (⟨S200000x1, .i32⟩ : BufTy).Contents (Elt F)),
    StableHlo.binary main_v16 main_v270 main_v271 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_107 (constantI S_ 32 0#32),
    StableHlo.unary main_c_107 main_v272 (broadcastInDim S200000 ![] bcast_S_S200000 : (⟨S_, .i32⟩ : BufTy).Contents (Elt F) → (⟨S200000, .i32⟩ : BufTy).Contents (Elt F)),
    StableHlo.binary main_v271 main_v272 main_v273 (cmpi .sge : (⟨S200000, .i32⟩ : BufTy).Contents (Elt F) → (⟨S200000, .i32⟩ : BufTy).Contents (Elt F) → (⟨S200000, .i1⟩ : BufTy).Contents (Elt F)),
    StableHlo.binary main_v259 main_v273 main_v274 (andi : (⟨S200000, .i1⟩ : BufTy).Contents (Elt F) → (⟨S200000, .i1⟩ : BufTy).Contents (Elt F) → (⟨S200000, .i1⟩ : BufTy).Contents (Elt F)),
    StableHlo.unary main_v274 main_v275 (broadcastInDim S200000x1 ![0] bcast_S200000_S200000x1_0 : (⟨S200000, .i1⟩ : BufTy).Contents (Elt F) → (⟨S200000x1, .i1⟩ : BufTy).Contents (Elt F)),
    StableHlo.nullary main_c_108 (constantI S_ 32 0#32),
    StableHlo.unary main_c_108 main_v276 (broadcastInDim S200000 ![] bcast_S_S200000 : (⟨S_, .i32⟩ : BufTy).Contents (Elt F) → (⟨S200000, .i32⟩ : BufTy).Contents (Elt F)),
    StableHlo.binary main_v271 main_v276 main_v277 (maxsi : (⟨S200000, .i32⟩ : BufTy).Contents (Elt F) → (⟨S200000, .i32⟩ : BufTy).Contents (Elt F) → (⟨S200000, .i32⟩ : BufTy).Contents (Elt F)),
    StableHlo.nullary main_c_109 (constantI S_ 32 0#32),
    StableHlo.unary main_c_109 main_v278 (broadcastInDim S200000 ![] bcast_S_S200000 : (⟨S_, .i32⟩ : BufTy).Contents (Elt F) → (⟨S200000, .i32⟩ : BufTy).Contents (Elt F)),
    StableHlo.binary main_v277 main_v278 main_v279 (cmpi .slt : (⟨S200000, .i32⟩ : BufTy).Contents (Elt F) → (⟨S200000, .i32⟩ : BufTy).Contents (Elt F) → (⟨S200000, .i1⟩ : BufTy).Contents (Elt F)),
    StableHlo.nullary main_c_110 (constantI S_ 32 200000#32),
    StableHlo.unary main_c_110 main_v280 (broadcastInDim S200000 ![] bcast_S_S200000 : (⟨S_, .i32⟩ : BufTy).Contents (Elt F) → (⟨S200000, .i32⟩ : BufTy).Contents (Elt F)),
    StableHlo.binary main_v277 main_v280 main_v281 (addi : (⟨S200000, .i32⟩ : BufTy).Contents (Elt F) → (⟨S200000, .i32⟩ : BufTy).Contents (Elt F) → (⟨S200000, .i32⟩ : BufTy).Contents (Elt F)),
    StableHlo.ternary main_v279 main_v281 main_v277 main_v282 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v282 main_v283 (broadcastInDim S200000x1 ![0] bcast_S200000_S200000x1_0 : (⟨S200000, .i32⟩ : BufTy).Contents (Elt F) → (⟨S200000x1, .i32⟩ : BufTy).Contents (Elt F)),
    StableHlo.binary main_v7 main_v283 main_v284 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_111 (constant S_ .f32 0x00000000#32),
    TRef.unary (.of main_cst_111 : TRef sig ⟨S_, .f32⟩) main_call20.v0 id,
    TRef.unary (.of main_v275 : TRef sig ⟨S200000x1, .i1⟩) main_call20.v1 (broadcastInDim S200000x64 ![0, 1] bcast_S200000x1_S200000x64_0_1),
    TRef.unary main_call20.v0 main_call20.v2 (broadcastInDim S200000x64 ![] bcast_S_S200000x64),
    TRef.ternary main_call20.v1 (.of main_v284 : TRef sig ⟨S200000x64, .f32⟩) main_call20.v2 main_call20.v3 select,
    StableHlo.unary main_arg3 main_v286 ((extractStridedSlice S1x64x64 ![5, 0, 0] · slices_S9x64x64_S1x64x64_5_0_0) : (⟨S9x64x64, .f32⟩ : BufTy).Contents (Elt F) → (⟨S1x64x64, .f32⟩ : BufTy).Contents (Elt F)),
    StableHlo.reshape main_v286 main_v287 rfl shapeCasts_S1x64x64_S64x64,
    StableHlo.binary main_v285 main_v287 main_v288 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v244 main_v288 main_v289 (addf : (⟨S200000x64, .f32⟩ : BufTy).Contents (Elt F) → (⟨S200000x64, .f32⟩ : BufTy).Contents (Elt F) → (⟨S200000x64, .f32⟩ : BufTy).Contents (Elt F)),
    StableHlo.nullary main_c_112 (constantI S_ 32 1#32),
    StableHlo.unary main_c_112 main_v290 (broadcastInDim S200000 ![] bcast_S_S200000 : (⟨S_, .i32⟩ : BufTy).Contents (Elt F) → (⟨S200000, .i32⟩ : BufTy).Contents (Elt F)),
    StableHlo.binary main_v17 main_v290 main_v291 (addi : (⟨S200000, .i32⟩ : BufTy).Contents (Elt F) → (⟨S200000, .i32⟩ : BufTy).Contents (Elt F) → (⟨S200000, .i32⟩ : BufTy).Contents (Elt F)),
    StableHlo.nullary main_c_113 (constantI S_ 32 4294967295#32),
    StableHlo.unary main_c_113 main_v292 (broadcastInDim S200000 ![] bcast_S_S200000 : (⟨S_, .i32⟩ : BufTy).Contents (Elt F) → (⟨S200000, .i32⟩ : BufTy).Contents (Elt F)),
    StableHlo.binary main_v18 main_v292 main_v293 (addi : (⟨S200000, .i32⟩ : BufTy).Contents (Elt F) → (⟨S200000, .i32⟩ : BufTy).Contents (Elt F) → (⟨S200000, .i32⟩ : BufTy).Contents (Elt F)),
    StableHlo.nullary main_c_114 (constantI S_ 32 0#32),
    StableHlo.unary main_c_114 main_v294 (broadcastInDim S200000 ![] bcast_S_S200000 : (⟨S_, .i32⟩ : BufTy).Contents (Elt F) → (⟨S200000, .i32⟩ : BufTy).Contents (Elt F)),
    StableHlo.binary main_v291 main_v294 main_v295 (cmpi .sge : (⟨S200000, .i32⟩ : BufTy).Contents (Elt F) → (⟨S200000, .i32⟩ : BufTy).Contents (Elt F) → (⟨S200000, .i1⟩ : BufTy).Contents (Elt F)),
    StableHlo.nullary main_c_115 (constantI S_ 32 768#32),
    StableHlo.unary main_c_115 main_v296 (broadcastInDim S200000 ![] bcast_S_S200000 : (⟨S_, .i32⟩ : BufTy).Contents (Elt F) → (⟨S200000, .i32⟩ : BufTy).Contents (Elt F)),
    StableHlo.binary main_v291 main_v296 main_v297 (cmpi .slt : (⟨S200000, .i32⟩ : BufTy).Contents (Elt F) → (⟨S200000, .i32⟩ : BufTy).Contents (Elt F) → (⟨S200000, .i1⟩ : BufTy).Contents (Elt F)),
    StableHlo.binary main_v295 main_v297 main_v298 (andi : (⟨S200000, .i1⟩ : BufTy).Contents (Elt F) → (⟨S200000, .i1⟩ : BufTy).Contents (Elt F) → (⟨S200000, .i1⟩ : BufTy).Contents (Elt F)),
    StableHlo.nullary main_c_116 (constantI S_ 32 0#32),
    StableHlo.unary main_c_116 main_v299 (broadcastInDim S200000 ![] bcast_S_S200000 : (⟨S_, .i32⟩ : BufTy).Contents (Elt F) → (⟨S200000, .i32⟩ : BufTy).Contents (Elt F)),
    StableHlo.binary main_v293 main_v299 main_v300 (cmpi .sge : (⟨S200000, .i32⟩ : BufTy).Contents (Elt F) → (⟨S200000, .i32⟩ : BufTy).Contents (Elt F) → (⟨S200000, .i1⟩ : BufTy).Contents (Elt F)) ]

set_option maxRecDepth 8192 in
theorem part6_eq (c : Dev nD) : main_part6 (F := F) c = seq ops6 := by
  simp only [main_part6, fn_clip.body, fn_where_1.body, seq, bind_assoc, pure_bind]
  all_goals rfl

theorem ops6_sub : (ops6 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W6 : List (Ref sig .tc) :=
  [main_v258, main_v259, main_c_100, main_c_101, main_call18_v0, main_call18_v1, main_call18_v2, main_call18_v3, main_call18_v4, main_v260, main_c_102, main_v261, main_v262, main_c_103, main_c_104, main_call19_v0, main_call19_v1, main_call19_v2, main_call19_v3, main_call19_v4, main_v263, main_v264, main_c_105, main_v265, main_v266, main_c_106, main_v267, main_v268, main_v269, main_v270, main_v271, main_c_107, main_v272, main_v273, main_v274, main_v275, main_c_108, main_v276, main_v277, main_c_109, main_v278, main_v279, main_c_110, main_v280, main_v281, main_v282, main_v283, main_v284, main_cst_111, main_call20_v0, main_call20_v1, main_call20_v2, main_v285, main_v286, main_v287, main_v288, main_v289, main_c_112, main_v290, main_v291, main_c_113, main_v292, main_v293, main_c_114, main_v294, main_v295, main_c_115, main_v296, main_v297, main_v298, main_c_116, main_v299, main_v300]

theorem hW6 : Cert.ReadBack.WritesAt (ops6 : List (HloOp τ sig (Elt F))) W6 := by
  repeat (first | exact List.Forall₂.nil | refine List.Forall₂.cons rfl ?_)

end Cert.ReferenceIdeal.RefRun

end
-- ==== Proof.RefOps7.lean ====
/- Window 7 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops7 : List (HloOp τ sig (Elt F)) :=
  [
    StableHlo.binary main_v298 main_v300 main_v301 (andi : (⟨S200000, .i1⟩ : BufTy).Contents (Elt F) → (⟨S200000, .i1⟩ : BufTy).Contents (Elt F) → (⟨S200000, .i1⟩ : BufTy).Contents (Elt F)),
    StableHlo.nullary main_c_117 (constantI S_ 32 768#32),
    StableHlo.unary main_c_117 main_v302 (broadcastInDim S200000 ![] bcast_S_S200000 : (⟨S_, .i32⟩ : BufTy).Contents (Elt F) → (⟨S200000, .i32⟩ : BufTy).Contents (Elt F)),
    StableHlo.binary main_v293 main_v302 main_v303 (cmpi .slt : (⟨S200000, .i32⟩ : BufTy).Contents (Elt F) → (⟨S200000, .i32⟩ : BufTy).Contents (Elt F) → (⟨S200000, .i1⟩ : BufTy).Contents (Elt F)),
    StableHlo.binary main_v301 main_v303 main_v304 (andi : (⟨S200000, .i1⟩ : BufTy).Contents (Elt F) → (⟨S200000, .i1⟩ : BufTy).Contents (Elt F) → (⟨S200000, .i1⟩ : BufTy).Contents (Elt F)),
    StableHlo.nullary main_c_118 (constantI S_ 32 0#32),
    StableHlo.nullary main_c_119 (constantI S_ 32 767#32),
    TRef.unary (.of main_c_118 : TRef sig ⟨S_, .i32⟩) main_call21.v0 id,
    TRef.unary main_call21.v0 main_call21.v1 (broadcastInDim S200000 ![] bcast_S_S200000),
    TRef.binary main_call21.v1 (.of main_v291 : TRef sig ⟨S200000, .i32⟩) main_call21.v2 maxsi,
    TRef.unary (.of main_c_119 : TRef sig ⟨S_, .i32⟩) main_call21.v3 id,
    TRef.unary main_call21.v3 main_call21.v4 (broadcastInDim S200000 ![] bcast_S_S200000),
    TRef.binary main_call21.v4 main_call21.v2 main_call21.v5 minsi,
    StableHlo.nullary main_c_120 (constantI S_ 32 768#32),
    StableHlo.unary main_c_120 main_v306 (broadcastInDim S200000 ![] bcast_S_S200000 : (⟨S_, .i32⟩ : BufTy).Contents (Elt F) → (⟨S200000, .i32⟩ : BufTy).Contents (Elt F)),
    StableHlo.binary main_v305 main_v306 main_v307 (muli : (⟨S200000, .i32⟩ : BufTy).Contents (Elt F) → (⟨S200000, .i32⟩ : BufTy).Contents (Elt F) → (⟨S200000, .i32⟩ : BufTy).Contents (Elt F)),
    StableHlo.nullary main_c_121 (constantI S_ 32 0#32),
    StableHlo.nullary main_c_122 (constantI S_ 32 767#32),
    TRef.unary (.of main_c_121 : TRef sig ⟨S_, .i32⟩) main_call22.v0 id,
    TRef.unary main_call22.v0 main_call22.v1 (broadcastInDim S200000 ![] bcast_S_S200000),
    TRef.binary main_call22.v1 (.of main_v293 : TRef sig ⟨S200000, .i32⟩) main_call22.v2 maxsi,
    TRef.unary (.of main_c_122 : TRef sig ⟨S_, .i32⟩) main_call22.v3 id,
    TRef.unary main_call22.v3 main_call22.v4 (broadcastInDim S200000 ![] bcast_S_S200000),
    TRef.binary main_call22.v4 main_call22.v2 main_call22.v5 minsi,
    StableHlo.binary main_v307 main_v308 main_v309 (addi : (⟨S200000, .i32⟩ : BufTy).Contents (Elt F) → (⟨S200000, .i32⟩ : BufTy).Contents (Elt F) → (⟨S200000, .i32⟩ : BufTy).Contents (Elt F)),
    StableHlo.nullary main_c_123 (constantI S_ 32 0#32),
    StableHlo.unary main_c_123 main_v310 (broadcastInDim S200000 ![] bcast_S_S200000 : (⟨S_, .i32⟩ : BufTy).Contents (Elt F) → (⟨S200000, .i32⟩ : BufTy).Contents (Elt F)),
    StableHlo.binary main_v309 main_v310 main_v311 (cmpi .slt : (⟨S200000, .i32⟩ : BufTy).Contents (Elt F) → (⟨S200000, .i32⟩ : BufTy).Contents (Elt F) → (⟨S200000, .i1⟩ : BufTy).Contents (Elt F)),
    StableHlo.nullary main_c_124 (constantI S_ 32 589824#32),
    StableHlo.unary main_c_124 main_v312 (broadcastInDim S200000 ![] bcast_S_S200000 : (⟨S_, .i32⟩ : BufTy).Contents (Elt F) → (⟨S200000, .i32⟩ : BufTy).Contents (Elt F)),
    StableHlo.binary main_v309 main_v312 main_v313 (addi : (⟨S200000, .i32⟩ : BufTy).Contents (Elt F) → (⟨S200000, .i32⟩ : BufTy).Contents (Elt F) → (⟨S200000, .i32⟩ : BufTy).Contents (Elt F)),
    StableHlo.ternary main_v311 main_v313 main_v309 main_v314 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v314 main_v315 (broadcastInDim S200000x1 ![0] bcast_S200000_S200000x1_0 : (⟨S200000, .i32⟩ : BufTy).Contents (Elt F) → (⟨S200000x1, .i32⟩ : BufTy).Contents (Elt F)),
    StableHlo.binary main_v16 main_v315 main_v316 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_125 (constantI S_ 32 0#32),
    StableHlo.unary main_c_125 main_v317 (broadcastInDim S200000 ![] bcast_S_S200000 : (⟨S_, .i32⟩ : BufTy).Contents (Elt F) → (⟨S200000, .i32⟩ : BufTy).Contents (Elt F)),
    StableHlo.binary main_v316 main_v317 main_v318 (cmpi .sge : (⟨S200000, .i32⟩ : BufTy).Contents (Elt F) → (⟨S200000, .i32⟩ : BufTy).Contents (Elt F) → (⟨S200000, .i1⟩ : BufTy).Contents (Elt F)),
    StableHlo.binary main_v304 main_v318 main_v319 (andi : (⟨S200000, .i1⟩ : BufTy).Contents (Elt F) → (⟨S200000, .i1⟩ : BufTy).Contents (Elt F) → (⟨S200000, .i1⟩ : BufTy).Contents (Elt F)),
    StableHlo.unary main_v319 main_v320 (broadcastInDim S200000x1 ![0] bcast_S200000_S200000x1_0 : (⟨S200000, .i1⟩ : BufTy).Contents (Elt F) → (⟨S200000x1, .i1⟩ : BufTy).Contents (Elt F)),
    StableHlo.nullary main_c_126 (constantI S_ 32 0#32),
    StableHlo.unary main_c_126 main_v321 (broadcastInDim S200000 ![] bcast_S_S200000 : (⟨S_, .i32⟩ : BufTy).Contents (Elt F) → (⟨S200000, .i32⟩ : BufTy).Contents (Elt F)),
    StableHlo.binary main_v316 main_v321 main_v322 (maxsi : (⟨S200000, .i32⟩ : BufTy).Contents (Elt F) → (⟨S200000, .i32⟩ : BufTy).Contents (Elt F) → (⟨S200000, .i32⟩ : BufTy).Contents (Elt F)),
    StableHlo.nullary main_c_127 (constantI S_ 32 0#32),
    StableHlo.unary main_c_127 main_v323 (broadcastInDim S200000 ![] bcast_S_S200000 : (⟨S_, .i32⟩ : BufTy).Contents (Elt F) → (⟨S200000, .i32⟩ : BufTy).Contents (Elt F)),
    StableHlo.binary main_v322 main_v323 main_v324 (cmpi .slt : (⟨S200000, .i32⟩ : BufTy).Contents (Elt F) → (⟨S200000, .i32⟩ : BufTy).Contents (Elt F) → (⟨S200000, .i1⟩ : BufTy).Contents (Elt F)),
    StableHlo.nullary main_c_128 (constantI S_ 32 200000#32),
    StableHlo.unary main_c_128 main_v325 (broadcastInDim S200000 ![] bcast_S_S200000 : (⟨S_, .i32⟩ : BufTy).Contents (Elt F) → (⟨S200000, .i32⟩ : BufTy).Contents (Elt F)),
    StableHlo.binary main_v322 main_v325 main_v326 (addi : (⟨S200000, .i32⟩ : BufTy).Contents (Elt F) → (⟨S200000, .i32⟩ : BufTy).Contents (Elt F) → (⟨S200000, .i32⟩ : BufTy).Contents (Elt F)),
    StableHlo.ternary main_v324 main_v326 main_v322 main_v327 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v327 main_v328 (broadcastInDim S200000x1 ![0] bcast_S200000_S200000x1_0 : (⟨S200000, .i32⟩ : BufTy).Contents (Elt F) → (⟨S200000x1, .i32⟩ : BufTy).Contents (Elt F)),
    StableHlo.binary main_v7 main_v328 main_v329 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_129 (constant S_ .f32 0x00000000#32),
    TRef.unary (.of main_cst_129 : TRef sig ⟨S_, .f32⟩) main_call23.v0 id,
    TRef.unary (.of main_v320 : TRef sig ⟨S200000x1, .i1⟩) main_call23.v1 (broadcastInDim S200000x64 ![0, 1] bcast_S200000x1_S200000x64_0_1),
    TRef.unary main_call23.v0 main_call23.v2 (broadcastInDim S200000x64 ![] bcast_S_S200000x64),
    TRef.ternary main_call23.v1 (.of main_v329 : TRef sig ⟨S200000x64, .f32⟩) main_call23.v2 main_call23.v3 select,
    StableHlo.unary main_arg3 main_v331 ((extractStridedSlice S1x64x64 ![6, 0, 0] · slices_S9x64x64_S1x64x64_6_0_0) : (⟨S9x64x64, .f32⟩ : BufTy).Contents (Elt F) → (⟨S1x64x64, .f32⟩ : BufTy).Contents (Elt F)),
    StableHlo.reshape main_v331 main_v332 rfl shapeCasts_S1x64x64_S64x64,
    StableHlo.binary main_v330 main_v332 main_v333 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v289 main_v333 main_v334 (addf : (⟨S200000x64, .f32⟩ : BufTy).Contents (Elt F) → (⟨S200000x64, .f32⟩ : BufTy).Contents (Elt F) → (⟨S200000x64, .f32⟩ : BufTy).Contents (Elt F)),
    StableHlo.nullary main_c_130 (constantI S_ 32 1#32),
    StableHlo.unary main_c_130 main_v335 (broadcastInDim S200000 ![] bcast_S_S200000 : (⟨S_, .i32⟩ : BufTy).Contents (Elt F) → (⟨S200000, .i32⟩ : BufTy).Contents (Elt F)),
    StableHlo.binary main_v17 main_v335 main_v336 (addi : (⟨S200000, .i32⟩ : BufTy).Contents (Elt F) → (⟨S200000, .i32⟩ : BufTy).Contents (Elt F) → (⟨S200000, .i32⟩ : BufTy).Contents (Elt F)),
    StableHlo.nullary main_c_131 (constantI S_ 32 0#32),
    StableHlo.unary main_c_131 main_v337 (broadcastInDim S200000 ![] bcast_S_S200000 : (⟨S_, .i32⟩ : BufTy).Contents (Elt F) → (⟨S200000, .i32⟩ : BufTy).Contents (Elt F)),
    StableHlo.binary main_v18 main_v337 main_v338 (addi : (⟨S200000, .i32⟩ : BufTy).Contents (Elt F) → (⟨S200000, .i32⟩ : BufTy).Contents (Elt F) → (⟨S200000, .i32⟩ : BufTy).Contents (Elt F)),
    StableHlo.nullary main_c_132 (constantI S_ 32 0#32),
    StableHlo.unary main_c_132 main_v339 (broadcastInDim S200000 ![] bcast_S_S200000 : (⟨S_, .i32⟩ : BufTy).Contents (Elt F) → (⟨S200000, .i32⟩ : BufTy).Contents (Elt F)),
    StableHlo.binary main_v336 main_v339 main_v340 (cmpi .sge : (⟨S200000, .i32⟩ : BufTy).Contents (Elt F) → (⟨S200000, .i32⟩ : BufTy).Contents (Elt F) → (⟨S200000, .i1⟩ : BufTy).Contents (Elt F)),
    StableHlo.nullary main_c_133 (constantI S_ 32 768#32),
    StableHlo.unary main_c_133 main_v341 (broadcastInDim S200000 ![] bcast_S_S200000 : (⟨S_, .i32⟩ : BufTy).Contents (Elt F) → (⟨S200000, .i32⟩ : BufTy).Contents (Elt F)),
    StableHlo.binary main_v336 main_v341 main_v342 (cmpi .slt : (⟨S200000, .i32⟩ : BufTy).Contents (Elt F) → (⟨S200000, .i32⟩ : BufTy).Contents (Elt F) → (⟨S200000, .i1⟩ : BufTy).Contents (Elt F)),
    StableHlo.binary main_v340 main_v342 main_v343 (andi : (⟨S200000, .i1⟩ : BufTy).Contents (Elt F) → (⟨S200000, .i1⟩ : BufTy).Contents (Elt F) → (⟨S200000, .i1⟩ : BufTy).Contents (Elt F)) ]

set_option maxRecDepth 8192 in
theorem part7_eq (c : Dev nD) : main_part7 (F := F) c = seq ops7 := by
  simp only [main_part7, fn_clip.body, fn_where_1.body, seq, bind_assoc, pure_bind]
  all_goals rfl

theorem ops7_sub : (ops7 : List (HloOp τ sig (Elt F))).Forall fun op => op.bufs ⊆ tcRefs τ sig :=
  ⟨binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩

theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W7 : List (Ref sig .tc) :=
  [main_v301, main_c_117, main_v302, main_v303, main_v304, main_c_118, main_c_119, main_call21_v0, main_call21_v1, main_call21_v2, main_call21_v3, main_call21_v4, main_v305, main_c_120, main_v306, main_v307, main_c_121, main_c_122, main_call22_v0, main_call22_v1, main_call22_v2, main_call22_v3, main_call22_v4, main_v308, main_v309, main_c_123, main_v310, main_v311, main_c_124, main_v312, main_v313, main_v314, main_v315, main_v316, main_c_125, main_v317, main_v318, main_v319, main_v320, main_c_126, main_v321, main_v322, main_c_127, main_v323, main_v324, main_c_128, main_v325, main_v326, main_v327, main_v328, main_v329, main_cst_129, main_call23_v0, main_call23_v1, main_call23_v2, main_v330, main_v331, main_v332, main_v333, main_v334, main_c_130, main_v335, main_v336, main_c_131, main_v337, main_v338, main_c_132, main_v339, main_v340, main_c_133, main_v341, main_v342, main_v343]

theorem hW7 : Cert.ReadBack.WritesAt (ops7 : List (HloOp τ sig (Elt F))) W7 := by
  repeat (first | exact List.Forall₂.nil | refine List.Forall₂.cons rfl ?_)

end Cert.ReferenceIdeal.RefRun

end
-- ==== Proof.RefOps8.lean ====
/- Window 8 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops8 : List (HloOp τ sig (Elt F)) :=
  [
    StableHlo.nullary main_c_134 (constantI S_ 32 0#32),
    StableHlo.unary main_c_134 main_v344 (broadcastInDim S200000 ![] bcast_S_S200000 : (⟨S_, .i32⟩ : BufTy).Contents (Elt F) → (⟨S200000, .i32⟩ : BufTy).Contents (Elt F)),
    StableHlo.binary main_v338 main_v344 main_v345 (cmpi .sge : (⟨S200000, .i32⟩ : BufTy).Contents (Elt F) → (⟨S200000, .i32⟩ : BufTy).Contents (Elt F) → (⟨S200000, .i1⟩ : BufTy).Contents (Elt F)),
    StableHlo.binary main_v343 main_v345 main_v346 (andi : (⟨S200000, .i1⟩ : BufTy).Contents (Elt F) → (⟨S200000, .i1⟩ : BufTy).Contents (Elt F) → (⟨S200000, .i1⟩ : BufTy).Contents (Elt F)),
    StableHlo.nullary main_c_135 (constantI S_ 32 768#32),
    StableHlo.unary main_c_135 main_v347 (broadcastInDim S200000 ![] bcast_S_S200000 : (⟨S_, .i32⟩ : BufTy).Contents (Elt F) → (⟨S200000, .i32⟩ : BufTy).Contents (Elt F)),
    StableHlo.binary main_v338 main_v347 main_v348 (cmpi .slt : (⟨S200000, .i32⟩ : BufTy).Contents (Elt F) → (⟨S200000, .i32⟩ : BufTy).Contents (Elt F) → (⟨S200000, .i1⟩ : BufTy).Contents (Elt F)),
    StableHlo.binary main_v346 main_v348 main_v349 (andi : (⟨S200000, .i1⟩ : BufTy).Contents (Elt F) → (⟨S200000, .i1⟩ : BufTy).Contents (Elt F) → (⟨S200000, .i1⟩ : BufTy).Contents (Elt F)),
    StableHlo.nullary main_c_136 (constantI S_ 32 0#32),
    StableHlo.nullary main_c_137 (constantI S_ 32 767#32),
    TRef.unary (.of main_c_136 : TRef sig ⟨S_, .i32⟩) main_call24.v0 id,
    TRef.unary main_call24.v0 main_call24.v1 (broadcastInDim S200000 ![] bcast_S_S200000),
    TRef.binary main_call24.v1 (.of main_v336 : TRef sig ⟨S200000, .i32⟩) main_call24.v2 maxsi,
    TRef.unary (.of main_c_137 : TRef sig ⟨S_, .i32⟩) main_call24.v3 id,
    TRef.unary main_call24.v3 main_call24.v4 (broadcastInDim S200000 ![] bcast_S_S200000),
    TRef.binary main_call24.v4 main_call24.v2 main_call24.v5 minsi,
    StableHlo.nullary main_c_138 (constantI S_ 32 768#32),
    StableHlo.unary main_c_138 main_v351 (broadcastInDim S200000 ![] bcast_S_S200000 : (⟨S_, .i32⟩ : BufTy).Contents (Elt F) → (⟨S200000, .i32⟩ : BufTy).Contents (Elt F)),
    StableHlo.binary main_v350 main_v351 main_v352 (muli : (⟨S200000, .i32⟩ : BufTy).Contents (Elt F) → (⟨S200000, .i32⟩ : BufTy).Contents (Elt F) → (⟨S200000, .i32⟩ : BufTy).Contents (Elt F)),
    StableHlo.nullary main_c_139 (constantI S_ 32 0#32),
    StableHlo.nullary main_c_140 (constantI S_ 32 767#32),
    TRef.unary (.of main_c_139 : TRef sig ⟨S_, .i32⟩) main_call25.v0 id,
    TRef.unary main_call25.v0 main_call25.v1 (broadcastInDim S200000 ![] bcast_S_S200000),
    TRef.binary main_call25.v1 (.of main_v338 : TRef sig ⟨S200000, .i32⟩) main_call25.v2 maxsi,
    TRef.unary (.of main_c_140 : TRef sig ⟨S_, .i32⟩) main_call25.v3 id,
    TRef.unary main_call25.v3 main_call25.v4 (broadcastInDim S200000 ![] bcast_S_S200000),
    TRef.binary main_call25.v4 main_call25.v2 main_call25.v5 minsi,
    StableHlo.binary main_v352 main_v353 main_v354 (addi : (⟨S200000, .i32⟩ : BufTy).Contents (Elt F) → (⟨S200000, .i32⟩ : BufTy).Contents (Elt F) → (⟨S200000, .i32⟩ : BufTy).Contents (Elt F)),
    StableHlo.nullary main_c_141 (constantI S_ 32 0#32),
    StableHlo.unary main_c_141 main_v355 (broadcastInDim S200000 ![] bcast_S_S200000 : (⟨S_, .i32⟩ : BufTy).Contents (Elt F) → (⟨S200000, .i32⟩ : BufTy).Contents (Elt F)),
    StableHlo.binary main_v354 main_v355 main_v356 (cmpi .slt : (⟨S200000, .i32⟩ : BufTy).Contents (Elt F) → (⟨S200000, .i32⟩ : BufTy).Contents (Elt F) → (⟨S200000, .i1⟩ : BufTy).Contents (Elt F)),
    StableHlo.nullary main_c_142 (constantI S_ 32 589824#32),
    StableHlo.unary main_c_142 main_v357 (broadcastInDim S200000 ![] bcast_S_S200000 : (⟨S_, .i32⟩ : BufTy).Contents (Elt F) → (⟨S200000, .i32⟩ : BufTy).Contents (Elt F)),
    StableHlo.binary main_v354 main_v357 main_v358 (addi : (⟨S200000, .i32⟩ : BufTy).Contents (Elt F) → (⟨S200000, .i32⟩ : BufTy).Contents (Elt F) → (⟨S200000, .i32⟩ : BufTy).Contents (Elt F)),
    StableHlo.ternary main_v356 main_v358 main_v354 main_v359 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v359 main_v360 (broadcastInDim S200000x1 ![0] bcast_S200000_S200000x1_0 : (⟨S200000, .i32⟩ : BufTy).Contents (Elt F) → (⟨S200000x1, .i32⟩ : BufTy).Contents (Elt F)),
    StableHlo.binary main_v16 main_v360 main_v361 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_143 (constantI S_ 32 0#32),
    StableHlo.unary main_c_143 main_v362 (broadcastInDim S200000 ![] bcast_S_S200000 : (⟨S_, .i32⟩ : BufTy).Contents (Elt F) → (⟨S200000, .i32⟩ : BufTy).Contents (Elt F)),
    StableHlo.binary main_v361 main_v362 main_v363 (cmpi .sge : (⟨S200000, .i32⟩ : BufTy).Contents (Elt F) → (⟨S200000, .i32⟩ : BufTy).Contents (Elt F) → (⟨S200000, .i1⟩ : BufTy).Contents (Elt F)),
    StableHlo.binary main_v349 main_v363 main_v364 (andi : (⟨S200000, .i1⟩ : BufTy).Contents (Elt F) → (⟨S200000, .i1⟩ : BufTy).Contents (Elt F) → (⟨S200000, .i1⟩ : BufTy).Contents (Elt F)),
    StableHlo.unary main_v364 main_v365 (broadcastInDim S200000x1 ![0] bcast_S200000_S200000x1_0 : (⟨S200000, .i1⟩ : BufTy).Contents (Elt F) → (⟨S200000x1, .i1⟩ : BufTy).Contents (Elt F)),
    StableHlo.nullary main_c_144 (constantI S_ 32 0#32),
    StableHlo.unary main_c_144 main_v366 (broadcastInDim S200000 ![] bcast_S_S200000 : (⟨S_, .i32⟩ : BufTy).Contents (Elt F) → (⟨S200000, .i32⟩ : BufTy).Contents (Elt F)),
    StableHlo.binary main_v361 main_v366 main_v367 (maxsi : (⟨S200000, .i32⟩ : BufTy).Contents (Elt F) → (⟨S200000, .i32⟩ : BufTy).Contents (Elt F) → (⟨S200000, .i32⟩ : BufTy).Contents (Elt F)),
    StableHlo.nullary main_c_145 (constantI S_ 32 0#32),
    StableHlo.unary main_c_145 main_v368 (broadcastInDim S200000 ![] bcast_S_S200000 : (⟨S_, .i32⟩ : BufTy).Contents (Elt F) → (⟨S200000, .i32⟩ : BufTy).Contents (Elt F)),
    StableHlo.binary main_v367 main_v368 main_v369 (cmpi .slt : (⟨S200000, .i32⟩ : BufTy).Contents (Elt F) → (⟨S200000, .i32⟩ : BufTy).Contents (Elt F) → (⟨S200000, .i1⟩ : BufTy).Contents (Elt F)),
    StableHlo.nullary main_c_146 (constantI S_ 32 200000#32),
    StableHlo.unary main_c_146 main_v370 (broadcastInDim S200000 ![] bcast_S_S200000 : (⟨S_, .i32⟩ : BufTy).Contents (Elt F) → (⟨S200000, .i32⟩ : BufTy).Contents (Elt F)),
    StableHlo.binary main_v367 main_v370 main_v371 (addi : (⟨S200000, .i32⟩ : BufTy).Contents (Elt F) → (⟨S200000, .i32⟩ : BufTy).Contents (Elt F) → (⟨S200000, .i32⟩ : BufTy).Contents (Elt F)),
    StableHlo.ternary main_v369 main_v371 main_v367 main_v372 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v372 main_v373 (broadcastInDim S200000x1 ![0] bcast_S200000_S200000x1_0 : (⟨S200000, .i32⟩ : BufTy).Contents (Elt F) → (⟨S200000x1, .i32⟩ : BufTy).Contents (Elt F)),
    StableHlo.binary main_v7 main_v373 main_v374 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_147 (constant S_ .f32 0x00000000#32),
    TRef.unary (.of main_cst_147 : TRef sig ⟨S_, .f32⟩) main_call26.v0 id,
    TRef.unary (.of main_v365 : TRef sig ⟨S200000x1, .i1⟩) main_call26.v1 (broadcastInDim S200000x64 ![0, 1] bcast_S200000x1_S200000x64_0_1),
    TRef.unary main_call26.v0 main_call26.v2 (broadcastInDim S200000x64 ![] bcast_S_S200000x64),
    TRef.ternary main_call26.v1 (.of main_v374 : TRef sig ⟨S200000x64, .f32⟩) main_call26.v2 main_call26.v3 select,
    StableHlo.unary main_arg3 main_v376 ((extractStridedSlice S1x64x64 ![7, 0, 0] · slices_S9x64x64_S1x64x64_7_0_0) : (⟨S9x64x64, .f32⟩ : BufTy).Contents (Elt F) → (⟨S1x64x64, .f32⟩ : BufTy).Contents (Elt F)),
    StableHlo.reshape main_v376 main_v377 rfl shapeCasts_S1x64x64_S64x64,
    StableHlo.binary main_v375 main_v377 main_v378 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v334 main_v378 main_v379 (addf : (⟨S200000x64, .f32⟩ : BufTy).Contents (Elt F) → (⟨S200000x64, .f32⟩ : BufTy).Contents (Elt F) → (⟨S200000x64, .f32⟩ : BufTy).Contents (Elt F)),
    StableHlo.nullary main_c_148 (constantI S_ 32 1#32),
    StableHlo.unary main_c_148 main_v380 (broadcastInDim S200000 ![] bcast_S_S200000 : (⟨S_, .i32⟩ : BufTy).Contents (Elt F) → (⟨S200000, .i32⟩ : BufTy).Contents (Elt F)),
    StableHlo.binary main_v17 main_v380 main_v381 (addi : (⟨S200000, .i32⟩ : BufTy).Contents (Elt F) → (⟨S200000, .i32⟩ : BufTy).Contents (Elt F) → (⟨S200000, .i32⟩ : BufTy).Contents (Elt F)),
    StableHlo.nullary main_c_149 (constantI S_ 32 1#32),
    StableHlo.unary main_c_149 main_v382 (broadcastInDim S200000 ![] bcast_S_S200000 : (⟨S_, .i32⟩ : BufTy).Contents (Elt F) → (⟨S200000, .i32⟩ : BufTy).Contents (Elt F)),
    StableHlo.binary main_v18 main_v382 main_v383 (addi : (⟨S200000, .i32⟩ : BufTy).Contents (Elt F) → (⟨S200000, .i32⟩ : BufTy).Contents (Elt F) → (⟨S200000, .i32⟩ : BufTy).Contents (Elt F)),
    StableHlo.nullary main_c_150 (constantI S_ 32 0#32),
    StableHlo.unary main_c_150 main_v384 (broadcastInDim S200000 ![] bcast_S_S200000 : (⟨S_, .i32⟩ : BufTy).Contents (Elt F) → (⟨S200000, .i32⟩ : BufTy).Contents (Elt F)),
    StableHlo.binary main_v381 main_v384 main_v385 (cmpi .sge : (⟨S200000, .i32⟩ : BufTy).Contents (Elt F) → (⟨S200000, .i32⟩ : BufTy).Contents (Elt F) → (⟨S200000, .i1⟩ : BufTy).Contents (Elt F)),
    StableHlo.nullary main_c_151 (constantI S_ 32 768#32) ]

set_option maxRecDepth 8192 in
theorem part8_eq (c : Dev nD) : main_part8 (F := F) c = seq ops8 := by
  simp only [main_part8, fn_clip.body, fn_where_1.body, seq, bind_assoc, pure_bind]
  all_goals rfl

theorem ops8_sub : (ops8 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W8 : List (Ref sig .tc) :=
  [main_c_134, main_v344, main_v345, main_v346, main_c_135, main_v347, main_v348, main_v349, main_c_136, main_c_137, main_call24_v0, main_call24_v1, main_call24_v2, main_call24_v3, main_call24_v4, main_v350, main_c_138, main_v351, main_v352, main_c_139, main_c_140, main_call25_v0, main_call25_v1, main_call25_v2, main_call25_v3, main_call25_v4, main_v353, main_v354, main_c_141, main_v355, main_v356, main_c_142, main_v357, main_v358, main_v359, main_v360, main_v361, main_c_143, main_v362, main_v363, main_v364, main_v365, main_c_144, main_v366, main_v367, main_c_145, main_v368, main_v369, main_c_146, main_v370, main_v371, main_v372, main_v373, main_v374, main_cst_147, main_call26_v0, main_call26_v1, main_call26_v2, main_v375, main_v376, main_v377, main_v378, main_v379, main_c_148, main_v380, main_v381, main_c_149, main_v382, main_v383, main_c_150, main_v384, main_v385, main_c_151]

theorem hW8 : Cert.ReadBack.WritesAt (ops8 : List (HloOp τ sig (Elt F))) W8 := by
  repeat (first | exact List.Forall₂.nil | refine List.Forall₂.cons rfl ?_)

end Cert.ReferenceIdeal.RefRun

end
-- ==== Proof.RefOps9.lean ====
/- Window 9 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 75 operations, in order. -/
abbrev ops9 : List (HloOp τ sig (Elt F)) :=
  [
    StableHlo.unary main_c_151 main_v386 (broadcastInDim S200000 ![] bcast_S_S200000 : (⟨S_, .i32⟩ : BufTy).Contents (Elt F) → (⟨S200000, .i32⟩ : BufTy).Contents (Elt F)),
    StableHlo.binary main_v381 main_v386 main_v387 (cmpi .slt : (⟨S200000, .i32⟩ : BufTy).Contents (Elt F) → (⟨S200000, .i32⟩ : BufTy).Contents (Elt F) → (⟨S200000, .i1⟩ : BufTy).Contents (Elt F)),
    StableHlo.binary main_v385 main_v387 main_v388 (andi : (⟨S200000, .i1⟩ : BufTy).Contents (Elt F) → (⟨S200000, .i1⟩ : BufTy).Contents (Elt F) → (⟨S200000, .i1⟩ : BufTy).Contents (Elt F)),
    StableHlo.nullary main_c_152 (constantI S_ 32 0#32),
    StableHlo.unary main_c_152 main_v389 (broadcastInDim S200000 ![] bcast_S_S200000 : (⟨S_, .i32⟩ : BufTy).Contents (Elt F) → (⟨S200000, .i32⟩ : BufTy).Contents (Elt F)),
    StableHlo.binary main_v383 main_v389 main_v390 (cmpi .sge : (⟨S200000, .i32⟩ : BufTy).Contents (Elt F) → (⟨S200000, .i32⟩ : BufTy).Contents (Elt F) → (⟨S200000, .i1⟩ : BufTy).Contents (Elt F)),
    StableHlo.binary main_v388 main_v390 main_v391 (andi : (⟨S200000, .i1⟩ : BufTy).Contents (Elt F) → (⟨S200000, .i1⟩ : BufTy).Contents (Elt F) → (⟨S200000, .i1⟩ : BufTy).Contents (Elt F)),
    StableHlo.nullary main_c_153 (constantI S_ 32 768#32),
    StableHlo.unary main_c_153 main_v392 (broadcastInDim S200000 ![] bcast_S_S200000 : (⟨S_, .i32⟩ : BufTy).Contents (Elt F) → (⟨S200000, .i32⟩ : BufTy).Contents (Elt F)),
    StableHlo.binary main_v383 main_v392 main_v393 (cmpi .slt : (⟨S200000, .i32⟩ : BufTy).Contents (Elt F) → (⟨S200000, .i32⟩ : BufTy).Contents (Elt F) → (⟨S200000, .i1⟩ : BufTy).Contents (Elt F)),
    StableHlo.binary main_v391 main_v393 main_v394 (andi : (⟨S200000, .i1⟩ : BufTy).Contents (Elt F) → (⟨S200000, .i1⟩ : BufTy).Contents (Elt F) → (⟨S200000, .i1⟩ : BufTy).Contents (Elt F)),
    StableHlo.nullary main_c_154 (constantI S_ 32 0#32),
    StableHlo.nullary main_c_155 (constantI S_ 32 767#32),
    TRef.unary (.of main_c_154 : TRef sig ⟨S_, .i32⟩) main_call27.v0 id,
    TRef.unary main_call27.v0 main_call27.v1 (broadcastInDim S200000 ![] bcast_S_S200000),
    TRef.binary main_call27.v1 (.of main_v381 : TRef sig ⟨S200000, .i32⟩) main_call27.v2 maxsi,
    TRef.unary (.of main_c_155 : TRef sig ⟨S_, .i32⟩) main_call27.v3 id,
    TRef.unary main_call27.v3 main_call27.v4 (broadcastInDim S200000 ![] bcast_S_S200000),
    TRef.binary main_call27.v4 main_call27.v2 main_call27.v5 minsi,
    StableHlo.nullary main_c_156 (constantI S_ 32 768#32),
    StableHlo.unary main_c_156 main_v396 (broadcastInDim S200000 ![] bcast_S_S200000 : (⟨S_, .i32⟩ : BufTy).Contents (Elt F) → (⟨S200000, .i32⟩ : BufTy).Contents (Elt F)),
    StableHlo.binary main_v395 main_v396 main_v397 (muli : (⟨S200000, .i32⟩ : BufTy).Contents (Elt F) → (⟨S200000, .i32⟩ : BufTy).Contents (Elt F) → (⟨S200000, .i32⟩ : BufTy).Contents (Elt F)),
    StableHlo.nullary main_c_157 (constantI S_ 32 0#32),
    StableHlo.nullary main_c_158 (constantI S_ 32 767#32),
    TRef.unary (.of main_c_157 : TRef sig ⟨S_, .i32⟩) main_call28.v0 id,
    TRef.unary main_call28.v0 main_call28.v1 (broadcastInDim S200000 ![] bcast_S_S200000),
    TRef.binary main_call28.v1 (.of main_v383 : TRef sig ⟨S200000, .i32⟩) main_call28.v2 maxsi,
    TRef.unary (.of main_c_158 : TRef sig ⟨S_, .i32⟩) main_call28.v3 id,
    TRef.unary main_call28.v3 main_call28.v4 (broadcastInDim S200000 ![] bcast_S_S200000),
    TRef.binary main_call28.v4 main_call28.v2 main_call28.v5 minsi,
    StableHlo.binary main_v397 main_v398 main_v399 (addi : (⟨S200000, .i32⟩ : BufTy).Contents (Elt F) → (⟨S200000, .i32⟩ : BufTy).Contents (Elt F) → (⟨S200000, .i32⟩ : BufTy).Contents (Elt F)),
    StableHlo.nullary main_c_159 (constantI S_ 32 0#32),
    StableHlo.unary main_c_159 main_v400 (broadcastInDim S200000 ![] bcast_S_S200000 : (⟨S_, .i32⟩ : BufTy).Contents (Elt F) → (⟨S200000, .i32⟩ : BufTy).Contents (Elt F)),
    StableHlo.binary main_v399 main_v400 main_v401 (cmpi .slt : (⟨S200000, .i32⟩ : BufTy).Contents (Elt F) → (⟨S200000, .i32⟩ : BufTy).Contents (Elt F) → (⟨S200000, .i1⟩ : BufTy).Contents (Elt F)),
    StableHlo.nullary main_c_160 (constantI S_ 32 589824#32),
    StableHlo.unary main_c_160 main_v402 (broadcastInDim S200000 ![] bcast_S_S200000 : (⟨S_, .i32⟩ : BufTy).Contents (Elt F) → (⟨S200000, .i32⟩ : BufTy).Contents (Elt F)),
    StableHlo.binary main_v399 main_v402 main_v403 (addi : (⟨S200000, .i32⟩ : BufTy).Contents (Elt F) → (⟨S200000, .i32⟩ : BufTy).Contents (Elt F) → (⟨S200000, .i32⟩ : BufTy).Contents (Elt F)),
    StableHlo.ternary main_v401 main_v403 main_v399 main_v404 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v404 main_v405 (broadcastInDim S200000x1 ![0] bcast_S200000_S200000x1_0 : (⟨S200000, .i32⟩ : BufTy).Contents (Elt F) → (⟨S200000x1, .i32⟩ : BufTy).Contents (Elt F)),
    StableHlo.binary main_v16 main_v405 main_v406 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)),
    StableHlo.nullary main_c_161 (constantI S_ 32 0#32),
    StableHlo.unary main_c_161 main_v407 (broadcastInDim S200000 ![] bcast_S_S200000 : (⟨S_, .i32⟩ : BufTy).Contents (Elt F) → (⟨S200000, .i32⟩ : BufTy).Contents (Elt F)),
    StableHlo.binary main_v406 main_v407 main_v408 (cmpi .sge : (⟨S200000, .i32⟩ : BufTy).Contents (Elt F) → (⟨S200000, .i32⟩ : BufTy).Contents (Elt F) → (⟨S200000, .i1⟩ : BufTy).Contents (Elt F)),
    StableHlo.binary main_v394 main_v408 main_v409 (andi : (⟨S200000, .i1⟩ : BufTy).Contents (Elt F) → (⟨S200000, .i1⟩ : BufTy).Contents (Elt F) → (⟨S200000, .i1⟩ : BufTy).Contents (Elt F)),
    StableHlo.unary main_v409 main_v410 (broadcastInDim S200000x1 ![0] bcast_S200000_S200000x1_0 : (⟨S200000, .i1⟩ : BufTy).Contents (Elt F) → (⟨S200000x1, .i1⟩ : BufTy).Contents (Elt F)),
    StableHlo.nullary main_c_162 (constantI S_ 32 0#32),
    StableHlo.unary main_c_162 main_v411 (broadcastInDim S200000 ![] bcast_S_S200000 : (⟨S_, .i32⟩ : BufTy).Contents (Elt F) → (⟨S200000, .i32⟩ : BufTy).Contents (Elt F)),
    StableHlo.binary main_v406 main_v411 main_v412 (maxsi : (⟨S200000, .i32⟩ : BufTy).Contents (Elt F) → (⟨S200000, .i32⟩ : BufTy).Contents (Elt F) → (⟨S200000, .i32⟩ : BufTy).Contents (Elt F)),
    StableHlo.nullary main_c_163 (constantI S_ 32 0#32),
    StableHlo.unary main_c_163 main_v413 (broadcastInDim S200000 ![] bcast_S_S200000 : (⟨S_, .i32⟩ : BufTy).Contents (Elt F) → (⟨S200000, .i32⟩ : BufTy).Contents (Elt F)),
    StableHlo.binary main_v412 main_v413 main_v414 (cmpi .slt : (⟨S200000, .i32⟩ : BufTy).Contents (Elt F) → (⟨S200000, .i32⟩ : BufTy).Contents (Elt F) → (⟨S200000, .i1⟩ : BufTy).Contents (Elt F)),
    StableHlo.nullary main_c_164 (constantI S_ 32 200000#32),
    StableHlo.unary main_c_164 main_v415 (broadcastInDim S200000 ![] bcast_S_S200000 : (⟨S_, .i32⟩ : BufTy).Contents (Elt F) → (⟨S200000, .i32⟩ : BufTy).Contents (Elt F)),
    StableHlo.binary main_v412 main_v415 main_v416 (addi : (⟨S200000, .i32⟩ : BufTy).Contents (Elt F) → (⟨S200000, .i32⟩ : BufTy).Contents (Elt F) → (⟨S200000, .i32⟩ : BufTy).Contents (Elt F)),
    StableHlo.ternary main_v414 main_v416 main_v412 main_v417 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v417 main_v418 (broadcastInDim S200000x1 ![0] bcast_S200000_S200000x1_0 : (⟨S200000, .i32⟩ : BufTy).Contents (Elt F) → (⟨S200000x1, .i32⟩ : BufTy).Contents (Elt F)),
    StableHlo.binary main_v7 main_v418 main_v419 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)),
    StableHlo.nullary main_cst_165 (constant S_ .f32 0x00000000#32),
    TRef.unary (.of main_cst_165 : TRef sig ⟨S_, .f32⟩) main_call29.v0 id,
    TRef.unary (.of main_v410 : TRef sig ⟨S200000x1, .i1⟩) main_call29.v1 (broadcastInDim S200000x64 ![0, 1] bcast_S200000x1_S200000x64_0_1),
    TRef.unary main_call29.v0 main_call29.v2 (broadcastInDim S200000x64 ![] bcast_S_S200000x64),
    TRef.ternary main_call29.v1 (.of main_v419 : TRef sig ⟨S200000x64, .f32⟩) main_call29.v2 main_call29.v3 select,
    StableHlo.unary main_arg3 main_v421 ((extractStridedSlice S1x64x64 ![8, 0, 0] · slices_S9x64x64_S1x64x64_8_0_0) : (⟨S9x64x64, .f32⟩ : BufTy).Contents (Elt F) → (⟨S1x64x64, .f32⟩ : BufTy).Contents (Elt F)),
    StableHlo.reshape main_v421 main_v422 rfl shapeCasts_S1x64x64_S64x64,
    StableHlo.binary main_v420 main_v422 main_v423 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.binary main_v379 main_v423 main_v424 (addf : (⟨S200000x64, .f32⟩ : BufTy).Contents (Elt F) → (⟨S200000x64, .f32⟩ : BufTy).Contents (Elt F) → (⟨S200000x64, .f32⟩ : BufTy).Contents (Elt F)),
    StableHlo.unary main_arg7 main_v425 (broadcastInDim S1x64 ![1] bcast_S64_S1x64_1 : (⟨S64, .f32⟩ : BufTy).Contents (Elt F) → (⟨S1x64, .f32⟩ : BufTy).Contents (Elt F)),
    StableHlo.unary main_v425 main_v426 (broadcastInDim S200000x64 ![0, 1] bcast_S1x64_S200000x64_0_1 : (⟨S1x64, .f32⟩ : BufTy).Contents (Elt F) → (⟨S200000x64, .f32⟩ : BufTy).Contents (Elt F)),
    StableHlo.binary main_v424 main_v426 main_v427 (mulf : (⟨S200000x64, .f32⟩ : BufTy).Contents (Elt F) → (⟨S200000x64, .f32⟩ : BufTy).Contents (Elt F) → (⟨S200000x64, .f32⟩ : BufTy).Contents (Elt F)),
    StableHlo.unary main_arg8 main_v428 (broadcastInDim S1x64 ![1] bcast_S64_S1x64_1 : (⟨S64, .f32⟩ : BufTy).Contents (Elt F) → (⟨S1x64, .f32⟩ : BufTy).Contents (Elt F)),
    StableHlo.unary main_v428 main_v429 (broadcastInDim S200000x64 ![0, 1] bcast_S1x64_S200000x64_0_1 : (⟨S1x64, .f32⟩ : BufTy).Contents (Elt F) → (⟨S200000x64, .f32⟩ : BufTy).Contents (Elt F)),
    StableHlo.binary main_v427 main_v429 main_v430 (addf : (⟨S200000x64, .f32⟩ : BufTy).Contents (Elt F) → (⟨S200000x64, .f32⟩ : BufTy).Contents (Elt F) → (⟨S200000x64, .f32⟩ : BufTy).Contents (Elt F)),
    TRef.nullary main_call30.cst (constant S_ .f32 0x00000000#32),
    TRef.unary main_call30.cst main_call30.v0 (broadcastInDim S200000x64 ![] bcast_S_S200000x64),
    TRef.binary (.of main_v430 : TRef sig ⟨S200000x64, .f32⟩) main_call30.v0 main_call30.v1 maximumf ]

set_option maxRecDepth 8192 in
theorem part9_eq (c : Dev nD) : main_part9 (F := F) c = seq ops9 := by
  simp only [main_part9, fn_clip.body, fn_relu.body, fn_where_1.body, seq, bind_assoc, pure_bind]
  all_goals rfl

theorem ops9_sub : (ops9 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffer each operation writes, in order. -/
abbrev W9 : List (Ref sig .tc) :=
  [main_v386, main_v387, main_v388, main_c_152, main_v389, main_v390, main_v391, main_c_153, main_v392, main_v393, main_v394, main_c_154, main_c_155, main_call27_v0, main_call27_v1, main_call27_v2, main_call27_v3, main_call27_v4, main_v395, main_c_156, main_v396, main_v397, main_c_157, main_c_158, main_call28_v0, main_call28_v1, main_call28_v2, main_call28_v3, main_call28_v4, main_v398, main_v399, main_c_159, main_v400, main_v401, main_c_160, main_v402, main_v403, main_v404, main_v405, main_v406, main_c_161, main_v407, main_v408, main_v409, main_v410, main_c_162, main_v411, main_v412, main_c_163, main_v413, main_v414, main_c_164, main_v415, main_v416, main_v417, main_v418, main_v419, main_cst_165, main_call29_v0, main_call29_v1, main_call29_v2, main_v420, main_v421, main_v422, main_v423, main_v424, main_v425, main_v426, main_v427, main_v428, main_v429, main_v430, main_call30_cst, main_call30_v0, main_v431]

theorem hW9 : Cert.ReadBack.WritesAt (ops9 : List (HloOp τ sig (Elt F))) W9 := by
  repeat (first | exact List.Forall₂.nil | refine List.Forall₂.cons rfl ?_)

end Cert.ReferenceIdeal.RefRun

end
-- ==== Proof.RefOps10.lean ====
/- Window 10 of the reference's @main as a list of its host operations, a called function's operations written out at the call over the call's buffers; the window is that list run in order; every operation stays on the device's buffers, determines its result, and writes the one buffer listed at its position. -/
import proofs.«125710_j13511967113615_2_alg».proof.Proof.Gen.ReferenceIdeal
import Idealize.ShloMosaic.Lib.StableHlo.Run
import proofs.«125710_j13511967113615_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 11 operations, in order. -/
abbrev ops10 : List (HloOp τ sig (Elt F)) :=
  [
    StableHlo.binary main_v431 main_arg4 main_v432 ((fun l r => Host.dotGeneral dot_S200000x64_S64x256_S200000x256_1_0_0_1_n_n none l r) : (⟨S200000x64, .f32⟩ : BufTy).Contents (Elt F) → (⟨S64x256, .f32⟩ : BufTy).Contents (Elt F) → (⟨S200000x256, .f32⟩ : BufTy).Contents (Elt F)),
    StableHlo.unary main_arg9 main_v433 (broadcastInDim S1x256 ![1] bcast_S256_S1x256_1 : (⟨S256, .f32⟩ : BufTy).Contents (Elt F) → (⟨S1x256, .f32⟩ : BufTy).Contents (Elt F)),
    StableHlo.unary main_v433 main_v434 (broadcastInDim S200000x256 ![0, 1] bcast_S1x256_S200000x256_0_1 : (⟨S1x256, .f32⟩ : BufTy).Contents (Elt F) → (⟨S200000x256, .f32⟩ : BufTy).Contents (Elt F)),
    StableHlo.binary main_v432 main_v434 main_v435 (mulf : (⟨S200000x256, .f32⟩ : BufTy).Contents (Elt F) → (⟨S200000x256, .f32⟩ : BufTy).Contents (Elt F) → (⟨S200000x256, .f32⟩ : BufTy).Contents (Elt F)),
    StableHlo.unary main_arg10 main_v436 (broadcastInDim S1x256 ![1] bcast_S256_S1x256_1 : (⟨S256, .f32⟩ : BufTy).Contents (Elt F) → (⟨S1x256, .f32⟩ : BufTy).Contents (Elt F)),
    StableHlo.unary main_v436 main_v437 (broadcastInDim S200000x256 ![0, 1] bcast_S1x256_S200000x256_0_1 : (⟨S1x256, .f32⟩ : BufTy).Contents (Elt F) → (⟨S200000x256, .f32⟩ : BufTy).Contents (Elt F)),
    StableHlo.binary main_v435 main_v437 main_v438 (addf : (⟨S200000x256, .f32⟩ : BufTy).Contents (Elt F) → (⟨S200000x256, .f32⟩ : BufTy).Contents (Elt F) → (⟨S200000x256, .f32⟩ : BufTy).Contents (Elt F)),
    StableHlo.binary main_v438 main_arg0 main_v439 (addf : (⟨S200000x256, .f32⟩ : BufTy).Contents (Elt F) → (⟨S200000x256, .f32⟩ : BufTy).Contents (Elt F) → (⟨S200000x256, .f32⟩ : BufTy).Contents (Elt F)),
    TRef.nullary main_call31.cst (constant S_ .f32 0x00000000#32),
    TRef.unary main_call31.cst main_call31.v0 (broadcastInDim S200000x256 ![] bcast_S_S200000x256),
    TRef.binary (.of main_v439 : TRef sig ⟨S200000x256, .f32⟩) main_call31.v0 main_call31.v1 maximumf ]

set_option maxRecDepth 8192 in
theorem part10_eq (c : Dev nD) : main_part10 (F := F) c = seq ops10 := by
  simp only [main_part10, fn_relu_2.body, seq, bind_assoc, pure_bind]
  all_goals rfl

theorem ops10_sub : (ops10 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

theorem ops10_fresh : (ops10 : List (HloOp τ sig (Elt F))).Forall fun op => op.fresh = ∅ :=
  ⟨rfl, rfl, rfl, rfl, rfl, rfl, rfl, rfl, rfl, rfl, rfl⟩

/-- The buffer each operation writes, in order. -/
abbrev W10 : List (Ref sig .tc) :=
  [main_v432, main_v433, main_v434, main_v435, main_v436, main_v437, main_v438, main_v439, main_call31_cst, main_call31_v0, main_v440]

theorem hW10 : Cert.ReadBack.WritesAt (ops10 : List (HloOp τ sig (Elt F))) W10 := by
  repeat (first | exact List.Forall₂.nil | refine List.Forall₂.cons rfl ?_)

end Cert.ReferenceIdeal.RefRun

end
-- ==== Proof.LibReadEnd.lean ====
/-
  Host operations read back against an END valuation.

  A program's host operations come in lines; after a line, later lines and kernel regions may run, each rewriting
  buffers of its own. Let `E` be the contents at the very end, and suppose `E` agrees with the contents right after
  the line `l` (run from `V`) on every buffer outside a list `later` — the buffers anything after the line writes.
  Then every operation of `l` whose result and operands are written neither later in `l` nor in `later` satisfies
  its defining equation with EVERY buffer read at the end: `E y = f (E a) (E b)`. Equations of this form, for two
  programs, compose by rewriting: equal operations of equal operands have equal results.

  Side conditions of the form `a ∉ L` over long literal lists are meant to be discharged through `nk` (numbers compared,
  not references).

  General in the topology, the reference signature and the element values.
-/
import proofs.«125710_j13511967113615_2_alg».proof.Proof.LibReadBack

namespace Cert.ReadEnd

open Idealize.ShloMosaic Idealize.ShloMosaic.StableHlo Cert.ReadBack

variable {τ : Topo} {sig : RefSig} {Val : EltTy → Type}

/-- The number a buffer reference carries within its memory space. -/
abbrev key (r : Ref sig .tc) : Nat := r.idx.val

/-- A reference whose number is not among the listed references' numbers is not listed: non-membership in a long list
    of references decided on numerals alone. -/
theorem nk {a : Ref sig .tc} {L : List (Ref sig .tc)} (h : key a ∉ L.map key) : a ∉ L :=
  fun hm => h (List.mem_map.mpr ⟨a, hm, rfl⟩)

section

variable {l : List (HloOp τ sig Val)} {W : List (Ref sig .tc)} (h : WritesAt l W)
  (V E : Valuation τ sig Val) (later : List (Ref sig .tc))
  (T : ∀ r : Ref sig .tc, r ∉ later → E (Proc.devRef .tc r) = after l V (Proc.devRef .tc r))
  (j : Nat)

include h T

private theorem notIn_nil {r : Ref sig .tc} {L : List (Ref sig .tc)} (hr : r ∉ L ++ later) : r ∉ L ++ [] := by
  simpa using fun hm => hr (List.mem_append.mpr (Or.inl hm))

private theorem notIn_later {r : Ref sig .tc} {L : List (Ref sig .tc)} (hr : r ∉ L ++ later) : r ∉ later :=
  fun hm => hr (List.mem_append.mpr (Or.inr hm))

/-- A constant: at the end its buffer holds the constant. -/
theorem end0 (y : Ref sig .tc) (v : y.ty.Contents Val) (hy) (hop : l[j]? = some (nullary y v hy))
    (ny : y ∉ W.drop (j + 1) ++ later) : E (Proc.devRef .tc y) = v := by
  rw [T y (notIn_later h V E later T ny)]
  exact read0 h id [] (fun _ _ _ => rfl) j V y v hy hop (notIn_nil h V E later T ny)

/-- A one-operand operation: at the end its result is the function of its operand at the end. -/
theorem end1 (x y : Ref sig .tc) (f : x.ty.Contents Val → y.ty.Contents Val) (hx hy)
    (hop : l[j]? = some (unary x y f hx hy))
    (ny : y ∉ W.drop (j + 1) ++ later) (nx : x ∉ W.drop j ++ later) :
    E (Proc.devRef .tc y) = f (E (Proc.devRef .tc x)) := by
  rw [T y (notIn_later h V E later T ny), T x (notIn_later h V E later T nx)]
  exact read1 h id [] (fun _ _ _ => rfl) j V x y f hx hy hop (notIn_nil h V E later T ny) (notIn_nil h V E later T nx)

/-- A two-operand operation read at the end. -/
theorem end2 (a b y : Ref sig .tc) (f : a.ty.Contents Val → b.ty.Contents Val → y.ty.Contents Val) (ha hb hy)
    (hop : l[j]? = some (binary a b y f ha hb hy))
    (ny : y ∉ W.drop (j + 1) ++ later) (na : a ∉ W.drop j ++ later) (nb : b ∉ W.drop j ++ later) :
    E (Proc.devRef .tc y) = f (E (Proc.devRef .tc a)) (E (Proc.devRef .tc b)) := by
  rw [T y (notIn_later h V E later T ny), T a (notIn_later h V E later T na), T b (notIn_later h V E later T nb)]
  exact read2 h id [] (fun _ _ _ => rfl) j V a b y f ha hb hy hop (notIn_nil h V E later T ny)
    (notIn_nil h V E later T na) (notIn_nil h V E later T nb)

/-- A three-operand operation read at the end. -/
theorem end3 (c a b y : Ref sig .tc)
    (f : c.ty.Contents Val → a.ty.Contents Val → b.ty.Contents Val → y.ty.Contents Val) (hc ha hb hy)
    (hop : l[j]? = some (ternary c a b y f hc ha hb hy))
    (ny : y ∉ W.drop (j + 1) ++ later) (nc : c ∉ W.drop j ++ later) (na : a ∉ W.drop j ++ later)
    (nb : b ∉ W.drop j ++ later) :
    E (Proc.devRef .tc y) = f (E (Proc.devRef .tc c)) (E (Proc.devRef .tc a)) (E (Proc.devRef .tc b)) := by
  rw [T y (notIn_later h V E later T ny), T c (notIn_later h V E later T nc), T a (notIn_later h V E later T na),
    T b (notIn_later h V E later T nb)]
  exact read3 h id [] (fun _ _ _ => rfl) j V c a b y f hc ha hb hy hop (notIn_nil h V E later T ny)
    (notIn_nil h V E later T nc) (notIn_nil h V E later T na) (notIn_nil h V E later T nb)

/-- A reshape read at the end: the operand's contents re-indexed. -/
theorem endReshape (x y : Ref sig .tc) (he hn hx hy) (hop : l[j]? = some (reshape (Val := Val) x y he hn hx hy))
    (ny : y ∉ W.drop (j + 1) ++ later) (nx : x ∉ W.drop j ++ later) :
    E (Proc.devRef .tc y) = fun i => he ▸ shapeCast y.ty.shape (E (Proc.devRef .tc x)) hn i := by
  rw [T y (notIn_later h V E later T ny), T x (notIn_later h V E later T nx)]
  exact readReshape h id [] (fun _ _ _ => rfl) j V x y he hn hx hy hop (notIn_nil h V E later T ny)
    (notIn_nil h V E later T nx)

end

end Cert.ReadEnd
-- ==== Proof.RefRun.lean ====
/-
  The reference program's run.

  @main of the idealized reference is a straight line of host operations printed in eleven windows; a function it calls
  is that function's operations over the call's own buffers. Each window is the list of its operations run in order
  (one module per window), so @main is the concatenation `ops` of the eleven lists run in order, and every weakly fair
  execution ends with each buffer holding the fold of the operations' results over the launch contents: the valuation
  `E m c` at device `c`. The program assigns every buffer once and never writes an argument, so the arguments end
  unchanged. For reading one window's operations back against the end valuation: `Vk m c` is the valuation when window
  `k` starts, `laterk` lists the buffers written after window `k`, and `Tk` says the end valuation agrees, off
  `laterk`, with the valuation right after window `k`.
-/
import proofs.«125710_j13511967113615_2_alg».proof.Proof.RefOps0
import proofs.«125710_j13511967113615_2_alg».proof.Proof.RefOps1
import proofs.«125710_j13511967113615_2_alg».proof.Proof.RefOps2
import proofs.«125710_j13511967113615_2_alg».proof.Proof.RefOps3
import proofs.«125710_j13511967113615_2_alg».proof.Proof.RefOps4
import proofs.«125710_j13511967113615_2_alg».proof.Proof.RefOps5
import proofs.«125710_j13511967113615_2_alg».proof.Proof.RefOps6
import proofs.«125710_j13511967113615_2_alg».proof.Proof.RefOps7
import proofs.«125710_j13511967113615_2_alg».proof.Proof.RefOps8
import proofs.«125710_j13511967113615_2_alg».proof.Proof.RefOps9
import proofs.«125710_j13511967113615_2_alg».proof.Proof.RefOps10
import proofs.«125710_j13511967113615_2_alg».proof.Proof.LibReadEnd

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReadBack Cert.ReadEnd

variable {F : FTy → Type} [FloatOps F]

/-! ## The operations from window `k` on, and the buffers they write -/

abbrev tail10 : List (HloOp τ sig (Elt F)) := ops10
abbrev tail9 : List (HloOp τ sig (Elt F)) := ops9 ++ tail10
abbrev tail8 : List (HloOp τ sig (Elt F)) := ops8 ++ tail9
abbrev tail7 : List (HloOp τ sig (Elt F)) := ops7 ++ tail8
abbrev tail6 : List (HloOp τ sig (Elt F)) := ops6 ++ tail7
abbrev tail5 : List (HloOp τ sig (Elt F)) := ops5 ++ tail6
abbrev tail4 : List (HloOp τ sig (Elt F)) := ops4 ++ tail5
abbrev tail3 : List (HloOp τ sig (Elt F)) := ops3 ++ tail4
abbrev tail2 : List (HloOp τ sig (Elt F)) := ops2 ++ tail3
abbrev tail1 : List (HloOp τ sig (Elt F)) := ops1 ++ tail2
abbrev tail0 : List (HloOp τ sig (Elt F)) := ops0 ++ tail1

/-- All of @main's operations, in order, a called function's written out at the call. -/
def ops : List (HloOp τ sig (Elt F)) := tail0

abbrev later10 : List (Ref sig .tc) := []
abbrev later9 : List (Ref sig .tc) := W10
abbrev later8 : List (Ref sig .tc) := W9 ++ later9
abbrev later7 : List (Ref sig .tc) := W8 ++ later8
abbrev later6 : List (Ref sig .tc) := W7 ++ later7
abbrev later5 : List (Ref sig .tc) := W6 ++ later6
abbrev later4 : List (Ref sig .tc) := W5 ++ later5
abbrev later3 : List (Ref sig .tc) := W4 ++ later4
abbrev later2 : List (Ref sig .tc) := W3 ++ later3
abbrev later1 : List (Ref sig .tc) := W2 ++ later2
abbrev later0 : List (Ref sig .tc) := W1 ++ later1
/-- Every buffer @main writes, in the order written. -/
abbrev Wall : List (Ref sig .tc) := W0 ++ later0

theorem hT10 : WritesAt (tail10 : List (HloOp τ sig (Elt F))) later9 := hW10
theorem hT9 : WritesAt (tail9 : List (HloOp τ sig (Elt F))) later8 := List.rel_append hW9 hT10
theorem hT8 : WritesAt (tail8 : List (HloOp τ sig (Elt F))) later7 := List.rel_append hW8 hT9
theorem hT7 : WritesAt (tail7 : List (HloOp τ sig (Elt F))) later6 := List.rel_append hW7 hT8
theorem hT6 : WritesAt (tail6 : List (HloOp τ sig (Elt F))) later5 := List.rel_append hW6 hT7
theorem hT5 : WritesAt (tail5 : List (HloOp τ sig (Elt F))) later4 := List.rel_append hW5 hT6
theorem hT4 : WritesAt (tail4 : List (HloOp τ sig (Elt F))) later3 := List.rel_append hW4 hT5
theorem hT3 : WritesAt (tail3 : List (HloOp τ sig (Elt F))) later2 := List.rel_append hW3 hT4
theorem hT2 : WritesAt (tail2 : List (HloOp τ sig (Elt F))) later1 := List.rel_append hW2 hT3
theorem hT1 : WritesAt (tail1 : List (HloOp τ sig (Elt F))) later0 := List.rel_append hW1 hT2
theorem hT0 : WritesAt (tail0 : List (HloOp τ sig (Elt F))) Wall := List.rel_append hW0 hT1
theorem hWall : WritesAt (ops : List (HloOp τ sig (Elt F))) Wall := hT0

/-! ## @main is the list run in order -/

theorem main_eq (c : Dev nD) : main (F := F) c = seq ops := by
  simp only [main, ops, seq_append, part0_eq, part1_eq, part2_eq, part3_eq, part4_eq, part5_eq, part6_eq, part7_eq, part8_eq, part9_eq, part10_eq]

theorem tail10_sub : (tail10 : List (HloOp τ sig (Elt F))).Forall fun op => op.bufs ⊆ tcRefs τ sig := ops10_sub
theorem tail9_sub : (tail9 : List (HloOp τ sig (Elt F))).Forall fun op => op.bufs ⊆ tcRefs τ sig := List.forall_append.2 ⟨ops9_sub, tail10_sub⟩
theorem tail8_sub : (tail8 : List (HloOp τ sig (Elt F))).Forall fun op => op.bufs ⊆ tcRefs τ sig := List.forall_append.2 ⟨ops8_sub, tail9_sub⟩
theorem tail7_sub : (tail7 : List (HloOp τ sig (Elt F))).Forall fun op => op.bufs ⊆ tcRefs τ sig := List.forall_append.2 ⟨ops7_sub, tail8_sub⟩
theorem tail6_sub : (tail6 : List (HloOp τ sig (Elt F))).Forall fun op => op.bufs ⊆ tcRefs τ sig := List.forall_append.2 ⟨ops6_sub, tail7_sub⟩
theorem tail5_sub : (tail5 : List (HloOp τ sig (Elt F))).Forall fun op => op.bufs ⊆ tcRefs τ sig := List.forall_append.2 ⟨ops5_sub, tail6_sub⟩
theorem tail4_sub : (tail4 : List (HloOp τ sig (Elt F))).Forall fun op => op.bufs ⊆ tcRefs τ sig := List.forall_append.2 ⟨ops4_sub, tail5_sub⟩
theorem tail3_sub : (tail3 : List (HloOp τ sig (Elt F))).Forall fun op => op.bufs ⊆ tcRefs τ sig := List.forall_append.2 ⟨ops3_sub, tail4_sub⟩
theorem tail2_sub : (tail2 : List (HloOp τ sig (Elt F))).Forall fun op => op.bufs ⊆ tcRefs τ sig := List.forall_append.2 ⟨ops2_sub, tail3_sub⟩
theorem tail1_sub : (tail1 : List (HloOp τ sig (Elt F))).Forall fun op => op.bufs ⊆ tcRefs τ sig := List.forall_append.2 ⟨ops1_sub, tail2_sub⟩
theorem tail0_sub : (tail0 : List (HloOp τ sig (Elt F))).Forall fun op => op.bufs ⊆ tcRefs τ sig := List.forall_append.2 ⟨ops0_sub, tail1_sub⟩
theorem ops_sub : (ops : List (HloOp τ sig (Elt F))).Forall fun op => op.bufs ⊆ tcRefs τ sig := tail0_sub

theorem tail10_fresh : (tail10 : List (HloOp τ sig (Elt F))).Forall fun op => op.fresh = ∅ := ops10_fresh
theorem tail9_fresh : (tail9 : List (HloOp τ sig (Elt F))).Forall fun op => op.fresh = ∅ := List.forall_append.2 ⟨ops9_fresh, tail10_fresh⟩
theorem tail8_fresh : (tail8 : List (HloOp τ sig (Elt F))).Forall fun op => op.fresh = ∅ := List.forall_append.2 ⟨ops8_fresh, tail9_fresh⟩
theorem tail7_fresh : (tail7 : List (HloOp τ sig (Elt F))).Forall fun op => op.fresh = ∅ := List.forall_append.2 ⟨ops7_fresh, tail8_fresh⟩
theorem tail6_fresh : (tail6 : List (HloOp τ sig (Elt F))).Forall fun op => op.fresh = ∅ := List.forall_append.2 ⟨ops6_fresh, tail7_fresh⟩
theorem tail5_fresh : (tail5 : List (HloOp τ sig (Elt F))).Forall fun op => op.fresh = ∅ := List.forall_append.2 ⟨ops5_fresh, tail6_fresh⟩
theorem tail4_fresh : (tail4 : List (HloOp τ sig (Elt F))).Forall fun op => op.fresh = ∅ := List.forall_append.2 ⟨ops4_fresh, tail5_fresh⟩
theorem tail3_fresh : (tail3 : List (HloOp τ sig (Elt F))).Forall fun op => op.fresh = ∅ := List.forall_append.2 ⟨ops3_fresh, tail4_fresh⟩
theorem tail2_fresh : (tail2 : List (HloOp τ sig (Elt F))).Forall fun op => op.fresh = ∅ := List.forall_append.2 ⟨ops2_fresh, tail3_fresh⟩
theorem tail1_fresh : (tail1 : List (HloOp τ sig (Elt F))).Forall fun op => op.fresh = ∅ := List.forall_append.2 ⟨ops1_fresh, tail2_fresh⟩
theorem tail0_fresh : (tail0 : List (HloOp τ sig (Elt F))).Forall fun op => op.fresh = ∅ := List.forall_append.2 ⟨ops0_fresh, tail1_fresh⟩
theorem ops_fresh : ∀ op ∈ (ops : List (HloOp τ sig (Elt F))), op.fresh = ∅ := List.forall_iff_forall_mem.1 tail0_fresh

theorem scopedRefs_eq : (Finset.univ.filter fun b : Ref sig .tc => b.isScoped) = ∅ := by decide
theorem scopedSems_eq : (Finset.univ.filter fun sm : SemLoc sig => sm.isScoped .tc) = ∅ := by decide

/-! ## The end valuation -/

/-- Device `c`'s buffer contents at the end of @main, from the memory `m` at launch. -/
abbrev E (m : (ℓ : Loc nD τ sig) → Buf (Elt F) ℓ) (c : Dev nD) : Valuation τ sig (Elt F) :=
  StableHlo.after ops (launchContents m c)

/-- Every weakly fair execution of @main terminates, each buffer at the end valuation. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = E m c (Proc.devRef .tc b) :=
  run_seq scopedRefs_eq scopedSems_eq defs main (fun _ => ops) main_eq (fun _ => ops_sub) m ρ (fun _ => ops_fresh)

/-- A buffer @main does not write ends as launched. -/
theorem E_keep (m : (ℓ : Loc nD τ sig) → Buf (Elt F) ℓ) (c : Dev nD) {r : Ref sig .tc} (hr : r ∉ Wall) :
    E m c (Proc.devRef .tc r) = m ((c.tc : Thread nD τ).loc r) :=
  WritesAt.keep hWall hr (launchContents m c)

theorem E_arg0 (m : (ℓ : Loc nD τ sig) → Buf (Elt F) ℓ) (c : Dev nD) :
    E m c (Proc.devRef .tc main_arg0) = m ((c.tc : Thread nD τ).loc main_arg0) := E_keep m c (nk (by decide +kernel))
theorem E_arg1 (m : (ℓ : Loc nD τ sig) → Buf (Elt F) ℓ) (c : Dev nD) :
    E m c (Proc.devRef .tc main_arg1) = m ((c.tc : Thread nD τ).loc main_arg1) := E_keep m c (nk (by decide +kernel))
theorem E_arg2 (m : (ℓ : Loc nD τ sig) → Buf (Elt F) ℓ) (c : Dev nD) :
    E m c (Proc.devRef .tc main_arg2) = m ((c.tc : Thread nD τ).loc main_arg2) := E_keep m c (nk (by decide +kernel))
theorem E_arg3 (m : (ℓ : Loc nD τ sig) → Buf (Elt F) ℓ) (c : Dev nD) :
    E m c (Proc.devRef .tc main_arg3) = m ((c.tc : Thread nD τ).loc main_arg3) := E_keep m c (nk (by decide +kernel))
theorem E_arg4 (m : (ℓ : Loc nD τ sig) → Buf (Elt F) ℓ) (c : Dev nD) :
    E m c (Proc.devRef .tc main_arg4) = m ((c.tc : Thread nD τ).loc main_arg4) := E_keep m c (nk (by decide +kernel))
theorem E_arg5 (m : (ℓ : Loc nD τ sig) → Buf (Elt F) ℓ) (c : Dev nD) :
    E m c (Proc.devRef .tc main_arg5) = m ((c.tc : Thread nD τ).loc main_arg5) := E_keep m c (nk (by decide +kernel))
theorem E_arg6 (m : (ℓ : Loc nD τ sig) → Buf (Elt F) ℓ) (c : Dev nD) :
    E m c (Proc.devRef .tc main_arg6) = m ((c.tc : Thread nD τ).loc main_arg6) := E_keep m c (nk (by decide +kernel))
theorem E_arg7 (m : (ℓ : Loc nD τ sig) → Buf (Elt F) ℓ) (c : Dev nD) :
    E m c (Proc.devRef .tc main_arg7) = m ((c.tc : Thread nD τ).loc main_arg7) := E_keep m c (nk (by decide +kernel))
theorem E_arg8 (m : (ℓ : Loc nD τ sig) → Buf (Elt F) ℓ) (c : Dev nD) :
    E m c (Proc.devRef .tc main_arg8) = m ((c.tc : Thread nD τ).loc main_arg8) := E_keep m c (nk (by decide +kernel))
theorem E_arg9 (m : (ℓ : Loc nD τ sig) → Buf (Elt F) ℓ) (c : Dev nD) :
    E m c (Proc.devRef .tc main_arg9) = m ((c.tc : Thread nD τ).loc main_arg9) := E_keep m c (nk (by decide +kernel))
theorem E_arg10 (m : (ℓ : Loc nD τ sig) → Buf (Elt F) ℓ) (c : Dev nD) :
    E m c (Proc.devRef .tc main_arg10) = m ((c.tc : Thread nD τ).loc main_arg10) := E_keep m c (nk (by decide +kernel))

/-- Every weakly fair execution of @main terminates with the result at the end valuation and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v440) = E m c (Proc.devRef .tc main_v440)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h c main_v440, (h c main_arg0).trans (E_arg0 m c), (h c main_arg1).trans (E_arg1 m c), (h c main_arg2).trans (E_arg2 m c), (h c main_arg3).trans (E_arg3 m c), (h c main_arg4).trans (E_arg4 m c), (h c main_arg5).trans (E_arg5 m c), (h c main_arg6).trans (E_arg6 m c), (h c main_arg7).trans (E_arg7 m c), (h c main_arg8).trans (E_arg8 m c), (h c main_arg9).trans (E_arg9 m c), (h c main_arg10).trans (E_arg10 m c)⟩)
    (run_all m ρ)

/-! ## Window by window -/

/-- What a reshape leaves in its result `y`: its operand `x`'s contents under `X`, re-indexed in row-major order. -/
abbrev reshaped (x y : Ref sig .tc) (he : x.ty.elt = y.ty.elt) (hn : x.ty.shape.ShapeCasts y.ty.shape)
    (X : Valuation τ sig (Elt F)) : (Proc.devRef (τ := τ) .tc y).ty.Contents (Elt F) :=
  fun i => he ▸ shapeCast y.ty.shape (X (Proc.devRef .tc x)) hn i

abbrev V0 (m : (ℓ : Loc nD τ sig) → Buf (Elt F) ℓ) (c : Dev nD) : Valuation τ sig (Elt F) := launchContents m c
abbrev V1 (m : (ℓ : Loc nD τ sig) → Buf (Elt F) ℓ) (c : Dev nD) : Valuation τ sig (Elt F) := StableHlo.after ops0 (V0 m c)
abbrev V2 (m : (ℓ : Loc nD τ sig) → Buf (Elt F) ℓ) (c : Dev nD) : Valuation τ sig (Elt F) := StableHlo.after ops1 (V1 m c)
abbrev V3 (m : (ℓ : Loc nD τ sig) → Buf (Elt F) ℓ) (c : Dev nD) : Valuation τ sig (Elt F) := StableHlo.after ops2 (V2 m c)
abbrev V4 (m : (ℓ : Loc nD τ sig) → Buf (Elt F) ℓ) (c : Dev nD) : Valuation τ sig (Elt F) := StableHlo.after ops3 (V3 m c)
abbrev V5 (m : (ℓ : Loc nD τ sig) → Buf (Elt F) ℓ) (c : Dev nD) : Valuation τ sig (Elt F) := StableHlo.after ops4 (V4 m c)
abbrev V6 (m : (ℓ : Loc nD τ sig) → Buf (Elt F) ℓ) (c : Dev nD) : Valuation τ sig (Elt F) := StableHlo.after ops5 (V5 m c)
abbrev V7 (m : (ℓ : Loc nD τ sig) → Buf (Elt F) ℓ) (c : Dev nD) : Valuation τ sig (Elt F) := StableHlo.after ops6 (V6 m c)
abbrev V8 (m : (ℓ : Loc nD τ sig) → Buf (Elt F) ℓ) (c : Dev nD) : Valuation τ sig (Elt F) := StableHlo.after ops7 (V7 m c)
abbrev V9 (m : (ℓ : Loc nD τ sig) → Buf (Elt F) ℓ) (c : Dev nD) : Valuation τ sig (Elt F) := StableHlo.after ops8 (V8 m c)
abbrev V10 (m : (ℓ : Loc nD τ sig) → Buf (Elt F) ℓ) (c : Dev nD) : Valuation τ sig (Elt F) := StableHlo.after ops9 (V9 m c)

theorem E_tail0 (m : (ℓ : Loc nD τ sig) → Buf (Elt F) ℓ) (c : Dev nD) : E m c = StableHlo.after tail0 (V0 m c) := rfl
theorem E_tail1 (m : (ℓ : Loc nD τ sig) → Buf (Elt F) ℓ) (c : Dev nD) : E m c = StableHlo.after tail1 (V1 m c) :=
  (E_tail0 m c).trans (StableHlo.after_append ops0 tail1 (V0 m c))
theorem E_tail2 (m : (ℓ : Loc nD τ sig) → Buf (Elt F) ℓ) (c : Dev nD) : E m c = StableHlo.after tail2 (V2 m c) :=
  (E_tail1 m c).trans (StableHlo.after_append ops1 tail2 (V1 m c))
theorem E_tail3 (m : (ℓ : Loc nD τ sig) → Buf (Elt F) ℓ) (c : Dev nD) : E m c = StableHlo.after tail3 (V3 m c) :=
  (E_tail2 m c).trans (StableHlo.after_append ops2 tail3 (V2 m c))
theorem E_tail4 (m : (ℓ : Loc nD τ sig) → Buf (Elt F) ℓ) (c : Dev nD) : E m c = StableHlo.after tail4 (V4 m c) :=
  (E_tail3 m c).trans (StableHlo.after_append ops3 tail4 (V3 m c))
theorem E_tail5 (m : (ℓ : Loc nD τ sig) → Buf (Elt F) ℓ) (c : Dev nD) : E m c = StableHlo.after tail5 (V5 m c) :=
  (E_tail4 m c).trans (StableHlo.after_append ops4 tail5 (V4 m c))
theorem E_tail6 (m : (ℓ : Loc nD τ sig) → Buf (Elt F) ℓ) (c : Dev nD) : E m c = StableHlo.after tail6 (V6 m c) :=
  (E_tail5 m c).trans (StableHlo.after_append ops5 tail6 (V5 m c))
theorem E_tail7 (m : (ℓ : Loc nD τ sig) → Buf (Elt F) ℓ) (c : Dev nD) : E m c = StableHlo.after tail7 (V7 m c) :=
  (E_tail6 m c).trans (StableHlo.after_append ops6 tail7 (V6 m c))
theorem E_tail8 (m : (ℓ : Loc nD τ sig) → Buf (Elt F) ℓ) (c : Dev nD) : E m c = StableHlo.after tail8 (V8 m c) :=
  (E_tail7 m c).trans (StableHlo.after_append ops7 tail8 (V7 m c))
theorem E_tail9 (m : (ℓ : Loc nD τ sig) → Buf (Elt F) ℓ) (c : Dev nD) : E m c = StableHlo.after tail9 (V9 m c) :=
  (E_tail8 m c).trans (StableHlo.after_append ops8 tail9 (V8 m c))
theorem E_tail10 (m : (ℓ : Loc nD τ sig) → Buf (Elt F) ℓ) (c : Dev nD) : E m c = StableHlo.after tail10 (V10 m c) :=
  (E_tail9 m c).trans (StableHlo.after_append ops9 tail10 (V9 m c))

theorem T0 (m : (ℓ : Loc nD τ sig) → Buf (Elt F) ℓ) (c : Dev nD) (r : Ref sig .tc) (hr : r ∉ later0) :
    E m c (Proc.devRef .tc r) = StableHlo.after ops0 (V0 m c) (Proc.devRef .tc r) :=
  (congrFun (E_tail1 m c) _).trans (WritesAt.keep hT1 hr _)
theorem T1 (m : (ℓ : Loc nD τ sig) → Buf (Elt F) ℓ) (c : Dev nD) (r : Ref sig .tc) (hr : r ∉ later1) :
    E m c (Proc.devRef .tc r) = StableHlo.after ops1 (V1 m c) (Proc.devRef .tc r) :=
  (congrFun (E_tail2 m c) _).trans (WritesAt.keep hT2 hr _)
theorem T2 (m : (ℓ : Loc nD τ sig) → Buf (Elt F) ℓ) (c : Dev nD) (r : Ref sig .tc) (hr : r ∉ later2) :
    E m c (Proc.devRef .tc r) = StableHlo.after ops2 (V2 m c) (Proc.devRef .tc r) :=
  (congrFun (E_tail3 m c) _).trans (WritesAt.keep hT3 hr _)
theorem T3 (m : (ℓ : Loc nD τ sig) → Buf (Elt F) ℓ) (c : Dev nD) (r : Ref sig .tc) (hr : r ∉ later3) :
    E m c (Proc.devRef .tc r) = StableHlo.after ops3 (V3 m c) (Proc.devRef .tc r) :=
  (congrFun (E_tail4 m c) _).trans (WritesAt.keep hT4 hr _)
theorem T4 (m : (ℓ : Loc nD τ sig) → Buf (Elt F) ℓ) (c : Dev nD) (r : Ref sig .tc) (hr : r ∉ later4) :
    E m c (Proc.devRef .tc r) = StableHlo.after ops4 (V4 m c) (Proc.devRef .tc r) :=
  (congrFun (E_tail5 m c) _).trans (WritesAt.keep hT5 hr _)
theorem T5 (m : (ℓ : Loc nD τ sig) → Buf (Elt F) ℓ) (c : Dev nD) (r : Ref sig .tc) (hr : r ∉ later5) :
    E m c (Proc.devRef .tc r) = StableHlo.after ops5 (V5 m c) (Proc.devRef .tc r) :=
  (congrFun (E_tail6 m c) _).trans (WritesAt.keep hT6 hr _)
theorem T6 (m : (ℓ : Loc nD τ sig) → Buf (Elt F) ℓ) (c : Dev nD) (r : Ref sig .tc) (hr : r ∉ later6) :
    E m c (Proc.devRef .tc r) = StableHlo.after ops6 (V6 m c) (Proc.devRef .tc r) :=
  (congrFun (E_tail7 m c) _).trans (WritesAt.keep hT7 hr _)
theorem T7 (m : (ℓ : Loc nD τ sig) → Buf (Elt F) ℓ) (c : Dev nD) (r : Ref sig .tc) (hr : r ∉ later7) :
    E m c (Proc.devRef .tc r) = StableHlo.after ops7 (V7 m c) (Proc.devRef .tc r) :=
  (congrFun (E_tail8 m c) _).trans (WritesAt.keep hT8 hr _)
theorem T8 (m : (ℓ : Loc nD τ sig) → Buf (Elt F) ℓ) (c : Dev nD) (r : Ref sig .tc) (hr : r ∉ later8) :
    E m c (Proc.devRef .tc r) = StableHlo.after ops8 (V8 m c) (Proc.devRef .tc r) :=
  (congrFun (E_tail9 m c) _).trans (WritesAt.keep hT9 hr _)
theorem T9 (m : (ℓ : Loc nD τ sig) → Buf (Elt F) ℓ) (c : Dev nD) (r : Ref sig .tc) (hr : r ∉ later9) :
    E m c (Proc.devRef .tc r) = StableHlo.after ops9 (V9 m c) (Proc.devRef .tc r) :=
  (congrFun (E_tail10 m c) _).trans (WritesAt.keep hT10 hr _)
theorem T10 (m : (ℓ : Loc nD τ sig) → Buf (Elt F) ℓ) (c : Dev nD) (r : Ref sig .tc) (_hr : r ∉ later10) :
    E m c (Proc.devRef .tc r) = StableHlo.after ops10 (V10 m c) (Proc.devRef .tc r) :=
  congrFun (E_tail10 m c) _

end Cert.ReferenceIdeal.RefRun

end
-- ==== Proof.Frames.lean ====
/-
  The three programs run: each terminates, nothing faults, and the argument arrays end as launched.

  The two kernel programs (on words, and idealized) are the same text at two float instances: their run is the launch
  over @main's items, each pallas_call's kernel supplying the body's proof data. The reference has no kernel: its run is
  its host operations in order.
-/
import proofs.«125710_j13511967113615_2_alg».proof.Defs
import proofs.«125710_j13511967113615_2_alg».proof.Proof.Halves
import proofs.«125710_j13511967113615_2_alg».proof.Proof.RefRun

noncomputable section

namespace Cert.Proof.Frames

open Idealize.ShloMosaic Idealize.SL.Sem Cert.Proof.Halves

variable [hK : Cert.Kernel.Facts] [hKI : Cert.KernelIdeal.Facts] [hR : Cert.ReferenceIdeal.Facts] [hP : Cert.Pre_finite_inputs.Facts]

theorem frame_p : Cert.frame_Kernel := fun m ρ _ => Cert.Kernel.KRun.frame halfB0 halfB1 m ρ
theorem frame_pi : Cert.frame_KernelIdeal := fun m ρ _ => Cert.KernelIdeal.KRun.frame halfI0 halfI1 m ρ
theorem frame_ri : Cert.frame_ReferenceIdeal := fun m ρ _ =>
  (θ_run Cert.ReferenceIdeal.defs _ _).mono (fun _ h c => (h c).2) (Cert.ReferenceIdeal.RefRun.run (F := Ideal) m ρ)

end Cert.Proof.Frames
end
-- ==== Proof.KSpec.lean ====
/- The two pipelined regions' output arrays as whole-array functions of their operand arrays, at the ideal
   instance, stated block by block: the element at array index `i` is the body's payload of the operand blocks
   of the grid point that owns row `i 0`, read at the index within the block. -/
import proofs.«125710_j13511967113615_2_alg».proof.Proof.Gen.KernelIdeal.Skeleton
import Idealize.ShloMosaic.Lib.ValueIdx

noncomputable section

namespace Cert.KernelIdeal.Body

open Cert.KernelIdeal Cert.KernelIdeal.Gen
open Idealize.ShloMosaic Idealize.ShloMosaic.ValueIdx

/-- Block `q` of 10000 consecutive rows of a 200000-row array. -/
def rows10000 {n : ℕ} {α : Type} (a : (⟨2, ![200000, n]⟩ : Shape).Idx → α) (q : Fin 20) :
    (⟨2, ![10000, n]⟩ : Shape).Idx → α :=
  fun j => a (ix2 ⟨q.val * 10000 + (j 0).val, by have := idx2_lt0 j; have := q.isLt; omega⟩ (j 1))

/-- Block `q` of 5000 consecutive rows of a 200000-row array. -/
def rows5000 {n : ℕ} {α : Type} (a : (⟨2, ![200000, n]⟩ : Shape).Idx → α) (q : Fin 40) :
    (⟨2, ![5000, n]⟩ : Shape).Idx → α :=
  fun j => a (ix2 ⟨q.val * 5000 + (j 0).val, by have := idx2_lt0 j; have := q.isLt; omega⟩ (j 1))

theorem rows10000_apply {n : ℕ} {α : Type} (a : (⟨2, ![200000, n]⟩ : Shape).Idx → α) (q : Fin 20)
    (j : (⟨2, ![10000, n]⟩ : Shape).Idx) :
    rows10000 a q j = a (ix2 ⟨q.val * 10000 + (j 0).val, by have := idx2_lt0 j; have := q.isLt; omega⟩ (j 1)) := rfl

theorem rows5000_apply {n : ℕ} {α : Type} (a : (⟨2, ![200000, n]⟩ : Shape).Idx → α) (q : Fin 40)
    (j : (⟨2, ![5000, n]⟩ : Shape).Idx) :
    rows5000 a q j = a (ix2 ⟨q.val * 5000 + (j 0).val, by have := idx2_lt0 j; have := q.isLt; omega⟩ (j 1)) := rfl

/-- The first region's output array: row `i 0` belongs to block `i 0 / 10000`, whose output block is the body's
    payload of that block of the activations and of the (whole) weight, scale and shift arrays. -/
def K1 (a0 : Vec Ideal S200000x256 .f32) (a1 : Vec Ideal S256x64 .f32) (a2 a3 : Vec Ideal S1x64 .f32) :
    Vec Ideal S200000x64 .bf16 :=
  fun i => k0_pay1 (rows10000 a0 ⟨(i 0).val / 10000, by have := idx2_lt0 i; omega⟩) a1 a2 a3
    (ix2 ⟨(i 0).val % 10000, Nat.mod_lt _ (by decide)⟩ (i 1))

/-- At row `j 0` of block `q` the first region's output is the payload of block `q` at `j`. -/
theorem K1_blk (a0 : Vec Ideal S200000x256 .f32) (a1 : Vec Ideal S256x64 .f32) (a2 a3 : Vec Ideal S1x64 .f32)
    (q : Fin 20) (j : S10000x64.Idx) :
    K1 a0 a1 a2 a3 (ix2 ⟨q.val * 10000 + (j 0).val, by have := idx2_lt0 j; have := q.isLt; omega⟩ (j 1))
      = k0_pay1 (rows10000 a0 q) a1 a2 a3 j := by
  have hj := idx2_lt0 j
  have h1 : (⟨(q.val * 10000 + (j 0).val) / 10000, by have := q.isLt; omega⟩ : Fin 20) = q := Fin.ext (by show (q.val * 10000 + (j 0).val) / 10000 = q.val; omega)
  have h2 : (ix2 (⟨(q.val * 10000 + (j 0).val) % 10000, Nat.mod_lt _ (by decide)⟩ : Fin 10000) (j 1) : S10000x64.Idx) = j := by
    funext a
    match a with
    | ⟨0, _⟩ => exact Fin.ext (by show (q.val * 10000 + (j 0).val) % 10000 = (j 0).val; omega)
    | ⟨1, _⟩ => rfl
  show k0_pay1 (rows10000 a0 ⟨(q.val * 10000 + (j 0).val) / 10000, _⟩) a1 a2 a3
      (ix2 ⟨(q.val * 10000 + (j 0).val) % 10000, _⟩ (j 1)) = _
  rw [h1, h2]

/-- The second region's output array: row `i 0` belongs to block `i 0 / 5000`, whose output block is the body's
    payload (through its first part's three results) of that block of the gathered activations and of the
    residual, and of the (whole) weight, scale and shift arrays. -/
def K23 (a0 : Vec Ideal S200000x576 .bf16) (a1 : Vec Ideal S9x64x64 .f32) (a2 a3 : Vec Ideal S1x64 .f32)
    (a4 : Vec Ideal S64x256 .f32) (a5 a6 : Vec Ideal S1x256 .f32) (a7 : Vec Ideal S200000x256 .f32) :
    Vec Ideal S200000x256 .f32 :=
  fun i => k1_pay1 (k1_pay2 (rows5000 a0 ⟨(i 0).val / 5000, by have := idx2_lt0 i; omega⟩)) (k1_pay3 a1)
      (k1_pay4 (rows5000 a0 ⟨(i 0).val / 5000, by have := idx2_lt0 i; omega⟩) a1) a2 a3 a4 a5 a6
      (rows5000 a7 ⟨(i 0).val / 5000, by have := idx2_lt0 i; omega⟩)
    (ix2 ⟨(i 0).val % 5000, Nat.mod_lt _ (by decide)⟩ (i 1))

/-- At row `j 0` of block `q` the second region's output is the payload of block `q` at `j`. -/
theorem K23_blk (a0 : Vec Ideal S200000x576 .bf16) (a1 : Vec Ideal S9x64x64 .f32) (a2 a3 : Vec Ideal S1x64 .f32)
    (a4 : Vec Ideal S64x256 .f32) (a5 a6 : Vec Ideal S1x256 .f32) (a7 : Vec Ideal S200000x256 .f32)
    (q : Fin 40) (j : S5000x256.Idx) :
    K23 a0 a1 a2 a3 a4 a5 a6 a7 (ix2 ⟨q.val * 5000 + (j 0).val, by have := idx2_lt0 j; have := q.isLt; omega⟩ (j 1))
      = k1_pay1 (k1_pay2 (rows5000 a0 q)) (k1_pay3 a1) (k1_pay4 (rows5000 a0 q) a1) a2 a3 a4 a5 a6 (rows5000 a7 q) j := by
  have hj := idx2_lt0 j
  have h1 : (⟨(q.val * 5000 + (j 0).val) / 5000, by have := q.isLt; omega⟩ : Fin 40) = q := Fin.ext (by show (q.val * 5000 + (j 0).val) / 5000 = q.val; omega)
  have h2 : (ix2 (⟨(q.val * 5000 + (j 0).val) % 5000, Nat.mod_lt _ (by decide)⟩ : Fin 5000) (j 1) : S5000x256.Idx) = j := by
    funext a
    match a with
    | ⟨0, _⟩ => exact Fin.ext (by show (q.val * 5000 + (j 0).val) % 5000 = (j 0).val; omega)
    | ⟨1, _⟩ => rfl
  show k1_pay1 (k1_pay2 (rows5000 a0 ⟨(q.val * 5000 + (j 0).val) / 5000, _⟩)) (k1_pay3 a1)
      (k1_pay4 (rows5000 a0 ⟨(q.val * 5000 + (j 0).val) / 5000, _⟩) a1) a2 a3 a4 a5 a6
      (rows5000 a7 ⟨(q.val * 5000 + (j 0).val) / 5000, _⟩)
      (ix2 ⟨(q.val * 5000 + (j 0).val) % 5000, _⟩ (j 1)) = _
  rw [h1, h2]

end Cert.KernelIdeal.Body

end
-- ==== Proof.KVal0.lean ====
/- The first pipelined region's output array after the run, in closed form at the ideal instance: every grid
   point writes back its block of one whole-array function of the operand arrays, and the blocks cover the array. -/
import proofs.«125710_j13511967113615_2_alg».proof.Proof.KBody0
import proofs.«125710_j13511967113615_2_alg».proof.Proof.KSpec
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

section AnyF
variable {F : FTy → Type} [FloatOps F]
variable (V : (c : Dev nD) → (b : Ref sig .tc) → Buf (Elt F) ((c : Thread nD τ).loc b))

/-- The one whole-block store leaves the payload of the whole-block loads. -/
theorem out0_4_eq (x0 : Vec F S10000x256 .f32) (x1 : Vec F S256x64 .f32) (x2 x3 : Vec F S1x64 .f32) :
    out0_4 x0 x1 x2 x3 = k0_pay1 x0 x1 x2 x3 := by
  unfold out0_4
  rw [View.canon_unit_zero hz2]
  simp only [View.ld_unit_zero (S := S10000x256) hz2, View.ld_unit_zero (S := S256x64) hz2, View.ld_unit_zero (S := S1x64) hz2]

/-- The printed index maps, decided over the grid: the activations' and the output's block index is the grid
    point on the row axis, every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid point as a block number. -/
abbrev blk0 (t : Fin cfg0.N) : Fin 20 := Fin.cast N_0 t

/-- The activations' block at point `t` is rows `t * 10000 …` of the array. -/
theorem iblk0_0_eq (c : Dev nD) (t : Fin cfg0.N) : iblk0 V c 0 t = rows10000 (V c main_arg0) (blk0 t) := by
  obtain ⟨e0, e1, -⟩ := idx_facts0 t
  funext j
  have h : ((cfg0.win 0).blk t).view.emb j
      = ix2 (⟨(blk0 t).val * 10000 + (j 0).val, by have := idx2_lt0 j; have := (blk0 t).isLt; omega⟩ : Fin 200000) (j 1) := by
    funext a; apply Fin.ext
    match a with
    | ⟨0, _⟩ => show win0_0.index t (0 : Fin 2) * 10000 + 1 * (j 0).val = t.val * 10000 + (j 0).val; rw [e0]; omega
    | ⟨1, _⟩ => show win0_0.index t (1 : Fin 2) * 256 + 1 * (j 1).val = (j 1).val; rw [e1]; omega
  show V c main_arg0 (((cfg0.win 0).blk t).view.emb j) = V c main_arg0 (ix2 _ (j 1))
  exact congrArg (V c main_arg0) h

/-- The weight, scale and shift windows' block at every point is the whole array. -/
theorem iblk0_1_eq (c : Dev nD) (t : Fin cfg0.N) : iblk0 V c 1 t = V c main_arg2 := by
  obtain ⟨-, -, e0, e1, -⟩ := idx_facts0 t
  funext j
  have h : ((cfg0.win 1).blk t).view.emb j = j := by
    funext a; apply Fin.ext
    match a with
    | ⟨0, _⟩ => show win0_1.index t (0 : Fin 2) * 256 + 1 * (j 0).val = (j 0).val; rw [e0]; omega
    | ⟨1, _⟩ => show win0_1.index t (1 : Fin 2) * 64 + 1 * (j 1).val = (j 1).val; rw [e1]; omega
  show V c main_arg2 (((cfg0.win 1).blk t).view.emb j) = V c main_arg2 j
  exact congrArg (V c main_arg2) h
theorem iblk0_2_eq (c : Dev nD) (t : Fin cfg0.N) : iblk0 V c 2 t = V c main_v0 := by
  obtain ⟨-, -, -, -, e0, e1, -⟩ := idx_facts0 t
  funext j
  have h : ((cfg0.win 2).blk t).view.emb j = j := by
    funext a; apply Fin.ext
    match a with
    | ⟨0, _⟩ => show win0_2.index t (0 : Fin 2) * 1 + 1 * (j 0).val = (j 0).val; rw [e0]; omega
    | ⟨1, _⟩ => show win0_2.index t (1 : Fin 2) * 64 + 1 * (j 1).val = (j 1).val; rw [e1]; omega
  show V c main_v0 (((cfg0.win 2).blk t).view.emb j) = V c main_v0 j
  exact congrArg (V c main_v0) h
theorem iblk0_3_eq (c : Dev nD) (t : Fin cfg0.N) : iblk0 V c 3 t = V c main_v1 := by
  obtain ⟨-, -, -, -, -, -, e0, e1, -⟩ := idx_facts0 t
  funext j
  have h : ((cfg0.win 3).blk t).view.emb j = j := by
    funext a; apply Fin.ext
    match a with
    | ⟨0, _⟩ => show win0_3.index t (0 : Fin 2) * 1 + 1 * (j 0).val = (j 0).val; rw [e0]; omega
    | ⟨1, _⟩ => show win0_3.index t (1 : Fin 2) * 64 + 1 * (j 1).val = (j 1).val; rw [e1]; omega
  show V c main_v1 (((cfg0.win 3).blk t).view.emb j) = V c main_v1 j
  exact congrArg (V c main_v1) h

/-- Where an element of the output block at point `t` sits in the array. -/
theorem emb0_4 (t : Fin cfg0.N) (j : S10000x64.Idx) : ((cfg0.win 4).blk t).view.emb j
    = ix2 (⟨(blk0 t).val * 10000 + (j 0).val, by have := idx2_lt0 j; have := (blk0 t).isLt; omega⟩ : Fin 200000) (j 1) := by
  obtain ⟨-, -, -, -, -, -, -, -, e0, e1⟩ := idx_facts0 t
  funext a; apply Fin.ext
  match a with
  | ⟨0, _⟩ => show win0_4.index t (0 : Fin 2) * 10000 + 1 * (j 0).val = t.val * 10000 + (j 0).val; rw [e0]; omega
  | ⟨1, _⟩ => show win0_4.index t (1 : Fin 2) * 64 + 1 * (j 1).val = (j 1).val; rw [e1]; omega

/-- An index of the output array is in point `t`'s block iff each coordinate is in the block's range on its axis. -/
theorem mem_blk0_4 (t : Fin cfg0.N) (i : S200000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v6).slice (win0_4.rect t)).set ↔ _
  rw [View.set_slice_whole, Rect.mem_set_unit]
  exact Iff.rfl

/-- Every index of the output array is in the block of the point that owns its row. -/
theorem covered0_4 (i : S200000x64.Idx) :
    ∃ t : Fin cfg0.N, (cfg0.win 4).flush t = true ∧ i ∈ ((cfg0.win 4).blk t).view.set := by
  have hi0 := idx2_lt0 i
  have hi1 := idx2_lt1 i
  have hN : (i 0).val / 10000 < cfg0.N := by show _ < grid0.N; rw [N_0]; omega
  obtain ⟨-, -, -, -, -, -, -, -, e0, e1⟩ := idx_facts0 ⟨(i 0).val / 10000, hN⟩
  refine ⟨⟨(i 0).val / 10000, hN⟩, flush0_4 _, ?_⟩
  rw [mem_blk0_4]
  intro a
  match a with
  | ⟨0, _⟩ =>
    show win0_4.index ⟨(i 0).val / 10000, hN⟩ (0 : Fin 2) * 10000 ≤ (i 0).val ∧ (i 0).val < win0_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_4.index ⟨(i 0).val / 10000, hN⟩ (1 : Fin 2) * 64 ≤ (i 1).val ∧ (i 1).val < win0_4.index ⟨(i 0).val / 10000, hN⟩ (1 : Fin 2) * 64 + 64
    rw [e1]; omega

end AnyF

/-! ## At the ideal instance -/

variable (V : (c : Dev nD) → (b : Ref sig .tc) → Buf (Elt Ideal) ((c : Thread nD τ).loc b))

/-- What point `t` writes back is block `t` of `K1` of the operand arrays as the region finds them. -/
theorem flushed0_4_eq (c : Dev nD) (t : Fin cfg0.N) :
    (dat0 V c).flushed 4 t
      = ((cfg0.win 4).blk t).view.read (Elt Ideal) (K1 (V c main_arg0) (V c main_arg2) (V c main_v0) (V c main_v1)) := by
  show (cfg0.win 4).cut (grid0.coords t) ((dat0 V c).after 4 t) = _
  rw [after0_4, out0_4_eq, iblk0_0_eq, iblk0_1_eq, iblk0_2_eq, iblk0_3_eq]
  funext j
  show k0_pay1 (rows10000 (V c main_arg0) (blk0 t)) (V c main_arg2) (V c main_v0) (V c main_v1) j
    = K1 (V c main_arg0) (V c main_arg2) (V c main_v0) (V c main_v1) (((cfg0.win 4).blk t).view.emb j)
  rw [emb0_4 t j]
  exact (K1_blk _ _ _ _ (blk0 t) j).symm

/-- The output array after the run. -/
theorem final0 (c : Dev nD) :
    (dat0 V c).arrAt 4 cfg0.N = K1 (V c main_arg0) (V c main_arg2) (V c main_v0) (V c main_v1) :=
  (dat0 V c).arrAt_eq_of_cover 4 _ (fun t _ => flushed0_4_eq V c t) (fun i => covered0_4 i)

end Cert.KernelIdeal.Body

end
-- ==== Proof.KIdxLib.lean ====
/- Small facts for reading a block computation at an index, at the ideal instance: the zero word, a row
   broadcast down the rows of a block, a column slice, a leading-axis slice, and dropping a leading unit axis. -/
import Idealize.ShloMosaic.Lib.Pipeline.Value
import Idealize.ShloMosaic.Lib.ValueIdx
import Idealize.ShloMosaic.PureOps.Ideal.Laws

noncomputable section

namespace Cert.KIdxLib

open Idealize.ShloMosaic Idealize.ShloMosaic.ValueIdx

/-- The zero word of the 32-bit format reads the extended real zero. -/
theorem zero_f32 : (FloatOps.ofBits FTy.f32 0#32 : Idealize.ShloMosaic.Ideal .f32) = 0 := Ideal.ofBits_zero_f32

/-- A [1, n] row broadcast down the rows of an [m, n] block reads the row's element of the column. -/
theorem bcast_row_apply {α : Type} {m n : ℕ} (x : (⟨2, ![1, n]⟩ : Shape).Idx → α)
    (h : (⟨2, ![1, n]⟩ : Shape).Broadcasts ⟨2, ![m, n]⟩) (hn : n ≠ 1) (p : Fin m) (q : Fin n) :
    broadcastTo ⟨2, ![m, n]⟩ x h (ix2 p q) = x (ix2 (0 : Fin 1) q) :=
  broadcastTo_apply x h (ix2 p q) (ix2 (0 : Fin 1) q) (fun a => by
    match a with
    | ⟨0, _⟩ => rfl
    | ⟨1, _⟩ => show q.val = if n = 1 then 0 else q.val; rw [if_neg hn])

/-- A slice of `n` columns from column `o` stays inside the operand's columns. -/
theorem cols_bound {m N n o : ℕ} (h : (⟨2, ![m, N]⟩ : Shape).Slices ![0, o] ⟨2, ![m, n]⟩) (l : Fin n) : o + l.val < N := by
  obtain ⟨_, hb⟩ := h
  have h1 : o + n ≤ N := hb ⟨1, Nat.one_lt_two⟩
  have := l.isLt
  omega

/-- A slice of `n` columns from column `o` reads the operand `o` columns further. -/
theorem slice_cols_apply {α : Type} {m N n o : ℕ} (x : (⟨2, ![m, N]⟩ : Shape).Idx → α)
    (h : (⟨2, ![m, N]⟩ : Shape).Slices ![0, o] ⟨2, ![m, n]⟩) (p : Fin m) (l : Fin n) :
    extractStridedSlice ⟨2, ![m, n]⟩ ![0, o] x h (ix2 p l) = x (ix2 p ⟨o + l.val, cols_bound h l⟩) :=
  extractStridedSlice_apply ![0, o] x h (ix2 p l) (ix2 p ⟨o + l.val, cols_bound h l⟩) (fun a => by
    match a with
    | ⟨0, _⟩ => show p.val = 0 + p.val; omega
    | ⟨1, _⟩ => rfl)

/-- A one-deep slice at position `k` of the leading axis stays inside it. -/
theorem lead_bound {K a b k : ℕ} (h : (⟨3, ![K, a, b]⟩ : Shape).Slices ![k, 0, 0] ⟨3, ![1, a, b]⟩) : k < K := by
  obtain ⟨_, hb⟩ := h
  have h0 : k + 1 ≤ K := hb ⟨0, Nat.succ_pos 2⟩
  omega

/-- The slice at position `k` of the leading axis reads the operand at `k`. -/
theorem slice_lead_apply {α : Type} {K a b k : ℕ} (x : (⟨3, ![K, a, b]⟩ : Shape).Idx → α)
    (h : (⟨3, ![K, a, b]⟩ : Shape).Slices ![k, 0, 0] ⟨3, ![1, a, b]⟩) (l : Fin a) (j : Fin b) :
    extractStridedSlice ⟨3, ![1, a, b]⟩ ![k, 0, 0] x h (ix3 (0 : Fin 1) l j) = x (ix3 ⟨k, lead_bound h⟩ l j) :=
  extractStridedSlice_apply ![k, 0, 0] x h (ix3 (0 : Fin 1) l j) (ix3 ⟨k, lead_bound h⟩ l j) (fun c => by
    match c with
    | ⟨0, _⟩ => show k = k + 0; omega
    | ⟨1, _⟩ => show l.val = 0 + l.val; omega
    | ⟨2, _⟩ => show j.val = 0 + j.val; omega)

/-- Dropping a leading unit axis keeps the two remaining coordinates. -/
theorem cast_drop_apply {α : Type} {a b : ℕ} (v : (⟨3, ![1, a, b]⟩ : Shape).Idx → α)
    (h : (⟨3, ![1, a, b]⟩ : Shape).ShapeCasts ⟨2, ![a, b]⟩) (l : Fin a) (j : Fin b) :
    shapeCast ⟨2, ![a, b]⟩ v h (ix2 l j) = v (ix3 (0 : Fin 1) l j) :=
  shapeCast_apply v h (ix2 l j) (ix3 (0 : Fin 1) l j) (by
    rw [Shape.rowMajor_val_three, Shape.rowMajor_val_two]
    show (0 * a + l.val) * b + j.val = l.val * b + j.val
    rw [Nat.zero_mul, Nat.zero_add])

end Cert.KIdxLib

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.Spec.lean ====
/-
  The network block, index by index, on the extended reals.

  One residual bottleneck over N = 200000 active sites: a 1×1 convolution 256 → 64 with scale, shift and clamp at
  zero (rows r); a 3×3 sparse convolution, the sum over the nine taps k of (the tap's gathered row) · w2[k], again
  scaled, shifted and clamped; a 1×1 convolution 64 → 256 with scale and shift, the input added back, and a last clamp.
  The taps' gathered rows are a parameter g k i l (tap, site, channel): how a program finds them is its own business.
  The nine taps are added from zero in order, ((((0 + t0) + t1) + …) + t8).
-/
import Idealize.ShloMosaic.PureOps.Ideal
import Idealize.ShloMosaic.Lib.ValueIdx
import Mathlib.Data.EReal.Operations

noncomputable section

open scoped BigOperators

namespace Cert.Spec

open Idealize.ShloMosaic Idealize.ShloMosaic.ValueIdx

/-- Rows after the first 1×1 convolution: max ((Σ_d x[n,d] · w1[d,l]) · s1[l] + b1[l], 0). -/
def rows1 (X : (⟨2, ![200000, 256]⟩ : Shape).Idx → EReal) (W1 : (⟨2, ![256, 64]⟩ : Shape).Idx → EReal)
    (s1 b1 : (⟨1, ![64]⟩ : Shape).Idx → EReal) (n : Fin 200000) (l : Fin 64) : EReal :=
  max ((∑ d : Fin 256, X (ix2 n d) * W1 (ix2 d l)) * s1 (ix1 l) + b1 (ix1 l)) 0

/-- One tap's product: Σ_l g[k,i,l] · w2[k,l,j]. -/
def tapDot (g : Fin 9 → Fin 200000 → Fin 64 → EReal) (W2 : (⟨3, ![9, 64, 64]⟩ : Shape).Idx → EReal)
    (k : Fin 9) (i : Fin 200000) (j : Fin 64) : EReal :=
  ∑ l : Fin 64, g k i l * W2 (ix3 k l j)

/-- The nine taps added from zero, in order. -/
def acc (g : Fin 9 → Fin 200000 → Fin 64 → EReal) (W2 : (⟨3, ![9, 64, 64]⟩ : Shape).Idx → EReal)
    (i : Fin 200000) (j : Fin 64) : EReal :=
  ((((((((0 + tapDot g W2 0 i j) + tapDot g W2 1 i j) + tapDot g W2 2 i j) + tapDot g W2 3 i j) + tapDot g W2 4 i j)
    + tapDot g W2 5 i j) + tapDot g W2 6 i j) + tapDot g W2 7 i j) + tapDot g W2 8 i j

/-- The block's output at (i, c): the second stage's rows max (acc · s2 + b2, 0), through w3, scaled, shifted, the
    input added back, clamped. -/
def out (g : Fin 9 → Fin 200000 → Fin 64 → EReal) (W2 : (⟨3, ![9, 64, 64]⟩ : Shape).Idx → EReal)
    (s2 b2 : (⟨1, ![64]⟩ : Shape).Idx → EReal) (W3 : (⟨2, ![64, 256]⟩ : Shape).Idx → EReal)
    (s3 b3 : (⟨1, ![256]⟩ : Shape).Idx → EReal) (X : (⟨2, ![200000, 256]⟩ : Shape).Idx → EReal)
    (i : Fin 200000) (c : Fin 256) : EReal :=
  max ((∑ j : Fin 64, max (acc g W2 i j * s2 (ix1 j) + b2 (ix1 j)) 0 * W3 (ix2 j c)) * s3 (ix1 c) + b3 (ix1 c)
    + X (ix2 i c)) 0

/-- The output depends on the taps' rows only through their values. -/
theorem out_congr {g g' : Fin 9 → Fin 200000 → Fin 64 → EReal} (h : ∀ k i l, g k i l = g' k i l) (W2 s2 b2 W3 s3 b3 X i c) :
    out g W2 s2 b2 W3 s3 b3 X i c = out g' W2 s2 b2 W3 s3 b3 X i c := by
  have : g = g' := by funext k i l; exact h k i l
  rw [this]

end Cert.Spec
end
-- ==== Proof.KIdx0.lean ====
/- The first pipelined region's output array read at an index, at the ideal instance: the clamped, scaled and
   shifted row-by-column products of the 1×1 convolution. -/
import proofs.«125710_j13511967113615_2_alg».proof.Proof.KVal0
import proofs.«125710_j13511967113615_2_alg».proof.Proof.KIdxLib
import proofs.«125710_j13511967113615_2_alg».proof.Proof.LibDotSingle
import proofs.«125710_j13511967113615_2_alg».proof.Proof.Spec

noncomputable section

open scoped BigOperators

namespace Cert.KernelIdeal.Body

open Cert.KernelIdeal Cert.KernelIdeal.Gen Cert.KIdxLib
open Idealize.ShloMosaic Idealize.ShloMosaic.TcCoe Idealize.SL.Sem Idealize.ShloMosaic.ValueIdx

/-! ### The product `dot_S10000x256_S256x64_S10000x64_1_0_0_1_n_n`: one contracted axis of extent 256 -/

theorem D1_lc : dot_S10000x256_S256x64_S10000x64_1_0_0_1_n_n.lhsContracting = [1] := rfl
theorem D1_rc : dot_S10000x256_S256x64_S10000x64_1_0_0_1_n_n.rhsContracting = [0] := rfl
theorem D1_hr : dot_S10000x256_S256x64_S10000x64_1_0_0_1_n_n.contr.rank = 1 := rfl
theorem D1_hs : dot_S10000x256_S256x64_S10000x64_1_0_0_1_n_n.contr.size ⟨0, by rw [D1_hr]; exact Nat.one_pos⟩ = 256 := rfl

/-- The left operand is read at the result's row and the contraction coordinate. -/
theorem D1_lhs (j : S10000x64.Idx) (k : Fin 256) :
    dot_S10000x256_S256x64_S10000x64_1_0_0_1_n_n.lhsIdx j ((contrEquiv1 dot_S10000x256_S256x64_S10000x64_1_0_0_1_n_n 256 D1_hr D1_hs).symm k) = ix2 (j 0) k := by
  funext a; apply Fin.ext
  match a with
  | ⟨0, _⟩ => rfl
  | ⟨1, _⟩ =>
    exact (DotDims.lhsIdx_val_of_single dot_S10000x256_S256x64_S10000x64_1_0_0_1_n_n (cl := 1) D1_lc j _).trans (contrEquiv1_symm_val dot_S10000x256_S256x64_S10000x64_1_0_0_1_n_n 256 D1_hr D1_hs k)

/-- The right operand is read at the contraction coordinate and the result's column. -/
theorem D1_rhs (j : S10000x64.Idx) (k : Fin 256) :
    dot_S10000x256_S256x64_S10000x64_1_0_0_1_n_n.rhsIdx j ((contrEquiv1 dot_S10000x256_S256x64_S10000x64_1_0_0_1_n_n 256 D1_hr D1_hs).symm k) = ix2 k (j 1) := by
  funext a; apply Fin.ext
  match a with
  | ⟨0, _⟩ =>
    exact (DotDims.rhsIdx_val_of_single dot_S10000x256_S256x64_S10000x64_1_0_0_1_n_n (cr := 0) D1_rc j _).trans (contrEquiv1_symm_val dot_S10000x256_S256x64_S10000x64_1_0_0_1_n_n 256 D1_hr D1_hs k)
  | ⟨1, _⟩ => rfl

/-- The body's payload at an index of the block: the row of the activations against the column of the weights,
    scaled, shifted and clamped at zero (a change of float format is the identity on extended reals). -/
theorem k0_pay1_apply (X : Vec Ideal S10000x256 .f32) (W : Vec Ideal S256x64 .f32) (s b : Vec Ideal S1x64 .f32)
    (p : Fin 10000) (q : Fin 64) :
    k0_pay1 X W s b (ix2 p q)
      = max ((∑ d : Fin 256, X (ix2 p d) * W (ix2 d q)) * s (ix2 (0 : Fin 1) q) + b (ix2 (0 : Fin 1) q)) 0 := by
  unfold k0_pay1
  simp only [truncf_apply, maximumf_apply, addf_apply, mulf_apply, broadcast_apply, matmul, shapeCast_self]
  rw [Cert.LibDotSingle.matmul_zero_single dot_S10000x256_S256x64_S10000x64_1_0_0_1_n_n none 256 D1_hr D1_hs _ _ (ix2 p q)
      (fun d => X (ix2 p d)) (fun d => W (ix2 d q))
      (fun k => by rw [D1_lhs]; rfl) (fun k => by rw [D1_rhs]; rfl),
    bcast_row_apply s _ (by decide) p q, bcast_row_apply b _ (by decide) p q]
  exact congrArg _ zero_f32

/-- Row `n % 10000` of block `n / 10000` is row `n` of the array. -/
theorem rows10000_at {m : ℕ} {α : Type} (a : (⟨2, ![200000, m]⟩ : Shape).Idx → α) (n : Fin 200000) (d : Fin m) :
    rows10000 a ⟨n.val / 10000, by have := n.isLt; omega⟩ (ix2 (⟨n.val % 10000, Nat.mod_lt _ (by decide)⟩ : Fin 10000) d)
      = a (ix2 n d) := by
  rw [rows10000_apply]
  exact congrArg (fun r => a (ix2 r d)) (Fin.ext (by show n.val / 10000 * 10000 + n.val % 10000 = n.val; omega))

variable (V : (c : Dev nD) → (b : Ref sig .tc) → Buf (Elt Ideal) ((c : Thread nD τ).loc b))

/-- The region's output array at row `n`, column `l`. -/
theorem region0_apply (c : Dev nD) (n : Fin 200000) (l : Fin 64) :
    (dat0 (F := Ideal) V c).arrAt 4 cfg0.N (ValueIdx.ix2 n l)
      = Cert.Spec.rows1 (V c main_arg0) (V c main_arg2) (fun j => V c main_v0 (ValueIdx.ix2 (0 : Fin 1) (j 0)))
          (fun j => V c main_v1 (ValueIdx.ix2 (0 : Fin 1) (j 0))) n l := by
  rw [final0]
  show k0_pay1 (rows10000 (V c main_arg0) ⟨n.val / 10000, _⟩) (V c main_arg2) (V c main_v0) (V c main_v1)
      (ix2 (⟨n.val % 10000, _⟩ : Fin 10000) l) = _
  rw [k0_pay1_apply]
  simp only [rows10000_at]
  rfl

end Cert.KernelIdeal.Body

end
-- ==== Proof.GlueBase.lean ====
/-
  The host stretches of the idealized kernel program, prepared for reading back at the contents the second kernel
  region is entered with (V61).

  L k lists the buffers written after the contents V k are reached (by the later stretches and by the first region);
  T k: outside L k the contents V61 are still the contents V k; W k: the stretch leaving V k writes, operation by
  operation, exactly the buffers its list of written references names. The arguments and the first region's result
  are read at V61 from these.
-/
import proofs.«125710_j13511967113615_2_alg».proof.Proof.RegionsI
import proofs.«125710_j13511967113615_2_alg».proof.Proof.LibReadEnd

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

/-! ## The buffers written after each point -/

abbrev L61 : List (Ref sig .tc) := []
abbrev L60 : List (Ref sig .tc) := hostOps1_58_W ++ L61
abbrev L59 : List (Ref sig .tc) := hostOps1_57_W ++ L60
abbrev L58 : List (Ref sig .tc) := hostOps1_56_W ++ L59
abbrev L57 : List (Ref sig .tc) := hostOps1_55_W ++ L58
abbrev L56 : List (Ref sig .tc) := hostOps1_54_W ++ L57
abbrev L55 : List (Ref sig .tc) := hostOps1_53_W ++ L56
abbrev L54 : List (Ref sig .tc) := hostOps1_52_W ++ L55
abbrev L53 : List (Ref sig .tc) := hostOps1_51_W ++ L54
abbrev L52 : List (Ref sig .tc) := hostOps1_50_W ++ L53
abbrev L51 : List (Ref sig .tc) := hostOps1_49_W ++ L52
abbrev L50 : List (Ref sig .tc) := hostOps1_48_W ++ L51
abbrev L49 : List (Ref sig .tc) := hostOps1_47_W ++ L50
abbrev L48 : List (Ref sig .tc) := hostOps1_46_W ++ L49
abbrev L47 : List (Ref sig .tc) := hostOps1_45_W ++ L48
abbrev L46 : List (Ref sig .tc) := hostOps1_44_W ++ L47
abbrev L45 : List (Ref sig .tc) := hostOps1_43_W ++ L46
abbrev L44 : List (Ref sig .tc) := hostOps1_42_W ++ L45
abbrev L43 : List (Ref sig .tc) := hostOps1_41_W ++ L44
abbrev L42 : List (Ref sig .tc) := hostOps1_40_W ++ L43
abbrev L41 : List (Ref sig .tc) := hostOps1_39_W ++ L42
abbrev L40 : List (Ref sig .tc) := hostOps1_38_W ++ L41
abbrev L39 : List (Ref sig .tc) := hostOps1_37_W ++ L40
abbrev L38 : List (Ref sig .tc) := hostOps1_36_W ++ L39
abbrev L37 : List (Ref sig .tc) := hostOps1_35_W ++ L38
abbrev L36 : List (Ref sig .tc) := hostOps1_34_W ++ L37
abbrev L35 : List (Ref sig .tc) := hostOps1_33_W ++ L36
abbrev L34 : List (Ref sig .tc) := hostOps1_32_W ++ L35
abbrev L33 : List (Ref sig .tc) := hostOps1_31_W ++ L34
abbrev L32 : List (Ref sig .tc) := hostOps1_30_W ++ L33
abbrev L31 : List (Ref sig .tc) := hostOps1_29_W ++ L32
abbrev L30 : List (Ref sig .tc) := hostOps1_28_W ++ L31
abbrev L29 : List (Ref sig .tc) := hostOps1_27_W ++ L30
abbrev L28 : List (Ref sig .tc) := hostOps1_26_W ++ L29
abbrev L27 : List (Ref sig .tc) := hostOps1_25_W ++ L28
abbrev L26 : List (Ref sig .tc) := hostOps1_24_W ++ L27
abbrev L25 : List (Ref sig .tc) := hostOps1_23_W ++ L26
abbrev L24 : List (Ref sig .tc) := hostOps1_22_W ++ L25
abbrev L23 : List (Ref sig .tc) := hostOps1_21_W ++ L24
abbrev L22 : List (Ref sig .tc) := hostOps1_20_W ++ L23
abbrev L21 : List (Ref sig .tc) := hostOps1_19_W ++ L22
abbrev L20 : List (Ref sig .tc) := hostOps1_18_W ++ L21
abbrev L19 : List (Ref sig .tc) := hostOps1_17_W ++ L20
abbrev L18 : List (Ref sig .tc) := hostOps1_16_W ++ L19
abbrev L17 : List (Ref sig .tc) := hostOps1_15_W ++ L18
abbrev L16 : List (Ref sig .tc) := hostOps1_14_W ++ L17
abbrev L15 : List (Ref sig .tc) := hostOps1_13_W ++ L16
abbrev L14 : List (Ref sig .tc) := hostOps1_12_W ++ L15
abbrev L13 : List (Ref sig .tc) := hostOps1_11_W ++ L14
abbrev L12 : List (Ref sig .tc) := hostOps1_10_W ++ L13
abbrev L11 : List (Ref sig .tc) := hostOps1_9_W ++ L12
abbrev L10 : List (Ref sig .tc) := hostOps1_8_W ++ L11
abbrev L9 : List (Ref sig .tc) := hostOps1_7_W ++ L10
abbrev L8 : List (Ref sig .tc) := hostOps1_6_W ++ L9
abbrev L7 : List (Ref sig .tc) := hostOps1_5_W ++ L8
abbrev L6 : List (Ref sig .tc) := hostOps1_4_W ++ L7
abbrev L5 : List (Ref sig .tc) := hostOps1_3_W ++ L6
abbrev L4 : List (Ref sig .tc) := hostOps1_2_W ++ L5
abbrev L3 : List (Ref sig .tc) := hostOps1_1_W ++ L4
abbrev L2 : List (Ref sig .tc) := hostOps1_W ++ L3
abbrev L1 : List (Ref sig .tc) := main_v6 :: L2

/-! ## Outside them the end contents are the contents at that point -/

theorem T61 (r : Ref sig .tc) (_ : r ∉ L61) : GenP.V61 m outs c (Proc.devRef .tc r) = GenP.V61 m outs c (Proc.devRef .tc r) := rfl
theorem T60 (r : Ref sig .tc) (hr : r ∉ L60) : GenP.V61 m outs c (Proc.devRef .tc r) = GenP.V60 m outs c (Proc.devRef .tc r) :=
  (T61 m outs c r fun hm => hr (List.mem_append_right _ hm)).trans (GenP.V61_of m outs c r fun hm => hr (List.mem_append_left _ hm))
theorem T59 (r : Ref sig .tc) (hr : r ∉ L59) : GenP.V61 m outs c (Proc.devRef .tc r) = GenP.V59 m outs c (Proc.devRef .tc r) :=
  (T60 m outs c r fun hm => hr (List.mem_append_right _ hm)).trans (GenP.V60_of m outs c r fun hm => hr (List.mem_append_left _ hm))
theorem T58 (r : Ref sig .tc) (hr : r ∉ L58) : GenP.V61 m outs c (Proc.devRef .tc r) = GenP.V58 m outs c (Proc.devRef .tc r) :=
  (T59 m outs c r fun hm => hr (List.mem_append_right _ hm)).trans (GenP.V59_of m outs c r fun hm => hr (List.mem_append_left _ hm))
theorem T57 (r : Ref sig .tc) (hr : r ∉ L57) : GenP.V61 m outs c (Proc.devRef .tc r) = GenP.V57 m outs c (Proc.devRef .tc r) :=
  (T58 m outs c r fun hm => hr (List.mem_append_right _ hm)).trans (GenP.V58_of m outs c r fun hm => hr (List.mem_append_left _ hm))
theorem T56 (r : Ref sig .tc) (hr : r ∉ L56) : GenP.V61 m outs c (Proc.devRef .tc r) = GenP.V56 m outs c (Proc.devRef .tc r) :=
  (T57 m outs c r fun hm => hr (List.mem_append_right _ hm)).trans (GenP.V57_of m outs c r fun hm => hr (List.mem_append_left _ hm))
theorem T55 (r : Ref sig .tc) (hr : r ∉ L55) : GenP.V61 m outs c (Proc.devRef .tc r) = GenP.V55 m outs c (Proc.devRef .tc r) :=
  (T56 m outs c r fun hm => hr (List.mem_append_right _ hm)).trans (GenP.V56_of m outs c r fun hm => hr (List.mem_append_left _ hm))
theorem T54 (r : Ref sig .tc) (hr : r ∉ L54) : GenP.V61 m outs c (Proc.devRef .tc r) = GenP.V54 m outs c (Proc.devRef .tc r) :=
  (T55 m outs c r fun hm => hr (List.mem_append_right _ hm)).trans (GenP.V55_of m outs c r fun hm => hr (List.mem_append_left _ hm))
theorem T53 (r : Ref sig .tc) (hr : r ∉ L53) : GenP.V61 m outs c (Proc.devRef .tc r) = GenP.V53 m outs c (Proc.devRef .tc r) :=
  (T54 m outs c r fun hm => hr (List.mem_append_right _ hm)).trans (GenP.V54_of m outs c r fun hm => hr (List.mem_append_left _ hm))
theorem T52 (r : Ref sig .tc) (hr : r ∉ L52) : GenP.V61 m outs c (Proc.devRef .tc r) = GenP.V52 m outs c (Proc.devRef .tc r) :=
  (T53 m outs c r fun hm => hr (List.mem_append_right _ hm)).trans (GenP.V53_of m outs c r fun hm => hr (List.mem_append_left _ hm))
theorem T51 (r : Ref sig .tc) (hr : r ∉ L51) : GenP.V61 m outs c (Proc.devRef .tc r) = GenP.V51 m outs c (Proc.devRef .tc r) :=
  (T52 m outs c r fun hm => hr (List.mem_append_right _ hm)).trans (GenP.V52_of m outs c r fun hm => hr (List.mem_append_left _ hm))
theorem T50 (r : Ref sig .tc) (hr : r ∉ L50) : GenP.V61 m outs c (Proc.devRef .tc r) = GenP.V50 m outs c (Proc.devRef .tc r) :=
  (T51 m outs c r fun hm => hr (List.mem_append_right _ hm)).trans (GenP.V51_of m outs c r fun hm => hr (List.mem_append_left _ hm))
theorem T49 (r : Ref sig .tc) (hr : r ∉ L49) : GenP.V61 m outs c (Proc.devRef .tc r) = GenP.V49 m outs c (Proc.devRef .tc r) :=
  (T50 m outs c r fun hm => hr (List.mem_append_right _ hm)).trans (GenP.V50_of m outs c r fun hm => hr (List.mem_append_left _ hm))
theorem T48 (r : Ref sig .tc) (hr : r ∉ L48) : GenP.V61 m outs c (Proc.devRef .tc r) = GenP.V48 m outs c (Proc.devRef .tc r) :=
  (T49 m outs c r fun hm => hr (List.mem_append_right _ hm)).trans (GenP.V49_of m outs c r fun hm => hr (List.mem_append_left _ hm))
theorem T47 (r : Ref sig .tc) (hr : r ∉ L47) : GenP.V61 m outs c (Proc.devRef .tc r) = GenP.V47 m outs c (Proc.devRef .tc r) :=
  (T48 m outs c r fun hm => hr (List.mem_append_right _ hm)).trans (GenP.V48_of m outs c r fun hm => hr (List.mem_append_left _ hm))
theorem T46 (r : Ref sig .tc) (hr : r ∉ L46) : GenP.V61 m outs c (Proc.devRef .tc r) = GenP.V46 m outs c (Proc.devRef .tc r) :=
  (T47 m outs c r fun hm => hr (List.mem_append_right _ hm)).trans (GenP.V47_of m outs c r fun hm => hr (List.mem_append_left _ hm))
theorem T45 (r : Ref sig .tc) (hr : r ∉ L45) : GenP.V61 m outs c (Proc.devRef .tc r) = GenP.V45 m outs c (Proc.devRef .tc r) :=
  (T46 m outs c r fun hm => hr (List.mem_append_right _ hm)).trans (GenP.V46_of m outs c r fun hm => hr (List.mem_append_left _ hm))
theorem T44 (r : Ref sig .tc) (hr : r ∉ L44) : GenP.V61 m outs c (Proc.devRef .tc r) = GenP.V44 m outs c (Proc.devRef .tc r) :=
  (T45 m outs c r fun hm => hr (List.mem_append_right _ hm)).trans (GenP.V45_of m outs c r fun hm => hr (List.mem_append_left _ hm))
theorem T43 (r : Ref sig .tc) (hr : r ∉ L43) : GenP.V61 m outs c (Proc.devRef .tc r) = GenP.V43 m outs c (Proc.devRef .tc r) :=
  (T44 m outs c r fun hm => hr (List.mem_append_right _ hm)).trans (GenP.V44_of m outs c r fun hm => hr (List.mem_append_left _ hm))
theorem T42 (r : Ref sig .tc) (hr : r ∉ L42) : GenP.V61 m outs c (Proc.devRef .tc r) = GenP.V42 m outs c (Proc.devRef .tc r) :=
  (T43 m outs c r fun hm => hr (List.mem_append_right _ hm)).trans (GenP.V43_of m outs c r fun hm => hr (List.mem_append_left _ hm))
theorem T41 (r : Ref sig .tc) (hr : r ∉ L41) : GenP.V61 m outs c (Proc.devRef .tc r) = GenP.V41 m outs c (Proc.devRef .tc r) :=
  (T42 m outs c r fun hm => hr (List.mem_append_right _ hm)).trans (GenP.V42_of m outs c r fun hm => hr (List.mem_append_left _ hm))
theorem T40 (r : Ref sig .tc) (hr : r ∉ L40) : GenP.V61 m outs c (Proc.devRef .tc r) = GenP.V40 m outs c (Proc.devRef .tc r) :=
  (T41 m outs c r fun hm => hr (List.mem_append_right _ hm)).trans (GenP.V41_of m outs c r fun hm => hr (List.mem_append_left _ hm))
theorem T39 (r : Ref sig .tc) (hr : r ∉ L39) : GenP.V61 m outs c (Proc.devRef .tc r) = GenP.V39 m outs c (Proc.devRef .tc r) :=
  (T40 m outs c r fun hm => hr (List.mem_append_right _ hm)).trans (GenP.V40_of m outs c r fun hm => hr (List.mem_append_left _ hm))
theorem T38 (r : Ref sig .tc) (hr : r ∉ L38) : GenP.V61 m outs c (Proc.devRef .tc r) = GenP.V38 m outs c (Proc.devRef .tc r) :=
  (T39 m outs c r fun hm => hr (List.mem_append_right _ hm)).trans (GenP.V39_of m outs c r fun hm => hr (List.mem_append_left _ hm))
theorem T37 (r : Ref sig .tc) (hr : r ∉ L37) : GenP.V61 m outs c (Proc.devRef .tc r) = GenP.V37 m outs c (Proc.devRef .tc r) :=
  (T38 m outs c r fun hm => hr (List.mem_append_right _ hm)).trans (GenP.V38_of m outs c r fun hm => hr (List.mem_append_left _ hm))
theorem T36 (r : Ref sig .tc) (hr : r ∉ L36) : GenP.V61 m outs c (Proc.devRef .tc r) = GenP.V36 m outs c (Proc.devRef .tc r) :=
  (T37 m outs c r fun hm => hr (List.mem_append_right _ hm)).trans (GenP.V37_of m outs c r fun hm => hr (List.mem_append_left _ hm))
theorem T35 (r : Ref sig .tc) (hr : r ∉ L35) : GenP.V61 m outs c (Proc.devRef .tc r) = GenP.V35 m outs c (Proc.devRef .tc r) :=
  (T36 m outs c r fun hm => hr (List.mem_append_right _ hm)).trans (GenP.V36_of m outs c r fun hm => hr (List.mem_append_left _ hm))
theorem T34 (r : Ref sig .tc) (hr : r ∉ L34) : GenP.V61 m outs c (Proc.devRef .tc r) = GenP.V34 m outs c (Proc.devRef .tc r) :=
  (T35 m outs c r fun hm => hr (List.mem_append_right _ hm)).trans (GenP.V35_of m outs c r fun hm => hr (List.mem_append_left _ hm))
theorem T33 (r : Ref sig .tc) (hr : r ∉ L33) : GenP.V61 m outs c (Proc.devRef .tc r) = GenP.V33 m outs c (Proc.devRef .tc r) :=
  (T34 m outs c r fun hm => hr (List.mem_append_right _ hm)).trans (GenP.V34_of m outs c r fun hm => hr (List.mem_append_left _ hm))
theorem T32 (r : Ref sig .tc) (hr : r ∉ L32) : GenP.V61 m outs c (Proc.devRef .tc r) = GenP.V32 m outs c (Proc.devRef .tc r) :=
  (T33 m outs c r fun hm => hr (List.mem_append_right _ hm)).trans (GenP.V33_of m outs c r fun hm => hr (List.mem_append_left _ hm))
theorem T31 (r : Ref sig .tc) (hr : r ∉ L31) : GenP.V61 m outs c (Proc.devRef .tc r) = GenP.V31 m outs c (Proc.devRef .tc r) :=
  (T32 m outs c r fun hm => hr (List.mem_append_right _ hm)).trans (GenP.V32_of m outs c r fun hm => hr (List.mem_append_left _ hm))
theorem T30 (r : Ref sig .tc) (hr : r ∉ L30) : GenP.V61 m outs c (Proc.devRef .tc r) = GenP.V30 m outs c (Proc.devRef .tc r) :=
  (T31 m outs c r fun hm => hr (List.mem_append_right _ hm)).trans (GenP.V31_of m outs c r fun hm => hr (List.mem_append_left _ hm))
theorem T29 (r : Ref sig .tc) (hr : r ∉ L29) : GenP.V61 m outs c (Proc.devRef .tc r) = GenP.V29 m outs c (Proc.devRef .tc r) :=
  (T30 m outs c r fun hm => hr (List.mem_append_right _ hm)).trans (GenP.V30_of m outs c r fun hm => hr (List.mem_append_left _ hm))
theorem T28 (r : Ref sig .tc) (hr : r ∉ L28) : GenP.V61 m outs c (Proc.devRef .tc r) = GenP.V28 m outs c (Proc.devRef .tc r) :=
  (T29 m outs c r fun hm => hr (List.mem_append_right _ hm)).trans (GenP.V29_of m outs c r fun hm => hr (List.mem_append_left _ hm))
theorem T27 (r : Ref sig .tc) (hr : r ∉ L27) : GenP.V61 m outs c (Proc.devRef .tc r) = GenP.V27 m outs c (Proc.devRef .tc r) :=
  (T28 m outs c r fun hm => hr (List.mem_append_right _ hm)).trans (GenP.V28_of m outs c r fun hm => hr (List.mem_append_left _ hm))
theorem T26 (r : Ref sig .tc) (hr : r ∉ L26) : GenP.V61 m outs c (Proc.devRef .tc r) = GenP.V26 m outs c (Proc.devRef .tc r) :=
  (T27 m outs c r fun hm => hr (List.mem_append_right _ hm)).trans (GenP.V27_of m outs c r fun hm => hr (List.mem_append_left _ hm))
theorem T25 (r : Ref sig .tc) (hr : r ∉ L25) : GenP.V61 m outs c (Proc.devRef .tc r) = GenP.V25 m outs c (Proc.devRef .tc r) :=
  (T26 m outs c r fun hm => hr (List.mem_append_right _ hm)).trans (GenP.V26_of m outs c r fun hm => hr (List.mem_append_left _ hm))
theorem T24 (r : Ref sig .tc) (hr : r ∉ L24) : GenP.V61 m outs c (Proc.devRef .tc r) = GenP.V24 m outs c (Proc.devRef .tc r) :=
  (T25 m outs c r fun hm => hr (List.mem_append_right _ hm)).trans (GenP.V25_of m outs c r fun hm => hr (List.mem_append_left _ hm))
theorem T23 (r : Ref sig .tc) (hr : r ∉ L23) : GenP.V61 m outs c (Proc.devRef .tc r) = GenP.V23 m outs c (Proc.devRef .tc r) :=
  (T24 m outs c r fun hm => hr (List.mem_append_right _ hm)).trans (GenP.V24_of m outs c r fun hm => hr (List.mem_append_left _ hm))
theorem T22 (r : Ref sig .tc) (hr : r ∉ L22) : GenP.V61 m outs c (Proc.devRef .tc r) = GenP.V22 m outs c (Proc.devRef .tc r) :=
  (T23 m outs c r fun hm => hr (List.mem_append_right _ hm)).trans (GenP.V23_of m outs c r fun hm => hr (List.mem_append_left _ hm))
theorem T21 (r : Ref sig .tc) (hr : r ∉ L21) : GenP.V61 m outs c (Proc.devRef .tc r) = GenP.V21 m outs c (Proc.devRef .tc r) :=
  (T22 m outs c r fun hm => hr (List.mem_append_right _ hm)).trans (GenP.V22_of m outs c r fun hm => hr (List.mem_append_left _ hm))
theorem T20 (r : Ref sig .tc) (hr : r ∉ L20) : GenP.V61 m outs c (Proc.devRef .tc r) = GenP.V20 m outs c (Proc.devRef .tc r) :=
  (T21 m outs c r fun hm => hr (List.mem_append_right _ hm)).trans (GenP.V21_of m outs c r fun hm => hr (List.mem_append_left _ hm))
theorem T19 (r : Ref sig .tc) (hr : r ∉ L19) : GenP.V61 m outs c (Proc.devRef .tc r) = GenP.V19 m outs c (Proc.devRef .tc r) :=
  (T20 m outs c r fun hm => hr (List.mem_append_right _ hm)).trans (GenP.V20_of m outs c r fun hm => hr (List.mem_append_left _ hm))
theorem T18 (r : Ref sig .tc) (hr : r ∉ L18) : GenP.V61 m outs c (Proc.devRef .tc r) = GenP.V18 m outs c (Proc.devRef .tc r) :=
  (T19 m outs c r fun hm => hr (List.mem_append_right _ hm)).trans (GenP.V19_of m outs c r fun hm => hr (List.mem_append_left _ hm))
theorem T17 (r : Ref sig .tc) (hr : r ∉ L17) : GenP.V61 m outs c (Proc.devRef .tc r) = GenP.V17 m outs c (Proc.devRef .tc r) :=
  (T18 m outs c r fun hm => hr (List.mem_append_right _ hm)).trans (GenP.V18_of m outs c r fun hm => hr (List.mem_append_left _ hm))
theorem T16 (r : Ref sig .tc) (hr : r ∉ L16) : GenP.V61 m outs c (Proc.devRef .tc r) = GenP.V16 m outs c (Proc.devRef .tc r) :=
  (T17 m outs c r fun hm => hr (List.mem_append_right _ hm)).trans (GenP.V17_of m outs c r fun hm => hr (List.mem_append_left _ hm))
theorem T15 (r : Ref sig .tc) (hr : r ∉ L15) : GenP.V61 m outs c (Proc.devRef .tc r) = GenP.V15 m outs c (Proc.devRef .tc r) :=
  (T16 m outs c r fun hm => hr (List.mem_append_right _ hm)).trans (GenP.V16_of m outs c r fun hm => hr (List.mem_append_left _ hm))
theorem T14 (r : Ref sig .tc) (hr : r ∉ L14) : GenP.V61 m outs c (Proc.devRef .tc r) = GenP.V14 m outs c (Proc.devRef .tc r) :=
  (T15 m outs c r fun hm => hr (List.mem_append_right _ hm)).trans (GenP.V15_of m outs c r fun hm => hr (List.mem_append_left _ hm))
theorem T13 (r : Ref sig .tc) (hr : r ∉ L13) : GenP.V61 m outs c (Proc.devRef .tc r) = GenP.V13 m outs c (Proc.devRef .tc r) :=
  (T14 m outs c r fun hm => hr (List.mem_append_right _ hm)).trans (GenP.V14_of m outs c r fun hm => hr (List.mem_append_left _ hm))
theorem T12 (r : Ref sig .tc) (hr : r ∉ L12) : GenP.V61 m outs c (Proc.devRef .tc r) = GenP.V12 m outs c (Proc.devRef .tc r) :=
  (T13 m outs c r fun hm => hr (List.mem_append_right _ hm)).trans (GenP.V13_of m outs c r fun hm => hr (List.mem_append_left _ hm))
theorem T11 (r : Ref sig .tc) (hr : r ∉ L11) : GenP.V61 m outs c (Proc.devRef .tc r) = GenP.V11 m outs c (Proc.devRef .tc r) :=
  (T12 m outs c r fun hm => hr (List.mem_append_right _ hm)).trans (GenP.V12_of m outs c r fun hm => hr (List.mem_append_left _ hm))
theorem T10 (r : Ref sig .tc) (hr : r ∉ L10) : GenP.V61 m outs c (Proc.devRef .tc r) = GenP.V10 m outs c (Proc.devRef .tc r) :=
  (T11 m outs c r fun hm => hr (List.mem_append_right _ hm)).trans (GenP.V11_of m outs c r fun hm => hr (List.mem_append_left _ hm))
theorem T9 (r : Ref sig .tc) (hr : r ∉ L9) : GenP.V61 m outs c (Proc.devRef .tc r) = GenP.V9 m outs c (Proc.devRef .tc r) :=
  (T10 m outs c r fun hm => hr (List.mem_append_right _ hm)).trans (GenP.V10_of m outs c r fun hm => hr (List.mem_append_left _ hm))
theorem T8 (r : Ref sig .tc) (hr : r ∉ L8) : GenP.V61 m outs c (Proc.devRef .tc r) = GenP.V8 m outs c (Proc.devRef .tc r) :=
  (T9 m outs c r fun hm => hr (List.mem_append_right _ hm)).trans (GenP.V9_of m outs c r fun hm => hr (List.mem_append_left _ hm))
theorem T7 (r : Ref sig .tc) (hr : r ∉ L7) : GenP.V61 m outs c (Proc.devRef .tc r) = GenP.V7 m outs c (Proc.devRef .tc r) :=
  (T8 m outs c r fun hm => hr (List.mem_append_right _ hm)).trans (GenP.V8_of m outs c r fun hm => hr (List.mem_append_left _ hm))
theorem T6 (r : Ref sig .tc) (hr : r ∉ L6) : GenP.V61 m outs c (Proc.devRef .tc r) = GenP.V6 m outs c (Proc.devRef .tc r) :=
  (T7 m outs c r fun hm => hr (List.mem_append_right _ hm)).trans (GenP.V7_of m outs c r fun hm => hr (List.mem_append_left _ hm))
theorem T5 (r : Ref sig .tc) (hr : r ∉ L5) : GenP.V61 m outs c (Proc.devRef .tc r) = GenP.V5 m outs c (Proc.devRef .tc r) :=
  (T6 m outs c r fun hm => hr (List.mem_append_right _ hm)).trans (GenP.V6_of m outs c r fun hm => hr (List.mem_append_left _ hm))
theorem T4 (r : Ref sig .tc) (hr : r ∉ L4) : GenP.V61 m outs c (Proc.devRef .tc r) = GenP.V4 m outs c (Proc.devRef .tc r) :=
  (T5 m outs c r fun hm => hr (List.mem_append_right _ hm)).trans (GenP.V5_of m outs c r fun hm => hr (List.mem_append_left _ hm))
theorem T3 (r : Ref sig .tc) (hr : r ∉ L3) : GenP.V61 m outs c (Proc.devRef .tc r) = GenP.V3 m outs c (Proc.devRef .tc r) :=
  (T4 m outs c r fun hm => hr (List.mem_append_right _ hm)).trans (GenP.V4_of m outs c r fun hm => hr (List.mem_append_left _ hm))
theorem T2 (r : Ref sig .tc) (hr : r ∉ L2) : GenP.V61 m outs c (Proc.devRef .tc r) = GenP.V2 m outs c (Proc.devRef .tc r) :=
  (T3 m outs c r fun hm => hr (List.mem_append_right _ hm)).trans (GenP.V3_of m outs c r fun hm => hr (List.mem_append_left _ hm))
theorem T1 (r : Ref sig .tc) (hr : r ∉ L1) : GenP.V61 m outs c (Proc.devRef .tc r) = GenP.V1 m c (Proc.devRef .tc r) :=
  (T2 m outs c r fun hm => hr (List.mem_cons_of_mem _ hm)).trans (GenP.V2_of m outs c r fun hm => hr (List.mem_cons.mpr (Or.inl (List.mem_singleton.mp hm))))

/-! ## Each stretch writes one buffer per operation, in the order listed -/

theorem W1 : WritesAt (hostOps0 : List (HloOp τ sig (Elt F))) hostOps0_W :=
  .cons rfl <| .cons rfl <| .cons rfl <| .cons rfl <| .cons rfl <| .cons rfl <| .nil
theorem W3 : WritesAt (hostOps1 : List (HloOp τ sig (Elt F))) hostOps1_W :=
  .cons rfl <| .cons rfl <| .cons rfl <| .cons rfl <| .cons rfl <| .cons rfl <| .cons rfl <| .cons rfl <| .cons rfl <| .cons rfl <| .cons rfl <| .cons rfl <| .cons rfl <| .nil
theorem W4 : WritesAt (hostOps1_1 : List (HloOp τ sig (Elt F))) hostOps1_1_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W5 : WritesAt (hostOps1_2 : List (HloOp τ sig (Elt F))) hostOps1_2_W :=
  .cons rfl <| .nil
theorem W6 : WritesAt (hostOps1_3 : List (HloOp τ sig (Elt F))) hostOps1_3_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W7 : WritesAt (hostOps1_4 : List (HloOp τ sig (Elt F))) hostOps1_4_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W8 : WritesAt (hostOps1_5 : List (HloOp τ sig (Elt F))) hostOps1_5_W :=
  .cons rfl <| .cons rfl <| .cons rfl <| .cons rfl <| .cons rfl <| .cons rfl <| .nil
theorem W9 : WritesAt (hostOps1_6 : List (HloOp τ sig (Elt F))) hostOps1_6_W :=
  .cons rfl <| .cons rfl <| .cons rfl <| .cons rfl <| .cons rfl <| .nil
theorem W10 : WritesAt (hostOps1_7 : List (HloOp τ sig (Elt F))) hostOps1_7_W :=
  .cons rfl <| .cons rfl <| .cons rfl <| .cons rfl <| .cons rfl <| .cons rfl <| .nil
theorem W11 : WritesAt (hostOps1_8 : List (HloOp τ sig (Elt F))) hostOps1_8_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W12 : WritesAt (hostOps1_9 : List (HloOp τ sig (Elt F))) hostOps1_9_W :=
  .cons rfl <| .cons rfl <| .cons rfl <| .nil
theorem W13 : WritesAt (hostOps1_10 : List (HloOp τ sig (Elt F))) hostOps1_10_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W14 : WritesAt (hostOps1_11 : List (HloOp τ sig (Elt F))) hostOps1_11_W :=
  .cons rfl <| .cons rfl <| .cons rfl <| .cons rfl <| .cons rfl <| .cons rfl <| .nil
theorem W15 : WritesAt (hostOps1_12 : List (HloOp τ sig (Elt F))) hostOps1_12_W :=
  .cons rfl <| .cons rfl <| .cons rfl <| .cons rfl <| .cons rfl <| .nil
theorem W16 : WritesAt (hostOps1_13 : List (HloOp τ sig (Elt F))) hostOps1_13_W :=
  .cons rfl <| .cons rfl <| .cons rfl <| .cons rfl <| .cons rfl <| .cons rfl <| .nil
theorem W17 : WritesAt (hostOps1_14 : List (HloOp τ sig (Elt F))) hostOps1_14_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W18 : WritesAt (hostOps1_15 : List (HloOp τ sig (Elt F))) hostOps1_15_W :=
  .cons rfl <| .cons rfl <| .cons rfl <| .nil
theorem W19 : WritesAt (hostOps1_16 : List (HloOp τ sig (Elt F))) hostOps1_16_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W20 : WritesAt (hostOps1_17 : List (HloOp τ sig (Elt F))) hostOps1_17_W :=
  .cons rfl <| .cons rfl <| .cons rfl <| .cons rfl <| .cons rfl <| .cons rfl <| .nil
theorem W21 : WritesAt (hostOps1_18 : List (HloOp τ sig (Elt F))) hostOps1_18_W :=
  .cons rfl <| .cons rfl <| .cons rfl <| .cons rfl <| .cons rfl <| .nil
theorem W22 : WritesAt (hostOps1_19 : List (HloOp τ sig (Elt F))) hostOps1_19_W :=
  .cons rfl <| .cons rfl <| .cons rfl <| .cons rfl <| .cons rfl <| .cons rfl <| .nil
theorem W23 : WritesAt (hostOps1_20 : List (HloOp τ sig (Elt F))) hostOps1_20_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W24 : WritesAt (hostOps1_21 : List (HloOp τ sig (Elt F))) hostOps1_21_W :=
  .cons rfl <| .cons rfl <| .cons rfl <| .nil
theorem W25 : WritesAt (hostOps1_22 : List (HloOp τ sig (Elt F))) hostOps1_22_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W26 : WritesAt (hostOps1_23 : List (HloOp τ sig (Elt F))) hostOps1_23_W :=
  .cons rfl <| .cons rfl <| .cons rfl <| .cons rfl <| .cons rfl <| .cons rfl <| .nil
theorem W27 : WritesAt (hostOps1_24 : List (HloOp τ sig (Elt F))) hostOps1_24_W :=
  .cons rfl <| .cons rfl <| .cons rfl <| .cons rfl <| .cons rfl <| .nil
theorem W28 : WritesAt (hostOps1_25 : List (HloOp τ sig (Elt F))) hostOps1_25_W :=
  .cons rfl <| .cons rfl <| .cons rfl <| .cons rfl <| .cons rfl <| .cons rfl <| .nil
theorem W29 : WritesAt (hostOps1_26 : List (HloOp τ sig (Elt F))) hostOps1_26_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W30 : WritesAt (hostOps1_27 : List (HloOp τ sig (Elt F))) hostOps1_27_W :=
  .cons rfl <| .cons rfl <| .cons rfl <| .nil
theorem W31 : WritesAt (hostOps1_28 : List (HloOp τ sig (Elt F))) hostOps1_28_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W32 : WritesAt (hostOps1_29 : List (HloOp τ sig (Elt F))) hostOps1_29_W :=
  .cons rfl <| .cons rfl <| .cons rfl <| .cons rfl <| .cons rfl <| .cons rfl <| .nil
theorem W33 : WritesAt (hostOps1_30 : List (HloOp τ sig (Elt F))) hostOps1_30_W :=
  .cons rfl <| .cons rfl <| .cons rfl <| .cons rfl <| .cons rfl <| .nil
theorem W34 : WritesAt (hostOps1_31 : List (HloOp τ sig (Elt F))) hostOps1_31_W :=
  .cons rfl <| .cons rfl <| .cons rfl <| .cons rfl <| .cons rfl <| .cons rfl <| .nil
theorem W35 : WritesAt (hostOps1_32 : List (HloOp τ sig (Elt F))) hostOps1_32_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W36 : WritesAt (hostOps1_33 : List (HloOp τ sig (Elt F))) hostOps1_33_W :=
  .cons rfl <| .cons rfl <| .cons rfl <| .nil
theorem W37 : WritesAt (hostOps1_34 : List (HloOp τ sig (Elt F))) hostOps1_34_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W38 : WritesAt (hostOps1_35 : List (HloOp τ sig (Elt F))) hostOps1_35_W :=
  .cons rfl <| .cons rfl <| .cons rfl <| .cons rfl <| .cons rfl <| .cons rfl <| .nil
theorem W39 : WritesAt (hostOps1_36 : List (HloOp τ sig (Elt F))) hostOps1_36_W :=
  .cons rfl <| .cons rfl <| .cons rfl <| .cons rfl <| .cons rfl <| .nil
theorem W40 : WritesAt (hostOps1_37 : List (HloOp τ sig (Elt F))) hostOps1_37_W :=
  .cons rfl <| .cons rfl <| .cons rfl <| .cons rfl <| .cons rfl <| .cons rfl <| .nil
theorem W41 : WritesAt (hostOps1_38 : List (HloOp τ sig (Elt F))) hostOps1_38_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W42 : WritesAt (hostOps1_39 : List (HloOp τ sig (Elt F))) hostOps1_39_W :=
  .cons rfl <| .cons rfl <| .cons rfl <| .nil
theorem W43 : WritesAt (hostOps1_40 : List (HloOp τ sig (Elt F))) hostOps1_40_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W44 : WritesAt (hostOps1_41 : List (HloOp τ sig (Elt F))) hostOps1_41_W :=
  .cons rfl <| .cons rfl <| .cons rfl <| .cons rfl <| .cons rfl <| .cons rfl <| .nil
theorem W45 : WritesAt (hostOps1_42 : List (HloOp τ sig (Elt F))) hostOps1_42_W :=
  .cons rfl <| .cons rfl <| .cons rfl <| .cons rfl <| .cons rfl <| .nil
theorem W46 : WritesAt (hostOps1_43 : List (HloOp τ sig (Elt F))) hostOps1_43_W :=
  .cons rfl <| .cons rfl <| .cons rfl <| .cons rfl <| .cons rfl <| .cons rfl <| .nil
theorem W47 : WritesAt (hostOps1_44 : List (HloOp τ sig (Elt F))) hostOps1_44_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W48 : WritesAt (hostOps1_45 : List (HloOp τ sig (Elt F))) hostOps1_45_W :=
  .cons rfl <| .cons rfl <| .cons rfl <| .nil
theorem W49 : WritesAt (hostOps1_46 : List (HloOp τ sig (Elt F))) hostOps1_46_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W50 : WritesAt (hostOps1_47 : List (HloOp τ sig (Elt F))) hostOps1_47_W :=
  .cons rfl <| .cons rfl <| .cons rfl <| .cons rfl <| .cons rfl <| .cons rfl <| .nil
theorem W51 : WritesAt (hostOps1_48 : List (HloOp τ sig (Elt F))) hostOps1_48_W :=
  .cons rfl <| .cons rfl <| .cons rfl <| .cons rfl <| .cons rfl <| .nil
theorem W52 : WritesAt (hostOps1_49 : List (HloOp τ sig (Elt F))) hostOps1_49_W :=
  .cons rfl <| .cons rfl <| .cons rfl <| .cons rfl <| .cons rfl <| .cons rfl <| .nil
theorem W53 : WritesAt (hostOps1_50 : List (HloOp τ sig (Elt F))) hostOps1_50_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W54 : WritesAt (hostOps1_51 : List (HloOp τ sig (Elt F))) hostOps1_51_W :=
  .cons rfl <| .cons rfl <| .cons rfl <| .nil
theorem W55 : WritesAt (hostOps1_52 : List (HloOp τ sig (Elt F))) hostOps1_52_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W56 : WritesAt (hostOps1_53 : List (HloOp τ sig (Elt F))) hostOps1_53_W :=
  .cons rfl <| .cons rfl <| .cons rfl <| .cons rfl <| .cons rfl <| .cons rfl <| .nil
theorem W57 : WritesAt (hostOps1_54 : List (HloOp τ sig (Elt F))) hostOps1_54_W :=
  .cons rfl <| .cons rfl <| .cons rfl <| .cons rfl <| .cons rfl <| .nil
theorem W58 : WritesAt (hostOps1_55 : List (HloOp τ sig (Elt F))) hostOps1_55_W :=
  .cons rfl <| .cons rfl <| .cons rfl <| .cons rfl <| .cons rfl <| .cons rfl <| .nil
theorem W59 : WritesAt (hostOps1_56 : List (HloOp τ sig (Elt F))) hostOps1_56_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem W60 : WritesAt (hostOps1_57 : List (HloOp τ sig (Elt F))) hostOps1_57_W :=
  .cons rfl <| .cons rfl <| .cons rfl <| .nil
theorem W61 : WritesAt (hostOps1_58 : List (HloOp τ sig (Elt F))) hostOps1_58_W :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-! ## The first region's result and the arguments at the end -/

theorem V61_main_v6 : GenP.V61 m outs c main_v6 = outs 2 main_v6 c :=
  (T2 m outs c main_v6 (nk (by decide +kernel))).trans (Function.update_self ..)
theorem V61_arg0 : GenP.V61 m outs c main_arg0 = m ((c : Thread nD τ).loc main_arg0) :=
  (T1 m outs c main_arg0 (nk (by decide +kernel))).trans <| (GenP.V1_of m c main_arg0 (by decide)).trans rfl
theorem V61_arg1 : GenP.V61 m outs c main_arg1 = m ((c : Thread nD τ).loc main_arg1) :=
  (T1 m outs c main_arg1 (nk (by decide +kernel))).trans <| (GenP.V1_of m c main_arg1 (by decide)).trans rfl
theorem V61_arg2 : GenP.V61 m outs c main_arg2 = m ((c : Thread nD τ).loc main_arg2) :=
  (T1 m outs c main_arg2 (nk (by decide +kernel))).trans <| (GenP.V1_of m c main_arg2 (by decide)).trans rfl
theorem V61_arg3 : GenP.V61 m outs c main_arg3 = m ((c : Thread nD τ).loc main_arg3) :=
  (T1 m outs c main_arg3 (nk (by decide +kernel))).trans <| (GenP.V1_of m c main_arg3 (by decide)).trans rfl
theorem V61_arg4 : GenP.V61 m outs c main_arg4 = m ((c : Thread nD τ).loc main_arg4) :=
  (T1 m outs c main_arg4 (nk (by decide +kernel))).trans <| (GenP.V1_of m c main_arg4 (by decide)).trans rfl
theorem V61_arg5 : GenP.V61 m outs c main_arg5 = m ((c : Thread nD τ).loc main_arg5) :=
  (T1 m outs c main_arg5 (nk (by decide +kernel))).trans <| (GenP.V1_of m c main_arg5 (by decide)).trans rfl
theorem V61_arg6 : GenP.V61 m outs c main_arg6 = m ((c : Thread nD τ).loc main_arg6) :=
  (T1 m outs c main_arg6 (nk (by decide +kernel))).trans <| (GenP.V1_of m c main_arg6 (by decide)).trans rfl
theorem V61_arg7 : GenP.V61 m outs c main_arg7 = m ((c : Thread nD τ).loc main_arg7) :=
  (T1 m outs c main_arg7 (nk (by decide +kernel))).trans <| (GenP.V1_of m c main_arg7 (by decide)).trans rfl
theorem V61_arg8 : GenP.V61 m outs c main_arg8 = m ((c : Thread nD τ).loc main_arg8) :=
  (T1 m outs c main_arg8 (nk (by decide +kernel))).trans <| (GenP.V1_of m c main_arg8 (by decide)).trans rfl
theorem V61_arg9 : GenP.V61 m outs c main_arg9 = m ((c : Thread nD τ).loc main_arg9) :=
  (T1 m outs c main_arg9 (nk (by decide +kernel))).trans <| (GenP.V1_of m c main_arg9 (by decide)).trans rfl
theorem V61_arg10 : GenP.V61 m outs c main_arg10 = m ((c : Thread nD τ).loc main_arg10) :=
  (T1 m outs c main_arg10 (nk (by decide +kernel))).trans <| (GenP.V1_of m c main_arg10 (by decide)).trans rfl

end Cert.KernelIdeal.Glue
-- ==== Proof.LibReadEndN.lean ====
/-
  An operation of any number of operands read back against an END valuation, and the contents a reshape leaves.

  The line of operations `l`, run from `V`, is single-assignment (`WritesAt`); `E` is the contents at the very end and
  agrees with the contents right after `l` on every buffer outside `later`. An operation of `l` taking a family of `n`
  operands, none of which (nor its result) is written later in `l` or in `later`, satisfies its defining equation with
  every buffer read at the end: `E y = f (fun k => E (xs k))`.

  General in the topology, the reference signature and the element values.
-/
import proofs.«125710_j13511967113615_2_alg».proof.Proof.LibReadEnd

noncomputable section

namespace Cert.ReadBack

open Idealize.ShloMosaic Idealize.ShloMosaic.StableHlo

variable {τ : Topo} {sig : RefSig} {Val : EltTy → Type}

/-- After the line and `G`: an operation of `n` operands satisfies its equation, each operand read after the line and `G`. -/
theorem readN {l : List (HloOp τ sig Val)} {W : List (Ref sig .tc)} (h : WritesAt l W)
    (G : Valuation τ sig Val → Valuation τ sig Val) (W' : List (Ref sig .tc))
    (hG : ∀ (X : Valuation τ sig Val) (r : Ref sig .tc), r ∉ W' → G X (Proc.devRef .tc r) = X (Proc.devRef .tc r))
    (j : Nat) (V : Valuation τ sig Val)
    {n : Nat} (xs : Fin n → Ref sig .tc) (y : Ref sig .tc)
    (f : ((k : Fin n) → (xs k).ty.Contents Val) → y.ty.Contents Val) (hxs hy)
    (hop : l[j]? = some (nary xs y f hxs hy))
    (ny : y ∉ W.drop (j + 1) ++ W') (nxs : ∀ k, xs k ∉ W.drop j ++ W') :
    G (after l V) (Proc.devRef .tc y) = f (fun k => G (after l V) (Proc.devRef .tc (xs k))) := by
  have hx : (fun k => G (after l V) (Proc.devRef .tc (xs k)))
      = fun k => after (l.take j) V (Proc.devRef .tc (xs k)) :=
    funext fun k => read_operand h G W' hG j V (nxs k)
  rw [hx]
  exact (read_result h G W' hG j V _ hop ny).trans (nary_result xs y f hxs hy _)

end Cert.ReadBack

namespace Cert.ReadEnd

open Idealize.ShloMosaic Idealize.ShloMosaic.StableHlo Cert.ReadBack

variable {τ : Topo} {sig : RefSig} {Val : EltTy → Type}

/-- An operation of `n` operands read at the end. -/
theorem endN {l : List (HloOp τ sig Val)} {W : List (Ref sig .tc)} (h : WritesAt l W)
    (V E : Valuation τ sig Val) (later : List (Ref sig .tc))
    (T : ∀ r : Ref sig .tc, r ∉ later → E (Proc.devRef .tc r) = after l V (Proc.devRef .tc r))
    (j : Nat) {n : Nat} (xs : Fin n → Ref sig .tc) (y : Ref sig .tc)
    (f : ((k : Fin n) → (xs k).ty.Contents Val) → y.ty.Contents Val) (hxs hy)
    (hop : l[j]? = some (nary xs y f hxs hy))
    (ny : y ∉ W.drop (j + 1) ++ later) (nxs : ∀ k, xs k ∉ W.drop j ++ later) :
    E (Proc.devRef .tc y) = f (fun k => E (Proc.devRef .tc (xs k))) := by
  have hl : ∀ {r : Ref sig .tc} {L : List (Ref sig .tc)}, r ∉ L ++ later → r ∉ later :=
    fun hr hm => hr (List.mem_append.mpr (Or.inr hm))
  have hn : ∀ {r : Ref sig .tc} {L : List (Ref sig .tc)}, r ∉ L ++ later → r ∉ L ++ [] := by
    intro r L hr; simpa using fun hm => hr (List.mem_append.mpr (Or.inl hm))
  have hx : (fun k => E (Proc.devRef .tc (xs k))) = fun k => after l V (Proc.devRef .tc (xs k)) :=
    funext fun k => T (xs k) (hl (nxs k))
  rw [T y (hl ny), hx]
  exact readN h id [] (fun _ _ _ => rfl) j V xs y f hxs hy hop (hn ny) (fun k => hn (nxs k))

/-- What a reshape leaves in its result, as a function of its operand's contents: the same elements in row-major
    order at the result's shape (the right-hand side of `endReshape`). -/
abbrev reshapeOf (x y : Ref sig .tc) (he : x.ty.elt = y.ty.elt) (hn : x.ty.shape.ShapeCasts y.ty.shape)
    (v : x.ty.Contents Val) : y.ty.Contents Val :=
  fun i => he ▸ shapeCast y.ty.shape v hn i

end Cert.ReadEnd
-- ==== Proof.GlueRead0.lean ====
/-
  The idealized kernel program's host operations read back at the contents the second kernel region is entered with:
  one equation per operation, its result and its operands all read at V61 (part 0 of the table: hostOps0 operation 0 to
  hostOps1_4 operation 17). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v0 : GenP.V61 m outs c (Proc.devRef .tc main_v0) = reshapeOf main_arg5 main_v0 rfl shapeCasts_S64_S1x64 (GenP.V61 m outs c (Proc.devRef .tc main_arg5)) :=
  endReshape (W1 (F := F)) (GenP.V0 m c) (GenP.V61 m outs c) L1 (T1 m outs c) 0 main_arg5 main_v0 _ _ _ _ rfl (nk (by decide +kernel)) (nk (by decide +kernel))
theorem rd_main_v1 : GenP.V61 m outs c (Proc.devRef .tc main_v1) = reshapeOf main_arg6 main_v1 rfl shapeCasts_S64_S1x64 (GenP.V61 m outs c (Proc.devRef .tc main_arg6)) :=
  endReshape (W1 (F := F)) (GenP.V0 m c) (GenP.V61 m outs c) L1 (T1 m outs c) 1 main_arg6 main_v1 _ _ _ _ rfl (nk (by decide +kernel)) (nk (by decide +kernel))
theorem rd_main_v2 : GenP.V61 m outs c (Proc.devRef .tc main_v2) = reshapeOf main_arg7 main_v2 rfl shapeCasts_S64_S1x64 (GenP.V61 m outs c (Proc.devRef .tc main_arg7)) :=
  endReshape (W1 (F := F)) (GenP.V0 m c) (GenP.V61 m outs c) L1 (T1 m outs c) 2 main_arg7 main_v2 _ _ _ _ rfl (nk (by decide +kernel)) (nk (by decide +kernel))
theorem rd_main_v3 : GenP.V61 m outs c (Proc.devRef .tc main_v3) = reshapeOf main_arg8 main_v3 rfl shapeCasts_S64_S1x64 (GenP.V61 m outs c (Proc.devRef .tc main_arg8)) :=
  endReshape (W1 (F := F)) (GenP.V0 m c) (GenP.V61 m outs c) L1 (T1 m outs c) 3 main_arg8 main_v3 _ _ _ _ rfl (nk (by decide +kernel)) (nk (by decide +kernel))
theorem rd_main_v4 : GenP.V61 m outs c (Proc.devRef .tc main_v4) = reshapeOf main_arg9 main_v4 rfl shapeCasts_S256_S1x256 (GenP.V61 m outs c (Proc.devRef .tc main_arg9)) :=
  endReshape (W1 (F := F)) (GenP.V0 m c) (GenP.V61 m outs c) L1 (T1 m outs c) 4 main_arg9 main_v4 _ _ _ _ rfl (nk (by decide +kernel)) (nk (by decide +kernel))
theorem rd_main_v5 : GenP.V61 m outs c (Proc.devRef .tc main_v5) = reshapeOf main_arg10 main_v5 rfl shapeCasts_S256_S1x256 (GenP.V61 m outs c (Proc.devRef .tc main_arg10)) :=
  endReshape (W1 (F := F)) (GenP.V0 m c) (GenP.V61 m outs c) L1 (T1 m outs c) 5 main_arg10 main_v5 _ _ _ _ rfl (nk (by decide +kernel)) (nk (by decide +kernel))
theorem rd_main_c : GenP.V61 m outs c (Proc.devRef .tc main_c) = (constantI S_ 32 200000#32) :=
  end0 (W3 (F := F)) (GenP.V2 m outs c) (GenP.V61 m outs c) L3 (T3 m outs c) 0 main_c _ _ rfl (nk (by decide +kernel))
theorem rd_main_v7 : GenP.V61 m outs c (Proc.devRef .tc main_v7) = (broadcastInDim S589824 ![] bcast_S_S589824 : (⟨S_, .i32⟩ : BufTy).Contents (Elt F) → (⟨S589824, .i32⟩ : BufTy).Contents (Elt F)) (GenP.V61 m outs c (Proc.devRef .tc main_c)) :=
  end1 (W3 (F := F)) (GenP.V2 m outs c) (GenP.V61 m outs c) L3 (T3 m outs c) 1 main_c main_v7 _ _ _ rfl (nk (by decide +kernel)) (nk (by decide +kernel))
theorem rd_main_v8 : GenP.V61 m outs c (Proc.devRef .tc main_v8) = (iotaInDim S200000 32 0) :=
  end0 (W3 (F := F)) (GenP.V2 m outs c) (GenP.V61 m outs c) L3 (T3 m outs c) 2 main_v8 _ _ rfl (nk (by decide +kernel))
theorem rd_main_c_0 : GenP.V61 m outs c (Proc.devRef .tc main_c_0) = (constantI S_ 32 0#32) :=
  end0 (W3 (F := F)) (GenP.V2 m outs c) (GenP.V61 m outs c) L3 (T3 m outs c) 3 main_c_0 _ _ rfl (nk (by decide +kernel))
theorem rd_main_v9 : GenP.V61 m outs c (Proc.devRef .tc main_v9) = (broadcastInDim S200000 ![] bcast_S_S200000 : (⟨S_, .i32⟩ : BufTy).Contents (Elt F) → (⟨S200000, .i32⟩ : BufTy).Contents (Elt F)) (GenP.V61 m outs c (Proc.devRef .tc main_c_0)) :=
  end1 (W3 (F := F)) (GenP.V2 m outs c) (GenP.V61 m outs c) L3 (T3 m outs c) 4 main_c_0 main_v9 _ _ _ rfl (nk (by decide +kernel)) (nk (by decide +kernel))
theorem rd_main_v10 : GenP.V61 m outs c (Proc.devRef .tc main_v10) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_arg1)) (GenP.V61 m outs c (Proc.devRef .tc main_v9)) :=
  end2 (W3 (F := F)) (GenP.V2 m outs c) (GenP.V61 m outs c) L3 (T3 m outs c) 5 main_arg1 main_v9 main_v10 _ _ _ _ rfl (nk (by decide +kernel)) (nk (by decide +kernel)) (nk (by decide +kernel))
theorem rd_main_c_1 : GenP.V61 m outs c (Proc.devRef .tc main_c_1) = (constantI S_ 32 589824#32) :=
  end0 (W3 (F := F)) (GenP.V2 m outs c) (GenP.V61 m outs c) L3 (T3 m outs c) 6 main_c_1 _ _ rfl (nk (by decide +kernel))
theorem rd_main_v11 : GenP.V61 m outs c (Proc.devRef .tc main_v11) = (broadcastInDim S200000 ![] bcast_S_S200000 : (⟨S_, .i32⟩ : BufTy).Contents (Elt F) → (⟨S200000, .i32⟩ : BufTy).Contents (Elt F)) (GenP.V61 m outs c (Proc.devRef .tc main_c_1)) :=
  end1 (W3 (F := F)) (GenP.V2 m outs c) (GenP.V61 m outs c) L3 (T3 m outs c) 7 main_c_1 main_v11 _ _ _ rfl (nk (by decide +kernel)) (nk (by decide +kernel))
theorem rd_main_v12 : GenP.V61 m outs c (Proc.devRef .tc main_v12) = (addi : (⟨S200000, .i32⟩ : BufTy).Contents (Elt F) → (⟨S200000, .i32⟩ : BufTy).Contents (Elt F) → (⟨S200000, .i32⟩ : BufTy).Contents (Elt F)) (GenP.V61 m outs c (Proc.devRef .tc main_arg1)) (GenP.V61 m outs c (Proc.devRef .tc main_v11)) :=
  end2 (W3 (F := F)) (GenP.V2 m outs c) (GenP.V61 m outs c) L3 (T3 m outs c) 8 main_arg1 main_v11 main_v12 _ _ _ _ rfl (nk (by decide +kernel)) (nk (by decide +kernel)) (nk (by decide +kernel))
theorem rd_main_v13 : GenP.V61 m outs c (Proc.devRef .tc main_v13) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v10)) (GenP.V61 m outs c (Proc.devRef .tc main_v12)) (GenP.V61 m outs c (Proc.devRef .tc main_arg1)) :=
  end3 (W3 (F := F)) (GenP.V2 m outs c) (GenP.V61 m outs c) L3 (T3 m outs c) 9 main_v10 main_v12 main_arg1 main_v13 _ _ _ _ _ rfl (nk (by decide +kernel)) (nk (by decide +kernel)) (nk (by decide +kernel)) (nk (by decide +kernel))
theorem rd_main_v14 : GenP.V61 m outs c (Proc.devRef .tc main_v14) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v13)) :=
  end1 (W3 (F := F)) (GenP.V2 m outs c) (GenP.V61 m outs c) L3 (T3 m outs c) 10 main_v13 main_v14 _ _ _ rfl (nk (by decide +kernel)) (nk (by decide +kernel))
theorem rd_main_v15 : GenP.V61 m outs c (Proc.devRef .tc main_v15) = ((fun x i u => Host.scatter scatter_S589824_S200000x1_S200000_n_0_0_1 (fun _ b => b) x i u) : (⟨S589824, .i32⟩ : BufTy).Contents (Elt F) → (⟨S200000x1, .i32⟩ : BufTy).Contents (Elt F) → (⟨S200000, .i32⟩ : BufTy).Contents (Elt F) → (⟨S589824, .i32⟩ : BufTy).Contents (Elt F)) (GenP.V61 m outs c (Proc.devRef .tc main_v7)) (GenP.V61 m outs c (Proc.devRef .tc main_v14)) (GenP.V61 m outs c (Proc.devRef .tc main_v8)) :=
  end3 (W3 (F := F)) (GenP.V2 m outs c) (GenP.V61 m outs c) L3 (T3 m outs c) 11 main_v7 main_v14 main_v8 main_v15 _ _ _ _ _ rfl (nk (by decide +kernel)) (nk (by decide +kernel)) (nk (by decide +kernel)) (nk (by decide +kernel))
theorem rd_main_c_2 : GenP.V61 m outs c (Proc.devRef .tc main_c_2) = (constantI S_ 32 768#32) :=
  end0 (W3 (F := F)) (GenP.V2 m outs c) (GenP.V61 m outs c) L3 (T3 m outs c) 12 main_c_2 _ _ rfl (nk (by decide +kernel))
theorem rd_main_call0_v0 : GenP.V61 m outs c (Proc.devRef .tc main_call0_v0) = (id : (⟨S_, .i32⟩ : BufTy).Contents (Elt F) → (⟨S_, .i32⟩ : BufTy).Contents (Elt F)) (GenP.V61 m outs c (Proc.devRef .tc main_c_2)) :=
  end1 (W4 (F := F)) (GenP.V3 m outs c) (GenP.V61 m outs c) L4 (T4 m outs c) 0 main_c_2 main_call0_v0 _ _ _ rfl (nk (by decide +kernel)) (nk (by decide +kernel))
theorem rd_main_call0_v1 : GenP.V61 m outs c (Proc.devRef .tc main_call0_v1) = ((broadcastInDim S200000 ![] bcast_S_S200000) : (⟨S_, .i32⟩ : BufTy).Contents (Elt F) → (⟨S200000, .i32⟩ : BufTy).Contents (Elt F)) (GenP.V61 m outs c (Proc.devRef .tc main_call0_v0)) :=
  end1 (W4 (F := F)) (GenP.V3 m outs c) (GenP.V61 m outs c) L4 (T4 m outs c) 1 main_call0_v0 main_call0_v1 _ _ _ rfl (nk (by decide +kernel)) (nk (by decide +kernel))
theorem rd_main_call0_v2 : GenP.V61 m outs c (Proc.devRef .tc main_call0_v2) = (Host.divsi : (⟨S200000, .i32⟩ : BufTy).Contents (Elt F) → (⟨S200000, .i32⟩ : BufTy).Contents (Elt F) → (⟨S200000, .i32⟩ : BufTy).Contents (Elt F)) (GenP.V61 m outs c (Proc.devRef .tc main_arg1)) (GenP.V61 m outs c (Proc.devRef .tc main_call0_v1)) :=
  end2 (W4 (F := F)) (GenP.V3 m outs c) (GenP.V61 m outs c) L4 (T4 m outs c) 2 main_arg1 main_call0_v1 main_call0_v2 _ _ _ _ rfl (nk (by decide +kernel)) (nk (by decide +kernel)) (nk (by decide +kernel))
theorem rd_main_call0_v3 : GenP.V61 m outs c (Proc.devRef .tc main_call0_v3) = (signi : (⟨S200000, .i32⟩ : BufTy).Contents (Elt F) → (⟨S200000, .i32⟩ : BufTy).Contents (Elt F)) (GenP.V61 m outs c (Proc.devRef .tc main_arg1)) :=
  end1 (W4 (F := F)) (GenP.V3 m outs c) (GenP.V61 m outs c) L4 (T4 m outs c) 3 main_arg1 main_call0_v3 _ _ _ rfl (nk (by decide +kernel)) (nk (by decide +kernel))
theorem rd_main_call0_v4 : GenP.V61 m outs c (Proc.devRef .tc main_call0_v4) = (signi : (⟨S_, .i32⟩ : BufTy).Contents (Elt F) → (⟨S_, .i32⟩ : BufTy).Contents (Elt F)) (GenP.V61 m outs c (Proc.devRef .tc main_call0_v0)) :=
  end1 (W4 (F := F)) (GenP.V3 m outs c) (GenP.V61 m outs c) L4 (T4 m outs c) 4 main_call0_v0 main_call0_v4 _ _ _ rfl (nk (by decide +kernel)) (nk (by decide +kernel))
theorem rd_main_call0_v5 : GenP.V61 m outs c (Proc.devRef .tc main_call0_v5) = ((broadcastInDim S200000 ![] bcast_S_S200000) : (⟨S_, .i32⟩ : BufTy).Contents (Elt F) → (⟨S200000, .i32⟩ : BufTy).Contents (Elt F)) (GenP.V61 m outs c (Proc.devRef .tc main_call0_v4)) :=
  end1 (W4 (F := F)) (GenP.V3 m outs c) (GenP.V61 m outs c) L4 (T4 m outs c) 5 main_call0_v4 main_call0_v5 _ _ _ rfl (nk (by decide +kernel)) (nk (by decide +kernel))
theorem rd_main_call0_v6 : GenP.V61 m outs c (Proc.devRef .tc main_call0_v6) = ((cmpi .ne) : (⟨S200000, .i32⟩ : BufTy).Contents (Elt F) → (⟨S200000, .i32⟩ : BufTy).Contents (Elt F) → (⟨S200000, .i1⟩ : BufTy).Contents (Elt F)) (GenP.V61 m outs c (Proc.devRef .tc main_call0_v3)) (GenP.V61 m outs c (Proc.devRef .tc main_call0_v5)) :=
  end2 (W4 (F := F)) (GenP.V3 m outs c) (GenP.V61 m outs c) L4 (T4 m outs c) 6 main_call0_v3 main_call0_v5 main_call0_v6 _ _ _ _ rfl (nk (by decide +kernel)) (nk (by decide +kernel)) (nk (by decide +kernel))
theorem rd_main_call0_v7 : GenP.V61 m outs c (Proc.devRef .tc main_call0_v7) = ((broadcastInDim S200000 ![] bcast_S_S200000) : (⟨S_, .i32⟩ : BufTy).Contents (Elt F) → (⟨S200000, .i32⟩ : BufTy).Contents (Elt F)) (GenP.V61 m outs c (Proc.devRef .tc main_call0_v0)) :=
  end1 (W4 (F := F)) (GenP.V3 m outs c) (GenP.V61 m outs c) L4 (T4 m outs c) 7 main_call0_v0 main_call0_v7 _ _ _ rfl (nk (by decide +kernel)) (nk (by decide +kernel))
theorem rd_main_call0_v8 : GenP.V61 m outs c (Proc.devRef .tc main_call0_v8) = (Host.remsi : (⟨S200000, .i32⟩ : BufTy).Contents (Elt F) → (⟨S200000, .i32⟩ : BufTy).Contents (Elt F) → (⟨S200000, .i32⟩ : BufTy).Contents (Elt F)) (GenP.V61 m outs c (Proc.devRef .tc main_arg1)) (GenP.V61 m outs c (Proc.devRef .tc main_call0_v7)) :=
  end2 (W4 (F := F)) (GenP.V3 m outs c) (GenP.V61 m outs c) L4 (T4 m outs c) 8 main_arg1 main_call0_v7 main_call0_v8 _ _ _ _ rfl (nk (by decide +kernel)) (nk (by decide +kernel)) (nk (by decide +kernel))
theorem rd_main_call0_c : GenP.V61 m outs c (Proc.devRef .tc main_call0_c) = ((constantI S_ 32 0#32) : (⟨S_, .i32⟩ : BufTy).Contents (Elt F)) :=
  end0 (W4 (F := F)) (GenP.V3 m outs c) (GenP.V61 m outs c) L4 (T4 m outs c) 9 main_call0_c _ _ rfl (nk (by decide +kernel))
theorem rd_main_call0_v9 : GenP.V61 m outs c (Proc.devRef .tc main_call0_v9) = ((broadcastInDim S200000 ![] bcast_S_S200000) : (⟨S_, .i32⟩ : BufTy).Contents (Elt F) → (⟨S200000, .i32⟩ : BufTy).Contents (Elt F)) (GenP.V61 m outs c (Proc.devRef .tc main_call0_c)) :=
  end1 (W4 (F := F)) (GenP.V3 m outs c) (GenP.V61 m outs c) L4 (T4 m outs c) 10 main_call0_c main_call0_v9 _ _ _ rfl (nk (by decide +kernel)) (nk (by decide +kernel))
theorem rd_main_call0_v10 : GenP.V61 m outs c (Proc.devRef .tc main_call0_v10) = ((cmpi .ne) : (⟨S200000, .i32⟩ : BufTy).Contents (Elt F) → (⟨S200000, .i32⟩ : BufTy).Contents (Elt F) → (⟨S200000, .i1⟩ : BufTy).Contents (Elt F)) (GenP.V61 m outs c (Proc.devRef .tc main_call0_v8)) (GenP.V61 m outs c (Proc.devRef .tc main_call0_v9)) :=
  end2 (W4 (F := F)) (GenP.V3 m outs c) (GenP.V61 m outs c) L4 (T4 m outs c) 11 main_call0_v8 main_call0_v9 main_call0_v10 _ _ _ _ rfl (nk (by decide +kernel)) (nk (by decide +kernel)) (nk (by decide +kernel))
theorem rd_main_call0_v11 : GenP.V61 m outs c (Proc.devRef .tc main_call0_v11) = (andi : (⟨S200000, .i1⟩ : BufTy).Contents (Elt F) → (⟨S200000, .i1⟩ : BufTy).Contents (Elt F) → (⟨S200000, .i1⟩ : BufTy).Contents (Elt F)) (GenP.V61 m outs c (Proc.devRef .tc main_call0_v6)) (GenP.V61 m outs c (Proc.devRef .tc main_call0_v10)) :=
  end2 (W4 (F := F)) (GenP.V3 m outs c) (GenP.V61 m outs c) L4 (T4 m outs c) 12 main_call0_v6 main_call0_v10 main_call0_v11 _ _ _ _ rfl (nk (by decide +kernel)) (nk (by decide +kernel)) (nk (by decide +kernel))
theorem rd_main_call0_c_0 : GenP.V61 m outs c (Proc.devRef .tc main_call0_c_0) = ((constantI S_ 32 1#32) : (⟨S_, .i32⟩ : BufTy).Contents (Elt F)) :=
  end0 (W4 (F := F)) (GenP.V3 m outs c) (GenP.V61 m outs c) L4 (T4 m outs c) 13 main_call0_c_0 _ _ rfl (nk (by decide +kernel))
theorem rd_main_call0_v12 : GenP.V61 m outs c (Proc.devRef .tc main_call0_v12) = ((broadcastInDim S200000 ![] bcast_S_S200000) : (⟨S_, .i32⟩ : BufTy).Contents (Elt F) → (⟨S200000, .i32⟩ : BufTy).Contents (Elt F)) (GenP.V61 m outs c (Proc.devRef .tc main_call0_c_0)) :=
  end1 (W4 (F := F)) (GenP.V3 m outs c) (GenP.V61 m outs c) L4 (T4 m outs c) 14 main_call0_c_0 main_call0_v12 _ _ _ rfl (nk (by decide +kernel)) (nk (by decide +kernel))
theorem rd_main_call0_v13 : GenP.V61 m outs c (Proc.devRef .tc main_call0_v13) = (subi : (⟨S200000, .i32⟩ : BufTy).Contents (Elt F) → (⟨S200000, .i32⟩ : BufTy).Contents (Elt F) → (⟨S200000, .i32⟩ : BufTy).Contents (Elt F)) (GenP.V61 m outs c (Proc.devRef .tc main_call0_v2)) (GenP.V61 m outs c (Proc.devRef .tc main_call0_v12)) :=
  end2 (W4 (F := F)) (GenP.V3 m outs c) (GenP.V61 m outs c) L4 (T4 m outs c) 15 main_call0_v2 main_call0_v12 main_call0_v13 _ _ _ _ rfl (nk (by decide +kernel)) (nk (by decide +kernel)) (nk (by decide +kernel))
theorem rd_main_v16 : GenP.V61 m outs c (Proc.devRef .tc main_v16) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_call0_v11)) (GenP.V61 m outs c (Proc.devRef .tc main_call0_v13)) (GenP.V61 m outs c (Proc.devRef .tc main_call0_v2)) :=
  end3 (W4 (F := F)) (GenP.V3 m outs c) (GenP.V61 m outs c) L4 (T4 m outs c) 16 main_call0_v11 main_call0_v13 main_call0_v2 main_v16 _ _ _ _ _ rfl (nk (by decide +kernel)) (nk (by decide +kernel)) (nk (by decide +kernel)) (nk (by decide +kernel))
theorem rd_main_c_3 : GenP.V61 m outs c (Proc.devRef .tc main_c_3) = (constantI S_ 32 768#32) :=
  end0 (W5 (F := F)) (GenP.V4 m outs c) (GenP.V61 m outs c) L5 (T5 m outs c) 0 main_c_3 _ _ rfl (nk (by decide +kernel))
theorem rd_main_call1_v0 : GenP.V61 m outs c (Proc.devRef .tc main_call1_v0) = (id : (⟨S_, .i32⟩ : BufTy).Contents (Elt F) → (⟨S_, .i32⟩ : BufTy).Contents (Elt F)) (GenP.V61 m outs c (Proc.devRef .tc main_c_3)) :=
  end1 (W6 (F := F)) (GenP.V5 m outs c) (GenP.V61 m outs c) L6 (T6 m outs c) 0 main_c_3 main_call1_v0 _ _ _ rfl (nk (by decide +kernel)) (nk (by decide +kernel))
theorem rd_main_call1_c : GenP.V61 m outs c (Proc.devRef .tc main_call1_c) = ((constantI S_ 32 0#32) : (⟨S_, .i32⟩ : BufTy).Contents (Elt F)) :=
  end0 (W6 (F := F)) (GenP.V5 m outs c) (GenP.V61 m outs c) L6 (T6 m outs c) 1 main_call1_c _ _ rfl (nk (by decide +kernel))
theorem rd_main_call1_v1 : GenP.V61 m outs c (Proc.devRef .tc main_call1_v1) = ((cmpi .eq) : (⟨S_, .i32⟩ : BufTy).Contents (Elt F) → (⟨S_, .i32⟩ : BufTy).Contents (Elt F) → (⟨S_, .i1⟩ : BufTy).Contents (Elt F)) (GenP.V61 m outs c (Proc.devRef .tc main_call1_v0)) (GenP.V61 m outs c (Proc.devRef .tc main_call1_c)) :=
  end2 (W6 (F := F)) (GenP.V5 m outs c) (GenP.V61 m outs c) L6 (T6 m outs c) 2 main_call1_v0 main_call1_c main_call1_v1 _ _ _ _ rfl (nk (by decide +kernel)) (nk (by decide +kernel)) (nk (by decide +kernel))
theorem rd_main_call1_c_0 : GenP.V61 m outs c (Proc.devRef .tc main_call1_c_0) = ((constantI S_ 32 1#32) : (⟨S_, .i32⟩ : BufTy).Contents (Elt F)) :=
  end0 (W6 (F := F)) (GenP.V5 m outs c) (GenP.V61 m outs c) L6 (T6 m outs c) 3 main_call1_c_0 _ _ rfl (nk (by decide +kernel))
theorem rd_main_call1_v2 : GenP.V61 m outs c (Proc.devRef .tc main_call1_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (GenP.V61 m outs c (Proc.devRef .tc main_call1_v1)) (GenP.V61 m outs c (Proc.devRef .tc main_call1_c_0)) (GenP.V61 m outs c (Proc.devRef .tc main_call1_v0)) :=
  end3 (W6 (F := F)) (GenP.V5 m outs c) (GenP.V61 m outs c) L6 (T6 m outs c) 4 main_call1_v1 main_call1_c_0 main_call1_v0 main_call1_v2 _ _ _ _ _ rfl (nk (by decide +kernel)) (nk (by decide +kernel)) (nk (by decide +kernel)) (nk (by decide +kernel))
theorem rd_main_call1_v3 : GenP.V61 m outs c (Proc.devRef .tc main_call1_v3) = ((broadcastInDim S200000 ![] bcast_S_S200000) : (⟨S_, .i32⟩ : BufTy).Contents (Elt F) → (⟨S200000, .i32⟩ : BufTy).Contents (Elt F)) (GenP.V61 m outs c (Proc.devRef .tc main_call1_v2)) :=
  end1 (W6 (F := F)) (GenP.V5 m outs c) (GenP.V61 m outs c) L6 (T6 m outs c) 5 main_call1_v2 main_call1_v3 _ _ _ rfl (nk (by decide +kernel)) (nk (by decide +kernel))
theorem rd_main_call1_v4 : GenP.V61 m outs c (Proc.devRef .tc main_call1_v4) = (Host.remsi : (⟨S200000, .i32⟩ : BufTy).Contents (Elt F) → (⟨S200000, .i32⟩ : BufTy).Contents (Elt F) → (⟨S200000, .i32⟩ : BufTy).Contents (Elt F)) (GenP.V61 m outs c (Proc.devRef .tc main_arg1)) (GenP.V61 m outs c (Proc.devRef .tc main_call1_v3)) :=
  end2 (W6 (F := F)) (GenP.V5 m outs c) (GenP.V61 m outs c) L6 (T6 m outs c) 6 main_arg1 main_call1_v3 main_call1_v4 _ _ _ _ rfl (nk (by decide +kernel)) (nk (by decide +kernel)) (nk (by decide +kernel))
theorem rd_main_call1_c_1 : GenP.V61 m outs c (Proc.devRef .tc main_call1_c_1) = ((constantI S_ 32 0#32) : (⟨S_, .i32⟩ : BufTy).Contents (Elt F)) :=
  end0 (W6 (F := F)) (GenP.V5 m outs c) (GenP.V61 m outs c) L6 (T6 m outs c) 7 main_call1_c_1 _ _ rfl (nk (by decide +kernel))
theorem rd_main_call1_v5 : GenP.V61 m outs c (Proc.devRef .tc main_call1_v5) = ((broadcastInDim S200000 ![] bcast_S_S200000) : (⟨S_, .i32⟩ : BufTy).Contents (Elt F) → (⟨S200000, .i32⟩ : BufTy).Contents (Elt F)) (GenP.V61 m outs c (Proc.devRef .tc main_call1_c_1)) :=
  end1 (W6 (F := F)) (GenP.V5 m outs c) (GenP.V61 m outs c) L6 (T6 m outs c) 8 main_call1_c_1 main_call1_v5 _ _ _ rfl (nk (by decide +kernel)) (nk (by decide +kernel))
theorem rd_main_call1_v6 : GenP.V61 m outs c (Proc.devRef .tc main_call1_v6) = ((cmpi .ne) : (⟨S200000, .i32⟩ : BufTy).Contents (Elt F) → (⟨S200000, .i32⟩ : BufTy).Contents (Elt F) → (⟨S200000, .i1⟩ : BufTy).Contents (Elt F)) (GenP.V61 m outs c (Proc.devRef .tc main_call1_v4)) (GenP.V61 m outs c (Proc.devRef .tc main_call1_v5)) :=
  end2 (W6 (F := F)) (GenP.V5 m outs c) (GenP.V61 m outs c) L6 (T6 m outs c) 9 main_call1_v4 main_call1_v5 main_call1_v6 _ _ _ _ rfl (nk (by decide +kernel)) (nk (by decide +kernel)) (nk (by decide +kernel))
theorem rd_main_call1_c_2 : GenP.V61 m outs c (Proc.devRef .tc main_call1_c_2) = ((constantI S_ 32 0#32) : (⟨S_, .i32⟩ : BufTy).Contents (Elt F)) :=
  end0 (W6 (F := F)) (GenP.V5 m outs c) (GenP.V61 m outs c) L6 (T6 m outs c) 10 main_call1_c_2 _ _ rfl (nk (by decide +kernel))
theorem rd_main_call1_v7 : GenP.V61 m outs c (Proc.devRef .tc main_call1_v7) = ((broadcastInDim S200000 ![] bcast_S_S200000) : (⟨S_, .i32⟩ : BufTy).Contents (Elt F) → (⟨S200000, .i32⟩ : BufTy).Contents (Elt F)) (GenP.V61 m outs c (Proc.devRef .tc main_call1_c_2)) :=
  end1 (W6 (F := F)) (GenP.V5 m outs c) (GenP.V61 m outs c) L6 (T6 m outs c) 11 main_call1_c_2 main_call1_v7 _ _ _ rfl (nk (by decide +kernel)) (nk (by decide +kernel))
theorem rd_main_call1_v8 : GenP.V61 m outs c (Proc.devRef .tc main_call1_v8) = ((cmpi .slt) : (⟨S200000, .i32⟩ : BufTy).Contents (Elt F) → (⟨S200000, .i32⟩ : BufTy).Contents (Elt F) → (⟨S200000, .i1⟩ : BufTy).Contents (Elt F)) (GenP.V61 m outs c (Proc.devRef .tc main_call1_v4)) (GenP.V61 m outs c (Proc.devRef .tc main_call1_v7)) :=
  end2 (W6 (F := F)) (GenP.V5 m outs c) (GenP.V61 m outs c) L6 (T6 m outs c) 12 main_call1_v4 main_call1_v7 main_call1_v8 _ _ _ _ rfl (nk (by decide +kernel)) (nk (by decide +kernel)) (nk (by decide +kernel))
theorem rd_main_call1_c_3 : GenP.V61 m outs c (Proc.devRef .tc main_call1_c_3) = ((constantI S_ 32 0#32) : (⟨S_, .i32⟩ : BufTy).Contents (Elt F)) :=
  end0 (W6 (F := F)) (GenP.V5 m outs c) (GenP.V61 m outs c) L6 (T6 m outs c) 13 main_call1_c_3 _ _ rfl (nk (by decide +kernel))
theorem rd_main_call1_v9 : GenP.V61 m outs c (Proc.devRef .tc main_call1_v9) = ((cmpi .slt) : (⟨S_, .i32⟩ : BufTy).Contents (Elt F) → (⟨S_, .i32⟩ : BufTy).Contents (Elt F) → (⟨S_, .i1⟩ : BufTy).Contents (Elt F)) (GenP.V61 m outs c (Proc.devRef .tc main_call1_v2)) (GenP.V61 m outs c (Proc.devRef .tc main_call1_c_3)) :=
  end2 (W6 (F := F)) (GenP.V5 m outs c) (GenP.V61 m outs c) L6 (T6 m outs c) 14 main_call1_v2 main_call1_c_3 main_call1_v9 _ _ _ _ rfl (nk (by decide +kernel)) (nk (by decide +kernel)) (nk (by decide +kernel))
theorem rd_main_call1_v10 : GenP.V61 m outs c (Proc.devRef .tc main_call1_v10) = ((broadcastInDim S200000 ![] bcast_S_S200000) : (⟨S_, .i1⟩ : BufTy).Contents (Elt F) → (⟨S200000, .i1⟩ : BufTy).Contents (Elt F)) (GenP.V61 m outs c (Proc.devRef .tc main_call1_v9)) :=
  end1 (W6 (F := F)) (GenP.V5 m outs c) (GenP.V61 m outs c) L6 (T6 m outs c) 15 main_call1_v9 main_call1_v10 _ _ _ rfl (nk (by decide +kernel)) (nk (by decide +kernel))
theorem rd_main_call1_v11 : GenP.V61 m outs c (Proc.devRef .tc main_call1_v11) = ((cmpi .ne) : (⟨S200000, .i1⟩ : BufTy).Contents (Elt F) → (⟨S200000, .i1⟩ : BufTy).Contents (Elt F) → (⟨S200000, .i1⟩ : BufTy).Contents (Elt F)) (GenP.V61 m outs c (Proc.devRef .tc main_call1_v8)) (GenP.V61 m outs c (Proc.devRef .tc main_call1_v10)) :=
  end2 (W6 (F := F)) (GenP.V5 m outs c) (GenP.V61 m outs c) L6 (T6 m outs c) 16 main_call1_v8 main_call1_v10 main_call1_v11 _ _ _ _ rfl (nk (by decide +kernel)) (nk (by decide +kernel)) (nk (by decide +kernel))
theorem rd_main_call1_v12 : GenP.V61 m outs c (Proc.devRef .tc main_call1_v12) = (andi : (⟨S200000, .i1⟩ : BufTy).Contents (Elt F) → (⟨S200000, .i1⟩ : BufTy).Contents (Elt F) → (⟨S200000, .i1⟩ : BufTy).Contents (Elt F)) (GenP.V61 m outs c (Proc.devRef .tc main_call1_v11)) (GenP.V61 m outs c (Proc.devRef .tc main_call1_v6)) :=
  end2 (W6 (F := F)) (GenP.V5 m outs c) (GenP.V61 m outs c) L6 (T6 m outs c) 17 main_call1_v11 main_call1_v6 main_call1_v12 _ _ _ _ rfl (nk (by decide +kernel)) (nk (by decide +kernel)) (nk (by decide +kernel))
theorem rd_main_call1_v13 : GenP.V61 m outs c (Proc.devRef .tc main_call1_v13) = ((broadcastInDim S200000 ![] bcast_S_S200000) : (⟨S_, .i32⟩ : BufTy).Contents (Elt F) → (⟨S200000, .i32⟩ : BufTy).Contents (Elt F)) (GenP.V61 m outs c (Proc.devRef .tc main_call1_v2)) :=
  end1 (W6 (F := F)) (GenP.V5 m outs c) (GenP.V61 m outs c) L6 (T6 m outs c) 18 main_call1_v2 main_call1_v13 _ _ _ rfl (nk (by decide +kernel)) (nk (by decide +kernel))
theorem rd_main_call1_v14 : GenP.V61 m outs c (Proc.devRef .tc main_call1_v14) = (addi : (⟨S200000, .i32⟩ : BufTy).Contents (Elt F) → (⟨S200000, .i32⟩ : BufTy).Contents (Elt F) → (⟨S200000, .i32⟩ : BufTy).Contents (Elt F)) (GenP.V61 m outs c (Proc.devRef .tc main_call1_v4)) (GenP.V61 m outs c (Proc.devRef .tc main_call1_v13)) :=
  end2 (W6 (F := F)) (GenP.V5 m outs c) (GenP.V61 m outs c) L6 (T6 m outs c) 19 main_call1_v4 main_call1_v13 main_call1_v14 _ _ _ _ rfl (nk (by decide +kernel)) (nk (by decide +kernel)) (nk (by decide +kernel))
theorem rd_main_v17 : GenP.V61 m outs c (Proc.devRef .tc main_v17) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_call1_v12)) (GenP.V61 m outs c (Proc.devRef .tc main_call1_v14)) (GenP.V61 m outs c (Proc.devRef .tc main_call1_v4)) :=
  end3 (W6 (F := F)) (GenP.V5 m outs c) (GenP.V61 m outs c) L6 (T6 m outs c) 20 main_call1_v12 main_call1_v14 main_call1_v4 main_v17 _ _ _ _ _ rfl (nk (by decide +kernel)) (nk (by decide +kernel)) (nk (by decide +kernel)) (nk (by decide +kernel))
theorem rd_main_cst : GenP.V61 m outs c (Proc.devRef .tc main_cst) = (constant S_ .bf16 0x0000#16) :=
  end0 (W7 (F := F)) (GenP.V6 m outs c) (GenP.V61 m outs c) L7 (T7 m outs c) 0 main_cst _ _ rfl (nk (by decide +kernel))
theorem rd_main_v18 : GenP.V61 m outs c (Proc.devRef .tc main_v18) = (broadcastInDim S1x64 ![] bcast_S_S1x64 : (⟨S_, .bf16⟩ : BufTy).Contents (Elt F) → (⟨S1x64, .bf16⟩ : BufTy).Contents (Elt F)) (GenP.V61 m outs c (Proc.devRef .tc main_cst)) :=
  end1 (W7 (F := F)) (GenP.V6 m outs c) (GenP.V61 m outs c) L7 (T7 m outs c) 1 main_cst main_v18 _ _ _ rfl (nk (by decide +kernel)) (nk (by decide +kernel))
theorem rd_main_v19 : GenP.V61 m outs c (Proc.devRef .tc main_v19) = ((fun a b => concatenate S200001x64 0 [⟨S200000x64, a⟩, ⟨S1x64, b⟩] concatenates_S200000x64_S1x64_S200001x64_d0) : (⟨S200000x64, .bf16⟩ : BufTy).Contents (Elt F) → (⟨S1x64, .bf16⟩ : BufTy).Contents (Elt F) → (⟨S200001x64, .bf16⟩ : BufTy).Contents (Elt F)) (GenP.V61 m outs c (Proc.devRef .tc main_v6)) (GenP.V61 m outs c (Proc.devRef .tc main_v18)) :=
  end2 (W7 (F := F)) (GenP.V6 m outs c) (GenP.V61 m outs c) L7 (T7 m outs c) 2 main_v6 main_v18 main_v19 _ _ _ _ rfl (nk (by decide +kernel)) (nk (by decide +kernel)) (nk (by decide +kernel))
theorem rd_main_c_4 : GenP.V61 m outs c (Proc.devRef .tc main_c_4) = (constantI S_ 32 4294967295#32) :=
  end0 (W7 (F := F)) (GenP.V6 m outs c) (GenP.V61 m outs c) L7 (T7 m outs c) 3 main_c_4 _ _ rfl (nk (by decide +kernel))
theorem rd_main_v20 : GenP.V61 m outs c (Proc.devRef .tc main_v20) = (broadcastInDim S200000 ![] bcast_S_S200000 : (⟨S_, .i32⟩ : BufTy).Contents (Elt F) → (⟨S200000, .i32⟩ : BufTy).Contents (Elt F)) (GenP.V61 m outs c (Proc.devRef .tc main_c_4)) :=
  end1 (W7 (F := F)) (GenP.V6 m outs c) (GenP.V61 m outs c) L7 (T7 m outs c) 4 main_c_4 main_v20 _ _ _ rfl (nk (by decide +kernel)) (nk (by decide +kernel))
theorem rd_main_v21 : GenP.V61 m outs c (Proc.devRef .tc main_v21) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v20)) :=
  end2 (W7 (F := F)) (GenP.V6 m outs c) (GenP.V61 m outs c) L7 (T7 m outs c) 5 main_v16 main_v20 main_v21 _ _ _ _ rfl (nk (by decide +kernel)) (nk (by decide +kernel)) (nk (by decide +kernel))
theorem rd_main_c_5 : GenP.V61 m outs c (Proc.devRef .tc main_c_5) = (constantI S_ 32 4294967295#32) :=
  end0 (W7 (F := F)) (GenP.V6 m outs c) (GenP.V61 m outs c) L7 (T7 m outs c) 6 main_c_5 _ _ rfl (nk (by decide +kernel))
theorem rd_main_v22 : GenP.V61 m outs c (Proc.devRef .tc main_v22) = (broadcastInDim S200000 ![] bcast_S_S200000 : (⟨S_, .i32⟩ : BufTy).Contents (Elt F) → (⟨S200000, .i32⟩ : BufTy).Contents (Elt F)) (GenP.V61 m outs c (Proc.devRef .tc main_c_5)) :=
  end1 (W7 (F := F)) (GenP.V6 m outs c) (GenP.V61 m outs c) L7 (T7 m outs c) 7 main_c_5 main_v22 _ _ _ rfl (nk (by decide +kernel)) (nk (by decide +kernel))
theorem rd_main_v23 : GenP.V61 m outs c (Proc.devRef .tc main_v23) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v22)) :=
  end2 (W7 (F := F)) (GenP.V6 m outs c) (GenP.V61 m outs c) L7 (T7 m outs c) 8 main_v17 main_v22 main_v23 _ _ _ _ rfl (nk (by decide +kernel)) (nk (by decide +kernel)) (nk (by decide +kernel))
theorem rd_main_c_6 : GenP.V61 m outs c (Proc.devRef .tc main_c_6) = (constantI S_ 32 0#32) :=
  end0 (W7 (F := F)) (GenP.V6 m outs c) (GenP.V61 m outs c) L7 (T7 m outs c) 9 main_c_6 _ _ rfl (nk (by decide +kernel))
theorem rd_main_v24 : GenP.V61 m outs c (Proc.devRef .tc main_v24) = (broadcastInDim S200000 ![] bcast_S_S200000 : (⟨S_, .i32⟩ : BufTy).Contents (Elt F) → (⟨S200000, .i32⟩ : BufTy).Contents (Elt F)) (GenP.V61 m outs c (Proc.devRef .tc main_c_6)) :=
  end1 (W7 (F := F)) (GenP.V6 m outs c) (GenP.V61 m outs c) L7 (T7 m outs c) 10 main_c_6 main_v24 _ _ _ rfl (nk (by decide +kernel)) (nk (by decide +kernel))
theorem rd_main_v25 : GenP.V61 m outs c (Proc.devRef .tc main_v25) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v21)) (GenP.V61 m outs c (Proc.devRef .tc main_v24)) :=
  end2 (W7 (F := F)) (GenP.V6 m outs c) (GenP.V61 m outs c) L7 (T7 m outs c) 11 main_v21 main_v24 main_v25 _ _ _ _ rfl (nk (by decide +kernel)) (nk (by decide +kernel)) (nk (by decide +kernel))
theorem rd_main_c_7 : GenP.V61 m outs c (Proc.devRef .tc main_c_7) = (constantI S_ 32 768#32) :=
  end0 (W7 (F := F)) (GenP.V6 m outs c) (GenP.V61 m outs c) L7 (T7 m outs c) 12 main_c_7 _ _ rfl (nk (by decide +kernel))
theorem rd_main_v26 : GenP.V61 m outs c (Proc.devRef .tc main_v26) = (broadcastInDim S200000 ![] bcast_S_S200000 : (⟨S_, .i32⟩ : BufTy).Contents (Elt F) → (⟨S200000, .i32⟩ : BufTy).Contents (Elt F)) (GenP.V61 m outs c (Proc.devRef .tc main_c_7)) :=
  end1 (W7 (F := F)) (GenP.V6 m outs c) (GenP.V61 m outs c) L7 (T7 m outs c) 13 main_c_7 main_v26 _ _ _ rfl (nk (by decide +kernel)) (nk (by decide +kernel))
theorem rd_main_v27 : GenP.V61 m outs c (Proc.devRef .tc main_v27) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v21)) (GenP.V61 m outs c (Proc.devRef .tc main_v26)) :=
  end2 (W7 (F := F)) (GenP.V6 m outs c) (GenP.V61 m outs c) L7 (T7 m outs c) 14 main_v21 main_v26 main_v27 _ _ _ _ rfl (nk (by decide +kernel)) (nk (by decide +kernel)) (nk (by decide +kernel))
theorem rd_main_v28 : GenP.V61 m outs c (Proc.devRef .tc main_v28) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v25)) (GenP.V61 m outs c (Proc.devRef .tc main_v27)) :=
  end2 (W7 (F := F)) (GenP.V6 m outs c) (GenP.V61 m outs c) L7 (T7 m outs c) 15 main_v25 main_v27 main_v28 _ _ _ _ rfl (nk (by decide +kernel)) (nk (by decide +kernel)) (nk (by decide +kernel))
theorem rd_main_c_8 : GenP.V61 m outs c (Proc.devRef .tc main_c_8) = (constantI S_ 32 0#32) :=
  end0 (W7 (F := F)) (GenP.V6 m outs c) (GenP.V61 m outs c) L7 (T7 m outs c) 16 main_c_8 _ _ rfl (nk (by decide +kernel))
theorem rd_main_v29 : GenP.V61 m outs c (Proc.devRef .tc main_v29) = (broadcastInDim S200000 ![] bcast_S_S200000 : (⟨S_, .i32⟩ : BufTy).Contents (Elt F) → (⟨S200000, .i32⟩ : BufTy).Contents (Elt F)) (GenP.V61 m outs c (Proc.devRef .tc main_c_8)) :=
  end1 (W7 (F := F)) (GenP.V6 m outs c) (GenP.V61 m outs c) L7 (T7 m outs c) 17 main_c_8 main_v29 _ _ _ rfl (nk (by decide +kernel)) (nk (by decide +kernel))

end Cert.KernelIdeal.Glue
-- ==== Proof.GlueRead1.lean ====
/-
  The idealized kernel program's host operations read back at the contents the second kernel region is entered with:
  one equation per operation, its result and its operands all read at V61 (part 1 of the table: hostOps1_4 operation 18 to
  hostOps1_12 operation 3). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v30 : GenP.V61 m outs c (Proc.devRef .tc main_v30) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v23)) (GenP.V61 m outs c (Proc.devRef .tc main_v29)) :=
  end2 (W7 (F := F)) (GenP.V6 m outs c) (GenP.V61 m outs c) L7 (T7 m outs c) 18 main_v23 main_v29 main_v30 _ _ _ _ rfl (nk (by decide +kernel)) (nk (by decide +kernel)) (nk (by decide +kernel))
theorem rd_main_v31 : GenP.V61 m outs c (Proc.devRef .tc main_v31) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v28)) (GenP.V61 m outs c (Proc.devRef .tc main_v30)) :=
  end2 (W7 (F := F)) (GenP.V6 m outs c) (GenP.V61 m outs c) L7 (T7 m outs c) 19 main_v28 main_v30 main_v31 _ _ _ _ rfl (nk (by decide +kernel)) (nk (by decide +kernel)) (nk (by decide +kernel))
theorem rd_main_c_9 : GenP.V61 m outs c (Proc.devRef .tc main_c_9) = (constantI S_ 32 768#32) :=
  end0 (W7 (F := F)) (GenP.V6 m outs c) (GenP.V61 m outs c) L7 (T7 m outs c) 20 main_c_9 _ _ rfl (nk (by decide +kernel))
theorem rd_main_v32 : GenP.V61 m outs c (Proc.devRef .tc main_v32) = (broadcastInDim S200000 ![] bcast_S_S200000 : (⟨S_, .i32⟩ : BufTy).Contents (Elt F) → (⟨S200000, .i32⟩ : BufTy).Contents (Elt F)) (GenP.V61 m outs c (Proc.devRef .tc main_c_9)) :=
  end1 (W7 (F := F)) (GenP.V6 m outs c) (GenP.V61 m outs c) L7 (T7 m outs c) 21 main_c_9 main_v32 _ _ _ rfl (nk (by decide +kernel)) (nk (by decide +kernel))
theorem rd_main_v33 : GenP.V61 m outs c (Proc.devRef .tc main_v33) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v23)) (GenP.V61 m outs c (Proc.devRef .tc main_v32)) :=
  end2 (W7 (F := F)) (GenP.V6 m outs c) (GenP.V61 m outs c) L7 (T7 m outs c) 22 main_v23 main_v32 main_v33 _ _ _ _ rfl (nk (by decide +kernel)) (nk (by decide +kernel)) (nk (by decide +kernel))
theorem rd_main_v34 : GenP.V61 m outs c (Proc.devRef .tc main_v34) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v31)) (GenP.V61 m outs c (Proc.devRef .tc main_v33)) :=
  end2 (W7 (F := F)) (GenP.V6 m outs c) (GenP.V61 m outs c) L7 (T7 m outs c) 23 main_v31 main_v33 main_v34 _ _ _ _ rfl (nk (by decide +kernel)) (nk (by decide +kernel)) (nk (by decide +kernel))
theorem rd_main_c_10 : GenP.V61 m outs c (Proc.devRef .tc main_c_10) = (constantI S_ 32 0#32) :=
  end0 (W7 (F := F)) (GenP.V6 m outs c) (GenP.V61 m outs c) L7 (T7 m outs c) 24 main_c_10 _ _ rfl (nk (by decide +kernel))
theorem rd_main_c_11 : GenP.V61 m outs c (Proc.devRef .tc main_c_11) = (constantI S_ 32 767#32) :=
  end0 (W7 (F := F)) (GenP.V6 m outs c) (GenP.V61 m outs c) L7 (T7 m outs c) 25 main_c_11 _ _ rfl (nk (by decide +kernel))
theorem rd_main_call2_v0 : GenP.V61 m outs c (Proc.devRef .tc main_call2_v0) = (id : (⟨S_, .i32⟩ : BufTy).Contents (Elt F) → (⟨S_, .i32⟩ : BufTy).Contents (Elt F)) (GenP.V61 m outs c (Proc.devRef .tc main_c_10)) :=
  end1 (W8 (F := F)) (GenP.V7 m outs c) (GenP.V61 m outs c) L8 (T8 m outs c) 0 main_c_10 main_call2_v0 _ _ _ rfl (nk (by decide +kernel)) (nk (by decide +kernel))
theorem rd_main_call2_v1 : GenP.V61 m outs c (Proc.devRef .tc main_call2_v1) = ((broadcastInDim S200000 ![] bcast_S_S200000) : (⟨S_, .i32⟩ : BufTy).Contents (Elt F) → (⟨S200000, .i32⟩ : BufTy).Contents (Elt F)) (GenP.V61 m outs c (Proc.devRef .tc main_call2_v0)) :=
  end1 (W8 (F := F)) (GenP.V7 m outs c) (GenP.V61 m outs c) L8 (T8 m outs c) 1 main_call2_v0 main_call2_v1 _ _ _ rfl (nk (by decide +kernel)) (nk (by decide +kernel))
theorem rd_main_call2_v2 : GenP.V61 m outs c (Proc.devRef .tc main_call2_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call2_v1)) (GenP.V61 m outs c (Proc.devRef .tc main_v21)) :=
  end2 (W8 (F := F)) (GenP.V7 m outs c) (GenP.V61 m outs c) L8 (T8 m outs c) 2 main_call2_v1 main_v21 main_call2_v2 _ _ _ _ rfl (nk (by decide +kernel)) (nk (by decide +kernel)) (nk (by decide +kernel))
theorem rd_main_call2_v3 : GenP.V61 m outs c (Proc.devRef .tc main_call2_v3) = (id : (⟨S_, .i32⟩ : BufTy).Contents (Elt F) → (⟨S_, .i32⟩ : BufTy).Contents (Elt F)) (GenP.V61 m outs c (Proc.devRef .tc main_c_11)) :=
  end1 (W8 (F := F)) (GenP.V7 m outs c) (GenP.V61 m outs c) L8 (T8 m outs c) 3 main_c_11 main_call2_v3 _ _ _ rfl (nk (by decide +kernel)) (nk (by decide +kernel))
theorem rd_main_call2_v4 : GenP.V61 m outs c (Proc.devRef .tc main_call2_v4) = ((broadcastInDim S200000 ![] bcast_S_S200000) : (⟨S_, .i32⟩ : BufTy).Contents (Elt F) → (⟨S200000, .i32⟩ : BufTy).Contents (Elt F)) (GenP.V61 m outs c (Proc.devRef .tc main_call2_v3)) :=
  end1 (W8 (F := F)) (GenP.V7 m outs c) (GenP.V61 m outs c) L8 (T8 m outs c) 4 main_call2_v3 main_call2_v4 _ _ _ rfl (nk (by decide +kernel)) (nk (by decide +kernel))
theorem rd_main_v35 : GenP.V61 m outs c (Proc.devRef .tc main_v35) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call2_v4)) (GenP.V61 m outs c (Proc.devRef .tc main_call2_v2)) :=
  end2 (W8 (F := F)) (GenP.V7 m outs c) (GenP.V61 m outs c) L8 (T8 m outs c) 5 main_call2_v4 main_call2_v2 main_v35 _ _ _ _ rfl (nk (by decide +kernel)) (nk (by decide +kernel)) (nk (by decide +kernel))
theorem rd_main_c_12 : GenP.V61 m outs c (Proc.devRef .tc main_c_12) = (constantI S_ 32 768#32) :=
  end0 (W9 (F := F)) (GenP.V8 m outs c) (GenP.V61 m outs c) L9 (T9 m outs c) 0 main_c_12 _ _ rfl (nk (by decide +kernel))
theorem rd_main_v36 : GenP.V61 m outs c (Proc.devRef .tc main_v36) = (broadcastInDim S200000 ![] bcast_S_S200000 : (⟨S_, .i32⟩ : BufTy).Contents (Elt F) → (⟨S200000, .i32⟩ : BufTy).Contents (Elt F)) (GenP.V61 m outs c (Proc.devRef .tc main_c_12)) :=
  end1 (W9 (F := F)) (GenP.V8 m outs c) (GenP.V61 m outs c) L9 (T9 m outs c) 1 main_c_12 main_v36 _ _ _ rfl (nk (by decide +kernel)) (nk (by decide +kernel))
theorem rd_main_v37 : GenP.V61 m outs c (Proc.devRef .tc main_v37) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v35)) (GenP.V61 m outs c (Proc.devRef .tc main_v36)) :=
  end2 (W9 (F := F)) (GenP.V8 m outs c) (GenP.V61 m outs c) L9 (T9 m outs c) 2 main_v35 main_v36 main_v37 _ _ _ _ rfl (nk (by decide +kernel)) (nk (by decide +kernel)) (nk (by decide +kernel))
theorem rd_main_c_13 : GenP.V61 m outs c (Proc.devRef .tc main_c_13) = (constantI S_ 32 0#32) :=
  end0 (W9 (F := F)) (GenP.V8 m outs c) (GenP.V61 m outs c) L9 (T9 m outs c) 3 main_c_13 _ _ rfl (nk (by decide +kernel))
theorem rd_main_c_14 : GenP.V61 m outs c (Proc.devRef .tc main_c_14) = (constantI S_ 32 767#32) :=
  end0 (W9 (F := F)) (GenP.V8 m outs c) (GenP.V61 m outs c) L9 (T9 m outs c) 4 main_c_14 _ _ rfl (nk (by decide +kernel))
theorem rd_main_call3_v0 : GenP.V61 m outs c (Proc.devRef .tc main_call3_v0) = (id : (⟨S_, .i32⟩ : BufTy).Contents (Elt F) → (⟨S_, .i32⟩ : BufTy).Contents (Elt F)) (GenP.V61 m outs c (Proc.devRef .tc main_c_13)) :=
  end1 (W10 (F := F)) (GenP.V9 m outs c) (GenP.V61 m outs c) L10 (T10 m outs c) 0 main_c_13 main_call3_v0 _ _ _ rfl (nk (by decide +kernel)) (nk (by decide +kernel))
theorem rd_main_call3_v1 : GenP.V61 m outs c (Proc.devRef .tc main_call3_v1) = ((broadcastInDim S200000 ![] bcast_S_S200000) : (⟨S_, .i32⟩ : BufTy).Contents (Elt F) → (⟨S200000, .i32⟩ : BufTy).Contents (Elt F)) (GenP.V61 m outs c (Proc.devRef .tc main_call3_v0)) :=
  end1 (W10 (F := F)) (GenP.V9 m outs c) (GenP.V61 m outs c) L10 (T10 m outs c) 1 main_call3_v0 main_call3_v1 _ _ _ rfl (nk (by decide +kernel)) (nk (by decide +kernel))
theorem rd_main_call3_v2 : GenP.V61 m outs c (Proc.devRef .tc main_call3_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call3_v1)) (GenP.V61 m outs c (Proc.devRef .tc main_v23)) :=
  end2 (W10 (F := F)) (GenP.V9 m outs c) (GenP.V61 m outs c) L10 (T10 m outs c) 2 main_call3_v1 main_v23 main_call3_v2 _ _ _ _ rfl (nk (by decide +kernel)) (nk (by decide +kernel)) (nk (by decide +kernel))
theorem rd_main_call3_v3 : GenP.V61 m outs c (Proc.devRef .tc main_call3_v3) = (id : (⟨S_, .i32⟩ : BufTy).Contents (Elt F) → (⟨S_, .i32⟩ : BufTy).Contents (Elt F)) (GenP.V61 m outs c (Proc.devRef .tc main_c_14)) :=
  end1 (W10 (F := F)) (GenP.V9 m outs c) (GenP.V61 m outs c) L10 (T10 m outs c) 3 main_c_14 main_call3_v3 _ _ _ rfl (nk (by decide +kernel)) (nk (by decide +kernel))
theorem rd_main_call3_v4 : GenP.V61 m outs c (Proc.devRef .tc main_call3_v4) = ((broadcastInDim S200000 ![] bcast_S_S200000) : (⟨S_, .i32⟩ : BufTy).Contents (Elt F) → (⟨S200000, .i32⟩ : BufTy).Contents (Elt F)) (GenP.V61 m outs c (Proc.devRef .tc main_call3_v3)) :=
  end1 (W10 (F := F)) (GenP.V9 m outs c) (GenP.V61 m outs c) L10 (T10 m outs c) 4 main_call3_v3 main_call3_v4 _ _ _ rfl (nk (by decide +kernel)) (nk (by decide +kernel))
theorem rd_main_v38 : GenP.V61 m outs c (Proc.devRef .tc main_v38) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call3_v4)) (GenP.V61 m outs c (Proc.devRef .tc main_call3_v2)) :=
  end2 (W10 (F := F)) (GenP.V9 m outs c) (GenP.V61 m outs c) L10 (T10 m outs c) 5 main_call3_v4 main_call3_v2 main_v38 _ _ _ _ rfl (nk (by decide +kernel)) (nk (by decide +kernel)) (nk (by decide +kernel))
theorem rd_main_v39 : GenP.V61 m outs c (Proc.devRef .tc main_v39) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v37)) (GenP.V61 m outs c (Proc.devRef .tc main_v38)) :=
  end2 (W11 (F := F)) (GenP.V10 m outs c) (GenP.V61 m outs c) L11 (T11 m outs c) 0 main_v37 main_v38 main_v39 _ _ _ _ rfl (nk (by decide +kernel)) (nk (by decide +kernel)) (nk (by decide +kernel))
theorem rd_main_c_15 : GenP.V61 m outs c (Proc.devRef .tc main_c_15) = (constantI S_ 32 0#32) :=
  end0 (W11 (F := F)) (GenP.V10 m outs c) (GenP.V61 m outs c) L11 (T11 m outs c) 1 main_c_15 _ _ rfl (nk (by decide +kernel))
theorem rd_main_v40 : GenP.V61 m outs c (Proc.devRef .tc main_v40) = (broadcastInDim S200000 ![] bcast_S_S200000 : (⟨S_, .i32⟩ : BufTy).Contents (Elt F) → (⟨S200000, .i32⟩ : BufTy).Contents (Elt F)) (GenP.V61 m outs c (Proc.devRef .tc main_c_15)) :=
  end1 (W11 (F := F)) (GenP.V10 m outs c) (GenP.V61 m outs c) L11 (T11 m outs c) 2 main_c_15 main_v40 _ _ _ rfl (nk (by decide +kernel)) (nk (by decide +kernel))
theorem rd_main_v41 : GenP.V61 m outs c (Proc.devRef .tc main_v41) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v39)) (GenP.V61 m outs c (Proc.devRef .tc main_v40)) :=
  end2 (W11 (F := F)) (GenP.V10 m outs c) (GenP.V61 m outs c) L11 (T11 m outs c) 3 main_v39 main_v40 main_v41 _ _ _ _ rfl (nk (by decide +kernel)) (nk (by decide +kernel)) (nk (by decide +kernel))
theorem rd_main_c_16 : GenP.V61 m outs c (Proc.devRef .tc main_c_16) = (constantI S_ 32 589824#32) :=
  end0 (W11 (F := F)) (GenP.V10 m outs c) (GenP.V61 m outs c) L11 (T11 m outs c) 4 main_c_16 _ _ rfl (nk (by decide +kernel))
theorem rd_main_v42 : GenP.V61 m outs c (Proc.devRef .tc main_v42) = (broadcastInDim S200000 ![] bcast_S_S200000 : (⟨S_, .i32⟩ : BufTy).Contents (Elt F) → (⟨S200000, .i32⟩ : BufTy).Contents (Elt F)) (GenP.V61 m outs c (Proc.devRef .tc main_c_16)) :=
  end1 (W11 (F := F)) (GenP.V10 m outs c) (GenP.V61 m outs c) L11 (T11 m outs c) 5 main_c_16 main_v42 _ _ _ rfl (nk (by decide +kernel)) (nk (by decide +kernel))
theorem rd_main_v43 : GenP.V61 m outs c (Proc.devRef .tc main_v43) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v39)) (GenP.V61 m outs c (Proc.devRef .tc main_v42)) :=
  end2 (W11 (F := F)) (GenP.V10 m outs c) (GenP.V61 m outs c) L11 (T11 m outs c) 6 main_v39 main_v42 main_v43 _ _ _ _ rfl (nk (by decide +kernel)) (nk (by decide +kernel)) (nk (by decide +kernel))
theorem rd_main_v44 : GenP.V61 m outs c (Proc.devRef .tc main_v44) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v41)) (GenP.V61 m outs c (Proc.devRef .tc main_v43)) (GenP.V61 m outs c (Proc.devRef .tc main_v39)) :=
  end3 (W11 (F := F)) (GenP.V10 m outs c) (GenP.V61 m outs c) L11 (T11 m outs c) 7 main_v41 main_v43 main_v39 main_v44 _ _ _ _ _ rfl (nk (by decide +kernel)) (nk (by decide +kernel)) (nk (by decide +kernel)) (nk (by decide +kernel))
theorem rd_main_v45 : GenP.V61 m outs c (Proc.devRef .tc main_v45) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v44)) :=
  end1 (W11 (F := F)) (GenP.V10 m outs c) (GenP.V61 m outs c) L11 (T11 m outs c) 8 main_v44 main_v45 _ _ _ rfl (nk (by decide +kernel)) (nk (by decide +kernel))
theorem rd_main_v46 : GenP.V61 m outs c (Proc.devRef .tc main_v46) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v45)) :=
  end2 (W11 (F := F)) (GenP.V10 m outs c) (GenP.V61 m outs c) L11 (T11 m outs c) 9 main_v15 main_v45 main_v46 _ _ _ _ rfl (nk (by decide +kernel)) (nk (by decide +kernel)) (nk (by decide +kernel))
theorem rd_main_c_17 : GenP.V61 m outs c (Proc.devRef .tc main_c_17) = (constantI S_ 32 200000#32) :=
  end0 (W11 (F := F)) (GenP.V10 m outs c) (GenP.V61 m outs c) L11 (T11 m outs c) 10 main_c_17 _ _ rfl (nk (by decide +kernel))
theorem rd_main_v47 : GenP.V61 m outs c (Proc.devRef .tc main_v47) = (broadcastInDim S200000 ![] bcast_S_S200000 : (⟨S_, .i32⟩ : BufTy).Contents (Elt F) → (⟨S200000, .i32⟩ : BufTy).Contents (Elt F)) (GenP.V61 m outs c (Proc.devRef .tc main_c_17)) :=
  end1 (W11 (F := F)) (GenP.V10 m outs c) (GenP.V61 m outs c) L11 (T11 m outs c) 11 main_c_17 main_v47 _ _ _ rfl (nk (by decide +kernel)) (nk (by decide +kernel))
theorem rd_main_v48 : GenP.V61 m outs c (Proc.devRef .tc main_v48) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v46)) (GenP.V61 m outs c (Proc.devRef .tc main_v47)) :=
  end2 (W11 (F := F)) (GenP.V10 m outs c) (GenP.V61 m outs c) L11 (T11 m outs c) 12 main_v46 main_v47 main_v48 _ _ _ _ rfl (nk (by decide +kernel)) (nk (by decide +kernel)) (nk (by decide +kernel))
theorem rd_main_v49 : GenP.V61 m outs c (Proc.devRef .tc main_v49) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v34)) (GenP.V61 m outs c (Proc.devRef .tc main_v48)) :=
  end2 (W11 (F := F)) (GenP.V10 m outs c) (GenP.V61 m outs c) L11 (T11 m outs c) 13 main_v34 main_v48 main_v49 _ _ _ _ rfl (nk (by decide +kernel)) (nk (by decide +kernel)) (nk (by decide +kernel))
theorem rd_main_c_18 : GenP.V61 m outs c (Proc.devRef .tc main_c_18) = (constantI S_ 32 200000#32) :=
  end0 (W11 (F := F)) (GenP.V10 m outs c) (GenP.V61 m outs c) L11 (T11 m outs c) 14 main_c_18 _ _ rfl (nk (by decide +kernel))
theorem rd_main_call4_v0 : GenP.V61 m outs c (Proc.devRef .tc main_call4_v0) = (id : (⟨S_, .i32⟩ : BufTy).Contents (Elt F) → (⟨S_, .i32⟩ : BufTy).Contents (Elt F)) (GenP.V61 m outs c (Proc.devRef .tc main_c_18)) :=
  end1 (W12 (F := F)) (GenP.V11 m outs c) (GenP.V61 m outs c) L12 (T12 m outs c) 0 main_c_18 main_call4_v0 _ _ _ rfl (nk (by decide +kernel)) (nk (by decide +kernel))
theorem rd_main_call4_v1 : GenP.V61 m outs c (Proc.devRef .tc main_call4_v1) = ((broadcastInDim S200000 ![] bcast_S_S200000) : (⟨S_, .i32⟩ : BufTy).Contents (Elt F) → (⟨S200000, .i32⟩ : BufTy).Contents (Elt F)) (GenP.V61 m outs c (Proc.devRef .tc main_call4_v0)) :=
  end1 (W12 (F := F)) (GenP.V11 m outs c) (GenP.V61 m outs c) L12 (T12 m outs c) 1 main_call4_v0 main_call4_v1 _ _ _ rfl (nk (by decide +kernel)) (nk (by decide +kernel))
theorem rd_main_v50 : GenP.V61 m outs c (Proc.devRef .tc main_v50) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v49)) (GenP.V61 m outs c (Proc.devRef .tc main_v46)) (GenP.V61 m outs c (Proc.devRef .tc main_call4_v1)) :=
  end3 (W12 (F := F)) (GenP.V11 m outs c) (GenP.V61 m outs c) L12 (T12 m outs c) 2 main_v49 main_v46 main_call4_v1 main_v50 _ _ _ _ _ rfl (nk (by decide +kernel)) (nk (by decide +kernel)) (nk (by decide +kernel)) (nk (by decide +kernel))
theorem rd_main_c_19 : GenP.V61 m outs c (Proc.devRef .tc main_c_19) = (constantI S_ 32 4294967295#32) :=
  end0 (W13 (F := F)) (GenP.V12 m outs c) (GenP.V61 m outs c) L13 (T13 m outs c) 0 main_c_19 _ _ rfl (nk (by decide +kernel))
theorem rd_main_v51 : GenP.V61 m outs c (Proc.devRef .tc main_v51) = (broadcastInDim S200000 ![] bcast_S_S200000 : (⟨S_, .i32⟩ : BufTy).Contents (Elt F) → (⟨S200000, .i32⟩ : BufTy).Contents (Elt F)) (GenP.V61 m outs c (Proc.devRef .tc main_c_19)) :=
  end1 (W13 (F := F)) (GenP.V12 m outs c) (GenP.V61 m outs c) L13 (T13 m outs c) 1 main_c_19 main_v51 _ _ _ rfl (nk (by decide +kernel)) (nk (by decide +kernel))
theorem rd_main_v52 : GenP.V61 m outs c (Proc.devRef .tc main_v52) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v51)) :=
  end2 (W13 (F := F)) (GenP.V12 m outs c) (GenP.V61 m outs c) L13 (T13 m outs c) 2 main_v16 main_v51 main_v52 _ _ _ _ rfl (nk (by decide +kernel)) (nk (by decide +kernel)) (nk (by decide +kernel))
theorem rd_main_c_20 : GenP.V61 m outs c (Proc.devRef .tc main_c_20) = (constantI S_ 32 0#32) :=
  end0 (W13 (F := F)) (GenP.V12 m outs c) (GenP.V61 m outs c) L13 (T13 m outs c) 3 main_c_20 _ _ rfl (nk (by decide +kernel))
theorem rd_main_v53 : GenP.V61 m outs c (Proc.devRef .tc main_v53) = (broadcastInDim S200000 ![] bcast_S_S200000 : (⟨S_, .i32⟩ : BufTy).Contents (Elt F) → (⟨S200000, .i32⟩ : BufTy).Contents (Elt F)) (GenP.V61 m outs c (Proc.devRef .tc main_c_20)) :=
  end1 (W13 (F := F)) (GenP.V12 m outs c) (GenP.V61 m outs c) L13 (T13 m outs c) 4 main_c_20 main_v53 _ _ _ rfl (nk (by decide +kernel)) (nk (by decide +kernel))
theorem rd_main_v54 : GenP.V61 m outs c (Proc.devRef .tc main_v54) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v53)) :=
  end2 (W13 (F := F)) (GenP.V12 m outs c) (GenP.V61 m outs c) L13 (T13 m outs c) 5 main_v17 main_v53 main_v54 _ _ _ _ rfl (nk (by decide +kernel)) (nk (by decide +kernel)) (nk (by decide +kernel))
theorem rd_main_c_21 : GenP.V61 m outs c (Proc.devRef .tc main_c_21) = (constantI S_ 32 0#32) :=
  end0 (W13 (F := F)) (GenP.V12 m outs c) (GenP.V61 m outs c) L13 (T13 m outs c) 6 main_c_21 _ _ rfl (nk (by decide +kernel))
theorem rd_main_v55 : GenP.V61 m outs c (Proc.devRef .tc main_v55) = (broadcastInDim S200000 ![] bcast_S_S200000 : (⟨S_, .i32⟩ : BufTy).Contents (Elt F) → (⟨S200000, .i32⟩ : BufTy).Contents (Elt F)) (GenP.V61 m outs c (Proc.devRef .tc main_c_21)) :=
  end1 (W13 (F := F)) (GenP.V12 m outs c) (GenP.V61 m outs c) L13 (T13 m outs c) 7 main_c_21 main_v55 _ _ _ rfl (nk (by decide +kernel)) (nk (by decide +kernel))
theorem rd_main_v56 : GenP.V61 m outs c (Proc.devRef .tc main_v56) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v52)) (GenP.V61 m outs c (Proc.devRef .tc main_v55)) :=
  end2 (W13 (F := F)) (GenP.V12 m outs c) (GenP.V61 m outs c) L13 (T13 m outs c) 8 main_v52 main_v55 main_v56 _ _ _ _ rfl (nk (by decide +kernel)) (nk (by decide +kernel)) (nk (by decide +kernel))
theorem rd_main_c_22 : GenP.V61 m outs c (Proc.devRef .tc main_c_22) = (constantI S_ 32 768#32) :=
  end0 (W13 (F := F)) (GenP.V12 m outs c) (GenP.V61 m outs c) L13 (T13 m outs c) 9 main_c_22 _ _ rfl (nk (by decide +kernel))
theorem rd_main_v57 : GenP.V61 m outs c (Proc.devRef .tc main_v57) = (broadcastInDim S200000 ![] bcast_S_S200000 : (⟨S_, .i32⟩ : BufTy).Contents (Elt F) → (⟨S200000, .i32⟩ : BufTy).Contents (Elt F)) (GenP.V61 m outs c (Proc.devRef .tc main_c_22)) :=
  end1 (W13 (F := F)) (GenP.V12 m outs c) (GenP.V61 m outs c) L13 (T13 m outs c) 10 main_c_22 main_v57 _ _ _ rfl (nk (by decide +kernel)) (nk (by decide +kernel))
theorem rd_main_v58 : GenP.V61 m outs c (Proc.devRef .tc main_v58) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v52)) (GenP.V61 m outs c (Proc.devRef .tc main_v57)) :=
  end2 (W13 (F := F)) (GenP.V12 m outs c) (GenP.V61 m outs c) L13 (T13 m outs c) 11 main_v52 main_v57 main_v58 _ _ _ _ rfl (nk (by decide +kernel)) (nk (by decide +kernel)) (nk (by decide +kernel))
theorem rd_main_v59 : GenP.V61 m outs c (Proc.devRef .tc main_v59) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v56)) (GenP.V61 m outs c (Proc.devRef .tc main_v58)) :=
  end2 (W13 (F := F)) (GenP.V12 m outs c) (GenP.V61 m outs c) L13 (T13 m outs c) 12 main_v56 main_v58 main_v59 _ _ _ _ rfl (nk (by decide +kernel)) (nk (by decide +kernel)) (nk (by decide +kernel))
theorem rd_main_c_23 : GenP.V61 m outs c (Proc.devRef .tc main_c_23) = (constantI S_ 32 0#32) :=
  end0 (W13 (F := F)) (GenP.V12 m outs c) (GenP.V61 m outs c) L13 (T13 m outs c) 13 main_c_23 _ _ rfl (nk (by decide +kernel))
theorem rd_main_v60 : GenP.V61 m outs c (Proc.devRef .tc main_v60) = (broadcastInDim S200000 ![] bcast_S_S200000 : (⟨S_, .i32⟩ : BufTy).Contents (Elt F) → (⟨S200000, .i32⟩ : BufTy).Contents (Elt F)) (GenP.V61 m outs c (Proc.devRef .tc main_c_23)) :=
  end1 (W13 (F := F)) (GenP.V12 m outs c) (GenP.V61 m outs c) L13 (T13 m outs c) 14 main_c_23 main_v60 _ _ _ rfl (nk (by decide +kernel)) (nk (by decide +kernel))
theorem rd_main_v61 : GenP.V61 m outs c (Proc.devRef .tc main_v61) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v54)) (GenP.V61 m outs c (Proc.devRef .tc main_v60)) :=
  end2 (W13 (F := F)) (GenP.V12 m outs c) (GenP.V61 m outs c) L13 (T13 m outs c) 15 main_v54 main_v60 main_v61 _ _ _ _ rfl (nk (by decide +kernel)) (nk (by decide +kernel)) (nk (by decide +kernel))
theorem rd_main_v62 : GenP.V61 m outs c (Proc.devRef .tc main_v62) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v59)) (GenP.V61 m outs c (Proc.devRef .tc main_v61)) :=
  end2 (W13 (F := F)) (GenP.V12 m outs c) (GenP.V61 m outs c) L13 (T13 m outs c) 16 main_v59 main_v61 main_v62 _ _ _ _ rfl (nk (by decide +kernel)) (nk (by decide +kernel)) (nk (by decide +kernel))
theorem rd_main_c_24 : GenP.V61 m outs c (Proc.devRef .tc main_c_24) = (constantI S_ 32 768#32) :=
  end0 (W13 (F := F)) (GenP.V12 m outs c) (GenP.V61 m outs c) L13 (T13 m outs c) 17 main_c_24 _ _ rfl (nk (by decide +kernel))
theorem rd_main_v63 : GenP.V61 m outs c (Proc.devRef .tc main_v63) = (broadcastInDim S200000 ![] bcast_S_S200000 : (⟨S_, .i32⟩ : BufTy).Contents (Elt F) → (⟨S200000, .i32⟩ : BufTy).Contents (Elt F)) (GenP.V61 m outs c (Proc.devRef .tc main_c_24)) :=
  end1 (W13 (F := F)) (GenP.V12 m outs c) (GenP.V61 m outs c) L13 (T13 m outs c) 18 main_c_24 main_v63 _ _ _ rfl (nk (by decide +kernel)) (nk (by decide +kernel))
theorem rd_main_v64 : GenP.V61 m outs c (Proc.devRef .tc main_v64) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v54)) (GenP.V61 m outs c (Proc.devRef .tc main_v63)) :=
  end2 (W13 (F := F)) (GenP.V12 m outs c) (GenP.V61 m outs c) L13 (T13 m outs c) 19 main_v54 main_v63 main_v64 _ _ _ _ rfl (nk (by decide +kernel)) (nk (by decide +kernel)) (nk (by decide +kernel))
theorem rd_main_v65 : GenP.V61 m outs c (Proc.devRef .tc main_v65) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v62)) (GenP.V61 m outs c (Proc.devRef .tc main_v64)) :=
  end2 (W13 (F := F)) (GenP.V12 m outs c) (GenP.V61 m outs c) L13 (T13 m outs c) 20 main_v62 main_v64 main_v65 _ _ _ _ rfl (nk (by decide +kernel)) (nk (by decide +kernel)) (nk (by decide +kernel))
theorem rd_main_c_25 : GenP.V61 m outs c (Proc.devRef .tc main_c_25) = (constantI S_ 32 0#32) :=
  end0 (W13 (F := F)) (GenP.V12 m outs c) (GenP.V61 m outs c) L13 (T13 m outs c) 21 main_c_25 _ _ rfl (nk (by decide +kernel))
theorem rd_main_c_26 : GenP.V61 m outs c (Proc.devRef .tc main_c_26) = (constantI S_ 32 767#32) :=
  end0 (W13 (F := F)) (GenP.V12 m outs c) (GenP.V61 m outs c) L13 (T13 m outs c) 22 main_c_26 _ _ rfl (nk (by decide +kernel))
theorem rd_main_call5_v0 : GenP.V61 m outs c (Proc.devRef .tc main_call5_v0) = (id : (⟨S_, .i32⟩ : BufTy).Contents (Elt F) → (⟨S_, .i32⟩ : BufTy).Contents (Elt F)) (GenP.V61 m outs c (Proc.devRef .tc main_c_25)) :=
  end1 (W14 (F := F)) (GenP.V13 m outs c) (GenP.V61 m outs c) L14 (T14 m outs c) 0 main_c_25 main_call5_v0 _ _ _ rfl (nk (by decide +kernel)) (nk (by decide +kernel))
theorem rd_main_call5_v1 : GenP.V61 m outs c (Proc.devRef .tc main_call5_v1) = ((broadcastInDim S200000 ![] bcast_S_S200000) : (⟨S_, .i32⟩ : BufTy).Contents (Elt F) → (⟨S200000, .i32⟩ : BufTy).Contents (Elt F)) (GenP.V61 m outs c (Proc.devRef .tc main_call5_v0)) :=
  end1 (W14 (F := F)) (GenP.V13 m outs c) (GenP.V61 m outs c) L14 (T14 m outs c) 1 main_call5_v0 main_call5_v1 _ _ _ rfl (nk (by decide +kernel)) (nk (by decide +kernel))
theorem rd_main_call5_v2 : GenP.V61 m outs c (Proc.devRef .tc main_call5_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call5_v1)) (GenP.V61 m outs c (Proc.devRef .tc main_v52)) :=
  end2 (W14 (F := F)) (GenP.V13 m outs c) (GenP.V61 m outs c) L14 (T14 m outs c) 2 main_call5_v1 main_v52 main_call5_v2 _ _ _ _ rfl (nk (by decide +kernel)) (nk (by decide +kernel)) (nk (by decide +kernel))
theorem rd_main_call5_v3 : GenP.V61 m outs c (Proc.devRef .tc main_call5_v3) = (id : (⟨S_, .i32⟩ : BufTy).Contents (Elt F) → (⟨S_, .i32⟩ : BufTy).Contents (Elt F)) (GenP.V61 m outs c (Proc.devRef .tc main_c_26)) :=
  end1 (W14 (F := F)) (GenP.V13 m outs c) (GenP.V61 m outs c) L14 (T14 m outs c) 3 main_c_26 main_call5_v3 _ _ _ rfl (nk (by decide +kernel)) (nk (by decide +kernel))
theorem rd_main_call5_v4 : GenP.V61 m outs c (Proc.devRef .tc main_call5_v4) = ((broadcastInDim S200000 ![] bcast_S_S200000) : (⟨S_, .i32⟩ : BufTy).Contents (Elt F) → (⟨S200000, .i32⟩ : BufTy).Contents (Elt F)) (GenP.V61 m outs c (Proc.devRef .tc main_call5_v3)) :=
  end1 (W14 (F := F)) (GenP.V13 m outs c) (GenP.V61 m outs c) L14 (T14 m outs c) 4 main_call5_v3 main_call5_v4 _ _ _ rfl (nk (by decide +kernel)) (nk (by decide +kernel))
theorem rd_main_v66 : GenP.V61 m outs c (Proc.devRef .tc main_v66) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call5_v4)) (GenP.V61 m outs c (Proc.devRef .tc main_call5_v2)) :=
  end2 (W14 (F := F)) (GenP.V13 m outs c) (GenP.V61 m outs c) L14 (T14 m outs c) 5 main_call5_v4 main_call5_v2 main_v66 _ _ _ _ rfl (nk (by decide +kernel)) (nk (by decide +kernel)) (nk (by decide +kernel))
theorem rd_main_c_27 : GenP.V61 m outs c (Proc.devRef .tc main_c_27) = (constantI S_ 32 768#32) :=
  end0 (W15 (F := F)) (GenP.V14 m outs c) (GenP.V61 m outs c) L15 (T15 m outs c) 0 main_c_27 _ _ rfl (nk (by decide +kernel))
theorem rd_main_v67 : GenP.V61 m outs c (Proc.devRef .tc main_v67) = (broadcastInDim S200000 ![] bcast_S_S200000 : (⟨S_, .i32⟩ : BufTy).Contents (Elt F) → (⟨S200000, .i32⟩ : BufTy).Contents (Elt F)) (GenP.V61 m outs c (Proc.devRef .tc main_c_27)) :=
  end1 (W15 (F := F)) (GenP.V14 m outs c) (GenP.V61 m outs c) L15 (T15 m outs c) 1 main_c_27 main_v67 _ _ _ rfl (nk (by decide +kernel)) (nk (by decide +kernel))
theorem rd_main_v68 : GenP.V61 m outs c (Proc.devRef .tc main_v68) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v66)) (GenP.V61 m outs c (Proc.devRef .tc main_v67)) :=
  end2 (W15 (F := F)) (GenP.V14 m outs c) (GenP.V61 m outs c) L15 (T15 m outs c) 2 main_v66 main_v67 main_v68 _ _ _ _ rfl (nk (by decide +kernel)) (nk (by decide +kernel)) (nk (by decide +kernel))
theorem rd_main_c_28 : GenP.V61 m outs c (Proc.devRef .tc main_c_28) = (constantI S_ 32 0#32) :=
  end0 (W15 (F := F)) (GenP.V14 m outs c) (GenP.V61 m outs c) L15 (T15 m outs c) 3 main_c_28 _ _ rfl (nk (by decide +kernel))

end Cert.KernelIdeal.Glue
-- ==== Proof.GlueRead2.lean ====
/-
  The idealized kernel program's host operations read back at the contents the second kernel region is entered with:
  one equation per operation, its result and its operands all read at V61 (part 2 of the table: hostOps1_12 operation 4 to
  hostOps1_20 operation 10). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_c_29 : GenP.V61 m outs c (Proc.devRef .tc main_c_29) = (constantI S_ 32 767#32) :=
  end0 (W15 (F := F)) (GenP.V14 m outs c) (GenP.V61 m outs c) L15 (T15 m outs c) 4 main_c_29 _ _ rfl (nk (by decide +kernel))
theorem rd_main_call6_v0 : GenP.V61 m outs c (Proc.devRef .tc main_call6_v0) = (id : (⟨S_, .i32⟩ : BufTy).Contents (Elt F) → (⟨S_, .i32⟩ : BufTy).Contents (Elt F)) (GenP.V61 m outs c (Proc.devRef .tc main_c_28)) :=
  end1 (W16 (F := F)) (GenP.V15 m outs c) (GenP.V61 m outs c) L16 (T16 m outs c) 0 main_c_28 main_call6_v0 _ _ _ rfl (nk (by decide +kernel)) (nk (by decide +kernel))
theorem rd_main_call6_v1 : GenP.V61 m outs c (Proc.devRef .tc main_call6_v1) = ((broadcastInDim S200000 ![] bcast_S_S200000) : (⟨S_, .i32⟩ : BufTy).Contents (Elt F) → (⟨S200000, .i32⟩ : BufTy).Contents (Elt F)) (GenP.V61 m outs c (Proc.devRef .tc main_call6_v0)) :=
  end1 (W16 (F := F)) (GenP.V15 m outs c) (GenP.V61 m outs c) L16 (T16 m outs c) 1 main_call6_v0 main_call6_v1 _ _ _ rfl (nk (by decide +kernel)) (nk (by decide +kernel))
theorem rd_main_call6_v2 : GenP.V61 m outs c (Proc.devRef .tc main_call6_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call6_v1)) (GenP.V61 m outs c (Proc.devRef .tc main_v54)) :=
  end2 (W16 (F := F)) (GenP.V15 m outs c) (GenP.V61 m outs c) L16 (T16 m outs c) 2 main_call6_v1 main_v54 main_call6_v2 _ _ _ _ rfl (nk (by decide +kernel)) (nk (by decide +kernel)) (nk (by decide +kernel))
theorem rd_main_call6_v3 : GenP.V61 m outs c (Proc.devRef .tc main_call6_v3) = (id : (⟨S_, .i32⟩ : BufTy).Contents (Elt F) → (⟨S_, .i32⟩ : BufTy).Contents (Elt F)) (GenP.V61 m outs c (Proc.devRef .tc main_c_29)) :=
  end1 (W16 (F := F)) (GenP.V15 m outs c) (GenP.V61 m outs c) L16 (T16 m outs c) 3 main_c_29 main_call6_v3 _ _ _ rfl (nk (by decide +kernel)) (nk (by decide +kernel))
theorem rd_main_call6_v4 : GenP.V61 m outs c (Proc.devRef .tc main_call6_v4) = ((broadcastInDim S200000 ![] bcast_S_S200000) : (⟨S_, .i32⟩ : BufTy).Contents (Elt F) → (⟨S200000, .i32⟩ : BufTy).Contents (Elt F)) (GenP.V61 m outs c (Proc.devRef .tc main_call6_v3)) :=
  end1 (W16 (F := F)) (GenP.V15 m outs c) (GenP.V61 m outs c) L16 (T16 m outs c) 4 main_call6_v3 main_call6_v4 _ _ _ rfl (nk (by decide +kernel)) (nk (by decide +kernel))
theorem rd_main_v69 : GenP.V61 m outs c (Proc.devRef .tc main_v69) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call6_v4)) (GenP.V61 m outs c (Proc.devRef .tc main_call6_v2)) :=
  end2 (W16 (F := F)) (GenP.V15 m outs c) (GenP.V61 m outs c) L16 (T16 m outs c) 5 main_call6_v4 main_call6_v2 main_v69 _ _ _ _ rfl (nk (by decide +kernel)) (nk (by decide +kernel)) (nk (by decide +kernel))
theorem rd_main_v70 : GenP.V61 m outs c (Proc.devRef .tc main_v70) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v68)) (GenP.V61 m outs c (Proc.devRef .tc main_v69)) :=
  end2 (W17 (F := F)) (GenP.V16 m outs c) (GenP.V61 m outs c) L17 (T17 m outs c) 0 main_v68 main_v69 main_v70 _ _ _ _ rfl (nk (by decide +kernel)) (nk (by decide +kernel)) (nk (by decide +kernel))
theorem rd_main_c_30 : GenP.V61 m outs c (Proc.devRef .tc main_c_30) = (constantI S_ 32 0#32) :=
  end0 (W17 (F := F)) (GenP.V16 m outs c) (GenP.V61 m outs c) L17 (T17 m outs c) 1 main_c_30 _ _ rfl (nk (by decide +kernel))
theorem rd_main_v71 : GenP.V61 m outs c (Proc.devRef .tc main_v71) = (broadcastInDim S200000 ![] bcast_S_S200000 : (⟨S_, .i32⟩ : BufTy).Contents (Elt F) → (⟨S200000, .i32⟩ : BufTy).Contents (Elt F)) (GenP.V61 m outs c (Proc.devRef .tc main_c_30)) :=
  end1 (W17 (F := F)) (GenP.V16 m outs c) (GenP.V61 m outs c) L17 (T17 m outs c) 2 main_c_30 main_v71 _ _ _ rfl (nk (by decide +kernel)) (nk (by decide +kernel))
theorem rd_main_v72 : GenP.V61 m outs c (Proc.devRef .tc main_v72) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v70)) (GenP.V61 m outs c (Proc.devRef .tc main_v71)) :=
  end2 (W17 (F := F)) (GenP.V16 m outs c) (GenP.V61 m outs c) L17 (T17 m outs c) 3 main_v70 main_v71 main_v72 _ _ _ _ rfl (nk (by decide +kernel)) (nk (by decide +kernel)) (nk (by decide +kernel))
theorem rd_main_c_31 : GenP.V61 m outs c (Proc.devRef .tc main_c_31) = (constantI S_ 32 589824#32) :=
  end0 (W17 (F := F)) (GenP.V16 m outs c) (GenP.V61 m outs c) L17 (T17 m outs c) 4 main_c_31 _ _ rfl (nk (by decide +kernel))
theorem rd_main_v73 : GenP.V61 m outs c (Proc.devRef .tc main_v73) = (broadcastInDim S200000 ![] bcast_S_S200000 : (⟨S_, .i32⟩ : BufTy).Contents (Elt F) → (⟨S200000, .i32⟩ : BufTy).Contents (Elt F)) (GenP.V61 m outs c (Proc.devRef .tc main_c_31)) :=
  end1 (W17 (F := F)) (GenP.V16 m outs c) (GenP.V61 m outs c) L17 (T17 m outs c) 5 main_c_31 main_v73 _ _ _ rfl (nk (by decide +kernel)) (nk (by decide +kernel))
theorem rd_main_v74 : GenP.V61 m outs c (Proc.devRef .tc main_v74) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v70)) (GenP.V61 m outs c (Proc.devRef .tc main_v73)) :=
  end2 (W17 (F := F)) (GenP.V16 m outs c) (GenP.V61 m outs c) L17 (T17 m outs c) 6 main_v70 main_v73 main_v74 _ _ _ _ rfl (nk (by decide +kernel)) (nk (by decide +kernel)) (nk (by decide +kernel))
theorem rd_main_v75 : GenP.V61 m outs c (Proc.devRef .tc main_v75) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v72)) (GenP.V61 m outs c (Proc.devRef .tc main_v74)) (GenP.V61 m outs c (Proc.devRef .tc main_v70)) :=
  end3 (W17 (F := F)) (GenP.V16 m outs c) (GenP.V61 m outs c) L17 (T17 m outs c) 7 main_v72 main_v74 main_v70 main_v75 _ _ _ _ _ rfl (nk (by decide +kernel)) (nk (by decide +kernel)) (nk (by decide +kernel)) (nk (by decide +kernel))
theorem rd_main_v76 : GenP.V61 m outs c (Proc.devRef .tc main_v76) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v75)) :=
  end1 (W17 (F := F)) (GenP.V16 m outs c) (GenP.V61 m outs c) L17 (T17 m outs c) 8 main_v75 main_v76 _ _ _ rfl (nk (by decide +kernel)) (nk (by decide +kernel))
theorem rd_main_v77 : GenP.V61 m outs c (Proc.devRef .tc main_v77) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v76)) :=
  end2 (W17 (F := F)) (GenP.V16 m outs c) (GenP.V61 m outs c) L17 (T17 m outs c) 9 main_v15 main_v76 main_v77 _ _ _ _ rfl (nk (by decide +kernel)) (nk (by decide +kernel)) (nk (by decide +kernel))
theorem rd_main_c_32 : GenP.V61 m outs c (Proc.devRef .tc main_c_32) = (constantI S_ 32 200000#32) :=
  end0 (W17 (F := F)) (GenP.V16 m outs c) (GenP.V61 m outs c) L17 (T17 m outs c) 10 main_c_32 _ _ rfl (nk (by decide +kernel))
theorem rd_main_v78 : GenP.V61 m outs c (Proc.devRef .tc main_v78) = (broadcastInDim S200000 ![] bcast_S_S200000 : (⟨S_, .i32⟩ : BufTy).Contents (Elt F) → (⟨S200000, .i32⟩ : BufTy).Contents (Elt F)) (GenP.V61 m outs c (Proc.devRef .tc main_c_32)) :=
  end1 (W17 (F := F)) (GenP.V16 m outs c) (GenP.V61 m outs c) L17 (T17 m outs c) 11 main_c_32 main_v78 _ _ _ rfl (nk (by decide +kernel)) (nk (by decide +kernel))
theorem rd_main_v79 : GenP.V61 m outs c (Proc.devRef .tc main_v79) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v77)) (GenP.V61 m outs c (Proc.devRef .tc main_v78)) :=
  end2 (W17 (F := F)) (GenP.V16 m outs c) (GenP.V61 m outs c) L17 (T17 m outs c) 12 main_v77 main_v78 main_v79 _ _ _ _ rfl (nk (by decide +kernel)) (nk (by decide +kernel)) (nk (by decide +kernel))
theorem rd_main_v80 : GenP.V61 m outs c (Proc.devRef .tc main_v80) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v65)) (GenP.V61 m outs c (Proc.devRef .tc main_v79)) :=
  end2 (W17 (F := F)) (GenP.V16 m outs c) (GenP.V61 m outs c) L17 (T17 m outs c) 13 main_v65 main_v79 main_v80 _ _ _ _ rfl (nk (by decide +kernel)) (nk (by decide +kernel)) (nk (by decide +kernel))
theorem rd_main_c_33 : GenP.V61 m outs c (Proc.devRef .tc main_c_33) = (constantI S_ 32 200000#32) :=
  end0 (W17 (F := F)) (GenP.V16 m outs c) (GenP.V61 m outs c) L17 (T17 m outs c) 14 main_c_33 _ _ rfl (nk (by decide +kernel))
theorem rd_main_call7_v0 : GenP.V61 m outs c (Proc.devRef .tc main_call7_v0) = (id : (⟨S_, .i32⟩ : BufTy).Contents (Elt F) → (⟨S_, .i32⟩ : BufTy).Contents (Elt F)) (GenP.V61 m outs c (Proc.devRef .tc main_c_33)) :=
  end1 (W18 (F := F)) (GenP.V17 m outs c) (GenP.V61 m outs c) L18 (T18 m outs c) 0 main_c_33 main_call7_v0 _ _ _ rfl (nk (by decide +kernel)) (nk (by decide +kernel))
theorem rd_main_call7_v1 : GenP.V61 m outs c (Proc.devRef .tc main_call7_v1) = ((broadcastInDim S200000 ![] bcast_S_S200000) : (⟨S_, .i32⟩ : BufTy).Contents (Elt F) → (⟨S200000, .i32⟩ : BufTy).Contents (Elt F)) (GenP.V61 m outs c (Proc.devRef .tc main_call7_v0)) :=
  end1 (W18 (F := F)) (GenP.V17 m outs c) (GenP.V61 m outs c) L18 (T18 m outs c) 1 main_call7_v0 main_call7_v1 _ _ _ rfl (nk (by decide +kernel)) (nk (by decide +kernel))
theorem rd_main_v81 : GenP.V61 m outs c (Proc.devRef .tc main_v81) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v80)) (GenP.V61 m outs c (Proc.devRef .tc main_v77)) (GenP.V61 m outs c (Proc.devRef .tc main_call7_v1)) :=
  end3 (W18 (F := F)) (GenP.V17 m outs c) (GenP.V61 m outs c) L18 (T18 m outs c) 2 main_v80 main_v77 main_call7_v1 main_v81 _ _ _ _ _ rfl (nk (by decide +kernel)) (nk (by decide +kernel)) (nk (by decide +kernel)) (nk (by decide +kernel))
theorem rd_main_c_34 : GenP.V61 m outs c (Proc.devRef .tc main_c_34) = (constantI S_ 32 4294967295#32) :=
  end0 (W19 (F := F)) (GenP.V18 m outs c) (GenP.V61 m outs c) L19 (T19 m outs c) 0 main_c_34 _ _ rfl (nk (by decide +kernel))
theorem rd_main_v82 : GenP.V61 m outs c (Proc.devRef .tc main_v82) = (broadcastInDim S200000 ![] bcast_S_S200000 : (⟨S_, .i32⟩ : BufTy).Contents (Elt F) → (⟨S200000, .i32⟩ : BufTy).Contents (Elt F)) (GenP.V61 m outs c (Proc.devRef .tc main_c_34)) :=
  end1 (W19 (F := F)) (GenP.V18 m outs c) (GenP.V61 m outs c) L19 (T19 m outs c) 1 main_c_34 main_v82 _ _ _ rfl (nk (by decide +kernel)) (nk (by decide +kernel))
theorem rd_main_v83 : GenP.V61 m outs c (Proc.devRef .tc main_v83) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v82)) :=
  end2 (W19 (F := F)) (GenP.V18 m outs c) (GenP.V61 m outs c) L19 (T19 m outs c) 2 main_v16 main_v82 main_v83 _ _ _ _ rfl (nk (by decide +kernel)) (nk (by decide +kernel)) (nk (by decide +kernel))
theorem rd_main_c_35 : GenP.V61 m outs c (Proc.devRef .tc main_c_35) = (constantI S_ 32 1#32) :=
  end0 (W19 (F := F)) (GenP.V18 m outs c) (GenP.V61 m outs c) L19 (T19 m outs c) 3 main_c_35 _ _ rfl (nk (by decide +kernel))
theorem rd_main_v84 : GenP.V61 m outs c (Proc.devRef .tc main_v84) = (broadcastInDim S200000 ![] bcast_S_S200000 : (⟨S_, .i32⟩ : BufTy).Contents (Elt F) → (⟨S200000, .i32⟩ : BufTy).Contents (Elt F)) (GenP.V61 m outs c (Proc.devRef .tc main_c_35)) :=
  end1 (W19 (F := F)) (GenP.V18 m outs c) (GenP.V61 m outs c) L19 (T19 m outs c) 4 main_c_35 main_v84 _ _ _ rfl (nk (by decide +kernel)) (nk (by decide +kernel))
theorem rd_main_v85 : GenP.V61 m outs c (Proc.devRef .tc main_v85) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v84)) :=
  end2 (W19 (F := F)) (GenP.V18 m outs c) (GenP.V61 m outs c) L19 (T19 m outs c) 5 main_v17 main_v84 main_v85 _ _ _ _ rfl (nk (by decide +kernel)) (nk (by decide +kernel)) (nk (by decide +kernel))
theorem rd_main_c_36 : GenP.V61 m outs c (Proc.devRef .tc main_c_36) = (constantI S_ 32 0#32) :=
  end0 (W19 (F := F)) (GenP.V18 m outs c) (GenP.V61 m outs c) L19 (T19 m outs c) 6 main_c_36 _ _ rfl (nk (by decide +kernel))
theorem rd_main_v86 : GenP.V61 m outs c (Proc.devRef .tc main_v86) = (broadcastInDim S200000 ![] bcast_S_S200000 : (⟨S_, .i32⟩ : BufTy).Contents (Elt F) → (⟨S200000, .i32⟩ : BufTy).Contents (Elt F)) (GenP.V61 m outs c (Proc.devRef .tc main_c_36)) :=
  end1 (W19 (F := F)) (GenP.V18 m outs c) (GenP.V61 m outs c) L19 (T19 m outs c) 7 main_c_36 main_v86 _ _ _ rfl (nk (by decide +kernel)) (nk (by decide +kernel))
theorem rd_main_v87 : GenP.V61 m outs c (Proc.devRef .tc main_v87) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v83)) (GenP.V61 m outs c (Proc.devRef .tc main_v86)) :=
  end2 (W19 (F := F)) (GenP.V18 m outs c) (GenP.V61 m outs c) L19 (T19 m outs c) 8 main_v83 main_v86 main_v87 _ _ _ _ rfl (nk (by decide +kernel)) (nk (by decide +kernel)) (nk (by decide +kernel))
theorem rd_main_c_37 : GenP.V61 m outs c (Proc.devRef .tc main_c_37) = (constantI S_ 32 768#32) :=
  end0 (W19 (F := F)) (GenP.V18 m outs c) (GenP.V61 m outs c) L19 (T19 m outs c) 9 main_c_37 _ _ rfl (nk (by decide +kernel))
theorem rd_main_v88 : GenP.V61 m outs c (Proc.devRef .tc main_v88) = (broadcastInDim S200000 ![] bcast_S_S200000 : (⟨S_, .i32⟩ : BufTy).Contents (Elt F) → (⟨S200000, .i32⟩ : BufTy).Contents (Elt F)) (GenP.V61 m outs c (Proc.devRef .tc main_c_37)) :=
  end1 (W19 (F := F)) (GenP.V18 m outs c) (GenP.V61 m outs c) L19 (T19 m outs c) 10 main_c_37 main_v88 _ _ _ rfl (nk (by decide +kernel)) (nk (by decide +kernel))
theorem rd_main_v89 : GenP.V61 m outs c (Proc.devRef .tc main_v89) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v83)) (GenP.V61 m outs c (Proc.devRef .tc main_v88)) :=
  end2 (W19 (F := F)) (GenP.V18 m outs c) (GenP.V61 m outs c) L19 (T19 m outs c) 11 main_v83 main_v88 main_v89 _ _ _ _ rfl (nk (by decide +kernel)) (nk (by decide +kernel)) (nk (by decide +kernel))
theorem rd_main_v90 : GenP.V61 m outs c (Proc.devRef .tc main_v90) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v87)) (GenP.V61 m outs c (Proc.devRef .tc main_v89)) :=
  end2 (W19 (F := F)) (GenP.V18 m outs c) (GenP.V61 m outs c) L19 (T19 m outs c) 12 main_v87 main_v89 main_v90 _ _ _ _ rfl (nk (by decide +kernel)) (nk (by decide +kernel)) (nk (by decide +kernel))
theorem rd_main_c_38 : GenP.V61 m outs c (Proc.devRef .tc main_c_38) = (constantI S_ 32 0#32) :=
  end0 (W19 (F := F)) (GenP.V18 m outs c) (GenP.V61 m outs c) L19 (T19 m outs c) 13 main_c_38 _ _ rfl (nk (by decide +kernel))
theorem rd_main_v91 : GenP.V61 m outs c (Proc.devRef .tc main_v91) = (broadcastInDim S200000 ![] bcast_S_S200000 : (⟨S_, .i32⟩ : BufTy).Contents (Elt F) → (⟨S200000, .i32⟩ : BufTy).Contents (Elt F)) (GenP.V61 m outs c (Proc.devRef .tc main_c_38)) :=
  end1 (W19 (F := F)) (GenP.V18 m outs c) (GenP.V61 m outs c) L19 (T19 m outs c) 14 main_c_38 main_v91 _ _ _ rfl (nk (by decide +kernel)) (nk (by decide +kernel))
theorem rd_main_v92 : GenP.V61 m outs c (Proc.devRef .tc main_v92) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v85)) (GenP.V61 m outs c (Proc.devRef .tc main_v91)) :=
  end2 (W19 (F := F)) (GenP.V18 m outs c) (GenP.V61 m outs c) L19 (T19 m outs c) 15 main_v85 main_v91 main_v92 _ _ _ _ rfl (nk (by decide +kernel)) (nk (by decide +kernel)) (nk (by decide +kernel))
theorem rd_main_v93 : GenP.V61 m outs c (Proc.devRef .tc main_v93) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v90)) (GenP.V61 m outs c (Proc.devRef .tc main_v92)) :=
  end2 (W19 (F := F)) (GenP.V18 m outs c) (GenP.V61 m outs c) L19 (T19 m outs c) 16 main_v90 main_v92 main_v93 _ _ _ _ rfl (nk (by decide +kernel)) (nk (by decide +kernel)) (nk (by decide +kernel))
theorem rd_main_c_39 : GenP.V61 m outs c (Proc.devRef .tc main_c_39) = (constantI S_ 32 768#32) :=
  end0 (W19 (F := F)) (GenP.V18 m outs c) (GenP.V61 m outs c) L19 (T19 m outs c) 17 main_c_39 _ _ rfl (nk (by decide +kernel))
theorem rd_main_v94 : GenP.V61 m outs c (Proc.devRef .tc main_v94) = (broadcastInDim S200000 ![] bcast_S_S200000 : (⟨S_, .i32⟩ : BufTy).Contents (Elt F) → (⟨S200000, .i32⟩ : BufTy).Contents (Elt F)) (GenP.V61 m outs c (Proc.devRef .tc main_c_39)) :=
  end1 (W19 (F := F)) (GenP.V18 m outs c) (GenP.V61 m outs c) L19 (T19 m outs c) 18 main_c_39 main_v94 _ _ _ rfl (nk (by decide +kernel)) (nk (by decide +kernel))
theorem rd_main_v95 : GenP.V61 m outs c (Proc.devRef .tc main_v95) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v85)) (GenP.V61 m outs c (Proc.devRef .tc main_v94)) :=
  end2 (W19 (F := F)) (GenP.V18 m outs c) (GenP.V61 m outs c) L19 (T19 m outs c) 19 main_v85 main_v94 main_v95 _ _ _ _ rfl (nk (by decide +kernel)) (nk (by decide +kernel)) (nk (by decide +kernel))
theorem rd_main_v96 : GenP.V61 m outs c (Proc.devRef .tc main_v96) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v93)) (GenP.V61 m outs c (Proc.devRef .tc main_v95)) :=
  end2 (W19 (F := F)) (GenP.V18 m outs c) (GenP.V61 m outs c) L19 (T19 m outs c) 20 main_v93 main_v95 main_v96 _ _ _ _ rfl (nk (by decide +kernel)) (nk (by decide +kernel)) (nk (by decide +kernel))
theorem rd_main_c_40 : GenP.V61 m outs c (Proc.devRef .tc main_c_40) = (constantI S_ 32 0#32) :=
  end0 (W19 (F := F)) (GenP.V18 m outs c) (GenP.V61 m outs c) L19 (T19 m outs c) 21 main_c_40 _ _ rfl (nk (by decide +kernel))
theorem rd_main_c_41 : GenP.V61 m outs c (Proc.devRef .tc main_c_41) = (constantI S_ 32 767#32) :=
  end0 (W19 (F := F)) (GenP.V18 m outs c) (GenP.V61 m outs c) L19 (T19 m outs c) 22 main_c_41 _ _ rfl (nk (by decide +kernel))
theorem rd_main_call8_v0 : GenP.V61 m outs c (Proc.devRef .tc main_call8_v0) = (id : (⟨S_, .i32⟩ : BufTy).Contents (Elt F) → (⟨S_, .i32⟩ : BufTy).Contents (Elt F)) (GenP.V61 m outs c (Proc.devRef .tc main_c_40)) :=
  end1 (W20 (F := F)) (GenP.V19 m outs c) (GenP.V61 m outs c) L20 (T20 m outs c) 0 main_c_40 main_call8_v0 _ _ _ rfl (nk (by decide +kernel)) (nk (by decide +kernel))
theorem rd_main_call8_v1 : GenP.V61 m outs c (Proc.devRef .tc main_call8_v1) = ((broadcastInDim S200000 ![] bcast_S_S200000) : (⟨S_, .i32⟩ : BufTy).Contents (Elt F) → (⟨S200000, .i32⟩ : BufTy).Contents (Elt F)) (GenP.V61 m outs c (Proc.devRef .tc main_call8_v0)) :=
  end1 (W20 (F := F)) (GenP.V19 m outs c) (GenP.V61 m outs c) L20 (T20 m outs c) 1 main_call8_v0 main_call8_v1 _ _ _ rfl (nk (by decide +kernel)) (nk (by decide +kernel))
theorem rd_main_call8_v2 : GenP.V61 m outs c (Proc.devRef .tc main_call8_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call8_v1)) (GenP.V61 m outs c (Proc.devRef .tc main_v83)) :=
  end2 (W20 (F := F)) (GenP.V19 m outs c) (GenP.V61 m outs c) L20 (T20 m outs c) 2 main_call8_v1 main_v83 main_call8_v2 _ _ _ _ rfl (nk (by decide +kernel)) (nk (by decide +kernel)) (nk (by decide +kernel))
theorem rd_main_call8_v3 : GenP.V61 m outs c (Proc.devRef .tc main_call8_v3) = (id : (⟨S_, .i32⟩ : BufTy).Contents (Elt F) → (⟨S_, .i32⟩ : BufTy).Contents (Elt F)) (GenP.V61 m outs c (Proc.devRef .tc main_c_41)) :=
  end1 (W20 (F := F)) (GenP.V19 m outs c) (GenP.V61 m outs c) L20 (T20 m outs c) 3 main_c_41 main_call8_v3 _ _ _ rfl (nk (by decide +kernel)) (nk (by decide +kernel))
theorem rd_main_call8_v4 : GenP.V61 m outs c (Proc.devRef .tc main_call8_v4) = ((broadcastInDim S200000 ![] bcast_S_S200000) : (⟨S_, .i32⟩ : BufTy).Contents (Elt F) → (⟨S200000, .i32⟩ : BufTy).Contents (Elt F)) (GenP.V61 m outs c (Proc.devRef .tc main_call8_v3)) :=
  end1 (W20 (F := F)) (GenP.V19 m outs c) (GenP.V61 m outs c) L20 (T20 m outs c) 4 main_call8_v3 main_call8_v4 _ _ _ rfl (nk (by decide +kernel)) (nk (by decide +kernel))
theorem rd_main_v97 : GenP.V61 m outs c (Proc.devRef .tc main_v97) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call8_v4)) (GenP.V61 m outs c (Proc.devRef .tc main_call8_v2)) :=
  end2 (W20 (F := F)) (GenP.V19 m outs c) (GenP.V61 m outs c) L20 (T20 m outs c) 5 main_call8_v4 main_call8_v2 main_v97 _ _ _ _ rfl (nk (by decide +kernel)) (nk (by decide +kernel)) (nk (by decide +kernel))
theorem rd_main_c_42 : GenP.V61 m outs c (Proc.devRef .tc main_c_42) = (constantI S_ 32 768#32) :=
  end0 (W21 (F := F)) (GenP.V20 m outs c) (GenP.V61 m outs c) L21 (T21 m outs c) 0 main_c_42 _ _ rfl (nk (by decide +kernel))
theorem rd_main_v98 : GenP.V61 m outs c (Proc.devRef .tc main_v98) = (broadcastInDim S200000 ![] bcast_S_S200000 : (⟨S_, .i32⟩ : BufTy).Contents (Elt F) → (⟨S200000, .i32⟩ : BufTy).Contents (Elt F)) (GenP.V61 m outs c (Proc.devRef .tc main_c_42)) :=
  end1 (W21 (F := F)) (GenP.V20 m outs c) (GenP.V61 m outs c) L21 (T21 m outs c) 1 main_c_42 main_v98 _ _ _ rfl (nk (by decide +kernel)) (nk (by decide +kernel))
theorem rd_main_v99 : GenP.V61 m outs c (Proc.devRef .tc main_v99) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v97)) (GenP.V61 m outs c (Proc.devRef .tc main_v98)) :=
  end2 (W21 (F := F)) (GenP.V20 m outs c) (GenP.V61 m outs c) L21 (T21 m outs c) 2 main_v97 main_v98 main_v99 _ _ _ _ rfl (nk (by decide +kernel)) (nk (by decide +kernel)) (nk (by decide +kernel))
theorem rd_main_c_43 : GenP.V61 m outs c (Proc.devRef .tc main_c_43) = (constantI S_ 32 0#32) :=
  end0 (W21 (F := F)) (GenP.V20 m outs c) (GenP.V61 m outs c) L21 (T21 m outs c) 3 main_c_43 _ _ rfl (nk (by decide +kernel))
theorem rd_main_c_44 : GenP.V61 m outs c (Proc.devRef .tc main_c_44) = (constantI S_ 32 767#32) :=
  end0 (W21 (F := F)) (GenP.V20 m outs c) (GenP.V61 m outs c) L21 (T21 m outs c) 4 main_c_44 _ _ rfl (nk (by decide +kernel))
theorem rd_main_call9_v0 : GenP.V61 m outs c (Proc.devRef .tc main_call9_v0) = (id : (⟨S_, .i32⟩ : BufTy).Contents (Elt F) → (⟨S_, .i32⟩ : BufTy).Contents (Elt F)) (GenP.V61 m outs c (Proc.devRef .tc main_c_43)) :=
  end1 (W22 (F := F)) (GenP.V21 m outs c) (GenP.V61 m outs c) L22 (T22 m outs c) 0 main_c_43 main_call9_v0 _ _ _ rfl (nk (by decide +kernel)) (nk (by decide +kernel))
theorem rd_main_call9_v1 : GenP.V61 m outs c (Proc.devRef .tc main_call9_v1) = ((broadcastInDim S200000 ![] bcast_S_S200000) : (⟨S_, .i32⟩ : BufTy).Contents (Elt F) → (⟨S200000, .i32⟩ : BufTy).Contents (Elt F)) (GenP.V61 m outs c (Proc.devRef .tc main_call9_v0)) :=
  end1 (W22 (F := F)) (GenP.V21 m outs c) (GenP.V61 m outs c) L22 (T22 m outs c) 1 main_call9_v0 main_call9_v1 _ _ _ rfl (nk (by decide +kernel)) (nk (by decide +kernel))
theorem rd_main_call9_v2 : GenP.V61 m outs c (Proc.devRef .tc main_call9_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call9_v1)) (GenP.V61 m outs c (Proc.devRef .tc main_v85)) :=
  end2 (W22 (F := F)) (GenP.V21 m outs c) (GenP.V61 m outs c) L22 (T22 m outs c) 2 main_call9_v1 main_v85 main_call9_v2 _ _ _ _ rfl (nk (by decide +kernel)) (nk (by decide +kernel)) (nk (by decide +kernel))
theorem rd_main_call9_v3 : GenP.V61 m outs c (Proc.devRef .tc main_call9_v3) = (id : (⟨S_, .i32⟩ : BufTy).Contents (Elt F) → (⟨S_, .i32⟩ : BufTy).Contents (Elt F)) (GenP.V61 m outs c (Proc.devRef .tc main_c_44)) :=
  end1 (W22 (F := F)) (GenP.V21 m outs c) (GenP.V61 m outs c) L22 (T22 m outs c) 3 main_c_44 main_call9_v3 _ _ _ rfl (nk (by decide +kernel)) (nk (by decide +kernel))
theorem rd_main_call9_v4 : GenP.V61 m outs c (Proc.devRef .tc main_call9_v4) = ((broadcastInDim S200000 ![] bcast_S_S200000) : (⟨S_, .i32⟩ : BufTy).Contents (Elt F) → (⟨S200000, .i32⟩ : BufTy).Contents (Elt F)) (GenP.V61 m outs c (Proc.devRef .tc main_call9_v3)) :=
  end1 (W22 (F := F)) (GenP.V21 m outs c) (GenP.V61 m outs c) L22 (T22 m outs c) 4 main_call9_v3 main_call9_v4 _ _ _ rfl (nk (by decide +kernel)) (nk (by decide +kernel))
theorem rd_main_v100 : GenP.V61 m outs c (Proc.devRef .tc main_v100) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call9_v4)) (GenP.V61 m outs c (Proc.devRef .tc main_call9_v2)) :=
  end2 (W22 (F := F)) (GenP.V21 m outs c) (GenP.V61 m outs c) L22 (T22 m outs c) 5 main_call9_v4 main_call9_v2 main_v100 _ _ _ _ rfl (nk (by decide +kernel)) (nk (by decide +kernel)) (nk (by decide +kernel))
theorem rd_main_v101 : GenP.V61 m outs c (Proc.devRef .tc main_v101) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v99)) (GenP.V61 m outs c (Proc.devRef .tc main_v100)) :=
  end2 (W23 (F := F)) (GenP.V22 m outs c) (GenP.V61 m outs c) L23 (T23 m outs c) 0 main_v99 main_v100 main_v101 _ _ _ _ rfl (nk (by decide +kernel)) (nk (by decide +kernel)) (nk (by decide +kernel))
theorem rd_main_c_45 : GenP.V61 m outs c (Proc.devRef .tc main_c_45) = (constantI S_ 32 0#32) :=
  end0 (W23 (F := F)) (GenP.V22 m outs c) (GenP.V61 m outs c) L23 (T23 m outs c) 1 main_c_45 _ _ rfl (nk (by decide +kernel))
theorem rd_main_v102 : GenP.V61 m outs c (Proc.devRef .tc main_v102) = (broadcastInDim S200000 ![] bcast_S_S200000 : (⟨S_, .i32⟩ : BufTy).Contents (Elt F) → (⟨S200000, .i32⟩ : BufTy).Contents (Elt F)) (GenP.V61 m outs c (Proc.devRef .tc main_c_45)) :=
  end1 (W23 (F := F)) (GenP.V22 m outs c) (GenP.V61 m outs c) L23 (T23 m outs c) 2 main_c_45 main_v102 _ _ _ rfl (nk (by decide +kernel)) (nk (by decide +kernel))
theorem rd_main_v103 : GenP.V61 m outs c (Proc.devRef .tc main_v103) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v101)) (GenP.V61 m outs c (Proc.devRef .tc main_v102)) :=
  end2 (W23 (F := F)) (GenP.V22 m outs c) (GenP.V61 m outs c) L23 (T23 m outs c) 3 main_v101 main_v102 main_v103 _ _ _ _ rfl (nk (by decide +kernel)) (nk (by decide +kernel)) (nk (by decide +kernel))
theorem rd_main_c_46 : GenP.V61 m outs c (Proc.devRef .tc main_c_46) = (constantI S_ 32 589824#32) :=
  end0 (W23 (F := F)) (GenP.V22 m outs c) (GenP.V61 m outs c) L23 (T23 m outs c) 4 main_c_46 _ _ rfl (nk (by decide +kernel))
theorem rd_main_v104 : GenP.V61 m outs c (Proc.devRef .tc main_v104) = (broadcastInDim S200000 ![] bcast_S_S200000 : (⟨S_, .i32⟩ : BufTy).Contents (Elt F) → (⟨S200000, .i32⟩ : BufTy).Contents (Elt F)) (GenP.V61 m outs c (Proc.devRef .tc main_c_46)) :=
  end1 (W23 (F := F)) (GenP.V22 m outs c) (GenP.V61 m outs c) L23 (T23 m outs c) 5 main_c_46 main_v104 _ _ _ rfl (nk (by decide +kernel)) (nk (by decide +kernel))
theorem rd_main_v105 : GenP.V61 m outs c (Proc.devRef .tc main_v105) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v101)) (GenP.V61 m outs c (Proc.devRef .tc main_v104)) :=
  end2 (W23 (F := F)) (GenP.V22 m outs c) (GenP.V61 m outs c) L23 (T23 m outs c) 6 main_v101 main_v104 main_v105 _ _ _ _ rfl (nk (by decide +kernel)) (nk (by decide +kernel)) (nk (by decide +kernel))
theorem rd_main_v106 : GenP.V61 m outs c (Proc.devRef .tc main_v106) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v103)) (GenP.V61 m outs c (Proc.devRef .tc main_v105)) (GenP.V61 m outs c (Proc.devRef .tc main_v101)) :=
  end3 (W23 (F := F)) (GenP.V22 m outs c) (GenP.V61 m outs c) L23 (T23 m outs c) 7 main_v103 main_v105 main_v101 main_v106 _ _ _ _ _ rfl (nk (by decide +kernel)) (nk (by decide +kernel)) (nk (by decide +kernel)) (nk (by decide +kernel))
theorem rd_main_v107 : GenP.V61 m outs c (Proc.devRef .tc main_v107) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v106)) :=
  end1 (W23 (F := F)) (GenP.V22 m outs c) (GenP.V61 m outs c) L23 (T23 m outs c) 8 main_v106 main_v107 _ _ _ rfl (nk (by decide +kernel)) (nk (by decide +kernel))
theorem rd_main_v108 : GenP.V61 m outs c (Proc.devRef .tc main_v108) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v107)) :=
  end2 (W23 (F := F)) (GenP.V22 m outs c) (GenP.V61 m outs c) L23 (T23 m outs c) 9 main_v15 main_v107 main_v108 _ _ _ _ rfl (nk (by decide +kernel)) (nk (by decide +kernel)) (nk (by decide +kernel))
theorem rd_main_c_47 : GenP.V61 m outs c (Proc.devRef .tc main_c_47) = (constantI S_ 32 200000#32) :=
  end0 (W23 (F := F)) (GenP.V22 m outs c) (GenP.V61 m outs c) L23 (T23 m outs c) 10 main_c_47 _ _ rfl (nk (by decide +kernel))

end Cert.KernelIdeal.Glue
-- ==== Proof.GlueRead3.lean ====
/-
  The idealized kernel program's host operations read back at the contents the second kernel region is entered with:
  one equation per operation, its result and its operands all read at V61 (part 3 of the table: hostOps1_20 operation 11 to
  hostOps1_28 operation 10). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v109 : GenP.V61 m outs c (Proc.devRef .tc main_v109) = (broadcastInDim S200000 ![] bcast_S_S200000 : (⟨S_, .i32⟩ : BufTy).Contents (Elt F) → (⟨S200000, .i32⟩ : BufTy).Contents (Elt F)) (GenP.V61 m outs c (Proc.devRef .tc main_c_47)) :=
  end1 (W23 (F := F)) (GenP.V22 m outs c) (GenP.V61 m outs c) L23 (T23 m outs c) 11 main_c_47 main_v109 _ _ _ rfl (nk (by decide +kernel)) (nk (by decide +kernel))
theorem rd_main_v110 : GenP.V61 m outs c (Proc.devRef .tc main_v110) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v108)) (GenP.V61 m outs c (Proc.devRef .tc main_v109)) :=
  end2 (W23 (F := F)) (GenP.V22 m outs c) (GenP.V61 m outs c) L23 (T23 m outs c) 12 main_v108 main_v109 main_v110 _ _ _ _ rfl (nk (by decide +kernel)) (nk (by decide +kernel)) (nk (by decide +kernel))
theorem rd_main_v111 : GenP.V61 m outs c (Proc.devRef .tc main_v111) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v96)) (GenP.V61 m outs c (Proc.devRef .tc main_v110)) :=
  end2 (W23 (F := F)) (GenP.V22 m outs c) (GenP.V61 m outs c) L23 (T23 m outs c) 13 main_v96 main_v110 main_v111 _ _ _ _ rfl (nk (by decide +kernel)) (nk (by decide +kernel)) (nk (by decide +kernel))
theorem rd_main_c_48 : GenP.V61 m outs c (Proc.devRef .tc main_c_48) = (constantI S_ 32 200000#32) :=
  end0 (W23 (F := F)) (GenP.V22 m outs c) (GenP.V61 m outs c) L23 (T23 m outs c) 14 main_c_48 _ _ rfl (nk (by decide +kernel))
theorem rd_main_call10_v0 : GenP.V61 m outs c (Proc.devRef .tc main_call10_v0) = (id : (⟨S_, .i32⟩ : BufTy).Contents (Elt F) → (⟨S_, .i32⟩ : BufTy).Contents (Elt F)) (GenP.V61 m outs c (Proc.devRef .tc main_c_48)) :=
  end1 (W24 (F := F)) (GenP.V23 m outs c) (GenP.V61 m outs c) L24 (T24 m outs c) 0 main_c_48 main_call10_v0 _ _ _ rfl (nk (by decide +kernel)) (nk (by decide +kernel))
theorem rd_main_call10_v1 : GenP.V61 m outs c (Proc.devRef .tc main_call10_v1) = ((broadcastInDim S200000 ![] bcast_S_S200000) : (⟨S_, .i32⟩ : BufTy).Contents (Elt F) → (⟨S200000, .i32⟩ : BufTy).Contents (Elt F)) (GenP.V61 m outs c (Proc.devRef .tc main_call10_v0)) :=
  end1 (W24 (F := F)) (GenP.V23 m outs c) (GenP.V61 m outs c) L24 (T24 m outs c) 1 main_call10_v0 main_call10_v1 _ _ _ rfl (nk (by decide +kernel)) (nk (by decide +kernel))
theorem rd_main_v112 : GenP.V61 m outs c (Proc.devRef .tc main_v112) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v111)) (GenP.V61 m outs c (Proc.devRef .tc main_v108)) (GenP.V61 m outs c (Proc.devRef .tc main_call10_v1)) :=
  end3 (W24 (F := F)) (GenP.V23 m outs c) (GenP.V61 m outs c) L24 (T24 m outs c) 2 main_v111 main_v108 main_call10_v1 main_v112 _ _ _ _ _ rfl (nk (by decide +kernel)) (nk (by decide +kernel)) (nk (by decide +kernel)) (nk (by decide +kernel))
theorem rd_main_c_49 : GenP.V61 m outs c (Proc.devRef .tc main_c_49) = (constantI S_ 32 0#32) :=
  end0 (W25 (F := F)) (GenP.V24 m outs c) (GenP.V61 m outs c) L25 (T25 m outs c) 0 main_c_49 _ _ rfl (nk (by decide +kernel))
theorem rd_main_v113 : GenP.V61 m outs c (Proc.devRef .tc main_v113) = (broadcastInDim S200000 ![] bcast_S_S200000 : (⟨S_, .i32⟩ : BufTy).Contents (Elt F) → (⟨S200000, .i32⟩ : BufTy).Contents (Elt F)) (GenP.V61 m outs c (Proc.devRef .tc main_c_49)) :=
  end1 (W25 (F := F)) (GenP.V24 m outs c) (GenP.V61 m outs c) L25 (T25 m outs c) 1 main_c_49 main_v113 _ _ _ rfl (nk (by decide +kernel)) (nk (by decide +kernel))
theorem rd_main_v114 : GenP.V61 m outs c (Proc.devRef .tc main_v114) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v113)) :=
  end2 (W25 (F := F)) (GenP.V24 m outs c) (GenP.V61 m outs c) L25 (T25 m outs c) 2 main_v16 main_v113 main_v114 _ _ _ _ rfl (nk (by decide +kernel)) (nk (by decide +kernel)) (nk (by decide +kernel))
theorem rd_main_c_50 : GenP.V61 m outs c (Proc.devRef .tc main_c_50) = (constantI S_ 32 4294967295#32) :=
  end0 (W25 (F := F)) (GenP.V24 m outs c) (GenP.V61 m outs c) L25 (T25 m outs c) 3 main_c_50 _ _ rfl (nk (by decide +kernel))
theorem rd_main_v115 : GenP.V61 m outs c (Proc.devRef .tc main_v115) = (broadcastInDim S200000 ![] bcast_S_S200000 : (⟨S_, .i32⟩ : BufTy).Contents (Elt F) → (⟨S200000, .i32⟩ : BufTy).Contents (Elt F)) (GenP.V61 m outs c (Proc.devRef .tc main_c_50)) :=
  end1 (W25 (F := F)) (GenP.V24 m outs c) (GenP.V61 m outs c) L25 (T25 m outs c) 4 main_c_50 main_v115 _ _ _ rfl (nk (by decide +kernel)) (nk (by decide +kernel))
theorem rd_main_v116 : GenP.V61 m outs c (Proc.devRef .tc main_v116) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v115)) :=
  end2 (W25 (F := F)) (GenP.V24 m outs c) (GenP.V61 m outs c) L25 (T25 m outs c) 5 main_v17 main_v115 main_v116 _ _ _ _ rfl (nk (by decide +kernel)) (nk (by decide +kernel)) (nk (by decide +kernel))
theorem rd_main_c_51 : GenP.V61 m outs c (Proc.devRef .tc main_c_51) = (constantI S_ 32 0#32) :=
  end0 (W25 (F := F)) (GenP.V24 m outs c) (GenP.V61 m outs c) L25 (T25 m outs c) 6 main_c_51 _ _ rfl (nk (by decide +kernel))
theorem rd_main_v117 : GenP.V61 m outs c (Proc.devRef .tc main_v117) = (broadcastInDim S200000 ![] bcast_S_S200000 : (⟨S_, .i32⟩ : BufTy).Contents (Elt F) → (⟨S200000, .i32⟩ : BufTy).Contents (Elt F)) (GenP.V61 m outs c (Proc.devRef .tc main_c_51)) :=
  end1 (W25 (F := F)) (GenP.V24 m outs c) (GenP.V61 m outs c) L25 (T25 m outs c) 7 main_c_51 main_v117 _ _ _ rfl (nk (by decide +kernel)) (nk (by decide +kernel))
theorem rd_main_v118 : GenP.V61 m outs c (Proc.devRef .tc main_v118) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v114)) (GenP.V61 m outs c (Proc.devRef .tc main_v117)) :=
  end2 (W25 (F := F)) (GenP.V24 m outs c) (GenP.V61 m outs c) L25 (T25 m outs c) 8 main_v114 main_v117 main_v118 _ _ _ _ rfl (nk (by decide +kernel)) (nk (by decide +kernel)) (nk (by decide +kernel))
theorem rd_main_c_52 : GenP.V61 m outs c (Proc.devRef .tc main_c_52) = (constantI S_ 32 768#32) :=
  end0 (W25 (F := F)) (GenP.V24 m outs c) (GenP.V61 m outs c) L25 (T25 m outs c) 9 main_c_52 _ _ rfl (nk (by decide +kernel))
theorem rd_main_v119 : GenP.V61 m outs c (Proc.devRef .tc main_v119) = (broadcastInDim S200000 ![] bcast_S_S200000 : (⟨S_, .i32⟩ : BufTy).Contents (Elt F) → (⟨S200000, .i32⟩ : BufTy).Contents (Elt F)) (GenP.V61 m outs c (Proc.devRef .tc main_c_52)) :=
  end1 (W25 (F := F)) (GenP.V24 m outs c) (GenP.V61 m outs c) L25 (T25 m outs c) 10 main_c_52 main_v119 _ _ _ rfl (nk (by decide +kernel)) (nk (by decide +kernel))
theorem rd_main_v120 : GenP.V61 m outs c (Proc.devRef .tc main_v120) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v114)) (GenP.V61 m outs c (Proc.devRef .tc main_v119)) :=
  end2 (W25 (F := F)) (GenP.V24 m outs c) (GenP.V61 m outs c) L25 (T25 m outs c) 11 main_v114 main_v119 main_v120 _ _ _ _ rfl (nk (by decide +kernel)) (nk (by decide +kernel)) (nk (by decide +kernel))
theorem rd_main_v121 : GenP.V61 m outs c (Proc.devRef .tc main_v121) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v118)) (GenP.V61 m outs c (Proc.devRef .tc main_v120)) :=
  end2 (W25 (F := F)) (GenP.V24 m outs c) (GenP.V61 m outs c) L25 (T25 m outs c) 12 main_v118 main_v120 main_v121 _ _ _ _ rfl (nk (by decide +kernel)) (nk (by decide +kernel)) (nk (by decide +kernel))
theorem rd_main_c_53 : GenP.V61 m outs c (Proc.devRef .tc main_c_53) = (constantI S_ 32 0#32) :=
  end0 (W25 (F := F)) (GenP.V24 m outs c) (GenP.V61 m outs c) L25 (T25 m outs c) 13 main_c_53 _ _ rfl (nk (by decide +kernel))
theorem rd_main_v122 : GenP.V61 m outs c (Proc.devRef .tc main_v122) = (broadcastInDim S200000 ![] bcast_S_S200000 : (⟨S_, .i32⟩ : BufTy).Contents (Elt F) → (⟨S200000, .i32⟩ : BufTy).Contents (Elt F)) (GenP.V61 m outs c (Proc.devRef .tc main_c_53)) :=
  end1 (W25 (F := F)) (GenP.V24 m outs c) (GenP.V61 m outs c) L25 (T25 m outs c) 14 main_c_53 main_v122 _ _ _ rfl (nk (by decide +kernel)) (nk (by decide +kernel))
theorem rd_main_v123 : GenP.V61 m outs c (Proc.devRef .tc main_v123) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v116)) (GenP.V61 m outs c (Proc.devRef .tc main_v122)) :=
  end2 (W25 (F := F)) (GenP.V24 m outs c) (GenP.V61 m outs c) L25 (T25 m outs c) 15 main_v116 main_v122 main_v123 _ _ _ _ rfl (nk (by decide +kernel)) (nk (by decide +kernel)) (nk (by decide +kernel))
theorem rd_main_v124 : GenP.V61 m outs c (Proc.devRef .tc main_v124) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v121)) (GenP.V61 m outs c (Proc.devRef .tc main_v123)) :=
  end2 (W25 (F := F)) (GenP.V24 m outs c) (GenP.V61 m outs c) L25 (T25 m outs c) 16 main_v121 main_v123 main_v124 _ _ _ _ rfl (nk (by decide +kernel)) (nk (by decide +kernel)) (nk (by decide +kernel))
theorem rd_main_c_54 : GenP.V61 m outs c (Proc.devRef .tc main_c_54) = (constantI S_ 32 768#32) :=
  end0 (W25 (F := F)) (GenP.V24 m outs c) (GenP.V61 m outs c) L25 (T25 m outs c) 17 main_c_54 _ _ rfl (nk (by decide +kernel))
theorem rd_main_v125 : GenP.V61 m outs c (Proc.devRef .tc main_v125) = (broadcastInDim S200000 ![] bcast_S_S200000 : (⟨S_, .i32⟩ : BufTy).Contents (Elt F) → (⟨S200000, .i32⟩ : BufTy).Contents (Elt F)) (GenP.V61 m outs c (Proc.devRef .tc main_c_54)) :=
  end1 (W25 (F := F)) (GenP.V24 m outs c) (GenP.V61 m outs c) L25 (T25 m outs c) 18 main_c_54 main_v125 _ _ _ rfl (nk (by decide +kernel)) (nk (by decide +kernel))
theorem rd_main_v126 : GenP.V61 m outs c (Proc.devRef .tc main_v126) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v116)) (GenP.V61 m outs c (Proc.devRef .tc main_v125)) :=
  end2 (W25 (F := F)) (GenP.V24 m outs c) (GenP.V61 m outs c) L25 (T25 m outs c) 19 main_v116 main_v125 main_v126 _ _ _ _ rfl (nk (by decide +kernel)) (nk (by decide +kernel)) (nk (by decide +kernel))
theorem rd_main_v127 : GenP.V61 m outs c (Proc.devRef .tc main_v127) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v124)) (GenP.V61 m outs c (Proc.devRef .tc main_v126)) :=
  end2 (W25 (F := F)) (GenP.V24 m outs c) (GenP.V61 m outs c) L25 (T25 m outs c) 20 main_v124 main_v126 main_v127 _ _ _ _ rfl (nk (by decide +kernel)) (nk (by decide +kernel)) (nk (by decide +kernel))
theorem rd_main_c_55 : GenP.V61 m outs c (Proc.devRef .tc main_c_55) = (constantI S_ 32 0#32) :=
  end0 (W25 (F := F)) (GenP.V24 m outs c) (GenP.V61 m outs c) L25 (T25 m outs c) 21 main_c_55 _ _ rfl (nk (by decide +kernel))
theorem rd_main_c_56 : GenP.V61 m outs c (Proc.devRef .tc main_c_56) = (constantI S_ 32 767#32) :=
  end0 (W25 (F := F)) (GenP.V24 m outs c) (GenP.V61 m outs c) L25 (T25 m outs c) 22 main_c_56 _ _ rfl (nk (by decide +kernel))
theorem rd_main_call11_v0 : GenP.V61 m outs c (Proc.devRef .tc main_call11_v0) = (id : (⟨S_, .i32⟩ : BufTy).Contents (Elt F) → (⟨S_, .i32⟩ : BufTy).Contents (Elt F)) (GenP.V61 m outs c (Proc.devRef .tc main_c_55)) :=
  end1 (W26 (F := F)) (GenP.V25 m outs c) (GenP.V61 m outs c) L26 (T26 m outs c) 0 main_c_55 main_call11_v0 _ _ _ rfl (nk (by decide +kernel)) (nk (by decide +kernel))
theorem rd_main_call11_v1 : GenP.V61 m outs c (Proc.devRef .tc main_call11_v1) = ((broadcastInDim S200000 ![] bcast_S_S200000) : (⟨S_, .i32⟩ : BufTy).Contents (Elt F) → (⟨S200000, .i32⟩ : BufTy).Contents (Elt F)) (GenP.V61 m outs c (Proc.devRef .tc main_call11_v0)) :=
  end1 (W26 (F := F)) (GenP.V25 m outs c) (GenP.V61 m outs c) L26 (T26 m outs c) 1 main_call11_v0 main_call11_v1 _ _ _ rfl (nk (by decide +kernel)) (nk (by decide +kernel))
theorem rd_main_call11_v2 : GenP.V61 m outs c (Proc.devRef .tc main_call11_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call11_v1)) (GenP.V61 m outs c (Proc.devRef .tc main_v114)) :=
  end2 (W26 (F := F)) (GenP.V25 m outs c) (GenP.V61 m outs c) L26 (T26 m outs c) 2 main_call11_v1 main_v114 main_call11_v2 _ _ _ _ rfl (nk (by decide +kernel)) (nk (by decide +kernel)) (nk (by decide +kernel))
theorem rd_main_call11_v3 : GenP.V61 m outs c (Proc.devRef .tc main_call11_v3) = (id : (⟨S_, .i32⟩ : BufTy).Contents (Elt F) → (⟨S_, .i32⟩ : BufTy).Contents (Elt F)) (GenP.V61 m outs c (Proc.devRef .tc main_c_56)) :=
  end1 (W26 (F := F)) (GenP.V25 m outs c) (GenP.V61 m outs c) L26 (T26 m outs c) 3 main_c_56 main_call11_v3 _ _ _ rfl (nk (by decide +kernel)) (nk (by decide +kernel))
theorem rd_main_call11_v4 : GenP.V61 m outs c (Proc.devRef .tc main_call11_v4) = ((broadcastInDim S200000 ![] bcast_S_S200000) : (⟨S_, .i32⟩ : BufTy).Contents (Elt F) → (⟨S200000, .i32⟩ : BufTy).Contents (Elt F)) (GenP.V61 m outs c (Proc.devRef .tc main_call11_v3)) :=
  end1 (W26 (F := F)) (GenP.V25 m outs c) (GenP.V61 m outs c) L26 (T26 m outs c) 4 main_call11_v3 main_call11_v4 _ _ _ rfl (nk (by decide +kernel)) (nk (by decide +kernel))
theorem rd_main_v128 : GenP.V61 m outs c (Proc.devRef .tc main_v128) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call11_v4)) (GenP.V61 m outs c (Proc.devRef .tc main_call11_v2)) :=
  end2 (W26 (F := F)) (GenP.V25 m outs c) (GenP.V61 m outs c) L26 (T26 m outs c) 5 main_call11_v4 main_call11_v2 main_v128 _ _ _ _ rfl (nk (by decide +kernel)) (nk (by decide +kernel)) (nk (by decide +kernel))
theorem rd_main_c_57 : GenP.V61 m outs c (Proc.devRef .tc main_c_57) = (constantI S_ 32 768#32) :=
  end0 (W27 (F := F)) (GenP.V26 m outs c) (GenP.V61 m outs c) L27 (T27 m outs c) 0 main_c_57 _ _ rfl (nk (by decide +kernel))
theorem rd_main_v129 : GenP.V61 m outs c (Proc.devRef .tc main_v129) = (broadcastInDim S200000 ![] bcast_S_S200000 : (⟨S_, .i32⟩ : BufTy).Contents (Elt F) → (⟨S200000, .i32⟩ : BufTy).Contents (Elt F)) (GenP.V61 m outs c (Proc.devRef .tc main_c_57)) :=
  end1 (W27 (F := F)) (GenP.V26 m outs c) (GenP.V61 m outs c) L27 (T27 m outs c) 1 main_c_57 main_v129 _ _ _ rfl (nk (by decide +kernel)) (nk (by decide +kernel))
theorem rd_main_v130 : GenP.V61 m outs c (Proc.devRef .tc main_v130) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v128)) (GenP.V61 m outs c (Proc.devRef .tc main_v129)) :=
  end2 (W27 (F := F)) (GenP.V26 m outs c) (GenP.V61 m outs c) L27 (T27 m outs c) 2 main_v128 main_v129 main_v130 _ _ _ _ rfl (nk (by decide +kernel)) (nk (by decide +kernel)) (nk (by decide +kernel))
theorem rd_main_c_58 : GenP.V61 m outs c (Proc.devRef .tc main_c_58) = (constantI S_ 32 0#32) :=
  end0 (W27 (F := F)) (GenP.V26 m outs c) (GenP.V61 m outs c) L27 (T27 m outs c) 3 main_c_58 _ _ rfl (nk (by decide +kernel))
theorem rd_main_c_59 : GenP.V61 m outs c (Proc.devRef .tc main_c_59) = (constantI S_ 32 767#32) :=
  end0 (W27 (F := F)) (GenP.V26 m outs c) (GenP.V61 m outs c) L27 (T27 m outs c) 4 main_c_59 _ _ rfl (nk (by decide +kernel))
theorem rd_main_call12_v0 : GenP.V61 m outs c (Proc.devRef .tc main_call12_v0) = (id : (⟨S_, .i32⟩ : BufTy).Contents (Elt F) → (⟨S_, .i32⟩ : BufTy).Contents (Elt F)) (GenP.V61 m outs c (Proc.devRef .tc main_c_58)) :=
  end1 (W28 (F := F)) (GenP.V27 m outs c) (GenP.V61 m outs c) L28 (T28 m outs c) 0 main_c_58 main_call12_v0 _ _ _ rfl (nk (by decide +kernel)) (nk (by decide +kernel))
theorem rd_main_call12_v1 : GenP.V61 m outs c (Proc.devRef .tc main_call12_v1) = ((broadcastInDim S200000 ![] bcast_S_S200000) : (⟨S_, .i32⟩ : BufTy).Contents (Elt F) → (⟨S200000, .i32⟩ : BufTy).Contents (Elt F)) (GenP.V61 m outs c (Proc.devRef .tc main_call12_v0)) :=
  end1 (W28 (F := F)) (GenP.V27 m outs c) (GenP.V61 m outs c) L28 (T28 m outs c) 1 main_call12_v0 main_call12_v1 _ _ _ rfl (nk (by decide +kernel)) (nk (by decide +kernel))
theorem rd_main_call12_v2 : GenP.V61 m outs c (Proc.devRef .tc main_call12_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call12_v1)) (GenP.V61 m outs c (Proc.devRef .tc main_v116)) :=
  end2 (W28 (F := F)) (GenP.V27 m outs c) (GenP.V61 m outs c) L28 (T28 m outs c) 2 main_call12_v1 main_v116 main_call12_v2 _ _ _ _ rfl (nk (by decide +kernel)) (nk (by decide +kernel)) (nk (by decide +kernel))
theorem rd_main_call12_v3 : GenP.V61 m outs c (Proc.devRef .tc main_call12_v3) = (id : (⟨S_, .i32⟩ : BufTy).Contents (Elt F) → (⟨S_, .i32⟩ : BufTy).Contents (Elt F)) (GenP.V61 m outs c (Proc.devRef .tc main_c_59)) :=
  end1 (W28 (F := F)) (GenP.V27 m outs c) (GenP.V61 m outs c) L28 (T28 m outs c) 3 main_c_59 main_call12_v3 _ _ _ rfl (nk (by decide +kernel)) (nk (by decide +kernel))
theorem rd_main_call12_v4 : GenP.V61 m outs c (Proc.devRef .tc main_call12_v4) = ((broadcastInDim S200000 ![] bcast_S_S200000) : (⟨S_, .i32⟩ : BufTy).Contents (Elt F) → (⟨S200000, .i32⟩ : BufTy).Contents (Elt F)) (GenP.V61 m outs c (Proc.devRef .tc main_call12_v3)) :=
  end1 (W28 (F := F)) (GenP.V27 m outs c) (GenP.V61 m outs c) L28 (T28 m outs c) 4 main_call12_v3 main_call12_v4 _ _ _ rfl (nk (by decide +kernel)) (nk (by decide +kernel))
theorem rd_main_v131 : GenP.V61 m outs c (Proc.devRef .tc main_v131) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call12_v4)) (GenP.V61 m outs c (Proc.devRef .tc main_call12_v2)) :=
  end2 (W28 (F := F)) (GenP.V27 m outs c) (GenP.V61 m outs c) L28 (T28 m outs c) 5 main_call12_v4 main_call12_v2 main_v131 _ _ _ _ rfl (nk (by decide +kernel)) (nk (by decide +kernel)) (nk (by decide +kernel))
theorem rd_main_v132 : GenP.V61 m outs c (Proc.devRef .tc main_v132) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v130)) (GenP.V61 m outs c (Proc.devRef .tc main_v131)) :=
  end2 (W29 (F := F)) (GenP.V28 m outs c) (GenP.V61 m outs c) L29 (T29 m outs c) 0 main_v130 main_v131 main_v132 _ _ _ _ rfl (nk (by decide +kernel)) (nk (by decide +kernel)) (nk (by decide +kernel))
theorem rd_main_c_60 : GenP.V61 m outs c (Proc.devRef .tc main_c_60) = (constantI S_ 32 0#32) :=
  end0 (W29 (F := F)) (GenP.V28 m outs c) (GenP.V61 m outs c) L29 (T29 m outs c) 1 main_c_60 _ _ rfl (nk (by decide +kernel))
theorem rd_main_v133 : GenP.V61 m outs c (Proc.devRef .tc main_v133) = (broadcastInDim S200000 ![] bcast_S_S200000 : (⟨S_, .i32⟩ : BufTy).Contents (Elt F) → (⟨S200000, .i32⟩ : BufTy).Contents (Elt F)) (GenP.V61 m outs c (Proc.devRef .tc main_c_60)) :=
  end1 (W29 (F := F)) (GenP.V28 m outs c) (GenP.V61 m outs c) L29 (T29 m outs c) 2 main_c_60 main_v133 _ _ _ rfl (nk (by decide +kernel)) (nk (by decide +kernel))
theorem rd_main_v134 : GenP.V61 m outs c (Proc.devRef .tc main_v134) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v132)) (GenP.V61 m outs c (Proc.devRef .tc main_v133)) :=
  end2 (W29 (F := F)) (GenP.V28 m outs c) (GenP.V61 m outs c) L29 (T29 m outs c) 3 main_v132 main_v133 main_v134 _ _ _ _ rfl (nk (by decide +kernel)) (nk (by decide +kernel)) (nk (by decide +kernel))
theorem rd_main_c_61 : GenP.V61 m outs c (Proc.devRef .tc main_c_61) = (constantI S_ 32 589824#32) :=
  end0 (W29 (F := F)) (GenP.V28 m outs c) (GenP.V61 m outs c) L29 (T29 m outs c) 4 main_c_61 _ _ rfl (nk (by decide +kernel))
theorem rd_main_v135 : GenP.V61 m outs c (Proc.devRef .tc main_v135) = (broadcastInDim S200000 ![] bcast_S_S200000 : (⟨S_, .i32⟩ : BufTy).Contents (Elt F) → (⟨S200000, .i32⟩ : BufTy).Contents (Elt F)) (GenP.V61 m outs c (Proc.devRef .tc main_c_61)) :=
  end1 (W29 (F := F)) (GenP.V28 m outs c) (GenP.V61 m outs c) L29 (T29 m outs c) 5 main_c_61 main_v135 _ _ _ rfl (nk (by decide +kernel)) (nk (by decide +kernel))
theorem rd_main_v136 : GenP.V61 m outs c (Proc.devRef .tc main_v136) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v132)) (GenP.V61 m outs c (Proc.devRef .tc main_v135)) :=
  end2 (W29 (F := F)) (GenP.V28 m outs c) (GenP.V61 m outs c) L29 (T29 m outs c) 6 main_v132 main_v135 main_v136 _ _ _ _ rfl (nk (by decide +kernel)) (nk (by decide +kernel)) (nk (by decide +kernel))
theorem rd_main_v137 : GenP.V61 m outs c (Proc.devRef .tc main_v137) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v134)) (GenP.V61 m outs c (Proc.devRef .tc main_v136)) (GenP.V61 m outs c (Proc.devRef .tc main_v132)) :=
  end3 (W29 (F := F)) (GenP.V28 m outs c) (GenP.V61 m outs c) L29 (T29 m outs c) 7 main_v134 main_v136 main_v132 main_v137 _ _ _ _ _ rfl (nk (by decide +kernel)) (nk (by decide +kernel)) (nk (by decide +kernel)) (nk (by decide +kernel))
theorem rd_main_v138 : GenP.V61 m outs c (Proc.devRef .tc main_v138) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v137)) :=
  end1 (W29 (F := F)) (GenP.V28 m outs c) (GenP.V61 m outs c) L29 (T29 m outs c) 8 main_v137 main_v138 _ _ _ rfl (nk (by decide +kernel)) (nk (by decide +kernel))
theorem rd_main_v139 : GenP.V61 m outs c (Proc.devRef .tc main_v139) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v138)) :=
  end2 (W29 (F := F)) (GenP.V28 m outs c) (GenP.V61 m outs c) L29 (T29 m outs c) 9 main_v15 main_v138 main_v139 _ _ _ _ rfl (nk (by decide +kernel)) (nk (by decide +kernel)) (nk (by decide +kernel))
theorem rd_main_c_62 : GenP.V61 m outs c (Proc.devRef .tc main_c_62) = (constantI S_ 32 200000#32) :=
  end0 (W29 (F := F)) (GenP.V28 m outs c) (GenP.V61 m outs c) L29 (T29 m outs c) 10 main_c_62 _ _ rfl (nk (by decide +kernel))
theorem rd_main_v140 : GenP.V61 m outs c (Proc.devRef .tc main_v140) = (broadcastInDim S200000 ![] bcast_S_S200000 : (⟨S_, .i32⟩ : BufTy).Contents (Elt F) → (⟨S200000, .i32⟩ : BufTy).Contents (Elt F)) (GenP.V61 m outs c (Proc.devRef .tc main_c_62)) :=
  end1 (W29 (F := F)) (GenP.V28 m outs c) (GenP.V61 m outs c) L29 (T29 m outs c) 11 main_c_62 main_v140 _ _ _ rfl (nk (by decide +kernel)) (nk (by decide +kernel))
theorem rd_main_v141 : GenP.V61 m outs c (Proc.devRef .tc main_v141) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v139)) (GenP.V61 m outs c (Proc.devRef .tc main_v140)) :=
  end2 (W29 (F := F)) (GenP.V28 m outs c) (GenP.V61 m outs c) L29 (T29 m outs c) 12 main_v139 main_v140 main_v141 _ _ _ _ rfl (nk (by decide +kernel)) (nk (by decide +kernel)) (nk (by decide +kernel))
theorem rd_main_v142 : GenP.V61 m outs c (Proc.devRef .tc main_v142) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v127)) (GenP.V61 m outs c (Proc.devRef .tc main_v141)) :=
  end2 (W29 (F := F)) (GenP.V28 m outs c) (GenP.V61 m outs c) L29 (T29 m outs c) 13 main_v127 main_v141 main_v142 _ _ _ _ rfl (nk (by decide +kernel)) (nk (by decide +kernel)) (nk (by decide +kernel))
theorem rd_main_c_63 : GenP.V61 m outs c (Proc.devRef .tc main_c_63) = (constantI S_ 32 200000#32) :=
  end0 (W29 (F := F)) (GenP.V28 m outs c) (GenP.V61 m outs c) L29 (T29 m outs c) 14 main_c_63 _ _ rfl (nk (by decide +kernel))
theorem rd_main_call13_v0 : GenP.V61 m outs c (Proc.devRef .tc main_call13_v0) = (id : (⟨S_, .i32⟩ : BufTy).Contents (Elt F) → (⟨S_, .i32⟩ : BufTy).Contents (Elt F)) (GenP.V61 m outs c (Proc.devRef .tc main_c_63)) :=
  end1 (W30 (F := F)) (GenP.V29 m outs c) (GenP.V61 m outs c) L30 (T30 m outs c) 0 main_c_63 main_call13_v0 _ _ _ rfl (nk (by decide +kernel)) (nk (by decide +kernel))
theorem rd_main_call13_v1 : GenP.V61 m outs c (Proc.devRef .tc main_call13_v1) = ((broadcastInDim S200000 ![] bcast_S_S200000) : (⟨S_, .i32⟩ : BufTy).Contents (Elt F) → (⟨S200000, .i32⟩ : BufTy).Contents (Elt F)) (GenP.V61 m outs c (Proc.devRef .tc main_call13_v0)) :=
  end1 (W30 (F := F)) (GenP.V29 m outs c) (GenP.V61 m outs c) L30 (T30 m outs c) 1 main_call13_v0 main_call13_v1 _ _ _ rfl (nk (by decide +kernel)) (nk (by decide +kernel))
theorem rd_main_v143 : GenP.V61 m outs c (Proc.devRef .tc main_v143) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v142)) (GenP.V61 m outs c (Proc.devRef .tc main_v139)) (GenP.V61 m outs c (Proc.devRef .tc main_call13_v1)) :=
  end3 (W30 (F := F)) (GenP.V29 m outs c) (GenP.V61 m outs c) L30 (T30 m outs c) 2 main_v142 main_v139 main_call13_v1 main_v143 _ _ _ _ _ rfl (nk (by decide +kernel)) (nk (by decide +kernel)) (nk (by decide +kernel)) (nk (by decide +kernel))
theorem rd_main_c_64 : GenP.V61 m outs c (Proc.devRef .tc main_c_64) = (constantI S_ 32 0#32) :=
  end0 (W31 (F := F)) (GenP.V30 m outs c) (GenP.V61 m outs c) L31 (T31 m outs c) 0 main_c_64 _ _ rfl (nk (by decide +kernel))
theorem rd_main_v144 : GenP.V61 m outs c (Proc.devRef .tc main_v144) = (broadcastInDim S200000 ![] bcast_S_S200000 : (⟨S_, .i32⟩ : BufTy).Contents (Elt F) → (⟨S200000, .i32⟩ : BufTy).Contents (Elt F)) (GenP.V61 m outs c (Proc.devRef .tc main_c_64)) :=
  end1 (W31 (F := F)) (GenP.V30 m outs c) (GenP.V61 m outs c) L31 (T31 m outs c) 1 main_c_64 main_v144 _ _ _ rfl (nk (by decide +kernel)) (nk (by decide +kernel))
theorem rd_main_v145 : GenP.V61 m outs c (Proc.devRef .tc main_v145) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v144)) :=
  end2 (W31 (F := F)) (GenP.V30 m outs c) (GenP.V61 m outs c) L31 (T31 m outs c) 2 main_v16 main_v144 main_v145 _ _ _ _ rfl (nk (by decide +kernel)) (nk (by decide +kernel)) (nk (by decide +kernel))
theorem rd_main_c_65 : GenP.V61 m outs c (Proc.devRef .tc main_c_65) = (constantI S_ 32 0#32) :=
  end0 (W31 (F := F)) (GenP.V30 m outs c) (GenP.V61 m outs c) L31 (T31 m outs c) 3 main_c_65 _ _ rfl (nk (by decide +kernel))
theorem rd_main_v146 : GenP.V61 m outs c (Proc.devRef .tc main_v146) = (broadcastInDim S200000 ![] bcast_S_S200000 : (⟨S_, .i32⟩ : BufTy).Contents (Elt F) → (⟨S200000, .i32⟩ : BufTy).Contents (Elt F)) (GenP.V61 m outs c (Proc.devRef .tc main_c_65)) :=
  end1 (W31 (F := F)) (GenP.V30 m outs c) (GenP.V61 m outs c) L31 (T31 m outs c) 4 main_c_65 main_v146 _ _ _ rfl (nk (by decide +kernel)) (nk (by decide +kernel))
theorem rd_main_v147 : GenP.V61 m outs c (Proc.devRef .tc main_v147) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v146)) :=
  end2 (W31 (F := F)) (GenP.V30 m outs c) (GenP.V61 m outs c) L31 (T31 m outs c) 5 main_v17 main_v146 main_v147 _ _ _ _ rfl (nk (by decide +kernel)) (nk (by decide +kernel)) (nk (by decide +kernel))
theorem rd_main_c_66 : GenP.V61 m outs c (Proc.devRef .tc main_c_66) = (constantI S_ 32 0#32) :=
  end0 (W31 (F := F)) (GenP.V30 m outs c) (GenP.V61 m outs c) L31 (T31 m outs c) 6 main_c_66 _ _ rfl (nk (by decide +kernel))
theorem rd_main_v148 : GenP.V61 m outs c (Proc.devRef .tc main_v148) = (broadcastInDim S200000 ![] bcast_S_S200000 : (⟨S_, .i32⟩ : BufTy).Contents (Elt F) → (⟨S200000, .i32⟩ : BufTy).Contents (Elt F)) (GenP.V61 m outs c (Proc.devRef .tc main_c_66)) :=
  end1 (W31 (F := F)) (GenP.V30 m outs c) (GenP.V61 m outs c) L31 (T31 m outs c) 7 main_c_66 main_v148 _ _ _ rfl (nk (by decide +kernel)) (nk (by decide +kernel))
theorem rd_main_v149 : GenP.V61 m outs c (Proc.devRef .tc main_v149) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v145)) (GenP.V61 m outs c (Proc.devRef .tc main_v148)) :=
  end2 (W31 (F := F)) (GenP.V30 m outs c) (GenP.V61 m outs c) L31 (T31 m outs c) 8 main_v145 main_v148 main_v149 _ _ _ _ rfl (nk (by decide +kernel)) (nk (by decide +kernel)) (nk (by decide +kernel))
theorem rd_main_c_67 : GenP.V61 m outs c (Proc.devRef .tc main_c_67) = (constantI S_ 32 768#32) :=
  end0 (W31 (F := F)) (GenP.V30 m outs c) (GenP.V61 m outs c) L31 (T31 m outs c) 9 main_c_67 _ _ rfl (nk (by decide +kernel))
theorem rd_main_v150 : GenP.V61 m outs c (Proc.devRef .tc main_v150) = (broadcastInDim S200000 ![] bcast_S_S200000 : (⟨S_, .i32⟩ : BufTy).Contents (Elt F) → (⟨S200000, .i32⟩ : BufTy).Contents (Elt F)) (GenP.V61 m outs c (Proc.devRef .tc main_c_67)) :=
  end1 (W31 (F := F)) (GenP.V30 m outs c) (GenP.V61 m outs c) L31 (T31 m outs c) 10 main_c_67 main_v150 _ _ _ rfl (nk (by decide +kernel)) (nk (by decide +kernel))

end Cert.KernelIdeal.Glue
-- ==== Proof.GlueRead4.lean ====
/-
  The idealized kernel program's host operations read back at the contents the second kernel region is entered with:
  one equation per operation, its result and its operands all read at V61 (part 4 of the table: hostOps1_28 operation 11 to
  hostOps1_35 operation 5). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v151 : GenP.V61 m outs c (Proc.devRef .tc main_v151) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v145)) (GenP.V61 m outs c (Proc.devRef .tc main_v150)) :=
  end2 (W31 (F := F)) (GenP.V30 m outs c) (GenP.V61 m outs c) L31 (T31 m outs c) 11 main_v145 main_v150 main_v151 _ _ _ _ rfl (nk (by decide +kernel)) (nk (by decide +kernel)) (nk (by decide +kernel))
theorem rd_main_v152 : GenP.V61 m outs c (Proc.devRef .tc main_v152) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v149)) (GenP.V61 m outs c (Proc.devRef .tc main_v151)) :=
  end2 (W31 (F := F)) (GenP.V30 m outs c) (GenP.V61 m outs c) L31 (T31 m outs c) 12 main_v149 main_v151 main_v152 _ _ _ _ rfl (nk (by decide +kernel)) (nk (by decide +kernel)) (nk (by decide +kernel))
theorem rd_main_c_68 : GenP.V61 m outs c (Proc.devRef .tc main_c_68) = (constantI S_ 32 0#32) :=
  end0 (W31 (F := F)) (GenP.V30 m outs c) (GenP.V61 m outs c) L31 (T31 m outs c) 13 main_c_68 _ _ rfl (nk (by decide +kernel))
theorem rd_main_v153 : GenP.V61 m outs c (Proc.devRef .tc main_v153) = (broadcastInDim S200000 ![] bcast_S_S200000 : (⟨S_, .i32⟩ : BufTy).Contents (Elt F) → (⟨S200000, .i32⟩ : BufTy).Contents (Elt F)) (GenP.V61 m outs c (Proc.devRef .tc main_c_68)) :=
  end1 (W31 (F := F)) (GenP.V30 m outs c) (GenP.V61 m outs c) L31 (T31 m outs c) 14 main_c_68 main_v153 _ _ _ rfl (nk (by decide +kernel)) (nk (by decide +kernel))
theorem rd_main_v154 : GenP.V61 m outs c (Proc.devRef .tc main_v154) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v147)) (GenP.V61 m outs c (Proc.devRef .tc main_v153)) :=
  end2 (W31 (F := F)) (GenP.V30 m outs c) (GenP.V61 m outs c) L31 (T31 m outs c) 15 main_v147 main_v153 main_v154 _ _ _ _ rfl (nk (by decide +kernel)) (nk (by decide +kernel)) (nk (by decide +kernel))
theorem rd_main_v155 : GenP.V61 m outs c (Proc.devRef .tc main_v155) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v152)) (GenP.V61 m outs c (Proc.devRef .tc main_v154)) :=
  end2 (W31 (F := F)) (GenP.V30 m outs c) (GenP.V61 m outs c) L31 (T31 m outs c) 16 main_v152 main_v154 main_v155 _ _ _ _ rfl (nk (by decide +kernel)) (nk (by decide +kernel)) (nk (by decide +kernel))
theorem rd_main_c_69 : GenP.V61 m outs c (Proc.devRef .tc main_c_69) = (constantI S_ 32 768#32) :=
  end0 (W31 (F := F)) (GenP.V30 m outs c) (GenP.V61 m outs c) L31 (T31 m outs c) 17 main_c_69 _ _ rfl (nk (by decide +kernel))
theorem rd_main_v156 : GenP.V61 m outs c (Proc.devRef .tc main_v156) = (broadcastInDim S200000 ![] bcast_S_S200000 : (⟨S_, .i32⟩ : BufTy).Contents (Elt F) → (⟨S200000, .i32⟩ : BufTy).Contents (Elt F)) (GenP.V61 m outs c (Proc.devRef .tc main_c_69)) :=
  end1 (W31 (F := F)) (GenP.V30 m outs c) (GenP.V61 m outs c) L31 (T31 m outs c) 18 main_c_69 main_v156 _ _ _ rfl (nk (by decide +kernel)) (nk (by decide +kernel))
theorem rd_main_v157 : GenP.V61 m outs c (Proc.devRef .tc main_v157) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v147)) (GenP.V61 m outs c (Proc.devRef .tc main_v156)) :=
  end2 (W31 (F := F)) (GenP.V30 m outs c) (GenP.V61 m outs c) L31 (T31 m outs c) 19 main_v147 main_v156 main_v157 _ _ _ _ rfl (nk (by decide +kernel)) (nk (by decide +kernel)) (nk (by decide +kernel))
theorem rd_main_v158 : GenP.V61 m outs c (Proc.devRef .tc main_v158) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v155)) (GenP.V61 m outs c (Proc.devRef .tc main_v157)) :=
  end2 (W31 (F := F)) (GenP.V30 m outs c) (GenP.V61 m outs c) L31 (T31 m outs c) 20 main_v155 main_v157 main_v158 _ _ _ _ rfl (nk (by decide +kernel)) (nk (by decide +kernel)) (nk (by decide +kernel))
theorem rd_main_c_70 : GenP.V61 m outs c (Proc.devRef .tc main_c_70) = (constantI S_ 32 0#32) :=
  end0 (W31 (F := F)) (GenP.V30 m outs c) (GenP.V61 m outs c) L31 (T31 m outs c) 21 main_c_70 _ _ rfl (nk (by decide +kernel))
theorem rd_main_c_71 : GenP.V61 m outs c (Proc.devRef .tc main_c_71) = (constantI S_ 32 767#32) :=
  end0 (W31 (F := F)) (GenP.V30 m outs c) (GenP.V61 m outs c) L31 (T31 m outs c) 22 main_c_71 _ _ rfl (nk (by decide +kernel))
theorem rd_main_call14_v0 : GenP.V61 m outs c (Proc.devRef .tc main_call14_v0) = (id : (⟨S_, .i32⟩ : BufTy).Contents (Elt F) → (⟨S_, .i32⟩ : BufTy).Contents (Elt F)) (GenP.V61 m outs c (Proc.devRef .tc main_c_70)) :=
  end1 (W32 (F := F)) (GenP.V31 m outs c) (GenP.V61 m outs c) L32 (T32 m outs c) 0 main_c_70 main_call14_v0 _ _ _ rfl (nk (by decide +kernel)) (nk (by decide +kernel))
theorem rd_main_call14_v1 : GenP.V61 m outs c (Proc.devRef .tc main_call14_v1) = ((broadcastInDim S200000 ![] bcast_S_S200000) : (⟨S_, .i32⟩ : BufTy).Contents (Elt F) → (⟨S200000, .i32⟩ : BufTy).Contents (Elt F)) (GenP.V61 m outs c (Proc.devRef .tc main_call14_v0)) :=
  end1 (W32 (F := F)) (GenP.V31 m outs c) (GenP.V61 m outs c) L32 (T32 m outs c) 1 main_call14_v0 main_call14_v1 _ _ _ rfl (nk (by decide +kernel)) (nk (by decide +kernel))
theorem rd_main_call14_v2 : GenP.V61 m outs c (Proc.devRef .tc main_call14_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call14_v1)) (GenP.V61 m outs c (Proc.devRef .tc main_v145)) :=
  end2 (W32 (F := F)) (GenP.V31 m outs c) (GenP.V61 m outs c) L32 (T32 m outs c) 2 main_call14_v1 main_v145 main_call14_v2 _ _ _ _ rfl (nk (by decide +kernel)) (nk (by decide +kernel)) (nk (by decide +kernel))
theorem rd_main_call14_v3 : GenP.V61 m outs c (Proc.devRef .tc main_call14_v3) = (id : (⟨S_, .i32⟩ : BufTy).Contents (Elt F) → (⟨S_, .i32⟩ : BufTy).Contents (Elt F)) (GenP.V61 m outs c (Proc.devRef .tc main_c_71)) :=
  end1 (W32 (F := F)) (GenP.V31 m outs c) (GenP.V61 m outs c) L32 (T32 m outs c) 3 main_c_71 main_call14_v3 _ _ _ rfl (nk (by decide +kernel)) (nk (by decide +kernel))
theorem rd_main_call14_v4 : GenP.V61 m outs c (Proc.devRef .tc main_call14_v4) = ((broadcastInDim S200000 ![] bcast_S_S200000) : (⟨S_, .i32⟩ : BufTy).Contents (Elt F) → (⟨S200000, .i32⟩ : BufTy).Contents (Elt F)) (GenP.V61 m outs c (Proc.devRef .tc main_call14_v3)) :=
  end1 (W32 (F := F)) (GenP.V31 m outs c) (GenP.V61 m outs c) L32 (T32 m outs c) 4 main_call14_v3 main_call14_v4 _ _ _ rfl (nk (by decide +kernel)) (nk (by decide +kernel))
theorem rd_main_v159 : GenP.V61 m outs c (Proc.devRef .tc main_v159) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call14_v4)) (GenP.V61 m outs c (Proc.devRef .tc main_call14_v2)) :=
  end2 (W32 (F := F)) (GenP.V31 m outs c) (GenP.V61 m outs c) L32 (T32 m outs c) 5 main_call14_v4 main_call14_v2 main_v159 _ _ _ _ rfl (nk (by decide +kernel)) (nk (by decide +kernel)) (nk (by decide +kernel))
theorem rd_main_c_72 : GenP.V61 m outs c (Proc.devRef .tc main_c_72) = (constantI S_ 32 768#32) :=
  end0 (W33 (F := F)) (GenP.V32 m outs c) (GenP.V61 m outs c) L33 (T33 m outs c) 0 main_c_72 _ _ rfl (nk (by decide +kernel))
theorem rd_main_v160 : GenP.V61 m outs c (Proc.devRef .tc main_v160) = (broadcastInDim S200000 ![] bcast_S_S200000 : (⟨S_, .i32⟩ : BufTy).Contents (Elt F) → (⟨S200000, .i32⟩ : BufTy).Contents (Elt F)) (GenP.V61 m outs c (Proc.devRef .tc main_c_72)) :=
  end1 (W33 (F := F)) (GenP.V32 m outs c) (GenP.V61 m outs c) L33 (T33 m outs c) 1 main_c_72 main_v160 _ _ _ rfl (nk (by decide +kernel)) (nk (by decide +kernel))
theorem rd_main_v161 : GenP.V61 m outs c (Proc.devRef .tc main_v161) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v159)) (GenP.V61 m outs c (Proc.devRef .tc main_v160)) :=
  end2 (W33 (F := F)) (GenP.V32 m outs c) (GenP.V61 m outs c) L33 (T33 m outs c) 2 main_v159 main_v160 main_v161 _ _ _ _ rfl (nk (by decide +kernel)) (nk (by decide +kernel)) (nk (by decide +kernel))
theorem rd_main_c_73 : GenP.V61 m outs c (Proc.devRef .tc main_c_73) = (constantI S_ 32 0#32) :=
  end0 (W33 (F := F)) (GenP.V32 m outs c) (GenP.V61 m outs c) L33 (T33 m outs c) 3 main_c_73 _ _ rfl (nk (by decide +kernel))
theorem rd_main_c_74 : GenP.V61 m outs c (Proc.devRef .tc main_c_74) = (constantI S_ 32 767#32) :=
  end0 (W33 (F := F)) (GenP.V32 m outs c) (GenP.V61 m outs c) L33 (T33 m outs c) 4 main_c_74 _ _ rfl (nk (by decide +kernel))
theorem rd_main_call15_v0 : GenP.V61 m outs c (Proc.devRef .tc main_call15_v0) = (id : (⟨S_, .i32⟩ : BufTy).Contents (Elt F) → (⟨S_, .i32⟩ : BufTy).Contents (Elt F)) (GenP.V61 m outs c (Proc.devRef .tc main_c_73)) :=
  end1 (W34 (F := F)) (GenP.V33 m outs c) (GenP.V61 m outs c) L34 (T34 m outs c) 0 main_c_73 main_call15_v0 _ _ _ rfl (nk (by decide +kernel)) (nk (by decide +kernel))
theorem rd_main_call15_v1 : GenP.V61 m outs c (Proc.devRef .tc main_call15_v1) = ((broadcastInDim S200000 ![] bcast_S_S200000) : (⟨S_, .i32⟩ : BufTy).Contents (Elt F) → (⟨S200000, .i32⟩ : BufTy).Contents (Elt F)) (GenP.V61 m outs c (Proc.devRef .tc main_call15_v0)) :=
  end1 (W34 (F := F)) (GenP.V33 m outs c) (GenP.V61 m outs c) L34 (T34 m outs c) 1 main_call15_v0 main_call15_v1 _ _ _ rfl (nk (by decide +kernel)) (nk (by decide +kernel))
theorem rd_main_call15_v2 : GenP.V61 m outs c (Proc.devRef .tc main_call15_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call15_v1)) (GenP.V61 m outs c (Proc.devRef .tc main_v147)) :=
  end2 (W34 (F := F)) (GenP.V33 m outs c) (GenP.V61 m outs c) L34 (T34 m outs c) 2 main_call15_v1 main_v147 main_call15_v2 _ _ _ _ rfl (nk (by decide +kernel)) (nk (by decide +kernel)) (nk (by decide +kernel))
theorem rd_main_call15_v3 : GenP.V61 m outs c (Proc.devRef .tc main_call15_v3) = (id : (⟨S_, .i32⟩ : BufTy).Contents (Elt F) → (⟨S_, .i32⟩ : BufTy).Contents (Elt F)) (GenP.V61 m outs c (Proc.devRef .tc main_c_74)) :=
  end1 (W34 (F := F)) (GenP.V33 m outs c) (GenP.V61 m outs c) L34 (T34 m outs c) 3 main_c_74 main_call15_v3 _ _ _ rfl (nk (by decide +kernel)) (nk (by decide +kernel))
theorem rd_main_call15_v4 : GenP.V61 m outs c (Proc.devRef .tc main_call15_v4) = ((broadcastInDim S200000 ![] bcast_S_S200000) : (⟨S_, .i32⟩ : BufTy).Contents (Elt F) → (⟨S200000, .i32⟩ : BufTy).Contents (Elt F)) (GenP.V61 m outs c (Proc.devRef .tc main_call15_v3)) :=
  end1 (W34 (F := F)) (GenP.V33 m outs c) (GenP.V61 m outs c) L34 (T34 m outs c) 4 main_call15_v3 main_call15_v4 _ _ _ rfl (nk (by decide +kernel)) (nk (by decide +kernel))
theorem rd_main_v162 : GenP.V61 m outs c (Proc.devRef .tc main_v162) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call15_v4)) (GenP.V61 m outs c (Proc.devRef .tc main_call15_v2)) :=
  end2 (W34 (F := F)) (GenP.V33 m outs c) (GenP.V61 m outs c) L34 (T34 m outs c) 5 main_call15_v4 main_call15_v2 main_v162 _ _ _ _ rfl (nk (by decide +kernel)) (nk (by decide +kernel)) (nk (by decide +kernel))
theorem rd_main_v163 : GenP.V61 m outs c (Proc.devRef .tc main_v163) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v161)) (GenP.V61 m outs c (Proc.devRef .tc main_v162)) :=
  end2 (W35 (F := F)) (GenP.V34 m outs c) (GenP.V61 m outs c) L35 (T35 m outs c) 0 main_v161 main_v162 main_v163 _ _ _ _ rfl (nk (by decide +kernel)) (nk (by decide +kernel)) (nk (by decide +kernel))
theorem rd_main_c_75 : GenP.V61 m outs c (Proc.devRef .tc main_c_75) = (constantI S_ 32 0#32) :=
  end0 (W35 (F := F)) (GenP.V34 m outs c) (GenP.V61 m outs c) L35 (T35 m outs c) 1 main_c_75 _ _ rfl (nk (by decide +kernel))
theorem rd_main_v164 : GenP.V61 m outs c (Proc.devRef .tc main_v164) = (broadcastInDim S200000 ![] bcast_S_S200000 : (⟨S_, .i32⟩ : BufTy).Contents (Elt F) → (⟨S200000, .i32⟩ : BufTy).Contents (Elt F)) (GenP.V61 m outs c (Proc.devRef .tc main_c_75)) :=
  end1 (W35 (F := F)) (GenP.V34 m outs c) (GenP.V61 m outs c) L35 (T35 m outs c) 2 main_c_75 main_v164 _ _ _ rfl (nk (by decide +kernel)) (nk (by decide +kernel))
theorem rd_main_v165 : GenP.V61 m outs c (Proc.devRef .tc main_v165) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v163)) (GenP.V61 m outs c (Proc.devRef .tc main_v164)) :=
  end2 (W35 (F := F)) (GenP.V34 m outs c) (GenP.V61 m outs c) L35 (T35 m outs c) 3 main_v163 main_v164 main_v165 _ _ _ _ rfl (nk (by decide +kernel)) (nk (by decide +kernel)) (nk (by decide +kernel))
theorem rd_main_c_76 : GenP.V61 m outs c (Proc.devRef .tc main_c_76) = (constantI S_ 32 589824#32) :=
  end0 (W35 (F := F)) (GenP.V34 m outs c) (GenP.V61 m outs c) L35 (T35 m outs c) 4 main_c_76 _ _ rfl (nk (by decide +kernel))
theorem rd_main_v166 : GenP.V61 m outs c (Proc.devRef .tc main_v166) = (broadcastInDim S200000 ![] bcast_S_S200000 : (⟨S_, .i32⟩ : BufTy).Contents (Elt F) → (⟨S200000, .i32⟩ : BufTy).Contents (Elt F)) (GenP.V61 m outs c (Proc.devRef .tc main_c_76)) :=
  end1 (W35 (F := F)) (GenP.V34 m outs c) (GenP.V61 m outs c) L35 (T35 m outs c) 5 main_c_76 main_v166 _ _ _ rfl (nk (by decide +kernel)) (nk (by decide +kernel))
theorem rd_main_v167 : GenP.V61 m outs c (Proc.devRef .tc main_v167) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v163)) (GenP.V61 m outs c (Proc.devRef .tc main_v166)) :=
  end2 (W35 (F := F)) (GenP.V34 m outs c) (GenP.V61 m outs c) L35 (T35 m outs c) 6 main_v163 main_v166 main_v167 _ _ _ _ rfl (nk (by decide +kernel)) (nk (by decide +kernel)) (nk (by decide +kernel))
theorem rd_main_v168 : GenP.V61 m outs c (Proc.devRef .tc main_v168) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v165)) (GenP.V61 m outs c (Proc.devRef .tc main_v167)) (GenP.V61 m outs c (Proc.devRef .tc main_v163)) :=
  end3 (W35 (F := F)) (GenP.V34 m outs c) (GenP.V61 m outs c) L35 (T35 m outs c) 7 main_v165 main_v167 main_v163 main_v168 _ _ _ _ _ rfl (nk (by decide +kernel)) (nk (by decide +kernel)) (nk (by decide +kernel)) (nk (by decide +kernel))
theorem rd_main_v169 : GenP.V61 m outs c (Proc.devRef .tc main_v169) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v168)) :=
  end1 (W35 (F := F)) (GenP.V34 m outs c) (GenP.V61 m outs c) L35 (T35 m outs c) 8 main_v168 main_v169 _ _ _ rfl (nk (by decide +kernel)) (nk (by decide +kernel))
theorem rd_main_v170 : GenP.V61 m outs c (Proc.devRef .tc main_v170) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v169)) :=
  end2 (W35 (F := F)) (GenP.V34 m outs c) (GenP.V61 m outs c) L35 (T35 m outs c) 9 main_v15 main_v169 main_v170 _ _ _ _ rfl (nk (by decide +kernel)) (nk (by decide +kernel)) (nk (by decide +kernel))
theorem rd_main_c_77 : GenP.V61 m outs c (Proc.devRef .tc main_c_77) = (constantI S_ 32 200000#32) :=
  end0 (W35 (F := F)) (GenP.V34 m outs c) (GenP.V61 m outs c) L35 (T35 m outs c) 10 main_c_77 _ _ rfl (nk (by decide +kernel))
theorem rd_main_v171 : GenP.V61 m outs c (Proc.devRef .tc main_v171) = (broadcastInDim S200000 ![] bcast_S_S200000 : (⟨S_, .i32⟩ : BufTy).Contents (Elt F) → (⟨S200000, .i32⟩ : BufTy).Contents (Elt F)) (GenP.V61 m outs c (Proc.devRef .tc main_c_77)) :=
  end1 (W35 (F := F)) (GenP.V34 m outs c) (GenP.V61 m outs c) L35 (T35 m outs c) 11 main_c_77 main_v171 _ _ _ rfl (nk (by decide +kernel)) (nk (by decide +kernel))
theorem rd_main_v172 : GenP.V61 m outs c (Proc.devRef .tc main_v172) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v170)) (GenP.V61 m outs c (Proc.devRef .tc main_v171)) :=
  end2 (W35 (F := F)) (GenP.V34 m outs c) (GenP.V61 m outs c) L35 (T35 m outs c) 12 main_v170 main_v171 main_v172 _ _ _ _ rfl (nk (by decide +kernel)) (nk (by decide +kernel)) (nk (by decide +kernel))
theorem rd_main_v173 : GenP.V61 m outs c (Proc.devRef .tc main_v173) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v158)) (GenP.V61 m outs c (Proc.devRef .tc main_v172)) :=
  end2 (W35 (F := F)) (GenP.V34 m outs c) (GenP.V61 m outs c) L35 (T35 m outs c) 13 main_v158 main_v172 main_v173 _ _ _ _ rfl (nk (by decide +kernel)) (nk (by decide +kernel)) (nk (by decide +kernel))
theorem rd_main_c_78 : GenP.V61 m outs c (Proc.devRef .tc main_c_78) = (constantI S_ 32 200000#32) :=
  end0 (W35 (F := F)) (GenP.V34 m outs c) (GenP.V61 m outs c) L35 (T35 m outs c) 14 main_c_78 _ _ rfl (nk (by decide +kernel))
theorem rd_main_call16_v0 : GenP.V61 m outs c (Proc.devRef .tc main_call16_v0) = (id : (⟨S_, .i32⟩ : BufTy).Contents (Elt F) → (⟨S_, .i32⟩ : BufTy).Contents (Elt F)) (GenP.V61 m outs c (Proc.devRef .tc main_c_78)) :=
  end1 (W36 (F := F)) (GenP.V35 m outs c) (GenP.V61 m outs c) L36 (T36 m outs c) 0 main_c_78 main_call16_v0 _ _ _ rfl (nk (by decide +kernel)) (nk (by decide +kernel))
theorem rd_main_call16_v1 : GenP.V61 m outs c (Proc.devRef .tc main_call16_v1) = ((broadcastInDim S200000 ![] bcast_S_S200000) : (⟨S_, .i32⟩ : BufTy).Contents (Elt F) → (⟨S200000, .i32⟩ : BufTy).Contents (Elt F)) (GenP.V61 m outs c (Proc.devRef .tc main_call16_v0)) :=
  end1 (W36 (F := F)) (GenP.V35 m outs c) (GenP.V61 m outs c) L36 (T36 m outs c) 1 main_call16_v0 main_call16_v1 _ _ _ rfl (nk (by decide +kernel)) (nk (by decide +kernel))
theorem rd_main_v174 : GenP.V61 m outs c (Proc.devRef .tc main_v174) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v173)) (GenP.V61 m outs c (Proc.devRef .tc main_v170)) (GenP.V61 m outs c (Proc.devRef .tc main_call16_v1)) :=
  end3 (W36 (F := F)) (GenP.V35 m outs c) (GenP.V61 m outs c) L36 (T36 m outs c) 2 main_v173 main_v170 main_call16_v1 main_v174 _ _ _ _ _ rfl (nk (by decide +kernel)) (nk (by decide +kernel)) (nk (by decide +kernel)) (nk (by decide +kernel))
theorem rd_main_c_79 : GenP.V61 m outs c (Proc.devRef .tc main_c_79) = (constantI S_ 32 0#32) :=
  end0 (W37 (F := F)) (GenP.V36 m outs c) (GenP.V61 m outs c) L37 (T37 m outs c) 0 main_c_79 _ _ rfl (nk (by decide +kernel))
theorem rd_main_v175 : GenP.V61 m outs c (Proc.devRef .tc main_v175) = (broadcastInDim S200000 ![] bcast_S_S200000 : (⟨S_, .i32⟩ : BufTy).Contents (Elt F) → (⟨S200000, .i32⟩ : BufTy).Contents (Elt F)) (GenP.V61 m outs c (Proc.devRef .tc main_c_79)) :=
  end1 (W37 (F := F)) (GenP.V36 m outs c) (GenP.V61 m outs c) L37 (T37 m outs c) 1 main_c_79 main_v175 _ _ _ rfl (nk (by decide +kernel)) (nk (by decide +kernel))
theorem rd_main_v176 : GenP.V61 m outs c (Proc.devRef .tc main_v176) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v175)) :=
  end2 (W37 (F := F)) (GenP.V36 m outs c) (GenP.V61 m outs c) L37 (T37 m outs c) 2 main_v16 main_v175 main_v176 _ _ _ _ rfl (nk (by decide +kernel)) (nk (by decide +kernel)) (nk (by decide +kernel))
theorem rd_main_c_80 : GenP.V61 m outs c (Proc.devRef .tc main_c_80) = (constantI S_ 32 1#32) :=
  end0 (W37 (F := F)) (GenP.V36 m outs c) (GenP.V61 m outs c) L37 (T37 m outs c) 3 main_c_80 _ _ rfl (nk (by decide +kernel))
theorem rd_main_v177 : GenP.V61 m outs c (Proc.devRef .tc main_v177) = (broadcastInDim S200000 ![] bcast_S_S200000 : (⟨S_, .i32⟩ : BufTy).Contents (Elt F) → (⟨S200000, .i32⟩ : BufTy).Contents (Elt F)) (GenP.V61 m outs c (Proc.devRef .tc main_c_80)) :=
  end1 (W37 (F := F)) (GenP.V36 m outs c) (GenP.V61 m outs c) L37 (T37 m outs c) 4 main_c_80 main_v177 _ _ _ rfl (nk (by decide +kernel)) (nk (by decide +kernel))
theorem rd_main_v178 : GenP.V61 m outs c (Proc.devRef .tc main_v178) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v177)) :=
  end2 (W37 (F := F)) (GenP.V36 m outs c) (GenP.V61 m outs c) L37 (T37 m outs c) 5 main_v17 main_v177 main_v178 _ _ _ _ rfl (nk (by decide +kernel)) (nk (by decide +kernel)) (nk (by decide +kernel))
theorem rd_main_c_81 : GenP.V61 m outs c (Proc.devRef .tc main_c_81) = (constantI S_ 32 0#32) :=
  end0 (W37 (F := F)) (GenP.V36 m outs c) (GenP.V61 m outs c) L37 (T37 m outs c) 6 main_c_81 _ _ rfl (nk (by decide +kernel))
theorem rd_main_v179 : GenP.V61 m outs c (Proc.devRef .tc main_v179) = (broadcastInDim S200000 ![] bcast_S_S200000 : (⟨S_, .i32⟩ : BufTy).Contents (Elt F) → (⟨S200000, .i32⟩ : BufTy).Contents (Elt F)) (GenP.V61 m outs c (Proc.devRef .tc main_c_81)) :=
  end1 (W37 (F := F)) (GenP.V36 m outs c) (GenP.V61 m outs c) L37 (T37 m outs c) 7 main_c_81 main_v179 _ _ _ rfl (nk (by decide +kernel)) (nk (by decide +kernel))
theorem rd_main_v180 : GenP.V61 m outs c (Proc.devRef .tc main_v180) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v176)) (GenP.V61 m outs c (Proc.devRef .tc main_v179)) :=
  end2 (W37 (F := F)) (GenP.V36 m outs c) (GenP.V61 m outs c) L37 (T37 m outs c) 8 main_v176 main_v179 main_v180 _ _ _ _ rfl (nk (by decide +kernel)) (nk (by decide +kernel)) (nk (by decide +kernel))
theorem rd_main_c_82 : GenP.V61 m outs c (Proc.devRef .tc main_c_82) = (constantI S_ 32 768#32) :=
  end0 (W37 (F := F)) (GenP.V36 m outs c) (GenP.V61 m outs c) L37 (T37 m outs c) 9 main_c_82 _ _ rfl (nk (by decide +kernel))
theorem rd_main_v181 : GenP.V61 m outs c (Proc.devRef .tc main_v181) = (broadcastInDim S200000 ![] bcast_S_S200000 : (⟨S_, .i32⟩ : BufTy).Contents (Elt F) → (⟨S200000, .i32⟩ : BufTy).Contents (Elt F)) (GenP.V61 m outs c (Proc.devRef .tc main_c_82)) :=
  end1 (W37 (F := F)) (GenP.V36 m outs c) (GenP.V61 m outs c) L37 (T37 m outs c) 10 main_c_82 main_v181 _ _ _ rfl (nk (by decide +kernel)) (nk (by decide +kernel))
theorem rd_main_v182 : GenP.V61 m outs c (Proc.devRef .tc main_v182) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v176)) (GenP.V61 m outs c (Proc.devRef .tc main_v181)) :=
  end2 (W37 (F := F)) (GenP.V36 m outs c) (GenP.V61 m outs c) L37 (T37 m outs c) 11 main_v176 main_v181 main_v182 _ _ _ _ rfl (nk (by decide +kernel)) (nk (by decide +kernel)) (nk (by decide +kernel))
theorem rd_main_v183 : GenP.V61 m outs c (Proc.devRef .tc main_v183) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v180)) (GenP.V61 m outs c (Proc.devRef .tc main_v182)) :=
  end2 (W37 (F := F)) (GenP.V36 m outs c) (GenP.V61 m outs c) L37 (T37 m outs c) 12 main_v180 main_v182 main_v183 _ _ _ _ rfl (nk (by decide +kernel)) (nk (by decide +kernel)) (nk (by decide +kernel))
theorem rd_main_c_83 : GenP.V61 m outs c (Proc.devRef .tc main_c_83) = (constantI S_ 32 0#32) :=
  end0 (W37 (F := F)) (GenP.V36 m outs c) (GenP.V61 m outs c) L37 (T37 m outs c) 13 main_c_83 _ _ rfl (nk (by decide +kernel))
theorem rd_main_v184 : GenP.V61 m outs c (Proc.devRef .tc main_v184) = (broadcastInDim S200000 ![] bcast_S_S200000 : (⟨S_, .i32⟩ : BufTy).Contents (Elt F) → (⟨S200000, .i32⟩ : BufTy).Contents (Elt F)) (GenP.V61 m outs c (Proc.devRef .tc main_c_83)) :=
  end1 (W37 (F := F)) (GenP.V36 m outs c) (GenP.V61 m outs c) L37 (T37 m outs c) 14 main_c_83 main_v184 _ _ _ rfl (nk (by decide +kernel)) (nk (by decide +kernel))
theorem rd_main_v185 : GenP.V61 m outs c (Proc.devRef .tc main_v185) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v178)) (GenP.V61 m outs c (Proc.devRef .tc main_v184)) :=
  end2 (W37 (F := F)) (GenP.V36 m outs c) (GenP.V61 m outs c) L37 (T37 m outs c) 15 main_v178 main_v184 main_v185 _ _ _ _ rfl (nk (by decide +kernel)) (nk (by decide +kernel)) (nk (by decide +kernel))
theorem rd_main_v186 : GenP.V61 m outs c (Proc.devRef .tc main_v186) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v183)) (GenP.V61 m outs c (Proc.devRef .tc main_v185)) :=
  end2 (W37 (F := F)) (GenP.V36 m outs c) (GenP.V61 m outs c) L37 (T37 m outs c) 16 main_v183 main_v185 main_v186 _ _ _ _ rfl (nk (by decide +kernel)) (nk (by decide +kernel)) (nk (by decide +kernel))
theorem rd_main_c_84 : GenP.V61 m outs c (Proc.devRef .tc main_c_84) = (constantI S_ 32 768#32) :=
  end0 (W37 (F := F)) (GenP.V36 m outs c) (GenP.V61 m outs c) L37 (T37 m outs c) 17 main_c_84 _ _ rfl (nk (by decide +kernel))
theorem rd_main_v187 : GenP.V61 m outs c (Proc.devRef .tc main_v187) = (broadcastInDim S200000 ![] bcast_S_S200000 : (⟨S_, .i32⟩ : BufTy).Contents (Elt F) → (⟨S200000, .i32⟩ : BufTy).Contents (Elt F)) (GenP.V61 m outs c (Proc.devRef .tc main_c_84)) :=
  end1 (W37 (F := F)) (GenP.V36 m outs c) (GenP.V61 m outs c) L37 (T37 m outs c) 18 main_c_84 main_v187 _ _ _ rfl (nk (by decide +kernel)) (nk (by decide +kernel))
theorem rd_main_v188 : GenP.V61 m outs c (Proc.devRef .tc main_v188) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v178)) (GenP.V61 m outs c (Proc.devRef .tc main_v187)) :=
  end2 (W37 (F := F)) (GenP.V36 m outs c) (GenP.V61 m outs c) L37 (T37 m outs c) 19 main_v178 main_v187 main_v188 _ _ _ _ rfl (nk (by decide +kernel)) (nk (by decide +kernel)) (nk (by decide +kernel))
theorem rd_main_v189 : GenP.V61 m outs c (Proc.devRef .tc main_v189) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v186)) (GenP.V61 m outs c (Proc.devRef .tc main_v188)) :=
  end2 (W37 (F := F)) (GenP.V36 m outs c) (GenP.V61 m outs c) L37 (T37 m outs c) 20 main_v186 main_v188 main_v189 _ _ _ _ rfl (nk (by decide +kernel)) (nk (by decide +kernel)) (nk (by decide +kernel))
theorem rd_main_c_85 : GenP.V61 m outs c (Proc.devRef .tc main_c_85) = (constantI S_ 32 0#32) :=
  end0 (W37 (F := F)) (GenP.V36 m outs c) (GenP.V61 m outs c) L37 (T37 m outs c) 21 main_c_85 _ _ rfl (nk (by decide +kernel))
theorem rd_main_c_86 : GenP.V61 m outs c (Proc.devRef .tc main_c_86) = (constantI S_ 32 767#32) :=
  end0 (W37 (F := F)) (GenP.V36 m outs c) (GenP.V61 m outs c) L37 (T37 m outs c) 22 main_c_86 _ _ rfl (nk (by decide +kernel))
theorem rd_main_call17_v0 : GenP.V61 m outs c (Proc.devRef .tc main_call17_v0) = (id : (⟨S_, .i32⟩ : BufTy).Contents (Elt F) → (⟨S_, .i32⟩ : BufTy).Contents (Elt F)) (GenP.V61 m outs c (Proc.devRef .tc main_c_85)) :=
  end1 (W38 (F := F)) (GenP.V37 m outs c) (GenP.V61 m outs c) L38 (T38 m outs c) 0 main_c_85 main_call17_v0 _ _ _ rfl (nk (by decide +kernel)) (nk (by decide +kernel))
theorem rd_main_call17_v1 : GenP.V61 m outs c (Proc.devRef .tc main_call17_v1) = ((broadcastInDim S200000 ![] bcast_S_S200000) : (⟨S_, .i32⟩ : BufTy).Contents (Elt F) → (⟨S200000, .i32⟩ : BufTy).Contents (Elt F)) (GenP.V61 m outs c (Proc.devRef .tc main_call17_v0)) :=
  end1 (W38 (F := F)) (GenP.V37 m outs c) (GenP.V61 m outs c) L38 (T38 m outs c) 1 main_call17_v0 main_call17_v1 _ _ _ rfl (nk (by decide +kernel)) (nk (by decide +kernel))
theorem rd_main_call17_v2 : GenP.V61 m outs c (Proc.devRef .tc main_call17_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call17_v1)) (GenP.V61 m outs c (Proc.devRef .tc main_v176)) :=
  end2 (W38 (F := F)) (GenP.V37 m outs c) (GenP.V61 m outs c) L38 (T38 m outs c) 2 main_call17_v1 main_v176 main_call17_v2 _ _ _ _ rfl (nk (by decide +kernel)) (nk (by decide +kernel)) (nk (by decide +kernel))
theorem rd_main_call17_v3 : GenP.V61 m outs c (Proc.devRef .tc main_call17_v3) = (id : (⟨S_, .i32⟩ : BufTy).Contents (Elt F) → (⟨S_, .i32⟩ : BufTy).Contents (Elt F)) (GenP.V61 m outs c (Proc.devRef .tc main_c_86)) :=
  end1 (W38 (F := F)) (GenP.V37 m outs c) (GenP.V61 m outs c) L38 (T38 m outs c) 3 main_c_86 main_call17_v3 _ _ _ rfl (nk (by decide +kernel)) (nk (by decide +kernel))
theorem rd_main_call17_v4 : GenP.V61 m outs c (Proc.devRef .tc main_call17_v4) = ((broadcastInDim S200000 ![] bcast_S_S200000) : (⟨S_, .i32⟩ : BufTy).Contents (Elt F) → (⟨S200000, .i32⟩ : BufTy).Contents (Elt F)) (GenP.V61 m outs c (Proc.devRef .tc main_call17_v3)) :=
  end1 (W38 (F := F)) (GenP.V37 m outs c) (GenP.V61 m outs c) L38 (T38 m outs c) 4 main_call17_v3 main_call17_v4 _ _ _ rfl (nk (by decide +kernel)) (nk (by decide +kernel))
theorem rd_main_v190 : GenP.V61 m outs c (Proc.devRef .tc main_v190) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call17_v4)) (GenP.V61 m outs c (Proc.devRef .tc main_call17_v2)) :=
  end2 (W38 (F := F)) (GenP.V37 m outs c) (GenP.V61 m outs c) L38 (T38 m outs c) 5 main_call17_v4 main_call17_v2 main_v190 _ _ _ _ rfl (nk (by decide +kernel)) (nk (by decide +kernel)) (nk (by decide +kernel))

end Cert.KernelIdeal.Glue
-- ==== Proof.GlueRead5.lean ====
/-
  The idealized kernel program's host operations read back at the contents the second kernel region is entered with:
  one equation per operation, its result and its operands all read at V61 (part 5 of the table: hostOps1_36 operation 0 to
  hostOps1_44 operation 6). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_c_87 : GenP.V61 m outs c (Proc.devRef .tc main_c_87) = (constantI S_ 32 768#32) :=
  end0 (W39 (F := F)) (GenP.V38 m outs c) (GenP.V61 m outs c) L39 (T39 m outs c) 0 main_c_87 _ _ rfl (nk (by decide +kernel))
theorem rd_main_v191 : GenP.V61 m outs c (Proc.devRef .tc main_v191) = (broadcastInDim S200000 ![] bcast_S_S200000 : (⟨S_, .i32⟩ : BufTy).Contents (Elt F) → (⟨S200000, .i32⟩ : BufTy).Contents (Elt F)) (GenP.V61 m outs c (Proc.devRef .tc main_c_87)) :=
  end1 (W39 (F := F)) (GenP.V38 m outs c) (GenP.V61 m outs c) L39 (T39 m outs c) 1 main_c_87 main_v191 _ _ _ rfl (nk (by decide +kernel)) (nk (by decide +kernel))
theorem rd_main_v192 : GenP.V61 m outs c (Proc.devRef .tc main_v192) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v190)) (GenP.V61 m outs c (Proc.devRef .tc main_v191)) :=
  end2 (W39 (F := F)) (GenP.V38 m outs c) (GenP.V61 m outs c) L39 (T39 m outs c) 2 main_v190 main_v191 main_v192 _ _ _ _ rfl (nk (by decide +kernel)) (nk (by decide +kernel)) (nk (by decide +kernel))
theorem rd_main_c_88 : GenP.V61 m outs c (Proc.devRef .tc main_c_88) = (constantI S_ 32 0#32) :=
  end0 (W39 (F := F)) (GenP.V38 m outs c) (GenP.V61 m outs c) L39 (T39 m outs c) 3 main_c_88 _ _ rfl (nk (by decide +kernel))
theorem rd_main_c_89 : GenP.V61 m outs c (Proc.devRef .tc main_c_89) = (constantI S_ 32 767#32) :=
  end0 (W39 (F := F)) (GenP.V38 m outs c) (GenP.V61 m outs c) L39 (T39 m outs c) 4 main_c_89 _ _ rfl (nk (by decide +kernel))
theorem rd_main_call18_v0 : GenP.V61 m outs c (Proc.devRef .tc main_call18_v0) = (id : (⟨S_, .i32⟩ : BufTy).Contents (Elt F) → (⟨S_, .i32⟩ : BufTy).Contents (Elt F)) (GenP.V61 m outs c (Proc.devRef .tc main_c_88)) :=
  end1 (W40 (F := F)) (GenP.V39 m outs c) (GenP.V61 m outs c) L40 (T40 m outs c) 0 main_c_88 main_call18_v0 _ _ _ rfl (nk (by decide +kernel)) (nk (by decide +kernel))
theorem rd_main_call18_v1 : GenP.V61 m outs c (Proc.devRef .tc main_call18_v1) = ((broadcastInDim S200000 ![] bcast_S_S200000) : (⟨S_, .i32⟩ : BufTy).Contents (Elt F) → (⟨S200000, .i32⟩ : BufTy).Contents (Elt F)) (GenP.V61 m outs c (Proc.devRef .tc main_call18_v0)) :=
  end1 (W40 (F := F)) (GenP.V39 m outs c) (GenP.V61 m outs c) L40 (T40 m outs c) 1 main_call18_v0 main_call18_v1 _ _ _ rfl (nk (by decide +kernel)) (nk (by decide +kernel))
theorem rd_main_call18_v2 : GenP.V61 m outs c (Proc.devRef .tc main_call18_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call18_v1)) (GenP.V61 m outs c (Proc.devRef .tc main_v178)) :=
  end2 (W40 (F := F)) (GenP.V39 m outs c) (GenP.V61 m outs c) L40 (T40 m outs c) 2 main_call18_v1 main_v178 main_call18_v2 _ _ _ _ rfl (nk (by decide +kernel)) (nk (by decide +kernel)) (nk (by decide +kernel))
theorem rd_main_call18_v3 : GenP.V61 m outs c (Proc.devRef .tc main_call18_v3) = (id : (⟨S_, .i32⟩ : BufTy).Contents (Elt F) → (⟨S_, .i32⟩ : BufTy).Contents (Elt F)) (GenP.V61 m outs c (Proc.devRef .tc main_c_89)) :=
  end1 (W40 (F := F)) (GenP.V39 m outs c) (GenP.V61 m outs c) L40 (T40 m outs c) 3 main_c_89 main_call18_v3 _ _ _ rfl (nk (by decide +kernel)) (nk (by decide +kernel))
theorem rd_main_call18_v4 : GenP.V61 m outs c (Proc.devRef .tc main_call18_v4) = ((broadcastInDim S200000 ![] bcast_S_S200000) : (⟨S_, .i32⟩ : BufTy).Contents (Elt F) → (⟨S200000, .i32⟩ : BufTy).Contents (Elt F)) (GenP.V61 m outs c (Proc.devRef .tc main_call18_v3)) :=
  end1 (W40 (F := F)) (GenP.V39 m outs c) (GenP.V61 m outs c) L40 (T40 m outs c) 4 main_call18_v3 main_call18_v4 _ _ _ rfl (nk (by decide +kernel)) (nk (by decide +kernel))
theorem rd_main_v193 : GenP.V61 m outs c (Proc.devRef .tc main_v193) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call18_v4)) (GenP.V61 m outs c (Proc.devRef .tc main_call18_v2)) :=
  end2 (W40 (F := F)) (GenP.V39 m outs c) (GenP.V61 m outs c) L40 (T40 m outs c) 5 main_call18_v4 main_call18_v2 main_v193 _ _ _ _ rfl (nk (by decide +kernel)) (nk (by decide +kernel)) (nk (by decide +kernel))
theorem rd_main_v194 : GenP.V61 m outs c (Proc.devRef .tc main_v194) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v192)) (GenP.V61 m outs c (Proc.devRef .tc main_v193)) :=
  end2 (W41 (F := F)) (GenP.V40 m outs c) (GenP.V61 m outs c) L41 (T41 m outs c) 0 main_v192 main_v193 main_v194 _ _ _ _ rfl (nk (by decide +kernel)) (nk (by decide +kernel)) (nk (by decide +kernel))
theorem rd_main_c_90 : GenP.V61 m outs c (Proc.devRef .tc main_c_90) = (constantI S_ 32 0#32) :=
  end0 (W41 (F := F)) (GenP.V40 m outs c) (GenP.V61 m outs c) L41 (T41 m outs c) 1 main_c_90 _ _ rfl (nk (by decide +kernel))
theorem rd_main_v195 : GenP.V61 m outs c (Proc.devRef .tc main_v195) = (broadcastInDim S200000 ![] bcast_S_S200000 : (⟨S_, .i32⟩ : BufTy).Contents (Elt F) → (⟨S200000, .i32⟩ : BufTy).Contents (Elt F)) (GenP.V61 m outs c (Proc.devRef .tc main_c_90)) :=
  end1 (W41 (F := F)) (GenP.V40 m outs c) (GenP.V61 m outs c) L41 (T41 m outs c) 2 main_c_90 main_v195 _ _ _ rfl (nk (by decide +kernel)) (nk (by decide +kernel))
theorem rd_main_v196 : GenP.V61 m outs c (Proc.devRef .tc main_v196) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v194)) (GenP.V61 m outs c (Proc.devRef .tc main_v195)) :=
  end2 (W41 (F := F)) (GenP.V40 m outs c) (GenP.V61 m outs c) L41 (T41 m outs c) 3 main_v194 main_v195 main_v196 _ _ _ _ rfl (nk (by decide +kernel)) (nk (by decide +kernel)) (nk (by decide +kernel))
theorem rd_main_c_91 : GenP.V61 m outs c (Proc.devRef .tc main_c_91) = (constantI S_ 32 589824#32) :=
  end0 (W41 (F := F)) (GenP.V40 m outs c) (GenP.V61 m outs c) L41 (T41 m outs c) 4 main_c_91 _ _ rfl (nk (by decide +kernel))
theorem rd_main_v197 : GenP.V61 m outs c (Proc.devRef .tc main_v197) = (broadcastInDim S200000 ![] bcast_S_S200000 : (⟨S_, .i32⟩ : BufTy).Contents (Elt F) → (⟨S200000, .i32⟩ : BufTy).Contents (Elt F)) (GenP.V61 m outs c (Proc.devRef .tc main_c_91)) :=
  end1 (W41 (F := F)) (GenP.V40 m outs c) (GenP.V61 m outs c) L41 (T41 m outs c) 5 main_c_91 main_v197 _ _ _ rfl (nk (by decide +kernel)) (nk (by decide +kernel))
theorem rd_main_v198 : GenP.V61 m outs c (Proc.devRef .tc main_v198) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v194)) (GenP.V61 m outs c (Proc.devRef .tc main_v197)) :=
  end2 (W41 (F := F)) (GenP.V40 m outs c) (GenP.V61 m outs c) L41 (T41 m outs c) 6 main_v194 main_v197 main_v198 _ _ _ _ rfl (nk (by decide +kernel)) (nk (by decide +kernel)) (nk (by decide +kernel))
theorem rd_main_v199 : GenP.V61 m outs c (Proc.devRef .tc main_v199) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v196)) (GenP.V61 m outs c (Proc.devRef .tc main_v198)) (GenP.V61 m outs c (Proc.devRef .tc main_v194)) :=
  end3 (W41 (F := F)) (GenP.V40 m outs c) (GenP.V61 m outs c) L41 (T41 m outs c) 7 main_v196 main_v198 main_v194 main_v199 _ _ _ _ _ rfl (nk (by decide +kernel)) (nk (by decide +kernel)) (nk (by decide +kernel)) (nk (by decide +kernel))
theorem rd_main_v200 : GenP.V61 m outs c (Proc.devRef .tc main_v200) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v199)) :=
  end1 (W41 (F := F)) (GenP.V40 m outs c) (GenP.V61 m outs c) L41 (T41 m outs c) 8 main_v199 main_v200 _ _ _ rfl (nk (by decide +kernel)) (nk (by decide +kernel))
theorem rd_main_v201 : GenP.V61 m outs c (Proc.devRef .tc main_v201) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v200)) :=
  end2 (W41 (F := F)) (GenP.V40 m outs c) (GenP.V61 m outs c) L41 (T41 m outs c) 9 main_v15 main_v200 main_v201 _ _ _ _ rfl (nk (by decide +kernel)) (nk (by decide +kernel)) (nk (by decide +kernel))
theorem rd_main_c_92 : GenP.V61 m outs c (Proc.devRef .tc main_c_92) = (constantI S_ 32 200000#32) :=
  end0 (W41 (F := F)) (GenP.V40 m outs c) (GenP.V61 m outs c) L41 (T41 m outs c) 10 main_c_92 _ _ rfl (nk (by decide +kernel))
theorem rd_main_v202 : GenP.V61 m outs c (Proc.devRef .tc main_v202) = (broadcastInDim S200000 ![] bcast_S_S200000 : (⟨S_, .i32⟩ : BufTy).Contents (Elt F) → (⟨S200000, .i32⟩ : BufTy).Contents (Elt F)) (GenP.V61 m outs c (Proc.devRef .tc main_c_92)) :=
  end1 (W41 (F := F)) (GenP.V40 m outs c) (GenP.V61 m outs c) L41 (T41 m outs c) 11 main_c_92 main_v202 _ _ _ rfl (nk (by decide +kernel)) (nk (by decide +kernel))
theorem rd_main_v203 : GenP.V61 m outs c (Proc.devRef .tc main_v203) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v201)) (GenP.V61 m outs c (Proc.devRef .tc main_v202)) :=
  end2 (W41 (F := F)) (GenP.V40 m outs c) (GenP.V61 m outs c) L41 (T41 m outs c) 12 main_v201 main_v202 main_v203 _ _ _ _ rfl (nk (by decide +kernel)) (nk (by decide +kernel)) (nk (by decide +kernel))
theorem rd_main_v204 : GenP.V61 m outs c (Proc.devRef .tc main_v204) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v189)) (GenP.V61 m outs c (Proc.devRef .tc main_v203)) :=
  end2 (W41 (F := F)) (GenP.V40 m outs c) (GenP.V61 m outs c) L41 (T41 m outs c) 13 main_v189 main_v203 main_v204 _ _ _ _ rfl (nk (by decide +kernel)) (nk (by decide +kernel)) (nk (by decide +kernel))
theorem rd_main_c_93 : GenP.V61 m outs c (Proc.devRef .tc main_c_93) = (constantI S_ 32 200000#32) :=
  end0 (W41 (F := F)) (GenP.V40 m outs c) (GenP.V61 m outs c) L41 (T41 m outs c) 14 main_c_93 _ _ rfl (nk (by decide +kernel))
theorem rd_main_call19_v0 : GenP.V61 m outs c (Proc.devRef .tc main_call19_v0) = (id : (⟨S_, .i32⟩ : BufTy).Contents (Elt F) → (⟨S_, .i32⟩ : BufTy).Contents (Elt F)) (GenP.V61 m outs c (Proc.devRef .tc main_c_93)) :=
  end1 (W42 (F := F)) (GenP.V41 m outs c) (GenP.V61 m outs c) L42 (T42 m outs c) 0 main_c_93 main_call19_v0 _ _ _ rfl (nk (by decide +kernel)) (nk (by decide +kernel))
theorem rd_main_call19_v1 : GenP.V61 m outs c (Proc.devRef .tc main_call19_v1) = ((broadcastInDim S200000 ![] bcast_S_S200000) : (⟨S_, .i32⟩ : BufTy).Contents (Elt F) → (⟨S200000, .i32⟩ : BufTy).Contents (Elt F)) (GenP.V61 m outs c (Proc.devRef .tc main_call19_v0)) :=
  end1 (W42 (F := F)) (GenP.V41 m outs c) (GenP.V61 m outs c) L42 (T42 m outs c) 1 main_call19_v0 main_call19_v1 _ _ _ rfl (nk (by decide +kernel)) (nk (by decide +kernel))
theorem rd_main_v205 : GenP.V61 m outs c (Proc.devRef .tc main_v205) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v204)) (GenP.V61 m outs c (Proc.devRef .tc main_v201)) (GenP.V61 m outs c (Proc.devRef .tc main_call19_v1)) :=
  end3 (W42 (F := F)) (GenP.V41 m outs c) (GenP.V61 m outs c) L42 (T42 m outs c) 2 main_v204 main_v201 main_call19_v1 main_v205 _ _ _ _ _ rfl (nk (by decide +kernel)) (nk (by decide +kernel)) (nk (by decide +kernel)) (nk (by decide +kernel))
theorem rd_main_c_94 : GenP.V61 m outs c (Proc.devRef .tc main_c_94) = (constantI S_ 32 1#32) :=
  end0 (W43 (F := F)) (GenP.V42 m outs c) (GenP.V61 m outs c) L43 (T43 m outs c) 0 main_c_94 _ _ rfl (nk (by decide +kernel))
theorem rd_main_v206 : GenP.V61 m outs c (Proc.devRef .tc main_v206) = (broadcastInDim S200000 ![] bcast_S_S200000 : (⟨S_, .i32⟩ : BufTy).Contents (Elt F) → (⟨S200000, .i32⟩ : BufTy).Contents (Elt F)) (GenP.V61 m outs c (Proc.devRef .tc main_c_94)) :=
  end1 (W43 (F := F)) (GenP.V42 m outs c) (GenP.V61 m outs c) L43 (T43 m outs c) 1 main_c_94 main_v206 _ _ _ rfl (nk (by decide +kernel)) (nk (by decide +kernel))
theorem rd_main_v207 : GenP.V61 m outs c (Proc.devRef .tc main_v207) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v206)) :=
  end2 (W43 (F := F)) (GenP.V42 m outs c) (GenP.V61 m outs c) L43 (T43 m outs c) 2 main_v16 main_v206 main_v207 _ _ _ _ rfl (nk (by decide +kernel)) (nk (by decide +kernel)) (nk (by decide +kernel))
theorem rd_main_c_95 : GenP.V61 m outs c (Proc.devRef .tc main_c_95) = (constantI S_ 32 4294967295#32) :=
  end0 (W43 (F := F)) (GenP.V42 m outs c) (GenP.V61 m outs c) L43 (T43 m outs c) 3 main_c_95 _ _ rfl (nk (by decide +kernel))
theorem rd_main_v208 : GenP.V61 m outs c (Proc.devRef .tc main_v208) = (broadcastInDim S200000 ![] bcast_S_S200000 : (⟨S_, .i32⟩ : BufTy).Contents (Elt F) → (⟨S200000, .i32⟩ : BufTy).Contents (Elt F)) (GenP.V61 m outs c (Proc.devRef .tc main_c_95)) :=
  end1 (W43 (F := F)) (GenP.V42 m outs c) (GenP.V61 m outs c) L43 (T43 m outs c) 4 main_c_95 main_v208 _ _ _ rfl (nk (by decide +kernel)) (nk (by decide +kernel))
theorem rd_main_v209 : GenP.V61 m outs c (Proc.devRef .tc main_v209) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v208)) :=
  end2 (W43 (F := F)) (GenP.V42 m outs c) (GenP.V61 m outs c) L43 (T43 m outs c) 5 main_v17 main_v208 main_v209 _ _ _ _ rfl (nk (by decide +kernel)) (nk (by decide +kernel)) (nk (by decide +kernel))
theorem rd_main_c_96 : GenP.V61 m outs c (Proc.devRef .tc main_c_96) = (constantI S_ 32 0#32) :=
  end0 (W43 (F := F)) (GenP.V42 m outs c) (GenP.V61 m outs c) L43 (T43 m outs c) 6 main_c_96 _ _ rfl (nk (by decide +kernel))
theorem rd_main_v210 : GenP.V61 m outs c (Proc.devRef .tc main_v210) = (broadcastInDim S200000 ![] bcast_S_S200000 : (⟨S_, .i32⟩ : BufTy).Contents (Elt F) → (⟨S200000, .i32⟩ : BufTy).Contents (Elt F)) (GenP.V61 m outs c (Proc.devRef .tc main_c_96)) :=
  end1 (W43 (F := F)) (GenP.V42 m outs c) (GenP.V61 m outs c) L43 (T43 m outs c) 7 main_c_96 main_v210 _ _ _ rfl (nk (by decide +kernel)) (nk (by decide +kernel))
theorem rd_main_v211 : GenP.V61 m outs c (Proc.devRef .tc main_v211) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v207)) (GenP.V61 m outs c (Proc.devRef .tc main_v210)) :=
  end2 (W43 (F := F)) (GenP.V42 m outs c) (GenP.V61 m outs c) L43 (T43 m outs c) 8 main_v207 main_v210 main_v211 _ _ _ _ rfl (nk (by decide +kernel)) (nk (by decide +kernel)) (nk (by decide +kernel))
theorem rd_main_c_97 : GenP.V61 m outs c (Proc.devRef .tc main_c_97) = (constantI S_ 32 768#32) :=
  end0 (W43 (F := F)) (GenP.V42 m outs c) (GenP.V61 m outs c) L43 (T43 m outs c) 9 main_c_97 _ _ rfl (nk (by decide +kernel))
theorem rd_main_v212 : GenP.V61 m outs c (Proc.devRef .tc main_v212) = (broadcastInDim S200000 ![] bcast_S_S200000 : (⟨S_, .i32⟩ : BufTy).Contents (Elt F) → (⟨S200000, .i32⟩ : BufTy).Contents (Elt F)) (GenP.V61 m outs c (Proc.devRef .tc main_c_97)) :=
  end1 (W43 (F := F)) (GenP.V42 m outs c) (GenP.V61 m outs c) L43 (T43 m outs c) 10 main_c_97 main_v212 _ _ _ rfl (nk (by decide +kernel)) (nk (by decide +kernel))
theorem rd_main_v213 : GenP.V61 m outs c (Proc.devRef .tc main_v213) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v207)) (GenP.V61 m outs c (Proc.devRef .tc main_v212)) :=
  end2 (W43 (F := F)) (GenP.V42 m outs c) (GenP.V61 m outs c) L43 (T43 m outs c) 11 main_v207 main_v212 main_v213 _ _ _ _ rfl (nk (by decide +kernel)) (nk (by decide +kernel)) (nk (by decide +kernel))
theorem rd_main_v214 : GenP.V61 m outs c (Proc.devRef .tc main_v214) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v211)) (GenP.V61 m outs c (Proc.devRef .tc main_v213)) :=
  end2 (W43 (F := F)) (GenP.V42 m outs c) (GenP.V61 m outs c) L43 (T43 m outs c) 12 main_v211 main_v213 main_v214 _ _ _ _ rfl (nk (by decide +kernel)) (nk (by decide +kernel)) (nk (by decide +kernel))
theorem rd_main_c_98 : GenP.V61 m outs c (Proc.devRef .tc main_c_98) = (constantI S_ 32 0#32) :=
  end0 (W43 (F := F)) (GenP.V42 m outs c) (GenP.V61 m outs c) L43 (T43 m outs c) 13 main_c_98 _ _ rfl (nk (by decide +kernel))
theorem rd_main_v215 : GenP.V61 m outs c (Proc.devRef .tc main_v215) = (broadcastInDim S200000 ![] bcast_S_S200000 : (⟨S_, .i32⟩ : BufTy).Contents (Elt F) → (⟨S200000, .i32⟩ : BufTy).Contents (Elt F)) (GenP.V61 m outs c (Proc.devRef .tc main_c_98)) :=
  end1 (W43 (F := F)) (GenP.V42 m outs c) (GenP.V61 m outs c) L43 (T43 m outs c) 14 main_c_98 main_v215 _ _ _ rfl (nk (by decide +kernel)) (nk (by decide +kernel))
theorem rd_main_v216 : GenP.V61 m outs c (Proc.devRef .tc main_v216) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v209)) (GenP.V61 m outs c (Proc.devRef .tc main_v215)) :=
  end2 (W43 (F := F)) (GenP.V42 m outs c) (GenP.V61 m outs c) L43 (T43 m outs c) 15 main_v209 main_v215 main_v216 _ _ _ _ rfl (nk (by decide +kernel)) (nk (by decide +kernel)) (nk (by decide +kernel))
theorem rd_main_v217 : GenP.V61 m outs c (Proc.devRef .tc main_v217) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v214)) (GenP.V61 m outs c (Proc.devRef .tc main_v216)) :=
  end2 (W43 (F := F)) (GenP.V42 m outs c) (GenP.V61 m outs c) L43 (T43 m outs c) 16 main_v214 main_v216 main_v217 _ _ _ _ rfl (nk (by decide +kernel)) (nk (by decide +kernel)) (nk (by decide +kernel))
theorem rd_main_c_99 : GenP.V61 m outs c (Proc.devRef .tc main_c_99) = (constantI S_ 32 768#32) :=
  end0 (W43 (F := F)) (GenP.V42 m outs c) (GenP.V61 m outs c) L43 (T43 m outs c) 17 main_c_99 _ _ rfl (nk (by decide +kernel))
theorem rd_main_v218 : GenP.V61 m outs c (Proc.devRef .tc main_v218) = (broadcastInDim S200000 ![] bcast_S_S200000 : (⟨S_, .i32⟩ : BufTy).Contents (Elt F) → (⟨S200000, .i32⟩ : BufTy).Contents (Elt F)) (GenP.V61 m outs c (Proc.devRef .tc main_c_99)) :=
  end1 (W43 (F := F)) (GenP.V42 m outs c) (GenP.V61 m outs c) L43 (T43 m outs c) 18 main_c_99 main_v218 _ _ _ rfl (nk (by decide +kernel)) (nk (by decide +kernel))
theorem rd_main_v219 : GenP.V61 m outs c (Proc.devRef .tc main_v219) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v209)) (GenP.V61 m outs c (Proc.devRef .tc main_v218)) :=
  end2 (W43 (F := F)) (GenP.V42 m outs c) (GenP.V61 m outs c) L43 (T43 m outs c) 19 main_v209 main_v218 main_v219 _ _ _ _ rfl (nk (by decide +kernel)) (nk (by decide +kernel)) (nk (by decide +kernel))
theorem rd_main_v220 : GenP.V61 m outs c (Proc.devRef .tc main_v220) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v217)) (GenP.V61 m outs c (Proc.devRef .tc main_v219)) :=
  end2 (W43 (F := F)) (GenP.V42 m outs c) (GenP.V61 m outs c) L43 (T43 m outs c) 20 main_v217 main_v219 main_v220 _ _ _ _ rfl (nk (by decide +kernel)) (nk (by decide +kernel)) (nk (by decide +kernel))
theorem rd_main_c_100 : GenP.V61 m outs c (Proc.devRef .tc main_c_100) = (constantI S_ 32 0#32) :=
  end0 (W43 (F := F)) (GenP.V42 m outs c) (GenP.V61 m outs c) L43 (T43 m outs c) 21 main_c_100 _ _ rfl (nk (by decide +kernel))
theorem rd_main_c_101 : GenP.V61 m outs c (Proc.devRef .tc main_c_101) = (constantI S_ 32 767#32) :=
  end0 (W43 (F := F)) (GenP.V42 m outs c) (GenP.V61 m outs c) L43 (T43 m outs c) 22 main_c_101 _ _ rfl (nk (by decide +kernel))
theorem rd_main_call20_v0 : GenP.V61 m outs c (Proc.devRef .tc main_call20_v0) = (id : (⟨S_, .i32⟩ : BufTy).Contents (Elt F) → (⟨S_, .i32⟩ : BufTy).Contents (Elt F)) (GenP.V61 m outs c (Proc.devRef .tc main_c_100)) :=
  end1 (W44 (F := F)) (GenP.V43 m outs c) (GenP.V61 m outs c) L44 (T44 m outs c) 0 main_c_100 main_call20_v0 _ _ _ rfl (nk (by decide +kernel)) (nk (by decide +kernel))
theorem rd_main_call20_v1 : GenP.V61 m outs c (Proc.devRef .tc main_call20_v1) = ((broadcastInDim S200000 ![] bcast_S_S200000) : (⟨S_, .i32⟩ : BufTy).Contents (Elt F) → (⟨S200000, .i32⟩ : BufTy).Contents (Elt F)) (GenP.V61 m outs c (Proc.devRef .tc main_call20_v0)) :=
  end1 (W44 (F := F)) (GenP.V43 m outs c) (GenP.V61 m outs c) L44 (T44 m outs c) 1 main_call20_v0 main_call20_v1 _ _ _ rfl (nk (by decide +kernel)) (nk (by decide +kernel))
theorem rd_main_call20_v2 : GenP.V61 m outs c (Proc.devRef .tc main_call20_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call20_v1)) (GenP.V61 m outs c (Proc.devRef .tc main_v207)) :=
  end2 (W44 (F := F)) (GenP.V43 m outs c) (GenP.V61 m outs c) L44 (T44 m outs c) 2 main_call20_v1 main_v207 main_call20_v2 _ _ _ _ rfl (nk (by decide +kernel)) (nk (by decide +kernel)) (nk (by decide +kernel))
theorem rd_main_call20_v3 : GenP.V61 m outs c (Proc.devRef .tc main_call20_v3) = (id : (⟨S_, .i32⟩ : BufTy).Contents (Elt F) → (⟨S_, .i32⟩ : BufTy).Contents (Elt F)) (GenP.V61 m outs c (Proc.devRef .tc main_c_101)) :=
  end1 (W44 (F := F)) (GenP.V43 m outs c) (GenP.V61 m outs c) L44 (T44 m outs c) 3 main_c_101 main_call20_v3 _ _ _ rfl (nk (by decide +kernel)) (nk (by decide +kernel))
theorem rd_main_call20_v4 : GenP.V61 m outs c (Proc.devRef .tc main_call20_v4) = ((broadcastInDim S200000 ![] bcast_S_S200000) : (⟨S_, .i32⟩ : BufTy).Contents (Elt F) → (⟨S200000, .i32⟩ : BufTy).Contents (Elt F)) (GenP.V61 m outs c (Proc.devRef .tc main_call20_v3)) :=
  end1 (W44 (F := F)) (GenP.V43 m outs c) (GenP.V61 m outs c) L44 (T44 m outs c) 4 main_call20_v3 main_call20_v4 _ _ _ rfl (nk (by decide +kernel)) (nk (by decide +kernel))
theorem rd_main_v221 : GenP.V61 m outs c (Proc.devRef .tc main_v221) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call20_v4)) (GenP.V61 m outs c (Proc.devRef .tc main_call20_v2)) :=
  end2 (W44 (F := F)) (GenP.V43 m outs c) (GenP.V61 m outs c) L44 (T44 m outs c) 5 main_call20_v4 main_call20_v2 main_v221 _ _ _ _ rfl (nk (by decide +kernel)) (nk (by decide +kernel)) (nk (by decide +kernel))
theorem rd_main_c_102 : GenP.V61 m outs c (Proc.devRef .tc main_c_102) = (constantI S_ 32 768#32) :=
  end0 (W45 (F := F)) (GenP.V44 m outs c) (GenP.V61 m outs c) L45 (T45 m outs c) 0 main_c_102 _ _ rfl (nk (by decide +kernel))
theorem rd_main_v222 : GenP.V61 m outs c (Proc.devRef .tc main_v222) = (broadcastInDim S200000 ![] bcast_S_S200000 : (⟨S_, .i32⟩ : BufTy).Contents (Elt F) → (⟨S200000, .i32⟩ : BufTy).Contents (Elt F)) (GenP.V61 m outs c (Proc.devRef .tc main_c_102)) :=
  end1 (W45 (F := F)) (GenP.V44 m outs c) (GenP.V61 m outs c) L45 (T45 m outs c) 1 main_c_102 main_v222 _ _ _ rfl (nk (by decide +kernel)) (nk (by decide +kernel))
theorem rd_main_v223 : GenP.V61 m outs c (Proc.devRef .tc main_v223) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v221)) (GenP.V61 m outs c (Proc.devRef .tc main_v222)) :=
  end2 (W45 (F := F)) (GenP.V44 m outs c) (GenP.V61 m outs c) L45 (T45 m outs c) 2 main_v221 main_v222 main_v223 _ _ _ _ rfl (nk (by decide +kernel)) (nk (by decide +kernel)) (nk (by decide +kernel))
theorem rd_main_c_103 : GenP.V61 m outs c (Proc.devRef .tc main_c_103) = (constantI S_ 32 0#32) :=
  end0 (W45 (F := F)) (GenP.V44 m outs c) (GenP.V61 m outs c) L45 (T45 m outs c) 3 main_c_103 _ _ rfl (nk (by decide +kernel))
theorem rd_main_c_104 : GenP.V61 m outs c (Proc.devRef .tc main_c_104) = (constantI S_ 32 767#32) :=
  end0 (W45 (F := F)) (GenP.V44 m outs c) (GenP.V61 m outs c) L45 (T45 m outs c) 4 main_c_104 _ _ rfl (nk (by decide +kernel))
theorem rd_main_call21_v0 : GenP.V61 m outs c (Proc.devRef .tc main_call21_v0) = (id : (⟨S_, .i32⟩ : BufTy).Contents (Elt F) → (⟨S_, .i32⟩ : BufTy).Contents (Elt F)) (GenP.V61 m outs c (Proc.devRef .tc main_c_103)) :=
  end1 (W46 (F := F)) (GenP.V45 m outs c) (GenP.V61 m outs c) L46 (T46 m outs c) 0 main_c_103 main_call21_v0 _ _ _ rfl (nk (by decide +kernel)) (nk (by decide +kernel))
theorem rd_main_call21_v1 : GenP.V61 m outs c (Proc.devRef .tc main_call21_v1) = ((broadcastInDim S200000 ![] bcast_S_S200000) : (⟨S_, .i32⟩ : BufTy).Contents (Elt F) → (⟨S200000, .i32⟩ : BufTy).Contents (Elt F)) (GenP.V61 m outs c (Proc.devRef .tc main_call21_v0)) :=
  end1 (W46 (F := F)) (GenP.V45 m outs c) (GenP.V61 m outs c) L46 (T46 m outs c) 1 main_call21_v0 main_call21_v1 _ _ _ rfl (nk (by decide +kernel)) (nk (by decide +kernel))
theorem rd_main_call21_v2 : GenP.V61 m outs c (Proc.devRef .tc main_call21_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call21_v1)) (GenP.V61 m outs c (Proc.devRef .tc main_v209)) :=
  end2 (W46 (F := F)) (GenP.V45 m outs c) (GenP.V61 m outs c) L46 (T46 m outs c) 2 main_call21_v1 main_v209 main_call21_v2 _ _ _ _ rfl (nk (by decide +kernel)) (nk (by decide +kernel)) (nk (by decide +kernel))
theorem rd_main_call21_v3 : GenP.V61 m outs c (Proc.devRef .tc main_call21_v3) = (id : (⟨S_, .i32⟩ : BufTy).Contents (Elt F) → (⟨S_, .i32⟩ : BufTy).Contents (Elt F)) (GenP.V61 m outs c (Proc.devRef .tc main_c_104)) :=
  end1 (W46 (F := F)) (GenP.V45 m outs c) (GenP.V61 m outs c) L46 (T46 m outs c) 3 main_c_104 main_call21_v3 _ _ _ rfl (nk (by decide +kernel)) (nk (by decide +kernel))
theorem rd_main_call21_v4 : GenP.V61 m outs c (Proc.devRef .tc main_call21_v4) = ((broadcastInDim S200000 ![] bcast_S_S200000) : (⟨S_, .i32⟩ : BufTy).Contents (Elt F) → (⟨S200000, .i32⟩ : BufTy).Contents (Elt F)) (GenP.V61 m outs c (Proc.devRef .tc main_call21_v3)) :=
  end1 (W46 (F := F)) (GenP.V45 m outs c) (GenP.V61 m outs c) L46 (T46 m outs c) 4 main_call21_v3 main_call21_v4 _ _ _ rfl (nk (by decide +kernel)) (nk (by decide +kernel))
theorem rd_main_v224 : GenP.V61 m outs c (Proc.devRef .tc main_v224) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call21_v4)) (GenP.V61 m outs c (Proc.devRef .tc main_call21_v2)) :=
  end2 (W46 (F := F)) (GenP.V45 m outs c) (GenP.V61 m outs c) L46 (T46 m outs c) 5 main_call21_v4 main_call21_v2 main_v224 _ _ _ _ rfl (nk (by decide +kernel)) (nk (by decide +kernel)) (nk (by decide +kernel))
theorem rd_main_v225 : GenP.V61 m outs c (Proc.devRef .tc main_v225) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v223)) (GenP.V61 m outs c (Proc.devRef .tc main_v224)) :=
  end2 (W47 (F := F)) (GenP.V46 m outs c) (GenP.V61 m outs c) L47 (T47 m outs c) 0 main_v223 main_v224 main_v225 _ _ _ _ rfl (nk (by decide +kernel)) (nk (by decide +kernel)) (nk (by decide +kernel))
theorem rd_main_c_105 : GenP.V61 m outs c (Proc.devRef .tc main_c_105) = (constantI S_ 32 0#32) :=
  end0 (W47 (F := F)) (GenP.V46 m outs c) (GenP.V61 m outs c) L47 (T47 m outs c) 1 main_c_105 _ _ rfl (nk (by decide +kernel))
theorem rd_main_v226 : GenP.V61 m outs c (Proc.devRef .tc main_v226) = (broadcastInDim S200000 ![] bcast_S_S200000 : (⟨S_, .i32⟩ : BufTy).Contents (Elt F) → (⟨S200000, .i32⟩ : BufTy).Contents (Elt F)) (GenP.V61 m outs c (Proc.devRef .tc main_c_105)) :=
  end1 (W47 (F := F)) (GenP.V46 m outs c) (GenP.V61 m outs c) L47 (T47 m outs c) 2 main_c_105 main_v226 _ _ _ rfl (nk (by decide +kernel)) (nk (by decide +kernel))
theorem rd_main_v227 : GenP.V61 m outs c (Proc.devRef .tc main_v227) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v225)) (GenP.V61 m outs c (Proc.devRef .tc main_v226)) :=
  end2 (W47 (F := F)) (GenP.V46 m outs c) (GenP.V61 m outs c) L47 (T47 m outs c) 3 main_v225 main_v226 main_v227 _ _ _ _ rfl (nk (by decide +kernel)) (nk (by decide +kernel)) (nk (by decide +kernel))
theorem rd_main_c_106 : GenP.V61 m outs c (Proc.devRef .tc main_c_106) = (constantI S_ 32 589824#32) :=
  end0 (W47 (F := F)) (GenP.V46 m outs c) (GenP.V61 m outs c) L47 (T47 m outs c) 4 main_c_106 _ _ rfl (nk (by decide +kernel))
theorem rd_main_v228 : GenP.V61 m outs c (Proc.devRef .tc main_v228) = (broadcastInDim S200000 ![] bcast_S_S200000 : (⟨S_, .i32⟩ : BufTy).Contents (Elt F) → (⟨S200000, .i32⟩ : BufTy).Contents (Elt F)) (GenP.V61 m outs c (Proc.devRef .tc main_c_106)) :=
  end1 (W47 (F := F)) (GenP.V46 m outs c) (GenP.V61 m outs c) L47 (T47 m outs c) 5 main_c_106 main_v228 _ _ _ rfl (nk (by decide +kernel)) (nk (by decide +kernel))
theorem rd_main_v229 : GenP.V61 m outs c (Proc.devRef .tc main_v229) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v225)) (GenP.V61 m outs c (Proc.devRef .tc main_v228)) :=
  end2 (W47 (F := F)) (GenP.V46 m outs c) (GenP.V61 m outs c) L47 (T47 m outs c) 6 main_v225 main_v228 main_v229 _ _ _ _ rfl (nk (by decide +kernel)) (nk (by decide +kernel)) (nk (by decide +kernel))

end Cert.KernelIdeal.Glue
-- ==== Proof.GlueRead6.lean ====
/-
  The idealized kernel program's host operations read back at the contents the second kernel region is entered with:
  one equation per operation, its result and its operands all read at V61 (part 6 of the table: hostOps1_44 operation 7 to
  hostOps1_52 operation 6). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v230 : GenP.V61 m outs c (Proc.devRef .tc main_v230) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v227)) (GenP.V61 m outs c (Proc.devRef .tc main_v229)) (GenP.V61 m outs c (Proc.devRef .tc main_v225)) :=
  end3 (W47 (F := F)) (GenP.V46 m outs c) (GenP.V61 m outs c) L47 (T47 m outs c) 7 main_v227 main_v229 main_v225 main_v230 _ _ _ _ _ rfl (nk (by decide +kernel)) (nk (by decide +kernel)) (nk (by decide +kernel)) (nk (by decide +kernel))
theorem rd_main_v231 : GenP.V61 m outs c (Proc.devRef .tc main_v231) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v230)) :=
  end1 (W47 (F := F)) (GenP.V46 m outs c) (GenP.V61 m outs c) L47 (T47 m outs c) 8 main_v230 main_v231 _ _ _ rfl (nk (by decide +kernel)) (nk (by decide +kernel))
theorem rd_main_v232 : GenP.V61 m outs c (Proc.devRef .tc main_v232) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v231)) :=
  end2 (W47 (F := F)) (GenP.V46 m outs c) (GenP.V61 m outs c) L47 (T47 m outs c) 9 main_v15 main_v231 main_v232 _ _ _ _ rfl (nk (by decide +kernel)) (nk (by decide +kernel)) (nk (by decide +kernel))
theorem rd_main_c_107 : GenP.V61 m outs c (Proc.devRef .tc main_c_107) = (constantI S_ 32 200000#32) :=
  end0 (W47 (F := F)) (GenP.V46 m outs c) (GenP.V61 m outs c) L47 (T47 m outs c) 10 main_c_107 _ _ rfl (nk (by decide +kernel))
theorem rd_main_v233 : GenP.V61 m outs c (Proc.devRef .tc main_v233) = (broadcastInDim S200000 ![] bcast_S_S200000 : (⟨S_, .i32⟩ : BufTy).Contents (Elt F) → (⟨S200000, .i32⟩ : BufTy).Contents (Elt F)) (GenP.V61 m outs c (Proc.devRef .tc main_c_107)) :=
  end1 (W47 (F := F)) (GenP.V46 m outs c) (GenP.V61 m outs c) L47 (T47 m outs c) 11 main_c_107 main_v233 _ _ _ rfl (nk (by decide +kernel)) (nk (by decide +kernel))
theorem rd_main_v234 : GenP.V61 m outs c (Proc.devRef .tc main_v234) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v232)) (GenP.V61 m outs c (Proc.devRef .tc main_v233)) :=
  end2 (W47 (F := F)) (GenP.V46 m outs c) (GenP.V61 m outs c) L47 (T47 m outs c) 12 main_v232 main_v233 main_v234 _ _ _ _ rfl (nk (by decide +kernel)) (nk (by decide +kernel)) (nk (by decide +kernel))
theorem rd_main_v235 : GenP.V61 m outs c (Proc.devRef .tc main_v235) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v220)) (GenP.V61 m outs c (Proc.devRef .tc main_v234)) :=
  end2 (W47 (F := F)) (GenP.V46 m outs c) (GenP.V61 m outs c) L47 (T47 m outs c) 13 main_v220 main_v234 main_v235 _ _ _ _ rfl (nk (by decide +kernel)) (nk (by decide +kernel)) (nk (by decide +kernel))
theorem rd_main_c_108 : GenP.V61 m outs c (Proc.devRef .tc main_c_108) = (constantI S_ 32 200000#32) :=
  end0 (W47 (F := F)) (GenP.V46 m outs c) (GenP.V61 m outs c) L47 (T47 m outs c) 14 main_c_108 _ _ rfl (nk (by decide +kernel))
theorem rd_main_call22_v0 : GenP.V61 m outs c (Proc.devRef .tc main_call22_v0) = (id : (⟨S_, .i32⟩ : BufTy).Contents (Elt F) → (⟨S_, .i32⟩ : BufTy).Contents (Elt F)) (GenP.V61 m outs c (Proc.devRef .tc main_c_108)) :=
  end1 (W48 (F := F)) (GenP.V47 m outs c) (GenP.V61 m outs c) L48 (T48 m outs c) 0 main_c_108 main_call22_v0 _ _ _ rfl (nk (by decide +kernel)) (nk (by decide +kernel))
theorem rd_main_call22_v1 : GenP.V61 m outs c (Proc.devRef .tc main_call22_v1) = ((broadcastInDim S200000 ![] bcast_S_S200000) : (⟨S_, .i32⟩ : BufTy).Contents (Elt F) → (⟨S200000, .i32⟩ : BufTy).Contents (Elt F)) (GenP.V61 m outs c (Proc.devRef .tc main_call22_v0)) :=
  end1 (W48 (F := F)) (GenP.V47 m outs c) (GenP.V61 m outs c) L48 (T48 m outs c) 1 main_call22_v0 main_call22_v1 _ _ _ rfl (nk (by decide +kernel)) (nk (by decide +kernel))
theorem rd_main_v236 : GenP.V61 m outs c (Proc.devRef .tc main_v236) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v235)) (GenP.V61 m outs c (Proc.devRef .tc main_v232)) (GenP.V61 m outs c (Proc.devRef .tc main_call22_v1)) :=
  end3 (W48 (F := F)) (GenP.V47 m outs c) (GenP.V61 m outs c) L48 (T48 m outs c) 2 main_v235 main_v232 main_call22_v1 main_v236 _ _ _ _ _ rfl (nk (by decide +kernel)) (nk (by decide +kernel)) (nk (by decide +kernel)) (nk (by decide +kernel))
theorem rd_main_c_109 : GenP.V61 m outs c (Proc.devRef .tc main_c_109) = (constantI S_ 32 1#32) :=
  end0 (W49 (F := F)) (GenP.V48 m outs c) (GenP.V61 m outs c) L49 (T49 m outs c) 0 main_c_109 _ _ rfl (nk (by decide +kernel))
theorem rd_main_v237 : GenP.V61 m outs c (Proc.devRef .tc main_v237) = (broadcastInDim S200000 ![] bcast_S_S200000 : (⟨S_, .i32⟩ : BufTy).Contents (Elt F) → (⟨S200000, .i32⟩ : BufTy).Contents (Elt F)) (GenP.V61 m outs c (Proc.devRef .tc main_c_109)) :=
  end1 (W49 (F := F)) (GenP.V48 m outs c) (GenP.V61 m outs c) L49 (T49 m outs c) 1 main_c_109 main_v237 _ _ _ rfl (nk (by decide +kernel)) (nk (by decide +kernel))
theorem rd_main_v238 : GenP.V61 m outs c (Proc.devRef .tc main_v238) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v237)) :=
  end2 (W49 (F := F)) (GenP.V48 m outs c) (GenP.V61 m outs c) L49 (T49 m outs c) 2 main_v16 main_v237 main_v238 _ _ _ _ rfl (nk (by decide +kernel)) (nk (by decide +kernel)) (nk (by decide +kernel))
theorem rd_main_c_110 : GenP.V61 m outs c (Proc.devRef .tc main_c_110) = (constantI S_ 32 0#32) :=
  end0 (W49 (F := F)) (GenP.V48 m outs c) (GenP.V61 m outs c) L49 (T49 m outs c) 3 main_c_110 _ _ rfl (nk (by decide +kernel))
theorem rd_main_v239 : GenP.V61 m outs c (Proc.devRef .tc main_v239) = (broadcastInDim S200000 ![] bcast_S_S200000 : (⟨S_, .i32⟩ : BufTy).Contents (Elt F) → (⟨S200000, .i32⟩ : BufTy).Contents (Elt F)) (GenP.V61 m outs c (Proc.devRef .tc main_c_110)) :=
  end1 (W49 (F := F)) (GenP.V48 m outs c) (GenP.V61 m outs c) L49 (T49 m outs c) 4 main_c_110 main_v239 _ _ _ rfl (nk (by decide +kernel)) (nk (by decide +kernel))
theorem rd_main_v240 : GenP.V61 m outs c (Proc.devRef .tc main_v240) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v239)) :=
  end2 (W49 (F := F)) (GenP.V48 m outs c) (GenP.V61 m outs c) L49 (T49 m outs c) 5 main_v17 main_v239 main_v240 _ _ _ _ rfl (nk (by decide +kernel)) (nk (by decide +kernel)) (nk (by decide +kernel))
theorem rd_main_c_111 : GenP.V61 m outs c (Proc.devRef .tc main_c_111) = (constantI S_ 32 0#32) :=
  end0 (W49 (F := F)) (GenP.V48 m outs c) (GenP.V61 m outs c) L49 (T49 m outs c) 6 main_c_111 _ _ rfl (nk (by decide +kernel))
theorem rd_main_v241 : GenP.V61 m outs c (Proc.devRef .tc main_v241) = (broadcastInDim S200000 ![] bcast_S_S200000 : (⟨S_, .i32⟩ : BufTy).Contents (Elt F) → (⟨S200000, .i32⟩ : BufTy).Contents (Elt F)) (GenP.V61 m outs c (Proc.devRef .tc main_c_111)) :=
  end1 (W49 (F := F)) (GenP.V48 m outs c) (GenP.V61 m outs c) L49 (T49 m outs c) 7 main_c_111 main_v241 _ _ _ rfl (nk (by decide +kernel)) (nk (by decide +kernel))
theorem rd_main_v242 : GenP.V61 m outs c (Proc.devRef .tc main_v242) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v238)) (GenP.V61 m outs c (Proc.devRef .tc main_v241)) :=
  end2 (W49 (F := F)) (GenP.V48 m outs c) (GenP.V61 m outs c) L49 (T49 m outs c) 8 main_v238 main_v241 main_v242 _ _ _ _ rfl (nk (by decide +kernel)) (nk (by decide +kernel)) (nk (by decide +kernel))
theorem rd_main_c_112 : GenP.V61 m outs c (Proc.devRef .tc main_c_112) = (constantI S_ 32 768#32) :=
  end0 (W49 (F := F)) (GenP.V48 m outs c) (GenP.V61 m outs c) L49 (T49 m outs c) 9 main_c_112 _ _ rfl (nk (by decide +kernel))
theorem rd_main_v243 : GenP.V61 m outs c (Proc.devRef .tc main_v243) = (broadcastInDim S200000 ![] bcast_S_S200000 : (⟨S_, .i32⟩ : BufTy).Contents (Elt F) → (⟨S200000, .i32⟩ : BufTy).Contents (Elt F)) (GenP.V61 m outs c (Proc.devRef .tc main_c_112)) :=
  end1 (W49 (F := F)) (GenP.V48 m outs c) (GenP.V61 m outs c) L49 (T49 m outs c) 10 main_c_112 main_v243 _ _ _ rfl (nk (by decide +kernel)) (nk (by decide +kernel))
theorem rd_main_v244 : GenP.V61 m outs c (Proc.devRef .tc main_v244) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v238)) (GenP.V61 m outs c (Proc.devRef .tc main_v243)) :=
  end2 (W49 (F := F)) (GenP.V48 m outs c) (GenP.V61 m outs c) L49 (T49 m outs c) 11 main_v238 main_v243 main_v244 _ _ _ _ rfl (nk (by decide +kernel)) (nk (by decide +kernel)) (nk (by decide +kernel))
theorem rd_main_v245 : GenP.V61 m outs c (Proc.devRef .tc main_v245) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v242)) (GenP.V61 m outs c (Proc.devRef .tc main_v244)) :=
  end2 (W49 (F := F)) (GenP.V48 m outs c) (GenP.V61 m outs c) L49 (T49 m outs c) 12 main_v242 main_v244 main_v245 _ _ _ _ rfl (nk (by decide +kernel)) (nk (by decide +kernel)) (nk (by decide +kernel))
theorem rd_main_c_113 : GenP.V61 m outs c (Proc.devRef .tc main_c_113) = (constantI S_ 32 0#32) :=
  end0 (W49 (F := F)) (GenP.V48 m outs c) (GenP.V61 m outs c) L49 (T49 m outs c) 13 main_c_113 _ _ rfl (nk (by decide +kernel))
theorem rd_main_v246 : GenP.V61 m outs c (Proc.devRef .tc main_v246) = (broadcastInDim S200000 ![] bcast_S_S200000 : (⟨S_, .i32⟩ : BufTy).Contents (Elt F) → (⟨S200000, .i32⟩ : BufTy).Contents (Elt F)) (GenP.V61 m outs c (Proc.devRef .tc main_c_113)) :=
  end1 (W49 (F := F)) (GenP.V48 m outs c) (GenP.V61 m outs c) L49 (T49 m outs c) 14 main_c_113 main_v246 _ _ _ rfl (nk (by decide +kernel)) (nk (by decide +kernel))
theorem rd_main_v247 : GenP.V61 m outs c (Proc.devRef .tc main_v247) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v240)) (GenP.V61 m outs c (Proc.devRef .tc main_v246)) :=
  end2 (W49 (F := F)) (GenP.V48 m outs c) (GenP.V61 m outs c) L49 (T49 m outs c) 15 main_v240 main_v246 main_v247 _ _ _ _ rfl (nk (by decide +kernel)) (nk (by decide +kernel)) (nk (by decide +kernel))
theorem rd_main_v248 : GenP.V61 m outs c (Proc.devRef .tc main_v248) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v245)) (GenP.V61 m outs c (Proc.devRef .tc main_v247)) :=
  end2 (W49 (F := F)) (GenP.V48 m outs c) (GenP.V61 m outs c) L49 (T49 m outs c) 16 main_v245 main_v247 main_v248 _ _ _ _ rfl (nk (by decide +kernel)) (nk (by decide +kernel)) (nk (by decide +kernel))
theorem rd_main_c_114 : GenP.V61 m outs c (Proc.devRef .tc main_c_114) = (constantI S_ 32 768#32) :=
  end0 (W49 (F := F)) (GenP.V48 m outs c) (GenP.V61 m outs c) L49 (T49 m outs c) 17 main_c_114 _ _ rfl (nk (by decide +kernel))
theorem rd_main_v249 : GenP.V61 m outs c (Proc.devRef .tc main_v249) = (broadcastInDim S200000 ![] bcast_S_S200000 : (⟨S_, .i32⟩ : BufTy).Contents (Elt F) → (⟨S200000, .i32⟩ : BufTy).Contents (Elt F)) (GenP.V61 m outs c (Proc.devRef .tc main_c_114)) :=
  end1 (W49 (F := F)) (GenP.V48 m outs c) (GenP.V61 m outs c) L49 (T49 m outs c) 18 main_c_114 main_v249 _ _ _ rfl (nk (by decide +kernel)) (nk (by decide +kernel))
theorem rd_main_v250 : GenP.V61 m outs c (Proc.devRef .tc main_v250) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v240)) (GenP.V61 m outs c (Proc.devRef .tc main_v249)) :=
  end2 (W49 (F := F)) (GenP.V48 m outs c) (GenP.V61 m outs c) L49 (T49 m outs c) 19 main_v240 main_v249 main_v250 _ _ _ _ rfl (nk (by decide +kernel)) (nk (by decide +kernel)) (nk (by decide +kernel))
theorem rd_main_v251 : GenP.V61 m outs c (Proc.devRef .tc main_v251) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v248)) (GenP.V61 m outs c (Proc.devRef .tc main_v250)) :=
  end2 (W49 (F := F)) (GenP.V48 m outs c) (GenP.V61 m outs c) L49 (T49 m outs c) 20 main_v248 main_v250 main_v251 _ _ _ _ rfl (nk (by decide +kernel)) (nk (by decide +kernel)) (nk (by decide +kernel))
theorem rd_main_c_115 : GenP.V61 m outs c (Proc.devRef .tc main_c_115) = (constantI S_ 32 0#32) :=
  end0 (W49 (F := F)) (GenP.V48 m outs c) (GenP.V61 m outs c) L49 (T49 m outs c) 21 main_c_115 _ _ rfl (nk (by decide +kernel))
theorem rd_main_c_116 : GenP.V61 m outs c (Proc.devRef .tc main_c_116) = (constantI S_ 32 767#32) :=
  end0 (W49 (F := F)) (GenP.V48 m outs c) (GenP.V61 m outs c) L49 (T49 m outs c) 22 main_c_116 _ _ rfl (nk (by decide +kernel))
theorem rd_main_call23_v0 : GenP.V61 m outs c (Proc.devRef .tc main_call23_v0) = (id : (⟨S_, .i32⟩ : BufTy).Contents (Elt F) → (⟨S_, .i32⟩ : BufTy).Contents (Elt F)) (GenP.V61 m outs c (Proc.devRef .tc main_c_115)) :=
  end1 (W50 (F := F)) (GenP.V49 m outs c) (GenP.V61 m outs c) L50 (T50 m outs c) 0 main_c_115 main_call23_v0 _ _ _ rfl (nk (by decide +kernel)) (nk (by decide +kernel))
theorem rd_main_call23_v1 : GenP.V61 m outs c (Proc.devRef .tc main_call23_v1) = ((broadcastInDim S200000 ![] bcast_S_S200000) : (⟨S_, .i32⟩ : BufTy).Contents (Elt F) → (⟨S200000, .i32⟩ : BufTy).Contents (Elt F)) (GenP.V61 m outs c (Proc.devRef .tc main_call23_v0)) :=
  end1 (W50 (F := F)) (GenP.V49 m outs c) (GenP.V61 m outs c) L50 (T50 m outs c) 1 main_call23_v0 main_call23_v1 _ _ _ rfl (nk (by decide +kernel)) (nk (by decide +kernel))
theorem rd_main_call23_v2 : GenP.V61 m outs c (Proc.devRef .tc main_call23_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call23_v1)) (GenP.V61 m outs c (Proc.devRef .tc main_v238)) :=
  end2 (W50 (F := F)) (GenP.V49 m outs c) (GenP.V61 m outs c) L50 (T50 m outs c) 2 main_call23_v1 main_v238 main_call23_v2 _ _ _ _ rfl (nk (by decide +kernel)) (nk (by decide +kernel)) (nk (by decide +kernel))
theorem rd_main_call23_v3 : GenP.V61 m outs c (Proc.devRef .tc main_call23_v3) = (id : (⟨S_, .i32⟩ : BufTy).Contents (Elt F) → (⟨S_, .i32⟩ : BufTy).Contents (Elt F)) (GenP.V61 m outs c (Proc.devRef .tc main_c_116)) :=
  end1 (W50 (F := F)) (GenP.V49 m outs c) (GenP.V61 m outs c) L50 (T50 m outs c) 3 main_c_116 main_call23_v3 _ _ _ rfl (nk (by decide +kernel)) (nk (by decide +kernel))
theorem rd_main_call23_v4 : GenP.V61 m outs c (Proc.devRef .tc main_call23_v4) = ((broadcastInDim S200000 ![] bcast_S_S200000) : (⟨S_, .i32⟩ : BufTy).Contents (Elt F) → (⟨S200000, .i32⟩ : BufTy).Contents (Elt F)) (GenP.V61 m outs c (Proc.devRef .tc main_call23_v3)) :=
  end1 (W50 (F := F)) (GenP.V49 m outs c) (GenP.V61 m outs c) L50 (T50 m outs c) 4 main_call23_v3 main_call23_v4 _ _ _ rfl (nk (by decide +kernel)) (nk (by decide +kernel))
theorem rd_main_v252 : GenP.V61 m outs c (Proc.devRef .tc main_v252) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call23_v4)) (GenP.V61 m outs c (Proc.devRef .tc main_call23_v2)) :=
  end2 (W50 (F := F)) (GenP.V49 m outs c) (GenP.V61 m outs c) L50 (T50 m outs c) 5 main_call23_v4 main_call23_v2 main_v252 _ _ _ _ rfl (nk (by decide +kernel)) (nk (by decide +kernel)) (nk (by decide +kernel))
theorem rd_main_c_117 : GenP.V61 m outs c (Proc.devRef .tc main_c_117) = (constantI S_ 32 768#32) :=
  end0 (W51 (F := F)) (GenP.V50 m outs c) (GenP.V61 m outs c) L51 (T51 m outs c) 0 main_c_117 _ _ rfl (nk (by decide +kernel))
theorem rd_main_v253 : GenP.V61 m outs c (Proc.devRef .tc main_v253) = (broadcastInDim S200000 ![] bcast_S_S200000 : (⟨S_, .i32⟩ : BufTy).Contents (Elt F) → (⟨S200000, .i32⟩ : BufTy).Contents (Elt F)) (GenP.V61 m outs c (Proc.devRef .tc main_c_117)) :=
  end1 (W51 (F := F)) (GenP.V50 m outs c) (GenP.V61 m outs c) L51 (T51 m outs c) 1 main_c_117 main_v253 _ _ _ rfl (nk (by decide +kernel)) (nk (by decide +kernel))
theorem rd_main_v254 : GenP.V61 m outs c (Proc.devRef .tc main_v254) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v252)) (GenP.V61 m outs c (Proc.devRef .tc main_v253)) :=
  end2 (W51 (F := F)) (GenP.V50 m outs c) (GenP.V61 m outs c) L51 (T51 m outs c) 2 main_v252 main_v253 main_v254 _ _ _ _ rfl (nk (by decide +kernel)) (nk (by decide +kernel)) (nk (by decide +kernel))
theorem rd_main_c_118 : GenP.V61 m outs c (Proc.devRef .tc main_c_118) = (constantI S_ 32 0#32) :=
  end0 (W51 (F := F)) (GenP.V50 m outs c) (GenP.V61 m outs c) L51 (T51 m outs c) 3 main_c_118 _ _ rfl (nk (by decide +kernel))
theorem rd_main_c_119 : GenP.V61 m outs c (Proc.devRef .tc main_c_119) = (constantI S_ 32 767#32) :=
  end0 (W51 (F := F)) (GenP.V50 m outs c) (GenP.V61 m outs c) L51 (T51 m outs c) 4 main_c_119 _ _ rfl (nk (by decide +kernel))
theorem rd_main_call24_v0 : GenP.V61 m outs c (Proc.devRef .tc main_call24_v0) = (id : (⟨S_, .i32⟩ : BufTy).Contents (Elt F) → (⟨S_, .i32⟩ : BufTy).Contents (Elt F)) (GenP.V61 m outs c (Proc.devRef .tc main_c_118)) :=
  end1 (W52 (F := F)) (GenP.V51 m outs c) (GenP.V61 m outs c) L52 (T52 m outs c) 0 main_c_118 main_call24_v0 _ _ _ rfl (nk (by decide +kernel)) (nk (by decide +kernel))
theorem rd_main_call24_v1 : GenP.V61 m outs c (Proc.devRef .tc main_call24_v1) = ((broadcastInDim S200000 ![] bcast_S_S200000) : (⟨S_, .i32⟩ : BufTy).Contents (Elt F) → (⟨S200000, .i32⟩ : BufTy).Contents (Elt F)) (GenP.V61 m outs c (Proc.devRef .tc main_call24_v0)) :=
  end1 (W52 (F := F)) (GenP.V51 m outs c) (GenP.V61 m outs c) L52 (T52 m outs c) 1 main_call24_v0 main_call24_v1 _ _ _ rfl (nk (by decide +kernel)) (nk (by decide +kernel))
theorem rd_main_call24_v2 : GenP.V61 m outs c (Proc.devRef .tc main_call24_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call24_v1)) (GenP.V61 m outs c (Proc.devRef .tc main_v240)) :=
  end2 (W52 (F := F)) (GenP.V51 m outs c) (GenP.V61 m outs c) L52 (T52 m outs c) 2 main_call24_v1 main_v240 main_call24_v2 _ _ _ _ rfl (nk (by decide +kernel)) (nk (by decide +kernel)) (nk (by decide +kernel))
theorem rd_main_call24_v3 : GenP.V61 m outs c (Proc.devRef .tc main_call24_v3) = (id : (⟨S_, .i32⟩ : BufTy).Contents (Elt F) → (⟨S_, .i32⟩ : BufTy).Contents (Elt F)) (GenP.V61 m outs c (Proc.devRef .tc main_c_119)) :=
  end1 (W52 (F := F)) (GenP.V51 m outs c) (GenP.V61 m outs c) L52 (T52 m outs c) 3 main_c_119 main_call24_v3 _ _ _ rfl (nk (by decide +kernel)) (nk (by decide +kernel))
theorem rd_main_call24_v4 : GenP.V61 m outs c (Proc.devRef .tc main_call24_v4) = ((broadcastInDim S200000 ![] bcast_S_S200000) : (⟨S_, .i32⟩ : BufTy).Contents (Elt F) → (⟨S200000, .i32⟩ : BufTy).Contents (Elt F)) (GenP.V61 m outs c (Proc.devRef .tc main_call24_v3)) :=
  end1 (W52 (F := F)) (GenP.V51 m outs c) (GenP.V61 m outs c) L52 (T52 m outs c) 4 main_call24_v3 main_call24_v4 _ _ _ rfl (nk (by decide +kernel)) (nk (by decide +kernel))
theorem rd_main_v255 : GenP.V61 m outs c (Proc.devRef .tc main_v255) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call24_v4)) (GenP.V61 m outs c (Proc.devRef .tc main_call24_v2)) :=
  end2 (W52 (F := F)) (GenP.V51 m outs c) (GenP.V61 m outs c) L52 (T52 m outs c) 5 main_call24_v4 main_call24_v2 main_v255 _ _ _ _ rfl (nk (by decide +kernel)) (nk (by decide +kernel)) (nk (by decide +kernel))
theorem rd_main_v256 : GenP.V61 m outs c (Proc.devRef .tc main_v256) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v254)) (GenP.V61 m outs c (Proc.devRef .tc main_v255)) :=
  end2 (W53 (F := F)) (GenP.V52 m outs c) (GenP.V61 m outs c) L53 (T53 m outs c) 0 main_v254 main_v255 main_v256 _ _ _ _ rfl (nk (by decide +kernel)) (nk (by decide +kernel)) (nk (by decide +kernel))
theorem rd_main_c_120 : GenP.V61 m outs c (Proc.devRef .tc main_c_120) = (constantI S_ 32 0#32) :=
  end0 (W53 (F := F)) (GenP.V52 m outs c) (GenP.V61 m outs c) L53 (T53 m outs c) 1 main_c_120 _ _ rfl (nk (by decide +kernel))
theorem rd_main_v257 : GenP.V61 m outs c (Proc.devRef .tc main_v257) = (broadcastInDim S200000 ![] bcast_S_S200000 : (⟨S_, .i32⟩ : BufTy).Contents (Elt F) → (⟨S200000, .i32⟩ : BufTy).Contents (Elt F)) (GenP.V61 m outs c (Proc.devRef .tc main_c_120)) :=
  end1 (W53 (F := F)) (GenP.V52 m outs c) (GenP.V61 m outs c) L53 (T53 m outs c) 2 main_c_120 main_v257 _ _ _ rfl (nk (by decide +kernel)) (nk (by decide +kernel))
theorem rd_main_v258 : GenP.V61 m outs c (Proc.devRef .tc main_v258) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v256)) (GenP.V61 m outs c (Proc.devRef .tc main_v257)) :=
  end2 (W53 (F := F)) (GenP.V52 m outs c) (GenP.V61 m outs c) L53 (T53 m outs c) 3 main_v256 main_v257 main_v258 _ _ _ _ rfl (nk (by decide +kernel)) (nk (by decide +kernel)) (nk (by decide +kernel))
theorem rd_main_c_121 : GenP.V61 m outs c (Proc.devRef .tc main_c_121) = (constantI S_ 32 589824#32) :=
  end0 (W53 (F := F)) (GenP.V52 m outs c) (GenP.V61 m outs c) L53 (T53 m outs c) 4 main_c_121 _ _ rfl (nk (by decide +kernel))
theorem rd_main_v259 : GenP.V61 m outs c (Proc.devRef .tc main_v259) = (broadcastInDim S200000 ![] bcast_S_S200000 : (⟨S_, .i32⟩ : BufTy).Contents (Elt F) → (⟨S200000, .i32⟩ : BufTy).Contents (Elt F)) (GenP.V61 m outs c (Proc.devRef .tc main_c_121)) :=
  end1 (W53 (F := F)) (GenP.V52 m outs c) (GenP.V61 m outs c) L53 (T53 m outs c) 5 main_c_121 main_v259 _ _ _ rfl (nk (by decide +kernel)) (nk (by decide +kernel))
theorem rd_main_v260 : GenP.V61 m outs c (Proc.devRef .tc main_v260) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v256)) (GenP.V61 m outs c (Proc.devRef .tc main_v259)) :=
  end2 (W53 (F := F)) (GenP.V52 m outs c) (GenP.V61 m outs c) L53 (T53 m outs c) 6 main_v256 main_v259 main_v260 _ _ _ _ rfl (nk (by decide +kernel)) (nk (by decide +kernel)) (nk (by decide +kernel))
theorem rd_main_v261 : GenP.V61 m outs c (Proc.devRef .tc main_v261) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v258)) (GenP.V61 m outs c (Proc.devRef .tc main_v260)) (GenP.V61 m outs c (Proc.devRef .tc main_v256)) :=
  end3 (W53 (F := F)) (GenP.V52 m outs c) (GenP.V61 m outs c) L53 (T53 m outs c) 7 main_v258 main_v260 main_v256 main_v261 _ _ _ _ _ rfl (nk (by decide +kernel)) (nk (by decide +kernel)) (nk (by decide +kernel)) (nk (by decide +kernel))
theorem rd_main_v262 : GenP.V61 m outs c (Proc.devRef .tc main_v262) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v261)) :=
  end1 (W53 (F := F)) (GenP.V52 m outs c) (GenP.V61 m outs c) L53 (T53 m outs c) 8 main_v261 main_v262 _ _ _ rfl (nk (by decide +kernel)) (nk (by decide +kernel))
theorem rd_main_v263 : GenP.V61 m outs c (Proc.devRef .tc main_v263) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v262)) :=
  end2 (W53 (F := F)) (GenP.V52 m outs c) (GenP.V61 m outs c) L53 (T53 m outs c) 9 main_v15 main_v262 main_v263 _ _ _ _ rfl (nk (by decide +kernel)) (nk (by decide +kernel)) (nk (by decide +kernel))
theorem rd_main_c_122 : GenP.V61 m outs c (Proc.devRef .tc main_c_122) = (constantI S_ 32 200000#32) :=
  end0 (W53 (F := F)) (GenP.V52 m outs c) (GenP.V61 m outs c) L53 (T53 m outs c) 10 main_c_122 _ _ rfl (nk (by decide +kernel))
theorem rd_main_v264 : GenP.V61 m outs c (Proc.devRef .tc main_v264) = (broadcastInDim S200000 ![] bcast_S_S200000 : (⟨S_, .i32⟩ : BufTy).Contents (Elt F) → (⟨S200000, .i32⟩ : BufTy).Contents (Elt F)) (GenP.V61 m outs c (Proc.devRef .tc main_c_122)) :=
  end1 (W53 (F := F)) (GenP.V52 m outs c) (GenP.V61 m outs c) L53 (T53 m outs c) 11 main_c_122 main_v264 _ _ _ rfl (nk (by decide +kernel)) (nk (by decide +kernel))
theorem rd_main_v265 : GenP.V61 m outs c (Proc.devRef .tc main_v265) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v263)) (GenP.V61 m outs c (Proc.devRef .tc main_v264)) :=
  end2 (W53 (F := F)) (GenP.V52 m outs c) (GenP.V61 m outs c) L53 (T53 m outs c) 12 main_v263 main_v264 main_v265 _ _ _ _ rfl (nk (by decide +kernel)) (nk (by decide +kernel)) (nk (by decide +kernel))
theorem rd_main_v266 : GenP.V61 m outs c (Proc.devRef .tc main_v266) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v251)) (GenP.V61 m outs c (Proc.devRef .tc main_v265)) :=
  end2 (W53 (F := F)) (GenP.V52 m outs c) (GenP.V61 m outs c) L53 (T53 m outs c) 13 main_v251 main_v265 main_v266 _ _ _ _ rfl (nk (by decide +kernel)) (nk (by decide +kernel)) (nk (by decide +kernel))
theorem rd_main_c_123 : GenP.V61 m outs c (Proc.devRef .tc main_c_123) = (constantI S_ 32 200000#32) :=
  end0 (W53 (F := F)) (GenP.V52 m outs c) (GenP.V61 m outs c) L53 (T53 m outs c) 14 main_c_123 _ _ rfl (nk (by decide +kernel))
theorem rd_main_call25_v0 : GenP.V61 m outs c (Proc.devRef .tc main_call25_v0) = (id : (⟨S_, .i32⟩ : BufTy).Contents (Elt F) → (⟨S_, .i32⟩ : BufTy).Contents (Elt F)) (GenP.V61 m outs c (Proc.devRef .tc main_c_123)) :=
  end1 (W54 (F := F)) (GenP.V53 m outs c) (GenP.V61 m outs c) L54 (T54 m outs c) 0 main_c_123 main_call25_v0 _ _ _ rfl (nk (by decide +kernel)) (nk (by decide +kernel))
theorem rd_main_call25_v1 : GenP.V61 m outs c (Proc.devRef .tc main_call25_v1) = ((broadcastInDim S200000 ![] bcast_S_S200000) : (⟨S_, .i32⟩ : BufTy).Contents (Elt F) → (⟨S200000, .i32⟩ : BufTy).Contents (Elt F)) (GenP.V61 m outs c (Proc.devRef .tc main_call25_v0)) :=
  end1 (W54 (F := F)) (GenP.V53 m outs c) (GenP.V61 m outs c) L54 (T54 m outs c) 1 main_call25_v0 main_call25_v1 _ _ _ rfl (nk (by decide +kernel)) (nk (by decide +kernel))
theorem rd_main_v267 : GenP.V61 m outs c (Proc.devRef .tc main_v267) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v266)) (GenP.V61 m outs c (Proc.devRef .tc main_v263)) (GenP.V61 m outs c (Proc.devRef .tc main_call25_v1)) :=
  end3 (W54 (F := F)) (GenP.V53 m outs c) (GenP.V61 m outs c) L54 (T54 m outs c) 2 main_v266 main_v263 main_call25_v1 main_v267 _ _ _ _ _ rfl (nk (by decide +kernel)) (nk (by decide +kernel)) (nk (by decide +kernel)) (nk (by decide +kernel))
theorem rd_main_c_124 : GenP.V61 m outs c (Proc.devRef .tc main_c_124) = (constantI S_ 32 1#32) :=
  end0 (W55 (F := F)) (GenP.V54 m outs c) (GenP.V61 m outs c) L55 (T55 m outs c) 0 main_c_124 _ _ rfl (nk (by decide +kernel))
theorem rd_main_v268 : GenP.V61 m outs c (Proc.devRef .tc main_v268) = (broadcastInDim S200000 ![] bcast_S_S200000 : (⟨S_, .i32⟩ : BufTy).Contents (Elt F) → (⟨S200000, .i32⟩ : BufTy).Contents (Elt F)) (GenP.V61 m outs c (Proc.devRef .tc main_c_124)) :=
  end1 (W55 (F := F)) (GenP.V54 m outs c) (GenP.V61 m outs c) L55 (T55 m outs c) 1 main_c_124 main_v268 _ _ _ rfl (nk (by decide +kernel)) (nk (by decide +kernel))
theorem rd_main_v269 : GenP.V61 m outs c (Proc.devRef .tc main_v269) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v16)) (GenP.V61 m outs c (Proc.devRef .tc main_v268)) :=
  end2 (W55 (F := F)) (GenP.V54 m outs c) (GenP.V61 m outs c) L55 (T55 m outs c) 2 main_v16 main_v268 main_v269 _ _ _ _ rfl (nk (by decide +kernel)) (nk (by decide +kernel)) (nk (by decide +kernel))
theorem rd_main_c_125 : GenP.V61 m outs c (Proc.devRef .tc main_c_125) = (constantI S_ 32 1#32) :=
  end0 (W55 (F := F)) (GenP.V54 m outs c) (GenP.V61 m outs c) L55 (T55 m outs c) 3 main_c_125 _ _ rfl (nk (by decide +kernel))
theorem rd_main_v270 : GenP.V61 m outs c (Proc.devRef .tc main_v270) = (broadcastInDim S200000 ![] bcast_S_S200000 : (⟨S_, .i32⟩ : BufTy).Contents (Elt F) → (⟨S200000, .i32⟩ : BufTy).Contents (Elt F)) (GenP.V61 m outs c (Proc.devRef .tc main_c_125)) :=
  end1 (W55 (F := F)) (GenP.V54 m outs c) (GenP.V61 m outs c) L55 (T55 m outs c) 4 main_c_125 main_v270 _ _ _ rfl (nk (by decide +kernel)) (nk (by decide +kernel))
theorem rd_main_v271 : GenP.V61 m outs c (Proc.devRef .tc main_v271) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v17)) (GenP.V61 m outs c (Proc.devRef .tc main_v270)) :=
  end2 (W55 (F := F)) (GenP.V54 m outs c) (GenP.V61 m outs c) L55 (T55 m outs c) 5 main_v17 main_v270 main_v271 _ _ _ _ rfl (nk (by decide +kernel)) (nk (by decide +kernel)) (nk (by decide +kernel))
theorem rd_main_c_126 : GenP.V61 m outs c (Proc.devRef .tc main_c_126) = (constantI S_ 32 0#32) :=
  end0 (W55 (F := F)) (GenP.V54 m outs c) (GenP.V61 m outs c) L55 (T55 m outs c) 6 main_c_126 _ _ rfl (nk (by decide +kernel))

end Cert.KernelIdeal.Glue
-- ==== Proof.GlueRead7.lean ====
/-
  The idealized kernel program's host operations read back at the contents the second kernel region is entered with:
  one equation per operation, its result and its operands all read at V61 (part 7 of the table: hostOps1_52 operation 7 to
  hostOps1_58 operation 19). Each is the general end-of-line lemma for the operation's form at the operation's place in its
  stretch; the side conditions say that neither the result nor an operand is written again.
-/
import proofs.«125710_j13511967113615_2_alg».proof.Proof.GlueBase
import proofs.«125710_j13511967113615_2_alg».proof.Proof.LibReadEndN

set_option maxRecDepth 16384

noncomputable section

namespace Cert.KernelIdeal.Glue

open Idealize.ShloMosaic Idealize.ShloMosaic.TcCoe Idealize.ShloMosaic.StableHlo
open Cert.KernelIdeal.Gen Cert.KernelIdeal.GenP Cert.ReadBack Cert.ReadEnd

variable {F : FTy → Type} [FloatOps F]
variable (m : (ℓ : Loc nD τ sig) → Buf (Elt F) ℓ) (outs : GenP.Outs (F := F)) (c : Dev nD)

theorem rd_main_v272 : GenP.V61 m outs c (Proc.devRef .tc main_v272) = (broadcastInDim S200000 ![] bcast_S_S200000 : (⟨S_, .i32⟩ : BufTy).Contents (Elt F) → (⟨S200000, .i32⟩ : BufTy).Contents (Elt F)) (GenP.V61 m outs c (Proc.devRef .tc main_c_126)) :=
  end1 (W55 (F := F)) (GenP.V54 m outs c) (GenP.V61 m outs c) L55 (T55 m outs c) 7 main_c_126 main_v272 _ _ _ rfl (nk (by decide +kernel)) (nk (by decide +kernel))
theorem rd_main_v273 : GenP.V61 m outs c (Proc.devRef .tc main_v273) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v269)) (GenP.V61 m outs c (Proc.devRef .tc main_v272)) :=
  end2 (W55 (F := F)) (GenP.V54 m outs c) (GenP.V61 m outs c) L55 (T55 m outs c) 8 main_v269 main_v272 main_v273 _ _ _ _ rfl (nk (by decide +kernel)) (nk (by decide +kernel)) (nk (by decide +kernel))
theorem rd_main_c_127 : GenP.V61 m outs c (Proc.devRef .tc main_c_127) = (constantI S_ 32 768#32) :=
  end0 (W55 (F := F)) (GenP.V54 m outs c) (GenP.V61 m outs c) L55 (T55 m outs c) 9 main_c_127 _ _ rfl (nk (by decide +kernel))
theorem rd_main_v274 : GenP.V61 m outs c (Proc.devRef .tc main_v274) = (broadcastInDim S200000 ![] bcast_S_S200000 : (⟨S_, .i32⟩ : BufTy).Contents (Elt F) → (⟨S200000, .i32⟩ : BufTy).Contents (Elt F)) (GenP.V61 m outs c (Proc.devRef .tc main_c_127)) :=
  end1 (W55 (F := F)) (GenP.V54 m outs c) (GenP.V61 m outs c) L55 (T55 m outs c) 10 main_c_127 main_v274 _ _ _ rfl (nk (by decide +kernel)) (nk (by decide +kernel))
theorem rd_main_v275 : GenP.V61 m outs c (Proc.devRef .tc main_v275) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v269)) (GenP.V61 m outs c (Proc.devRef .tc main_v274)) :=
  end2 (W55 (F := F)) (GenP.V54 m outs c) (GenP.V61 m outs c) L55 (T55 m outs c) 11 main_v269 main_v274 main_v275 _ _ _ _ rfl (nk (by decide +kernel)) (nk (by decide +kernel)) (nk (by decide +kernel))
theorem rd_main_v276 : GenP.V61 m outs c (Proc.devRef .tc main_v276) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v273)) (GenP.V61 m outs c (Proc.devRef .tc main_v275)) :=
  end2 (W55 (F := F)) (GenP.V54 m outs c) (GenP.V61 m outs c) L55 (T55 m outs c) 12 main_v273 main_v275 main_v276 _ _ _ _ rfl (nk (by decide +kernel)) (nk (by decide +kernel)) (nk (by decide +kernel))
theorem rd_main_c_128 : GenP.V61 m outs c (Proc.devRef .tc main_c_128) = (constantI S_ 32 0#32) :=
  end0 (W55 (F := F)) (GenP.V54 m outs c) (GenP.V61 m outs c) L55 (T55 m outs c) 13 main_c_128 _ _ rfl (nk (by decide +kernel))
theorem rd_main_v277 : GenP.V61 m outs c (Proc.devRef .tc main_v277) = (broadcastInDim S200000 ![] bcast_S_S200000 : (⟨S_, .i32⟩ : BufTy).Contents (Elt F) → (⟨S200000, .i32⟩ : BufTy).Contents (Elt F)) (GenP.V61 m outs c (Proc.devRef .tc main_c_128)) :=
  end1 (W55 (F := F)) (GenP.V54 m outs c) (GenP.V61 m outs c) L55 (T55 m outs c) 14 main_c_128 main_v277 _ _ _ rfl (nk (by decide +kernel)) (nk (by decide +kernel))
theorem rd_main_v278 : GenP.V61 m outs c (Proc.devRef .tc main_v278) = (cmpi .sge : (⟨S200000, .i32⟩ : BufTy).Contents (Elt F) → (⟨S200000, .i32⟩ : BufTy).Contents (Elt F) → (⟨S200000, .i1⟩ : BufTy).Contents (Elt F)) (GenP.V61 m outs c (Proc.devRef .tc main_v271)) (GenP.V61 m outs c (Proc.devRef .tc main_v277)) :=
  end2 (W55 (F := F)) (GenP.V54 m outs c) (GenP.V61 m outs c) L55 (T55 m outs c) 15 main_v271 main_v277 main_v278 _ _ _ _ rfl (nk (by decide +kernel)) (nk (by decide +kernel)) (nk (by decide +kernel))
theorem rd_main_v279 : GenP.V61 m outs c (Proc.devRef .tc main_v279) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v276)) (GenP.V61 m outs c (Proc.devRef .tc main_v278)) :=
  end2 (W55 (F := F)) (GenP.V54 m outs c) (GenP.V61 m outs c) L55 (T55 m outs c) 16 main_v276 main_v278 main_v279 _ _ _ _ rfl (nk (by decide +kernel)) (nk (by decide +kernel)) (nk (by decide +kernel))
theorem rd_main_c_129 : GenP.V61 m outs c (Proc.devRef .tc main_c_129) = (constantI S_ 32 768#32) :=
  end0 (W55 (F := F)) (GenP.V54 m outs c) (GenP.V61 m outs c) L55 (T55 m outs c) 17 main_c_129 _ _ rfl (nk (by decide +kernel))
theorem rd_main_v280 : GenP.V61 m outs c (Proc.devRef .tc main_v280) = (broadcastInDim S200000 ![] bcast_S_S200000 : (⟨S_, .i32⟩ : BufTy).Contents (Elt F) → (⟨S200000, .i32⟩ : BufTy).Contents (Elt F)) (GenP.V61 m outs c (Proc.devRef .tc main_c_129)) :=
  end1 (W55 (F := F)) (GenP.V54 m outs c) (GenP.V61 m outs c) L55 (T55 m outs c) 18 main_c_129 main_v280 _ _ _ rfl (nk (by decide +kernel)) (nk (by decide +kernel))
theorem rd_main_v281 : GenP.V61 m outs c (Proc.devRef .tc main_v281) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v271)) (GenP.V61 m outs c (Proc.devRef .tc main_v280)) :=
  end2 (W55 (F := F)) (GenP.V54 m outs c) (GenP.V61 m outs c) L55 (T55 m outs c) 19 main_v271 main_v280 main_v281 _ _ _ _ rfl (nk (by decide +kernel)) (nk (by decide +kernel)) (nk (by decide +kernel))
theorem rd_main_v282 : GenP.V61 m outs c (Proc.devRef .tc main_v282) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v279)) (GenP.V61 m outs c (Proc.devRef .tc main_v281)) :=
  end2 (W55 (F := F)) (GenP.V54 m outs c) (GenP.V61 m outs c) L55 (T55 m outs c) 20 main_v279 main_v281 main_v282 _ _ _ _ rfl (nk (by decide +kernel)) (nk (by decide +kernel)) (nk (by decide +kernel))
theorem rd_main_c_130 : GenP.V61 m outs c (Proc.devRef .tc main_c_130) = (constantI S_ 32 0#32) :=
  end0 (W55 (F := F)) (GenP.V54 m outs c) (GenP.V61 m outs c) L55 (T55 m outs c) 21 main_c_130 _ _ rfl (nk (by decide +kernel))
theorem rd_main_c_131 : GenP.V61 m outs c (Proc.devRef .tc main_c_131) = (constantI S_ 32 767#32) :=
  end0 (W55 (F := F)) (GenP.V54 m outs c) (GenP.V61 m outs c) L55 (T55 m outs c) 22 main_c_131 _ _ rfl (nk (by decide +kernel))
theorem rd_main_call26_v0 : GenP.V61 m outs c (Proc.devRef .tc main_call26_v0) = (id : (⟨S_, .i32⟩ : BufTy).Contents (Elt F) → (⟨S_, .i32⟩ : BufTy).Contents (Elt F)) (GenP.V61 m outs c (Proc.devRef .tc main_c_130)) :=
  end1 (W56 (F := F)) (GenP.V55 m outs c) (GenP.V61 m outs c) L56 (T56 m outs c) 0 main_c_130 main_call26_v0 _ _ _ rfl (nk (by decide +kernel)) (nk (by decide +kernel))
theorem rd_main_call26_v1 : GenP.V61 m outs c (Proc.devRef .tc main_call26_v1) = ((broadcastInDim S200000 ![] bcast_S_S200000) : (⟨S_, .i32⟩ : BufTy).Contents (Elt F) → (⟨S200000, .i32⟩ : BufTy).Contents (Elt F)) (GenP.V61 m outs c (Proc.devRef .tc main_call26_v0)) :=
  end1 (W56 (F := F)) (GenP.V55 m outs c) (GenP.V61 m outs c) L56 (T56 m outs c) 1 main_call26_v0 main_call26_v1 _ _ _ rfl (nk (by decide +kernel)) (nk (by decide +kernel))
theorem rd_main_call26_v2 : GenP.V61 m outs c (Proc.devRef .tc main_call26_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call26_v1)) (GenP.V61 m outs c (Proc.devRef .tc main_v269)) :=
  end2 (W56 (F := F)) (GenP.V55 m outs c) (GenP.V61 m outs c) L56 (T56 m outs c) 2 main_call26_v1 main_v269 main_call26_v2 _ _ _ _ rfl (nk (by decide +kernel)) (nk (by decide +kernel)) (nk (by decide +kernel))
theorem rd_main_call26_v3 : GenP.V61 m outs c (Proc.devRef .tc main_call26_v3) = (id : (⟨S_, .i32⟩ : BufTy).Contents (Elt F) → (⟨S_, .i32⟩ : BufTy).Contents (Elt F)) (GenP.V61 m outs c (Proc.devRef .tc main_c_131)) :=
  end1 (W56 (F := F)) (GenP.V55 m outs c) (GenP.V61 m outs c) L56 (T56 m outs c) 3 main_c_131 main_call26_v3 _ _ _ rfl (nk (by decide +kernel)) (nk (by decide +kernel))
theorem rd_main_call26_v4 : GenP.V61 m outs c (Proc.devRef .tc main_call26_v4) = ((broadcastInDim S200000 ![] bcast_S_S200000) : (⟨S_, .i32⟩ : BufTy).Contents (Elt F) → (⟨S200000, .i32⟩ : BufTy).Contents (Elt F)) (GenP.V61 m outs c (Proc.devRef .tc main_call26_v3)) :=
  end1 (W56 (F := F)) (GenP.V55 m outs c) (GenP.V61 m outs c) L56 (T56 m outs c) 4 main_call26_v3 main_call26_v4 _ _ _ rfl (nk (by decide +kernel)) (nk (by decide +kernel))
theorem rd_main_v283 : GenP.V61 m outs c (Proc.devRef .tc main_v283) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call26_v4)) (GenP.V61 m outs c (Proc.devRef .tc main_call26_v2)) :=
  end2 (W56 (F := F)) (GenP.V55 m outs c) (GenP.V61 m outs c) L56 (T56 m outs c) 5 main_call26_v4 main_call26_v2 main_v283 _ _ _ _ rfl (nk (by decide +kernel)) (nk (by decide +kernel)) (nk (by decide +kernel))
theorem rd_main_c_132 : GenP.V61 m outs c (Proc.devRef .tc main_c_132) = (constantI S_ 32 768#32) :=
  end0 (W57 (F := F)) (GenP.V56 m outs c) (GenP.V61 m outs c) L57 (T57 m outs c) 0 main_c_132 _ _ rfl (nk (by decide +kernel))
theorem rd_main_v284 : GenP.V61 m outs c (Proc.devRef .tc main_v284) = (broadcastInDim S200000 ![] bcast_S_S200000 : (⟨S_, .i32⟩ : BufTy).Contents (Elt F) → (⟨S200000, .i32⟩ : BufTy).Contents (Elt F)) (GenP.V61 m outs c (Proc.devRef .tc main_c_132)) :=
  end1 (W57 (F := F)) (GenP.V56 m outs c) (GenP.V61 m outs c) L57 (T57 m outs c) 1 main_c_132 main_v284 _ _ _ rfl (nk (by decide +kernel)) (nk (by decide +kernel))
theorem rd_main_v285 : GenP.V61 m outs c (Proc.devRef .tc main_v285) = (muli : (⟨S200000, .i32⟩ : BufTy).Contents (Elt F) → (⟨S200000, .i32⟩ : BufTy).Contents (Elt F) → (⟨S200000, .i32⟩ : BufTy).Contents (Elt F)) (GenP.V61 m outs c (Proc.devRef .tc main_v283)) (GenP.V61 m outs c (Proc.devRef .tc main_v284)) :=
  end2 (W57 (F := F)) (GenP.V56 m outs c) (GenP.V61 m outs c) L57 (T57 m outs c) 2 main_v283 main_v284 main_v285 _ _ _ _ rfl (nk (by decide +kernel)) (nk (by decide +kernel)) (nk (by decide +kernel))
theorem rd_main_c_133 : GenP.V61 m outs c (Proc.devRef .tc main_c_133) = (constantI S_ 32 0#32) :=
  end0 (W57 (F := F)) (GenP.V56 m outs c) (GenP.V61 m outs c) L57 (T57 m outs c) 3 main_c_133 _ _ rfl (nk (by decide +kernel))
theorem rd_main_c_134 : GenP.V61 m outs c (Proc.devRef .tc main_c_134) = (constantI S_ 32 767#32) :=
  end0 (W57 (F := F)) (GenP.V56 m outs c) (GenP.V61 m outs c) L57 (T57 m outs c) 4 main_c_134 _ _ rfl (nk (by decide +kernel))
theorem rd_main_call27_v0 : GenP.V61 m outs c (Proc.devRef .tc main_call27_v0) = (id : (⟨S_, .i32⟩ : BufTy).Contents (Elt F) → (⟨S_, .i32⟩ : BufTy).Contents (Elt F)) (GenP.V61 m outs c (Proc.devRef .tc main_c_133)) :=
  end1 (W58 (F := F)) (GenP.V57 m outs c) (GenP.V61 m outs c) L58 (T58 m outs c) 0 main_c_133 main_call27_v0 _ _ _ rfl (nk (by decide +kernel)) (nk (by decide +kernel))
theorem rd_main_call27_v1 : GenP.V61 m outs c (Proc.devRef .tc main_call27_v1) = ((broadcastInDim S200000 ![] bcast_S_S200000) : (⟨S_, .i32⟩ : BufTy).Contents (Elt F) → (⟨S200000, .i32⟩ : BufTy).Contents (Elt F)) (GenP.V61 m outs c (Proc.devRef .tc main_call27_v0)) :=
  end1 (W58 (F := F)) (GenP.V57 m outs c) (GenP.V61 m outs c) L58 (T58 m outs c) 1 main_call27_v0 main_call27_v1 _ _ _ rfl (nk (by decide +kernel)) (nk (by decide +kernel))
theorem rd_main_call27_v2 : GenP.V61 m outs c (Proc.devRef .tc main_call27_v2) = (maxsi : (⟨S200000, .i32⟩ : BufTy).Contents (Elt F) → (⟨S200000, .i32⟩ : BufTy).Contents (Elt F) → (⟨S200000, .i32⟩ : BufTy).Contents (Elt F)) (GenP.V61 m outs c (Proc.devRef .tc main_call27_v1)) (GenP.V61 m outs c (Proc.devRef .tc main_v271)) :=
  end2 (W58 (F := F)) (GenP.V57 m outs c) (GenP.V61 m outs c) L58 (T58 m outs c) 2 main_call27_v1 main_v271 main_call27_v2 _ _ _ _ rfl (nk (by decide +kernel)) (nk (by decide +kernel)) (nk (by decide +kernel))
theorem rd_main_call27_v3 : GenP.V61 m outs c (Proc.devRef .tc main_call27_v3) = (id : (⟨S_, .i32⟩ : BufTy).Contents (Elt F) → (⟨S_, .i32⟩ : BufTy).Contents (Elt F)) (GenP.V61 m outs c (Proc.devRef .tc main_c_134)) :=
  end1 (W58 (F := F)) (GenP.V57 m outs c) (GenP.V61 m outs c) L58 (T58 m outs c) 3 main_c_134 main_call27_v3 _ _ _ rfl (nk (by decide +kernel)) (nk (by decide +kernel))
theorem rd_main_call27_v4 : GenP.V61 m outs c (Proc.devRef .tc main_call27_v4) = ((broadcastInDim S200000 ![] bcast_S_S200000) : (⟨S_, .i32⟩ : BufTy).Contents (Elt F) → (⟨S200000, .i32⟩ : BufTy).Contents (Elt F)) (GenP.V61 m outs c (Proc.devRef .tc main_call27_v3)) :=
  end1 (W58 (F := F)) (GenP.V57 m outs c) (GenP.V61 m outs c) L58 (T58 m outs c) 4 main_call27_v3 main_call27_v4 _ _ _ rfl (nk (by decide +kernel)) (nk (by decide +kernel))
theorem rd_main_v286 : GenP.V61 m outs c (Proc.devRef .tc main_v286) = (minsi : (⟨S200000, .i32⟩ : BufTy).Contents (Elt F) → (⟨S200000, .i32⟩ : BufTy).Contents (Elt F) → (⟨S200000, .i32⟩ : BufTy).Contents (Elt F)) (GenP.V61 m outs c (Proc.devRef .tc main_call27_v4)) (GenP.V61 m outs c (Proc.devRef .tc main_call27_v2)) :=
  end2 (W58 (F := F)) (GenP.V57 m outs c) (GenP.V61 m outs c) L58 (T58 m outs c) 5 main_call27_v4 main_call27_v2 main_v286 _ _ _ _ rfl (nk (by decide +kernel)) (nk (by decide +kernel)) (nk (by decide +kernel))
theorem rd_main_v287 : GenP.V61 m outs c (Proc.devRef .tc main_v287) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v285)) (GenP.V61 m outs c (Proc.devRef .tc main_v286)) :=
  end2 (W59 (F := F)) (GenP.V58 m outs c) (GenP.V61 m outs c) L59 (T59 m outs c) 0 main_v285 main_v286 main_v287 _ _ _ _ rfl (nk (by decide +kernel)) (nk (by decide +kernel)) (nk (by decide +kernel))
theorem rd_main_c_135 : GenP.V61 m outs c (Proc.devRef .tc main_c_135) = (constantI S_ 32 0#32) :=
  end0 (W59 (F := F)) (GenP.V58 m outs c) (GenP.V61 m outs c) L59 (T59 m outs c) 1 main_c_135 _ _ rfl (nk (by decide +kernel))
theorem rd_main_v288 : GenP.V61 m outs c (Proc.devRef .tc main_v288) = (broadcastInDim S200000 ![] bcast_S_S200000 : (⟨S_, .i32⟩ : BufTy).Contents (Elt F) → (⟨S200000, .i32⟩ : BufTy).Contents (Elt F)) (GenP.V61 m outs c (Proc.devRef .tc main_c_135)) :=
  end1 (W59 (F := F)) (GenP.V58 m outs c) (GenP.V61 m outs c) L59 (T59 m outs c) 2 main_c_135 main_v288 _ _ _ rfl (nk (by decide +kernel)) (nk (by decide +kernel))
theorem rd_main_v289 : GenP.V61 m outs c (Proc.devRef .tc main_v289) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v287)) (GenP.V61 m outs c (Proc.devRef .tc main_v288)) :=
  end2 (W59 (F := F)) (GenP.V58 m outs c) (GenP.V61 m outs c) L59 (T59 m outs c) 3 main_v287 main_v288 main_v289 _ _ _ _ rfl (nk (by decide +kernel)) (nk (by decide +kernel)) (nk (by decide +kernel))
theorem rd_main_c_136 : GenP.V61 m outs c (Proc.devRef .tc main_c_136) = (constantI S_ 32 589824#32) :=
  end0 (W59 (F := F)) (GenP.V58 m outs c) (GenP.V61 m outs c) L59 (T59 m outs c) 4 main_c_136 _ _ rfl (nk (by decide +kernel))
theorem rd_main_v290 : GenP.V61 m outs c (Proc.devRef .tc main_v290) = (broadcastInDim S200000 ![] bcast_S_S200000 : (⟨S_, .i32⟩ : BufTy).Contents (Elt F) → (⟨S200000, .i32⟩ : BufTy).Contents (Elt F)) (GenP.V61 m outs c (Proc.devRef .tc main_c_136)) :=
  end1 (W59 (F := F)) (GenP.V58 m outs c) (GenP.V61 m outs c) L59 (T59 m outs c) 5 main_c_136 main_v290 _ _ _ rfl (nk (by decide +kernel)) (nk (by decide +kernel))
theorem rd_main_v291 : GenP.V61 m outs c (Proc.devRef .tc main_v291) = (addi : (⟨S200000, .i32⟩ : BufTy).Contents (Elt F) → (⟨S200000, .i32⟩ : BufTy).Contents (Elt F) → (⟨S200000, .i32⟩ : BufTy).Contents (Elt F)) (GenP.V61 m outs c (Proc.devRef .tc main_v287)) (GenP.V61 m outs c (Proc.devRef .tc main_v290)) :=
  end2 (W59 (F := F)) (GenP.V58 m outs c) (GenP.V61 m outs c) L59 (T59 m outs c) 6 main_v287 main_v290 main_v291 _ _ _ _ rfl (nk (by decide +kernel)) (nk (by decide +kernel)) (nk (by decide +kernel))
theorem rd_main_v292 : GenP.V61 m outs c (Proc.devRef .tc main_v292) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v289)) (GenP.V61 m outs c (Proc.devRef .tc main_v291)) (GenP.V61 m outs c (Proc.devRef .tc main_v287)) :=
  end3 (W59 (F := F)) (GenP.V58 m outs c) (GenP.V61 m outs c) L59 (T59 m outs c) 7 main_v289 main_v291 main_v287 main_v292 _ _ _ _ _ rfl (nk (by decide +kernel)) (nk (by decide +kernel)) (nk (by decide +kernel)) (nk (by decide +kernel))
theorem rd_main_v293 : GenP.V61 m outs c (Proc.devRef .tc main_v293) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v292)) :=
  end1 (W59 (F := F)) (GenP.V58 m outs c) (GenP.V61 m outs c) L59 (T59 m outs c) 8 main_v292 main_v293 _ _ _ rfl (nk (by decide +kernel)) (nk (by decide +kernel))
theorem rd_main_v294 : GenP.V61 m outs c (Proc.devRef .tc main_v294) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (GenP.V61 m outs c (Proc.devRef .tc main_v15)) (GenP.V61 m outs c (Proc.devRef .tc main_v293)) :=
  end2 (W59 (F := F)) (GenP.V58 m outs c) (GenP.V61 m outs c) L59 (T59 m outs c) 9 main_v15 main_v293 main_v294 _ _ _ _ rfl (nk (by decide +kernel)) (nk (by decide +kernel)) (nk (by decide +kernel))
theorem rd_main_c_137 : GenP.V61 m outs c (Proc.devRef .tc main_c_137) = (constantI S_ 32 200000#32) :=
  end0 (W59 (F := F)) (GenP.V58 m outs c) (GenP.V61 m outs c) L59 (T59 m outs c) 10 main_c_137 _ _ rfl (nk (by decide +kernel))
theorem rd_main_v295 : GenP.V61 m outs c (Proc.devRef .tc main_v295) = (broadcastInDim S200000 ![] bcast_S_S200000 : (⟨S_, .i32⟩ : BufTy).Contents (Elt F) → (⟨S200000, .i32⟩ : BufTy).Contents (Elt F)) (GenP.V61 m outs c (Proc.devRef .tc main_c_137)) :=
  end1 (W59 (F := F)) (GenP.V58 m outs c) (GenP.V61 m outs c) L59 (T59 m outs c) 11 main_c_137 main_v295 _ _ _ rfl (nk (by decide +kernel)) (nk (by decide +kernel))
theorem rd_main_v296 : GenP.V61 m outs c (Proc.devRef .tc main_v296) = (cmpi .slt : (⟨S200000, .i32⟩ : BufTy).Contents (Elt F) → (⟨S200000, .i32⟩ : BufTy).Contents (Elt F) → (⟨S200000, .i1⟩ : BufTy).Contents (Elt F)) (GenP.V61 m outs c (Proc.devRef .tc main_v294)) (GenP.V61 m outs c (Proc.devRef .tc main_v295)) :=
  end2 (W59 (F := F)) (GenP.V58 m outs c) (GenP.V61 m outs c) L59 (T59 m outs c) 12 main_v294 main_v295 main_v296 _ _ _ _ rfl (nk (by decide +kernel)) (nk (by decide +kernel)) (nk (by decide +kernel))
theorem rd_main_v297 : GenP.V61 m outs c (Proc.devRef .tc main_v297) = (andi : (⟨S200000, .i1⟩ : BufTy).Contents (Elt F) → (⟨S200000, .i1⟩ : BufTy).Contents (Elt F) → (⟨S200000, .i1⟩ : BufTy).Contents (Elt F)) (GenP.V61 m outs c (Proc.devRef .tc main_v282)) (GenP.V61 m outs c (Proc.devRef .tc main_v296)) :=
  end2 (W59 (F := F)) (GenP.V58 m outs c) (GenP.V61 m outs c) L59 (T59 m outs c) 13 main_v282 main_v296 main_v297 _ _ _ _ rfl (nk (by decide +kernel)) (nk (by decide +kernel)) (nk (by decide +kernel))
theorem rd_main_c_138 : GenP.V61 m outs c (Proc.devRef .tc main_c_138) = (constantI S_ 32 200000#32) :=
  end0 (W59 (F := F)) (GenP.V58 m outs c) (GenP.V61 m outs c) L59 (T59 m outs c) 14 main_c_138 _ _ rfl (nk (by decide +kernel))
theorem rd_main_call28_v0 : GenP.V61 m outs c (Proc.devRef .tc main_call28_v0) = (id : (⟨S_, .i32⟩ : BufTy).Contents (Elt F) → (⟨S_, .i32⟩ : BufTy).Contents (Elt F)) (GenP.V61 m outs c (Proc.devRef .tc main_c_138)) :=
  end1 (W60 (F := F)) (GenP.V59 m outs c) (GenP.V61 m outs c) L60 (T60 m outs c) 0 main_c_138 main_call28_v0 _ _ _ rfl (nk (by decide +kernel)) (nk (by decide +kernel))
theorem rd_main_call28_v1 : GenP.V61 m outs c (Proc.devRef .tc main_call28_v1) = ((broadcastInDim S200000 ![] bcast_S_S200000) : (⟨S_, .i32⟩ : BufTy).Contents (Elt F) → (⟨S200000, .i32⟩ : BufTy).Contents (Elt F)) (GenP.V61 m outs c (Proc.devRef .tc main_call28_v0)) :=
  end1 (W60 (F := F)) (GenP.V59 m outs c) (GenP.V61 m outs c) L60 (T60 m outs c) 1 main_call28_v0 main_call28_v1 _ _ _ rfl (nk (by decide +kernel)) (nk (by decide +kernel))
theorem rd_main_v298 : GenP.V61 m outs c (Proc.devRef .tc main_v298) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (GenP.V61 m outs c (Proc.devRef .tc main_v297)) (GenP.V61 m outs c (Proc.devRef .tc main_v294)) (GenP.V61 m outs c (Proc.devRef .tc main_call28_v1)) :=
  end3 (W60 (F := F)) (GenP.V59 m outs c) (GenP.V61 m outs c) L60 (T60 m outs c) 2 main_v297 main_v294 main_call28_v1 main_v298 _ _ _ _ _ rfl (nk (by decide +kernel)) (nk (by decide +kernel)) (nk (by decide +kernel)) (nk (by decide +kernel))
theorem rd_main_v299 : GenP.V61 m outs c (Proc.devRef .tc main_v299) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v50)) :=
  end1 (W61 (F := F)) (GenP.V60 m outs c) (GenP.V61 m outs c) L61 (T61 m outs c) 0 main_v50 main_v299 _ _ _ rfl (nk (by decide +kernel)) (nk (by decide +kernel))
theorem rd_main_v300 : GenP.V61 m outs c (Proc.devRef .tc main_v300) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v81)) :=
  end1 (W61 (F := F)) (GenP.V60 m outs c) (GenP.V61 m outs c) L61 (T61 m outs c) 1 main_v81 main_v300 _ _ _ rfl (nk (by decide +kernel)) (nk (by decide +kernel))
theorem rd_main_v301 : GenP.V61 m outs c (Proc.devRef .tc main_v301) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v112)) :=
  end1 (W61 (F := F)) (GenP.V60 m outs c) (GenP.V61 m outs c) L61 (T61 m outs c) 2 main_v112 main_v301 _ _ _ rfl (nk (by decide +kernel)) (nk (by decide +kernel))
theorem rd_main_v302 : GenP.V61 m outs c (Proc.devRef .tc main_v302) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v143)) :=
  end1 (W61 (F := F)) (GenP.V60 m outs c) (GenP.V61 m outs c) L61 (T61 m outs c) 3 main_v143 main_v302 _ _ _ rfl (nk (by decide +kernel)) (nk (by decide +kernel))
theorem rd_main_v303 : GenP.V61 m outs c (Proc.devRef .tc main_v303) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v174)) :=
  end1 (W61 (F := F)) (GenP.V60 m outs c) (GenP.V61 m outs c) L61 (T61 m outs c) 4 main_v174 main_v303 _ _ _ rfl (nk (by decide +kernel)) (nk (by decide +kernel))
theorem rd_main_v304 : GenP.V61 m outs c (Proc.devRef .tc main_v304) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v205)) :=
  end1 (W61 (F := F)) (GenP.V60 m outs c) (GenP.V61 m outs c) L61 (T61 m outs c) 5 main_v205 main_v304 _ _ _ rfl (nk (by decide +kernel)) (nk (by decide +kernel))
theorem rd_main_v305 : GenP.V61 m outs c (Proc.devRef .tc main_v305) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v236)) :=
  end1 (W61 (F := F)) (GenP.V60 m outs c) (GenP.V61 m outs c) L61 (T61 m outs c) 6 main_v236 main_v305 _ _ _ rfl (nk (by decide +kernel)) (nk (by decide +kernel))
theorem rd_main_v306 : GenP.V61 m outs c (Proc.devRef .tc main_v306) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v267)) :=
  end1 (W61 (F := F)) (GenP.V60 m outs c) (GenP.V61 m outs c) L61 (T61 m outs c) 7 main_v267 main_v306 _ _ _ rfl (nk (by decide +kernel)) (nk (by decide +kernel))
theorem rd_main_v307 : GenP.V61 m outs c (Proc.devRef .tc main_v307) = (broadcastInDim S200000x1 ![0] bcast_S200000_S200000x1_0 : (⟨S200000, .i32⟩ : BufTy).Contents (Elt F) → (⟨S200000x1, .i32⟩ : BufTy).Contents (Elt F)) (GenP.V61 m outs c (Proc.devRef .tc main_v298)) :=
  end1 (W61 (F := F)) (GenP.V60 m outs c) (GenP.V61 m outs c) L61 (T61 m outs c) 8 main_v298 main_v307 _ _ _ rfl (nk (by decide +kernel)) (nk (by decide +kernel))
theorem rd_main_v308 : GenP.V61 m outs c (Proc.devRef .tc main_v308) = concatenate S200000x9 1 [⟨S200000x1, (GenP.V61 m outs c (Proc.devRef .tc main_v299))⟩, ⟨S200000x1, (GenP.V61 m outs c (Proc.devRef .tc main_v300))⟩, ⟨S200000x1, (GenP.V61 m outs c (Proc.devRef .tc main_v301))⟩, ⟨S200000x1, (GenP.V61 m outs c (Proc.devRef .tc main_v302))⟩, ⟨S200000x1, (GenP.V61 m outs c (Proc.devRef .tc main_v303))⟩, ⟨S200000x1, (GenP.V61 m outs c (Proc.devRef .tc main_v304))⟩, ⟨S200000x1, (GenP.V61 m outs c (Proc.devRef .tc main_v305))⟩, ⟨S200000x1, (GenP.V61 m outs c (Proc.devRef .tc main_v306))⟩, ⟨S200000x1, (GenP.V61 m outs c (Proc.devRef .tc main_v307))⟩] concatenates_S200000x1_S200000x1_S200000x1_S200000x1_S200000x1_S200000x1_S200000x1_S200000x1_S200000x1_S200000x9_d1 :=
  endN (W61 (F := F)) (GenP.V60 m outs c) (GenP.V61 m outs c) L61 (T61 m outs c) 9 (![main_v299, main_v300, main_v301, main_v302, main_v303, main_v304, main_v305, main_v306, main_v307] : Fin 9 → Ref sig .tc) main_v308 ((fun u => concatenate S200000x9 1 [⟨S200000x1, u 0⟩, ⟨S200000x1, u 1⟩, ⟨S200000x1, u 2⟩, ⟨S200000x1, u 3⟩, ⟨S200000x1, u 4⟩, ⟨S200000x1, u 5⟩, ⟨S200000x1, u 6⟩, ⟨S200000x1, u 7⟩, ⟨S200000x1, u 8⟩] concatenates_S200000x1_S200000x1_S200000x1_S200000x1_S200000x1_S200000x1_S200000x1_S200000x1_S200000x1_S200000x9_d1) : ((k : Fin 9) → ((![main_v299, main_v300, main_v301, main_v302, main_v303, main_v304, main_v305, main_v306, main_v307] : Fin 9 → Ref sig .tc) k).ty.Contents (Elt F)) → (main_v308 : Ref sig .tc).ty.Contents (Elt F)) _ _ rfl (nk (by decide +kernel)) (by decide +kernel)
theorem rd_main_c_139 : GenP.V61 m outs c (Proc.devRef .tc main_c_139) = (constantI S_ 32 0#32) :=
  end0 (W61 (F := F)) (GenP.V60 m outs c) (GenP.V61 m outs c) L61 (T61 m outs c) 10 main_c_139 _ _ rfl (nk (by decide +kernel))
theorem rd_main_v309 : GenP.V61 m outs c (Proc.devRef .tc main_v309) = (broadcastInDim S200000x9 ![] bcast_S_S200000x9 : (⟨S_, .i32⟩ : BufTy).Contents (Elt F) → (⟨S200000x9, .i32⟩ : BufTy).Contents (Elt F)) (GenP.V61 m outs c (Proc.devRef .tc main_c_139)) :=
  end1 (W61 (F := F)) (GenP.V60 m outs c) (GenP.V61 m outs c) L61 (T61 m outs c) 11 main_c_139 main_v309 _ _ _ rfl (nk (by decide +kernel)) (nk (by decide +kernel))
theorem rd_main_v310 : GenP.V61 m outs c (Proc.devRef .tc main_v310) = (cmpi .slt : (⟨S200000x9, .i32⟩ : BufTy).Contents (Elt F) → (⟨S200000x9, .i32⟩ : BufTy).Contents (Elt F) → (⟨S200000x9, .i1⟩ : BufTy).Contents (Elt F)) (GenP.V61 m outs c (Proc.devRef .tc main_v308)) (GenP.V61 m outs c (Proc.devRef .tc main_v309)) :=
  end2 (W61 (F := F)) (GenP.V60 m outs c) (GenP.V61 m outs c) L61 (T61 m outs c) 12 main_v308 main_v309 main_v310 _ _ _ _ rfl (nk (by decide +kernel)) (nk (by decide +kernel)) (nk (by decide +kernel))
theorem rd_main_c_140 : GenP.V61 m outs c (Proc.devRef .tc main_c_140) = (constantI S_ 32 200001#32) :=
  end0 (W61 (F := F)) (GenP.V60 m outs c) (GenP.V61 m outs c) L61 (T61 m outs c) 13 main_c_140 _ _ rfl (nk (by decide +kernel))
theorem rd_main_v311 : GenP.V61 m outs c (Proc.devRef .tc main_v311) = (broadcastInDim S200000x9 ![] bcast_S_S200000x9 : (⟨S_, .i32⟩ : BufTy).Contents (Elt F) → (⟨S200000x9, .i32⟩ : BufTy).Contents (Elt F)) (GenP.V61 m outs c (Proc.devRef .tc main_c_140)) :=
  end1 (W61 (F := F)) (GenP.V60 m outs c) (GenP.V61 m outs c) L61 (T61 m outs c) 14 main_c_140 main_v311 _ _ _ rfl (nk (by decide +kernel)) (nk (by decide +kernel))
theorem rd_main_v312 : GenP.V61 m outs c (Proc.devRef .tc main_v312) = (addi : (⟨S200000x9, .i32⟩ : BufTy).Contents (Elt F) → (⟨S200000x9, .i32⟩ : BufTy).Contents (Elt F) → (⟨S200000x9, .i32⟩ : BufTy).Contents (Elt F)) (GenP.V61 m outs c (Proc.devRef .tc main_v308)) (GenP.V61 m outs c (Proc.devRef .tc main_v311)) :=
  end2 (W61 (F := F)) (GenP.V60 m outs c) (GenP.V61 m outs c) L61 (T61 m outs c) 15 main_v308 main_v311 main_v312 _ _ _ _ rfl (nk (by decide +kernel)) (nk (by decide +kernel)) (nk (by decide +kernel))
theorem rd_main_v313 : GenP.V61 m outs c (Proc.devRef .tc main_v313) = (select : (⟨S200000x9, .i1⟩ : BufTy).Contents (Elt F) → (⟨S200000x9, .i32⟩ : BufTy).Contents (Elt F) → (⟨S200000x9, .i32⟩ : BufTy).Contents (Elt F) → (⟨S200000x9, .i32⟩ : BufTy).Contents (Elt F)) (GenP.V61 m outs c (Proc.devRef .tc main_v310)) (GenP.V61 m outs c (Proc.devRef .tc main_v312)) (GenP.V61 m outs c (Proc.devRef .tc main_v308)) :=
  end3 (W61 (F := F)) (GenP.V60 m outs c) (GenP.V61 m outs c) L61 (T61 m outs c) 16 main_v310 main_v312 main_v308 main_v313 _ _ _ _ _ rfl (nk (by decide +kernel)) (nk (by decide +kernel)) (nk (by decide +kernel)) (nk (by decide +kernel))
theorem rd_main_v314 : GenP.V61 m outs c (Proc.devRef .tc main_v314) = (broadcastInDim S200000x9x1 ![0, 1] bcast_S200000x9_S200000x9x1_0_1 : (⟨S200000x9, .i32⟩ : BufTy).Contents (Elt F) → (⟨S200000x9x1, .i32⟩ : BufTy).Contents (Elt F)) (GenP.V61 m outs c (Proc.devRef .tc main_v313)) :=
  end1 (W61 (F := F)) (GenP.V60 m outs c) (GenP.V61 m outs c) L61 (T61 m outs c) 17 main_v313 main_v314 _ _ _ rfl (nk (by decide +kernel)) (nk (by decide +kernel))
theorem rd_main_v315 : GenP.V61 m outs c (Proc.devRef .tc main_v315) = ((fun x i => Host.gather gather_S200001x64_S200000x9x1_S200000x9x64_2_0_n_n_0_2_164 x i) : (⟨S200001x64, .bf16⟩ : BufTy).Contents (Elt F) → (⟨S200000x9x1, .i32⟩ : BufTy).Contents (Elt F) → (⟨S200000x9x64, .bf16⟩ : BufTy).Contents (Elt F)) (GenP.V61 m outs c (Proc.devRef .tc main_v19)) (GenP.V61 m outs c (Proc.devRef .tc main_v314)) :=
  end2 (W61 (F := F)) (GenP.V60 m outs c) (GenP.V61 m outs c) L61 (T61 m outs c) 18 main_v19 main_v314 main_v315 _ _ _ _ rfl (nk (by decide +kernel)) (nk (by decide +kernel)) (nk (by decide +kernel))
theorem rd_main_v316 : GenP.V61 m outs c (Proc.devRef .tc main_v316) = reshapeOf main_v315 main_v316 rfl shapeCasts_S200000x9x64_S200000x576 (GenP.V61 m outs c (Proc.devRef .tc main_v315)) :=
  endReshape (W61 (F := F)) (GenP.V60 m outs c) (GenP.V61 m outs c) L61 (T61 m outs c) 19 main_v315 main_v316 _ _ _ _ rfl (nk (by decide +kernel)) (nk (by decide +kernel))

end Cert.KernelIdeal.Glue
-- ==== Proof.GlueRead.lean ====
/- The whole read-back table of the idealized kernel program's host operations. -/
import proofs.«125710_j13511967113615_2_alg».proof.Proof.GlueRead0
import proofs.«125710_j13511967113615_2_alg».proof.Proof.GlueRead1
import proofs.«125710_j13511967113615_2_alg».proof.Proof.GlueRead2
import proofs.«125710_j13511967113615_2_alg».proof.Proof.GlueRead3
import proofs.«125710_j13511967113615_2_alg».proof.Proof.GlueRead4
import proofs.«125710_j13511967113615_2_alg».proof.Proof.GlueRead5
import proofs.«125710_j13511967113615_2_alg».proof.Proof.GlueRead6
import proofs.«125710_j13511967113615_2_alg».proof.Proof.GlueRead7
-- ==== Proof.KFacts.lean ====
/-
  The scale and shift vectors as the kernels read them.

  The program reshapes each per-channel vector [C] to one row [1, C] before handing it to a pallas_call; a reshape keeps
  the elements in row-major order, so the row's entry j is the vector's entry j.
-/
import proofs.«125710_j13511967113615_2_alg».proof.Proof.GlueRead
import Idealize.ShloMosaic.Lib.ValueLayout

noncomputable section

namespace Cert.KernelIdeal.KFacts

open Idealize.ShloMosaic Idealize.ShloMosaic.TcCoe Idealize.ShloMosaic.ValueIdx
open Cert.KernelIdeal Cert.KernelIdeal.Gen Cert.KernelIdeal.Glue Cert.ReadEnd

variable {F : FTy → Type} [FloatOps F]
variable (m : (ℓ : Loc nD τ sig) → Buf (Elt F) ℓ) (outs : GenP.Outs (F := F)) (c : Dev nD)

theorem v0_apply (j : Fin 64) :
    GenP.V61 m outs c main_v0 (ix2 (0 : Fin 1) j) = m ((c : Thread nD τ).loc main_arg5) (ix1 j) := by
  rw [rd_main_v0, V61_arg5]
  exact shapeCast_a_1a_apply _ _ 0 j
theorem v1_apply (j : Fin 64) :
    GenP.V61 m outs c main_v1 (ix2 (0 : Fin 1) j) = m ((c : Thread nD τ).loc main_arg6) (ix1 j) := by
  rw [rd_main_v1, V61_arg6]
  exact shapeCast_a_1a_apply _ _ 0 j
theorem v2_apply (j : Fin 64) :
    GenP.V61 m outs c main_v2 (ix2 (0 : Fin 1) j) = m ((c : Thread nD τ).loc main_arg7) (ix1 j) := by
  rw [rd_main_v2, V61_arg7]
  exact shapeCast_a_1a_apply _ _ 0 j
theorem v3_apply (j : Fin 64) :
    GenP.V61 m outs c main_v3 (ix2 (0 : Fin 1) j) = m ((c : Thread nD τ).loc main_arg8) (ix1 j) := by
  rw [rd_main_v3, V61_arg8]
  exact shapeCast_a_1a_apply _ _ 0 j
theorem v4_apply (j : Fin 256) :
    GenP.V61 m outs c main_v4 (ix2 (0 : Fin 1) j) = m ((c : Thread nD τ).loc main_arg9) (ix1 j) := by
  rw [rd_main_v4, V61_arg9]
  exact shapeCast_a_1a_apply _ _ 0 j
theorem v5_apply (j : Fin 256) :
    GenP.V61 m outs c main_v5 (ix2 (0 : Fin 1) j) = m ((c : Thread nD τ).loc main_arg10) (ix1 j) := by
  rw [rd_main_v5, V61_arg10]
  exact shapeCast_a_1a_apply _ _ 0 j

end Cert.KernelIdeal.KFacts
end
-- ==== Proof.KValue.lean ====
/-
  The idealized kernel program's values, index by index, as the specification's functions of the arguments.

  The first pallas_call's output array is the first stage's rows of the arguments. The second's is the block's output,
  its taps' rows being the columns of the gathered array the host operations build: tap k's channel l is column
  64·k + l.
-/
import proofs.«125710_j13511967113615_2_alg».proof.Proof.Halves
import proofs.«125710_j13511967113615_2_alg».proof.Proof.KIdx0
import proofs.«125710_j13511967113615_2_alg».proof.Proof.KFacts
import proofs.«125710_j13511967113615_2_alg».proof.Proof.Spec

noncomputable section

namespace Cert.Proof.KValue

open Idealize.ShloMosaic Idealize.ShloMosaic.TcCoe Idealize.ShloMosaic.ValueIdx
open Cert.KernelIdeal Cert.KernelIdeal.Gen Cert.Proof.Halves
open Cert.KernelIdeal.Glue (V61_main_v6 V61_arg0 V61_arg2 V61_arg3 V61_arg4 T1)

variable (m : (ℓ : Loc nD τ sig) → Buf (Elt Ideal) ℓ) (c : Dev nD)

/-- A rank-1 index is the index of its coordinate. -/
theorem ix1_coord {n : Nat} (j : (⟨1, ![n]⟩ : Shape).Idx) : ix1 (j 0) = j := (eq_ix1 j).symm

/-- The scale and shift rows the first region is entered with are the arguments' vectors. -/
theorem V1_v0 (j : Fin 64) : GenP.V1 m c main_v0 (ix2 (0 : Fin 1) j) = m ((c : Thread nD τ).loc main_arg5) (ix1 j) := by
  rw [← T1 m (KRun.outsA halfI0 m) c main_v0 (Cert.ReadEnd.nk (by decide +kernel))]
  exact Cert.KernelIdeal.KFacts.v0_apply m _ c j
theorem V1_v1 (j : Fin 64) : GenP.V1 m c main_v1 (ix2 (0 : Fin 1) j) = m ((c : Thread nD τ).loc main_arg6) (ix1 j) := by
  rw [← T1 m (KRun.outsA halfI0 m) c main_v1 (Cert.ReadEnd.nk (by decide +kernel))]
  exact Cert.KernelIdeal.KFacts.v1_apply m _ c j

/-- THE FIRST STAGE. What the second region finds in the first region's output array: the first stage's rows. -/
theorem rows_value (n : Fin 200000) (l : Fin 64) :
    GenP.V61 m (KRun.outsA halfI0 m) c main_v6 (ix2 n l)
      = Cert.Spec.rows1 (m ((c : Thread nD τ).loc main_arg0)) (m ((c : Thread nD τ).loc main_arg2))
          (m ((c : Thread nD τ).loc main_arg5)) (m ((c : Thread nD τ).loc main_arg6)) n l := by
  rw [V61_main_v6]
  show KRun.W2 halfI0 m c (Proc.devRef .tc (Pipeline.arrRef spec0 4)) (ix2 n l) = _
  rw [KRun.W2_arr halfI0 m c 4]
  show (Cert.KernelIdeal.Body.dat0 (KRun.VV1 m) c).arrAt 4 cfg0.N (ix2 n l) = _
  rw [Cert.KernelIdeal.Body.region0_apply]
  have e0 : KRun.VV1 m c main_arg0 = m ((c : Thread nD τ).loc main_arg0) := GenP.V1_of m c main_arg0 (by decide)
  have e2 : KRun.VV1 m c main_arg2 = m ((c : Thread nD τ).loc main_arg2) := GenP.V1_of m c main_arg2 (by decide)
  have e5 : (fun j : (⟨1, ![64]⟩ : Shape).Idx => KRun.VV1 m c main_v0 (ix2 (0 : Fin 1) (j 0)))
      = m ((c : Thread nD τ).loc main_arg5) := by
    funext j; exact (V1_v0 m c (j 0)).trans (congrArg _ (ix1_coord j))
  have e6 : (fun j : (⟨1, ![64]⟩ : Shape).Idx => KRun.VV1 m c main_v1 (ix2 (0 : Fin 1) (j 0)))
      = m ((c : Thread nD τ).loc main_arg6) := by
    funext j; exact (V1_v1 m c (j 0)).trans (congrArg _ (ix1_coord j))
  rw [e0, e2, e5, e6]

end Cert.Proof.KValue
end
-- ==== Proof.KVal1.lean ====
/- The second pipelined region's output array after the run, in closed form at the ideal instance: every grid
   point writes back its block of one whole-array function of the operand arrays, and the blocks cover the array. -/
import proofs.«125710_j13511967113615_2_alg».proof.Proof.KBody1
import proofs.«125710_j13511967113615_2_alg».proof.Proof.KSpec
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

theorem hz2' : (![0, 0] : Fin 2 → Nat) = fun _ => 0 := funext fun a => by fin_cases a <;> rfl
theorem hz3 : (![0, 0, 0] : Fin 3 → Nat) = fun _ => 0 := funext fun a => by fin_cases a <;> rfl

section AnyF
variable {F : FTy → Type} [FloatOps F]
variable (V : (c : Dev nD) → (b : Ref sig .tc) → Buf (Elt F) ((c : Thread nD τ).loc b))

/-- The one whole-block store leaves the payload of the whole-block loads, through the first part's results. -/
theorem out1_8_eq (x0 : Vec F S5000x576 .bf16) (x1 : Vec F S9x64x64 .f32) (x2 x3 : Vec F S1x64 .f32)
    (x4 : Vec F S64x256 .f32) (x5 x6 : Vec F S1x256 .f32) (x7 : Vec F S5000x256 .f32) :
    out1_8 x0 x1 x2 x3 x4 x5 x6 x7
      = k1_pay1 (k1_pay2 x0) (k1_pay3 x1) (k1_pay4 x0 x1) x2 x3 x4 x5 x6 x7 := by
  unfold out1_8
  rw [View.canon_unit_zero hz2']
  simp only [View.ld_unit_zero (S := S5000x576) hz2', View.ld_unit_zero (S := S9x64x64) hz3, View.ld_unit_zero (S := S1x64) hz2',
    View.ld_unit_zero (S := S64x256) hz2', View.ld_unit_zero (S := S1x256) hz2', View.ld_unit_zero (S := S5000x256) hz2']

/-- The printed index maps, decided over the grid: the gathered activations', the residual's and the output's block
    index is the grid point on the row axis, every other block index is zero. -/
theorem idx_facts1 : ∀ t : Fin cfg1.N,
    win1_0.index t (0 : Fin 2) = t.val
    ∧ win1_0.index t (1 : Fin 2) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = t.val
    ∧ win1_8.index t (1 : Fin 2) = 0 :=
  (by decide +kernel : ∀ t : Fin grid1.N, _)

/-- The grid point as a block number. -/
abbrev blk1 (t : Fin cfg1.N) : Fin 40 := Fin.cast N_1 t

/-- The row-blocked operands' block at point `t` is rows `t * 5000 …` of the array. -/
theorem iblk1_0_eq (c : Dev nD) (t : Fin cfg1.N) : iblk1 V c 0 t = rows5000 (V c main_v316) (blk1 t) := by
  obtain ⟨e0, e1, -⟩ := idx_facts1 t
  funext j
  have h : ((cfg1.win 0).blk t).view.emb j
      = ix2 (⟨(blk1 t).val * 5000 + (j 0).val, by have := idx2_lt0 j; have := (blk1 t).isLt; omega⟩ : Fin 200000) (j 1) := by
    funext a; apply Fin.ext
    match a with
    | ⟨0, _⟩ => show win1_0.index t (0 : Fin 2) * 5000 + 1 * (j 0).val = t.val * 5000 + (j 0).val; rw [e0]; omega
    | ⟨1, _⟩ => show win1_0.index t (1 : Fin 2) * 576 + 1 * (j 1).val = (j 1).val; rw [e1]; omega
  show V c main_v316 (((cfg1.win 0).blk t).view.emb j) = V c main_v316 (ix2 _ (j 1))
  exact congrArg (V c main_v316) h
theorem iblk1_7_eq (c : Dev nD) (t : Fin cfg1.N) : iblk1 V c 7 t = rows5000 (V c main_arg0) (blk1 t) := by
  obtain ⟨-, -, -, -, -, -, -, -, -, -, -, -, -, -, -, e0, e1, -⟩ := idx_facts1 t
  funext j
  have h : ((cfg1.win 7).blk t).view.emb j
      = ix2 (⟨(blk1 t).val * 5000 + (j 0).val, by have := idx2_lt0 j; have := (blk1 t).isLt; omega⟩ : Fin 200000) (j 1) := by
    funext a; apply Fin.ext
    match a with
    | ⟨0, _⟩ => show win1_7.index t (0 : Fin 2) * 5000 + 1 * (j 0).val = t.val * 5000 + (j 0).val; rw [e0]; omega
    | ⟨1, _⟩ => show win1_7.index t (1 : Fin 2) * 256 + 1 * (j 1).val = (j 1).val; rw [e1]; omega
  show V c main_arg0 (((cfg1.win 7).blk t).view.emb j) = V c main_arg0 (ix2 _ (j 1))
  exact congrArg (V c main_arg0) h

/-- The weight, scale and shift windows' block at every point is the whole array. -/
theorem iblk1_1_eq (c : Dev nD) (t : Fin cfg1.N) : iblk1 V c 1 t = V c main_arg3 := by
  obtain ⟨-, -, e0, e1, e2, -⟩ := idx_facts1 t
  funext j
  have h : ((cfg1.win 1).blk t).view.emb j = j := by
    funext a; apply Fin.ext
    match a with
    | ⟨0, _⟩ => show win1_1.index t (0 : Fin 3) * 9 + 1 * (j 0).val = (j 0).val; rw [e0]; omega
    | ⟨1, _⟩ => show win1_1.index t (1 : Fin 3) * 64 + 1 * (j 1).val = (j 1).val; rw [e1]; omega
    | ⟨2, _⟩ => show win1_1.index t (2 : Fin 3) * 64 + 1 * (j 2).val = (j 2).val; rw [e2]; omega
  show V c main_arg3 (((cfg1.win 1).blk t).view.emb j) = V c main_arg3 j
  exact congrArg (V c main_arg3) h
theorem iblk1_2_eq (c : Dev nD) (t : Fin cfg1.N) : iblk1 V c 2 t = V c main_v2 := by
  obtain ⟨-, -, -, -, -, e0, e1, -⟩ := idx_facts1 t
  funext j
  have h : ((cfg1.win 2).blk t).view.emb j = j := by
    funext a; apply Fin.ext
    match a with
    | ⟨0, _⟩ => show win1_2.index t (0 : Fin 2) * 1 + 1 * (j 0).val = (j 0).val; rw [e0]; omega
    | ⟨1, _⟩ => show win1_2.index t (1 : Fin 2) * 64 + 1 * (j 1).val = (j 1).val; rw [e1]; omega
  show V c main_v2 (((cfg1.win 2).blk t).view.emb j) = V c main_v2 j
  exact congrArg (V c main_v2) h
theorem iblk1_3_eq (c : Dev nD) (t : Fin cfg1.N) : iblk1 V c 3 t = V c main_v3 := by
  obtain ⟨-, -, -, -, -, -, -, e0, e1, -⟩ := idx_facts1 t
  funext j
  have h : ((cfg1.win 3).blk t).view.emb j = j := by
    funext a; apply Fin.ext
    match a with
    | ⟨0, _⟩ => show win1_3.index t (0 : Fin 2) * 1 + 1 * (j 0).val = (j 0).val; rw [e0]; omega
    | ⟨1, _⟩ => show win1_3.index t (1 : Fin 2) * 64 + 1 * (j 1).val = (j 1).val; rw [e1]; omega
  show V c main_v3 (((cfg1.win 3).blk t).view.emb j) = V c main_v3 j
  exact congrArg (V c main_v3) h
theorem iblk1_4_eq (c : Dev nD) (t : Fin cfg1.N) : iblk1 V c 4 t = V c main_arg4 := by
  obtain ⟨-, -, -, -, -, -, -, -, -, e0, e1, -⟩ := idx_facts1 t
  funext j
  have h : ((cfg1.win 4).blk t).view.emb j = j := by
    funext a; apply Fin.ext
    match a with
    | ⟨0, _⟩ => show win1_4.index t (0 : Fin 2) * 64 + 1 * (j 0).val = (j 0).val; rw [e0]; omega
    | ⟨1, _⟩ => show win1_4.index t (1 : Fin 2) * 256 + 1 * (j 1).val = (j 1).val; rw [e1]; omega
  show V c main_arg4 (((cfg1.win 4).blk t).view.emb j) = V c main_arg4 j
  exact congrArg (V c main_arg4) h
theorem iblk1_5_eq (c : Dev nD) (t : Fin cfg1.N) : iblk1 V c 5 t = V c main_v4 := by
  obtain ⟨-, -, -, -, -, -, -, -, -, -, -, e0, e1, -⟩ := idx_facts1 t
  funext j
  have h : ((cfg1.win 5).blk t).view.emb j = j := by
    funext a; apply Fin.ext
    match a with
    | ⟨0, _⟩ => show win1_5.index t (0 : Fin 2) * 1 + 1 * (j 0).val = (j 0).val; rw [e0]; omega
    | ⟨1, _⟩ => show win1_5.index t (1 : Fin 2) * 256 + 1 * (j 1).val = (j 1).val; rw [e1]; omega
  show V c main_v4 (((cfg1.win 5).blk t).view.emb j) = V c main_v4 j
  exact congrArg (V c main_v4) h
theorem iblk1_6_eq (c : Dev nD) (t : Fin cfg1.N) : iblk1 V c 6 t = V c main_v5 := by
  obtain ⟨-, -, -, -, -, -, -, -, -, -, -, -, -, e0, e1, -⟩ := idx_facts1 t
  funext j
  have h : ((cfg1.win 6).blk t).view.emb j = j := by
    funext a; apply Fin.ext
    match a with
    | ⟨0, _⟩ => show win1_6.index t (0 : Fin 2) * 1 + 1 * (j 0).val = (j 0).val; rw [e0]; omega
    | ⟨1, _⟩ => show win1_6.index t (1 : Fin 2) * 256 + 1 * (j 1).val = (j 1).val; rw [e1]; omega
  show V c main_v5 (((cfg1.win 6).blk t).view.emb j) = V c main_v5 j
  exact congrArg (V c main_v5) h

/-- Where an element of the output block at point `t` sits in the array. -/
theorem emb1_8 (t : Fin cfg1.N) (j : S5000x256.Idx) : ((cfg1.win 8).blk t).view.emb j
    = ix2 (⟨(blk1 t).val * 5000 + (j 0).val, by have := idx2_lt0 j; have := (blk1 t).isLt; omega⟩ : Fin 200000) (j 1) := by
  obtain ⟨-, -, -, -, -, -, -, -, -, -, -, -, -, -, -, -, -, e0, e1⟩ := idx_facts1 t
  funext a; apply Fin.ext
  match a with
  | ⟨0, _⟩ => show win1_8.index t (0 : Fin 2) * 5000 + 1 * (j 0).val = t.val * 5000 + (j 0).val; rw [e0]; omega
  | ⟨1, _⟩ => show win1_8.index t (1 : Fin 2) * 256 + 1 * (j 1).val = (j 1).val; rw [e1]; omega

/-- An index of the output array is in point `t`'s block iff each coordinate is in the block's range on its axis. -/
theorem mem_blk1_8 (t : Fin cfg1.N) (i : S200000x256.Idx) :
    i ∈ ((cfg1.win 8).blk t).view.set ↔ ∀ a : Fin 2, win1_8.index t a * S5000x256.size a ≤ (i a).val ∧ (i a).val < win1_8.index t a * S5000x256.size a + S5000x256.size a := by
  show i ∈ ((View.whole main_v317).slice (win1_8.rect t)).set ↔ _
  rw [View.set_slice_whole, Rect.mem_set_unit]
  exact Iff.rfl

/-- Every index of the output array is in the block of the point that owns its row. -/
theorem covered1_8 (i : S200000x256.Idx) :
    ∃ t : Fin cfg1.N, (cfg1.win 8).flush t = true ∧ i ∈ ((cfg1.win 8).blk t).view.set := by
  have hi0 := idx2_lt0 i
  have hi1 := idx2_lt1 i
  have hN : (i 0).val / 5000 < cfg1.N := by show _ < grid1.N; rw [N_1]; omega
  obtain ⟨-, -, -, -, -, -, -, -, -, -, -, -, -, -, -, -, -, e0, e1⟩ := idx_facts1 ⟨(i 0).val / 5000, hN⟩
  refine ⟨⟨(i 0).val / 5000, hN⟩, flush1_8 _, ?_⟩
  rw [mem_blk1_8]
  intro a
  match a with
  | ⟨0, _⟩ =>
    show win1_8.index ⟨(i 0).val / 5000, hN⟩ (0 : Fin 2) * 5000 ≤ (i 0).val ∧ (i 0).val < win1_8.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_8.index ⟨(i 0).val / 5000, hN⟩ (1 : Fin 2) * 256 ≤ (i 1).val ∧ (i 1).val < win1_8.index ⟨(i 0).val / 5000, hN⟩ (1 : Fin 2) * 256 + 256
    rw [e1]; omega

end AnyF

/-! ## At the ideal instance -/

variable (V : (c : Dev nD) → (b : Ref sig .tc) → Buf (Elt Ideal) ((c : Thread nD τ).loc b))

/-- What point `t` writes back is block `t` of `K23` of the operand arrays as the region finds them. -/
theorem flushed1_8_eq (c : Dev nD) (t : Fin cfg1.N) :
    (dat1 V c).flushed 8 t
      = ((cfg1.win 8).blk t).view.read (Elt Ideal) (K23 (V c main_v316) (V c main_arg3) (V c main_v2) (V c main_v3) (V c main_arg4) (V c main_v4) (V c main_v5) (V c main_arg0)) := by
  show (cfg1.win 8).cut (grid1.coords t) ((dat1 V c).after 8 t) = _
  rw [after1_8, out1_8_eq, iblk1_0_eq, iblk1_1_eq, iblk1_2_eq, iblk1_3_eq, iblk1_4_eq, iblk1_5_eq, iblk1_6_eq, iblk1_7_eq]
  funext j
  show k1_pay1 (k1_pay2 (rows5000 (V c main_v316) (blk1 t))) (k1_pay3 (V c main_arg3)) (k1_pay4 (rows5000 (V c main_v316) (blk1 t)) (V c main_arg3))
      (V c main_v2) (V c main_v3) (V c main_arg4) (V c main_v4) (V c main_v5) (rows5000 (V c main_arg0) (blk1 t)) j
    = K23 (V c main_v316) (V c main_arg3) (V c main_v2) (V c main_v3) (V c main_arg4) (V c main_v4) (V c main_v5) (V c main_arg0) (((cfg1.win 8).blk t).view.emb j)
  rw [emb1_8 t j]
  exact (K23_blk _ _ _ _ _ _ _ _ (blk1 t) j).symm

/-- The output array after the run. -/
theorem final1 (c : Dev nD) :
    (dat1 V c).arrAt 8 cfg1.N = K23 (V c main_v316) (V c main_arg3) (V c main_v2) (V c main_v3) (V c main_arg4) (V c main_v4) (V c main_v5) (V c main_arg0) :=
  (dat1 V c).arrAt_eq_of_cover 8 _ (fun t _ => flushed1_8_eq V c t) (fun i => covered1_8 i)

end Cert.KernelIdeal.Body

end
-- ==== Proof.KIdx1.lean ====
/- The second pipelined region's output array read at an index, at the ideal instance: the nine taps' products
   added in order, scaled, shifted and clamped; the last 1×1 convolution, scaled and shifted; the input added back and
   the last clamp. -/
import proofs.«125710_j13511967113615_2_alg».proof.Proof.KVal1
import proofs.«125710_j13511967113615_2_alg».proof.Proof.KIdxLib
import proofs.«125710_j13511967113615_2_alg».proof.Proof.LibDotSingle
import proofs.«125710_j13511967113615_2_alg».proof.Proof.Spec

noncomputable section

open scoped BigOperators

namespace Cert.KernelIdeal.Body

open Cert.KernelIdeal Cert.KernelIdeal.Gen Cert.KIdxLib
open Idealize.ShloMosaic Idealize.ShloMosaic.TcCoe Idealize.SL.Sem Idealize.ShloMosaic.ValueIdx

/-! ### The product `dot_S5000x64_S64x64_S5000x64_1_0_0_1_n_n`: one contracted axis of extent 64 -/

theorem D2_lc : dot_S5000x64_S64x64_S5000x64_1_0_0_1_n_n.lhsContracting = [1] := rfl
theorem D2_rc : dot_S5000x64_S64x64_S5000x64_1_0_0_1_n_n.rhsContracting = [0] := rfl
theorem D2_hr : dot_S5000x64_S64x64_S5000x64_1_0_0_1_n_n.contr.rank = 1 := rfl
theorem D2_hs : dot_S5000x64_S64x64_S5000x64_1_0_0_1_n_n.contr.size ⟨0, by rw [D2_hr]; exact Nat.one_pos⟩ = 64 := rfl

/-- The left operand is read at the result's row and the contraction coordinate. -/
theorem D2_lhs (p : Fin 5000) (q : Fin 64) (k : Fin 64) :
    dot_S5000x64_S64x64_S5000x64_1_0_0_1_n_n.lhsIdx (ix2 p q) ((contrEquiv1 dot_S5000x64_S64x64_S5000x64_1_0_0_1_n_n 64 D2_hr D2_hs).symm k) = ix2 p k := by
  funext a; apply Fin.ext
  match a with
  | ⟨0, _⟩ => rfl
  | ⟨1, _⟩ =>
    exact (DotDims.lhsIdx_val_of_single dot_S5000x64_S64x64_S5000x64_1_0_0_1_n_n (cl := 1) D2_lc (ix2 p q) _).trans (contrEquiv1_symm_val dot_S5000x64_S64x64_S5000x64_1_0_0_1_n_n 64 D2_hr D2_hs k)

/-- The right operand is read at the contraction coordinate and the result's column. -/
theorem D2_rhs (p : Fin 5000) (q : Fin 64) (k : Fin 64) :
    dot_S5000x64_S64x64_S5000x64_1_0_0_1_n_n.rhsIdx (ix2 p q) ((contrEquiv1 dot_S5000x64_S64x64_S5000x64_1_0_0_1_n_n 64 D2_hr D2_hs).symm k) = ix2 k q := by
  funext a; apply Fin.ext
  match a with
  | ⟨0, _⟩ =>
    exact (DotDims.rhsIdx_val_of_single dot_S5000x64_S64x64_S5000x64_1_0_0_1_n_n (cr := 0) D2_rc (ix2 p q) _).trans (contrEquiv1_symm_val dot_S5000x64_S64x64_S5000x64_1_0_0_1_n_n 64 D2_hr D2_hs k)
  | ⟨1, _⟩ => rfl

/-! ### The product `dot_S5000x64_S64x256_S5000x256_1_0_0_1_n_n`: one contracted axis of extent 64 -/

theorem D3_lc : dot_S5000x64_S64x256_S5000x256_1_0_0_1_n_n.lhsContracting = [1] := rfl
theorem D3_rc : dot_S5000x64_S64x256_S5000x256_1_0_0_1_n_n.rhsContracting = [0] := rfl
theorem D3_hr : dot_S5000x64_S64x256_S5000x256_1_0_0_1_n_n.contr.rank = 1 := rfl
theorem D3_hs : dot_S5000x64_S64x256_S5000x256_1_0_0_1_n_n.contr.size ⟨0, by rw [D3_hr]; exact Nat.one_pos⟩ = 64 := rfl

/-- The left operand is read at the result's row and the contraction coordinate. -/
theorem D3_lhs (p : Fin 5000) (q : Fin 256) (k : Fin 64) :
    dot_S5000x64_S64x256_S5000x256_1_0_0_1_n_n.lhsIdx (ix2 p q) ((contrEquiv1 dot_S5000x64_S64x256_S5000x256_1_0_0_1_n_n 64 D3_hr D3_hs).symm k) = ix2 p k := by
  funext a; apply Fin.ext
  match a with
  | ⟨0, _⟩ => rfl
  | ⟨1, _⟩ =>
    exact (DotDims.lhsIdx_val_of_single dot_S5000x64_S64x256_S5000x256_1_0_0_1_n_n (cl := 1) D3_lc (ix2 p q) _).trans (contrEquiv1_symm_val dot_S5000x64_S64x256_S5000x256_1_0_0_1_n_n 64 D3_hr D3_hs k)

/-- The right operand is read at the contraction coordinate and the result's column. -/
theorem D3_rhs (p : Fin 5000) (q : Fin 256) (k : Fin 64) :
    dot_S5000x64_S64x256_S5000x256_1_0_0_1_n_n.rhsIdx (ix2 p q) ((contrEquiv1 dot_S5000x64_S64x256_S5000x256_1_0_0_1_n_n 64 D3_hr D3_hs).symm k) = ix2 k q := by
  funext a; apply Fin.ext
  match a with
  | ⟨0, _⟩ =>
    exact (DotDims.rhsIdx_val_of_single dot_S5000x64_S64x256_S5000x256_1_0_0_1_n_n (cr := 0) D3_rc (ix2 p q) _).trans (contrEquiv1_symm_val dot_S5000x64_S64x256_S5000x256_1_0_0_1_n_n 64 D3_hr D3_hs k)
  | ⟨1, _⟩ => rfl

/-- One tap's product at an index of the block: the tap's 64 gathered columns (from column `o`) of row `p`
    against column `j` of the tap's weight matrix (position `k` of the stacked weights). -/
theorem tap_apply (A : FVec Ideal S5000x576 .bf16) (B : FVec Ideal S9x64x64 .bf16) {o k : ℕ}
    (hA : S5000x576.Slices ![0, o] S5000x64) (hB : S9x64x64.Slices ![k, 0, 0] S1x64x64)
    (hc : S1x64x64.ShapeCasts S64x64) (p : Fin 5000) (j : Fin 64) :
    FloatOps.matmul dot_S5000x64_S64x64_S5000x64_1_0_0_1_n_n none (extractStridedSlice S5000x64 ![0, o] A hA)
        (shapeCast S64x64 (extractStridedSlice S1x64x64 ![k, 0, 0] B hB) hc) (constant S5000x64 .f32 0x00000000#32) (ix2 p j)
      = ∑ l : Fin 64, A (ix2 p ⟨o + l.val, cols_bound hA l⟩) * B (ix3 ⟨k, lead_bound hB⟩ l j) :=
  Cert.LibDotSingle.matmul_zero_single dot_S5000x64_S64x64_S5000x64_1_0_0_1_n_n none 64 D2_hr D2_hs _ _ (ix2 p j) _ _
    (fun l => by rw [D2_lhs]; exact slice_cols_apply A hA p l)
    (fun l => by rw [D2_rhs]; exact (cast_drop_apply _ hc l j).trans (slice_lead_apply B hB l j))

/-- The recast of the gathered activations to their own shape is the identity. -/
theorem k1_pay2_eq (v0 : Vec Ideal S5000x576 .bf16) : k1_pay2 v0 = v0 := by
  unfold k1_pay2
  exact shapeCast_self _ _

/-- One tap's product on a block: the tap's 64 gathered columns of row `p` against column `j` of its weights. -/
def tapB (A : S5000x576.Idx → EReal) (B : S9x64x64.Idx → EReal) (o k : ℕ) (ho : o + 64 ≤ 576) (hk : k < 9)
    (p : Fin 5000) (j : Fin 64) : EReal :=
  ∑ l : Fin 64, A (ix2 p ⟨o + l.val, by have := l.isLt; omega⟩) * B (ix3 ⟨k, hk⟩ l j)

/-- The first part's sum at an index of the block: the first eight taps added from zero, in order. -/
theorem k1_pay4_apply (v0 : Vec Ideal S5000x576 .bf16) (v2 : Vec Ideal S9x64x64 .f32) (p : Fin 5000) (j : Fin 64) :
    k1_pay4 v0 v2 (ix2 p j) = ((((((((0 + tapB v0 v2 0 0 (by norm_num) (by norm_num) p j) + tapB v0 v2 64 1 (by norm_num) (by norm_num) p j) + tapB v0 v2 128 2 (by norm_num) (by norm_num) p j) + tapB v0 v2 192 3 (by norm_num) (by norm_num) p j) + tapB v0 v2 256 4 (by norm_num) (by norm_num) p j) + tapB v0 v2 320 5 (by norm_num) (by norm_num) p j) + tapB v0 v2 384 6 (by norm_num) (by norm_num) p j) + tapB v0 v2 448 7 (by norm_num) (by norm_num) p j) := by
  unfold k1_pay4
  simp only [addf_apply, broadcast_apply, matmul, tap_apply, k1_pay2_eq, zero_f32]
  rfl

/-- The body's payload at an index of the block, from the first part's results: the ninth tap added, the scale,
    shift and clamp; the product with the last weights, scaled and shifted; the residual added and the last clamp. -/
theorem k1_pay1_apply (v1 : FVec Ideal S5000x576 .bf16) (v3 : FVec Ideal S9x64x64 .bf16) (v44 : FVec Ideal S5000x64 .f32)
    (s2 b2 : Vec Ideal S1x64 .f32) (W3 : Vec Ideal S64x256 .f32) (s3 b3 : Vec Ideal S1x256 .f32) (X7 : Vec Ideal S5000x256 .f32)
    (p : Fin 5000) (ch : Fin 256) :
    k1_pay1 v1 v3 v44 s2 b2 W3 s3 b3 X7 (ix2 p ch)
      = max ((∑ j : Fin 64, max ((v44 (ix2 p j) + tapB v1 v3 512 8 (by norm_num) (by norm_num) p j) * s2 (ix2 (0 : Fin 1) j)
              + b2 (ix2 (0 : Fin 1) j)) 0 * W3 (ix2 j ch)) * s3 (ix2 (0 : Fin 1) ch) + b3 (ix2 (0 : Fin 1) ch)
            + X7 (ix2 p ch)) 0 := by
  unfold k1_pay1
  simp only [truncf_apply, maximumf_apply, addf_apply, mulf_apply, broadcast_apply, matmul, shapeCast_self]
  rw [Cert.LibDotSingle.matmul_zero_single dot_S5000x64_S64x256_S5000x256_1_0_0_1_n_n none 64 D3_hr D3_hs _ _ (ix2 p ch)
      (fun j => max ((v44 (ix2 p j) + tapB v1 v3 512 8 (by norm_num) (by norm_num) p j) * s2 (ix2 (0 : Fin 1) j)
              + b2 (ix2 (0 : Fin 1) j)) 0)
      (fun j => W3 (ix2 j ch)) ?_ ?_,
    bcast_row_apply s3 _ (by decide) p ch, bcast_row_apply b3 _ (by decide) p ch, zero_f32]
  · intro k
    rw [D3_lhs]
    simp only [truncf_apply, maximumf_apply, addf_apply, mulf_apply, broadcast_apply, tap_apply,
      bcast_row_apply s2 broadcasts_S1x64_S5000x64 (by decide), bcast_row_apply b2 broadcasts_S1x64_S5000x64 (by decide), zero_f32]
    rfl
  · intro k
    rw [D3_rhs]
    rfl

/-- Row `i % 5000` of block `i / 5000` is row `i` of the array. -/
theorem rows5000_at {m : ℕ} {α : Type} (a : (⟨2, ![200000, m]⟩ : Shape).Idx → α) (i : Fin 200000) (d : Fin m) :
    rows5000 a ⟨i.val / 5000, by have := i.isLt; omega⟩ (ix2 (⟨i.val % 5000, Nat.mod_lt _ (by decide)⟩ : Fin 5000) d)
      = a (ix2 i d) := by
  rw [rows5000_apply]
  exact congrArg (fun r => a (ix2 r d)) (Fin.ext (by show i.val / 5000 * 5000 + i.val % 5000 = i.val; omega))

variable (V : (c : Dev nD) → (b : Ref sig .tc) → Buf (Elt Ideal) ((c : Thread nD τ).loc b))

/-- The region's output array at row `i`, channel `ch`. -/
theorem region1_apply (c : Dev nD) (i : Fin 200000) (ch : Fin 256) :
    (dat1 (F := Ideal) V c).arrAt 8 cfg1.N (ValueIdx.ix2 i ch)
      = Cert.Spec.out (fun k i l => V c main_v316 (ValueIdx.ix2 i (⟨64 * k.val + l.val, by omega⟩ : Fin 576))) (V c main_arg3)
          (fun j => V c main_v2 (ValueIdx.ix2 (0 : Fin 1) (j 0))) (fun j => V c main_v3 (ValueIdx.ix2 (0 : Fin 1) (j 0)))
          (V c main_arg4) (fun j => V c main_v4 (ValueIdx.ix2 (0 : Fin 1) (j 0))) (fun j => V c main_v5 (ValueIdx.ix2 (0 : Fin 1) (j 0)))
          (V c main_arg0) i ch := by
  rw [final1]
  show k1_pay1 (k1_pay2 (rows5000 (V c main_v316) ⟨i.val / 5000, _⟩)) (k1_pay3 (V c main_arg3))
      (k1_pay4 (rows5000 (V c main_v316) ⟨i.val / 5000, _⟩) (V c main_arg3)) (V c main_v2) (V c main_v3) (V c main_arg4)
      (V c main_v4) (V c main_v5) (rows5000 (V c main_arg0) ⟨i.val / 5000, _⟩) (ix2 (⟨i.val % 5000, _⟩ : Fin 5000) ch) = _
  rw [k1_pay1_apply]
  simp only [k1_pay4_apply, k1_pay2_eq, tapB, rows5000_at]
  rfl

end Cert.KernelIdeal.Body

end
-- ==== Proof.KValue1.lean ====
/-
  The idealized kernel program's output array, index by index: the block's output, its taps' rows being the columns of
  the gathered array the host operations build (tap k's channel l is column 64·k + l).
-/
import proofs.«125710_j13511967113615_2_alg».proof.Proof.KValue
import proofs.«125710_j13511967113615_2_alg».proof.Proof.KIdx1

noncomputable section

namespace Cert.Proof.KValue

open Idealize.ShloMosaic Idealize.ShloMosaic.TcCoe Idealize.ShloMosaic.ValueIdx
open Cert.KernelIdeal Cert.KernelIdeal.Gen Cert.Proof.Halves
open Cert.KernelIdeal.Glue (V61_arg0 V61_arg3 V61_arg4)
open Cert.KernelIdeal.KFacts (v2_apply v3_apply v4_apply v5_apply)

variable (m : (ℓ : Loc nD τ sig) → Buf (Elt Ideal) ℓ) (c : Dev nD)

/-- THE OUTPUT. What the second pallas_call leaves in its output array, at (i, ch). -/
theorem out_value (i : Fin 200000) (ch : Fin 256) :
    (halfI1.dat (KRun.VV61 halfI0 m) c).arrAt 8 cfg1.N (ix2 i ch)
      = Cert.Spec.out (fun k i l => GenP.V61 m (KRun.outsA halfI0 m) c main_v316 (ix2 i (⟨64 * k.val + l.val, by omega⟩ : Fin 576)))
          (m ((c : Thread nD τ).loc main_arg3)) (m ((c : Thread nD τ).loc main_arg7)) (m ((c : Thread nD τ).loc main_arg8))
          (m ((c : Thread nD τ).loc main_arg4)) (m ((c : Thread nD τ).loc main_arg9)) (m ((c : Thread nD τ).loc main_arg10))
          (m ((c : Thread nD τ).loc main_arg0)) i ch := by
  show (Cert.KernelIdeal.Body.dat1 (KRun.VV61 halfI0 m) c).arrAt 8 cfg1.N (ix2 i ch) = _
  rw [Cert.KernelIdeal.Body.region1_apply]
  have e0 : KRun.VV61 halfI0 m c main_arg0 = m ((c : Thread nD τ).loc main_arg0) := V61_arg0 m _ c
  have e3 : KRun.VV61 halfI0 m c main_arg3 = m ((c : Thread nD τ).loc main_arg3) := V61_arg3 m _ c
  have e4 : KRun.VV61 halfI0 m c main_arg4 = m ((c : Thread nD τ).loc main_arg4) := V61_arg4 m _ c
  have e7 : (fun j : (⟨1, ![64]⟩ : Shape).Idx => KRun.VV61 halfI0 m c main_v2 (ix2 (0 : Fin 1) (j 0)))
      = m ((c : Thread nD τ).loc main_arg7) := by
    funext j; exact (v2_apply m _ c (j 0)).trans (congrArg _ (ix1_coord j))
  have e8 : (fun j : (⟨1, ![64]⟩ : Shape).Idx => KRun.VV61 halfI0 m c main_v3 (ix2 (0 : Fin 1) (j 0)))
      = m ((c : Thread nD τ).loc main_arg8) := by
    funext j; exact (v3_apply m _ c (j 0)).trans (congrArg _ (ix1_coord j))
  have e9 : (fun j : (⟨1, ![256]⟩ : Shape).Idx => KRun.VV61 halfI0 m c main_v4 (ix2 (0 : Fin 1) (j 0)))
      = m ((c : Thread nD τ).loc main_arg9) := by
    funext j; exact (v4_apply m _ c (j 0)).trans (congrArg _ (ix1_coord j))
  have e10 : (fun j : (⟨1, ![256]⟩ : Shape).Idx => KRun.VV61 halfI0 m c main_v5 (ix2 (0 : Fin 1) (j 0)))
      = m ((c : Thread nD τ).loc main_arg10) := by
    funext j; exact (v5_apply m _ c (j 0)).trans (congrArg _ (ix1_coord j))
  rw [e0, e3, e4, e7, e8, e9, e10]

end Cert.Proof.KValue
end
-- ==== Proof.RefRead0.lean ====
/- Window 0 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v0 (m : (ℓ : Loc nD τ sig) → Buf (Elt F) ℓ) (c : Dev nD) :
    (RefRun.E m c (Proc.devRef .tc main_v0)) = ((fun l r => Host.dotGeneral dot_S200000x256_S256x64_S200000x64_1_0_0_1_n_n none l r) : (⟨S200000x256, .f32⟩ : BufTy).Contents (Elt F) → (⟨S256x64, .f32⟩ : BufTy).Contents (Elt F) → (⟨S200000x64, .f32⟩ : BufTy).Contents (Elt F)) (RefRun.E m c (Proc.devRef .tc main_arg0)) (RefRun.E m c (Proc.devRef .tc main_arg2)) :=
  end2 RefRun.hW0 (RefRun.V0 m c) (RefRun.E m c) RefRun.later0 (RefRun.T0 m c) 0 main_arg0 main_arg2 main_v0 ((fun l r => Host.dotGeneral dot_S200000x256_S256x64_S200000x64_1_0_0_1_n_n none l r) : (⟨S200000x256, .f32⟩ : BufTy).Contents (Elt F) → (⟨S256x64, .f32⟩ : BufTy).Contents (Elt F) → (⟨S200000x64, .f32⟩ : BufTy).Contents (Elt F)) _ _ _ rfl (nk (by decide +kernel)) (nk (by decide +kernel)) (nk (by decide +kernel))

theorem rd_main_v1 (m : (ℓ : Loc nD τ sig) → Buf (Elt F) ℓ) (c : Dev nD) :
    (RefRun.E m c (Proc.devRef .tc main_v1)) = (broadcastInDim S1x64 ![1] bcast_S64_S1x64_1 : (⟨S64, .f32⟩ : BufTy).Contents (Elt F) → (⟨S1x64, .f32⟩ : BufTy).Contents (Elt F)) (RefRun.E m c (Proc.devRef .tc main_arg5)) :=
  end1 RefRun.hW0 (RefRun.V0 m c) (RefRun.E m c) RefRun.later0 (RefRun.T0 m c) 1 main_arg5 main_v1 (broadcastInDim S1x64 ![1] bcast_S64_S1x64_1 : (⟨S64, .f32⟩ : BufTy).Contents (Elt F) → (⟨S1x64, .f32⟩ : BufTy).Contents (Elt F)) _ _ rfl (nk (by decide +kernel)) (nk (by decide +kernel))

theorem rd_main_v2 (m : (ℓ : Loc nD τ sig) → Buf (Elt F) ℓ) (c : Dev nD) :
    (RefRun.E m c (Proc.devRef .tc main_v2)) = (broadcastInDim S200000x64 ![0, 1] bcast_S1x64_S200000x64_0_1 : (⟨S1x64, .f32⟩ : BufTy).Contents (Elt F) → (⟨S200000x64, .f32⟩ : BufTy).Contents (Elt F)) (RefRun.E m c (Proc.devRef .tc main_v1)) :=
  end1 RefRun.hW0 (RefRun.V0 m c) (RefRun.E m c) RefRun.later0 (RefRun.T0 m c) 2 main_v1 main_v2 (broadcastInDim S200000x64 ![0, 1] bcast_S1x64_S200000x64_0_1 : (⟨S1x64, .f32⟩ : BufTy).Contents (Elt F) → (⟨S200000x64, .f32⟩ : BufTy).Contents (Elt F)) _ _ rfl (nk (by decide +kernel)) (nk (by decide +kernel))

theorem rd_main_v3 (m : (ℓ : Loc nD τ sig) → Buf (Elt F) ℓ) (c : Dev nD) :
    (RefRun.E m c (Proc.devRef .tc main_v3)) = (mulf : (⟨S200000x64, .f32⟩ : BufTy).Contents (Elt F) → (⟨S200000x64, .f32⟩ : BufTy).Contents (Elt F) → (⟨S200000x64, .f32⟩ : BufTy).Contents (Elt F)) (RefRun.E m c (Proc.devRef .tc main_v0)) (RefRun.E m c (Proc.devRef .tc main_v2)) :=
  end2 RefRun.hW0 (RefRun.V0 m c) (RefRun.E m c) RefRun.later0 (RefRun.T0 m c) 3 main_v0 main_v2 main_v3 (mulf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_v4 (m : (ℓ : Loc nD τ sig) → Buf (Elt F) ℓ) (c : Dev nD) :
    (RefRun.E m c (Proc.devRef .tc main_v4)) = (broadcastInDim S1x64 ![1] bcast_S64_S1x64_1 : (⟨S64, .f32⟩ : BufTy).Contents (Elt F) → (⟨S1x64, .f32⟩ : BufTy).Contents (Elt F)) (RefRun.E m c (Proc.devRef .tc main_arg6)) :=
  end1 RefRun.hW0 (RefRun.V0 m c) (RefRun.E m c) RefRun.later0 (RefRun.T0 m c) 4 main_arg6 main_v4 (broadcastInDim S1x64 ![1] bcast_S64_S1x64_1 : (⟨S64, .f32⟩ : BufTy).Contents (Elt F) → (⟨S1x64, .f32⟩ : BufTy).Contents (Elt F)) _ _ rfl (nk (by decide +kernel)) (nk (by decide +kernel))

theorem rd_main_v5 (m : (ℓ : Loc nD τ sig) → Buf (Elt F) ℓ) (c : Dev nD) :
    (RefRun.E m c (Proc.devRef .tc main_v5)) = (broadcastInDim S200000x64 ![0, 1] bcast_S1x64_S200000x64_0_1 : (⟨S1x64, .f32⟩ : BufTy).Contents (Elt F) → (⟨S200000x64, .f32⟩ : BufTy).Contents (Elt F)) (RefRun.E m c (Proc.devRef .tc main_v4)) :=
  end1 RefRun.hW0 (RefRun.V0 m c) (RefRun.E m c) RefRun.later0 (RefRun.T0 m c) 5 main_v4 main_v5 (broadcastInDim S200000x64 ![0, 1] bcast_S1x64_S200000x64_0_1 : (⟨S1x64, .f32⟩ : BufTy).Contents (Elt F) → (⟨S200000x64, .f32⟩ : BufTy).Contents (Elt F)) _ _ rfl (nk (by decide +kernel)) (nk (by decide +kernel))

theorem rd_main_v6 (m : (ℓ : Loc nD τ sig) → Buf (Elt F) ℓ) (c : Dev nD) :
    (RefRun.E m c (Proc.devRef .tc main_v6)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v3)) (RefRun.E m c (Proc.devRef .tc main_v5)) :=
  end2 RefRun.hW0 (RefRun.V0 m c) (RefRun.E m c) RefRun.later0 (RefRun.T0 m c) 6 main_v3 main_v5 main_v6 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_call0_cst (m : (ℓ : Loc nD τ sig) → Buf (Elt F) ℓ) (c : Dev nD) :
    (RefRun.E m c (Proc.devRef .tc main_call0_cst)) = ((constant S_ .f32 0x00000000#32) : (⟨S_, .f32⟩ : BufTy).Contents (Elt F)) :=
  end0 RefRun.hW0 (RefRun.V0 m c) (RefRun.E m c) RefRun.later0 (RefRun.T0 m c) 7 main_call0_cst ((constant S_ .f32 0x00000000#32) : (⟨S_, .f32⟩ : BufTy).Contents (Elt F)) _ rfl (nk (by decide +kernel))

theorem rd_main_call0_v0 (m : (ℓ : Loc nD τ sig) → Buf (Elt F) ℓ) (c : Dev nD) :
    (RefRun.E m c (Proc.devRef .tc main_call0_v0)) = ((broadcastInDim S200000x64 ![] bcast_S_S200000x64) : (⟨S_, .f32⟩ : BufTy).Contents (Elt F) → (⟨S200000x64, .f32⟩ : BufTy).Contents (Elt F)) (RefRun.E m c (Proc.devRef .tc main_call0_cst)) :=
  end1 RefRun.hW0 (RefRun.V0 m c) (RefRun.E m c) RefRun.later0 (RefRun.T0 m c) 8 main_call0_cst main_call0_v0 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v7 (m : (ℓ : Loc nD τ sig) → Buf (Elt F) ℓ) (c : Dev nD) :
    (RefRun.E m c (Proc.devRef .tc main_v7)) = (maximumf : (⟨S200000x64, .f32⟩ : BufTy).Contents (Elt F) → (⟨S200000x64, .f32⟩ : BufTy).Contents (Elt F) → (⟨S200000x64, .f32⟩ : BufTy).Contents (Elt F)) (RefRun.E m c (Proc.devRef .tc main_v6)) (RefRun.E m c (Proc.devRef .tc main_call0_v0)) :=
  end2 RefRun.hW0 (RefRun.V0 m c) (RefRun.E m c) RefRun.later0 (RefRun.T0 m c) 9 main_v6 main_call0_v0 main_v7 (maximumf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c (m : (ℓ : Loc nD τ sig) → Buf (Elt F) ℓ) (c : Dev nD) :
    (RefRun.E m c (Proc.devRef .tc main_c)) = (constantI S_ 32 4294967295#32) :=
  end0 RefRun.hW0 (RefRun.V0 m c) (RefRun.E m c) RefRun.later0 (RefRun.T0 m c) 10 main_c (constantI S_ 32 4294967295#32) _ rfl (nk (by decide +kernel))

theorem rd_main_v8 (m : (ℓ : Loc nD τ sig) → Buf (Elt F) ℓ) (c : Dev nD) :
    (RefRun.E m c (Proc.devRef .tc main_v8)) = (broadcastInDim S589824 ![] bcast_S_S589824 : (⟨S_, .i32⟩ : BufTy).Contents (Elt F) → (⟨S589824, .i32⟩ : BufTy).Contents (Elt F)) (RefRun.E m c (Proc.devRef .tc main_c)) :=
  end1 RefRun.hW0 (RefRun.V0 m c) (RefRun.E m c) RefRun.later0 (RefRun.T0 m c) 11 main_c main_v8 (broadcastInDim S589824 ![] bcast_S_S589824 : (⟨S_, .i32⟩ : BufTy).Contents (Elt F) → (⟨S589824, .i32⟩ : BufTy).Contents (Elt F)) _ _ rfl (nk (by decide +kernel)) (nk (by decide +kernel))

theorem rd_main_v9 (m : (ℓ : Loc nD τ sig) → Buf (Elt F) ℓ) (c : Dev nD) :
    (RefRun.E m c (Proc.devRef .tc main_v9)) = (iotaInDim S200000 32 0) :=
  end0 RefRun.hW0 (RefRun.V0 m c) (RefRun.E m c) RefRun.later0 (RefRun.T0 m c) 12 main_v9 (iotaInDim S200000 32 0) _ rfl (nk (by decide +kernel))

theorem rd_main_c_0 (m : (ℓ : Loc nD τ sig) → Buf (Elt F) ℓ) (c : Dev nD) :
    (RefRun.E m c (Proc.devRef .tc main_c_0)) = (constantI S_ 32 0#32) :=
  end0 RefRun.hW0 (RefRun.V0 m c) (RefRun.E m c) RefRun.later0 (RefRun.T0 m c) 13 main_c_0 (constantI S_ 32 0#32) _ rfl (nk (by decide +kernel))

theorem rd_main_v10 (m : (ℓ : Loc nD τ sig) → Buf (Elt F) ℓ) (c : Dev nD) :
    (RefRun.E m c (Proc.devRef .tc main_v10)) = (broadcastInDim S200000 ![] bcast_S_S200000 : (⟨S_, .i32⟩ : BufTy).Contents (Elt F) → (⟨S200000, .i32⟩ : BufTy).Contents (Elt F)) (RefRun.E m c (Proc.devRef .tc main_c_0)) :=
  end1 RefRun.hW0 (RefRun.V0 m c) (RefRun.E m c) RefRun.later0 (RefRun.T0 m c) 14 main_c_0 main_v10 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v11 (m : (ℓ : Loc nD τ sig) → Buf (Elt F) ℓ) (c : Dev nD) :
    (RefRun.E m c (Proc.devRef .tc main_v11)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_arg1)) (RefRun.E m c (Proc.devRef .tc main_v10)) :=
  end2 RefRun.hW0 (RefRun.V0 m c) (RefRun.E m c) RefRun.later0 (RefRun.T0 m c) 15 main_arg1 main_v10 main_v11 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_1 (m : (ℓ : Loc nD τ sig) → Buf (Elt F) ℓ) (c : Dev nD) :
    (RefRun.E m c (Proc.devRef .tc main_c_1)) = (constantI S_ 32 589824#32) :=
  end0 RefRun.hW0 (RefRun.V0 m c) (RefRun.E m c) RefRun.later0 (RefRun.T0 m c) 16 main_c_1 (constantI S_ 32 589824#32) _ rfl (nk (by decide +kernel))

theorem rd_main_v12 (m : (ℓ : Loc nD τ sig) → Buf (Elt F) ℓ) (c : Dev nD) :
    (RefRun.E m c (Proc.devRef .tc main_v12)) = (broadcastInDim S200000 ![] bcast_S_S200000 : (⟨S_, .i32⟩ : BufTy).Contents (Elt F) → (⟨S200000, .i32⟩ : BufTy).Contents (Elt F)) (RefRun.E m c (Proc.devRef .tc main_c_1)) :=
  end1 RefRun.hW0 (RefRun.V0 m c) (RefRun.E m c) RefRun.later0 (RefRun.T0 m c) 17 main_c_1 main_v12 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v13 (m : (ℓ : Loc nD τ sig) → Buf (Elt F) ℓ) (c : Dev nD) :
    (RefRun.E m c (Proc.devRef .tc main_v13)) = (addi : (⟨S200000, .i32⟩ : BufTy).Contents (Elt F) → (⟨S200000, .i32⟩ : BufTy).Contents (Elt F) → (⟨S200000, .i32⟩ : BufTy).Contents (Elt F)) (RefRun.E m c (Proc.devRef .tc main_arg1)) (RefRun.E m c (Proc.devRef .tc main_v12)) :=
  end2 RefRun.hW0 (RefRun.V0 m c) (RefRun.E m c) RefRun.later0 (RefRun.T0 m c) 18 main_arg1 main_v12 main_v13 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v14 (m : (ℓ : Loc nD τ sig) → Buf (Elt F) ℓ) (c : Dev nD) :
    (RefRun.E m c (Proc.devRef .tc main_v14)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v11)) (RefRun.E m c (Proc.devRef .tc main_v13)) (RefRun.E m c (Proc.devRef .tc main_arg1)) :=
  end3 RefRun.hW0 (RefRun.V0 m c) (RefRun.E m c) RefRun.later0 (RefRun.T0 m c) 19 main_v11 main_v13 main_arg1 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v15 (m : (ℓ : Loc nD τ sig) → Buf (Elt F) ℓ) (c : Dev nD) :
    (RefRun.E m c (Proc.devRef .tc main_v15)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v14)) :=
  end1 RefRun.hW0 (RefRun.V0 m c) (RefRun.E m c) RefRun.later0 (RefRun.T0 m c) 20 main_v14 main_v15 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v16 (m : (ℓ : Loc nD τ sig) → Buf (Elt F) ℓ) (c : Dev nD) :
    (RefRun.E m c (Proc.devRef .tc main_v16)) = ((fun x i u => Host.scatter scatter_S589824_S200000x1_S200000_n_0_0_1 (fun _ b => b) x i u) : (⟨S589824, .i32⟩ : BufTy).Contents (Elt F) → (⟨S200000x1, .i32⟩ : BufTy).Contents (Elt F) → (⟨S200000, .i32⟩ : BufTy).Contents (Elt F) → (⟨S589824, .i32⟩ : BufTy).Contents (Elt F)) (RefRun.E m c (Proc.devRef .tc main_v8)) (RefRun.E m c (Proc.devRef .tc main_v15)) (RefRun.E m c (Proc.devRef .tc main_v9)) :=
  end3 RefRun.hW0 (RefRun.V0 m c) (RefRun.E m c) RefRun.later0 (RefRun.T0 m c) 21 main_v8 main_v15 main_v9 main_v16 ((fun x i u => Host.scatter scatter_S589824_S200000x1_S200000_n_0_0_1 (fun _ b => b) x i u) : (⟨S589824, .i32⟩ : BufTy).Contents (Elt F) → (⟨S200000x1, .i32⟩ : BufTy).Contents (Elt F) → (⟨S200000, .i32⟩ : BufTy).Contents (Elt F) → (⟨S589824, .i32⟩ : BufTy).Contents (Elt F)) _ _ _ _ rfl (nk (by decide +kernel)) (nk (by decide +kernel)) (nk (by decide +kernel)) (nk (by decide +kernel))

theorem rd_main_c_2 (m : (ℓ : Loc nD τ sig) → Buf (Elt F) ℓ) (c : Dev nD) :
    (RefRun.E m c (Proc.devRef .tc main_c_2)) = (constantI S_ 32 768#32) :=
  end0 RefRun.hW0 (RefRun.V0 m c) (RefRun.E m c) RefRun.later0 (RefRun.T0 m c) 22 main_c_2 (constantI S_ 32 768#32) _ rfl (nk (by decide +kernel))

theorem rd_main_call1_v0 (m : (ℓ : Loc nD τ sig) → Buf (Elt F) ℓ) (c : Dev nD) :
    (RefRun.E m c (Proc.devRef .tc main_call1_v0)) = (id : (⟨S_, .i32⟩ : BufTy).Contents (Elt F) → (⟨S_, .i32⟩ : BufTy).Contents (Elt F)) (RefRun.E m c (Proc.devRef .tc main_c_2)) :=
  end1 RefRun.hW0 (RefRun.V0 m c) (RefRun.E m c) RefRun.later0 (RefRun.T0 m c) 23 main_c_2 main_call1_v0 (id : (⟨S_, .i32⟩ : BufTy).Contents (Elt F) → (⟨S_, .i32⟩ : BufTy).Contents (Elt F)) _ _ rfl (nk (by decide +kernel)) (nk (by decide +kernel))

theorem rd_main_call1_v1 (m : (ℓ : Loc nD τ sig) → Buf (Elt F) ℓ) (c : Dev nD) :
    (RefRun.E m c (Proc.devRef .tc main_call1_v1)) = ((broadcastInDim S200000 ![] bcast_S_S200000) : (⟨S_, .i32⟩ : BufTy).Contents (Elt F) → (⟨S200000, .i32⟩ : BufTy).Contents (Elt F)) (RefRun.E m c (Proc.devRef .tc main_call1_v0)) :=
  end1 RefRun.hW0 (RefRun.V0 m c) (RefRun.E m c) RefRun.later0 (RefRun.T0 m c) 24 main_call1_v0 main_call1_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call1_v2 (m : (ℓ : Loc nD τ sig) → Buf (Elt F) ℓ) (c : Dev nD) :
    (RefRun.E m c (Proc.devRef .tc main_call1_v2)) = (Host.divsi : (⟨S200000, .i32⟩ : BufTy).Contents (Elt F) → (⟨S200000, .i32⟩ : BufTy).Contents (Elt F) → (⟨S200000, .i32⟩ : BufTy).Contents (Elt F)) (RefRun.E m c (Proc.devRef .tc main_arg1)) (RefRun.E m c (Proc.devRef .tc main_call1_v1)) :=
  end2 RefRun.hW0 (RefRun.V0 m c) (RefRun.E m c) RefRun.later0 (RefRun.T0 m c) 25 main_arg1 main_call1_v1 main_call1_v2 (Host.divsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call1_v3 (m : (ℓ : Loc nD τ sig) → Buf (Elt F) ℓ) (c : Dev nD) :
    (RefRun.E m c (Proc.devRef .tc main_call1_v3)) = (signi : (⟨S200000, .i32⟩ : BufTy).Contents (Elt F) → (⟨S200000, .i32⟩ : BufTy).Contents (Elt F)) (RefRun.E m c (Proc.devRef .tc main_arg1)) :=
  end1 RefRun.hW0 (RefRun.V0 m c) (RefRun.E m c) RefRun.later0 (RefRun.T0 m c) 26 main_arg1 main_call1_v3 (signi : (⟨S200000, .i32⟩ : BufTy).Contents (Elt F) → (⟨S200000, .i32⟩ : BufTy).Contents (Elt F)) _ _ rfl (nk (by decide +kernel)) (nk (by decide +kernel))

theorem rd_main_call1_v4 (m : (ℓ : Loc nD τ sig) → Buf (Elt F) ℓ) (c : Dev nD) :
    (RefRun.E m c (Proc.devRef .tc main_call1_v4)) = (signi : (⟨S_, .i32⟩ : BufTy).Contents (Elt F) → (⟨S_, .i32⟩ : BufTy).Contents (Elt F)) (RefRun.E m c (Proc.devRef .tc main_call1_v0)) :=
  end1 RefRun.hW0 (RefRun.V0 m c) (RefRun.E m c) RefRun.later0 (RefRun.T0 m c) 27 main_call1_v0 main_call1_v4 (signi : (⟨S_, .i32⟩ : BufTy).Contents (Elt F) → (⟨S_, .i32⟩ : BufTy).Contents (Elt F)) _ _ rfl (nk (by decide +kernel)) (nk (by decide +kernel))

theorem rd_main_call1_v5 (m : (ℓ : Loc nD τ sig) → Buf (Elt F) ℓ) (c : Dev nD) :
    (RefRun.E m c (Proc.devRef .tc main_call1_v5)) = ((broadcastInDim S200000 ![] bcast_S_S200000) : (⟨S_, .i32⟩ : BufTy).Contents (Elt F) → (⟨S200000, .i32⟩ : BufTy).Contents (Elt F)) (RefRun.E m c (Proc.devRef .tc main_call1_v4)) :=
  end1 RefRun.hW0 (RefRun.V0 m c) (RefRun.E m c) RefRun.later0 (RefRun.T0 m c) 28 main_call1_v4 main_call1_v5 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call1_v6 (m : (ℓ : Loc nD τ sig) → Buf (Elt F) ℓ) (c : Dev nD) :
    (RefRun.E m c (Proc.devRef .tc main_call1_v6)) = ((cmpi .ne) : (⟨S200000, .i32⟩ : BufTy).Contents (Elt F) → (⟨S200000, .i32⟩ : BufTy).Contents (Elt F) → (⟨S200000, .i1⟩ : BufTy).Contents (Elt F)) (RefRun.E m c (Proc.devRef .tc main_call1_v3)) (RefRun.E m c (Proc.devRef .tc main_call1_v5)) :=
  end2 RefRun.hW0 (RefRun.V0 m c) (RefRun.E m c) RefRun.later0 (RefRun.T0 m c) 29 main_call1_v3 main_call1_v5 main_call1_v6 ((cmpi .ne) : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_call1_v7 (m : (ℓ : Loc nD τ sig) → Buf (Elt F) ℓ) (c : Dev nD) :
    (RefRun.E m c (Proc.devRef .tc main_call1_v7)) = ((broadcastInDim S200000 ![] bcast_S_S200000) : (⟨S_, .i32⟩ : BufTy).Contents (Elt F) → (⟨S200000, .i32⟩ : BufTy).Contents (Elt F)) (RefRun.E m c (Proc.devRef .tc main_call1_v0)) :=
  end1 RefRun.hW0 (RefRun.V0 m c) (RefRun.E m c) RefRun.later0 (RefRun.T0 m c) 30 main_call1_v0 main_call1_v7 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call1_v8 (m : (ℓ : Loc nD τ sig) → Buf (Elt F) ℓ) (c : Dev nD) :
    (RefRun.E m c (Proc.devRef .tc main_call1_v8)) = (Host.remsi : (⟨S200000, .i32⟩ : BufTy).Contents (Elt F) → (⟨S200000, .i32⟩ : BufTy).Contents (Elt F) → (⟨S200000, .i32⟩ : BufTy).Contents (Elt F)) (RefRun.E m c (Proc.devRef .tc main_arg1)) (RefRun.E m c (Proc.devRef .tc main_call1_v7)) :=
  end2 RefRun.hW0 (RefRun.V0 m c) (RefRun.E m c) RefRun.later0 (RefRun.T0 m c) 31 main_arg1 main_call1_v7 main_call1_v8 (Host.remsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call1_c (m : (ℓ : Loc nD τ sig) → Buf (Elt F) ℓ) (c : Dev nD) :
    (RefRun.E m c (Proc.devRef .tc main_call1_c)) = ((constantI S_ 32 0#32) : (⟨S_, .i32⟩ : BufTy).Contents (Elt F)) :=
  end0 RefRun.hW0 (RefRun.V0 m c) (RefRun.E m c) RefRun.later0 (RefRun.T0 m c) 32 main_call1_c ((constantI S_ 32 0#32) : (⟨S_, .i32⟩ : BufTy).Contents (Elt F)) _ rfl (nk (by decide +kernel))

theorem rd_main_call1_v9 (m : (ℓ : Loc nD τ sig) → Buf (Elt F) ℓ) (c : Dev nD) :
    (RefRun.E m c (Proc.devRef .tc main_call1_v9)) = ((broadcastInDim S200000 ![] bcast_S_S200000) : (⟨S_, .i32⟩ : BufTy).Contents (Elt F) → (⟨S200000, .i32⟩ : BufTy).Contents (Elt F)) (RefRun.E m c (Proc.devRef .tc main_call1_c)) :=
  end1 RefRun.hW0 (RefRun.V0 m c) (RefRun.E m c) RefRun.later0 (RefRun.T0 m c) 33 main_call1_c main_call1_v9 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call1_v10 (m : (ℓ : Loc nD τ sig) → Buf (Elt F) ℓ) (c : Dev nD) :
    (RefRun.E m c (Proc.devRef .tc main_call1_v10)) = ((cmpi .ne) : (⟨S200000, .i32⟩ : BufTy).Contents (Elt F) → (⟨S200000, .i32⟩ : BufTy).Contents (Elt F) → (⟨S200000, .i1⟩ : BufTy).Contents (Elt F)) (RefRun.E m c (Proc.devRef .tc main_call1_v8)) (RefRun.E m c (Proc.devRef .tc main_call1_v9)) :=
  end2 RefRun.hW0 (RefRun.V0 m c) (RefRun.E m c) RefRun.later0 (RefRun.T0 m c) 34 main_call1_v8 main_call1_v9 main_call1_v10 ((cmpi .ne) : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_call1_v11 (m : (ℓ : Loc nD τ sig) → Buf (Elt F) ℓ) (c : Dev nD) :
    (RefRun.E m c (Proc.devRef .tc main_call1_v11)) = (andi : (⟨S200000, .i1⟩ : BufTy).Contents (Elt F) → (⟨S200000, .i1⟩ : BufTy).Contents (Elt F) → (⟨S200000, .i1⟩ : BufTy).Contents (Elt F)) (RefRun.E m c (Proc.devRef .tc main_call1_v6)) (RefRun.E m c (Proc.devRef .tc main_call1_v10)) :=
  end2 RefRun.hW0 (RefRun.V0 m c) (RefRun.E m c) RefRun.later0 (RefRun.T0 m c) 35 main_call1_v6 main_call1_v10 main_call1_v11 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_call1_c_0 (m : (ℓ : Loc nD τ sig) → Buf (Elt F) ℓ) (c : Dev nD) :
    (RefRun.E m c (Proc.devRef .tc main_call1_c_0)) = ((constantI S_ 32 1#32) : (⟨S_, .i32⟩ : BufTy).Contents (Elt F)) :=
  end0 RefRun.hW0 (RefRun.V0 m c) (RefRun.E m c) RefRun.later0 (RefRun.T0 m c) 36 main_call1_c_0 ((constantI S_ 32 1#32) : (⟨S_, .i32⟩ : BufTy).Contents (Elt F)) _ rfl (nk (by decide +kernel))

theorem rd_main_call1_v12 (m : (ℓ : Loc nD τ sig) → Buf (Elt F) ℓ) (c : Dev nD) :
    (RefRun.E m c (Proc.devRef .tc main_call1_v12)) = ((broadcastInDim S200000 ![] bcast_S_S200000) : (⟨S_, .i32⟩ : BufTy).Contents (Elt F) → (⟨S200000, .i32⟩ : BufTy).Contents (Elt F)) (RefRun.E m c (Proc.devRef .tc main_call1_c_0)) :=
  end1 RefRun.hW0 (RefRun.V0 m c) (RefRun.E m c) RefRun.later0 (RefRun.T0 m c) 37 main_call1_c_0 main_call1_v12 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call1_v13 (m : (ℓ : Loc nD τ sig) → Buf (Elt F) ℓ) (c : Dev nD) :
    (RefRun.E m c (Proc.devRef .tc main_call1_v13)) = (subi : (⟨S200000, .i32⟩ : BufTy).Contents (Elt F) → (⟨S200000, .i32⟩ : BufTy).Contents (Elt F) → (⟨S200000, .i32⟩ : BufTy).Contents (Elt F)) (RefRun.E m c (Proc.devRef .tc main_call1_v2)) (RefRun.E m c (Proc.devRef .tc main_call1_v12)) :=
  end2 RefRun.hW0 (RefRun.V0 m c) (RefRun.E m c) RefRun.later0 (RefRun.T0 m c) 38 main_call1_v2 main_call1_v12 main_call1_v13 (subi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v17 (m : (ℓ : Loc nD τ sig) → Buf (Elt F) ℓ) (c : Dev nD) :
    (RefRun.E m c (Proc.devRef .tc main_v17)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_call1_v11)) (RefRun.E m c (Proc.devRef .tc main_call1_v13)) (RefRun.E m c (Proc.devRef .tc main_call1_v2)) :=
  end3 RefRun.hW0 (RefRun.V0 m c) (RefRun.E m c) RefRun.later0 (RefRun.T0 m c) 39 main_call1_v11 main_call1_v13 main_call1_v2 main_v17 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_c_3 (m : (ℓ : Loc nD τ sig) → Buf (Elt F) ℓ) (c : Dev nD) :
    (RefRun.E m c (Proc.devRef .tc main_c_3)) = (constantI S_ 32 768#32) :=
  end0 RefRun.hW0 (RefRun.V0 m c) (RefRun.E m c) RefRun.later0 (RefRun.T0 m c) 40 main_c_3 (constantI S_ 32 768#32) _ rfl (nk (by decide +kernel))

theorem rd_main_call2_v0 (m : (ℓ : Loc nD τ sig) → Buf (Elt F) ℓ) (c : Dev nD) :
    (RefRun.E m c (Proc.devRef .tc main_call2_v0)) = (id : (⟨S_, .i32⟩ : BufTy).Contents (Elt F) → (⟨S_, .i32⟩ : BufTy).Contents (Elt F)) (RefRun.E m c (Proc.devRef .tc main_c_3)) :=
  end1 RefRun.hW0 (RefRun.V0 m c) (RefRun.E m c) RefRun.later0 (RefRun.T0 m c) 41 main_c_3 main_call2_v0 (id : (⟨S_, .i32⟩ : BufTy).Contents (Elt F) → (⟨S_, .i32⟩ : BufTy).Contents (Elt F)) _ _ rfl (nk (by decide +kernel)) (nk (by decide +kernel))

theorem rd_main_call2_c (m : (ℓ : Loc nD τ sig) → Buf (Elt F) ℓ) (c : Dev nD) :
    (RefRun.E m c (Proc.devRef .tc main_call2_c)) = ((constantI S_ 32 0#32) : (⟨S_, .i32⟩ : BufTy).Contents (Elt F)) :=
  end0 RefRun.hW0 (RefRun.V0 m c) (RefRun.E m c) RefRun.later0 (RefRun.T0 m c) 42 main_call2_c ((constantI S_ 32 0#32) : (⟨S_, .i32⟩ : BufTy).Contents (Elt F)) _ rfl (nk (by decide +kernel))

theorem rd_main_call2_v1 (m : (ℓ : Loc nD τ sig) → Buf (Elt F) ℓ) (c : Dev nD) :
    (RefRun.E m c (Proc.devRef .tc main_call2_v1)) = ((cmpi .eq) : (⟨S_, .i32⟩ : BufTy).Contents (Elt F) → (⟨S_, .i32⟩ : BufTy).Contents (Elt F) → (⟨S_, .i1⟩ : BufTy).Contents (Elt F)) (RefRun.E m c (Proc.devRef .tc main_call2_v0)) (RefRun.E m c (Proc.devRef .tc main_call2_c)) :=
  end2 RefRun.hW0 (RefRun.V0 m c) (RefRun.E m c) RefRun.later0 (RefRun.T0 m c) 43 main_call2_v0 main_call2_c main_call2_v1 ((cmpi .eq) : (⟨S_, .i32⟩ : BufTy).Contents (Elt F) → (⟨S_, .i32⟩ : BufTy).Contents (Elt F) → (⟨S_, .i1⟩ : BufTy).Contents (Elt F)) _ _ _ rfl (nk (by decide +kernel)) (nk (by decide +kernel)) (nk (by decide +kernel))

theorem rd_main_call2_c_0 (m : (ℓ : Loc nD τ sig) → Buf (Elt F) ℓ) (c : Dev nD) :
    (RefRun.E m c (Proc.devRef .tc main_call2_c_0)) = ((constantI S_ 32 1#32) : (⟨S_, .i32⟩ : BufTy).Contents (Elt F)) :=
  end0 RefRun.hW0 (RefRun.V0 m c) (RefRun.E m c) RefRun.later0 (RefRun.T0 m c) 44 main_call2_c_0 ((constantI S_ 32 1#32) : (⟨S_, .i32⟩ : BufTy).Contents (Elt F)) _ rfl (nk (by decide +kernel))

theorem rd_main_call2_v2 (m : (ℓ : Loc nD τ sig) → Buf (Elt F) ℓ) (c : Dev nD) :
    (RefRun.E m c (Proc.devRef .tc main_call2_v2)) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (RefRun.E m c (Proc.devRef .tc main_call2_v1)) (RefRun.E m c (Proc.devRef .tc main_call2_c_0)) (RefRun.E m c (Proc.devRef .tc main_call2_v0)) :=
  end3 RefRun.hW0 (RefRun.V0 m c) (RefRun.E m c) RefRun.later0 (RefRun.T0 m c) 45 main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)) _ _ _ _ rfl (nk (by decide +kernel)) (nk (by decide +kernel)) (nk (by decide +kernel)) (nk (by decide +kernel))

theorem rd_main_call2_v3 (m : (ℓ : Loc nD τ sig) → Buf (Elt F) ℓ) (c : Dev nD) :
    (RefRun.E m c (Proc.devRef .tc main_call2_v3)) = ((broadcastInDim S200000 ![] bcast_S_S200000) : (⟨S_, .i32⟩ : BufTy).Contents (Elt F) → (⟨S200000, .i32⟩ : BufTy).Contents (Elt F)) (RefRun.E m c (Proc.devRef .tc main_call2_v2)) :=
  end1 RefRun.hW0 (RefRun.V0 m c) (RefRun.E m c) RefRun.later0 (RefRun.T0 m c) 46 main_call2_v2 main_call2_v3 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call2_v4 (m : (ℓ : Loc nD τ sig) → Buf (Elt F) ℓ) (c : Dev nD) :
    (RefRun.E m c (Proc.devRef .tc main_call2_v4)) = (Host.remsi : (⟨S200000, .i32⟩ : BufTy).Contents (Elt F) → (⟨S200000, .i32⟩ : BufTy).Contents (Elt F) → (⟨S200000, .i32⟩ : BufTy).Contents (Elt F)) (RefRun.E m c (Proc.devRef .tc main_arg1)) (RefRun.E m c (Proc.devRef .tc main_call2_v3)) :=
  end2 RefRun.hW0 (RefRun.V0 m c) (RefRun.E m c) RefRun.later0 (RefRun.T0 m c) 47 main_arg1 main_call2_v3 main_call2_v4 (Host.remsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call2_c_1 (m : (ℓ : Loc nD τ sig) → Buf (Elt F) ℓ) (c : Dev nD) :
    (RefRun.E m c (Proc.devRef .tc main_call2_c_1)) = ((constantI S_ 32 0#32) : (⟨S_, .i32⟩ : BufTy).Contents (Elt F)) :=
  end0 RefRun.hW0 (RefRun.V0 m c) (RefRun.E m c) RefRun.later0 (RefRun.T0 m c) 48 main_call2_c_1 ((constantI S_ 32 0#32) : (⟨S_, .i32⟩ : BufTy).Contents (Elt F)) _ rfl (nk (by decide +kernel))

theorem rd_main_call2_v5 (m : (ℓ : Loc nD τ sig) → Buf (Elt F) ℓ) (c : Dev nD) :
    (RefRun.E m c (Proc.devRef .tc main_call2_v5)) = ((broadcastInDim S200000 ![] bcast_S_S200000) : (⟨S_, .i32⟩ : BufTy).Contents (Elt F) → (⟨S200000, .i32⟩ : BufTy).Contents (Elt F)) (RefRun.E m c (Proc.devRef .tc main_call2_c_1)) :=
  end1 RefRun.hW0 (RefRun.V0 m c) (RefRun.E m c) RefRun.later0 (RefRun.T0 m c) 49 main_call2_c_1 main_call2_v5 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call2_v6 (m : (ℓ : Loc nD τ sig) → Buf (Elt F) ℓ) (c : Dev nD) :
    (RefRun.E m c (Proc.devRef .tc main_call2_v6)) = ((cmpi .ne) : (⟨S200000, .i32⟩ : BufTy).Contents (Elt F) → (⟨S200000, .i32⟩ : BufTy).Contents (Elt F) → (⟨S200000, .i1⟩ : BufTy).Contents (Elt F)) (RefRun.E m c (Proc.devRef .tc main_call2_v4)) (RefRun.E m c (Proc.devRef .tc main_call2_v5)) :=
  end2 RefRun.hW0 (RefRun.V0 m c) (RefRun.E m c) RefRun.later0 (RefRun.T0 m c) 50 main_call2_v4 main_call2_v5 main_call2_v6 ((cmpi .ne) : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_call2_c_2 (m : (ℓ : Loc nD τ sig) → Buf (Elt F) ℓ) (c : Dev nD) :
    (RefRun.E m c (Proc.devRef .tc main_call2_c_2)) = ((constantI S_ 32 0#32) : (⟨S_, .i32⟩ : BufTy).Contents (Elt F)) :=
  end0 RefRun.hW0 (RefRun.V0 m c) (RefRun.E m c) RefRun.later0 (RefRun.T0 m c) 51 main_call2_c_2 ((constantI S_ 32 0#32) : (⟨S_, .i32⟩ : BufTy).Contents (Elt F)) _ rfl (nk (by decide +kernel))

theorem rd_main_call2_v7 (m : (ℓ : Loc nD τ sig) → Buf (Elt F) ℓ) (c : Dev nD) :
    (RefRun.E m c (Proc.devRef .tc main_call2_v7)) = ((broadcastInDim S200000 ![] bcast_S_S200000) : (⟨S_, .i32⟩ : BufTy).Contents (Elt F) → (⟨S200000, .i32⟩ : BufTy).Contents (Elt F)) (RefRun.E m c (Proc.devRef .tc main_call2_c_2)) :=
  end1 RefRun.hW0 (RefRun.V0 m c) (RefRun.E m c) RefRun.later0 (RefRun.T0 m c) 52 main_call2_c_2 main_call2_v7 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call2_v8 (m : (ℓ : Loc nD τ sig) → Buf (Elt F) ℓ) (c : Dev nD) :
    (RefRun.E m c (Proc.devRef .tc main_call2_v8)) = ((cmpi .slt) : (⟨S200000, .i32⟩ : BufTy).Contents (Elt F) → (⟨S200000, .i32⟩ : BufTy).Contents (Elt F) → (⟨S200000, .i1⟩ : BufTy).Contents (Elt F)) (RefRun.E m c (Proc.devRef .tc main_call2_v4)) (RefRun.E m c (Proc.devRef .tc main_call2_v7)) :=
  end2 RefRun.hW0 (RefRun.V0 m c) (RefRun.E m c) RefRun.later0 (RefRun.T0 m c) 53 main_call2_v4 main_call2_v7 main_call2_v8 ((cmpi .slt) : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_call2_c_3 (m : (ℓ : Loc nD τ sig) → Buf (Elt F) ℓ) (c : Dev nD) :
    (RefRun.E m c (Proc.devRef .tc main_call2_c_3)) = ((constantI S_ 32 0#32) : (⟨S_, .i32⟩ : BufTy).Contents (Elt F)) :=
  end0 RefRun.hW0 (RefRun.V0 m c) (RefRun.E m c) RefRun.later0 (RefRun.T0 m c) 54 main_call2_c_3 ((constantI S_ 32 0#32) : (⟨S_, .i32⟩ : BufTy).Contents (Elt F)) _ rfl (nk (by decide +kernel))

theorem rd_main_call2_v9 (m : (ℓ : Loc nD τ sig) → Buf (Elt F) ℓ) (c : Dev nD) :
    (RefRun.E m c (Proc.devRef .tc main_call2_v9)) = ((cmpi .slt) : (⟨S_, .i32⟩ : BufTy).Contents (Elt F) → (⟨S_, .i32⟩ : BufTy).Contents (Elt F) → (⟨S_, .i1⟩ : BufTy).Contents (Elt F)) (RefRun.E m c (Proc.devRef .tc main_call2_v2)) (RefRun.E m c (Proc.devRef .tc main_call2_c_3)) :=
  end2 RefRun.hW0 (RefRun.V0 m c) (RefRun.E m c) RefRun.later0 (RefRun.T0 m c) 55 main_call2_v2 main_call2_c_3 main_call2_v9 ((cmpi .slt) : (⟨S_, .i32⟩ : BufTy).Contents (Elt F) → (⟨S_, .i32⟩ : BufTy).Contents (Elt F) → (⟨S_, .i1⟩ : BufTy).Contents (Elt F)) _ _ _ rfl (nk (by decide +kernel)) (nk (by decide +kernel)) (nk (by decide +kernel))

theorem rd_main_call2_v10 (m : (ℓ : Loc nD τ sig) → Buf (Elt F) ℓ) (c : Dev nD) :
    (RefRun.E m c (Proc.devRef .tc main_call2_v10)) = ((broadcastInDim S200000 ![] bcast_S_S200000) : (⟨S_, .i1⟩ : BufTy).Contents (Elt F) → (⟨S200000, .i1⟩ : BufTy).Contents (Elt F)) (RefRun.E m c (Proc.devRef .tc main_call2_v9)) :=
  end1 RefRun.hW0 (RefRun.V0 m c) (RefRun.E m c) RefRun.later0 (RefRun.T0 m c) 56 main_call2_v9 main_call2_v10 ((broadcastInDim S200000 ![] bcast_S_S200000) : (⟨S_, .i1⟩ : BufTy).Contents (Elt F) → (⟨S200000, .i1⟩ : BufTy).Contents (Elt F)) _ _ rfl (nk (by decide +kernel)) (nk (by decide +kernel))

theorem rd_main_call2_v11 (m : (ℓ : Loc nD τ sig) → Buf (Elt F) ℓ) (c : Dev nD) :
    (RefRun.E m c (Proc.devRef .tc main_call2_v11)) = ((cmpi .ne) : (⟨S200000, .i1⟩ : BufTy).Contents (Elt F) → (⟨S200000, .i1⟩ : BufTy).Contents (Elt F) → (⟨S200000, .i1⟩ : BufTy).Contents (Elt F)) (RefRun.E m c (Proc.devRef .tc main_call2_v8)) (RefRun.E m c (Proc.devRef .tc main_call2_v10)) :=
  end2 RefRun.hW0 (RefRun.V0 m c) (RefRun.E m c) RefRun.later0 (RefRun.T0 m c) 57 main_call2_v8 main_call2_v10 main_call2_v11 ((cmpi .ne) : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_call2_v12 (m : (ℓ : Loc nD τ sig) → Buf (Elt F) ℓ) (c : Dev nD) :
    (RefRun.E m c (Proc.devRef .tc main_call2_v12)) = (andi : (⟨S200000, .i1⟩ : BufTy).Contents (Elt F) → (⟨S200000, .i1⟩ : BufTy).Contents (Elt F) → (⟨S200000, .i1⟩ : BufTy).Contents (Elt F)) (RefRun.E m c (Proc.devRef .tc main_call2_v11)) (RefRun.E m c (Proc.devRef .tc main_call2_v6)) :=
  end2 RefRun.hW0 (RefRun.V0 m c) (RefRun.E m c) RefRun.later0 (RefRun.T0 m c) 58 main_call2_v11 main_call2_v6 main_call2_v12 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_call2_v13 (m : (ℓ : Loc nD τ sig) → Buf (Elt F) ℓ) (c : Dev nD) :
    (RefRun.E m c (Proc.devRef .tc main_call2_v13)) = ((broadcastInDim S200000 ![] bcast_S_S200000) : (⟨S_, .i32⟩ : BufTy).Contents (Elt F) → (⟨S200000, .i32⟩ : BufTy).Contents (Elt F)) (RefRun.E m c (Proc.devRef .tc main_call2_v2)) :=
  end1 RefRun.hW0 (RefRun.V0 m c) (RefRun.E m c) RefRun.later0 (RefRun.T0 m c) 59 main_call2_v2 main_call2_v13 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call2_v14 (m : (ℓ : Loc nD τ sig) → Buf (Elt F) ℓ) (c : Dev nD) :
    (RefRun.E m c (Proc.devRef .tc main_call2_v14)) = (addi : (⟨S200000, .i32⟩ : BufTy).Contents (Elt F) → (⟨S200000, .i32⟩ : BufTy).Contents (Elt F) → (⟨S200000, .i32⟩ : BufTy).Contents (Elt F)) (RefRun.E m c (Proc.devRef .tc main_call2_v4)) (RefRun.E m c (Proc.devRef .tc main_call2_v13)) :=
  end2 RefRun.hW0 (RefRun.V0 m c) (RefRun.E m c) RefRun.later0 (RefRun.T0 m c) 60 main_call2_v4 main_call2_v13 main_call2_v14 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v18 (m : (ℓ : Loc nD τ sig) → Buf (Elt F) ℓ) (c : Dev nD) :
    (RefRun.E m c (Proc.devRef .tc main_v18)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_call2_v12)) (RefRun.E m c (Proc.devRef .tc main_call2_v14)) (RefRun.E m c (Proc.devRef .tc main_call2_v4)) :=
  end3 RefRun.hW0 (RefRun.V0 m c) (RefRun.E m c) RefRun.later0 (RefRun.T0 m c) 61 main_call2_v12 main_call2_v14 main_call2_v4 main_v18 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_cst (m : (ℓ : Loc nD τ sig) → Buf (Elt F) ℓ) (c : Dev nD) :
    (RefRun.E m c (Proc.devRef .tc main_cst)) = (constant S_ .f32 0x00000000#32) :=
  end0 RefRun.hW0 (RefRun.V0 m c) (RefRun.E m c) RefRun.later0 (RefRun.T0 m c) 62 main_cst (constant S_ .f32 0x00000000#32) _ rfl (nk (by decide +kernel))

theorem rd_main_v19 (m : (ℓ : Loc nD τ sig) → Buf (Elt F) ℓ) (c : Dev nD) :
    (RefRun.E m c (Proc.devRef .tc main_v19)) = (broadcastInDim S200000x64 ![] bcast_S_S200000x64 : (⟨S_, .f32⟩ : BufTy).Contents (Elt F) → (⟨S200000x64, .f32⟩ : BufTy).Contents (Elt F)) (RefRun.E m c (Proc.devRef .tc main_cst)) :=
  end1 RefRun.hW0 (RefRun.V0 m c) (RefRun.E m c) RefRun.later0 (RefRun.T0 m c) 63 main_cst main_v19 (broadcastInDim S200000x64 ![] bcast_S_S200000x64 : (⟨S_, .f32⟩ : BufTy).Contents (Elt F) → (⟨S200000x64, .f32⟩ : BufTy).Contents (Elt F)) _ _ rfl (nk (by decide +kernel)) (nk (by decide +kernel))

theorem rd_main_c_4 (m : (ℓ : Loc nD τ sig) → Buf (Elt F) ℓ) (c : Dev nD) :
    (RefRun.E m c (Proc.devRef .tc main_c_4)) = (constantI S_ 32 4294967295#32) :=
  end0 RefRun.hW0 (RefRun.V0 m c) (RefRun.E m c) RefRun.later0 (RefRun.T0 m c) 64 main_c_4 (constantI S_ 32 4294967295#32) _ rfl (nk (by decide +kernel))

theorem rd_main_v20 (m : (ℓ : Loc nD τ sig) → Buf (Elt F) ℓ) (c : Dev nD) :
    (RefRun.E m c (Proc.devRef .tc main_v20)) = (broadcastInDim S200000 ![] bcast_S_S200000 : (⟨S_, .i32⟩ : BufTy).Contents (Elt F) → (⟨S200000, .i32⟩ : BufTy).Contents (Elt F)) (RefRun.E m c (Proc.devRef .tc main_c_4)) :=
  end1 RefRun.hW0 (RefRun.V0 m c) (RefRun.E m c) RefRun.later0 (RefRun.T0 m c) 65 main_c_4 main_v20 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v21 (m : (ℓ : Loc nD τ sig) → Buf (Elt F) ℓ) (c : Dev nD) :
    (RefRun.E m c (Proc.devRef .tc main_v21)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v20)) :=
  end2 RefRun.hW0 (RefRun.V0 m c) (RefRun.E m c) RefRun.later0 (RefRun.T0 m c) 66 main_v17 main_v20 main_v21 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_5 (m : (ℓ : Loc nD τ sig) → Buf (Elt F) ℓ) (c : Dev nD) :
    (RefRun.E m c (Proc.devRef .tc main_c_5)) = (constantI S_ 32 4294967295#32) :=
  end0 RefRun.hW0 (RefRun.V0 m c) (RefRun.E m c) RefRun.later0 (RefRun.T0 m c) 67 main_c_5 (constantI S_ 32 4294967295#32) _ rfl (nk (by decide +kernel))

theorem rd_main_v22 (m : (ℓ : Loc nD τ sig) → Buf (Elt F) ℓ) (c : Dev nD) :
    (RefRun.E m c (Proc.devRef .tc main_v22)) = (broadcastInDim S200000 ![] bcast_S_S200000 : (⟨S_, .i32⟩ : BufTy).Contents (Elt F) → (⟨S200000, .i32⟩ : BufTy).Contents (Elt F)) (RefRun.E m c (Proc.devRef .tc main_c_5)) :=
  end1 RefRun.hW0 (RefRun.V0 m c) (RefRun.E m c) RefRun.later0 (RefRun.T0 m c) 68 main_c_5 main_v22 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v23 (m : (ℓ : Loc nD τ sig) → Buf (Elt F) ℓ) (c : Dev nD) :
    (RefRun.E m c (Proc.devRef .tc main_v23)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v22)) :=
  end2 RefRun.hW0 (RefRun.V0 m c) (RefRun.E m c) RefRun.later0 (RefRun.T0 m c) 69 main_v18 main_v22 main_v23 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_6 (m : (ℓ : Loc nD τ sig) → Buf (Elt F) ℓ) (c : Dev nD) :
    (RefRun.E m c (Proc.devRef .tc main_c_6)) = (constantI S_ 32 0#32) :=
  end0 RefRun.hW0 (RefRun.V0 m c) (RefRun.E m c) RefRun.later0 (RefRun.T0 m c) 70 main_c_6 (constantI S_ 32 0#32) _ rfl (nk (by decide +kernel))

theorem rd_main_v24 (m : (ℓ : Loc nD τ sig) → Buf (Elt F) ℓ) (c : Dev nD) :
    (RefRun.E m c (Proc.devRef .tc main_v24)) = (broadcastInDim S200000 ![] bcast_S_S200000 : (⟨S_, .i32⟩ : BufTy).Contents (Elt F) → (⟨S200000, .i32⟩ : BufTy).Contents (Elt F)) (RefRun.E m c (Proc.devRef .tc main_c_6)) :=
  end1 RefRun.hW0 (RefRun.V0 m c) (RefRun.E m c) RefRun.later0 (RefRun.T0 m c) 71 main_c_6 main_v24 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v25 (m : (ℓ : Loc nD τ sig) → Buf (Elt F) ℓ) (c : Dev nD) :
    (RefRun.E m c (Proc.devRef .tc main_v25)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v21)) (RefRun.E m c (Proc.devRef .tc main_v24)) :=
  end2 RefRun.hW0 (RefRun.V0 m c) (RefRun.E m c) RefRun.later0 (RefRun.T0 m c) 72 main_v21 main_v24 main_v25 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_7 (m : (ℓ : Loc nD τ sig) → Buf (Elt F) ℓ) (c : Dev nD) :
    (RefRun.E m c (Proc.devRef .tc main_c_7)) = (constantI S_ 32 768#32) :=
  end0 RefRun.hW0 (RefRun.V0 m c) (RefRun.E m c) RefRun.later0 (RefRun.T0 m c) 73 main_c_7 (constantI S_ 32 768#32) _ rfl (nk (by decide +kernel))

theorem rd_main_v26 (m : (ℓ : Loc nD τ sig) → Buf (Elt F) ℓ) (c : Dev nD) :
    (RefRun.E m c (Proc.devRef .tc main_v26)) = (broadcastInDim S200000 ![] bcast_S_S200000 : (⟨S_, .i32⟩ : BufTy).Contents (Elt F) → (⟨S200000, .i32⟩ : BufTy).Contents (Elt F)) (RefRun.E m c (Proc.devRef .tc main_c_7)) :=
  end1 RefRun.hW0 (RefRun.V0 m c) (RefRun.E m c) RefRun.later0 (RefRun.T0 m c) 74 main_c_7 main_v26 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v27 (m : (ℓ : Loc nD τ sig) → Buf (Elt F) ℓ) (c : Dev nD) :
    (RefRun.E m c (Proc.devRef .tc main_v27)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v21)) (RefRun.E m c (Proc.devRef .tc main_v26)) :=
  end2 RefRun.hW0 (RefRun.V0 m c) (RefRun.E m c) RefRun.later0 (RefRun.T0 m c) 75 main_v21 main_v26 main_v27 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v28 (m : (ℓ : Loc nD τ sig) → Buf (Elt F) ℓ) (c : Dev nD) :
    (RefRun.E m c (Proc.devRef .tc main_v28)) = (andi : (⟨S200000, .i1⟩ : BufTy).Contents (Elt F) → (⟨S200000, .i1⟩ : BufTy).Contents (Elt F) → (⟨S200000, .i1⟩ : BufTy).Contents (Elt F)) (RefRun.E m c (Proc.devRef .tc main_v25)) (RefRun.E m c (Proc.devRef .tc main_v27)) :=
  end2 RefRun.hW0 (RefRun.V0 m c) (RefRun.E m c) RefRun.later0 (RefRun.T0 m c) 76 main_v25 main_v27 main_v28 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_8 (m : (ℓ : Loc nD τ sig) → Buf (Elt F) ℓ) (c : Dev nD) :
    (RefRun.E m c (Proc.devRef .tc main_c_8)) = (constantI S_ 32 0#32) :=
  end0 RefRun.hW0 (RefRun.V0 m c) (RefRun.E m c) RefRun.later0 (RefRun.T0 m c) 77 main_c_8 (constantI S_ 32 0#32) _ rfl (nk (by decide +kernel))

theorem rd_main_v29 (m : (ℓ : Loc nD τ sig) → Buf (Elt F) ℓ) (c : Dev nD) :
    (RefRun.E m c (Proc.devRef .tc main_v29)) = (broadcastInDim S200000 ![] bcast_S_S200000 : (⟨S_, .i32⟩ : BufTy).Contents (Elt F) → (⟨S200000, .i32⟩ : BufTy).Contents (Elt F)) (RefRun.E m c (Proc.devRef .tc main_c_8)) :=
  end1 RefRun.hW0 (RefRun.V0 m c) (RefRun.E m c) RefRun.later0 (RefRun.T0 m c) 78 main_c_8 main_v29 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v30 (m : (ℓ : Loc nD τ sig) → Buf (Elt F) ℓ) (c : Dev nD) :
    (RefRun.E m c (Proc.devRef .tc main_v30)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v23)) (RefRun.E m c (Proc.devRef .tc main_v29)) :=
  end2 RefRun.hW0 (RefRun.V0 m c) (RefRun.E m c) RefRun.later0 (RefRun.T0 m c) 79 main_v23 main_v29 main_v30 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v31 (m : (ℓ : Loc nD τ sig) → Buf (Elt F) ℓ) (c : Dev nD) :
    (RefRun.E m c (Proc.devRef .tc main_v31)) = (andi : (⟨S200000, .i1⟩ : BufTy).Contents (Elt F) → (⟨S200000, .i1⟩ : BufTy).Contents (Elt F) → (⟨S200000, .i1⟩ : BufTy).Contents (Elt F)) (RefRun.E m c (Proc.devRef .tc main_v28)) (RefRun.E m c (Proc.devRef .tc main_v30)) :=
  end2 RefRun.hW0 (RefRun.V0 m c) (RefRun.E m c) RefRun.later0 (RefRun.T0 m c) 80 main_v28 main_v30 main_v31 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_9 (m : (ℓ : Loc nD τ sig) → Buf (Elt F) ℓ) (c : Dev nD) :
    (RefRun.E m c (Proc.devRef .tc main_c_9)) = (constantI S_ 32 768#32) :=
  end0 RefRun.hW0 (RefRun.V0 m c) (RefRun.E m c) RefRun.later0 (RefRun.T0 m c) 81 main_c_9 (constantI S_ 32 768#32) _ rfl (nk (by decide +kernel))

theorem rd_main_v32 (m : (ℓ : Loc nD τ sig) → Buf (Elt F) ℓ) (c : Dev nD) :
    (RefRun.E m c (Proc.devRef .tc main_v32)) = (broadcastInDim S200000 ![] bcast_S_S200000 : (⟨S_, .i32⟩ : BufTy).Contents (Elt F) → (⟨S200000, .i32⟩ : BufTy).Contents (Elt F)) (RefRun.E m c (Proc.devRef .tc main_c_9)) :=
  end1 RefRun.hW0 (RefRun.V0 m c) (RefRun.E m c) RefRun.later0 (RefRun.T0 m c) 82 main_c_9 main_v32 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v33 (m : (ℓ : Loc nD τ sig) → Buf (Elt F) ℓ) (c : Dev nD) :
    (RefRun.E m c (Proc.devRef .tc main_v33)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v23)) (RefRun.E m c (Proc.devRef .tc main_v32)) :=
  end2 RefRun.hW0 (RefRun.V0 m c) (RefRun.E m c) RefRun.later0 (RefRun.T0 m c) 83 main_v23 main_v32 main_v33 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v34 (m : (ℓ : Loc nD τ sig) → Buf (Elt F) ℓ) (c : Dev nD) :
    (RefRun.E m c (Proc.devRef .tc main_v34)) = (andi : (⟨S200000, .i1⟩ : BufTy).Contents (Elt F) → (⟨S200000, .i1⟩ : BufTy).Contents (Elt F) → (⟨S200000, .i1⟩ : BufTy).Contents (Elt F)) (RefRun.E m c (Proc.devRef .tc main_v31)) (RefRun.E m c (Proc.devRef .tc main_v33)) :=
  end2 RefRun.hW0 (RefRun.V0 m c) (RefRun.E m c) RefRun.later0 (RefRun.T0 m c) 84 main_v31 main_v33 main_v34 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_10 (m : (ℓ : Loc nD τ sig) → Buf (Elt F) ℓ) (c : Dev nD) :
    (RefRun.E m c (Proc.devRef .tc main_c_10)) = (constantI S_ 32 0#32) :=
  end0 RefRun.hW0 (RefRun.V0 m c) (RefRun.E m c) RefRun.later0 (RefRun.T0 m c) 85 main_c_10 (constantI S_ 32 0#32) _ rfl (nk (by decide +kernel))

theorem rd_main_c_11 (m : (ℓ : Loc nD τ sig) → Buf (Elt F) ℓ) (c : Dev nD) :
    (RefRun.E m c (Proc.devRef .tc main_c_11)) = (constantI S_ 32 767#32) :=
  end0 RefRun.hW0 (RefRun.V0 m c) (RefRun.E m c) RefRun.later0 (RefRun.T0 m c) 86 main_c_11 (constantI S_ 32 767#32) _ rfl (nk (by decide +kernel))

theorem rd_main_call3_v0 (m : (ℓ : Loc nD τ sig) → Buf (Elt F) ℓ) (c : Dev nD) :
    (RefRun.E m c (Proc.devRef .tc main_call3_v0)) = (id : (⟨S_, .i32⟩ : BufTy).Contents (Elt F) → (⟨S_, .i32⟩ : BufTy).Contents (Elt F)) (RefRun.E m c (Proc.devRef .tc main_c_10)) :=
  end1 RefRun.hW0 (RefRun.V0 m c) (RefRun.E m c) RefRun.later0 (RefRun.T0 m c) 87 main_c_10 main_call3_v0 (id : (⟨S_, .i32⟩ : BufTy).Contents (Elt F) → (⟨S_, .i32⟩ : BufTy).Contents (Elt F)) _ _ rfl (nk (by decide +kernel)) (nk (by decide +kernel))

theorem rd_main_call3_v1 (m : (ℓ : Loc nD τ sig) → Buf (Elt F) ℓ) (c : Dev nD) :
    (RefRun.E m c (Proc.devRef .tc main_call3_v1)) = ((broadcastInDim S200000 ![] bcast_S_S200000) : (⟨S_, .i32⟩ : BufTy).Contents (Elt F) → (⟨S200000, .i32⟩ : BufTy).Contents (Elt F)) (RefRun.E m c (Proc.devRef .tc main_call3_v0)) :=
  end1 RefRun.hW0 (RefRun.V0 m c) (RefRun.E m c) RefRun.later0 (RefRun.T0 m c) 88 main_call3_v0 main_call3_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call3_v2 (m : (ℓ : Loc nD τ sig) → Buf (Elt F) ℓ) (c : Dev nD) :
    (RefRun.E m c (Proc.devRef .tc main_call3_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call3_v1)) (RefRun.E m c (Proc.devRef .tc main_v21)) :=
  end2 RefRun.hW0 (RefRun.V0 m c) (RefRun.E m c) RefRun.later0 (RefRun.T0 m c) 89 main_call3_v1 main_v21 main_call3_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call3_v3 (m : (ℓ : Loc nD τ sig) → Buf (Elt F) ℓ) (c : Dev nD) :
    (RefRun.E m c (Proc.devRef .tc main_call3_v3)) = (id : (⟨S_, .i32⟩ : BufTy).Contents (Elt F) → (⟨S_, .i32⟩ : BufTy).Contents (Elt F)) (RefRun.E m c (Proc.devRef .tc main_c_11)) :=
  end1 RefRun.hW0 (RefRun.V0 m c) (RefRun.E m c) RefRun.later0 (RefRun.T0 m c) 90 main_c_11 main_call3_v3 (id : (⟨S_, .i32⟩ : BufTy).Contents (Elt F) → (⟨S_, .i32⟩ : BufTy).Contents (Elt F)) _ _ rfl (nk (by decide +kernel)) (nk (by decide +kernel))

theorem rd_main_call3_v4 (m : (ℓ : Loc nD τ sig) → Buf (Elt F) ℓ) (c : Dev nD) :
    (RefRun.E m c (Proc.devRef .tc main_call3_v4)) = ((broadcastInDim S200000 ![] bcast_S_S200000) : (⟨S_, .i32⟩ : BufTy).Contents (Elt F) → (⟨S200000, .i32⟩ : BufTy).Contents (Elt F)) (RefRun.E m c (Proc.devRef .tc main_call3_v3)) :=
  end1 RefRun.hW0 (RefRun.V0 m c) (RefRun.E m c) RefRun.later0 (RefRun.T0 m c) 91 main_call3_v3 main_call3_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v35 (m : (ℓ : Loc nD τ sig) → Buf (Elt F) ℓ) (c : Dev nD) :
    (RefRun.E m c (Proc.devRef .tc main_v35)) = (minsi : (⟨S200000, .i32⟩ : BufTy).Contents (Elt F) → (⟨S200000, .i32⟩ : BufTy).Contents (Elt F) → (⟨S200000, .i32⟩ : BufTy).Contents (Elt F)) (RefRun.E m c (Proc.devRef .tc main_call3_v4)) (RefRun.E m c (Proc.devRef .tc main_call3_v2)) :=
  end2 RefRun.hW0 (RefRun.V0 m c) (RefRun.E m c) RefRun.later0 (RefRun.T0 m c) 92 main_call3_v4 main_call3_v2 main_v35 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_12 (m : (ℓ : Loc nD τ sig) → Buf (Elt F) ℓ) (c : Dev nD) :
    (RefRun.E m c (Proc.devRef .tc main_c_12)) = (constantI S_ 32 768#32) :=
  end0 RefRun.hW0 (RefRun.V0 m c) (RefRun.E m c) RefRun.later0 (RefRun.T0 m c) 93 main_c_12 (constantI S_ 32 768#32) _ rfl (nk (by decide +kernel))

theorem rd_main_v36 (m : (ℓ : Loc nD τ sig) → Buf (Elt F) ℓ) (c : Dev nD) :
    (RefRun.E m c (Proc.devRef .tc main_v36)) = (broadcastInDim S200000 ![] bcast_S_S200000 : (⟨S_, .i32⟩ : BufTy).Contents (Elt F) → (⟨S200000, .i32⟩ : BufTy).Contents (Elt F)) (RefRun.E m c (Proc.devRef .tc main_c_12)) :=
  end1 RefRun.hW0 (RefRun.V0 m c) (RefRun.E m c) RefRun.later0 (RefRun.T0 m c) 94 main_c_12 main_v36 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v37 (m : (ℓ : Loc nD τ sig) → Buf (Elt F) ℓ) (c : Dev nD) :
    (RefRun.E m c (Proc.devRef .tc main_v37)) = (muli : (⟨S200000, .i32⟩ : BufTy).Contents (Elt F) → (⟨S200000, .i32⟩ : BufTy).Contents (Elt F) → (⟨S200000, .i32⟩ : BufTy).Contents (Elt F)) (RefRun.E m c (Proc.devRef .tc main_v35)) (RefRun.E m c (Proc.devRef .tc main_v36)) :=
  end2 RefRun.hW0 (RefRun.V0 m c) (RefRun.E m c) RefRun.later0 (RefRun.T0 m c) 95 main_v35 main_v36 main_v37 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_13 (m : (ℓ : Loc nD τ sig) → Buf (Elt F) ℓ) (c : Dev nD) :
    (RefRun.E m c (Proc.devRef .tc main_c_13)) = (constantI S_ 32 0#32) :=
  end0 RefRun.hW0 (RefRun.V0 m c) (RefRun.E m c) RefRun.later0 (RefRun.T0 m c) 96 main_c_13 (constantI S_ 32 0#32) _ rfl (nk (by decide +kernel))

theorem rd_main_c_14 (m : (ℓ : Loc nD τ sig) → Buf (Elt F) ℓ) (c : Dev nD) :
    (RefRun.E m c (Proc.devRef .tc main_c_14)) = (constantI S_ 32 767#32) :=
  end0 RefRun.hW0 (RefRun.V0 m c) (RefRun.E m c) RefRun.later0 (RefRun.T0 m c) 97 main_c_14 (constantI S_ 32 767#32) _ rfl (nk (by decide +kernel))

theorem rd_main_call4_v0 (m : (ℓ : Loc nD τ sig) → Buf (Elt F) ℓ) (c : Dev nD) :
    (RefRun.E m c (Proc.devRef .tc main_call4_v0)) = (id : (⟨S_, .i32⟩ : BufTy).Contents (Elt F) → (⟨S_, .i32⟩ : BufTy).Contents (Elt F)) (RefRun.E m c (Proc.devRef .tc main_c_13)) :=
  end1 RefRun.hW0 (RefRun.V0 m c) (RefRun.E m c) RefRun.later0 (RefRun.T0 m c) 98 main_c_13 main_call4_v0 (id : (⟨S_, .i32⟩ : BufTy).Contents (Elt F) → (⟨S_, .i32⟩ : BufTy).Contents (Elt F)) _ _ rfl (nk (by decide +kernel)) (nk (by decide +kernel))

theorem rd_main_call4_v1 (m : (ℓ : Loc nD τ sig) → Buf (Elt F) ℓ) (c : Dev nD) :
    (RefRun.E m c (Proc.devRef .tc main_call4_v1)) = ((broadcastInDim S200000 ![] bcast_S_S200000) : (⟨S_, .i32⟩ : BufTy).Contents (Elt F) → (⟨S200000, .i32⟩ : BufTy).Contents (Elt F)) (RefRun.E m c (Proc.devRef .tc main_call4_v0)) :=
  end1 RefRun.hW0 (RefRun.V0 m c) (RefRun.E m c) RefRun.later0 (RefRun.T0 m c) 99 main_call4_v0 main_call4_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call4_v2 (m : (ℓ : Loc nD τ sig) → Buf (Elt F) ℓ) (c : Dev nD) :
    (RefRun.E m c (Proc.devRef .tc main_call4_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call4_v1)) (RefRun.E m c (Proc.devRef .tc main_v23)) :=
  end2 RefRun.hW0 (RefRun.V0 m c) (RefRun.E m c) RefRun.later0 (RefRun.T0 m c) 100 main_call4_v1 main_v23 main_call4_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call4_v3 (m : (ℓ : Loc nD τ sig) → Buf (Elt F) ℓ) (c : Dev nD) :
    (RefRun.E m c (Proc.devRef .tc main_call4_v3)) = (id : (⟨S_, .i32⟩ : BufTy).Contents (Elt F) → (⟨S_, .i32⟩ : BufTy).Contents (Elt F)) (RefRun.E m c (Proc.devRef .tc main_c_14)) :=
  end1 RefRun.hW0 (RefRun.V0 m c) (RefRun.E m c) RefRun.later0 (RefRun.T0 m c) 101 main_c_14 main_call4_v3 (id : (⟨S_, .i32⟩ : BufTy).Contents (Elt F) → (⟨S_, .i32⟩ : BufTy).Contents (Elt F)) _ _ rfl (nk (by decide +kernel)) (nk (by decide +kernel))

theorem rd_main_call4_v4 (m : (ℓ : Loc nD τ sig) → Buf (Elt F) ℓ) (c : Dev nD) :
    (RefRun.E m c (Proc.devRef .tc main_call4_v4)) = ((broadcastInDim S200000 ![] bcast_S_S200000) : (⟨S_, .i32⟩ : BufTy).Contents (Elt F) → (⟨S200000, .i32⟩ : BufTy).Contents (Elt F)) (RefRun.E m c (Proc.devRef .tc main_call4_v3)) :=
  end1 RefRun.hW0 (RefRun.V0 m c) (RefRun.E m c) RefRun.later0 (RefRun.T0 m c) 102 main_call4_v3 main_call4_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v38 (m : (ℓ : Loc nD τ sig) → Buf (Elt F) ℓ) (c : Dev nD) :
    (RefRun.E m c (Proc.devRef .tc main_v38)) = (minsi : (⟨S200000, .i32⟩ : BufTy).Contents (Elt F) → (⟨S200000, .i32⟩ : BufTy).Contents (Elt F) → (⟨S200000, .i32⟩ : BufTy).Contents (Elt F)) (RefRun.E m c (Proc.devRef .tc main_call4_v4)) (RefRun.E m c (Proc.devRef .tc main_call4_v2)) :=
  end2 RefRun.hW0 (RefRun.V0 m c) (RefRun.E m c) RefRun.later0 (RefRun.T0 m c) 103 main_call4_v4 main_call4_v2 main_v38 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v39 (m : (ℓ : Loc nD τ sig) → Buf (Elt F) ℓ) (c : Dev nD) :
    (RefRun.E m c (Proc.devRef .tc main_v39)) = (addi : (⟨S200000, .i32⟩ : BufTy).Contents (Elt F) → (⟨S200000, .i32⟩ : BufTy).Contents (Elt F) → (⟨S200000, .i32⟩ : BufTy).Contents (Elt F)) (RefRun.E m c (Proc.devRef .tc main_v37)) (RefRun.E m c (Proc.devRef .tc main_v38)) :=
  end2 RefRun.hW0 (RefRun.V0 m c) (RefRun.E m c) RefRun.later0 (RefRun.T0 m c) 104 main_v37 main_v38 main_v39 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_15 (m : (ℓ : Loc nD τ sig) → Buf (Elt F) ℓ) (c : Dev nD) :
    (RefRun.E m c (Proc.devRef .tc main_c_15)) = (constantI S_ 32 0#32) :=
  end0 RefRun.hW0 (RefRun.V0 m c) (RefRun.E m c) RefRun.later0 (RefRun.T0 m c) 105 main_c_15 (constantI S_ 32 0#32) _ rfl (nk (by decide +kernel))

theorem rd_main_v40 (m : (ℓ : Loc nD τ sig) → Buf (Elt F) ℓ) (c : Dev nD) :
    (RefRun.E m c (Proc.devRef .tc main_v40)) = (broadcastInDim S200000 ![] bcast_S_S200000 : (⟨S_, .i32⟩ : BufTy).Contents (Elt F) → (⟨S200000, .i32⟩ : BufTy).Contents (Elt F)) (RefRun.E m c (Proc.devRef .tc main_c_15)) :=
  end1 RefRun.hW0 (RefRun.V0 m c) (RefRun.E m c) RefRun.later0 (RefRun.T0 m c) 106 main_c_15 main_v40 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v41 (m : (ℓ : Loc nD τ sig) → Buf (Elt F) ℓ) (c : Dev nD) :
    (RefRun.E m c (Proc.devRef .tc main_v41)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v39)) (RefRun.E m c (Proc.devRef .tc main_v40)) :=
  end2 RefRun.hW0 (RefRun.V0 m c) (RefRun.E m c) RefRun.later0 (RefRun.T0 m c) 107 main_v39 main_v40 main_v41 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

end Cert.ReferenceIdeal.RefRead

end
-- ==== Proof.LibGcnAgg.lean ====
/-
  Summing the rows that edges carry into their target nodes, when every row is weighted by a factor of its source
  node and a factor of its target node.

  `E` edges, edge `e` from node `s e` to node `t e`; `xl` an `[N, D]` array of rows; `d` a weight per node. The sum over the
  edges into node `i` of `xl (s e) * (d (s e) * d i)` equals `d i` times the sum over the same edges of `d (s e) * xl (s e)`:
  the target's factor is the same in every term, so it moves out of the sum. On the extended reals a factor moves out of a
  sum when it is a nonnegative real (`x * (y + z) = x * y + x * z` for `0 ≤ x < ⊤`, whatever `y` and `z`), and a weight
  `1 / sqrt (degree)`, or `0`, is one; no entry of `xl` needs to be finite.

  The edges' rows are fetched by a gather whose start indices are clamped into `[0, N - 1]`, and summed by a scatter
  whose start indices are read signed and NOT clamped (an edge whose target is no node is dropped). The three index
  lemmas read the two gathers and the scatter at an index; the hypothesis `hdst` says the one thing the two index arrays
  of the targets must share: where the scatter's index names node `n`, the gather's index, clamped, names `n` too.
-/
import Idealize.ShloMosaic.PureOps.Ideal
import Idealize.ShloMosaic.Lib.ValueIdx
import Mathlib.Data.EReal.Operations

noncomputable section

open scoped BigOperators

namespace Cert.LibGcnAgg

open Idealize.ShloMosaic Idealize.ShloMosaic.ValueIdx

/-- The gather of whole rows of an `[N, D]` array at `[E, 1]` start indices: result `[E, D]`. -/
abbrev rowsGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of entries of an `[N]` array at `[E, 1]` start indices: result `[E]`. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scatter of `[E, D]` rows into an `[N, D]` array at `[E, 1]` start indices. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- A start index read signed and clamped into `[0, N - 1]`. -/
def clampNode (N : Nat) {w : Nat} (hN : 0 < N) (b : BitVec w) : Fin N := ⟨min b.toInt.toNat (N - 1), by omega⟩

section
variable {N E D w : Nat}

/-- The rows gather reads, for result `(e, c)`, the operand at row `clamp (idx (e, 0))`, column `c`. -/
theorem rowsGather_operandIdx (hN : 0 < N) (wf) (j : (⟨2, ![E, D]⟩ : Shape).Idx) (idx : IVec ⟨2, ![E, 1]⟩ w) :
    (rowsGather N E D wf).operandIdx j idx = ix2 (clampNode N hN (idx (ix2 (j 0) (0 : Fin 1)))) (j 1) := by
  funext a
  refine Fin.ext ?_
  show (rowsGather N E D wf).start j idx a + (rowsGather N E D wf).batchCoord j a + (rowsGather N E D wf).offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowsGather N E D wf).startIndexMap from List.mem_singleton.mpr rfl)]
    have hsi : (rowsGather N E D wf).siIdx j ⟨List.idxOf (⟨0, h0⟩ : Fin 2) (rowsGather N E D wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, h1⟩ =>
    unfold GatherDims.start
    rw [dif_neg (show (⟨1, h1⟩ : Fin 2) ∉ (rowsGather N E D wf).startIndexMap from
      fun h => Nat.one_ne_zero (congrArg Fin.val (List.mem_singleton.mp h)))]
    simp only [Nat.zero_add]
    unfold GatherDims.offCoord
    rw [dif_pos (show (⟨1, h1⟩ : Fin 2) ∈ (rowsGather N E D wf).sKept from
      (GatherDims.mem_sKept _ _).mpr ⟨fun h => Nat.one_ne_zero (congrArg Fin.val (List.mem_singleton.mp h)), List.not_mem_nil⟩)]
    rfl

/-- The entry gather reads, for result `e`, the operand at `clamp (idx (e, 0))`. -/
theorem entryGather_operandIdx (hN : 0 < N) (wf) (j : (⟨1, ![E]⟩ : Shape).Idx) (idx : IVec ⟨2, ![E, 1]⟩ w) :
    (entryGather N E wf).operandIdx j idx = ix1 (clampNode N hN (idx (ix2 (j 0) (0 : Fin 1)))) := by
  funext a
  obtain rfl : a = 0 := Subsingleton.elim _ _
  refine Fin.ext ?_
  show (entryGather N E wf).start j idx 0 + (entryGather N E wf).batchCoord j 0 + (entryGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx j ⟨List.idxOf (0 : Fin 1) (entryGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Where the rows scatter sends update `(e, c)` to `i`, the start index `idx (e, 0)`, read signed, is `i`'s row, and
    the column is kept. -/
theorem rowsScatter_resultIdx (wf) (j : (⟨2, ![E, D]⟩ : Shape).Idx) (idx : IVec ⟨2, ![E, 1]⟩ w)
    (i : (⟨2, ![N, D]⟩ : Shape).Idx) (h : (rowsScatter N E D wf).resultIdx? j idx = some i) :
    (idx (ix2 (j 0) (0 : Fin 1))).toInt = ((i 0).val : Int) := by
  unfold ScatterDims.resultIdx? at h
  split at h
  · rename_i hall
    have hi := Option.some.inj h
    have h0 := hall (⟨0, Nat.zero_lt_two⟩ : Fin 2)
    have hw : (rowsScatter N E D wf).window j (⟨0, Nat.zero_lt_two⟩ : Fin 2) = 0 := by
      unfold ScatterDims.window
      rw [dif_neg (show (⟨0, Nat.zero_lt_two⟩ : Fin 2) ∉ (rowsScatter N E D wf).sKept by
        simp [ScatterDims.sKept, Shape.kept, List.mem_filter])]
    have hs : (rowsScatter N E D wf).start j idx (⟨0, Nat.zero_lt_two⟩ : Fin 2) = (idx (ix2 (j 0) (0 : Fin 1))).toInt := by
      unfold ScatterDims.start
      rw [dif_pos (show (⟨0, Nat.zero_lt_two⟩ : Fin 2) ∈ (rowsScatter N E D wf).scatterDimsToOperandDims from List.mem_singleton.mpr rfl)]
      have hsi : (rowsScatter N E D wf).siIdx j ⟨List.idxOf (⟨0, Nat.zero_lt_two⟩ : Fin 2) (rowsScatter N E D wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      exact congrArg (fun z => (idx z).toInt) hsi
    rw [hw, hs] at h0
    have hv : (i 0).val = ((idx (ix2 (j 0) (0 : Fin 1))).toInt + ((0 : Nat) : Int)).toNat := by
      rw [← hi]
      show ((rowsScatter N E D wf).start j idx (⟨0, Nat.zero_lt_two⟩ : Fin 2) + ((rowsScatter N E D wf).window j (⟨0, Nat.zero_lt_two⟩ : Fin 2) : Int)).toNat = _
      rw [hw, hs]
    omega
  · exact absurd h (by simp)

end

/-- A nonnegative real factor moves into a finite sum of extended reals. -/
theorem mul_sum_of_nonneg_of_ne_top {ι : Type*} (s : Finset ι) (f : ι → EReal) {x : EReal} (h0 : 0 ≤ x) (ht : x ≠ ⊤) :
    x * ∑ j ∈ s, f j = ∑ j ∈ s, x * f j := by
  classical
  induction s using Finset.induction_on with
  | empty => simp
  | insert a s ha ih => rw [Finset.sum_insert ha, Finset.sum_insert ha, EReal.left_distrib_of_nonneg_of_ne_top h0 ht, ih]

/-- THE AGGREGATION IN ITS TWO ARRANGEMENTS. Rows scaled by their source's weight, gathered, summed into their targets
    and the sum scaled by the target's weight, against rows gathered, each multiplied by the product of its source's and
    its target's weights, and summed. -/
theorem scaled_scatter {N E D w : Nat} (hN : 0 < N) (wfg wfe wfs)
    (xl : (⟨2, ![N, D]⟩ : Shape).Idx → EReal) (d : (⟨1, ![N]⟩ : Shape).Idx → EReal)
    (hd : ∀ n, 0 ≤ d n ∧ d n ≠ ⊤)
    (src dst dstn : IVec ⟨2, ![E, 1]⟩ w)
    (hdst : ∀ (e : Fin E) (n : Fin N), (dst (ix2 e (0 : Fin 1))).toInt = (n.val : Int) →
      clampNode N hN (dstn (ix2 e (0 : Fin 1))) = n)
    (i : (⟨2, ![N, D]⟩ : Shape).Idx) :
    d (ix1 (i 0)) * Ideal.hostScatterAdd (rowsScatter N E D wfs) (fun _ => 0) dst
        (Host.gather (rowsGather N E D wfg) (fun r => d (ix1 (r 0)) * xl r) src) i
      = Ideal.hostScatterAdd (rowsScatter N E D wfs) (fun _ => 0) dst
        (fun j => Host.gather (rowsGather N E D wfg) xl src j *
          (Host.gather (entryGather N E wfe) d src (ix1 (j 0)) * Host.gather (entryGather N E wfe) d dstn (ix1 (j 0)))) i := by
  unfold Ideal.hostScatterAdd
  simp only [zero_add]
  rw [mul_sum_of_nonneg_of_ne_top _ _ (hd _).1 (hd _).2]
  refine Finset.sum_congr rfl fun j hj => ?_
  have hres := (Finset.mem_filter.mp hj).2
  have hrow := rowsScatter_resultIdx wfs j dst i hres
  have hn : clampNode N hN (dstn (ix2 (j 0) (0 : Fin 1))) = i 0 := hdst (j 0) (i 0) hrow
  unfold Host.gather
  rw [rowsGather_operandIdx hN wfg j src, entryGather_operandIdx hN wfe (ix1 (j 0)) src,
    entryGather_operandIdx hN wfe (ix1 (j 0)) dstn]
  show d (ix1 (i 0)) * (d (ix1 (clampNode N hN (src (ix2 (j 0) (0 : Fin 1))))) * xl _) =
    xl _ * (d (ix1 (clampNode N hN (src (ix2 (j 0) (0 : Fin 1))))) * d (ix1 (clampNode N hN (dstn (ix2 (j 0) (0 : Fin 1))))))
  rw [hn]
  ac_rfl

/-- THE AGGREGATION, for any dimension numbers that read their start indices as the rows gather, the entry gather and the
    rows scatter do, and for arrays given entry by entry: the left side may spell its scatter, its gather, its zeros and
    its index columns differently from the right side, as long as they are equal. -/
theorem aggregate_of {N E D w : Nat} (hN : 0 < N)
    (sdK sdR : ScatterDims ⟨2, ![N, D]⟩ ⟨2, ![E, 1]⟩ ⟨2, ![E, D]⟩)
    (gdK gdR : GatherDims ⟨2, ![N, D]⟩ ⟨2, ![E, 1]⟩ ⟨2, ![E, D]⟩)
    (ge : GatherDims ⟨1, ![N]⟩ ⟨2, ![E, 1]⟩ ⟨1, ![E]⟩)
    (hgK : ∀ (j : (⟨2, ![E, D]⟩ : Shape).Idx) (idx : IVec ⟨2, ![E, 1]⟩ w),
      gdK.operandIdx j idx = ix2 (clampNode N hN (idx (ix2 (j 0) (0 : Fin 1)))) (j 1))
    (hgR : ∀ (j : (⟨2, ![E, D]⟩ : Shape).Idx) (idx : IVec ⟨2, ![E, 1]⟩ w),
      gdR.operandIdx j idx = ix2 (clampNode N hN (idx (ix2 (j 0) (0 : Fin 1)))) (j 1))
    (hge : ∀ (j : (⟨1, ![E]⟩ : Shape).Idx) (idx : IVec ⟨2, ![E, 1]⟩ w),
      ge.operandIdx j idx = ix1 (clampNode N hN (idx (ix2 (j 0) (0 : Fin 1)))))
    (hsR : ∀ (j : (⟨2, ![E, D]⟩ : Shape).Idx) (idx : IVec ⟨2, ![E, 1]⟩ w) (i : (⟨2, ![N, D]⟩ : Shape).Idx),
      sdR.resultIdx? j idx = some i → (idx (ix2 (j 0) (0 : Fin 1))).toInt = ((i 0).val : Int))
    (hsKR : ∀ (j : (⟨2, ![E, D]⟩ : Shape).Idx) (idx : IVec ⟨2, ![E, 1]⟩ w), sdK.resultIdx? j idx = sdR.resultIdx? j idx)
    (xl : (⟨2, ![N, D]⟩ : Shape).Idx → EReal) (d : (⟨1, ![N]⟩ : Shape).Idx → EReal)
    (hd : ∀ n, 0 ≤ d n ∧ d n ≠ ⊤)
    (srcK srcR dstK dstR dstn : IVec ⟨2, ![E, 1]⟩ w) (hsrc : srcK = srcR) (hdstE : dstK = dstR)
    (hdst : ∀ (e : Fin E) (n : Fin N), (dstR (ix2 e (0 : Fin 1))).toInt = (n.val : Int) →
      clampNode N hN (dstn (ix2 e (0 : Fin 1))) = n)
    (dcol : (⟨2, ![N, 1]⟩ : Shape).Idx → EReal) (hcol : ∀ n : Fin N, dcol (ix2 n (0 : Fin 1)) = d (ix1 n))
    (rows : (⟨2, ![N, D]⟩ : Shape).Idx → EReal) (hrows : ∀ r, rows r = dcol (ix2 (r 0) (0 : Fin 1)) * xl r)
    (zK zR : (⟨2, ![N, D]⟩ : Shape).Idx → EReal) (hzK : ∀ i, zK i = 0) (hzR : ∀ i, zR i = 0)
    (msg : (⟨2, ![E, D]⟩ : Shape).Idx → EReal)
    (hmsg : ∀ j, msg j = Host.gather gdR xl srcR j * (Host.gather ge d srcR (ix1 (j 0)) * Host.gather ge d dstn (ix1 (j 0))))
    (i : (⟨2, ![N, D]⟩ : Shape).Idx) :
    dcol (ix2 (i 0) (0 : Fin 1)) * Ideal.hostScatterAdd sdK zK dstK (Host.gather gdK rows srcK) i
      = Ideal.hostScatterAdd sdR zR dstR msg i := by
  subst hsrc hdstE
  unfold Ideal.hostScatterAdd
  rw [hzK, hzR, zero_add, zero_add, (hcol (i 0) : dcol (ix2 (i 0) (0 : Fin 1)) = d (ix1 (i 0))),
    mul_sum_of_nonneg_of_ne_top _ _ (hd _).1 (hd _).2]
  have hfilter : Finset.univ.filter (fun j => sdK.resultIdx? j dstK = some i)
      = Finset.univ.filter (fun j => sdR.resultIdx? j dstK = some i) :=
    Finset.filter_congr fun j _ => by rw [hsKR]
  rw [hfilter]
  refine Finset.sum_congr rfl fun j hj => ?_
  have hres := (Finset.mem_filter.mp hj).2
  have hrow := hsR j dstK i hres
  have hn : clampNode N hN (dstn (ix2 (j 0) (0 : Fin 1))) = i 0 := hdst (j 0) (i 0) hrow
  rw [hmsg j]
  unfold Host.gather
  rw [hgK j srcK, hgR j srcK, hge (ix1 (j 0)) srcK, hge (ix1 (j 0)) dstn]
  have e1 : rows (ix2 (clampNode N hN (srcK (ix2 (j 0) (0 : Fin 1)))) (j 1))
      = d (ix1 (clampNode N hN (srcK (ix2 (j 0) (0 : Fin 1))))) * xl (ix2 (clampNode N hN (srcK (ix2 (j 0) (0 : Fin 1)))) (j 1)) :=
    (hrows _).trans (congrArg (· * xl _) (hcol (clampNode N hN (srcK (ix2 (j 0) (0 : Fin 1))))))
  refine (congrArg (d (ix1 (i 0)) * ·) e1).trans ?_
  show d (ix1 (i 0)) * (d (ix1 (clampNode N hN (srcK (ix2 (j 0) (0 : Fin 1))))) * xl _) =
    xl _ * (d (ix1 (clampNode N hN (srcK (ix2 (j 0) (0 : Fin 1))))) * d (ix1 (clampNode N hN (dstn (ix2 (j 0) (0 : Fin 1))))))
  rw [hn]
  ac_rfl

end Cert.LibGcnAgg

end
-- ==== Proof.RefTapExpr.lean ====
/-
  One tap of the sparse convolution, read at an index.

  A tap looks a neighbour cell up in the index table, keeps the site when the cell lies in the grid and the table's
  entry there is a row number (not the fill value), fetches that row of the first stage's output, and puts zero where
  the site is not kept. Written on whole arrays this is a chain of broadcasts, two gathers, integer comparisons and two
  selects; read at site `i` and channel `l` it is one `select` on the keep bit between the fetched row's entry and zero.
  The lemma is stated for arbitrary arrays (the table, the rows, the in-grid mask, the linear cell index), so that each
  of the nine taps is an instance.
-/
import proofs.«125710_j13511967113615_2_alg».proof.Proof.Gen.ReferenceIdeal
import proofs.«125710_j13511967113615_2_alg».proof.Proof.LibGcnAgg
import Idealize.ShloMosaic.Lib.Pipeline.Value
import Idealize.ShloMosaic.Lib.ValueIdx
import Idealize.ShloMosaic.PureOps.Ideal.Laws

noncomputable section

namespace Cert.ReferenceIdeal.RefIdx

open Cert.ReferenceIdeal Cert.ReferenceIdeal.Gen Idealize.ShloMosaic Idealize.ShloMosaic.ValueIdx

/-- A scalar broadcast to any shape reads the scalar everywhere. -/
theorem bcast0_apply {α : Type} {t : Shape} (h : S_.BroadcastsInDim t (![] : Fin 0 → Fin t.rank)) (x : S_.Idx → α)
    (j : t.Idx) : broadcastInDim (s := S_) t ![] h x j = x ix0 :=
  broadcastInDim_apply _ h x j ix0 (fun a => a.elim0)

/-- A vector over the sites as a one-column array reads the vector's entry. -/
theorem bcastCol_apply {α : Type} (h : S200000.BroadcastsInDim S200000x1 (![0] : Fin 1 → Fin S200000x1.rank))
    (x : S200000.Idx → α) (i : Fin 200000) (z : Fin 1) :
    broadcastInDim (s := S200000) S200000x1 ![0] h x (ix2 i z) = x (ix1 i) :=
  broadcastInDim_apply _ h x (ix2 i z) (ix1 i) (fun a => match a with | ⟨0, _⟩ => rfl)

/-- A one-column array broadcast along the channels reads the column's entry of the site. -/
theorem bcastRow_apply {α : Type}
    (h : S200000x1.BroadcastsInDim S200000x64 (![0, 1] : Fin 2 → Fin S200000x64.rank))
    (x : S200000x1.Idx → α) (i : Fin 200000) (l : Fin 64) :
    broadcastInDim (s := S200000x1) S200000x64 ![0, 1] h x (ix2 i l) = x (ix2 i (0 : Fin 1)) :=
  broadcastInDim_apply _ h x (ix2 i l) (ix2 i (0 : Fin 1)) (fun a => match a with | ⟨0, _⟩ => rfl | ⟨1, _⟩ => rfl)

/-- The printed entry gather reads the table at the start index, read signed and clamped. -/
theorem gE_idx {w : Nat} (j : S200000.Idx) (idx : IVec S200000x1 w) :
    gather_S589824_S200000x1_S200000_n_0_n_n_0_1_1.operandIdx j idx
      = ix1 (Cert.LibGcnAgg.clampNode 589824 (by decide) (idx (ix2 (j 0) (0 : Fin 1)))) :=
  Cert.LibGcnAgg.entryGather_operandIdx (N := 589824) (E := 200000) (by decide) _ j idx

/-- The printed rows gather reads the row at the start index, read signed and clamped, at the same channel. -/
theorem gR_idx {w : Nat} (j : S200000x64.Idx) (idx : IVec S200000x1 w) :
    gather_S200000x64_S200000x1_S200000x64_1_0_n_n_0_1_164.operandIdx j idx
      = ix2 (Cert.LibGcnAgg.clampNode 200000 (by decide) (idx (ix2 (j 0) (0 : Fin 1)))) (j 1) :=
  Cert.LibGcnAgg.rowsGather_operandIdx (N := 200000) (E := 200000) (D := 64) (by decide) _ j idx

/-- ONE TAP at site `i`, channel `l`. -/
theorem tap_expr (tbl : IVec S589824 32) (rows : FVec Ideal S200000x64 .f32) (inb : IVec S200000 1) (lin : IVec S200000 32)
    (hc : S200000.BroadcastsInDim S200000x1 (![0] : Fin 1 → Fin S200000x1.rank))
    (hs : S_.BroadcastsInDim S200000 (![] : Fin 0 → Fin S200000.rank))
    (hr : S200000x1.BroadcastsInDim S200000x64 (![0, 1] : Fin 2 → Fin S200000x64.rank))
    (hz : S_.BroadcastsInDim S200000x64 (![] : Fin 0 → Fin S200000x64.rank))
    (G : IVec S200000 32)
    (hG : G = Host.gather gather_S589824_S200000x1_S200000_n_0_n_n_0_1_1 tbl (broadcastInDim (s := S200000) S200000x1 ![0] hc lin))
    (M : IVec S200000 32) (hM : M = maxsi G (broadcastInDim (s := S_) S200000 ![] hs (constantI S_ 32 0#32)))
    (i : Fin 200000) (l : Fin 64) :
    select
        (broadcastInDim (s := S200000x1) S200000x64 ![0, 1] hr
          (broadcastInDim (s := S200000) S200000x1 ![0] hc
            (andi inb (cmpi .sge G (broadcastInDim (s := S_) S200000 ![] hs (constantI S_ 32 0#32))))))
        (Host.gather gather_S200000x64_S200000x1_S200000x64_1_0_n_n_0_1_164 rows
          (broadcastInDim (s := S200000) S200000x1 ![0] hc
            (select (cmpi .slt M (broadcastInDim (s := S_) S200000 ![] hs (constantI S_ 32 0#32)))
              (addi M (broadcastInDim (s := S_) S200000 ![] hs (constantI S_ 32 200000#32))) M)))
        (broadcastInDim (s := S_) S200000x64 ![] hz (id (constant (F := Ideal) S_ .f32 0x00000000#32)))
        (ix2 i l)
      = Scalar.select
          (IntOp.andi (inb (ix1 i))
            (IntOp.cmpi .sge (tbl (ix1 (Cert.LibGcnAgg.clampNode 589824 (by decide) (lin (ix1 i))))) 0#32))
          (rows (ix2 (Cert.LibGcnAgg.clampNode 200000 (by decide)
            (Scalar.select (IntOp.cmpi .slt (IntOp.maxsi (tbl (ix1 (Cert.LibGcnAgg.clampNode 589824 (by decide) (lin (ix1 i))))) 0#32) 0#32) (IntOp.addi (IntOp.maxsi (tbl (ix1 (Cert.LibGcnAgg.clampNode 589824 (by decide) (lin (ix1 i))))) 0#32) 200000#32) (IntOp.maxsi (tbl (ix1 (Cert.LibGcnAgg.clampNode 589824 (by decide) (lin (ix1 i))))) 0#32))) l))
          0 := by
  have hz0 : ∀ j : S200000.Idx, broadcastInDim (s := S_) S200000 ![] hs (constantI S_ 32 0#32) j = 0#32 :=
    fun j => bcast0_apply hs _ j
  have hGi : G (ix1 i) = tbl (ix1 (Cert.LibGcnAgg.clampNode 589824 (by decide) (lin (ix1 i)))) := by
    rw [hG]
    show tbl (gather_S589824_S200000x1_S200000_n_0_n_n_0_1_1.operandIdx (ix1 i) _) = _
    rw [gE_idx, bcastCol_apply]
  have hMi : M (ix1 i) = IntOp.maxsi (tbl (ix1 (Cert.LibGcnAgg.clampNode 589824 (by decide) (lin (ix1 i))))) 0#32 := by
    rw [hM]
    show IntOp.maxsi (G (ix1 i)) (broadcastInDim (s := S_) S200000 ![] hs (constantI S_ 32 0#32) (ix1 i)) = _
    rw [hGi, hz0]
  show Scalar.select (broadcastInDim (s := S200000x1) S200000x64 ![0, 1] hr _ (ix2 i l))
      (rows (gather_S200000x64_S200000x1_S200000x64_1_0_n_n_0_1_164.operandIdx (ix2 i l) _))
      (broadcastInDim (s := S_) S200000x64 ![] hz _ (ix2 i l)) = _
  rw [bcastRow_apply, bcastCol_apply, gR_idx, bcastCol_apply, bcast0_apply]
  show Scalar.select (IntOp.andi (inb (ix1 i)) (IntOp.cmpi .sge (G (ix1 i)) (broadcastInDim (s := S_) S200000 ![] hs (constantI S_ 32 0#32) (ix1 i))))
      (rows (ix2 (Cert.LibGcnAgg.clampNode 200000 (by decide)
        (Scalar.select (IntOp.cmpi .slt (M (ix1 i)) (broadcastInDim (s := S_) S200000 ![] hs (constantI S_ 32 0#32) (ix1 i)))
          (IntOp.addi (M (ix1 i)) (broadcastInDim (s := S_) S200000 ![] hs (constantI S_ 32 200000#32) (ix1 i))) (M (ix1 i)))) l))
      (Ideal.ofBits .f32 0x00000000#32) = _
  rw [hz0, hGi, hMi, bcast0_apply, Ideal.ofBits_zero_f32]
  rfl

end Cert.ReferenceIdeal.RefIdx

end
-- ==== Proof.RefIdx0.lean ====
/-
  The reference's first stage read at an index.

  The first 1×1 convolution of the reference is a matrix product with one contracted axis, a scale and a shift broadcast
  along the sites, and a clamp at zero; read at site `n` and channel `l` on the extended reals it is
  max ((Σ_d x[n,d] · w1[d,l]) · s1[l] + b1[l], 0). A product with one contracted axis read at the ideal values is the sum
  over that axis's coordinates; the three products of the reference are each an instance.
-/
import proofs.«125710_j13511967113615_2_alg».proof.Proof.RefRead0
import proofs.«125710_j13511967113615_2_alg».proof.Proof.RefTapExpr
import proofs.«125710_j13511967113615_2_alg».proof.Proof.Spec

noncomputable section

open scoped BigOperators

namespace Cert.ReferenceIdeal.RefIdx

open Cert.ReferenceIdeal Cert.ReferenceIdeal.Gen Idealize.ShloMosaic Idealize.ShloMosaic.ValueIdx
open Cert.ReferenceIdeal.RefRead

/-- A host product with ONE contracted axis, read at the ideal values, is the sum over that axis's coordinates of what
    the two operands read there. -/
theorem dotGeneral_single {sl sr so : Shape} {φ₁ φ₂ : FTy} (d : DotDims sl sr so) (prec : Option ContractPrecision)
    (sched : HostSchedule) (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.dotGeneral d prec sched lhs rhs j = ∑ k : Fin n, L k * R k := by
  rw [Ideal.dotGeneral_apply, ← Equiv.sum_comp (contrEquiv1 d n hr hs).symm]
  exact Finset.sum_congr rfl fun k _ => by rw [hl k, hR k]

/-- A plain product [A, K] × [K, B] → [A, B] (contracting the left operand's axis 1 with the right operand's axis 0)
    read at (a, b): Σ_k lhs[a,k] · rhs[k,b]. -/
theorem dot_plain_apply {A K B : Nat} (d : DotDims ⟨2, ![A, K]⟩ ⟨2, ![K, B]⟩ ⟨2, ![A, B]⟩)
    (hlc : d.lhsContracting = [1]) (hrc : d.rhsContracting = [0])
    (hr : d.contr.rank = 1) (hs : d.contr.size ⟨0, by omega⟩ = K)
    (hl0 : ∀ (j : (⟨2, ![A, B]⟩ : Shape).Idx) (k : d.contr.Idx), d.lhsIdx j k 0 = j 0)
    (hr1 : ∀ (j : (⟨2, ![A, B]⟩ : Shape).Idx) (k : d.contr.Idx), d.rhsIdx j k 1 = j 1)
    (prec : Option ContractPrecision) (sched : HostSchedule)
    (lhs : FVec Ideal ⟨2, ![A, K]⟩ .f32) (rhs : FVec Ideal ⟨2, ![K, B]⟩ .f32) (a : Fin A) (b : Fin B) :
    FloatOps.dotGeneral d prec sched lhs rhs (ix2 a b) = ∑ k : Fin K, lhs (ix2 a k) * rhs (ix2 k b) := by
  refine dotGeneral_single d prec sched K hr hs lhs rhs (ix2 a b) _ _ (fun k => congrArg lhs ?_) (fun k => congrArg rhs ?_)
  · funext x
    match x with
    | ⟨0, _⟩ => exact hl0 _ _
    | ⟨1, _⟩ =>
      refine Fin.ext ?_
      have h1 := d.lhsIdx_val_of_single hlc (ix2 a b) ((contrEquiv1 d K hr hs).symm k)
      have h2 := contrEquiv1_symm_val d K hr hs k
      exact h1.trans h2
  · funext x
    match x with
    | ⟨0, _⟩ =>
      refine Fin.ext ?_
      have h1 := d.rhsIdx_val_of_single hrc (ix2 a b) ((contrEquiv1 d K hr hs).symm k)
      have h2 := contrEquiv1_symm_val d K hr hs k
      exact h1.trans h2
    | ⟨1, _⟩ => exact hr1 _ _

/-- The first product, [200000, 256] × [256, 64]. -/
theorem dot1_apply (lhs : FVec Ideal S200000x256 .f32) (rhs : FVec Ideal S256x64 .f32) (a : Fin 200000) (b : Fin 64) :
    Host.dotGeneral dot_S200000x256_S256x64_S200000x64_1_0_0_1_n_n none lhs rhs (ix2 a b)
      = ∑ k : Fin 256, lhs (ix2 a k) * rhs (ix2 k b) :=
  dot_plain_apply dot_S200000x256_S256x64_S200000x64_1_0_0_1_n_n rfl rfl rfl rfl (fun _ _ => rfl) (fun _ _ => rfl)
    none .single lhs rhs a b

/-- A per-channel vector broadcast over the sites reads the channel's entry. -/
theorem bcastChan_apply {α : Type} {C : Nat}
    (h1 : (⟨1, ![C]⟩ : Shape).BroadcastsInDim ⟨2, ![1, C]⟩ (![1] : Fin 1 → Fin 2))
    (h2 : (⟨2, ![1, C]⟩ : Shape).BroadcastsInDim ⟨2, ![200000, C]⟩ (![0, 1] : Fin 2 → Fin 2))
    (hC : C ≠ 1) (x : (⟨1, ![C]⟩ : Shape).Idx → α) (n : Fin 200000) (l : Fin C) :
    broadcastInDim ⟨2, ![200000, C]⟩ ![0, 1] h2 (broadcastInDim ⟨2, ![1, C]⟩ ![1] h1 x) (ix2 n l) = x (ix1 l) := by
  rw [broadcastInDim_apply _ h2 _ (ix2 n l) (ix2 (0 : Fin 1) l)
      (fun a => match a with | ⟨0, _⟩ => rfl | ⟨1, _⟩ => by simp [hC]),
    broadcastInDim_apply _ h1 _ (ix2 (0 : Fin 1) l) (ix1 l) (fun a => match a with | ⟨0, _⟩ => by simp [hC])]

theorem ref_rows1 (m : (ℓ : Loc nD τ sig) → Buf (Elt Ideal) ℓ) (c : Dev nD) (n : Fin 200000) (l : Fin 64) :
    RefRun.E (F := Ideal) m c (Proc.devRef .tc main_v7) (ValueIdx.ix2 n l)
      = Cert.Spec.rows1 (m ((c.tc : Thread nD τ).loc main_arg0)) (m ((c.tc : Thread nD τ).loc main_arg2))
          (m ((c.tc : Thread nD τ).loc main_arg5)) (m ((c.tc : Thread nD τ).loc main_arg6)) n l := by
  rw [rd_main_v7, rd_main_call0_v0, rd_main_call0_cst, rd_main_v6, rd_main_v5, rd_main_v4, rd_main_v3, rd_main_v2,
    rd_main_v1, rd_main_v0, RefRun.E_arg0, RefRun.E_arg2, RefRun.E_arg5, RefRun.E_arg6]
  show max (Host.dotGeneral dot_S200000x256_S256x64_S200000x64_1_0_0_1_n_n none _ _ (ix2 n l)
        * broadcastInDim (s := S1x64) S200000x64 ![0, 1] _ (broadcastInDim (s := S64) S1x64 ![1] _ _) (ix2 n l)
      + broadcastInDim (s := S1x64) S200000x64 ![0, 1] _ (broadcastInDim (s := S64) S1x64 ![1] _ _) (ix2 n l))
    (broadcastInDim (s := S_) S200000x64 ![] _ (constant (F := Ideal) S_ .f32 0x00000000#32) (ix2 n l)) = _
  rw [dot1_apply, bcastChan_apply _ _ (by decide), bcastChan_apply _ _ (by decide), bcast0_apply]
  show max _ (Ideal.ofBits .f32 0x00000000#32) = _
  rw [Ideal.ofBits_zero_f32]
  rfl

end Cert.ReferenceIdeal.RefIdx

end
-- ==== Proof.RefFam.lean ====
/-
  The reference's nine taps, as families of arrays by tap number.

  Tap k has an in-grid mask over the sites, the neighbour cell's linear index, and a result: the neighbour's row of the
  first stage's output where the tap keeps the site, zero elsewhere. The nine taps are visited in the order of the row
  offsets −1, 0, 1 and within them the column offsets −1, 0, 1.
-/
import proofs.«125710_j13511967113615_2_alg».proof.Proof.RefRun
import Idealize.ShloMosaic.PureOps.Ideal

noncomputable section

namespace Cert.ReferenceIdeal.RefIdx

open Cert.ReferenceIdeal Idealize.ShloMosaic Idealize.ShloMosaic.TcCoe

variable {F : FTy → Type} [FloatOps F]

/-- Tap k's in-grid mask. -/
def inbRv (m : (ℓ : Loc nD τ sig) → Buf (Elt F) ℓ) (c : Dev nD) : Fin 9 → IVec S200000 1
  | 0 => RefRun.E m c (Proc.devRef .tc main_v34)
  | 1 => RefRun.E m c (Proc.devRef .tc main_v79)
  | 2 => RefRun.E m c (Proc.devRef .tc main_v124)
  | 3 => RefRun.E m c (Proc.devRef .tc main_v169)
  | 4 => RefRun.E m c (Proc.devRef .tc main_v214)
  | 5 => RefRun.E m c (Proc.devRef .tc main_v259)
  | 6 => RefRun.E m c (Proc.devRef .tc main_v304)
  | 7 => RefRun.E m c (Proc.devRef .tc main_v349)
  | 8 => RefRun.E m c (Proc.devRef .tc main_v394)

/-- Tap k's neighbour cell, as a non-negative linear index. -/
def linRv (m : (ℓ : Loc nD τ sig) → Buf (Elt F) ℓ) (c : Dev nD) : Fin 9 → IVec S200000 32
  | 0 => RefRun.E m c (Proc.devRef .tc main_v44)
  | 1 => RefRun.E m c (Proc.devRef .tc main_v89)
  | 2 => RefRun.E m c (Proc.devRef .tc main_v134)
  | 3 => RefRun.E m c (Proc.devRef .tc main_v179)
  | 4 => RefRun.E m c (Proc.devRef .tc main_v224)
  | 5 => RefRun.E m c (Proc.devRef .tc main_v269)
  | 6 => RefRun.E m c (Proc.devRef .tc main_v314)
  | 7 => RefRun.E m c (Proc.devRef .tc main_v359)
  | 8 => RefRun.E m c (Proc.devRef .tc main_v404)

/-- Tap k's rows: the kept neighbour's first-stage row, zero where the site is not kept. -/
def wv (m : (ℓ : Loc nD τ sig) → Buf (Elt Ideal) ℓ) (c : Dev nD) : Fin 9 → (S200000x64.Idx → EReal)
  | 0 => RefRun.E (F := Ideal) m c (Proc.devRef .tc main_v60)
  | 1 => RefRun.E (F := Ideal) m c (Proc.devRef .tc main_v105)
  | 2 => RefRun.E (F := Ideal) m c (Proc.devRef .tc main_v150)
  | 3 => RefRun.E (F := Ideal) m c (Proc.devRef .tc main_v195)
  | 4 => RefRun.E (F := Ideal) m c (Proc.devRef .tc main_v240)
  | 5 => RefRun.E (F := Ideal) m c (Proc.devRef .tc main_v285)
  | 6 => RefRun.E (F := Ideal) m c (Proc.devRef .tc main_v330)
  | 7 => RefRun.E (F := Ideal) m c (Proc.devRef .tc main_v375)
  | 8 => RefRun.E (F := Ideal) m c (Proc.devRef .tc main_v420)

end Cert.ReferenceIdeal.RefIdx
end
-- ==== Proof.RefRead1.lean ====
/- Window 1 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_c_16 (m : (ℓ : Loc nD τ sig) → Buf (Elt F) ℓ) (c : Dev nD) :
    (RefRun.E m c (Proc.devRef .tc main_c_16)) = (constantI S_ 32 589824#32) :=
  end0 RefRun.hW1 (RefRun.V1 m c) (RefRun.E m c) RefRun.later1 (RefRun.T1 m c) 0 main_c_16 (constantI S_ 32 589824#32) _ rfl (nk (by decide +kernel))

theorem rd_main_v42 (m : (ℓ : Loc nD τ sig) → Buf (Elt F) ℓ) (c : Dev nD) :
    (RefRun.E m c (Proc.devRef .tc main_v42)) = (broadcastInDim S200000 ![] bcast_S_S200000 : (⟨S_, .i32⟩ : BufTy).Contents (Elt F) → (⟨S200000, .i32⟩ : BufTy).Contents (Elt F)) (RefRun.E m c (Proc.devRef .tc main_c_16)) :=
  end1 RefRun.hW1 (RefRun.V1 m c) (RefRun.E m c) RefRun.later1 (RefRun.T1 m c) 1 main_c_16 main_v42 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v43 (m : (ℓ : Loc nD τ sig) → Buf (Elt F) ℓ) (c : Dev nD) :
    (RefRun.E m c (Proc.devRef .tc main_v43)) = (addi : (⟨S200000, .i32⟩ : BufTy).Contents (Elt F) → (⟨S200000, .i32⟩ : BufTy).Contents (Elt F) → (⟨S200000, .i32⟩ : BufTy).Contents (Elt F)) (RefRun.E m c (Proc.devRef .tc main_v39)) (RefRun.E m c (Proc.devRef .tc main_v42)) :=
  end2 RefRun.hW1 (RefRun.V1 m c) (RefRun.E m c) RefRun.later1 (RefRun.T1 m c) 2 main_v39 main_v42 main_v43 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v44 (m : (ℓ : Loc nD τ sig) → Buf (Elt F) ℓ) (c : Dev nD) :
    (RefRun.E m c (Proc.devRef .tc main_v44)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v41)) (RefRun.E m c (Proc.devRef .tc main_v43)) (RefRun.E m c (Proc.devRef .tc main_v39)) :=
  end3 RefRun.hW1 (RefRun.V1 m c) (RefRun.E m c) RefRun.later1 (RefRun.T1 m c) 3 main_v41 main_v43 main_v39 main_v44 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v45 (m : (ℓ : Loc nD τ sig) → Buf (Elt F) ℓ) (c : Dev nD) :
    (RefRun.E m c (Proc.devRef .tc main_v45)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v44)) :=
  end1 RefRun.hW1 (RefRun.V1 m c) (RefRun.E m c) RefRun.later1 (RefRun.T1 m c) 4 main_v44 main_v45 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v46 (m : (ℓ : Loc nD τ sig) → Buf (Elt F) ℓ) (c : Dev nD) :
    (RefRun.E m c (Proc.devRef .tc main_v46)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v45)) :=
  end2 RefRun.hW1 (RefRun.V1 m c) (RefRun.E m c) RefRun.later1 (RefRun.T1 m c) 5 main_v16 main_v45 main_v46 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_17 (m : (ℓ : Loc nD τ sig) → Buf (Elt F) ℓ) (c : Dev nD) :
    (RefRun.E m c (Proc.devRef .tc main_c_17)) = (constantI S_ 32 0#32) :=
  end0 RefRun.hW1 (RefRun.V1 m c) (RefRun.E m c) RefRun.later1 (RefRun.T1 m c) 6 main_c_17 (constantI S_ 32 0#32) _ rfl (nk (by decide +kernel))

theorem rd_main_v47 (m : (ℓ : Loc nD τ sig) → Buf (Elt F) ℓ) (c : Dev nD) :
    (RefRun.E m c (Proc.devRef .tc main_v47)) = (broadcastInDim S200000 ![] bcast_S_S200000 : (⟨S_, .i32⟩ : BufTy).Contents (Elt F) → (⟨S200000, .i32⟩ : BufTy).Contents (Elt F)) (RefRun.E m c (Proc.devRef .tc main_c_17)) :=
  end1 RefRun.hW1 (RefRun.V1 m c) (RefRun.E m c) RefRun.later1 (RefRun.T1 m c) 7 main_c_17 main_v47 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v48 (m : (ℓ : Loc nD τ sig) → Buf (Elt F) ℓ) (c : Dev nD) :
    (RefRun.E m c (Proc.devRef .tc main_v48)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v46)) (RefRun.E m c (Proc.devRef .tc main_v47)) :=
  end2 RefRun.hW1 (RefRun.V1 m c) (RefRun.E m c) RefRun.later1 (RefRun.T1 m c) 8 main_v46 main_v47 main_v48 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v49 (m : (ℓ : Loc nD τ sig) → Buf (Elt F) ℓ) (c : Dev nD) :
    (RefRun.E m c (Proc.devRef .tc main_v49)) = (andi : (⟨S200000, .i1⟩ : BufTy).Contents (Elt F) → (⟨S200000, .i1⟩ : BufTy).Contents (Elt F) → (⟨S200000, .i1⟩ : BufTy).Contents (Elt F)) (RefRun.E m c (Proc.devRef .tc main_v34)) (RefRun.E m c (Proc.devRef .tc main_v48)) :=
  end2 RefRun.hW1 (RefRun.V1 m c) (RefRun.E m c) RefRun.later1 (RefRun.T1 m c) 9 main_v34 main_v48 main_v49 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v50 (m : (ℓ : Loc nD τ sig) → Buf (Elt F) ℓ) (c : Dev nD) :
    (RefRun.E m c (Proc.devRef .tc main_v50)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v49)) :=
  end1 RefRun.hW1 (RefRun.V1 m c) (RefRun.E m c) RefRun.later1 (RefRun.T1 m c) 10 main_v49 main_v50 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_18 (m : (ℓ : Loc nD τ sig) → Buf (Elt F) ℓ) (c : Dev nD) :
    (RefRun.E m c (Proc.devRef .tc main_c_18)) = (constantI S_ 32 0#32) :=
  end0 RefRun.hW1 (RefRun.V1 m c) (RefRun.E m c) RefRun.later1 (RefRun.T1 m c) 11 main_c_18 (constantI S_ 32 0#32) _ rfl (nk (by decide +kernel))

theorem rd_main_v51 (m : (ℓ : Loc nD τ sig) → Buf (Elt F) ℓ) (c : Dev nD) :
    (RefRun.E m c (Proc.devRef .tc main_v51)) = (broadcastInDim S200000 ![] bcast_S_S200000 : (⟨S_, .i32⟩ : BufTy).Contents (Elt F) → (⟨S200000, .i32⟩ : BufTy).Contents (Elt F)) (RefRun.E m c (Proc.devRef .tc main_c_18)) :=
  end1 RefRun.hW1 (RefRun.V1 m c) (RefRun.E m c) RefRun.later1 (RefRun.T1 m c) 12 main_c_18 main_v51 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v52 (m : (ℓ : Loc nD τ sig) → Buf (Elt F) ℓ) (c : Dev nD) :
    (RefRun.E m c (Proc.devRef .tc main_v52)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v46)) (RefRun.E m c (Proc.devRef .tc main_v51)) :=
  end2 RefRun.hW1 (RefRun.V1 m c) (RefRun.E m c) RefRun.later1 (RefRun.T1 m c) 13 main_v46 main_v51 main_v52 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_19 (m : (ℓ : Loc nD τ sig) → Buf (Elt F) ℓ) (c : Dev nD) :
    (RefRun.E m c (Proc.devRef .tc main_c_19)) = (constantI S_ 32 0#32) :=
  end0 RefRun.hW1 (RefRun.V1 m c) (RefRun.E m c) RefRun.later1 (RefRun.T1 m c) 14 main_c_19 (constantI S_ 32 0#32) _ rfl (nk (by decide +kernel))

theorem rd_main_v53 (m : (ℓ : Loc nD τ sig) → Buf (Elt F) ℓ) (c : Dev nD) :
    (RefRun.E m c (Proc.devRef .tc main_v53)) = (broadcastInDim S200000 ![] bcast_S_S200000 : (⟨S_, .i32⟩ : BufTy).Contents (Elt F) → (⟨S200000, .i32⟩ : BufTy).Contents (Elt F)) (RefRun.E m c (Proc.devRef .tc main_c_19)) :=
  end1 RefRun.hW1 (RefRun.V1 m c) (RefRun.E m c) RefRun.later1 (RefRun.T1 m c) 15 main_c_19 main_v53 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v54 (m : (ℓ : Loc nD τ sig) → Buf (Elt F) ℓ) (c : Dev nD) :
    (RefRun.E m c (Proc.devRef .tc main_v54)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v52)) (RefRun.E m c (Proc.devRef .tc main_v53)) :=
  end2 RefRun.hW1 (RefRun.V1 m c) (RefRun.E m c) RefRun.later1 (RefRun.T1 m c) 16 main_v52 main_v53 main_v54 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_20 (m : (ℓ : Loc nD τ sig) → Buf (Elt F) ℓ) (c : Dev nD) :
    (RefRun.E m c (Proc.devRef .tc main_c_20)) = (constantI S_ 32 200000#32) :=
  end0 RefRun.hW1 (RefRun.V1 m c) (RefRun.E m c) RefRun.later1 (RefRun.T1 m c) 17 main_c_20 (constantI S_ 32 200000#32) _ rfl (nk (by decide +kernel))

theorem rd_main_v55 (m : (ℓ : Loc nD τ sig) → Buf (Elt F) ℓ) (c : Dev nD) :
    (RefRun.E m c (Proc.devRef .tc main_v55)) = (broadcastInDim S200000 ![] bcast_S_S200000 : (⟨S_, .i32⟩ : BufTy).Contents (Elt F) → (⟨S200000, .i32⟩ : BufTy).Contents (Elt F)) (RefRun.E m c (Proc.devRef .tc main_c_20)) :=
  end1 RefRun.hW1 (RefRun.V1 m c) (RefRun.E m c) RefRun.later1 (RefRun.T1 m c) 18 main_c_20 main_v55 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v56 (m : (ℓ : Loc nD τ sig) → Buf (Elt F) ℓ) (c : Dev nD) :
    (RefRun.E m c (Proc.devRef .tc main_v56)) = (addi : (⟨S200000, .i32⟩ : BufTy).Contents (Elt F) → (⟨S200000, .i32⟩ : BufTy).Contents (Elt F) → (⟨S200000, .i32⟩ : BufTy).Contents (Elt F)) (RefRun.E m c (Proc.devRef .tc main_v52)) (RefRun.E m c (Proc.devRef .tc main_v55)) :=
  end2 RefRun.hW1 (RefRun.V1 m c) (RefRun.E m c) RefRun.later1 (RefRun.T1 m c) 19 main_v52 main_v55 main_v56 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v57 (m : (ℓ : Loc nD τ sig) → Buf (Elt F) ℓ) (c : Dev nD) :
    (RefRun.E m c (Proc.devRef .tc main_v57)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v54)) (RefRun.E m c (Proc.devRef .tc main_v56)) (RefRun.E m c (Proc.devRef .tc main_v52)) :=
  end3 RefRun.hW1 (RefRun.V1 m c) (RefRun.E m c) RefRun.later1 (RefRun.T1 m c) 20 main_v54 main_v56 main_v52 main_v57 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v58 (m : (ℓ : Loc nD τ sig) → Buf (Elt F) ℓ) (c : Dev nD) :
    (RefRun.E m c (Proc.devRef .tc main_v58)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v57)) :=
  end1 RefRun.hW1 (RefRun.V1 m c) (RefRun.E m c) RefRun.later1 (RefRun.T1 m c) 21 main_v57 main_v58 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v59 (m : (ℓ : Loc nD τ sig) → Buf (Elt F) ℓ) (c : Dev nD) :
    (RefRun.E m c (Proc.devRef .tc main_v59)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v58)) :=
  end2 RefRun.hW1 (RefRun.V1 m c) (RefRun.E m c) RefRun.later1 (RefRun.T1 m c) 22 main_v7 main_v58 main_v59 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_21 (m : (ℓ : Loc nD τ sig) → Buf (Elt F) ℓ) (c : Dev nD) :
    (RefRun.E m c (Proc.devRef .tc main_cst_21)) = (constant S_ .f32 0x00000000#32) :=
  end0 RefRun.hW1 (RefRun.V1 m c) (RefRun.E m c) RefRun.later1 (RefRun.T1 m c) 23 main_cst_21 (constant S_ .f32 0x00000000#32) _ rfl (nk (by decide +kernel))

theorem rd_main_call5_v0 (m : (ℓ : Loc nD τ sig) → Buf (Elt F) ℓ) (c : Dev nD) :
    (RefRun.E m c (Proc.devRef .tc main_call5_v0)) = (id : (⟨S_, .f32⟩ : BufTy).Contents (Elt F) → (⟨S_, .f32⟩ : BufTy).Contents (Elt F)) (RefRun.E m c (Proc.devRef .tc main_cst_21)) :=
  end1 RefRun.hW1 (RefRun.V1 m c) (RefRun.E m c) RefRun.later1 (RefRun.T1 m c) 24 main_cst_21 main_call5_v0 (id : (⟨S_, .f32⟩ : BufTy).Contents (Elt F) → (⟨S_, .f32⟩ : BufTy).Contents (Elt F)) _ _ rfl (nk (by decide +kernel)) (nk (by decide +kernel))

theorem rd_main_call5_v1 (m : (ℓ : Loc nD τ sig) → Buf (Elt F) ℓ) (c : Dev nD) :
    (RefRun.E m c (Proc.devRef .tc main_call5_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v50)) :=
  end1 RefRun.hW1 (RefRun.V1 m c) (RefRun.E m c) RefRun.later1 (RefRun.T1 m c) 25 main_v50 main_call5_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call5_v2 (m : (ℓ : Loc nD τ sig) → Buf (Elt F) ℓ) (c : Dev nD) :
    (RefRun.E m c (Proc.devRef .tc main_call5_v2)) = ((broadcastInDim S200000x64 ![] bcast_S_S200000x64) : (⟨S_, .f32⟩ : BufTy).Contents (Elt F) → (⟨S200000x64, .f32⟩ : BufTy).Contents (Elt F)) (RefRun.E m c (Proc.devRef .tc main_call5_v0)) :=
  end1 RefRun.hW1 (RefRun.V1 m c) (RefRun.E m c) RefRun.later1 (RefRun.T1 m c) 26 main_call5_v0 main_call5_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v60 (m : (ℓ : Loc nD τ sig) → Buf (Elt F) ℓ) (c : Dev nD) :
    (RefRun.E m c (Proc.devRef .tc main_v60)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call5_v1)) (RefRun.E m c (Proc.devRef .tc main_v59)) (RefRun.E m c (Proc.devRef .tc main_call5_v2)) :=
  end3 RefRun.hW1 (RefRun.V1 m c) (RefRun.E m c) RefRun.later1 (RefRun.T1 m c) 27 main_call5_v1 main_v59 main_call5_v2 main_v60 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v61 (m : (ℓ : Loc nD τ sig) → Buf (Elt F) ℓ) (c : Dev nD) :
    (RefRun.E m c (Proc.devRef .tc main_v61)) = ((extractStridedSlice S1x64x64 ![0, 0, 0] · slices_S9x64x64_S1x64x64_0_0_0) : (⟨S9x64x64, .f32⟩ : BufTy).Contents (Elt F) → (⟨S1x64x64, .f32⟩ : BufTy).Contents (Elt F)) (RefRun.E m c (Proc.devRef .tc main_arg3)) :=
  end1 RefRun.hW1 (RefRun.V1 m c) (RefRun.E m c) RefRun.later1 (RefRun.T1 m c) 28 main_arg3 main_v61 ((extractStridedSlice S1x64x64 ![0, 0, 0] · slices_S9x64x64_S1x64x64_0_0_0) : (⟨S9x64x64, .f32⟩ : BufTy).Contents (Elt F) → (⟨S1x64x64, .f32⟩ : BufTy).Contents (Elt F)) _ _ rfl (nk (by decide +kernel)) (nk (by decide +kernel))

theorem rd_main_v62 (m : (ℓ : Loc nD τ sig) → Buf (Elt F) ℓ) (c : Dev nD) :
    (RefRun.E m c (Proc.devRef .tc main_v62)) = RefRun.reshaped main_v61 main_v62 rfl shapeCasts_S1x64x64_S64x64 (RefRun.E m c) :=
  endReshape RefRun.hW1 (RefRun.V1 m c) (RefRun.E m c) RefRun.later1 (RefRun.T1 m c) 29 main_v61 main_v62 rfl shapeCasts_S1x64x64_S64x64 _ _ rfl (nk (by decide +kernel)) (nk (by decide +kernel))

theorem rd_main_v63 (m : (ℓ : Loc nD τ sig) → Buf (Elt F) ℓ) (c : Dev nD) :
    (RefRun.E m c (Proc.devRef .tc main_v63)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v60)) (RefRun.E m c (Proc.devRef .tc main_v62)) :=
  end2 RefRun.hW1 (RefRun.V1 m c) (RefRun.E m c) RefRun.later1 (RefRun.T1 m c) 30 main_v60 main_v62 main_v63 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v64 (m : (ℓ : Loc nD τ sig) → Buf (Elt F) ℓ) (c : Dev nD) :
    (RefRun.E m c (Proc.devRef .tc main_v64)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v19)) (RefRun.E m c (Proc.devRef .tc main_v63)) :=
  end2 RefRun.hW1 (RefRun.V1 m c) (RefRun.E m c) RefRun.later1 (RefRun.T1 m c) 31 main_v19 main_v63 main_v64 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_22 (m : (ℓ : Loc nD τ sig) → Buf (Elt F) ℓ) (c : Dev nD) :
    (RefRun.E m c (Proc.devRef .tc main_c_22)) = (constantI S_ 32 4294967295#32) :=
  end0 RefRun.hW1 (RefRun.V1 m c) (RefRun.E m c) RefRun.later1 (RefRun.T1 m c) 32 main_c_22 (constantI S_ 32 4294967295#32) _ rfl (nk (by decide +kernel))

theorem rd_main_v65 (m : (ℓ : Loc nD τ sig) → Buf (Elt F) ℓ) (c : Dev nD) :
    (RefRun.E m c (Proc.devRef .tc main_v65)) = (broadcastInDim S200000 ![] bcast_S_S200000 : (⟨S_, .i32⟩ : BufTy).Contents (Elt F) → (⟨S200000, .i32⟩ : BufTy).Contents (Elt F)) (RefRun.E m c (Proc.devRef .tc main_c_22)) :=
  end1 RefRun.hW1 (RefRun.V1 m c) (RefRun.E m c) RefRun.later1 (RefRun.T1 m c) 33 main_c_22 main_v65 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v66 (m : (ℓ : Loc nD τ sig) → Buf (Elt F) ℓ) (c : Dev nD) :
    (RefRun.E m c (Proc.devRef .tc main_v66)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v65)) :=
  end2 RefRun.hW1 (RefRun.V1 m c) (RefRun.E m c) RefRun.later1 (RefRun.T1 m c) 34 main_v17 main_v65 main_v66 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_23 (m : (ℓ : Loc nD τ sig) → Buf (Elt F) ℓ) (c : Dev nD) :
    (RefRun.E m c (Proc.devRef .tc main_c_23)) = (constantI S_ 32 0#32) :=
  end0 RefRun.hW1 (RefRun.V1 m c) (RefRun.E m c) RefRun.later1 (RefRun.T1 m c) 35 main_c_23 (constantI S_ 32 0#32) _ rfl (nk (by decide +kernel))

theorem rd_main_v67 (m : (ℓ : Loc nD τ sig) → Buf (Elt F) ℓ) (c : Dev nD) :
    (RefRun.E m c (Proc.devRef .tc main_v67)) = (broadcastInDim S200000 ![] bcast_S_S200000 : (⟨S_, .i32⟩ : BufTy).Contents (Elt F) → (⟨S200000, .i32⟩ : BufTy).Contents (Elt F)) (RefRun.E m c (Proc.devRef .tc main_c_23)) :=
  end1 RefRun.hW1 (RefRun.V1 m c) (RefRun.E m c) RefRun.later1 (RefRun.T1 m c) 36 main_c_23 main_v67 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v68 (m : (ℓ : Loc nD τ sig) → Buf (Elt F) ℓ) (c : Dev nD) :
    (RefRun.E m c (Proc.devRef .tc main_v68)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v67)) :=
  end2 RefRun.hW1 (RefRun.V1 m c) (RefRun.E m c) RefRun.later1 (RefRun.T1 m c) 37 main_v18 main_v67 main_v68 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_24 (m : (ℓ : Loc nD τ sig) → Buf (Elt F) ℓ) (c : Dev nD) :
    (RefRun.E m c (Proc.devRef .tc main_c_24)) = (constantI S_ 32 0#32) :=
  end0 RefRun.hW1 (RefRun.V1 m c) (RefRun.E m c) RefRun.later1 (RefRun.T1 m c) 38 main_c_24 (constantI S_ 32 0#32) _ rfl (nk (by decide +kernel))

theorem rd_main_v69 (m : (ℓ : Loc nD τ sig) → Buf (Elt F) ℓ) (c : Dev nD) :
    (RefRun.E m c (Proc.devRef .tc main_v69)) = (broadcastInDim S200000 ![] bcast_S_S200000 : (⟨S_, .i32⟩ : BufTy).Contents (Elt F) → (⟨S200000, .i32⟩ : BufTy).Contents (Elt F)) (RefRun.E m c (Proc.devRef .tc main_c_24)) :=
  end1 RefRun.hW1 (RefRun.V1 m c) (RefRun.E m c) RefRun.later1 (RefRun.T1 m c) 39 main_c_24 main_v69 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v70 (m : (ℓ : Loc nD τ sig) → Buf (Elt F) ℓ) (c : Dev nD) :
    (RefRun.E m c (Proc.devRef .tc main_v70)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v66)) (RefRun.E m c (Proc.devRef .tc main_v69)) :=
  end2 RefRun.hW1 (RefRun.V1 m c) (RefRun.E m c) RefRun.later1 (RefRun.T1 m c) 40 main_v66 main_v69 main_v70 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_25 (m : (ℓ : Loc nD τ sig) → Buf (Elt F) ℓ) (c : Dev nD) :
    (RefRun.E m c (Proc.devRef .tc main_c_25)) = (constantI S_ 32 768#32) :=
  end0 RefRun.hW1 (RefRun.V1 m c) (RefRun.E m c) RefRun.later1 (RefRun.T1 m c) 41 main_c_25 (constantI S_ 32 768#32) _ rfl (nk (by decide +kernel))

theorem rd_main_v71 (m : (ℓ : Loc nD τ sig) → Buf (Elt F) ℓ) (c : Dev nD) :
    (RefRun.E m c (Proc.devRef .tc main_v71)) = (broadcastInDim S200000 ![] bcast_S_S200000 : (⟨S_, .i32⟩ : BufTy).Contents (Elt F) → (⟨S200000, .i32⟩ : BufTy).Contents (Elt F)) (RefRun.E m c (Proc.devRef .tc main_c_25)) :=
  end1 RefRun.hW1 (RefRun.V1 m c) (RefRun.E m c) RefRun.later1 (RefRun.T1 m c) 42 main_c_25 main_v71 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v72 (m : (ℓ : Loc nD τ sig) → Buf (Elt F) ℓ) (c : Dev nD) :
    (RefRun.E m c (Proc.devRef .tc main_v72)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v66)) (RefRun.E m c (Proc.devRef .tc main_v71)) :=
  end2 RefRun.hW1 (RefRun.V1 m c) (RefRun.E m c) RefRun.later1 (RefRun.T1 m c) 43 main_v66 main_v71 main_v72 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v73 (m : (ℓ : Loc nD τ sig) → Buf (Elt F) ℓ) (c : Dev nD) :
    (RefRun.E m c (Proc.devRef .tc main_v73)) = (andi : (⟨S200000, .i1⟩ : BufTy).Contents (Elt F) → (⟨S200000, .i1⟩ : BufTy).Contents (Elt F) → (⟨S200000, .i1⟩ : BufTy).Contents (Elt F)) (RefRun.E m c (Proc.devRef .tc main_v70)) (RefRun.E m c (Proc.devRef .tc main_v72)) :=
  end2 RefRun.hW1 (RefRun.V1 m c) (RefRun.E m c) RefRun.later1 (RefRun.T1 m c) 44 main_v70 main_v72 main_v73 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_26 (m : (ℓ : Loc nD τ sig) → Buf (Elt F) ℓ) (c : Dev nD) :
    (RefRun.E m c (Proc.devRef .tc main_c_26)) = (constantI S_ 32 0#32) :=
  end0 RefRun.hW1 (RefRun.V1 m c) (RefRun.E m c) RefRun.later1 (RefRun.T1 m c) 45 main_c_26 (constantI S_ 32 0#32) _ rfl (nk (by decide +kernel))

theorem rd_main_v74 (m : (ℓ : Loc nD τ sig) → Buf (Elt F) ℓ) (c : Dev nD) :
    (RefRun.E m c (Proc.devRef .tc main_v74)) = (broadcastInDim S200000 ![] bcast_S_S200000 : (⟨S_, .i32⟩ : BufTy).Contents (Elt F) → (⟨S200000, .i32⟩ : BufTy).Contents (Elt F)) (RefRun.E m c (Proc.devRef .tc main_c_26)) :=
  end1 RefRun.hW1 (RefRun.V1 m c) (RefRun.E m c) RefRun.later1 (RefRun.T1 m c) 46 main_c_26 main_v74 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v75 (m : (ℓ : Loc nD τ sig) → Buf (Elt F) ℓ) (c : Dev nD) :
    (RefRun.E m c (Proc.devRef .tc main_v75)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v68)) (RefRun.E m c (Proc.devRef .tc main_v74)) :=
  end2 RefRun.hW1 (RefRun.V1 m c) (RefRun.E m c) RefRun.later1 (RefRun.T1 m c) 47 main_v68 main_v74 main_v75 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v76 (m : (ℓ : Loc nD τ sig) → Buf (Elt F) ℓ) (c : Dev nD) :
    (RefRun.E m c (Proc.devRef .tc main_v76)) = (andi : (⟨S200000, .i1⟩ : BufTy).Contents (Elt F) → (⟨S200000, .i1⟩ : BufTy).Contents (Elt F) → (⟨S200000, .i1⟩ : BufTy).Contents (Elt F)) (RefRun.E m c (Proc.devRef .tc main_v73)) (RefRun.E m c (Proc.devRef .tc main_v75)) :=
  end2 RefRun.hW1 (RefRun.V1 m c) (RefRun.E m c) RefRun.later1 (RefRun.T1 m c) 48 main_v73 main_v75 main_v76 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_27 (m : (ℓ : Loc nD τ sig) → Buf (Elt F) ℓ) (c : Dev nD) :
    (RefRun.E m c (Proc.devRef .tc main_c_27)) = (constantI S_ 32 768#32) :=
  end0 RefRun.hW1 (RefRun.V1 m c) (RefRun.E m c) RefRun.later1 (RefRun.T1 m c) 49 main_c_27 (constantI S_ 32 768#32) _ rfl (nk (by decide +kernel))

theorem rd_main_v77 (m : (ℓ : Loc nD τ sig) → Buf (Elt F) ℓ) (c : Dev nD) :
    (RefRun.E m c (Proc.devRef .tc main_v77)) = (broadcastInDim S200000 ![] bcast_S_S200000 : (⟨S_, .i32⟩ : BufTy).Contents (Elt F) → (⟨S200000, .i32⟩ : BufTy).Contents (Elt F)) (RefRun.E m c (Proc.devRef .tc main_c_27)) :=
  end1 RefRun.hW1 (RefRun.V1 m c) (RefRun.E m c) RefRun.later1 (RefRun.T1 m c) 50 main_c_27 main_v77 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v78 (m : (ℓ : Loc nD τ sig) → Buf (Elt F) ℓ) (c : Dev nD) :
    (RefRun.E m c (Proc.devRef .tc main_v78)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v68)) (RefRun.E m c (Proc.devRef .tc main_v77)) :=
  end2 RefRun.hW1 (RefRun.V1 m c) (RefRun.E m c) RefRun.later1 (RefRun.T1 m c) 51 main_v68 main_v77 main_v78 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v79 (m : (ℓ : Loc nD τ sig) → Buf (Elt F) ℓ) (c : Dev nD) :
    (RefRun.E m c (Proc.devRef .tc main_v79)) = (andi : (⟨S200000, .i1⟩ : BufTy).Contents (Elt F) → (⟨S200000, .i1⟩ : BufTy).Contents (Elt F) → (⟨S200000, .i1⟩ : BufTy).Contents (Elt F)) (RefRun.E m c (Proc.devRef .tc main_v76)) (RefRun.E m c (Proc.devRef .tc main_v78)) :=
  end2 RefRun.hW1 (RefRun.V1 m c) (RefRun.E m c) RefRun.later1 (RefRun.T1 m c) 52 main_v76 main_v78 main_v79 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_28 (m : (ℓ : Loc nD τ sig) → Buf (Elt F) ℓ) (c : Dev nD) :
    (RefRun.E m c (Proc.devRef .tc main_c_28)) = (constantI S_ 32 0#32) :=
  end0 RefRun.hW1 (RefRun.V1 m c) (RefRun.E m c) RefRun.later1 (RefRun.T1 m c) 53 main_c_28 (constantI S_ 32 0#32) _ rfl (nk (by decide +kernel))

theorem rd_main_c_29 (m : (ℓ : Loc nD τ sig) → Buf (Elt F) ℓ) (c : Dev nD) :
    (RefRun.E m c (Proc.devRef .tc main_c_29)) = (constantI S_ 32 767#32) :=
  end0 RefRun.hW1 (RefRun.V1 m c) (RefRun.E m c) RefRun.later1 (RefRun.T1 m c) 54 main_c_29 (constantI S_ 32 767#32) _ rfl (nk (by decide +kernel))

theorem rd_main_call6_v0 (m : (ℓ : Loc nD τ sig) → Buf (Elt F) ℓ) (c : Dev nD) :
    (RefRun.E m c (Proc.devRef .tc main_call6_v0)) = (id : (⟨S_, .i32⟩ : BufTy).Contents (Elt F) → (⟨S_, .i32⟩ : BufTy).Contents (Elt F)) (RefRun.E m c (Proc.devRef .tc main_c_28)) :=
  end1 RefRun.hW1 (RefRun.V1 m c) (RefRun.E m c) RefRun.later1 (RefRun.T1 m c) 55 main_c_28 main_call6_v0 (id : (⟨S_, .i32⟩ : BufTy).Contents (Elt F) → (⟨S_, .i32⟩ : BufTy).Contents (Elt F)) _ _ rfl (nk (by decide +kernel)) (nk (by decide +kernel))

theorem rd_main_call6_v1 (m : (ℓ : Loc nD τ sig) → Buf (Elt F) ℓ) (c : Dev nD) :
    (RefRun.E m c (Proc.devRef .tc main_call6_v1)) = ((broadcastInDim S200000 ![] bcast_S_S200000) : (⟨S_, .i32⟩ : BufTy).Contents (Elt F) → (⟨S200000, .i32⟩ : BufTy).Contents (Elt F)) (RefRun.E m c (Proc.devRef .tc main_call6_v0)) :=
  end1 RefRun.hW1 (RefRun.V1 m c) (RefRun.E m c) RefRun.later1 (RefRun.T1 m c) 56 main_call6_v0 main_call6_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call6_v2 (m : (ℓ : Loc nD τ sig) → Buf (Elt F) ℓ) (c : Dev nD) :
    (RefRun.E m c (Proc.devRef .tc main_call6_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call6_v1)) (RefRun.E m c (Proc.devRef .tc main_v66)) :=
  end2 RefRun.hW1 (RefRun.V1 m c) (RefRun.E m c) RefRun.later1 (RefRun.T1 m c) 57 main_call6_v1 main_v66 main_call6_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call6_v3 (m : (ℓ : Loc nD τ sig) → Buf (Elt F) ℓ) (c : Dev nD) :
    (RefRun.E m c (Proc.devRef .tc main_call6_v3)) = (id : (⟨S_, .i32⟩ : BufTy).Contents (Elt F) → (⟨S_, .i32⟩ : BufTy).Contents (Elt F)) (RefRun.E m c (Proc.devRef .tc main_c_29)) :=
  end1 RefRun.hW1 (RefRun.V1 m c) (RefRun.E m c) RefRun.later1 (RefRun.T1 m c) 58 main_c_29 main_call6_v3 (id : (⟨S_, .i32⟩ : BufTy).Contents (Elt F) → (⟨S_, .i32⟩ : BufTy).Contents (Elt F)) _ _ rfl (nk (by decide +kernel)) (nk (by decide +kernel))

theorem rd_main_call6_v4 (m : (ℓ : Loc nD τ sig) → Buf (Elt F) ℓ) (c : Dev nD) :
    (RefRun.E m c (Proc.devRef .tc main_call6_v4)) = ((broadcastInDim S200000 ![] bcast_S_S200000) : (⟨S_, .i32⟩ : BufTy).Contents (Elt F) → (⟨S200000, .i32⟩ : BufTy).Contents (Elt F)) (RefRun.E m c (Proc.devRef .tc main_call6_v3)) :=
  end1 RefRun.hW1 (RefRun.V1 m c) (RefRun.E m c) RefRun.later1 (RefRun.T1 m c) 59 main_call6_v3 main_call6_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v80 (m : (ℓ : Loc nD τ sig) → Buf (Elt F) ℓ) (c : Dev nD) :
    (RefRun.E m c (Proc.devRef .tc main_v80)) = (minsi : (⟨S200000, .i32⟩ : BufTy).Contents (Elt F) → (⟨S200000, .i32⟩ : BufTy).Contents (Elt F) → (⟨S200000, .i32⟩ : BufTy).Contents (Elt F)) (RefRun.E m c (Proc.devRef .tc main_call6_v4)) (RefRun.E m c (Proc.devRef .tc main_call6_v2)) :=
  end2 RefRun.hW1 (RefRun.V1 m c) (RefRun.E m c) RefRun.later1 (RefRun.T1 m c) 60 main_call6_v4 main_call6_v2 main_v80 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_30 (m : (ℓ : Loc nD τ sig) → Buf (Elt F) ℓ) (c : Dev nD) :
    (RefRun.E m c (Proc.devRef .tc main_c_30)) = (constantI S_ 32 768#32) :=
  end0 RefRun.hW1 (RefRun.V1 m c) (RefRun.E m c) RefRun.later1 (RefRun.T1 m c) 61 main_c_30 (constantI S_ 32 768#32) _ rfl (nk (by decide +kernel))

theorem rd_main_v81 (m : (ℓ : Loc nD τ sig) → Buf (Elt F) ℓ) (c : Dev nD) :
    (RefRun.E m c (Proc.devRef .tc main_v81)) = (broadcastInDim S200000 ![] bcast_S_S200000 : (⟨S_, .i32⟩ : BufTy).Contents (Elt F) → (⟨S200000, .i32⟩ : BufTy).Contents (Elt F)) (RefRun.E m c (Proc.devRef .tc main_c_30)) :=
  end1 RefRun.hW1 (RefRun.V1 m c) (RefRun.E m c) RefRun.later1 (RefRun.T1 m c) 62 main_c_30 main_v81 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v82 (m : (ℓ : Loc nD τ sig) → Buf (Elt F) ℓ) (c : Dev nD) :
    (RefRun.E m c (Proc.devRef .tc main_v82)) = (muli : (⟨S200000, .i32⟩ : BufTy).Contents (Elt F) → (⟨S200000, .i32⟩ : BufTy).Contents (Elt F) → (⟨S200000, .i32⟩ : BufTy).Contents (Elt F)) (RefRun.E m c (Proc.devRef .tc main_v80)) (RefRun.E m c (Proc.devRef .tc main_v81)) :=
  end2 RefRun.hW1 (RefRun.V1 m c) (RefRun.E m c) RefRun.later1 (RefRun.T1 m c) 63 main_v80 main_v81 main_v82 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_31 (m : (ℓ : Loc nD τ sig) → Buf (Elt F) ℓ) (c : Dev nD) :
    (RefRun.E m c (Proc.devRef .tc main_c_31)) = (constantI S_ 32 0#32) :=
  end0 RefRun.hW1 (RefRun.V1 m c) (RefRun.E m c) RefRun.later1 (RefRun.T1 m c) 64 main_c_31 (constantI S_ 32 0#32) _ rfl (nk (by decide +kernel))

theorem rd_main_c_32 (m : (ℓ : Loc nD τ sig) → Buf (Elt F) ℓ) (c : Dev nD) :
    (RefRun.E m c (Proc.devRef .tc main_c_32)) = (constantI S_ 32 767#32) :=
  end0 RefRun.hW1 (RefRun.V1 m c) (RefRun.E m c) RefRun.later1 (RefRun.T1 m c) 65 main_c_32 (constantI S_ 32 767#32) _ rfl (nk (by decide +kernel))

theorem rd_main_call7_v0 (m : (ℓ : Loc nD τ sig) → Buf (Elt F) ℓ) (c : Dev nD) :
    (RefRun.E m c (Proc.devRef .tc main_call7_v0)) = (id : (⟨S_, .i32⟩ : BufTy).Contents (Elt F) → (⟨S_, .i32⟩ : BufTy).Contents (Elt F)) (RefRun.E m c (Proc.devRef .tc main_c_31)) :=
  end1 RefRun.hW1 (RefRun.V1 m c) (RefRun.E m c) RefRun.later1 (RefRun.T1 m c) 66 main_c_31 main_call7_v0 (id : (⟨S_, .i32⟩ : BufTy).Contents (Elt F) → (⟨S_, .i32⟩ : BufTy).Contents (Elt F)) _ _ rfl (nk (by decide +kernel)) (nk (by decide +kernel))

theorem rd_main_call7_v1 (m : (ℓ : Loc nD τ sig) → Buf (Elt F) ℓ) (c : Dev nD) :
    (RefRun.E m c (Proc.devRef .tc main_call7_v1)) = ((broadcastInDim S200000 ![] bcast_S_S200000) : (⟨S_, .i32⟩ : BufTy).Contents (Elt F) → (⟨S200000, .i32⟩ : BufTy).Contents (Elt F)) (RefRun.E m c (Proc.devRef .tc main_call7_v0)) :=
  end1 RefRun.hW1 (RefRun.V1 m c) (RefRun.E m c) RefRun.later1 (RefRun.T1 m c) 67 main_call7_v0 main_call7_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call7_v2 (m : (ℓ : Loc nD τ sig) → Buf (Elt F) ℓ) (c : Dev nD) :
    (RefRun.E m c (Proc.devRef .tc main_call7_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call7_v1)) (RefRun.E m c (Proc.devRef .tc main_v68)) :=
  end2 RefRun.hW1 (RefRun.V1 m c) (RefRun.E m c) RefRun.later1 (RefRun.T1 m c) 68 main_call7_v1 main_v68 main_call7_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call7_v3 (m : (ℓ : Loc nD τ sig) → Buf (Elt F) ℓ) (c : Dev nD) :
    (RefRun.E m c (Proc.devRef .tc main_call7_v3)) = (id : (⟨S_, .i32⟩ : BufTy).Contents (Elt F) → (⟨S_, .i32⟩ : BufTy).Contents (Elt F)) (RefRun.E m c (Proc.devRef .tc main_c_32)) :=
  end1 RefRun.hW1 (RefRun.V1 m c) (RefRun.E m c) RefRun.later1 (RefRun.T1 m c) 69 main_c_32 main_call7_v3 (id : (⟨S_, .i32⟩ : BufTy).Contents (Elt F) → (⟨S_, .i32⟩ : BufTy).Contents (Elt F)) _ _ rfl (nk (by decide +kernel)) (nk (by decide +kernel))

theorem rd_main_call7_v4 (m : (ℓ : Loc nD τ sig) → Buf (Elt F) ℓ) (c : Dev nD) :
    (RefRun.E m c (Proc.devRef .tc main_call7_v4)) = ((broadcastInDim S200000 ![] bcast_S_S200000) : (⟨S_, .i32⟩ : BufTy).Contents (Elt F) → (⟨S200000, .i32⟩ : BufTy).Contents (Elt F)) (RefRun.E m c (Proc.devRef .tc main_call7_v3)) :=
  end1 RefRun.hW1 (RefRun.V1 m c) (RefRun.E m c) RefRun.later1 (RefRun.T1 m c) 70 main_call7_v3 main_call7_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v83 (m : (ℓ : Loc nD τ sig) → Buf (Elt F) ℓ) (c : Dev nD) :
    (RefRun.E m c (Proc.devRef .tc main_v83)) = (minsi : (⟨S200000, .i32⟩ : BufTy).Contents (Elt F) → (⟨S200000, .i32⟩ : BufTy).Contents (Elt F) → (⟨S200000, .i32⟩ : BufTy).Contents (Elt F)) (RefRun.E m c (Proc.devRef .tc main_call7_v4)) (RefRun.E m c (Proc.devRef .tc main_call7_v2)) :=
  end2 RefRun.hW1 (RefRun.V1 m c) (RefRun.E m c) RefRun.later1 (RefRun.T1 m c) 71 main_call7_v4 main_call7_v2 main_v83 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v84 (m : (ℓ : Loc nD τ sig) → Buf (Elt F) ℓ) (c : Dev nD) :
    (RefRun.E m c (Proc.devRef .tc main_v84)) = (addi : (⟨S200000, .i32⟩ : BufTy).Contents (Elt F) → (⟨S200000, .i32⟩ : BufTy).Contents (Elt F) → (⟨S200000, .i32⟩ : BufTy).Contents (Elt F)) (RefRun.E m c (Proc.devRef .tc main_v82)) (RefRun.E m c (Proc.devRef .tc main_v83)) :=
  end2 RefRun.hW1 (RefRun.V1 m c) (RefRun.E m c) RefRun.later1 (RefRun.T1 m c) 72 main_v82 main_v83 main_v84 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

end Cert.ReferenceIdeal.RefRead

end
-- ==== Proof.RefRead2.lean ====
/- Window 2 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_c_33 (m : (ℓ : Loc nD τ sig) → Buf (Elt F) ℓ) (c : Dev nD) :
    (RefRun.E m c (Proc.devRef .tc main_c_33)) = (constantI S_ 32 0#32) :=
  end0 RefRun.hW2 (RefRun.V2 m c) (RefRun.E m c) RefRun.later2 (RefRun.T2 m c) 0 main_c_33 (constantI S_ 32 0#32) _ rfl (nk (by decide +kernel))

theorem rd_main_v85 (m : (ℓ : Loc nD τ sig) → Buf (Elt F) ℓ) (c : Dev nD) :
    (RefRun.E m c (Proc.devRef .tc main_v85)) = (broadcastInDim S200000 ![] bcast_S_S200000 : (⟨S_, .i32⟩ : BufTy).Contents (Elt F) → (⟨S200000, .i32⟩ : BufTy).Contents (Elt F)) (RefRun.E m c (Proc.devRef .tc main_c_33)) :=
  end1 RefRun.hW2 (RefRun.V2 m c) (RefRun.E m c) RefRun.later2 (RefRun.T2 m c) 1 main_c_33 main_v85 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v86 (m : (ℓ : Loc nD τ sig) → Buf (Elt F) ℓ) (c : Dev nD) :
    (RefRun.E m c (Proc.devRef .tc main_v86)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v84)) (RefRun.E m c (Proc.devRef .tc main_v85)) :=
  end2 RefRun.hW2 (RefRun.V2 m c) (RefRun.E m c) RefRun.later2 (RefRun.T2 m c) 2 main_v84 main_v85 main_v86 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_34 (m : (ℓ : Loc nD τ sig) → Buf (Elt F) ℓ) (c : Dev nD) :
    (RefRun.E m c (Proc.devRef .tc main_c_34)) = (constantI S_ 32 589824#32) :=
  end0 RefRun.hW2 (RefRun.V2 m c) (RefRun.E m c) RefRun.later2 (RefRun.T2 m c) 3 main_c_34 (constantI S_ 32 589824#32) _ rfl (nk (by decide +kernel))

theorem rd_main_v87 (m : (ℓ : Loc nD τ sig) → Buf (Elt F) ℓ) (c : Dev nD) :
    (RefRun.E m c (Proc.devRef .tc main_v87)) = (broadcastInDim S200000 ![] bcast_S_S200000 : (⟨S_, .i32⟩ : BufTy).Contents (Elt F) → (⟨S200000, .i32⟩ : BufTy).Contents (Elt F)) (RefRun.E m c (Proc.devRef .tc main_c_34)) :=
  end1 RefRun.hW2 (RefRun.V2 m c) (RefRun.E m c) RefRun.later2 (RefRun.T2 m c) 4 main_c_34 main_v87 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v88 (m : (ℓ : Loc nD τ sig) → Buf (Elt F) ℓ) (c : Dev nD) :
    (RefRun.E m c (Proc.devRef .tc main_v88)) = (addi : (⟨S200000, .i32⟩ : BufTy).Contents (Elt F) → (⟨S200000, .i32⟩ : BufTy).Contents (Elt F) → (⟨S200000, .i32⟩ : BufTy).Contents (Elt F)) (RefRun.E m c (Proc.devRef .tc main_v84)) (RefRun.E m c (Proc.devRef .tc main_v87)) :=
  end2 RefRun.hW2 (RefRun.V2 m c) (RefRun.E m c) RefRun.later2 (RefRun.T2 m c) 5 main_v84 main_v87 main_v88 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v89 (m : (ℓ : Loc nD τ sig) → Buf (Elt F) ℓ) (c : Dev nD) :
    (RefRun.E m c (Proc.devRef .tc main_v89)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v86)) (RefRun.E m c (Proc.devRef .tc main_v88)) (RefRun.E m c (Proc.devRef .tc main_v84)) :=
  end3 RefRun.hW2 (RefRun.V2 m c) (RefRun.E m c) RefRun.later2 (RefRun.T2 m c) 6 main_v86 main_v88 main_v84 main_v89 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v90 (m : (ℓ : Loc nD τ sig) → Buf (Elt F) ℓ) (c : Dev nD) :
    (RefRun.E m c (Proc.devRef .tc main_v90)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v89)) :=
  end1 RefRun.hW2 (RefRun.V2 m c) (RefRun.E m c) RefRun.later2 (RefRun.T2 m c) 7 main_v89 main_v90 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v91 (m : (ℓ : Loc nD τ sig) → Buf (Elt F) ℓ) (c : Dev nD) :
    (RefRun.E m c (Proc.devRef .tc main_v91)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v90)) :=
  end2 RefRun.hW2 (RefRun.V2 m c) (RefRun.E m c) RefRun.later2 (RefRun.T2 m c) 8 main_v16 main_v90 main_v91 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_35 (m : (ℓ : Loc nD τ sig) → Buf (Elt F) ℓ) (c : Dev nD) :
    (RefRun.E m c (Proc.devRef .tc main_c_35)) = (constantI S_ 32 0#32) :=
  end0 RefRun.hW2 (RefRun.V2 m c) (RefRun.E m c) RefRun.later2 (RefRun.T2 m c) 9 main_c_35 (constantI S_ 32 0#32) _ rfl (nk (by decide +kernel))

theorem rd_main_v92 (m : (ℓ : Loc nD τ sig) → Buf (Elt F) ℓ) (c : Dev nD) :
    (RefRun.E m c (Proc.devRef .tc main_v92)) = (broadcastInDim S200000 ![] bcast_S_S200000 : (⟨S_, .i32⟩ : BufTy).Contents (Elt F) → (⟨S200000, .i32⟩ : BufTy).Contents (Elt F)) (RefRun.E m c (Proc.devRef .tc main_c_35)) :=
  end1 RefRun.hW2 (RefRun.V2 m c) (RefRun.E m c) RefRun.later2 (RefRun.T2 m c) 10 main_c_35 main_v92 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v93 (m : (ℓ : Loc nD τ sig) → Buf (Elt F) ℓ) (c : Dev nD) :
    (RefRun.E m c (Proc.devRef .tc main_v93)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v91)) (RefRun.E m c (Proc.devRef .tc main_v92)) :=
  end2 RefRun.hW2 (RefRun.V2 m c) (RefRun.E m c) RefRun.later2 (RefRun.T2 m c) 11 main_v91 main_v92 main_v93 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v94 (m : (ℓ : Loc nD τ sig) → Buf (Elt F) ℓ) (c : Dev nD) :
    (RefRun.E m c (Proc.devRef .tc main_v94)) = (andi : (⟨S200000, .i1⟩ : BufTy).Contents (Elt F) → (⟨S200000, .i1⟩ : BufTy).Contents (Elt F) → (⟨S200000, .i1⟩ : BufTy).Contents (Elt F)) (RefRun.E m c (Proc.devRef .tc main_v79)) (RefRun.E m c (Proc.devRef .tc main_v93)) :=
  end2 RefRun.hW2 (RefRun.V2 m c) (RefRun.E m c) RefRun.later2 (RefRun.T2 m c) 12 main_v79 main_v93 main_v94 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v95 (m : (ℓ : Loc nD τ sig) → Buf (Elt F) ℓ) (c : Dev nD) :
    (RefRun.E m c (Proc.devRef .tc main_v95)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v94)) :=
  end1 RefRun.hW2 (RefRun.V2 m c) (RefRun.E m c) RefRun.later2 (RefRun.T2 m c) 13 main_v94 main_v95 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_36 (m : (ℓ : Loc nD τ sig) → Buf (Elt F) ℓ) (c : Dev nD) :
    (RefRun.E m c (Proc.devRef .tc main_c_36)) = (constantI S_ 32 0#32) :=
  end0 RefRun.hW2 (RefRun.V2 m c) (RefRun.E m c) RefRun.later2 (RefRun.T2 m c) 14 main_c_36 (constantI S_ 32 0#32) _ rfl (nk (by decide +kernel))

theorem rd_main_v96 (m : (ℓ : Loc nD τ sig) → Buf (Elt F) ℓ) (c : Dev nD) :
    (RefRun.E m c (Proc.devRef .tc main_v96)) = (broadcastInDim S200000 ![] bcast_S_S200000 : (⟨S_, .i32⟩ : BufTy).Contents (Elt F) → (⟨S200000, .i32⟩ : BufTy).Contents (Elt F)) (RefRun.E m c (Proc.devRef .tc main_c_36)) :=
  end1 RefRun.hW2 (RefRun.V2 m c) (RefRun.E m c) RefRun.later2 (RefRun.T2 m c) 15 main_c_36 main_v96 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v97 (m : (ℓ : Loc nD τ sig) → Buf (Elt F) ℓ) (c : Dev nD) :
    (RefRun.E m c (Proc.devRef .tc main_v97)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v91)) (RefRun.E m c (Proc.devRef .tc main_v96)) :=
  end2 RefRun.hW2 (RefRun.V2 m c) (RefRun.E m c) RefRun.later2 (RefRun.T2 m c) 16 main_v91 main_v96 main_v97 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_37 (m : (ℓ : Loc nD τ sig) → Buf (Elt F) ℓ) (c : Dev nD) :
    (RefRun.E m c (Proc.devRef .tc main_c_37)) = (constantI S_ 32 0#32) :=
  end0 RefRun.hW2 (RefRun.V2 m c) (RefRun.E m c) RefRun.later2 (RefRun.T2 m c) 17 main_c_37 (constantI S_ 32 0#32) _ rfl (nk (by decide +kernel))

theorem rd_main_v98 (m : (ℓ : Loc nD τ sig) → Buf (Elt F) ℓ) (c : Dev nD) :
    (RefRun.E m c (Proc.devRef .tc main_v98)) = (broadcastInDim S200000 ![] bcast_S_S200000 : (⟨S_, .i32⟩ : BufTy).Contents (Elt F) → (⟨S200000, .i32⟩ : BufTy).Contents (Elt F)) (RefRun.E m c (Proc.devRef .tc main_c_37)) :=
  end1 RefRun.hW2 (RefRun.V2 m c) (RefRun.E m c) RefRun.later2 (RefRun.T2 m c) 18 main_c_37 main_v98 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v99 (m : (ℓ : Loc nD τ sig) → Buf (Elt F) ℓ) (c : Dev nD) :
    (RefRun.E m c (Proc.devRef .tc main_v99)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v97)) (RefRun.E m c (Proc.devRef .tc main_v98)) :=
  end2 RefRun.hW2 (RefRun.V2 m c) (RefRun.E m c) RefRun.later2 (RefRun.T2 m c) 19 main_v97 main_v98 main_v99 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_38 (m : (ℓ : Loc nD τ sig) → Buf (Elt F) ℓ) (c : Dev nD) :
    (RefRun.E m c (Proc.devRef .tc main_c_38)) = (constantI S_ 32 200000#32) :=
  end0 RefRun.hW2 (RefRun.V2 m c) (RefRun.E m c) RefRun.later2 (RefRun.T2 m c) 20 main_c_38 (constantI S_ 32 200000#32) _ rfl (nk (by decide +kernel))

theorem rd_main_v100 (m : (ℓ : Loc nD τ sig) → Buf (Elt F) ℓ) (c : Dev nD) :
    (RefRun.E m c (Proc.devRef .tc main_v100)) = (broadcastInDim S200000 ![] bcast_S_S200000 : (⟨S_, .i32⟩ : BufTy).Contents (Elt F) → (⟨S200000, .i32⟩ : BufTy).Contents (Elt F)) (RefRun.E m c (Proc.devRef .tc main_c_38)) :=
  end1 RefRun.hW2 (RefRun.V2 m c) (RefRun.E m c) RefRun.later2 (RefRun.T2 m c) 21 main_c_38 main_v100 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v101 (m : (ℓ : Loc nD τ sig) → Buf (Elt F) ℓ) (c : Dev nD) :
    (RefRun.E m c (Proc.devRef .tc main_v101)) = (addi : (⟨S200000, .i32⟩ : BufTy).Contents (Elt F) → (⟨S200000, .i32⟩ : BufTy).Contents (Elt F) → (⟨S200000, .i32⟩ : BufTy).Contents (Elt F)) (RefRun.E m c (Proc.devRef .tc main_v97)) (RefRun.E m c (Proc.devRef .tc main_v100)) :=
  end2 RefRun.hW2 (RefRun.V2 m c) (RefRun.E m c) RefRun.later2 (RefRun.T2 m c) 22 main_v97 main_v100 main_v101 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v102 (m : (ℓ : Loc nD τ sig) → Buf (Elt F) ℓ) (c : Dev nD) :
    (RefRun.E m c (Proc.devRef .tc main_v102)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v99)) (RefRun.E m c (Proc.devRef .tc main_v101)) (RefRun.E m c (Proc.devRef .tc main_v97)) :=
  end3 RefRun.hW2 (RefRun.V2 m c) (RefRun.E m c) RefRun.later2 (RefRun.T2 m c) 23 main_v99 main_v101 main_v97 main_v102 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v103 (m : (ℓ : Loc nD τ sig) → Buf (Elt F) ℓ) (c : Dev nD) :
    (RefRun.E m c (Proc.devRef .tc main_v103)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v102)) :=
  end1 RefRun.hW2 (RefRun.V2 m c) (RefRun.E m c) RefRun.later2 (RefRun.T2 m c) 24 main_v102 main_v103 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v104 (m : (ℓ : Loc nD τ sig) → Buf (Elt F) ℓ) (c : Dev nD) :
    (RefRun.E m c (Proc.devRef .tc main_v104)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v103)) :=
  end2 RefRun.hW2 (RefRun.V2 m c) (RefRun.E m c) RefRun.later2 (RefRun.T2 m c) 25 main_v7 main_v103 main_v104 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_39 (m : (ℓ : Loc nD τ sig) → Buf (Elt F) ℓ) (c : Dev nD) :
    (RefRun.E m c (Proc.devRef .tc main_cst_39)) = (constant S_ .f32 0x00000000#32) :=
  end0 RefRun.hW2 (RefRun.V2 m c) (RefRun.E m c) RefRun.later2 (RefRun.T2 m c) 26 main_cst_39 (constant S_ .f32 0x00000000#32) _ rfl (nk (by decide +kernel))

theorem rd_main_call8_v0 (m : (ℓ : Loc nD τ sig) → Buf (Elt F) ℓ) (c : Dev nD) :
    (RefRun.E m c (Proc.devRef .tc main_call8_v0)) = (id : (⟨S_, .f32⟩ : BufTy).Contents (Elt F) → (⟨S_, .f32⟩ : BufTy).Contents (Elt F)) (RefRun.E m c (Proc.devRef .tc main_cst_39)) :=
  end1 RefRun.hW2 (RefRun.V2 m c) (RefRun.E m c) RefRun.later2 (RefRun.T2 m c) 27 main_cst_39 main_call8_v0 (id : (⟨S_, .f32⟩ : BufTy).Contents (Elt F) → (⟨S_, .f32⟩ : BufTy).Contents (Elt F)) _ _ rfl (nk (by decide +kernel)) (nk (by decide +kernel))

theorem rd_main_call8_v1 (m : (ℓ : Loc nD τ sig) → Buf (Elt F) ℓ) (c : Dev nD) :
    (RefRun.E m c (Proc.devRef .tc main_call8_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v95)) :=
  end1 RefRun.hW2 (RefRun.V2 m c) (RefRun.E m c) RefRun.later2 (RefRun.T2 m c) 28 main_v95 main_call8_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call8_v2 (m : (ℓ : Loc nD τ sig) → Buf (Elt F) ℓ) (c : Dev nD) :
    (RefRun.E m c (Proc.devRef .tc main_call8_v2)) = ((broadcastInDim S200000x64 ![] bcast_S_S200000x64) : (⟨S_, .f32⟩ : BufTy).Contents (Elt F) → (⟨S200000x64, .f32⟩ : BufTy).Contents (Elt F)) (RefRun.E m c (Proc.devRef .tc main_call8_v0)) :=
  end1 RefRun.hW2 (RefRun.V2 m c) (RefRun.E m c) RefRun.later2 (RefRun.T2 m c) 29 main_call8_v0 main_call8_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v105 (m : (ℓ : Loc nD τ sig) → Buf (Elt F) ℓ) (c : Dev nD) :
    (RefRun.E m c (Proc.devRef .tc main_v105)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call8_v1)) (RefRun.E m c (Proc.devRef .tc main_v104)) (RefRun.E m c (Proc.devRef .tc main_call8_v2)) :=
  end3 RefRun.hW2 (RefRun.V2 m c) (RefRun.E m c) RefRun.later2 (RefRun.T2 m c) 30 main_call8_v1 main_v104 main_call8_v2 main_v105 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v106 (m : (ℓ : Loc nD τ sig) → Buf (Elt F) ℓ) (c : Dev nD) :
    (RefRun.E m c (Proc.devRef .tc main_v106)) = ((extractStridedSlice S1x64x64 ![1, 0, 0] · slices_S9x64x64_S1x64x64_1_0_0) : (⟨S9x64x64, .f32⟩ : BufTy).Contents (Elt F) → (⟨S1x64x64, .f32⟩ : BufTy).Contents (Elt F)) (RefRun.E m c (Proc.devRef .tc main_arg3)) :=
  end1 RefRun.hW2 (RefRun.V2 m c) (RefRun.E m c) RefRun.later2 (RefRun.T2 m c) 31 main_arg3 main_v106 ((extractStridedSlice S1x64x64 ![1, 0, 0] · slices_S9x64x64_S1x64x64_1_0_0) : (⟨S9x64x64, .f32⟩ : BufTy).Contents (Elt F) → (⟨S1x64x64, .f32⟩ : BufTy).Contents (Elt F)) _ _ rfl (nk (by decide +kernel)) (nk (by decide +kernel))

theorem rd_main_v107 (m : (ℓ : Loc nD τ sig) → Buf (Elt F) ℓ) (c : Dev nD) :
    (RefRun.E m c (Proc.devRef .tc main_v107)) = RefRun.reshaped main_v106 main_v107 rfl shapeCasts_S1x64x64_S64x64 (RefRun.E m c) :=
  endReshape RefRun.hW2 (RefRun.V2 m c) (RefRun.E m c) RefRun.later2 (RefRun.T2 m c) 32 main_v106 main_v107 rfl shapeCasts_S1x64x64_S64x64 _ _ rfl (nk (by decide +kernel)) (nk (by decide +kernel))

theorem rd_main_v108 (m : (ℓ : Loc nD τ sig) → Buf (Elt F) ℓ) (c : Dev nD) :
    (RefRun.E m c (Proc.devRef .tc main_v108)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v105)) (RefRun.E m c (Proc.devRef .tc main_v107)) :=
  end2 RefRun.hW2 (RefRun.V2 m c) (RefRun.E m c) RefRun.later2 (RefRun.T2 m c) 33 main_v105 main_v107 main_v108 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v109 (m : (ℓ : Loc nD τ sig) → Buf (Elt F) ℓ) (c : Dev nD) :
    (RefRun.E m c (Proc.devRef .tc main_v109)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v64)) (RefRun.E m c (Proc.devRef .tc main_v108)) :=
  end2 RefRun.hW2 (RefRun.V2 m c) (RefRun.E m c) RefRun.later2 (RefRun.T2 m c) 34 main_v64 main_v108 main_v109 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_40 (m : (ℓ : Loc nD τ sig) → Buf (Elt F) ℓ) (c : Dev nD) :
    (RefRun.E m c (Proc.devRef .tc main_c_40)) = (constantI S_ 32 4294967295#32) :=
  end0 RefRun.hW2 (RefRun.V2 m c) (RefRun.E m c) RefRun.later2 (RefRun.T2 m c) 35 main_c_40 (constantI S_ 32 4294967295#32) _ rfl (nk (by decide +kernel))

theorem rd_main_v110 (m : (ℓ : Loc nD τ sig) → Buf (Elt F) ℓ) (c : Dev nD) :
    (RefRun.E m c (Proc.devRef .tc main_v110)) = (broadcastInDim S200000 ![] bcast_S_S200000 : (⟨S_, .i32⟩ : BufTy).Contents (Elt F) → (⟨S200000, .i32⟩ : BufTy).Contents (Elt F)) (RefRun.E m c (Proc.devRef .tc main_c_40)) :=
  end1 RefRun.hW2 (RefRun.V2 m c) (RefRun.E m c) RefRun.later2 (RefRun.T2 m c) 36 main_c_40 main_v110 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v111 (m : (ℓ : Loc nD τ sig) → Buf (Elt F) ℓ) (c : Dev nD) :
    (RefRun.E m c (Proc.devRef .tc main_v111)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v110)) :=
  end2 RefRun.hW2 (RefRun.V2 m c) (RefRun.E m c) RefRun.later2 (RefRun.T2 m c) 37 main_v17 main_v110 main_v111 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_41 (m : (ℓ : Loc nD τ sig) → Buf (Elt F) ℓ) (c : Dev nD) :
    (RefRun.E m c (Proc.devRef .tc main_c_41)) = (constantI S_ 32 1#32) :=
  end0 RefRun.hW2 (RefRun.V2 m c) (RefRun.E m c) RefRun.later2 (RefRun.T2 m c) 38 main_c_41 (constantI S_ 32 1#32) _ rfl (nk (by decide +kernel))

theorem rd_main_v112 (m : (ℓ : Loc nD τ sig) → Buf (Elt F) ℓ) (c : Dev nD) :
    (RefRun.E m c (Proc.devRef .tc main_v112)) = (broadcastInDim S200000 ![] bcast_S_S200000 : (⟨S_, .i32⟩ : BufTy).Contents (Elt F) → (⟨S200000, .i32⟩ : BufTy).Contents (Elt F)) (RefRun.E m c (Proc.devRef .tc main_c_41)) :=
  end1 RefRun.hW2 (RefRun.V2 m c) (RefRun.E m c) RefRun.later2 (RefRun.T2 m c) 39 main_c_41 main_v112 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v113 (m : (ℓ : Loc nD τ sig) → Buf (Elt F) ℓ) (c : Dev nD) :
    (RefRun.E m c (Proc.devRef .tc main_v113)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v112)) :=
  end2 RefRun.hW2 (RefRun.V2 m c) (RefRun.E m c) RefRun.later2 (RefRun.T2 m c) 40 main_v18 main_v112 main_v113 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_42 (m : (ℓ : Loc nD τ sig) → Buf (Elt F) ℓ) (c : Dev nD) :
    (RefRun.E m c (Proc.devRef .tc main_c_42)) = (constantI S_ 32 0#32) :=
  end0 RefRun.hW2 (RefRun.V2 m c) (RefRun.E m c) RefRun.later2 (RefRun.T2 m c) 41 main_c_42 (constantI S_ 32 0#32) _ rfl (nk (by decide +kernel))

theorem rd_main_v114 (m : (ℓ : Loc nD τ sig) → Buf (Elt F) ℓ) (c : Dev nD) :
    (RefRun.E m c (Proc.devRef .tc main_v114)) = (broadcastInDim S200000 ![] bcast_S_S200000 : (⟨S_, .i32⟩ : BufTy).Contents (Elt F) → (⟨S200000, .i32⟩ : BufTy).Contents (Elt F)) (RefRun.E m c (Proc.devRef .tc main_c_42)) :=
  end1 RefRun.hW2 (RefRun.V2 m c) (RefRun.E m c) RefRun.later2 (RefRun.T2 m c) 42 main_c_42 main_v114 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v115 (m : (ℓ : Loc nD τ sig) → Buf (Elt F) ℓ) (c : Dev nD) :
    (RefRun.E m c (Proc.devRef .tc main_v115)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v111)) (RefRun.E m c (Proc.devRef .tc main_v114)) :=
  end2 RefRun.hW2 (RefRun.V2 m c) (RefRun.E m c) RefRun.later2 (RefRun.T2 m c) 43 main_v111 main_v114 main_v115 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_43 (m : (ℓ : Loc nD τ sig) → Buf (Elt F) ℓ) (c : Dev nD) :
    (RefRun.E m c (Proc.devRef .tc main_c_43)) = (constantI S_ 32 768#32) :=
  end0 RefRun.hW2 (RefRun.V2 m c) (RefRun.E m c) RefRun.later2 (RefRun.T2 m c) 44 main_c_43 (constantI S_ 32 768#32) _ rfl (nk (by decide +kernel))

theorem rd_main_v116 (m : (ℓ : Loc nD τ sig) → Buf (Elt F) ℓ) (c : Dev nD) :
    (RefRun.E m c (Proc.devRef .tc main_v116)) = (broadcastInDim S200000 ![] bcast_S_S200000 : (⟨S_, .i32⟩ : BufTy).Contents (Elt F) → (⟨S200000, .i32⟩ : BufTy).Contents (Elt F)) (RefRun.E m c (Proc.devRef .tc main_c_43)) :=
  end1 RefRun.hW2 (RefRun.V2 m c) (RefRun.E m c) RefRun.later2 (RefRun.T2 m c) 45 main_c_43 main_v116 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v117 (m : (ℓ : Loc nD τ sig) → Buf (Elt F) ℓ) (c : Dev nD) :
    (RefRun.E m c (Proc.devRef .tc main_v117)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v111)) (RefRun.E m c (Proc.devRef .tc main_v116)) :=
  end2 RefRun.hW2 (RefRun.V2 m c) (RefRun.E m c) RefRun.later2 (RefRun.T2 m c) 46 main_v111 main_v116 main_v117 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v118 (m : (ℓ : Loc nD τ sig) → Buf (Elt F) ℓ) (c : Dev nD) :
    (RefRun.E m c (Proc.devRef .tc main_v118)) = (andi : (⟨S200000, .i1⟩ : BufTy).Contents (Elt F) → (⟨S200000, .i1⟩ : BufTy).Contents (Elt F) → (⟨S200000, .i1⟩ : BufTy).Contents (Elt F)) (RefRun.E m c (Proc.devRef .tc main_v115)) (RefRun.E m c (Proc.devRef .tc main_v117)) :=
  end2 RefRun.hW2 (RefRun.V2 m c) (RefRun.E m c) RefRun.later2 (RefRun.T2 m c) 47 main_v115 main_v117 main_v118 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_44 (m : (ℓ : Loc nD τ sig) → Buf (Elt F) ℓ) (c : Dev nD) :
    (RefRun.E m c (Proc.devRef .tc main_c_44)) = (constantI S_ 32 0#32) :=
  end0 RefRun.hW2 (RefRun.V2 m c) (RefRun.E m c) RefRun.later2 (RefRun.T2 m c) 48 main_c_44 (constantI S_ 32 0#32) _ rfl (nk (by decide +kernel))

theorem rd_main_v119 (m : (ℓ : Loc nD τ sig) → Buf (Elt F) ℓ) (c : Dev nD) :
    (RefRun.E m c (Proc.devRef .tc main_v119)) = (broadcastInDim S200000 ![] bcast_S_S200000 : (⟨S_, .i32⟩ : BufTy).Contents (Elt F) → (⟨S200000, .i32⟩ : BufTy).Contents (Elt F)) (RefRun.E m c (Proc.devRef .tc main_c_44)) :=
  end1 RefRun.hW2 (RefRun.V2 m c) (RefRun.E m c) RefRun.later2 (RefRun.T2 m c) 49 main_c_44 main_v119 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v120 (m : (ℓ : Loc nD τ sig) → Buf (Elt F) ℓ) (c : Dev nD) :
    (RefRun.E m c (Proc.devRef .tc main_v120)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v113)) (RefRun.E m c (Proc.devRef .tc main_v119)) :=
  end2 RefRun.hW2 (RefRun.V2 m c) (RefRun.E m c) RefRun.later2 (RefRun.T2 m c) 50 main_v113 main_v119 main_v120 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v121 (m : (ℓ : Loc nD τ sig) → Buf (Elt F) ℓ) (c : Dev nD) :
    (RefRun.E m c (Proc.devRef .tc main_v121)) = (andi : (⟨S200000, .i1⟩ : BufTy).Contents (Elt F) → (⟨S200000, .i1⟩ : BufTy).Contents (Elt F) → (⟨S200000, .i1⟩ : BufTy).Contents (Elt F)) (RefRun.E m c (Proc.devRef .tc main_v118)) (RefRun.E m c (Proc.devRef .tc main_v120)) :=
  end2 RefRun.hW2 (RefRun.V2 m c) (RefRun.E m c) RefRun.later2 (RefRun.T2 m c) 51 main_v118 main_v120 main_v121 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_45 (m : (ℓ : Loc nD τ sig) → Buf (Elt F) ℓ) (c : Dev nD) :
    (RefRun.E m c (Proc.devRef .tc main_c_45)) = (constantI S_ 32 768#32) :=
  end0 RefRun.hW2 (RefRun.V2 m c) (RefRun.E m c) RefRun.later2 (RefRun.T2 m c) 52 main_c_45 (constantI S_ 32 768#32) _ rfl (nk (by decide +kernel))

theorem rd_main_v122 (m : (ℓ : Loc nD τ sig) → Buf (Elt F) ℓ) (c : Dev nD) :
    (RefRun.E m c (Proc.devRef .tc main_v122)) = (broadcastInDim S200000 ![] bcast_S_S200000 : (⟨S_, .i32⟩ : BufTy).Contents (Elt F) → (⟨S200000, .i32⟩ : BufTy).Contents (Elt F)) (RefRun.E m c (Proc.devRef .tc main_c_45)) :=
  end1 RefRun.hW2 (RefRun.V2 m c) (RefRun.E m c) RefRun.later2 (RefRun.T2 m c) 53 main_c_45 main_v122 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v123 (m : (ℓ : Loc nD τ sig) → Buf (Elt F) ℓ) (c : Dev nD) :
    (RefRun.E m c (Proc.devRef .tc main_v123)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v113)) (RefRun.E m c (Proc.devRef .tc main_v122)) :=
  end2 RefRun.hW2 (RefRun.V2 m c) (RefRun.E m c) RefRun.later2 (RefRun.T2 m c) 54 main_v113 main_v122 main_v123 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v124 (m : (ℓ : Loc nD τ sig) → Buf (Elt F) ℓ) (c : Dev nD) :
    (RefRun.E m c (Proc.devRef .tc main_v124)) = (andi : (⟨S200000, .i1⟩ : BufTy).Contents (Elt F) → (⟨S200000, .i1⟩ : BufTy).Contents (Elt F) → (⟨S200000, .i1⟩ : BufTy).Contents (Elt F)) (RefRun.E m c (Proc.devRef .tc main_v121)) (RefRun.E m c (Proc.devRef .tc main_v123)) :=
  end2 RefRun.hW2 (RefRun.V2 m c) (RefRun.E m c) RefRun.later2 (RefRun.T2 m c) 55 main_v121 main_v123 main_v124 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_46 (m : (ℓ : Loc nD τ sig) → Buf (Elt F) ℓ) (c : Dev nD) :
    (RefRun.E m c (Proc.devRef .tc main_c_46)) = (constantI S_ 32 0#32) :=
  end0 RefRun.hW2 (RefRun.V2 m c) (RefRun.E m c) RefRun.later2 (RefRun.T2 m c) 56 main_c_46 (constantI S_ 32 0#32) _ rfl (nk (by decide +kernel))

theorem rd_main_c_47 (m : (ℓ : Loc nD τ sig) → Buf (Elt F) ℓ) (c : Dev nD) :
    (RefRun.E m c (Proc.devRef .tc main_c_47)) = (constantI S_ 32 767#32) :=
  end0 RefRun.hW2 (RefRun.V2 m c) (RefRun.E m c) RefRun.later2 (RefRun.T2 m c) 57 main_c_47 (constantI S_ 32 767#32) _ rfl (nk (by decide +kernel))

theorem rd_main_call9_v0 (m : (ℓ : Loc nD τ sig) → Buf (Elt F) ℓ) (c : Dev nD) :
    (RefRun.E m c (Proc.devRef .tc main_call9_v0)) = (id : (⟨S_, .i32⟩ : BufTy).Contents (Elt F) → (⟨S_, .i32⟩ : BufTy).Contents (Elt F)) (RefRun.E m c (Proc.devRef .tc main_c_46)) :=
  end1 RefRun.hW2 (RefRun.V2 m c) (RefRun.E m c) RefRun.later2 (RefRun.T2 m c) 58 main_c_46 main_call9_v0 (id : (⟨S_, .i32⟩ : BufTy).Contents (Elt F) → (⟨S_, .i32⟩ : BufTy).Contents (Elt F)) _ _ rfl (nk (by decide +kernel)) (nk (by decide +kernel))

theorem rd_main_call9_v1 (m : (ℓ : Loc nD τ sig) → Buf (Elt F) ℓ) (c : Dev nD) :
    (RefRun.E m c (Proc.devRef .tc main_call9_v1)) = ((broadcastInDim S200000 ![] bcast_S_S200000) : (⟨S_, .i32⟩ : BufTy).Contents (Elt F) → (⟨S200000, .i32⟩ : BufTy).Contents (Elt F)) (RefRun.E m c (Proc.devRef .tc main_call9_v0)) :=
  end1 RefRun.hW2 (RefRun.V2 m c) (RefRun.E m c) RefRun.later2 (RefRun.T2 m c) 59 main_call9_v0 main_call9_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call9_v2 (m : (ℓ : Loc nD τ sig) → Buf (Elt F) ℓ) (c : Dev nD) :
    (RefRun.E m c (Proc.devRef .tc main_call9_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call9_v1)) (RefRun.E m c (Proc.devRef .tc main_v111)) :=
  end2 RefRun.hW2 (RefRun.V2 m c) (RefRun.E m c) RefRun.later2 (RefRun.T2 m c) 60 main_call9_v1 main_v111 main_call9_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call9_v3 (m : (ℓ : Loc nD τ sig) → Buf (Elt F) ℓ) (c : Dev nD) :
    (RefRun.E m c (Proc.devRef .tc main_call9_v3)) = (id : (⟨S_, .i32⟩ : BufTy).Contents (Elt F) → (⟨S_, .i32⟩ : BufTy).Contents (Elt F)) (RefRun.E m c (Proc.devRef .tc main_c_47)) :=
  end1 RefRun.hW2 (RefRun.V2 m c) (RefRun.E m c) RefRun.later2 (RefRun.T2 m c) 61 main_c_47 main_call9_v3 (id : (⟨S_, .i32⟩ : BufTy).Contents (Elt F) → (⟨S_, .i32⟩ : BufTy).Contents (Elt F)) _ _ rfl (nk (by decide +kernel)) (nk (by decide +kernel))

theorem rd_main_call9_v4 (m : (ℓ : Loc nD τ sig) → Buf (Elt F) ℓ) (c : Dev nD) :
    (RefRun.E m c (Proc.devRef .tc main_call9_v4)) = ((broadcastInDim S200000 ![] bcast_S_S200000) : (⟨S_, .i32⟩ : BufTy).Contents (Elt F) → (⟨S200000, .i32⟩ : BufTy).Contents (Elt F)) (RefRun.E m c (Proc.devRef .tc main_call9_v3)) :=
  end1 RefRun.hW2 (RefRun.V2 m c) (RefRun.E m c) RefRun.later2 (RefRun.T2 m c) 62 main_call9_v3 main_call9_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v125 (m : (ℓ : Loc nD τ sig) → Buf (Elt F) ℓ) (c : Dev nD) :
    (RefRun.E m c (Proc.devRef .tc main_v125)) = (minsi : (⟨S200000, .i32⟩ : BufTy).Contents (Elt F) → (⟨S200000, .i32⟩ : BufTy).Contents (Elt F) → (⟨S200000, .i32⟩ : BufTy).Contents (Elt F)) (RefRun.E m c (Proc.devRef .tc main_call9_v4)) (RefRun.E m c (Proc.devRef .tc main_call9_v2)) :=
  end2 RefRun.hW2 (RefRun.V2 m c) (RefRun.E m c) RefRun.later2 (RefRun.T2 m c) 63 main_call9_v4 main_call9_v2 main_v125 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_48 (m : (ℓ : Loc nD τ sig) → Buf (Elt F) ℓ) (c : Dev nD) :
    (RefRun.E m c (Proc.devRef .tc main_c_48)) = (constantI S_ 32 768#32) :=
  end0 RefRun.hW2 (RefRun.V2 m c) (RefRun.E m c) RefRun.later2 (RefRun.T2 m c) 64 main_c_48 (constantI S_ 32 768#32) _ rfl (nk (by decide +kernel))

theorem rd_main_v126 (m : (ℓ : Loc nD τ sig) → Buf (Elt F) ℓ) (c : Dev nD) :
    (RefRun.E m c (Proc.devRef .tc main_v126)) = (broadcastInDim S200000 ![] bcast_S_S200000 : (⟨S_, .i32⟩ : BufTy).Contents (Elt F) → (⟨S200000, .i32⟩ : BufTy).Contents (Elt F)) (RefRun.E m c (Proc.devRef .tc main_c_48)) :=
  end1 RefRun.hW2 (RefRun.V2 m c) (RefRun.E m c) RefRun.later2 (RefRun.T2 m c) 65 main_c_48 main_v126 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v127 (m : (ℓ : Loc nD τ sig) → Buf (Elt F) ℓ) (c : Dev nD) :
    (RefRun.E m c (Proc.devRef .tc main_v127)) = (muli : (⟨S200000, .i32⟩ : BufTy).Contents (Elt F) → (⟨S200000, .i32⟩ : BufTy).Contents (Elt F) → (⟨S200000, .i32⟩ : BufTy).Contents (Elt F)) (RefRun.E m c (Proc.devRef .tc main_v125)) (RefRun.E m c (Proc.devRef .tc main_v126)) :=
  end2 RefRun.hW2 (RefRun.V2 m c) (RefRun.E m c) RefRun.later2 (RefRun.T2 m c) 66 main_v125 main_v126 main_v127 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_49 (m : (ℓ : Loc nD τ sig) → Buf (Elt F) ℓ) (c : Dev nD) :
    (RefRun.E m c (Proc.devRef .tc main_c_49)) = (constantI S_ 32 0#32) :=
  end0 RefRun.hW2 (RefRun.V2 m c) (RefRun.E m c) RefRun.later2 (RefRun.T2 m c) 67 main_c_49 (constantI S_ 32 0#32) _ rfl (nk (by decide +kernel))

end Cert.ReferenceIdeal.RefRead

end
-- ==== Proof.RefRead3.lean ====
/- Window 3 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_c_50 (m : (ℓ : Loc nD τ sig) → Buf (Elt F) ℓ) (c : Dev nD) :
    (RefRun.E m c (Proc.devRef .tc main_c_50)) = (constantI S_ 32 767#32) :=
  end0 RefRun.hW3 (RefRun.V3 m c) (RefRun.E m c) RefRun.later3 (RefRun.T3 m c) 0 main_c_50 (constantI S_ 32 767#32) _ rfl (nk (by decide +kernel))

theorem rd_main_call10_v0 (m : (ℓ : Loc nD τ sig) → Buf (Elt F) ℓ) (c : Dev nD) :
    (RefRun.E m c (Proc.devRef .tc main_call10_v0)) = (id : (⟨S_, .i32⟩ : BufTy).Contents (Elt F) → (⟨S_, .i32⟩ : BufTy).Contents (Elt F)) (RefRun.E m c (Proc.devRef .tc main_c_49)) :=
  end1 RefRun.hW3 (RefRun.V3 m c) (RefRun.E m c) RefRun.later3 (RefRun.T3 m c) 1 main_c_49 main_call10_v0 (id : (⟨S_, .i32⟩ : BufTy).Contents (Elt F) → (⟨S_, .i32⟩ : BufTy).Contents (Elt F)) _ _ rfl (nk (by decide +kernel)) (nk (by decide +kernel))

theorem rd_main_call10_v1 (m : (ℓ : Loc nD τ sig) → Buf (Elt F) ℓ) (c : Dev nD) :
    (RefRun.E m c (Proc.devRef .tc main_call10_v1)) = ((broadcastInDim S200000 ![] bcast_S_S200000) : (⟨S_, .i32⟩ : BufTy).Contents (Elt F) → (⟨S200000, .i32⟩ : BufTy).Contents (Elt F)) (RefRun.E m c (Proc.devRef .tc main_call10_v0)) :=
  end1 RefRun.hW3 (RefRun.V3 m c) (RefRun.E m c) RefRun.later3 (RefRun.T3 m c) 2 main_call10_v0 main_call10_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call10_v2 (m : (ℓ : Loc nD τ sig) → Buf (Elt F) ℓ) (c : Dev nD) :
    (RefRun.E m c (Proc.devRef .tc main_call10_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call10_v1)) (RefRun.E m c (Proc.devRef .tc main_v113)) :=
  end2 RefRun.hW3 (RefRun.V3 m c) (RefRun.E m c) RefRun.later3 (RefRun.T3 m c) 3 main_call10_v1 main_v113 main_call10_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call10_v3 (m : (ℓ : Loc nD τ sig) → Buf (Elt F) ℓ) (c : Dev nD) :
    (RefRun.E m c (Proc.devRef .tc main_call10_v3)) = (id : (⟨S_, .i32⟩ : BufTy).Contents (Elt F) → (⟨S_, .i32⟩ : BufTy).Contents (Elt F)) (RefRun.E m c (Proc.devRef .tc main_c_50)) :=
  end1 RefRun.hW3 (RefRun.V3 m c) (RefRun.E m c) RefRun.later3 (RefRun.T3 m c) 4 main_c_50 main_call10_v3 (id : (⟨S_, .i32⟩ : BufTy).Contents (Elt F) → (⟨S_, .i32⟩ : BufTy).Contents (Elt F)) _ _ rfl (nk (by decide +kernel)) (nk (by decide +kernel))

theorem rd_main_call10_v4 (m : (ℓ : Loc nD τ sig) → Buf (Elt F) ℓ) (c : Dev nD) :
    (RefRun.E m c (Proc.devRef .tc main_call10_v4)) = ((broadcastInDim S200000 ![] bcast_S_S200000) : (⟨S_, .i32⟩ : BufTy).Contents (Elt F) → (⟨S200000, .i32⟩ : BufTy).Contents (Elt F)) (RefRun.E m c (Proc.devRef .tc main_call10_v3)) :=
  end1 RefRun.hW3 (RefRun.V3 m c) (RefRun.E m c) RefRun.later3 (RefRun.T3 m c) 5 main_call10_v3 main_call10_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v128 (m : (ℓ : Loc nD τ sig) → Buf (Elt F) ℓ) (c : Dev nD) :
    (RefRun.E m c (Proc.devRef .tc main_v128)) = (minsi : (⟨S200000, .i32⟩ : BufTy).Contents (Elt F) → (⟨S200000, .i32⟩ : BufTy).Contents (Elt F) → (⟨S200000, .i32⟩ : BufTy).Contents (Elt F)) (RefRun.E m c (Proc.devRef .tc main_call10_v4)) (RefRun.E m c (Proc.devRef .tc main_call10_v2)) :=
  end2 RefRun.hW3 (RefRun.V3 m c) (RefRun.E m c) RefRun.later3 (RefRun.T3 m c) 6 main_call10_v4 main_call10_v2 main_v128 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v129 (m : (ℓ : Loc nD τ sig) → Buf (Elt F) ℓ) (c : Dev nD) :
    (RefRun.E m c (Proc.devRef .tc main_v129)) = (addi : (⟨S200000, .i32⟩ : BufTy).Contents (Elt F) → (⟨S200000, .i32⟩ : BufTy).Contents (Elt F) → (⟨S200000, .i32⟩ : BufTy).Contents (Elt F)) (RefRun.E m c (Proc.devRef .tc main_v127)) (RefRun.E m c (Proc.devRef .tc main_v128)) :=
  end2 RefRun.hW3 (RefRun.V3 m c) (RefRun.E m c) RefRun.later3 (RefRun.T3 m c) 7 main_v127 main_v128 main_v129 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_51 (m : (ℓ : Loc nD τ sig) → Buf (Elt F) ℓ) (c : Dev nD) :
    (RefRun.E m c (Proc.devRef .tc main_c_51)) = (constantI S_ 32 0#32) :=
  end0 RefRun.hW3 (RefRun.V3 m c) (RefRun.E m c) RefRun.later3 (RefRun.T3 m c) 8 main_c_51 (constantI S_ 32 0#32) _ rfl (nk (by decide +kernel))

theorem rd_main_v130 (m : (ℓ : Loc nD τ sig) → Buf (Elt F) ℓ) (c : Dev nD) :
    (RefRun.E m c (Proc.devRef .tc main_v130)) = (broadcastInDim S200000 ![] bcast_S_S200000 : (⟨S_, .i32⟩ : BufTy).Contents (Elt F) → (⟨S200000, .i32⟩ : BufTy).Contents (Elt F)) (RefRun.E m c (Proc.devRef .tc main_c_51)) :=
  end1 RefRun.hW3 (RefRun.V3 m c) (RefRun.E m c) RefRun.later3 (RefRun.T3 m c) 9 main_c_51 main_v130 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v131 (m : (ℓ : Loc nD τ sig) → Buf (Elt F) ℓ) (c : Dev nD) :
    (RefRun.E m c (Proc.devRef .tc main_v131)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v129)) (RefRun.E m c (Proc.devRef .tc main_v130)) :=
  end2 RefRun.hW3 (RefRun.V3 m c) (RefRun.E m c) RefRun.later3 (RefRun.T3 m c) 10 main_v129 main_v130 main_v131 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_52 (m : (ℓ : Loc nD τ sig) → Buf (Elt F) ℓ) (c : Dev nD) :
    (RefRun.E m c (Proc.devRef .tc main_c_52)) = (constantI S_ 32 589824#32) :=
  end0 RefRun.hW3 (RefRun.V3 m c) (RefRun.E m c) RefRun.later3 (RefRun.T3 m c) 11 main_c_52 (constantI S_ 32 589824#32) _ rfl (nk (by decide +kernel))

theorem rd_main_v132 (m : (ℓ : Loc nD τ sig) → Buf (Elt F) ℓ) (c : Dev nD) :
    (RefRun.E m c (Proc.devRef .tc main_v132)) = (broadcastInDim S200000 ![] bcast_S_S200000 : (⟨S_, .i32⟩ : BufTy).Contents (Elt F) → (⟨S200000, .i32⟩ : BufTy).Contents (Elt F)) (RefRun.E m c (Proc.devRef .tc main_c_52)) :=
  end1 RefRun.hW3 (RefRun.V3 m c) (RefRun.E m c) RefRun.later3 (RefRun.T3 m c) 12 main_c_52 main_v132 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v133 (m : (ℓ : Loc nD τ sig) → Buf (Elt F) ℓ) (c : Dev nD) :
    (RefRun.E m c (Proc.devRef .tc main_v133)) = (addi : (⟨S200000, .i32⟩ : BufTy).Contents (Elt F) → (⟨S200000, .i32⟩ : BufTy).Contents (Elt F) → (⟨S200000, .i32⟩ : BufTy).Contents (Elt F)) (RefRun.E m c (Proc.devRef .tc main_v129)) (RefRun.E m c (Proc.devRef .tc main_v132)) :=
  end2 RefRun.hW3 (RefRun.V3 m c) (RefRun.E m c) RefRun.later3 (RefRun.T3 m c) 13 main_v129 main_v132 main_v133 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v134 (m : (ℓ : Loc nD τ sig) → Buf (Elt F) ℓ) (c : Dev nD) :
    (RefRun.E m c (Proc.devRef .tc main_v134)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v131)) (RefRun.E m c (Proc.devRef .tc main_v133)) (RefRun.E m c (Proc.devRef .tc main_v129)) :=
  end3 RefRun.hW3 (RefRun.V3 m c) (RefRun.E m c) RefRun.later3 (RefRun.T3 m c) 14 main_v131 main_v133 main_v129 main_v134 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v135 (m : (ℓ : Loc nD τ sig) → Buf (Elt F) ℓ) (c : Dev nD) :
    (RefRun.E m c (Proc.devRef .tc main_v135)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v134)) :=
  end1 RefRun.hW3 (RefRun.V3 m c) (RefRun.E m c) RefRun.later3 (RefRun.T3 m c) 15 main_v134 main_v135 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v136 (m : (ℓ : Loc nD τ sig) → Buf (Elt F) ℓ) (c : Dev nD) :
    (RefRun.E m c (Proc.devRef .tc main_v136)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v135)) :=
  end2 RefRun.hW3 (RefRun.V3 m c) (RefRun.E m c) RefRun.later3 (RefRun.T3 m c) 16 main_v16 main_v135 main_v136 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_53 (m : (ℓ : Loc nD τ sig) → Buf (Elt F) ℓ) (c : Dev nD) :
    (RefRun.E m c (Proc.devRef .tc main_c_53)) = (constantI S_ 32 0#32) :=
  end0 RefRun.hW3 (RefRun.V3 m c) (RefRun.E m c) RefRun.later3 (RefRun.T3 m c) 17 main_c_53 (constantI S_ 32 0#32) _ rfl (nk (by decide +kernel))

theorem rd_main_v137 (m : (ℓ : Loc nD τ sig) → Buf (Elt F) ℓ) (c : Dev nD) :
    (RefRun.E m c (Proc.devRef .tc main_v137)) = (broadcastInDim S200000 ![] bcast_S_S200000 : (⟨S_, .i32⟩ : BufTy).Contents (Elt F) → (⟨S200000, .i32⟩ : BufTy).Contents (Elt F)) (RefRun.E m c (Proc.devRef .tc main_c_53)) :=
  end1 RefRun.hW3 (RefRun.V3 m c) (RefRun.E m c) RefRun.later3 (RefRun.T3 m c) 18 main_c_53 main_v137 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v138 (m : (ℓ : Loc nD τ sig) → Buf (Elt F) ℓ) (c : Dev nD) :
    (RefRun.E m c (Proc.devRef .tc main_v138)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v136)) (RefRun.E m c (Proc.devRef .tc main_v137)) :=
  end2 RefRun.hW3 (RefRun.V3 m c) (RefRun.E m c) RefRun.later3 (RefRun.T3 m c) 19 main_v136 main_v137 main_v138 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v139 (m : (ℓ : Loc nD τ sig) → Buf (Elt F) ℓ) (c : Dev nD) :
    (RefRun.E m c (Proc.devRef .tc main_v139)) = (andi : (⟨S200000, .i1⟩ : BufTy).Contents (Elt F) → (⟨S200000, .i1⟩ : BufTy).Contents (Elt F) → (⟨S200000, .i1⟩ : BufTy).Contents (Elt F)) (RefRun.E m c (Proc.devRef .tc main_v124)) (RefRun.E m c (Proc.devRef .tc main_v138)) :=
  end2 RefRun.hW3 (RefRun.V3 m c) (RefRun.E m c) RefRun.later3 (RefRun.T3 m c) 20 main_v124 main_v138 main_v139 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v140 (m : (ℓ : Loc nD τ sig) → Buf (Elt F) ℓ) (c : Dev nD) :
    (RefRun.E m c (Proc.devRef .tc main_v140)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v139)) :=
  end1 RefRun.hW3 (RefRun.V3 m c) (RefRun.E m c) RefRun.later3 (RefRun.T3 m c) 21 main_v139 main_v140 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_54 (m : (ℓ : Loc nD τ sig) → Buf (Elt F) ℓ) (c : Dev nD) :
    (RefRun.E m c (Proc.devRef .tc main_c_54)) = (constantI S_ 32 0#32) :=
  end0 RefRun.hW3 (RefRun.V3 m c) (RefRun.E m c) RefRun.later3 (RefRun.T3 m c) 22 main_c_54 (constantI S_ 32 0#32) _ rfl (nk (by decide +kernel))

theorem rd_main_v141 (m : (ℓ : Loc nD τ sig) → Buf (Elt F) ℓ) (c : Dev nD) :
    (RefRun.E m c (Proc.devRef .tc main_v141)) = (broadcastInDim S200000 ![] bcast_S_S200000 : (⟨S_, .i32⟩ : BufTy).Contents (Elt F) → (⟨S200000, .i32⟩ : BufTy).Contents (Elt F)) (RefRun.E m c (Proc.devRef .tc main_c_54)) :=
  end1 RefRun.hW3 (RefRun.V3 m c) (RefRun.E m c) RefRun.later3 (RefRun.T3 m c) 23 main_c_54 main_v141 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v142 (m : (ℓ : Loc nD τ sig) → Buf (Elt F) ℓ) (c : Dev nD) :
    (RefRun.E m c (Proc.devRef .tc main_v142)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v136)) (RefRun.E m c (Proc.devRef .tc main_v141)) :=
  end2 RefRun.hW3 (RefRun.V3 m c) (RefRun.E m c) RefRun.later3 (RefRun.T3 m c) 24 main_v136 main_v141 main_v142 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_55 (m : (ℓ : Loc nD τ sig) → Buf (Elt F) ℓ) (c : Dev nD) :
    (RefRun.E m c (Proc.devRef .tc main_c_55)) = (constantI S_ 32 0#32) :=
  end0 RefRun.hW3 (RefRun.V3 m c) (RefRun.E m c) RefRun.later3 (RefRun.T3 m c) 25 main_c_55 (constantI S_ 32 0#32) _ rfl (nk (by decide +kernel))

theorem rd_main_v143 (m : (ℓ : Loc nD τ sig) → Buf (Elt F) ℓ) (c : Dev nD) :
    (RefRun.E m c (Proc.devRef .tc main_v143)) = (broadcastInDim S200000 ![] bcast_S_S200000 : (⟨S_, .i32⟩ : BufTy).Contents (Elt F) → (⟨S200000, .i32⟩ : BufTy).Contents (Elt F)) (RefRun.E m c (Proc.devRef .tc main_c_55)) :=
  end1 RefRun.hW3 (RefRun.V3 m c) (RefRun.E m c) RefRun.later3 (RefRun.T3 m c) 26 main_c_55 main_v143 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v144 (m : (ℓ : Loc nD τ sig) → Buf (Elt F) ℓ) (c : Dev nD) :
    (RefRun.E m c (Proc.devRef .tc main_v144)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v142)) (RefRun.E m c (Proc.devRef .tc main_v143)) :=
  end2 RefRun.hW3 (RefRun.V3 m c) (RefRun.E m c) RefRun.later3 (RefRun.T3 m c) 27 main_v142 main_v143 main_v144 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_56 (m : (ℓ : Loc nD τ sig) → Buf (Elt F) ℓ) (c : Dev nD) :
    (RefRun.E m c (Proc.devRef .tc main_c_56)) = (constantI S_ 32 200000#32) :=
  end0 RefRun.hW3 (RefRun.V3 m c) (RefRun.E m c) RefRun.later3 (RefRun.T3 m c) 28 main_c_56 (constantI S_ 32 200000#32) _ rfl (nk (by decide +kernel))

theorem rd_main_v145 (m : (ℓ : Loc nD τ sig) → Buf (Elt F) ℓ) (c : Dev nD) :
    (RefRun.E m c (Proc.devRef .tc main_v145)) = (broadcastInDim S200000 ![] bcast_S_S200000 : (⟨S_, .i32⟩ : BufTy).Contents (Elt F) → (⟨S200000, .i32⟩ : BufTy).Contents (Elt F)) (RefRun.E m c (Proc.devRef .tc main_c_56)) :=
  end1 RefRun.hW3 (RefRun.V3 m c) (RefRun.E m c) RefRun.later3 (RefRun.T3 m c) 29 main_c_56 main_v145 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v146 (m : (ℓ : Loc nD τ sig) → Buf (Elt F) ℓ) (c : Dev nD) :
    (RefRun.E m c (Proc.devRef .tc main_v146)) = (addi : (⟨S200000, .i32⟩ : BufTy).Contents (Elt F) → (⟨S200000, .i32⟩ : BufTy).Contents (Elt F) → (⟨S200000, .i32⟩ : BufTy).Contents (Elt F)) (RefRun.E m c (Proc.devRef .tc main_v142)) (RefRun.E m c (Proc.devRef .tc main_v145)) :=
  end2 RefRun.hW3 (RefRun.V3 m c) (RefRun.E m c) RefRun.later3 (RefRun.T3 m c) 30 main_v142 main_v145 main_v146 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v147 (m : (ℓ : Loc nD τ sig) → Buf (Elt F) ℓ) (c : Dev nD) :
    (RefRun.E m c (Proc.devRef .tc main_v147)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v144)) (RefRun.E m c (Proc.devRef .tc main_v146)) (RefRun.E m c (Proc.devRef .tc main_v142)) :=
  end3 RefRun.hW3 (RefRun.V3 m c) (RefRun.E m c) RefRun.later3 (RefRun.T3 m c) 31 main_v144 main_v146 main_v142 main_v147 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v148 (m : (ℓ : Loc nD τ sig) → Buf (Elt F) ℓ) (c : Dev nD) :
    (RefRun.E m c (Proc.devRef .tc main_v148)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v147)) :=
  end1 RefRun.hW3 (RefRun.V3 m c) (RefRun.E m c) RefRun.later3 (RefRun.T3 m c) 32 main_v147 main_v148 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v149 (m : (ℓ : Loc nD τ sig) → Buf (Elt F) ℓ) (c : Dev nD) :
    (RefRun.E m c (Proc.devRef .tc main_v149)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v148)) :=
  end2 RefRun.hW3 (RefRun.V3 m c) (RefRun.E m c) RefRun.later3 (RefRun.T3 m c) 33 main_v7 main_v148 main_v149 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_57 (m : (ℓ : Loc nD τ sig) → Buf (Elt F) ℓ) (c : Dev nD) :
    (RefRun.E m c (Proc.devRef .tc main_cst_57)) = (constant S_ .f32 0x00000000#32) :=
  end0 RefRun.hW3 (RefRun.V3 m c) (RefRun.E m c) RefRun.later3 (RefRun.T3 m c) 34 main_cst_57 (constant S_ .f32 0x00000000#32) _ rfl (nk (by decide +kernel))

theorem rd_main_call11_v0 (m : (ℓ : Loc nD τ sig) → Buf (Elt F) ℓ) (c : Dev nD) :
    (RefRun.E m c (Proc.devRef .tc main_call11_v0)) = (id : (⟨S_, .f32⟩ : BufTy).Contents (Elt F) → (⟨S_, .f32⟩ : BufTy).Contents (Elt F)) (RefRun.E m c (Proc.devRef .tc main_cst_57)) :=
  end1 RefRun.hW3 (RefRun.V3 m c) (RefRun.E m c) RefRun.later3 (RefRun.T3 m c) 35 main_cst_57 main_call11_v0 (id : (⟨S_, .f32⟩ : BufTy).Contents (Elt F) → (⟨S_, .f32⟩ : BufTy).Contents (Elt F)) _ _ rfl (nk (by decide +kernel)) (nk (by decide +kernel))

theorem rd_main_call11_v1 (m : (ℓ : Loc nD τ sig) → Buf (Elt F) ℓ) (c : Dev nD) :
    (RefRun.E m c (Proc.devRef .tc main_call11_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v140)) :=
  end1 RefRun.hW3 (RefRun.V3 m c) (RefRun.E m c) RefRun.later3 (RefRun.T3 m c) 36 main_v140 main_call11_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call11_v2 (m : (ℓ : Loc nD τ sig) → Buf (Elt F) ℓ) (c : Dev nD) :
    (RefRun.E m c (Proc.devRef .tc main_call11_v2)) = ((broadcastInDim S200000x64 ![] bcast_S_S200000x64) : (⟨S_, .f32⟩ : BufTy).Contents (Elt F) → (⟨S200000x64, .f32⟩ : BufTy).Contents (Elt F)) (RefRun.E m c (Proc.devRef .tc main_call11_v0)) :=
  end1 RefRun.hW3 (RefRun.V3 m c) (RefRun.E m c) RefRun.later3 (RefRun.T3 m c) 37 main_call11_v0 main_call11_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v150 (m : (ℓ : Loc nD τ sig) → Buf (Elt F) ℓ) (c : Dev nD) :
    (RefRun.E m c (Proc.devRef .tc main_v150)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call11_v1)) (RefRun.E m c (Proc.devRef .tc main_v149)) (RefRun.E m c (Proc.devRef .tc main_call11_v2)) :=
  end3 RefRun.hW3 (RefRun.V3 m c) (RefRun.E m c) RefRun.later3 (RefRun.T3 m c) 38 main_call11_v1 main_v149 main_call11_v2 main_v150 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v151 (m : (ℓ : Loc nD τ sig) → Buf (Elt F) ℓ) (c : Dev nD) :
    (RefRun.E m c (Proc.devRef .tc main_v151)) = ((extractStridedSlice S1x64x64 ![2, 0, 0] · slices_S9x64x64_S1x64x64_2_0_0) : (⟨S9x64x64, .f32⟩ : BufTy).Contents (Elt F) → (⟨S1x64x64, .f32⟩ : BufTy).Contents (Elt F)) (RefRun.E m c (Proc.devRef .tc main_arg3)) :=
  end1 RefRun.hW3 (RefRun.V3 m c) (RefRun.E m c) RefRun.later3 (RefRun.T3 m c) 39 main_arg3 main_v151 ((extractStridedSlice S1x64x64 ![2, 0, 0] · slices_S9x64x64_S1x64x64_2_0_0) : (⟨S9x64x64, .f32⟩ : BufTy).Contents (Elt F) → (⟨S1x64x64, .f32⟩ : BufTy).Contents (Elt F)) _ _ rfl (nk (by decide +kernel)) (nk (by decide +kernel))

theorem rd_main_v152 (m : (ℓ : Loc nD τ sig) → Buf (Elt F) ℓ) (c : Dev nD) :
    (RefRun.E m c (Proc.devRef .tc main_v152)) = RefRun.reshaped main_v151 main_v152 rfl shapeCasts_S1x64x64_S64x64 (RefRun.E m c) :=
  endReshape RefRun.hW3 (RefRun.V3 m c) (RefRun.E m c) RefRun.later3 (RefRun.T3 m c) 40 main_v151 main_v152 rfl shapeCasts_S1x64x64_S64x64 _ _ rfl (nk (by decide +kernel)) (nk (by decide +kernel))

theorem rd_main_v153 (m : (ℓ : Loc nD τ sig) → Buf (Elt F) ℓ) (c : Dev nD) :
    (RefRun.E m c (Proc.devRef .tc main_v153)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v150)) (RefRun.E m c (Proc.devRef .tc main_v152)) :=
  end2 RefRun.hW3 (RefRun.V3 m c) (RefRun.E m c) RefRun.later3 (RefRun.T3 m c) 41 main_v150 main_v152 main_v153 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v154 (m : (ℓ : Loc nD τ sig) → Buf (Elt F) ℓ) (c : Dev nD) :
    (RefRun.E m c (Proc.devRef .tc main_v154)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v109)) (RefRun.E m c (Proc.devRef .tc main_v153)) :=
  end2 RefRun.hW3 (RefRun.V3 m c) (RefRun.E m c) RefRun.later3 (RefRun.T3 m c) 42 main_v109 main_v153 main_v154 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_58 (m : (ℓ : Loc nD τ sig) → Buf (Elt F) ℓ) (c : Dev nD) :
    (RefRun.E m c (Proc.devRef .tc main_c_58)) = (constantI S_ 32 0#32) :=
  end0 RefRun.hW3 (RefRun.V3 m c) (RefRun.E m c) RefRun.later3 (RefRun.T3 m c) 43 main_c_58 (constantI S_ 32 0#32) _ rfl (nk (by decide +kernel))

theorem rd_main_v155 (m : (ℓ : Loc nD τ sig) → Buf (Elt F) ℓ) (c : Dev nD) :
    (RefRun.E m c (Proc.devRef .tc main_v155)) = (broadcastInDim S200000 ![] bcast_S_S200000 : (⟨S_, .i32⟩ : BufTy).Contents (Elt F) → (⟨S200000, .i32⟩ : BufTy).Contents (Elt F)) (RefRun.E m c (Proc.devRef .tc main_c_58)) :=
  end1 RefRun.hW3 (RefRun.V3 m c) (RefRun.E m c) RefRun.later3 (RefRun.T3 m c) 44 main_c_58 main_v155 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v156 (m : (ℓ : Loc nD τ sig) → Buf (Elt F) ℓ) (c : Dev nD) :
    (RefRun.E m c (Proc.devRef .tc main_v156)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v155)) :=
  end2 RefRun.hW3 (RefRun.V3 m c) (RefRun.E m c) RefRun.later3 (RefRun.T3 m c) 45 main_v17 main_v155 main_v156 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_59 (m : (ℓ : Loc nD τ sig) → Buf (Elt F) ℓ) (c : Dev nD) :
    (RefRun.E m c (Proc.devRef .tc main_c_59)) = (constantI S_ 32 4294967295#32) :=
  end0 RefRun.hW3 (RefRun.V3 m c) (RefRun.E m c) RefRun.later3 (RefRun.T3 m c) 46 main_c_59 (constantI S_ 32 4294967295#32) _ rfl (nk (by decide +kernel))

theorem rd_main_v157 (m : (ℓ : Loc nD τ sig) → Buf (Elt F) ℓ) (c : Dev nD) :
    (RefRun.E m c (Proc.devRef .tc main_v157)) = (broadcastInDim S200000 ![] bcast_S_S200000 : (⟨S_, .i32⟩ : BufTy).Contents (Elt F) → (⟨S200000, .i32⟩ : BufTy).Contents (Elt F)) (RefRun.E m c (Proc.devRef .tc main_c_59)) :=
  end1 RefRun.hW3 (RefRun.V3 m c) (RefRun.E m c) RefRun.later3 (RefRun.T3 m c) 47 main_c_59 main_v157 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v158 (m : (ℓ : Loc nD τ sig) → Buf (Elt F) ℓ) (c : Dev nD) :
    (RefRun.E m c (Proc.devRef .tc main_v158)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v157)) :=
  end2 RefRun.hW3 (RefRun.V3 m c) (RefRun.E m c) RefRun.later3 (RefRun.T3 m c) 48 main_v18 main_v157 main_v158 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_60 (m : (ℓ : Loc nD τ sig) → Buf (Elt F) ℓ) (c : Dev nD) :
    (RefRun.E m c (Proc.devRef .tc main_c_60)) = (constantI S_ 32 0#32) :=
  end0 RefRun.hW3 (RefRun.V3 m c) (RefRun.E m c) RefRun.later3 (RefRun.T3 m c) 49 main_c_60 (constantI S_ 32 0#32) _ rfl (nk (by decide +kernel))

theorem rd_main_v159 (m : (ℓ : Loc nD τ sig) → Buf (Elt F) ℓ) (c : Dev nD) :
    (RefRun.E m c (Proc.devRef .tc main_v159)) = (broadcastInDim S200000 ![] bcast_S_S200000 : (⟨S_, .i32⟩ : BufTy).Contents (Elt F) → (⟨S200000, .i32⟩ : BufTy).Contents (Elt F)) (RefRun.E m c (Proc.devRef .tc main_c_60)) :=
  end1 RefRun.hW3 (RefRun.V3 m c) (RefRun.E m c) RefRun.later3 (RefRun.T3 m c) 50 main_c_60 main_v159 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v160 (m : (ℓ : Loc nD τ sig) → Buf (Elt F) ℓ) (c : Dev nD) :
    (RefRun.E m c (Proc.devRef .tc main_v160)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v156)) (RefRun.E m c (Proc.devRef .tc main_v159)) :=
  end2 RefRun.hW3 (RefRun.V3 m c) (RefRun.E m c) RefRun.later3 (RefRun.T3 m c) 51 main_v156 main_v159 main_v160 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_61 (m : (ℓ : Loc nD τ sig) → Buf (Elt F) ℓ) (c : Dev nD) :
    (RefRun.E m c (Proc.devRef .tc main_c_61)) = (constantI S_ 32 768#32) :=
  end0 RefRun.hW3 (RefRun.V3 m c) (RefRun.E m c) RefRun.later3 (RefRun.T3 m c) 52 main_c_61 (constantI S_ 32 768#32) _ rfl (nk (by decide +kernel))

theorem rd_main_v161 (m : (ℓ : Loc nD τ sig) → Buf (Elt F) ℓ) (c : Dev nD) :
    (RefRun.E m c (Proc.devRef .tc main_v161)) = (broadcastInDim S200000 ![] bcast_S_S200000 : (⟨S_, .i32⟩ : BufTy).Contents (Elt F) → (⟨S200000, .i32⟩ : BufTy).Contents (Elt F)) (RefRun.E m c (Proc.devRef .tc main_c_61)) :=
  end1 RefRun.hW3 (RefRun.V3 m c) (RefRun.E m c) RefRun.later3 (RefRun.T3 m c) 53 main_c_61 main_v161 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v162 (m : (ℓ : Loc nD τ sig) → Buf (Elt F) ℓ) (c : Dev nD) :
    (RefRun.E m c (Proc.devRef .tc main_v162)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v156)) (RefRun.E m c (Proc.devRef .tc main_v161)) :=
  end2 RefRun.hW3 (RefRun.V3 m c) (RefRun.E m c) RefRun.later3 (RefRun.T3 m c) 54 main_v156 main_v161 main_v162 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v163 (m : (ℓ : Loc nD τ sig) → Buf (Elt F) ℓ) (c : Dev nD) :
    (RefRun.E m c (Proc.devRef .tc main_v163)) = (andi : (⟨S200000, .i1⟩ : BufTy).Contents (Elt F) → (⟨S200000, .i1⟩ : BufTy).Contents (Elt F) → (⟨S200000, .i1⟩ : BufTy).Contents (Elt F)) (RefRun.E m c (Proc.devRef .tc main_v160)) (RefRun.E m c (Proc.devRef .tc main_v162)) :=
  end2 RefRun.hW3 (RefRun.V3 m c) (RefRun.E m c) RefRun.later3 (RefRun.T3 m c) 55 main_v160 main_v162 main_v163 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_62 (m : (ℓ : Loc nD τ sig) → Buf (Elt F) ℓ) (c : Dev nD) :
    (RefRun.E m c (Proc.devRef .tc main_c_62)) = (constantI S_ 32 0#32) :=
  end0 RefRun.hW3 (RefRun.V3 m c) (RefRun.E m c) RefRun.later3 (RefRun.T3 m c) 56 main_c_62 (constantI S_ 32 0#32) _ rfl (nk (by decide +kernel))

theorem rd_main_v164 (m : (ℓ : Loc nD τ sig) → Buf (Elt F) ℓ) (c : Dev nD) :
    (RefRun.E m c (Proc.devRef .tc main_v164)) = (broadcastInDim S200000 ![] bcast_S_S200000 : (⟨S_, .i32⟩ : BufTy).Contents (Elt F) → (⟨S200000, .i32⟩ : BufTy).Contents (Elt F)) (RefRun.E m c (Proc.devRef .tc main_c_62)) :=
  end1 RefRun.hW3 (RefRun.V3 m c) (RefRun.E m c) RefRun.later3 (RefRun.T3 m c) 57 main_c_62 main_v164 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v165 (m : (ℓ : Loc nD τ sig) → Buf (Elt F) ℓ) (c : Dev nD) :
    (RefRun.E m c (Proc.devRef .tc main_v165)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v158)) (RefRun.E m c (Proc.devRef .tc main_v164)) :=
  end2 RefRun.hW3 (RefRun.V3 m c) (RefRun.E m c) RefRun.later3 (RefRun.T3 m c) 58 main_v158 main_v164 main_v165 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v166 (m : (ℓ : Loc nD τ sig) → Buf (Elt F) ℓ) (c : Dev nD) :
    (RefRun.E m c (Proc.devRef .tc main_v166)) = (andi : (⟨S200000, .i1⟩ : BufTy).Contents (Elt F) → (⟨S200000, .i1⟩ : BufTy).Contents (Elt F) → (⟨S200000, .i1⟩ : BufTy).Contents (Elt F)) (RefRun.E m c (Proc.devRef .tc main_v163)) (RefRun.E m c (Proc.devRef .tc main_v165)) :=
  end2 RefRun.hW3 (RefRun.V3 m c) (RefRun.E m c) RefRun.later3 (RefRun.T3 m c) 59 main_v163 main_v165 main_v166 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_63 (m : (ℓ : Loc nD τ sig) → Buf (Elt F) ℓ) (c : Dev nD) :
    (RefRun.E m c (Proc.devRef .tc main_c_63)) = (constantI S_ 32 768#32) :=
  end0 RefRun.hW3 (RefRun.V3 m c) (RefRun.E m c) RefRun.later3 (RefRun.T3 m c) 60 main_c_63 (constantI S_ 32 768#32) _ rfl (nk (by decide +kernel))

theorem rd_main_v167 (m : (ℓ : Loc nD τ sig) → Buf (Elt F) ℓ) (c : Dev nD) :
    (RefRun.E m c (Proc.devRef .tc main_v167)) = (broadcastInDim S200000 ![] bcast_S_S200000 : (⟨S_, .i32⟩ : BufTy).Contents (Elt F) → (⟨S200000, .i32⟩ : BufTy).Contents (Elt F)) (RefRun.E m c (Proc.devRef .tc main_c_63)) :=
  end1 RefRun.hW3 (RefRun.V3 m c) (RefRun.E m c) RefRun.later3 (RefRun.T3 m c) 61 main_c_63 main_v167 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v168 (m : (ℓ : Loc nD τ sig) → Buf (Elt F) ℓ) (c : Dev nD) :
    (RefRun.E m c (Proc.devRef .tc main_v168)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v158)) (RefRun.E m c (Proc.devRef .tc main_v167)) :=
  end2 RefRun.hW3 (RefRun.V3 m c) (RefRun.E m c) RefRun.later3 (RefRun.T3 m c) 62 main_v158 main_v167 main_v168 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v169 (m : (ℓ : Loc nD τ sig) → Buf (Elt F) ℓ) (c : Dev nD) :
    (RefRun.E m c (Proc.devRef .tc main_v169)) = (andi : (⟨S200000, .i1⟩ : BufTy).Contents (Elt F) → (⟨S200000, .i1⟩ : BufTy).Contents (Elt F) → (⟨S200000, .i1⟩ : BufTy).Contents (Elt F)) (RefRun.E m c (Proc.devRef .tc main_v166)) (RefRun.E m c (Proc.devRef .tc main_v168)) :=
  end2 RefRun.hW3 (RefRun.V3 m c) (RefRun.E m c) RefRun.later3 (RefRun.T3 m c) 63 main_v166 main_v168 main_v169 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_64 (m : (ℓ : Loc nD τ sig) → Buf (Elt F) ℓ) (c : Dev nD) :
    (RefRun.E m c (Proc.devRef .tc main_c_64)) = (constantI S_ 32 0#32) :=
  end0 RefRun.hW3 (RefRun.V3 m c) (RefRun.E m c) RefRun.later3 (RefRun.T3 m c) 64 main_c_64 (constantI S_ 32 0#32) _ rfl (nk (by decide +kernel))

theorem rd_main_c_65 (m : (ℓ : Loc nD τ sig) → Buf (Elt F) ℓ) (c : Dev nD) :
    (RefRun.E m c (Proc.devRef .tc main_c_65)) = (constantI S_ 32 767#32) :=
  end0 RefRun.hW3 (RefRun.V3 m c) (RefRun.E m c) RefRun.later3 (RefRun.T3 m c) 65 main_c_65 (constantI S_ 32 767#32) _ rfl (nk (by decide +kernel))

theorem rd_main_call12_v0 (m : (ℓ : Loc nD τ sig) → Buf (Elt F) ℓ) (c : Dev nD) :
    (RefRun.E m c (Proc.devRef .tc main_call12_v0)) = (id : (⟨S_, .i32⟩ : BufTy).Contents (Elt F) → (⟨S_, .i32⟩ : BufTy).Contents (Elt F)) (RefRun.E m c (Proc.devRef .tc main_c_64)) :=
  end1 RefRun.hW3 (RefRun.V3 m c) (RefRun.E m c) RefRun.later3 (RefRun.T3 m c) 66 main_c_64 main_call12_v0 (id : (⟨S_, .i32⟩ : BufTy).Contents (Elt F) → (⟨S_, .i32⟩ : BufTy).Contents (Elt F)) _ _ rfl (nk (by decide +kernel)) (nk (by decide +kernel))

theorem rd_main_call12_v1 (m : (ℓ : Loc nD τ sig) → Buf (Elt F) ℓ) (c : Dev nD) :
    (RefRun.E m c (Proc.devRef .tc main_call12_v1)) = ((broadcastInDim S200000 ![] bcast_S_S200000) : (⟨S_, .i32⟩ : BufTy).Contents (Elt F) → (⟨S200000, .i32⟩ : BufTy).Contents (Elt F)) (RefRun.E m c (Proc.devRef .tc main_call12_v0)) :=
  end1 RefRun.hW3 (RefRun.V3 m c) (RefRun.E m c) RefRun.later3 (RefRun.T3 m c) 67 main_call12_v0 main_call12_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call12_v2 (m : (ℓ : Loc nD τ sig) → Buf (Elt F) ℓ) (c : Dev nD) :
    (RefRun.E m c (Proc.devRef .tc main_call12_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call12_v1)) (RefRun.E m c (Proc.devRef .tc main_v156)) :=
  end2 RefRun.hW3 (RefRun.V3 m c) (RefRun.E m c) RefRun.later3 (RefRun.T3 m c) 68 main_call12_v1 main_v156 main_call12_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call12_v3 (m : (ℓ : Loc nD τ sig) → Buf (Elt F) ℓ) (c : Dev nD) :
    (RefRun.E m c (Proc.devRef .tc main_call12_v3)) = (id : (⟨S_, .i32⟩ : BufTy).Contents (Elt F) → (⟨S_, .i32⟩ : BufTy).Contents (Elt F)) (RefRun.E m c (Proc.devRef .tc main_c_65)) :=
  end1 RefRun.hW3 (RefRun.V3 m c) (RefRun.E m c) RefRun.later3 (RefRun.T3 m c) 69 main_c_65 main_call12_v3 (id : (⟨S_, .i32⟩ : BufTy).Contents (Elt F) → (⟨S_, .i32⟩ : BufTy).Contents (Elt F)) _ _ rfl (nk (by decide +kernel)) (nk (by decide +kernel))

theorem rd_main_call12_v4 (m : (ℓ : Loc nD τ sig) → Buf (Elt F) ℓ) (c : Dev nD) :
    (RefRun.E m c (Proc.devRef .tc main_call12_v4)) = ((broadcastInDim S200000 ![] bcast_S_S200000) : (⟨S_, .i32⟩ : BufTy).Contents (Elt F) → (⟨S200000, .i32⟩ : BufTy).Contents (Elt F)) (RefRun.E m c (Proc.devRef .tc main_call12_v3)) :=
  end1 RefRun.hW3 (RefRun.V3 m c) (RefRun.E m c) RefRun.later3 (RefRun.T3 m c) 70 main_call12_v3 main_call12_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v170 (m : (ℓ : Loc nD τ sig) → Buf (Elt F) ℓ) (c : Dev nD) :
    (RefRun.E m c (Proc.devRef .tc main_v170)) = (minsi : (⟨S200000, .i32⟩ : BufTy).Contents (Elt F) → (⟨S200000, .i32⟩ : BufTy).Contents (Elt F) → (⟨S200000, .i32⟩ : BufTy).Contents (Elt F)) (RefRun.E m c (Proc.devRef .tc main_call12_v4)) (RefRun.E m c (Proc.devRef .tc main_call12_v2)) :=
  end2 RefRun.hW3 (RefRun.V3 m c) (RefRun.E m c) RefRun.later3 (RefRun.T3 m c) 71 main_call12_v4 main_call12_v2 main_v170 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_66 (m : (ℓ : Loc nD τ sig) → Buf (Elt F) ℓ) (c : Dev nD) :
    (RefRun.E m c (Proc.devRef .tc main_c_66)) = (constantI S_ 32 768#32) :=
  end0 RefRun.hW3 (RefRun.V3 m c) (RefRun.E m c) RefRun.later3 (RefRun.T3 m c) 72 main_c_66 (constantI S_ 32 768#32) _ rfl (nk (by decide +kernel))

end Cert.ReferenceIdeal.RefRead

end
-- ==== Proof.RefRead4.lean ====
/- Window 4 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v171 (m : (ℓ : Loc nD τ sig) → Buf (Elt F) ℓ) (c : Dev nD) :
    (RefRun.E m c (Proc.devRef .tc main_v171)) = (broadcastInDim S200000 ![] bcast_S_S200000 : (⟨S_, .i32⟩ : BufTy).Contents (Elt F) → (⟨S200000, .i32⟩ : BufTy).Contents (Elt F)) (RefRun.E m c (Proc.devRef .tc main_c_66)) :=
  end1 RefRun.hW4 (RefRun.V4 m c) (RefRun.E m c) RefRun.later4 (RefRun.T4 m c) 0 main_c_66 main_v171 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v172 (m : (ℓ : Loc nD τ sig) → Buf (Elt F) ℓ) (c : Dev nD) :
    (RefRun.E m c (Proc.devRef .tc main_v172)) = (muli : (⟨S200000, .i32⟩ : BufTy).Contents (Elt F) → (⟨S200000, .i32⟩ : BufTy).Contents (Elt F) → (⟨S200000, .i32⟩ : BufTy).Contents (Elt F)) (RefRun.E m c (Proc.devRef .tc main_v170)) (RefRun.E m c (Proc.devRef .tc main_v171)) :=
  end2 RefRun.hW4 (RefRun.V4 m c) (RefRun.E m c) RefRun.later4 (RefRun.T4 m c) 1 main_v170 main_v171 main_v172 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_67 (m : (ℓ : Loc nD τ sig) → Buf (Elt F) ℓ) (c : Dev nD) :
    (RefRun.E m c (Proc.devRef .tc main_c_67)) = (constantI S_ 32 0#32) :=
  end0 RefRun.hW4 (RefRun.V4 m c) (RefRun.E m c) RefRun.later4 (RefRun.T4 m c) 2 main_c_67 (constantI S_ 32 0#32) _ rfl (nk (by decide +kernel))

theorem rd_main_c_68 (m : (ℓ : Loc nD τ sig) → Buf (Elt F) ℓ) (c : Dev nD) :
    (RefRun.E m c (Proc.devRef .tc main_c_68)) = (constantI S_ 32 767#32) :=
  end0 RefRun.hW4 (RefRun.V4 m c) (RefRun.E m c) RefRun.later4 (RefRun.T4 m c) 3 main_c_68 (constantI S_ 32 767#32) _ rfl (nk (by decide +kernel))

theorem rd_main_call13_v0 (m : (ℓ : Loc nD τ sig) → Buf (Elt F) ℓ) (c : Dev nD) :
    (RefRun.E m c (Proc.devRef .tc main_call13_v0)) = (id : (⟨S_, .i32⟩ : BufTy).Contents (Elt F) → (⟨S_, .i32⟩ : BufTy).Contents (Elt F)) (RefRun.E m c (Proc.devRef .tc main_c_67)) :=
  end1 RefRun.hW4 (RefRun.V4 m c) (RefRun.E m c) RefRun.later4 (RefRun.T4 m c) 4 main_c_67 main_call13_v0 (id : (⟨S_, .i32⟩ : BufTy).Contents (Elt F) → (⟨S_, .i32⟩ : BufTy).Contents (Elt F)) _ _ rfl (nk (by decide +kernel)) (nk (by decide +kernel))

theorem rd_main_call13_v1 (m : (ℓ : Loc nD τ sig) → Buf (Elt F) ℓ) (c : Dev nD) :
    (RefRun.E m c (Proc.devRef .tc main_call13_v1)) = ((broadcastInDim S200000 ![] bcast_S_S200000) : (⟨S_, .i32⟩ : BufTy).Contents (Elt F) → (⟨S200000, .i32⟩ : BufTy).Contents (Elt F)) (RefRun.E m c (Proc.devRef .tc main_call13_v0)) :=
  end1 RefRun.hW4 (RefRun.V4 m c) (RefRun.E m c) RefRun.later4 (RefRun.T4 m c) 5 main_call13_v0 main_call13_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call13_v2 (m : (ℓ : Loc nD τ sig) → Buf (Elt F) ℓ) (c : Dev nD) :
    (RefRun.E m c (Proc.devRef .tc main_call13_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call13_v1)) (RefRun.E m c (Proc.devRef .tc main_v158)) :=
  end2 RefRun.hW4 (RefRun.V4 m c) (RefRun.E m c) RefRun.later4 (RefRun.T4 m c) 6 main_call13_v1 main_v158 main_call13_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call13_v3 (m : (ℓ : Loc nD τ sig) → Buf (Elt F) ℓ) (c : Dev nD) :
    (RefRun.E m c (Proc.devRef .tc main_call13_v3)) = (id : (⟨S_, .i32⟩ : BufTy).Contents (Elt F) → (⟨S_, .i32⟩ : BufTy).Contents (Elt F)) (RefRun.E m c (Proc.devRef .tc main_c_68)) :=
  end1 RefRun.hW4 (RefRun.V4 m c) (RefRun.E m c) RefRun.later4 (RefRun.T4 m c) 7 main_c_68 main_call13_v3 (id : (⟨S_, .i32⟩ : BufTy).Contents (Elt F) → (⟨S_, .i32⟩ : BufTy).Contents (Elt F)) _ _ rfl (nk (by decide +kernel)) (nk (by decide +kernel))

theorem rd_main_call13_v4 (m : (ℓ : Loc nD τ sig) → Buf (Elt F) ℓ) (c : Dev nD) :
    (RefRun.E m c (Proc.devRef .tc main_call13_v4)) = ((broadcastInDim S200000 ![] bcast_S_S200000) : (⟨S_, .i32⟩ : BufTy).Contents (Elt F) → (⟨S200000, .i32⟩ : BufTy).Contents (Elt F)) (RefRun.E m c (Proc.devRef .tc main_call13_v3)) :=
  end1 RefRun.hW4 (RefRun.V4 m c) (RefRun.E m c) RefRun.later4 (RefRun.T4 m c) 8 main_call13_v3 main_call13_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v173 (m : (ℓ : Loc nD τ sig) → Buf (Elt F) ℓ) (c : Dev nD) :
    (RefRun.E m c (Proc.devRef .tc main_v173)) = (minsi : (⟨S200000, .i32⟩ : BufTy).Contents (Elt F) → (⟨S200000, .i32⟩ : BufTy).Contents (Elt F) → (⟨S200000, .i32⟩ : BufTy).Contents (Elt F)) (RefRun.E m c (Proc.devRef .tc main_call13_v4)) (RefRun.E m c (Proc.devRef .tc main_call13_v2)) :=
  end2 RefRun.hW4 (RefRun.V4 m c) (RefRun.E m c) RefRun.later4 (RefRun.T4 m c) 9 main_call13_v4 main_call13_v2 main_v173 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v174 (m : (ℓ : Loc nD τ sig) → Buf (Elt F) ℓ) (c : Dev nD) :
    (RefRun.E m c (Proc.devRef .tc main_v174)) = (addi : (⟨S200000, .i32⟩ : BufTy).Contents (Elt F) → (⟨S200000, .i32⟩ : BufTy).Contents (Elt F) → (⟨S200000, .i32⟩ : BufTy).Contents (Elt F)) (RefRun.E m c (Proc.devRef .tc main_v172)) (RefRun.E m c (Proc.devRef .tc main_v173)) :=
  end2 RefRun.hW4 (RefRun.V4 m c) (RefRun.E m c) RefRun.later4 (RefRun.T4 m c) 10 main_v172 main_v173 main_v174 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_69 (m : (ℓ : Loc nD τ sig) → Buf (Elt F) ℓ) (c : Dev nD) :
    (RefRun.E m c (Proc.devRef .tc main_c_69)) = (constantI S_ 32 0#32) :=
  end0 RefRun.hW4 (RefRun.V4 m c) (RefRun.E m c) RefRun.later4 (RefRun.T4 m c) 11 main_c_69 (constantI S_ 32 0#32) _ rfl (nk (by decide +kernel))

theorem rd_main_v175 (m : (ℓ : Loc nD τ sig) → Buf (Elt F) ℓ) (c : Dev nD) :
    (RefRun.E m c (Proc.devRef .tc main_v175)) = (broadcastInDim S200000 ![] bcast_S_S200000 : (⟨S_, .i32⟩ : BufTy).Contents (Elt F) → (⟨S200000, .i32⟩ : BufTy).Contents (Elt F)) (RefRun.E m c (Proc.devRef .tc main_c_69)) :=
  end1 RefRun.hW4 (RefRun.V4 m c) (RefRun.E m c) RefRun.later4 (RefRun.T4 m c) 12 main_c_69 main_v175 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v176 (m : (ℓ : Loc nD τ sig) → Buf (Elt F) ℓ) (c : Dev nD) :
    (RefRun.E m c (Proc.devRef .tc main_v176)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v174)) (RefRun.E m c (Proc.devRef .tc main_v175)) :=
  end2 RefRun.hW4 (RefRun.V4 m c) (RefRun.E m c) RefRun.later4 (RefRun.T4 m c) 13 main_v174 main_v175 main_v176 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_70 (m : (ℓ : Loc nD τ sig) → Buf (Elt F) ℓ) (c : Dev nD) :
    (RefRun.E m c (Proc.devRef .tc main_c_70)) = (constantI S_ 32 589824#32) :=
  end0 RefRun.hW4 (RefRun.V4 m c) (RefRun.E m c) RefRun.later4 (RefRun.T4 m c) 14 main_c_70 (constantI S_ 32 589824#32) _ rfl (nk (by decide +kernel))

theorem rd_main_v177 (m : (ℓ : Loc nD τ sig) → Buf (Elt F) ℓ) (c : Dev nD) :
    (RefRun.E m c (Proc.devRef .tc main_v177)) = (broadcastInDim S200000 ![] bcast_S_S200000 : (⟨S_, .i32⟩ : BufTy).Contents (Elt F) → (⟨S200000, .i32⟩ : BufTy).Contents (Elt F)) (RefRun.E m c (Proc.devRef .tc main_c_70)) :=
  end1 RefRun.hW4 (RefRun.V4 m c) (RefRun.E m c) RefRun.later4 (RefRun.T4 m c) 15 main_c_70 main_v177 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v178 (m : (ℓ : Loc nD τ sig) → Buf (Elt F) ℓ) (c : Dev nD) :
    (RefRun.E m c (Proc.devRef .tc main_v178)) = (addi : (⟨S200000, .i32⟩ : BufTy).Contents (Elt F) → (⟨S200000, .i32⟩ : BufTy).Contents (Elt F) → (⟨S200000, .i32⟩ : BufTy).Contents (Elt F)) (RefRun.E m c (Proc.devRef .tc main_v174)) (RefRun.E m c (Proc.devRef .tc main_v177)) :=
  end2 RefRun.hW4 (RefRun.V4 m c) (RefRun.E m c) RefRun.later4 (RefRun.T4 m c) 16 main_v174 main_v177 main_v178 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v179 (m : (ℓ : Loc nD τ sig) → Buf (Elt F) ℓ) (c : Dev nD) :
    (RefRun.E m c (Proc.devRef .tc main_v179)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v176)) (RefRun.E m c (Proc.devRef .tc main_v178)) (RefRun.E m c (Proc.devRef .tc main_v174)) :=
  end3 RefRun.hW4 (RefRun.V4 m c) (RefRun.E m c) RefRun.later4 (RefRun.T4 m c) 17 main_v176 main_v178 main_v174 main_v179 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v180 (m : (ℓ : Loc nD τ sig) → Buf (Elt F) ℓ) (c : Dev nD) :
    (RefRun.E m c (Proc.devRef .tc main_v180)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v179)) :=
  end1 RefRun.hW4 (RefRun.V4 m c) (RefRun.E m c) RefRun.later4 (RefRun.T4 m c) 18 main_v179 main_v180 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v181 (m : (ℓ : Loc nD τ sig) → Buf (Elt F) ℓ) (c : Dev nD) :
    (RefRun.E m c (Proc.devRef .tc main_v181)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v180)) :=
  end2 RefRun.hW4 (RefRun.V4 m c) (RefRun.E m c) RefRun.later4 (RefRun.T4 m c) 19 main_v16 main_v180 main_v181 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_71 (m : (ℓ : Loc nD τ sig) → Buf (Elt F) ℓ) (c : Dev nD) :
    (RefRun.E m c (Proc.devRef .tc main_c_71)) = (constantI S_ 32 0#32) :=
  end0 RefRun.hW4 (RefRun.V4 m c) (RefRun.E m c) RefRun.later4 (RefRun.T4 m c) 20 main_c_71 (constantI S_ 32 0#32) _ rfl (nk (by decide +kernel))

theorem rd_main_v182 (m : (ℓ : Loc nD τ sig) → Buf (Elt F) ℓ) (c : Dev nD) :
    (RefRun.E m c (Proc.devRef .tc main_v182)) = (broadcastInDim S200000 ![] bcast_S_S200000 : (⟨S_, .i32⟩ : BufTy).Contents (Elt F) → (⟨S200000, .i32⟩ : BufTy).Contents (Elt F)) (RefRun.E m c (Proc.devRef .tc main_c_71)) :=
  end1 RefRun.hW4 (RefRun.V4 m c) (RefRun.E m c) RefRun.later4 (RefRun.T4 m c) 21 main_c_71 main_v182 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v183 (m : (ℓ : Loc nD τ sig) → Buf (Elt F) ℓ) (c : Dev nD) :
    (RefRun.E m c (Proc.devRef .tc main_v183)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v181)) (RefRun.E m c (Proc.devRef .tc main_v182)) :=
  end2 RefRun.hW4 (RefRun.V4 m c) (RefRun.E m c) RefRun.later4 (RefRun.T4 m c) 22 main_v181 main_v182 main_v183 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v184 (m : (ℓ : Loc nD τ sig) → Buf (Elt F) ℓ) (c : Dev nD) :
    (RefRun.E m c (Proc.devRef .tc main_v184)) = (andi : (⟨S200000, .i1⟩ : BufTy).Contents (Elt F) → (⟨S200000, .i1⟩ : BufTy).Contents (Elt F) → (⟨S200000, .i1⟩ : BufTy).Contents (Elt F)) (RefRun.E m c (Proc.devRef .tc main_v169)) (RefRun.E m c (Proc.devRef .tc main_v183)) :=
  end2 RefRun.hW4 (RefRun.V4 m c) (RefRun.E m c) RefRun.later4 (RefRun.T4 m c) 23 main_v169 main_v183 main_v184 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v185 (m : (ℓ : Loc nD τ sig) → Buf (Elt F) ℓ) (c : Dev nD) :
    (RefRun.E m c (Proc.devRef .tc main_v185)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v184)) :=
  end1 RefRun.hW4 (RefRun.V4 m c) (RefRun.E m c) RefRun.later4 (RefRun.T4 m c) 24 main_v184 main_v185 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_72 (m : (ℓ : Loc nD τ sig) → Buf (Elt F) ℓ) (c : Dev nD) :
    (RefRun.E m c (Proc.devRef .tc main_c_72)) = (constantI S_ 32 0#32) :=
  end0 RefRun.hW4 (RefRun.V4 m c) (RefRun.E m c) RefRun.later4 (RefRun.T4 m c) 25 main_c_72 (constantI S_ 32 0#32) _ rfl (nk (by decide +kernel))

theorem rd_main_v186 (m : (ℓ : Loc nD τ sig) → Buf (Elt F) ℓ) (c : Dev nD) :
    (RefRun.E m c (Proc.devRef .tc main_v186)) = (broadcastInDim S200000 ![] bcast_S_S200000 : (⟨S_, .i32⟩ : BufTy).Contents (Elt F) → (⟨S200000, .i32⟩ : BufTy).Contents (Elt F)) (RefRun.E m c (Proc.devRef .tc main_c_72)) :=
  end1 RefRun.hW4 (RefRun.V4 m c) (RefRun.E m c) RefRun.later4 (RefRun.T4 m c) 26 main_c_72 main_v186 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v187 (m : (ℓ : Loc nD τ sig) → Buf (Elt F) ℓ) (c : Dev nD) :
    (RefRun.E m c (Proc.devRef .tc main_v187)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v181)) (RefRun.E m c (Proc.devRef .tc main_v186)) :=
  end2 RefRun.hW4 (RefRun.V4 m c) (RefRun.E m c) RefRun.later4 (RefRun.T4 m c) 27 main_v181 main_v186 main_v187 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_73 (m : (ℓ : Loc nD τ sig) → Buf (Elt F) ℓ) (c : Dev nD) :
    (RefRun.E m c (Proc.devRef .tc main_c_73)) = (constantI S_ 32 0#32) :=
  end0 RefRun.hW4 (RefRun.V4 m c) (RefRun.E m c) RefRun.later4 (RefRun.T4 m c) 28 main_c_73 (constantI S_ 32 0#32) _ rfl (nk (by decide +kernel))

theorem rd_main_v188 (m : (ℓ : Loc nD τ sig) → Buf (Elt F) ℓ) (c : Dev nD) :
    (RefRun.E m c (Proc.devRef .tc main_v188)) = (broadcastInDim S200000 ![] bcast_S_S200000 : (⟨S_, .i32⟩ : BufTy).Contents (Elt F) → (⟨S200000, .i32⟩ : BufTy).Contents (Elt F)) (RefRun.E m c (Proc.devRef .tc main_c_73)) :=
  end1 RefRun.hW4 (RefRun.V4 m c) (RefRun.E m c) RefRun.later4 (RefRun.T4 m c) 29 main_c_73 main_v188 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v189 (m : (ℓ : Loc nD τ sig) → Buf (Elt F) ℓ) (c : Dev nD) :
    (RefRun.E m c (Proc.devRef .tc main_v189)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v187)) (RefRun.E m c (Proc.devRef .tc main_v188)) :=
  end2 RefRun.hW4 (RefRun.V4 m c) (RefRun.E m c) RefRun.later4 (RefRun.T4 m c) 30 main_v187 main_v188 main_v189 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_74 (m : (ℓ : Loc nD τ sig) → Buf (Elt F) ℓ) (c : Dev nD) :
    (RefRun.E m c (Proc.devRef .tc main_c_74)) = (constantI S_ 32 200000#32) :=
  end0 RefRun.hW4 (RefRun.V4 m c) (RefRun.E m c) RefRun.later4 (RefRun.T4 m c) 31 main_c_74 (constantI S_ 32 200000#32) _ rfl (nk (by decide +kernel))

theorem rd_main_v190 (m : (ℓ : Loc nD τ sig) → Buf (Elt F) ℓ) (c : Dev nD) :
    (RefRun.E m c (Proc.devRef .tc main_v190)) = (broadcastInDim S200000 ![] bcast_S_S200000 : (⟨S_, .i32⟩ : BufTy).Contents (Elt F) → (⟨S200000, .i32⟩ : BufTy).Contents (Elt F)) (RefRun.E m c (Proc.devRef .tc main_c_74)) :=
  end1 RefRun.hW4 (RefRun.V4 m c) (RefRun.E m c) RefRun.later4 (RefRun.T4 m c) 32 main_c_74 main_v190 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v191 (m : (ℓ : Loc nD τ sig) → Buf (Elt F) ℓ) (c : Dev nD) :
    (RefRun.E m c (Proc.devRef .tc main_v191)) = (addi : (⟨S200000, .i32⟩ : BufTy).Contents (Elt F) → (⟨S200000, .i32⟩ : BufTy).Contents (Elt F) → (⟨S200000, .i32⟩ : BufTy).Contents (Elt F)) (RefRun.E m c (Proc.devRef .tc main_v187)) (RefRun.E m c (Proc.devRef .tc main_v190)) :=
  end2 RefRun.hW4 (RefRun.V4 m c) (RefRun.E m c) RefRun.later4 (RefRun.T4 m c) 33 main_v187 main_v190 main_v191 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v192 (m : (ℓ : Loc nD τ sig) → Buf (Elt F) ℓ) (c : Dev nD) :
    (RefRun.E m c (Proc.devRef .tc main_v192)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v189)) (RefRun.E m c (Proc.devRef .tc main_v191)) (RefRun.E m c (Proc.devRef .tc main_v187)) :=
  end3 RefRun.hW4 (RefRun.V4 m c) (RefRun.E m c) RefRun.later4 (RefRun.T4 m c) 34 main_v189 main_v191 main_v187 main_v192 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v193 (m : (ℓ : Loc nD τ sig) → Buf (Elt F) ℓ) (c : Dev nD) :
    (RefRun.E m c (Proc.devRef .tc main_v193)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v192)) :=
  end1 RefRun.hW4 (RefRun.V4 m c) (RefRun.E m c) RefRun.later4 (RefRun.T4 m c) 35 main_v192 main_v193 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v194 (m : (ℓ : Loc nD τ sig) → Buf (Elt F) ℓ) (c : Dev nD) :
    (RefRun.E m c (Proc.devRef .tc main_v194)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v193)) :=
  end2 RefRun.hW4 (RefRun.V4 m c) (RefRun.E m c) RefRun.later4 (RefRun.T4 m c) 36 main_v7 main_v193 main_v194 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_75 (m : (ℓ : Loc nD τ sig) → Buf (Elt F) ℓ) (c : Dev nD) :
    (RefRun.E m c (Proc.devRef .tc main_cst_75)) = (constant S_ .f32 0x00000000#32) :=
  end0 RefRun.hW4 (RefRun.V4 m c) (RefRun.E m c) RefRun.later4 (RefRun.T4 m c) 37 main_cst_75 (constant S_ .f32 0x00000000#32) _ rfl (nk (by decide +kernel))

theorem rd_main_call14_v0 (m : (ℓ : Loc nD τ sig) → Buf (Elt F) ℓ) (c : Dev nD) :
    (RefRun.E m c (Proc.devRef .tc main_call14_v0)) = (id : (⟨S_, .f32⟩ : BufTy).Contents (Elt F) → (⟨S_, .f32⟩ : BufTy).Contents (Elt F)) (RefRun.E m c (Proc.devRef .tc main_cst_75)) :=
  end1 RefRun.hW4 (RefRun.V4 m c) (RefRun.E m c) RefRun.later4 (RefRun.T4 m c) 38 main_cst_75 main_call14_v0 (id : (⟨S_, .f32⟩ : BufTy).Contents (Elt F) → (⟨S_, .f32⟩ : BufTy).Contents (Elt F)) _ _ rfl (nk (by decide +kernel)) (nk (by decide +kernel))

theorem rd_main_call14_v1 (m : (ℓ : Loc nD τ sig) → Buf (Elt F) ℓ) (c : Dev nD) :
    (RefRun.E m c (Proc.devRef .tc main_call14_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v185)) :=
  end1 RefRun.hW4 (RefRun.V4 m c) (RefRun.E m c) RefRun.later4 (RefRun.T4 m c) 39 main_v185 main_call14_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call14_v2 (m : (ℓ : Loc nD τ sig) → Buf (Elt F) ℓ) (c : Dev nD) :
    (RefRun.E m c (Proc.devRef .tc main_call14_v2)) = ((broadcastInDim S200000x64 ![] bcast_S_S200000x64) : (⟨S_, .f32⟩ : BufTy).Contents (Elt F) → (⟨S200000x64, .f32⟩ : BufTy).Contents (Elt F)) (RefRun.E m c (Proc.devRef .tc main_call14_v0)) :=
  end1 RefRun.hW4 (RefRun.V4 m c) (RefRun.E m c) RefRun.later4 (RefRun.T4 m c) 40 main_call14_v0 main_call14_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v195 (m : (ℓ : Loc nD τ sig) → Buf (Elt F) ℓ) (c : Dev nD) :
    (RefRun.E m c (Proc.devRef .tc main_v195)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call14_v1)) (RefRun.E m c (Proc.devRef .tc main_v194)) (RefRun.E m c (Proc.devRef .tc main_call14_v2)) :=
  end3 RefRun.hW4 (RefRun.V4 m c) (RefRun.E m c) RefRun.later4 (RefRun.T4 m c) 41 main_call14_v1 main_v194 main_call14_v2 main_v195 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v196 (m : (ℓ : Loc nD τ sig) → Buf (Elt F) ℓ) (c : Dev nD) :
    (RefRun.E m c (Proc.devRef .tc main_v196)) = ((extractStridedSlice S1x64x64 ![3, 0, 0] · slices_S9x64x64_S1x64x64_3_0_0) : (⟨S9x64x64, .f32⟩ : BufTy).Contents (Elt F) → (⟨S1x64x64, .f32⟩ : BufTy).Contents (Elt F)) (RefRun.E m c (Proc.devRef .tc main_arg3)) :=
  end1 RefRun.hW4 (RefRun.V4 m c) (RefRun.E m c) RefRun.later4 (RefRun.T4 m c) 42 main_arg3 main_v196 ((extractStridedSlice S1x64x64 ![3, 0, 0] · slices_S9x64x64_S1x64x64_3_0_0) : (⟨S9x64x64, .f32⟩ : BufTy).Contents (Elt F) → (⟨S1x64x64, .f32⟩ : BufTy).Contents (Elt F)) _ _ rfl (nk (by decide +kernel)) (nk (by decide +kernel))

theorem rd_main_v197 (m : (ℓ : Loc nD τ sig) → Buf (Elt F) ℓ) (c : Dev nD) :
    (RefRun.E m c (Proc.devRef .tc main_v197)) = RefRun.reshaped main_v196 main_v197 rfl shapeCasts_S1x64x64_S64x64 (RefRun.E m c) :=
  endReshape RefRun.hW4 (RefRun.V4 m c) (RefRun.E m c) RefRun.later4 (RefRun.T4 m c) 43 main_v196 main_v197 rfl shapeCasts_S1x64x64_S64x64 _ _ rfl (nk (by decide +kernel)) (nk (by decide +kernel))

theorem rd_main_v198 (m : (ℓ : Loc nD τ sig) → Buf (Elt F) ℓ) (c : Dev nD) :
    (RefRun.E m c (Proc.devRef .tc main_v198)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v195)) (RefRun.E m c (Proc.devRef .tc main_v197)) :=
  end2 RefRun.hW4 (RefRun.V4 m c) (RefRun.E m c) RefRun.later4 (RefRun.T4 m c) 44 main_v195 main_v197 main_v198 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v199 (m : (ℓ : Loc nD τ sig) → Buf (Elt F) ℓ) (c : Dev nD) :
    (RefRun.E m c (Proc.devRef .tc main_v199)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v154)) (RefRun.E m c (Proc.devRef .tc main_v198)) :=
  end2 RefRun.hW4 (RefRun.V4 m c) (RefRun.E m c) RefRun.later4 (RefRun.T4 m c) 45 main_v154 main_v198 main_v199 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_76 (m : (ℓ : Loc nD τ sig) → Buf (Elt F) ℓ) (c : Dev nD) :
    (RefRun.E m c (Proc.devRef .tc main_c_76)) = (constantI S_ 32 0#32) :=
  end0 RefRun.hW4 (RefRun.V4 m c) (RefRun.E m c) RefRun.later4 (RefRun.T4 m c) 46 main_c_76 (constantI S_ 32 0#32) _ rfl (nk (by decide +kernel))

theorem rd_main_v200 (m : (ℓ : Loc nD τ sig) → Buf (Elt F) ℓ) (c : Dev nD) :
    (RefRun.E m c (Proc.devRef .tc main_v200)) = (broadcastInDim S200000 ![] bcast_S_S200000 : (⟨S_, .i32⟩ : BufTy).Contents (Elt F) → (⟨S200000, .i32⟩ : BufTy).Contents (Elt F)) (RefRun.E m c (Proc.devRef .tc main_c_76)) :=
  end1 RefRun.hW4 (RefRun.V4 m c) (RefRun.E m c) RefRun.later4 (RefRun.T4 m c) 47 main_c_76 main_v200 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v201 (m : (ℓ : Loc nD τ sig) → Buf (Elt F) ℓ) (c : Dev nD) :
    (RefRun.E m c (Proc.devRef .tc main_v201)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v200)) :=
  end2 RefRun.hW4 (RefRun.V4 m c) (RefRun.E m c) RefRun.later4 (RefRun.T4 m c) 48 main_v17 main_v200 main_v201 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_77 (m : (ℓ : Loc nD τ sig) → Buf (Elt F) ℓ) (c : Dev nD) :
    (RefRun.E m c (Proc.devRef .tc main_c_77)) = (constantI S_ 32 0#32) :=
  end0 RefRun.hW4 (RefRun.V4 m c) (RefRun.E m c) RefRun.later4 (RefRun.T4 m c) 49 main_c_77 (constantI S_ 32 0#32) _ rfl (nk (by decide +kernel))

theorem rd_main_v202 (m : (ℓ : Loc nD τ sig) → Buf (Elt F) ℓ) (c : Dev nD) :
    (RefRun.E m c (Proc.devRef .tc main_v202)) = (broadcastInDim S200000 ![] bcast_S_S200000 : (⟨S_, .i32⟩ : BufTy).Contents (Elt F) → (⟨S200000, .i32⟩ : BufTy).Contents (Elt F)) (RefRun.E m c (Proc.devRef .tc main_c_77)) :=
  end1 RefRun.hW4 (RefRun.V4 m c) (RefRun.E m c) RefRun.later4 (RefRun.T4 m c) 50 main_c_77 main_v202 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v203 (m : (ℓ : Loc nD τ sig) → Buf (Elt F) ℓ) (c : Dev nD) :
    (RefRun.E m c (Proc.devRef .tc main_v203)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v202)) :=
  end2 RefRun.hW4 (RefRun.V4 m c) (RefRun.E m c) RefRun.later4 (RefRun.T4 m c) 51 main_v18 main_v202 main_v203 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_78 (m : (ℓ : Loc nD τ sig) → Buf (Elt F) ℓ) (c : Dev nD) :
    (RefRun.E m c (Proc.devRef .tc main_c_78)) = (constantI S_ 32 0#32) :=
  end0 RefRun.hW4 (RefRun.V4 m c) (RefRun.E m c) RefRun.later4 (RefRun.T4 m c) 52 main_c_78 (constantI S_ 32 0#32) _ rfl (nk (by decide +kernel))

theorem rd_main_v204 (m : (ℓ : Loc nD τ sig) → Buf (Elt F) ℓ) (c : Dev nD) :
    (RefRun.E m c (Proc.devRef .tc main_v204)) = (broadcastInDim S200000 ![] bcast_S_S200000 : (⟨S_, .i32⟩ : BufTy).Contents (Elt F) → (⟨S200000, .i32⟩ : BufTy).Contents (Elt F)) (RefRun.E m c (Proc.devRef .tc main_c_78)) :=
  end1 RefRun.hW4 (RefRun.V4 m c) (RefRun.E m c) RefRun.later4 (RefRun.T4 m c) 53 main_c_78 main_v204 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v205 (m : (ℓ : Loc nD τ sig) → Buf (Elt F) ℓ) (c : Dev nD) :
    (RefRun.E m c (Proc.devRef .tc main_v205)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v201)) (RefRun.E m c (Proc.devRef .tc main_v204)) :=
  end2 RefRun.hW4 (RefRun.V4 m c) (RefRun.E m c) RefRun.later4 (RefRun.T4 m c) 54 main_v201 main_v204 main_v205 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_79 (m : (ℓ : Loc nD τ sig) → Buf (Elt F) ℓ) (c : Dev nD) :
    (RefRun.E m c (Proc.devRef .tc main_c_79)) = (constantI S_ 32 768#32) :=
  end0 RefRun.hW4 (RefRun.V4 m c) (RefRun.E m c) RefRun.later4 (RefRun.T4 m c) 55 main_c_79 (constantI S_ 32 768#32) _ rfl (nk (by decide +kernel))

theorem rd_main_v206 (m : (ℓ : Loc nD τ sig) → Buf (Elt F) ℓ) (c : Dev nD) :
    (RefRun.E m c (Proc.devRef .tc main_v206)) = (broadcastInDim S200000 ![] bcast_S_S200000 : (⟨S_, .i32⟩ : BufTy).Contents (Elt F) → (⟨S200000, .i32⟩ : BufTy).Contents (Elt F)) (RefRun.E m c (Proc.devRef .tc main_c_79)) :=
  end1 RefRun.hW4 (RefRun.V4 m c) (RefRun.E m c) RefRun.later4 (RefRun.T4 m c) 56 main_c_79 main_v206 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v207 (m : (ℓ : Loc nD τ sig) → Buf (Elt F) ℓ) (c : Dev nD) :
    (RefRun.E m c (Proc.devRef .tc main_v207)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v201)) (RefRun.E m c (Proc.devRef .tc main_v206)) :=
  end2 RefRun.hW4 (RefRun.V4 m c) (RefRun.E m c) RefRun.later4 (RefRun.T4 m c) 57 main_v201 main_v206 main_v207 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v208 (m : (ℓ : Loc nD τ sig) → Buf (Elt F) ℓ) (c : Dev nD) :
    (RefRun.E m c (Proc.devRef .tc main_v208)) = (andi : (⟨S200000, .i1⟩ : BufTy).Contents (Elt F) → (⟨S200000, .i1⟩ : BufTy).Contents (Elt F) → (⟨S200000, .i1⟩ : BufTy).Contents (Elt F)) (RefRun.E m c (Proc.devRef .tc main_v205)) (RefRun.E m c (Proc.devRef .tc main_v207)) :=
  end2 RefRun.hW4 (RefRun.V4 m c) (RefRun.E m c) RefRun.later4 (RefRun.T4 m c) 58 main_v205 main_v207 main_v208 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_80 (m : (ℓ : Loc nD τ sig) → Buf (Elt F) ℓ) (c : Dev nD) :
    (RefRun.E m c (Proc.devRef .tc main_c_80)) = (constantI S_ 32 0#32) :=
  end0 RefRun.hW4 (RefRun.V4 m c) (RefRun.E m c) RefRun.later4 (RefRun.T4 m c) 59 main_c_80 (constantI S_ 32 0#32) _ rfl (nk (by decide +kernel))

theorem rd_main_v209 (m : (ℓ : Loc nD τ sig) → Buf (Elt F) ℓ) (c : Dev nD) :
    (RefRun.E m c (Proc.devRef .tc main_v209)) = (broadcastInDim S200000 ![] bcast_S_S200000 : (⟨S_, .i32⟩ : BufTy).Contents (Elt F) → (⟨S200000, .i32⟩ : BufTy).Contents (Elt F)) (RefRun.E m c (Proc.devRef .tc main_c_80)) :=
  end1 RefRun.hW4 (RefRun.V4 m c) (RefRun.E m c) RefRun.later4 (RefRun.T4 m c) 60 main_c_80 main_v209 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v210 (m : (ℓ : Loc nD τ sig) → Buf (Elt F) ℓ) (c : Dev nD) :
    (RefRun.E m c (Proc.devRef .tc main_v210)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v203)) (RefRun.E m c (Proc.devRef .tc main_v209)) :=
  end2 RefRun.hW4 (RefRun.V4 m c) (RefRun.E m c) RefRun.later4 (RefRun.T4 m c) 61 main_v203 main_v209 main_v210 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v211 (m : (ℓ : Loc nD τ sig) → Buf (Elt F) ℓ) (c : Dev nD) :
    (RefRun.E m c (Proc.devRef .tc main_v211)) = (andi : (⟨S200000, .i1⟩ : BufTy).Contents (Elt F) → (⟨S200000, .i1⟩ : BufTy).Contents (Elt F) → (⟨S200000, .i1⟩ : BufTy).Contents (Elt F)) (RefRun.E m c (Proc.devRef .tc main_v208)) (RefRun.E m c (Proc.devRef .tc main_v210)) :=
  end2 RefRun.hW4 (RefRun.V4 m c) (RefRun.E m c) RefRun.later4 (RefRun.T4 m c) 62 main_v208 main_v210 main_v211 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_81 (m : (ℓ : Loc nD τ sig) → Buf (Elt F) ℓ) (c : Dev nD) :
    (RefRun.E m c (Proc.devRef .tc main_c_81)) = (constantI S_ 32 768#32) :=
  end0 RefRun.hW4 (RefRun.V4 m c) (RefRun.E m c) RefRun.later4 (RefRun.T4 m c) 63 main_c_81 (constantI S_ 32 768#32) _ rfl (nk (by decide +kernel))

theorem rd_main_v212 (m : (ℓ : Loc nD τ sig) → Buf (Elt F) ℓ) (c : Dev nD) :
    (RefRun.E m c (Proc.devRef .tc main_v212)) = (broadcastInDim S200000 ![] bcast_S_S200000 : (⟨S_, .i32⟩ : BufTy).Contents (Elt F) → (⟨S200000, .i32⟩ : BufTy).Contents (Elt F)) (RefRun.E m c (Proc.devRef .tc main_c_81)) :=
  end1 RefRun.hW4 (RefRun.V4 m c) (RefRun.E m c) RefRun.later4 (RefRun.T4 m c) 64 main_c_81 main_v212 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v213 (m : (ℓ : Loc nD τ sig) → Buf (Elt F) ℓ) (c : Dev nD) :
    (RefRun.E m c (Proc.devRef .tc main_v213)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v203)) (RefRun.E m c (Proc.devRef .tc main_v212)) :=
  end2 RefRun.hW4 (RefRun.V4 m c) (RefRun.E m c) RefRun.later4 (RefRun.T4 m c) 65 main_v203 main_v212 main_v213 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v214 (m : (ℓ : Loc nD τ sig) → Buf (Elt F) ℓ) (c : Dev nD) :
    (RefRun.E m c (Proc.devRef .tc main_v214)) = (andi : (⟨S200000, .i1⟩ : BufTy).Contents (Elt F) → (⟨S200000, .i1⟩ : BufTy).Contents (Elt F) → (⟨S200000, .i1⟩ : BufTy).Contents (Elt F)) (RefRun.E m c (Proc.devRef .tc main_v211)) (RefRun.E m c (Proc.devRef .tc main_v213)) :=
  end2 RefRun.hW4 (RefRun.V4 m c) (RefRun.E m c) RefRun.later4 (RefRun.T4 m c) 66 main_v211 main_v213 main_v214 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_82 (m : (ℓ : Loc nD τ sig) → Buf (Elt F) ℓ) (c : Dev nD) :
    (RefRun.E m c (Proc.devRef .tc main_c_82)) = (constantI S_ 32 0#32) :=
  end0 RefRun.hW4 (RefRun.V4 m c) (RefRun.E m c) RefRun.later4 (RefRun.T4 m c) 67 main_c_82 (constantI S_ 32 0#32) _ rfl (nk (by decide +kernel))

end Cert.ReferenceIdeal.RefRead

end
-- ==== Proof.RefRead5.lean ====
/- Window 5 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_c_83 (m : (ℓ : Loc nD τ sig) → Buf (Elt F) ℓ) (c : Dev nD) :
    (RefRun.E m c (Proc.devRef .tc main_c_83)) = (constantI S_ 32 767#32) :=
  end0 RefRun.hW5 (RefRun.V5 m c) (RefRun.E m c) RefRun.later5 (RefRun.T5 m c) 0 main_c_83 (constantI S_ 32 767#32) _ rfl (nk (by decide +kernel))

theorem rd_main_call15_v0 (m : (ℓ : Loc nD τ sig) → Buf (Elt F) ℓ) (c : Dev nD) :
    (RefRun.E m c (Proc.devRef .tc main_call15_v0)) = (id : (⟨S_, .i32⟩ : BufTy).Contents (Elt F) → (⟨S_, .i32⟩ : BufTy).Contents (Elt F)) (RefRun.E m c (Proc.devRef .tc main_c_82)) :=
  end1 RefRun.hW5 (RefRun.V5 m c) (RefRun.E m c) RefRun.later5 (RefRun.T5 m c) 1 main_c_82 main_call15_v0 (id : (⟨S_, .i32⟩ : BufTy).Contents (Elt F) → (⟨S_, .i32⟩ : BufTy).Contents (Elt F)) _ _ rfl (nk (by decide +kernel)) (nk (by decide +kernel))

theorem rd_main_call15_v1 (m : (ℓ : Loc nD τ sig) → Buf (Elt F) ℓ) (c : Dev nD) :
    (RefRun.E m c (Proc.devRef .tc main_call15_v1)) = ((broadcastInDim S200000 ![] bcast_S_S200000) : (⟨S_, .i32⟩ : BufTy).Contents (Elt F) → (⟨S200000, .i32⟩ : BufTy).Contents (Elt F)) (RefRun.E m c (Proc.devRef .tc main_call15_v0)) :=
  end1 RefRun.hW5 (RefRun.V5 m c) (RefRun.E m c) RefRun.later5 (RefRun.T5 m c) 2 main_call15_v0 main_call15_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call15_v2 (m : (ℓ : Loc nD τ sig) → Buf (Elt F) ℓ) (c : Dev nD) :
    (RefRun.E m c (Proc.devRef .tc main_call15_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call15_v1)) (RefRun.E m c (Proc.devRef .tc main_v201)) :=
  end2 RefRun.hW5 (RefRun.V5 m c) (RefRun.E m c) RefRun.later5 (RefRun.T5 m c) 3 main_call15_v1 main_v201 main_call15_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call15_v3 (m : (ℓ : Loc nD τ sig) → Buf (Elt F) ℓ) (c : Dev nD) :
    (RefRun.E m c (Proc.devRef .tc main_call15_v3)) = (id : (⟨S_, .i32⟩ : BufTy).Contents (Elt F) → (⟨S_, .i32⟩ : BufTy).Contents (Elt F)) (RefRun.E m c (Proc.devRef .tc main_c_83)) :=
  end1 RefRun.hW5 (RefRun.V5 m c) (RefRun.E m c) RefRun.later5 (RefRun.T5 m c) 4 main_c_83 main_call15_v3 (id : (⟨S_, .i32⟩ : BufTy).Contents (Elt F) → (⟨S_, .i32⟩ : BufTy).Contents (Elt F)) _ _ rfl (nk (by decide +kernel)) (nk (by decide +kernel))

theorem rd_main_call15_v4 (m : (ℓ : Loc nD τ sig) → Buf (Elt F) ℓ) (c : Dev nD) :
    (RefRun.E m c (Proc.devRef .tc main_call15_v4)) = ((broadcastInDim S200000 ![] bcast_S_S200000) : (⟨S_, .i32⟩ : BufTy).Contents (Elt F) → (⟨S200000, .i32⟩ : BufTy).Contents (Elt F)) (RefRun.E m c (Proc.devRef .tc main_call15_v3)) :=
  end1 RefRun.hW5 (RefRun.V5 m c) (RefRun.E m c) RefRun.later5 (RefRun.T5 m c) 5 main_call15_v3 main_call15_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v215 (m : (ℓ : Loc nD τ sig) → Buf (Elt F) ℓ) (c : Dev nD) :
    (RefRun.E m c (Proc.devRef .tc main_v215)) = (minsi : (⟨S200000, .i32⟩ : BufTy).Contents (Elt F) → (⟨S200000, .i32⟩ : BufTy).Contents (Elt F) → (⟨S200000, .i32⟩ : BufTy).Contents (Elt F)) (RefRun.E m c (Proc.devRef .tc main_call15_v4)) (RefRun.E m c (Proc.devRef .tc main_call15_v2)) :=
  end2 RefRun.hW5 (RefRun.V5 m c) (RefRun.E m c) RefRun.later5 (RefRun.T5 m c) 6 main_call15_v4 main_call15_v2 main_v215 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_84 (m : (ℓ : Loc nD τ sig) → Buf (Elt F) ℓ) (c : Dev nD) :
    (RefRun.E m c (Proc.devRef .tc main_c_84)) = (constantI S_ 32 768#32) :=
  end0 RefRun.hW5 (RefRun.V5 m c) (RefRun.E m c) RefRun.later5 (RefRun.T5 m c) 7 main_c_84 (constantI S_ 32 768#32) _ rfl (nk (by decide +kernel))

theorem rd_main_v216 (m : (ℓ : Loc nD τ sig) → Buf (Elt F) ℓ) (c : Dev nD) :
    (RefRun.E m c (Proc.devRef .tc main_v216)) = (broadcastInDim S200000 ![] bcast_S_S200000 : (⟨S_, .i32⟩ : BufTy).Contents (Elt F) → (⟨S200000, .i32⟩ : BufTy).Contents (Elt F)) (RefRun.E m c (Proc.devRef .tc main_c_84)) :=
  end1 RefRun.hW5 (RefRun.V5 m c) (RefRun.E m c) RefRun.later5 (RefRun.T5 m c) 8 main_c_84 main_v216 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v217 (m : (ℓ : Loc nD τ sig) → Buf (Elt F) ℓ) (c : Dev nD) :
    (RefRun.E m c (Proc.devRef .tc main_v217)) = (muli : (⟨S200000, .i32⟩ : BufTy).Contents (Elt F) → (⟨S200000, .i32⟩ : BufTy).Contents (Elt F) → (⟨S200000, .i32⟩ : BufTy).Contents (Elt F)) (RefRun.E m c (Proc.devRef .tc main_v215)) (RefRun.E m c (Proc.devRef .tc main_v216)) :=
  end2 RefRun.hW5 (RefRun.V5 m c) (RefRun.E m c) RefRun.later5 (RefRun.T5 m c) 9 main_v215 main_v216 main_v217 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_85 (m : (ℓ : Loc nD τ sig) → Buf (Elt F) ℓ) (c : Dev nD) :
    (RefRun.E m c (Proc.devRef .tc main_c_85)) = (constantI S_ 32 0#32) :=
  end0 RefRun.hW5 (RefRun.V5 m c) (RefRun.E m c) RefRun.later5 (RefRun.T5 m c) 10 main_c_85 (constantI S_ 32 0#32) _ rfl (nk (by decide +kernel))

theorem rd_main_c_86 (m : (ℓ : Loc nD τ sig) → Buf (Elt F) ℓ) (c : Dev nD) :
    (RefRun.E m c (Proc.devRef .tc main_c_86)) = (constantI S_ 32 767#32) :=
  end0 RefRun.hW5 (RefRun.V5 m c) (RefRun.E m c) RefRun.later5 (RefRun.T5 m c) 11 main_c_86 (constantI S_ 32 767#32) _ rfl (nk (by decide +kernel))

theorem rd_main_call16_v0 (m : (ℓ : Loc nD τ sig) → Buf (Elt F) ℓ) (c : Dev nD) :
    (RefRun.E m c (Proc.devRef .tc main_call16_v0)) = (id : (⟨S_, .i32⟩ : BufTy).Contents (Elt F) → (⟨S_, .i32⟩ : BufTy).Contents (Elt F)) (RefRun.E m c (Proc.devRef .tc main_c_85)) :=
  end1 RefRun.hW5 (RefRun.V5 m c) (RefRun.E m c) RefRun.later5 (RefRun.T5 m c) 12 main_c_85 main_call16_v0 (id : (⟨S_, .i32⟩ : BufTy).Contents (Elt F) → (⟨S_, .i32⟩ : BufTy).Contents (Elt F)) _ _ rfl (nk (by decide +kernel)) (nk (by decide +kernel))

theorem rd_main_call16_v1 (m : (ℓ : Loc nD τ sig) → Buf (Elt F) ℓ) (c : Dev nD) :
    (RefRun.E m c (Proc.devRef .tc main_call16_v1)) = ((broadcastInDim S200000 ![] bcast_S_S200000) : (⟨S_, .i32⟩ : BufTy).Contents (Elt F) → (⟨S200000, .i32⟩ : BufTy).Contents (Elt F)) (RefRun.E m c (Proc.devRef .tc main_call16_v0)) :=
  end1 RefRun.hW5 (RefRun.V5 m c) (RefRun.E m c) RefRun.later5 (RefRun.T5 m c) 13 main_call16_v0 main_call16_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call16_v2 (m : (ℓ : Loc nD τ sig) → Buf (Elt F) ℓ) (c : Dev nD) :
    (RefRun.E m c (Proc.devRef .tc main_call16_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call16_v1)) (RefRun.E m c (Proc.devRef .tc main_v203)) :=
  end2 RefRun.hW5 (RefRun.V5 m c) (RefRun.E m c) RefRun.later5 (RefRun.T5 m c) 14 main_call16_v1 main_v203 main_call16_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call16_v3 (m : (ℓ : Loc nD τ sig) → Buf (Elt F) ℓ) (c : Dev nD) :
    (RefRun.E m c (Proc.devRef .tc main_call16_v3)) = (id : (⟨S_, .i32⟩ : BufTy).Contents (Elt F) → (⟨S_, .i32⟩ : BufTy).Contents (Elt F)) (RefRun.E m c (Proc.devRef .tc main_c_86)) :=
  end1 RefRun.hW5 (RefRun.V5 m c) (RefRun.E m c) RefRun.later5 (RefRun.T5 m c) 15 main_c_86 main_call16_v3 (id : (⟨S_, .i32⟩ : BufTy).Contents (Elt F) → (⟨S_, .i32⟩ : BufTy).Contents (Elt F)) _ _ rfl (nk (by decide +kernel)) (nk (by decide +kernel))

theorem rd_main_call16_v4 (m : (ℓ : Loc nD τ sig) → Buf (Elt F) ℓ) (c : Dev nD) :
    (RefRun.E m c (Proc.devRef .tc main_call16_v4)) = ((broadcastInDim S200000 ![] bcast_S_S200000) : (⟨S_, .i32⟩ : BufTy).Contents (Elt F) → (⟨S200000, .i32⟩ : BufTy).Contents (Elt F)) (RefRun.E m c (Proc.devRef .tc main_call16_v3)) :=
  end1 RefRun.hW5 (RefRun.V5 m c) (RefRun.E m c) RefRun.later5 (RefRun.T5 m c) 16 main_call16_v3 main_call16_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v218 (m : (ℓ : Loc nD τ sig) → Buf (Elt F) ℓ) (c : Dev nD) :
    (RefRun.E m c (Proc.devRef .tc main_v218)) = (minsi : (⟨S200000, .i32⟩ : BufTy).Contents (Elt F) → (⟨S200000, .i32⟩ : BufTy).Contents (Elt F) → (⟨S200000, .i32⟩ : BufTy).Contents (Elt F)) (RefRun.E m c (Proc.devRef .tc main_call16_v4)) (RefRun.E m c (Proc.devRef .tc main_call16_v2)) :=
  end2 RefRun.hW5 (RefRun.V5 m c) (RefRun.E m c) RefRun.later5 (RefRun.T5 m c) 17 main_call16_v4 main_call16_v2 main_v218 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v219 (m : (ℓ : Loc nD τ sig) → Buf (Elt F) ℓ) (c : Dev nD) :
    (RefRun.E m c (Proc.devRef .tc main_v219)) = (addi : (⟨S200000, .i32⟩ : BufTy).Contents (Elt F) → (⟨S200000, .i32⟩ : BufTy).Contents (Elt F) → (⟨S200000, .i32⟩ : BufTy).Contents (Elt F)) (RefRun.E m c (Proc.devRef .tc main_v217)) (RefRun.E m c (Proc.devRef .tc main_v218)) :=
  end2 RefRun.hW5 (RefRun.V5 m c) (RefRun.E m c) RefRun.later5 (RefRun.T5 m c) 18 main_v217 main_v218 main_v219 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_87 (m : (ℓ : Loc nD τ sig) → Buf (Elt F) ℓ) (c : Dev nD) :
    (RefRun.E m c (Proc.devRef .tc main_c_87)) = (constantI S_ 32 0#32) :=
  end0 RefRun.hW5 (RefRun.V5 m c) (RefRun.E m c) RefRun.later5 (RefRun.T5 m c) 19 main_c_87 (constantI S_ 32 0#32) _ rfl (nk (by decide +kernel))

theorem rd_main_v220 (m : (ℓ : Loc nD τ sig) → Buf (Elt F) ℓ) (c : Dev nD) :
    (RefRun.E m c (Proc.devRef .tc main_v220)) = (broadcastInDim S200000 ![] bcast_S_S200000 : (⟨S_, .i32⟩ : BufTy).Contents (Elt F) → (⟨S200000, .i32⟩ : BufTy).Contents (Elt F)) (RefRun.E m c (Proc.devRef .tc main_c_87)) :=
  end1 RefRun.hW5 (RefRun.V5 m c) (RefRun.E m c) RefRun.later5 (RefRun.T5 m c) 20 main_c_87 main_v220 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v221 (m : (ℓ : Loc nD τ sig) → Buf (Elt F) ℓ) (c : Dev nD) :
    (RefRun.E m c (Proc.devRef .tc main_v221)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v219)) (RefRun.E m c (Proc.devRef .tc main_v220)) :=
  end2 RefRun.hW5 (RefRun.V5 m c) (RefRun.E m c) RefRun.later5 (RefRun.T5 m c) 21 main_v219 main_v220 main_v221 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_88 (m : (ℓ : Loc nD τ sig) → Buf (Elt F) ℓ) (c : Dev nD) :
    (RefRun.E m c (Proc.devRef .tc main_c_88)) = (constantI S_ 32 589824#32) :=
  end0 RefRun.hW5 (RefRun.V5 m c) (RefRun.E m c) RefRun.later5 (RefRun.T5 m c) 22 main_c_88 (constantI S_ 32 589824#32) _ rfl (nk (by decide +kernel))

theorem rd_main_v222 (m : (ℓ : Loc nD τ sig) → Buf (Elt F) ℓ) (c : Dev nD) :
    (RefRun.E m c (Proc.devRef .tc main_v222)) = (broadcastInDim S200000 ![] bcast_S_S200000 : (⟨S_, .i32⟩ : BufTy).Contents (Elt F) → (⟨S200000, .i32⟩ : BufTy).Contents (Elt F)) (RefRun.E m c (Proc.devRef .tc main_c_88)) :=
  end1 RefRun.hW5 (RefRun.V5 m c) (RefRun.E m c) RefRun.later5 (RefRun.T5 m c) 23 main_c_88 main_v222 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v223 (m : (ℓ : Loc nD τ sig) → Buf (Elt F) ℓ) (c : Dev nD) :
    (RefRun.E m c (Proc.devRef .tc main_v223)) = (addi : (⟨S200000, .i32⟩ : BufTy).Contents (Elt F) → (⟨S200000, .i32⟩ : BufTy).Contents (Elt F) → (⟨S200000, .i32⟩ : BufTy).Contents (Elt F)) (RefRun.E m c (Proc.devRef .tc main_v219)) (RefRun.E m c (Proc.devRef .tc main_v222)) :=
  end2 RefRun.hW5 (RefRun.V5 m c) (RefRun.E m c) RefRun.later5 (RefRun.T5 m c) 24 main_v219 main_v222 main_v223 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v224 (m : (ℓ : Loc nD τ sig) → Buf (Elt F) ℓ) (c : Dev nD) :
    (RefRun.E m c (Proc.devRef .tc main_v224)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v221)) (RefRun.E m c (Proc.devRef .tc main_v223)) (RefRun.E m c (Proc.devRef .tc main_v219)) :=
  end3 RefRun.hW5 (RefRun.V5 m c) (RefRun.E m c) RefRun.later5 (RefRun.T5 m c) 25 main_v221 main_v223 main_v219 main_v224 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v225 (m : (ℓ : Loc nD τ sig) → Buf (Elt F) ℓ) (c : Dev nD) :
    (RefRun.E m c (Proc.devRef .tc main_v225)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v224)) :=
  end1 RefRun.hW5 (RefRun.V5 m c) (RefRun.E m c) RefRun.later5 (RefRun.T5 m c) 26 main_v224 main_v225 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v226 (m : (ℓ : Loc nD τ sig) → Buf (Elt F) ℓ) (c : Dev nD) :
    (RefRun.E m c (Proc.devRef .tc main_v226)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v225)) :=
  end2 RefRun.hW5 (RefRun.V5 m c) (RefRun.E m c) RefRun.later5 (RefRun.T5 m c) 27 main_v16 main_v225 main_v226 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_89 (m : (ℓ : Loc nD τ sig) → Buf (Elt F) ℓ) (c : Dev nD) :
    (RefRun.E m c (Proc.devRef .tc main_c_89)) = (constantI S_ 32 0#32) :=
  end0 RefRun.hW5 (RefRun.V5 m c) (RefRun.E m c) RefRun.later5 (RefRun.T5 m c) 28 main_c_89 (constantI S_ 32 0#32) _ rfl (nk (by decide +kernel))

theorem rd_main_v227 (m : (ℓ : Loc nD τ sig) → Buf (Elt F) ℓ) (c : Dev nD) :
    (RefRun.E m c (Proc.devRef .tc main_v227)) = (broadcastInDim S200000 ![] bcast_S_S200000 : (⟨S_, .i32⟩ : BufTy).Contents (Elt F) → (⟨S200000, .i32⟩ : BufTy).Contents (Elt F)) (RefRun.E m c (Proc.devRef .tc main_c_89)) :=
  end1 RefRun.hW5 (RefRun.V5 m c) (RefRun.E m c) RefRun.later5 (RefRun.T5 m c) 29 main_c_89 main_v227 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v228 (m : (ℓ : Loc nD τ sig) → Buf (Elt F) ℓ) (c : Dev nD) :
    (RefRun.E m c (Proc.devRef .tc main_v228)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v226)) (RefRun.E m c (Proc.devRef .tc main_v227)) :=
  end2 RefRun.hW5 (RefRun.V5 m c) (RefRun.E m c) RefRun.later5 (RefRun.T5 m c) 30 main_v226 main_v227 main_v228 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v229 (m : (ℓ : Loc nD τ sig) → Buf (Elt F) ℓ) (c : Dev nD) :
    (RefRun.E m c (Proc.devRef .tc main_v229)) = (andi : (⟨S200000, .i1⟩ : BufTy).Contents (Elt F) → (⟨S200000, .i1⟩ : BufTy).Contents (Elt F) → (⟨S200000, .i1⟩ : BufTy).Contents (Elt F)) (RefRun.E m c (Proc.devRef .tc main_v214)) (RefRun.E m c (Proc.devRef .tc main_v228)) :=
  end2 RefRun.hW5 (RefRun.V5 m c) (RefRun.E m c) RefRun.later5 (RefRun.T5 m c) 31 main_v214 main_v228 main_v229 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v230 (m : (ℓ : Loc nD τ sig) → Buf (Elt F) ℓ) (c : Dev nD) :
    (RefRun.E m c (Proc.devRef .tc main_v230)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v229)) :=
  end1 RefRun.hW5 (RefRun.V5 m c) (RefRun.E m c) RefRun.later5 (RefRun.T5 m c) 32 main_v229 main_v230 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_90 (m : (ℓ : Loc nD τ sig) → Buf (Elt F) ℓ) (c : Dev nD) :
    (RefRun.E m c (Proc.devRef .tc main_c_90)) = (constantI S_ 32 0#32) :=
  end0 RefRun.hW5 (RefRun.V5 m c) (RefRun.E m c) RefRun.later5 (RefRun.T5 m c) 33 main_c_90 (constantI S_ 32 0#32) _ rfl (nk (by decide +kernel))

theorem rd_main_v231 (m : (ℓ : Loc nD τ sig) → Buf (Elt F) ℓ) (c : Dev nD) :
    (RefRun.E m c (Proc.devRef .tc main_v231)) = (broadcastInDim S200000 ![] bcast_S_S200000 : (⟨S_, .i32⟩ : BufTy).Contents (Elt F) → (⟨S200000, .i32⟩ : BufTy).Contents (Elt F)) (RefRun.E m c (Proc.devRef .tc main_c_90)) :=
  end1 RefRun.hW5 (RefRun.V5 m c) (RefRun.E m c) RefRun.later5 (RefRun.T5 m c) 34 main_c_90 main_v231 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v232 (m : (ℓ : Loc nD τ sig) → Buf (Elt F) ℓ) (c : Dev nD) :
    (RefRun.E m c (Proc.devRef .tc main_v232)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v226)) (RefRun.E m c (Proc.devRef .tc main_v231)) :=
  end2 RefRun.hW5 (RefRun.V5 m c) (RefRun.E m c) RefRun.later5 (RefRun.T5 m c) 35 main_v226 main_v231 main_v232 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_91 (m : (ℓ : Loc nD τ sig) → Buf (Elt F) ℓ) (c : Dev nD) :
    (RefRun.E m c (Proc.devRef .tc main_c_91)) = (constantI S_ 32 0#32) :=
  end0 RefRun.hW5 (RefRun.V5 m c) (RefRun.E m c) RefRun.later5 (RefRun.T5 m c) 36 main_c_91 (constantI S_ 32 0#32) _ rfl (nk (by decide +kernel))

theorem rd_main_v233 (m : (ℓ : Loc nD τ sig) → Buf (Elt F) ℓ) (c : Dev nD) :
    (RefRun.E m c (Proc.devRef .tc main_v233)) = (broadcastInDim S200000 ![] bcast_S_S200000 : (⟨S_, .i32⟩ : BufTy).Contents (Elt F) → (⟨S200000, .i32⟩ : BufTy).Contents (Elt F)) (RefRun.E m c (Proc.devRef .tc main_c_91)) :=
  end1 RefRun.hW5 (RefRun.V5 m c) (RefRun.E m c) RefRun.later5 (RefRun.T5 m c) 37 main_c_91 main_v233 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v234 (m : (ℓ : Loc nD τ sig) → Buf (Elt F) ℓ) (c : Dev nD) :
    (RefRun.E m c (Proc.devRef .tc main_v234)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v232)) (RefRun.E m c (Proc.devRef .tc main_v233)) :=
  end2 RefRun.hW5 (RefRun.V5 m c) (RefRun.E m c) RefRun.later5 (RefRun.T5 m c) 38 main_v232 main_v233 main_v234 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_92 (m : (ℓ : Loc nD τ sig) → Buf (Elt F) ℓ) (c : Dev nD) :
    (RefRun.E m c (Proc.devRef .tc main_c_92)) = (constantI S_ 32 200000#32) :=
  end0 RefRun.hW5 (RefRun.V5 m c) (RefRun.E m c) RefRun.later5 (RefRun.T5 m c) 39 main_c_92 (constantI S_ 32 200000#32) _ rfl (nk (by decide +kernel))

theorem rd_main_v235 (m : (ℓ : Loc nD τ sig) → Buf (Elt F) ℓ) (c : Dev nD) :
    (RefRun.E m c (Proc.devRef .tc main_v235)) = (broadcastInDim S200000 ![] bcast_S_S200000 : (⟨S_, .i32⟩ : BufTy).Contents (Elt F) → (⟨S200000, .i32⟩ : BufTy).Contents (Elt F)) (RefRun.E m c (Proc.devRef .tc main_c_92)) :=
  end1 RefRun.hW5 (RefRun.V5 m c) (RefRun.E m c) RefRun.later5 (RefRun.T5 m c) 40 main_c_92 main_v235 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v236 (m : (ℓ : Loc nD τ sig) → Buf (Elt F) ℓ) (c : Dev nD) :
    (RefRun.E m c (Proc.devRef .tc main_v236)) = (addi : (⟨S200000, .i32⟩ : BufTy).Contents (Elt F) → (⟨S200000, .i32⟩ : BufTy).Contents (Elt F) → (⟨S200000, .i32⟩ : BufTy).Contents (Elt F)) (RefRun.E m c (Proc.devRef .tc main_v232)) (RefRun.E m c (Proc.devRef .tc main_v235)) :=
  end2 RefRun.hW5 (RefRun.V5 m c) (RefRun.E m c) RefRun.later5 (RefRun.T5 m c) 41 main_v232 main_v235 main_v236 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v237 (m : (ℓ : Loc nD τ sig) → Buf (Elt F) ℓ) (c : Dev nD) :
    (RefRun.E m c (Proc.devRef .tc main_v237)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v234)) (RefRun.E m c (Proc.devRef .tc main_v236)) (RefRun.E m c (Proc.devRef .tc main_v232)) :=
  end3 RefRun.hW5 (RefRun.V5 m c) (RefRun.E m c) RefRun.later5 (RefRun.T5 m c) 42 main_v234 main_v236 main_v232 main_v237 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v238 (m : (ℓ : Loc nD τ sig) → Buf (Elt F) ℓ) (c : Dev nD) :
    (RefRun.E m c (Proc.devRef .tc main_v238)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v237)) :=
  end1 RefRun.hW5 (RefRun.V5 m c) (RefRun.E m c) RefRun.later5 (RefRun.T5 m c) 43 main_v237 main_v238 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v239 (m : (ℓ : Loc nD τ sig) → Buf (Elt F) ℓ) (c : Dev nD) :
    (RefRun.E m c (Proc.devRef .tc main_v239)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v238)) :=
  end2 RefRun.hW5 (RefRun.V5 m c) (RefRun.E m c) RefRun.later5 (RefRun.T5 m c) 44 main_v7 main_v238 main_v239 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_93 (m : (ℓ : Loc nD τ sig) → Buf (Elt F) ℓ) (c : Dev nD) :
    (RefRun.E m c (Proc.devRef .tc main_cst_93)) = (constant S_ .f32 0x00000000#32) :=
  end0 RefRun.hW5 (RefRun.V5 m c) (RefRun.E m c) RefRun.later5 (RefRun.T5 m c) 45 main_cst_93 (constant S_ .f32 0x00000000#32) _ rfl (nk (by decide +kernel))

theorem rd_main_call17_v0 (m : (ℓ : Loc nD τ sig) → Buf (Elt F) ℓ) (c : Dev nD) :
    (RefRun.E m c (Proc.devRef .tc main_call17_v0)) = (id : (⟨S_, .f32⟩ : BufTy).Contents (Elt F) → (⟨S_, .f32⟩ : BufTy).Contents (Elt F)) (RefRun.E m c (Proc.devRef .tc main_cst_93)) :=
  end1 RefRun.hW5 (RefRun.V5 m c) (RefRun.E m c) RefRun.later5 (RefRun.T5 m c) 46 main_cst_93 main_call17_v0 (id : (⟨S_, .f32⟩ : BufTy).Contents (Elt F) → (⟨S_, .f32⟩ : BufTy).Contents (Elt F)) _ _ rfl (nk (by decide +kernel)) (nk (by decide +kernel))

theorem rd_main_call17_v1 (m : (ℓ : Loc nD τ sig) → Buf (Elt F) ℓ) (c : Dev nD) :
    (RefRun.E m c (Proc.devRef .tc main_call17_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v230)) :=
  end1 RefRun.hW5 (RefRun.V5 m c) (RefRun.E m c) RefRun.later5 (RefRun.T5 m c) 47 main_v230 main_call17_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call17_v2 (m : (ℓ : Loc nD τ sig) → Buf (Elt F) ℓ) (c : Dev nD) :
    (RefRun.E m c (Proc.devRef .tc main_call17_v2)) = ((broadcastInDim S200000x64 ![] bcast_S_S200000x64) : (⟨S_, .f32⟩ : BufTy).Contents (Elt F) → (⟨S200000x64, .f32⟩ : BufTy).Contents (Elt F)) (RefRun.E m c (Proc.devRef .tc main_call17_v0)) :=
  end1 RefRun.hW5 (RefRun.V5 m c) (RefRun.E m c) RefRun.later5 (RefRun.T5 m c) 48 main_call17_v0 main_call17_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v240 (m : (ℓ : Loc nD τ sig) → Buf (Elt F) ℓ) (c : Dev nD) :
    (RefRun.E m c (Proc.devRef .tc main_v240)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call17_v1)) (RefRun.E m c (Proc.devRef .tc main_v239)) (RefRun.E m c (Proc.devRef .tc main_call17_v2)) :=
  end3 RefRun.hW5 (RefRun.V5 m c) (RefRun.E m c) RefRun.later5 (RefRun.T5 m c) 49 main_call17_v1 main_v239 main_call17_v2 main_v240 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v241 (m : (ℓ : Loc nD τ sig) → Buf (Elt F) ℓ) (c : Dev nD) :
    (RefRun.E m c (Proc.devRef .tc main_v241)) = ((extractStridedSlice S1x64x64 ![4, 0, 0] · slices_S9x64x64_S1x64x64_4_0_0) : (⟨S9x64x64, .f32⟩ : BufTy).Contents (Elt F) → (⟨S1x64x64, .f32⟩ : BufTy).Contents (Elt F)) (RefRun.E m c (Proc.devRef .tc main_arg3)) :=
  end1 RefRun.hW5 (RefRun.V5 m c) (RefRun.E m c) RefRun.later5 (RefRun.T5 m c) 50 main_arg3 main_v241 ((extractStridedSlice S1x64x64 ![4, 0, 0] · slices_S9x64x64_S1x64x64_4_0_0) : (⟨S9x64x64, .f32⟩ : BufTy).Contents (Elt F) → (⟨S1x64x64, .f32⟩ : BufTy).Contents (Elt F)) _ _ rfl (nk (by decide +kernel)) (nk (by decide +kernel))

theorem rd_main_v242 (m : (ℓ : Loc nD τ sig) → Buf (Elt F) ℓ) (c : Dev nD) :
    (RefRun.E m c (Proc.devRef .tc main_v242)) = RefRun.reshaped main_v241 main_v242 rfl shapeCasts_S1x64x64_S64x64 (RefRun.E m c) :=
  endReshape RefRun.hW5 (RefRun.V5 m c) (RefRun.E m c) RefRun.later5 (RefRun.T5 m c) 51 main_v241 main_v242 rfl shapeCasts_S1x64x64_S64x64 _ _ rfl (nk (by decide +kernel)) (nk (by decide +kernel))

theorem rd_main_v243 (m : (ℓ : Loc nD τ sig) → Buf (Elt F) ℓ) (c : Dev nD) :
    (RefRun.E m c (Proc.devRef .tc main_v243)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v240)) (RefRun.E m c (Proc.devRef .tc main_v242)) :=
  end2 RefRun.hW5 (RefRun.V5 m c) (RefRun.E m c) RefRun.later5 (RefRun.T5 m c) 52 main_v240 main_v242 main_v243 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v244 (m : (ℓ : Loc nD τ sig) → Buf (Elt F) ℓ) (c : Dev nD) :
    (RefRun.E m c (Proc.devRef .tc main_v244)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v199)) (RefRun.E m c (Proc.devRef .tc main_v243)) :=
  end2 RefRun.hW5 (RefRun.V5 m c) (RefRun.E m c) RefRun.later5 (RefRun.T5 m c) 53 main_v199 main_v243 main_v244 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_94 (m : (ℓ : Loc nD τ sig) → Buf (Elt F) ℓ) (c : Dev nD) :
    (RefRun.E m c (Proc.devRef .tc main_c_94)) = (constantI S_ 32 0#32) :=
  end0 RefRun.hW5 (RefRun.V5 m c) (RefRun.E m c) RefRun.later5 (RefRun.T5 m c) 54 main_c_94 (constantI S_ 32 0#32) _ rfl (nk (by decide +kernel))

theorem rd_main_v245 (m : (ℓ : Loc nD τ sig) → Buf (Elt F) ℓ) (c : Dev nD) :
    (RefRun.E m c (Proc.devRef .tc main_v245)) = (broadcastInDim S200000 ![] bcast_S_S200000 : (⟨S_, .i32⟩ : BufTy).Contents (Elt F) → (⟨S200000, .i32⟩ : BufTy).Contents (Elt F)) (RefRun.E m c (Proc.devRef .tc main_c_94)) :=
  end1 RefRun.hW5 (RefRun.V5 m c) (RefRun.E m c) RefRun.later5 (RefRun.T5 m c) 55 main_c_94 main_v245 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v246 (m : (ℓ : Loc nD τ sig) → Buf (Elt F) ℓ) (c : Dev nD) :
    (RefRun.E m c (Proc.devRef .tc main_v246)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v245)) :=
  end2 RefRun.hW5 (RefRun.V5 m c) (RefRun.E m c) RefRun.later5 (RefRun.T5 m c) 56 main_v17 main_v245 main_v246 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_95 (m : (ℓ : Loc nD τ sig) → Buf (Elt F) ℓ) (c : Dev nD) :
    (RefRun.E m c (Proc.devRef .tc main_c_95)) = (constantI S_ 32 1#32) :=
  end0 RefRun.hW5 (RefRun.V5 m c) (RefRun.E m c) RefRun.later5 (RefRun.T5 m c) 57 main_c_95 (constantI S_ 32 1#32) _ rfl (nk (by decide +kernel))

theorem rd_main_v247 (m : (ℓ : Loc nD τ sig) → Buf (Elt F) ℓ) (c : Dev nD) :
    (RefRun.E m c (Proc.devRef .tc main_v247)) = (broadcastInDim S200000 ![] bcast_S_S200000 : (⟨S_, .i32⟩ : BufTy).Contents (Elt F) → (⟨S200000, .i32⟩ : BufTy).Contents (Elt F)) (RefRun.E m c (Proc.devRef .tc main_c_95)) :=
  end1 RefRun.hW5 (RefRun.V5 m c) (RefRun.E m c) RefRun.later5 (RefRun.T5 m c) 58 main_c_95 main_v247 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v248 (m : (ℓ : Loc nD τ sig) → Buf (Elt F) ℓ) (c : Dev nD) :
    (RefRun.E m c (Proc.devRef .tc main_v248)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v247)) :=
  end2 RefRun.hW5 (RefRun.V5 m c) (RefRun.E m c) RefRun.later5 (RefRun.T5 m c) 59 main_v18 main_v247 main_v248 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_96 (m : (ℓ : Loc nD τ sig) → Buf (Elt F) ℓ) (c : Dev nD) :
    (RefRun.E m c (Proc.devRef .tc main_c_96)) = (constantI S_ 32 0#32) :=
  end0 RefRun.hW5 (RefRun.V5 m c) (RefRun.E m c) RefRun.later5 (RefRun.T5 m c) 60 main_c_96 (constantI S_ 32 0#32) _ rfl (nk (by decide +kernel))

theorem rd_main_v249 (m : (ℓ : Loc nD τ sig) → Buf (Elt F) ℓ) (c : Dev nD) :
    (RefRun.E m c (Proc.devRef .tc main_v249)) = (broadcastInDim S200000 ![] bcast_S_S200000 : (⟨S_, .i32⟩ : BufTy).Contents (Elt F) → (⟨S200000, .i32⟩ : BufTy).Contents (Elt F)) (RefRun.E m c (Proc.devRef .tc main_c_96)) :=
  end1 RefRun.hW5 (RefRun.V5 m c) (RefRun.E m c) RefRun.later5 (RefRun.T5 m c) 61 main_c_96 main_v249 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v250 (m : (ℓ : Loc nD τ sig) → Buf (Elt F) ℓ) (c : Dev nD) :
    (RefRun.E m c (Proc.devRef .tc main_v250)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v246)) (RefRun.E m c (Proc.devRef .tc main_v249)) :=
  end2 RefRun.hW5 (RefRun.V5 m c) (RefRun.E m c) RefRun.later5 (RefRun.T5 m c) 62 main_v246 main_v249 main_v250 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_97 (m : (ℓ : Loc nD τ sig) → Buf (Elt F) ℓ) (c : Dev nD) :
    (RefRun.E m c (Proc.devRef .tc main_c_97)) = (constantI S_ 32 768#32) :=
  end0 RefRun.hW5 (RefRun.V5 m c) (RefRun.E m c) RefRun.later5 (RefRun.T5 m c) 63 main_c_97 (constantI S_ 32 768#32) _ rfl (nk (by decide +kernel))

theorem rd_main_v251 (m : (ℓ : Loc nD τ sig) → Buf (Elt F) ℓ) (c : Dev nD) :
    (RefRun.E m c (Proc.devRef .tc main_v251)) = (broadcastInDim S200000 ![] bcast_S_S200000 : (⟨S_, .i32⟩ : BufTy).Contents (Elt F) → (⟨S200000, .i32⟩ : BufTy).Contents (Elt F)) (RefRun.E m c (Proc.devRef .tc main_c_97)) :=
  end1 RefRun.hW5 (RefRun.V5 m c) (RefRun.E m c) RefRun.later5 (RefRun.T5 m c) 64 main_c_97 main_v251 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v252 (m : (ℓ : Loc nD τ sig) → Buf (Elt F) ℓ) (c : Dev nD) :
    (RefRun.E m c (Proc.devRef .tc main_v252)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v246)) (RefRun.E m c (Proc.devRef .tc main_v251)) :=
  end2 RefRun.hW5 (RefRun.V5 m c) (RefRun.E m c) RefRun.later5 (RefRun.T5 m c) 65 main_v246 main_v251 main_v252 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v253 (m : (ℓ : Loc nD τ sig) → Buf (Elt F) ℓ) (c : Dev nD) :
    (RefRun.E m c (Proc.devRef .tc main_v253)) = (andi : (⟨S200000, .i1⟩ : BufTy).Contents (Elt F) → (⟨S200000, .i1⟩ : BufTy).Contents (Elt F) → (⟨S200000, .i1⟩ : BufTy).Contents (Elt F)) (RefRun.E m c (Proc.devRef .tc main_v250)) (RefRun.E m c (Proc.devRef .tc main_v252)) :=
  end2 RefRun.hW5 (RefRun.V5 m c) (RefRun.E m c) RefRun.later5 (RefRun.T5 m c) 66 main_v250 main_v252 main_v253 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_98 (m : (ℓ : Loc nD τ sig) → Buf (Elt F) ℓ) (c : Dev nD) :
    (RefRun.E m c (Proc.devRef .tc main_c_98)) = (constantI S_ 32 0#32) :=
  end0 RefRun.hW5 (RefRun.V5 m c) (RefRun.E m c) RefRun.later5 (RefRun.T5 m c) 67 main_c_98 (constantI S_ 32 0#32) _ rfl (nk (by decide +kernel))

theorem rd_main_v254 (m : (ℓ : Loc nD τ sig) → Buf (Elt F) ℓ) (c : Dev nD) :
    (RefRun.E m c (Proc.devRef .tc main_v254)) = (broadcastInDim S200000 ![] bcast_S_S200000 : (⟨S_, .i32⟩ : BufTy).Contents (Elt F) → (⟨S200000, .i32⟩ : BufTy).Contents (Elt F)) (RefRun.E m c (Proc.devRef .tc main_c_98)) :=
  end1 RefRun.hW5 (RefRun.V5 m c) (RefRun.E m c) RefRun.later5 (RefRun.T5 m c) 68 main_c_98 main_v254 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v255 (m : (ℓ : Loc nD τ sig) → Buf (Elt F) ℓ) (c : Dev nD) :
    (RefRun.E m c (Proc.devRef .tc main_v255)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v248)) (RefRun.E m c (Proc.devRef .tc main_v254)) :=
  end2 RefRun.hW5 (RefRun.V5 m c) (RefRun.E m c) RefRun.later5 (RefRun.T5 m c) 69 main_v248 main_v254 main_v255 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v256 (m : (ℓ : Loc nD τ sig) → Buf (Elt F) ℓ) (c : Dev nD) :
    (RefRun.E m c (Proc.devRef .tc main_v256)) = (andi : (⟨S200000, .i1⟩ : BufTy).Contents (Elt F) → (⟨S200000, .i1⟩ : BufTy).Contents (Elt F) → (⟨S200000, .i1⟩ : BufTy).Contents (Elt F)) (RefRun.E m c (Proc.devRef .tc main_v253)) (RefRun.E m c (Proc.devRef .tc main_v255)) :=
  end2 RefRun.hW5 (RefRun.V5 m c) (RefRun.E m c) RefRun.later5 (RefRun.T5 m c) 70 main_v253 main_v255 main_v256 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_99 (m : (ℓ : Loc nD τ sig) → Buf (Elt F) ℓ) (c : Dev nD) :
    (RefRun.E m c (Proc.devRef .tc main_c_99)) = (constantI S_ 32 768#32) :=
  end0 RefRun.hW5 (RefRun.V5 m c) (RefRun.E m c) RefRun.later5 (RefRun.T5 m c) 71 main_c_99 (constantI S_ 32 768#32) _ rfl (nk (by decide +kernel))

theorem rd_main_v257 (m : (ℓ : Loc nD τ sig) → Buf (Elt F) ℓ) (c : Dev nD) :
    (RefRun.E m c (Proc.devRef .tc main_v257)) = (broadcastInDim S200000 ![] bcast_S_S200000 : (⟨S_, .i32⟩ : BufTy).Contents (Elt F) → (⟨S200000, .i32⟩ : BufTy).Contents (Elt F)) (RefRun.E m c (Proc.devRef .tc main_c_99)) :=
  end1 RefRun.hW5 (RefRun.V5 m c) (RefRun.E m c) RefRun.later5 (RefRun.T5 m c) 72 main_c_99 main_v257 (broadcastInDim S200000 ![] bcast_S_S200000 : (⟨S_, .i32⟩ : BufTy).Contents (Elt F) → (⟨S200000, .i32⟩ : BufTy).Contents (Elt F)) _ _ rfl (nk (by decide +kernel)) (nk (by decide +kernel))

end Cert.ReferenceIdeal.RefRead

end
-- ==== Proof.RefRead6.lean ====
/- Window 6 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v258 (m : (ℓ : Loc nD τ sig) → Buf (Elt F) ℓ) (c : Dev nD) :
    (RefRun.E m c (Proc.devRef .tc main_v258)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v248)) (RefRun.E m c (Proc.devRef .tc main_v257)) :=
  end2 RefRun.hW6 (RefRun.V6 m c) (RefRun.E m c) RefRun.later6 (RefRun.T6 m c) 0 main_v248 main_v257 main_v258 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v259 (m : (ℓ : Loc nD τ sig) → Buf (Elt F) ℓ) (c : Dev nD) :
    (RefRun.E m c (Proc.devRef .tc main_v259)) = (andi : (⟨S200000, .i1⟩ : BufTy).Contents (Elt F) → (⟨S200000, .i1⟩ : BufTy).Contents (Elt F) → (⟨S200000, .i1⟩ : BufTy).Contents (Elt F)) (RefRun.E m c (Proc.devRef .tc main_v256)) (RefRun.E m c (Proc.devRef .tc main_v258)) :=
  end2 RefRun.hW6 (RefRun.V6 m c) (RefRun.E m c) RefRun.later6 (RefRun.T6 m c) 1 main_v256 main_v258 main_v259 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_100 (m : (ℓ : Loc nD τ sig) → Buf (Elt F) ℓ) (c : Dev nD) :
    (RefRun.E m c (Proc.devRef .tc main_c_100)) = (constantI S_ 32 0#32) :=
  end0 RefRun.hW6 (RefRun.V6 m c) (RefRun.E m c) RefRun.later6 (RefRun.T6 m c) 2 main_c_100 (constantI S_ 32 0#32) _ rfl (nk (by decide +kernel))

theorem rd_main_c_101 (m : (ℓ : Loc nD τ sig) → Buf (Elt F) ℓ) (c : Dev nD) :
    (RefRun.E m c (Proc.devRef .tc main_c_101)) = (constantI S_ 32 767#32) :=
  end0 RefRun.hW6 (RefRun.V6 m c) (RefRun.E m c) RefRun.later6 (RefRun.T6 m c) 3 main_c_101 (constantI S_ 32 767#32) _ rfl (nk (by decide +kernel))

theorem rd_main_call18_v0 (m : (ℓ : Loc nD τ sig) → Buf (Elt F) ℓ) (c : Dev nD) :
    (RefRun.E m c (Proc.devRef .tc main_call18_v0)) = (id : (⟨S_, .i32⟩ : BufTy).Contents (Elt F) → (⟨S_, .i32⟩ : BufTy).Contents (Elt F)) (RefRun.E m c (Proc.devRef .tc main_c_100)) :=
  end1 RefRun.hW6 (RefRun.V6 m c) (RefRun.E m c) RefRun.later6 (RefRun.T6 m c) 4 main_c_100 main_call18_v0 (id : (⟨S_, .i32⟩ : BufTy).Contents (Elt F) → (⟨S_, .i32⟩ : BufTy).Contents (Elt F)) _ _ rfl (nk (by decide +kernel)) (nk (by decide +kernel))

theorem rd_main_call18_v1 (m : (ℓ : Loc nD τ sig) → Buf (Elt F) ℓ) (c : Dev nD) :
    (RefRun.E m c (Proc.devRef .tc main_call18_v1)) = ((broadcastInDim S200000 ![] bcast_S_S200000) : (⟨S_, .i32⟩ : BufTy).Contents (Elt F) → (⟨S200000, .i32⟩ : BufTy).Contents (Elt F)) (RefRun.E m c (Proc.devRef .tc main_call18_v0)) :=
  end1 RefRun.hW6 (RefRun.V6 m c) (RefRun.E m c) RefRun.later6 (RefRun.T6 m c) 5 main_call18_v0 main_call18_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call18_v2 (m : (ℓ : Loc nD τ sig) → Buf (Elt F) ℓ) (c : Dev nD) :
    (RefRun.E m c (Proc.devRef .tc main_call18_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call18_v1)) (RefRun.E m c (Proc.devRef .tc main_v246)) :=
  end2 RefRun.hW6 (RefRun.V6 m c) (RefRun.E m c) RefRun.later6 (RefRun.T6 m c) 6 main_call18_v1 main_v246 main_call18_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call18_v3 (m : (ℓ : Loc nD τ sig) → Buf (Elt F) ℓ) (c : Dev nD) :
    (RefRun.E m c (Proc.devRef .tc main_call18_v3)) = (id : (⟨S_, .i32⟩ : BufTy).Contents (Elt F) → (⟨S_, .i32⟩ : BufTy).Contents (Elt F)) (RefRun.E m c (Proc.devRef .tc main_c_101)) :=
  end1 RefRun.hW6 (RefRun.V6 m c) (RefRun.E m c) RefRun.later6 (RefRun.T6 m c) 7 main_c_101 main_call18_v3 (id : (⟨S_, .i32⟩ : BufTy).Contents (Elt F) → (⟨S_, .i32⟩ : BufTy).Contents (Elt F)) _ _ rfl (nk (by decide +kernel)) (nk (by decide +kernel))

theorem rd_main_call18_v4 (m : (ℓ : Loc nD τ sig) → Buf (Elt F) ℓ) (c : Dev nD) :
    (RefRun.E m c (Proc.devRef .tc main_call18_v4)) = ((broadcastInDim S200000 ![] bcast_S_S200000) : (⟨S_, .i32⟩ : BufTy).Contents (Elt F) → (⟨S200000, .i32⟩ : BufTy).Contents (Elt F)) (RefRun.E m c (Proc.devRef .tc main_call18_v3)) :=
  end1 RefRun.hW6 (RefRun.V6 m c) (RefRun.E m c) RefRun.later6 (RefRun.T6 m c) 8 main_call18_v3 main_call18_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v260 (m : (ℓ : Loc nD τ sig) → Buf (Elt F) ℓ) (c : Dev nD) :
    (RefRun.E m c (Proc.devRef .tc main_v260)) = (minsi : (⟨S200000, .i32⟩ : BufTy).Contents (Elt F) → (⟨S200000, .i32⟩ : BufTy).Contents (Elt F) → (⟨S200000, .i32⟩ : BufTy).Contents (Elt F)) (RefRun.E m c (Proc.devRef .tc main_call18_v4)) (RefRun.E m c (Proc.devRef .tc main_call18_v2)) :=
  end2 RefRun.hW6 (RefRun.V6 m c) (RefRun.E m c) RefRun.later6 (RefRun.T6 m c) 9 main_call18_v4 main_call18_v2 main_v260 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_102 (m : (ℓ : Loc nD τ sig) → Buf (Elt F) ℓ) (c : Dev nD) :
    (RefRun.E m c (Proc.devRef .tc main_c_102)) = (constantI S_ 32 768#32) :=
  end0 RefRun.hW6 (RefRun.V6 m c) (RefRun.E m c) RefRun.later6 (RefRun.T6 m c) 10 main_c_102 (constantI S_ 32 768#32) _ rfl (nk (by decide +kernel))

theorem rd_main_v261 (m : (ℓ : Loc nD τ sig) → Buf (Elt F) ℓ) (c : Dev nD) :
    (RefRun.E m c (Proc.devRef .tc main_v261)) = (broadcastInDim S200000 ![] bcast_S_S200000 : (⟨S_, .i32⟩ : BufTy).Contents (Elt F) → (⟨S200000, .i32⟩ : BufTy).Contents (Elt F)) (RefRun.E m c (Proc.devRef .tc main_c_102)) :=
  end1 RefRun.hW6 (RefRun.V6 m c) (RefRun.E m c) RefRun.later6 (RefRun.T6 m c) 11 main_c_102 main_v261 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v262 (m : (ℓ : Loc nD τ sig) → Buf (Elt F) ℓ) (c : Dev nD) :
    (RefRun.E m c (Proc.devRef .tc main_v262)) = (muli : (⟨S200000, .i32⟩ : BufTy).Contents (Elt F) → (⟨S200000, .i32⟩ : BufTy).Contents (Elt F) → (⟨S200000, .i32⟩ : BufTy).Contents (Elt F)) (RefRun.E m c (Proc.devRef .tc main_v260)) (RefRun.E m c (Proc.devRef .tc main_v261)) :=
  end2 RefRun.hW6 (RefRun.V6 m c) (RefRun.E m c) RefRun.later6 (RefRun.T6 m c) 12 main_v260 main_v261 main_v262 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_103 (m : (ℓ : Loc nD τ sig) → Buf (Elt F) ℓ) (c : Dev nD) :
    (RefRun.E m c (Proc.devRef .tc main_c_103)) = (constantI S_ 32 0#32) :=
  end0 RefRun.hW6 (RefRun.V6 m c) (RefRun.E m c) RefRun.later6 (RefRun.T6 m c) 13 main_c_103 (constantI S_ 32 0#32) _ rfl (nk (by decide +kernel))

theorem rd_main_c_104 (m : (ℓ : Loc nD τ sig) → Buf (Elt F) ℓ) (c : Dev nD) :
    (RefRun.E m c (Proc.devRef .tc main_c_104)) = (constantI S_ 32 767#32) :=
  end0 RefRun.hW6 (RefRun.V6 m c) (RefRun.E m c) RefRun.later6 (RefRun.T6 m c) 14 main_c_104 (constantI S_ 32 767#32) _ rfl (nk (by decide +kernel))

theorem rd_main_call19_v0 (m : (ℓ : Loc nD τ sig) → Buf (Elt F) ℓ) (c : Dev nD) :
    (RefRun.E m c (Proc.devRef .tc main_call19_v0)) = (id : (⟨S_, .i32⟩ : BufTy).Contents (Elt F) → (⟨S_, .i32⟩ : BufTy).Contents (Elt F)) (RefRun.E m c (Proc.devRef .tc main_c_103)) :=
  end1 RefRun.hW6 (RefRun.V6 m c) (RefRun.E m c) RefRun.later6 (RefRun.T6 m c) 15 main_c_103 main_call19_v0 (id : (⟨S_, .i32⟩ : BufTy).Contents (Elt F) → (⟨S_, .i32⟩ : BufTy).Contents (Elt F)) _ _ rfl (nk (by decide +kernel)) (nk (by decide +kernel))

theorem rd_main_call19_v1 (m : (ℓ : Loc nD τ sig) → Buf (Elt F) ℓ) (c : Dev nD) :
    (RefRun.E m c (Proc.devRef .tc main_call19_v1)) = ((broadcastInDim S200000 ![] bcast_S_S200000) : (⟨S_, .i32⟩ : BufTy).Contents (Elt F) → (⟨S200000, .i32⟩ : BufTy).Contents (Elt F)) (RefRun.E m c (Proc.devRef .tc main_call19_v0)) :=
  end1 RefRun.hW6 (RefRun.V6 m c) (RefRun.E m c) RefRun.later6 (RefRun.T6 m c) 16 main_call19_v0 main_call19_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call19_v2 (m : (ℓ : Loc nD τ sig) → Buf (Elt F) ℓ) (c : Dev nD) :
    (RefRun.E m c (Proc.devRef .tc main_call19_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call19_v1)) (RefRun.E m c (Proc.devRef .tc main_v248)) :=
  end2 RefRun.hW6 (RefRun.V6 m c) (RefRun.E m c) RefRun.later6 (RefRun.T6 m c) 17 main_call19_v1 main_v248 main_call19_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call19_v3 (m : (ℓ : Loc nD τ sig) → Buf (Elt F) ℓ) (c : Dev nD) :
    (RefRun.E m c (Proc.devRef .tc main_call19_v3)) = (id : (⟨S_, .i32⟩ : BufTy).Contents (Elt F) → (⟨S_, .i32⟩ : BufTy).Contents (Elt F)) (RefRun.E m c (Proc.devRef .tc main_c_104)) :=
  end1 RefRun.hW6 (RefRun.V6 m c) (RefRun.E m c) RefRun.later6 (RefRun.T6 m c) 18 main_c_104 main_call19_v3 (id : (⟨S_, .i32⟩ : BufTy).Contents (Elt F) → (⟨S_, .i32⟩ : BufTy).Contents (Elt F)) _ _ rfl (nk (by decide +kernel)) (nk (by decide +kernel))

theorem rd_main_call19_v4 (m : (ℓ : Loc nD τ sig) → Buf (Elt F) ℓ) (c : Dev nD) :
    (RefRun.E m c (Proc.devRef .tc main_call19_v4)) = ((broadcastInDim S200000 ![] bcast_S_S200000) : (⟨S_, .i32⟩ : BufTy).Contents (Elt F) → (⟨S200000, .i32⟩ : BufTy).Contents (Elt F)) (RefRun.E m c (Proc.devRef .tc main_call19_v3)) :=
  end1 RefRun.hW6 (RefRun.V6 m c) (RefRun.E m c) RefRun.later6 (RefRun.T6 m c) 19 main_call19_v3 main_call19_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v263 (m : (ℓ : Loc nD τ sig) → Buf (Elt F) ℓ) (c : Dev nD) :
    (RefRun.E m c (Proc.devRef .tc main_v263)) = (minsi : (⟨S200000, .i32⟩ : BufTy).Contents (Elt F) → (⟨S200000, .i32⟩ : BufTy).Contents (Elt F) → (⟨S200000, .i32⟩ : BufTy).Contents (Elt F)) (RefRun.E m c (Proc.devRef .tc main_call19_v4)) (RefRun.E m c (Proc.devRef .tc main_call19_v2)) :=
  end2 RefRun.hW6 (RefRun.V6 m c) (RefRun.E m c) RefRun.later6 (RefRun.T6 m c) 20 main_call19_v4 main_call19_v2 main_v263 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v264 (m : (ℓ : Loc nD τ sig) → Buf (Elt F) ℓ) (c : Dev nD) :
    (RefRun.E m c (Proc.devRef .tc main_v264)) = (addi : (⟨S200000, .i32⟩ : BufTy).Contents (Elt F) → (⟨S200000, .i32⟩ : BufTy).Contents (Elt F) → (⟨S200000, .i32⟩ : BufTy).Contents (Elt F)) (RefRun.E m c (Proc.devRef .tc main_v262)) (RefRun.E m c (Proc.devRef .tc main_v263)) :=
  end2 RefRun.hW6 (RefRun.V6 m c) (RefRun.E m c) RefRun.later6 (RefRun.T6 m c) 21 main_v262 main_v263 main_v264 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_105 (m : (ℓ : Loc nD τ sig) → Buf (Elt F) ℓ) (c : Dev nD) :
    (RefRun.E m c (Proc.devRef .tc main_c_105)) = (constantI S_ 32 0#32) :=
  end0 RefRun.hW6 (RefRun.V6 m c) (RefRun.E m c) RefRun.later6 (RefRun.T6 m c) 22 main_c_105 (constantI S_ 32 0#32) _ rfl (nk (by decide +kernel))

theorem rd_main_v265 (m : (ℓ : Loc nD τ sig) → Buf (Elt F) ℓ) (c : Dev nD) :
    (RefRun.E m c (Proc.devRef .tc main_v265)) = (broadcastInDim S200000 ![] bcast_S_S200000 : (⟨S_, .i32⟩ : BufTy).Contents (Elt F) → (⟨S200000, .i32⟩ : BufTy).Contents (Elt F)) (RefRun.E m c (Proc.devRef .tc main_c_105)) :=
  end1 RefRun.hW6 (RefRun.V6 m c) (RefRun.E m c) RefRun.later6 (RefRun.T6 m c) 23 main_c_105 main_v265 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v266 (m : (ℓ : Loc nD τ sig) → Buf (Elt F) ℓ) (c : Dev nD) :
    (RefRun.E m c (Proc.devRef .tc main_v266)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v264)) (RefRun.E m c (Proc.devRef .tc main_v265)) :=
  end2 RefRun.hW6 (RefRun.V6 m c) (RefRun.E m c) RefRun.later6 (RefRun.T6 m c) 24 main_v264 main_v265 main_v266 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_106 (m : (ℓ : Loc nD τ sig) → Buf (Elt F) ℓ) (c : Dev nD) :
    (RefRun.E m c (Proc.devRef .tc main_c_106)) = (constantI S_ 32 589824#32) :=
  end0 RefRun.hW6 (RefRun.V6 m c) (RefRun.E m c) RefRun.later6 (RefRun.T6 m c) 25 main_c_106 (constantI S_ 32 589824#32) _ rfl (nk (by decide +kernel))

theorem rd_main_v267 (m : (ℓ : Loc nD τ sig) → Buf (Elt F) ℓ) (c : Dev nD) :
    (RefRun.E m c (Proc.devRef .tc main_v267)) = (broadcastInDim S200000 ![] bcast_S_S200000 : (⟨S_, .i32⟩ : BufTy).Contents (Elt F) → (⟨S200000, .i32⟩ : BufTy).Contents (Elt F)) (RefRun.E m c (Proc.devRef .tc main_c_106)) :=
  end1 RefRun.hW6 (RefRun.V6 m c) (RefRun.E m c) RefRun.later6 (RefRun.T6 m c) 26 main_c_106 main_v267 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v268 (m : (ℓ : Loc nD τ sig) → Buf (Elt F) ℓ) (c : Dev nD) :
    (RefRun.E m c (Proc.devRef .tc main_v268)) = (addi : (⟨S200000, .i32⟩ : BufTy).Contents (Elt F) → (⟨S200000, .i32⟩ : BufTy).Contents (Elt F) → (⟨S200000, .i32⟩ : BufTy).Contents (Elt F)) (RefRun.E m c (Proc.devRef .tc main_v264)) (RefRun.E m c (Proc.devRef .tc main_v267)) :=
  end2 RefRun.hW6 (RefRun.V6 m c) (RefRun.E m c) RefRun.later6 (RefRun.T6 m c) 27 main_v264 main_v267 main_v268 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v269 (m : (ℓ : Loc nD τ sig) → Buf (Elt F) ℓ) (c : Dev nD) :
    (RefRun.E m c (Proc.devRef .tc main_v269)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v266)) (RefRun.E m c (Proc.devRef .tc main_v268)) (RefRun.E m c (Proc.devRef .tc main_v264)) :=
  end3 RefRun.hW6 (RefRun.V6 m c) (RefRun.E m c) RefRun.later6 (RefRun.T6 m c) 28 main_v266 main_v268 main_v264 main_v269 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v270 (m : (ℓ : Loc nD τ sig) → Buf (Elt F) ℓ) (c : Dev nD) :
    (RefRun.E m c (Proc.devRef .tc main_v270)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v269)) :=
  end1 RefRun.hW6 (RefRun.V6 m c) (RefRun.E m c) RefRun.later6 (RefRun.T6 m c) 29 main_v269 main_v270 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v271 (m : (ℓ : Loc nD τ sig) → Buf (Elt F) ℓ) (c : Dev nD) :
    (RefRun.E m c (Proc.devRef .tc main_v271)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v270)) :=
  end2 RefRun.hW6 (RefRun.V6 m c) (RefRun.E m c) RefRun.later6 (RefRun.T6 m c) 30 main_v16 main_v270 main_v271 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_107 (m : (ℓ : Loc nD τ sig) → Buf (Elt F) ℓ) (c : Dev nD) :
    (RefRun.E m c (Proc.devRef .tc main_c_107)) = (constantI S_ 32 0#32) :=
  end0 RefRun.hW6 (RefRun.V6 m c) (RefRun.E m c) RefRun.later6 (RefRun.T6 m c) 31 main_c_107 (constantI S_ 32 0#32) _ rfl (nk (by decide +kernel))

theorem rd_main_v272 (m : (ℓ : Loc nD τ sig) → Buf (Elt F) ℓ) (c : Dev nD) :
    (RefRun.E m c (Proc.devRef .tc main_v272)) = (broadcastInDim S200000 ![] bcast_S_S200000 : (⟨S_, .i32⟩ : BufTy).Contents (Elt F) → (⟨S200000, .i32⟩ : BufTy).Contents (Elt F)) (RefRun.E m c (Proc.devRef .tc main_c_107)) :=
  end1 RefRun.hW6 (RefRun.V6 m c) (RefRun.E m c) RefRun.later6 (RefRun.T6 m c) 32 main_c_107 main_v272 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v273 (m : (ℓ : Loc nD τ sig) → Buf (Elt F) ℓ) (c : Dev nD) :
    (RefRun.E m c (Proc.devRef .tc main_v273)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v271)) (RefRun.E m c (Proc.devRef .tc main_v272)) :=
  end2 RefRun.hW6 (RefRun.V6 m c) (RefRun.E m c) RefRun.later6 (RefRun.T6 m c) 33 main_v271 main_v272 main_v273 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v274 (m : (ℓ : Loc nD τ sig) → Buf (Elt F) ℓ) (c : Dev nD) :
    (RefRun.E m c (Proc.devRef .tc main_v274)) = (andi : (⟨S200000, .i1⟩ : BufTy).Contents (Elt F) → (⟨S200000, .i1⟩ : BufTy).Contents (Elt F) → (⟨S200000, .i1⟩ : BufTy).Contents (Elt F)) (RefRun.E m c (Proc.devRef .tc main_v259)) (RefRun.E m c (Proc.devRef .tc main_v273)) :=
  end2 RefRun.hW6 (RefRun.V6 m c) (RefRun.E m c) RefRun.later6 (RefRun.T6 m c) 34 main_v259 main_v273 main_v274 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v275 (m : (ℓ : Loc nD τ sig) → Buf (Elt F) ℓ) (c : Dev nD) :
    (RefRun.E m c (Proc.devRef .tc main_v275)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v274)) :=
  end1 RefRun.hW6 (RefRun.V6 m c) (RefRun.E m c) RefRun.later6 (RefRun.T6 m c) 35 main_v274 main_v275 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_108 (m : (ℓ : Loc nD τ sig) → Buf (Elt F) ℓ) (c : Dev nD) :
    (RefRun.E m c (Proc.devRef .tc main_c_108)) = (constantI S_ 32 0#32) :=
  end0 RefRun.hW6 (RefRun.V6 m c) (RefRun.E m c) RefRun.later6 (RefRun.T6 m c) 36 main_c_108 (constantI S_ 32 0#32) _ rfl (nk (by decide +kernel))

theorem rd_main_v276 (m : (ℓ : Loc nD τ sig) → Buf (Elt F) ℓ) (c : Dev nD) :
    (RefRun.E m c (Proc.devRef .tc main_v276)) = (broadcastInDim S200000 ![] bcast_S_S200000 : (⟨S_, .i32⟩ : BufTy).Contents (Elt F) → (⟨S200000, .i32⟩ : BufTy).Contents (Elt F)) (RefRun.E m c (Proc.devRef .tc main_c_108)) :=
  end1 RefRun.hW6 (RefRun.V6 m c) (RefRun.E m c) RefRun.later6 (RefRun.T6 m c) 37 main_c_108 main_v276 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v277 (m : (ℓ : Loc nD τ sig) → Buf (Elt F) ℓ) (c : Dev nD) :
    (RefRun.E m c (Proc.devRef .tc main_v277)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v271)) (RefRun.E m c (Proc.devRef .tc main_v276)) :=
  end2 RefRun.hW6 (RefRun.V6 m c) (RefRun.E m c) RefRun.later6 (RefRun.T6 m c) 38 main_v271 main_v276 main_v277 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_109 (m : (ℓ : Loc nD τ sig) → Buf (Elt F) ℓ) (c : Dev nD) :
    (RefRun.E m c (Proc.devRef .tc main_c_109)) = (constantI S_ 32 0#32) :=
  end0 RefRun.hW6 (RefRun.V6 m c) (RefRun.E m c) RefRun.later6 (RefRun.T6 m c) 39 main_c_109 (constantI S_ 32 0#32) _ rfl (nk (by decide +kernel))

theorem rd_main_v278 (m : (ℓ : Loc nD τ sig) → Buf (Elt F) ℓ) (c : Dev nD) :
    (RefRun.E m c (Proc.devRef .tc main_v278)) = (broadcastInDim S200000 ![] bcast_S_S200000 : (⟨S_, .i32⟩ : BufTy).Contents (Elt F) → (⟨S200000, .i32⟩ : BufTy).Contents (Elt F)) (RefRun.E m c (Proc.devRef .tc main_c_109)) :=
  end1 RefRun.hW6 (RefRun.V6 m c) (RefRun.E m c) RefRun.later6 (RefRun.T6 m c) 40 main_c_109 main_v278 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v279 (m : (ℓ : Loc nD τ sig) → Buf (Elt F) ℓ) (c : Dev nD) :
    (RefRun.E m c (Proc.devRef .tc main_v279)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v277)) (RefRun.E m c (Proc.devRef .tc main_v278)) :=
  end2 RefRun.hW6 (RefRun.V6 m c) (RefRun.E m c) RefRun.later6 (RefRun.T6 m c) 41 main_v277 main_v278 main_v279 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_110 (m : (ℓ : Loc nD τ sig) → Buf (Elt F) ℓ) (c : Dev nD) :
    (RefRun.E m c (Proc.devRef .tc main_c_110)) = (constantI S_ 32 200000#32) :=
  end0 RefRun.hW6 (RefRun.V6 m c) (RefRun.E m c) RefRun.later6 (RefRun.T6 m c) 42 main_c_110 (constantI S_ 32 200000#32) _ rfl (nk (by decide +kernel))

theorem rd_main_v280 (m : (ℓ : Loc nD τ sig) → Buf (Elt F) ℓ) (c : Dev nD) :
    (RefRun.E m c (Proc.devRef .tc main_v280)) = (broadcastInDim S200000 ![] bcast_S_S200000 : (⟨S_, .i32⟩ : BufTy).Contents (Elt F) → (⟨S200000, .i32⟩ : BufTy).Contents (Elt F)) (RefRun.E m c (Proc.devRef .tc main_c_110)) :=
  end1 RefRun.hW6 (RefRun.V6 m c) (RefRun.E m c) RefRun.later6 (RefRun.T6 m c) 43 main_c_110 main_v280 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v281 (m : (ℓ : Loc nD τ sig) → Buf (Elt F) ℓ) (c : Dev nD) :
    (RefRun.E m c (Proc.devRef .tc main_v281)) = (addi : (⟨S200000, .i32⟩ : BufTy).Contents (Elt F) → (⟨S200000, .i32⟩ : BufTy).Contents (Elt F) → (⟨S200000, .i32⟩ : BufTy).Contents (Elt F)) (RefRun.E m c (Proc.devRef .tc main_v277)) (RefRun.E m c (Proc.devRef .tc main_v280)) :=
  end2 RefRun.hW6 (RefRun.V6 m c) (RefRun.E m c) RefRun.later6 (RefRun.T6 m c) 44 main_v277 main_v280 main_v281 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v282 (m : (ℓ : Loc nD τ sig) → Buf (Elt F) ℓ) (c : Dev nD) :
    (RefRun.E m c (Proc.devRef .tc main_v282)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v279)) (RefRun.E m c (Proc.devRef .tc main_v281)) (RefRun.E m c (Proc.devRef .tc main_v277)) :=
  end3 RefRun.hW6 (RefRun.V6 m c) (RefRun.E m c) RefRun.later6 (RefRun.T6 m c) 45 main_v279 main_v281 main_v277 main_v282 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v283 (m : (ℓ : Loc nD τ sig) → Buf (Elt F) ℓ) (c : Dev nD) :
    (RefRun.E m c (Proc.devRef .tc main_v283)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v282)) :=
  end1 RefRun.hW6 (RefRun.V6 m c) (RefRun.E m c) RefRun.later6 (RefRun.T6 m c) 46 main_v282 main_v283 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v284 (m : (ℓ : Loc nD τ sig) → Buf (Elt F) ℓ) (c : Dev nD) :
    (RefRun.E m c (Proc.devRef .tc main_v284)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v283)) :=
  end2 RefRun.hW6 (RefRun.V6 m c) (RefRun.E m c) RefRun.later6 (RefRun.T6 m c) 47 main_v7 main_v283 main_v284 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_111 (m : (ℓ : Loc nD τ sig) → Buf (Elt F) ℓ) (c : Dev nD) :
    (RefRun.E m c (Proc.devRef .tc main_cst_111)) = (constant S_ .f32 0x00000000#32) :=
  end0 RefRun.hW6 (RefRun.V6 m c) (RefRun.E m c) RefRun.later6 (RefRun.T6 m c) 48 main_cst_111 (constant S_ .f32 0x00000000#32) _ rfl (nk (by decide +kernel))

theorem rd_main_call20_v0 (m : (ℓ : Loc nD τ sig) → Buf (Elt F) ℓ) (c : Dev nD) :
    (RefRun.E m c (Proc.devRef .tc main_call20_v0)) = (id : (⟨S_, .f32⟩ : BufTy).Contents (Elt F) → (⟨S_, .f32⟩ : BufTy).Contents (Elt F)) (RefRun.E m c (Proc.devRef .tc main_cst_111)) :=
  end1 RefRun.hW6 (RefRun.V6 m c) (RefRun.E m c) RefRun.later6 (RefRun.T6 m c) 49 main_cst_111 main_call20_v0 (id : (⟨S_, .f32⟩ : BufTy).Contents (Elt F) → (⟨S_, .f32⟩ : BufTy).Contents (Elt F)) _ _ rfl (nk (by decide +kernel)) (nk (by decide +kernel))

theorem rd_main_call20_v1 (m : (ℓ : Loc nD τ sig) → Buf (Elt F) ℓ) (c : Dev nD) :
    (RefRun.E m c (Proc.devRef .tc main_call20_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v275)) :=
  end1 RefRun.hW6 (RefRun.V6 m c) (RefRun.E m c) RefRun.later6 (RefRun.T6 m c) 50 main_v275 main_call20_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call20_v2 (m : (ℓ : Loc nD τ sig) → Buf (Elt F) ℓ) (c : Dev nD) :
    (RefRun.E m c (Proc.devRef .tc main_call20_v2)) = ((broadcastInDim S200000x64 ![] bcast_S_S200000x64) : (⟨S_, .f32⟩ : BufTy).Contents (Elt F) → (⟨S200000x64, .f32⟩ : BufTy).Contents (Elt F)) (RefRun.E m c (Proc.devRef .tc main_call20_v0)) :=
  end1 RefRun.hW6 (RefRun.V6 m c) (RefRun.E m c) RefRun.later6 (RefRun.T6 m c) 51 main_call20_v0 main_call20_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v285 (m : (ℓ : Loc nD τ sig) → Buf (Elt F) ℓ) (c : Dev nD) :
    (RefRun.E m c (Proc.devRef .tc main_v285)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call20_v1)) (RefRun.E m c (Proc.devRef .tc main_v284)) (RefRun.E m c (Proc.devRef .tc main_call20_v2)) :=
  end3 RefRun.hW6 (RefRun.V6 m c) (RefRun.E m c) RefRun.later6 (RefRun.T6 m c) 52 main_call20_v1 main_v284 main_call20_v2 main_v285 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v286 (m : (ℓ : Loc nD τ sig) → Buf (Elt F) ℓ) (c : Dev nD) :
    (RefRun.E m c (Proc.devRef .tc main_v286)) = ((extractStridedSlice S1x64x64 ![5, 0, 0] · slices_S9x64x64_S1x64x64_5_0_0) : (⟨S9x64x64, .f32⟩ : BufTy).Contents (Elt F) → (⟨S1x64x64, .f32⟩ : BufTy).Contents (Elt F)) (RefRun.E m c (Proc.devRef .tc main_arg3)) :=
  end1 RefRun.hW6 (RefRun.V6 m c) (RefRun.E m c) RefRun.later6 (RefRun.T6 m c) 53 main_arg3 main_v286 ((extractStridedSlice S1x64x64 ![5, 0, 0] · slices_S9x64x64_S1x64x64_5_0_0) : (⟨S9x64x64, .f32⟩ : BufTy).Contents (Elt F) → (⟨S1x64x64, .f32⟩ : BufTy).Contents (Elt F)) _ _ rfl (nk (by decide +kernel)) (nk (by decide +kernel))

theorem rd_main_v287 (m : (ℓ : Loc nD τ sig) → Buf (Elt F) ℓ) (c : Dev nD) :
    (RefRun.E m c (Proc.devRef .tc main_v287)) = RefRun.reshaped main_v286 main_v287 rfl shapeCasts_S1x64x64_S64x64 (RefRun.E m c) :=
  endReshape RefRun.hW6 (RefRun.V6 m c) (RefRun.E m c) RefRun.later6 (RefRun.T6 m c) 54 main_v286 main_v287 rfl shapeCasts_S1x64x64_S64x64 _ _ rfl (nk (by decide +kernel)) (nk (by decide +kernel))

theorem rd_main_v288 (m : (ℓ : Loc nD τ sig) → Buf (Elt F) ℓ) (c : Dev nD) :
    (RefRun.E m c (Proc.devRef .tc main_v288)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v285)) (RefRun.E m c (Proc.devRef .tc main_v287)) :=
  end2 RefRun.hW6 (RefRun.V6 m c) (RefRun.E m c) RefRun.later6 (RefRun.T6 m c) 55 main_v285 main_v287 main_v288 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v289 (m : (ℓ : Loc nD τ sig) → Buf (Elt F) ℓ) (c : Dev nD) :
    (RefRun.E m c (Proc.devRef .tc main_v289)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v244)) (RefRun.E m c (Proc.devRef .tc main_v288)) :=
  end2 RefRun.hW6 (RefRun.V6 m c) (RefRun.E m c) RefRun.later6 (RefRun.T6 m c) 56 main_v244 main_v288 main_v289 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_112 (m : (ℓ : Loc nD τ sig) → Buf (Elt F) ℓ) (c : Dev nD) :
    (RefRun.E m c (Proc.devRef .tc main_c_112)) = (constantI S_ 32 1#32) :=
  end0 RefRun.hW6 (RefRun.V6 m c) (RefRun.E m c) RefRun.later6 (RefRun.T6 m c) 57 main_c_112 (constantI S_ 32 1#32) _ rfl (nk (by decide +kernel))

theorem rd_main_v290 (m : (ℓ : Loc nD τ sig) → Buf (Elt F) ℓ) (c : Dev nD) :
    (RefRun.E m c (Proc.devRef .tc main_v290)) = (broadcastInDim S200000 ![] bcast_S_S200000 : (⟨S_, .i32⟩ : BufTy).Contents (Elt F) → (⟨S200000, .i32⟩ : BufTy).Contents (Elt F)) (RefRun.E m c (Proc.devRef .tc main_c_112)) :=
  end1 RefRun.hW6 (RefRun.V6 m c) (RefRun.E m c) RefRun.later6 (RefRun.T6 m c) 58 main_c_112 main_v290 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v291 (m : (ℓ : Loc nD τ sig) → Buf (Elt F) ℓ) (c : Dev nD) :
    (RefRun.E m c (Proc.devRef .tc main_v291)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v290)) :=
  end2 RefRun.hW6 (RefRun.V6 m c) (RefRun.E m c) RefRun.later6 (RefRun.T6 m c) 59 main_v17 main_v290 main_v291 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_113 (m : (ℓ : Loc nD τ sig) → Buf (Elt F) ℓ) (c : Dev nD) :
    (RefRun.E m c (Proc.devRef .tc main_c_113)) = (constantI S_ 32 4294967295#32) :=
  end0 RefRun.hW6 (RefRun.V6 m c) (RefRun.E m c) RefRun.later6 (RefRun.T6 m c) 60 main_c_113 (constantI S_ 32 4294967295#32) _ rfl (nk (by decide +kernel))

theorem rd_main_v292 (m : (ℓ : Loc nD τ sig) → Buf (Elt F) ℓ) (c : Dev nD) :
    (RefRun.E m c (Proc.devRef .tc main_v292)) = (broadcastInDim S200000 ![] bcast_S_S200000 : (⟨S_, .i32⟩ : BufTy).Contents (Elt F) → (⟨S200000, .i32⟩ : BufTy).Contents (Elt F)) (RefRun.E m c (Proc.devRef .tc main_c_113)) :=
  end1 RefRun.hW6 (RefRun.V6 m c) (RefRun.E m c) RefRun.later6 (RefRun.T6 m c) 61 main_c_113 main_v292 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v293 (m : (ℓ : Loc nD τ sig) → Buf (Elt F) ℓ) (c : Dev nD) :
    (RefRun.E m c (Proc.devRef .tc main_v293)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v292)) :=
  end2 RefRun.hW6 (RefRun.V6 m c) (RefRun.E m c) RefRun.later6 (RefRun.T6 m c) 62 main_v18 main_v292 main_v293 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_114 (m : (ℓ : Loc nD τ sig) → Buf (Elt F) ℓ) (c : Dev nD) :
    (RefRun.E m c (Proc.devRef .tc main_c_114)) = (constantI S_ 32 0#32) :=
  end0 RefRun.hW6 (RefRun.V6 m c) (RefRun.E m c) RefRun.later6 (RefRun.T6 m c) 63 main_c_114 (constantI S_ 32 0#32) _ rfl (nk (by decide +kernel))

theorem rd_main_v294 (m : (ℓ : Loc nD τ sig) → Buf (Elt F) ℓ) (c : Dev nD) :
    (RefRun.E m c (Proc.devRef .tc main_v294)) = (broadcastInDim S200000 ![] bcast_S_S200000 : (⟨S_, .i32⟩ : BufTy).Contents (Elt F) → (⟨S200000, .i32⟩ : BufTy).Contents (Elt F)) (RefRun.E m c (Proc.devRef .tc main_c_114)) :=
  end1 RefRun.hW6 (RefRun.V6 m c) (RefRun.E m c) RefRun.later6 (RefRun.T6 m c) 64 main_c_114 main_v294 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v295 (m : (ℓ : Loc nD τ sig) → Buf (Elt F) ℓ) (c : Dev nD) :
    (RefRun.E m c (Proc.devRef .tc main_v295)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v291)) (RefRun.E m c (Proc.devRef .tc main_v294)) :=
  end2 RefRun.hW6 (RefRun.V6 m c) (RefRun.E m c) RefRun.later6 (RefRun.T6 m c) 65 main_v291 main_v294 main_v295 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_115 (m : (ℓ : Loc nD τ sig) → Buf (Elt F) ℓ) (c : Dev nD) :
    (RefRun.E m c (Proc.devRef .tc main_c_115)) = (constantI S_ 32 768#32) :=
  end0 RefRun.hW6 (RefRun.V6 m c) (RefRun.E m c) RefRun.later6 (RefRun.T6 m c) 66 main_c_115 (constantI S_ 32 768#32) _ rfl (nk (by decide +kernel))

theorem rd_main_v296 (m : (ℓ : Loc nD τ sig) → Buf (Elt F) ℓ) (c : Dev nD) :
    (RefRun.E m c (Proc.devRef .tc main_v296)) = (broadcastInDim S200000 ![] bcast_S_S200000 : (⟨S_, .i32⟩ : BufTy).Contents (Elt F) → (⟨S200000, .i32⟩ : BufTy).Contents (Elt F)) (RefRun.E m c (Proc.devRef .tc main_c_115)) :=
  end1 RefRun.hW6 (RefRun.V6 m c) (RefRun.E m c) RefRun.later6 (RefRun.T6 m c) 67 main_c_115 main_v296 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v297 (m : (ℓ : Loc nD τ sig) → Buf (Elt F) ℓ) (c : Dev nD) :
    (RefRun.E m c (Proc.devRef .tc main_v297)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v291)) (RefRun.E m c (Proc.devRef .tc main_v296)) :=
  end2 RefRun.hW6 (RefRun.V6 m c) (RefRun.E m c) RefRun.later6 (RefRun.T6 m c) 68 main_v291 main_v296 main_v297 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v298 (m : (ℓ : Loc nD τ sig) → Buf (Elt F) ℓ) (c : Dev nD) :
    (RefRun.E m c (Proc.devRef .tc main_v298)) = (andi : (⟨S200000, .i1⟩ : BufTy).Contents (Elt F) → (⟨S200000, .i1⟩ : BufTy).Contents (Elt F) → (⟨S200000, .i1⟩ : BufTy).Contents (Elt F)) (RefRun.E m c (Proc.devRef .tc main_v295)) (RefRun.E m c (Proc.devRef .tc main_v297)) :=
  end2 RefRun.hW6 (RefRun.V6 m c) (RefRun.E m c) RefRun.later6 (RefRun.T6 m c) 69 main_v295 main_v297 main_v298 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_116 (m : (ℓ : Loc nD τ sig) → Buf (Elt F) ℓ) (c : Dev nD) :
    (RefRun.E m c (Proc.devRef .tc main_c_116)) = (constantI S_ 32 0#32) :=
  end0 RefRun.hW6 (RefRun.V6 m c) (RefRun.E m c) RefRun.later6 (RefRun.T6 m c) 70 main_c_116 (constantI S_ 32 0#32) _ rfl (nk (by decide +kernel))

theorem rd_main_v299 (m : (ℓ : Loc nD τ sig) → Buf (Elt F) ℓ) (c : Dev nD) :
    (RefRun.E m c (Proc.devRef .tc main_v299)) = (broadcastInDim S200000 ![] bcast_S_S200000 : (⟨S_, .i32⟩ : BufTy).Contents (Elt F) → (⟨S200000, .i32⟩ : BufTy).Contents (Elt F)) (RefRun.E m c (Proc.devRef .tc main_c_116)) :=
  end1 RefRun.hW6 (RefRun.V6 m c) (RefRun.E m c) RefRun.later6 (RefRun.T6 m c) 71 main_c_116 main_v299 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v300 (m : (ℓ : Loc nD τ sig) → Buf (Elt F) ℓ) (c : Dev nD) :
    (RefRun.E m c (Proc.devRef .tc main_v300)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v293)) (RefRun.E m c (Proc.devRef .tc main_v299)) :=
  end2 RefRun.hW6 (RefRun.V6 m c) (RefRun.E m c) RefRun.later6 (RefRun.T6 m c) 72 main_v293 main_v299 main_v300 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

end Cert.ReferenceIdeal.RefRead

end
-- ==== Proof.RefRead7.lean ====
/- Window 7 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v301 (m : (ℓ : Loc nD τ sig) → Buf (Elt F) ℓ) (c : Dev nD) :
    (RefRun.E m c (Proc.devRef .tc main_v301)) = (andi : (⟨S200000, .i1⟩ : BufTy).Contents (Elt F) → (⟨S200000, .i1⟩ : BufTy).Contents (Elt F) → (⟨S200000, .i1⟩ : BufTy).Contents (Elt F)) (RefRun.E m c (Proc.devRef .tc main_v298)) (RefRun.E m c (Proc.devRef .tc main_v300)) :=
  end2 RefRun.hW7 (RefRun.V7 m c) (RefRun.E m c) RefRun.later7 (RefRun.T7 m c) 0 main_v298 main_v300 main_v301 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_117 (m : (ℓ : Loc nD τ sig) → Buf (Elt F) ℓ) (c : Dev nD) :
    (RefRun.E m c (Proc.devRef .tc main_c_117)) = (constantI S_ 32 768#32) :=
  end0 RefRun.hW7 (RefRun.V7 m c) (RefRun.E m c) RefRun.later7 (RefRun.T7 m c) 1 main_c_117 (constantI S_ 32 768#32) _ rfl (nk (by decide +kernel))

theorem rd_main_v302 (m : (ℓ : Loc nD τ sig) → Buf (Elt F) ℓ) (c : Dev nD) :
    (RefRun.E m c (Proc.devRef .tc main_v302)) = (broadcastInDim S200000 ![] bcast_S_S200000 : (⟨S_, .i32⟩ : BufTy).Contents (Elt F) → (⟨S200000, .i32⟩ : BufTy).Contents (Elt F)) (RefRun.E m c (Proc.devRef .tc main_c_117)) :=
  end1 RefRun.hW7 (RefRun.V7 m c) (RefRun.E m c) RefRun.later7 (RefRun.T7 m c) 2 main_c_117 main_v302 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v303 (m : (ℓ : Loc nD τ sig) → Buf (Elt F) ℓ) (c : Dev nD) :
    (RefRun.E m c (Proc.devRef .tc main_v303)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v293)) (RefRun.E m c (Proc.devRef .tc main_v302)) :=
  end2 RefRun.hW7 (RefRun.V7 m c) (RefRun.E m c) RefRun.later7 (RefRun.T7 m c) 3 main_v293 main_v302 main_v303 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v304 (m : (ℓ : Loc nD τ sig) → Buf (Elt F) ℓ) (c : Dev nD) :
    (RefRun.E m c (Proc.devRef .tc main_v304)) = (andi : (⟨S200000, .i1⟩ : BufTy).Contents (Elt F) → (⟨S200000, .i1⟩ : BufTy).Contents (Elt F) → (⟨S200000, .i1⟩ : BufTy).Contents (Elt F)) (RefRun.E m c (Proc.devRef .tc main_v301)) (RefRun.E m c (Proc.devRef .tc main_v303)) :=
  end2 RefRun.hW7 (RefRun.V7 m c) (RefRun.E m c) RefRun.later7 (RefRun.T7 m c) 4 main_v301 main_v303 main_v304 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_118 (m : (ℓ : Loc nD τ sig) → Buf (Elt F) ℓ) (c : Dev nD) :
    (RefRun.E m c (Proc.devRef .tc main_c_118)) = (constantI S_ 32 0#32) :=
  end0 RefRun.hW7 (RefRun.V7 m c) (RefRun.E m c) RefRun.later7 (RefRun.T7 m c) 5 main_c_118 (constantI S_ 32 0#32) _ rfl (nk (by decide +kernel))

theorem rd_main_c_119 (m : (ℓ : Loc nD τ sig) → Buf (Elt F) ℓ) (c : Dev nD) :
    (RefRun.E m c (Proc.devRef .tc main_c_119)) = (constantI S_ 32 767#32) :=
  end0 RefRun.hW7 (RefRun.V7 m c) (RefRun.E m c) RefRun.later7 (RefRun.T7 m c) 6 main_c_119 (constantI S_ 32 767#32) _ rfl (nk (by decide +kernel))

theorem rd_main_call21_v0 (m : (ℓ : Loc nD τ sig) → Buf (Elt F) ℓ) (c : Dev nD) :
    (RefRun.E m c (Proc.devRef .tc main_call21_v0)) = (id : (⟨S_, .i32⟩ : BufTy).Contents (Elt F) → (⟨S_, .i32⟩ : BufTy).Contents (Elt F)) (RefRun.E m c (Proc.devRef .tc main_c_118)) :=
  end1 RefRun.hW7 (RefRun.V7 m c) (RefRun.E m c) RefRun.later7 (RefRun.T7 m c) 7 main_c_118 main_call21_v0 (id : (⟨S_, .i32⟩ : BufTy).Contents (Elt F) → (⟨S_, .i32⟩ : BufTy).Contents (Elt F)) _ _ rfl (nk (by decide +kernel)) (nk (by decide +kernel))

theorem rd_main_call21_v1 (m : (ℓ : Loc nD τ sig) → Buf (Elt F) ℓ) (c : Dev nD) :
    (RefRun.E m c (Proc.devRef .tc main_call21_v1)) = ((broadcastInDim S200000 ![] bcast_S_S200000) : (⟨S_, .i32⟩ : BufTy).Contents (Elt F) → (⟨S200000, .i32⟩ : BufTy).Contents (Elt F)) (RefRun.E m c (Proc.devRef .tc main_call21_v0)) :=
  end1 RefRun.hW7 (RefRun.V7 m c) (RefRun.E m c) RefRun.later7 (RefRun.T7 m c) 8 main_call21_v0 main_call21_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call21_v2 (m : (ℓ : Loc nD τ sig) → Buf (Elt F) ℓ) (c : Dev nD) :
    (RefRun.E m c (Proc.devRef .tc main_call21_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call21_v1)) (RefRun.E m c (Proc.devRef .tc main_v291)) :=
  end2 RefRun.hW7 (RefRun.V7 m c) (RefRun.E m c) RefRun.later7 (RefRun.T7 m c) 9 main_call21_v1 main_v291 main_call21_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call21_v3 (m : (ℓ : Loc nD τ sig) → Buf (Elt F) ℓ) (c : Dev nD) :
    (RefRun.E m c (Proc.devRef .tc main_call21_v3)) = (id : (⟨S_, .i32⟩ : BufTy).Contents (Elt F) → (⟨S_, .i32⟩ : BufTy).Contents (Elt F)) (RefRun.E m c (Proc.devRef .tc main_c_119)) :=
  end1 RefRun.hW7 (RefRun.V7 m c) (RefRun.E m c) RefRun.later7 (RefRun.T7 m c) 10 main_c_119 main_call21_v3 (id : (⟨S_, .i32⟩ : BufTy).Contents (Elt F) → (⟨S_, .i32⟩ : BufTy).Contents (Elt F)) _ _ rfl (nk (by decide +kernel)) (nk (by decide +kernel))

theorem rd_main_call21_v4 (m : (ℓ : Loc nD τ sig) → Buf (Elt F) ℓ) (c : Dev nD) :
    (RefRun.E m c (Proc.devRef .tc main_call21_v4)) = ((broadcastInDim S200000 ![] bcast_S_S200000) : (⟨S_, .i32⟩ : BufTy).Contents (Elt F) → (⟨S200000, .i32⟩ : BufTy).Contents (Elt F)) (RefRun.E m c (Proc.devRef .tc main_call21_v3)) :=
  end1 RefRun.hW7 (RefRun.V7 m c) (RefRun.E m c) RefRun.later7 (RefRun.T7 m c) 11 main_call21_v3 main_call21_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v305 (m : (ℓ : Loc nD τ sig) → Buf (Elt F) ℓ) (c : Dev nD) :
    (RefRun.E m c (Proc.devRef .tc main_v305)) = (minsi : (⟨S200000, .i32⟩ : BufTy).Contents (Elt F) → (⟨S200000, .i32⟩ : BufTy).Contents (Elt F) → (⟨S200000, .i32⟩ : BufTy).Contents (Elt F)) (RefRun.E m c (Proc.devRef .tc main_call21_v4)) (RefRun.E m c (Proc.devRef .tc main_call21_v2)) :=
  end2 RefRun.hW7 (RefRun.V7 m c) (RefRun.E m c) RefRun.later7 (RefRun.T7 m c) 12 main_call21_v4 main_call21_v2 main_v305 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_120 (m : (ℓ : Loc nD τ sig) → Buf (Elt F) ℓ) (c : Dev nD) :
    (RefRun.E m c (Proc.devRef .tc main_c_120)) = (constantI S_ 32 768#32) :=
  end0 RefRun.hW7 (RefRun.V7 m c) (RefRun.E m c) RefRun.later7 (RefRun.T7 m c) 13 main_c_120 (constantI S_ 32 768#32) _ rfl (nk (by decide +kernel))

theorem rd_main_v306 (m : (ℓ : Loc nD τ sig) → Buf (Elt F) ℓ) (c : Dev nD) :
    (RefRun.E m c (Proc.devRef .tc main_v306)) = (broadcastInDim S200000 ![] bcast_S_S200000 : (⟨S_, .i32⟩ : BufTy).Contents (Elt F) → (⟨S200000, .i32⟩ : BufTy).Contents (Elt F)) (RefRun.E m c (Proc.devRef .tc main_c_120)) :=
  end1 RefRun.hW7 (RefRun.V7 m c) (RefRun.E m c) RefRun.later7 (RefRun.T7 m c) 14 main_c_120 main_v306 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v307 (m : (ℓ : Loc nD τ sig) → Buf (Elt F) ℓ) (c : Dev nD) :
    (RefRun.E m c (Proc.devRef .tc main_v307)) = (muli : (⟨S200000, .i32⟩ : BufTy).Contents (Elt F) → (⟨S200000, .i32⟩ : BufTy).Contents (Elt F) → (⟨S200000, .i32⟩ : BufTy).Contents (Elt F)) (RefRun.E m c (Proc.devRef .tc main_v305)) (RefRun.E m c (Proc.devRef .tc main_v306)) :=
  end2 RefRun.hW7 (RefRun.V7 m c) (RefRun.E m c) RefRun.later7 (RefRun.T7 m c) 15 main_v305 main_v306 main_v307 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_121 (m : (ℓ : Loc nD τ sig) → Buf (Elt F) ℓ) (c : Dev nD) :
    (RefRun.E m c (Proc.devRef .tc main_c_121)) = (constantI S_ 32 0#32) :=
  end0 RefRun.hW7 (RefRun.V7 m c) (RefRun.E m c) RefRun.later7 (RefRun.T7 m c) 16 main_c_121 (constantI S_ 32 0#32) _ rfl (nk (by decide +kernel))

theorem rd_main_c_122 (m : (ℓ : Loc nD τ sig) → Buf (Elt F) ℓ) (c : Dev nD) :
    (RefRun.E m c (Proc.devRef .tc main_c_122)) = (constantI S_ 32 767#32) :=
  end0 RefRun.hW7 (RefRun.V7 m c) (RefRun.E m c) RefRun.later7 (RefRun.T7 m c) 17 main_c_122 (constantI S_ 32 767#32) _ rfl (nk (by decide +kernel))

theorem rd_main_call22_v0 (m : (ℓ : Loc nD τ sig) → Buf (Elt F) ℓ) (c : Dev nD) :
    (RefRun.E m c (Proc.devRef .tc main_call22_v0)) = (id : (⟨S_, .i32⟩ : BufTy).Contents (Elt F) → (⟨S_, .i32⟩ : BufTy).Contents (Elt F)) (RefRun.E m c (Proc.devRef .tc main_c_121)) :=
  end1 RefRun.hW7 (RefRun.V7 m c) (RefRun.E m c) RefRun.later7 (RefRun.T7 m c) 18 main_c_121 main_call22_v0 (id : (⟨S_, .i32⟩ : BufTy).Contents (Elt F) → (⟨S_, .i32⟩ : BufTy).Contents (Elt F)) _ _ rfl (nk (by decide +kernel)) (nk (by decide +kernel))

theorem rd_main_call22_v1 (m : (ℓ : Loc nD τ sig) → Buf (Elt F) ℓ) (c : Dev nD) :
    (RefRun.E m c (Proc.devRef .tc main_call22_v1)) = ((broadcastInDim S200000 ![] bcast_S_S200000) : (⟨S_, .i32⟩ : BufTy).Contents (Elt F) → (⟨S200000, .i32⟩ : BufTy).Contents (Elt F)) (RefRun.E m c (Proc.devRef .tc main_call22_v0)) :=
  end1 RefRun.hW7 (RefRun.V7 m c) (RefRun.E m c) RefRun.later7 (RefRun.T7 m c) 19 main_call22_v0 main_call22_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call22_v2 (m : (ℓ : Loc nD τ sig) → Buf (Elt F) ℓ) (c : Dev nD) :
    (RefRun.E m c (Proc.devRef .tc main_call22_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call22_v1)) (RefRun.E m c (Proc.devRef .tc main_v293)) :=
  end2 RefRun.hW7 (RefRun.V7 m c) (RefRun.E m c) RefRun.later7 (RefRun.T7 m c) 20 main_call22_v1 main_v293 main_call22_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call22_v3 (m : (ℓ : Loc nD τ sig) → Buf (Elt F) ℓ) (c : Dev nD) :
    (RefRun.E m c (Proc.devRef .tc main_call22_v3)) = (id : (⟨S_, .i32⟩ : BufTy).Contents (Elt F) → (⟨S_, .i32⟩ : BufTy).Contents (Elt F)) (RefRun.E m c (Proc.devRef .tc main_c_122)) :=
  end1 RefRun.hW7 (RefRun.V7 m c) (RefRun.E m c) RefRun.later7 (RefRun.T7 m c) 21 main_c_122 main_call22_v3 (id : (⟨S_, .i32⟩ : BufTy).Contents (Elt F) → (⟨S_, .i32⟩ : BufTy).Contents (Elt F)) _ _ rfl (nk (by decide +kernel)) (nk (by decide +kernel))

theorem rd_main_call22_v4 (m : (ℓ : Loc nD τ sig) → Buf (Elt F) ℓ) (c : Dev nD) :
    (RefRun.E m c (Proc.devRef .tc main_call22_v4)) = ((broadcastInDim S200000 ![] bcast_S_S200000) : (⟨S_, .i32⟩ : BufTy).Contents (Elt F) → (⟨S200000, .i32⟩ : BufTy).Contents (Elt F)) (RefRun.E m c (Proc.devRef .tc main_call22_v3)) :=
  end1 RefRun.hW7 (RefRun.V7 m c) (RefRun.E m c) RefRun.later7 (RefRun.T7 m c) 22 main_call22_v3 main_call22_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v308 (m : (ℓ : Loc nD τ sig) → Buf (Elt F) ℓ) (c : Dev nD) :
    (RefRun.E m c (Proc.devRef .tc main_v308)) = (minsi : (⟨S200000, .i32⟩ : BufTy).Contents (Elt F) → (⟨S200000, .i32⟩ : BufTy).Contents (Elt F) → (⟨S200000, .i32⟩ : BufTy).Contents (Elt F)) (RefRun.E m c (Proc.devRef .tc main_call22_v4)) (RefRun.E m c (Proc.devRef .tc main_call22_v2)) :=
  end2 RefRun.hW7 (RefRun.V7 m c) (RefRun.E m c) RefRun.later7 (RefRun.T7 m c) 23 main_call22_v4 main_call22_v2 main_v308 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v309 (m : (ℓ : Loc nD τ sig) → Buf (Elt F) ℓ) (c : Dev nD) :
    (RefRun.E m c (Proc.devRef .tc main_v309)) = (addi : (⟨S200000, .i32⟩ : BufTy).Contents (Elt F) → (⟨S200000, .i32⟩ : BufTy).Contents (Elt F) → (⟨S200000, .i32⟩ : BufTy).Contents (Elt F)) (RefRun.E m c (Proc.devRef .tc main_v307)) (RefRun.E m c (Proc.devRef .tc main_v308)) :=
  end2 RefRun.hW7 (RefRun.V7 m c) (RefRun.E m c) RefRun.later7 (RefRun.T7 m c) 24 main_v307 main_v308 main_v309 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_123 (m : (ℓ : Loc nD τ sig) → Buf (Elt F) ℓ) (c : Dev nD) :
    (RefRun.E m c (Proc.devRef .tc main_c_123)) = (constantI S_ 32 0#32) :=
  end0 RefRun.hW7 (RefRun.V7 m c) (RefRun.E m c) RefRun.later7 (RefRun.T7 m c) 25 main_c_123 (constantI S_ 32 0#32) _ rfl (nk (by decide +kernel))

theorem rd_main_v310 (m : (ℓ : Loc nD τ sig) → Buf (Elt F) ℓ) (c : Dev nD) :
    (RefRun.E m c (Proc.devRef .tc main_v310)) = (broadcastInDim S200000 ![] bcast_S_S200000 : (⟨S_, .i32⟩ : BufTy).Contents (Elt F) → (⟨S200000, .i32⟩ : BufTy).Contents (Elt F)) (RefRun.E m c (Proc.devRef .tc main_c_123)) :=
  end1 RefRun.hW7 (RefRun.V7 m c) (RefRun.E m c) RefRun.later7 (RefRun.T7 m c) 26 main_c_123 main_v310 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v311 (m : (ℓ : Loc nD τ sig) → Buf (Elt F) ℓ) (c : Dev nD) :
    (RefRun.E m c (Proc.devRef .tc main_v311)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v309)) (RefRun.E m c (Proc.devRef .tc main_v310)) :=
  end2 RefRun.hW7 (RefRun.V7 m c) (RefRun.E m c) RefRun.later7 (RefRun.T7 m c) 27 main_v309 main_v310 main_v311 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_124 (m : (ℓ : Loc nD τ sig) → Buf (Elt F) ℓ) (c : Dev nD) :
    (RefRun.E m c (Proc.devRef .tc main_c_124)) = (constantI S_ 32 589824#32) :=
  end0 RefRun.hW7 (RefRun.V7 m c) (RefRun.E m c) RefRun.later7 (RefRun.T7 m c) 28 main_c_124 (constantI S_ 32 589824#32) _ rfl (nk (by decide +kernel))

theorem rd_main_v312 (m : (ℓ : Loc nD τ sig) → Buf (Elt F) ℓ) (c : Dev nD) :
    (RefRun.E m c (Proc.devRef .tc main_v312)) = (broadcastInDim S200000 ![] bcast_S_S200000 : (⟨S_, .i32⟩ : BufTy).Contents (Elt F) → (⟨S200000, .i32⟩ : BufTy).Contents (Elt F)) (RefRun.E m c (Proc.devRef .tc main_c_124)) :=
  end1 RefRun.hW7 (RefRun.V7 m c) (RefRun.E m c) RefRun.later7 (RefRun.T7 m c) 29 main_c_124 main_v312 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v313 (m : (ℓ : Loc nD τ sig) → Buf (Elt F) ℓ) (c : Dev nD) :
    (RefRun.E m c (Proc.devRef .tc main_v313)) = (addi : (⟨S200000, .i32⟩ : BufTy).Contents (Elt F) → (⟨S200000, .i32⟩ : BufTy).Contents (Elt F) → (⟨S200000, .i32⟩ : BufTy).Contents (Elt F)) (RefRun.E m c (Proc.devRef .tc main_v309)) (RefRun.E m c (Proc.devRef .tc main_v312)) :=
  end2 RefRun.hW7 (RefRun.V7 m c) (RefRun.E m c) RefRun.later7 (RefRun.T7 m c) 30 main_v309 main_v312 main_v313 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v314 (m : (ℓ : Loc nD τ sig) → Buf (Elt F) ℓ) (c : Dev nD) :
    (RefRun.E m c (Proc.devRef .tc main_v314)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v311)) (RefRun.E m c (Proc.devRef .tc main_v313)) (RefRun.E m c (Proc.devRef .tc main_v309)) :=
  end3 RefRun.hW7 (RefRun.V7 m c) (RefRun.E m c) RefRun.later7 (RefRun.T7 m c) 31 main_v311 main_v313 main_v309 main_v314 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v315 (m : (ℓ : Loc nD τ sig) → Buf (Elt F) ℓ) (c : Dev nD) :
    (RefRun.E m c (Proc.devRef .tc main_v315)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v314)) :=
  end1 RefRun.hW7 (RefRun.V7 m c) (RefRun.E m c) RefRun.later7 (RefRun.T7 m c) 32 main_v314 main_v315 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v316 (m : (ℓ : Loc nD τ sig) → Buf (Elt F) ℓ) (c : Dev nD) :
    (RefRun.E m c (Proc.devRef .tc main_v316)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v315)) :=
  end2 RefRun.hW7 (RefRun.V7 m c) (RefRun.E m c) RefRun.later7 (RefRun.T7 m c) 33 main_v16 main_v315 main_v316 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_125 (m : (ℓ : Loc nD τ sig) → Buf (Elt F) ℓ) (c : Dev nD) :
    (RefRun.E m c (Proc.devRef .tc main_c_125)) = (constantI S_ 32 0#32) :=
  end0 RefRun.hW7 (RefRun.V7 m c) (RefRun.E m c) RefRun.later7 (RefRun.T7 m c) 34 main_c_125 (constantI S_ 32 0#32) _ rfl (nk (by decide +kernel))

theorem rd_main_v317 (m : (ℓ : Loc nD τ sig) → Buf (Elt F) ℓ) (c : Dev nD) :
    (RefRun.E m c (Proc.devRef .tc main_v317)) = (broadcastInDim S200000 ![] bcast_S_S200000 : (⟨S_, .i32⟩ : BufTy).Contents (Elt F) → (⟨S200000, .i32⟩ : BufTy).Contents (Elt F)) (RefRun.E m c (Proc.devRef .tc main_c_125)) :=
  end1 RefRun.hW7 (RefRun.V7 m c) (RefRun.E m c) RefRun.later7 (RefRun.T7 m c) 35 main_c_125 main_v317 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v318 (m : (ℓ : Loc nD τ sig) → Buf (Elt F) ℓ) (c : Dev nD) :
    (RefRun.E m c (Proc.devRef .tc main_v318)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v316)) (RefRun.E m c (Proc.devRef .tc main_v317)) :=
  end2 RefRun.hW7 (RefRun.V7 m c) (RefRun.E m c) RefRun.later7 (RefRun.T7 m c) 36 main_v316 main_v317 main_v318 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v319 (m : (ℓ : Loc nD τ sig) → Buf (Elt F) ℓ) (c : Dev nD) :
    (RefRun.E m c (Proc.devRef .tc main_v319)) = (andi : (⟨S200000, .i1⟩ : BufTy).Contents (Elt F) → (⟨S200000, .i1⟩ : BufTy).Contents (Elt F) → (⟨S200000, .i1⟩ : BufTy).Contents (Elt F)) (RefRun.E m c (Proc.devRef .tc main_v304)) (RefRun.E m c (Proc.devRef .tc main_v318)) :=
  end2 RefRun.hW7 (RefRun.V7 m c) (RefRun.E m c) RefRun.later7 (RefRun.T7 m c) 37 main_v304 main_v318 main_v319 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v320 (m : (ℓ : Loc nD τ sig) → Buf (Elt F) ℓ) (c : Dev nD) :
    (RefRun.E m c (Proc.devRef .tc main_v320)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v319)) :=
  end1 RefRun.hW7 (RefRun.V7 m c) (RefRun.E m c) RefRun.later7 (RefRun.T7 m c) 38 main_v319 main_v320 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_126 (m : (ℓ : Loc nD τ sig) → Buf (Elt F) ℓ) (c : Dev nD) :
    (RefRun.E m c (Proc.devRef .tc main_c_126)) = (constantI S_ 32 0#32) :=
  end0 RefRun.hW7 (RefRun.V7 m c) (RefRun.E m c) RefRun.later7 (RefRun.T7 m c) 39 main_c_126 (constantI S_ 32 0#32) _ rfl (nk (by decide +kernel))

theorem rd_main_v321 (m : (ℓ : Loc nD τ sig) → Buf (Elt F) ℓ) (c : Dev nD) :
    (RefRun.E m c (Proc.devRef .tc main_v321)) = (broadcastInDim S200000 ![] bcast_S_S200000 : (⟨S_, .i32⟩ : BufTy).Contents (Elt F) → (⟨S200000, .i32⟩ : BufTy).Contents (Elt F)) (RefRun.E m c (Proc.devRef .tc main_c_126)) :=
  end1 RefRun.hW7 (RefRun.V7 m c) (RefRun.E m c) RefRun.later7 (RefRun.T7 m c) 40 main_c_126 main_v321 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v322 (m : (ℓ : Loc nD τ sig) → Buf (Elt F) ℓ) (c : Dev nD) :
    (RefRun.E m c (Proc.devRef .tc main_v322)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v316)) (RefRun.E m c (Proc.devRef .tc main_v321)) :=
  end2 RefRun.hW7 (RefRun.V7 m c) (RefRun.E m c) RefRun.later7 (RefRun.T7 m c) 41 main_v316 main_v321 main_v322 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_127 (m : (ℓ : Loc nD τ sig) → Buf (Elt F) ℓ) (c : Dev nD) :
    (RefRun.E m c (Proc.devRef .tc main_c_127)) = (constantI S_ 32 0#32) :=
  end0 RefRun.hW7 (RefRun.V7 m c) (RefRun.E m c) RefRun.later7 (RefRun.T7 m c) 42 main_c_127 (constantI S_ 32 0#32) _ rfl (nk (by decide +kernel))

theorem rd_main_v323 (m : (ℓ : Loc nD τ sig) → Buf (Elt F) ℓ) (c : Dev nD) :
    (RefRun.E m c (Proc.devRef .tc main_v323)) = (broadcastInDim S200000 ![] bcast_S_S200000 : (⟨S_, .i32⟩ : BufTy).Contents (Elt F) → (⟨S200000, .i32⟩ : BufTy).Contents (Elt F)) (RefRun.E m c (Proc.devRef .tc main_c_127)) :=
  end1 RefRun.hW7 (RefRun.V7 m c) (RefRun.E m c) RefRun.later7 (RefRun.T7 m c) 43 main_c_127 main_v323 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v324 (m : (ℓ : Loc nD τ sig) → Buf (Elt F) ℓ) (c : Dev nD) :
    (RefRun.E m c (Proc.devRef .tc main_v324)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v322)) (RefRun.E m c (Proc.devRef .tc main_v323)) :=
  end2 RefRun.hW7 (RefRun.V7 m c) (RefRun.E m c) RefRun.later7 (RefRun.T7 m c) 44 main_v322 main_v323 main_v324 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_128 (m : (ℓ : Loc nD τ sig) → Buf (Elt F) ℓ) (c : Dev nD) :
    (RefRun.E m c (Proc.devRef .tc main_c_128)) = (constantI S_ 32 200000#32) :=
  end0 RefRun.hW7 (RefRun.V7 m c) (RefRun.E m c) RefRun.later7 (RefRun.T7 m c) 45 main_c_128 (constantI S_ 32 200000#32) _ rfl (nk (by decide +kernel))

theorem rd_main_v325 (m : (ℓ : Loc nD τ sig) → Buf (Elt F) ℓ) (c : Dev nD) :
    (RefRun.E m c (Proc.devRef .tc main_v325)) = (broadcastInDim S200000 ![] bcast_S_S200000 : (⟨S_, .i32⟩ : BufTy).Contents (Elt F) → (⟨S200000, .i32⟩ : BufTy).Contents (Elt F)) (RefRun.E m c (Proc.devRef .tc main_c_128)) :=
  end1 RefRun.hW7 (RefRun.V7 m c) (RefRun.E m c) RefRun.later7 (RefRun.T7 m c) 46 main_c_128 main_v325 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v326 (m : (ℓ : Loc nD τ sig) → Buf (Elt F) ℓ) (c : Dev nD) :
    (RefRun.E m c (Proc.devRef .tc main_v326)) = (addi : (⟨S200000, .i32⟩ : BufTy).Contents (Elt F) → (⟨S200000, .i32⟩ : BufTy).Contents (Elt F) → (⟨S200000, .i32⟩ : BufTy).Contents (Elt F)) (RefRun.E m c (Proc.devRef .tc main_v322)) (RefRun.E m c (Proc.devRef .tc main_v325)) :=
  end2 RefRun.hW7 (RefRun.V7 m c) (RefRun.E m c) RefRun.later7 (RefRun.T7 m c) 47 main_v322 main_v325 main_v326 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v327 (m : (ℓ : Loc nD τ sig) → Buf (Elt F) ℓ) (c : Dev nD) :
    (RefRun.E m c (Proc.devRef .tc main_v327)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v324)) (RefRun.E m c (Proc.devRef .tc main_v326)) (RefRun.E m c (Proc.devRef .tc main_v322)) :=
  end3 RefRun.hW7 (RefRun.V7 m c) (RefRun.E m c) RefRun.later7 (RefRun.T7 m c) 48 main_v324 main_v326 main_v322 main_v327 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v328 (m : (ℓ : Loc nD τ sig) → Buf (Elt F) ℓ) (c : Dev nD) :
    (RefRun.E m c (Proc.devRef .tc main_v328)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v327)) :=
  end1 RefRun.hW7 (RefRun.V7 m c) (RefRun.E m c) RefRun.later7 (RefRun.T7 m c) 49 main_v327 main_v328 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v329 (m : (ℓ : Loc nD τ sig) → Buf (Elt F) ℓ) (c : Dev nD) :
    (RefRun.E m c (Proc.devRef .tc main_v329)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v328)) :=
  end2 RefRun.hW7 (RefRun.V7 m c) (RefRun.E m c) RefRun.later7 (RefRun.T7 m c) 50 main_v7 main_v328 main_v329 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_129 (m : (ℓ : Loc nD τ sig) → Buf (Elt F) ℓ) (c : Dev nD) :
    (RefRun.E m c (Proc.devRef .tc main_cst_129)) = (constant S_ .f32 0x00000000#32) :=
  end0 RefRun.hW7 (RefRun.V7 m c) (RefRun.E m c) RefRun.later7 (RefRun.T7 m c) 51 main_cst_129 (constant S_ .f32 0x00000000#32) _ rfl (nk (by decide +kernel))

theorem rd_main_call23_v0 (m : (ℓ : Loc nD τ sig) → Buf (Elt F) ℓ) (c : Dev nD) :
    (RefRun.E m c (Proc.devRef .tc main_call23_v0)) = (id : (⟨S_, .f32⟩ : BufTy).Contents (Elt F) → (⟨S_, .f32⟩ : BufTy).Contents (Elt F)) (RefRun.E m c (Proc.devRef .tc main_cst_129)) :=
  end1 RefRun.hW7 (RefRun.V7 m c) (RefRun.E m c) RefRun.later7 (RefRun.T7 m c) 52 main_cst_129 main_call23_v0 (id : (⟨S_, .f32⟩ : BufTy).Contents (Elt F) → (⟨S_, .f32⟩ : BufTy).Contents (Elt F)) _ _ rfl (nk (by decide +kernel)) (nk (by decide +kernel))

theorem rd_main_call23_v1 (m : (ℓ : Loc nD τ sig) → Buf (Elt F) ℓ) (c : Dev nD) :
    (RefRun.E m c (Proc.devRef .tc main_call23_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v320)) :=
  end1 RefRun.hW7 (RefRun.V7 m c) (RefRun.E m c) RefRun.later7 (RefRun.T7 m c) 53 main_v320 main_call23_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call23_v2 (m : (ℓ : Loc nD τ sig) → Buf (Elt F) ℓ) (c : Dev nD) :
    (RefRun.E m c (Proc.devRef .tc main_call23_v2)) = ((broadcastInDim S200000x64 ![] bcast_S_S200000x64) : (⟨S_, .f32⟩ : BufTy).Contents (Elt F) → (⟨S200000x64, .f32⟩ : BufTy).Contents (Elt F)) (RefRun.E m c (Proc.devRef .tc main_call23_v0)) :=
  end1 RefRun.hW7 (RefRun.V7 m c) (RefRun.E m c) RefRun.later7 (RefRun.T7 m c) 54 main_call23_v0 main_call23_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v330 (m : (ℓ : Loc nD τ sig) → Buf (Elt F) ℓ) (c : Dev nD) :
    (RefRun.E m c (Proc.devRef .tc main_v330)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call23_v1)) (RefRun.E m c (Proc.devRef .tc main_v329)) (RefRun.E m c (Proc.devRef .tc main_call23_v2)) :=
  end3 RefRun.hW7 (RefRun.V7 m c) (RefRun.E m c) RefRun.later7 (RefRun.T7 m c) 55 main_call23_v1 main_v329 main_call23_v2 main_v330 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v331 (m : (ℓ : Loc nD τ sig) → Buf (Elt F) ℓ) (c : Dev nD) :
    (RefRun.E m c (Proc.devRef .tc main_v331)) = ((extractStridedSlice S1x64x64 ![6, 0, 0] · slices_S9x64x64_S1x64x64_6_0_0) : (⟨S9x64x64, .f32⟩ : BufTy).Contents (Elt F) → (⟨S1x64x64, .f32⟩ : BufTy).Contents (Elt F)) (RefRun.E m c (Proc.devRef .tc main_arg3)) :=
  end1 RefRun.hW7 (RefRun.V7 m c) (RefRun.E m c) RefRun.later7 (RefRun.T7 m c) 56 main_arg3 main_v331 ((extractStridedSlice S1x64x64 ![6, 0, 0] · slices_S9x64x64_S1x64x64_6_0_0) : (⟨S9x64x64, .f32⟩ : BufTy).Contents (Elt F) → (⟨S1x64x64, .f32⟩ : BufTy).Contents (Elt F)) _ _ rfl (nk (by decide +kernel)) (nk (by decide +kernel))

theorem rd_main_v332 (m : (ℓ : Loc nD τ sig) → Buf (Elt F) ℓ) (c : Dev nD) :
    (RefRun.E m c (Proc.devRef .tc main_v332)) = RefRun.reshaped main_v331 main_v332 rfl shapeCasts_S1x64x64_S64x64 (RefRun.E m c) :=
  endReshape RefRun.hW7 (RefRun.V7 m c) (RefRun.E m c) RefRun.later7 (RefRun.T7 m c) 57 main_v331 main_v332 rfl shapeCasts_S1x64x64_S64x64 _ _ rfl (nk (by decide +kernel)) (nk (by decide +kernel))

theorem rd_main_v333 (m : (ℓ : Loc nD τ sig) → Buf (Elt F) ℓ) (c : Dev nD) :
    (RefRun.E m c (Proc.devRef .tc main_v333)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v330)) (RefRun.E m c (Proc.devRef .tc main_v332)) :=
  end2 RefRun.hW7 (RefRun.V7 m c) (RefRun.E m c) RefRun.later7 (RefRun.T7 m c) 58 main_v330 main_v332 main_v333 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v334 (m : (ℓ : Loc nD τ sig) → Buf (Elt F) ℓ) (c : Dev nD) :
    (RefRun.E m c (Proc.devRef .tc main_v334)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v289)) (RefRun.E m c (Proc.devRef .tc main_v333)) :=
  end2 RefRun.hW7 (RefRun.V7 m c) (RefRun.E m c) RefRun.later7 (RefRun.T7 m c) 59 main_v289 main_v333 main_v334 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_130 (m : (ℓ : Loc nD τ sig) → Buf (Elt F) ℓ) (c : Dev nD) :
    (RefRun.E m c (Proc.devRef .tc main_c_130)) = (constantI S_ 32 1#32) :=
  end0 RefRun.hW7 (RefRun.V7 m c) (RefRun.E m c) RefRun.later7 (RefRun.T7 m c) 60 main_c_130 (constantI S_ 32 1#32) _ rfl (nk (by decide +kernel))

theorem rd_main_v335 (m : (ℓ : Loc nD τ sig) → Buf (Elt F) ℓ) (c : Dev nD) :
    (RefRun.E m c (Proc.devRef .tc main_v335)) = (broadcastInDim S200000 ![] bcast_S_S200000 : (⟨S_, .i32⟩ : BufTy).Contents (Elt F) → (⟨S200000, .i32⟩ : BufTy).Contents (Elt F)) (RefRun.E m c (Proc.devRef .tc main_c_130)) :=
  end1 RefRun.hW7 (RefRun.V7 m c) (RefRun.E m c) RefRun.later7 (RefRun.T7 m c) 61 main_c_130 main_v335 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v336 (m : (ℓ : Loc nD τ sig) → Buf (Elt F) ℓ) (c : Dev nD) :
    (RefRun.E m c (Proc.devRef .tc main_v336)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v335)) :=
  end2 RefRun.hW7 (RefRun.V7 m c) (RefRun.E m c) RefRun.later7 (RefRun.T7 m c) 62 main_v17 main_v335 main_v336 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_131 (m : (ℓ : Loc nD τ sig) → Buf (Elt F) ℓ) (c : Dev nD) :
    (RefRun.E m c (Proc.devRef .tc main_c_131)) = (constantI S_ 32 0#32) :=
  end0 RefRun.hW7 (RefRun.V7 m c) (RefRun.E m c) RefRun.later7 (RefRun.T7 m c) 63 main_c_131 (constantI S_ 32 0#32) _ rfl (nk (by decide +kernel))

theorem rd_main_v337 (m : (ℓ : Loc nD τ sig) → Buf (Elt F) ℓ) (c : Dev nD) :
    (RefRun.E m c (Proc.devRef .tc main_v337)) = (broadcastInDim S200000 ![] bcast_S_S200000 : (⟨S_, .i32⟩ : BufTy).Contents (Elt F) → (⟨S200000, .i32⟩ : BufTy).Contents (Elt F)) (RefRun.E m c (Proc.devRef .tc main_c_131)) :=
  end1 RefRun.hW7 (RefRun.V7 m c) (RefRun.E m c) RefRun.later7 (RefRun.T7 m c) 64 main_c_131 main_v337 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v338 (m : (ℓ : Loc nD τ sig) → Buf (Elt F) ℓ) (c : Dev nD) :
    (RefRun.E m c (Proc.devRef .tc main_v338)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v337)) :=
  end2 RefRun.hW7 (RefRun.V7 m c) (RefRun.E m c) RefRun.later7 (RefRun.T7 m c) 65 main_v18 main_v337 main_v338 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_132 (m : (ℓ : Loc nD τ sig) → Buf (Elt F) ℓ) (c : Dev nD) :
    (RefRun.E m c (Proc.devRef .tc main_c_132)) = (constantI S_ 32 0#32) :=
  end0 RefRun.hW7 (RefRun.V7 m c) (RefRun.E m c) RefRun.later7 (RefRun.T7 m c) 66 main_c_132 (constantI S_ 32 0#32) _ rfl (nk (by decide +kernel))

theorem rd_main_v339 (m : (ℓ : Loc nD τ sig) → Buf (Elt F) ℓ) (c : Dev nD) :
    (RefRun.E m c (Proc.devRef .tc main_v339)) = (broadcastInDim S200000 ![] bcast_S_S200000 : (⟨S_, .i32⟩ : BufTy).Contents (Elt F) → (⟨S200000, .i32⟩ : BufTy).Contents (Elt F)) (RefRun.E m c (Proc.devRef .tc main_c_132)) :=
  end1 RefRun.hW7 (RefRun.V7 m c) (RefRun.E m c) RefRun.later7 (RefRun.T7 m c) 67 main_c_132 main_v339 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v340 (m : (ℓ : Loc nD τ sig) → Buf (Elt F) ℓ) (c : Dev nD) :
    (RefRun.E m c (Proc.devRef .tc main_v340)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v336)) (RefRun.E m c (Proc.devRef .tc main_v339)) :=
  end2 RefRun.hW7 (RefRun.V7 m c) (RefRun.E m c) RefRun.later7 (RefRun.T7 m c) 68 main_v336 main_v339 main_v340 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_133 (m : (ℓ : Loc nD τ sig) → Buf (Elt F) ℓ) (c : Dev nD) :
    (RefRun.E m c (Proc.devRef .tc main_c_133)) = (constantI S_ 32 768#32) :=
  end0 RefRun.hW7 (RefRun.V7 m c) (RefRun.E m c) RefRun.later7 (RefRun.T7 m c) 69 main_c_133 (constantI S_ 32 768#32) _ rfl (nk (by decide +kernel))

theorem rd_main_v341 (m : (ℓ : Loc nD τ sig) → Buf (Elt F) ℓ) (c : Dev nD) :
    (RefRun.E m c (Proc.devRef .tc main_v341)) = (broadcastInDim S200000 ![] bcast_S_S200000 : (⟨S_, .i32⟩ : BufTy).Contents (Elt F) → (⟨S200000, .i32⟩ : BufTy).Contents (Elt F)) (RefRun.E m c (Proc.devRef .tc main_c_133)) :=
  end1 RefRun.hW7 (RefRun.V7 m c) (RefRun.E m c) RefRun.later7 (RefRun.T7 m c) 70 main_c_133 main_v341 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v342 (m : (ℓ : Loc nD τ sig) → Buf (Elt F) ℓ) (c : Dev nD) :
    (RefRun.E m c (Proc.devRef .tc main_v342)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v336)) (RefRun.E m c (Proc.devRef .tc main_v341)) :=
  end2 RefRun.hW7 (RefRun.V7 m c) (RefRun.E m c) RefRun.later7 (RefRun.T7 m c) 71 main_v336 main_v341 main_v342 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v343 (m : (ℓ : Loc nD τ sig) → Buf (Elt F) ℓ) (c : Dev nD) :
    (RefRun.E m c (Proc.devRef .tc main_v343)) = (andi : (⟨S200000, .i1⟩ : BufTy).Contents (Elt F) → (⟨S200000, .i1⟩ : BufTy).Contents (Elt F) → (⟨S200000, .i1⟩ : BufTy).Contents (Elt F)) (RefRun.E m c (Proc.devRef .tc main_v340)) (RefRun.E m c (Proc.devRef .tc main_v342)) :=
  end2 RefRun.hW7 (RefRun.V7 m c) (RefRun.E m c) RefRun.later7 (RefRun.T7 m c) 72 main_v340 main_v342 main_v343 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

end Cert.ReferenceIdeal.RefRead

end
-- ==== Proof.RefRead8.lean ====
/- Window 8 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_c_134 (m : (ℓ : Loc nD τ sig) → Buf (Elt F) ℓ) (c : Dev nD) :
    (RefRun.E m c (Proc.devRef .tc main_c_134)) = (constantI S_ 32 0#32) :=
  end0 RefRun.hW8 (RefRun.V8 m c) (RefRun.E m c) RefRun.later8 (RefRun.T8 m c) 0 main_c_134 (constantI S_ 32 0#32) _ rfl (nk (by decide +kernel))

theorem rd_main_v344 (m : (ℓ : Loc nD τ sig) → Buf (Elt F) ℓ) (c : Dev nD) :
    (RefRun.E m c (Proc.devRef .tc main_v344)) = (broadcastInDim S200000 ![] bcast_S_S200000 : (⟨S_, .i32⟩ : BufTy).Contents (Elt F) → (⟨S200000, .i32⟩ : BufTy).Contents (Elt F)) (RefRun.E m c (Proc.devRef .tc main_c_134)) :=
  end1 RefRun.hW8 (RefRun.V8 m c) (RefRun.E m c) RefRun.later8 (RefRun.T8 m c) 1 main_c_134 main_v344 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v345 (m : (ℓ : Loc nD τ sig) → Buf (Elt F) ℓ) (c : Dev nD) :
    (RefRun.E m c (Proc.devRef .tc main_v345)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v338)) (RefRun.E m c (Proc.devRef .tc main_v344)) :=
  end2 RefRun.hW8 (RefRun.V8 m c) (RefRun.E m c) RefRun.later8 (RefRun.T8 m c) 2 main_v338 main_v344 main_v345 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v346 (m : (ℓ : Loc nD τ sig) → Buf (Elt F) ℓ) (c : Dev nD) :
    (RefRun.E m c (Proc.devRef .tc main_v346)) = (andi : (⟨S200000, .i1⟩ : BufTy).Contents (Elt F) → (⟨S200000, .i1⟩ : BufTy).Contents (Elt F) → (⟨S200000, .i1⟩ : BufTy).Contents (Elt F)) (RefRun.E m c (Proc.devRef .tc main_v343)) (RefRun.E m c (Proc.devRef .tc main_v345)) :=
  end2 RefRun.hW8 (RefRun.V8 m c) (RefRun.E m c) RefRun.later8 (RefRun.T8 m c) 3 main_v343 main_v345 main_v346 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_135 (m : (ℓ : Loc nD τ sig) → Buf (Elt F) ℓ) (c : Dev nD) :
    (RefRun.E m c (Proc.devRef .tc main_c_135)) = (constantI S_ 32 768#32) :=
  end0 RefRun.hW8 (RefRun.V8 m c) (RefRun.E m c) RefRun.later8 (RefRun.T8 m c) 4 main_c_135 (constantI S_ 32 768#32) _ rfl (nk (by decide +kernel))

theorem rd_main_v347 (m : (ℓ : Loc nD τ sig) → Buf (Elt F) ℓ) (c : Dev nD) :
    (RefRun.E m c (Proc.devRef .tc main_v347)) = (broadcastInDim S200000 ![] bcast_S_S200000 : (⟨S_, .i32⟩ : BufTy).Contents (Elt F) → (⟨S200000, .i32⟩ : BufTy).Contents (Elt F)) (RefRun.E m c (Proc.devRef .tc main_c_135)) :=
  end1 RefRun.hW8 (RefRun.V8 m c) (RefRun.E m c) RefRun.later8 (RefRun.T8 m c) 5 main_c_135 main_v347 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v348 (m : (ℓ : Loc nD τ sig) → Buf (Elt F) ℓ) (c : Dev nD) :
    (RefRun.E m c (Proc.devRef .tc main_v348)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v338)) (RefRun.E m c (Proc.devRef .tc main_v347)) :=
  end2 RefRun.hW8 (RefRun.V8 m c) (RefRun.E m c) RefRun.later8 (RefRun.T8 m c) 6 main_v338 main_v347 main_v348 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v349 (m : (ℓ : Loc nD τ sig) → Buf (Elt F) ℓ) (c : Dev nD) :
    (RefRun.E m c (Proc.devRef .tc main_v349)) = (andi : (⟨S200000, .i1⟩ : BufTy).Contents (Elt F) → (⟨S200000, .i1⟩ : BufTy).Contents (Elt F) → (⟨S200000, .i1⟩ : BufTy).Contents (Elt F)) (RefRun.E m c (Proc.devRef .tc main_v346)) (RefRun.E m c (Proc.devRef .tc main_v348)) :=
  end2 RefRun.hW8 (RefRun.V8 m c) (RefRun.E m c) RefRun.later8 (RefRun.T8 m c) 7 main_v346 main_v348 main_v349 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_136 (m : (ℓ : Loc nD τ sig) → Buf (Elt F) ℓ) (c : Dev nD) :
    (RefRun.E m c (Proc.devRef .tc main_c_136)) = (constantI S_ 32 0#32) :=
  end0 RefRun.hW8 (RefRun.V8 m c) (RefRun.E m c) RefRun.later8 (RefRun.T8 m c) 8 main_c_136 (constantI S_ 32 0#32) _ rfl (nk (by decide +kernel))

theorem rd_main_c_137 (m : (ℓ : Loc nD τ sig) → Buf (Elt F) ℓ) (c : Dev nD) :
    (RefRun.E m c (Proc.devRef .tc main_c_137)) = (constantI S_ 32 767#32) :=
  end0 RefRun.hW8 (RefRun.V8 m c) (RefRun.E m c) RefRun.later8 (RefRun.T8 m c) 9 main_c_137 (constantI S_ 32 767#32) _ rfl (nk (by decide +kernel))

theorem rd_main_call24_v0 (m : (ℓ : Loc nD τ sig) → Buf (Elt F) ℓ) (c : Dev nD) :
    (RefRun.E m c (Proc.devRef .tc main_call24_v0)) = (id : (⟨S_, .i32⟩ : BufTy).Contents (Elt F) → (⟨S_, .i32⟩ : BufTy).Contents (Elt F)) (RefRun.E m c (Proc.devRef .tc main_c_136)) :=
  end1 RefRun.hW8 (RefRun.V8 m c) (RefRun.E m c) RefRun.later8 (RefRun.T8 m c) 10 main_c_136 main_call24_v0 (id : (⟨S_, .i32⟩ : BufTy).Contents (Elt F) → (⟨S_, .i32⟩ : BufTy).Contents (Elt F)) _ _ rfl (nk (by decide +kernel)) (nk (by decide +kernel))

theorem rd_main_call24_v1 (m : (ℓ : Loc nD τ sig) → Buf (Elt F) ℓ) (c : Dev nD) :
    (RefRun.E m c (Proc.devRef .tc main_call24_v1)) = ((broadcastInDim S200000 ![] bcast_S_S200000) : (⟨S_, .i32⟩ : BufTy).Contents (Elt F) → (⟨S200000, .i32⟩ : BufTy).Contents (Elt F)) (RefRun.E m c (Proc.devRef .tc main_call24_v0)) :=
  end1 RefRun.hW8 (RefRun.V8 m c) (RefRun.E m c) RefRun.later8 (RefRun.T8 m c) 11 main_call24_v0 main_call24_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call24_v2 (m : (ℓ : Loc nD τ sig) → Buf (Elt F) ℓ) (c : Dev nD) :
    (RefRun.E m c (Proc.devRef .tc main_call24_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call24_v1)) (RefRun.E m c (Proc.devRef .tc main_v336)) :=
  end2 RefRun.hW8 (RefRun.V8 m c) (RefRun.E m c) RefRun.later8 (RefRun.T8 m c) 12 main_call24_v1 main_v336 main_call24_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call24_v3 (m : (ℓ : Loc nD τ sig) → Buf (Elt F) ℓ) (c : Dev nD) :
    (RefRun.E m c (Proc.devRef .tc main_call24_v3)) = (id : (⟨S_, .i32⟩ : BufTy).Contents (Elt F) → (⟨S_, .i32⟩ : BufTy).Contents (Elt F)) (RefRun.E m c (Proc.devRef .tc main_c_137)) :=
  end1 RefRun.hW8 (RefRun.V8 m c) (RefRun.E m c) RefRun.later8 (RefRun.T8 m c) 13 main_c_137 main_call24_v3 (id : (⟨S_, .i32⟩ : BufTy).Contents (Elt F) → (⟨S_, .i32⟩ : BufTy).Contents (Elt F)) _ _ rfl (nk (by decide +kernel)) (nk (by decide +kernel))

theorem rd_main_call24_v4 (m : (ℓ : Loc nD τ sig) → Buf (Elt F) ℓ) (c : Dev nD) :
    (RefRun.E m c (Proc.devRef .tc main_call24_v4)) = ((broadcastInDim S200000 ![] bcast_S_S200000) : (⟨S_, .i32⟩ : BufTy).Contents (Elt F) → (⟨S200000, .i32⟩ : BufTy).Contents (Elt F)) (RefRun.E m c (Proc.devRef .tc main_call24_v3)) :=
  end1 RefRun.hW8 (RefRun.V8 m c) (RefRun.E m c) RefRun.later8 (RefRun.T8 m c) 14 main_call24_v3 main_call24_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v350 (m : (ℓ : Loc nD τ sig) → Buf (Elt F) ℓ) (c : Dev nD) :
    (RefRun.E m c (Proc.devRef .tc main_v350)) = (minsi : (⟨S200000, .i32⟩ : BufTy).Contents (Elt F) → (⟨S200000, .i32⟩ : BufTy).Contents (Elt F) → (⟨S200000, .i32⟩ : BufTy).Contents (Elt F)) (RefRun.E m c (Proc.devRef .tc main_call24_v4)) (RefRun.E m c (Proc.devRef .tc main_call24_v2)) :=
  end2 RefRun.hW8 (RefRun.V8 m c) (RefRun.E m c) RefRun.later8 (RefRun.T8 m c) 15 main_call24_v4 main_call24_v2 main_v350 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_138 (m : (ℓ : Loc nD τ sig) → Buf (Elt F) ℓ) (c : Dev nD) :
    (RefRun.E m c (Proc.devRef .tc main_c_138)) = (constantI S_ 32 768#32) :=
  end0 RefRun.hW8 (RefRun.V8 m c) (RefRun.E m c) RefRun.later8 (RefRun.T8 m c) 16 main_c_138 (constantI S_ 32 768#32) _ rfl (nk (by decide +kernel))

theorem rd_main_v351 (m : (ℓ : Loc nD τ sig) → Buf (Elt F) ℓ) (c : Dev nD) :
    (RefRun.E m c (Proc.devRef .tc main_v351)) = (broadcastInDim S200000 ![] bcast_S_S200000 : (⟨S_, .i32⟩ : BufTy).Contents (Elt F) → (⟨S200000, .i32⟩ : BufTy).Contents (Elt F)) (RefRun.E m c (Proc.devRef .tc main_c_138)) :=
  end1 RefRun.hW8 (RefRun.V8 m c) (RefRun.E m c) RefRun.later8 (RefRun.T8 m c) 17 main_c_138 main_v351 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v352 (m : (ℓ : Loc nD τ sig) → Buf (Elt F) ℓ) (c : Dev nD) :
    (RefRun.E m c (Proc.devRef .tc main_v352)) = (muli : (⟨S200000, .i32⟩ : BufTy).Contents (Elt F) → (⟨S200000, .i32⟩ : BufTy).Contents (Elt F) → (⟨S200000, .i32⟩ : BufTy).Contents (Elt F)) (RefRun.E m c (Proc.devRef .tc main_v350)) (RefRun.E m c (Proc.devRef .tc main_v351)) :=
  end2 RefRun.hW8 (RefRun.V8 m c) (RefRun.E m c) RefRun.later8 (RefRun.T8 m c) 18 main_v350 main_v351 main_v352 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_139 (m : (ℓ : Loc nD τ sig) → Buf (Elt F) ℓ) (c : Dev nD) :
    (RefRun.E m c (Proc.devRef .tc main_c_139)) = (constantI S_ 32 0#32) :=
  end0 RefRun.hW8 (RefRun.V8 m c) (RefRun.E m c) RefRun.later8 (RefRun.T8 m c) 19 main_c_139 (constantI S_ 32 0#32) _ rfl (nk (by decide +kernel))

theorem rd_main_c_140 (m : (ℓ : Loc nD τ sig) → Buf (Elt F) ℓ) (c : Dev nD) :
    (RefRun.E m c (Proc.devRef .tc main_c_140)) = (constantI S_ 32 767#32) :=
  end0 RefRun.hW8 (RefRun.V8 m c) (RefRun.E m c) RefRun.later8 (RefRun.T8 m c) 20 main_c_140 (constantI S_ 32 767#32) _ rfl (nk (by decide +kernel))

theorem rd_main_call25_v0 (m : (ℓ : Loc nD τ sig) → Buf (Elt F) ℓ) (c : Dev nD) :
    (RefRun.E m c (Proc.devRef .tc main_call25_v0)) = (id : (⟨S_, .i32⟩ : BufTy).Contents (Elt F) → (⟨S_, .i32⟩ : BufTy).Contents (Elt F)) (RefRun.E m c (Proc.devRef .tc main_c_139)) :=
  end1 RefRun.hW8 (RefRun.V8 m c) (RefRun.E m c) RefRun.later8 (RefRun.T8 m c) 21 main_c_139 main_call25_v0 (id : (⟨S_, .i32⟩ : BufTy).Contents (Elt F) → (⟨S_, .i32⟩ : BufTy).Contents (Elt F)) _ _ rfl (nk (by decide +kernel)) (nk (by decide +kernel))

theorem rd_main_call25_v1 (m : (ℓ : Loc nD τ sig) → Buf (Elt F) ℓ) (c : Dev nD) :
    (RefRun.E m c (Proc.devRef .tc main_call25_v1)) = ((broadcastInDim S200000 ![] bcast_S_S200000) : (⟨S_, .i32⟩ : BufTy).Contents (Elt F) → (⟨S200000, .i32⟩ : BufTy).Contents (Elt F)) (RefRun.E m c (Proc.devRef .tc main_call25_v0)) :=
  end1 RefRun.hW8 (RefRun.V8 m c) (RefRun.E m c) RefRun.later8 (RefRun.T8 m c) 22 main_call25_v0 main_call25_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call25_v2 (m : (ℓ : Loc nD τ sig) → Buf (Elt F) ℓ) (c : Dev nD) :
    (RefRun.E m c (Proc.devRef .tc main_call25_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call25_v1)) (RefRun.E m c (Proc.devRef .tc main_v338)) :=
  end2 RefRun.hW8 (RefRun.V8 m c) (RefRun.E m c) RefRun.later8 (RefRun.T8 m c) 23 main_call25_v1 main_v338 main_call25_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call25_v3 (m : (ℓ : Loc nD τ sig) → Buf (Elt F) ℓ) (c : Dev nD) :
    (RefRun.E m c (Proc.devRef .tc main_call25_v3)) = (id : (⟨S_, .i32⟩ : BufTy).Contents (Elt F) → (⟨S_, .i32⟩ : BufTy).Contents (Elt F)) (RefRun.E m c (Proc.devRef .tc main_c_140)) :=
  end1 RefRun.hW8 (RefRun.V8 m c) (RefRun.E m c) RefRun.later8 (RefRun.T8 m c) 24 main_c_140 main_call25_v3 (id : (⟨S_, .i32⟩ : BufTy).Contents (Elt F) → (⟨S_, .i32⟩ : BufTy).Contents (Elt F)) _ _ rfl (nk (by decide +kernel)) (nk (by decide +kernel))

theorem rd_main_call25_v4 (m : (ℓ : Loc nD τ sig) → Buf (Elt F) ℓ) (c : Dev nD) :
    (RefRun.E m c (Proc.devRef .tc main_call25_v4)) = ((broadcastInDim S200000 ![] bcast_S_S200000) : (⟨S_, .i32⟩ : BufTy).Contents (Elt F) → (⟨S200000, .i32⟩ : BufTy).Contents (Elt F)) (RefRun.E m c (Proc.devRef .tc main_call25_v3)) :=
  end1 RefRun.hW8 (RefRun.V8 m c) (RefRun.E m c) RefRun.later8 (RefRun.T8 m c) 25 main_call25_v3 main_call25_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v353 (m : (ℓ : Loc nD τ sig) → Buf (Elt F) ℓ) (c : Dev nD) :
    (RefRun.E m c (Proc.devRef .tc main_v353)) = (minsi : (⟨S200000, .i32⟩ : BufTy).Contents (Elt F) → (⟨S200000, .i32⟩ : BufTy).Contents (Elt F) → (⟨S200000, .i32⟩ : BufTy).Contents (Elt F)) (RefRun.E m c (Proc.devRef .tc main_call25_v4)) (RefRun.E m c (Proc.devRef .tc main_call25_v2)) :=
  end2 RefRun.hW8 (RefRun.V8 m c) (RefRun.E m c) RefRun.later8 (RefRun.T8 m c) 26 main_call25_v4 main_call25_v2 main_v353 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v354 (m : (ℓ : Loc nD τ sig) → Buf (Elt F) ℓ) (c : Dev nD) :
    (RefRun.E m c (Proc.devRef .tc main_v354)) = (addi : (⟨S200000, .i32⟩ : BufTy).Contents (Elt F) → (⟨S200000, .i32⟩ : BufTy).Contents (Elt F) → (⟨S200000, .i32⟩ : BufTy).Contents (Elt F)) (RefRun.E m c (Proc.devRef .tc main_v352)) (RefRun.E m c (Proc.devRef .tc main_v353)) :=
  end2 RefRun.hW8 (RefRun.V8 m c) (RefRun.E m c) RefRun.later8 (RefRun.T8 m c) 27 main_v352 main_v353 main_v354 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_141 (m : (ℓ : Loc nD τ sig) → Buf (Elt F) ℓ) (c : Dev nD) :
    (RefRun.E m c (Proc.devRef .tc main_c_141)) = (constantI S_ 32 0#32) :=
  end0 RefRun.hW8 (RefRun.V8 m c) (RefRun.E m c) RefRun.later8 (RefRun.T8 m c) 28 main_c_141 (constantI S_ 32 0#32) _ rfl (nk (by decide +kernel))

theorem rd_main_v355 (m : (ℓ : Loc nD τ sig) → Buf (Elt F) ℓ) (c : Dev nD) :
    (RefRun.E m c (Proc.devRef .tc main_v355)) = (broadcastInDim S200000 ![] bcast_S_S200000 : (⟨S_, .i32⟩ : BufTy).Contents (Elt F) → (⟨S200000, .i32⟩ : BufTy).Contents (Elt F)) (RefRun.E m c (Proc.devRef .tc main_c_141)) :=
  end1 RefRun.hW8 (RefRun.V8 m c) (RefRun.E m c) RefRun.later8 (RefRun.T8 m c) 29 main_c_141 main_v355 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v356 (m : (ℓ : Loc nD τ sig) → Buf (Elt F) ℓ) (c : Dev nD) :
    (RefRun.E m c (Proc.devRef .tc main_v356)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v354)) (RefRun.E m c (Proc.devRef .tc main_v355)) :=
  end2 RefRun.hW8 (RefRun.V8 m c) (RefRun.E m c) RefRun.later8 (RefRun.T8 m c) 30 main_v354 main_v355 main_v356 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_142 (m : (ℓ : Loc nD τ sig) → Buf (Elt F) ℓ) (c : Dev nD) :
    (RefRun.E m c (Proc.devRef .tc main_c_142)) = (constantI S_ 32 589824#32) :=
  end0 RefRun.hW8 (RefRun.V8 m c) (RefRun.E m c) RefRun.later8 (RefRun.T8 m c) 31 main_c_142 (constantI S_ 32 589824#32) _ rfl (nk (by decide +kernel))

theorem rd_main_v357 (m : (ℓ : Loc nD τ sig) → Buf (Elt F) ℓ) (c : Dev nD) :
    (RefRun.E m c (Proc.devRef .tc main_v357)) = (broadcastInDim S200000 ![] bcast_S_S200000 : (⟨S_, .i32⟩ : BufTy).Contents (Elt F) → (⟨S200000, .i32⟩ : BufTy).Contents (Elt F)) (RefRun.E m c (Proc.devRef .tc main_c_142)) :=
  end1 RefRun.hW8 (RefRun.V8 m c) (RefRun.E m c) RefRun.later8 (RefRun.T8 m c) 32 main_c_142 main_v357 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v358 (m : (ℓ : Loc nD τ sig) → Buf (Elt F) ℓ) (c : Dev nD) :
    (RefRun.E m c (Proc.devRef .tc main_v358)) = (addi : (⟨S200000, .i32⟩ : BufTy).Contents (Elt F) → (⟨S200000, .i32⟩ : BufTy).Contents (Elt F) → (⟨S200000, .i32⟩ : BufTy).Contents (Elt F)) (RefRun.E m c (Proc.devRef .tc main_v354)) (RefRun.E m c (Proc.devRef .tc main_v357)) :=
  end2 RefRun.hW8 (RefRun.V8 m c) (RefRun.E m c) RefRun.later8 (RefRun.T8 m c) 33 main_v354 main_v357 main_v358 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v359 (m : (ℓ : Loc nD τ sig) → Buf (Elt F) ℓ) (c : Dev nD) :
    (RefRun.E m c (Proc.devRef .tc main_v359)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v356)) (RefRun.E m c (Proc.devRef .tc main_v358)) (RefRun.E m c (Proc.devRef .tc main_v354)) :=
  end3 RefRun.hW8 (RefRun.V8 m c) (RefRun.E m c) RefRun.later8 (RefRun.T8 m c) 34 main_v356 main_v358 main_v354 main_v359 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v360 (m : (ℓ : Loc nD τ sig) → Buf (Elt F) ℓ) (c : Dev nD) :
    (RefRun.E m c (Proc.devRef .tc main_v360)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v359)) :=
  end1 RefRun.hW8 (RefRun.V8 m c) (RefRun.E m c) RefRun.later8 (RefRun.T8 m c) 35 main_v359 main_v360 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v361 (m : (ℓ : Loc nD τ sig) → Buf (Elt F) ℓ) (c : Dev nD) :
    (RefRun.E m c (Proc.devRef .tc main_v361)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v360)) :=
  end2 RefRun.hW8 (RefRun.V8 m c) (RefRun.E m c) RefRun.later8 (RefRun.T8 m c) 36 main_v16 main_v360 main_v361 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_143 (m : (ℓ : Loc nD τ sig) → Buf (Elt F) ℓ) (c : Dev nD) :
    (RefRun.E m c (Proc.devRef .tc main_c_143)) = (constantI S_ 32 0#32) :=
  end0 RefRun.hW8 (RefRun.V8 m c) (RefRun.E m c) RefRun.later8 (RefRun.T8 m c) 37 main_c_143 (constantI S_ 32 0#32) _ rfl (nk (by decide +kernel))

theorem rd_main_v362 (m : (ℓ : Loc nD τ sig) → Buf (Elt F) ℓ) (c : Dev nD) :
    (RefRun.E m c (Proc.devRef .tc main_v362)) = (broadcastInDim S200000 ![] bcast_S_S200000 : (⟨S_, .i32⟩ : BufTy).Contents (Elt F) → (⟨S200000, .i32⟩ : BufTy).Contents (Elt F)) (RefRun.E m c (Proc.devRef .tc main_c_143)) :=
  end1 RefRun.hW8 (RefRun.V8 m c) (RefRun.E m c) RefRun.later8 (RefRun.T8 m c) 38 main_c_143 main_v362 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v363 (m : (ℓ : Loc nD τ sig) → Buf (Elt F) ℓ) (c : Dev nD) :
    (RefRun.E m c (Proc.devRef .tc main_v363)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v361)) (RefRun.E m c (Proc.devRef .tc main_v362)) :=
  end2 RefRun.hW8 (RefRun.V8 m c) (RefRun.E m c) RefRun.later8 (RefRun.T8 m c) 39 main_v361 main_v362 main_v363 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v364 (m : (ℓ : Loc nD τ sig) → Buf (Elt F) ℓ) (c : Dev nD) :
    (RefRun.E m c (Proc.devRef .tc main_v364)) = (andi : (⟨S200000, .i1⟩ : BufTy).Contents (Elt F) → (⟨S200000, .i1⟩ : BufTy).Contents (Elt F) → (⟨S200000, .i1⟩ : BufTy).Contents (Elt F)) (RefRun.E m c (Proc.devRef .tc main_v349)) (RefRun.E m c (Proc.devRef .tc main_v363)) :=
  end2 RefRun.hW8 (RefRun.V8 m c) (RefRun.E m c) RefRun.later8 (RefRun.T8 m c) 40 main_v349 main_v363 main_v364 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v365 (m : (ℓ : Loc nD τ sig) → Buf (Elt F) ℓ) (c : Dev nD) :
    (RefRun.E m c (Proc.devRef .tc main_v365)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v364)) :=
  end1 RefRun.hW8 (RefRun.V8 m c) (RefRun.E m c) RefRun.later8 (RefRun.T8 m c) 41 main_v364 main_v365 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_144 (m : (ℓ : Loc nD τ sig) → Buf (Elt F) ℓ) (c : Dev nD) :
    (RefRun.E m c (Proc.devRef .tc main_c_144)) = (constantI S_ 32 0#32) :=
  end0 RefRun.hW8 (RefRun.V8 m c) (RefRun.E m c) RefRun.later8 (RefRun.T8 m c) 42 main_c_144 (constantI S_ 32 0#32) _ rfl (nk (by decide +kernel))

theorem rd_main_v366 (m : (ℓ : Loc nD τ sig) → Buf (Elt F) ℓ) (c : Dev nD) :
    (RefRun.E m c (Proc.devRef .tc main_v366)) = (broadcastInDim S200000 ![] bcast_S_S200000 : (⟨S_, .i32⟩ : BufTy).Contents (Elt F) → (⟨S200000, .i32⟩ : BufTy).Contents (Elt F)) (RefRun.E m c (Proc.devRef .tc main_c_144)) :=
  end1 RefRun.hW8 (RefRun.V8 m c) (RefRun.E m c) RefRun.later8 (RefRun.T8 m c) 43 main_c_144 main_v366 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v367 (m : (ℓ : Loc nD τ sig) → Buf (Elt F) ℓ) (c : Dev nD) :
    (RefRun.E m c (Proc.devRef .tc main_v367)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v361)) (RefRun.E m c (Proc.devRef .tc main_v366)) :=
  end2 RefRun.hW8 (RefRun.V8 m c) (RefRun.E m c) RefRun.later8 (RefRun.T8 m c) 44 main_v361 main_v366 main_v367 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_145 (m : (ℓ : Loc nD τ sig) → Buf (Elt F) ℓ) (c : Dev nD) :
    (RefRun.E m c (Proc.devRef .tc main_c_145)) = (constantI S_ 32 0#32) :=
  end0 RefRun.hW8 (RefRun.V8 m c) (RefRun.E m c) RefRun.later8 (RefRun.T8 m c) 45 main_c_145 (constantI S_ 32 0#32) _ rfl (nk (by decide +kernel))

theorem rd_main_v368 (m : (ℓ : Loc nD τ sig) → Buf (Elt F) ℓ) (c : Dev nD) :
    (RefRun.E m c (Proc.devRef .tc main_v368)) = (broadcastInDim S200000 ![] bcast_S_S200000 : (⟨S_, .i32⟩ : BufTy).Contents (Elt F) → (⟨S200000, .i32⟩ : BufTy).Contents (Elt F)) (RefRun.E m c (Proc.devRef .tc main_c_145)) :=
  end1 RefRun.hW8 (RefRun.V8 m c) (RefRun.E m c) RefRun.later8 (RefRun.T8 m c) 46 main_c_145 main_v368 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v369 (m : (ℓ : Loc nD τ sig) → Buf (Elt F) ℓ) (c : Dev nD) :
    (RefRun.E m c (Proc.devRef .tc main_v369)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v367)) (RefRun.E m c (Proc.devRef .tc main_v368)) :=
  end2 RefRun.hW8 (RefRun.V8 m c) (RefRun.E m c) RefRun.later8 (RefRun.T8 m c) 47 main_v367 main_v368 main_v369 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_146 (m : (ℓ : Loc nD τ sig) → Buf (Elt F) ℓ) (c : Dev nD) :
    (RefRun.E m c (Proc.devRef .tc main_c_146)) = (constantI S_ 32 200000#32) :=
  end0 RefRun.hW8 (RefRun.V8 m c) (RefRun.E m c) RefRun.later8 (RefRun.T8 m c) 48 main_c_146 (constantI S_ 32 200000#32) _ rfl (nk (by decide +kernel))

theorem rd_main_v370 (m : (ℓ : Loc nD τ sig) → Buf (Elt F) ℓ) (c : Dev nD) :
    (RefRun.E m c (Proc.devRef .tc main_v370)) = (broadcastInDim S200000 ![] bcast_S_S200000 : (⟨S_, .i32⟩ : BufTy).Contents (Elt F) → (⟨S200000, .i32⟩ : BufTy).Contents (Elt F)) (RefRun.E m c (Proc.devRef .tc main_c_146)) :=
  end1 RefRun.hW8 (RefRun.V8 m c) (RefRun.E m c) RefRun.later8 (RefRun.T8 m c) 49 main_c_146 main_v370 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v371 (m : (ℓ : Loc nD τ sig) → Buf (Elt F) ℓ) (c : Dev nD) :
    (RefRun.E m c (Proc.devRef .tc main_v371)) = (addi : (⟨S200000, .i32⟩ : BufTy).Contents (Elt F) → (⟨S200000, .i32⟩ : BufTy).Contents (Elt F) → (⟨S200000, .i32⟩ : BufTy).Contents (Elt F)) (RefRun.E m c (Proc.devRef .tc main_v367)) (RefRun.E m c (Proc.devRef .tc main_v370)) :=
  end2 RefRun.hW8 (RefRun.V8 m c) (RefRun.E m c) RefRun.later8 (RefRun.T8 m c) 50 main_v367 main_v370 main_v371 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v372 (m : (ℓ : Loc nD τ sig) → Buf (Elt F) ℓ) (c : Dev nD) :
    (RefRun.E m c (Proc.devRef .tc main_v372)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v369)) (RefRun.E m c (Proc.devRef .tc main_v371)) (RefRun.E m c (Proc.devRef .tc main_v367)) :=
  end3 RefRun.hW8 (RefRun.V8 m c) (RefRun.E m c) RefRun.later8 (RefRun.T8 m c) 51 main_v369 main_v371 main_v367 main_v372 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v373 (m : (ℓ : Loc nD τ sig) → Buf (Elt F) ℓ) (c : Dev nD) :
    (RefRun.E m c (Proc.devRef .tc main_v373)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v372)) :=
  end1 RefRun.hW8 (RefRun.V8 m c) (RefRun.E m c) RefRun.later8 (RefRun.T8 m c) 52 main_v372 main_v373 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v374 (m : (ℓ : Loc nD τ sig) → Buf (Elt F) ℓ) (c : Dev nD) :
    (RefRun.E m c (Proc.devRef .tc main_v374)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v373)) :=
  end2 RefRun.hW8 (RefRun.V8 m c) (RefRun.E m c) RefRun.later8 (RefRun.T8 m c) 53 main_v7 main_v373 main_v374 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_147 (m : (ℓ : Loc nD τ sig) → Buf (Elt F) ℓ) (c : Dev nD) :
    (RefRun.E m c (Proc.devRef .tc main_cst_147)) = (constant S_ .f32 0x00000000#32) :=
  end0 RefRun.hW8 (RefRun.V8 m c) (RefRun.E m c) RefRun.later8 (RefRun.T8 m c) 54 main_cst_147 (constant S_ .f32 0x00000000#32) _ rfl (nk (by decide +kernel))

theorem rd_main_call26_v0 (m : (ℓ : Loc nD τ sig) → Buf (Elt F) ℓ) (c : Dev nD) :
    (RefRun.E m c (Proc.devRef .tc main_call26_v0)) = (id : (⟨S_, .f32⟩ : BufTy).Contents (Elt F) → (⟨S_, .f32⟩ : BufTy).Contents (Elt F)) (RefRun.E m c (Proc.devRef .tc main_cst_147)) :=
  end1 RefRun.hW8 (RefRun.V8 m c) (RefRun.E m c) RefRun.later8 (RefRun.T8 m c) 55 main_cst_147 main_call26_v0 (id : (⟨S_, .f32⟩ : BufTy).Contents (Elt F) → (⟨S_, .f32⟩ : BufTy).Contents (Elt F)) _ _ rfl (nk (by decide +kernel)) (nk (by decide +kernel))

theorem rd_main_call26_v1 (m : (ℓ : Loc nD τ sig) → Buf (Elt F) ℓ) (c : Dev nD) :
    (RefRun.E m c (Proc.devRef .tc main_call26_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v365)) :=
  end1 RefRun.hW8 (RefRun.V8 m c) (RefRun.E m c) RefRun.later8 (RefRun.T8 m c) 56 main_v365 main_call26_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call26_v2 (m : (ℓ : Loc nD τ sig) → Buf (Elt F) ℓ) (c : Dev nD) :
    (RefRun.E m c (Proc.devRef .tc main_call26_v2)) = ((broadcastInDim S200000x64 ![] bcast_S_S200000x64) : (⟨S_, .f32⟩ : BufTy).Contents (Elt F) → (⟨S200000x64, .f32⟩ : BufTy).Contents (Elt F)) (RefRun.E m c (Proc.devRef .tc main_call26_v0)) :=
  end1 RefRun.hW8 (RefRun.V8 m c) (RefRun.E m c) RefRun.later8 (RefRun.T8 m c) 57 main_call26_v0 main_call26_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v375 (m : (ℓ : Loc nD τ sig) → Buf (Elt F) ℓ) (c : Dev nD) :
    (RefRun.E m c (Proc.devRef .tc main_v375)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call26_v1)) (RefRun.E m c (Proc.devRef .tc main_v374)) (RefRun.E m c (Proc.devRef .tc main_call26_v2)) :=
  end3 RefRun.hW8 (RefRun.V8 m c) (RefRun.E m c) RefRun.later8 (RefRun.T8 m c) 58 main_call26_v1 main_v374 main_call26_v2 main_v375 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v376 (m : (ℓ : Loc nD τ sig) → Buf (Elt F) ℓ) (c : Dev nD) :
    (RefRun.E m c (Proc.devRef .tc main_v376)) = ((extractStridedSlice S1x64x64 ![7, 0, 0] · slices_S9x64x64_S1x64x64_7_0_0) : (⟨S9x64x64, .f32⟩ : BufTy).Contents (Elt F) → (⟨S1x64x64, .f32⟩ : BufTy).Contents (Elt F)) (RefRun.E m c (Proc.devRef .tc main_arg3)) :=
  end1 RefRun.hW8 (RefRun.V8 m c) (RefRun.E m c) RefRun.later8 (RefRun.T8 m c) 59 main_arg3 main_v376 ((extractStridedSlice S1x64x64 ![7, 0, 0] · slices_S9x64x64_S1x64x64_7_0_0) : (⟨S9x64x64, .f32⟩ : BufTy).Contents (Elt F) → (⟨S1x64x64, .f32⟩ : BufTy).Contents (Elt F)) _ _ rfl (nk (by decide +kernel)) (nk (by decide +kernel))

theorem rd_main_v377 (m : (ℓ : Loc nD τ sig) → Buf (Elt F) ℓ) (c : Dev nD) :
    (RefRun.E m c (Proc.devRef .tc main_v377)) = RefRun.reshaped main_v376 main_v377 rfl shapeCasts_S1x64x64_S64x64 (RefRun.E m c) :=
  endReshape RefRun.hW8 (RefRun.V8 m c) (RefRun.E m c) RefRun.later8 (RefRun.T8 m c) 60 main_v376 main_v377 rfl shapeCasts_S1x64x64_S64x64 _ _ rfl (nk (by decide +kernel)) (nk (by decide +kernel))

theorem rd_main_v378 (m : (ℓ : Loc nD τ sig) → Buf (Elt F) ℓ) (c : Dev nD) :
    (RefRun.E m c (Proc.devRef .tc main_v378)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v375)) (RefRun.E m c (Proc.devRef .tc main_v377)) :=
  end2 RefRun.hW8 (RefRun.V8 m c) (RefRun.E m c) RefRun.later8 (RefRun.T8 m c) 61 main_v375 main_v377 main_v378 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v379 (m : (ℓ : Loc nD τ sig) → Buf (Elt F) ℓ) (c : Dev nD) :
    (RefRun.E m c (Proc.devRef .tc main_v379)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v334)) (RefRun.E m c (Proc.devRef .tc main_v378)) :=
  end2 RefRun.hW8 (RefRun.V8 m c) (RefRun.E m c) RefRun.later8 (RefRun.T8 m c) 62 main_v334 main_v378 main_v379 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_c_148 (m : (ℓ : Loc nD τ sig) → Buf (Elt F) ℓ) (c : Dev nD) :
    (RefRun.E m c (Proc.devRef .tc main_c_148)) = (constantI S_ 32 1#32) :=
  end0 RefRun.hW8 (RefRun.V8 m c) (RefRun.E m c) RefRun.later8 (RefRun.T8 m c) 63 main_c_148 (constantI S_ 32 1#32) _ rfl (nk (by decide +kernel))

theorem rd_main_v380 (m : (ℓ : Loc nD τ sig) → Buf (Elt F) ℓ) (c : Dev nD) :
    (RefRun.E m c (Proc.devRef .tc main_v380)) = (broadcastInDim S200000 ![] bcast_S_S200000 : (⟨S_, .i32⟩ : BufTy).Contents (Elt F) → (⟨S200000, .i32⟩ : BufTy).Contents (Elt F)) (RefRun.E m c (Proc.devRef .tc main_c_148)) :=
  end1 RefRun.hW8 (RefRun.V8 m c) (RefRun.E m c) RefRun.later8 (RefRun.T8 m c) 64 main_c_148 main_v380 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v381 (m : (ℓ : Loc nD τ sig) → Buf (Elt F) ℓ) (c : Dev nD) :
    (RefRun.E m c (Proc.devRef .tc main_v381)) = (addi : (⟨S200000, .i32⟩ : BufTy).Contents (Elt F) → (⟨S200000, .i32⟩ : BufTy).Contents (Elt F) → (⟨S200000, .i32⟩ : BufTy).Contents (Elt F)) (RefRun.E m c (Proc.devRef .tc main_v17)) (RefRun.E m c (Proc.devRef .tc main_v380)) :=
  end2 RefRun.hW8 (RefRun.V8 m c) (RefRun.E m c) RefRun.later8 (RefRun.T8 m c) 65 main_v17 main_v380 main_v381 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_149 (m : (ℓ : Loc nD τ sig) → Buf (Elt F) ℓ) (c : Dev nD) :
    (RefRun.E m c (Proc.devRef .tc main_c_149)) = (constantI S_ 32 1#32) :=
  end0 RefRun.hW8 (RefRun.V8 m c) (RefRun.E m c) RefRun.later8 (RefRun.T8 m c) 66 main_c_149 (constantI S_ 32 1#32) _ rfl (nk (by decide +kernel))

theorem rd_main_v382 (m : (ℓ : Loc nD τ sig) → Buf (Elt F) ℓ) (c : Dev nD) :
    (RefRun.E m c (Proc.devRef .tc main_v382)) = (broadcastInDim S200000 ![] bcast_S_S200000 : (⟨S_, .i32⟩ : BufTy).Contents (Elt F) → (⟨S200000, .i32⟩ : BufTy).Contents (Elt F)) (RefRun.E m c (Proc.devRef .tc main_c_149)) :=
  end1 RefRun.hW8 (RefRun.V8 m c) (RefRun.E m c) RefRun.later8 (RefRun.T8 m c) 67 main_c_149 main_v382 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v383 (m : (ℓ : Loc nD τ sig) → Buf (Elt F) ℓ) (c : Dev nD) :
    (RefRun.E m c (Proc.devRef .tc main_v383)) = (addi : (⟨S200000, .i32⟩ : BufTy).Contents (Elt F) → (⟨S200000, .i32⟩ : BufTy).Contents (Elt F) → (⟨S200000, .i32⟩ : BufTy).Contents (Elt F)) (RefRun.E m c (Proc.devRef .tc main_v18)) (RefRun.E m c (Proc.devRef .tc main_v382)) :=
  end2 RefRun.hW8 (RefRun.V8 m c) (RefRun.E m c) RefRun.later8 (RefRun.T8 m c) 68 main_v18 main_v382 main_v383 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_150 (m : (ℓ : Loc nD τ sig) → Buf (Elt F) ℓ) (c : Dev nD) :
    (RefRun.E m c (Proc.devRef .tc main_c_150)) = (constantI S_ 32 0#32) :=
  end0 RefRun.hW8 (RefRun.V8 m c) (RefRun.E m c) RefRun.later8 (RefRun.T8 m c) 69 main_c_150 (constantI S_ 32 0#32) _ rfl (nk (by decide +kernel))

theorem rd_main_v384 (m : (ℓ : Loc nD τ sig) → Buf (Elt F) ℓ) (c : Dev nD) :
    (RefRun.E m c (Proc.devRef .tc main_v384)) = (broadcastInDim S200000 ![] bcast_S_S200000 : (⟨S_, .i32⟩ : BufTy).Contents (Elt F) → (⟨S200000, .i32⟩ : BufTy).Contents (Elt F)) (RefRun.E m c (Proc.devRef .tc main_c_150)) :=
  end1 RefRun.hW8 (RefRun.V8 m c) (RefRun.E m c) RefRun.later8 (RefRun.T8 m c) 70 main_c_150 main_v384 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v385 (m : (ℓ : Loc nD τ sig) → Buf (Elt F) ℓ) (c : Dev nD) :
    (RefRun.E m c (Proc.devRef .tc main_v385)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v381)) (RefRun.E m c (Proc.devRef .tc main_v384)) :=
  end2 RefRun.hW8 (RefRun.V8 m c) (RefRun.E m c) RefRun.later8 (RefRun.T8 m c) 71 main_v381 main_v384 main_v385 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_151 (m : (ℓ : Loc nD τ sig) → Buf (Elt F) ℓ) (c : Dev nD) :
    (RefRun.E m c (Proc.devRef .tc main_c_151)) = (constantI S_ 32 768#32) :=
  end0 RefRun.hW8 (RefRun.V8 m c) (RefRun.E m c) RefRun.later8 (RefRun.T8 m c) 72 main_c_151 (constantI S_ 32 768#32) _ rfl (nk (by decide +kernel))

end Cert.ReferenceIdeal.RefRead

end
-- ==== Proof.RefRead9.lean ====
/- Window 9 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v386 (m : (ℓ : Loc nD τ sig) → Buf (Elt F) ℓ) (c : Dev nD) :
    (RefRun.E m c (Proc.devRef .tc main_v386)) = (broadcastInDim S200000 ![] bcast_S_S200000 : (⟨S_, .i32⟩ : BufTy).Contents (Elt F) → (⟨S200000, .i32⟩ : BufTy).Contents (Elt F)) (RefRun.E m c (Proc.devRef .tc main_c_151)) :=
  end1 RefRun.hW9 (RefRun.V9 m c) (RefRun.E m c) RefRun.later9 (RefRun.T9 m c) 0 main_c_151 main_v386 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v387 (m : (ℓ : Loc nD τ sig) → Buf (Elt F) ℓ) (c : Dev nD) :
    (RefRun.E m c (Proc.devRef .tc main_v387)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v381)) (RefRun.E m c (Proc.devRef .tc main_v386)) :=
  end2 RefRun.hW9 (RefRun.V9 m c) (RefRun.E m c) RefRun.later9 (RefRun.T9 m c) 1 main_v381 main_v386 main_v387 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v388 (m : (ℓ : Loc nD τ sig) → Buf (Elt F) ℓ) (c : Dev nD) :
    (RefRun.E m c (Proc.devRef .tc main_v388)) = (andi : (⟨S200000, .i1⟩ : BufTy).Contents (Elt F) → (⟨S200000, .i1⟩ : BufTy).Contents (Elt F) → (⟨S200000, .i1⟩ : BufTy).Contents (Elt F)) (RefRun.E m c (Proc.devRef .tc main_v385)) (RefRun.E m c (Proc.devRef .tc main_v387)) :=
  end2 RefRun.hW9 (RefRun.V9 m c) (RefRun.E m c) RefRun.later9 (RefRun.T9 m c) 2 main_v385 main_v387 main_v388 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_152 (m : (ℓ : Loc nD τ sig) → Buf (Elt F) ℓ) (c : Dev nD) :
    (RefRun.E m c (Proc.devRef .tc main_c_152)) = (constantI S_ 32 0#32) :=
  end0 RefRun.hW9 (RefRun.V9 m c) (RefRun.E m c) RefRun.later9 (RefRun.T9 m c) 3 main_c_152 (constantI S_ 32 0#32) _ rfl (nk (by decide +kernel))

theorem rd_main_v389 (m : (ℓ : Loc nD τ sig) → Buf (Elt F) ℓ) (c : Dev nD) :
    (RefRun.E m c (Proc.devRef .tc main_v389)) = (broadcastInDim S200000 ![] bcast_S_S200000 : (⟨S_, .i32⟩ : BufTy).Contents (Elt F) → (⟨S200000, .i32⟩ : BufTy).Contents (Elt F)) (RefRun.E m c (Proc.devRef .tc main_c_152)) :=
  end1 RefRun.hW9 (RefRun.V9 m c) (RefRun.E m c) RefRun.later9 (RefRun.T9 m c) 4 main_c_152 main_v389 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v390 (m : (ℓ : Loc nD τ sig) → Buf (Elt F) ℓ) (c : Dev nD) :
    (RefRun.E m c (Proc.devRef .tc main_v390)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v383)) (RefRun.E m c (Proc.devRef .tc main_v389)) :=
  end2 RefRun.hW9 (RefRun.V9 m c) (RefRun.E m c) RefRun.later9 (RefRun.T9 m c) 5 main_v383 main_v389 main_v390 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v391 (m : (ℓ : Loc nD τ sig) → Buf (Elt F) ℓ) (c : Dev nD) :
    (RefRun.E m c (Proc.devRef .tc main_v391)) = (andi : (⟨S200000, .i1⟩ : BufTy).Contents (Elt F) → (⟨S200000, .i1⟩ : BufTy).Contents (Elt F) → (⟨S200000, .i1⟩ : BufTy).Contents (Elt F)) (RefRun.E m c (Proc.devRef .tc main_v388)) (RefRun.E m c (Proc.devRef .tc main_v390)) :=
  end2 RefRun.hW9 (RefRun.V9 m c) (RefRun.E m c) RefRun.later9 (RefRun.T9 m c) 6 main_v388 main_v390 main_v391 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_153 (m : (ℓ : Loc nD τ sig) → Buf (Elt F) ℓ) (c : Dev nD) :
    (RefRun.E m c (Proc.devRef .tc main_c_153)) = (constantI S_ 32 768#32) :=
  end0 RefRun.hW9 (RefRun.V9 m c) (RefRun.E m c) RefRun.later9 (RefRun.T9 m c) 7 main_c_153 (constantI S_ 32 768#32) _ rfl (nk (by decide +kernel))

theorem rd_main_v392 (m : (ℓ : Loc nD τ sig) → Buf (Elt F) ℓ) (c : Dev nD) :
    (RefRun.E m c (Proc.devRef .tc main_v392)) = (broadcastInDim S200000 ![] bcast_S_S200000 : (⟨S_, .i32⟩ : BufTy).Contents (Elt F) → (⟨S200000, .i32⟩ : BufTy).Contents (Elt F)) (RefRun.E m c (Proc.devRef .tc main_c_153)) :=
  end1 RefRun.hW9 (RefRun.V9 m c) (RefRun.E m c) RefRun.later9 (RefRun.T9 m c) 8 main_c_153 main_v392 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v393 (m : (ℓ : Loc nD τ sig) → Buf (Elt F) ℓ) (c : Dev nD) :
    (RefRun.E m c (Proc.devRef .tc main_v393)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v383)) (RefRun.E m c (Proc.devRef .tc main_v392)) :=
  end2 RefRun.hW9 (RefRun.V9 m c) (RefRun.E m c) RefRun.later9 (RefRun.T9 m c) 9 main_v383 main_v392 main_v393 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v394 (m : (ℓ : Loc nD τ sig) → Buf (Elt F) ℓ) (c : Dev nD) :
    (RefRun.E m c (Proc.devRef .tc main_v394)) = (andi : (⟨S200000, .i1⟩ : BufTy).Contents (Elt F) → (⟨S200000, .i1⟩ : BufTy).Contents (Elt F) → (⟨S200000, .i1⟩ : BufTy).Contents (Elt F)) (RefRun.E m c (Proc.devRef .tc main_v391)) (RefRun.E m c (Proc.devRef .tc main_v393)) :=
  end2 RefRun.hW9 (RefRun.V9 m c) (RefRun.E m c) RefRun.later9 (RefRun.T9 m c) 10 main_v391 main_v393 main_v394 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_c_154 (m : (ℓ : Loc nD τ sig) → Buf (Elt F) ℓ) (c : Dev nD) :
    (RefRun.E m c (Proc.devRef .tc main_c_154)) = (constantI S_ 32 0#32) :=
  end0 RefRun.hW9 (RefRun.V9 m c) (RefRun.E m c) RefRun.later9 (RefRun.T9 m c) 11 main_c_154 (constantI S_ 32 0#32) _ rfl (nk (by decide +kernel))

theorem rd_main_c_155 (m : (ℓ : Loc nD τ sig) → Buf (Elt F) ℓ) (c : Dev nD) :
    (RefRun.E m c (Proc.devRef .tc main_c_155)) = (constantI S_ 32 767#32) :=
  end0 RefRun.hW9 (RefRun.V9 m c) (RefRun.E m c) RefRun.later9 (RefRun.T9 m c) 12 main_c_155 (constantI S_ 32 767#32) _ rfl (nk (by decide +kernel))

theorem rd_main_call27_v0 (m : (ℓ : Loc nD τ sig) → Buf (Elt F) ℓ) (c : Dev nD) :
    (RefRun.E m c (Proc.devRef .tc main_call27_v0)) = (id : (⟨S_, .i32⟩ : BufTy).Contents (Elt F) → (⟨S_, .i32⟩ : BufTy).Contents (Elt F)) (RefRun.E m c (Proc.devRef .tc main_c_154)) :=
  end1 RefRun.hW9 (RefRun.V9 m c) (RefRun.E m c) RefRun.later9 (RefRun.T9 m c) 13 main_c_154 main_call27_v0 (id : (⟨S_, .i32⟩ : BufTy).Contents (Elt F) → (⟨S_, .i32⟩ : BufTy).Contents (Elt F)) _ _ rfl (nk (by decide +kernel)) (nk (by decide +kernel))

theorem rd_main_call27_v1 (m : (ℓ : Loc nD τ sig) → Buf (Elt F) ℓ) (c : Dev nD) :
    (RefRun.E m c (Proc.devRef .tc main_call27_v1)) = ((broadcastInDim S200000 ![] bcast_S_S200000) : (⟨S_, .i32⟩ : BufTy).Contents (Elt F) → (⟨S200000, .i32⟩ : BufTy).Contents (Elt F)) (RefRun.E m c (Proc.devRef .tc main_call27_v0)) :=
  end1 RefRun.hW9 (RefRun.V9 m c) (RefRun.E m c) RefRun.later9 (RefRun.T9 m c) 14 main_call27_v0 main_call27_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call27_v2 (m : (ℓ : Loc nD τ sig) → Buf (Elt F) ℓ) (c : Dev nD) :
    (RefRun.E m c (Proc.devRef .tc main_call27_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call27_v1)) (RefRun.E m c (Proc.devRef .tc main_v381)) :=
  end2 RefRun.hW9 (RefRun.V9 m c) (RefRun.E m c) RefRun.later9 (RefRun.T9 m c) 15 main_call27_v1 main_v381 main_call27_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call27_v3 (m : (ℓ : Loc nD τ sig) → Buf (Elt F) ℓ) (c : Dev nD) :
    (RefRun.E m c (Proc.devRef .tc main_call27_v3)) = (id : (⟨S_, .i32⟩ : BufTy).Contents (Elt F) → (⟨S_, .i32⟩ : BufTy).Contents (Elt F)) (RefRun.E m c (Proc.devRef .tc main_c_155)) :=
  end1 RefRun.hW9 (RefRun.V9 m c) (RefRun.E m c) RefRun.later9 (RefRun.T9 m c) 16 main_c_155 main_call27_v3 (id : (⟨S_, .i32⟩ : BufTy).Contents (Elt F) → (⟨S_, .i32⟩ : BufTy).Contents (Elt F)) _ _ rfl (nk (by decide +kernel)) (nk (by decide +kernel))

theorem rd_main_call27_v4 (m : (ℓ : Loc nD τ sig) → Buf (Elt F) ℓ) (c : Dev nD) :
    (RefRun.E m c (Proc.devRef .tc main_call27_v4)) = ((broadcastInDim S200000 ![] bcast_S_S200000) : (⟨S_, .i32⟩ : BufTy).Contents (Elt F) → (⟨S200000, .i32⟩ : BufTy).Contents (Elt F)) (RefRun.E m c (Proc.devRef .tc main_call27_v3)) :=
  end1 RefRun.hW9 (RefRun.V9 m c) (RefRun.E m c) RefRun.later9 (RefRun.T9 m c) 17 main_call27_v3 main_call27_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v395 (m : (ℓ : Loc nD τ sig) → Buf (Elt F) ℓ) (c : Dev nD) :
    (RefRun.E m c (Proc.devRef .tc main_v395)) = (minsi : (⟨S200000, .i32⟩ : BufTy).Contents (Elt F) → (⟨S200000, .i32⟩ : BufTy).Contents (Elt F) → (⟨S200000, .i32⟩ : BufTy).Contents (Elt F)) (RefRun.E m c (Proc.devRef .tc main_call27_v4)) (RefRun.E m c (Proc.devRef .tc main_call27_v2)) :=
  end2 RefRun.hW9 (RefRun.V9 m c) (RefRun.E m c) RefRun.later9 (RefRun.T9 m c) 18 main_call27_v4 main_call27_v2 main_v395 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_156 (m : (ℓ : Loc nD τ sig) → Buf (Elt F) ℓ) (c : Dev nD) :
    (RefRun.E m c (Proc.devRef .tc main_c_156)) = (constantI S_ 32 768#32) :=
  end0 RefRun.hW9 (RefRun.V9 m c) (RefRun.E m c) RefRun.later9 (RefRun.T9 m c) 19 main_c_156 (constantI S_ 32 768#32) _ rfl (nk (by decide +kernel))

theorem rd_main_v396 (m : (ℓ : Loc nD τ sig) → Buf (Elt F) ℓ) (c : Dev nD) :
    (RefRun.E m c (Proc.devRef .tc main_v396)) = (broadcastInDim S200000 ![] bcast_S_S200000 : (⟨S_, .i32⟩ : BufTy).Contents (Elt F) → (⟨S200000, .i32⟩ : BufTy).Contents (Elt F)) (RefRun.E m c (Proc.devRef .tc main_c_156)) :=
  end1 RefRun.hW9 (RefRun.V9 m c) (RefRun.E m c) RefRun.later9 (RefRun.T9 m c) 20 main_c_156 main_v396 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v397 (m : (ℓ : Loc nD τ sig) → Buf (Elt F) ℓ) (c : Dev nD) :
    (RefRun.E m c (Proc.devRef .tc main_v397)) = (muli : (⟨S200000, .i32⟩ : BufTy).Contents (Elt F) → (⟨S200000, .i32⟩ : BufTy).Contents (Elt F) → (⟨S200000, .i32⟩ : BufTy).Contents (Elt F)) (RefRun.E m c (Proc.devRef .tc main_v395)) (RefRun.E m c (Proc.devRef .tc main_v396)) :=
  end2 RefRun.hW9 (RefRun.V9 m c) (RefRun.E m c) RefRun.later9 (RefRun.T9 m c) 21 main_v395 main_v396 main_v397 (muli : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_157 (m : (ℓ : Loc nD τ sig) → Buf (Elt F) ℓ) (c : Dev nD) :
    (RefRun.E m c (Proc.devRef .tc main_c_157)) = (constantI S_ 32 0#32) :=
  end0 RefRun.hW9 (RefRun.V9 m c) (RefRun.E m c) RefRun.later9 (RefRun.T9 m c) 22 main_c_157 (constantI S_ 32 0#32) _ rfl (nk (by decide +kernel))

theorem rd_main_c_158 (m : (ℓ : Loc nD τ sig) → Buf (Elt F) ℓ) (c : Dev nD) :
    (RefRun.E m c (Proc.devRef .tc main_c_158)) = (constantI S_ 32 767#32) :=
  end0 RefRun.hW9 (RefRun.V9 m c) (RefRun.E m c) RefRun.later9 (RefRun.T9 m c) 23 main_c_158 (constantI S_ 32 767#32) _ rfl (nk (by decide +kernel))

theorem rd_main_call28_v0 (m : (ℓ : Loc nD τ sig) → Buf (Elt F) ℓ) (c : Dev nD) :
    (RefRun.E m c (Proc.devRef .tc main_call28_v0)) = (id : (⟨S_, .i32⟩ : BufTy).Contents (Elt F) → (⟨S_, .i32⟩ : BufTy).Contents (Elt F)) (RefRun.E m c (Proc.devRef .tc main_c_157)) :=
  end1 RefRun.hW9 (RefRun.V9 m c) (RefRun.E m c) RefRun.later9 (RefRun.T9 m c) 24 main_c_157 main_call28_v0 (id : (⟨S_, .i32⟩ : BufTy).Contents (Elt F) → (⟨S_, .i32⟩ : BufTy).Contents (Elt F)) _ _ rfl (nk (by decide +kernel)) (nk (by decide +kernel))

theorem rd_main_call28_v1 (m : (ℓ : Loc nD τ sig) → Buf (Elt F) ℓ) (c : Dev nD) :
    (RefRun.E m c (Proc.devRef .tc main_call28_v1)) = ((broadcastInDim S200000 ![] bcast_S_S200000) : (⟨S_, .i32⟩ : BufTy).Contents (Elt F) → (⟨S200000, .i32⟩ : BufTy).Contents (Elt F)) (RefRun.E m c (Proc.devRef .tc main_call28_v0)) :=
  end1 RefRun.hW9 (RefRun.V9 m c) (RefRun.E m c) RefRun.later9 (RefRun.T9 m c) 25 main_call28_v0 main_call28_v1 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_call28_v2 (m : (ℓ : Loc nD τ sig) → Buf (Elt F) ℓ) (c : Dev nD) :
    (RefRun.E m c (Proc.devRef .tc main_call28_v2)) = (maxsi : (⟨S200000, .i32⟩ : BufTy).Contents (Elt F) → (⟨S200000, .i32⟩ : BufTy).Contents (Elt F) → (⟨S200000, .i32⟩ : BufTy).Contents (Elt F)) (RefRun.E m c (Proc.devRef .tc main_call28_v1)) (RefRun.E m c (Proc.devRef .tc main_v383)) :=
  end2 RefRun.hW9 (RefRun.V9 m c) (RefRun.E m c) RefRun.later9 (RefRun.T9 m c) 26 main_call28_v1 main_v383 main_call28_v2 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_call28_v3 (m : (ℓ : Loc nD τ sig) → Buf (Elt F) ℓ) (c : Dev nD) :
    (RefRun.E m c (Proc.devRef .tc main_call28_v3)) = (id : (⟨S_, .i32⟩ : BufTy).Contents (Elt F) → (⟨S_, .i32⟩ : BufTy).Contents (Elt F)) (RefRun.E m c (Proc.devRef .tc main_c_158)) :=
  end1 RefRun.hW9 (RefRun.V9 m c) (RefRun.E m c) RefRun.later9 (RefRun.T9 m c) 27 main_c_158 main_call28_v3 (id : (⟨S_, .i32⟩ : BufTy).Contents (Elt F) → (⟨S_, .i32⟩ : BufTy).Contents (Elt F)) _ _ rfl (nk (by decide +kernel)) (nk (by decide +kernel))

theorem rd_main_call28_v4 (m : (ℓ : Loc nD τ sig) → Buf (Elt F) ℓ) (c : Dev nD) :
    (RefRun.E m c (Proc.devRef .tc main_call28_v4)) = ((broadcastInDim S200000 ![] bcast_S_S200000) : (⟨S_, .i32⟩ : BufTy).Contents (Elt F) → (⟨S200000, .i32⟩ : BufTy).Contents (Elt F)) (RefRun.E m c (Proc.devRef .tc main_call28_v3)) :=
  end1 RefRun.hW9 (RefRun.V9 m c) (RefRun.E m c) RefRun.later9 (RefRun.T9 m c) 28 main_call28_v3 main_call28_v4 ((broadcastInDim S200000 ![] bcast_S_S200000) : (⟨S_, .i32⟩ : BufTy).Contents (Elt F) → (⟨S200000, .i32⟩ : BufTy).Contents (Elt F)) _ _ rfl (nk (by decide +kernel)) (nk (by decide +kernel))

theorem rd_main_v398 (m : (ℓ : Loc nD τ sig) → Buf (Elt F) ℓ) (c : Dev nD) :
    (RefRun.E m c (Proc.devRef .tc main_v398)) = (minsi : (⟨S200000, .i32⟩ : BufTy).Contents (Elt F) → (⟨S200000, .i32⟩ : BufTy).Contents (Elt F) → (⟨S200000, .i32⟩ : BufTy).Contents (Elt F)) (RefRun.E m c (Proc.devRef .tc main_call28_v4)) (RefRun.E m c (Proc.devRef .tc main_call28_v2)) :=
  end2 RefRun.hW9 (RefRun.V9 m c) (RefRun.E m c) RefRun.later9 (RefRun.T9 m c) 29 main_call28_v4 main_call28_v2 main_v398 (minsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v399 (m : (ℓ : Loc nD τ sig) → Buf (Elt F) ℓ) (c : Dev nD) :
    (RefRun.E m c (Proc.devRef .tc main_v399)) = (addi : (⟨S200000, .i32⟩ : BufTy).Contents (Elt F) → (⟨S200000, .i32⟩ : BufTy).Contents (Elt F) → (⟨S200000, .i32⟩ : BufTy).Contents (Elt F)) (RefRun.E m c (Proc.devRef .tc main_v397)) (RefRun.E m c (Proc.devRef .tc main_v398)) :=
  end2 RefRun.hW9 (RefRun.V9 m c) (RefRun.E m c) RefRun.later9 (RefRun.T9 m c) 30 main_v397 main_v398 main_v399 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_159 (m : (ℓ : Loc nD τ sig) → Buf (Elt F) ℓ) (c : Dev nD) :
    (RefRun.E m c (Proc.devRef .tc main_c_159)) = (constantI S_ 32 0#32) :=
  end0 RefRun.hW9 (RefRun.V9 m c) (RefRun.E m c) RefRun.later9 (RefRun.T9 m c) 31 main_c_159 (constantI S_ 32 0#32) _ rfl (nk (by decide +kernel))

theorem rd_main_v400 (m : (ℓ : Loc nD τ sig) → Buf (Elt F) ℓ) (c : Dev nD) :
    (RefRun.E m c (Proc.devRef .tc main_v400)) = (broadcastInDim S200000 ![] bcast_S_S200000 : (⟨S_, .i32⟩ : BufTy).Contents (Elt F) → (⟨S200000, .i32⟩ : BufTy).Contents (Elt F)) (RefRun.E m c (Proc.devRef .tc main_c_159)) :=
  end1 RefRun.hW9 (RefRun.V9 m c) (RefRun.E m c) RefRun.later9 (RefRun.T9 m c) 32 main_c_159 main_v400 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v401 (m : (ℓ : Loc nD τ sig) → Buf (Elt F) ℓ) (c : Dev nD) :
    (RefRun.E m c (Proc.devRef .tc main_v401)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v399)) (RefRun.E m c (Proc.devRef .tc main_v400)) :=
  end2 RefRun.hW9 (RefRun.V9 m c) (RefRun.E m c) RefRun.later9 (RefRun.T9 m c) 33 main_v399 main_v400 main_v401 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_160 (m : (ℓ : Loc nD τ sig) → Buf (Elt F) ℓ) (c : Dev nD) :
    (RefRun.E m c (Proc.devRef .tc main_c_160)) = (constantI S_ 32 589824#32) :=
  end0 RefRun.hW9 (RefRun.V9 m c) (RefRun.E m c) RefRun.later9 (RefRun.T9 m c) 34 main_c_160 (constantI S_ 32 589824#32) _ rfl (nk (by decide +kernel))

theorem rd_main_v402 (m : (ℓ : Loc nD τ sig) → Buf (Elt F) ℓ) (c : Dev nD) :
    (RefRun.E m c (Proc.devRef .tc main_v402)) = (broadcastInDim S200000 ![] bcast_S_S200000 : (⟨S_, .i32⟩ : BufTy).Contents (Elt F) → (⟨S200000, .i32⟩ : BufTy).Contents (Elt F)) (RefRun.E m c (Proc.devRef .tc main_c_160)) :=
  end1 RefRun.hW9 (RefRun.V9 m c) (RefRun.E m c) RefRun.later9 (RefRun.T9 m c) 35 main_c_160 main_v402 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v403 (m : (ℓ : Loc nD τ sig) → Buf (Elt F) ℓ) (c : Dev nD) :
    (RefRun.E m c (Proc.devRef .tc main_v403)) = (addi : (⟨S200000, .i32⟩ : BufTy).Contents (Elt F) → (⟨S200000, .i32⟩ : BufTy).Contents (Elt F) → (⟨S200000, .i32⟩ : BufTy).Contents (Elt F)) (RefRun.E m c (Proc.devRef .tc main_v399)) (RefRun.E m c (Proc.devRef .tc main_v402)) :=
  end2 RefRun.hW9 (RefRun.V9 m c) (RefRun.E m c) RefRun.later9 (RefRun.T9 m c) 36 main_v399 main_v402 main_v403 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v404 (m : (ℓ : Loc nD τ sig) → Buf (Elt F) ℓ) (c : Dev nD) :
    (RefRun.E m c (Proc.devRef .tc main_v404)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v401)) (RefRun.E m c (Proc.devRef .tc main_v403)) (RefRun.E m c (Proc.devRef .tc main_v399)) :=
  end3 RefRun.hW9 (RefRun.V9 m c) (RefRun.E m c) RefRun.later9 (RefRun.T9 m c) 37 main_v401 main_v403 main_v399 main_v404 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v405 (m : (ℓ : Loc nD τ sig) → Buf (Elt F) ℓ) (c : Dev nD) :
    (RefRun.E m c (Proc.devRef .tc main_v405)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v404)) :=
  end1 RefRun.hW9 (RefRun.V9 m c) (RefRun.E m c) RefRun.later9 (RefRun.T9 m c) 38 main_v404 main_v405 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v406 (m : (ℓ : Loc nD τ sig) → Buf (Elt F) ℓ) (c : Dev nD) :
    (RefRun.E m c (Proc.devRef .tc main_v406)) = ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) (RefRun.E m c (Proc.devRef .tc main_v16)) (RefRun.E m c (Proc.devRef .tc main_v405)) :=
  end2 RefRun.hW9 (RefRun.V9 m c) (RefRun.E m c) RefRun.later9 (RefRun.T9 m c) 39 main_v16 main_v405 main_v406 ((fun x i => Host.gather gather_S589824_S200000x1_S200000_n_0_n_n_0_1_1 x i) : (⟨S589824, .i32⟩ : BufTy).Contents (Elt F) → (⟨S200000x1, .i32⟩ : BufTy).Contents (Elt F) → (⟨S200000, .i32⟩ : BufTy).Contents (Elt F)) _ _ _ rfl (nk (by decide +kernel)) (nk (by decide +kernel)) (nk (by decide +kernel))

theorem rd_main_c_161 (m : (ℓ : Loc nD τ sig) → Buf (Elt F) ℓ) (c : Dev nD) :
    (RefRun.E m c (Proc.devRef .tc main_c_161)) = (constantI S_ 32 0#32) :=
  end0 RefRun.hW9 (RefRun.V9 m c) (RefRun.E m c) RefRun.later9 (RefRun.T9 m c) 40 main_c_161 (constantI S_ 32 0#32) _ rfl (nk (by decide +kernel))

theorem rd_main_v407 (m : (ℓ : Loc nD τ sig) → Buf (Elt F) ℓ) (c : Dev nD) :
    (RefRun.E m c (Proc.devRef .tc main_v407)) = (broadcastInDim S200000 ![] bcast_S_S200000 : (⟨S_, .i32⟩ : BufTy).Contents (Elt F) → (⟨S200000, .i32⟩ : BufTy).Contents (Elt F)) (RefRun.E m c (Proc.devRef .tc main_c_161)) :=
  end1 RefRun.hW9 (RefRun.V9 m c) (RefRun.E m c) RefRun.later9 (RefRun.T9 m c) 41 main_c_161 main_v407 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v408 (m : (ℓ : Loc nD τ sig) → Buf (Elt F) ℓ) (c : Dev nD) :
    (RefRun.E m c (Proc.devRef .tc main_v408)) = (cmpi .sge : (⟨S200000, .i32⟩ : BufTy).Contents (Elt F) → (⟨S200000, .i32⟩ : BufTy).Contents (Elt F) → (⟨S200000, .i1⟩ : BufTy).Contents (Elt F)) (RefRun.E m c (Proc.devRef .tc main_v406)) (RefRun.E m c (Proc.devRef .tc main_v407)) :=
  end2 RefRun.hW9 (RefRun.V9 m c) (RefRun.E m c) RefRun.later9 (RefRun.T9 m c) 42 main_v406 main_v407 main_v408 (cmpi .sge : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_v409 (m : (ℓ : Loc nD τ sig) → Buf (Elt F) ℓ) (c : Dev nD) :
    (RefRun.E m c (Proc.devRef .tc main_v409)) = (andi : (⟨S200000, .i1⟩ : BufTy).Contents (Elt F) → (⟨S200000, .i1⟩ : BufTy).Contents (Elt F) → (⟨S200000, .i1⟩ : BufTy).Contents (Elt F)) (RefRun.E m c (Proc.devRef .tc main_v394)) (RefRun.E m c (Proc.devRef .tc main_v408)) :=
  end2 RefRun.hW9 (RefRun.V9 m c) (RefRun.E m c) RefRun.later9 (RefRun.T9 m c) 43 main_v394 main_v408 main_v409 (andi : (⟨S200000, .i1⟩ : BufTy).Contents (Elt F) → (⟨S200000, .i1⟩ : BufTy).Contents (Elt F) → (⟨S200000, .i1⟩ : BufTy).Contents (Elt F)) _ _ _ rfl (nk (by decide +kernel)) (nk (by decide +kernel)) (nk (by decide +kernel))

theorem rd_main_v410 (m : (ℓ : Loc nD τ sig) → Buf (Elt F) ℓ) (c : Dev nD) :
    (RefRun.E m c (Proc.devRef .tc main_v410)) = (broadcastInDim S200000x1 ![0] bcast_S200000_S200000x1_0 : (⟨S200000, .i1⟩ : BufTy).Contents (Elt F) → (⟨S200000x1, .i1⟩ : BufTy).Contents (Elt F)) (RefRun.E m c (Proc.devRef .tc main_v409)) :=
  end1 RefRun.hW9 (RefRun.V9 m c) (RefRun.E m c) RefRun.later9 (RefRun.T9 m c) 44 main_v409 main_v410 (broadcastInDim S200000x1 ![0] bcast_S200000_S200000x1_0 : (⟨S200000, .i1⟩ : BufTy).Contents (Elt F) → (⟨S200000x1, .i1⟩ : BufTy).Contents (Elt F)) _ _ rfl (nk (by decide +kernel)) (nk (by decide +kernel))

theorem rd_main_c_162 (m : (ℓ : Loc nD τ sig) → Buf (Elt F) ℓ) (c : Dev nD) :
    (RefRun.E m c (Proc.devRef .tc main_c_162)) = (constantI S_ 32 0#32) :=
  end0 RefRun.hW9 (RefRun.V9 m c) (RefRun.E m c) RefRun.later9 (RefRun.T9 m c) 45 main_c_162 (constantI S_ 32 0#32) _ rfl (nk (by decide +kernel))

theorem rd_main_v411 (m : (ℓ : Loc nD τ sig) → Buf (Elt F) ℓ) (c : Dev nD) :
    (RefRun.E m c (Proc.devRef .tc main_v411)) = (broadcastInDim S200000 ![] bcast_S_S200000 : (⟨S_, .i32⟩ : BufTy).Contents (Elt F) → (⟨S200000, .i32⟩ : BufTy).Contents (Elt F)) (RefRun.E m c (Proc.devRef .tc main_c_162)) :=
  end1 RefRun.hW9 (RefRun.V9 m c) (RefRun.E m c) RefRun.later9 (RefRun.T9 m c) 46 main_c_162 main_v411 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v412 (m : (ℓ : Loc nD τ sig) → Buf (Elt F) ℓ) (c : Dev nD) :
    (RefRun.E m c (Proc.devRef .tc main_v412)) = (maxsi : (⟨S200000, .i32⟩ : BufTy).Contents (Elt F) → (⟨S200000, .i32⟩ : BufTy).Contents (Elt F) → (⟨S200000, .i32⟩ : BufTy).Contents (Elt F)) (RefRun.E m c (Proc.devRef .tc main_v406)) (RefRun.E m c (Proc.devRef .tc main_v411)) :=
  end2 RefRun.hW9 (RefRun.V9 m c) (RefRun.E m c) RefRun.later9 (RefRun.T9 m c) 47 main_v406 main_v411 main_v412 (maxsi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_c_163 (m : (ℓ : Loc nD τ sig) → Buf (Elt F) ℓ) (c : Dev nD) :
    (RefRun.E m c (Proc.devRef .tc main_c_163)) = (constantI S_ 32 0#32) :=
  end0 RefRun.hW9 (RefRun.V9 m c) (RefRun.E m c) RefRun.later9 (RefRun.T9 m c) 48 main_c_163 (constantI S_ 32 0#32) _ rfl (nk (by decide +kernel))

theorem rd_main_v413 (m : (ℓ : Loc nD τ sig) → Buf (Elt F) ℓ) (c : Dev nD) :
    (RefRun.E m c (Proc.devRef .tc main_v413)) = (broadcastInDim S200000 ![] bcast_S_S200000 : (⟨S_, .i32⟩ : BufTy).Contents (Elt F) → (⟨S200000, .i32⟩ : BufTy).Contents (Elt F)) (RefRun.E m c (Proc.devRef .tc main_c_163)) :=
  end1 RefRun.hW9 (RefRun.V9 m c) (RefRun.E m c) RefRun.later9 (RefRun.T9 m c) 49 main_c_163 main_v413 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v414 (m : (ℓ : Loc nD τ sig) → Buf (Elt F) ℓ) (c : Dev nD) :
    (RefRun.E m c (Proc.devRef .tc main_v414)) = (cmpi .slt : (⟨S200000, .i32⟩ : BufTy).Contents (Elt F) → (⟨S200000, .i32⟩ : BufTy).Contents (Elt F) → (⟨S200000, .i1⟩ : BufTy).Contents (Elt F)) (RefRun.E m c (Proc.devRef .tc main_v412)) (RefRun.E m c (Proc.devRef .tc main_v413)) :=
  end2 RefRun.hW9 (RefRun.V9 m c) (RefRun.E m c) RefRun.later9 (RefRun.T9 m c) 50 main_v412 main_v413 main_v414 (cmpi .slt : (⟨S200000, .i32⟩ : BufTy).Contents (Elt F) → (⟨S200000, .i32⟩ : BufTy).Contents (Elt F) → (⟨S200000, .i1⟩ : BufTy).Contents (Elt F)) _ _ _ rfl (nk (by decide +kernel)) (nk (by decide +kernel)) (nk (by decide +kernel))

theorem rd_main_c_164 (m : (ℓ : Loc nD τ sig) → Buf (Elt F) ℓ) (c : Dev nD) :
    (RefRun.E m c (Proc.devRef .tc main_c_164)) = (constantI S_ 32 200000#32) :=
  end0 RefRun.hW9 (RefRun.V9 m c) (RefRun.E m c) RefRun.later9 (RefRun.T9 m c) 51 main_c_164 (constantI S_ 32 200000#32) _ rfl (nk (by decide +kernel))

theorem rd_main_v415 (m : (ℓ : Loc nD τ sig) → Buf (Elt F) ℓ) (c : Dev nD) :
    (RefRun.E m c (Proc.devRef .tc main_v415)) = (broadcastInDim S200000 ![] bcast_S_S200000 : (⟨S_, .i32⟩ : BufTy).Contents (Elt F) → (⟨S200000, .i32⟩ : BufTy).Contents (Elt F)) (RefRun.E m c (Proc.devRef .tc main_c_164)) :=
  end1 RefRun.hW9 (RefRun.V9 m c) (RefRun.E m c) RefRun.later9 (RefRun.T9 m c) 52 main_c_164 main_v415 (broadcastInDim S200000 ![] bcast_S_S200000 : (⟨S_, .i32⟩ : BufTy).Contents (Elt F) → (⟨S200000, .i32⟩ : BufTy).Contents (Elt F)) _ _ rfl (nk (by decide +kernel)) (nk (by decide +kernel))

theorem rd_main_v416 (m : (ℓ : Loc nD τ sig) → Buf (Elt F) ℓ) (c : Dev nD) :
    (RefRun.E m c (Proc.devRef .tc main_v416)) = (addi : (⟨S200000, .i32⟩ : BufTy).Contents (Elt F) → (⟨S200000, .i32⟩ : BufTy).Contents (Elt F) → (⟨S200000, .i32⟩ : BufTy).Contents (Elt F)) (RefRun.E m c (Proc.devRef .tc main_v412)) (RefRun.E m c (Proc.devRef .tc main_v415)) :=
  end2 RefRun.hW9 (RefRun.V9 m c) (RefRun.E m c) RefRun.later9 (RefRun.T9 m c) 53 main_v412 main_v415 main_v416 (addi : (⟨S200000, .i32⟩ : BufTy).Contents (Elt F) → (⟨S200000, .i32⟩ : BufTy).Contents (Elt F) → (⟨S200000, .i32⟩ : BufTy).Contents (Elt F)) _ _ _ rfl (nk (by decide +kernel)) (nk (by decide +kernel)) (nk (by decide +kernel))

theorem rd_main_v417 (m : (ℓ : Loc nD τ sig) → Buf (Elt F) ℓ) (c : Dev nD) :
    (RefRun.E m c (Proc.devRef .tc main_v417)) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (RefRun.E m c (Proc.devRef .tc main_v414)) (RefRun.E m c (Proc.devRef .tc main_v416)) (RefRun.E m c (Proc.devRef .tc main_v412)) :=
  end3 RefRun.hW9 (RefRun.V9 m c) (RefRun.E m c) RefRun.later9 (RefRun.T9 m c) 54 main_v414 main_v416 main_v412 main_v417 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) _ _ _ _ rfl (nk (by decide +kernel)) (nk (by decide +kernel)) (nk (by decide +kernel)) (nk (by decide +kernel))

theorem rd_main_v418 (m : (ℓ : Loc nD τ sig) → Buf (Elt F) ℓ) (c : Dev nD) :
    (RefRun.E m c (Proc.devRef .tc main_v418)) = (broadcastInDim S200000x1 ![0] bcast_S200000_S200000x1_0 : (⟨S200000, .i32⟩ : BufTy).Contents (Elt F) → (⟨S200000x1, .i32⟩ : BufTy).Contents (Elt F)) (RefRun.E m c (Proc.devRef .tc main_v417)) :=
  end1 RefRun.hW9 (RefRun.V9 m c) (RefRun.E m c) RefRun.later9 (RefRun.T9 m c) 55 main_v417 main_v418 (broadcastInDim S200000x1 ![0] bcast_S200000_S200000x1_0 : (⟨S200000, .i32⟩ : BufTy).Contents (Elt F) → (⟨S200000x1, .i32⟩ : BufTy).Contents (Elt F)) _ _ rfl (nk (by decide +kernel)) (nk (by decide +kernel))

theorem rd_main_v419 (m : (ℓ : Loc nD τ sig) → Buf (Elt F) ℓ) (c : Dev nD) :
    (RefRun.E m c (Proc.devRef .tc main_v419)) = ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) (RefRun.E m c (Proc.devRef .tc main_v7)) (RefRun.E m c (Proc.devRef .tc main_v418)) :=
  end2 RefRun.hW9 (RefRun.V9 m c) (RefRun.E m c) RefRun.later9 (RefRun.T9 m c) 56 main_v7 main_v418 main_v419 ((fun x i => Host.gather gather_S200000x64_S200000x1_S200000x64_1_0_n_n_0_1_164 x i) : (⟨S200000x64, .f32⟩ : BufTy).Contents (Elt F) → (⟨S200000x1, .i32⟩ : BufTy).Contents (Elt F) → (⟨S200000x64, .f32⟩ : BufTy).Contents (Elt F)) _ _ _ rfl (nk (by decide +kernel)) (nk (by decide +kernel)) (nk (by decide +kernel))

theorem rd_main_cst_165 (m : (ℓ : Loc nD τ sig) → Buf (Elt F) ℓ) (c : Dev nD) :
    (RefRun.E m c (Proc.devRef .tc main_cst_165)) = (constant S_ .f32 0x00000000#32) :=
  end0 RefRun.hW9 (RefRun.V9 m c) (RefRun.E m c) RefRun.later9 (RefRun.T9 m c) 57 main_cst_165 (constant S_ .f32 0x00000000#32) _ rfl (nk (by decide +kernel))

theorem rd_main_call29_v0 (m : (ℓ : Loc nD τ sig) → Buf (Elt F) ℓ) (c : Dev nD) :
    (RefRun.E m c (Proc.devRef .tc main_call29_v0)) = (id : (⟨S_, .f32⟩ : BufTy).Contents (Elt F) → (⟨S_, .f32⟩ : BufTy).Contents (Elt F)) (RefRun.E m c (Proc.devRef .tc main_cst_165)) :=
  end1 RefRun.hW9 (RefRun.V9 m c) (RefRun.E m c) RefRun.later9 (RefRun.T9 m c) 58 main_cst_165 main_call29_v0 (id : (⟨S_, .f32⟩ : BufTy).Contents (Elt F) → (⟨S_, .f32⟩ : BufTy).Contents (Elt F)) _ _ rfl (nk (by decide +kernel)) (nk (by decide +kernel))

theorem rd_main_call29_v1 (m : (ℓ : Loc nD τ sig) → Buf (Elt F) ℓ) (c : Dev nD) :
    (RefRun.E m c (Proc.devRef .tc main_call29_v1)) = ((broadcastInDim S200000x64 ![0, 1] bcast_S200000x1_S200000x64_0_1) : (⟨S200000x1, .i1⟩ : BufTy).Contents (Elt F) → (⟨S200000x64, .i1⟩ : BufTy).Contents (Elt F)) (RefRun.E m c (Proc.devRef .tc main_v410)) :=
  end1 RefRun.hW9 (RefRun.V9 m c) (RefRun.E m c) RefRun.later9 (RefRun.T9 m c) 59 main_v410 main_call29_v1 ((broadcastInDim S200000x64 ![0, 1] bcast_S200000x1_S200000x64_0_1) : (⟨S200000x1, .i1⟩ : BufTy).Contents (Elt F) → (⟨S200000x64, .i1⟩ : BufTy).Contents (Elt F)) _ _ rfl (nk (by decide +kernel)) (nk (by decide +kernel))

theorem rd_main_call29_v2 (m : (ℓ : Loc nD τ sig) → Buf (Elt F) ℓ) (c : Dev nD) :
    (RefRun.E m c (Proc.devRef .tc main_call29_v2)) = ((broadcastInDim S200000x64 ![] bcast_S_S200000x64) : (⟨S_, .f32⟩ : BufTy).Contents (Elt F) → (⟨S200000x64, .f32⟩ : BufTy).Contents (Elt F)) (RefRun.E m c (Proc.devRef .tc main_call29_v0)) :=
  end1 RefRun.hW9 (RefRun.V9 m c) (RefRun.E m c) RefRun.later9 (RefRun.T9 m c) 60 main_call29_v0 main_call29_v2 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v420 (m : (ℓ : Loc nD τ sig) → Buf (Elt F) ℓ) (c : Dev nD) :
    (RefRun.E m c (Proc.devRef .tc main_v420)) = (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) (RefRun.E m c (Proc.devRef .tc main_call29_v1)) (RefRun.E m c (Proc.devRef .tc main_v419)) (RefRun.E m c (Proc.devRef .tc main_call29_v2)) :=
  end3 RefRun.hW9 (RefRun.V9 m c) (RefRun.E m c) RefRun.later9 (RefRun.T9 m c) 61 main_call29_v1 main_v419 main_call29_v2 main_v420 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) _ _ _ _ rfl (nk (by decide +kernel)) (nk (by decide +kernel)) (nk (by decide +kernel)) (nk (by decide +kernel))

theorem rd_main_v421 (m : (ℓ : Loc nD τ sig) → Buf (Elt F) ℓ) (c : Dev nD) :
    (RefRun.E m c (Proc.devRef .tc main_v421)) = ((extractStridedSlice S1x64x64 ![8, 0, 0] · slices_S9x64x64_S1x64x64_8_0_0) : (⟨S9x64x64, .f32⟩ : BufTy).Contents (Elt F) → (⟨S1x64x64, .f32⟩ : BufTy).Contents (Elt F)) (RefRun.E m c (Proc.devRef .tc main_arg3)) :=
  end1 RefRun.hW9 (RefRun.V9 m c) (RefRun.E m c) RefRun.later9 (RefRun.T9 m c) 62 main_arg3 main_v421 ((extractStridedSlice S1x64x64 ![8, 0, 0] · slices_S9x64x64_S1x64x64_8_0_0) : (⟨S9x64x64, .f32⟩ : BufTy).Contents (Elt F) → (⟨S1x64x64, .f32⟩ : BufTy).Contents (Elt F)) _ _ rfl (nk (by decide +kernel)) (nk (by decide +kernel))

theorem rd_main_v422 (m : (ℓ : Loc nD τ sig) → Buf (Elt F) ℓ) (c : Dev nD) :
    (RefRun.E m c (Proc.devRef .tc main_v422)) = RefRun.reshaped main_v421 main_v422 rfl shapeCasts_S1x64x64_S64x64 (RefRun.E m c) :=
  endReshape RefRun.hW9 (RefRun.V9 m c) (RefRun.E m c) RefRun.later9 (RefRun.T9 m c) 63 main_v421 main_v422 rfl shapeCasts_S1x64x64_S64x64 _ _ rfl (nk (by decide +kernel)) (nk (by decide +kernel))

theorem rd_main_v423 (m : (ℓ : Loc nD τ sig) → Buf (Elt F) ℓ) (c : Dev nD) :
    (RefRun.E m c (Proc.devRef .tc main_v423)) = ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) (RefRun.E m c (Proc.devRef .tc main_v420)) (RefRun.E m c (Proc.devRef .tc main_v422)) :=
  end2 RefRun.hW9 (RefRun.V9 m c) (RefRun.E m c) RefRun.later9 (RefRun.T9 m c) 64 main_v420 main_v422 main_v423 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) _ _ _ rfl (nk (by decide +kernel)) (nk (by decide +kernel)) (nk (by decide +kernel))

theorem rd_main_v424 (m : (ℓ : Loc nD τ sig) → Buf (Elt F) ℓ) (c : Dev nD) :
    (RefRun.E m c (Proc.devRef .tc main_v424)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v379)) (RefRun.E m c (Proc.devRef .tc main_v423)) :=
  end2 RefRun.hW9 (RefRun.V9 m c) (RefRun.E m c) RefRun.later9 (RefRun.T9 m c) 65 main_v379 main_v423 main_v424 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_v425 (m : (ℓ : Loc nD τ sig) → Buf (Elt F) ℓ) (c : Dev nD) :
    (RefRun.E m c (Proc.devRef .tc main_v425)) = (broadcastInDim S1x64 ![1] bcast_S64_S1x64_1 : (⟨S64, .f32⟩ : BufTy).Contents (Elt F) → (⟨S1x64, .f32⟩ : BufTy).Contents (Elt F)) (RefRun.E m c (Proc.devRef .tc main_arg7)) :=
  end1 RefRun.hW9 (RefRun.V9 m c) (RefRun.E m c) RefRun.later9 (RefRun.T9 m c) 66 main_arg7 main_v425 (broadcastInDim S1x64 ![1] bcast_S64_S1x64_1 : (⟨S64, .f32⟩ : BufTy).Contents (Elt F) → (⟨S1x64, .f32⟩ : BufTy).Contents (Elt F)) _ _ rfl (nk (by decide +kernel)) (nk (by decide +kernel))

theorem rd_main_v426 (m : (ℓ : Loc nD τ sig) → Buf (Elt F) ℓ) (c : Dev nD) :
    (RefRun.E m c (Proc.devRef .tc main_v426)) = (broadcastInDim S200000x64 ![0, 1] bcast_S1x64_S200000x64_0_1 : (⟨S1x64, .f32⟩ : BufTy).Contents (Elt F) → (⟨S200000x64, .f32⟩ : BufTy).Contents (Elt F)) (RefRun.E m c (Proc.devRef .tc main_v425)) :=
  end1 RefRun.hW9 (RefRun.V9 m c) (RefRun.E m c) RefRun.later9 (RefRun.T9 m c) 67 main_v425 main_v426 (broadcastInDim S200000x64 ![0, 1] bcast_S1x64_S200000x64_0_1 : (⟨S1x64, .f32⟩ : BufTy).Contents (Elt F) → (⟨S200000x64, .f32⟩ : BufTy).Contents (Elt F)) _ _ rfl (nk (by decide +kernel)) (nk (by decide +kernel))

theorem rd_main_v427 (m : (ℓ : Loc nD τ sig) → Buf (Elt F) ℓ) (c : Dev nD) :
    (RefRun.E m c (Proc.devRef .tc main_v427)) = (mulf : (⟨S200000x64, .f32⟩ : BufTy).Contents (Elt F) → (⟨S200000x64, .f32⟩ : BufTy).Contents (Elt F) → (⟨S200000x64, .f32⟩ : BufTy).Contents (Elt F)) (RefRun.E m c (Proc.devRef .tc main_v424)) (RefRun.E m c (Proc.devRef .tc main_v426)) :=
  end2 RefRun.hW9 (RefRun.V9 m c) (RefRun.E m c) RefRun.later9 (RefRun.T9 m c) 68 main_v424 main_v426 main_v427 (mulf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_v428 (m : (ℓ : Loc nD τ sig) → Buf (Elt F) ℓ) (c : Dev nD) :
    (RefRun.E m c (Proc.devRef .tc main_v428)) = (broadcastInDim S1x64 ![1] bcast_S64_S1x64_1 : (⟨S64, .f32⟩ : BufTy).Contents (Elt F) → (⟨S1x64, .f32⟩ : BufTy).Contents (Elt F)) (RefRun.E m c (Proc.devRef .tc main_arg8)) :=
  end1 RefRun.hW9 (RefRun.V9 m c) (RefRun.E m c) RefRun.later9 (RefRun.T9 m c) 69 main_arg8 main_v428 (broadcastInDim S1x64 ![1] bcast_S64_S1x64_1 : (⟨S64, .f32⟩ : BufTy).Contents (Elt F) → (⟨S1x64, .f32⟩ : BufTy).Contents (Elt F)) _ _ rfl (nk (by decide +kernel)) (nk (by decide +kernel))

theorem rd_main_v429 (m : (ℓ : Loc nD τ sig) → Buf (Elt F) ℓ) (c : Dev nD) :
    (RefRun.E m c (Proc.devRef .tc main_v429)) = (broadcastInDim S200000x64 ![0, 1] bcast_S1x64_S200000x64_0_1 : (⟨S1x64, .f32⟩ : BufTy).Contents (Elt F) → (⟨S200000x64, .f32⟩ : BufTy).Contents (Elt F)) (RefRun.E m c (Proc.devRef .tc main_v428)) :=
  end1 RefRun.hW9 (RefRun.V9 m c) (RefRun.E m c) RefRun.later9 (RefRun.T9 m c) 70 main_v428 main_v429 (broadcastInDim S200000x64 ![0, 1] bcast_S1x64_S200000x64_0_1 : (⟨S1x64, .f32⟩ : BufTy).Contents (Elt F) → (⟨S200000x64, .f32⟩ : BufTy).Contents (Elt F)) _ _ rfl (nk (by decide +kernel)) (nk (by decide +kernel))

theorem rd_main_v430 (m : (ℓ : Loc nD τ sig) → Buf (Elt F) ℓ) (c : Dev nD) :
    (RefRun.E m c (Proc.devRef .tc main_v430)) = (addf : (⟨S200000x64, .f32⟩ : BufTy).Contents (Elt F) → (⟨S200000x64, .f32⟩ : BufTy).Contents (Elt F) → (⟨S200000x64, .f32⟩ : BufTy).Contents (Elt F)) (RefRun.E m c (Proc.devRef .tc main_v427)) (RefRun.E m c (Proc.devRef .tc main_v429)) :=
  end2 RefRun.hW9 (RefRun.V9 m c) (RefRun.E m c) RefRun.later9 (RefRun.T9 m c) 71 main_v427 main_v429 main_v430 (addf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

theorem rd_main_call30_cst (m : (ℓ : Loc nD τ sig) → Buf (Elt F) ℓ) (c : Dev nD) :
    (RefRun.E m c (Proc.devRef .tc main_call30_cst)) = ((constant S_ .f32 0x00000000#32) : (⟨S_, .f32⟩ : BufTy).Contents (Elt F)) :=
  end0 RefRun.hW9 (RefRun.V9 m c) (RefRun.E m c) RefRun.later9 (RefRun.T9 m c) 72 main_call30_cst ((constant S_ .f32 0x00000000#32) : (⟨S_, .f32⟩ : BufTy).Contents (Elt F)) _ rfl (nk (by decide +kernel))

theorem rd_main_call30_v0 (m : (ℓ : Loc nD τ sig) → Buf (Elt F) ℓ) (c : Dev nD) :
    (RefRun.E m c (Proc.devRef .tc main_call30_v0)) = ((broadcastInDim S200000x64 ![] bcast_S_S200000x64) : (⟨S_, .f32⟩ : BufTy).Contents (Elt F) → (⟨S200000x64, .f32⟩ : BufTy).Contents (Elt F)) (RefRun.E m c (Proc.devRef .tc main_call30_cst)) :=
  end1 RefRun.hW9 (RefRun.V9 m c) (RefRun.E m c) RefRun.later9 (RefRun.T9 m c) 73 main_call30_cst main_call30_v0 ((broadcastInDim S200000x64 ![] bcast_S_S200000x64) : (⟨S_, .f32⟩ : BufTy).Contents (Elt F) → (⟨S200000x64, .f32⟩ : BufTy).Contents (Elt F)) _ _ rfl (nk (by decide +kernel)) (nk (by decide +kernel))

theorem rd_main_v431 (m : (ℓ : Loc nD τ sig) → Buf (Elt F) ℓ) (c : Dev nD) :
    (RefRun.E m c (Proc.devRef .tc main_v431)) = (maximumf : (⟨S200000x64, .f32⟩ : BufTy).Contents (Elt F) → (⟨S200000x64, .f32⟩ : BufTy).Contents (Elt F) → (⟨S200000x64, .f32⟩ : BufTy).Contents (Elt F)) (RefRun.E m c (Proc.devRef .tc main_v430)) (RefRun.E m c (Proc.devRef .tc main_call30_v0)) :=
  end2 RefRun.hW9 (RefRun.V9 m c) (RefRun.E m c) RefRun.later9 (RefRun.T9 m c) 74 main_v430 main_call30_v0 main_v431 (maximumf : (⟨S200000x64, .f32⟩ : BufTy).Contents (Elt F) → (⟨S200000x64, .f32⟩ : BufTy).Contents (Elt F) → (⟨S200000x64, .f32⟩ : BufTy).Contents (Elt F)) _ _ _ rfl (nk (by decide +kernel)) (nk (by decide +kernel)) (nk (by decide +kernel))

end Cert.ReferenceIdeal.RefRead

end
-- ==== Proof.RefRead10.lean ====
/- Window 10 of the reference read back: at the end of @main each buffer the window writes holds its operation applied to its operands' contents at the end (the program assigns each buffer once). -/
import proofs.«125710_j13511967113615_2_alg».proof.Proof.RefRun
import proofs.«125710_j13511967113615_2_alg».proof.Proof.LibReadEnd

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

open Cert.ReadEnd

theorem rd_main_v432 (m : (ℓ : Loc nD τ sig) → Buf (Elt F) ℓ) (c : Dev nD) :
    (RefRun.E m c (Proc.devRef .tc main_v432)) = ((fun l r => Host.dotGeneral dot_S200000x64_S64x256_S200000x256_1_0_0_1_n_n none l r) : (⟨S200000x64, .f32⟩ : BufTy).Contents (Elt F) → (⟨S64x256, .f32⟩ : BufTy).Contents (Elt F) → (⟨S200000x256, .f32⟩ : BufTy).Contents (Elt F)) (RefRun.E m c (Proc.devRef .tc main_v431)) (RefRun.E m c (Proc.devRef .tc main_arg4)) :=
  end2 RefRun.hW10 (RefRun.V10 m c) (RefRun.E m c) RefRun.later10 (RefRun.T10 m c) 0 main_v431 main_arg4 main_v432 ((fun l r => Host.dotGeneral dot_S200000x64_S64x256_S200000x256_1_0_0_1_n_n none l r) : (⟨S200000x64, .f32⟩ : BufTy).Contents (Elt F) → (⟨S64x256, .f32⟩ : BufTy).Contents (Elt F) → (⟨S200000x256, .f32⟩ : BufTy).Contents (Elt F)) _ _ _ rfl (nk (by decide +kernel)) (nk (by decide +kernel)) (nk (by decide +kernel))

theorem rd_main_v433 (m : (ℓ : Loc nD τ sig) → Buf (Elt F) ℓ) (c : Dev nD) :
    (RefRun.E m c (Proc.devRef .tc main_v433)) = (broadcastInDim S1x256 ![1] bcast_S256_S1x256_1 : (⟨S256, .f32⟩ : BufTy).Contents (Elt F) → (⟨S1x256, .f32⟩ : BufTy).Contents (Elt F)) (RefRun.E m c (Proc.devRef .tc main_arg9)) :=
  end1 RefRun.hW10 (RefRun.V10 m c) (RefRun.E m c) RefRun.later10 (RefRun.T10 m c) 1 main_arg9 main_v433 (broadcastInDim S1x256 ![1] bcast_S256_S1x256_1 : (⟨S256, .f32⟩ : BufTy).Contents (Elt F) → (⟨S1x256, .f32⟩ : BufTy).Contents (Elt F)) _ _ rfl (nk (by decide +kernel)) (nk (by decide +kernel))

theorem rd_main_v434 (m : (ℓ : Loc nD τ sig) → Buf (Elt F) ℓ) (c : Dev nD) :
    (RefRun.E m c (Proc.devRef .tc main_v434)) = (broadcastInDim S200000x256 ![0, 1] bcast_S1x256_S200000x256_0_1 : (⟨S1x256, .f32⟩ : BufTy).Contents (Elt F) → (⟨S200000x256, .f32⟩ : BufTy).Contents (Elt F)) (RefRun.E m c (Proc.devRef .tc main_v433)) :=
  end1 RefRun.hW10 (RefRun.V10 m c) (RefRun.E m c) RefRun.later10 (RefRun.T10 m c) 2 main_v433 main_v434 (broadcastInDim S200000x256 ![0, 1] bcast_S1x256_S200000x256_0_1 : (⟨S1x256, .f32⟩ : BufTy).Contents (Elt F) → (⟨S200000x256, .f32⟩ : BufTy).Contents (Elt F)) _ _ rfl (nk (by decide +kernel)) (nk (by decide +kernel))

theorem rd_main_v435 (m : (ℓ : Loc nD τ sig) → Buf (Elt F) ℓ) (c : Dev nD) :
    (RefRun.E m c (Proc.devRef .tc main_v435)) = (mulf : (⟨S200000x256, .f32⟩ : BufTy).Contents (Elt F) → (⟨S200000x256, .f32⟩ : BufTy).Contents (Elt F) → (⟨S200000x256, .f32⟩ : BufTy).Contents (Elt F)) (RefRun.E m c (Proc.devRef .tc main_v432)) (RefRun.E m c (Proc.devRef .tc main_v434)) :=
  end2 RefRun.hW10 (RefRun.V10 m c) (RefRun.E m c) RefRun.later10 (RefRun.T10 m c) 3 main_v432 main_v434 main_v435 (mulf : (⟨S200000x256, .f32⟩ : BufTy).Contents (Elt F) → (⟨S200000x256, .f32⟩ : BufTy).Contents (Elt F) → (⟨S200000x256, .f32⟩ : BufTy).Contents (Elt F)) _ _ _ rfl (nk (by decide +kernel)) (nk (by decide +kernel)) (nk (by decide +kernel))

theorem rd_main_v436 (m : (ℓ : Loc nD τ sig) → Buf (Elt F) ℓ) (c : Dev nD) :
    (RefRun.E m c (Proc.devRef .tc main_v436)) = (broadcastInDim S1x256 ![1] bcast_S256_S1x256_1 : (⟨S256, .f32⟩ : BufTy).Contents (Elt F) → (⟨S1x256, .f32⟩ : BufTy).Contents (Elt F)) (RefRun.E m c (Proc.devRef .tc main_arg10)) :=
  end1 RefRun.hW10 (RefRun.V10 m c) (RefRun.E m c) RefRun.later10 (RefRun.T10 m c) 4 main_arg10 main_v436 (broadcastInDim S1x256 ![1] bcast_S256_S1x256_1 : (⟨S256, .f32⟩ : BufTy).Contents (Elt F) → (⟨S1x256, .f32⟩ : BufTy).Contents (Elt F)) _ _ rfl (nk (by decide +kernel)) (nk (by decide +kernel))

theorem rd_main_v437 (m : (ℓ : Loc nD τ sig) → Buf (Elt F) ℓ) (c : Dev nD) :
    (RefRun.E m c (Proc.devRef .tc main_v437)) = (broadcastInDim S200000x256 ![0, 1] bcast_S1x256_S200000x256_0_1 : (⟨S1x256, .f32⟩ : BufTy).Contents (Elt F) → (⟨S200000x256, .f32⟩ : BufTy).Contents (Elt F)) (RefRun.E m c (Proc.devRef .tc main_v436)) :=
  end1 RefRun.hW10 (RefRun.V10 m c) (RefRun.E m c) RefRun.later10 (RefRun.T10 m c) 5 main_v436 main_v437 (broadcastInDim S200000x256 ![0, 1] bcast_S1x256_S200000x256_0_1 : (⟨S1x256, .f32⟩ : BufTy).Contents (Elt F) → (⟨S200000x256, .f32⟩ : BufTy).Contents (Elt F)) _ _ rfl (nk (by decide +kernel)) (nk (by decide +kernel))

theorem rd_main_v438 (m : (ℓ : Loc nD τ sig) → Buf (Elt F) ℓ) (c : Dev nD) :
    (RefRun.E m c (Proc.devRef .tc main_v438)) = (addf : (⟨S200000x256, .f32⟩ : BufTy).Contents (Elt F) → (⟨S200000x256, .f32⟩ : BufTy).Contents (Elt F) → (⟨S200000x256, .f32⟩ : BufTy).Contents (Elt F)) (RefRun.E m c (Proc.devRef .tc main_v435)) (RefRun.E m c (Proc.devRef .tc main_v437)) :=
  end2 RefRun.hW10 (RefRun.V10 m c) (RefRun.E m c) RefRun.later10 (RefRun.T10 m c) 6 main_v435 main_v437 main_v438 (addf : (⟨S200000x256, .f32⟩ : BufTy).Contents (Elt F) → (⟨S200000x256, .f32⟩ : BufTy).Contents (Elt F) → (⟨S200000x256, .f32⟩ : BufTy).Contents (Elt F)) _ _ _ rfl (nk (by decide +kernel)) (nk (by decide +kernel)) (nk (by decide +kernel))

theorem rd_main_v439 (m : (ℓ : Loc nD τ sig) → Buf (Elt F) ℓ) (c : Dev nD) :
    (RefRun.E m c (Proc.devRef .tc main_v439)) = (addf : (⟨S200000x256, .f32⟩ : BufTy).Contents (Elt F) → (⟨S200000x256, .f32⟩ : BufTy).Contents (Elt F) → (⟨S200000x256, .f32⟩ : BufTy).Contents (Elt F)) (RefRun.E m c (Proc.devRef .tc main_v438)) (RefRun.E m c (Proc.devRef .tc main_arg0)) :=
  end2 RefRun.hW10 (RefRun.V10 m c) (RefRun.E m c) RefRun.later10 (RefRun.T10 m c) 7 main_v438 main_arg0 main_v439 (addf : (⟨S200000x256, .f32⟩ : BufTy).Contents (Elt F) → (⟨S200000x256, .f32⟩ : BufTy).Contents (Elt F) → (⟨S200000x256, .f32⟩ : BufTy).Contents (Elt F)) _ _ _ rfl (nk (by decide +kernel)) (nk (by decide +kernel)) (nk (by decide +kernel))

theorem rd_main_call31_cst (m : (ℓ : Loc nD τ sig) → Buf (Elt F) ℓ) (c : Dev nD) :
    (RefRun.E m c (Proc.devRef .tc main_call31_cst)) = ((constant S_ .f32 0x00000000#32) : (⟨S_, .f32⟩ : BufTy).Contents (Elt F)) :=
  end0 RefRun.hW10 (RefRun.V10 m c) (RefRun.E m c) RefRun.later10 (RefRun.T10 m c) 8 main_call31_cst ((constant S_ .f32 0x00000000#32) : (⟨S_, .f32⟩ : BufTy).Contents (Elt F)) _ rfl (nk (by decide +kernel))

theorem rd_main_call31_v0 (m : (ℓ : Loc nD τ sig) → Buf (Elt F) ℓ) (c : Dev nD) :
    (RefRun.E m c (Proc.devRef .tc main_call31_v0)) = ((broadcastInDim S200000x256 ![] bcast_S_S200000x256) : (⟨S_, .f32⟩ : BufTy).Contents (Elt F) → (⟨S200000x256, .f32⟩ : BufTy).Contents (Elt F)) (RefRun.E m c (Proc.devRef .tc main_call31_cst)) :=
  end1 RefRun.hW10 (RefRun.V10 m c) (RefRun.E m c) RefRun.later10 (RefRun.T10 m c) 9 main_call31_cst main_call31_v0 ((broadcastInDim S200000x256 ![] bcast_S_S200000x256) : (⟨S_, .f32⟩ : BufTy).Contents (Elt F) → (⟨S200000x256, .f32⟩ : BufTy).Contents (Elt F)) _ _ rfl (nk (by decide +kernel)) (nk (by decide +kernel))

theorem rd_main_v440 (m : (ℓ : Loc nD τ sig) → Buf (Elt F) ℓ) (c : Dev nD) :
    (RefRun.E m c (Proc.devRef .tc main_v440)) = (maximumf : (⟨S200000x256, .f32⟩ : BufTy).Contents (Elt F) → (⟨S200000x256, .f32⟩ : BufTy).Contents (Elt F) → (⟨S200000x256, .f32⟩ : BufTy).Contents (Elt F)) (RefRun.E m c (Proc.devRef .tc main_v439)) (RefRun.E m c (Proc.devRef .tc main_call31_v0)) :=
  end2 RefRun.hW10 (RefRun.V10 m c) (RefRun.E m c) RefRun.later10 (RefRun.T10 m c) 10 main_v439 main_call31_v0 main_v440 (maximumf : (⟨S200000x256, .f32⟩ : BufTy).Contents (Elt F) → (⟨S200000x256, .f32⟩ : BufTy).Contents (Elt F) → (⟨S200000x256, .f32⟩ : BufTy).Contents (Elt F)) _ _ _ rfl (nk (by decide +kernel)) (nk (by decide +kernel)) (nk (by decide +kernel))

end Cert.ReferenceIdeal.RefRead

end
-- ==== Proof.RefIdx1.lean ====
/-
  The reference's second and third stages read at an index.

  Tap `k`'s product is a matrix product of the tap's rows with the `k`-th 64×64 slice of the tap weights (a slice of the
  [9,64,64] array, reshaped); read at (i, j) it is Σ_l g[k,i,l] · w2[k,l,j]. The nine products are added from the zero
  array in order, scaled, shifted and clamped at zero; the result goes through the last product, is scaled and shifted,
  the input is added back, and the sum is clamped at zero.
-/
import proofs.«125710_j13511967113615_2_alg».proof.Proof.RefFam
import proofs.«125710_j13511967113615_2_alg».proof.Proof.RefRead0
import proofs.«125710_j13511967113615_2_alg».proof.Proof.RefRead1
import proofs.«125710_j13511967113615_2_alg».proof.Proof.RefRead2
import proofs.«125710_j13511967113615_2_alg».proof.Proof.RefRead3
import proofs.«125710_j13511967113615_2_alg».proof.Proof.RefRead4
import proofs.«125710_j13511967113615_2_alg».proof.Proof.RefRead5
import proofs.«125710_j13511967113615_2_alg».proof.Proof.RefRead6
import proofs.«125710_j13511967113615_2_alg».proof.Proof.RefRead7
import proofs.«125710_j13511967113615_2_alg».proof.Proof.RefRead8
import proofs.«125710_j13511967113615_2_alg».proof.Proof.RefRead9
import proofs.«125710_j13511967113615_2_alg».proof.Proof.RefRead10
import proofs.«125710_j13511967113615_2_alg».proof.Proof.RefTapExpr
import proofs.«125710_j13511967113615_2_alg».proof.Proof.Spec

noncomputable section

open scoped BigOperators

namespace Cert.ReferenceIdeal.RefIdx

open Cert.ReferenceIdeal Cert.ReferenceIdeal.Gen Idealize.ShloMosaic Idealize.ShloMosaic.ValueIdx Idealize.ShloMosaic.TcCoe
open Cert.ReferenceIdeal.RefRead

/-- A host product with one contracted axis, read at the ideal values, is the sum over that axis's coordinates of what
    the two operands read there. -/
theorem hostDot_single {sl sr so : Shape} {φ₁ φ₂ : FTy} (d : DotDims sl sr so) (prec : Option ContractPrecision)
    (sched : HostSchedule) (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.dotGeneral d prec sched lhs rhs j = ∑ k : Fin n, L k * R k := by
  rw [Ideal.dotGeneral_apply, ← Equiv.sum_comp (contrEquiv1 d n hr hs).symm]
  exact Finset.sum_congr rfl fun k _ => by rw [hl k, hR k]

/-- A plain product [A, K] × [K, B] → [A, B] read at (a, b): Σ_k lhs[a,k] · rhs[k,b]. -/
theorem hostDot_plain_apply {A K B : Nat} (d : DotDims ⟨2, ![A, K]⟩ ⟨2, ![K, B]⟩ ⟨2, ![A, B]⟩)
    (hlc : d.lhsContracting = [1]) (hrc : d.rhsContracting = [0])
    (hr : d.contr.rank = 1) (hs : d.contr.size ⟨0, by omega⟩ = K)
    (hl0 : ∀ (j : (⟨2, ![A, B]⟩ : Shape).Idx) (k : d.contr.Idx), d.lhsIdx j k 0 = j 0)
    (hr1 : ∀ (j : (⟨2, ![A, B]⟩ : Shape).Idx) (k : d.contr.Idx), d.rhsIdx j k 1 = j 1)
    (prec : Option ContractPrecision) (sched : HostSchedule)
    (lhs : FVec Ideal ⟨2, ![A, K]⟩ .f32) (rhs : FVec Ideal ⟨2, ![K, B]⟩ .f32) (a : Fin A) (b : Fin B) :
    FloatOps.dotGeneral d prec sched lhs rhs (ix2 a b) = ∑ k : Fin K, lhs (ix2 a k) * rhs (ix2 k b) := by
  refine hostDot_single d prec sched K hr hs lhs rhs (ix2 a b) _ _ (fun k => congrArg lhs ?_) (fun k => congrArg rhs ?_)
  · funext x
    match x with
    | ⟨0, _⟩ => exact hl0 _ _
    | ⟨1, _⟩ =>
      refine Fin.ext ?_
      have h1 := d.lhsIdx_val_of_single hlc (ix2 a b) ((contrEquiv1 d K hr hs).symm k)
      have h2 := contrEquiv1_symm_val d K hr hs k
      exact h1.trans h2
  · funext x
    match x with
    | ⟨0, _⟩ =>
      refine Fin.ext ?_
      have h1 := d.rhsIdx_val_of_single hrc (ix2 a b) ((contrEquiv1 d K hr hs).symm k)
      have h2 := contrEquiv1_symm_val d K hr hs k
      exact h1.trans h2
    | ⟨1, _⟩ => exact hr1 _ _

/-- A per-channel vector broadcast over the sites reads the channel's entry. -/
theorem chanBcast_apply {α : Type} {C : Nat}
    (h1 : (⟨1, ![C]⟩ : Shape).BroadcastsInDim ⟨2, ![1, C]⟩ (![1] : Fin 1 → Fin 2))
    (h2 : (⟨2, ![1, C]⟩ : Shape).BroadcastsInDim ⟨2, ![200000, C]⟩ (![0, 1] : Fin 2 → Fin 2))
    (hC : C ≠ 1) (x : (⟨1, ![C]⟩ : Shape).Idx → α) (n : Fin 200000) (l : Fin C) :
    broadcastInDim ⟨2, ![200000, C]⟩ ![0, 1] h2 (broadcastInDim ⟨2, ![1, C]⟩ ![1] h1 x) (ix2 n l) = x (ix1 l) := by
  rw [broadcastInDim_apply _ h2 _ (ix2 n l) (ix2 (0 : Fin 1) l)
      (fun a => match a with | ⟨0, _⟩ => rfl | ⟨1, _⟩ => by simp [hC]),
    broadcastInDim_apply _ h1 _ (ix2 (0 : Fin 1) l) (ix1 l) (fun a => match a with | ⟨0, _⟩ => by simp [hC])]

/-- The taps' product, [200000, 64] × [64, 64]. -/
theorem dot2_apply (lhs : FVec Ideal S200000x64 .f32) (rhs : FVec Ideal S64x64 .f32) (a : Fin 200000) (b : Fin 64) :
    Host.dotGeneral dot_S200000x64_S64x64_S200000x64_1_0_0_1_n_n none lhs rhs (ix2 a b)
      = ∑ k : Fin 64, lhs (ix2 a k) * rhs (ix2 k b) :=
  hostDot_plain_apply dot_S200000x64_S64x64_S200000x64_1_0_0_1_n_n rfl rfl rfl rfl (fun _ _ => rfl) (fun _ _ => rfl)
    none .single lhs rhs a b

/-- The last product, [200000, 64] × [64, 256]. -/
theorem dot3_apply (lhs : FVec Ideal S200000x64 .f32) (rhs : FVec Ideal S64x256 .f32) (a : Fin 200000) (b : Fin 256) :
    Host.dotGeneral dot_S200000x64_S64x256_S200000x256_1_0_0_1_n_n none lhs rhs (ix2 a b)
      = ∑ k : Fin 64, lhs (ix2 a k) * rhs (ix2 k b) :=
  hostDot_plain_apply dot_S200000x64_S64x256_S200000x256_1_0_0_1_n_n rfl rfl rfl rfl (fun _ _ => rfl) (fun _ _ => rfl)
    none .single lhs rhs a b

/-- The `k`-th 64×64 slice of a [9,64,64] array, reshaped to [64,64], reads the array at (k, l, j). -/
theorem slice_apply (W2 : FVec Ideal S9x64x64 .f32) (k : Fin 9) (off : Fin S9x64x64.rank → Nat)
    (hoff : off = ![k.val, 0, 0]) (hsl : S9x64x64.Slices off S1x64x64) (hn : S1x64x64.ShapeCasts S64x64)
    (l j : Fin 64) :
    shapeCast S64x64 (extractStridedSlice S1x64x64 off W2 hsl) hn (ix2 l j) = W2 (ix3 k l j) := by
  subst hoff
  rw [shapeCast_apply _ hn (ix2 l j) (ix3 (0 : Fin 1) l j)
    (by rw [Shape.rowMajor_val_three, Shape.rowMajor_val_two]; simp)]
  exact extractStridedSlice_apply _ W2 hsl (ix3 (0 : Fin 1) l j) (ix3 k l j)
    (fun a => match a with
      | ⟨0, _⟩ => by simp
      | ⟨1, _⟩ => by simp
      | ⟨2, _⟩ => by simp)

/-- One tap's product at (i, j). -/
theorem tapDot_expr (w : FVec Ideal S200000x64 .f32) (W2 : FVec Ideal S9x64x64 .f32) (k : Fin 9)
    (off : Fin S9x64x64.rank → Nat) (hoff : off = ![k.val, 0, 0]) (hsl : S9x64x64.Slices off S1x64x64)
    (hn : S1x64x64.ShapeCasts S64x64) (i : Fin 200000) (j : Fin 64) :
    Host.dotGeneral dot_S200000x64_S64x64_S200000x64_1_0_0_1_n_n none w
        (shapeCast S64x64 (extractStridedSlice S1x64x64 off W2 hsl) hn) (ix2 i j)
      = ∑ l : Fin 64, w (ix2 i l) * W2 (ix3 k l j) := by
  rw [dot2_apply]
  exact Finset.sum_congr rfl fun l _ => by rw [slice_apply W2 k off hoff hsl hn l j]

/-- The tap weights and the later stages' parameters as the reference finds them, at their array types. -/
abbrev w2 (m : (ℓ : Loc nD τ sig) → Buf (Elt Ideal) ℓ) (c : Dev nD) : S9x64x64.Idx → EReal :=
  m ((c.tc : Thread nD τ).loc main_arg3)
abbrev s2v (m : (ℓ : Loc nD τ sig) → Buf (Elt Ideal) ℓ) (c : Dev nD) : S64.Idx → EReal :=
  m ((c.tc : Thread nD τ).loc main_arg7)
abbrev b2v (m : (ℓ : Loc nD τ sig) → Buf (Elt Ideal) ℓ) (c : Dev nD) : S64.Idx → EReal :=
  m ((c.tc : Thread nD τ).loc main_arg8)

abbrev w3 (m : (ℓ : Loc nD τ sig) → Buf (Elt Ideal) ℓ) (c : Dev nD) : S64x256.Idx → EReal :=
  m ((c.tc : Thread nD τ).loc main_arg4)
abbrev s3v (m : (ℓ : Loc nD τ sig) → Buf (Elt Ideal) ℓ) (c : Dev nD) : S256.Idx → EReal :=
  m ((c.tc : Thread nD τ).loc main_arg9)
abbrev b3v (m : (ℓ : Loc nD τ sig) → Buf (Elt Ideal) ℓ) (c : Dev nD) : S256.Idx → EReal :=
  m ((c.tc : Thread nD τ).loc main_arg10)
abbrev x0 (m : (ℓ : Loc nD τ sig) → Buf (Elt Ideal) ℓ) (c : Dev nD) : S200000x256.Idx → EReal :=
  m ((c.tc : Thread nD τ).loc main_arg0)

theorem tdot_0 (m : (ℓ : Loc nD τ sig) → Buf (Elt Ideal) ℓ) (c : Dev nD) (i : Fin 200000) (j : Fin 64) :
    (RefRun.E (F := Ideal) m c (Proc.devRef .tc main_v63) : S200000x64.Idx → EReal) (ix2 i j)
      = ∑ l : Fin 64, wv m c 0 (ix2 i l) * w2 m c (ix3 (0 : Fin 9) l j) := by
  rw [rd_main_v63, rd_main_v62]
  unfold RefRun.reshaped
  rw [rd_main_v61, RefRun.E_arg3]
  exact tapDot_expr _ _ (0 : Fin 9) _ rfl _ _ i j

theorem tdot_1 (m : (ℓ : Loc nD τ sig) → Buf (Elt Ideal) ℓ) (c : Dev nD) (i : Fin 200000) (j : Fin 64) :
    (RefRun.E (F := Ideal) m c (Proc.devRef .tc main_v108) : S200000x64.Idx → EReal) (ix2 i j)
      = ∑ l : Fin 64, wv m c 1 (ix2 i l) * w2 m c (ix3 (1 : Fin 9) l j) := by
  rw [rd_main_v108, rd_main_v107]
  unfold RefRun.reshaped
  rw [rd_main_v106, RefRun.E_arg3]
  exact tapDot_expr _ _ (1 : Fin 9) _ rfl _ _ i j

theorem tdot_2 (m : (ℓ : Loc nD τ sig) → Buf (Elt Ideal) ℓ) (c : Dev nD) (i : Fin 200000) (j : Fin 64) :
    (RefRun.E (F := Ideal) m c (Proc.devRef .tc main_v153) : S200000x64.Idx → EReal) (ix2 i j)
      = ∑ l : Fin 64, wv m c 2 (ix2 i l) * w2 m c (ix3 (2 : Fin 9) l j) := by
  rw [rd_main_v153, rd_main_v152]
  unfold RefRun.reshaped
  rw [rd_main_v151, RefRun.E_arg3]
  exact tapDot_expr _ _ (2 : Fin 9) _ rfl _ _ i j

theorem tdot_3 (m : (ℓ : Loc nD τ sig) → Buf (Elt Ideal) ℓ) (c : Dev nD) (i : Fin 200000) (j : Fin 64) :
    (RefRun.E (F := Ideal) m c (Proc.devRef .tc main_v198) : S200000x64.Idx → EReal) (ix2 i j)
      = ∑ l : Fin 64, wv m c 3 (ix2 i l) * w2 m c (ix3 (3 : Fin 9) l j) := by
  rw [rd_main_v198, rd_main_v197]
  unfold RefRun.reshaped
  rw [rd_main_v196, RefRun.E_arg3]
  exact tapDot_expr _ _ (3 : Fin 9) _ rfl _ _ i j

theorem tdot_4 (m : (ℓ : Loc nD τ sig) → Buf (Elt Ideal) ℓ) (c : Dev nD) (i : Fin 200000) (j : Fin 64) :
    (RefRun.E (F := Ideal) m c (Proc.devRef .tc main_v243) : S200000x64.Idx → EReal) (ix2 i j)
      = ∑ l : Fin 64, wv m c 4 (ix2 i l) * w2 m c (ix3 (4 : Fin 9) l j) := by
  rw [rd_main_v243, rd_main_v242]
  unfold RefRun.reshaped
  rw [rd_main_v241, RefRun.E_arg3]
  exact tapDot_expr _ _ (4 : Fin 9) _ rfl _ _ i j

theorem tdot_5 (m : (ℓ : Loc nD τ sig) → Buf (Elt Ideal) ℓ) (c : Dev nD) (i : Fin 200000) (j : Fin 64) :
    (RefRun.E (F := Ideal) m c (Proc.devRef .tc main_v288) : S200000x64.Idx → EReal) (ix2 i j)
      = ∑ l : Fin 64, wv m c 5 (ix2 i l) * w2 m c (ix3 (5 : Fin 9) l j) := by
  rw [rd_main_v288, rd_main_v287]
  unfold RefRun.reshaped
  rw [rd_main_v286, RefRun.E_arg3]
  exact tapDot_expr _ _ (5 : Fin 9) _ rfl _ _ i j

theorem tdot_6 (m : (ℓ : Loc nD τ sig) → Buf (Elt Ideal) ℓ) (c : Dev nD) (i : Fin 200000) (j : Fin 64) :
    (RefRun.E (F := Ideal) m c (Proc.devRef .tc main_v333) : S200000x64.Idx → EReal) (ix2 i j)
      = ∑ l : Fin 64, wv m c 6 (ix2 i l) * w2 m c (ix3 (6 : Fin 9) l j) := by
  rw [rd_main_v333, rd_main_v332]
  unfold RefRun.reshaped
  rw [rd_main_v331, RefRun.E_arg3]
  exact tapDot_expr _ _ (6 : Fin 9) _ rfl _ _ i j

theorem tdot_7 (m : (ℓ : Loc nD τ sig) → Buf (Elt Ideal) ℓ) (c : Dev nD) (i : Fin 200000) (j : Fin 64) :
    (RefRun.E (F := Ideal) m c (Proc.devRef .tc main_v378) : S200000x64.Idx → EReal) (ix2 i j)
      = ∑ l : Fin 64, wv m c 7 (ix2 i l) * w2 m c (ix3 (7 : Fin 9) l j) := by
  rw [rd_main_v378, rd_main_v377]
  unfold RefRun.reshaped
  rw [rd_main_v376, RefRun.E_arg3]
  exact tapDot_expr _ _ (7 : Fin 9) _ rfl _ _ i j

theorem tdot_8 (m : (ℓ : Loc nD τ sig) → Buf (Elt Ideal) ℓ) (c : Dev nD) (i : Fin 200000) (j : Fin 64) :
    (RefRun.E (F := Ideal) m c (Proc.devRef .tc main_v423) : S200000x64.Idx → EReal) (ix2 i j)
      = ∑ l : Fin 64, wv m c 8 (ix2 i l) * w2 m c (ix3 (8 : Fin 9) l j) := by
  rw [rd_main_v423, rd_main_v422]
  unfold RefRun.reshaped
  rw [rd_main_v421, RefRun.E_arg3]
  exact tapDot_expr _ _ (8 : Fin 9) _ rfl _ _ i j

/-! ## The accumulator: the nine taps added from the zero array, in order -/

/-- The zero array the accumulator starts from. -/
theorem zero64 (m : (ℓ : Loc nD τ sig) → Buf (Elt Ideal) ℓ) (c : Dev nD) (i : Fin 200000) (j : Fin 64) : (RefRun.E (F := Ideal) m c (Proc.devRef .tc main_v19) : S200000x64.Idx → EReal) (ix2 i j) = (0 : EReal) := by
  refine (congrFun (rd_main_v19 m c) (ix2 i j)).trans ?_
  rw [rd_main_cst, bcast0_apply, constant_apply, Ideal.ofBits_zero_f32]

theorem accv_0 (m : (ℓ : Loc nD τ sig) → Buf (Elt Ideal) ℓ) (c : Dev nD) (i : Fin 200000) (j : Fin 64) :
    (RefRun.E (F := Ideal) m c (Proc.devRef .tc main_v64) : S200000x64.Idx → EReal) (ix2 i j) = (0 + Cert.Spec.tapDot (fun k i l => wv m c k (ix2 i l)) (w2 m c) 0 i j) :=
  (congrFun (rd_main_v64 m c) (ix2 i j)).trans ((addf_apply _ _ _).trans (congrArg₂ (· + ·) (zero64 m c i j) (tdot_0 m c i j)))
theorem accv_1 (m : (ℓ : Loc nD τ sig) → Buf (Elt Ideal) ℓ) (c : Dev nD) (i : Fin 200000) (j : Fin 64) :
    (RefRun.E (F := Ideal) m c (Proc.devRef .tc main_v109) : S200000x64.Idx → EReal) (ix2 i j) = ((0 + Cert.Spec.tapDot (fun k i l => wv m c k (ix2 i l)) (w2 m c) 0 i j) + Cert.Spec.tapDot (fun k i l => wv m c k (ix2 i l)) (w2 m c) 1 i j) :=
  (congrFun (rd_main_v109 m c) (ix2 i j)).trans ((addf_apply _ _ _).trans (congrArg₂ (· + ·) (accv_0 m c i j) (tdot_1 m c i j)))
theorem accv_2 (m : (ℓ : Loc nD τ sig) → Buf (Elt Ideal) ℓ) (c : Dev nD) (i : Fin 200000) (j : Fin 64) :
    (RefRun.E (F := Ideal) m c (Proc.devRef .tc main_v154) : S200000x64.Idx → EReal) (ix2 i j) = (((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) :=
  (congrFun (rd_main_v154 m c) (ix2 i j)).trans ((addf_apply _ _ _).trans (congrArg₂ (· + ·) (accv_1 m c i j) (tdot_2 m c i j)))
theorem accv_3 (m : (ℓ : Loc nD τ sig) → Buf (Elt Ideal) ℓ) (c : Dev nD) (i : Fin 200000) (j : Fin 64) :
    (RefRun.E (F := Ideal) m c (Proc.devRef .tc main_v199) : S200000x64.Idx → EReal) (ix2 i j) = ((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) :=
  (congrFun (rd_main_v199 m c) (ix2 i j)).trans ((addf_apply _ _ _).trans (congrArg₂ (· + ·) (accv_2 m c i j) (tdot_3 m c i j)))
theorem accv_4 (m : (ℓ : Loc nD τ sig) → Buf (Elt Ideal) ℓ) (c : Dev nD) (i : Fin 200000) (j : Fin 64) :
    (RefRun.E (F := Ideal) m c (Proc.devRef .tc main_v244) : S200000x64.Idx → EReal) (ix2 i j) = (((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) + Cert.Spec.tapDot (fun k i l => wv m c k (ix2 i l)) (w2 m c) 4 i j) :=
  (congrFun (rd_main_v244 m c) (ix2 i j)).trans ((addf_apply _ _ _).trans (congrArg₂ (· + ·) (accv_3 m c i j) (tdot_4 m c i j)))
theorem accv_5 (m : (ℓ : Loc nD τ sig) → Buf (Elt Ideal) ℓ) (c : Dev nD) (i : Fin 200000) (j : Fin 64) :
    (RefRun.E (F := Ideal) m c (Proc.devRef .tc main_v289) : S200000x64.Idx → EReal) (ix2 i j) = ((((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) + Cert.Spec.tapDot (fun k i l => wv m c k (ix2 i l)) (w2 m c) 4 i j) + Cert.Spec.tapDot (fun k i l => wv m c k (ix2 i l)) (w2 m c) 5 i j) :=
  (congrFun (rd_main_v289 m c) (ix2 i j)).trans ((addf_apply _ _ _).trans (congrArg₂ (· + ·) (accv_4 m c i j) (tdot_5 m c i j)))
theorem accv_6 (m : (ℓ : Loc nD τ sig) → Buf (Elt Ideal) ℓ) (c : Dev nD) (i : Fin 200000) (j : Fin 64) :
    (RefRun.E (F := Ideal) m c (Proc.devRef .tc main_v334) : S200000x64.Idx → EReal) (ix2 i j) = (((((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) + Cert.Spec.tapDot (fun k i l => wv m c k (ix2 i l)) (w2 m c) 4 i j) + Cert.Spec.tapDot (fun k i l => wv m c k (ix2 i l)) (w2 m c) 5 i j) + Cert.Spec.tapDot (fun k i l => wv m c k (ix2 i l)) (w2 m c) 6 i j) :=
  (congrFun (rd_main_v334 m c) (ix2 i j)).trans ((addf_apply _ _ _).trans (congrArg₂ (· + ·) (accv_5 m c i j) (tdot_6 m c i j)))
theorem accv_7 (m : (ℓ : Loc nD τ sig) → Buf (Elt Ideal) ℓ) (c : Dev nD) (i : Fin 200000) (j : Fin 64) :
    (RefRun.E (F := Ideal) m c (Proc.devRef .tc main_v379) : S200000x64.Idx → EReal) (ix2 i j) = ((((((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) + Cert.Spec.tapDot (fun k i l => wv m c k (ix2 i l)) (w2 m c) 4 i j) + Cert.Spec.tapDot (fun k i l => wv m c k (ix2 i l)) (w2 m c) 5 i j) + Cert.Spec.tapDot (fun k i l => wv m c k (ix2 i l)) (w2 m c) 6 i j) + Cert.Spec.tapDot (fun k i l => wv m c k (ix2 i l)) (w2 m c) 7 i j) :=
  (congrFun (rd_main_v379 m c) (ix2 i j)).trans ((addf_apply _ _ _).trans (congrArg₂ (· + ·) (accv_6 m c i j) (tdot_7 m c i j)))
theorem accv_8 (m : (ℓ : Loc nD τ sig) → Buf (Elt Ideal) ℓ) (c : Dev nD) (i : Fin 200000) (j : Fin 64) :
    (RefRun.E (F := Ideal) m c (Proc.devRef .tc main_v424) : S200000x64.Idx → EReal) (ix2 i j) = (((((((((0 + Cert.Spec.tapDot (fun k i l => wv m c k (ix2 i l)) (w2 m c) 0 i j) + Cert.Spec.tapDot (fun k i l => wv m c k (ix2 i l)) (w2 m c) 1 i j) + Cert.Spec.tapDot (fun k i l => wv m c k (ix2 i l)) (w2 m c) 2 i j) + Cert.Spec.tapDot (fun k i l => wv m c k (ix2 i l)) (w2 m c) 3 i j) + Cert.Spec.tapDot (fun k i l => wv m c k (ix2 i l)) (w2 m c) 4 i j) + Cert.Spec.tapDot (fun k i l => wv m c k (ix2 i l)) (w2 m c) 5 i j) + Cert.Spec.tapDot (fun k i l => wv m c k (ix2 i l)) (w2 m c) 6 i j) + Cert.Spec.tapDot (fun k i l => wv m c k (ix2 i l)) (w2 m c) 7 i j) + Cert.Spec.tapDot (fun k i l => wv m c k (ix2 i l)) (w2 m c) 8 i j) :=
  (congrFun (rd_main_v424 m c) (ix2 i j)).trans ((addf_apply _ _ _).trans (congrArg₂ (· + ·) (accv_7 m c i j) (tdot_8 m c i j)))

/-- The nine taps added from zero: the accumulator at (i, j). -/
theorem acc_apply (m : (ℓ : Loc nD τ sig) → Buf (Elt Ideal) ℓ) (c : Dev nD) (i : Fin 200000) (j : Fin 64) :
    (RefRun.E (F := Ideal) m c (Proc.devRef .tc main_v424) : S200000x64.Idx → EReal) (ix2 i j) = Cert.Spec.acc (fun k i l => wv m c k (ix2 i l)) (w2 m c) i j :=
  accv_8 m c i j

/-! ## The second stage's rows: scale, shift, clamp -/

theorem sc2 (m : (ℓ : Loc nD τ sig) → Buf (Elt Ideal) ℓ) (c : Dev nD) (i : Fin 200000) (j : Fin 64) : (RefRun.E (F := Ideal) m c (Proc.devRef .tc main_v426) : S200000x64.Idx → EReal) (ix2 i j) = s2v m c (ix1 j) := by
  refine (congrFun (rd_main_v426 m c) (ix2 i j)).trans ?_
  rw [rd_main_v425, RefRun.E_arg7]
  exact chanBcast_apply (C := 64) _ _ (by decide) _ i j

theorem sh2 (m : (ℓ : Loc nD τ sig) → Buf (Elt Ideal) ℓ) (c : Dev nD) (i : Fin 200000) (j : Fin 64) : (RefRun.E (F := Ideal) m c (Proc.devRef .tc main_v429) : S200000x64.Idx → EReal) (ix2 i j) = b2v m c (ix1 j) := by
  refine (congrFun (rd_main_v429 m c) (ix2 i j)).trans ?_
  rw [rd_main_v428, RefRun.E_arg8]
  exact chanBcast_apply (C := 64) _ _ (by decide) _ i j

theorem z30 (m : (ℓ : Loc nD τ sig) → Buf (Elt Ideal) ℓ) (c : Dev nD) (i : Fin 200000) (j : Fin 64) : (RefRun.E (F := Ideal) m c (Proc.devRef .tc main_call30_v0) : S200000x64.Idx → EReal) (ix2 i j) = (0 : EReal) := by
  refine (congrFun (rd_main_call30_v0 m c) (ix2 i j)).trans ?_
  rw [rd_main_call30_cst, bcast0_apply, constant_apply, Ideal.ofBits_zero_f32]

/-- The second stage's rows at (i, j): the accumulator scaled, shifted and clamped at zero. -/
theorem rows2_apply (m : (ℓ : Loc nD τ sig) → Buf (Elt Ideal) ℓ) (c : Dev nD) (i : Fin 200000) (j : Fin 64) :
    (RefRun.E (F := Ideal) m c (Proc.devRef .tc main_v431) : S200000x64.Idx → EReal) (ix2 i j)
      = max (Cert.Spec.acc (fun k i l => wv m c k (ix2 i l)) (w2 m c) i j * s2v m c (ix1 j) + b2v m c (ix1 j)) 0 :=
  (congrFun (rd_main_v431 m c) (ix2 i j)).trans ((maximumf_apply _ _ _).trans (congrArg₂ max
    ((congrFun (rd_main_v430 m c) (ix2 i j)).trans ((addf_apply _ _ _).trans (congrArg₂ (· + ·)
      ((congrFun (rd_main_v427 m c) (ix2 i j)).trans ((mulf_apply _ _ _).trans (congrArg₂ (· * ·)
        (acc_apply m c i j) (sc2 m c i j))))
      (sh2 m c i j))))
    (z30 m c i j)))

/-! ## The third stage: the last product, scale, shift, the input added back, clamp -/

theorem sc3 (m : (ℓ : Loc nD τ sig) → Buf (Elt Ideal) ℓ) (c : Dev nD) (i : Fin 200000) (ch : Fin 256) : (RefRun.E (F := Ideal) m c (Proc.devRef .tc main_v434) : S200000x256.Idx → EReal) (ix2 i ch) = s3v m c (ix1 ch) := by
  refine (congrFun (rd_main_v434 m c) (ix2 i ch)).trans ?_
  rw [rd_main_v433, RefRun.E_arg9]
  exact chanBcast_apply (C := 256) _ _ (by decide) _ i ch

theorem sh3 (m : (ℓ : Loc nD τ sig) → Buf (Elt Ideal) ℓ) (c : Dev nD) (i : Fin 200000) (ch : Fin 256) : (RefRun.E (F := Ideal) m c (Proc.devRef .tc main_v437) : S200000x256.Idx → EReal) (ix2 i ch) = b3v m c (ix1 ch) := by
  refine (congrFun (rd_main_v437 m c) (ix2 i ch)).trans ?_
  rw [rd_main_v436, RefRun.E_arg10]
  exact chanBcast_apply (C := 256) _ _ (by decide) _ i ch

theorem z31 (m : (ℓ : Loc nD τ sig) → Buf (Elt Ideal) ℓ) (c : Dev nD) (i : Fin 200000) (ch : Fin 256) : (RefRun.E (F := Ideal) m c (Proc.devRef .tc main_call31_v0) : S200000x256.Idx → EReal) (ix2 i ch) = (0 : EReal) := by
  refine (congrFun (rd_main_call31_v0 m c) (ix2 i ch)).trans ?_
  rw [rd_main_call31_cst, bcast0_apply, constant_apply, Ideal.ofBits_zero_f32]

/-- The last product at (i, ch). -/
theorem dot3v (m : (ℓ : Loc nD τ sig) → Buf (Elt Ideal) ℓ) (c : Dev nD) (i : Fin 200000) (ch : Fin 256) :
    (RefRun.E (F := Ideal) m c (Proc.devRef .tc main_v432) : S200000x256.Idx → EReal) (ix2 i ch)
      = ∑ j : Fin 64, max (Cert.Spec.acc (fun k i l => wv m c k (ix2 i l)) (w2 m c) i j * s2v m c (ix1 j) + b2v m c (ix1 j)) 0 * w3 m c (ix2 j ch) := by
  refine (congrFun (rd_main_v432 m c) (ix2 i ch)).trans ?_
  rw [RefRun.E_arg4]
  refine (dot3_apply _ _ i ch).trans ?_
  exact Finset.sum_congr rfl fun j _ => congrArg (· * w3 m c (ix2 j ch)) (rows2_apply m c i j)

/-- The reference's result at (i, ch). -/
theorem ref_out (m : (ℓ : Loc nD τ sig) → Buf (Elt Ideal) ℓ) (c : Dev nD) (i : Fin 200000) (ch : Fin 256) :
    RefRun.E (F := Ideal) m c (Proc.devRef .tc main_v440) (ValueIdx.ix2 i ch)
      = Cert.Spec.out (fun k i l => wv m c k (ValueIdx.ix2 i l))
          (m ((c.tc : Thread nD τ).loc main_arg3)) (m ((c.tc : Thread nD τ).loc main_arg7)) (m ((c.tc : Thread nD τ).loc main_arg8)) (m ((c.tc : Thread nD τ).loc main_arg4)) (m ((c.tc : Thread nD τ).loc main_arg9))
          (m ((c.tc : Thread nD τ).loc main_arg10)) (m ((c.tc : Thread nD τ).loc main_arg0)) i ch :=
  (congrFun (rd_main_v440 m c) (ix2 i ch)).trans ((maximumf_apply _ _ _).trans (congrArg₂ max
    ((congrFun (rd_main_v439 m c) (ix2 i ch)).trans ((addf_apply _ _ _).trans (congrArg₂ (· + ·)
      ((congrFun (rd_main_v438 m c) (ix2 i ch)).trans ((addf_apply _ _ _).trans (congrArg₂ (· + ·)
        ((congrFun (rd_main_v435 m c) (ix2 i ch)).trans ((mulf_apply _ _ _).trans (congrArg₂ (· * ·)
          (dot3v m c i ch) (sc3 m c i ch))))
        (sh3 m c i ch))))
      (congrFun (RefRun.E_arg0 m c) (ix2 i ch)))))
    (z31 m c i ch)))

end Cert.ReferenceIdeal.RefIdx

end
-- ==== Proof.TapMath.lean ====
/-
  The neighbour table with two different fill values, and one tap read through it.

  Both programs scatter the row numbers 0 … N−1 into a table over the grid's cells, at the cells the coordinates name.
  They differ in what an empty cell holds: the kernel's table holds N there, the reference's holds −1. A scatter that
  OVERWRITES (its combiner returns the update) gives, cell by cell, either the same row number in both tables — some
  update landed there, and the last one to land is the same in both — or the two fill values.

  A tap then looks a cell up. The kernel keeps the row when the cell is in the grid and the entry is below N, and
  otherwise takes N (the index of an appended row of zeros). The reference keeps the row when the cell is in the grid
  and the entry is at least 0, and otherwise multiplies the gathered row by zero. These agree: a kept row is the same
  row in both, and a dropped one contributes zero in both.
-/
import Idealize.ShloMosaic.PureOps.ShapeOps
import Idealize.ShloMosaic.PureOps.Vector
import Mathlib.Tactic

namespace Cert.TapMath

open Idealize.ShloMosaic

/-! ## An overwriting scatter into two constant tables -/

section Scatter

variable {s si u : Shape} {w : Nat} {α : Type} (d : ScatterDims s si u) (idx : IVec si w) (upd : u.Idx → α)

/-- One step of the overwriting scatter: update number n lands on its cell, if it has one. -/
private def step (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

private theorem scatter_eq_foldl (x : s.Idx → α) :
    Host.scatter d (fun _ b => b) x idx upd = (List.finRange u.numel).foldl (step d idx upd) x := rfl

variable (a b : α) (P : α → Prop)

/-- Cell by cell, two tables are either equal at a value satisfying P or still at their fills. -/
private def Rel (rA rB : s.Idx → α) : Prop := ∀ p, (rA p = rB p ∧ P (rA p)) ∨ (rA p = a ∧ rB p = b)

private theorem rel_step (hP : ∀ j, P (upd j)) (rA rB : s.Idx → α) (h : Rel a b P rA rB) (n : Fin u.numel) :
    Rel a b P (step d idx upd rA n) (step d idx upd rB n) := by
  intro p
  unfold step
  cases hr : d.resultIdx? (u.rowMajor.symm n) idx with
  | none => exact h p
  | some i =>
    by_cases hp : p = i
    · subst hp
      refine Or.inl ⟨?_, ?_⟩
      · simp
      · simp only [if_true]; exact hP _
    · simp only [if_neg hp]
      exact h p

private theorem rel_foldl (hP : ∀ j, P (upd j)) (l : List (Fin u.numel)) :
    ∀ rA rB : s.Idx → α, Rel a b P rA rB → Rel a b P (l.foldl (step d idx upd) rA) (l.foldl (step d idx upd) rB) := by
  induction l with
  | nil => intro rA rB h; exact h
  | cons n l ih => intro rA rB h; exact ih _ _ (rel_step d idx upd a b P hP rA rB h n)

/-- THE TWO TABLES. Scattering the same updates at the same indices, overwriting, into a table that holds a
    everywhere and into one that holds b everywhere: at every cell either the two results are the same update value,
    or they are a and b. -/
theorem scatter_set_two_fills (hP : ∀ j, P (upd j)) (xA xB : s.Idx → α) (hA : ∀ p, xA p = a) (hB : ∀ p, xB p = b)
    (p : s.Idx) :
    (Host.scatter d (fun _ y => y) xA idx upd p = Host.scatter d (fun _ y => y) xB idx upd p
        ∧ P (Host.scatter d (fun _ y => y) xA idx upd p))
      ∨ (Host.scatter d (fun _ y => y) xA idx upd p = a ∧ Host.scatter d (fun _ y => y) xB idx upd p = b) := by
  rw [scatter_eq_foldl, scatter_eq_foldl]
  exact rel_foldl d idx upd a b P hP _ xA xB (fun q => Or.inr ⟨hA q, hB q⟩) p

end Scatter

/-! ## Signed 32-bit words in a small range -/

theorem toInt_lit_200000 : (200000#32 : BitVec 32).toInt = 200000 := by decide
theorem toInt_lit_200001 : (200001#32 : BitVec 32).toInt = 200001 := by decide
theorem toInt_lit_0 : (0#32 : BitVec 32).toInt = 0 := by decide
theorem toInt_lit_m1 : (4294967295#32 : BitVec 32).toInt = -1 := by decide

theorem bv1_cases (c : BitVec 1) : c = 0#1 ∨ c = 1#1 := by
  have : ∀ c : BitVec 1, c = 0#1 ∨ c = 1#1 := by decide
  exact this c

/-- A row number: a word whose signed value is in [0, N). -/
def IsRow (t : BitVec 32) : Prop := 0 ≤ t.toInt ∧ t.toInt < 200000

/-- THE TAP, word by word. With the two table entries related as the two-fills lemma says and the same in-grid bit:
    either the reference keeps the row, and then the kernel's index is that row, the reference's clamped-below entry is
    that row, and it is a row number; or the reference drops it, and then the kernel's index is N. -/
theorem tap_word (tK tR : BitVec 32) (inb : BitVec 1)
    (hrel : (tK = tR ∧ IsRow tK) ∨ (tK = 200000#32 ∧ tR = 4294967295#32)) :
    (IntOp.andi inb (IntOp.cmpi .sge tR 0#32) = 1#1
        ∧ Scalar.select (IntOp.andi inb (IntOp.cmpi .slt tK 200000#32)) tK 200000#32 = tR
        ∧ IntOp.maxsi tR 0#32 = tR ∧ IsRow tR)
      ∨ (IntOp.andi inb (IntOp.cmpi .sge tR 0#32) ≠ 1#1
        ∧ Scalar.select (IntOp.andi inb (IntOp.cmpi .slt tK 200000#32)) tK 200000#32 = 200000#32) := by
  rcases hrel with ⟨rfl, h0, h1⟩ | ⟨rfl, rfl⟩
  · have hlt : BitVec.slt tK 200000#32 = true := by
      rw [BitVec.slt_iff_toInt_lt, toInt_lit_200000]; exact h1
    have hge : BitVec.sle 0#32 tK = true := by
      rw [BitVec.sle_iff_toInt_le, toInt_lit_0]; exact h0
    have hmax : IntOp.maxsi tK 0#32 = tK := by
      unfold IntOp.maxsi
      by_cases hz : BitVec.slt 0#32 tK = true
      · rw [if_pos hz]
      · rw [if_neg hz]
        have : ¬ (0 : Int) < tK.toInt := by
          intro hh; exact hz (by rw [BitVec.slt_iff_toInt_lt, toInt_lit_0]; exact hh)
        have h00 : tK.toInt = (0#32 : BitVec 32).toInt := by rw [toInt_lit_0]; omega
        exact (BitVec.toInt_inj.mp h00).symm
    rcases bv1_cases inb with rfl | rfl
    · right
      refine ⟨?_, ?_⟩
      · simp [IntOp.andi]
      · simp [IntOp.andi, Scalar.select]
    · left
      refine ⟨?_, ?_, hmax, h0, h1⟩
      · simp [IntOp.andi, IntOp.cmpi, hge]
      · simp [IntOp.andi, IntOp.cmpi, hlt, Scalar.select]
  · right
    refine ⟨?_, ?_⟩
    · rcases bv1_cases inb with rfl | rfl <;> decide
    · rcases bv1_cases inb with rfl | rfl <;> decide

/-- A word in [0, N] is not negative, so the index normalisation (add the extent to a negative index) leaves it. -/
theorem norm_id (t : BitVec 32) (e : BitVec 32) (h0 : 0 ≤ t.toInt) :
    Scalar.select (IntOp.cmpi .slt t 0#32) (IntOp.addi t e) t = t := by
  have : BitVec.slt t 0#32 = false := by
    rw [Bool.eq_false_iff]; intro hh
    rw [BitVec.slt_iff_toInt_lt, toInt_lit_0] at hh; omega
  simp [IntOp.cmpi, this, Scalar.select]

/-- An index normalised the way array indexing does: a negative one has the extent e added. -/
def normed (e t : BitVec 32) : BitVec 32 := Scalar.select (IntOp.cmpi .slt t 0#32) (IntOp.addi t e) t

theorem normed_of_nonneg (e t : BitVec 32) (h0 : 0 ≤ t.toInt) : normed e t = t := norm_id t e h0

theorem isRow_nonneg {t : BitVec 32} (h : IsRow t) : 0 ≤ t.toInt := h.1

/-- The signed value of a row number, as a natural number, is below N. -/
theorem isRow_toNat_lt {t : BitVec 32} (h : IsRow t) : t.toInt.toNat < 200000 := by
  have := h.1; have := h.2; omega

/-- The word of a natural number below N is a row number. -/
theorem isRow_ofNat (n : Nat) (h : n < 200000) : IsRow (BitVec.ofNat 32 n) := by
  have hn : (BitVec.ofNat 32 n).toNat = n := by
    rw [BitVec.toNat_ofNat]; exact Nat.mod_eq_of_lt (by omega)
  have hi : (BitVec.ofNat 32 n).toInt = (n : Int) := by
    rw [BitVec.toInt_eq_toNat_cond, hn]
    have : 2 * n < 4294967296 := by omega
    simp [this]
  constructor
  · rw [hi]; exact Int.natCast_nonneg n
  · rw [hi]; exact_mod_cast h

/-- THE TWO NEIGHBOUR TABLES. The row numbers 0 … N−1 scattered, overwriting, at the same cells into a table of N's
    and into a table of −1's: at every cell the two entries are the same row number, or N and −1. -/
theorem tables_rel {si : Shape} (sd : ScatterDims ⟨1, ![589824]⟩ si ⟨1, ![200000]⟩) (idx : IVec si 32)
    (xA xB : (⟨1, ![589824]⟩ : Shape).Idx → BitVec 32) (hA : ∀ p, xA p = 200000#32) (hB : ∀ p, xB p = 4294967295#32)
    (p : (⟨1, ![589824]⟩ : Shape).Idx) :
    (Host.scatter sd (fun _ y => y) xA idx (iotaInDim ⟨1, ![200000]⟩ 32 0) p
        = Host.scatter sd (fun _ y => y) xB idx (iotaInDim ⟨1, ![200000]⟩ 32 0) p
      ∧ IsRow (Host.scatter sd (fun _ y => y) xA idx (iotaInDim ⟨1, ![200000]⟩ 32 0) p))
    ∨ (Host.scatter sd (fun _ y => y) xA idx (iotaInDim ⟨1, ![200000]⟩ 32 0) p = 200000#32
      ∧ Host.scatter sd (fun _ y => y) xB idx (iotaInDim ⟨1, ![200000]⟩ 32 0) p = 4294967295#32) :=
  scatter_set_two_fills sd idx (iotaInDim ⟨1, ![200000]⟩ 32 0) 200000#32 4294967295#32 IsRow
    (fun j => isRow_ofNat _ (j 0).isLt) xA xB hA hB p

end Cert.TapMath
-- ==== Proof.TapArray.lean ====
/-
  Reading the kernel's row look-up at an index.

  The kernel gathers, for every site and every one of the nine taps, one row of the padded activations: a gather of
  whole rows of an [N+1, D] array at start indices laid out [E, K, 1], with result [E, K, D]. Result (e, k, c) is the
  operand at row clamp (idx (e, k, 0)), column c — the start index read signed and clamped into the array.
-/
import proofs.«125710_j13511967113615_2_alg».proof.Proof.LibGcnAgg
import proofs.«125710_j13511967113615_2_alg».proof.Proof.TapMath

noncomputable section

namespace Cert.TapArray

open Idealize.ShloMosaic Idealize.ShloMosaic.ValueIdx Cert.LibGcnAgg

/-- The gather of whole rows of an [N, D] array at [E, K, 1] start indices: result [E, K, D]. -/
abbrev rows3Gather (N E K D : Nat)
    (wf : GatherDims.WF ⟨2, ![N, D]⟩ ⟨3, ![E, K, 1]⟩ ⟨3, ![E, K, D]⟩ [2] [0] [] [0] [] 2 ![1, D]) :
    GatherDims ⟨2, ![N, D]⟩ ⟨3, ![E, K, 1]⟩ ⟨3, ![E, K, D]⟩ where
  offsetDims := [2]
  collapsedSliceDims := [0]
  operandBatchingDims := []
  startIndicesBatchingDims := []
  startIndexMap := [0]
  indexVectorDim := 2
  sliceSizes := ![1, D]
  wf := wf

variable {N E K D w : Nat}

/-- The rows gather over a table of start indices reads, for result (e, k, c), the operand at row
    clamp (idx (e, k, 0)), column c. -/
theorem rows3Gather_operandIdx (hN : 0 < N) (wf) (j : (⟨3, ![E, K, D]⟩ : Shape).Idx) (idx : IVec ⟨3, ![E, K, 1]⟩ w) :
    (rows3Gather N E K D wf).operandIdx j idx = ix2 (clampNode N hN (idx (ix3 (j 0) (j 1) (0 : Fin 1)))) (j 2) := by
  funext a
  refine Fin.ext ?_
  show (rows3Gather N E K D wf).start j idx a + (rows3Gather N E K D wf).batchCoord j a + (rows3Gather N E K D wf).offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rows3Gather N E K D wf).startIndexMap from List.mem_singleton.mpr rfl)]
    have hsi : (rows3Gather N E K D wf).siIdx j ⟨List.idxOf (⟨0, h0⟩ : Fin 2) (rows3Gather N E K D wf).startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, h1⟩ =>
    unfold GatherDims.start
    rw [dif_neg (show (⟨1, h1⟩ : Fin 2) ∉ (rows3Gather N E K D wf).startIndexMap from
      fun h => Nat.one_ne_zero (congrArg Fin.val (List.mem_singleton.mp h)))]
    simp only [Nat.zero_add]
    unfold GatherDims.offCoord
    rw [dif_pos (show (⟨1, h1⟩ : Fin 2) ∈ (rows3Gather N E K D wf).sKept from
      (GatherDims.mem_sKept _ _).mpr ⟨fun h => Nat.one_ne_zero (congrArg Fin.val (List.mem_singleton.mp h)), List.not_mem_nil⟩)]
    rfl

/-! ## One tap, one column -/

open Cert.TapMath

/-- A word in [0, N] read signed and clamped into an array of N + 1 rows is itself. -/
theorem clamp_pad_val (t : BitVec 32) (h0 : 0 ≤ t.toInt) (h1 : t.toInt ≤ 200000) :
    (clampNode 200001 (by decide) t).val = t.toInt.toNat := by
  unfold clampNode
  simp only
  omega

/-- A row number read signed and clamped into an array of N rows is itself. -/
theorem clamp_row_val (t : BitVec 32) (h : IsRow t) : (clampNode 200000 (by decide) t).val = t.toInt.toNat := by
  unfold clampNode
  have := h.1; have := h.2
  simp only
  omega

/-- THE TAP, one column. The kernel fetches row clamp (norm idx) of the padded column, idx the row it kept or N; the
    reference fetches row clamp (norm (max r 0)) of the column and keeps it or takes zero. With the two table entries
    related (the same row number, or the two fills) and the same in-grid bit, the two are equal: a kept row is the same
    row, a dropped one is the pad's zero against the reference's zero. -/
theorem tap_column (tK tR : BitVec 32) (inb : BitVec 1)
    (hrel : (tK = tR ∧ IsRow tK) ∨ (tK = 200000#32 ∧ tR = 4294967295#32))
    (col : Fin 200000 → EReal) (padded : Fin 200001 → EReal)
    (hrow : ∀ n : Fin 200000, padded ⟨n.val, by omega⟩ = col n) (hpad : padded ⟨200000, by omega⟩ = 0) :
    padded (clampNode 200001 (by decide)
        (normed 200001#32 (Scalar.select (IntOp.andi inb (IntOp.cmpi .slt tK 200000#32)) tK 200000#32)))
      = Scalar.select (IntOp.andi inb (IntOp.cmpi .sge tR 0#32))
          (col (clampNode 200000 (by decide) (normed 200000#32 (IntOp.maxsi tR 0#32)))) 0 := by
  rcases tap_word tK tR inb hrel with ⟨hok, hidx, hmax, hr⟩ | ⟨hok, hidx⟩
  · rw [hidx, hmax, hok, normed_of_nonneg _ _ hr.1, normed_of_nonneg _ _ hr.1]
    have hv : (clampNode 200001 (by decide) tR).val = (clampNode 200000 (by decide) tR).val := by
      rw [clamp_pad_val tR hr.1 (le_of_lt hr.2), clamp_row_val tR hr]
    have : clampNode 200001 (by decide) tR = ⟨(clampNode 200000 (by decide) tR).val, by have := (clampNode 200000 (by decide) tR).isLt; omega⟩ :=
      Fin.ext hv
    rw [this, hrow]
    simp [Scalar.select]
  · rw [hidx]
    have h200 : (200000#32 : BitVec 32).toInt = 200000 := toInt_lit_200000
    rw [normed_of_nonneg _ _ (by rw [h200]; decide)]
    have : clampNode 200001 (by decide) (200000#32 : BitVec 32) = ⟨200000, by omega⟩ :=
      Fin.ext (by rw [clamp_pad_val _ (by rw [h200]; decide) (by rw [h200])]; rw [h200]; rfl)
    rw [this, hpad]
    unfold Scalar.select
    exact (if_neg (by exact hok)).symm

end Cert.TapArray
end
-- ==== Proof.GlueTaps.lean ====
/-
  The nine taps' buffers by tap number.

  Both programs visit the nine neighbours of a site in the same order (row offset −1, 0, 1; within it column offset
  −1, 0, 1). For tap k each computes the in-grid mask of the neighbour cell, the cell's clipped linear index (made
  non-negative), and — the kernel only — the neighbour's row number in the padded activations.
-/
import proofs.«125710_j13511967113615_2_alg».proof.KernelIdeal
import proofs.«125710_j13511967113615_2_alg».proof.ReferenceIdeal

noncomputable section

namespace Cert.KernelIdeal.Glue

open Idealize.ShloMosaic

/-- Kernel, tap k: the row of the padded activations the tap reads (the neighbour's row number, or the appended row of zeros). -/
def idxbuf : Fin 9 → Ref sig .tc
  | 0 => main_v50
  | 1 => main_v81
  | 2 => main_v112
  | 3 => main_v143
  | 4 => main_v174
  | 5 => main_v205
  | 6 => main_v236
  | 7 => main_v267
  | 8 => main_v298

/-- Kernel, tap k: the mask of the sites whose neighbour cell lies in the grid. -/
def inbbuf : Fin 9 → Ref sig .tc
  | 0 => main_v34
  | 1 => main_v65
  | 2 => main_v96
  | 3 => main_v127
  | 4 => main_v158
  | 5 => main_v189
  | 6 => main_v220
  | 7 => main_v251
  | 8 => main_v282

/-- Kernel, tap k: the neighbour cell's clipped linear index, made non-negative. -/
def linbuf : Fin 9 → Ref sig .tc
  | 0 => main_v44
  | 1 => main_v75
  | 2 => main_v106
  | 3 => main_v137
  | 4 => main_v168
  | 5 => main_v199
  | 6 => main_v230
  | 7 => main_v261
  | 8 => main_v292

/-- Reference, tap k: the mask of the sites whose neighbour cell lies in the grid. -/
def inbR : Fin 9 → Ref ReferenceIdeal.sig .tc
  | 0 => ReferenceIdeal.main_v34
  | 1 => ReferenceIdeal.main_v79
  | 2 => ReferenceIdeal.main_v124
  | 3 => ReferenceIdeal.main_v169
  | 4 => ReferenceIdeal.main_v214
  | 5 => ReferenceIdeal.main_v259
  | 6 => ReferenceIdeal.main_v304
  | 7 => ReferenceIdeal.main_v349
  | 8 => ReferenceIdeal.main_v394

/-- Reference, tap k: the neighbour cell's clipped linear index, made non-negative. -/
def linR : Fin 9 → Ref ReferenceIdeal.sig .tc
  | 0 => ReferenceIdeal.main_v44
  | 1 => ReferenceIdeal.main_v89
  | 2 => ReferenceIdeal.main_v134
  | 3 => ReferenceIdeal.main_v179
  | 4 => ReferenceIdeal.main_v224
  | 5 => ReferenceIdeal.main_v269
  | 6 => ReferenceIdeal.main_v314
  | 7 => ReferenceIdeal.main_v359
  | 8 => ReferenceIdeal.main_v404

end Cert.KernelIdeal.Glue
-- ==== Proof.GlueIdxLemmas.lean ====
/-
  Reading the kernel's index arrays entry by entry: the general facts.

  A scalar broadcast to any shape reads the scalar everywhere; a vector [N] broadcast to a column [N, 1], and a table
  [N, K] broadcast to [N, K, 1], read the operand at the leading coordinates. The printed gather of entries of the
  cell table is the entry gather (start index read signed and clamped into the table); the printed gather of rows
  of the padded activations is the rows gather over a table of start indices.

  ONE TAP. The tap's row number is, site by site: the table entry at the (clamped) linear index of the neighbour
  cell if that cell is in the grid and the entry is below the fill value, and the fill value otherwise.
-/
import proofs.«125710_j13511967113615_2_alg».proof.Proof.TapArray
import proofs.«125710_j13511967113615_2_alg».proof.Proof.GlueTaps
import proofs.«125710_j13511967113615_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.ValueIdx Cert.LibGcnAgg Cert.TapArray

variable {α : Type}

/-- A scalar broadcast to a shape reads the scalar at every index. -/
theorem bcast0_apply (t : Shape) (h : S_.BroadcastsInDim t (![] : Fin 0 → Fin t.rank)) (x : S_.Idx → α) (j : t.Idx) :
    broadcastInDim t ![] h x j = x ix0 :=
  broadcastInDim_apply _ h x j ix0 fun a => a.elim0

/-- A vector broadcast to a column reads the vector at the row. -/
theorem bcastCol_apply (h : S200000.BroadcastsInDim S200000x1 ![0]) (x : S200000.Idx → α) (i : Fin 200000) (z : Fin 1) :
    broadcastInDim S200000x1 ![0] h x (ix2 i z) = x (ix1 i) :=
  broadcastInDim_apply _ h x _ _ fun a => by
    obtain rfl : a = 0 := Subsingleton.elim _ _
    rfl

/-- A table broadcast to a table of one-entry vectors reads the table at the two leading coordinates. -/
theorem bcastTab_apply (h : S200000x9.BroadcastsInDim S200000x9x1 ![0, 1]) (x : S200000x9.Idx → α) (i : Fin 200000)
    (k : Fin 9) (z : Fin 1) : broadcastInDim S200000x9x1 ![0, 1] h x (ix3 i k z) = x (ix2 i k) :=
  broadcastInDim_apply _ h x _ _ fun a => by
    match a with
    | ⟨0, _⟩ => rfl
    | ⟨1, _⟩ => rfl

/-- The printed gather of entries of the cell table is the entry gather. -/
theorem gatherCell_operandIdx (j : S200000.Idx) (idx : IVec S200000x1 32) :
    gather_S589824_S200000x1_S200000_n_0_n_n_0_1_1.operandIdx j idx
      = ix1 (clampNode 589824 (by decide) (idx (ix2 (j 0) (0 : Fin 1)))) :=
  entryGather_operandIdx (N := 589824) (E := 200000) (by decide) Facts₀.gather_S589824_S200000x1_S200000_n_0_n_n_0_1_1_wf j idx

/-- The printed gather of rows of the padded activations is the rows gather over a table of start indices. -/
theorem gatherRows_operandIdx (j : S200000x9x64.Idx) (idx : IVec S200000x9x1 32) :
    gather_S200001x64_S200000x9x1_S200000x9x64_2_0_n_n_0_2_164.operandIdx j idx
      = ix2 (clampNode 200001 (by decide) (idx (ix3 (j 0) (j 1) (0 : Fin 1)))) (j 2) :=
  rows3Gather_operandIdx (N := 200001) (E := 200000) (K := 9) (D := 64) (by decide)
    Facts₀.gather_S200001x64_S200000x9x1_S200000x9x64_2_0_n_n_0_2_164_wf j idx

/-- ONE TAP, from its ten defining equations: the row number the tap reads at site `i`. -/
theorem tap_apply (hb1 : S200000.BroadcastsInDim S200000x1 ![0]) (hb0 : S_.BroadcastsInDim S200000 ![])
    (IDX R FILL NB LIN : IVec S200000 32) (VALID INB LT : IVec S200000 1) (TBL : IVec S589824 32)
    (LIN1 : IVec S200000x1 32) (CA C0 CB : IVec S_ 32)
    (hidx : IDX = select VALID R FILL) (hvalid : VALID = andi INB LT) (hlt : LT = cmpi .slt R NB)
    (hnb : NB = broadcastInDim S200000 ![] hb0 CA) (hca : CA = constantI S_ 32 200000#32)
    (hr : R = (fun x i => Host.gather gather_S589824_S200000x1_S200000_n_0_n_n_0_1_1 x i) TBL LIN1)
    (hlin1 : LIN1 = broadcastInDim S200000x1 ![0] hb1 LIN)
    (hfill : FILL = broadcastInDim S200000 ![] hb0 C0) (hc0 : C0 = id CB) (hcb : CB = constantI S_ 32 200000#32)
    (i : Fin 200000) :
    IDX (ix1 i) = Scalar.select
      (IntOp.andi (INB (ix1 i)) (IntOp.cmpi .slt (TBL (ix1 (clampNode 589824 (by decide) (LIN (ix1 i))))) 200000#32))
      (TBL (ix1 (clampNode 589824 (by decide) (LIN (ix1 i))))) 200000#32 := by
  subst hidx hvalid hlt hnb hca hr hlin1 hfill hc0 hcb
  have hR : Host.gather gather_S589824_S200000x1_S200000_n_0_n_n_0_1_1 TBL (broadcastInDim S200000x1 ![0] hb1 LIN) (ix1 i)
      = TBL (ix1 (clampNode 589824 (by decide) (LIN (ix1 i)))) := by
    unfold Host.gather
    rw [gatherCell_operandIdx, bcastCol_apply]
  show Scalar.select (IntOp.andi (INB (ix1 i)) (IntOp.cmpi .slt
      (Host.gather gather_S589824_S200000x1_S200000_n_0_n_n_0_1_1 TBL (broadcastInDim S200000x1 ![0] hb1 LIN) (ix1 i))
      (broadcastInDim S200000 ![] hb0 (constantI S_ 32 200000#32) (ix1 i))))
    (Host.gather gather_S589824_S200000x1_S200000_n_0_n_n_0_1_1 TBL (broadcastInDim S200000x1 ![0] hb1 LIN) (ix1 i))
    (broadcastInDim S200000 ![] hb0 (id (constantI S_ 32 200000#32)) (ix1 i)) = _
  rw [hR, bcast0_apply, bcast0_apply]
  rfl

end Cert.KernelIdeal.Glue
-- ==== Proof.GlueTapTable.lean ====
/-
  The nine taps, one after the other: tap k's row number read at a site (the general one-tap reading at the tap's ten
  equations of the read-back table), and tap k's column of the [N, 9] table of row numbers read at a site.
-/
import proofs.«125710_j13511967113615_2_alg».proof.Proof.GlueRead
import proofs.«125710_j13511967113615_2_alg».proof.Proof.GlueIdxLemmas

set_option maxRecDepth 16384

noncomputable section

namespace Cert.KernelIdeal.Glue

open Idealize.ShloMosaic Idealize.ShloMosaic.TcCoe Idealize.ShloMosaic.ValueIdx Cert.LibGcnAgg

variable {F : FTy → Type} [FloatOps F]
variable (m : (ℓ : Loc nD τ sig) → Buf (Elt F) ℓ) (outs : GenP.Outs (F := F)) (c : Dev nD)

/-- Tap 0: inside mask main_v34, linear index main_v44, row number main_v50. -/
theorem idx_tap0 (i : Fin 200000) : GenP.V61 m outs c (Proc.devRef .tc main_v50) (ix1 i) = Scalar.select (IntOp.andi (GenP.V61 m outs c (Proc.devRef .tc main_v34) (ix1 i)) (IntOp.cmpi .slt (GenP.V61 m outs c (Proc.devRef .tc main_v15) (ix1 (clampNode 589824 (by decide) (GenP.V61 m outs c (Proc.devRef .tc main_v44) (ix1 i))))) 200000#32)) (GenP.V61 m outs c (Proc.devRef .tc main_v15) (ix1 (clampNode 589824 (by decide) (GenP.V61 m outs c (Proc.devRef .tc main_v44) (ix1 i))))) 200000#32 :=
  tap_apply _ _ _ _ _ _ _ _ _ _ _ _ _ _ _ (rd_main_v50 m outs c) (rd_main_v49 m outs c) (rd_main_v48 m outs c) (rd_main_v47 m outs c) (rd_main_c_17 m outs c) (rd_main_v46 m outs c) (rd_main_v45 m outs c) (rd_main_call4_v1 m outs c) (rd_main_call4_v0 m outs c) (rd_main_c_18 m outs c) i
theorem col_tap0 (i : Fin 200000) (z : Fin 1) : GenP.V61 m outs c (Proc.devRef .tc main_v299) (ix2 i z) = GenP.V61 m outs c (Proc.devRef .tc main_v50) (ix1 i) :=
  (congrFun (rd_main_v299 m outs c) _).trans (bcastCol_apply _ _ i z)
/-- Tap 1: inside mask main_v65, linear index main_v75, row number main_v81. -/
theorem idx_tap1 (i : Fin 200000) : GenP.V61 m outs c (Proc.devRef .tc main_v81) (ix1 i) = Scalar.select (IntOp.andi (GenP.V61 m outs c (Proc.devRef .tc main_v65) (ix1 i)) (IntOp.cmpi .slt (GenP.V61 m outs c (Proc.devRef .tc main_v15) (ix1 (clampNode 589824 (by decide) (GenP.V61 m outs c (Proc.devRef .tc main_v75) (ix1 i))))) 200000#32)) (GenP.V61 m outs c (Proc.devRef .tc main_v15) (ix1 (clampNode 589824 (by decide) (GenP.V61 m outs c (Proc.devRef .tc main_v75) (ix1 i))))) 200000#32 :=
  tap_apply _ _ _ _ _ _ _ _ _ _ _ _ _ _ _ (rd_main_v81 m outs c) (rd_main_v80 m outs c) (rd_main_v79 m outs c) (rd_main_v78 m outs c) (rd_main_c_32 m outs c) (rd_main_v77 m outs c) (rd_main_v76 m outs c) (rd_main_call7_v1 m outs c) (rd_main_call7_v0 m outs c) (rd_main_c_33 m outs c) i
theorem col_tap1 (i : Fin 200000) (z : Fin 1) : GenP.V61 m outs c (Proc.devRef .tc main_v300) (ix2 i z) = GenP.V61 m outs c (Proc.devRef .tc main_v81) (ix1 i) :=
  (congrFun (rd_main_v300 m outs c) _).trans (bcastCol_apply _ _ i z)
/-- Tap 2: inside mask main_v96, linear index main_v106, row number main_v112. -/
theorem idx_tap2 (i : Fin 200000) : GenP.V61 m outs c (Proc.devRef .tc main_v112) (ix1 i) = Scalar.select (IntOp.andi (GenP.V61 m outs c (Proc.devRef .tc main_v96) (ix1 i)) (IntOp.cmpi .slt (GenP.V61 m outs c (Proc.devRef .tc main_v15) (ix1 (clampNode 589824 (by decide) (GenP.V61 m outs c (Proc.devRef .tc main_v106) (ix1 i))))) 200000#32)) (GenP.V61 m outs c (Proc.devRef .tc main_v15) (ix1 (clampNode 589824 (by decide) (GenP.V61 m outs c (Proc.devRef .tc main_v106) (ix1 i))))) 200000#32 :=
  tap_apply _ _ _ _ _ _ _ _ _ _ _ _ _ _ _ (rd_main_v112 m outs c) (rd_main_v111 m outs c) (rd_main_v110 m outs c) (rd_main_v109 m outs c) (rd_main_c_47 m outs c) (rd_main_v108 m outs c) (rd_main_v107 m outs c) (rd_main_call10_v1 m outs c) (rd_main_call10_v0 m outs c) (rd_main_c_48 m outs c) i
theorem col_tap2 (i : Fin 200000) (z : Fin 1) : GenP.V61 m outs c (Proc.devRef .tc main_v301) (ix2 i z) = GenP.V61 m outs c (Proc.devRef .tc main_v112) (ix1 i) :=
  (congrFun (rd_main_v301 m outs c) _).trans (bcastCol_apply _ _ i z)
/-- Tap 3: inside mask main_v127, linear index main_v137, row number main_v143. -/
theorem idx_tap3 (i : Fin 200000) : GenP.V61 m outs c (Proc.devRef .tc main_v143) (ix1 i) = Scalar.select (IntOp.andi (GenP.V61 m outs c (Proc.devRef .tc main_v127) (ix1 i)) (IntOp.cmpi .slt (GenP.V61 m outs c (Proc.devRef .tc main_v15) (ix1 (clampNode 589824 (by decide) (GenP.V61 m outs c (Proc.devRef .tc main_v137) (ix1 i))))) 200000#32)) (GenP.V61 m outs c (Proc.devRef .tc main_v15) (ix1 (clampNode 589824 (by decide) (GenP.V61 m outs c (Proc.devRef .tc main_v137) (ix1 i))))) 200000#32 :=
  tap_apply _ _ _ _ _ _ _ _ _ _ _ _ _ _ _ (rd_main_v143 m outs c) (rd_main_v142 m outs c) (rd_main_v141 m outs c) (rd_main_v140 m outs c) (rd_main_c_62 m outs c) (rd_main_v139 m outs c) (rd_main_v138 m outs c) (rd_main_call13_v1 m outs c) (rd_main_call13_v0 m outs c) (rd_main_c_63 m outs c) i
theorem col_tap3 (i : Fin 200000) (z : Fin 1) : GenP.V61 m outs c (Proc.devRef .tc main_v302) (ix2 i z) = GenP.V61 m outs c (Proc.devRef .tc main_v143) (ix1 i) :=
  (congrFun (rd_main_v302 m outs c) _).trans (bcastCol_apply _ _ i z)
/-- Tap 4: inside mask main_v158, linear index main_v168, row number main_v174. -/
theorem idx_tap4 (i : Fin 200000) : GenP.V61 m outs c (Proc.devRef .tc main_v174) (ix1 i) = Scalar.select (IntOp.andi (GenP.V61 m outs c (Proc.devRef .tc main_v158) (ix1 i)) (IntOp.cmpi .slt (GenP.V61 m outs c (Proc.devRef .tc main_v15) (ix1 (clampNode 589824 (by decide) (GenP.V61 m outs c (Proc.devRef .tc main_v168) (ix1 i))))) 200000#32)) (GenP.V61 m outs c (Proc.devRef .tc main_v15) (ix1 (clampNode 589824 (by decide) (GenP.V61 m outs c (Proc.devRef .tc main_v168) (ix1 i))))) 200000#32 :=
  tap_apply _ _ _ _ _ _ _ _ _ _ _ _ _ _ _ (rd_main_v174 m outs c) (rd_main_v173 m outs c) (rd_main_v172 m outs c) (rd_main_v171 m outs c) (rd_main_c_77 m outs c) (rd_main_v170 m outs c) (rd_main_v169 m outs c) (rd_main_call16_v1 m outs c) (rd_main_call16_v0 m outs c) (rd_main_c_78 m outs c) i
theorem col_tap4 (i : Fin 200000) (z : Fin 1) : GenP.V61 m outs c (Proc.devRef .tc main_v303) (ix2 i z) = GenP.V61 m outs c (Proc.devRef .tc main_v174) (ix1 i) :=
  (congrFun (rd_main_v303 m outs c) _).trans (bcastCol_apply _ _ i z)
/-- Tap 5: inside mask main_v189, linear index main_v199, row number main_v205. -/
theorem idx_tap5 (i : Fin 200000) : GenP.V61 m outs c (Proc.devRef .tc main_v205) (ix1 i) = Scalar.select (IntOp.andi (GenP.V61 m outs c (Proc.devRef .tc main_v189) (ix1 i)) (IntOp.cmpi .slt (GenP.V61 m outs c (Proc.devRef .tc main_v15) (ix1 (clampNode 589824 (by decide) (GenP.V61 m outs c (Proc.devRef .tc main_v199) (ix1 i))))) 200000#32)) (GenP.V61 m outs c (Proc.devRef .tc main_v15) (ix1 (clampNode 589824 (by decide) (GenP.V61 m outs c (Proc.devRef .tc main_v199) (ix1 i))))) 200000#32 :=
  tap_apply _ _ _ _ _ _ _ _ _ _ _ _ _ _ _ (rd_main_v205 m outs c) (rd_main_v204 m outs c) (rd_main_v203 m outs c) (rd_main_v202 m outs c) (rd_main_c_92 m outs c) (rd_main_v201 m outs c) (rd_main_v200 m outs c) (rd_main_call19_v1 m outs c) (rd_main_call19_v0 m outs c) (rd_main_c_93 m outs c) i
theorem col_tap5 (i : Fin 200000) (z : Fin 1) : GenP.V61 m outs c (Proc.devRef .tc main_v304) (ix2 i z) = GenP.V61 m outs c (Proc.devRef .tc main_v205) (ix1 i) :=
  (congrFun (rd_main_v304 m outs c) _).trans (bcastCol_apply _ _ i z)
/-- Tap 6: inside mask main_v220, linear index main_v230, row number main_v236. -/
theorem idx_tap6 (i : Fin 200000) : GenP.V61 m outs c (Proc.devRef .tc main_v236) (ix1 i) = Scalar.select (IntOp.andi (GenP.V61 m outs c (Proc.devRef .tc main_v220) (ix1 i)) (IntOp.cmpi .slt (GenP.V61 m outs c (Proc.devRef .tc main_v15) (ix1 (clampNode 589824 (by decide) (GenP.V61 m outs c (Proc.devRef .tc main_v230) (ix1 i))))) 200000#32)) (GenP.V61 m outs c (Proc.devRef .tc main_v15) (ix1 (clampNode 589824 (by decide) (GenP.V61 m outs c (Proc.devRef .tc main_v230) (ix1 i))))) 200000#32 :=
  tap_apply _ _ _ _ _ _ _ _ _ _ _ _ _ _ _ (rd_main_v236 m outs c) (rd_main_v235 m outs c) (rd_main_v234 m outs c) (rd_main_v233 m outs c) (rd_main_c_107 m outs c) (rd_main_v232 m outs c) (rd_main_v231 m outs c) (rd_main_call22_v1 m outs c) (rd_main_call22_v0 m outs c) (rd_main_c_108 m outs c) i
theorem col_tap6 (i : Fin 200000) (z : Fin 1) : GenP.V61 m outs c (Proc.devRef .tc main_v305) (ix2 i z) = GenP.V61 m outs c (Proc.devRef .tc main_v236) (ix1 i) :=
  (congrFun (rd_main_v305 m outs c) _).trans (bcastCol_apply _ _ i z)
/-- Tap 7: inside mask main_v251, linear index main_v261, row number main_v267. -/
theorem idx_tap7 (i : Fin 200000) : GenP.V61 m outs c (Proc.devRef .tc main_v267) (ix1 i) = Scalar.select (IntOp.andi (GenP.V61 m outs c (Proc.devRef .tc main_v251) (ix1 i)) (IntOp.cmpi .slt (GenP.V61 m outs c (Proc.devRef .tc main_v15) (ix1 (clampNode 589824 (by decide) (GenP.V61 m outs c (Proc.devRef .tc main_v261) (ix1 i))))) 200000#32)) (GenP.V61 m outs c (Proc.devRef .tc main_v15) (ix1 (clampNode 589824 (by decide) (GenP.V61 m outs c (Proc.devRef .tc main_v261) (ix1 i))))) 200000#32 :=
  tap_apply _ _ _ _ _ _ _ _ _ _ _ _ _ _ _ (rd_main_v267 m outs c) (rd_main_v266 m outs c) (rd_main_v265 m outs c) (rd_main_v264 m outs c) (rd_main_c_122 m outs c) (rd_main_v263 m outs c) (rd_main_v262 m outs c) (rd_main_call25_v1 m outs c) (rd_main_call25_v0 m outs c) (rd_main_c_123 m outs c) i
theorem col_tap7 (i : Fin 200000) (z : Fin 1) : GenP.V61 m outs c (Proc.devRef .tc main_v306) (ix2 i z) = GenP.V61 m outs c (Proc.devRef .tc main_v267) (ix1 i) :=
  (congrFun (rd_main_v306 m outs c) _).trans (bcastCol_apply _ _ i z)
/-- Tap 8: inside mask main_v282, linear index main_v292, row number main_v298. -/
theorem idx_tap8 (i : Fin 200000) : GenP.V61 m outs c (Proc.devRef .tc main_v298) (ix1 i) = Scalar.select (IntOp.andi (GenP.V61 m outs c (Proc.devRef .tc main_v282) (ix1 i)) (IntOp.cmpi .slt (GenP.V61 m outs c (Proc.devRef .tc main_v15) (ix1 (clampNode 589824 (by decide) (GenP.V61 m outs c (Proc.devRef .tc main_v292) (ix1 i))))) 200000#32)) (GenP.V61 m outs c (Proc.devRef .tc main_v15) (ix1 (clampNode 589824 (by decide) (GenP.V61 m outs c (Proc.devRef .tc main_v292) (ix1 i))))) 200000#32 :=
  tap_apply _ _ _ _ _ _ _ _ _ _ _ _ _ _ _ (rd_main_v298 m outs c) (rd_main_v297 m outs c) (rd_main_v296 m outs c) (rd_main_v295 m outs c) (rd_main_c_137 m outs c) (rd_main_v294 m outs c) (rd_main_v293 m outs c) (rd_main_call28_v1 m outs c) (rd_main_call28_v0 m outs c) (rd_main_c_138 m outs c) i
theorem col_tap8 (i : Fin 200000) (z : Fin 1) : GenP.V61 m outs c (Proc.devRef .tc main_v307) (ix2 i z) = GenP.V61 m outs c (Proc.devRef .tc main_v298) (ix1 i) :=
  (congrFun (rd_main_v307 m outs c) _).trans (bcastCol_apply _ _ i z)

end Cert.KernelIdeal.Glue
-- ==== Proof.GlueFam.lean ====
/-
  The nine taps' arrays by tap number, as families of contents.

  Tap k of the kernel program leaves, in the contents the second kernel region is entered with, the mask of the sites
  whose neighbour cell lies in the grid, the neighbour cell's clipped linear index (made non-negative), and the row of
  the padded activations the tap reads. The reference leaves the first two at its end. The buffer holding each depends
  on k, and so would the type of its contents if the buffer were a function of k; the contents are named instead.
-/
import proofs.«125710_j13511967113615_2_alg».proof.Proof.GlueBase
import proofs.«125710_j13511967113615_2_alg».proof.Proof.GlueTaps
import proofs.«125710_j13511967113615_2_alg».proof.Proof.RefRun

noncomputable section

namespace Cert.KernelIdeal.Glue

open Idealize.ShloMosaic Idealize.ShloMosaic.TcCoe

variable {F : FTy → Type} [FloatOps F]
variable (m : (ℓ : Loc nD τ sig) → Buf (Elt F) ℓ) (outs : GenP.Outs (F := F)) (c : Dev nD)

/-- Kernel, tap k: the row of the padded activations the tap reads, site by site (the contents of `idxbuf k`). -/
def idxv  : Fin 9 → IVec S200000 32
  | 0 => GenP.V61 m outs c main_v50
  | 1 => GenP.V61 m outs c main_v81
  | 2 => GenP.V61 m outs c main_v112
  | 3 => GenP.V61 m outs c main_v143
  | 4 => GenP.V61 m outs c main_v174
  | 5 => GenP.V61 m outs c main_v205
  | 6 => GenP.V61 m outs c main_v236
  | 7 => GenP.V61 m outs c main_v267
  | 8 => GenP.V61 m outs c main_v298

/-- Kernel, tap k: the mask of the sites whose neighbour cell lies in the grid (the contents of `inbbuf k`). -/
def inbv  : Fin 9 → IVec S200000 1
  | 0 => GenP.V61 m outs c main_v34
  | 1 => GenP.V61 m outs c main_v65
  | 2 => GenP.V61 m outs c main_v96
  | 3 => GenP.V61 m outs c main_v127
  | 4 => GenP.V61 m outs c main_v158
  | 5 => GenP.V61 m outs c main_v189
  | 6 => GenP.V61 m outs c main_v220
  | 7 => GenP.V61 m outs c main_v251
  | 8 => GenP.V61 m outs c main_v282

/-- Kernel, tap k: the neighbour cell's clipped linear index, made non-negative (the contents of `linbuf k`). -/
def linv  : Fin 9 → IVec S200000 32
  | 0 => GenP.V61 m outs c main_v44
  | 1 => GenP.V61 m outs c main_v75
  | 2 => GenP.V61 m outs c main_v106
  | 3 => GenP.V61 m outs c main_v137
  | 4 => GenP.V61 m outs c main_v168
  | 5 => GenP.V61 m outs c main_v199
  | 6 => GenP.V61 m outs c main_v230
  | 7 => GenP.V61 m outs c main_v261
  | 8 => GenP.V61 m outs c main_v292

omit m outs c in
/-- Reference, tap k: the mask of the sites whose neighbour cell lies in the grid (the contents of `inbR k`). -/
def inbRv (mR : (ℓ : Loc ReferenceIdeal.nD ReferenceIdeal.τ ReferenceIdeal.sig) → Buf (Elt F) ℓ) (c : Dev nD) : Fin 9 → IVec S200000 1
  | 0 => ReferenceIdeal.RefRun.E mR c (Proc.devRef .tc ReferenceIdeal.main_v34)
  | 1 => ReferenceIdeal.RefRun.E mR c (Proc.devRef .tc ReferenceIdeal.main_v79)
  | 2 => ReferenceIdeal.RefRun.E mR c (Proc.devRef .tc ReferenceIdeal.main_v124)
  | 3 => ReferenceIdeal.RefRun.E mR c (Proc.devRef .tc ReferenceIdeal.main_v169)
  | 4 => ReferenceIdeal.RefRun.E mR c (Proc.devRef .tc ReferenceIdeal.main_v214)
  | 5 => ReferenceIdeal.RefRun.E mR c (Proc.devRef .tc ReferenceIdeal.main_v259)
  | 6 => ReferenceIdeal.RefRun.E mR c (Proc.devRef .tc ReferenceIdeal.main_v304)
  | 7 => ReferenceIdeal.RefRun.E mR c (Proc.devRef .tc ReferenceIdeal.main_v349)
  | 8 => ReferenceIdeal.RefRun.E mR c (Proc.devRef .tc ReferenceIdeal.main_v394)

omit m outs c in
/-- Reference, tap k: the neighbour cell's clipped linear index, made non-negative (the contents of `linR k`). -/
def linRv (mR : (ℓ : Loc ReferenceIdeal.nD ReferenceIdeal.τ ReferenceIdeal.sig) → Buf (Elt F) ℓ) (c : Dev nD) : Fin 9 → IVec S200000 32
  | 0 => ReferenceIdeal.RefRun.E mR c (Proc.devRef .tc ReferenceIdeal.main_v44)
  | 1 => ReferenceIdeal.RefRun.E mR c (Proc.devRef .tc ReferenceIdeal.main_v89)
  | 2 => ReferenceIdeal.RefRun.E mR c (Proc.devRef .tc ReferenceIdeal.main_v134)
  | 3 => ReferenceIdeal.RefRun.E mR c (Proc.devRef .tc ReferenceIdeal.main_v179)
  | 4 => ReferenceIdeal.RefRun.E mR c (Proc.devRef .tc ReferenceIdeal.main_v224)
  | 5 => ReferenceIdeal.RefRun.E mR c (Proc.devRef .tc ReferenceIdeal.main_v269)
  | 6 => ReferenceIdeal.RefRun.E mR c (Proc.devRef .tc ReferenceIdeal.main_v314)
  | 7 => ReferenceIdeal.RefRun.E mR c (Proc.devRef .tc ReferenceIdeal.main_v359)
  | 8 => ReferenceIdeal.RefRun.E mR c (Proc.devRef .tc ReferenceIdeal.main_v404)

end Cert.KernelIdeal.Glue
-- ==== Proof.GlueIdx.lean ====
/-
  The kernel's gathered array read at an index, down to the per-tap index arrays.

  Entry (i, 64·k + l) of the [N, 576] array the second kernel region reads is entry l of a row of the padded
  activations [N+1, 64]: the row that tap k's row number at site i names (made non-negative the way array indexing
  does, then clamped into the array). The first N rows of the padded activations are the first region's result;
  the last row is zero. Tap k's row number is read off the cell table at the tap's linear index.
-/
import proofs.«125710_j13511967113615_2_alg».proof.Proof.GlueTapTable
import proofs.«125710_j13511967113615_2_alg».proof.Proof.GlueFam
import proofs.«125710_j13511967113615_2_alg».proof.Proof.TapMath

set_option maxRecDepth 16384

noncomputable section

namespace Cert.KernelIdeal.Glue

open Idealize.ShloMosaic Idealize.ShloMosaic.TcCoe Idealize.ShloMosaic.ValueIdx Cert.LibGcnAgg Cert.KernelIdeal.Gen

/-- Nine columns [N, 1] side by side, read at (i, k): column k at (i, 0). -/
theorem cat9_apply {α : Type}
    (h : Shape.Concatenates [S200000x1, S200000x1, S200000x1, S200000x1, S200000x1, S200000x1, S200000x1, S200000x1, S200000x1] S200000x9 1)
    (x : Fin 9 → (S200000x1.Idx → α)) (i : Fin 200000) (k : Fin 9) :
    concatenate S200000x9 1 [⟨S200000x1, x 0⟩, ⟨S200000x1, x 1⟩, ⟨S200000x1, x 2⟩, ⟨S200000x1, x 3⟩, ⟨S200000x1, x 4⟩,
      ⟨S200000x1, x 5⟩, ⟨S200000x1, x 6⟩, ⟨S200000x1, x 7⟩, ⟨S200000x1, x 8⟩] h (ix2 i k) = x k (ix2 i (0 : Fin 1)) :=
  concatenate_ofFn_unit_apply (t := S200000x9) (s₁ := S200000x1) 1 x h rfl rfl (ix2 i k) k rfl (ix2 i (0 : Fin 1))
    fun b hb => by
      match b with
      | ⟨0, _⟩ => rfl
      | ⟨1, _⟩ => exact absurd rfl hb

variable {F : FTy → Type} [FloatOps F]
variable (m : (ℓ : Loc nD τ sig) → Buf (Elt F) ℓ) (outs : GenP.Outs (F := F)) (c : Dev nD)

/-- Tap k's column [N, 1] of the table of row numbers. -/
def colv : Fin 9 → IVec S200000x1 32
  | 0 => GenP.V61 m outs c main_v299
  | 1 => GenP.V61 m outs c main_v300
  | 2 => GenP.V61 m outs c main_v301
  | 3 => GenP.V61 m outs c main_v302
  | 4 => GenP.V61 m outs c main_v303
  | 5 => GenP.V61 m outs c main_v304
  | 6 => GenP.V61 m outs c main_v305
  | 7 => GenP.V61 m outs c main_v306
  | 8 => GenP.V61 m outs c main_v307

/-- Tap k's column at site i is tap k's row number at site i. -/
theorem col_apply (k : Fin 9) (i : Fin 200000) (z : Fin 1) :
    colv m outs c k (ix2 i z) = idxv m outs c k (ix1 i) :=
  match k with
  | 0 => col_tap0 m outs c i z
  | 1 => col_tap1 m outs c i z
  | 2 => col_tap2 m outs c i z
  | 3 => col_tap3 m outs c i z
  | 4 => col_tap4 m outs c i z
  | 5 => col_tap5 m outs c i z
  | 6 => col_tap6 m outs c i z
  | 7 => col_tap7 m outs c i z
  | 8 => col_tap8 m outs c i z

/-- Tap k's row number at site i: the cell table's entry at the tap's linear index if the neighbour cell is in the
    grid and the entry is below N, and N otherwise. -/
theorem idx_apply (k : Fin 9) (i : Fin 200000) :
    idxv m outs c k (ix1 i)
      = Scalar.select
          (IntOp.andi (inbv m outs c k (ix1 i))
            (IntOp.cmpi .slt (GenP.V61 m outs c main_v15 (ix1 (clampNode 589824 (by decide) (linv m outs c k (ix1 i))))) 200000#32))
          (GenP.V61 m outs c main_v15 (ix1 (clampNode 589824 (by decide) (linv m outs c k (ix1 i))))) 200000#32 :=
  match k with
  | 0 => idx_tap0 m outs c i
  | 1 => idx_tap1 m outs c i
  | 2 => idx_tap2 m outs c i
  | 3 => idx_tap3 m outs c i
  | 4 => idx_tap4 m outs c i
  | 5 => idx_tap5 m outs c i
  | 6 => idx_tap6 m outs c i
  | 7 => idx_tap7 m outs c i
  | 8 => idx_tap8 m outs c i

/-- The table of row numbers [N, 9] at (i, k) is tap k's row number at site i. -/
theorem v308_apply (i : Fin 200000) (k : Fin 9) :
    GenP.V61 m outs c main_v308 (ix2 i k) = idxv m outs c k (ix1 i) := by
  rw [rd_main_v308 m outs c]
  exact (cat9_apply concatenates_S200000x1_S200000x1_S200000x1_S200000x1_S200000x1_S200000x1_S200000x1_S200000x1_S200000x1_S200000x9_d1
    (colv m outs c) i k).trans (col_apply m outs c k i 0)

/-- The start indices of the rows gather at (i, k, 0): tap k's row number made non-negative. -/
theorem v314_apply (i : Fin 200000) (k : Fin 9) (z : Fin 1) :
    GenP.V61 m outs c main_v314 (ix3 i k z) = Cert.TapMath.normed 200001#32 (idxv m outs c k (ix1 i)) := by
  rw [rd_main_v314 m outs c, bcastTab_apply, rd_main_v313 m outs c, rd_main_v310 m outs c, rd_main_v312 m outs c,
    rd_main_v309 m outs c, rd_main_v311 m outs c, rd_main_c_139 m outs c, rd_main_c_140 m outs c]
  show Scalar.select (IntOp.cmpi .slt (GenP.V61 m outs c main_v308 (ix2 i k)) (broadcastInDim S200000x9 ![] bcast_S_S200000x9 (constantI S_ 32 0#32) (ix2 i k)))
      (IntOp.addi (GenP.V61 m outs c main_v308 (ix2 i k)) (broadcastInDim S200000x9 ![] bcast_S_S200000x9 (constantI S_ 32 200001#32) (ix2 i k)))
      (GenP.V61 m outs c main_v308 (ix2 i k)) = _
  rw [bcast0_apply, bcast0_apply, v308_apply m outs c i k]
  rfl

/-- THE GATHERED ARRAY AT AN INDEX. -/
theorem v316_apply (i : Fin 200000) (k : Fin 9) (l : Fin 64) :
    GenP.V61 m outs c main_v316 (ix2 i (⟨64 * k.val + l.val, by omega⟩ : Fin 576))
      = GenP.V61 m outs c main_v19
          (ix2 (clampNode 200001 (by decide) (Cert.TapMath.normed 200001#32 (idxv m outs c k (ix1 i)))) l) := by
  have h1 : GenP.V61 m outs c main_v316 (ix2 i (⟨64 * k.val + l.val, by omega⟩ : Fin 576))
      = GenP.V61 m outs c main_v315 (ix3 i k l) := by
    rw [rd_main_v316 m outs c]
    refine shapeCast_apply _ _ _ (ix3 i k l) ?_
    refine (Shape.rowMajor_val_three (d := ![200000, 9, 64]) (ix3 i k l)).trans
      (Eq.trans ?_ (Shape.rowMajor_val_two (d := ![200000, 576]) (ix2 i (⟨64 * k.val + l.val, by omega⟩ : Fin 576))).symm)
    show (i.val * 9 + k.val) * 64 + l.val = i.val * 576 + (64 * k.val + l.val)
    omega
  have h2 : GenP.V61 m outs c main_v315 (ix3 i k l)
      = GenP.V61 m outs c main_v19 (ix2 (clampNode 200001 (by decide) (GenP.V61 m outs c main_v314 (ix3 i k (0 : Fin 1)))) l) := by
    rw [rd_main_v315 m outs c]
    show Host.gather gather_S200001x64_S200000x9x1_S200000x9x64_2_0_n_n_0_2_164 (GenP.V61 m outs c main_v19)
      (GenP.V61 m outs c main_v314) (ix3 i k l) = _
    unfold Host.gather
    rw [gatherRows_operandIdx]
    rfl
  rw [h1, h2, v314_apply m outs c i k 0]

/-- The padded activations' first N rows are the first region's result. -/
theorem v19_row (n : Fin 200000) (l : Fin 64) :
    GenP.V61 m outs c main_v19 (ix2 (⟨n.val, by omega⟩ : Fin 200001) l) = GenP.V61 m outs c main_v6 (ix2 n l) := by
  rw [rd_main_v19 m outs c]
  exact concatenate_pair_apply_left (t := S200001x64) 0 (GenP.V61 m outs c main_v6) (GenP.V61 m outs c main_v18)
    concatenates_S200000x64_S1x64_S200001x64_d0 (ix2 (⟨n.val, by omega⟩ : Fin 200001) l) rfl (ix2 n l) fun b => by
      match b with
      | ⟨0, _⟩ => rfl
      | ⟨1, _⟩ => rfl

/-- The padded activations' last row is zero. -/
theorem v19_pad (m : (ℓ : Loc nD τ sig) → Buf (Elt Ideal) ℓ) (outs : GenP.Outs (F := Ideal)) (c : Dev nD) (l : Fin 64) :
    GenP.V61 (F := Ideal) m outs c main_v19 (ix2 (⟨200000, by omega⟩ : Fin 200001) l) = (0 : EReal) := by
  rw [rd_main_v19 m outs c]
  refine (concatenate_pair_apply_right (t := S200001x64) 0 (GenP.V61 m outs c main_v6) (GenP.V61 m outs c main_v18)
    concatenates_S200000x64_S1x64_S200001x64_d0 (ix2 (⟨200000, by omega⟩ : Fin 200001) l) rfl rfl (ix2 (0 : Fin 1) l)
    (fun b hb => ?_) rfl).trans ?_
  · match b with
    | ⟨0, _⟩ => exact absurd rfl hb
    | ⟨1, _⟩ => rfl
  · rw [rd_main_v18 m outs c, bcast0_apply, rd_main_cst m outs c]
    show FloatOps.ofBits (F := Ideal) .bf16 0x0000#16 = 0
    simp [Ideal.ofBits, Ideal.ieee]

end Cert.KernelIdeal.Glue
-- ==== Proof.GlueSame0.lean ====
/-
  The integer arrays both programs compute from main_arg1 and constants alone are the same arrays (part 0 of the table).
  A kernel buffer and a reference buffer written by the same operation of operands already known equal hold equal
  contents at the end: rewrite each side by its read-back equation, then the operands by their congruences.
-/
import proofs.«125710_j13511967113615_2_alg».proof.Proof.GlueRead
import proofs.«125710_j13511967113615_2_alg».proof.Proof.RefRead0
import proofs.«125710_j13511967113615_2_alg».proof.Proof.RefRead1
import proofs.«125710_j13511967113615_2_alg».proof.Proof.RefRead2
import proofs.«125710_j13511967113615_2_alg».proof.Proof.RefRead3
import proofs.«125710_j13511967113615_2_alg».proof.Proof.RefRead4
import proofs.«125710_j13511967113615_2_alg».proof.Proof.RefRead5
import proofs.«125710_j13511967113615_2_alg».proof.Proof.RefRead6
import proofs.«125710_j13511967113615_2_alg».proof.Proof.RefRead7
import proofs.«125710_j13511967113615_2_alg».proof.Proof.RefRead8
import proofs.«125710_j13511967113615_2_alg».proof.Proof.RefRead9
import proofs.«125710_j13511967113615_2_alg».proof.Proof.RefRead10

set_option maxRecDepth 16384

noncomputable section

namespace Cert.KernelIdeal.Glue

open Idealize.ShloMosaic Idealize.ShloMosaic.TcCoe Idealize.ShloMosaic.StableHlo

variable {F : FTy → Type} [FloatOps F]
variable (mK : (ℓ : Loc nD τ sig) → Buf (Elt F) ℓ) (outs : GenP.Outs (F := F)) (c : Dev nD)
  (mR : (ℓ : Loc ReferenceIdeal.nD ReferenceIdeal.τ ReferenceIdeal.sig) → Buf (Elt F) ℓ)
  (h1 : mR ((c : Thread ReferenceIdeal.nD ReferenceIdeal.τ).loc ReferenceIdeal.main_arg1) = mK ((c : Thread nD τ).loc main_arg1))
include h1

theorem same_main_c : GenP.V61 mK outs c (Proc.devRef .tc main_c) = ReferenceIdeal.RefRun.E mR c (Proc.devRef .tc ReferenceIdeal.main_c_20) := by
  rw [rd_main_c mK outs c, ReferenceIdeal.RefRead.rd_main_c_20 mR c]
theorem same_main_v8 : GenP.V61 mK outs c (Proc.devRef .tc main_v8) = ReferenceIdeal.RefRun.E mR c (Proc.devRef .tc ReferenceIdeal.main_v9) := by
  rw [rd_main_v8 mK outs c, ReferenceIdeal.RefRead.rd_main_v9 mR c]
theorem same_main_c_0 : GenP.V61 mK outs c (Proc.devRef .tc main_c_0) = ReferenceIdeal.RefRun.E mR c (Proc.devRef .tc ReferenceIdeal.main_c_0) := by
  rw [rd_main_c_0 mK outs c, ReferenceIdeal.RefRead.rd_main_c_0 mR c]
theorem same_main_v9 : GenP.V61 mK outs c (Proc.devRef .tc main_v9) = ReferenceIdeal.RefRun.E mR c (Proc.devRef .tc ReferenceIdeal.main_v10) := by
  rw [rd_main_v9 mK outs c, ReferenceIdeal.RefRead.rd_main_v10 mR c, same_main_c_0 mK outs c mR h1]
theorem same_main_arg1 : GenP.V61 mK outs c (Proc.devRef .tc main_arg1) = ReferenceIdeal.RefRun.E mR c (Proc.devRef .tc ReferenceIdeal.main_arg1) :=
  (V61_arg1 mK outs c).trans (h1.symm.trans (ReferenceIdeal.RefRun.E_arg1 mR c).symm)
theorem same_main_v10 : GenP.V61 mK outs c (Proc.devRef .tc main_v10) = ReferenceIdeal.RefRun.E mR c (Proc.devRef .tc ReferenceIdeal.main_v11) := by
  rw [rd_main_v10 mK outs c, ReferenceIdeal.RefRead.rd_main_v11 mR c, same_main_arg1 mK outs c mR h1, same_main_v9 mK outs c mR h1]
theorem same_main_c_1 : GenP.V61 mK outs c (Proc.devRef .tc main_c_1) = ReferenceIdeal.RefRun.E mR c (Proc.devRef .tc ReferenceIdeal.main_c_1) := by
  rw [rd_main_c_1 mK outs c, ReferenceIdeal.RefRead.rd_main_c_1 mR c]
theorem same_main_v11 : GenP.V61 mK outs c (Proc.devRef .tc main_v11) = ReferenceIdeal.RefRun.E mR c (Proc.devRef .tc ReferenceIdeal.main_v12) := by
  rw [rd_main_v11 mK outs c, ReferenceIdeal.RefRead.rd_main_v12 mR c, same_main_c_1 mK outs c mR h1]
theorem same_main_v12 : GenP.V61 mK outs c (Proc.devRef .tc main_v12) = ReferenceIdeal.RefRun.E mR c (Proc.devRef .tc ReferenceIdeal.main_v13) := by
  rw [rd_main_v12 mK outs c, ReferenceIdeal.RefRead.rd_main_v13 mR c, same_main_arg1 mK outs c mR h1, same_main_v11 mK outs c mR h1]
theorem same_main_v13 : GenP.V61 mK outs c (Proc.devRef .tc main_v13) = ReferenceIdeal.RefRun.E mR c (Proc.devRef .tc ReferenceIdeal.main_v14) := by
  rw [rd_main_v13 mK outs c, ReferenceIdeal.RefRead.rd_main_v14 mR c, same_main_v10 mK outs c mR h1, same_main_v12 mK outs c mR h1, same_main_arg1 mK outs c mR h1]
theorem same_main_v14 : GenP.V61 mK outs c (Proc.devRef .tc main_v14) = ReferenceIdeal.RefRun.E mR c (Proc.devRef .tc ReferenceIdeal.main_v15) := by
  rw [rd_main_v14 mK outs c, ReferenceIdeal.RefRead.rd_main_v15 mR c, same_main_v13 mK outs c mR h1]
theorem same_main_c_2 : GenP.V61 mK outs c (Proc.devRef .tc main_c_2) = ReferenceIdeal.RefRun.E mR c (Proc.devRef .tc ReferenceIdeal.main_c_2) := by
  rw [rd_main_c_2 mK outs c, ReferenceIdeal.RefRead.rd_main_c_2 mR c]
theorem same_main_call0_v0 : GenP.V61 mK outs c (Proc.devRef .tc main_call0_v0) = ReferenceIdeal.RefRun.E mR c (Proc.devRef .tc ReferenceIdeal.main_call1_v0) := by
  rw [rd_main_call0_v0 mK outs c, ReferenceIdeal.RefRead.rd_main_call1_v0 mR c, same_main_c_2 mK outs c mR h1]
theorem same_main_call0_v1 : GenP.V61 mK outs c (Proc.devRef .tc main_call0_v1) = ReferenceIdeal.RefRun.E mR c (Proc.devRef .tc ReferenceIdeal.main_call1_v1) := by
  rw [rd_main_call0_v1 mK outs c, ReferenceIdeal.RefRead.rd_main_call1_v1 mR c, same_main_call0_v0 mK outs c mR h1]
theorem same_main_call0_v2 : GenP.V61 mK outs c (Proc.devRef .tc main_call0_v2) = ReferenceIdeal.RefRun.E mR c (Proc.devRef .tc ReferenceIdeal.main_call1_v2) := by
  rw [rd_main_call0_v2 mK outs c, ReferenceIdeal.RefRead.rd_main_call1_v2 mR c, same_main_arg1 mK outs c mR h1, same_main_call0_v1 mK outs c mR h1]
theorem same_main_call0_v3 : GenP.V61 mK outs c (Proc.devRef .tc main_call0_v3) = ReferenceIdeal.RefRun.E mR c (Proc.devRef .tc ReferenceIdeal.main_call1_v3) := by
  rw [rd_main_call0_v3 mK outs c, ReferenceIdeal.RefRead.rd_main_call1_v3 mR c, same_main_arg1 mK outs c mR h1]
theorem same_main_call0_v4 : GenP.V61 mK outs c (Proc.devRef .tc main_call0_v4) = ReferenceIdeal.RefRun.E mR c (Proc.devRef .tc ReferenceIdeal.main_call1_v4) := by
  rw [rd_main_call0_v4 mK outs c, ReferenceIdeal.RefRead.rd_main_call1_v4 mR c, same_main_call0_v0 mK outs c mR h1]
theorem same_main_call0_v5 : GenP.V61 mK outs c (Proc.devRef .tc main_call0_v5) = ReferenceIdeal.RefRun.E mR c (Proc.devRef .tc ReferenceIdeal.main_call1_v5) := by
  rw [rd_main_call0_v5 mK outs c, ReferenceIdeal.RefRead.rd_main_call1_v5 mR c, same_main_call0_v4 mK outs c mR h1]
theorem same_main_call0_v6 : GenP.V61 mK outs c (Proc.devRef .tc main_call0_v6) = ReferenceIdeal.RefRun.E mR c (Proc.devRef .tc ReferenceIdeal.main_call1_v6) := by
  rw [rd_main_call0_v6 mK outs c, ReferenceIdeal.RefRead.rd_main_call1_v6 mR c, same_main_call0_v3 mK outs c mR h1, same_main_call0_v5 mK outs c mR h1]
theorem same_main_call0_v7 : GenP.V61 mK outs c (Proc.devRef .tc main_call0_v7) = ReferenceIdeal.RefRun.E mR c (Proc.devRef .tc ReferenceIdeal.main_call1_v7) := by
  rw [rd_main_call0_v7 mK outs c, ReferenceIdeal.RefRead.rd_main_call1_v7 mR c, same_main_call0_v0 mK outs c mR h1]
theorem same_main_call0_v8 : GenP.V61 mK outs c (Proc.devRef .tc main_call0_v8) = ReferenceIdeal.RefRun.E mR c (Proc.devRef .tc ReferenceIdeal.main_call1_v8) := by
  rw [rd_main_call0_v8 mK outs c, ReferenceIdeal.RefRead.rd_main_call1_v8 mR c, same_main_arg1 mK outs c mR h1, same_main_call0_v7 mK outs c mR h1]
theorem same_main_call0_c : GenP.V61 mK outs c (Proc.devRef .tc main_call0_c) = ReferenceIdeal.RefRun.E mR c (Proc.devRef .tc ReferenceIdeal.main_call1_c) := by
  rw [rd_main_call0_c mK outs c, ReferenceIdeal.RefRead.rd_main_call1_c mR c]
theorem same_main_call0_v9 : GenP.V61 mK outs c (Proc.devRef .tc main_call0_v9) = ReferenceIdeal.RefRun.E mR c (Proc.devRef .tc ReferenceIdeal.main_call1_v9) := by
  rw [rd_main_call0_v9 mK outs c, ReferenceIdeal.RefRead.rd_main_call1_v9 mR c, same_main_call0_c mK outs c mR h1]
theorem same_main_call0_v10 : GenP.V61 mK outs c (Proc.devRef .tc main_call0_v10) = ReferenceIdeal.RefRun.E mR c (Proc.devRef .tc ReferenceIdeal.main_call1_v10) := by
  rw [rd_main_call0_v10 mK outs c, ReferenceIdeal.RefRead.rd_main_call1_v10 mR c, same_main_call0_v8 mK outs c mR h1, same_main_call0_v9 mK outs c mR h1]
theorem same_main_call0_v11 : GenP.V61 mK outs c (Proc.devRef .tc main_call0_v11) = ReferenceIdeal.RefRun.E mR c (Proc.devRef .tc ReferenceIdeal.main_call1_v11) := by
  rw [rd_main_call0_v11 mK outs c, ReferenceIdeal.RefRead.rd_main_call1_v11 mR c, same_main_call0_v6 mK outs c mR h1, same_main_call0_v10 mK outs c mR h1]
theorem same_main_call0_c_0 : GenP.V61 mK outs c (Proc.devRef .tc main_call0_c_0) = ReferenceIdeal.RefRun.E mR c (Proc.devRef .tc ReferenceIdeal.main_call1_c_0) := by
  rw [rd_main_call0_c_0 mK outs c, ReferenceIdeal.RefRead.rd_main_call1_c_0 mR c]
theorem same_main_call0_v12 : GenP.V61 mK outs c (Proc.devRef .tc main_call0_v12) = ReferenceIdeal.RefRun.E mR c (Proc.devRef .tc ReferenceIdeal.main_call1_v12) := by
  rw [rd_main_call0_v12 mK outs c, ReferenceIdeal.RefRead.rd_main_call1_v12 mR c, same_main_call0_c_0 mK outs c mR h1]
theorem same_main_call0_v13 : GenP.V61 mK outs c (Proc.devRef .tc main_call0_v13) = ReferenceIdeal.RefRun.E mR c (Proc.devRef .tc ReferenceIdeal.main_call1_v13) := by
  rw [rd_main_call0_v13 mK outs c, ReferenceIdeal.RefRead.rd_main_call1_v13 mR c, same_main_call0_v2 mK outs c mR h1, same_main_call0_v12 mK outs c mR h1]
theorem same_main_v16 : GenP.V61 mK outs c (Proc.devRef .tc main_v16) = ReferenceIdeal.RefRun.E mR c (Proc.devRef .tc ReferenceIdeal.main_v17) := by
  rw [rd_main_v16 mK outs c, ReferenceIdeal.RefRead.rd_main_v17 mR c, same_main_call0_v11 mK outs c mR h1, same_main_call0_v13 mK outs c mR h1, same_main_call0_v2 mK outs c mR h1]
theorem same_main_c_3 : GenP.V61 mK outs c (Proc.devRef .tc main_c_3) = ReferenceIdeal.RefRun.E mR c (Proc.devRef .tc ReferenceIdeal.main_c_3) := by
  rw [rd_main_c_3 mK outs c, ReferenceIdeal.RefRead.rd_main_c_3 mR c]
theorem same_main_call1_v0 : GenP.V61 mK outs c (Proc.devRef .tc main_call1_v0) = ReferenceIdeal.RefRun.E mR c (Proc.devRef .tc ReferenceIdeal.main_call2_v0) := by
  rw [rd_main_call1_v0 mK outs c, ReferenceIdeal.RefRead.rd_main_call2_v0 mR c, same_main_c_3 mK outs c mR h1]
theorem same_main_call1_c : GenP.V61 mK outs c (Proc.devRef .tc main_call1_c) = ReferenceIdeal.RefRun.E mR c (Proc.devRef .tc ReferenceIdeal.main_call2_c) := by
  rw [rd_main_call1_c mK outs c, ReferenceIdeal.RefRead.rd_main_call2_c mR c]
theorem same_main_call1_v1 : GenP.V61 mK outs c (Proc.devRef .tc main_call1_v1) = ReferenceIdeal.RefRun.E mR c (Proc.devRef .tc ReferenceIdeal.main_call2_v1) := by
  rw [rd_main_call1_v1 mK outs c, ReferenceIdeal.RefRead.rd_main_call2_v1 mR c, same_main_call1_v0 mK outs c mR h1, same_main_call1_c mK outs c mR h1]
theorem same_main_call1_c_0 : GenP.V61 mK outs c (Proc.devRef .tc main_call1_c_0) = ReferenceIdeal.RefRun.E mR c (Proc.devRef .tc ReferenceIdeal.main_call2_c_0) := by
  rw [rd_main_call1_c_0 mK outs c, ReferenceIdeal.RefRead.rd_main_call2_c_0 mR c]
theorem same_main_call1_v2 : GenP.V61 mK outs c (Proc.devRef .tc main_call1_v2) = ReferenceIdeal.RefRun.E mR c (Proc.devRef .tc ReferenceIdeal.main_call2_v2) := by
  rw [rd_main_call1_v2 mK outs c, ReferenceIdeal.RefRead.rd_main_call2_v2 mR c, same_main_call1_v1 mK outs c mR h1, same_main_call1_c_0 mK outs c mR h1, same_main_call1_v0 mK outs c mR h1]
theorem same_main_call1_v3 : GenP.V61 mK outs c (Proc.devRef .tc main_call1_v3) = ReferenceIdeal.RefRun.E mR c (Proc.devRef .tc ReferenceIdeal.main_call2_v3) := by
  rw [rd_main_call1_v3 mK outs c, ReferenceIdeal.RefRead.rd_main_call2_v3 mR c, same_main_call1_v2 mK outs c mR h1]
theorem same_main_call1_v4 : GenP.V61 mK outs c (Proc.devRef .tc main_call1_v4) = ReferenceIdeal.RefRun.E mR c (Proc.devRef .tc ReferenceIdeal.main_call2_v4) := by
  rw [rd_main_call1_v4 mK outs c, ReferenceIdeal.RefRead.rd_main_call2_v4 mR c, same_main_arg1 mK outs c mR h1, same_main_call1_v3 mK outs c mR h1]
theorem same_main_call1_c_1 : GenP.V61 mK outs c (Proc.devRef .tc main_call1_c_1) = ReferenceIdeal.RefRun.E mR c (Proc.devRef .tc ReferenceIdeal.main_call2_c_1) := by
  rw [rd_main_call1_c_1 mK outs c, ReferenceIdeal.RefRead.rd_main_call2_c_1 mR c]
theorem same_main_call1_v5 : GenP.V61 mK outs c (Proc.devRef .tc main_call1_v5) = ReferenceIdeal.RefRun.E mR c (Proc.devRef .tc ReferenceIdeal.main_call2_v5) := by
  rw [rd_main_call1_v5 mK outs c, ReferenceIdeal.RefRead.rd_main_call2_v5 mR c, same_main_call1_c_1 mK outs c mR h1]
theorem same_main_call1_v6 : GenP.V61 mK outs c (Proc.devRef .tc main_call1_v6) = ReferenceIdeal.RefRun.E mR c (Proc.devRef .tc ReferenceIdeal.main_call2_v6) := by
  rw [rd_main_call1_v6 mK outs c, ReferenceIdeal.RefRead.rd_main_call2_v6 mR c, same_main_call1_v4 mK outs c mR h1, same_main_call1_v5 mK outs c mR h1]
theorem same_main_call1_c_2 : GenP.V61 mK outs c (Proc.devRef .tc main_call1_c_2) = ReferenceIdeal.RefRun.E mR c (Proc.devRef .tc ReferenceIdeal.main_call2_c_2) := by
  rw [rd_main_call1_c_2 mK outs c, ReferenceIdeal.RefRead.rd_main_call2_c_2 mR c]
theorem same_main_call1_v7 : GenP.V61 mK outs c (Proc.devRef .tc main_call1_v7) = ReferenceIdeal.RefRun.E mR c (Proc.devRef .tc ReferenceIdeal.main_call2_v7) := by
  rw [rd_main_call1_v7 mK outs c, ReferenceIdeal.RefRead.rd_main_call2_v7 mR c, same_main_call1_c_2 mK outs c mR h1]
theorem same_main_call1_v8 : GenP.V61 mK outs c (Proc.devRef .tc main_call1_v8) = ReferenceIdeal.RefRun.E mR c (Proc.devRef .tc ReferenceIdeal.main_call2_v8) := by
  rw [rd_main_call1_v8 mK outs c, ReferenceIdeal.RefRead.rd_main_call2_v8 mR c, same_main_call1_v4 mK outs c mR h1, same_main_call1_v7 mK outs c mR h1]
theorem same_main_call1_c_3 : GenP.V61 mK outs c (Proc.devRef .tc main_call1_c_3) = ReferenceIdeal.RefRun.E mR c (Proc.devRef .tc ReferenceIdeal.main_call2_c_3) := by
  rw [rd_main_call1_c_3 mK outs c, ReferenceIdeal.RefRead.rd_main_call2_c_3 mR c]
theorem same_main_call1_v9 : GenP.V61 mK outs c (Proc.devRef .tc main_call1_v9) = ReferenceIdeal.RefRun.E mR c (Proc.devRef .tc ReferenceIdeal.main_call2_v9) := by
  rw [rd_main_call1_v9 mK outs c, ReferenceIdeal.RefRead.rd_main_call2_v9 mR c, same_main_call1_v2 mK outs c mR h1, same_main_call1_c_3 mK outs c mR h1]
theorem same_main_call1_v10 : GenP.V61 mK outs c (Proc.devRef .tc main_call1_v10) = ReferenceIdeal.RefRun.E mR c (Proc.devRef .tc ReferenceIdeal.main_call2_v10) := by
  rw [rd_main_call1_v10 mK outs c, ReferenceIdeal.RefRead.rd_main_call2_v10 mR c, same_main_call1_v9 mK outs c mR h1]
theorem same_main_call1_v11 : GenP.V61 mK outs c (Proc.devRef .tc main_call1_v11) = ReferenceIdeal.RefRun.E mR c (Proc.devRef .tc ReferenceIdeal.main_call2_v11) := by
  rw [rd_main_call1_v11 mK outs c, ReferenceIdeal.RefRead.rd_main_call2_v11 mR c, same_main_call1_v8 mK outs c mR h1, same_main_call1_v10 mK outs c mR h1]
theorem same_main_call1_v12 : GenP.V61 mK outs c (Proc.devRef .tc main_call1_v12) = ReferenceIdeal.RefRun.E mR c (Proc.devRef .tc ReferenceIdeal.main_call2_v12) := by
  rw [rd_main_call1_v12 mK outs c, ReferenceIdeal.RefRead.rd_main_call2_v12 mR c, same_main_call1_v11 mK outs c mR h1, same_main_call1_v6 mK outs c mR h1]
theorem same_main_call1_v13 : GenP.V61 mK outs c (Proc.devRef .tc main_call1_v13) = ReferenceIdeal.RefRun.E mR c (Proc.devRef .tc ReferenceIdeal.main_call2_v13) := by
  rw [rd_main_call1_v13 mK outs c, ReferenceIdeal.RefRead.rd_main_call2_v13 mR c, same_main_call1_v2 mK outs c mR h1]
theorem same_main_call1_v14 : GenP.V61 mK outs c (Proc.devRef .tc main_call1_v14) = ReferenceIdeal.RefRun.E mR c (Proc.devRef .tc ReferenceIdeal.main_call2_v14) := by
  rw [rd_main_call1_v14 mK outs c, ReferenceIdeal.RefRead.rd_main_call2_v14 mR c, same_main_call1_v4 mK outs c mR h1, same_main_call1_v13 mK outs c mR h1]
theorem same_main_v17 : GenP.V61 mK outs c (Proc.devRef .tc main_v17) = ReferenceIdeal.RefRun.E mR c (Proc.devRef .tc ReferenceIdeal.main_v18) := by
  rw [rd_main_v17 mK outs c, ReferenceIdeal.RefRead.rd_main_v18 mR c, same_main_call1_v12 mK outs c mR h1, same_main_call1_v14 mK outs c mR h1, same_main_call1_v4 mK outs c mR h1]
theorem same_main_c_4 : GenP.V61 mK outs c (Proc.devRef .tc main_c_4) = ReferenceIdeal.RefRun.E mR c (Proc.devRef .tc ReferenceIdeal.main_c) := by
  rw [rd_main_c_4 mK outs c, ReferenceIdeal.RefRead.rd_main_c mR c]
theorem same_main_c_4__main_c_4 : GenP.V61 mK outs c (Proc.devRef .tc main_c_4) = ReferenceIdeal.RefRun.E mR c (Proc.devRef .tc ReferenceIdeal.main_c_4) := by
  rw [rd_main_c_4 mK outs c, ReferenceIdeal.RefRead.rd_main_c_4 mR c]
theorem same_main_v20 : GenP.V61 mK outs c (Proc.devRef .tc main_v20) = ReferenceIdeal.RefRun.E mR c (Proc.devRef .tc ReferenceIdeal.main_v20) := by
  rw [rd_main_v20 mK outs c, ReferenceIdeal.RefRead.rd_main_v20 mR c, same_main_c_4__main_c_4 mK outs c mR h1]
theorem same_main_v21 : GenP.V61 mK outs c (Proc.devRef .tc main_v21) = ReferenceIdeal.RefRun.E mR c (Proc.devRef .tc ReferenceIdeal.main_v21) := by
  rw [rd_main_v21 mK outs c, ReferenceIdeal.RefRead.rd_main_v21 mR c, same_main_v16 mK outs c mR h1, same_main_v20 mK outs c mR h1]
theorem same_main_c_5 : GenP.V61 mK outs c (Proc.devRef .tc main_c_5) = ReferenceIdeal.RefRun.E mR c (Proc.devRef .tc ReferenceIdeal.main_c_4) := by
  rw [rd_main_c_5 mK outs c, ReferenceIdeal.RefRead.rd_main_c_4 mR c]
theorem same_main_c_5__main_c_5 : GenP.V61 mK outs c (Proc.devRef .tc main_c_5) = ReferenceIdeal.RefRun.E mR c (Proc.devRef .tc ReferenceIdeal.main_c_5) := by
  rw [rd_main_c_5 mK outs c, ReferenceIdeal.RefRead.rd_main_c_5 mR c]
theorem same_main_v22 : GenP.V61 mK outs c (Proc.devRef .tc main_v22) = ReferenceIdeal.RefRun.E mR c (Proc.devRef .tc ReferenceIdeal.main_v22) := by
  rw [rd_main_v22 mK outs c, ReferenceIdeal.RefRead.rd_main_v22 mR c, same_main_c_5__main_c_5 mK outs c mR h1]
theorem same_main_v23 : GenP.V61 mK outs c (Proc.devRef .tc main_v23) = ReferenceIdeal.RefRun.E mR c (Proc.devRef .tc ReferenceIdeal.main_v23) := by
  rw [rd_main_v23 mK outs c, ReferenceIdeal.RefRead.rd_main_v23 mR c, same_main_v17 mK outs c mR h1, same_main_v22 mK outs c mR h1]
theorem same_main_c_6 : GenP.V61 mK outs c (Proc.devRef .tc main_c_6) = ReferenceIdeal.RefRun.E mR c (Proc.devRef .tc ReferenceIdeal.main_c_6) := by
  rw [rd_main_c_6 mK outs c, ReferenceIdeal.RefRead.rd_main_c_6 mR c]
theorem same_main_v24 : GenP.V61 mK outs c (Proc.devRef .tc main_v24) = ReferenceIdeal.RefRun.E mR c (Proc.devRef .tc ReferenceIdeal.main_v24) := by
  rw [rd_main_v24 mK outs c, ReferenceIdeal.RefRead.rd_main_v24 mR c, same_main_c_6 mK outs c mR h1]
theorem same_main_v25 : GenP.V61 mK outs c (Proc.devRef .tc main_v25) = ReferenceIdeal.RefRun.E mR c (Proc.devRef .tc ReferenceIdeal.main_v25) := by
  rw [rd_main_v25 mK outs c, ReferenceIdeal.RefRead.rd_main_v25 mR c, same_main_v21 mK outs c mR h1, same_main_v24 mK outs c mR h1]
theorem same_main_c_7 : GenP.V61 mK outs c (Proc.devRef .tc main_c_7) = ReferenceIdeal.RefRun.E mR c (Proc.devRef .tc ReferenceIdeal.main_c_7) := by
  rw [rd_main_c_7 mK outs c, ReferenceIdeal.RefRead.rd_main_c_7 mR c]
theorem same_main_v26 : GenP.V61 mK outs c (Proc.devRef .tc main_v26) = ReferenceIdeal.RefRun.E mR c (Proc.devRef .tc ReferenceIdeal.main_v26) := by
  rw [rd_main_v26 mK outs c, ReferenceIdeal.RefRead.rd_main_v26 mR c, same_main_c_7 mK outs c mR h1]
theorem same_main_v27 : GenP.V61 mK outs c (Proc.devRef .tc main_v27) = ReferenceIdeal.RefRun.E mR c (Proc.devRef .tc ReferenceIdeal.main_v27) := by
  rw [rd_main_v27 mK outs c, ReferenceIdeal.RefRead.rd_main_v27 mR c, same_main_v21 mK outs c mR h1, same_main_v26 mK outs c mR h1]
theorem same_main_v28 : GenP.V61 mK outs c (Proc.devRef .tc main_v28) = ReferenceIdeal.RefRun.E mR c (Proc.devRef .tc ReferenceIdeal.main_v28) := by
  rw [rd_main_v28 mK outs c, ReferenceIdeal.RefRead.rd_main_v28 mR c, same_main_v25 mK outs c mR h1, same_main_v27 mK outs c mR h1]
theorem same_main_c_8 : GenP.V61 mK outs c (Proc.devRef .tc main_c_8) = ReferenceIdeal.RefRun.E mR c (Proc.devRef .tc ReferenceIdeal.main_c_8) := by
  rw [rd_main_c_8 mK outs c, ReferenceIdeal.RefRead.rd_main_c_8 mR c]
theorem same_main_v29 : GenP.V61 mK outs c (Proc.devRef .tc main_v29) = ReferenceIdeal.RefRun.E mR c (Proc.devRef .tc ReferenceIdeal.main_v29) := by
  rw [rd_main_v29 mK outs c, ReferenceIdeal.RefRead.rd_main_v29 mR c, same_main_c_8 mK outs c mR h1]
theorem same_main_v30 : GenP.V61 mK outs c (Proc.devRef .tc main_v30) = ReferenceIdeal.RefRun.E mR c (Proc.devRef .tc ReferenceIdeal.main_v30) := by
  rw [rd_main_v30 mK outs c, ReferenceIdeal.RefRead.rd_main_v30 mR c, same_main_v23 mK outs c mR h1, same_main_v29 mK outs c mR h1]
theorem same_main_v31 : GenP.V61 mK outs c (Proc.devRef .tc main_v31) = ReferenceIdeal.RefRun.E mR c (Proc.devRef .tc ReferenceIdeal.main_v31) := by
  rw [rd_main_v31 mK outs c, ReferenceIdeal.RefRead.rd_main_v31 mR c, same_main_v28 mK outs c mR h1, same_main_v30 mK outs c mR h1]
theorem same_main_c_9 : GenP.V61 mK outs c (Proc.devRef .tc main_c_9) = ReferenceIdeal.RefRun.E mR c (Proc.devRef .tc ReferenceIdeal.main_c_9) := by
  rw [rd_main_c_9 mK outs c, ReferenceIdeal.RefRead.rd_main_c_9 mR c]
theorem same_main_v32 : GenP.V61 mK outs c (Proc.devRef .tc main_v32) = ReferenceIdeal.RefRun.E mR c (Proc.devRef .tc ReferenceIdeal.main_v32) := by
  rw [rd_main_v32 mK outs c, ReferenceIdeal.RefRead.rd_main_v32 mR c, same_main_c_9 mK outs c mR h1]
theorem same_main_v33 : GenP.V61 mK outs c (Proc.devRef .tc main_v33) = ReferenceIdeal.RefRun.E mR c (Proc.devRef .tc ReferenceIdeal.main_v33) := by
  rw [rd_main_v33 mK outs c, ReferenceIdeal.RefRead.rd_main_v33 mR c, same_main_v23 mK outs c mR h1, same_main_v32 mK outs c mR h1]
theorem same_main_v34 : GenP.V61 mK outs c (Proc.devRef .tc main_v34) = ReferenceIdeal.RefRun.E mR c (Proc.devRef .tc ReferenceIdeal.main_v34) := by
  rw [rd_main_v34 mK outs c, ReferenceIdeal.RefRead.rd_main_v34 mR c, same_main_v31 mK outs c mR h1, same_main_v33 mK outs c mR h1]
theorem same_main_c_10 : GenP.V61 mK outs c (Proc.devRef .tc main_c_10) = ReferenceIdeal.RefRun.E mR c (Proc.devRef .tc ReferenceIdeal.main_c_10) := by
  rw [rd_main_c_10 mK outs c, ReferenceIdeal.RefRead.rd_main_c_10 mR c]
theorem same_main_c_11 : GenP.V61 mK outs c (Proc.devRef .tc main_c_11) = ReferenceIdeal.RefRun.E mR c (Proc.devRef .tc ReferenceIdeal.main_c_11) := by
  rw [rd_main_c_11 mK outs c, ReferenceIdeal.RefRead.rd_main_c_11 mR c]
theorem same_main_call2_v0 : GenP.V61 mK outs c (Proc.devRef .tc main_call2_v0) = ReferenceIdeal.RefRun.E mR c (Proc.devRef .tc ReferenceIdeal.main_call3_v0) := by
  rw [rd_main_call2_v0 mK outs c, ReferenceIdeal.RefRead.rd_main_call3_v0 mR c, same_main_c_10 mK outs c mR h1]
theorem same_main_call2_v1 : GenP.V61 mK outs c (Proc.devRef .tc main_call2_v1) = ReferenceIdeal.RefRun.E mR c (Proc.devRef .tc ReferenceIdeal.main_call3_v1) := by
  rw [rd_main_call2_v1 mK outs c, ReferenceIdeal.RefRead.rd_main_call3_v1 mR c, same_main_call2_v0 mK outs c mR h1]
theorem same_main_call2_v2 : GenP.V61 mK outs c (Proc.devRef .tc main_call2_v2) = ReferenceIdeal.RefRun.E mR c (Proc.devRef .tc ReferenceIdeal.main_call3_v2) := by
  rw [rd_main_call2_v2 mK outs c, ReferenceIdeal.RefRead.rd_main_call3_v2 mR c, same_main_call2_v1 mK outs c mR h1, same_main_v21 mK outs c mR h1]
theorem same_main_call2_v3 : GenP.V61 mK outs c (Proc.devRef .tc main_call2_v3) = ReferenceIdeal.RefRun.E mR c (Proc.devRef .tc ReferenceIdeal.main_call3_v3) := by
  rw [rd_main_call2_v3 mK outs c, ReferenceIdeal.RefRead.rd_main_call3_v3 mR c, same_main_c_11 mK outs c mR h1]
theorem same_main_call2_v4 : GenP.V61 mK outs c (Proc.devRef .tc main_call2_v4) = ReferenceIdeal.RefRun.E mR c (Proc.devRef .tc ReferenceIdeal.main_call3_v4) := by
  rw [rd_main_call2_v4 mK outs c, ReferenceIdeal.RefRead.rd_main_call3_v4 mR c, same_main_call2_v3 mK outs c mR h1]
theorem same_main_v35 : GenP.V61 mK outs c (Proc.devRef .tc main_v35) = ReferenceIdeal.RefRun.E mR c (Proc.devRef .tc ReferenceIdeal.main_v35) := by
  rw [rd_main_v35 mK outs c, ReferenceIdeal.RefRead.rd_main_v35 mR c, same_main_call2_v4 mK outs c mR h1, same_main_call2_v2 mK outs c mR h1]
theorem same_main_c_12 : GenP.V61 mK outs c (Proc.devRef .tc main_c_12) = ReferenceIdeal.RefRun.E mR c (Proc.devRef .tc ReferenceIdeal.main_c_12) := by
  rw [rd_main_c_12 mK outs c, ReferenceIdeal.RefRead.rd_main_c_12 mR c]
theorem same_main_v36 : GenP.V61 mK outs c (Proc.devRef .tc main_v36) = ReferenceIdeal.RefRun.E mR c (Proc.devRef .tc ReferenceIdeal.main_v36) := by
  rw [rd_main_v36 mK outs c, ReferenceIdeal.RefRead.rd_main_v36 mR c, same_main_c_12 mK outs c mR h1]
theorem same_main_v37 : GenP.V61 mK outs c (Proc.devRef .tc main_v37) = ReferenceIdeal.RefRun.E mR c (Proc.devRef .tc ReferenceIdeal.main_v37) := by
  rw [rd_main_v37 mK outs c, ReferenceIdeal.RefRead.rd_main_v37 mR c, same_main_v35 mK outs c mR h1, same_main_v36 mK outs c mR h1]
theorem same_main_c_13 : GenP.V61 mK outs c (Proc.devRef .tc main_c_13) = ReferenceIdeal.RefRun.E mR c (Proc.devRef .tc ReferenceIdeal.main_c_13) := by
  rw [rd_main_c_13 mK outs c, ReferenceIdeal.RefRead.rd_main_c_13 mR c]
theorem same_main_c_14 : GenP.V61 mK outs c (Proc.devRef .tc main_c_14) = ReferenceIdeal.RefRun.E mR c (Proc.devRef .tc ReferenceIdeal.main_c_14) := by
  rw [rd_main_c_14 mK outs c, ReferenceIdeal.RefRead.rd_main_c_14 mR c]
theorem same_main_call3_v0 : GenP.V61 mK outs c (Proc.devRef .tc main_call3_v0) = ReferenceIdeal.RefRun.E mR c (Proc.devRef .tc ReferenceIdeal.main_call4_v0) := by
  rw [rd_main_call3_v0 mK outs c, ReferenceIdeal.RefRead.rd_main_call4_v0 mR c, same_main_c_13 mK outs c mR h1]
theorem same_main_call3_v1 : GenP.V61 mK outs c (Proc.devRef .tc main_call3_v1) = ReferenceIdeal.RefRun.E mR c (Proc.devRef .tc ReferenceIdeal.main_call4_v1) := by
  rw [rd_main_call3_v1 mK outs c, ReferenceIdeal.RefRead.rd_main_call4_v1 mR c, same_main_call3_v0 mK outs c mR h1]
theorem same_main_call3_v2 : GenP.V61 mK outs c (Proc.devRef .tc main_call3_v2) = ReferenceIdeal.RefRun.E mR c (Proc.devRef .tc ReferenceIdeal.main_call4_v2) := by
  rw [rd_main_call3_v2 mK outs c, ReferenceIdeal.RefRead.rd_main_call4_v2 mR c, same_main_call3_v1 mK outs c mR h1, same_main_v23 mK outs c mR h1]
theorem same_main_call3_v3 : GenP.V61 mK outs c (Proc.devRef .tc main_call3_v3) = ReferenceIdeal.RefRun.E mR c (Proc.devRef .tc ReferenceIdeal.main_call4_v3) := by
  rw [rd_main_call3_v3 mK outs c, ReferenceIdeal.RefRead.rd_main_call4_v3 mR c, same_main_c_14 mK outs c mR h1]
theorem same_main_call3_v4 : GenP.V61 mK outs c (Proc.devRef .tc main_call3_v4) = ReferenceIdeal.RefRun.E mR c (Proc.devRef .tc ReferenceIdeal.main_call4_v4) := by
  rw [rd_main_call3_v4 mK outs c, ReferenceIdeal.RefRead.rd_main_call4_v4 mR c, same_main_call3_v3 mK outs c mR h1]
theorem same_main_v38 : GenP.V61 mK outs c (Proc.devRef .tc main_v38) = ReferenceIdeal.RefRun.E mR c (Proc.devRef .tc ReferenceIdeal.main_v38) := by
  rw [rd_main_v38 mK outs c, ReferenceIdeal.RefRead.rd_main_v38 mR c, same_main_call3_v4 mK outs c mR h1, same_main_call3_v2 mK outs c mR h1]
theorem same_main_v39 : GenP.V61 mK outs c (Proc.devRef .tc main_v39) = ReferenceIdeal.RefRun.E mR c (Proc.devRef .tc ReferenceIdeal.main_v39) := by
  rw [rd_main_v39 mK outs c, ReferenceIdeal.RefRead.rd_main_v39 mR c, same_main_v37 mK outs c mR h1, same_main_v38 mK outs c mR h1]
theorem same_main_c_15 : GenP.V61 mK outs c (Proc.devRef .tc main_c_15) = ReferenceIdeal.RefRun.E mR c (Proc.devRef .tc ReferenceIdeal.main_c_15) := by
  rw [rd_main_c_15 mK outs c, ReferenceIdeal.RefRead.rd_main_c_15 mR c]
theorem same_main_v40 : GenP.V61 mK outs c (Proc.devRef .tc main_v40) = ReferenceIdeal.RefRun.E mR c (Proc.devRef .tc ReferenceIdeal.main_v40) := by
  rw [rd_main_v40 mK outs c, ReferenceIdeal.RefRead.rd_main_v40 mR c, same_main_c_15 mK outs c mR h1]
theorem same_main_v41 : GenP.V61 mK outs c (Proc.devRef .tc main_v41) = ReferenceIdeal.RefRun.E mR c (Proc.devRef .tc ReferenceIdeal.main_v41) := by
  rw [rd_main_v41 mK outs c, ReferenceIdeal.RefRead.rd_main_v41 mR c, same_main_v39 mK outs c mR h1, same_main_v40 mK outs c mR h1]
theorem same_main_c_16 : GenP.V61 mK outs c (Proc.devRef .tc main_c_16) = ReferenceIdeal.RefRun.E mR c (Proc.devRef .tc ReferenceIdeal.main_c_16) := by
  rw [rd_main_c_16 mK outs c, ReferenceIdeal.RefRead.rd_main_c_16 mR c]
theorem same_main_v42 : GenP.V61 mK outs c (Proc.devRef .tc main_v42) = ReferenceIdeal.RefRun.E mR c (Proc.devRef .tc ReferenceIdeal.main_v42) := by
  rw [rd_main_v42 mK outs c, ReferenceIdeal.RefRead.rd_main_v42 mR c, same_main_c_16 mK outs c mR h1]
theorem same_main_v43 : GenP.V61 mK outs c (Proc.devRef .tc main_v43) = ReferenceIdeal.RefRun.E mR c (Proc.devRef .tc ReferenceIdeal.main_v43) := by
  rw [rd_main_v43 mK outs c, ReferenceIdeal.RefRead.rd_main_v43 mR c, same_main_v39 mK outs c mR h1, same_main_v42 mK outs c mR h1]
theorem same_main_v44 : GenP.V61 mK outs c (Proc.devRef .tc main_v44) = ReferenceIdeal.RefRun.E mR c (Proc.devRef .tc ReferenceIdeal.main_v44) := by
  rw [rd_main_v44 mK outs c, ReferenceIdeal.RefRead.rd_main_v44 mR c, same_main_v41 mK outs c mR h1, same_main_v43 mK outs c mR h1, same_main_v39 mK outs c mR h1]
theorem same_main_v45 : GenP.V61 mK outs c (Proc.devRef .tc main_v45) = ReferenceIdeal.RefRun.E mR c (Proc.devRef .tc ReferenceIdeal.main_v45) := by
  rw [rd_main_v45 mK outs c, ReferenceIdeal.RefRead.rd_main_v45 mR c, same_main_v44 mK outs c mR h1]
theorem same_main_c_17 : GenP.V61 mK outs c (Proc.devRef .tc main_c_17) = ReferenceIdeal.RefRun.E mR c (Proc.devRef .tc ReferenceIdeal.main_c_38) := by
  rw [rd_main_c_17 mK outs c, ReferenceIdeal.RefRead.rd_main_c_38 mR c]
theorem same_main_c_17__main_c_20 : GenP.V61 mK outs c (Proc.devRef .tc main_c_17) = ReferenceIdeal.RefRun.E mR c (Proc.devRef .tc ReferenceIdeal.main_c_20) := by
  rw [rd_main_c_17 mK outs c, ReferenceIdeal.RefRead.rd_main_c_20 mR c]
theorem same_main_v47 : GenP.V61 mK outs c (Proc.devRef .tc main_v47) = ReferenceIdeal.RefRun.E mR c (Proc.devRef .tc ReferenceIdeal.main_v55) := by
  rw [rd_main_v47 mK outs c, ReferenceIdeal.RefRead.rd_main_v55 mR c, same_main_c_17__main_c_20 mK outs c mR h1]
theorem same_main_c_18 : GenP.V61 mK outs c (Proc.devRef .tc main_c_18) = ReferenceIdeal.RefRun.E mR c (Proc.devRef .tc ReferenceIdeal.main_c_56) := by
  rw [rd_main_c_18 mK outs c, ReferenceIdeal.RefRead.rd_main_c_56 mR c]
theorem same_main_c_19 : GenP.V61 mK outs c (Proc.devRef .tc main_c_19) = ReferenceIdeal.RefRun.E mR c (Proc.devRef .tc ReferenceIdeal.main_c_5) := by
  rw [rd_main_c_19 mK outs c, ReferenceIdeal.RefRead.rd_main_c_5 mR c]
theorem same_main_c_19__main_c_22 : GenP.V61 mK outs c (Proc.devRef .tc main_c_19) = ReferenceIdeal.RefRun.E mR c (Proc.devRef .tc ReferenceIdeal.main_c_22) := by
  rw [rd_main_c_19 mK outs c, ReferenceIdeal.RefRead.rd_main_c_22 mR c]
theorem same_main_v51 : GenP.V61 mK outs c (Proc.devRef .tc main_v51) = ReferenceIdeal.RefRun.E mR c (Proc.devRef .tc ReferenceIdeal.main_v65) := by
  rw [rd_main_v51 mK outs c, ReferenceIdeal.RefRead.rd_main_v65 mR c, same_main_c_19__main_c_22 mK outs c mR h1]
theorem same_main_v52 : GenP.V61 mK outs c (Proc.devRef .tc main_v52) = ReferenceIdeal.RefRun.E mR c (Proc.devRef .tc ReferenceIdeal.main_v66) := by
  rw [rd_main_v52 mK outs c, ReferenceIdeal.RefRead.rd_main_v66 mR c, same_main_v16 mK outs c mR h1, same_main_v51 mK outs c mR h1]
theorem same_main_c_20 : GenP.V61 mK outs c (Proc.devRef .tc main_c_20) = ReferenceIdeal.RefRun.E mR c (Proc.devRef .tc ReferenceIdeal.main_c_17) := by
  rw [rd_main_c_20 mK outs c, ReferenceIdeal.RefRead.rd_main_c_17 mR c]
theorem same_main_v53 : GenP.V61 mK outs c (Proc.devRef .tc main_v53) = ReferenceIdeal.RefRun.E mR c (Proc.devRef .tc ReferenceIdeal.main_v47) := by
  rw [rd_main_v53 mK outs c, ReferenceIdeal.RefRead.rd_main_v47 mR c, same_main_c_20 mK outs c mR h1]
theorem same_main_c_20__main_c_23 : GenP.V61 mK outs c (Proc.devRef .tc main_c_20) = ReferenceIdeal.RefRun.E mR c (Proc.devRef .tc ReferenceIdeal.main_c_23) := by
  rw [rd_main_c_20 mK outs c, ReferenceIdeal.RefRead.rd_main_c_23 mR c]
theorem same_main_v53__main_v67 : GenP.V61 mK outs c (Proc.devRef .tc main_v53) = ReferenceIdeal.RefRun.E mR c (Proc.devRef .tc ReferenceIdeal.main_v67) := by
  rw [rd_main_v53 mK outs c, ReferenceIdeal.RefRead.rd_main_v67 mR c, same_main_c_20__main_c_23 mK outs c mR h1]
theorem same_main_v54 : GenP.V61 mK outs c (Proc.devRef .tc main_v54) = ReferenceIdeal.RefRun.E mR c (Proc.devRef .tc ReferenceIdeal.main_v68) := by
  rw [rd_main_v54 mK outs c, ReferenceIdeal.RefRead.rd_main_v68 mR c, same_main_v17 mK outs c mR h1, same_main_v53__main_v67 mK outs c mR h1]
theorem same_main_c_21 : GenP.V61 mK outs c (Proc.devRef .tc main_c_21) = ReferenceIdeal.RefRun.E mR c (Proc.devRef .tc ReferenceIdeal.main_c_18) := by
  rw [rd_main_c_21 mK outs c, ReferenceIdeal.RefRead.rd_main_c_18 mR c]
theorem same_main_v55 : GenP.V61 mK outs c (Proc.devRef .tc main_v55) = ReferenceIdeal.RefRun.E mR c (Proc.devRef .tc ReferenceIdeal.main_v51) := by
  rw [rd_main_v55 mK outs c, ReferenceIdeal.RefRead.rd_main_v51 mR c, same_main_c_21 mK outs c mR h1]
theorem same_main_c_21__main_c_24 : GenP.V61 mK outs c (Proc.devRef .tc main_c_21) = ReferenceIdeal.RefRun.E mR c (Proc.devRef .tc ReferenceIdeal.main_c_24) := by
  rw [rd_main_c_21 mK outs c, ReferenceIdeal.RefRead.rd_main_c_24 mR c]
theorem same_main_v55__main_v69 : GenP.V61 mK outs c (Proc.devRef .tc main_v55) = ReferenceIdeal.RefRun.E mR c (Proc.devRef .tc ReferenceIdeal.main_v69) := by
  rw [rd_main_v55 mK outs c, ReferenceIdeal.RefRead.rd_main_v69 mR c, same_main_c_21__main_c_24 mK outs c mR h1]
theorem same_main_v56 : GenP.V61 mK outs c (Proc.devRef .tc main_v56) = ReferenceIdeal.RefRun.E mR c (Proc.devRef .tc ReferenceIdeal.main_v70) := by
  rw [rd_main_v56 mK outs c, ReferenceIdeal.RefRead.rd_main_v70 mR c, same_main_v52 mK outs c mR h1, same_main_v55__main_v69 mK outs c mR h1]
theorem same_main_c_22 : GenP.V61 mK outs c (Proc.devRef .tc main_c_22) = ReferenceIdeal.RefRun.E mR c (Proc.devRef .tc ReferenceIdeal.main_c_25) := by
  rw [rd_main_c_22 mK outs c, ReferenceIdeal.RefRead.rd_main_c_25 mR c]
theorem same_main_v57 : GenP.V61 mK outs c (Proc.devRef .tc main_v57) = ReferenceIdeal.RefRun.E mR c (Proc.devRef .tc ReferenceIdeal.main_v71) := by
  rw [rd_main_v57 mK outs c, ReferenceIdeal.RefRead.rd_main_v71 mR c, same_main_c_22 mK outs c mR h1]
theorem same_main_v58 : GenP.V61 mK outs c (Proc.devRef .tc main_v58) = ReferenceIdeal.RefRun.E mR c (Proc.devRef .tc ReferenceIdeal.main_v72) := by
  rw [rd_main_v58 mK outs c, ReferenceIdeal.RefRead.rd_main_v72 mR c, same_main_v52 mK outs c mR h1, same_main_v57 mK outs c mR h1]
theorem same_main_v59 : GenP.V61 mK outs c (Proc.devRef .tc main_v59) = ReferenceIdeal.RefRun.E mR c (Proc.devRef .tc ReferenceIdeal.main_v73) := by
  rw [rd_main_v59 mK outs c, ReferenceIdeal.RefRead.rd_main_v73 mR c, same_main_v56 mK outs c mR h1, same_main_v58 mK outs c mR h1]
theorem same_main_c_23 : GenP.V61 mK outs c (Proc.devRef .tc main_c_23) = ReferenceIdeal.RefRun.E mR c (Proc.devRef .tc ReferenceIdeal.main_c_19) := by
  rw [rd_main_c_23 mK outs c, ReferenceIdeal.RefRead.rd_main_c_19 mR c]
theorem same_main_v60 : GenP.V61 mK outs c (Proc.devRef .tc main_v60) = ReferenceIdeal.RefRun.E mR c (Proc.devRef .tc ReferenceIdeal.main_v53) := by
  rw [rd_main_v60 mK outs c, ReferenceIdeal.RefRead.rd_main_v53 mR c, same_main_c_23 mK outs c mR h1]
theorem same_main_c_23__main_c_26 : GenP.V61 mK outs c (Proc.devRef .tc main_c_23) = ReferenceIdeal.RefRun.E mR c (Proc.devRef .tc ReferenceIdeal.main_c_26) := by
  rw [rd_main_c_23 mK outs c, ReferenceIdeal.RefRead.rd_main_c_26 mR c]
theorem same_main_v60__main_v74 : GenP.V61 mK outs c (Proc.devRef .tc main_v60) = ReferenceIdeal.RefRun.E mR c (Proc.devRef .tc ReferenceIdeal.main_v74) := by
  rw [rd_main_v60 mK outs c, ReferenceIdeal.RefRead.rd_main_v74 mR c, same_main_c_23__main_c_26 mK outs c mR h1]
theorem same_main_v61 : GenP.V61 mK outs c (Proc.devRef .tc main_v61) = ReferenceIdeal.RefRun.E mR c (Proc.devRef .tc ReferenceIdeal.main_v75) := by
  rw [rd_main_v61 mK outs c, ReferenceIdeal.RefRead.rd_main_v75 mR c, same_main_v54 mK outs c mR h1, same_main_v60__main_v74 mK outs c mR h1]
theorem same_main_v62 : GenP.V61 mK outs c (Proc.devRef .tc main_v62) = ReferenceIdeal.RefRun.E mR c (Proc.devRef .tc ReferenceIdeal.main_v76) := by
  rw [rd_main_v62 mK outs c, ReferenceIdeal.RefRead.rd_main_v76 mR c, same_main_v59 mK outs c mR h1, same_main_v61 mK outs c mR h1]
theorem same_main_c_24 : GenP.V61 mK outs c (Proc.devRef .tc main_c_24) = ReferenceIdeal.RefRun.E mR c (Proc.devRef .tc ReferenceIdeal.main_c_27) := by
  rw [rd_main_c_24 mK outs c, ReferenceIdeal.RefRead.rd_main_c_27 mR c]
theorem same_main_v63 : GenP.V61 mK outs c (Proc.devRef .tc main_v63) = ReferenceIdeal.RefRun.E mR c (Proc.devRef .tc ReferenceIdeal.main_v77) := by
  rw [rd_main_v63 mK outs c, ReferenceIdeal.RefRead.rd_main_v77 mR c, same_main_c_24 mK outs c mR h1]
theorem same_main_v64 : GenP.V61 mK outs c (Proc.devRef .tc main_v64) = ReferenceIdeal.RefRun.E mR c (Proc.devRef .tc ReferenceIdeal.main_v78) := by
  rw [rd_main_v64 mK outs c, ReferenceIdeal.RefRead.rd_main_v78 mR c, same_main_v54 mK outs c mR h1, same_main_v63 mK outs c mR h1]
theorem same_main_v65 : GenP.V61 mK outs c (Proc.devRef .tc main_v65) = ReferenceIdeal.RefRun.E mR c (Proc.devRef .tc ReferenceIdeal.main_v79) := by
  rw [rd_main_v65 mK outs c, ReferenceIdeal.RefRead.rd_main_v79 mR c, same_main_v62 mK outs c mR h1, same_main_v64 mK outs c mR h1]
theorem same_main_c_25 : GenP.V61 mK outs c (Proc.devRef .tc main_c_25) = ReferenceIdeal.RefRun.E mR c (Proc.devRef .tc ReferenceIdeal.main_c_23) := by
  rw [rd_main_c_25 mK outs c, ReferenceIdeal.RefRead.rd_main_c_23 mR c]
theorem same_main_c_26 : GenP.V61 mK outs c (Proc.devRef .tc main_c_26) = ReferenceIdeal.RefRun.E mR c (Proc.devRef .tc ReferenceIdeal.main_c_29) := by
  rw [rd_main_c_26 mK outs c, ReferenceIdeal.RefRead.rd_main_c_29 mR c]
theorem same_main_c_25__main_c_28 : GenP.V61 mK outs c (Proc.devRef .tc main_c_25) = ReferenceIdeal.RefRun.E mR c (Proc.devRef .tc ReferenceIdeal.main_c_28) := by
  rw [rd_main_c_25 mK outs c, ReferenceIdeal.RefRead.rd_main_c_28 mR c]
theorem same_main_call5_v0 : GenP.V61 mK outs c (Proc.devRef .tc main_call5_v0) = ReferenceIdeal.RefRun.E mR c (Proc.devRef .tc ReferenceIdeal.main_call6_v0) := by
  rw [rd_main_call5_v0 mK outs c, ReferenceIdeal.RefRead.rd_main_call6_v0 mR c, same_main_c_25__main_c_28 mK outs c mR h1]
theorem same_main_call5_v1 : GenP.V61 mK outs c (Proc.devRef .tc main_call5_v1) = ReferenceIdeal.RefRun.E mR c (Proc.devRef .tc ReferenceIdeal.main_call6_v1) := by
  rw [rd_main_call5_v1 mK outs c, ReferenceIdeal.RefRead.rd_main_call6_v1 mR c, same_main_call5_v0 mK outs c mR h1]
theorem same_main_call5_v2 : GenP.V61 mK outs c (Proc.devRef .tc main_call5_v2) = ReferenceIdeal.RefRun.E mR c (Proc.devRef .tc ReferenceIdeal.main_call6_v2) := by
  rw [rd_main_call5_v2 mK outs c, ReferenceIdeal.RefRead.rd_main_call6_v2 mR c, same_main_call5_v1 mK outs c mR h1, same_main_v52 mK outs c mR h1]
theorem same_main_call5_v3 : GenP.V61 mK outs c (Proc.devRef .tc main_call5_v3) = ReferenceIdeal.RefRun.E mR c (Proc.devRef .tc ReferenceIdeal.main_call6_v3) := by
  rw [rd_main_call5_v3 mK outs c, ReferenceIdeal.RefRead.rd_main_call6_v3 mR c, same_main_c_26 mK outs c mR h1]
theorem same_main_call5_v4 : GenP.V61 mK outs c (Proc.devRef .tc main_call5_v4) = ReferenceIdeal.RefRun.E mR c (Proc.devRef .tc ReferenceIdeal.main_call6_v4) := by
  rw [rd_main_call5_v4 mK outs c, ReferenceIdeal.RefRead.rd_main_call6_v4 mR c, same_main_call5_v3 mK outs c mR h1]
theorem same_main_v66 : GenP.V61 mK outs c (Proc.devRef .tc main_v66) = ReferenceIdeal.RefRun.E mR c (Proc.devRef .tc ReferenceIdeal.main_v80) := by
  rw [rd_main_v66 mK outs c, ReferenceIdeal.RefRead.rd_main_v80 mR c, same_main_call5_v4 mK outs c mR h1, same_main_call5_v2 mK outs c mR h1]
theorem same_main_c_27 : GenP.V61 mK outs c (Proc.devRef .tc main_c_27) = ReferenceIdeal.RefRun.E mR c (Proc.devRef .tc ReferenceIdeal.main_c_30) := by
  rw [rd_main_c_27 mK outs c, ReferenceIdeal.RefRead.rd_main_c_30 mR c]
theorem same_main_v67 : GenP.V61 mK outs c (Proc.devRef .tc main_v67) = ReferenceIdeal.RefRun.E mR c (Proc.devRef .tc ReferenceIdeal.main_v81) := by
  rw [rd_main_v67 mK outs c, ReferenceIdeal.RefRead.rd_main_v81 mR c, same_main_c_27 mK outs c mR h1]
theorem same_main_v68 : GenP.V61 mK outs c (Proc.devRef .tc main_v68) = ReferenceIdeal.RefRun.E mR c (Proc.devRef .tc ReferenceIdeal.main_v82) := by
  rw [rd_main_v68 mK outs c, ReferenceIdeal.RefRead.rd_main_v82 mR c, same_main_v66 mK outs c mR h1, same_main_v67 mK outs c mR h1]
theorem same_main_c_28 : GenP.V61 mK outs c (Proc.devRef .tc main_c_28) = ReferenceIdeal.RefRun.E mR c (Proc.devRef .tc ReferenceIdeal.main_c_24) := by
  rw [rd_main_c_28 mK outs c, ReferenceIdeal.RefRead.rd_main_c_24 mR c]
theorem same_main_c_29 : GenP.V61 mK outs c (Proc.devRef .tc main_c_29) = ReferenceIdeal.RefRun.E mR c (Proc.devRef .tc ReferenceIdeal.main_c_32) := by
  rw [rd_main_c_29 mK outs c, ReferenceIdeal.RefRead.rd_main_c_32 mR c]
theorem same_main_c_28__main_c_31 : GenP.V61 mK outs c (Proc.devRef .tc main_c_28) = ReferenceIdeal.RefRun.E mR c (Proc.devRef .tc ReferenceIdeal.main_c_31) := by
  rw [rd_main_c_28 mK outs c, ReferenceIdeal.RefRead.rd_main_c_31 mR c]
theorem same_main_call6_v0 : GenP.V61 mK outs c (Proc.devRef .tc main_call6_v0) = ReferenceIdeal.RefRun.E mR c (Proc.devRef .tc ReferenceIdeal.main_call7_v0) := by
  rw [rd_main_call6_v0 mK outs c, ReferenceIdeal.RefRead.rd_main_call7_v0 mR c, same_main_c_28__main_c_31 mK outs c mR h1]
theorem same_main_call6_v1 : GenP.V61 mK outs c (Proc.devRef .tc main_call6_v1) = ReferenceIdeal.RefRun.E mR c (Proc.devRef .tc ReferenceIdeal.main_call7_v1) := by
  rw [rd_main_call6_v1 mK outs c, ReferenceIdeal.RefRead.rd_main_call7_v1 mR c, same_main_call6_v0 mK outs c mR h1]
theorem same_main_call6_v2 : GenP.V61 mK outs c (Proc.devRef .tc main_call6_v2) = ReferenceIdeal.RefRun.E mR c (Proc.devRef .tc ReferenceIdeal.main_call7_v2) := by
  rw [rd_main_call6_v2 mK outs c, ReferenceIdeal.RefRead.rd_main_call7_v2 mR c, same_main_call6_v1 mK outs c mR h1, same_main_v54 mK outs c mR h1]
theorem same_main_call6_v3 : GenP.V61 mK outs c (Proc.devRef .tc main_call6_v3) = ReferenceIdeal.RefRun.E mR c (Proc.devRef .tc ReferenceIdeal.main_call7_v3) := by
  rw [rd_main_call6_v3 mK outs c, ReferenceIdeal.RefRead.rd_main_call7_v3 mR c, same_main_c_29 mK outs c mR h1]
theorem same_main_call6_v4 : GenP.V61 mK outs c (Proc.devRef .tc main_call6_v4) = ReferenceIdeal.RefRun.E mR c (Proc.devRef .tc ReferenceIdeal.main_call7_v4) := by
  rw [rd_main_call6_v4 mK outs c, ReferenceIdeal.RefRead.rd_main_call7_v4 mR c, same_main_call6_v3 mK outs c mR h1]
theorem same_main_v69 : GenP.V61 mK outs c (Proc.devRef .tc main_v69) = ReferenceIdeal.RefRun.E mR c (Proc.devRef .tc ReferenceIdeal.main_v83) := by
  rw [rd_main_v69 mK outs c, ReferenceIdeal.RefRead.rd_main_v83 mR c, same_main_call6_v4 mK outs c mR h1, same_main_call6_v2 mK outs c mR h1]
theorem same_main_v70 : GenP.V61 mK outs c (Proc.devRef .tc main_v70) = ReferenceIdeal.RefRun.E mR c (Proc.devRef .tc ReferenceIdeal.main_v84) := by
  rw [rd_main_v70 mK outs c, ReferenceIdeal.RefRead.rd_main_v84 mR c, same_main_v68 mK outs c mR h1, same_main_v69 mK outs c mR h1]
theorem same_main_c_30 : GenP.V61 mK outs c (Proc.devRef .tc main_c_30) = ReferenceIdeal.RefRun.E mR c (Proc.devRef .tc ReferenceIdeal.main_c_26) := by
  rw [rd_main_c_30 mK outs c, ReferenceIdeal.RefRead.rd_main_c_26 mR c]
theorem same_main_c_30__main_c_23 : GenP.V61 mK outs c (Proc.devRef .tc main_c_30) = ReferenceIdeal.RefRun.E mR c (Proc.devRef .tc ReferenceIdeal.main_c_23) := by
  rw [rd_main_c_30 mK outs c, ReferenceIdeal.RefRead.rd_main_c_23 mR c]
theorem same_main_v71 : GenP.V61 mK outs c (Proc.devRef .tc main_v71) = ReferenceIdeal.RefRun.E mR c (Proc.devRef .tc ReferenceIdeal.main_v67) := by
  rw [rd_main_v71 mK outs c, ReferenceIdeal.RefRead.rd_main_v67 mR c, same_main_c_30__main_c_23 mK outs c mR h1]
theorem same_main_c_30__main_c_33 : GenP.V61 mK outs c (Proc.devRef .tc main_c_30) = ReferenceIdeal.RefRun.E mR c (Proc.devRef .tc ReferenceIdeal.main_c_33) := by
  rw [rd_main_c_30 mK outs c, ReferenceIdeal.RefRead.rd_main_c_33 mR c]

end Cert.KernelIdeal.Glue
-- ==== Proof.GlueSame1.lean ====
/-
  The integer arrays both programs compute from main_arg1 and constants alone are the same arrays (part 1 of the table).
  A kernel buffer and a reference buffer written by the same operation of operands already known equal hold equal
  contents at the end: rewrite each side by its read-back equation, then the operands by their congruences.
-/
import proofs.«125710_j13511967113615_2_alg».proof.Proof.GlueSame0

set_option maxRecDepth 16384

noncomputable section

namespace Cert.KernelIdeal.Glue

open Idealize.ShloMosaic Idealize.ShloMosaic.TcCoe Idealize.ShloMosaic.StableHlo

variable {F : FTy → Type} [FloatOps F]
variable (mK : (ℓ : Loc nD τ sig) → Buf (Elt F) ℓ) (outs : GenP.Outs (F := F)) (c : Dev nD)
  (mR : (ℓ : Loc ReferenceIdeal.nD ReferenceIdeal.τ ReferenceIdeal.sig) → Buf (Elt F) ℓ)
  (h1 : mR ((c : Thread ReferenceIdeal.nD ReferenceIdeal.τ).loc ReferenceIdeal.main_arg1) = mK ((c : Thread nD τ).loc main_arg1))
include h1

theorem same_main_v71__main_v85 : GenP.V61 mK outs c (Proc.devRef .tc main_v71) = ReferenceIdeal.RefRun.E mR c (Proc.devRef .tc ReferenceIdeal.main_v85) := by
  rw [rd_main_v71 mK outs c, ReferenceIdeal.RefRead.rd_main_v85 mR c, same_main_c_30__main_c_33 mK outs c mR h1]
theorem same_main_v72 : GenP.V61 mK outs c (Proc.devRef .tc main_v72) = ReferenceIdeal.RefRun.E mR c (Proc.devRef .tc ReferenceIdeal.main_v86) := by
  rw [rd_main_v72 mK outs c, ReferenceIdeal.RefRead.rd_main_v86 mR c, same_main_v70 mK outs c mR h1, same_main_v71__main_v85 mK outs c mR h1]
theorem same_main_c_31 : GenP.V61 mK outs c (Proc.devRef .tc main_c_31) = ReferenceIdeal.RefRun.E mR c (Proc.devRef .tc ReferenceIdeal.main_c_34) := by
  rw [rd_main_c_31 mK outs c, ReferenceIdeal.RefRead.rd_main_c_34 mR c]
theorem same_main_v73 : GenP.V61 mK outs c (Proc.devRef .tc main_v73) = ReferenceIdeal.RefRun.E mR c (Proc.devRef .tc ReferenceIdeal.main_v87) := by
  rw [rd_main_v73 mK outs c, ReferenceIdeal.RefRead.rd_main_v87 mR c, same_main_c_31 mK outs c mR h1]
theorem same_main_v74 : GenP.V61 mK outs c (Proc.devRef .tc main_v74) = ReferenceIdeal.RefRun.E mR c (Proc.devRef .tc ReferenceIdeal.main_v88) := by
  rw [rd_main_v74 mK outs c, ReferenceIdeal.RefRead.rd_main_v88 mR c, same_main_v70 mK outs c mR h1, same_main_v73 mK outs c mR h1]
theorem same_main_v75 : GenP.V61 mK outs c (Proc.devRef .tc main_v75) = ReferenceIdeal.RefRun.E mR c (Proc.devRef .tc ReferenceIdeal.main_v89) := by
  rw [rd_main_v75 mK outs c, ReferenceIdeal.RefRead.rd_main_v89 mR c, same_main_v72 mK outs c mR h1, same_main_v74 mK outs c mR h1, same_main_v70 mK outs c mR h1]
theorem same_main_v76 : GenP.V61 mK outs c (Proc.devRef .tc main_v76) = ReferenceIdeal.RefRun.E mR c (Proc.devRef .tc ReferenceIdeal.main_v90) := by
  rw [rd_main_v76 mK outs c, ReferenceIdeal.RefRead.rd_main_v90 mR c, same_main_v75 mK outs c mR h1]
theorem same_main_c_32 : GenP.V61 mK outs c (Proc.devRef .tc main_c_32) = ReferenceIdeal.RefRun.E mR c (Proc.devRef .tc ReferenceIdeal.main_c_74) := by
  rw [rd_main_c_32 mK outs c, ReferenceIdeal.RefRead.rd_main_c_74 mR c]
theorem same_main_c_32__main_c_38 : GenP.V61 mK outs c (Proc.devRef .tc main_c_32) = ReferenceIdeal.RefRun.E mR c (Proc.devRef .tc ReferenceIdeal.main_c_38) := by
  rw [rd_main_c_32 mK outs c, ReferenceIdeal.RefRead.rd_main_c_38 mR c]
theorem same_main_v78 : GenP.V61 mK outs c (Proc.devRef .tc main_v78) = ReferenceIdeal.RefRun.E mR c (Proc.devRef .tc ReferenceIdeal.main_v100) := by
  rw [rd_main_v78 mK outs c, ReferenceIdeal.RefRead.rd_main_v100 mR c, same_main_c_32__main_c_38 mK outs c mR h1]
theorem same_main_c_33 : GenP.V61 mK outs c (Proc.devRef .tc main_c_33) = ReferenceIdeal.RefRun.E mR c (Proc.devRef .tc ReferenceIdeal.main_c_92) := by
  rw [rd_main_c_33 mK outs c, ReferenceIdeal.RefRead.rd_main_c_92 mR c]
theorem same_main_c_34 : GenP.V61 mK outs c (Proc.devRef .tc main_c_34) = ReferenceIdeal.RefRun.E mR c (Proc.devRef .tc ReferenceIdeal.main_c_22) := by
  rw [rd_main_c_34 mK outs c, ReferenceIdeal.RefRead.rd_main_c_22 mR c]
theorem same_main_c_34__main_c_40 : GenP.V61 mK outs c (Proc.devRef .tc main_c_34) = ReferenceIdeal.RefRun.E mR c (Proc.devRef .tc ReferenceIdeal.main_c_40) := by
  rw [rd_main_c_34 mK outs c, ReferenceIdeal.RefRead.rd_main_c_40 mR c]
theorem same_main_v82 : GenP.V61 mK outs c (Proc.devRef .tc main_v82) = ReferenceIdeal.RefRun.E mR c (Proc.devRef .tc ReferenceIdeal.main_v110) := by
  rw [rd_main_v82 mK outs c, ReferenceIdeal.RefRead.rd_main_v110 mR c, same_main_c_34__main_c_40 mK outs c mR h1]
theorem same_main_v83 : GenP.V61 mK outs c (Proc.devRef .tc main_v83) = ReferenceIdeal.RefRun.E mR c (Proc.devRef .tc ReferenceIdeal.main_v111) := by
  rw [rd_main_v83 mK outs c, ReferenceIdeal.RefRead.rd_main_v111 mR c, same_main_v16 mK outs c mR h1, same_main_v82 mK outs c mR h1]
theorem same_main_c_35 : GenP.V61 mK outs c (Proc.devRef .tc main_c_35) = ReferenceIdeal.RefRun.E mR c (Proc.devRef .tc ReferenceIdeal.main_c_41) := by
  rw [rd_main_c_35 mK outs c, ReferenceIdeal.RefRead.rd_main_c_41 mR c]
theorem same_main_v84 : GenP.V61 mK outs c (Proc.devRef .tc main_v84) = ReferenceIdeal.RefRun.E mR c (Proc.devRef .tc ReferenceIdeal.main_v112) := by
  rw [rd_main_v84 mK outs c, ReferenceIdeal.RefRead.rd_main_v112 mR c, same_main_c_35 mK outs c mR h1]
theorem same_main_v85 : GenP.V61 mK outs c (Proc.devRef .tc main_v85) = ReferenceIdeal.RefRun.E mR c (Proc.devRef .tc ReferenceIdeal.main_v113) := by
  rw [rd_main_v85 mK outs c, ReferenceIdeal.RefRead.rd_main_v113 mR c, same_main_v17 mK outs c mR h1, same_main_v84 mK outs c mR h1]
theorem same_main_c_36 : GenP.V61 mK outs c (Proc.devRef .tc main_c_36) = ReferenceIdeal.RefRun.E mR c (Proc.devRef .tc ReferenceIdeal.main_c_28) := by
  rw [rd_main_c_36 mK outs c, ReferenceIdeal.RefRead.rd_main_c_28 mR c]
theorem same_main_c_36__main_c_24 : GenP.V61 mK outs c (Proc.devRef .tc main_c_36) = ReferenceIdeal.RefRun.E mR c (Proc.devRef .tc ReferenceIdeal.main_c_24) := by
  rw [rd_main_c_36 mK outs c, ReferenceIdeal.RefRead.rd_main_c_24 mR c]
theorem same_main_v86 : GenP.V61 mK outs c (Proc.devRef .tc main_v86) = ReferenceIdeal.RefRun.E mR c (Proc.devRef .tc ReferenceIdeal.main_v69) := by
  rw [rd_main_v86 mK outs c, ReferenceIdeal.RefRead.rd_main_v69 mR c, same_main_c_36__main_c_24 mK outs c mR h1]
theorem same_main_c_36__main_c_42 : GenP.V61 mK outs c (Proc.devRef .tc main_c_36) = ReferenceIdeal.RefRun.E mR c (Proc.devRef .tc ReferenceIdeal.main_c_42) := by
  rw [rd_main_c_36 mK outs c, ReferenceIdeal.RefRead.rd_main_c_42 mR c]
theorem same_main_v86__main_v114 : GenP.V61 mK outs c (Proc.devRef .tc main_v86) = ReferenceIdeal.RefRun.E mR c (Proc.devRef .tc ReferenceIdeal.main_v114) := by
  rw [rd_main_v86 mK outs c, ReferenceIdeal.RefRead.rd_main_v114 mR c, same_main_c_36__main_c_42 mK outs c mR h1]
theorem same_main_v87 : GenP.V61 mK outs c (Proc.devRef .tc main_v87) = ReferenceIdeal.RefRun.E mR c (Proc.devRef .tc ReferenceIdeal.main_v115) := by
  rw [rd_main_v87 mK outs c, ReferenceIdeal.RefRead.rd_main_v115 mR c, same_main_v83 mK outs c mR h1, same_main_v86__main_v114 mK outs c mR h1]
theorem same_main_c_37 : GenP.V61 mK outs c (Proc.devRef .tc main_c_37) = ReferenceIdeal.RefRun.E mR c (Proc.devRef .tc ReferenceIdeal.main_c_43) := by
  rw [rd_main_c_37 mK outs c, ReferenceIdeal.RefRead.rd_main_c_43 mR c]
theorem same_main_v88 : GenP.V61 mK outs c (Proc.devRef .tc main_v88) = ReferenceIdeal.RefRun.E mR c (Proc.devRef .tc ReferenceIdeal.main_v116) := by
  rw [rd_main_v88 mK outs c, ReferenceIdeal.RefRead.rd_main_v116 mR c, same_main_c_37 mK outs c mR h1]
theorem same_main_v89 : GenP.V61 mK outs c (Proc.devRef .tc main_v89) = ReferenceIdeal.RefRun.E mR c (Proc.devRef .tc ReferenceIdeal.main_v117) := by
  rw [rd_main_v89 mK outs c, ReferenceIdeal.RefRead.rd_main_v117 mR c, same_main_v83 mK outs c mR h1, same_main_v88 mK outs c mR h1]
theorem same_main_v90 : GenP.V61 mK outs c (Proc.devRef .tc main_v90) = ReferenceIdeal.RefRun.E mR c (Proc.devRef .tc ReferenceIdeal.main_v118) := by
  rw [rd_main_v90 mK outs c, ReferenceIdeal.RefRead.rd_main_v118 mR c, same_main_v87 mK outs c mR h1, same_main_v89 mK outs c mR h1]
theorem same_main_c_38 : GenP.V61 mK outs c (Proc.devRef .tc main_c_38) = ReferenceIdeal.RefRun.E mR c (Proc.devRef .tc ReferenceIdeal.main_c_31) := by
  rw [rd_main_c_38 mK outs c, ReferenceIdeal.RefRead.rd_main_c_31 mR c]
theorem same_main_c_38__main_c_26 : GenP.V61 mK outs c (Proc.devRef .tc main_c_38) = ReferenceIdeal.RefRun.E mR c (Proc.devRef .tc ReferenceIdeal.main_c_26) := by
  rw [rd_main_c_38 mK outs c, ReferenceIdeal.RefRead.rd_main_c_26 mR c]
theorem same_main_v91 : GenP.V61 mK outs c (Proc.devRef .tc main_v91) = ReferenceIdeal.RefRun.E mR c (Proc.devRef .tc ReferenceIdeal.main_v74) := by
  rw [rd_main_v91 mK outs c, ReferenceIdeal.RefRead.rd_main_v74 mR c, same_main_c_38__main_c_26 mK outs c mR h1]
theorem same_main_c_38__main_c_44 : GenP.V61 mK outs c (Proc.devRef .tc main_c_38) = ReferenceIdeal.RefRun.E mR c (Proc.devRef .tc ReferenceIdeal.main_c_44) := by
  rw [rd_main_c_38 mK outs c, ReferenceIdeal.RefRead.rd_main_c_44 mR c]
theorem same_main_v91__main_v119 : GenP.V61 mK outs c (Proc.devRef .tc main_v91) = ReferenceIdeal.RefRun.E mR c (Proc.devRef .tc ReferenceIdeal.main_v119) := by
  rw [rd_main_v91 mK outs c, ReferenceIdeal.RefRead.rd_main_v119 mR c, same_main_c_38__main_c_44 mK outs c mR h1]
theorem same_main_v92 : GenP.V61 mK outs c (Proc.devRef .tc main_v92) = ReferenceIdeal.RefRun.E mR c (Proc.devRef .tc ReferenceIdeal.main_v120) := by
  rw [rd_main_v92 mK outs c, ReferenceIdeal.RefRead.rd_main_v120 mR c, same_main_v85 mK outs c mR h1, same_main_v91__main_v119 mK outs c mR h1]
theorem same_main_v93 : GenP.V61 mK outs c (Proc.devRef .tc main_v93) = ReferenceIdeal.RefRun.E mR c (Proc.devRef .tc ReferenceIdeal.main_v121) := by
  rw [rd_main_v93 mK outs c, ReferenceIdeal.RefRead.rd_main_v121 mR c, same_main_v90 mK outs c mR h1, same_main_v92 mK outs c mR h1]
theorem same_main_c_39 : GenP.V61 mK outs c (Proc.devRef .tc main_c_39) = ReferenceIdeal.RefRun.E mR c (Proc.devRef .tc ReferenceIdeal.main_c_45) := by
  rw [rd_main_c_39 mK outs c, ReferenceIdeal.RefRead.rd_main_c_45 mR c]
theorem same_main_v94 : GenP.V61 mK outs c (Proc.devRef .tc main_v94) = ReferenceIdeal.RefRun.E mR c (Proc.devRef .tc ReferenceIdeal.main_v122) := by
  rw [rd_main_v94 mK outs c, ReferenceIdeal.RefRead.rd_main_v122 mR c, same_main_c_39 mK outs c mR h1]
theorem same_main_v95 : GenP.V61 mK outs c (Proc.devRef .tc main_v95) = ReferenceIdeal.RefRun.E mR c (Proc.devRef .tc ReferenceIdeal.main_v123) := by
  rw [rd_main_v95 mK outs c, ReferenceIdeal.RefRead.rd_main_v123 mR c, same_main_v85 mK outs c mR h1, same_main_v94 mK outs c mR h1]
theorem same_main_v96 : GenP.V61 mK outs c (Proc.devRef .tc main_v96) = ReferenceIdeal.RefRun.E mR c (Proc.devRef .tc ReferenceIdeal.main_v124) := by
  rw [rd_main_v96 mK outs c, ReferenceIdeal.RefRead.rd_main_v124 mR c, same_main_v93 mK outs c mR h1, same_main_v95 mK outs c mR h1]
theorem same_main_c_40 : GenP.V61 mK outs c (Proc.devRef .tc main_c_40) = ReferenceIdeal.RefRun.E mR c (Proc.devRef .tc ReferenceIdeal.main_c_33) := by
  rw [rd_main_c_40 mK outs c, ReferenceIdeal.RefRead.rd_main_c_33 mR c]
theorem same_main_c_41 : GenP.V61 mK outs c (Proc.devRef .tc main_c_41) = ReferenceIdeal.RefRun.E mR c (Proc.devRef .tc ReferenceIdeal.main_c_47) := by
  rw [rd_main_c_41 mK outs c, ReferenceIdeal.RefRead.rd_main_c_47 mR c]
theorem same_main_c_40__main_c_46 : GenP.V61 mK outs c (Proc.devRef .tc main_c_40) = ReferenceIdeal.RefRun.E mR c (Proc.devRef .tc ReferenceIdeal.main_c_46) := by
  rw [rd_main_c_40 mK outs c, ReferenceIdeal.RefRead.rd_main_c_46 mR c]
theorem same_main_call8_v0 : GenP.V61 mK outs c (Proc.devRef .tc main_call8_v0) = ReferenceIdeal.RefRun.E mR c (Proc.devRef .tc ReferenceIdeal.main_call9_v0) := by
  rw [rd_main_call8_v0 mK outs c, ReferenceIdeal.RefRead.rd_main_call9_v0 mR c, same_main_c_40__main_c_46 mK outs c mR h1]
theorem same_main_call8_v1 : GenP.V61 mK outs c (Proc.devRef .tc main_call8_v1) = ReferenceIdeal.RefRun.E mR c (Proc.devRef .tc ReferenceIdeal.main_call9_v1) := by
  rw [rd_main_call8_v1 mK outs c, ReferenceIdeal.RefRead.rd_main_call9_v1 mR c, same_main_call8_v0 mK outs c mR h1]
theorem same_main_call8_v2 : GenP.V61 mK outs c (Proc.devRef .tc main_call8_v2) = ReferenceIdeal.RefRun.E mR c (Proc.devRef .tc ReferenceIdeal.main_call9_v2) := by
  rw [rd_main_call8_v2 mK outs c, ReferenceIdeal.RefRead.rd_main_call9_v2 mR c, same_main_call8_v1 mK outs c mR h1, same_main_v83 mK outs c mR h1]
theorem same_main_call8_v3 : GenP.V61 mK outs c (Proc.devRef .tc main_call8_v3) = ReferenceIdeal.RefRun.E mR c (Proc.devRef .tc ReferenceIdeal.main_call9_v3) := by
  rw [rd_main_call8_v3 mK outs c, ReferenceIdeal.RefRead.rd_main_call9_v3 mR c, same_main_c_41 mK outs c mR h1]
theorem same_main_call8_v4 : GenP.V61 mK outs c (Proc.devRef .tc main_call8_v4) = ReferenceIdeal.RefRun.E mR c (Proc.devRef .tc ReferenceIdeal.main_call9_v4) := by
  rw [rd_main_call8_v4 mK outs c, ReferenceIdeal.RefRead.rd_main_call9_v4 mR c, same_main_call8_v3 mK outs c mR h1]
theorem same_main_v97 : GenP.V61 mK outs c (Proc.devRef .tc main_v97) = ReferenceIdeal.RefRun.E mR c (Proc.devRef .tc ReferenceIdeal.main_v125) := by
  rw [rd_main_v97 mK outs c, ReferenceIdeal.RefRead.rd_main_v125 mR c, same_main_call8_v4 mK outs c mR h1, same_main_call8_v2 mK outs c mR h1]
theorem same_main_c_42 : GenP.V61 mK outs c (Proc.devRef .tc main_c_42) = ReferenceIdeal.RefRun.E mR c (Proc.devRef .tc ReferenceIdeal.main_c_48) := by
  rw [rd_main_c_42 mK outs c, ReferenceIdeal.RefRead.rd_main_c_48 mR c]
theorem same_main_v98 : GenP.V61 mK outs c (Proc.devRef .tc main_v98) = ReferenceIdeal.RefRun.E mR c (Proc.devRef .tc ReferenceIdeal.main_v126) := by
  rw [rd_main_v98 mK outs c, ReferenceIdeal.RefRead.rd_main_v126 mR c, same_main_c_42 mK outs c mR h1]
theorem same_main_v99 : GenP.V61 mK outs c (Proc.devRef .tc main_v99) = ReferenceIdeal.RefRun.E mR c (Proc.devRef .tc ReferenceIdeal.main_v127) := by
  rw [rd_main_v99 mK outs c, ReferenceIdeal.RefRead.rd_main_v127 mR c, same_main_v97 mK outs c mR h1, same_main_v98 mK outs c mR h1]
theorem same_main_c_43 : GenP.V61 mK outs c (Proc.devRef .tc main_c_43) = ReferenceIdeal.RefRun.E mR c (Proc.devRef .tc ReferenceIdeal.main_c_35) := by
  rw [rd_main_c_43 mK outs c, ReferenceIdeal.RefRead.rd_main_c_35 mR c]
theorem same_main_c_44 : GenP.V61 mK outs c (Proc.devRef .tc main_c_44) = ReferenceIdeal.RefRun.E mR c (Proc.devRef .tc ReferenceIdeal.main_c_50) := by
  rw [rd_main_c_44 mK outs c, ReferenceIdeal.RefRead.rd_main_c_50 mR c]
theorem same_main_c_43__main_c_49 : GenP.V61 mK outs c (Proc.devRef .tc main_c_43) = ReferenceIdeal.RefRun.E mR c (Proc.devRef .tc ReferenceIdeal.main_c_49) := by
  rw [rd_main_c_43 mK outs c, ReferenceIdeal.RefRead.rd_main_c_49 mR c]
theorem same_main_call9_v0 : GenP.V61 mK outs c (Proc.devRef .tc main_call9_v0) = ReferenceIdeal.RefRun.E mR c (Proc.devRef .tc ReferenceIdeal.main_call10_v0) := by
  rw [rd_main_call9_v0 mK outs c, ReferenceIdeal.RefRead.rd_main_call10_v0 mR c, same_main_c_43__main_c_49 mK outs c mR h1]
theorem same_main_call9_v1 : GenP.V61 mK outs c (Proc.devRef .tc main_call9_v1) = ReferenceIdeal.RefRun.E mR c (Proc.devRef .tc ReferenceIdeal.main_call10_v1) := by
  rw [rd_main_call9_v1 mK outs c, ReferenceIdeal.RefRead.rd_main_call10_v1 mR c, same_main_call9_v0 mK outs c mR h1]
theorem same_main_call9_v2 : GenP.V61 mK outs c (Proc.devRef .tc main_call9_v2) = ReferenceIdeal.RefRun.E mR c (Proc.devRef .tc ReferenceIdeal.main_call10_v2) := by
  rw [rd_main_call9_v2 mK outs c, ReferenceIdeal.RefRead.rd_main_call10_v2 mR c, same_main_call9_v1 mK outs c mR h1, same_main_v85 mK outs c mR h1]
theorem same_main_call9_v3 : GenP.V61 mK outs c (Proc.devRef .tc main_call9_v3) = ReferenceIdeal.RefRun.E mR c (Proc.devRef .tc ReferenceIdeal.main_call10_v3) := by
  rw [rd_main_call9_v3 mK outs c, ReferenceIdeal.RefRead.rd_main_call10_v3 mR c, same_main_c_44 mK outs c mR h1]
theorem same_main_call9_v4 : GenP.V61 mK outs c (Proc.devRef .tc main_call9_v4) = ReferenceIdeal.RefRun.E mR c (Proc.devRef .tc ReferenceIdeal.main_call10_v4) := by
  rw [rd_main_call9_v4 mK outs c, ReferenceIdeal.RefRead.rd_main_call10_v4 mR c, same_main_call9_v3 mK outs c mR h1]
theorem same_main_v100 : GenP.V61 mK outs c (Proc.devRef .tc main_v100) = ReferenceIdeal.RefRun.E mR c (Proc.devRef .tc ReferenceIdeal.main_v128) := by
  rw [rd_main_v100 mK outs c, ReferenceIdeal.RefRead.rd_main_v128 mR c, same_main_call9_v4 mK outs c mR h1, same_main_call9_v2 mK outs c mR h1]
theorem same_main_v101 : GenP.V61 mK outs c (Proc.devRef .tc main_v101) = ReferenceIdeal.RefRun.E mR c (Proc.devRef .tc ReferenceIdeal.main_v129) := by
  rw [rd_main_v101 mK outs c, ReferenceIdeal.RefRead.rd_main_v129 mR c, same_main_v99 mK outs c mR h1, same_main_v100 mK outs c mR h1]
theorem same_main_c_45 : GenP.V61 mK outs c (Proc.devRef .tc main_c_45) = ReferenceIdeal.RefRun.E mR c (Proc.devRef .tc ReferenceIdeal.main_c_36) := by
  rw [rd_main_c_45 mK outs c, ReferenceIdeal.RefRead.rd_main_c_36 mR c]
theorem same_main_c_45__main_c_33 : GenP.V61 mK outs c (Proc.devRef .tc main_c_45) = ReferenceIdeal.RefRun.E mR c (Proc.devRef .tc ReferenceIdeal.main_c_33) := by
  rw [rd_main_c_45 mK outs c, ReferenceIdeal.RefRead.rd_main_c_33 mR c]
theorem same_main_v102 : GenP.V61 mK outs c (Proc.devRef .tc main_v102) = ReferenceIdeal.RefRun.E mR c (Proc.devRef .tc ReferenceIdeal.main_v85) := by
  rw [rd_main_v102 mK outs c, ReferenceIdeal.RefRead.rd_main_v85 mR c, same_main_c_45__main_c_33 mK outs c mR h1]
theorem same_main_c_45__main_c_51 : GenP.V61 mK outs c (Proc.devRef .tc main_c_45) = ReferenceIdeal.RefRun.E mR c (Proc.devRef .tc ReferenceIdeal.main_c_51) := by
  rw [rd_main_c_45 mK outs c, ReferenceIdeal.RefRead.rd_main_c_51 mR c]
theorem same_main_v102__main_v130 : GenP.V61 mK outs c (Proc.devRef .tc main_v102) = ReferenceIdeal.RefRun.E mR c (Proc.devRef .tc ReferenceIdeal.main_v130) := by
  rw [rd_main_v102 mK outs c, ReferenceIdeal.RefRead.rd_main_v130 mR c, same_main_c_45__main_c_51 mK outs c mR h1]
theorem same_main_v103 : GenP.V61 mK outs c (Proc.devRef .tc main_v103) = ReferenceIdeal.RefRun.E mR c (Proc.devRef .tc ReferenceIdeal.main_v131) := by
  rw [rd_main_v103 mK outs c, ReferenceIdeal.RefRead.rd_main_v131 mR c, same_main_v101 mK outs c mR h1, same_main_v102__main_v130 mK outs c mR h1]
theorem same_main_c_46 : GenP.V61 mK outs c (Proc.devRef .tc main_c_46) = ReferenceIdeal.RefRun.E mR c (Proc.devRef .tc ReferenceIdeal.main_c_52) := by
  rw [rd_main_c_46 mK outs c, ReferenceIdeal.RefRead.rd_main_c_52 mR c]
theorem same_main_v104 : GenP.V61 mK outs c (Proc.devRef .tc main_v104) = ReferenceIdeal.RefRun.E mR c (Proc.devRef .tc ReferenceIdeal.main_v132) := by
  rw [rd_main_v104 mK outs c, ReferenceIdeal.RefRead.rd_main_v132 mR c, same_main_c_46 mK outs c mR h1]
theorem same_main_v105 : GenP.V61 mK outs c (Proc.devRef .tc main_v105) = ReferenceIdeal.RefRun.E mR c (Proc.devRef .tc ReferenceIdeal.main_v133) := by
  rw [rd_main_v105 mK outs c, ReferenceIdeal.RefRead.rd_main_v133 mR c, same_main_v101 mK outs c mR h1, same_main_v104 mK outs c mR h1]
theorem same_main_v106 : GenP.V61 mK outs c (Proc.devRef .tc main_v106) = ReferenceIdeal.RefRun.E mR c (Proc.devRef .tc ReferenceIdeal.main_v134) := by
  rw [rd_main_v106 mK outs c, ReferenceIdeal.RefRead.rd_main_v134 mR c, same_main_v103 mK outs c mR h1, same_main_v105 mK outs c mR h1, same_main_v101 mK outs c mR h1]
theorem same_main_v107 : GenP.V61 mK outs c (Proc.devRef .tc main_v107) = ReferenceIdeal.RefRun.E mR c (Proc.devRef .tc ReferenceIdeal.main_v135) := by
  rw [rd_main_v107 mK outs c, ReferenceIdeal.RefRead.rd_main_v135 mR c, same_main_v106 mK outs c mR h1]
theorem same_main_c_47 : GenP.V61 mK outs c (Proc.devRef .tc main_c_47) = ReferenceIdeal.RefRun.E mR c (Proc.devRef .tc ReferenceIdeal.main_c_110) := by
  rw [rd_main_c_47 mK outs c, ReferenceIdeal.RefRead.rd_main_c_110 mR c]
theorem same_main_c_47__main_c_56 : GenP.V61 mK outs c (Proc.devRef .tc main_c_47) = ReferenceIdeal.RefRun.E mR c (Proc.devRef .tc ReferenceIdeal.main_c_56) := by
  rw [rd_main_c_47 mK outs c, ReferenceIdeal.RefRead.rd_main_c_56 mR c]
theorem same_main_v109 : GenP.V61 mK outs c (Proc.devRef .tc main_v109) = ReferenceIdeal.RefRun.E mR c (Proc.devRef .tc ReferenceIdeal.main_v145) := by
  rw [rd_main_v109 mK outs c, ReferenceIdeal.RefRead.rd_main_v145 mR c, same_main_c_47__main_c_56 mK outs c mR h1]
theorem same_main_c_48 : GenP.V61 mK outs c (Proc.devRef .tc main_c_48) = ReferenceIdeal.RefRun.E mR c (Proc.devRef .tc ReferenceIdeal.main_c_128) := by
  rw [rd_main_c_48 mK outs c, ReferenceIdeal.RefRead.rd_main_c_128 mR c]
theorem same_main_c_49 : GenP.V61 mK outs c (Proc.devRef .tc main_c_49) = ReferenceIdeal.RefRun.E mR c (Proc.devRef .tc ReferenceIdeal.main_c_37) := by
  rw [rd_main_c_49 mK outs c, ReferenceIdeal.RefRead.rd_main_c_37 mR c]
theorem same_main_c_49__main_c_35 : GenP.V61 mK outs c (Proc.devRef .tc main_c_49) = ReferenceIdeal.RefRun.E mR c (Proc.devRef .tc ReferenceIdeal.main_c_35) := by
  rw [rd_main_c_49 mK outs c, ReferenceIdeal.RefRead.rd_main_c_35 mR c]
theorem same_main_v113 : GenP.V61 mK outs c (Proc.devRef .tc main_v113) = ReferenceIdeal.RefRun.E mR c (Proc.devRef .tc ReferenceIdeal.main_v92) := by
  rw [rd_main_v113 mK outs c, ReferenceIdeal.RefRead.rd_main_v92 mR c, same_main_c_49__main_c_35 mK outs c mR h1]
theorem same_main_c_49__main_c_58 : GenP.V61 mK outs c (Proc.devRef .tc main_c_49) = ReferenceIdeal.RefRun.E mR c (Proc.devRef .tc ReferenceIdeal.main_c_58) := by
  rw [rd_main_c_49 mK outs c, ReferenceIdeal.RefRead.rd_main_c_58 mR c]
theorem same_main_v113__main_v155 : GenP.V61 mK outs c (Proc.devRef .tc main_v113) = ReferenceIdeal.RefRun.E mR c (Proc.devRef .tc ReferenceIdeal.main_v155) := by
  rw [rd_main_v113 mK outs c, ReferenceIdeal.RefRead.rd_main_v155 mR c, same_main_c_49__main_c_58 mK outs c mR h1]
theorem same_main_v114 : GenP.V61 mK outs c (Proc.devRef .tc main_v114) = ReferenceIdeal.RefRun.E mR c (Proc.devRef .tc ReferenceIdeal.main_v156) := by
  rw [rd_main_v114 mK outs c, ReferenceIdeal.RefRead.rd_main_v156 mR c, same_main_v16 mK outs c mR h1, same_main_v113__main_v155 mK outs c mR h1]
theorem same_main_c_50 : GenP.V61 mK outs c (Proc.devRef .tc main_c_50) = ReferenceIdeal.RefRun.E mR c (Proc.devRef .tc ReferenceIdeal.main_c_40) := by
  rw [rd_main_c_50 mK outs c, ReferenceIdeal.RefRead.rd_main_c_40 mR c]
theorem same_main_c_50__main_c_59 : GenP.V61 mK outs c (Proc.devRef .tc main_c_50) = ReferenceIdeal.RefRun.E mR c (Proc.devRef .tc ReferenceIdeal.main_c_59) := by
  rw [rd_main_c_50 mK outs c, ReferenceIdeal.RefRead.rd_main_c_59 mR c]
theorem same_main_v115 : GenP.V61 mK outs c (Proc.devRef .tc main_v115) = ReferenceIdeal.RefRun.E mR c (Proc.devRef .tc ReferenceIdeal.main_v157) := by
  rw [rd_main_v115 mK outs c, ReferenceIdeal.RefRead.rd_main_v157 mR c, same_main_c_50__main_c_59 mK outs c mR h1]
theorem same_main_v116 : GenP.V61 mK outs c (Proc.devRef .tc main_v116) = ReferenceIdeal.RefRun.E mR c (Proc.devRef .tc ReferenceIdeal.main_v158) := by
  rw [rd_main_v116 mK outs c, ReferenceIdeal.RefRead.rd_main_v158 mR c, same_main_v17 mK outs c mR h1, same_main_v115 mK outs c mR h1]
theorem same_main_c_51 : GenP.V61 mK outs c (Proc.devRef .tc main_c_51) = ReferenceIdeal.RefRun.E mR c (Proc.devRef .tc ReferenceIdeal.main_c_42) := by
  rw [rd_main_c_51 mK outs c, ReferenceIdeal.RefRead.rd_main_c_42 mR c]
theorem same_main_c_51__main_c_36 : GenP.V61 mK outs c (Proc.devRef .tc main_c_51) = ReferenceIdeal.RefRun.E mR c (Proc.devRef .tc ReferenceIdeal.main_c_36) := by
  rw [rd_main_c_51 mK outs c, ReferenceIdeal.RefRead.rd_main_c_36 mR c]
theorem same_main_v117 : GenP.V61 mK outs c (Proc.devRef .tc main_v117) = ReferenceIdeal.RefRun.E mR c (Proc.devRef .tc ReferenceIdeal.main_v96) := by
  rw [rd_main_v117 mK outs c, ReferenceIdeal.RefRead.rd_main_v96 mR c, same_main_c_51__main_c_36 mK outs c mR h1]
theorem same_main_c_51__main_c_60 : GenP.V61 mK outs c (Proc.devRef .tc main_c_51) = ReferenceIdeal.RefRun.E mR c (Proc.devRef .tc ReferenceIdeal.main_c_60) := by
  rw [rd_main_c_51 mK outs c, ReferenceIdeal.RefRead.rd_main_c_60 mR c]
theorem same_main_v117__main_v159 : GenP.V61 mK outs c (Proc.devRef .tc main_v117) = ReferenceIdeal.RefRun.E mR c (Proc.devRef .tc ReferenceIdeal.main_v159) := by
  rw [rd_main_v117 mK outs c, ReferenceIdeal.RefRead.rd_main_v159 mR c, same_main_c_51__main_c_60 mK outs c mR h1]
theorem same_main_v118 : GenP.V61 mK outs c (Proc.devRef .tc main_v118) = ReferenceIdeal.RefRun.E mR c (Proc.devRef .tc ReferenceIdeal.main_v160) := by
  rw [rd_main_v118 mK outs c, ReferenceIdeal.RefRead.rd_main_v160 mR c, same_main_v114 mK outs c mR h1, same_main_v117__main_v159 mK outs c mR h1]
theorem same_main_c_52 : GenP.V61 mK outs c (Proc.devRef .tc main_c_52) = ReferenceIdeal.RefRun.E mR c (Proc.devRef .tc ReferenceIdeal.main_c_61) := by
  rw [rd_main_c_52 mK outs c, ReferenceIdeal.RefRead.rd_main_c_61 mR c]
theorem same_main_v119 : GenP.V61 mK outs c (Proc.devRef .tc main_v119) = ReferenceIdeal.RefRun.E mR c (Proc.devRef .tc ReferenceIdeal.main_v161) := by
  rw [rd_main_v119 mK outs c, ReferenceIdeal.RefRead.rd_main_v161 mR c, same_main_c_52 mK outs c mR h1]
theorem same_main_v120 : GenP.V61 mK outs c (Proc.devRef .tc main_v120) = ReferenceIdeal.RefRun.E mR c (Proc.devRef .tc ReferenceIdeal.main_v162) := by
  rw [rd_main_v120 mK outs c, ReferenceIdeal.RefRead.rd_main_v162 mR c, same_main_v114 mK outs c mR h1, same_main_v119 mK outs c mR h1]
theorem same_main_v121 : GenP.V61 mK outs c (Proc.devRef .tc main_v121) = ReferenceIdeal.RefRun.E mR c (Proc.devRef .tc ReferenceIdeal.main_v163) := by
  rw [rd_main_v121 mK outs c, ReferenceIdeal.RefRead.rd_main_v163 mR c, same_main_v118 mK outs c mR h1, same_main_v120 mK outs c mR h1]
theorem same_main_c_53 : GenP.V61 mK outs c (Proc.devRef .tc main_c_53) = ReferenceIdeal.RefRun.E mR c (Proc.devRef .tc ReferenceIdeal.main_c_44) := by
  rw [rd_main_c_53 mK outs c, ReferenceIdeal.RefRead.rd_main_c_44 mR c]
theorem same_main_c_53__main_c_37 : GenP.V61 mK outs c (Proc.devRef .tc main_c_53) = ReferenceIdeal.RefRun.E mR c (Proc.devRef .tc ReferenceIdeal.main_c_37) := by
  rw [rd_main_c_53 mK outs c, ReferenceIdeal.RefRead.rd_main_c_37 mR c]
theorem same_main_v122 : GenP.V61 mK outs c (Proc.devRef .tc main_v122) = ReferenceIdeal.RefRun.E mR c (Proc.devRef .tc ReferenceIdeal.main_v98) := by
  rw [rd_main_v122 mK outs c, ReferenceIdeal.RefRead.rd_main_v98 mR c, same_main_c_53__main_c_37 mK outs c mR h1]
theorem same_main_c_53__main_c_62 : GenP.V61 mK outs c (Proc.devRef .tc main_c_53) = ReferenceIdeal.RefRun.E mR c (Proc.devRef .tc ReferenceIdeal.main_c_62) := by
  rw [rd_main_c_53 mK outs c, ReferenceIdeal.RefRead.rd_main_c_62 mR c]
theorem same_main_v122__main_v164 : GenP.V61 mK outs c (Proc.devRef .tc main_v122) = ReferenceIdeal.RefRun.E mR c (Proc.devRef .tc ReferenceIdeal.main_v164) := by
  rw [rd_main_v122 mK outs c, ReferenceIdeal.RefRead.rd_main_v164 mR c, same_main_c_53__main_c_62 mK outs c mR h1]
theorem same_main_v123 : GenP.V61 mK outs c (Proc.devRef .tc main_v123) = ReferenceIdeal.RefRun.E mR c (Proc.devRef .tc ReferenceIdeal.main_v165) := by
  rw [rd_main_v123 mK outs c, ReferenceIdeal.RefRead.rd_main_v165 mR c, same_main_v116 mK outs c mR h1, same_main_v122__main_v164 mK outs c mR h1]
theorem same_main_v124 : GenP.V61 mK outs c (Proc.devRef .tc main_v124) = ReferenceIdeal.RefRun.E mR c (Proc.devRef .tc ReferenceIdeal.main_v166) := by
  rw [rd_main_v124 mK outs c, ReferenceIdeal.RefRead.rd_main_v166 mR c, same_main_v121 mK outs c mR h1, same_main_v123 mK outs c mR h1]
theorem same_main_c_54 : GenP.V61 mK outs c (Proc.devRef .tc main_c_54) = ReferenceIdeal.RefRun.E mR c (Proc.devRef .tc ReferenceIdeal.main_c_63) := by
  rw [rd_main_c_54 mK outs c, ReferenceIdeal.RefRead.rd_main_c_63 mR c]
theorem same_main_v125 : GenP.V61 mK outs c (Proc.devRef .tc main_v125) = ReferenceIdeal.RefRun.E mR c (Proc.devRef .tc ReferenceIdeal.main_v167) := by
  rw [rd_main_v125 mK outs c, ReferenceIdeal.RefRead.rd_main_v167 mR c, same_main_c_54 mK outs c mR h1]
theorem same_main_v126 : GenP.V61 mK outs c (Proc.devRef .tc main_v126) = ReferenceIdeal.RefRun.E mR c (Proc.devRef .tc ReferenceIdeal.main_v168) := by
  rw [rd_main_v126 mK outs c, ReferenceIdeal.RefRead.rd_main_v168 mR c, same_main_v116 mK outs c mR h1, same_main_v125 mK outs c mR h1]
theorem same_main_v127 : GenP.V61 mK outs c (Proc.devRef .tc main_v127) = ReferenceIdeal.RefRun.E mR c (Proc.devRef .tc ReferenceIdeal.main_v169) := by
  rw [rd_main_v127 mK outs c, ReferenceIdeal.RefRead.rd_main_v169 mR c, same_main_v124 mK outs c mR h1, same_main_v126 mK outs c mR h1]
theorem same_main_c_55 : GenP.V61 mK outs c (Proc.devRef .tc main_c_55) = ReferenceIdeal.RefRun.E mR c (Proc.devRef .tc ReferenceIdeal.main_c_46) := by
  rw [rd_main_c_55 mK outs c, ReferenceIdeal.RefRead.rd_main_c_46 mR c]
theorem same_main_c_56 : GenP.V61 mK outs c (Proc.devRef .tc main_c_56) = ReferenceIdeal.RefRun.E mR c (Proc.devRef .tc ReferenceIdeal.main_c_65) := by
  rw [rd_main_c_56 mK outs c, ReferenceIdeal.RefRead.rd_main_c_65 mR c]
theorem same_main_c_55__main_c_64 : GenP.V61 mK outs c (Proc.devRef .tc main_c_55) = ReferenceIdeal.RefRun.E mR c (Proc.devRef .tc ReferenceIdeal.main_c_64) := by
  rw [rd_main_c_55 mK outs c, ReferenceIdeal.RefRead.rd_main_c_64 mR c]
theorem same_main_call11_v0 : GenP.V61 mK outs c (Proc.devRef .tc main_call11_v0) = ReferenceIdeal.RefRun.E mR c (Proc.devRef .tc ReferenceIdeal.main_call12_v0) := by
  rw [rd_main_call11_v0 mK outs c, ReferenceIdeal.RefRead.rd_main_call12_v0 mR c, same_main_c_55__main_c_64 mK outs c mR h1]
theorem same_main_call11_v1 : GenP.V61 mK outs c (Proc.devRef .tc main_call11_v1) = ReferenceIdeal.RefRun.E mR c (Proc.devRef .tc ReferenceIdeal.main_call12_v1) := by
  rw [rd_main_call11_v1 mK outs c, ReferenceIdeal.RefRead.rd_main_call12_v1 mR c, same_main_call11_v0 mK outs c mR h1]
theorem same_main_call11_v2 : GenP.V61 mK outs c (Proc.devRef .tc main_call11_v2) = ReferenceIdeal.RefRun.E mR c (Proc.devRef .tc ReferenceIdeal.main_call12_v2) := by
  rw [rd_main_call11_v2 mK outs c, ReferenceIdeal.RefRead.rd_main_call12_v2 mR c, same_main_call11_v1 mK outs c mR h1, same_main_v114 mK outs c mR h1]
theorem same_main_call11_v3 : GenP.V61 mK outs c (Proc.devRef .tc main_call11_v3) = ReferenceIdeal.RefRun.E mR c (Proc.devRef .tc ReferenceIdeal.main_call12_v3) := by
  rw [rd_main_call11_v3 mK outs c, ReferenceIdeal.RefRead.rd_main_call12_v3 mR c, same_main_c_56 mK outs c mR h1]
theorem same_main_call11_v4 : GenP.V61 mK outs c (Proc.devRef .tc main_call11_v4) = ReferenceIdeal.RefRun.E mR c (Proc.devRef .tc ReferenceIdeal.main_call12_v4) := by
  rw [rd_main_call11_v4 mK outs c, ReferenceIdeal.RefRead.rd_main_call12_v4 mR c, same_main_call11_v3 mK outs c mR h1]
theorem same_main_v128 : GenP.V61 mK outs c (Proc.devRef .tc main_v128) = ReferenceIdeal.RefRun.E mR c (Proc.devRef .tc ReferenceIdeal.main_v170) := by
  rw [rd_main_v128 mK outs c, ReferenceIdeal.RefRead.rd_main_v170 mR c, same_main_call11_v4 mK outs c mR h1, same_main_call11_v2 mK outs c mR h1]
theorem same_main_c_57 : GenP.V61 mK outs c (Proc.devRef .tc main_c_57) = ReferenceIdeal.RefRun.E mR c (Proc.devRef .tc ReferenceIdeal.main_c_66) := by
  rw [rd_main_c_57 mK outs c, ReferenceIdeal.RefRead.rd_main_c_66 mR c]
theorem same_main_v129 : GenP.V61 mK outs c (Proc.devRef .tc main_v129) = ReferenceIdeal.RefRun.E mR c (Proc.devRef .tc ReferenceIdeal.main_v171) := by
  rw [rd_main_v129 mK outs c, ReferenceIdeal.RefRead.rd_main_v171 mR c, same_main_c_57 mK outs c mR h1]
theorem same_main_v130 : GenP.V61 mK outs c (Proc.devRef .tc main_v130) = ReferenceIdeal.RefRun.E mR c (Proc.devRef .tc ReferenceIdeal.main_v172) := by
  rw [rd_main_v130 mK outs c, ReferenceIdeal.RefRead.rd_main_v172 mR c, same_main_v128 mK outs c mR h1, same_main_v129 mK outs c mR h1]
theorem same_main_c_58 : GenP.V61 mK outs c (Proc.devRef .tc main_c_58) = ReferenceIdeal.RefRun.E mR c (Proc.devRef .tc ReferenceIdeal.main_c_49) := by
  rw [rd_main_c_58 mK outs c, ReferenceIdeal.RefRead.rd_main_c_49 mR c]
theorem same_main_c_59 : GenP.V61 mK outs c (Proc.devRef .tc main_c_59) = ReferenceIdeal.RefRun.E mR c (Proc.devRef .tc ReferenceIdeal.main_c_68) := by
  rw [rd_main_c_59 mK outs c, ReferenceIdeal.RefRead.rd_main_c_68 mR c]
theorem same_main_c_58__main_c_67 : GenP.V61 mK outs c (Proc.devRef .tc main_c_58) = ReferenceIdeal.RefRun.E mR c (Proc.devRef .tc ReferenceIdeal.main_c_67) := by
  rw [rd_main_c_58 mK outs c, ReferenceIdeal.RefRead.rd_main_c_67 mR c]
theorem same_main_call12_v0 : GenP.V61 mK outs c (Proc.devRef .tc main_call12_v0) = ReferenceIdeal.RefRun.E mR c (Proc.devRef .tc ReferenceIdeal.main_call13_v0) := by
  rw [rd_main_call12_v0 mK outs c, ReferenceIdeal.RefRead.rd_main_call13_v0 mR c, same_main_c_58__main_c_67 mK outs c mR h1]
theorem same_main_call12_v1 : GenP.V61 mK outs c (Proc.devRef .tc main_call12_v1) = ReferenceIdeal.RefRun.E mR c (Proc.devRef .tc ReferenceIdeal.main_call13_v1) := by
  rw [rd_main_call12_v1 mK outs c, ReferenceIdeal.RefRead.rd_main_call13_v1 mR c, same_main_call12_v0 mK outs c mR h1]
theorem same_main_call12_v2 : GenP.V61 mK outs c (Proc.devRef .tc main_call12_v2) = ReferenceIdeal.RefRun.E mR c (Proc.devRef .tc ReferenceIdeal.main_call13_v2) := by
  rw [rd_main_call12_v2 mK outs c, ReferenceIdeal.RefRead.rd_main_call13_v2 mR c, same_main_call12_v1 mK outs c mR h1, same_main_v116 mK outs c mR h1]
theorem same_main_call12_v3 : GenP.V61 mK outs c (Proc.devRef .tc main_call12_v3) = ReferenceIdeal.RefRun.E mR c (Proc.devRef .tc ReferenceIdeal.main_call13_v3) := by
  rw [rd_main_call12_v3 mK outs c, ReferenceIdeal.RefRead.rd_main_call13_v3 mR c, same_main_c_59 mK outs c mR h1]
theorem same_main_call12_v4 : GenP.V61 mK outs c (Proc.devRef .tc main_call12_v4) = ReferenceIdeal.RefRun.E mR c (Proc.devRef .tc ReferenceIdeal.main_call13_v4) := by
  rw [rd_main_call12_v4 mK outs c, ReferenceIdeal.RefRead.rd_main_call13_v4 mR c, same_main_call12_v3 mK outs c mR h1]
theorem same_main_v131 : GenP.V61 mK outs c (Proc.devRef .tc main_v131) = ReferenceIdeal.RefRun.E mR c (Proc.devRef .tc ReferenceIdeal.main_v173) := by
  rw [rd_main_v131 mK outs c, ReferenceIdeal.RefRead.rd_main_v173 mR c, same_main_call12_v4 mK outs c mR h1, same_main_call12_v2 mK outs c mR h1]
theorem same_main_v132 : GenP.V61 mK outs c (Proc.devRef .tc main_v132) = ReferenceIdeal.RefRun.E mR c (Proc.devRef .tc ReferenceIdeal.main_v174) := by
  rw [rd_main_v132 mK outs c, ReferenceIdeal.RefRead.rd_main_v174 mR c, same_main_v130 mK outs c mR h1, same_main_v131 mK outs c mR h1]
theorem same_main_c_60 : GenP.V61 mK outs c (Proc.devRef .tc main_c_60) = ReferenceIdeal.RefRun.E mR c (Proc.devRef .tc ReferenceIdeal.main_c_51) := by
  rw [rd_main_c_60 mK outs c, ReferenceIdeal.RefRead.rd_main_c_51 mR c]
theorem same_main_c_60__main_c_42 : GenP.V61 mK outs c (Proc.devRef .tc main_c_60) = ReferenceIdeal.RefRun.E mR c (Proc.devRef .tc ReferenceIdeal.main_c_42) := by
  rw [rd_main_c_60 mK outs c, ReferenceIdeal.RefRead.rd_main_c_42 mR c]
theorem same_main_v133 : GenP.V61 mK outs c (Proc.devRef .tc main_v133) = ReferenceIdeal.RefRun.E mR c (Proc.devRef .tc ReferenceIdeal.main_v114) := by
  rw [rd_main_v133 mK outs c, ReferenceIdeal.RefRead.rd_main_v114 mR c, same_main_c_60__main_c_42 mK outs c mR h1]
theorem same_main_c_60__main_c_69 : GenP.V61 mK outs c (Proc.devRef .tc main_c_60) = ReferenceIdeal.RefRun.E mR c (Proc.devRef .tc ReferenceIdeal.main_c_69) := by
  rw [rd_main_c_60 mK outs c, ReferenceIdeal.RefRead.rd_main_c_69 mR c]
theorem same_main_v133__main_v175 : GenP.V61 mK outs c (Proc.devRef .tc main_v133) = ReferenceIdeal.RefRun.E mR c (Proc.devRef .tc ReferenceIdeal.main_v175) := by
  rw [rd_main_v133 mK outs c, ReferenceIdeal.RefRead.rd_main_v175 mR c, same_main_c_60__main_c_69 mK outs c mR h1]
theorem same_main_v134 : GenP.V61 mK outs c (Proc.devRef .tc main_v134) = ReferenceIdeal.RefRun.E mR c (Proc.devRef .tc ReferenceIdeal.main_v176) := by
  rw [rd_main_v134 mK outs c, ReferenceIdeal.RefRead.rd_main_v176 mR c, same_main_v132 mK outs c mR h1, same_main_v133__main_v175 mK outs c mR h1]
theorem same_main_c_61 : GenP.V61 mK outs c (Proc.devRef .tc main_c_61) = ReferenceIdeal.RefRun.E mR c (Proc.devRef .tc ReferenceIdeal.main_c_70) := by
  rw [rd_main_c_61 mK outs c, ReferenceIdeal.RefRead.rd_main_c_70 mR c]
theorem same_main_v135 : GenP.V61 mK outs c (Proc.devRef .tc main_v135) = ReferenceIdeal.RefRun.E mR c (Proc.devRef .tc ReferenceIdeal.main_v177) := by
  rw [rd_main_v135 mK outs c, ReferenceIdeal.RefRead.rd_main_v177 mR c, same_main_c_61 mK outs c mR h1]
theorem same_main_v136 : GenP.V61 mK outs c (Proc.devRef .tc main_v136) = ReferenceIdeal.RefRun.E mR c (Proc.devRef .tc ReferenceIdeal.main_v178) := by
  rw [rd_main_v136 mK outs c, ReferenceIdeal.RefRead.rd_main_v178 mR c, same_main_v132 mK outs c mR h1, same_main_v135 mK outs c mR h1]
theorem same_main_v137 : GenP.V61 mK outs c (Proc.devRef .tc main_v137) = ReferenceIdeal.RefRun.E mR c (Proc.devRef .tc ReferenceIdeal.main_v179) := by
  rw [rd_main_v137 mK outs c, ReferenceIdeal.RefRead.rd_main_v179 mR c, same_main_v134 mK outs c mR h1, same_main_v136 mK outs c mR h1, same_main_v132 mK outs c mR h1]
theorem same_main_v138 : GenP.V61 mK outs c (Proc.devRef .tc main_v138) = ReferenceIdeal.RefRun.E mR c (Proc.devRef .tc ReferenceIdeal.main_v180) := by
  rw [rd_main_v138 mK outs c, ReferenceIdeal.RefRead.rd_main_v180 mR c, same_main_v137 mK outs c mR h1]
theorem same_main_c_62 : GenP.V61 mK outs c (Proc.devRef .tc main_c_62) = ReferenceIdeal.RefRun.E mR c (Proc.devRef .tc ReferenceIdeal.main_c_146) := by
  rw [rd_main_c_62 mK outs c, ReferenceIdeal.RefRead.rd_main_c_146 mR c]
theorem same_main_c_62__main_c_74 : GenP.V61 mK outs c (Proc.devRef .tc main_c_62) = ReferenceIdeal.RefRun.E mR c (Proc.devRef .tc ReferenceIdeal.main_c_74) := by
  rw [rd_main_c_62 mK outs c, ReferenceIdeal.RefRead.rd_main_c_74 mR c]
theorem same_main_v140 : GenP.V61 mK outs c (Proc.devRef .tc main_v140) = ReferenceIdeal.RefRun.E mR c (Proc.devRef .tc ReferenceIdeal.main_v190) := by
  rw [rd_main_v140 mK outs c, ReferenceIdeal.RefRead.rd_main_v190 mR c, same_main_c_62__main_c_74 mK outs c mR h1]
theorem same_main_c_63 : GenP.V61 mK outs c (Proc.devRef .tc main_c_63) = ReferenceIdeal.RefRun.E mR c (Proc.devRef .tc ReferenceIdeal.main_c_164) := by
  rw [rd_main_c_63 mK outs c, ReferenceIdeal.RefRead.rd_main_c_164 mR c]
theorem same_main_c_64 : GenP.V61 mK outs c (Proc.devRef .tc main_c_64) = ReferenceIdeal.RefRun.E mR c (Proc.devRef .tc ReferenceIdeal.main_c_53) := by
  rw [rd_main_c_64 mK outs c, ReferenceIdeal.RefRead.rd_main_c_53 mR c]
theorem same_main_c_64__main_c_44 : GenP.V61 mK outs c (Proc.devRef .tc main_c_64) = ReferenceIdeal.RefRun.E mR c (Proc.devRef .tc ReferenceIdeal.main_c_44) := by
  rw [rd_main_c_64 mK outs c, ReferenceIdeal.RefRead.rd_main_c_44 mR c]
theorem same_main_v144 : GenP.V61 mK outs c (Proc.devRef .tc main_v144) = ReferenceIdeal.RefRun.E mR c (Proc.devRef .tc ReferenceIdeal.main_v119) := by
  rw [rd_main_v144 mK outs c, ReferenceIdeal.RefRead.rd_main_v119 mR c, same_main_c_64__main_c_44 mK outs c mR h1]
theorem same_main_c_64__main_c_76 : GenP.V61 mK outs c (Proc.devRef .tc main_c_64) = ReferenceIdeal.RefRun.E mR c (Proc.devRef .tc ReferenceIdeal.main_c_76) := by
  rw [rd_main_c_64 mK outs c, ReferenceIdeal.RefRead.rd_main_c_76 mR c]
theorem same_main_v144__main_v200 : GenP.V61 mK outs c (Proc.devRef .tc main_v144) = ReferenceIdeal.RefRun.E mR c (Proc.devRef .tc ReferenceIdeal.main_v200) := by
  rw [rd_main_v144 mK outs c, ReferenceIdeal.RefRead.rd_main_v200 mR c, same_main_c_64__main_c_76 mK outs c mR h1]
theorem same_main_v145 : GenP.V61 mK outs c (Proc.devRef .tc main_v145) = ReferenceIdeal.RefRun.E mR c (Proc.devRef .tc ReferenceIdeal.main_v201) := by
  rw [rd_main_v145 mK outs c, ReferenceIdeal.RefRead.rd_main_v201 mR c, same_main_v16 mK outs c mR h1, same_main_v144__main_v200 mK outs c mR h1]
theorem same_main_c_65 : GenP.V61 mK outs c (Proc.devRef .tc main_c_65) = ReferenceIdeal.RefRun.E mR c (Proc.devRef .tc ReferenceIdeal.main_c_54) := by
  rw [rd_main_c_65 mK outs c, ReferenceIdeal.RefRead.rd_main_c_54 mR c]
theorem same_main_c_65__main_c_51 : GenP.V61 mK outs c (Proc.devRef .tc main_c_65) = ReferenceIdeal.RefRun.E mR c (Proc.devRef .tc ReferenceIdeal.main_c_51) := by
  rw [rd_main_c_65 mK outs c, ReferenceIdeal.RefRead.rd_main_c_51 mR c]
theorem same_main_v146 : GenP.V61 mK outs c (Proc.devRef .tc main_v146) = ReferenceIdeal.RefRun.E mR c (Proc.devRef .tc ReferenceIdeal.main_v130) := by
  rw [rd_main_v146 mK outs c, ReferenceIdeal.RefRead.rd_main_v130 mR c, same_main_c_65__main_c_51 mK outs c mR h1]
theorem same_main_c_65__main_c_77 : GenP.V61 mK outs c (Proc.devRef .tc main_c_65) = ReferenceIdeal.RefRun.E mR c (Proc.devRef .tc ReferenceIdeal.main_c_77) := by
  rw [rd_main_c_65 mK outs c, ReferenceIdeal.RefRead.rd_main_c_77 mR c]
theorem same_main_v146__main_v202 : GenP.V61 mK outs c (Proc.devRef .tc main_v146) = ReferenceIdeal.RefRun.E mR c (Proc.devRef .tc ReferenceIdeal.main_v202) := by
  rw [rd_main_v146 mK outs c, ReferenceIdeal.RefRead.rd_main_v202 mR c, same_main_c_65__main_c_77 mK outs c mR h1]
theorem same_main_v147 : GenP.V61 mK outs c (Proc.devRef .tc main_v147) = ReferenceIdeal.RefRun.E mR c (Proc.devRef .tc ReferenceIdeal.main_v203) := by
  rw [rd_main_v147 mK outs c, ReferenceIdeal.RefRead.rd_main_v203 mR c, same_main_v17 mK outs c mR h1, same_main_v146__main_v202 mK outs c mR h1]
theorem same_main_c_66 : GenP.V61 mK outs c (Proc.devRef .tc main_c_66) = ReferenceIdeal.RefRun.E mR c (Proc.devRef .tc ReferenceIdeal.main_c_55) := by
  rw [rd_main_c_66 mK outs c, ReferenceIdeal.RefRead.rd_main_c_55 mR c]
theorem same_main_c_66__main_c_53 : GenP.V61 mK outs c (Proc.devRef .tc main_c_66) = ReferenceIdeal.RefRun.E mR c (Proc.devRef .tc ReferenceIdeal.main_c_53) := by
  rw [rd_main_c_66 mK outs c, ReferenceIdeal.RefRead.rd_main_c_53 mR c]
theorem same_main_v148 : GenP.V61 mK outs c (Proc.devRef .tc main_v148) = ReferenceIdeal.RefRun.E mR c (Proc.devRef .tc ReferenceIdeal.main_v137) := by
  rw [rd_main_v148 mK outs c, ReferenceIdeal.RefRead.rd_main_v137 mR c, same_main_c_66__main_c_53 mK outs c mR h1]
theorem same_main_c_66__main_c_78 : GenP.V61 mK outs c (Proc.devRef .tc main_c_66) = ReferenceIdeal.RefRun.E mR c (Proc.devRef .tc ReferenceIdeal.main_c_78) := by
  rw [rd_main_c_66 mK outs c, ReferenceIdeal.RefRead.rd_main_c_78 mR c]

end Cert.KernelIdeal.Glue
-- ==== Proof.GlueSame2.lean ====
/-
  The integer arrays both programs compute from main_arg1 and constants alone are the same arrays (part 2 of the table).
  A kernel buffer and a reference buffer written by the same operation of operands already known equal hold equal
  contents at the end: rewrite each side by its read-back equation, then the operands by their congruences.
-/
import proofs.«125710_j13511967113615_2_alg».proof.Proof.GlueSame1

set_option maxRecDepth 16384

noncomputable section

namespace Cert.KernelIdeal.Glue

open Idealize.ShloMosaic Idealize.ShloMosaic.TcCoe Idealize.ShloMosaic.StableHlo

variable {F : FTy → Type} [FloatOps F]
variable (mK : (ℓ : Loc nD τ sig) → Buf (Elt F) ℓ) (outs : GenP.Outs (F := F)) (c : Dev nD)
  (mR : (ℓ : Loc ReferenceIdeal.nD ReferenceIdeal.τ ReferenceIdeal.sig) → Buf (Elt F) ℓ)
  (h1 : mR ((c : Thread ReferenceIdeal.nD ReferenceIdeal.τ).loc ReferenceIdeal.main_arg1) = mK ((c : Thread nD τ).loc main_arg1))
include h1

theorem same_main_v148__main_v204 : GenP.V61 mK outs c (Proc.devRef .tc main_v148) = ReferenceIdeal.RefRun.E mR c (Proc.devRef .tc ReferenceIdeal.main_v204) := by
  rw [rd_main_v148 mK outs c, ReferenceIdeal.RefRead.rd_main_v204 mR c, same_main_c_66__main_c_78 mK outs c mR h1]
theorem same_main_v149 : GenP.V61 mK outs c (Proc.devRef .tc main_v149) = ReferenceIdeal.RefRun.E mR c (Proc.devRef .tc ReferenceIdeal.main_v205) := by
  rw [rd_main_v149 mK outs c, ReferenceIdeal.RefRead.rd_main_v205 mR c, same_main_v145 mK outs c mR h1, same_main_v148__main_v204 mK outs c mR h1]
theorem same_main_c_67 : GenP.V61 mK outs c (Proc.devRef .tc main_c_67) = ReferenceIdeal.RefRun.E mR c (Proc.devRef .tc ReferenceIdeal.main_c_79) := by
  rw [rd_main_c_67 mK outs c, ReferenceIdeal.RefRead.rd_main_c_79 mR c]
theorem same_main_v150 : GenP.V61 mK outs c (Proc.devRef .tc main_v150) = ReferenceIdeal.RefRun.E mR c (Proc.devRef .tc ReferenceIdeal.main_v206) := by
  rw [rd_main_v150 mK outs c, ReferenceIdeal.RefRead.rd_main_v206 mR c, same_main_c_67 mK outs c mR h1]
theorem same_main_v151 : GenP.V61 mK outs c (Proc.devRef .tc main_v151) = ReferenceIdeal.RefRun.E mR c (Proc.devRef .tc ReferenceIdeal.main_v207) := by
  rw [rd_main_v151 mK outs c, ReferenceIdeal.RefRead.rd_main_v207 mR c, same_main_v145 mK outs c mR h1, same_main_v150 mK outs c mR h1]
theorem same_main_v152 : GenP.V61 mK outs c (Proc.devRef .tc main_v152) = ReferenceIdeal.RefRun.E mR c (Proc.devRef .tc ReferenceIdeal.main_v208) := by
  rw [rd_main_v152 mK outs c, ReferenceIdeal.RefRead.rd_main_v208 mR c, same_main_v149 mK outs c mR h1, same_main_v151 mK outs c mR h1]
theorem same_main_c_68 : GenP.V61 mK outs c (Proc.devRef .tc main_c_68) = ReferenceIdeal.RefRun.E mR c (Proc.devRef .tc ReferenceIdeal.main_c_58) := by
  rw [rd_main_c_68 mK outs c, ReferenceIdeal.RefRead.rd_main_c_58 mR c]
theorem same_main_c_68__main_c_54 : GenP.V61 mK outs c (Proc.devRef .tc main_c_68) = ReferenceIdeal.RefRun.E mR c (Proc.devRef .tc ReferenceIdeal.main_c_54) := by
  rw [rd_main_c_68 mK outs c, ReferenceIdeal.RefRead.rd_main_c_54 mR c]
theorem same_main_v153 : GenP.V61 mK outs c (Proc.devRef .tc main_v153) = ReferenceIdeal.RefRun.E mR c (Proc.devRef .tc ReferenceIdeal.main_v141) := by
  rw [rd_main_v153 mK outs c, ReferenceIdeal.RefRead.rd_main_v141 mR c, same_main_c_68__main_c_54 mK outs c mR h1]
theorem same_main_c_68__main_c_80 : GenP.V61 mK outs c (Proc.devRef .tc main_c_68) = ReferenceIdeal.RefRun.E mR c (Proc.devRef .tc ReferenceIdeal.main_c_80) := by
  rw [rd_main_c_68 mK outs c, ReferenceIdeal.RefRead.rd_main_c_80 mR c]
theorem same_main_v153__main_v209 : GenP.V61 mK outs c (Proc.devRef .tc main_v153) = ReferenceIdeal.RefRun.E mR c (Proc.devRef .tc ReferenceIdeal.main_v209) := by
  rw [rd_main_v153 mK outs c, ReferenceIdeal.RefRead.rd_main_v209 mR c, same_main_c_68__main_c_80 mK outs c mR h1]
theorem same_main_v154 : GenP.V61 mK outs c (Proc.devRef .tc main_v154) = ReferenceIdeal.RefRun.E mR c (Proc.devRef .tc ReferenceIdeal.main_v210) := by
  rw [rd_main_v154 mK outs c, ReferenceIdeal.RefRead.rd_main_v210 mR c, same_main_v147 mK outs c mR h1, same_main_v153__main_v209 mK outs c mR h1]
theorem same_main_v155 : GenP.V61 mK outs c (Proc.devRef .tc main_v155) = ReferenceIdeal.RefRun.E mR c (Proc.devRef .tc ReferenceIdeal.main_v211) := by
  rw [rd_main_v155 mK outs c, ReferenceIdeal.RefRead.rd_main_v211 mR c, same_main_v152 mK outs c mR h1, same_main_v154 mK outs c mR h1]
theorem same_main_c_69 : GenP.V61 mK outs c (Proc.devRef .tc main_c_69) = ReferenceIdeal.RefRun.E mR c (Proc.devRef .tc ReferenceIdeal.main_c_81) := by
  rw [rd_main_c_69 mK outs c, ReferenceIdeal.RefRead.rd_main_c_81 mR c]
theorem same_main_v156 : GenP.V61 mK outs c (Proc.devRef .tc main_v156) = ReferenceIdeal.RefRun.E mR c (Proc.devRef .tc ReferenceIdeal.main_v212) := by
  rw [rd_main_v156 mK outs c, ReferenceIdeal.RefRead.rd_main_v212 mR c, same_main_c_69 mK outs c mR h1]
theorem same_main_v157 : GenP.V61 mK outs c (Proc.devRef .tc main_v157) = ReferenceIdeal.RefRun.E mR c (Proc.devRef .tc ReferenceIdeal.main_v213) := by
  rw [rd_main_v157 mK outs c, ReferenceIdeal.RefRead.rd_main_v213 mR c, same_main_v147 mK outs c mR h1, same_main_v156 mK outs c mR h1]
theorem same_main_v158 : GenP.V61 mK outs c (Proc.devRef .tc main_v158) = ReferenceIdeal.RefRun.E mR c (Proc.devRef .tc ReferenceIdeal.main_v214) := by
  rw [rd_main_v158 mK outs c, ReferenceIdeal.RefRead.rd_main_v214 mR c, same_main_v155 mK outs c mR h1, same_main_v157 mK outs c mR h1]
theorem same_main_c_70 : GenP.V61 mK outs c (Proc.devRef .tc main_c_70) = ReferenceIdeal.RefRun.E mR c (Proc.devRef .tc ReferenceIdeal.main_c_60) := by
  rw [rd_main_c_70 mK outs c, ReferenceIdeal.RefRead.rd_main_c_60 mR c]
theorem same_main_c_71 : GenP.V61 mK outs c (Proc.devRef .tc main_c_71) = ReferenceIdeal.RefRun.E mR c (Proc.devRef .tc ReferenceIdeal.main_c_83) := by
  rw [rd_main_c_71 mK outs c, ReferenceIdeal.RefRead.rd_main_c_83 mR c]
theorem same_main_c_70__main_c_82 : GenP.V61 mK outs c (Proc.devRef .tc main_c_70) = ReferenceIdeal.RefRun.E mR c (Proc.devRef .tc ReferenceIdeal.main_c_82) := by
  rw [rd_main_c_70 mK outs c, ReferenceIdeal.RefRead.rd_main_c_82 mR c]
theorem same_main_call14_v0 : GenP.V61 mK outs c (Proc.devRef .tc main_call14_v0) = ReferenceIdeal.RefRun.E mR c (Proc.devRef .tc ReferenceIdeal.main_call15_v0) := by
  rw [rd_main_call14_v0 mK outs c, ReferenceIdeal.RefRead.rd_main_call15_v0 mR c, same_main_c_70__main_c_82 mK outs c mR h1]
theorem same_main_call14_v1 : GenP.V61 mK outs c (Proc.devRef .tc main_call14_v1) = ReferenceIdeal.RefRun.E mR c (Proc.devRef .tc ReferenceIdeal.main_call15_v1) := by
  rw [rd_main_call14_v1 mK outs c, ReferenceIdeal.RefRead.rd_main_call15_v1 mR c, same_main_call14_v0 mK outs c mR h1]
theorem same_main_call14_v2 : GenP.V61 mK outs c (Proc.devRef .tc main_call14_v2) = ReferenceIdeal.RefRun.E mR c (Proc.devRef .tc ReferenceIdeal.main_call15_v2) := by
  rw [rd_main_call14_v2 mK outs c, ReferenceIdeal.RefRead.rd_main_call15_v2 mR c, same_main_call14_v1 mK outs c mR h1, same_main_v145 mK outs c mR h1]
theorem same_main_call14_v3 : GenP.V61 mK outs c (Proc.devRef .tc main_call14_v3) = ReferenceIdeal.RefRun.E mR c (Proc.devRef .tc ReferenceIdeal.main_call15_v3) := by
  rw [rd_main_call14_v3 mK outs c, ReferenceIdeal.RefRead.rd_main_call15_v3 mR c, same_main_c_71 mK outs c mR h1]
theorem same_main_call14_v4 : GenP.V61 mK outs c (Proc.devRef .tc main_call14_v4) = ReferenceIdeal.RefRun.E mR c (Proc.devRef .tc ReferenceIdeal.main_call15_v4) := by
  rw [rd_main_call14_v4 mK outs c, ReferenceIdeal.RefRead.rd_main_call15_v4 mR c, same_main_call14_v3 mK outs c mR h1]
theorem same_main_v159 : GenP.V61 mK outs c (Proc.devRef .tc main_v159) = ReferenceIdeal.RefRun.E mR c (Proc.devRef .tc ReferenceIdeal.main_v215) := by
  rw [rd_main_v159 mK outs c, ReferenceIdeal.RefRead.rd_main_v215 mR c, same_main_call14_v4 mK outs c mR h1, same_main_call14_v2 mK outs c mR h1]
theorem same_main_c_72 : GenP.V61 mK outs c (Proc.devRef .tc main_c_72) = ReferenceIdeal.RefRun.E mR c (Proc.devRef .tc ReferenceIdeal.main_c_84) := by
  rw [rd_main_c_72 mK outs c, ReferenceIdeal.RefRead.rd_main_c_84 mR c]
theorem same_main_v160 : GenP.V61 mK outs c (Proc.devRef .tc main_v160) = ReferenceIdeal.RefRun.E mR c (Proc.devRef .tc ReferenceIdeal.main_v216) := by
  rw [rd_main_v160 mK outs c, ReferenceIdeal.RefRead.rd_main_v216 mR c, same_main_c_72 mK outs c mR h1]
theorem same_main_v161 : GenP.V61 mK outs c (Proc.devRef .tc main_v161) = ReferenceIdeal.RefRun.E mR c (Proc.devRef .tc ReferenceIdeal.main_v217) := by
  rw [rd_main_v161 mK outs c, ReferenceIdeal.RefRead.rd_main_v217 mR c, same_main_v159 mK outs c mR h1, same_main_v160 mK outs c mR h1]
theorem same_main_c_73 : GenP.V61 mK outs c (Proc.devRef .tc main_c_73) = ReferenceIdeal.RefRun.E mR c (Proc.devRef .tc ReferenceIdeal.main_c_62) := by
  rw [rd_main_c_73 mK outs c, ReferenceIdeal.RefRead.rd_main_c_62 mR c]
theorem same_main_c_74 : GenP.V61 mK outs c (Proc.devRef .tc main_c_74) = ReferenceIdeal.RefRun.E mR c (Proc.devRef .tc ReferenceIdeal.main_c_86) := by
  rw [rd_main_c_74 mK outs c, ReferenceIdeal.RefRead.rd_main_c_86 mR c]
theorem same_main_c_73__main_c_85 : GenP.V61 mK outs c (Proc.devRef .tc main_c_73) = ReferenceIdeal.RefRun.E mR c (Proc.devRef .tc ReferenceIdeal.main_c_85) := by
  rw [rd_main_c_73 mK outs c, ReferenceIdeal.RefRead.rd_main_c_85 mR c]
theorem same_main_call15_v0 : GenP.V61 mK outs c (Proc.devRef .tc main_call15_v0) = ReferenceIdeal.RefRun.E mR c (Proc.devRef .tc ReferenceIdeal.main_call16_v0) := by
  rw [rd_main_call15_v0 mK outs c, ReferenceIdeal.RefRead.rd_main_call16_v0 mR c, same_main_c_73__main_c_85 mK outs c mR h1]
theorem same_main_call15_v1 : GenP.V61 mK outs c (Proc.devRef .tc main_call15_v1) = ReferenceIdeal.RefRun.E mR c (Proc.devRef .tc ReferenceIdeal.main_call16_v1) := by
  rw [rd_main_call15_v1 mK outs c, ReferenceIdeal.RefRead.rd_main_call16_v1 mR c, same_main_call15_v0 mK outs c mR h1]
theorem same_main_call15_v2 : GenP.V61 mK outs c (Proc.devRef .tc main_call15_v2) = ReferenceIdeal.RefRun.E mR c (Proc.devRef .tc ReferenceIdeal.main_call16_v2) := by
  rw [rd_main_call15_v2 mK outs c, ReferenceIdeal.RefRead.rd_main_call16_v2 mR c, same_main_call15_v1 mK outs c mR h1, same_main_v147 mK outs c mR h1]
theorem same_main_call15_v3 : GenP.V61 mK outs c (Proc.devRef .tc main_call15_v3) = ReferenceIdeal.RefRun.E mR c (Proc.devRef .tc ReferenceIdeal.main_call16_v3) := by
  rw [rd_main_call15_v3 mK outs c, ReferenceIdeal.RefRead.rd_main_call16_v3 mR c, same_main_c_74 mK outs c mR h1]
theorem same_main_call15_v4 : GenP.V61 mK outs c (Proc.devRef .tc main_call15_v4) = ReferenceIdeal.RefRun.E mR c (Proc.devRef .tc ReferenceIdeal.main_call16_v4) := by
  rw [rd_main_call15_v4 mK outs c, ReferenceIdeal.RefRead.rd_main_call16_v4 mR c, same_main_call15_v3 mK outs c mR h1]
theorem same_main_v162 : GenP.V61 mK outs c (Proc.devRef .tc main_v162) = ReferenceIdeal.RefRun.E mR c (Proc.devRef .tc ReferenceIdeal.main_v218) := by
  rw [rd_main_v162 mK outs c, ReferenceIdeal.RefRead.rd_main_v218 mR c, same_main_call15_v4 mK outs c mR h1, same_main_call15_v2 mK outs c mR h1]
theorem same_main_v163 : GenP.V61 mK outs c (Proc.devRef .tc main_v163) = ReferenceIdeal.RefRun.E mR c (Proc.devRef .tc ReferenceIdeal.main_v219) := by
  rw [rd_main_v163 mK outs c, ReferenceIdeal.RefRead.rd_main_v219 mR c, same_main_v161 mK outs c mR h1, same_main_v162 mK outs c mR h1]
theorem same_main_c_75 : GenP.V61 mK outs c (Proc.devRef .tc main_c_75) = ReferenceIdeal.RefRun.E mR c (Proc.devRef .tc ReferenceIdeal.main_c_64) := by
  rw [rd_main_c_75 mK outs c, ReferenceIdeal.RefRead.rd_main_c_64 mR c]
theorem same_main_c_75__main_c_55 : GenP.V61 mK outs c (Proc.devRef .tc main_c_75) = ReferenceIdeal.RefRun.E mR c (Proc.devRef .tc ReferenceIdeal.main_c_55) := by
  rw [rd_main_c_75 mK outs c, ReferenceIdeal.RefRead.rd_main_c_55 mR c]
theorem same_main_v164 : GenP.V61 mK outs c (Proc.devRef .tc main_v164) = ReferenceIdeal.RefRun.E mR c (Proc.devRef .tc ReferenceIdeal.main_v143) := by
  rw [rd_main_v164 mK outs c, ReferenceIdeal.RefRead.rd_main_v143 mR c, same_main_c_75__main_c_55 mK outs c mR h1]
theorem same_main_c_75__main_c_87 : GenP.V61 mK outs c (Proc.devRef .tc main_c_75) = ReferenceIdeal.RefRun.E mR c (Proc.devRef .tc ReferenceIdeal.main_c_87) := by
  rw [rd_main_c_75 mK outs c, ReferenceIdeal.RefRead.rd_main_c_87 mR c]
theorem same_main_v164__main_v220 : GenP.V61 mK outs c (Proc.devRef .tc main_v164) = ReferenceIdeal.RefRun.E mR c (Proc.devRef .tc ReferenceIdeal.main_v220) := by
  rw [rd_main_v164 mK outs c, ReferenceIdeal.RefRead.rd_main_v220 mR c, same_main_c_75__main_c_87 mK outs c mR h1]
theorem same_main_v165 : GenP.V61 mK outs c (Proc.devRef .tc main_v165) = ReferenceIdeal.RefRun.E mR c (Proc.devRef .tc ReferenceIdeal.main_v221) := by
  rw [rd_main_v165 mK outs c, ReferenceIdeal.RefRead.rd_main_v221 mR c, same_main_v163 mK outs c mR h1, same_main_v164__main_v220 mK outs c mR h1]
theorem same_main_c_76 : GenP.V61 mK outs c (Proc.devRef .tc main_c_76) = ReferenceIdeal.RefRun.E mR c (Proc.devRef .tc ReferenceIdeal.main_c_88) := by
  rw [rd_main_c_76 mK outs c, ReferenceIdeal.RefRead.rd_main_c_88 mR c]
theorem same_main_v166 : GenP.V61 mK outs c (Proc.devRef .tc main_v166) = ReferenceIdeal.RefRun.E mR c (Proc.devRef .tc ReferenceIdeal.main_v222) := by
  rw [rd_main_v166 mK outs c, ReferenceIdeal.RefRead.rd_main_v222 mR c, same_main_c_76 mK outs c mR h1]
theorem same_main_v167 : GenP.V61 mK outs c (Proc.devRef .tc main_v167) = ReferenceIdeal.RefRun.E mR c (Proc.devRef .tc ReferenceIdeal.main_v223) := by
  rw [rd_main_v167 mK outs c, ReferenceIdeal.RefRead.rd_main_v223 mR c, same_main_v163 mK outs c mR h1, same_main_v166 mK outs c mR h1]
theorem same_main_v168 : GenP.V61 mK outs c (Proc.devRef .tc main_v168) = ReferenceIdeal.RefRun.E mR c (Proc.devRef .tc ReferenceIdeal.main_v224) := by
  rw [rd_main_v168 mK outs c, ReferenceIdeal.RefRead.rd_main_v224 mR c, same_main_v165 mK outs c mR h1, same_main_v167 mK outs c mR h1, same_main_v163 mK outs c mR h1]
theorem same_main_v169 : GenP.V61 mK outs c (Proc.devRef .tc main_v169) = ReferenceIdeal.RefRun.E mR c (Proc.devRef .tc ReferenceIdeal.main_v225) := by
  rw [rd_main_v169 mK outs c, ReferenceIdeal.RefRead.rd_main_v225 mR c, same_main_v168 mK outs c mR h1]
theorem same_main_c_77 : GenP.V61 mK outs c (Proc.devRef .tc main_c_77) = ReferenceIdeal.RefRun.E mR c (Proc.devRef .tc ReferenceIdeal.main_c_164) := by
  rw [rd_main_c_77 mK outs c, ReferenceIdeal.RefRead.rd_main_c_164 mR c]
theorem same_main_c_77__main_c_92 : GenP.V61 mK outs c (Proc.devRef .tc main_c_77) = ReferenceIdeal.RefRun.E mR c (Proc.devRef .tc ReferenceIdeal.main_c_92) := by
  rw [rd_main_c_77 mK outs c, ReferenceIdeal.RefRead.rd_main_c_92 mR c]
theorem same_main_v171 : GenP.V61 mK outs c (Proc.devRef .tc main_v171) = ReferenceIdeal.RefRun.E mR c (Proc.devRef .tc ReferenceIdeal.main_v235) := by
  rw [rd_main_v171 mK outs c, ReferenceIdeal.RefRead.rd_main_v235 mR c, same_main_c_77__main_c_92 mK outs c mR h1]
theorem same_main_c_78 : GenP.V61 mK outs c (Proc.devRef .tc main_c_78) = ReferenceIdeal.RefRun.E mR c (Proc.devRef .tc ReferenceIdeal.main_c_164) := by
  rw [rd_main_c_78 mK outs c, ReferenceIdeal.RefRead.rd_main_c_164 mR c]
theorem same_main_c_79 : GenP.V61 mK outs c (Proc.devRef .tc main_c_79) = ReferenceIdeal.RefRun.E mR c (Proc.devRef .tc ReferenceIdeal.main_c_67) := by
  rw [rd_main_c_79 mK outs c, ReferenceIdeal.RefRead.rd_main_c_67 mR c]
theorem same_main_c_79__main_c_58 : GenP.V61 mK outs c (Proc.devRef .tc main_c_79) = ReferenceIdeal.RefRun.E mR c (Proc.devRef .tc ReferenceIdeal.main_c_58) := by
  rw [rd_main_c_79 mK outs c, ReferenceIdeal.RefRead.rd_main_c_58 mR c]
theorem same_main_v175 : GenP.V61 mK outs c (Proc.devRef .tc main_v175) = ReferenceIdeal.RefRun.E mR c (Proc.devRef .tc ReferenceIdeal.main_v155) := by
  rw [rd_main_v175 mK outs c, ReferenceIdeal.RefRead.rd_main_v155 mR c, same_main_c_79__main_c_58 mK outs c mR h1]
theorem same_main_c_79__main_c_94 : GenP.V61 mK outs c (Proc.devRef .tc main_c_79) = ReferenceIdeal.RefRun.E mR c (Proc.devRef .tc ReferenceIdeal.main_c_94) := by
  rw [rd_main_c_79 mK outs c, ReferenceIdeal.RefRead.rd_main_c_94 mR c]
theorem same_main_v175__main_v245 : GenP.V61 mK outs c (Proc.devRef .tc main_v175) = ReferenceIdeal.RefRun.E mR c (Proc.devRef .tc ReferenceIdeal.main_v245) := by
  rw [rd_main_v175 mK outs c, ReferenceIdeal.RefRead.rd_main_v245 mR c, same_main_c_79__main_c_94 mK outs c mR h1]
theorem same_main_v176 : GenP.V61 mK outs c (Proc.devRef .tc main_v176) = ReferenceIdeal.RefRun.E mR c (Proc.devRef .tc ReferenceIdeal.main_v246) := by
  rw [rd_main_v176 mK outs c, ReferenceIdeal.RefRead.rd_main_v246 mR c, same_main_v16 mK outs c mR h1, same_main_v175__main_v245 mK outs c mR h1]
theorem same_main_c_80 : GenP.V61 mK outs c (Proc.devRef .tc main_c_80) = ReferenceIdeal.RefRun.E mR c (Proc.devRef .tc ReferenceIdeal.main_c_95) := by
  rw [rd_main_c_80 mK outs c, ReferenceIdeal.RefRead.rd_main_c_95 mR c]
theorem same_main_v177 : GenP.V61 mK outs c (Proc.devRef .tc main_v177) = ReferenceIdeal.RefRun.E mR c (Proc.devRef .tc ReferenceIdeal.main_v247) := by
  rw [rd_main_v177 mK outs c, ReferenceIdeal.RefRead.rd_main_v247 mR c, same_main_c_80 mK outs c mR h1]
theorem same_main_v178 : GenP.V61 mK outs c (Proc.devRef .tc main_v178) = ReferenceIdeal.RefRun.E mR c (Proc.devRef .tc ReferenceIdeal.main_v248) := by
  rw [rd_main_v178 mK outs c, ReferenceIdeal.RefRead.rd_main_v248 mR c, same_main_v17 mK outs c mR h1, same_main_v177 mK outs c mR h1]
theorem same_main_c_81 : GenP.V61 mK outs c (Proc.devRef .tc main_c_81) = ReferenceIdeal.RefRun.E mR c (Proc.devRef .tc ReferenceIdeal.main_c_69) := by
  rw [rd_main_c_81 mK outs c, ReferenceIdeal.RefRead.rd_main_c_69 mR c]
theorem same_main_c_81__main_c_60 : GenP.V61 mK outs c (Proc.devRef .tc main_c_81) = ReferenceIdeal.RefRun.E mR c (Proc.devRef .tc ReferenceIdeal.main_c_60) := by
  rw [rd_main_c_81 mK outs c, ReferenceIdeal.RefRead.rd_main_c_60 mR c]
theorem same_main_v179 : GenP.V61 mK outs c (Proc.devRef .tc main_v179) = ReferenceIdeal.RefRun.E mR c (Proc.devRef .tc ReferenceIdeal.main_v159) := by
  rw [rd_main_v179 mK outs c, ReferenceIdeal.RefRead.rd_main_v159 mR c, same_main_c_81__main_c_60 mK outs c mR h1]
theorem same_main_c_81__main_c_96 : GenP.V61 mK outs c (Proc.devRef .tc main_c_81) = ReferenceIdeal.RefRun.E mR c (Proc.devRef .tc ReferenceIdeal.main_c_96) := by
  rw [rd_main_c_81 mK outs c, ReferenceIdeal.RefRead.rd_main_c_96 mR c]
theorem same_main_v179__main_v249 : GenP.V61 mK outs c (Proc.devRef .tc main_v179) = ReferenceIdeal.RefRun.E mR c (Proc.devRef .tc ReferenceIdeal.main_v249) := by
  rw [rd_main_v179 mK outs c, ReferenceIdeal.RefRead.rd_main_v249 mR c, same_main_c_81__main_c_96 mK outs c mR h1]
theorem same_main_v180 : GenP.V61 mK outs c (Proc.devRef .tc main_v180) = ReferenceIdeal.RefRun.E mR c (Proc.devRef .tc ReferenceIdeal.main_v250) := by
  rw [rd_main_v180 mK outs c, ReferenceIdeal.RefRead.rd_main_v250 mR c, same_main_v176 mK outs c mR h1, same_main_v179__main_v249 mK outs c mR h1]
theorem same_main_c_82 : GenP.V61 mK outs c (Proc.devRef .tc main_c_82) = ReferenceIdeal.RefRun.E mR c (Proc.devRef .tc ReferenceIdeal.main_c_97) := by
  rw [rd_main_c_82 mK outs c, ReferenceIdeal.RefRead.rd_main_c_97 mR c]
theorem same_main_v181 : GenP.V61 mK outs c (Proc.devRef .tc main_v181) = ReferenceIdeal.RefRun.E mR c (Proc.devRef .tc ReferenceIdeal.main_v251) := by
  rw [rd_main_v181 mK outs c, ReferenceIdeal.RefRead.rd_main_v251 mR c, same_main_c_82 mK outs c mR h1]
theorem same_main_v182 : GenP.V61 mK outs c (Proc.devRef .tc main_v182) = ReferenceIdeal.RefRun.E mR c (Proc.devRef .tc ReferenceIdeal.main_v252) := by
  rw [rd_main_v182 mK outs c, ReferenceIdeal.RefRead.rd_main_v252 mR c, same_main_v176 mK outs c mR h1, same_main_v181 mK outs c mR h1]
theorem same_main_v183 : GenP.V61 mK outs c (Proc.devRef .tc main_v183) = ReferenceIdeal.RefRun.E mR c (Proc.devRef .tc ReferenceIdeal.main_v253) := by
  rw [rd_main_v183 mK outs c, ReferenceIdeal.RefRead.rd_main_v253 mR c, same_main_v180 mK outs c mR h1, same_main_v182 mK outs c mR h1]
theorem same_main_c_83 : GenP.V61 mK outs c (Proc.devRef .tc main_c_83) = ReferenceIdeal.RefRun.E mR c (Proc.devRef .tc ReferenceIdeal.main_c_71) := by
  rw [rd_main_c_83 mK outs c, ReferenceIdeal.RefRead.rd_main_c_71 mR c]
theorem same_main_c_83__main_c_62 : GenP.V61 mK outs c (Proc.devRef .tc main_c_83) = ReferenceIdeal.RefRun.E mR c (Proc.devRef .tc ReferenceIdeal.main_c_62) := by
  rw [rd_main_c_83 mK outs c, ReferenceIdeal.RefRead.rd_main_c_62 mR c]
theorem same_main_v184 : GenP.V61 mK outs c (Proc.devRef .tc main_v184) = ReferenceIdeal.RefRun.E mR c (Proc.devRef .tc ReferenceIdeal.main_v164) := by
  rw [rd_main_v184 mK outs c, ReferenceIdeal.RefRead.rd_main_v164 mR c, same_main_c_83__main_c_62 mK outs c mR h1]
theorem same_main_c_83__main_c_98 : GenP.V61 mK outs c (Proc.devRef .tc main_c_83) = ReferenceIdeal.RefRun.E mR c (Proc.devRef .tc ReferenceIdeal.main_c_98) := by
  rw [rd_main_c_83 mK outs c, ReferenceIdeal.RefRead.rd_main_c_98 mR c]
theorem same_main_v184__main_v254 : GenP.V61 mK outs c (Proc.devRef .tc main_v184) = ReferenceIdeal.RefRun.E mR c (Proc.devRef .tc ReferenceIdeal.main_v254) := by
  rw [rd_main_v184 mK outs c, ReferenceIdeal.RefRead.rd_main_v254 mR c, same_main_c_83__main_c_98 mK outs c mR h1]
theorem same_main_v185 : GenP.V61 mK outs c (Proc.devRef .tc main_v185) = ReferenceIdeal.RefRun.E mR c (Proc.devRef .tc ReferenceIdeal.main_v255) := by
  rw [rd_main_v185 mK outs c, ReferenceIdeal.RefRead.rd_main_v255 mR c, same_main_v178 mK outs c mR h1, same_main_v184__main_v254 mK outs c mR h1]
theorem same_main_v186 : GenP.V61 mK outs c (Proc.devRef .tc main_v186) = ReferenceIdeal.RefRun.E mR c (Proc.devRef .tc ReferenceIdeal.main_v256) := by
  rw [rd_main_v186 mK outs c, ReferenceIdeal.RefRead.rd_main_v256 mR c, same_main_v183 mK outs c mR h1, same_main_v185 mK outs c mR h1]
theorem same_main_c_84 : GenP.V61 mK outs c (Proc.devRef .tc main_c_84) = ReferenceIdeal.RefRun.E mR c (Proc.devRef .tc ReferenceIdeal.main_c_99) := by
  rw [rd_main_c_84 mK outs c, ReferenceIdeal.RefRead.rd_main_c_99 mR c]
theorem same_main_v187 : GenP.V61 mK outs c (Proc.devRef .tc main_v187) = ReferenceIdeal.RefRun.E mR c (Proc.devRef .tc ReferenceIdeal.main_v257) := by
  rw [rd_main_v187 mK outs c, ReferenceIdeal.RefRead.rd_main_v257 mR c, same_main_c_84 mK outs c mR h1]
theorem same_main_v188 : GenP.V61 mK outs c (Proc.devRef .tc main_v188) = ReferenceIdeal.RefRun.E mR c (Proc.devRef .tc ReferenceIdeal.main_v258) := by
  rw [rd_main_v188 mK outs c, ReferenceIdeal.RefRead.rd_main_v258 mR c, same_main_v178 mK outs c mR h1, same_main_v187 mK outs c mR h1]
theorem same_main_v189 : GenP.V61 mK outs c (Proc.devRef .tc main_v189) = ReferenceIdeal.RefRun.E mR c (Proc.devRef .tc ReferenceIdeal.main_v259) := by
  rw [rd_main_v189 mK outs c, ReferenceIdeal.RefRead.rd_main_v259 mR c, same_main_v186 mK outs c mR h1, same_main_v188 mK outs c mR h1]
theorem same_main_c_85 : GenP.V61 mK outs c (Proc.devRef .tc main_c_85) = ReferenceIdeal.RefRun.E mR c (Proc.devRef .tc ReferenceIdeal.main_c_72) := by
  rw [rd_main_c_85 mK outs c, ReferenceIdeal.RefRead.rd_main_c_72 mR c]
theorem same_main_c_86 : GenP.V61 mK outs c (Proc.devRef .tc main_c_86) = ReferenceIdeal.RefRun.E mR c (Proc.devRef .tc ReferenceIdeal.main_c_101) := by
  rw [rd_main_c_86 mK outs c, ReferenceIdeal.RefRead.rd_main_c_101 mR c]
theorem same_main_c_85__main_c_100 : GenP.V61 mK outs c (Proc.devRef .tc main_c_85) = ReferenceIdeal.RefRun.E mR c (Proc.devRef .tc ReferenceIdeal.main_c_100) := by
  rw [rd_main_c_85 mK outs c, ReferenceIdeal.RefRead.rd_main_c_100 mR c]
theorem same_main_call17_v0 : GenP.V61 mK outs c (Proc.devRef .tc main_call17_v0) = ReferenceIdeal.RefRun.E mR c (Proc.devRef .tc ReferenceIdeal.main_call18_v0) := by
  rw [rd_main_call17_v0 mK outs c, ReferenceIdeal.RefRead.rd_main_call18_v0 mR c, same_main_c_85__main_c_100 mK outs c mR h1]
theorem same_main_call17_v1 : GenP.V61 mK outs c (Proc.devRef .tc main_call17_v1) = ReferenceIdeal.RefRun.E mR c (Proc.devRef .tc ReferenceIdeal.main_call18_v1) := by
  rw [rd_main_call17_v1 mK outs c, ReferenceIdeal.RefRead.rd_main_call18_v1 mR c, same_main_call17_v0 mK outs c mR h1]
theorem same_main_call17_v2 : GenP.V61 mK outs c (Proc.devRef .tc main_call17_v2) = ReferenceIdeal.RefRun.E mR c (Proc.devRef .tc ReferenceIdeal.main_call18_v2) := by
  rw [rd_main_call17_v2 mK outs c, ReferenceIdeal.RefRead.rd_main_call18_v2 mR c, same_main_call17_v1 mK outs c mR h1, same_main_v176 mK outs c mR h1]
theorem same_main_call17_v3 : GenP.V61 mK outs c (Proc.devRef .tc main_call17_v3) = ReferenceIdeal.RefRun.E mR c (Proc.devRef .tc ReferenceIdeal.main_call18_v3) := by
  rw [rd_main_call17_v3 mK outs c, ReferenceIdeal.RefRead.rd_main_call18_v3 mR c, same_main_c_86 mK outs c mR h1]
theorem same_main_call17_v4 : GenP.V61 mK outs c (Proc.devRef .tc main_call17_v4) = ReferenceIdeal.RefRun.E mR c (Proc.devRef .tc ReferenceIdeal.main_call18_v4) := by
  rw [rd_main_call17_v4 mK outs c, ReferenceIdeal.RefRead.rd_main_call18_v4 mR c, same_main_call17_v3 mK outs c mR h1]
theorem same_main_v190 : GenP.V61 mK outs c (Proc.devRef .tc main_v190) = ReferenceIdeal.RefRun.E mR c (Proc.devRef .tc ReferenceIdeal.main_v260) := by
  rw [rd_main_v190 mK outs c, ReferenceIdeal.RefRead.rd_main_v260 mR c, same_main_call17_v4 mK outs c mR h1, same_main_call17_v2 mK outs c mR h1]
theorem same_main_c_87 : GenP.V61 mK outs c (Proc.devRef .tc main_c_87) = ReferenceIdeal.RefRun.E mR c (Proc.devRef .tc ReferenceIdeal.main_c_102) := by
  rw [rd_main_c_87 mK outs c, ReferenceIdeal.RefRead.rd_main_c_102 mR c]
theorem same_main_v191 : GenP.V61 mK outs c (Proc.devRef .tc main_v191) = ReferenceIdeal.RefRun.E mR c (Proc.devRef .tc ReferenceIdeal.main_v261) := by
  rw [rd_main_v191 mK outs c, ReferenceIdeal.RefRead.rd_main_v261 mR c, same_main_c_87 mK outs c mR h1]
theorem same_main_v192 : GenP.V61 mK outs c (Proc.devRef .tc main_v192) = ReferenceIdeal.RefRun.E mR c (Proc.devRef .tc ReferenceIdeal.main_v262) := by
  rw [rd_main_v192 mK outs c, ReferenceIdeal.RefRead.rd_main_v262 mR c, same_main_v190 mK outs c mR h1, same_main_v191 mK outs c mR h1]
theorem same_main_c_88 : GenP.V61 mK outs c (Proc.devRef .tc main_c_88) = ReferenceIdeal.RefRun.E mR c (Proc.devRef .tc ReferenceIdeal.main_c_73) := by
  rw [rd_main_c_88 mK outs c, ReferenceIdeal.RefRead.rd_main_c_73 mR c]
theorem same_main_c_89 : GenP.V61 mK outs c (Proc.devRef .tc main_c_89) = ReferenceIdeal.RefRun.E mR c (Proc.devRef .tc ReferenceIdeal.main_c_104) := by
  rw [rd_main_c_89 mK outs c, ReferenceIdeal.RefRead.rd_main_c_104 mR c]
theorem same_main_c_88__main_c_103 : GenP.V61 mK outs c (Proc.devRef .tc main_c_88) = ReferenceIdeal.RefRun.E mR c (Proc.devRef .tc ReferenceIdeal.main_c_103) := by
  rw [rd_main_c_88 mK outs c, ReferenceIdeal.RefRead.rd_main_c_103 mR c]
theorem same_main_call18_v0 : GenP.V61 mK outs c (Proc.devRef .tc main_call18_v0) = ReferenceIdeal.RefRun.E mR c (Proc.devRef .tc ReferenceIdeal.main_call19_v0) := by
  rw [rd_main_call18_v0 mK outs c, ReferenceIdeal.RefRead.rd_main_call19_v0 mR c, same_main_c_88__main_c_103 mK outs c mR h1]
theorem same_main_call18_v1 : GenP.V61 mK outs c (Proc.devRef .tc main_call18_v1) = ReferenceIdeal.RefRun.E mR c (Proc.devRef .tc ReferenceIdeal.main_call19_v1) := by
  rw [rd_main_call18_v1 mK outs c, ReferenceIdeal.RefRead.rd_main_call19_v1 mR c, same_main_call18_v0 mK outs c mR h1]
theorem same_main_call18_v2 : GenP.V61 mK outs c (Proc.devRef .tc main_call18_v2) = ReferenceIdeal.RefRun.E mR c (Proc.devRef .tc ReferenceIdeal.main_call19_v2) := by
  rw [rd_main_call18_v2 mK outs c, ReferenceIdeal.RefRead.rd_main_call19_v2 mR c, same_main_call18_v1 mK outs c mR h1, same_main_v178 mK outs c mR h1]
theorem same_main_call18_v3 : GenP.V61 mK outs c (Proc.devRef .tc main_call18_v3) = ReferenceIdeal.RefRun.E mR c (Proc.devRef .tc ReferenceIdeal.main_call19_v3) := by
  rw [rd_main_call18_v3 mK outs c, ReferenceIdeal.RefRead.rd_main_call19_v3 mR c, same_main_c_89 mK outs c mR h1]
theorem same_main_call18_v4 : GenP.V61 mK outs c (Proc.devRef .tc main_call18_v4) = ReferenceIdeal.RefRun.E mR c (Proc.devRef .tc ReferenceIdeal.main_call19_v4) := by
  rw [rd_main_call18_v4 mK outs c, ReferenceIdeal.RefRead.rd_main_call19_v4 mR c, same_main_call18_v3 mK outs c mR h1]
theorem same_main_v193 : GenP.V61 mK outs c (Proc.devRef .tc main_v193) = ReferenceIdeal.RefRun.E mR c (Proc.devRef .tc ReferenceIdeal.main_v263) := by
  rw [rd_main_v193 mK outs c, ReferenceIdeal.RefRead.rd_main_v263 mR c, same_main_call18_v4 mK outs c mR h1, same_main_call18_v2 mK outs c mR h1]
theorem same_main_v194 : GenP.V61 mK outs c (Proc.devRef .tc main_v194) = ReferenceIdeal.RefRun.E mR c (Proc.devRef .tc ReferenceIdeal.main_v264) := by
  rw [rd_main_v194 mK outs c, ReferenceIdeal.RefRead.rd_main_v264 mR c, same_main_v192 mK outs c mR h1, same_main_v193 mK outs c mR h1]
theorem same_main_c_90 : GenP.V61 mK outs c (Proc.devRef .tc main_c_90) = ReferenceIdeal.RefRun.E mR c (Proc.devRef .tc ReferenceIdeal.main_c_76) := by
  rw [rd_main_c_90 mK outs c, ReferenceIdeal.RefRead.rd_main_c_76 mR c]
theorem same_main_c_90__main_c_69 : GenP.V61 mK outs c (Proc.devRef .tc main_c_90) = ReferenceIdeal.RefRun.E mR c (Proc.devRef .tc ReferenceIdeal.main_c_69) := by
  rw [rd_main_c_90 mK outs c, ReferenceIdeal.RefRead.rd_main_c_69 mR c]
theorem same_main_v195 : GenP.V61 mK outs c (Proc.devRef .tc main_v195) = ReferenceIdeal.RefRun.E mR c (Proc.devRef .tc ReferenceIdeal.main_v175) := by
  rw [rd_main_v195 mK outs c, ReferenceIdeal.RefRead.rd_main_v175 mR c, same_main_c_90__main_c_69 mK outs c mR h1]
theorem same_main_c_90__main_c_105 : GenP.V61 mK outs c (Proc.devRef .tc main_c_90) = ReferenceIdeal.RefRun.E mR c (Proc.devRef .tc ReferenceIdeal.main_c_105) := by
  rw [rd_main_c_90 mK outs c, ReferenceIdeal.RefRead.rd_main_c_105 mR c]
theorem same_main_v195__main_v265 : GenP.V61 mK outs c (Proc.devRef .tc main_v195) = ReferenceIdeal.RefRun.E mR c (Proc.devRef .tc ReferenceIdeal.main_v265) := by
  rw [rd_main_v195 mK outs c, ReferenceIdeal.RefRead.rd_main_v265 mR c, same_main_c_90__main_c_105 mK outs c mR h1]
theorem same_main_v196 : GenP.V61 mK outs c (Proc.devRef .tc main_v196) = ReferenceIdeal.RefRun.E mR c (Proc.devRef .tc ReferenceIdeal.main_v266) := by
  rw [rd_main_v196 mK outs c, ReferenceIdeal.RefRead.rd_main_v266 mR c, same_main_v194 mK outs c mR h1, same_main_v195__main_v265 mK outs c mR h1]
theorem same_main_c_91 : GenP.V61 mK outs c (Proc.devRef .tc main_c_91) = ReferenceIdeal.RefRun.E mR c (Proc.devRef .tc ReferenceIdeal.main_c_106) := by
  rw [rd_main_c_91 mK outs c, ReferenceIdeal.RefRead.rd_main_c_106 mR c]
theorem same_main_v197 : GenP.V61 mK outs c (Proc.devRef .tc main_v197) = ReferenceIdeal.RefRun.E mR c (Proc.devRef .tc ReferenceIdeal.main_v267) := by
  rw [rd_main_v197 mK outs c, ReferenceIdeal.RefRead.rd_main_v267 mR c, same_main_c_91 mK outs c mR h1]
theorem same_main_v198 : GenP.V61 mK outs c (Proc.devRef .tc main_v198) = ReferenceIdeal.RefRun.E mR c (Proc.devRef .tc ReferenceIdeal.main_v268) := by
  rw [rd_main_v198 mK outs c, ReferenceIdeal.RefRead.rd_main_v268 mR c, same_main_v194 mK outs c mR h1, same_main_v197 mK outs c mR h1]
theorem same_main_v199 : GenP.V61 mK outs c (Proc.devRef .tc main_v199) = ReferenceIdeal.RefRun.E mR c (Proc.devRef .tc ReferenceIdeal.main_v269) := by
  rw [rd_main_v199 mK outs c, ReferenceIdeal.RefRead.rd_main_v269 mR c, same_main_v196 mK outs c mR h1, same_main_v198 mK outs c mR h1, same_main_v194 mK outs c mR h1]
theorem same_main_v200 : GenP.V61 mK outs c (Proc.devRef .tc main_v200) = ReferenceIdeal.RefRun.E mR c (Proc.devRef .tc ReferenceIdeal.main_v270) := by
  rw [rd_main_v200 mK outs c, ReferenceIdeal.RefRead.rd_main_v270 mR c, same_main_v199 mK outs c mR h1]
theorem same_main_c_92 : GenP.V61 mK outs c (Proc.devRef .tc main_c_92) = ReferenceIdeal.RefRun.E mR c (Proc.devRef .tc ReferenceIdeal.main_c_164) := by
  rw [rd_main_c_92 mK outs c, ReferenceIdeal.RefRead.rd_main_c_164 mR c]
theorem same_main_c_92__main_c_110 : GenP.V61 mK outs c (Proc.devRef .tc main_c_92) = ReferenceIdeal.RefRun.E mR c (Proc.devRef .tc ReferenceIdeal.main_c_110) := by
  rw [rd_main_c_92 mK outs c, ReferenceIdeal.RefRead.rd_main_c_110 mR c]
theorem same_main_v202 : GenP.V61 mK outs c (Proc.devRef .tc main_v202) = ReferenceIdeal.RefRun.E mR c (Proc.devRef .tc ReferenceIdeal.main_v280) := by
  rw [rd_main_v202 mK outs c, ReferenceIdeal.RefRead.rd_main_v280 mR c, same_main_c_92__main_c_110 mK outs c mR h1]
theorem same_main_c_93 : GenP.V61 mK outs c (Proc.devRef .tc main_c_93) = ReferenceIdeal.RefRun.E mR c (Proc.devRef .tc ReferenceIdeal.main_c_164) := by
  rw [rd_main_c_93 mK outs c, ReferenceIdeal.RefRead.rd_main_c_164 mR c]
theorem same_main_c_94 : GenP.V61 mK outs c (Proc.devRef .tc main_c_94) = ReferenceIdeal.RefRun.E mR c (Proc.devRef .tc ReferenceIdeal.main_c_112) := by
  rw [rd_main_c_94 mK outs c, ReferenceIdeal.RefRead.rd_main_c_112 mR c]
theorem same_main_v206 : GenP.V61 mK outs c (Proc.devRef .tc main_v206) = ReferenceIdeal.RefRun.E mR c (Proc.devRef .tc ReferenceIdeal.main_v290) := by
  rw [rd_main_v206 mK outs c, ReferenceIdeal.RefRead.rd_main_v290 mR c, same_main_c_94 mK outs c mR h1]
theorem same_main_v207 : GenP.V61 mK outs c (Proc.devRef .tc main_v207) = ReferenceIdeal.RefRun.E mR c (Proc.devRef .tc ReferenceIdeal.main_v291) := by
  rw [rd_main_v207 mK outs c, ReferenceIdeal.RefRead.rd_main_v291 mR c, same_main_v16 mK outs c mR h1, same_main_v206 mK outs c mR h1]
theorem same_main_c_95 : GenP.V61 mK outs c (Proc.devRef .tc main_c_95) = ReferenceIdeal.RefRun.E mR c (Proc.devRef .tc ReferenceIdeal.main_c_59) := by
  rw [rd_main_c_95 mK outs c, ReferenceIdeal.RefRead.rd_main_c_59 mR c]
theorem same_main_c_95__main_c_113 : GenP.V61 mK outs c (Proc.devRef .tc main_c_95) = ReferenceIdeal.RefRun.E mR c (Proc.devRef .tc ReferenceIdeal.main_c_113) := by
  rw [rd_main_c_95 mK outs c, ReferenceIdeal.RefRead.rd_main_c_113 mR c]
theorem same_main_v208 : GenP.V61 mK outs c (Proc.devRef .tc main_v208) = ReferenceIdeal.RefRun.E mR c (Proc.devRef .tc ReferenceIdeal.main_v292) := by
  rw [rd_main_v208 mK outs c, ReferenceIdeal.RefRead.rd_main_v292 mR c, same_main_c_95__main_c_113 mK outs c mR h1]
theorem same_main_v209 : GenP.V61 mK outs c (Proc.devRef .tc main_v209) = ReferenceIdeal.RefRun.E mR c (Proc.devRef .tc ReferenceIdeal.main_v293) := by
  rw [rd_main_v209 mK outs c, ReferenceIdeal.RefRead.rd_main_v293 mR c, same_main_v17 mK outs c mR h1, same_main_v208 mK outs c mR h1]
theorem same_main_c_96 : GenP.V61 mK outs c (Proc.devRef .tc main_c_96) = ReferenceIdeal.RefRun.E mR c (Proc.devRef .tc ReferenceIdeal.main_c_77) := by
  rw [rd_main_c_96 mK outs c, ReferenceIdeal.RefRead.rd_main_c_77 mR c]
theorem same_main_c_96__main_c_71 : GenP.V61 mK outs c (Proc.devRef .tc main_c_96) = ReferenceIdeal.RefRun.E mR c (Proc.devRef .tc ReferenceIdeal.main_c_71) := by
  rw [rd_main_c_96 mK outs c, ReferenceIdeal.RefRead.rd_main_c_71 mR c]
theorem same_main_v210 : GenP.V61 mK outs c (Proc.devRef .tc main_v210) = ReferenceIdeal.RefRun.E mR c (Proc.devRef .tc ReferenceIdeal.main_v182) := by
  rw [rd_main_v210 mK outs c, ReferenceIdeal.RefRead.rd_main_v182 mR c, same_main_c_96__main_c_71 mK outs c mR h1]
theorem same_main_c_96__main_c_114 : GenP.V61 mK outs c (Proc.devRef .tc main_c_96) = ReferenceIdeal.RefRun.E mR c (Proc.devRef .tc ReferenceIdeal.main_c_114) := by
  rw [rd_main_c_96 mK outs c, ReferenceIdeal.RefRead.rd_main_c_114 mR c]
theorem same_main_v210__main_v294 : GenP.V61 mK outs c (Proc.devRef .tc main_v210) = ReferenceIdeal.RefRun.E mR c (Proc.devRef .tc ReferenceIdeal.main_v294) := by
  rw [rd_main_v210 mK outs c, ReferenceIdeal.RefRead.rd_main_v294 mR c, same_main_c_96__main_c_114 mK outs c mR h1]
theorem same_main_v211 : GenP.V61 mK outs c (Proc.devRef .tc main_v211) = ReferenceIdeal.RefRun.E mR c (Proc.devRef .tc ReferenceIdeal.main_v295) := by
  rw [rd_main_v211 mK outs c, ReferenceIdeal.RefRead.rd_main_v295 mR c, same_main_v207 mK outs c mR h1, same_main_v210__main_v294 mK outs c mR h1]
theorem same_main_c_97 : GenP.V61 mK outs c (Proc.devRef .tc main_c_97) = ReferenceIdeal.RefRun.E mR c (Proc.devRef .tc ReferenceIdeal.main_c_115) := by
  rw [rd_main_c_97 mK outs c, ReferenceIdeal.RefRead.rd_main_c_115 mR c]
theorem same_main_v212 : GenP.V61 mK outs c (Proc.devRef .tc main_v212) = ReferenceIdeal.RefRun.E mR c (Proc.devRef .tc ReferenceIdeal.main_v296) := by
  rw [rd_main_v212 mK outs c, ReferenceIdeal.RefRead.rd_main_v296 mR c, same_main_c_97 mK outs c mR h1]
theorem same_main_v213 : GenP.V61 mK outs c (Proc.devRef .tc main_v213) = ReferenceIdeal.RefRun.E mR c (Proc.devRef .tc ReferenceIdeal.main_v297) := by
  rw [rd_main_v213 mK outs c, ReferenceIdeal.RefRead.rd_main_v297 mR c, same_main_v207 mK outs c mR h1, same_main_v212 mK outs c mR h1]
theorem same_main_v214 : GenP.V61 mK outs c (Proc.devRef .tc main_v214) = ReferenceIdeal.RefRun.E mR c (Proc.devRef .tc ReferenceIdeal.main_v298) := by
  rw [rd_main_v214 mK outs c, ReferenceIdeal.RefRead.rd_main_v298 mR c, same_main_v211 mK outs c mR h1, same_main_v213 mK outs c mR h1]
theorem same_main_c_98 : GenP.V61 mK outs c (Proc.devRef .tc main_c_98) = ReferenceIdeal.RefRun.E mR c (Proc.devRef .tc ReferenceIdeal.main_c_78) := by
  rw [rd_main_c_98 mK outs c, ReferenceIdeal.RefRead.rd_main_c_78 mR c]
theorem same_main_c_98__main_c_72 : GenP.V61 mK outs c (Proc.devRef .tc main_c_98) = ReferenceIdeal.RefRun.E mR c (Proc.devRef .tc ReferenceIdeal.main_c_72) := by
  rw [rd_main_c_98 mK outs c, ReferenceIdeal.RefRead.rd_main_c_72 mR c]
theorem same_main_v215 : GenP.V61 mK outs c (Proc.devRef .tc main_v215) = ReferenceIdeal.RefRun.E mR c (Proc.devRef .tc ReferenceIdeal.main_v186) := by
  rw [rd_main_v215 mK outs c, ReferenceIdeal.RefRead.rd_main_v186 mR c, same_main_c_98__main_c_72 mK outs c mR h1]
theorem same_main_c_98__main_c_116 : GenP.V61 mK outs c (Proc.devRef .tc main_c_98) = ReferenceIdeal.RefRun.E mR c (Proc.devRef .tc ReferenceIdeal.main_c_116) := by
  rw [rd_main_c_98 mK outs c, ReferenceIdeal.RefRead.rd_main_c_116 mR c]
theorem same_main_v215__main_v299 : GenP.V61 mK outs c (Proc.devRef .tc main_v215) = ReferenceIdeal.RefRun.E mR c (Proc.devRef .tc ReferenceIdeal.main_v299) := by
  rw [rd_main_v215 mK outs c, ReferenceIdeal.RefRead.rd_main_v299 mR c, same_main_c_98__main_c_116 mK outs c mR h1]
theorem same_main_v216 : GenP.V61 mK outs c (Proc.devRef .tc main_v216) = ReferenceIdeal.RefRun.E mR c (Proc.devRef .tc ReferenceIdeal.main_v300) := by
  rw [rd_main_v216 mK outs c, ReferenceIdeal.RefRead.rd_main_v300 mR c, same_main_v209 mK outs c mR h1, same_main_v215__main_v299 mK outs c mR h1]
theorem same_main_v217 : GenP.V61 mK outs c (Proc.devRef .tc main_v217) = ReferenceIdeal.RefRun.E mR c (Proc.devRef .tc ReferenceIdeal.main_v301) := by
  rw [rd_main_v217 mK outs c, ReferenceIdeal.RefRead.rd_main_v301 mR c, same_main_v214 mK outs c mR h1, same_main_v216 mK outs c mR h1]
theorem same_main_c_99 : GenP.V61 mK outs c (Proc.devRef .tc main_c_99) = ReferenceIdeal.RefRun.E mR c (Proc.devRef .tc ReferenceIdeal.main_c_117) := by
  rw [rd_main_c_99 mK outs c, ReferenceIdeal.RefRead.rd_main_c_117 mR c]
theorem same_main_v218 : GenP.V61 mK outs c (Proc.devRef .tc main_v218) = ReferenceIdeal.RefRun.E mR c (Proc.devRef .tc ReferenceIdeal.main_v302) := by
  rw [rd_main_v218 mK outs c, ReferenceIdeal.RefRead.rd_main_v302 mR c, same_main_c_99 mK outs c mR h1]
theorem same_main_v219 : GenP.V61 mK outs c (Proc.devRef .tc main_v219) = ReferenceIdeal.RefRun.E mR c (Proc.devRef .tc ReferenceIdeal.main_v303) := by
  rw [rd_main_v219 mK outs c, ReferenceIdeal.RefRead.rd_main_v303 mR c, same_main_v209 mK outs c mR h1, same_main_v218 mK outs c mR h1]
theorem same_main_v220 : GenP.V61 mK outs c (Proc.devRef .tc main_v220) = ReferenceIdeal.RefRun.E mR c (Proc.devRef .tc ReferenceIdeal.main_v304) := by
  rw [rd_main_v220 mK outs c, ReferenceIdeal.RefRead.rd_main_v304 mR c, same_main_v217 mK outs c mR h1, same_main_v219 mK outs c mR h1]
theorem same_main_c_100 : GenP.V61 mK outs c (Proc.devRef .tc main_c_100) = ReferenceIdeal.RefRun.E mR c (Proc.devRef .tc ReferenceIdeal.main_c_80) := by
  rw [rd_main_c_100 mK outs c, ReferenceIdeal.RefRead.rd_main_c_80 mR c]
theorem same_main_c_101 : GenP.V61 mK outs c (Proc.devRef .tc main_c_101) = ReferenceIdeal.RefRun.E mR c (Proc.devRef .tc ReferenceIdeal.main_c_119) := by
  rw [rd_main_c_101 mK outs c, ReferenceIdeal.RefRead.rd_main_c_119 mR c]
theorem same_main_c_100__main_c_118 : GenP.V61 mK outs c (Proc.devRef .tc main_c_100) = ReferenceIdeal.RefRun.E mR c (Proc.devRef .tc ReferenceIdeal.main_c_118) := by
  rw [rd_main_c_100 mK outs c, ReferenceIdeal.RefRead.rd_main_c_118 mR c]
theorem same_main_call20_v0 : GenP.V61 mK outs c (Proc.devRef .tc main_call20_v0) = ReferenceIdeal.RefRun.E mR c (Proc.devRef .tc ReferenceIdeal.main_call21_v0) := by
  rw [rd_main_call20_v0 mK outs c, ReferenceIdeal.RefRead.rd_main_call21_v0 mR c, same_main_c_100__main_c_118 mK outs c mR h1]
theorem same_main_call20_v1 : GenP.V61 mK outs c (Proc.devRef .tc main_call20_v1) = ReferenceIdeal.RefRun.E mR c (Proc.devRef .tc ReferenceIdeal.main_call21_v1) := by
  rw [rd_main_call20_v1 mK outs c, ReferenceIdeal.RefRead.rd_main_call21_v1 mR c, same_main_call20_v0 mK outs c mR h1]
theorem same_main_call20_v2 : GenP.V61 mK outs c (Proc.devRef .tc main_call20_v2) = ReferenceIdeal.RefRun.E mR c (Proc.devRef .tc ReferenceIdeal.main_call21_v2) := by
  rw [rd_main_call20_v2 mK outs c, ReferenceIdeal.RefRead.rd_main_call21_v2 mR c, same_main_call20_v1 mK outs c mR h1, same_main_v207 mK outs c mR h1]
theorem same_main_call20_v3 : GenP.V61 mK outs c (Proc.devRef .tc main_call20_v3) = ReferenceIdeal.RefRun.E mR c (Proc.devRef .tc ReferenceIdeal.main_call21_v3) := by
  rw [rd_main_call20_v3 mK outs c, ReferenceIdeal.RefRead.rd_main_call21_v3 mR c, same_main_c_101 mK outs c mR h1]
theorem same_main_call20_v4 : GenP.V61 mK outs c (Proc.devRef .tc main_call20_v4) = ReferenceIdeal.RefRun.E mR c (Proc.devRef .tc ReferenceIdeal.main_call21_v4) := by
  rw [rd_main_call20_v4 mK outs c, ReferenceIdeal.RefRead.rd_main_call21_v4 mR c, same_main_call20_v3 mK outs c mR h1]
theorem same_main_v221 : GenP.V61 mK outs c (Proc.devRef .tc main_v221) = ReferenceIdeal.RefRun.E mR c (Proc.devRef .tc ReferenceIdeal.main_v305) := by
  rw [rd_main_v221 mK outs c, ReferenceIdeal.RefRead.rd_main_v305 mR c, same_main_call20_v4 mK outs c mR h1, same_main_call20_v2 mK outs c mR h1]
theorem same_main_c_102 : GenP.V61 mK outs c (Proc.devRef .tc main_c_102) = ReferenceIdeal.RefRun.E mR c (Proc.devRef .tc ReferenceIdeal.main_c_120) := by
  rw [rd_main_c_102 mK outs c, ReferenceIdeal.RefRead.rd_main_c_120 mR c]
theorem same_main_v222 : GenP.V61 mK outs c (Proc.devRef .tc main_v222) = ReferenceIdeal.RefRun.E mR c (Proc.devRef .tc ReferenceIdeal.main_v306) := by
  rw [rd_main_v222 mK outs c, ReferenceIdeal.RefRead.rd_main_v306 mR c, same_main_c_102 mK outs c mR h1]

end Cert.KernelIdeal.Glue
-- ==== Proof.GlueSame3.lean ====
/-
  The integer arrays both programs compute from main_arg1 and constants alone are the same arrays (part 3 of the table).
  A kernel buffer and a reference buffer written by the same operation of operands already known equal hold equal
  contents at the end: rewrite each side by its read-back equation, then the operands by their congruences.
-/
import proofs.«125710_j13511967113615_2_alg».proof.Proof.GlueSame2

set_option maxRecDepth 16384

noncomputable section

namespace Cert.KernelIdeal.Glue

open Idealize.ShloMosaic Idealize.ShloMosaic.TcCoe Idealize.ShloMosaic.StableHlo

variable {F : FTy → Type} [FloatOps F]
variable (mK : (ℓ : Loc nD τ sig) → Buf (Elt F) ℓ) (outs : GenP.Outs (F := F)) (c : Dev nD)
  (mR : (ℓ : Loc ReferenceIdeal.nD ReferenceIdeal.τ ReferenceIdeal.sig) → Buf (Elt F) ℓ)
  (h1 : mR ((c : Thread ReferenceIdeal.nD ReferenceIdeal.τ).loc ReferenceIdeal.main_arg1) = mK ((c : Thread nD τ).loc main_arg1))
include h1

theorem same_main_v223 : GenP.V61 mK outs c (Proc.devRef .tc main_v223) = ReferenceIdeal.RefRun.E mR c (Proc.devRef .tc ReferenceIdeal.main_v307) := by
  rw [rd_main_v223 mK outs c, ReferenceIdeal.RefRead.rd_main_v307 mR c, same_main_v221 mK outs c mR h1, same_main_v222 mK outs c mR h1]
theorem same_main_c_103 : GenP.V61 mK outs c (Proc.devRef .tc main_c_103) = ReferenceIdeal.RefRun.E mR c (Proc.devRef .tc ReferenceIdeal.main_c_82) := by
  rw [rd_main_c_103 mK outs c, ReferenceIdeal.RefRead.rd_main_c_82 mR c]
theorem same_main_c_104 : GenP.V61 mK outs c (Proc.devRef .tc main_c_104) = ReferenceIdeal.RefRun.E mR c (Proc.devRef .tc ReferenceIdeal.main_c_122) := by
  rw [rd_main_c_104 mK outs c, ReferenceIdeal.RefRead.rd_main_c_122 mR c]
theorem same_main_c_103__main_c_121 : GenP.V61 mK outs c (Proc.devRef .tc main_c_103) = ReferenceIdeal.RefRun.E mR c (Proc.devRef .tc ReferenceIdeal.main_c_121) := by
  rw [rd_main_c_103 mK outs c, ReferenceIdeal.RefRead.rd_main_c_121 mR c]
theorem same_main_call21_v0 : GenP.V61 mK outs c (Proc.devRef .tc main_call21_v0) = ReferenceIdeal.RefRun.E mR c (Proc.devRef .tc ReferenceIdeal.main_call22_v0) := by
  rw [rd_main_call21_v0 mK outs c, ReferenceIdeal.RefRead.rd_main_call22_v0 mR c, same_main_c_103__main_c_121 mK outs c mR h1]
theorem same_main_call21_v1 : GenP.V61 mK outs c (Proc.devRef .tc main_call21_v1) = ReferenceIdeal.RefRun.E mR c (Proc.devRef .tc ReferenceIdeal.main_call22_v1) := by
  rw [rd_main_call21_v1 mK outs c, ReferenceIdeal.RefRead.rd_main_call22_v1 mR c, same_main_call21_v0 mK outs c mR h1]
theorem same_main_call21_v2 : GenP.V61 mK outs c (Proc.devRef .tc main_call21_v2) = ReferenceIdeal.RefRun.E mR c (Proc.devRef .tc ReferenceIdeal.main_call22_v2) := by
  rw [rd_main_call21_v2 mK outs c, ReferenceIdeal.RefRead.rd_main_call22_v2 mR c, same_main_call21_v1 mK outs c mR h1, same_main_v209 mK outs c mR h1]
theorem same_main_call21_v3 : GenP.V61 mK outs c (Proc.devRef .tc main_call21_v3) = ReferenceIdeal.RefRun.E mR c (Proc.devRef .tc ReferenceIdeal.main_call22_v3) := by
  rw [rd_main_call21_v3 mK outs c, ReferenceIdeal.RefRead.rd_main_call22_v3 mR c, same_main_c_104 mK outs c mR h1]
theorem same_main_call21_v4 : GenP.V61 mK outs c (Proc.devRef .tc main_call21_v4) = ReferenceIdeal.RefRun.E mR c (Proc.devRef .tc ReferenceIdeal.main_call22_v4) := by
  rw [rd_main_call21_v4 mK outs c, ReferenceIdeal.RefRead.rd_main_call22_v4 mR c, same_main_call21_v3 mK outs c mR h1]
theorem same_main_v224 : GenP.V61 mK outs c (Proc.devRef .tc main_v224) = ReferenceIdeal.RefRun.E mR c (Proc.devRef .tc ReferenceIdeal.main_v308) := by
  rw [rd_main_v224 mK outs c, ReferenceIdeal.RefRead.rd_main_v308 mR c, same_main_call21_v4 mK outs c mR h1, same_main_call21_v2 mK outs c mR h1]
theorem same_main_v225 : GenP.V61 mK outs c (Proc.devRef .tc main_v225) = ReferenceIdeal.RefRun.E mR c (Proc.devRef .tc ReferenceIdeal.main_v309) := by
  rw [rd_main_v225 mK outs c, ReferenceIdeal.RefRead.rd_main_v309 mR c, same_main_v223 mK outs c mR h1, same_main_v224 mK outs c mR h1]
theorem same_main_c_105 : GenP.V61 mK outs c (Proc.devRef .tc main_c_105) = ReferenceIdeal.RefRun.E mR c (Proc.devRef .tc ReferenceIdeal.main_c_85) := by
  rw [rd_main_c_105 mK outs c, ReferenceIdeal.RefRead.rd_main_c_85 mR c]
theorem same_main_c_105__main_c_73 : GenP.V61 mK outs c (Proc.devRef .tc main_c_105) = ReferenceIdeal.RefRun.E mR c (Proc.devRef .tc ReferenceIdeal.main_c_73) := by
  rw [rd_main_c_105 mK outs c, ReferenceIdeal.RefRead.rd_main_c_73 mR c]
theorem same_main_v226 : GenP.V61 mK outs c (Proc.devRef .tc main_v226) = ReferenceIdeal.RefRun.E mR c (Proc.devRef .tc ReferenceIdeal.main_v188) := by
  rw [rd_main_v226 mK outs c, ReferenceIdeal.RefRead.rd_main_v188 mR c, same_main_c_105__main_c_73 mK outs c mR h1]
theorem same_main_c_105__main_c_123 : GenP.V61 mK outs c (Proc.devRef .tc main_c_105) = ReferenceIdeal.RefRun.E mR c (Proc.devRef .tc ReferenceIdeal.main_c_123) := by
  rw [rd_main_c_105 mK outs c, ReferenceIdeal.RefRead.rd_main_c_123 mR c]
theorem same_main_v226__main_v310 : GenP.V61 mK outs c (Proc.devRef .tc main_v226) = ReferenceIdeal.RefRun.E mR c (Proc.devRef .tc ReferenceIdeal.main_v310) := by
  rw [rd_main_v226 mK outs c, ReferenceIdeal.RefRead.rd_main_v310 mR c, same_main_c_105__main_c_123 mK outs c mR h1]
theorem same_main_v227 : GenP.V61 mK outs c (Proc.devRef .tc main_v227) = ReferenceIdeal.RefRun.E mR c (Proc.devRef .tc ReferenceIdeal.main_v311) := by
  rw [rd_main_v227 mK outs c, ReferenceIdeal.RefRead.rd_main_v311 mR c, same_main_v225 mK outs c mR h1, same_main_v226__main_v310 mK outs c mR h1]
theorem same_main_c_106 : GenP.V61 mK outs c (Proc.devRef .tc main_c_106) = ReferenceIdeal.RefRun.E mR c (Proc.devRef .tc ReferenceIdeal.main_c_124) := by
  rw [rd_main_c_106 mK outs c, ReferenceIdeal.RefRead.rd_main_c_124 mR c]
theorem same_main_v228 : GenP.V61 mK outs c (Proc.devRef .tc main_v228) = ReferenceIdeal.RefRun.E mR c (Proc.devRef .tc ReferenceIdeal.main_v312) := by
  rw [rd_main_v228 mK outs c, ReferenceIdeal.RefRead.rd_main_v312 mR c, same_main_c_106 mK outs c mR h1]
theorem same_main_v229 : GenP.V61 mK outs c (Proc.devRef .tc main_v229) = ReferenceIdeal.RefRun.E mR c (Proc.devRef .tc ReferenceIdeal.main_v313) := by
  rw [rd_main_v229 mK outs c, ReferenceIdeal.RefRead.rd_main_v313 mR c, same_main_v225 mK outs c mR h1, same_main_v228 mK outs c mR h1]
theorem same_main_v230 : GenP.V61 mK outs c (Proc.devRef .tc main_v230) = ReferenceIdeal.RefRun.E mR c (Proc.devRef .tc ReferenceIdeal.main_v314) := by
  rw [rd_main_v230 mK outs c, ReferenceIdeal.RefRead.rd_main_v314 mR c, same_main_v227 mK outs c mR h1, same_main_v229 mK outs c mR h1, same_main_v225 mK outs c mR h1]
theorem same_main_v231 : GenP.V61 mK outs c (Proc.devRef .tc main_v231) = ReferenceIdeal.RefRun.E mR c (Proc.devRef .tc ReferenceIdeal.main_v315) := by
  rw [rd_main_v231 mK outs c, ReferenceIdeal.RefRead.rd_main_v315 mR c, same_main_v230 mK outs c mR h1]
theorem same_main_c_107 : GenP.V61 mK outs c (Proc.devRef .tc main_c_107) = ReferenceIdeal.RefRun.E mR c (Proc.devRef .tc ReferenceIdeal.main_c_164) := by
  rw [rd_main_c_107 mK outs c, ReferenceIdeal.RefRead.rd_main_c_164 mR c]
theorem same_main_c_107__main_c_128 : GenP.V61 mK outs c (Proc.devRef .tc main_c_107) = ReferenceIdeal.RefRun.E mR c (Proc.devRef .tc ReferenceIdeal.main_c_128) := by
  rw [rd_main_c_107 mK outs c, ReferenceIdeal.RefRead.rd_main_c_128 mR c]
theorem same_main_v233 : GenP.V61 mK outs c (Proc.devRef .tc main_v233) = ReferenceIdeal.RefRun.E mR c (Proc.devRef .tc ReferenceIdeal.main_v325) := by
  rw [rd_main_v233 mK outs c, ReferenceIdeal.RefRead.rd_main_v325 mR c, same_main_c_107__main_c_128 mK outs c mR h1]
theorem same_main_c_108 : GenP.V61 mK outs c (Proc.devRef .tc main_c_108) = ReferenceIdeal.RefRun.E mR c (Proc.devRef .tc ReferenceIdeal.main_c_164) := by
  rw [rd_main_c_108 mK outs c, ReferenceIdeal.RefRead.rd_main_c_164 mR c]
theorem same_main_c_109 : GenP.V61 mK outs c (Proc.devRef .tc main_c_109) = ReferenceIdeal.RefRun.E mR c (Proc.devRef .tc ReferenceIdeal.main_c_130) := by
  rw [rd_main_c_109 mK outs c, ReferenceIdeal.RefRead.rd_main_c_130 mR c]
theorem same_main_v237 : GenP.V61 mK outs c (Proc.devRef .tc main_v237) = ReferenceIdeal.RefRun.E mR c (Proc.devRef .tc ReferenceIdeal.main_v335) := by
  rw [rd_main_v237 mK outs c, ReferenceIdeal.RefRead.rd_main_v335 mR c, same_main_c_109 mK outs c mR h1]
theorem same_main_v238 : GenP.V61 mK outs c (Proc.devRef .tc main_v238) = ReferenceIdeal.RefRun.E mR c (Proc.devRef .tc ReferenceIdeal.main_v336) := by
  rw [rd_main_v238 mK outs c, ReferenceIdeal.RefRead.rd_main_v336 mR c, same_main_v16 mK outs c mR h1, same_main_v237 mK outs c mR h1]
theorem same_main_c_110 : GenP.V61 mK outs c (Proc.devRef .tc main_c_110) = ReferenceIdeal.RefRun.E mR c (Proc.devRef .tc ReferenceIdeal.main_c_87) := by
  rw [rd_main_c_110 mK outs c, ReferenceIdeal.RefRead.rd_main_c_87 mR c]
theorem same_main_c_110__main_c_76 : GenP.V61 mK outs c (Proc.devRef .tc main_c_110) = ReferenceIdeal.RefRun.E mR c (Proc.devRef .tc ReferenceIdeal.main_c_76) := by
  rw [rd_main_c_110 mK outs c, ReferenceIdeal.RefRead.rd_main_c_76 mR c]
theorem same_main_v239 : GenP.V61 mK outs c (Proc.devRef .tc main_v239) = ReferenceIdeal.RefRun.E mR c (Proc.devRef .tc ReferenceIdeal.main_v200) := by
  rw [rd_main_v239 mK outs c, ReferenceIdeal.RefRead.rd_main_v200 mR c, same_main_c_110__main_c_76 mK outs c mR h1]
theorem same_main_c_110__main_c_131 : GenP.V61 mK outs c (Proc.devRef .tc main_c_110) = ReferenceIdeal.RefRun.E mR c (Proc.devRef .tc ReferenceIdeal.main_c_131) := by
  rw [rd_main_c_110 mK outs c, ReferenceIdeal.RefRead.rd_main_c_131 mR c]
theorem same_main_v239__main_v337 : GenP.V61 mK outs c (Proc.devRef .tc main_v239) = ReferenceIdeal.RefRun.E mR c (Proc.devRef .tc ReferenceIdeal.main_v337) := by
  rw [rd_main_v239 mK outs c, ReferenceIdeal.RefRead.rd_main_v337 mR c, same_main_c_110__main_c_131 mK outs c mR h1]
theorem same_main_v240 : GenP.V61 mK outs c (Proc.devRef .tc main_v240) = ReferenceIdeal.RefRun.E mR c (Proc.devRef .tc ReferenceIdeal.main_v338) := by
  rw [rd_main_v240 mK outs c, ReferenceIdeal.RefRead.rd_main_v338 mR c, same_main_v17 mK outs c mR h1, same_main_v239__main_v337 mK outs c mR h1]
theorem same_main_c_111 : GenP.V61 mK outs c (Proc.devRef .tc main_c_111) = ReferenceIdeal.RefRun.E mR c (Proc.devRef .tc ReferenceIdeal.main_c_89) := by
  rw [rd_main_c_111 mK outs c, ReferenceIdeal.RefRead.rd_main_c_89 mR c]
theorem same_main_c_111__main_c_77 : GenP.V61 mK outs c (Proc.devRef .tc main_c_111) = ReferenceIdeal.RefRun.E mR c (Proc.devRef .tc ReferenceIdeal.main_c_77) := by
  rw [rd_main_c_111 mK outs c, ReferenceIdeal.RefRead.rd_main_c_77 mR c]
theorem same_main_v241 : GenP.V61 mK outs c (Proc.devRef .tc main_v241) = ReferenceIdeal.RefRun.E mR c (Proc.devRef .tc ReferenceIdeal.main_v202) := by
  rw [rd_main_v241 mK outs c, ReferenceIdeal.RefRead.rd_main_v202 mR c, same_main_c_111__main_c_77 mK outs c mR h1]
theorem same_main_c_111__main_c_132 : GenP.V61 mK outs c (Proc.devRef .tc main_c_111) = ReferenceIdeal.RefRun.E mR c (Proc.devRef .tc ReferenceIdeal.main_c_132) := by
  rw [rd_main_c_111 mK outs c, ReferenceIdeal.RefRead.rd_main_c_132 mR c]
theorem same_main_v241__main_v339 : GenP.V61 mK outs c (Proc.devRef .tc main_v241) = ReferenceIdeal.RefRun.E mR c (Proc.devRef .tc ReferenceIdeal.main_v339) := by
  rw [rd_main_v241 mK outs c, ReferenceIdeal.RefRead.rd_main_v339 mR c, same_main_c_111__main_c_132 mK outs c mR h1]
theorem same_main_v242 : GenP.V61 mK outs c (Proc.devRef .tc main_v242) = ReferenceIdeal.RefRun.E mR c (Proc.devRef .tc ReferenceIdeal.main_v340) := by
  rw [rd_main_v242 mK outs c, ReferenceIdeal.RefRead.rd_main_v340 mR c, same_main_v238 mK outs c mR h1, same_main_v241__main_v339 mK outs c mR h1]
theorem same_main_c_112 : GenP.V61 mK outs c (Proc.devRef .tc main_c_112) = ReferenceIdeal.RefRun.E mR c (Proc.devRef .tc ReferenceIdeal.main_c_133) := by
  rw [rd_main_c_112 mK outs c, ReferenceIdeal.RefRead.rd_main_c_133 mR c]
theorem same_main_v243 : GenP.V61 mK outs c (Proc.devRef .tc main_v243) = ReferenceIdeal.RefRun.E mR c (Proc.devRef .tc ReferenceIdeal.main_v341) := by
  rw [rd_main_v243 mK outs c, ReferenceIdeal.RefRead.rd_main_v341 mR c, same_main_c_112 mK outs c mR h1]
theorem same_main_v244 : GenP.V61 mK outs c (Proc.devRef .tc main_v244) = ReferenceIdeal.RefRun.E mR c (Proc.devRef .tc ReferenceIdeal.main_v342) := by
  rw [rd_main_v244 mK outs c, ReferenceIdeal.RefRead.rd_main_v342 mR c, same_main_v238 mK outs c mR h1, same_main_v243 mK outs c mR h1]
theorem same_main_v245 : GenP.V61 mK outs c (Proc.devRef .tc main_v245) = ReferenceIdeal.RefRun.E mR c (Proc.devRef .tc ReferenceIdeal.main_v343) := by
  rw [rd_main_v245 mK outs c, ReferenceIdeal.RefRead.rd_main_v343 mR c, same_main_v242 mK outs c mR h1, same_main_v244 mK outs c mR h1]
theorem same_main_c_113 : GenP.V61 mK outs c (Proc.devRef .tc main_c_113) = ReferenceIdeal.RefRun.E mR c (Proc.devRef .tc ReferenceIdeal.main_c_90) := by
  rw [rd_main_c_113 mK outs c, ReferenceIdeal.RefRead.rd_main_c_90 mR c]
theorem same_main_c_113__main_c_78 : GenP.V61 mK outs c (Proc.devRef .tc main_c_113) = ReferenceIdeal.RefRun.E mR c (Proc.devRef .tc ReferenceIdeal.main_c_78) := by
  rw [rd_main_c_113 mK outs c, ReferenceIdeal.RefRead.rd_main_c_78 mR c]
theorem same_main_v246 : GenP.V61 mK outs c (Proc.devRef .tc main_v246) = ReferenceIdeal.RefRun.E mR c (Proc.devRef .tc ReferenceIdeal.main_v204) := by
  rw [rd_main_v246 mK outs c, ReferenceIdeal.RefRead.rd_main_v204 mR c, same_main_c_113__main_c_78 mK outs c mR h1]
theorem same_main_c_113__main_c_134 : GenP.V61 mK outs c (Proc.devRef .tc main_c_113) = ReferenceIdeal.RefRun.E mR c (Proc.devRef .tc ReferenceIdeal.main_c_134) := by
  rw [rd_main_c_113 mK outs c, ReferenceIdeal.RefRead.rd_main_c_134 mR c]
theorem same_main_v246__main_v344 : GenP.V61 mK outs c (Proc.devRef .tc main_v246) = ReferenceIdeal.RefRun.E mR c (Proc.devRef .tc ReferenceIdeal.main_v344) := by
  rw [rd_main_v246 mK outs c, ReferenceIdeal.RefRead.rd_main_v344 mR c, same_main_c_113__main_c_134 mK outs c mR h1]
theorem same_main_v247 : GenP.V61 mK outs c (Proc.devRef .tc main_v247) = ReferenceIdeal.RefRun.E mR c (Proc.devRef .tc ReferenceIdeal.main_v345) := by
  rw [rd_main_v247 mK outs c, ReferenceIdeal.RefRead.rd_main_v345 mR c, same_main_v240 mK outs c mR h1, same_main_v246__main_v344 mK outs c mR h1]
theorem same_main_v248 : GenP.V61 mK outs c (Proc.devRef .tc main_v248) = ReferenceIdeal.RefRun.E mR c (Proc.devRef .tc ReferenceIdeal.main_v346) := by
  rw [rd_main_v248 mK outs c, ReferenceIdeal.RefRead.rd_main_v346 mR c, same_main_v245 mK outs c mR h1, same_main_v247 mK outs c mR h1]
theorem same_main_c_114 : GenP.V61 mK outs c (Proc.devRef .tc main_c_114) = ReferenceIdeal.RefRun.E mR c (Proc.devRef .tc ReferenceIdeal.main_c_135) := by
  rw [rd_main_c_114 mK outs c, ReferenceIdeal.RefRead.rd_main_c_135 mR c]
theorem same_main_v249 : GenP.V61 mK outs c (Proc.devRef .tc main_v249) = ReferenceIdeal.RefRun.E mR c (Proc.devRef .tc ReferenceIdeal.main_v347) := by
  rw [rd_main_v249 mK outs c, ReferenceIdeal.RefRead.rd_main_v347 mR c, same_main_c_114 mK outs c mR h1]
theorem same_main_v250 : GenP.V61 mK outs c (Proc.devRef .tc main_v250) = ReferenceIdeal.RefRun.E mR c (Proc.devRef .tc ReferenceIdeal.main_v348) := by
  rw [rd_main_v250 mK outs c, ReferenceIdeal.RefRead.rd_main_v348 mR c, same_main_v240 mK outs c mR h1, same_main_v249 mK outs c mR h1]
theorem same_main_v251 : GenP.V61 mK outs c (Proc.devRef .tc main_v251) = ReferenceIdeal.RefRun.E mR c (Proc.devRef .tc ReferenceIdeal.main_v349) := by
  rw [rd_main_v251 mK outs c, ReferenceIdeal.RefRead.rd_main_v349 mR c, same_main_v248 mK outs c mR h1, same_main_v250 mK outs c mR h1]
theorem same_main_c_115 : GenP.V61 mK outs c (Proc.devRef .tc main_c_115) = ReferenceIdeal.RefRun.E mR c (Proc.devRef .tc ReferenceIdeal.main_c_91) := by
  rw [rd_main_c_115 mK outs c, ReferenceIdeal.RefRead.rd_main_c_91 mR c]
theorem same_main_c_116 : GenP.V61 mK outs c (Proc.devRef .tc main_c_116) = ReferenceIdeal.RefRun.E mR c (Proc.devRef .tc ReferenceIdeal.main_c_137) := by
  rw [rd_main_c_116 mK outs c, ReferenceIdeal.RefRead.rd_main_c_137 mR c]
theorem same_main_c_115__main_c_136 : GenP.V61 mK outs c (Proc.devRef .tc main_c_115) = ReferenceIdeal.RefRun.E mR c (Proc.devRef .tc ReferenceIdeal.main_c_136) := by
  rw [rd_main_c_115 mK outs c, ReferenceIdeal.RefRead.rd_main_c_136 mR c]
theorem same_main_call23_v0 : GenP.V61 mK outs c (Proc.devRef .tc main_call23_v0) = ReferenceIdeal.RefRun.E mR c (Proc.devRef .tc ReferenceIdeal.main_call24_v0) := by
  rw [rd_main_call23_v0 mK outs c, ReferenceIdeal.RefRead.rd_main_call24_v0 mR c, same_main_c_115__main_c_136 mK outs c mR h1]
theorem same_main_call23_v1 : GenP.V61 mK outs c (Proc.devRef .tc main_call23_v1) = ReferenceIdeal.RefRun.E mR c (Proc.devRef .tc ReferenceIdeal.main_call24_v1) := by
  rw [rd_main_call23_v1 mK outs c, ReferenceIdeal.RefRead.rd_main_call24_v1 mR c, same_main_call23_v0 mK outs c mR h1]
theorem same_main_call23_v2 : GenP.V61 mK outs c (Proc.devRef .tc main_call23_v2) = ReferenceIdeal.RefRun.E mR c (Proc.devRef .tc ReferenceIdeal.main_call24_v2) := by
  rw [rd_main_call23_v2 mK outs c, ReferenceIdeal.RefRead.rd_main_call24_v2 mR c, same_main_call23_v1 mK outs c mR h1, same_main_v238 mK outs c mR h1]
theorem same_main_call23_v3 : GenP.V61 mK outs c (Proc.devRef .tc main_call23_v3) = ReferenceIdeal.RefRun.E mR c (Proc.devRef .tc ReferenceIdeal.main_call24_v3) := by
  rw [rd_main_call23_v3 mK outs c, ReferenceIdeal.RefRead.rd_main_call24_v3 mR c, same_main_c_116 mK outs c mR h1]
theorem same_main_call23_v4 : GenP.V61 mK outs c (Proc.devRef .tc main_call23_v4) = ReferenceIdeal.RefRun.E mR c (Proc.devRef .tc ReferenceIdeal.main_call24_v4) := by
  rw [rd_main_call23_v4 mK outs c, ReferenceIdeal.RefRead.rd_main_call24_v4 mR c, same_main_call23_v3 mK outs c mR h1]
theorem same_main_v252 : GenP.V61 mK outs c (Proc.devRef .tc main_v252) = ReferenceIdeal.RefRun.E mR c (Proc.devRef .tc ReferenceIdeal.main_v350) := by
  rw [rd_main_v252 mK outs c, ReferenceIdeal.RefRead.rd_main_v350 mR c, same_main_call23_v4 mK outs c mR h1, same_main_call23_v2 mK outs c mR h1]
theorem same_main_c_117 : GenP.V61 mK outs c (Proc.devRef .tc main_c_117) = ReferenceIdeal.RefRun.E mR c (Proc.devRef .tc ReferenceIdeal.main_c_138) := by
  rw [rd_main_c_117 mK outs c, ReferenceIdeal.RefRead.rd_main_c_138 mR c]
theorem same_main_v253 : GenP.V61 mK outs c (Proc.devRef .tc main_v253) = ReferenceIdeal.RefRun.E mR c (Proc.devRef .tc ReferenceIdeal.main_v351) := by
  rw [rd_main_v253 mK outs c, ReferenceIdeal.RefRead.rd_main_v351 mR c, same_main_c_117 mK outs c mR h1]
theorem same_main_v254 : GenP.V61 mK outs c (Proc.devRef .tc main_v254) = ReferenceIdeal.RefRun.E mR c (Proc.devRef .tc ReferenceIdeal.main_v352) := by
  rw [rd_main_v254 mK outs c, ReferenceIdeal.RefRead.rd_main_v352 mR c, same_main_v252 mK outs c mR h1, same_main_v253 mK outs c mR h1]
theorem same_main_c_118 : GenP.V61 mK outs c (Proc.devRef .tc main_c_118) = ReferenceIdeal.RefRun.E mR c (Proc.devRef .tc ReferenceIdeal.main_c_94) := by
  rw [rd_main_c_118 mK outs c, ReferenceIdeal.RefRead.rd_main_c_94 mR c]
theorem same_main_c_119 : GenP.V61 mK outs c (Proc.devRef .tc main_c_119) = ReferenceIdeal.RefRun.E mR c (Proc.devRef .tc ReferenceIdeal.main_c_140) := by
  rw [rd_main_c_119 mK outs c, ReferenceIdeal.RefRead.rd_main_c_140 mR c]
theorem same_main_c_118__main_c_139 : GenP.V61 mK outs c (Proc.devRef .tc main_c_118) = ReferenceIdeal.RefRun.E mR c (Proc.devRef .tc ReferenceIdeal.main_c_139) := by
  rw [rd_main_c_118 mK outs c, ReferenceIdeal.RefRead.rd_main_c_139 mR c]
theorem same_main_call24_v0 : GenP.V61 mK outs c (Proc.devRef .tc main_call24_v0) = ReferenceIdeal.RefRun.E mR c (Proc.devRef .tc ReferenceIdeal.main_call25_v0) := by
  rw [rd_main_call24_v0 mK outs c, ReferenceIdeal.RefRead.rd_main_call25_v0 mR c, same_main_c_118__main_c_139 mK outs c mR h1]
theorem same_main_call24_v1 : GenP.V61 mK outs c (Proc.devRef .tc main_call24_v1) = ReferenceIdeal.RefRun.E mR c (Proc.devRef .tc ReferenceIdeal.main_call25_v1) := by
  rw [rd_main_call24_v1 mK outs c, ReferenceIdeal.RefRead.rd_main_call25_v1 mR c, same_main_call24_v0 mK outs c mR h1]
theorem same_main_call24_v2 : GenP.V61 mK outs c (Proc.devRef .tc main_call24_v2) = ReferenceIdeal.RefRun.E mR c (Proc.devRef .tc ReferenceIdeal.main_call25_v2) := by
  rw [rd_main_call24_v2 mK outs c, ReferenceIdeal.RefRead.rd_main_call25_v2 mR c, same_main_call24_v1 mK outs c mR h1, same_main_v240 mK outs c mR h1]
theorem same_main_call24_v3 : GenP.V61 mK outs c (Proc.devRef .tc main_call24_v3) = ReferenceIdeal.RefRun.E mR c (Proc.devRef .tc ReferenceIdeal.main_call25_v3) := by
  rw [rd_main_call24_v3 mK outs c, ReferenceIdeal.RefRead.rd_main_call25_v3 mR c, same_main_c_119 mK outs c mR h1]
theorem same_main_call24_v4 : GenP.V61 mK outs c (Proc.devRef .tc main_call24_v4) = ReferenceIdeal.RefRun.E mR c (Proc.devRef .tc ReferenceIdeal.main_call25_v4) := by
  rw [rd_main_call24_v4 mK outs c, ReferenceIdeal.RefRead.rd_main_call25_v4 mR c, same_main_call24_v3 mK outs c mR h1]
theorem same_main_v255 : GenP.V61 mK outs c (Proc.devRef .tc main_v255) = ReferenceIdeal.RefRun.E mR c (Proc.devRef .tc ReferenceIdeal.main_v353) := by
  rw [rd_main_v255 mK outs c, ReferenceIdeal.RefRead.rd_main_v353 mR c, same_main_call24_v4 mK outs c mR h1, same_main_call24_v2 mK outs c mR h1]
theorem same_main_v256 : GenP.V61 mK outs c (Proc.devRef .tc main_v256) = ReferenceIdeal.RefRun.E mR c (Proc.devRef .tc ReferenceIdeal.main_v354) := by
  rw [rd_main_v256 mK outs c, ReferenceIdeal.RefRead.rd_main_v354 mR c, same_main_v254 mK outs c mR h1, same_main_v255 mK outs c mR h1]
theorem same_main_c_120 : GenP.V61 mK outs c (Proc.devRef .tc main_c_120) = ReferenceIdeal.RefRun.E mR c (Proc.devRef .tc ReferenceIdeal.main_c_96) := by
  rw [rd_main_c_120 mK outs c, ReferenceIdeal.RefRead.rd_main_c_96 mR c]
theorem same_main_c_120__main_c_80 : GenP.V61 mK outs c (Proc.devRef .tc main_c_120) = ReferenceIdeal.RefRun.E mR c (Proc.devRef .tc ReferenceIdeal.main_c_80) := by
  rw [rd_main_c_120 mK outs c, ReferenceIdeal.RefRead.rd_main_c_80 mR c]
theorem same_main_v257 : GenP.V61 mK outs c (Proc.devRef .tc main_v257) = ReferenceIdeal.RefRun.E mR c (Proc.devRef .tc ReferenceIdeal.main_v209) := by
  rw [rd_main_v257 mK outs c, ReferenceIdeal.RefRead.rd_main_v209 mR c, same_main_c_120__main_c_80 mK outs c mR h1]
theorem same_main_c_120__main_c_141 : GenP.V61 mK outs c (Proc.devRef .tc main_c_120) = ReferenceIdeal.RefRun.E mR c (Proc.devRef .tc ReferenceIdeal.main_c_141) := by
  rw [rd_main_c_120 mK outs c, ReferenceIdeal.RefRead.rd_main_c_141 mR c]
theorem same_main_v257__main_v355 : GenP.V61 mK outs c (Proc.devRef .tc main_v257) = ReferenceIdeal.RefRun.E mR c (Proc.devRef .tc ReferenceIdeal.main_v355) := by
  rw [rd_main_v257 mK outs c, ReferenceIdeal.RefRead.rd_main_v355 mR c, same_main_c_120__main_c_141 mK outs c mR h1]
theorem same_main_v258 : GenP.V61 mK outs c (Proc.devRef .tc main_v258) = ReferenceIdeal.RefRun.E mR c (Proc.devRef .tc ReferenceIdeal.main_v356) := by
  rw [rd_main_v258 mK outs c, ReferenceIdeal.RefRead.rd_main_v356 mR c, same_main_v256 mK outs c mR h1, same_main_v257__main_v355 mK outs c mR h1]
theorem same_main_c_121 : GenP.V61 mK outs c (Proc.devRef .tc main_c_121) = ReferenceIdeal.RefRun.E mR c (Proc.devRef .tc ReferenceIdeal.main_c_142) := by
  rw [rd_main_c_121 mK outs c, ReferenceIdeal.RefRead.rd_main_c_142 mR c]
theorem same_main_v259 : GenP.V61 mK outs c (Proc.devRef .tc main_v259) = ReferenceIdeal.RefRun.E mR c (Proc.devRef .tc ReferenceIdeal.main_v357) := by
  rw [rd_main_v259 mK outs c, ReferenceIdeal.RefRead.rd_main_v357 mR c, same_main_c_121 mK outs c mR h1]
theorem same_main_v260 : GenP.V61 mK outs c (Proc.devRef .tc main_v260) = ReferenceIdeal.RefRun.E mR c (Proc.devRef .tc ReferenceIdeal.main_v358) := by
  rw [rd_main_v260 mK outs c, ReferenceIdeal.RefRead.rd_main_v358 mR c, same_main_v256 mK outs c mR h1, same_main_v259 mK outs c mR h1]
theorem same_main_v261 : GenP.V61 mK outs c (Proc.devRef .tc main_v261) = ReferenceIdeal.RefRun.E mR c (Proc.devRef .tc ReferenceIdeal.main_v359) := by
  rw [rd_main_v261 mK outs c, ReferenceIdeal.RefRead.rd_main_v359 mR c, same_main_v258 mK outs c mR h1, same_main_v260 mK outs c mR h1, same_main_v256 mK outs c mR h1]
theorem same_main_v262 : GenP.V61 mK outs c (Proc.devRef .tc main_v262) = ReferenceIdeal.RefRun.E mR c (Proc.devRef .tc ReferenceIdeal.main_v360) := by
  rw [rd_main_v262 mK outs c, ReferenceIdeal.RefRead.rd_main_v360 mR c, same_main_v261 mK outs c mR h1]
theorem same_main_c_122 : GenP.V61 mK outs c (Proc.devRef .tc main_c_122) = ReferenceIdeal.RefRun.E mR c (Proc.devRef .tc ReferenceIdeal.main_c_164) := by
  rw [rd_main_c_122 mK outs c, ReferenceIdeal.RefRead.rd_main_c_164 mR c]
theorem same_main_c_122__main_c_146 : GenP.V61 mK outs c (Proc.devRef .tc main_c_122) = ReferenceIdeal.RefRun.E mR c (Proc.devRef .tc ReferenceIdeal.main_c_146) := by
  rw [rd_main_c_122 mK outs c, ReferenceIdeal.RefRead.rd_main_c_146 mR c]
theorem same_main_v264 : GenP.V61 mK outs c (Proc.devRef .tc main_v264) = ReferenceIdeal.RefRun.E mR c (Proc.devRef .tc ReferenceIdeal.main_v370) := by
  rw [rd_main_v264 mK outs c, ReferenceIdeal.RefRead.rd_main_v370 mR c, same_main_c_122__main_c_146 mK outs c mR h1]
theorem same_main_c_123 : GenP.V61 mK outs c (Proc.devRef .tc main_c_123) = ReferenceIdeal.RefRun.E mR c (Proc.devRef .tc ReferenceIdeal.main_c_164) := by
  rw [rd_main_c_123 mK outs c, ReferenceIdeal.RefRead.rd_main_c_164 mR c]
theorem same_main_c_124 : GenP.V61 mK outs c (Proc.devRef .tc main_c_124) = ReferenceIdeal.RefRun.E mR c (Proc.devRef .tc ReferenceIdeal.main_c_148) := by
  rw [rd_main_c_124 mK outs c, ReferenceIdeal.RefRead.rd_main_c_148 mR c]
theorem same_main_v268 : GenP.V61 mK outs c (Proc.devRef .tc main_v268) = ReferenceIdeal.RefRun.E mR c (Proc.devRef .tc ReferenceIdeal.main_v380) := by
  rw [rd_main_v268 mK outs c, ReferenceIdeal.RefRead.rd_main_v380 mR c, same_main_c_124 mK outs c mR h1]
theorem same_main_v269 : GenP.V61 mK outs c (Proc.devRef .tc main_v269) = ReferenceIdeal.RefRun.E mR c (Proc.devRef .tc ReferenceIdeal.main_v381) := by
  rw [rd_main_v269 mK outs c, ReferenceIdeal.RefRead.rd_main_v381 mR c, same_main_v16 mK outs c mR h1, same_main_v268 mK outs c mR h1]
theorem same_main_c_125 : GenP.V61 mK outs c (Proc.devRef .tc main_c_125) = ReferenceIdeal.RefRun.E mR c (Proc.devRef .tc ReferenceIdeal.main_c_149) := by
  rw [rd_main_c_125 mK outs c, ReferenceIdeal.RefRead.rd_main_c_149 mR c]
theorem same_main_v270 : GenP.V61 mK outs c (Proc.devRef .tc main_v270) = ReferenceIdeal.RefRun.E mR c (Proc.devRef .tc ReferenceIdeal.main_v382) := by
  rw [rd_main_v270 mK outs c, ReferenceIdeal.RefRead.rd_main_v382 mR c, same_main_c_125 mK outs c mR h1]
theorem same_main_v271 : GenP.V61 mK outs c (Proc.devRef .tc main_v271) = ReferenceIdeal.RefRun.E mR c (Proc.devRef .tc ReferenceIdeal.main_v383) := by
  rw [rd_main_v271 mK outs c, ReferenceIdeal.RefRead.rd_main_v383 mR c, same_main_v17 mK outs c mR h1, same_main_v270 mK outs c mR h1]
theorem same_main_c_126 : GenP.V61 mK outs c (Proc.devRef .tc main_c_126) = ReferenceIdeal.RefRun.E mR c (Proc.devRef .tc ReferenceIdeal.main_c_98) := by
  rw [rd_main_c_126 mK outs c, ReferenceIdeal.RefRead.rd_main_c_98 mR c]
theorem same_main_c_126__main_c_87 : GenP.V61 mK outs c (Proc.devRef .tc main_c_126) = ReferenceIdeal.RefRun.E mR c (Proc.devRef .tc ReferenceIdeal.main_c_87) := by
  rw [rd_main_c_126 mK outs c, ReferenceIdeal.RefRead.rd_main_c_87 mR c]
theorem same_main_v272 : GenP.V61 mK outs c (Proc.devRef .tc main_v272) = ReferenceIdeal.RefRun.E mR c (Proc.devRef .tc ReferenceIdeal.main_v220) := by
  rw [rd_main_v272 mK outs c, ReferenceIdeal.RefRead.rd_main_v220 mR c, same_main_c_126__main_c_87 mK outs c mR h1]
theorem same_main_c_126__main_c_150 : GenP.V61 mK outs c (Proc.devRef .tc main_c_126) = ReferenceIdeal.RefRun.E mR c (Proc.devRef .tc ReferenceIdeal.main_c_150) := by
  rw [rd_main_c_126 mK outs c, ReferenceIdeal.RefRead.rd_main_c_150 mR c]
theorem same_main_v272__main_v384 : GenP.V61 mK outs c (Proc.devRef .tc main_v272) = ReferenceIdeal.RefRun.E mR c (Proc.devRef .tc ReferenceIdeal.main_v384) := by
  rw [rd_main_v272 mK outs c, ReferenceIdeal.RefRead.rd_main_v384 mR c, same_main_c_126__main_c_150 mK outs c mR h1]
theorem same_main_v273 : GenP.V61 mK outs c (Proc.devRef .tc main_v273) = ReferenceIdeal.RefRun.E mR c (Proc.devRef .tc ReferenceIdeal.main_v385) := by
  rw [rd_main_v273 mK outs c, ReferenceIdeal.RefRead.rd_main_v385 mR c, same_main_v269 mK outs c mR h1, same_main_v272__main_v384 mK outs c mR h1]
theorem same_main_c_127 : GenP.V61 mK outs c (Proc.devRef .tc main_c_127) = ReferenceIdeal.RefRun.E mR c (Proc.devRef .tc ReferenceIdeal.main_c_151) := by
  rw [rd_main_c_127 mK outs c, ReferenceIdeal.RefRead.rd_main_c_151 mR c]
theorem same_main_v274 : GenP.V61 mK outs c (Proc.devRef .tc main_v274) = ReferenceIdeal.RefRun.E mR c (Proc.devRef .tc ReferenceIdeal.main_v386) := by
  rw [rd_main_v274 mK outs c, ReferenceIdeal.RefRead.rd_main_v386 mR c, same_main_c_127 mK outs c mR h1]
theorem same_main_v275 : GenP.V61 mK outs c (Proc.devRef .tc main_v275) = ReferenceIdeal.RefRun.E mR c (Proc.devRef .tc ReferenceIdeal.main_v387) := by
  rw [rd_main_v275 mK outs c, ReferenceIdeal.RefRead.rd_main_v387 mR c, same_main_v269 mK outs c mR h1, same_main_v274 mK outs c mR h1]
theorem same_main_v276 : GenP.V61 mK outs c (Proc.devRef .tc main_v276) = ReferenceIdeal.RefRun.E mR c (Proc.devRef .tc ReferenceIdeal.main_v388) := by
  rw [rd_main_v276 mK outs c, ReferenceIdeal.RefRead.rd_main_v388 mR c, same_main_v273 mK outs c mR h1, same_main_v275 mK outs c mR h1]
theorem same_main_c_128 : GenP.V61 mK outs c (Proc.devRef .tc main_c_128) = ReferenceIdeal.RefRun.E mR c (Proc.devRef .tc ReferenceIdeal.main_c_100) := by
  rw [rd_main_c_128 mK outs c, ReferenceIdeal.RefRead.rd_main_c_100 mR c]
theorem same_main_c_128__main_c_89 : GenP.V61 mK outs c (Proc.devRef .tc main_c_128) = ReferenceIdeal.RefRun.E mR c (Proc.devRef .tc ReferenceIdeal.main_c_89) := by
  rw [rd_main_c_128 mK outs c, ReferenceIdeal.RefRead.rd_main_c_89 mR c]
theorem same_main_v277 : GenP.V61 mK outs c (Proc.devRef .tc main_v277) = ReferenceIdeal.RefRun.E mR c (Proc.devRef .tc ReferenceIdeal.main_v227) := by
  rw [rd_main_v277 mK outs c, ReferenceIdeal.RefRead.rd_main_v227 mR c, same_main_c_128__main_c_89 mK outs c mR h1]
theorem same_main_c_128__main_c_152 : GenP.V61 mK outs c (Proc.devRef .tc main_c_128) = ReferenceIdeal.RefRun.E mR c (Proc.devRef .tc ReferenceIdeal.main_c_152) := by
  rw [rd_main_c_128 mK outs c, ReferenceIdeal.RefRead.rd_main_c_152 mR c]
theorem same_main_v277__main_v389 : GenP.V61 mK outs c (Proc.devRef .tc main_v277) = ReferenceIdeal.RefRun.E mR c (Proc.devRef .tc ReferenceIdeal.main_v389) := by
  rw [rd_main_v277 mK outs c, ReferenceIdeal.RefRead.rd_main_v389 mR c, same_main_c_128__main_c_152 mK outs c mR h1]
theorem same_main_v278 : GenP.V61 mK outs c (Proc.devRef .tc main_v278) = ReferenceIdeal.RefRun.E mR c (Proc.devRef .tc ReferenceIdeal.main_v390) := by
  rw [rd_main_v278 mK outs c, ReferenceIdeal.RefRead.rd_main_v390 mR c, same_main_v271 mK outs c mR h1, same_main_v277__main_v389 mK outs c mR h1]
theorem same_main_v279 : GenP.V61 mK outs c (Proc.devRef .tc main_v279) = ReferenceIdeal.RefRun.E mR c (Proc.devRef .tc ReferenceIdeal.main_v391) := by
  rw [rd_main_v279 mK outs c, ReferenceIdeal.RefRead.rd_main_v391 mR c, same_main_v276 mK outs c mR h1, same_main_v278 mK outs c mR h1]
theorem same_main_c_129 : GenP.V61 mK outs c (Proc.devRef .tc main_c_129) = ReferenceIdeal.RefRun.E mR c (Proc.devRef .tc ReferenceIdeal.main_c_153) := by
  rw [rd_main_c_129 mK outs c, ReferenceIdeal.RefRead.rd_main_c_153 mR c]
theorem same_main_v280 : GenP.V61 mK outs c (Proc.devRef .tc main_v280) = ReferenceIdeal.RefRun.E mR c (Proc.devRef .tc ReferenceIdeal.main_v392) := by
  rw [rd_main_v280 mK outs c, ReferenceIdeal.RefRead.rd_main_v392 mR c, same_main_c_129 mK outs c mR h1]
theorem same_main_v281 : GenP.V61 mK outs c (Proc.devRef .tc main_v281) = ReferenceIdeal.RefRun.E mR c (Proc.devRef .tc ReferenceIdeal.main_v393) := by
  rw [rd_main_v281 mK outs c, ReferenceIdeal.RefRead.rd_main_v393 mR c, same_main_v271 mK outs c mR h1, same_main_v280 mK outs c mR h1]
theorem same_main_v282 : GenP.V61 mK outs c (Proc.devRef .tc main_v282) = ReferenceIdeal.RefRun.E mR c (Proc.devRef .tc ReferenceIdeal.main_v394) := by
  rw [rd_main_v282 mK outs c, ReferenceIdeal.RefRead.rd_main_v394 mR c, same_main_v279 mK outs c mR h1, same_main_v281 mK outs c mR h1]
theorem same_main_c_130 : GenP.V61 mK outs c (Proc.devRef .tc main_c_130) = ReferenceIdeal.RefRun.E mR c (Proc.devRef .tc ReferenceIdeal.main_c_103) := by
  rw [rd_main_c_130 mK outs c, ReferenceIdeal.RefRead.rd_main_c_103 mR c]
theorem same_main_c_131 : GenP.V61 mK outs c (Proc.devRef .tc main_c_131) = ReferenceIdeal.RefRun.E mR c (Proc.devRef .tc ReferenceIdeal.main_c_155) := by
  rw [rd_main_c_131 mK outs c, ReferenceIdeal.RefRead.rd_main_c_155 mR c]
theorem same_main_c_130__main_c_154 : GenP.V61 mK outs c (Proc.devRef .tc main_c_130) = ReferenceIdeal.RefRun.E mR c (Proc.devRef .tc ReferenceIdeal.main_c_154) := by
  rw [rd_main_c_130 mK outs c, ReferenceIdeal.RefRead.rd_main_c_154 mR c]
theorem same_main_call26_v0 : GenP.V61 mK outs c (Proc.devRef .tc main_call26_v0) = ReferenceIdeal.RefRun.E mR c (Proc.devRef .tc ReferenceIdeal.main_call27_v0) := by
  rw [rd_main_call26_v0 mK outs c, ReferenceIdeal.RefRead.rd_main_call27_v0 mR c, same_main_c_130__main_c_154 mK outs c mR h1]
theorem same_main_call26_v1 : GenP.V61 mK outs c (Proc.devRef .tc main_call26_v1) = ReferenceIdeal.RefRun.E mR c (Proc.devRef .tc ReferenceIdeal.main_call27_v1) := by
  rw [rd_main_call26_v1 mK outs c, ReferenceIdeal.RefRead.rd_main_call27_v1 mR c, same_main_call26_v0 mK outs c mR h1]
theorem same_main_call26_v2 : GenP.V61 mK outs c (Proc.devRef .tc main_call26_v2) = ReferenceIdeal.RefRun.E mR c (Proc.devRef .tc ReferenceIdeal.main_call27_v2) := by
  rw [rd_main_call26_v2 mK outs c, ReferenceIdeal.RefRead.rd_main_call27_v2 mR c, same_main_call26_v1 mK outs c mR h1, same_main_v269 mK outs c mR h1]
theorem same_main_call26_v3 : GenP.V61 mK outs c (Proc.devRef .tc main_call26_v3) = ReferenceIdeal.RefRun.E mR c (Proc.devRef .tc ReferenceIdeal.main_call27_v3) := by
  rw [rd_main_call26_v3 mK outs c, ReferenceIdeal.RefRead.rd_main_call27_v3 mR c, same_main_c_131 mK outs c mR h1]
theorem same_main_call26_v4 : GenP.V61 mK outs c (Proc.devRef .tc main_call26_v4) = ReferenceIdeal.RefRun.E mR c (Proc.devRef .tc ReferenceIdeal.main_call27_v4) := by
  rw [rd_main_call26_v4 mK outs c, ReferenceIdeal.RefRead.rd_main_call27_v4 mR c, same_main_call26_v3 mK outs c mR h1]
theorem same_main_v283 : GenP.V61 mK outs c (Proc.devRef .tc main_v283) = ReferenceIdeal.RefRun.E mR c (Proc.devRef .tc ReferenceIdeal.main_v395) := by
  rw [rd_main_v283 mK outs c, ReferenceIdeal.RefRead.rd_main_v395 mR c, same_main_call26_v4 mK outs c mR h1, same_main_call26_v2 mK outs c mR h1]
theorem same_main_c_132 : GenP.V61 mK outs c (Proc.devRef .tc main_c_132) = ReferenceIdeal.RefRun.E mR c (Proc.devRef .tc ReferenceIdeal.main_c_156) := by
  rw [rd_main_c_132 mK outs c, ReferenceIdeal.RefRead.rd_main_c_156 mR c]
theorem same_main_v284 : GenP.V61 mK outs c (Proc.devRef .tc main_v284) = ReferenceIdeal.RefRun.E mR c (Proc.devRef .tc ReferenceIdeal.main_v396) := by
  rw [rd_main_v284 mK outs c, ReferenceIdeal.RefRead.rd_main_v396 mR c, same_main_c_132 mK outs c mR h1]
theorem same_main_v285 : GenP.V61 mK outs c (Proc.devRef .tc main_v285) = ReferenceIdeal.RefRun.E mR c (Proc.devRef .tc ReferenceIdeal.main_v397) := by
  rw [rd_main_v285 mK outs c, ReferenceIdeal.RefRead.rd_main_v397 mR c, same_main_v283 mK outs c mR h1, same_main_v284 mK outs c mR h1]
theorem same_main_c_133 : GenP.V61 mK outs c (Proc.devRef .tc main_c_133) = ReferenceIdeal.RefRun.E mR c (Proc.devRef .tc ReferenceIdeal.main_c_105) := by
  rw [rd_main_c_133 mK outs c, ReferenceIdeal.RefRead.rd_main_c_105 mR c]
theorem same_main_c_134 : GenP.V61 mK outs c (Proc.devRef .tc main_c_134) = ReferenceIdeal.RefRun.E mR c (Proc.devRef .tc ReferenceIdeal.main_c_158) := by
  rw [rd_main_c_134 mK outs c, ReferenceIdeal.RefRead.rd_main_c_158 mR c]
theorem same_main_c_133__main_c_157 : GenP.V61 mK outs c (Proc.devRef .tc main_c_133) = ReferenceIdeal.RefRun.E mR c (Proc.devRef .tc ReferenceIdeal.main_c_157) := by
  rw [rd_main_c_133 mK outs c, ReferenceIdeal.RefRead.rd_main_c_157 mR c]
theorem same_main_call27_v0 : GenP.V61 mK outs c (Proc.devRef .tc main_call27_v0) = ReferenceIdeal.RefRun.E mR c (Proc.devRef .tc ReferenceIdeal.main_call28_v0) := by
  rw [rd_main_call27_v0 mK outs c, ReferenceIdeal.RefRead.rd_main_call28_v0 mR c, same_main_c_133__main_c_157 mK outs c mR h1]
theorem same_main_call27_v1 : GenP.V61 mK outs c (Proc.devRef .tc main_call27_v1) = ReferenceIdeal.RefRun.E mR c (Proc.devRef .tc ReferenceIdeal.main_call28_v1) := by
  rw [rd_main_call27_v1 mK outs c, ReferenceIdeal.RefRead.rd_main_call28_v1 mR c, same_main_call27_v0 mK outs c mR h1]
theorem same_main_call27_v2 : GenP.V61 mK outs c (Proc.devRef .tc main_call27_v2) = ReferenceIdeal.RefRun.E mR c (Proc.devRef .tc ReferenceIdeal.main_call28_v2) := by
  rw [rd_main_call27_v2 mK outs c, ReferenceIdeal.RefRead.rd_main_call28_v2 mR c, same_main_call27_v1 mK outs c mR h1, same_main_v271 mK outs c mR h1]
theorem same_main_call27_v3 : GenP.V61 mK outs c (Proc.devRef .tc main_call27_v3) = ReferenceIdeal.RefRun.E mR c (Proc.devRef .tc ReferenceIdeal.main_call28_v3) := by
  rw [rd_main_call27_v3 mK outs c, ReferenceIdeal.RefRead.rd_main_call28_v3 mR c, same_main_c_134 mK outs c mR h1]
theorem same_main_call27_v4 : GenP.V61 mK outs c (Proc.devRef .tc main_call27_v4) = ReferenceIdeal.RefRun.E mR c (Proc.devRef .tc ReferenceIdeal.main_call28_v4) := by
  rw [rd_main_call27_v4 mK outs c, ReferenceIdeal.RefRead.rd_main_call28_v4 mR c, same_main_call27_v3 mK outs c mR h1]
theorem same_main_v286 : GenP.V61 mK outs c (Proc.devRef .tc main_v286) = ReferenceIdeal.RefRun.E mR c (Proc.devRef .tc ReferenceIdeal.main_v398) := by
  rw [rd_main_v286 mK outs c, ReferenceIdeal.RefRead.rd_main_v398 mR c, same_main_call27_v4 mK outs c mR h1, same_main_call27_v2 mK outs c mR h1]
theorem same_main_v287 : GenP.V61 mK outs c (Proc.devRef .tc main_v287) = ReferenceIdeal.RefRun.E mR c (Proc.devRef .tc ReferenceIdeal.main_v399) := by
  rw [rd_main_v287 mK outs c, ReferenceIdeal.RefRead.rd_main_v399 mR c, same_main_v285 mK outs c mR h1, same_main_v286 mK outs c mR h1]
theorem same_main_c_135 : GenP.V61 mK outs c (Proc.devRef .tc main_c_135) = ReferenceIdeal.RefRun.E mR c (Proc.devRef .tc ReferenceIdeal.main_c_107) := by
  rw [rd_main_c_135 mK outs c, ReferenceIdeal.RefRead.rd_main_c_107 mR c]
theorem same_main_c_135__main_c_90 : GenP.V61 mK outs c (Proc.devRef .tc main_c_135) = ReferenceIdeal.RefRun.E mR c (Proc.devRef .tc ReferenceIdeal.main_c_90) := by
  rw [rd_main_c_135 mK outs c, ReferenceIdeal.RefRead.rd_main_c_90 mR c]
theorem same_main_v288 : GenP.V61 mK outs c (Proc.devRef .tc main_v288) = ReferenceIdeal.RefRun.E mR c (Proc.devRef .tc ReferenceIdeal.main_v231) := by
  rw [rd_main_v288 mK outs c, ReferenceIdeal.RefRead.rd_main_v231 mR c, same_main_c_135__main_c_90 mK outs c mR h1]
theorem same_main_c_135__main_c_159 : GenP.V61 mK outs c (Proc.devRef .tc main_c_135) = ReferenceIdeal.RefRun.E mR c (Proc.devRef .tc ReferenceIdeal.main_c_159) := by
  rw [rd_main_c_135 mK outs c, ReferenceIdeal.RefRead.rd_main_c_159 mR c]
theorem same_main_v288__main_v400 : GenP.V61 mK outs c (Proc.devRef .tc main_v288) = ReferenceIdeal.RefRun.E mR c (Proc.devRef .tc ReferenceIdeal.main_v400) := by
  rw [rd_main_v288 mK outs c, ReferenceIdeal.RefRead.rd_main_v400 mR c, same_main_c_135__main_c_159 mK outs c mR h1]
theorem same_main_v289 : GenP.V61 mK outs c (Proc.devRef .tc main_v289) = ReferenceIdeal.RefRun.E mR c (Proc.devRef .tc ReferenceIdeal.main_v401) := by
  rw [rd_main_v289 mK outs c, ReferenceIdeal.RefRead.rd_main_v401 mR c, same_main_v287 mK outs c mR h1, same_main_v288__main_v400 mK outs c mR h1]
theorem same_main_c_136 : GenP.V61 mK outs c (Proc.devRef .tc main_c_136) = ReferenceIdeal.RefRun.E mR c (Proc.devRef .tc ReferenceIdeal.main_c_160) := by
  rw [rd_main_c_136 mK outs c, ReferenceIdeal.RefRead.rd_main_c_160 mR c]
theorem same_main_v290 : GenP.V61 mK outs c (Proc.devRef .tc main_v290) = ReferenceIdeal.RefRun.E mR c (Proc.devRef .tc ReferenceIdeal.main_v402) := by
  rw [rd_main_v290 mK outs c, ReferenceIdeal.RefRead.rd_main_v402 mR c, same_main_c_136 mK outs c mR h1]
theorem same_main_v291 : GenP.V61 mK outs c (Proc.devRef .tc main_v291) = ReferenceIdeal.RefRun.E mR c (Proc.devRef .tc ReferenceIdeal.main_v403) := by
  rw [rd_main_v291 mK outs c, ReferenceIdeal.RefRead.rd_main_v403 mR c, same_main_v287 mK outs c mR h1, same_main_v290 mK outs c mR h1]
theorem same_main_v292 : GenP.V61 mK outs c (Proc.devRef .tc main_v292) = ReferenceIdeal.RefRun.E mR c (Proc.devRef .tc ReferenceIdeal.main_v404) := by
  rw [rd_main_v292 mK outs c, ReferenceIdeal.RefRead.rd_main_v404 mR c, same_main_v289 mK outs c mR h1, same_main_v291 mK outs c mR h1, same_main_v287 mK outs c mR h1]
theorem same_main_v293 : GenP.V61 mK outs c (Proc.devRef .tc main_v293) = ReferenceIdeal.RefRun.E mR c (Proc.devRef .tc ReferenceIdeal.main_v405) := by
  rw [rd_main_v293 mK outs c, ReferenceIdeal.RefRead.rd_main_v405 mR c, same_main_v292 mK outs c mR h1]
theorem same_main_c_137 : GenP.V61 mK outs c (Proc.devRef .tc main_c_137) = ReferenceIdeal.RefRun.E mR c (Proc.devRef .tc ReferenceIdeal.main_c_164) := by
  rw [rd_main_c_137 mK outs c, ReferenceIdeal.RefRead.rd_main_c_164 mR c]
theorem same_main_v295 : GenP.V61 mK outs c (Proc.devRef .tc main_v295) = ReferenceIdeal.RefRun.E mR c (Proc.devRef .tc ReferenceIdeal.main_v415) := by
  rw [rd_main_v295 mK outs c, ReferenceIdeal.RefRead.rd_main_v415 mR c, same_main_c_137 mK outs c mR h1]
theorem same_main_c_138 : GenP.V61 mK outs c (Proc.devRef .tc main_c_138) = ReferenceIdeal.RefRun.E mR c (Proc.devRef .tc ReferenceIdeal.main_c_164) := by
  rw [rd_main_c_138 mK outs c, ReferenceIdeal.RefRead.rd_main_c_164 mR c]
theorem same_main_c_139 : GenP.V61 mK outs c (Proc.devRef .tc main_c_139) = ReferenceIdeal.RefRun.E mR c (Proc.devRef .tc ReferenceIdeal.main_c_108) := by
  rw [rd_main_c_139 mK outs c, ReferenceIdeal.RefRead.rd_main_c_108 mR c]

end Cert.KernelIdeal.Glue
-- ==== Proof.GlueSame.lean ====
/- All the congruences between the two programs' integer arrays. -/
import proofs.«125710_j13511967113615_2_alg».proof.Proof.GlueSame3
-- ==== Proof.GlueSameTaps.lean ====
/-
  The nine taps' masks and linear indices are the same arrays in the two programs.

  For every tap the kernel program's in-grid mask and clipped linear index are computed from main_arg1 by the same
  operations as the reference's; likewise the start indices at which the row numbers are scattered into the cell table,
  and the row numbers themselves (an iota). Tap by tap: the family's value at the tap's number is the tap's buffer
  (by computation), and the buffers' congruence is in the table of congruences.
-/
import proofs.«125710_j13511967113615_2_alg».proof.Proof.GlueSame
import proofs.«125710_j13511967113615_2_alg».proof.Proof.GlueFam

noncomputable section

namespace Cert.KernelIdeal.Glue

open Idealize.ShloMosaic Idealize.ShloMosaic.TcCoe

variable {F : FTy → Type} [FloatOps F]
variable (mK : (ℓ : Loc nD τ sig) → Buf (Elt F) ℓ) (outs : GenP.Outs (F := F)) (c : Dev nD)
  (mR : (ℓ : Loc ReferenceIdeal.nD ReferenceIdeal.τ ReferenceIdeal.sig) → Buf (Elt F) ℓ)

theorem inbv_at0 : inbv mK outs c 0 = GenP.V61 mK outs c (Proc.devRef .tc main_v34) := rfl
theorem inbRv_at0 : inbRv mR c 0 = ReferenceIdeal.RefRun.E mR c (Proc.devRef .tc ReferenceIdeal.main_v34) := rfl
theorem linv_at0 : linv mK outs c 0 = GenP.V61 mK outs c (Proc.devRef .tc main_v44) := rfl
theorem linRv_at0 : linRv mR c 0 = ReferenceIdeal.RefRun.E mR c (Proc.devRef .tc ReferenceIdeal.main_v44) := rfl
theorem inbv_at1 : inbv mK outs c 1 = GenP.V61 mK outs c (Proc.devRef .tc main_v65) := rfl
theorem inbRv_at1 : inbRv mR c 1 = ReferenceIdeal.RefRun.E mR c (Proc.devRef .tc ReferenceIdeal.main_v79) := rfl
theorem linv_at1 : linv mK outs c 1 = GenP.V61 mK outs c (Proc.devRef .tc main_v75) := rfl
theorem linRv_at1 : linRv mR c 1 = ReferenceIdeal.RefRun.E mR c (Proc.devRef .tc ReferenceIdeal.main_v89) := rfl
theorem inbv_at2 : inbv mK outs c 2 = GenP.V61 mK outs c (Proc.devRef .tc main_v96) := rfl
theorem inbRv_at2 : inbRv mR c 2 = ReferenceIdeal.RefRun.E mR c (Proc.devRef .tc ReferenceIdeal.main_v124) := rfl
theorem linv_at2 : linv mK outs c 2 = GenP.V61 mK outs c (Proc.devRef .tc main_v106) := rfl
theorem linRv_at2 : linRv mR c 2 = ReferenceIdeal.RefRun.E mR c (Proc.devRef .tc ReferenceIdeal.main_v134) := rfl
theorem inbv_at3 : inbv mK outs c 3 = GenP.V61 mK outs c (Proc.devRef .tc main_v127) := rfl
theorem inbRv_at3 : inbRv mR c 3 = ReferenceIdeal.RefRun.E mR c (Proc.devRef .tc ReferenceIdeal.main_v169) := rfl
theorem linv_at3 : linv mK outs c 3 = GenP.V61 mK outs c (Proc.devRef .tc main_v137) := rfl
theorem linRv_at3 : linRv mR c 3 = ReferenceIdeal.RefRun.E mR c (Proc.devRef .tc ReferenceIdeal.main_v179) := rfl
theorem inbv_at4 : inbv mK outs c 4 = GenP.V61 mK outs c (Proc.devRef .tc main_v158) := rfl
theorem inbRv_at4 : inbRv mR c 4 = ReferenceIdeal.RefRun.E mR c (Proc.devRef .tc ReferenceIdeal.main_v214) := rfl
theorem linv_at4 : linv mK outs c 4 = GenP.V61 mK outs c (Proc.devRef .tc main_v168) := rfl
theorem linRv_at4 : linRv mR c 4 = ReferenceIdeal.RefRun.E mR c (Proc.devRef .tc ReferenceIdeal.main_v224) := rfl
theorem inbv_at5 : inbv mK outs c 5 = GenP.V61 mK outs c (Proc.devRef .tc main_v189) := rfl
theorem inbRv_at5 : inbRv mR c 5 = ReferenceIdeal.RefRun.E mR c (Proc.devRef .tc ReferenceIdeal.main_v259) := rfl
theorem linv_at5 : linv mK outs c 5 = GenP.V61 mK outs c (Proc.devRef .tc main_v199) := rfl
theorem linRv_at5 : linRv mR c 5 = ReferenceIdeal.RefRun.E mR c (Proc.devRef .tc ReferenceIdeal.main_v269) := rfl
theorem inbv_at6 : inbv mK outs c 6 = GenP.V61 mK outs c (Proc.devRef .tc main_v220) := rfl
theorem inbRv_at6 : inbRv mR c 6 = ReferenceIdeal.RefRun.E mR c (Proc.devRef .tc ReferenceIdeal.main_v304) := rfl
theorem linv_at6 : linv mK outs c 6 = GenP.V61 mK outs c (Proc.devRef .tc main_v230) := rfl
theorem linRv_at6 : linRv mR c 6 = ReferenceIdeal.RefRun.E mR c (Proc.devRef .tc ReferenceIdeal.main_v314) := rfl
theorem inbv_at7 : inbv mK outs c 7 = GenP.V61 mK outs c (Proc.devRef .tc main_v251) := rfl
theorem inbRv_at7 : inbRv mR c 7 = ReferenceIdeal.RefRun.E mR c (Proc.devRef .tc ReferenceIdeal.main_v349) := rfl
theorem linv_at7 : linv mK outs c 7 = GenP.V61 mK outs c (Proc.devRef .tc main_v261) := rfl
theorem linRv_at7 : linRv mR c 7 = ReferenceIdeal.RefRun.E mR c (Proc.devRef .tc ReferenceIdeal.main_v359) := rfl
theorem inbv_at8 : inbv mK outs c 8 = GenP.V61 mK outs c (Proc.devRef .tc main_v282) := rfl
theorem inbRv_at8 : inbRv mR c 8 = ReferenceIdeal.RefRun.E mR c (Proc.devRef .tc ReferenceIdeal.main_v394) := rfl
theorem linv_at8 : linv mK outs c 8 = GenP.V61 mK outs c (Proc.devRef .tc main_v292) := rfl
theorem linRv_at8 : linRv mR c 8 = ReferenceIdeal.RefRun.E mR c (Proc.devRef .tc ReferenceIdeal.main_v404) := rfl

variable (h1 : mR ((c : Thread ReferenceIdeal.nD ReferenceIdeal.τ).loc ReferenceIdeal.main_arg1) = mK ((c : Thread nD τ).loc main_arg1))
include h1

theorem same_inb0 : inbv mK outs c 0 = inbRv mR c 0 :=
  (inbv_at0 mK outs c).trans ((same_main_v34 mK outs c mR h1).trans (inbRv_at0 c mR).symm)
theorem same_lin0 : linv mK outs c 0 = linRv mR c 0 :=
  (linv_at0 mK outs c).trans ((same_main_v44 mK outs c mR h1).trans (linRv_at0 c mR).symm)
theorem same_inb1 : inbv mK outs c 1 = inbRv mR c 1 :=
  (inbv_at1 mK outs c).trans ((same_main_v65 mK outs c mR h1).trans (inbRv_at1 c mR).symm)
theorem same_lin1 : linv mK outs c 1 = linRv mR c 1 :=
  (linv_at1 mK outs c).trans ((same_main_v75 mK outs c mR h1).trans (linRv_at1 c mR).symm)
theorem same_inb2 : inbv mK outs c 2 = inbRv mR c 2 :=
  (inbv_at2 mK outs c).trans ((same_main_v96 mK outs c mR h1).trans (inbRv_at2 c mR).symm)
theorem same_lin2 : linv mK outs c 2 = linRv mR c 2 :=
  (linv_at2 mK outs c).trans ((same_main_v106 mK outs c mR h1).trans (linRv_at2 c mR).symm)
theorem same_inb3 : inbv mK outs c 3 = inbRv mR c 3 :=
  (inbv_at3 mK outs c).trans ((same_main_v127 mK outs c mR h1).trans (inbRv_at3 c mR).symm)
theorem same_lin3 : linv mK outs c 3 = linRv mR c 3 :=
  (linv_at3 mK outs c).trans ((same_main_v137 mK outs c mR h1).trans (linRv_at3 c mR).symm)
theorem same_inb4 : inbv mK outs c 4 = inbRv mR c 4 :=
  (inbv_at4 mK outs c).trans ((same_main_v158 mK outs c mR h1).trans (inbRv_at4 c mR).symm)
theorem same_lin4 : linv mK outs c 4 = linRv mR c 4 :=
  (linv_at4 mK outs c).trans ((same_main_v168 mK outs c mR h1).trans (linRv_at4 c mR).symm)
theorem same_inb5 : inbv mK outs c 5 = inbRv mR c 5 :=
  (inbv_at5 mK outs c).trans ((same_main_v189 mK outs c mR h1).trans (inbRv_at5 c mR).symm)
theorem same_lin5 : linv mK outs c 5 = linRv mR c 5 :=
  (linv_at5 mK outs c).trans ((same_main_v199 mK outs c mR h1).trans (linRv_at5 c mR).symm)
theorem same_inb6 : inbv mK outs c 6 = inbRv mR c 6 :=
  (inbv_at6 mK outs c).trans ((same_main_v220 mK outs c mR h1).trans (inbRv_at6 c mR).symm)
theorem same_lin6 : linv mK outs c 6 = linRv mR c 6 :=
  (linv_at6 mK outs c).trans ((same_main_v230 mK outs c mR h1).trans (linRv_at6 c mR).symm)
theorem same_inb7 : inbv mK outs c 7 = inbRv mR c 7 :=
  (inbv_at7 mK outs c).trans ((same_main_v251 mK outs c mR h1).trans (inbRv_at7 c mR).symm)
theorem same_lin7 : linv mK outs c 7 = linRv mR c 7 :=
  (linv_at7 mK outs c).trans ((same_main_v261 mK outs c mR h1).trans (linRv_at7 c mR).symm)
theorem same_inb8 : inbv mK outs c 8 = inbRv mR c 8 :=
  (inbv_at8 mK outs c).trans ((same_main_v282 mK outs c mR h1).trans (inbRv_at8 c mR).symm)
theorem same_lin8 : linv mK outs c 8 = linRv mR c 8 :=
  (linv_at8 mK outs c).trans ((same_main_v292 mK outs c mR h1).trans (linRv_at8 c mR).symm)

/-- Tap k's in-grid mask is the same in both programs. -/
theorem same_inb (k : Fin 9) : inbv mK outs c k = inbRv mR c k :=
  match k with
  | 0 => same_inb0 mK outs c mR h1
  | 1 => same_inb1 mK outs c mR h1
  | 2 => same_inb2 mK outs c mR h1
  | 3 => same_inb3 mK outs c mR h1
  | 4 => same_inb4 mK outs c mR h1
  | 5 => same_inb5 mK outs c mR h1
  | 6 => same_inb6 mK outs c mR h1
  | 7 => same_inb7 mK outs c mR h1
  | 8 => same_inb8 mK outs c mR h1

/-- Tap k's clipped linear index, made non-negative, is the same in both programs. -/
theorem same_lin (k : Fin 9) : linv mK outs c k = linRv mR c k :=
  match k with
  | 0 => same_lin0 mK outs c mR h1
  | 1 => same_lin1 mK outs c mR h1
  | 2 => same_lin2 mK outs c mR h1
  | 3 => same_lin3 mK outs c mR h1
  | 4 => same_lin4 mK outs c mR h1
  | 5 => same_lin5 mK outs c mR h1
  | 6 => same_lin6 mK outs c mR h1
  | 7 => same_lin7 mK outs c mR h1
  | 8 => same_lin8 mK outs c mR h1

/-- The start indices [N, 1] of the scatter into the cell table are the same in both programs. -/
theorem same_scatIdx : GenP.V61 mK outs c main_v14 = ReferenceIdeal.RefRun.E mR c (Proc.devRef .tc ReferenceIdeal.main_v15) :=
  same_main_v14 mK outs c mR h1

/-- The row numbers scattered into the cell table are the same in both programs. -/
theorem same_iota : GenP.V61 mK outs c main_v8 = ReferenceIdeal.RefRun.E mR c (Proc.devRef .tc ReferenceIdeal.main_v9) :=
  same_main_v8 mK outs c mR h1

end Cert.KernelIdeal.Glue
-- ==== Proof.RefTapsTable.lean ====
/- The nine taps of the reference read at an index: each tap's result buffer, through that tap's read-back equations (substituted latest first), is the one-tap expression of the table, the first stage's rows, the tap's in-grid mask and its linear cell index. -/
import proofs.«125710_j13511967113615_2_alg».proof.Proof.RefRead0
import proofs.«125710_j13511967113615_2_alg».proof.Proof.RefRead1
import proofs.«125710_j13511967113615_2_alg».proof.Proof.RefRead2
import proofs.«125710_j13511967113615_2_alg».proof.Proof.RefRead3
import proofs.«125710_j13511967113615_2_alg».proof.Proof.RefRead4
import proofs.«125710_j13511967113615_2_alg».proof.Proof.RefRead5
import proofs.«125710_j13511967113615_2_alg».proof.Proof.RefRead6
import proofs.«125710_j13511967113615_2_alg».proof.Proof.RefRead7
import proofs.«125710_j13511967113615_2_alg».proof.Proof.RefRead8
import proofs.«125710_j13511967113615_2_alg».proof.Proof.RefRead9
import proofs.«125710_j13511967113615_2_alg».proof.Proof.RefRead10
import proofs.«125710_j13511967113615_2_alg».proof.Proof.RefTapExpr
import proofs.«125710_j13511967113615_2_alg».proof.Proof.TapMath

noncomputable section

namespace Cert.ReferenceIdeal.RefIdx

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.RefRead Idealize.ShloMosaic.ValueIdx

theorem w_tap0 (m : (ℓ : Loc nD τ sig) → Buf (Elt Ideal) ℓ) (c : Dev nD) (i : Fin 200000) (l : Fin 64) :
    (RefRun.E (F := Ideal) m c (Proc.devRef .tc main_v60)) (ix2 i l)
      = Scalar.select (α := EReal) (IntOp.andi ((RefRun.E (F := Ideal) m c (Proc.devRef .tc main_v34)) (ix1 i)) (IntOp.cmpi .sge ((RefRun.E (F := Ideal) m c (Proc.devRef .tc main_v16)) (ix1 (Cert.LibGcnAgg.clampNode 589824 (by decide) ((RefRun.E (F := Ideal) m c (Proc.devRef .tc main_v44)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v44)) (ix1 i))))) 0#32))) l))
          0 := by
  rw [rd_main_v60, rd_main_call5_v2, rd_main_call5_v1, rd_main_call5_v0, rd_main_cst_21, rd_main_v59, rd_main_v58, rd_main_v57, rd_main_v56, rd_main_v55, rd_main_c_20, rd_main_v54, rd_main_v53, rd_main_c_19, rd_main_v52, rd_main_v51, rd_main_c_18, rd_main_v50, rd_main_v49, rd_main_v48, rd_main_v47, rd_main_c_17, rd_main_v46, rd_main_v45]
  exact tap_expr _ _ _ _ _ _ _ _ _ rfl _ rfl i l

theorem w_tap1 (m : (ℓ : Loc nD τ sig) → Buf (Elt Ideal) ℓ) (c : Dev nD) (i : Fin 200000) (l : Fin 64) :
    (RefRun.E (F := Ideal) m c (Proc.devRef .tc main_v105)) (ix2 i l)
      = Scalar.select (α := EReal) (IntOp.andi ((RefRun.E (F := Ideal) m c (Proc.devRef .tc main_v79)) (ix1 i)) (IntOp.cmpi .sge ((RefRun.E (F := Ideal) m c (Proc.devRef .tc main_v16)) (ix1 (Cert.LibGcnAgg.clampNode 589824 (by decide) ((RefRun.E (F := Ideal) m c (Proc.devRef .tc main_v89)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v89)) (ix1 i))))) 0#32))) l))
          0 := by
  rw [rd_main_v105, rd_main_call8_v2, rd_main_call8_v1, rd_main_call8_v0, rd_main_cst_39, rd_main_v104, rd_main_v103, rd_main_v102, rd_main_v101, rd_main_v100, rd_main_c_38, rd_main_v99, rd_main_v98, rd_main_c_37, rd_main_v97, rd_main_v96, rd_main_c_36, rd_main_v95, rd_main_v94, rd_main_v93, rd_main_v92, rd_main_c_35, rd_main_v91, rd_main_v90]
  exact tap_expr _ _ _ _ _ _ _ _ _ rfl _ rfl i l

theorem w_tap2 (m : (ℓ : Loc nD τ sig) → Buf (Elt Ideal) ℓ) (c : Dev nD) (i : Fin 200000) (l : Fin 64) :
    (RefRun.E (F := Ideal) m c (Proc.devRef .tc main_v150)) (ix2 i l)
      = Scalar.select (α := EReal) (IntOp.andi ((RefRun.E (F := Ideal) m c (Proc.devRef .tc main_v124)) (ix1 i)) (IntOp.cmpi .sge ((RefRun.E (F := Ideal) m c (Proc.devRef .tc main_v16)) (ix1 (Cert.LibGcnAgg.clampNode 589824 (by decide) ((RefRun.E (F := Ideal) m c (Proc.devRef .tc main_v134)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v134)) (ix1 i))))) 0#32))) l))
          0 := by
  rw [rd_main_v150, rd_main_call11_v2, rd_main_call11_v1, rd_main_call11_v0, rd_main_cst_57, rd_main_v149, rd_main_v148, rd_main_v147, rd_main_v146, rd_main_v145, rd_main_c_56, rd_main_v144, rd_main_v143, rd_main_c_55, rd_main_v142, rd_main_v141, rd_main_c_54, rd_main_v140, rd_main_v139, rd_main_v138, rd_main_v137, rd_main_c_53, rd_main_v136, rd_main_v135]
  exact tap_expr _ _ _ _ _ _ _ _ _ rfl _ rfl i l

theorem w_tap3 (m : (ℓ : Loc nD τ sig) → Buf (Elt Ideal) ℓ) (c : Dev nD) (i : Fin 200000) (l : Fin 64) :
    (RefRun.E (F := Ideal) m c (Proc.devRef .tc main_v195)) (ix2 i l)
      = Scalar.select (α := EReal) (IntOp.andi ((RefRun.E (F := Ideal) m c (Proc.devRef .tc main_v169)) (ix1 i)) (IntOp.cmpi .sge ((RefRun.E (F := Ideal) m c (Proc.devRef .tc main_v16)) (ix1 (Cert.LibGcnAgg.clampNode 589824 (by decide) ((RefRun.E (F := Ideal) m c (Proc.devRef .tc main_v179)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v179)) (ix1 i))))) 0#32))) l))
          0 := by
  rw [rd_main_v195, rd_main_call14_v2, rd_main_call14_v1, rd_main_call14_v0, rd_main_cst_75, rd_main_v194, rd_main_v193, rd_main_v192, rd_main_v191, rd_main_v190, rd_main_c_74, rd_main_v189, rd_main_v188, rd_main_c_73, rd_main_v187, rd_main_v186, rd_main_c_72, rd_main_v185, rd_main_v184, rd_main_v183, rd_main_v182, rd_main_c_71, rd_main_v181, rd_main_v180]
  exact tap_expr _ _ _ _ _ _ _ _ _ rfl _ rfl i l

theorem w_tap4 (m : (ℓ : Loc nD τ sig) → Buf (Elt Ideal) ℓ) (c : Dev nD) (i : Fin 200000) (l : Fin 64) :
    (RefRun.E (F := Ideal) m c (Proc.devRef .tc main_v240)) (ix2 i l)
      = Scalar.select (α := EReal) (IntOp.andi ((RefRun.E (F := Ideal) m c (Proc.devRef .tc main_v214)) (ix1 i)) (IntOp.cmpi .sge ((RefRun.E (F := Ideal) m c (Proc.devRef .tc main_v16)) (ix1 (Cert.LibGcnAgg.clampNode 589824 (by decide) ((RefRun.E (F := Ideal) m c (Proc.devRef .tc main_v224)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v224)) (ix1 i))))) 0#32))) l))
          0 := by
  rw [rd_main_v240, rd_main_call17_v2, rd_main_call17_v1, rd_main_call17_v0, rd_main_cst_93, rd_main_v239, rd_main_v238, rd_main_v237, rd_main_v236, rd_main_v235, rd_main_c_92, rd_main_v234, rd_main_v233, rd_main_c_91, rd_main_v232, rd_main_v231, rd_main_c_90, rd_main_v230, rd_main_v229, rd_main_v228, rd_main_v227, rd_main_c_89, rd_main_v226, rd_main_v225]
  exact tap_expr _ _ _ _ _ _ _ _ _ rfl _ rfl i l

theorem w_tap5 (m : (ℓ : Loc nD τ sig) → Buf (Elt Ideal) ℓ) (c : Dev nD) (i : Fin 200000) (l : Fin 64) :
    (RefRun.E (F := Ideal) m c (Proc.devRef .tc main_v285)) (ix2 i l)
      = Scalar.select (α := EReal) (IntOp.andi ((RefRun.E (F := Ideal) m c (Proc.devRef .tc main_v259)) (ix1 i)) (IntOp.cmpi .sge ((RefRun.E (F := Ideal) m c (Proc.devRef .tc main_v16)) (ix1 (Cert.LibGcnAgg.clampNode 589824 (by decide) ((RefRun.E (F := Ideal) m c (Proc.devRef .tc main_v269)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v269)) (ix1 i))))) 0#32))) l))
          0 := by
  rw [rd_main_v285, rd_main_call20_v2, rd_main_call20_v1, rd_main_call20_v0, rd_main_cst_111, rd_main_v284, rd_main_v283, rd_main_v282, rd_main_v281, rd_main_v280, rd_main_c_110, rd_main_v279, rd_main_v278, rd_main_c_109, rd_main_v277, rd_main_v276, rd_main_c_108, rd_main_v275, rd_main_v274, rd_main_v273, rd_main_v272, rd_main_c_107, rd_main_v271, rd_main_v270]
  exact tap_expr _ _ _ _ _ _ _ _ _ rfl _ rfl i l

theorem w_tap6 (m : (ℓ : Loc nD τ sig) → Buf (Elt Ideal) ℓ) (c : Dev nD) (i : Fin 200000) (l : Fin 64) :
    (RefRun.E (F := Ideal) m c (Proc.devRef .tc main_v330)) (ix2 i l)
      = Scalar.select (α := EReal) (IntOp.andi ((RefRun.E (F := Ideal) m c (Proc.devRef .tc main_v304)) (ix1 i)) (IntOp.cmpi .sge ((RefRun.E (F := Ideal) m c (Proc.devRef .tc main_v16)) (ix1 (Cert.LibGcnAgg.clampNode 589824 (by decide) ((RefRun.E (F := Ideal) m c (Proc.devRef .tc main_v314)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v314)) (ix1 i))))) 0#32))) l))
          0 := by
  rw [rd_main_v330, rd_main_call23_v2, rd_main_call23_v1, rd_main_call23_v0, rd_main_cst_129, rd_main_v329, rd_main_v328, rd_main_v327, rd_main_v326, rd_main_v325, rd_main_c_128, rd_main_v324, rd_main_v323, rd_main_c_127, rd_main_v322, rd_main_v321, rd_main_c_126, rd_main_v320, rd_main_v319, rd_main_v318, rd_main_v317, rd_main_c_125, rd_main_v316, rd_main_v315]
  exact tap_expr _ _ _ _ _ _ _ _ _ rfl _ rfl i l

theorem w_tap7 (m : (ℓ : Loc nD τ sig) → Buf (Elt Ideal) ℓ) (c : Dev nD) (i : Fin 200000) (l : Fin 64) :
    (RefRun.E (F := Ideal) m c (Proc.devRef .tc main_v375)) (ix2 i l)
      = Scalar.select (α := EReal) (IntOp.andi ((RefRun.E (F := Ideal) m c (Proc.devRef .tc main_v349)) (ix1 i)) (IntOp.cmpi .sge ((RefRun.E (F := Ideal) m c (Proc.devRef .tc main_v16)) (ix1 (Cert.LibGcnAgg.clampNode 589824 (by decide) ((RefRun.E (F := Ideal) m c (Proc.devRef .tc main_v359)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v359)) (ix1 i))))) 0#32))) l))
          0 := by
  rw [rd_main_v375, rd_main_call26_v2, rd_main_call26_v1, rd_main_call26_v0, rd_main_cst_147, rd_main_v374, rd_main_v373, rd_main_v372, rd_main_v371, rd_main_v370, rd_main_c_146, rd_main_v369, rd_main_v368, rd_main_c_145, rd_main_v367, rd_main_v366, rd_main_c_144, rd_main_v365, rd_main_v364, rd_main_v363, rd_main_v362, rd_main_c_143, rd_main_v361, rd_main_v360]
  exact tap_expr _ _ _ _ _ _ _ _ _ rfl _ rfl i l

theorem w_tap8 (m : (ℓ : Loc nD τ sig) → Buf (Elt Ideal) ℓ) (c : Dev nD) (i : Fin 200000) (l : Fin 64) :
    (RefRun.E (F := Ideal) m c (Proc.devRef .tc main_v420)) (ix2 i l)
      = Scalar.select (α := EReal) (IntOp.andi ((RefRun.E (F := Ideal) m c (Proc.devRef .tc main_v394)) (ix1 i)) (IntOp.cmpi .sge ((RefRun.E (F := Ideal) m c (Proc.devRef .tc main_v16)) (ix1 (Cert.LibGcnAgg.clampNode 589824 (by decide) ((RefRun.E (F := Ideal) m c (Proc.devRef .tc main_v404)) (ix1 i))))) 0#32))
          ((RefRun.E (F := Ideal) m c (Proc.devRef .tc main_v7)) (ix2 (Cert.LibGcnAgg.clampNode 200000 (by decide) (Cert.TapMath.normed 200000#32 (IntOp.maxsi ((RefRun.E (F := Ideal) m c (Proc.devRef .tc main_v16)) (ix1 (Cert.LibGcnAgg.clampNode 589824 (by decide) ((RefRun.E (F := Ideal) m c (Proc.devRef .tc main_v404)) (ix1 i))))) 0#32))) l))
          0 := by
  rw [rd_main_v420, rd_main_call29_v2, rd_main_call29_v1, rd_main_call29_v0, rd_main_cst_165, rd_main_v419, rd_main_v418, rd_main_v417, rd_main_v416, rd_main_v415, rd_main_c_164, rd_main_v414, rd_main_v413, rd_main_c_163, rd_main_v412, rd_main_v411, rd_main_c_162, rd_main_v410, rd_main_v409, rd_main_v408, rd_main_v407, rd_main_c_161, rd_main_v406, rd_main_v405]
  exact tap_expr _ _ _ _ _ _ _ _ _ rfl _ rfl i l

end Cert.ReferenceIdeal.RefIdx

end
-- ==== Proof.RefTaps.lean ====
/-
  The nine taps of the reference, by tap number.

  Tap `k` keeps site `i` when its neighbour cell lies in the grid (`inbRv … k`) and the index table (main_v16) holds a
  row number at that cell's linear index (`linRv … k`); its result `wv … k` holds the kept neighbour's row of the first
  stage's output (main_v7) and zero elsewhere. The three families (the END contents of the taps' buffers, chosen by the tap's number)
  are defined with the taps' buffers.
-/
import proofs.«125710_j13511967113615_2_alg».proof.Proof.RefTapsTable
import proofs.«125710_j13511967113615_2_alg».proof.Proof.RefFam

noncomputable section

namespace Cert.ReferenceIdeal.RefIdx

open Cert.ReferenceIdeal Cert.ReferenceIdeal.Gen Idealize.ShloMosaic Idealize.ShloMosaic.ValueIdx

/-- Tap `k`'s in-grid mask (the buffer). -/
def inbR : Fin 9 → Ref sig .tc
  | 0 => main_v34 | 1 => main_v79 | 2 => main_v124 | 3 => main_v169 | 4 => main_v214
  | 5 => main_v259 | 6 => main_v304 | 7 => main_v349 | 8 => main_v394

/-- Tap `k`'s linear cell index, normalised, before it is made a one-column array (the buffer). -/
def linR : Fin 9 → Ref sig .tc
  | 0 => main_v44 | 1 => main_v89 | 2 => main_v134 | 3 => main_v179 | 4 => main_v224
  | 5 => main_v269 | 6 => main_v314 | 7 => main_v359 | 8 => main_v404

/-- Tap `k`'s result (the buffer). -/
def wbuf : Fin 9 → Ref sig .tc
  | 0 => main_v60 | 1 => main_v105 | 2 => main_v150 | 3 => main_v195 | 4 => main_v240
  | 5 => main_v285 | 6 => main_v330 | 7 => main_v375 | 8 => main_v420

-- nine cases, each the tap's own equation up to unfolding the families at a literal tap number
set_option maxHeartbeats 4000000 in
theorem w_apply (m : (ℓ : Loc nD τ sig) → Buf (Elt Ideal) ℓ) (c : Dev nD) (k : Fin 9) (i : Fin 200000) (l : Fin 64) :
    wv m c k (ix2 i l)
      = Scalar.select (α := EReal) (IntOp.andi (inbRv m c k (ix1 i)) (IntOp.cmpi .sge (RefRun.E (F := Ideal) m c (Proc.devRef .tc main_v16) (ix1 (Cert.LibGcnAgg.clampNode 589824 (by decide) (linRv m c k (ix1 i))))) 0#32))
          (RefRun.E (F := Ideal) m c (Proc.devRef .tc main_v7) (ix2 (Cert.LibGcnAgg.clampNode 200000 (by decide) (Cert.TapMath.normed 200000#32 (IntOp.maxsi (RefRun.E (F := Ideal) m c (Proc.devRef .tc main_v16) (ix1 (Cert.LibGcnAgg.clampNode 589824 (by decide) (linRv m c k (ix1 i))))) 0#32))) l))
          0 :=
  by
  match k with
  | 0 => exact w_tap0 m c i l
  | 1 => exact w_tap1 m c i l
  | 2 => exact w_tap2 m c i l
  | 3 => exact w_tap3 m c i l
  | 4 => exact w_tap4 m c i l
  | 5 => exact w_tap5 m c i l
  | 6 => exact w_tap6 m c i l
  | 7 => exact w_tap7 m c i l
  | 8 => exact w_tap8 m c i l

end Cert.ReferenceIdeal.RefIdx

end
-- ==== Proof.TableRel.lean ====
/-
  The two programs' neighbour tables, cell by cell.

  Each program scatters the row numbers 0 … N−1, overwriting, at the cells the coordinates name — the kernel's into a
  table of N's, the reference's into a table of −1's. Given that the two scatters are handed the same cells, every cell
  holds the same row number in both tables, or N in the kernel's and −1 in the reference's.
-/
import proofs.«125710_j13511967113615_2_alg».proof.Proof.GlueRead
import proofs.«125710_j13511967113615_2_alg».proof.Proof.RefRead0
import proofs.«125710_j13511967113615_2_alg».proof.Proof.TapMath

noncomputable section

namespace Cert.Proof.TableRel

open Idealize.ShloMosaic Idealize.ShloMosaic.TcCoe Cert.TapMath

variable {F : FTy → Type} [FloatOps F]

theorem table_rel
    (mK : (ℓ : Loc Cert.KernelIdeal.nD Cert.KernelIdeal.τ Cert.KernelIdeal.sig) → Buf (Elt F) ℓ)
    (outs : Cert.KernelIdeal.GenP.Outs (F := F)) (c : Dev Cert.KernelIdeal.nD)
    (mR : (ℓ : Loc Cert.ReferenceIdeal.nD Cert.ReferenceIdeal.τ Cert.ReferenceIdeal.sig) → Buf (Elt F) ℓ)
    (hidx : Cert.KernelIdeal.GenP.V61 mK outs c (Proc.devRef .tc Cert.KernelIdeal.main_v14)
      = Cert.ReferenceIdeal.RefRun.E mR c (Proc.devRef .tc Cert.ReferenceIdeal.main_v15))
    (p : (⟨1, ![589824]⟩ : Shape).Idx) :
    (Cert.KernelIdeal.GenP.V61 mK outs c (Proc.devRef .tc Cert.KernelIdeal.main_v15) p
        = Cert.ReferenceIdeal.RefRun.E mR c (Proc.devRef .tc Cert.ReferenceIdeal.main_v16) p
      ∧ IsRow (Cert.KernelIdeal.GenP.V61 mK outs c (Proc.devRef .tc Cert.KernelIdeal.main_v15) p))
    ∨ (Cert.KernelIdeal.GenP.V61 mK outs c (Proc.devRef .tc Cert.KernelIdeal.main_v15) p = 200000#32
      ∧ Cert.ReferenceIdeal.RefRun.E mR c (Proc.devRef .tc Cert.ReferenceIdeal.main_v16) p = 4294967295#32) := by
  rw [Cert.KernelIdeal.Glue.rd_main_v15, Cert.KernelIdeal.Glue.rd_main_v7, Cert.KernelIdeal.Glue.rd_main_c,
    Cert.KernelIdeal.Glue.rd_main_v8, Cert.ReferenceIdeal.RefRead.rd_main_v16, Cert.ReferenceIdeal.RefRead.rd_main_v8,
    Cert.ReferenceIdeal.RefRead.rd_main_c, Cert.ReferenceIdeal.RefRead.rd_main_v9, hidx]
  exact tables_rel _ _ _ _ (fun _ => rfl) (fun _ => rfl) p

end Cert.Proof.TableRel
end
-- ==== Proof.Crux.lean ====
/-
  One tap's gathered rows are the same in the two programs.

  For tap k, site i and channel l the kernel reads column 64·k + l of its gathered array, which is row
  clamp (norm idx) of the padded first-stage rows, idx being the neighbour's row number when the neighbour cell is in the
  grid and the table has a row there, and otherwise the pad. The reference reads the neighbour's row of the first-stage
  rows when the cell is in the grid and its table has a row there, and otherwise zero. The in-grid bit and the cell are
  the same arrays in both programs; the two tables hold the same row or the two fills; the first-stage rows agree.
-/
import proofs.«125710_j13511967113615_2_alg».proof.Proof.GlueIdx
import proofs.«125710_j13511967113615_2_alg».proof.Proof.GlueSameTaps
import proofs.«125710_j13511967113615_2_alg».proof.Proof.RefTaps
import proofs.«125710_j13511967113615_2_alg».proof.Proof.TableRel
import proofs.«125710_j13511967113615_2_alg».proof.Proof.TapArray

noncomputable section

namespace Cert.Proof.Crux

open Idealize.ShloMosaic Idealize.ShloMosaic.TcCoe Idealize.ShloMosaic.ValueIdx
open Cert.TapArray

variable (mK : (ℓ : Loc Cert.KernelIdeal.nD Cert.KernelIdeal.τ Cert.KernelIdeal.sig) → Buf (Elt Ideal) ℓ)
  (outs : Cert.KernelIdeal.GenP.Outs (F := Ideal)) (c : Dev Cert.KernelIdeal.nD)
  (mR : (ℓ : Loc Cert.ReferenceIdeal.nD Cert.ReferenceIdeal.τ Cert.ReferenceIdeal.sig) → Buf (Elt Ideal) ℓ)
  (h1 : mR ((c : Thread Cert.ReferenceIdeal.nD Cert.ReferenceIdeal.τ).loc Cert.ReferenceIdeal.main_arg1)
    = mK ((c : Thread Cert.KernelIdeal.nD Cert.KernelIdeal.τ).loc Cert.KernelIdeal.main_arg1))

/-- The reference's in-grid masks, named from either program's side, are the same nine arrays. -/
theorem inbRv_eq : Cert.KernelIdeal.Glue.inbRv mR c = Cert.ReferenceIdeal.RefIdx.inbRv mR c := by
  funext k
  match k with
  | 0 => rfl | 1 => rfl | 2 => rfl | 3 => rfl | 4 => rfl | 5 => rfl | 6 => rfl | 7 => rfl | 8 => rfl

/-- The reference's neighbour cells likewise. -/
theorem linRv_eq : Cert.KernelIdeal.Glue.linRv mR c = Cert.ReferenceIdeal.RefIdx.linRv mR c := by
  funext k
  match k with
  | 0 => rfl | 1 => rfl | 2 => rfl | 3 => rfl | 4 => rfl | 5 => rfl | 6 => rfl | 7 => rfl | 8 => rfl

include h1 in
/-- THE TAPS AGREE. Given that the first-stage rows agree, the kernel's gathered column 64·k + l at site i is the
    reference's tap-k row at (i, l). -/
theorem tap_rows_eq
    (hrows : ∀ (n : Fin 200000) (l : Fin 64),
      Cert.KernelIdeal.GenP.V61 mK outs c (Proc.devRef .tc Cert.KernelIdeal.main_v6) (ix2 n l)
        = Cert.ReferenceIdeal.RefRun.E mR c (Proc.devRef .tc Cert.ReferenceIdeal.main_v7) (ix2 n l))
    (k : Fin 9) (i : Fin 200000) (l : Fin 64) :
    Cert.KernelIdeal.GenP.V61 mK outs c (Proc.devRef .tc Cert.KernelIdeal.main_v316)
        (ix2 i (⟨64 * k.val + l.val, by omega⟩ : Fin 576))
      = Cert.ReferenceIdeal.RefIdx.wv mR c k (ix2 i l) := by
  rw [Cert.KernelIdeal.Glue.v316_apply, Cert.KernelIdeal.Glue.idx_apply, Cert.ReferenceIdeal.RefIdx.w_apply,
    Cert.KernelIdeal.Glue.same_inb mK outs c mR h1, Cert.KernelIdeal.Glue.same_lin mK outs c mR h1,
    inbRv_eq c mR, linRv_eq c mR]
  exact tap_column _ _ _
    (Cert.Proof.TableRel.table_rel mK outs c mR (Cert.KernelIdeal.Glue.same_scatIdx mK outs c mR h1) _)
    (fun n => Cert.ReferenceIdeal.RefRun.E mR c (Proc.devRef .tc Cert.ReferenceIdeal.main_v7) (ix2 n l))
    (fun n => Cert.KernelIdeal.GenP.V61 mK outs c (Proc.devRef .tc Cert.KernelIdeal.main_v19) (ix2 n l))
    (fun n => (Cert.KernelIdeal.Glue.v19_row mK outs c n l).trans (hrows n l))
    (Cert.KernelIdeal.Glue.v19_pad mK outs c l)

end Cert.Proof.Crux
end
-- ==== Proof.Bridge.lean ====
/-
  The idealized kernel program and the idealized reference end with equal results.

  Index by index both results are the block's output on the extended reals, a function of the arguments and of the nine
  taps' gathered rows. The arguments agree by hypothesis; the taps' rows agree because the two neighbour tables hold the
  same row numbers wherever either holds one, and where a tap finds no neighbour the kernel reads an appended row of
  zeros while the reference multiplies by zero. No finiteness of the inputs is used: the two sides are the same
  expression in the same order, fed equal operands.
-/
import proofs.«125710_j13511967113615_2_alg».proof.Defs
import proofs.«125710_j13511967113615_2_alg».proof.Proof.KValue1
import proofs.«125710_j13511967113615_2_alg».proof.Proof.RefIdx0
import proofs.«125710_j13511967113615_2_alg».proof.Proof.RefIdx1
import proofs.«125710_j13511967113615_2_alg».proof.Proof.Crux

noncomputable section

namespace Cert.Proof.Bridge

open Idealize.ShloMosaic Idealize.ShloMosaic.TcCoe Idealize.ShloMosaic.ValueIdx Idealize.SL.Sem
open Cert.Proof.Halves

variable [hKI : Cert.KernelIdeal.Facts] [hR : Cert.ReferenceIdeal.Facts] [hP : Cert.Pre_finite_inputs.Facts]

theorem algebraic : Cert.algebraic_KernelIdeal_ReferenceIdeal := by
  intro m ρ m' ρ' _ hagree
  refine ⟨fun c => (halfI1.dat (Cert.KernelIdeal.KRun.VV61 halfI0 m) c).arrAt 8 Cert.KernelIdeal.cfg1.N,
    Cert.KernelIdeal.KRun.run_value halfI0 halfI1 m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7, a8, a9, a10⟩ := hagree c
  funext idx
  obtain ⟨i, ch, rfl⟩ : ∃ (i : Fin 200000) (ch : Fin 256), idx = ix2 i ch := ⟨idx 0, idx 1, eq_ix2 idx⟩
  beta_reduce
  rw [Cert.ReferenceIdeal.RefIdx.ref_out, Cert.Proof.KValue.out_value, a0, a3, a4, a7, a8, a9, a10]
  refine Cert.Spec.out_congr (fun k i l => ?_) _ _ _ _ _ _ _ _ _
  refine (Cert.Proof.Crux.tap_rows_eq m (Cert.KernelIdeal.KRun.outsA halfI0 m) c m' a1 (fun n l => ?_) k i l).symm
  rw [Cert.Proof.KValue.rows_value, Cert.ReferenceIdeal.RefIdx.ref_rows1, a0, a2, a5, a6]

end Cert.Proof.Bridge
end
-- ==== Proof.lean ====
/-
  The certificate of one residual sparse-convolution block: a Pallas TPU implementation (two pallas_calls around a
  host-side neighbour look-up) against its plain jnp reference.

  Five claims. Each of the three programs — the kernel program on words, the same program idealized, the reference
  idealized — runs to the end, faults nowhere and leaves its argument arrays unchanged. The idealization rewrote nothing,
  so the idealized kernel program is the printed text read on the extended reals. And the two idealized programs, run
  from memories that agree on the arguments, end with equal results: both compute, site by site and channel by channel,
  relu (conv1x1 (relu (bn (Σ over nine taps of neighbour row · w2[tap]))) · s3 + b3 + x), the taps' neighbour rows being
  the same rows — found through a table whose empty cells hold N (and an appended row of zeros) in the kernel program,
  −1 (and a multiplication by zero) in the reference.
-/
import proofs.«125710_j13511967113615_2_alg».proof.Defs
import proofs.«125710_j13511967113615_2_alg».proof.Proof.Frames
import proofs.«125710_j13511967113615_2_alg».proof.Proof.Bridge
import proofs.«125710_j13511967113615_2_alg».proof.Proof.Gen.Kernel
import proofs.«125710_j13511967113615_2_alg».proof.Proof.Gen.KernelIdeal
import proofs.«125710_j13511967113615_2_alg».proof.Proof.Gen.ReferenceIdeal
import proofs.«125710_j13511967113615_2_alg».proof.Proof.Gen.Pre_finite_inputs

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_p, Cert.Proof.Frames.frame_pi, Cert.Proof.Frames.frame_ri, trivial,
    Cert.Proof.Bridge.algebraic⟩

end Cert.Proof

end
